-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x32x32 : Shape := ⟨4, ![64, 128, 32, 32]⟩
abbrev S64x128 : Shape := ⟨2, ![64, 128]⟩
abbrev S256x64 : Shape := ⟨2, ![256, 64]⟩
abbrev S9x64x64 : Shape := ⟨3, ![9, 64, 64]⟩
abbrev S4x1024 : Shape := ⟨2, ![4, 1024]⟩
abbrev S64 : Shape := ⟨1, ![64]⟩
abbrev S256 : Shape := ⟨1, ![256]⟩
abbrev S256x128 : Shape := ⟨2, ![256, 128]⟩
abbrev S64x256 : Shape := ⟨2, ![64, 256]⟩
abbrev S9x4096 : Shape := ⟨2, ![9, 4096]⟩
abbrev S_ : Shape := ⟨0, ![]⟩

class Facts : Prop where
  bcast_S_S64x128x32x32 : S_.BroadcastsInDim S64x128x32x32 (![] : Fin 0 → Fin S64x128x32x32.rank)
  reducesTo_S64x128x32x32_S_d0_1_2_3 : S64x128x32x32.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S256x64 : S_.BroadcastsInDim S256x64 (![] : Fin 0 → Fin S256x64.rank)
  reducesTo_S256x64_S_d0_1 : S256x64.ReducesTo [0, 1] S_
  bcast_S_S9x64x64 : S_.BroadcastsInDim S9x64x64 (![] : Fin 0 → Fin S9x64x64.rank)
  reducesTo_S9x64x64_S_d0_1_2 : S9x64x64.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S64x256 : S_.BroadcastsInDim S64x256 (![] : Fin 0 → Fin S64x256.rank)
  reducesTo_S64x256_S_d0_1 : S64x256.ReducesTo [0, 1] S_
  bcast_S_S9x4096 : S_.BroadcastsInDim S9x4096 (![] : Fin 0 → Fin S9x4096.rank)
  reducesTo_S9x4096_S_d0_1 : S9x4096.ReducesTo [0, 1] S_

variable [Facts]

def fn_part6 {F : FTy → Type} [FloatOps F] (main_arg21 : FVec F S64 .f32) (main_arg22 : FVec F S256 .f32) (main_arg23 : FVec F S256 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  main_v118

def fn_part5 {F : FTy → Type} [FloatOps F] (main_arg18 : FVec F S64 .f32) (main_arg19 : FVec F S64 .f32) (main_arg20 : FVec F S64 .f32) (main_arg21 : FVec F S64 .f32) (main_arg22 : FVec F S256 .f32) (main_arg23 : FVec F S256 .f32) (main_v83 : IVec S_ 1) (main_v84 : FVec F S9x4096 .f32) (main_cst_32 : FVec F S_ .f32) : IVec S_ 1 :=
  let main_v85 : FVec F S9x4096 .f32 := broadcastInDim S9x4096 ![] bcast_S_S9x4096 main_cst_32
  let main_v86 : IVec S9x4096 1 := cmpf .olt main_v84 main_v85
  let main_c_33 : IVec S_ 1 := constantI S_ 1 1#1
  let main_v87 : IVec S_ 1 := (fun x v => Host.reduce IntOp.andi x v reducesTo_S9x4096_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S64x256 .f32) (main_arg15 : FVec F S256x64 .f32) (main_arg16 : FVec F S9x64x64 .f32) (main_arg17 : FVec F S9x4096 .f32) (main_arg18 : FVec F S64 .f32) (main_arg19 : FVec F S64 .f32) (main_arg20 : FVec F S64 .f32) (main_arg21 : FVec F S64 .f32) (main_arg22 : FVec F S256 .f32) (main_arg23 : FVec F S256 .f32) (main_v63 : IVec S_ 1) (main_v67 : IVec S_ 1) : IVec S_ 1 :=
  let main_v68 : IVec S_ 1 := andi main_v63 main_v67
  let main_v69 : FVec F S64x256 .f32 := Host.absf main_arg14
  let main_cst_26 : FVec F S_ .f32 := constant S_ .f32 0x7F800000#32
  let main_v70 : FVec F S64x256 .f32 := broadcastInDim S64x256 ![] bcast_S_S64x256 main_cst_26
  let main_v71 : IVec S64x256 1 := cmpf .olt main_v69 main_v70
  let main_c_27 : IVec S_ 1 := constantI S_ 1 1#1
  let main_v72 : IVec S_ 1 := (fun x v => Host.reduce IntOp.andi x v reducesTo_S64x256_S_d0_1 h_S_) main_v71 main_c_27
  let main_v73 : IVec S_ 1 := andi main_v68 main_v72
  let main_v74 : FVec F S256x64 .f32 := Host.absf main_arg15
  let main_cst_28 : FVec F S_ .f32 := constant S_ .f32 0x7F800000#32
  let main_v75 : FVec F S256x64 .f32 := broadcastInDim S256x64 ![] bcast_S_S256x64 main_cst_28
  let main_v76 : IVec S256x64 1 := cmpf .olt main_v74 main_v75
  let main_c_29 : IVec S_ 1 := constantI S_ 1 1#1
  let main_v77 : IVec S_ 1 := (fun x v => Host.reduce IntOp.andi x v reducesTo_S256x64_S_d0_1 h_S_) main_v76 main_c_29
  let main_v78 : IVec S_ 1 := andi main_v73 main_v77
  let main_v79 : FVec F S9x64x64 .f32 := Host.absf main_arg16
  let main_cst_30 : FVec F S_ .f32 := constant S_ .f32 0x7F800000#32
  let main_v80 : FVec F S9x64x64 .f32 := broadcastInDim S9x64x64 ![] bcast_S_S9x64x64 main_cst_30
  let main_v81 : IVec S9x64x64 1 := cmpf .olt main_v79 main_v80
  let main_c_31 : IVec S_ 1 := constantI S_ 1 1#1
  let main_v82 : IVec S_ 1 := (fun x v => Host.reduce IntOp.andi x v reducesTo_S9x64x64_S_d0_1_2 h_S_) main_v81 main_c_31
  let main_v83 : IVec S_ 1 := andi main_v78 main_v82
  let main_v84 : FVec F S9x4096 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S256x128 .f32) (main_arg12 : FVec F S256 .f32) (main_arg13 : FVec F S256 .f32) (main_arg14 : FVec F S64x256 .f32) (main_arg15 : FVec F S256x64 .f32) (main_arg16 : FVec F S9x64x64 .f32) (main_arg17 : FVec F S9x4096 .f32) (main_arg18 : FVec F S64 .f32) (main_arg19 : FVec F S64 .f32) (main_arg20 : FVec F S64 .f32) (main_arg21 : FVec F S64 .f32) (main_arg22 : FVec F S256 .f32) (main_arg23 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S64 .f32) (main_arg8 : FVec F S64 .f32) (main_arg9 : FVec F S256 .f32) (main_arg10 : FVec F S256 .f32) (main_arg11 : FVec F S256x128 .f32) (main_arg12 : FVec F S256 .f32) (main_arg13 : FVec F S256 .f32) (main_arg14 : FVec F S64x256 .f32) (main_arg15 : FVec F S256x64 .f32) (main_arg16 : FVec F S9x64x64 .f32) (main_arg17 : FVec F S9x4096 .f32) (main_arg18 : FVec F S64 .f32) (main_arg19 : FVec F S64 .f32) (main_arg20 : FVec F S64 .f32) (main_arg21 : FVec F S64 .f32) (main_arg22 : FVec F S256 .f32) (main_arg23 : FVec F S256 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S4x1024 .f32) (main_arg5 : FVec F S64 .f32) (main_arg6 : FVec F S64 .f32) (main_arg7 : FVec F S64 .f32) (main_arg8 : FVec F S64 .f32) (main_arg9 : FVec F S256 .f32) (main_arg10 : FVec F S256 .f32) (main_arg11 : FVec F S256x128 .f32) (main_arg12 : FVec F S256 .f32) (main_arg13 : FVec F S256 .f32) (main_arg14 : FVec F S64x256 .f32) (main_arg15 : FVec F S256x64 .f32) (main_arg16 : FVec F S9x64x64 .f32) (main_arg17 : FVec F S9x4096 .f32) (main_arg18 : FVec F S64 .f32) (main_arg19 : FVec F S64 .f32) (main_arg20 : FVec F S64 .f32) (main_arg21 : FVec F S64 .f32) (main_arg22 : FVec F S256 .f32) (main_arg23 : FVec F S256 .f32) (main_v13 : IVec S_ 1) (main_v16 : IVec S9x64x64 1) : IVec S_ 1 :=
  let main_c_5 : IVec S_ 1 := constantI S_ 1 1#1
  let main_v17 : IVec S_ 1 := (fun x v => Host.reduce IntOp.andi x v reducesTo_S9x64x64_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S64x128x32x32 .f32) (main_arg1 : FVec F S64x128 .f32) (main_arg2 : FVec F S256x64 .f32) (main_arg3 : FVec F S9x64x64 .f32) (main_arg4 : FVec F S4x1024 .f32) (main_arg5 : FVec F S64 .f32) (main_arg6 : FVec F S64 .f32) (main_arg7 : FVec F S64 .f32) (main_arg8 : FVec F S64 .f32) (main_arg9 : FVec F S256 .f32) (main_arg10 : FVec F S256 .f32) (main_arg11 : FVec F S256x128 .f32) (main_arg12 : FVec F S256 .f32) (main_arg13 : FVec F S256 .f32) (main_arg14 : FVec F S64x256 .f32) (main_arg15 : FVec F S256x64 .f32) (main_arg16 : FVec F S9x64x64 .f32) (main_arg17 : FVec F S9x4096 .f32) (main_arg18 : FVec F S64 .f32) (main_arg19 : FVec F S64 .f32) (main_arg20 : FVec F S64 .f32) (main_arg21 : FVec F S64 .f32) (main_arg22 : FVec F S256 .f32) (main_arg23 : FVec F S256 .f32) : IVec S_ 1 :=
  let main_v0 : FVec F S64x128x32x32 .f32 := Host.absf main_arg0
  let main_cst : FVec F S_ .f32 := constant S_ .f32 0x7F800000#32
  let main_v1 : FVec F S64x128x32x32 .f32 := broadcastInDim S64x128x32x32 ![] bcast_S_S64x128x32x32 main_cst
  let main_v2 : IVec S64x128x32x32 1 := cmpf .olt main_v0 main_v1
  let main_c : IVec S_ 1 := constantI S_ 1 1#1
  let main_v3 : IVec S_ 1 := (fun x v => Host.reduce IntOp.andi x v reducesTo_S64x128x32x32_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S9x64x64 .f32 := Host.absf main_arg3
  let main_cst_4 : FVec F S_ .f32 := constant S_ .f32 0x7F800000#32
  let main_v15 : FVec F S9x64x64 .f32 := broadcastInDim S9x64x64 ![] bcast_S_S9x64x64 main_cst_4
  let main_v16 : IVec S9x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S64x128x32x32 : Shape := ⟨4, ![64, 128, 32, 32]⟩
abbrev S64x128 : Shape := ⟨2, ![64, 128]⟩
abbrev S256x64 : Shape := ⟨2, ![256, 64]⟩
abbrev S9x64x64 : Shape := ⟨3, ![9, 64, 64]⟩
abbrev S4x1024 : Shape := ⟨2, ![4, 1024]⟩
abbrev S64 : Shape := ⟨1, ![64]⟩
abbrev S256 : Shape := ⟨1, ![256]⟩
abbrev S256x128 : Shape := ⟨2, ![256, 128]⟩
abbrev S64x256 : Shape := ⟨2, ![64, 256]⟩
abbrev S9x4096 : Shape := ⟨2, ![9, 4096]⟩
abbrev S64x128x1024 : Shape := ⟨3, ![64, 128, 1024]⟩
abbrev S320x128 : Shape := ⟨2, ![320, 128]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S64x9x64 : Shape := ⟨3, ![64, 9, 64]⟩
abbrev S64x576 : Shape := ⟨2, ![64, 576]⟩
abbrev S64x64x1024 : Shape := ⟨3, ![64, 64, 1024]⟩
abbrev S64x256x1024 : Shape := ⟨3, ![64, 256, 1024]⟩
abbrev S64x320x1 : Shape := ⟨3, ![64, 320, 1]⟩
abbrev S1x128x1024 : Shape := ⟨3, ![1, 128, 1024]⟩
abbrev S1x64x1024 : Shape := ⟨3, ![1, 64, 1024]⟩
abbrev S1x256x1024 : Shape := ⟨3, ![1, 256, 1024]⟩
abbrev S1x320x1 : Shape := ⟨3, ![1, 320, 1]⟩
abbrev S128x1024 : Shape := ⟨2, ![128, 1024]⟩
abbrev S320x1024 : Shape := ⟨2, ![320, 1024]⟩
abbrev S64x1024 : Shape := ⟨2, ![64, 1024]⟩
abbrev S256x1024 : Shape := ⟨2, ![256, 1024]⟩
abbrev S320 : Shape := ⟨1, ![320]⟩
abbrev S320x1 : Shape := ⟨2, ![320, 1]⟩
abbrev S64x1 : Shape := ⟨2, ![64, 1]⟩
abbrev S256x1 : Shape := ⟨2, ![256, 1]⟩
abbrev S64x64x1 : Shape := ⟨3, ![64, 64, 1]⟩
abbrev S1x64x1 : Shape := ⟨3, ![1, 64, 1]⟩
abbrev S64x1152 : Shape := ⟨2, ![64, 1152]⟩
abbrev S1x1024 : Shape := ⟨2, ![1, 1024]⟩
abbrev S4x64x1024 : Shape := ⟨3, ![4, 64, 1024]⟩
abbrev S64x64x64 : Shape := ⟨3, ![64, 64, 64]⟩
abbrev S64x4096 : Shape := ⟨2, ![64, 4096]⟩
abbrev S64x256x4096 : Shape := ⟨3, ![64, 256, 4096]⟩
abbrev S64x64x4096 : Shape := ⟨3, ![64, 64, 4096]⟩
abbrev S1x256x4096 : Shape := ⟨3, ![1, 256, 4096]⟩
abbrev S1x64x4096 : Shape := ⟨3, ![1, 64, 4096]⟩
abbrev S256x4096 : Shape := ⟨2, ![256, 4096]⟩
abbrev S256x3072 : Shape := ⟨2, ![256, 3072]⟩
abbrev S64x256x2x2x32x32 : Shape := ⟨6, ![64, 256, 2, 2, 32, 32]⟩
abbrev S64x256x32x2x32x2 : Shape := ⟨6, ![64, 256, 32, 2, 32, 2]⟩
abbrev S64x64x2x2x32x32 : Shape := ⟨6, ![64, 64, 2, 2, 32, 32]⟩
abbrev S64x64x32x2x32x2 : Shape := ⟨6, ![64, 64, 32, 2, 32, 2]⟩
abbrev S64x4352 : Shape := ⟨2, ![64, 4352]⟩
abbrev S1x4096 : Shape := ⟨2, ![1, 4096]⟩
abbrev S576x4096 : Shape := ⟨2, ![576, 4096]⟩
abbrev S64x256x64x64 : Shape := ⟨4, ![64, 256, 64, 64]⟩

abbrev nBuf : Space → Nat
  | .hbm => 293
  | .vmem => 82
  | .smem => 0
  | _ => 0

abbrev hbmTy0_0 (i : Nat) : BufTy := match i % 128 with
  | 0 => ⟨S64x128x32x32, .f32⟩
  | 1 => ⟨S64x128, .f32⟩
  | 2 => ⟨S256x64, .f32⟩
  | 3 => ⟨S9x64x64, .f32⟩
  | 4 => ⟨S4x1024, .f32⟩
  | 5 => ⟨S64, .f32⟩
  | 6 => ⟨S64, .f32⟩
  | 7 => ⟨S64, .f32⟩
  | 8 => ⟨S64, .f32⟩
  | 9 => ⟨S256, .f32⟩
  | 10 => ⟨S256, .f32⟩
  | 11 => ⟨S256x128, .f32⟩
  | 12 => ⟨S256, .f32⟩
  | 13 => ⟨S256, .f32⟩
  | 14 => ⟨S64x256, .f32⟩
  | 15 => ⟨S256x64, .f32⟩
  | 16 => ⟨S9x64x64, .f32⟩
  | 17 => ⟨S9x4096, .f32⟩
  | 18 => ⟨S64, .f32⟩
  | 19 => ⟨S64, .f32⟩
  | 20 => ⟨S64, .f32⟩
  | 21 => ⟨S64, .f32⟩
  | 22 => ⟨S256, .f32⟩
  | 23 => ⟨S256, .f32⟩
  | 24 => ⟨S64x128x1024, .f32⟩
  | 25 => ⟨S320x128, .f32⟩
  | 26 => ⟨S320x128, .bf16⟩
  | 27 => ⟨S_, .f32⟩
  | 28 => ⟨S256x256, .f32⟩
  | 29 => ⟨S1x64x64, .f32⟩
  | 30 => ⟨S64x64, .f32⟩
  | 31 => ⟨S_, .i32⟩
  | 32 => ⟨S1, .i32⟩
  | 33 => ⟨S_, .i32⟩
  | 34 => ⟨S1, .i32⟩
  | 35 => ⟨S2, .i32⟩
  | 36 => ⟨S256x256, .f32⟩
  | 37 => ⟨S1x64x64, .f32⟩
  | 38 => ⟨S64x64, .f32⟩
  | 39 => ⟨S_, .i32⟩
  | 40 => ⟨S1, .i32⟩
  | 41 => ⟨S_, .i32⟩
  | 42 => ⟨S1, .i32⟩
  | 43 => ⟨S2, .i32⟩
  | 44 => ⟨S256x256, .f32⟩
  | 45 => ⟨S1x64x64, .f32⟩
  | 46 => ⟨S64x64, .f32⟩
  | 47 => ⟨S_, .i32⟩
  | 48 => ⟨S1, .i32⟩
  | 49 => ⟨S_, .i32⟩
  | 50 => ⟨S1, .i32⟩
  | 51 => ⟨S2, .i32⟩
  | 52 => ⟨S256x256, .f32⟩
  | 53 => ⟨S1x64x64, .f32⟩
  | 54 => ⟨S64x64, .f32⟩
  | 55 => ⟨S_, .i32⟩
  | 56 => ⟨S1, .i32⟩
  | 57 => ⟨S_, .i32⟩
  | 58 => ⟨S1, .i32⟩
  | 59 => ⟨S2, .i32⟩
  | 60 => ⟨S256x256, .f32⟩
  | 61 => ⟨S1x64x64, .f32⟩
  | 62 => ⟨S64x64, .f32⟩
  | 63 => ⟨S_, .i32⟩
  | 64 => ⟨S1, .i32⟩
  | 65 => ⟨S_, .i32⟩
  | 66 => ⟨S1, .i32⟩
  | 67 => ⟨S2, .i32⟩
  | 68 => ⟨S256x256, .f32⟩
  | 69 => ⟨S1x64x64, .f32⟩
  | 70 => ⟨S64x64, .f32⟩
  | 71 => ⟨S_, .i32⟩
  | 72 => ⟨S1, .i32⟩
  | 73 => ⟨S_, .i32⟩
  | 74 => ⟨S1, .i32⟩
  | 75 => ⟨S2, .i32⟩
  | 76 => ⟨S256x256, .f32⟩
  | 77 => ⟨S1x64x64, .f32⟩
  | 78 => ⟨S64x64, .f32⟩
  | 79 => ⟨S_, .i32⟩
  | 80 => ⟨S1, .i32⟩
  | 81 => ⟨S_, .i32⟩
  | 82 => ⟨S1, .i32⟩
  | 83 => ⟨S2, .i32⟩
  | 84 => ⟨S256x256, .f32⟩
  | 85 => ⟨S1x64x64, .f32⟩
  | 86 => ⟨S64x64, .f32⟩
  | 87 => ⟨S_, .i32⟩
  | 88 => ⟨S1, .i32⟩
  | 89 => ⟨S_, .i32⟩
  | 90 => ⟨S1, .i32⟩
  | 91 => ⟨S2, .i32⟩
  | 92 => ⟨S256x256, .f32⟩
  | 93 => ⟨S1x64x64, .f32⟩
  | 94 => ⟨S64x64, .f32⟩
  | 95 => ⟨S_, .i32⟩
  | 96 => ⟨S1, .i32⟩
  | 97 => ⟨S_, .i32⟩
  | 98 => ⟨S1, .i32⟩
  | 99 => ⟨S2, .i32⟩
  | 100 => ⟨S256x256, .f32⟩
  | 101 => ⟨S256x256, .bf16⟩
  | 102 => ⟨S256x64, .bf16⟩
  | 103 => ⟨S64x256, .bf16⟩
  | 104 => ⟨S64x9x64, .f32⟩
  | 105 => ⟨S64x576, .f32⟩
  | 106 => ⟨S64x576, .bf16⟩
  | 107 => ⟨S256x64, .bf16⟩
  | 108 => ⟨S64x64x1024, .bf16⟩
  | 109 => ⟨S64x256x1024, .bf16⟩
  | 110 => ⟨S64x320x1, .f32⟩
  | 111 => ⟨S64x320x1, .f32⟩
  | 112 => ⟨S_, .f32⟩
  | 113 => ⟨S320x1, .f32⟩
  | 114 => ⟨S_, .f32⟩
  | 115 => ⟨S320x1, .f32⟩
  | 116 => ⟨S64x1, .f32⟩
  | 117 => ⟨S64x1, .f32⟩
  | 118 => ⟨S_, .f32⟩
  | 119 => ⟨S64x1, .f32⟩
  | 120 => ⟨S64x1, .f32⟩
  | 121 => ⟨S_, .f32⟩
  | 122 => ⟨S64x1, .f32⟩
  | 123 => ⟨S64x1, .f32⟩
  | 124 => ⟨S64x1, .f32⟩
  | 125 => ⟨S64x1, .f32⟩
  | 126 => ⟨S_, .f32⟩
  | 127 => ⟨S64x1, .f32⟩
  | _ => ⟨S64x128x32x32, .f32⟩

abbrev hbmTy0_1 (i : Nat) : BufTy := match i % 128 with
  | 0 => ⟨S64x1, .f32⟩
  | 1 => ⟨S64x1, .f32⟩
  | 2 => ⟨S64x1, .f32⟩
  | 3 => ⟨S64x1, .f32⟩
  | 4 => ⟨S64x1, .f32⟩
  | 5 => ⟨S64x1, .f32⟩
  | 6 => ⟨S64x1, .f32⟩
  | 7 => ⟨S256x1, .f32⟩
  | 8 => ⟨S256x1, .f32⟩
  | 9 => ⟨S_, .f32⟩
  | 10 => ⟨S256x1, .f32⟩
  | 11 => ⟨S256x1, .f32⟩
  | 12 => ⟨S_, .f32⟩
  | 13 => ⟨S256x1, .f32⟩
  | 14 => ⟨S256x1, .f32⟩
  | 15 => ⟨S256x1, .f32⟩
  | 16 => ⟨S256x1, .f32⟩
  | 17 => ⟨S_, .f32⟩
  | 18 => ⟨S256x1, .f32⟩
  | 19 => ⟨S256x1, .f32⟩
  | 20 => ⟨S256x1, .f32⟩
  | 21 => ⟨S256x1, .f32⟩
  | 22 => ⟨S256x1, .f32⟩
  | 23 => ⟨S256x1, .f32⟩
  | 24 => ⟨S256x1, .f32⟩
  | 25 => ⟨S256x1, .f32⟩
  | 26 => ⟨S64x256x1024, .bf16⟩
  | 27 => ⟨S64x64x1, .f32⟩
  | 28 => ⟨S64x64x1, .f32⟩
  | 29 => ⟨S_, .f32⟩
  | 30 => ⟨S64x1, .f32⟩
  | 31 => ⟨S_, .f32⟩
  | 32 => ⟨S64x1, .f32⟩
  | 33 => ⟨S_, .f32⟩
  | 34 => ⟨S64x1, .f32⟩
  | 35 => ⟨S64x1, .f32⟩
  | 36 => ⟨S_, .f32⟩
  | 37 => ⟨S64x1, .f32⟩
  | 38 => ⟨S64x1, .f32⟩
  | 39 => ⟨S64x1, .f32⟩
  | 40 => ⟨S64x1, .f32⟩
  | 41 => ⟨S_, .f32⟩
  | 42 => ⟨S64x1, .f32⟩
  | 43 => ⟨S64x1, .f32⟩
  | 44 => ⟨S64x1, .f32⟩
  | 45 => ⟨S64x1, .f32⟩
  | 46 => ⟨S64x1, .f32⟩
  | 47 => ⟨S64x1, .f32⟩
  | 48 => ⟨S64x1, .f32⟩
  | 49 => ⟨S64x1, .f32⟩
  | 50 => ⟨S64x64x64, .f32⟩
  | 51 => ⟨S64x64x1, .f32⟩
  | 52 => ⟨S_, .f32⟩
  | 53 => ⟨S64x64, .f32⟩
  | 54 => ⟨S_, .f32⟩
  | 55 => ⟨S64x1, .f32⟩
  | 56 => ⟨S256x1, .f32⟩
  | 57 => ⟨S256x64, .f32⟩
  | 58 => ⟨S256x64, .f32⟩
  | 59 => ⟨S_, .f32⟩
  | 60 => ⟨S256, .f32⟩
  | 61 => ⟨S256x1, .f32⟩
  | 62 => ⟨S_, .f32⟩
  | 63 => ⟨S256x1, .f32⟩
  | 64 => ⟨S256x1, .f32⟩
  | 65 => ⟨S_, .f32⟩
  | 66 => ⟨S256x1, .f32⟩
  | 67 => ⟨S256x1, .f32⟩
  | 68 => ⟨S256x1, .f32⟩
  | 69 => ⟨S256x1, .f32⟩
  | 70 => ⟨S_, .f32⟩
  | 71 => ⟨S256x1, .f32⟩
  | 72 => ⟨S256x1, .f32⟩
  | 73 => ⟨S256x1, .f32⟩
  | 74 => ⟨S256x1, .f32⟩
  | 75 => ⟨S256x1, .f32⟩
  | 76 => ⟨S256x1, .f32⟩
  | 77 => ⟨S256x1, .f32⟩
  | 78 => ⟨S256x1, .f32⟩
  | 79 => ⟨S64x256x4096, .f32⟩
  | 80 => ⟨S64x64x4096, .bf16⟩
  | 81 => ⟨S64x64x1, .f32⟩
  | 82 => ⟨S64x64x1, .f32⟩
  | 83 => ⟨S_, .f32⟩
  | 84 => ⟨S64x1, .f32⟩
  | 85 => ⟨S_, .f32⟩
  | 86 => ⟨S64x1, .f32⟩
  | 87 => ⟨S_, .f32⟩
  | 88 => ⟨S64x1, .f32⟩
  | 89 => ⟨S64x1, .f32⟩
  | 90 => ⟨S_, .f32⟩
  | 91 => ⟨S64x1, .f32⟩
  | 92 => ⟨S64x1, .f32⟩
  | 93 => ⟨S64x1, .f32⟩
  | 94 => ⟨S64x1, .f32⟩
  | 95 => ⟨S_, .f32⟩
  | 96 => ⟨S64x1, .f32⟩
  | 97 => ⟨S64x1, .f32⟩
  | 98 => ⟨S64x1, .f32⟩
  | 99 => ⟨S64x1, .f32⟩
  | 100 => ⟨S64x1, .f32⟩
  | 101 => ⟨S64x1, .f32⟩
  | 102 => ⟨S64x1, .f32⟩
  | 103 => ⟨S64x1, .f32⟩
  | 104 => ⟨S64x256x2x2x32x32, .f32⟩
  | 105 => ⟨S64x256x32x2x32x2, .f32⟩
  | 106 => ⟨S64x256x4096, .f32⟩
  | 107 => ⟨S64x64x2x2x32x32, .bf16⟩
  | 108 => ⟨S64x64x32x2x32x2, .bf16⟩
  | 109 => ⟨S64x64x4096, .bf16⟩
  | 110 => ⟨S64x64x4096, .bf16⟩
  | 111 => ⟨S64x64x1, .f32⟩
  | 112 => ⟨S64x64x1, .f32⟩
  | 113 => ⟨S_, .f32⟩
  | 114 => ⟨S64x1, .f32⟩
  | 115 => ⟨S_, .f32⟩
  | 116 => ⟨S64x1, .f32⟩
  | 117 => ⟨S_, .f32⟩
  | 118 => ⟨S64x1, .f32⟩
  | 119 => ⟨S64x1, .f32⟩
  | 120 => ⟨S_, .f32⟩
  | 121 => ⟨S64x1, .f32⟩
  | 122 => ⟨S64x1, .f32⟩
  | 123 => ⟨S64x1, .f32⟩
  | 124 => ⟨S64x1, .f32⟩
  | 125 => ⟨S_, .f32⟩
  | 126 => ⟨S64x1, .f32⟩
  | 127 => ⟨S64x1, .f32⟩
  | _ => ⟨S64x128x32x32, .f32⟩

abbrev hbmTy0_2 (i : Nat) : BufTy := match i % 128 with
  | 0 => ⟨S64x1, .f32⟩
  | 1 => ⟨S64x1, .f32⟩
  | 2 => ⟨S64x1, .f32⟩
  | 3 => ⟨S64x1, .f32⟩
  | 4 => ⟨S64x1, .f32⟩
  | 5 => ⟨S64x1, .f32⟩
  | 6 => ⟨S64x64x64, .f32⟩
  | 7 => ⟨S64x64x1, .f32⟩
  | 8 => ⟨S_, .f32⟩
  | 9 => ⟨S64x64, .f32⟩
  | 10 => ⟨S_, .f32⟩
  | 11 => ⟨S64x1, .f32⟩
  | 12 => ⟨S256x1, .f32⟩
  | 13 => ⟨S256x64, .f32⟩
  | 14 => ⟨S256x64, .f32⟩
  | 15 => ⟨S_, .f32⟩
  | 16 => ⟨S256, .f32⟩
  | 17 => ⟨S256x1, .f32⟩
  | 18 => ⟨S_, .f32⟩
  | 19 => ⟨S256x1, .f32⟩
  | 20 => ⟨S256x1, .f32⟩
  | 21 => ⟨S_, .f32⟩
  | 22 => ⟨S256x1, .f32⟩
  | 23 => ⟨S256x1, .f32⟩
  | 24 => ⟨S256x1, .f32⟩
  | 25 => ⟨S256x1, .f32⟩
  | 26 => ⟨S_, .f32⟩
  | 27 => ⟨S256x1, .f32⟩
  | 28 => ⟨S256x1, .f32⟩
  | 29 => ⟨S256x1, .f32⟩
  | 30 => ⟨S256x1, .f32⟩
  | 31 => ⟨S256x1, .f32⟩
  | 32 => ⟨S256x1, .f32⟩
  | 33 => ⟨S256x1, .f32⟩
  | 34 => ⟨S256x1, .f32⟩
  | 35 => ⟨S64x256x4096, .f32⟩
  | 36 => ⟨S64x256x64x64, .f32⟩
  | _ => ⟨S64x128x32x32, .f32⟩

abbrev hbmTy (i : Nat) : BufTy := match i / 128 with
  | 0 => hbmTy0_0 i
  | 1 => hbmTy0_1 i
  | 2 => hbmTy0_2 i
  | _ => ⟨S64x128x32x32, .f32⟩

abbrev bufTy : (tb : Table) → Fin (tcTables nBuf tb) → BufTy
  | .hbm, ⟨i, _⟩ => hbmTy i
  | .local _ .vmem, ⟨0, _⟩ => ⟨S1x128x1024, .f32⟩
  | .local _ .vmem, ⟨1, _⟩ => ⟨S1x128x1024, .f32⟩
  | .local _ .vmem, ⟨2, _⟩ => ⟨S320x128, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x320x1, .f32⟩
  | .local _ .vmem, ⟨8, _⟩ => ⟨S1x320x1, .f32⟩
  | .local _ .vmem, ⟨9, _⟩ => ⟨S1x320x1, .f32⟩
  | .local _ .vmem, ⟨10, _⟩ => ⟨S1x320x1, .f32⟩
  | .local _ .vmem, ⟨11, _⟩ => ⟨S1x64x1024, .bf16⟩
  | .local _ .vmem, ⟨12, _⟩ => ⟨S1x64x1024, .bf16⟩
  | .local _ .vmem, ⟨13, _⟩ => ⟨S64x1, .f32⟩
  | .local _ .vmem, ⟨14, _⟩ => ⟨S64x1, .f32⟩
  | .local _ .vmem, ⟨15, _⟩ => ⟨S256x256, .bf16⟩
  | .local _ .vmem, ⟨16, _⟩ => ⟨S4x1024, .f32⟩
  | .local _ .vmem, ⟨17, _⟩ => ⟨S1x256x1024, .bf16⟩
  | .local _ .vmem, ⟨18, _⟩ => ⟨S1x256x1024, .bf16⟩
  | .local _ .vmem, ⟨19, _⟩ => ⟨S1x64x1, .f32⟩
  | .local _ .vmem, ⟨20, _⟩ => ⟨S1x64x1, .f32⟩
  | .local _ .vmem, ⟨21, _⟩ => ⟨S1x64x1, .f32⟩
  | .local _ .vmem, ⟨22, _⟩ => ⟨S1x64x1, .f32⟩
  | .local _ .vmem, ⟨23, _⟩ => ⟨S1x256x1024, .bf16⟩
  | .local _ .vmem, ⟨24, _⟩ => ⟨S1x256x1024, .bf16⟩
  | .local _ .vmem, ⟨25, _⟩ => ⟨S64x1, .f32⟩
  | .local _ .vmem, ⟨26, _⟩ => ⟨S64x1, .f32⟩
  | .local _ .vmem, ⟨27, _⟩ => ⟨S1x64x64, .f32⟩
  | .local _ .vmem, ⟨28, _⟩ => ⟨S1x64x64, .f32⟩
  | .local _ .vmem, ⟨29, _⟩ => ⟨S1x64x1, .f32⟩
  | .local _ .vmem, ⟨30, _⟩ => ⟨S1x64x1, .f32⟩
  | .local _ .vmem, ⟨31, _⟩ => ⟨S1x256x1024, .bf16⟩
  | .local _ .vmem, ⟨32, _⟩ => ⟨S1x256x1024, .bf16⟩
  | .local _ .vmem, ⟨33, _⟩ => ⟨S1x256x1024, .bf16⟩
  | .local _ .vmem, ⟨34, _⟩ => ⟨S1x256x1024, .bf16⟩
  | .local _ .vmem, ⟨35, _⟩ => ⟨S64x1, .f32⟩
  | .local _ .vmem, ⟨36, _⟩ => ⟨S64x1, .f32⟩
  | .local _ .vmem, ⟨37, _⟩ => ⟨S256x64, .bf16⟩
  | .local _ .vmem, ⟨38, _⟩ => ⟨S256x1, .f32⟩
  | .local _ .vmem, ⟨39, _⟩ => ⟨S256x1, .f32⟩
  | .local _ .vmem, ⟨40, _⟩ => ⟨S256x1, .f32⟩
  | .local _ .vmem, ⟨41, _⟩ => ⟨S256x1, .f32⟩
  | .local _ .vmem, ⟨42, _⟩ => ⟨S64x256, .bf16⟩
  | .local _ .vmem, ⟨43, _⟩ => ⟨S1x256x4096, .f32⟩
  | .local _ .vmem, ⟨44, _⟩ => ⟨S1x256x4096, .f32⟩
  | .local _ .vmem, ⟨45, _⟩ => ⟨S1x64x4096, .bf16⟩
  | .local _ .vmem, ⟨46, _⟩ => ⟨S1x64x4096, .bf16⟩
  | .local _ .vmem, ⟨47, _⟩ => ⟨S1x64x1, .f32⟩
  | .local _ .vmem, ⟨48, _⟩ => ⟨S1x64x1, .f32⟩
  | .local _ .vmem, ⟨49, _⟩ => ⟨S1x64x1, .f32⟩
  | .local _ .vmem, ⟨50, _⟩ => ⟨S1x64x1, .f32⟩
  | .local _ .vmem, ⟨51, _⟩ => ⟨S1x64x4096, .bf16⟩
  | .local _ .vmem, ⟨52, _⟩ => ⟨S1x64x4096, .bf16⟩
  | .local _ .vmem, ⟨53, _⟩ => ⟨S64x1, .f32⟩
  | .local _ .vmem, ⟨54, _⟩ => ⟨S64x1, .f32⟩
  | .local _ .vmem, ⟨55, _⟩ => ⟨S64x576, .bf16⟩
  | .local _ .vmem, ⟨56, _⟩ => ⟨S9x4096, .f32⟩
  | .local _ .vmem, ⟨57, _⟩ => ⟨S1x64x4096, .bf16⟩
  | .local _ .vmem, ⟨58, _⟩ => ⟨S1x64x4096, .bf16⟩
  | .local _ .vmem, ⟨59, _⟩ => ⟨S1x64x1, .f32⟩
  | .local _ .vmem, ⟨60, _⟩ => ⟨S1x64x1, .f32⟩
  | .local _ .vmem, ⟨61, _⟩ => ⟨S1x64x1, .f32⟩
  | .local _ .vmem, ⟨62, _⟩ => ⟨S1x64x1, .f32⟩
  | .local _ .vmem, ⟨63, _⟩ => ⟨S1x64x4096, .bf16⟩
  | .local _ .vmem, ⟨64, _⟩ => ⟨S1x64x4096, .bf16⟩
  | .local _ .vmem, ⟨65, _⟩ => ⟨S64x1, .f32⟩
  | .local _ .vmem, ⟨66, _⟩ => ⟨S64x1, .f32⟩
  | .local _ .vmem, ⟨67, _⟩ => ⟨S1x64x64, .f32⟩
  | .local _ .vmem, ⟨68, _⟩ => ⟨S1x64x64, .f32⟩
  | .local _ .vmem, ⟨69, _⟩ => ⟨S1x64x1, .f32⟩
  | .local _ .vmem, ⟨70, _⟩ => ⟨S1x64x1, .f32⟩
  | .local _ .vmem, ⟨71, _⟩ => ⟨S1x64x4096, .bf16⟩
  | .local _ .vmem, ⟨72, _⟩ => ⟨S1x64x4096, .bf16⟩
  | .local _ .vmem, ⟨73, _⟩ => ⟨S1x256x4096, .f32⟩
  | .local _ .vmem, ⟨74, _⟩ => ⟨S1x256x4096, .f32⟩
  | .local _ .vmem, ⟨75, _⟩ => ⟨S64x1, .f32⟩
  | .local _ .vmem, ⟨76, _⟩ => ⟨S64x1, .f32⟩
  | .local _ .vmem, ⟨77, _⟩ => ⟨S256x64, .bf16⟩
  | .local _ .vmem, ⟨78, _⟩ => ⟨S256x1, .f32⟩
  | .local _ .vmem, ⟨79, _⟩ => ⟨S256x1, .f32⟩
  | .local _ .vmem, ⟨80, _⟩ => ⟨S1x256x4096, .f32⟩
  | .local _ .vmem, ⟨81, _⟩ => ⟨S1x256x4096, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_c_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_c_8 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_9 : Ref sig .tc := ⟨.hbm, 71, rfl⟩
abbrev main_v36 : Ref sig .tc := ⟨.hbm, 72, rfl⟩
abbrev main_c_10 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_11 : Ref sig .tc := ⟨.hbm, 79, rfl⟩
abbrev main_v42 : Ref sig .tc := ⟨.hbm, 80, rfl⟩
abbrev main_c_12 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_13 : Ref sig .tc := ⟨.hbm, 87, rfl⟩
abbrev main_v48 : Ref sig .tc := ⟨.hbm, 88, rfl⟩
abbrev main_c_14 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_15 : Ref sig .tc := ⟨.hbm, 95, rfl⟩
abbrev main_v54 : Ref sig .tc := ⟨.hbm, 96, rfl⟩
abbrev main_c_16 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65_0 : Ref sig .tc := ⟨.hbm, 108, rfl⟩
abbrev main_v65_1 : Ref sig .tc := ⟨.hbm, 109, rfl⟩
abbrev main_v65_2 : Ref sig .tc := ⟨.hbm, 110, rfl⟩
abbrev main_v65_3 : Ref sig .tc := ⟨.hbm, 111, rfl⟩
abbrev main_cst_17 : Ref sig .tc := ⟨.hbm, 112, rfl⟩
abbrev main_v66 : Ref sig .tc := ⟨.hbm, 113, rfl⟩
abbrev main_cst_18 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_19 : Ref sig .tc := ⟨.hbm, 118, rfl⟩
abbrev main_v70 : Ref sig .tc := ⟨.hbm, 119, rfl⟩
abbrev main_v71 : Ref sig .tc := ⟨.hbm, 120, rfl⟩
abbrev main_cst_20 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_21 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_22 : Ref sig .tc := ⟨.hbm, 137, rfl⟩
abbrev main_v86 : Ref sig .tc := ⟨.hbm, 138, rfl⟩
abbrev main_v87 : Ref sig .tc := ⟨.hbm, 139, rfl⟩
abbrev main_cst_23 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_24 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100_0 : Ref sig .tc := ⟨.hbm, 154, rfl⟩
abbrev main_v100_1 : Ref sig .tc := ⟨.hbm, 155, rfl⟩
abbrev main_v100_2 : Ref sig .tc := ⟨.hbm, 156, rfl⟩
abbrev main_cst_25 : Ref sig .tc := ⟨.hbm, 157, rfl⟩
abbrev main_v101 : Ref sig .tc := ⟨.hbm, 158, rfl⟩
abbrev main_cst_26 : Ref sig .tc := ⟨.hbm, 159, rfl⟩
abbrev main_v102 : Ref sig .tc := ⟨.hbm, 160, rfl⟩
abbrev main_cst_27 : Ref sig .tc := ⟨.hbm, 161, rfl⟩
abbrev main_v103 : Ref sig .tc := ⟨.hbm, 162, rfl⟩
abbrev main_v104 : Ref sig .tc := ⟨.hbm, 163, rfl⟩
abbrev main_cst_28 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_29 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117_0 : Ref sig .tc := ⟨.hbm, 178, rfl⟩
abbrev main_v117_1 : Ref sig .tc := ⟨.hbm, 179, rfl⟩
abbrev main_cst_30 : Ref sig .tc := ⟨.hbm, 180, rfl⟩
abbrev main_v118 : Ref sig .tc := ⟨.hbm, 181, rfl⟩
abbrev main_cst_31 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_32 : Ref sig .tc := ⟨.hbm, 187, rfl⟩
abbrev main_v123 : Ref sig .tc := ⟨.hbm, 188, rfl⟩
abbrev main_v124 : Ref sig .tc := ⟨.hbm, 189, rfl⟩
abbrev main_cst_33 : Ref sig .tc := ⟨.hbm, 190, rfl⟩
abbrev main_v125 : Ref sig .tc := ⟨.hbm, 191, rfl⟩
abbrev main_v126 : Ref sig .tc := ⟨.hbm, 192, rfl⟩
abbrev main_cst_34 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_cst_35 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139_0 : Ref sig .tc := ⟨.hbm, 207, rfl⟩
abbrev main_v139_1 : Ref sig .tc := ⟨.hbm, 208, rfl⟩
abbrev main_v139_2 : Ref sig .tc := ⟨.hbm, 209, rfl⟩
abbrev main_v139_3 : Ref sig .tc := ⟨.hbm, 210, rfl⟩
abbrev main_cst_36 : Ref sig .tc := ⟨.hbm, 211, rfl⟩
abbrev main_v140 : Ref sig .tc := ⟨.hbm, 212, rfl⟩
abbrev main_cst_37 : Ref sig .tc := ⟨.hbm, 213, rfl⟩
abbrev main_v141 : Ref sig .tc := ⟨.hbm, 214, rfl⟩
abbrev main_cst_38 : Ref sig .tc := ⟨.hbm, 215, rfl⟩
abbrev main_v142 : Ref sig .tc := ⟨.hbm, 216, rfl⟩
abbrev main_v143 : Ref sig .tc := ⟨.hbm, 217, rfl⟩
abbrev main_cst_39 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_cst_40 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162_0 : Ref sig .tc := ⟨.hbm, 238, rfl⟩
abbrev main_v162_1 : Ref sig .tc := ⟨.hbm, 239, rfl⟩
abbrev main_v162_2 : Ref sig .tc := ⟨.hbm, 240, rfl⟩
abbrev main_cst_41 : Ref sig .tc := ⟨.hbm, 241, rfl⟩
abbrev main_v163 : Ref sig .tc := ⟨.hbm, 242, rfl⟩
abbrev main_cst_42 : Ref sig .tc := ⟨.hbm, 243, rfl⟩
abbrev main_v164 : Ref sig .tc := ⟨.hbm, 244, rfl⟩
abbrev main_cst_43 : Ref sig .tc := ⟨.hbm, 245, rfl⟩
abbrev main_v165 : Ref sig .tc := ⟨.hbm, 246, rfl⟩
abbrev main_v166 : Ref sig .tc := ⟨.hbm, 247, rfl⟩
abbrev main_cst_44 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_cst_45 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179_0 : Ref sig .tc := ⟨.hbm, 262, rfl⟩
abbrev main_v179_1 : Ref sig .tc := ⟨.hbm, 263, rfl⟩
abbrev main_cst_46 : Ref sig .tc := ⟨.hbm, 264, rfl⟩
abbrev main_v180 : Ref sig .tc := ⟨.hbm, 265, rfl⟩
abbrev main_cst_47 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_cst_48 : Ref sig .tc := ⟨.hbm, 271, rfl⟩
abbrev main_v185 : Ref sig .tc := ⟨.hbm, 272, rfl⟩
abbrev main_v186 : Ref sig .tc := ⟨.hbm, 273, rfl⟩
abbrev main_cst_49 : Ref sig .tc := ⟨.hbm, 274, rfl⟩
abbrev main_v187 : Ref sig .tc := ⟨.hbm, 275, rfl⟩
abbrev main_v188 : Ref sig .tc := ⟨.hbm, 276, rfl⟩
abbrev main_cst_50 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_cst_51 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg10_0 : Ref sig .tc := ⟨.vmem, 43, rfl⟩
abbrev cc3_stg10_1 : Ref sig .tc := ⟨.vmem, 44, rfl⟩
abbrev cc3_stg11_0 : Ref sig .tc := ⟨.vmem, 45, rfl⟩
abbrev cc3_stg11_1 : Ref sig .tc := ⟨.vmem, 46, rfl⟩
abbrev cc3_stg12_0 : Ref sig .tc := ⟨.vmem, 47, rfl⟩
abbrev cc3_stg12_1 : Ref sig .tc := ⟨.vmem, 48, rfl⟩
abbrev cc3_stg13_0 : Ref sig .tc := ⟨.vmem, 49, rfl⟩
abbrev cc3_stg13_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg5_1 : Ref sig .tc := ⟨.vmem, 58, rfl⟩
abbrev cc4_stg6_0 : Ref sig .tc := ⟨.vmem, 59, rfl⟩
abbrev cc4_stg6_1 : Ref sig .tc := ⟨.vmem, 60, rfl⟩
abbrev cc4_stg7_0 : Ref sig .tc := ⟨.vmem, 61, rfl⟩
abbrev cc4_stg7_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg3_1 : Ref sig .tc := ⟨.vmem, 68, rfl⟩
abbrev cc5_stg4_0 : Ref sig .tc := ⟨.vmem, 69, rfl⟩
abbrev cc5_stg4_1 : Ref sig .tc := ⟨.vmem, 70, rfl⟩
abbrev cc6_stg0_0 : Ref sig .tc := ⟨.vmem, 71, rfl⟩
abbrev cc6_stg0_1 : Ref sig .tc := ⟨.vmem, 72, rfl⟩
abbrev cc6_stg1_0 : Ref sig .tc := ⟨.vmem, 73, rfl⟩
abbrev cc6_stg1_1 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg6_0 : Ref sig .tc := ⟨.vmem, 79, rfl⟩
abbrev cc6_stg7_0 : Ref sig .tc := ⟨.vmem, 80, rfl⟩
abbrev cc6_stg7_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem10_0 : DmaSem sig := 43
abbrev cc3_sem10_1 : DmaSem sig := 44
abbrev cc3_sem11_0 : DmaSem sig := 45
abbrev cc3_sem11_1 : DmaSem sig := 46
abbrev cc3_sem12_0 : DmaSem sig := 47
abbrev cc3_sem12_1 : DmaSem sig := 48
abbrev cc3_sem13_0 : DmaSem sig := 49
abbrev cc3_sem13_1 : DmaSem sig := 50
abbrev cc4_sem0_0 : DmaSem sig := 51
abbrev cc4_sem0_1 : DmaSem sig := 52
abbrev cc4_sem1_0 : DmaSem sig := 53
abbrev cc4_sem2_0 : DmaSem sig := 54
abbrev cc4_sem3_0 : DmaSem sig := 55
abbrev cc4_sem4_0 : DmaSem sig := 56
abbrev cc4_sem5_0 : DmaSem sig := 57
abbrev cc4_sem5_1 : DmaSem sig := 58
abbrev cc4_sem6_0 : DmaSem sig := 59
abbrev cc4_sem6_1 : DmaSem sig := 60
abbrev cc4_sem7_0 : DmaSem sig := 61
abbrev cc4_sem7_1 : DmaSem sig := 62
abbrev cc5_sem0_0 : DmaSem sig := 63
abbrev cc5_sem0_1 : DmaSem sig := 64
abbrev cc5_sem1_0 : DmaSem sig := 65
abbrev cc5_sem2_0 : DmaSem sig := 66
abbrev cc5_sem3_0 : DmaSem sig := 67
abbrev cc5_sem3_1 : DmaSem sig := 68
abbrev cc5_sem4_0 : DmaSem sig := 69
abbrev cc5_sem4_1 : DmaSem sig := 70
abbrev cc6_sem0_0 : DmaSem sig := 71
abbrev cc6_sem0_1 : DmaSem sig := 72
abbrev cc6_sem1_0 : DmaSem sig := 73
abbrev cc6_sem1_1 : DmaSem sig := 74
abbrev cc6_sem2_0 : DmaSem sig := 75
abbrev cc6_sem3_0 : DmaSem sig := 76
abbrev cc6_sem4_0 : DmaSem sig := 77
abbrev cc6_sem5_0 : DmaSem sig := 78
abbrev cc6_sem6_0 : DmaSem sig := 79
abbrev cc6_sem7_0 : DmaSem sig := 80
abbrev cc6_sem7_1 : DmaSem sig := 81

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x320x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x320x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x64x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_13 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x256 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1x256x4096 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x64x4096 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S1x64x1 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S1x64x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev grid4 : Pipeline.Grid := ⟨1, ![64], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x64x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x576 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S9x4096 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x64x4096 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x64x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x64x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![64], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x64x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x64x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x64x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![64], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x64x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x256x4096 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x64 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1x256x4096 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  shapeCasts_S64x128x32x32_S64x128x1024 : S64x128x32x32.ShapeCasts S64x128x1024
  concatenates_S64x128_S256x128_S320x128_d0 : Shape.Concatenates [S64x128, S256x128] S320x128 0
  bitsLt_bf16_f32 : FTy.bits .bf16 < FTy.bits .f32
  bcast_S_S256x256 : S_.BroadcastsInDim S256x256 (![] : Fin 0 → Fin S256x256.rank)
  slices_S9x64x64_S1x64x64_0_0_0 : S9x64x64.Slices ![0, 0, 0] S1x64x64
  shapeCasts_S1x64x64_S64x64 : S1x64x64.ShapeCasts S64x64
  bcast_S_S1 : S_.BroadcastsInDim S1 (![] : Fin 0 → Fin S1.rank)
  concatenates_S1_S1_S2_d0 : Shape.Concatenates [S1, S1] S2 0
  slices_S9x64x64_S1x64x64_1_0_0 : S9x64x64.Slices ![1, 0, 0] S1x64x64
  slices_S9x64x64_S1x64x64_2_0_0 : S9x64x64.Slices ![2, 0, 0] S1x64x64
  slices_S9x64x64_S1x64x64_3_0_0 : S9x64x64.Slices ![3, 0, 0] S1x64x64
  slices_S9x64x64_S1x64x64_4_0_0 : S9x64x64.Slices ![4, 0, 0] S1x64x64
  slices_S9x64x64_S1x64x64_5_0_0 : S9x64x64.Slices ![5, 0, 0] S1x64x64
  slices_S9x64x64_S1x64x64_6_0_0 : S9x64x64.Slices ![6, 0, 0] S1x64x64
  slices_S9x64x64_S1x64x64_7_0_0 : S9x64x64.Slices ![7, 0, 0] S1x64x64
  slices_S9x64x64_S1x64x64_8_0_0 : S9x64x64.Slices ![8, 0, 0] S1x64x64
  transposes_S9x64x64_S64x9x64_1_0_2 : S9x64x64.Transposes [1, 0, 2] S64x9x64
  shapeCasts_S64x9x64_S64x576 : S64x9x64.ShapeCasts S64x576
  inb_S320x128_S320x128_0_0 : ∀ a, (![0, 0] : Fin 2 → Nat) a + S320x128.size a ≤ S320x128.size a
  h_S320x128 : 0 < S320x128.numel
  shapeCasts_S320x128_S320x128 : S320x128.ShapeCasts S320x128
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  slices_S320x1024_o0_0_S64x1024 : S320x1024.Slices ![0, 0] S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  packedbf16_S1x64x1024_S1x64x1024_0_0_0 : (Rect.unit (s := S1x64x1024) ![0, 0, 0] S1x64x1024.size inb_S1x64x1024_S1x64x1024_0_0_0).PackedRows (EltTy.packing .bf16)
  slices_S320x1024_o64_0_S256x1024 : S320x1024.Slices ![64, 0] S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  reduces_S320x1024_S320 : S320x1024.Reduces [1] S320
  shapeCasts_S320_S320x1 : S320.ShapeCasts S320x1
  inb_S1x320x1_S1x320x1_0_0_0 : ∀ a, (![0, 0, 0] : Fin 3 → Nat) a + S1x320x1.size a ≤ S1x320x1.size a
  h_S1x320x1 : 0 < S1x320x1.numel
  shapeCasts_S1x320x1_S320x1 : S1x320x1.ShapeCasts S320x1
  shapeCasts_S320x1_S1x320x1 : S320x1.ShapeCasts S1x320x1
  reducesTo_S64x320x1_S320x1_d0 : S64x320x1.ReducesTo [0] S320x1
  h_S_ : 0 < S_.numel
  slices_S320x1_S64x1_0_0 : S320x1.Slices ![0, 0] S64x1
  bcast_S_S64x1 : S_.BroadcastsInDim S64x1 (![] : Fin 0 → Fin S64x1.rank)
  shapeCasts_S64_S64x1 : S64.ShapeCasts S64x1
  slices_S320x1_S256x1_64_0 : S320x1.Slices ![64, 0] S256x1
  bcast_S_S256x1 : S_.BroadcastsInDim S256x1 (![] : Fin 0 → Fin S256x1.rank)
  shapeCasts_S256_S256x1 : S256.ShapeCasts S256x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  concatenates_S64x1024_S64x128_S64x1152_d1 : Shape.Concatenates [S64x1024, S64x128] S64x1152 1
  inb_S4x1024_S4x1024_0_0 : ∀ a, (![0, 0] : Fin 2 → Nat) a + S4x1024.size a ≤ S4x1024.size a
  h_S4x1024 : 0 < S4x1024.numel
  slices_S64x1152_o0_0_S64x1024 : S64x1152.Slices ![0, 0] S64x1024
  slices_S4x1024_o0_0_S1x1024 : S4x1024.Slices ![0, 0] S1x1024
  broadcasts_S1x1024_S64x1024 : S1x1024.Broadcasts S64x1024
  slices_S64x1152_o0_1_S64x1024 : S64x1152.Slices ![0, 1] S64x1024
  slices_S4x1024_o1_0_S1x1024 : S4x1024.Slices ![1, 0] S1x1024
  slices_S64x1152_o0_32_S64x1024 : S64x1152.Slices ![0, 32] S64x1024
  slices_S4x1024_o2_0_S1x1024 : S4x1024.Slices ![2, 0] S1x1024
  slices_S64x1152_o0_33_S64x1024 : S64x1152.Slices ![0, 33] S64x1024
  slices_S4x1024_o3_0_S1x1024 : S4x1024.Slices ![3, 0] S1x1024
  concatenates_S64x1024_S64x1024_S64x1024_S64x1024_S256x1024_d0 : Shape.Concatenates [S64x1024, S64x1024, S64x1024, S64x1024] S256x1024 0
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x1024_S4x64x1024 : S256x1024.ShapeCasts S4x64x1024
  reduces_S4x64x1024_S64x1024 : S4x64x1024.Reduces [0] S64x1024
  reduces_S64x1024_S64 : S64x1024.Reduces [1] S64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S64x64x1_S64x1_d0 : S64x64x1.ReducesTo [0] S64x1
  broadcasts_S1x64x1_S4x64x1024 : S1x64x1.Broadcasts S4x64x1024
  slices_S4x64x1024_o0_0_0_S1x64x1024 : S4x64x1024.Slices ![0, 0, 0] S1x64x1024
  slices_S4x64x1024_o1_0_0_S1x64x1024 : S4x64x1024.Slices ![1, 0, 0] S1x64x1024
  slices_S4x64x1024_o2_0_0_S1x64x1024 : S4x64x1024.Slices ![2, 0, 0] S1x64x1024
  slices_S4x64x1024_o3_0_0_S1x64x1024 : S4x64x1024.Slices ![3, 0, 0] S1x64x1024
  concatenates_S64x1024_S64x1024_S64x1024_S64x1024_S64x4096_d1 : Shape.Concatenates [S64x1024, S64x1024, S64x1024, S64x1024] S64x4096 1
  inb_S1x64x64_S1x64x64_0_0_0 : ∀ a, (![0, 0, 0] : Fin 3 → Nat) a + S1x64x64.size a ≤ S1x64x64.size a
  h_S1x64x64 : 0 < S1x64x64.numel
  shapeCasts_S64x64_S1x64x64 : S64x64.ShapeCasts S1x64x64
  reduces_S64x4096_S64 : S64x4096.Reduces [1] S64
  reducesTo_S64x64x64_S64x64_d0 : S64x64x64.ReducesTo [0] S64x64
  reducesTo_S256x64_S256_d1 : S256x64.ReducesTo [1] S256
  bcast_S256_S256x1_0 : S256.BroadcastsInDim S256x1 (![0] : Fin 1 → Fin S256x1.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  broadcasts_S256x1_S256x1024 : S256x1.Broadcasts S256x1024
  slices_S256x4096_o0_0_S256x1024 : S256x4096.Slices ![0, 0] S256x1024
  slices_S256x4096_o0_1024_S256x3072 : S256x4096.Slices ![0, 1024] S256x3072
  concatenates_S256x1024_S256x3072_S256x4096_d1 : Shape.Concatenates [S256x1024, S256x3072] S256x4096 1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  packedbf16_S1x64x4096_S1x64x4096_0_0_0 : (Rect.unit (s := S1x64x4096) ![0, 0, 0] S1x64x4096.size inb_S1x64x4096_S1x64x4096_0_0_0).PackedRows (EltTy.packing .bf16)
  shapeCasts_S64x256x4096_S64x256x2x2x32x32 : S64x256x4096.ShapeCasts S64x256x2x2x32x32
  transposes_S64x256x2x2x32x32_S64x256x32x2x32x2_0_1_4_2_5_3 : S64x256x2x2x32x32.Transposes [0, 1, 4, 2, 5, 3] S64x256x32x2x32x2
  shapeCasts_S64x256x32x2x32x2_S64x256x4096 : S64x256x32x2x32x2.ShapeCasts S64x256x4096
  shapeCasts_S64x64x4096_S64x64x2x2x32x32 : S64x64x4096.ShapeCasts S64x64x2x2x32x32
  transposes_S64x64x2x2x32x32_S64x64x32x2x32x2_0_1_4_2_5_3 : S64x64x2x2x32x32.Transposes [0, 1, 4, 2, 5, 3] S64x64x32x2x32x2
  shapeCasts_S64x64x32x2x32x2_S64x64x4096 : S64x64x32x2x32x2.ShapeCasts S64x64x4096
  broadcasts_S64x1_S64x4096 : S64x1.Broadcasts S64x4096
  concatenates_S64x128_S64x4096_S64x128_S64x4352_d1 : Shape.Concatenates [S64x128, S64x4096, S64x128] S64x4352 1
  inb_S9x4096_S9x4096_0_0 : ∀ a, (![0, 0] : Fin 2 → Nat) a + S9x4096.size a ≤ S9x4096.size a
  h_S9x4096 : 0 < S9x4096.numel
  slices_S64x4352_o0_193_S64x4096 : S64x4352.Slices ![0, 193] S64x4096
  slices_S9x4096_o0_0_S1x4096 : S9x4096.Slices ![0, 0] S1x4096
  broadcasts_S1x4096_S64x4096 : S1x4096.Broadcasts S64x4096
  slices_S64x4352_o0_192_S64x4096 : S64x4352.Slices ![0, 192] S64x4096
  slices_S9x4096_o1_0_S1x4096 : S9x4096.Slices ![1, 0] S1x4096
  slices_S64x4352_o0_191_S64x4096 : S64x4352.Slices ![0, 191] S64x4096
  slices_S9x4096_o2_0_S1x4096 : S9x4096.Slices ![2, 0] S1x4096
  slices_S64x4352_o0_129_S64x4096 : S64x4352.Slices ![0, 129] S64x4096
  slices_S9x4096_o3_0_S1x4096 : S9x4096.Slices ![3, 0] S1x4096
  slices_S64x4352_o0_128_S64x4096 : S64x4352.Slices ![0, 128] S64x4096
  slices_S9x4096_o4_0_S1x4096 : S9x4096.Slices ![4, 0] S1x4096
  slices_S64x4352_o0_127_S64x4096 : S64x4352.Slices ![0, 127] S64x4096
  slices_S9x4096_o5_0_S1x4096 : S9x4096.Slices ![5, 0] S1x4096
  slices_S64x4352_o0_65_S64x4096 : S64x4352.Slices ![0, 65] S64x4096
  slices_S9x4096_o6_0_S1x4096 : S9x4096.Slices ![6, 0] S1x4096
  slices_S64x4352_o0_64_S64x4096 : S64x4352.Slices ![0, 64] S64x4096
  slices_S9x4096_o7_0_S1x4096 : S9x4096.Slices ![7, 0] S1x4096
  slices_S64x4352_o0_63_S64x4096 : S64x4352.Slices ![0, 63] S64x4096
  slices_S9x4096_o8_0_S1x4096 : S9x4096.Slices ![8, 0] S1x4096
  concatenates_S64x4096_S64x4096_S64x4096_S64x4096_S64x4096_S64x4096_S64x4096_S64x4096_S64x4096_S576x4096_d0 : Shape.Concatenates [S64x4096, S64x4096, S64x4096, S64x4096, S64x4096, S64x4096, S64x4096, S64x4096, S64x4096] S576x4096 0
  inb_S64x576_S64x576_0_0 : ∀ a, (![0, 0] : Fin 2 → Nat) a + S64x576.size a ≤ S64x576.size a
  h_S64x576 : 0 < S64x576.numel
  shapeCasts_S64x576_S64x576 : S64x576.ShapeCasts S64x576
  broadcasts_S1x64x1_S1x64x4096 : S1x64x1.Broadcasts S1x64x4096
  shapeCasts_S64x256x4096_S64x256x64x64 : S64x256x4096.ShapeCasts S64x256x64x64
  scatter_S256x256_S2_S64x64_01_n_01_0_wf : ScatterDims.WF S256x256 S2 S64x64 [0, 1] [] [0, 1] 0
  dot_S320x128_S128x1024_S320x1024_1_0_0_1_n_n_wf : DotDims.WF S320x128 S128x1024 S320x1024 [1] [0] [0] [1] [] []
  dot_S256x256_S256x1024_S256x1024_1_0_0_1_n_n_wf : DotDims.WF S256x256 S256x1024 S256x1024 [1] [0] [0] [1] [] []
  dot_S64x4096_S64x4096_S64x64_1_1_0_0_n_n_wf : DotDims.WF S64x4096 S64x4096 S64x64 [1] [1] [0] [0] [] []
  dot_S256x64_S64x1_S256x1_1_0_0_1_n_n_wf : DotDims.WF S256x64 S64x1 S256x1 [1] [0] [0] [1] [] []
  dot_S256x64_S64x64_S256x64_1_0_0_1_n_n_wf : DotDims.WF S256x64 S64x64 S256x64 [1] [0] [0] [1] [] []
  dot_S256x64_S64x4096_S256x4096_1_0_0_1_n_n_wf : DotDims.WF S256x64 S64x4096 S256x4096 [1] [0] [0] [1] [] []
  dot_S64x256_S256x4096_S64x4096_1_0_0_1_n_n_wf : DotDims.WF S64x256 S256x4096 S64x4096 [1] [0] [0] [1] [] []
  dot_S64x576_S576x4096_S64x4096_1_0_0_1_n_n_wf : DotDims.WF S64x576 S576x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S64x128x1024.size a
  hwx0_0 : ∀ i : grid0.Coords, EltTy.bits .f32 = 32 ∨ (Rect.block (s := S64x128x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .bf16 = 32 ∨ (Rect.block (s := S320x128) S320x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S64x64x1024.size a
  hwx0_2 : ∀ i : grid0.Coords, EltTy.bits .bf16 = 32 ∨ (Rect.block (s := S64x64x1024) S1x64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x256x1024.size a
  hwx0_3 : ∀ i : grid0.Coords, EltTy.bits .bf16 = 32 ∨ (Rect.block (s := S64x256x1024) S1x256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x320x1.size a ≤ S64x320x1.size a
  hwx0_4 : ∀ i : grid0.Coords, EltTy.bits .f32 = 32 ∨ (Rect.block (s := S64x320x1) S1x320x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x320x1.size a ≤ S64x320x1.size a
  hwx0_5 : ∀ i : grid0.Coords, EltTy.bits .f32 = 32 ∨ (Rect.block (s := S64x320x1) S1x320x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S64x64x1024.size a
  hwx1_0 : ∀ i : grid1.Coords, EltTy.bits .bf16 = 32 ∨ (Rect.block (s := S64x64x1024) S1x64x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x1024.size a ≤ S4x1024.size a
  hwx1_4 : ∀ i : grid1.Coords, EltTy.bits .f32 = 32 ∨ (Rect.block (s := S4x1024) S4x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S64x256x1024.size a
  hwx1_5 : ∀ i : grid1.Coords, EltTy.bits .bf16 = 32 ∨ (Rect.block (s := S64x256x1024) S1x256x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x1.size a ≤ S64x64x1.size a
  hwx1_6 : ∀ i : grid1.Coords, EltTy.bits .f32 = 32 ∨ (Rect.block (s := S64x64x1) S1x64x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x1.size a ≤ S64x64x1.size a
  hwx1_7 : ∀ i : grid1.Coords, EltTy.bits .f32 = 32 ∨ (Rect.block (s := S64x64x1) S1x64x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S64x256x1024.size a
  hwx2_0 : ∀ i : grid2.Coords, EltTy.bits .bf16 = 32 ∨ (Rect.block (s := S64x256x1024) S1x256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x64x64.size a ≤ S64x64x64.size a
  hwx2_3 : ∀ i : grid2.Coords, EltTy.bits .f32 = 32 ∨ (Rect.block (s := S64x64x64) S1x64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x64x1.size a ≤ S64x64x1.size a
  hwx2_4 : ∀ i : grid2.Coords, EltTy.bits .f32 = 32 ∨ (Rect.block (s := S64x64x1) S1x64x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S64x256x1024.size a
  hwx3_0 : ∀ i : grid3.Coords, EltTy.bits .bf16 = 32 ∨ (Rect.block (s := S64x256x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x1024.size a ≤ S64x256x1024.size a
  hwx3_1 : ∀ i : grid3.Coords, EltTy.bits .bf16 = 32 ∨ (Rect.block (s := S64x256x1024) S1x256x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x64.size a ≤ S256x64.size a
  hwx3_4 : ∀ i : grid3.Coords, EltTy.bits .bf16 = 32 ∨ (Rect.block (s := S256x64) S256x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x1.size a ≤ S256x1.size a
  hwx3_5 : ∀ i : grid3.Coords, EltTy.bits .f32 = 32 ∨ (Rect.block (s := S256x1) S256x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x1.size a ≤ S256x1.size a
  hwx3_6 : ∀ i : grid3.Coords, EltTy.bits .f32 = 32 ∨ (Rect.block (s := S256x1) S256x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x1.size a ≤ S256x1.size a
  hwx3_7 : ∀ i : grid3.Coords, EltTy.bits .f32 = 32 ∨ (Rect.block (s := S256x1) S256x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x1.size a ≤ S256x1.size a
  hwx3_8 : ∀ i : grid3.Coords, EltTy.bits .f32 = 32 ∨ (Rect.block (s := S256x1) S256x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x256.size a ≤ S64x256.size a
  hwx3_9 : ∀ i : grid3.Coords, EltTy.bits .bf16 = 32 ∨ (Rect.block (s := S64x256) S64x256.size (cc3_transform_9 i) (hinb3_9 i)).WholeWords (EltTy.packing .bf16)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1x256x4096.size a ≤ S64x256x4096.size a
  hwx3_10 : ∀ i : grid3.Coords, EltTy.bits .f32 = 32 ∨ (Rect.block (s := S64x256x4096) S1x256x4096.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1x64x4096.size a ≤ S64x64x4096.size a
  hwx3_11 : ∀ i : grid3.Coords, EltTy.bits .bf16 = 32 ∨ (Rect.block (s := S64x64x4096) S1x64x4096.size (cc3_transform_11 i) (hinb3_11 i)).WholeWords (EltTy.packing .bf16)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S1x64x1.size a ≤ S64x64x1.size a
  hwx3_12 : ∀ i : grid3.Coords, EltTy.bits .f32 = 32 ∨ (Rect.block (s := S64x64x1) S1x64x1.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S1x64x1.size a ≤ S64x64x1.size a
  hwx3_13 : ∀ i : grid3.Coords, EltTy.bits .f32 = 32 ∨ (Rect.block (s := S64x64x1) S1x64x1.size (cc3_transform_13 i) (hinb3_13 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x64x4096.size a ≤ S64x64x4096.size a
  hwx4_0 : ∀ i : grid4.Coords, EltTy.bits .bf16 = 32 ∨ (Rect.block (s := S64x64x4096) S1x64x4096.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x576.size a ≤ S64x576.size a
  hwx4_3 : ∀ i : grid4.Coords, EltTy.bits .bf16 = 32 ∨ (Rect.block (s := S64x576) S64x576.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S9x4096.size a ≤ S9x4096.size a
  hwx4_4 : ∀ i : grid4.Coords, EltTy.bits .f32 = 32 ∨ (Rect.block (s := S9x4096) S9x4096.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x64x4096.size a ≤ S64x64x4096.size a
  hwx4_5 : ∀ i : grid4.Coords, EltTy.bits .bf16 = 32 ∨ (Rect.block (s := S64x64x4096) S1x64x4096.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x64x1.size a ≤ S64x64x1.size a
  hwx4_6 : ∀ i : grid4.Coords, EltTy.bits .f32 = 32 ∨ (Rect.block (s := S64x64x1) S1x64x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x64x1.size a ≤ S64x64x1.size a
  hwx4_7 : ∀ i : grid4.Coords, EltTy.bits .f32 = 32 ∨ (Rect.block (s := S64x64x1) S1x64x1.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x64x4096.size a ≤ S64x64x4096.size a
  hwx5_0 : ∀ i : grid5.Coords, EltTy.bits .bf16 = 32 ∨ (Rect.block (s := S64x64x4096) S1x64x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x1.size a ≤ S64x1.size a
  hwx5_1 : ∀ i : grid5.Coords, EltTy.bits .f32 = 32 ∨ (Rect.block (s := S64x1) S64x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S64x1.size a
  hwx5_2 : ∀ i : grid5.Coords, EltTy.bits .f32 = 32 ∨ (Rect.block (s := S64x1) S64x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x64x64.size a ≤ S64x64x64.size a
  hwx5_3 : ∀ i : grid5.Coords, EltTy.bits .f32 = 32 ∨ (Rect.block (s := S64x64x64) S1x64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x64x1.size a ≤ S64x64x1.size a
  hwx5_4 : ∀ i : grid5.Coords, EltTy.bits .f32 = 32 ∨ (Rect.block (s := S64x64x1) S1x64x1.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x64x4096.size a ≤ S64x64x4096.size a
  hwx6_0 : ∀ i : grid6.Coords, EltTy.bits .bf16 = 32 ∨ (Rect.block (s := S64x64x4096) S1x64x4096.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x256x4096.size a ≤ S64x256x4096.size a
  hwx6_1 : ∀ i : grid6.Coords, EltTy.bits .f32 = 32 ∨ (Rect.block (s := S64x256x4096) S1x256x4096.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x64.size a ≤ S256x64.size a
  hwx6_4 : ∀ i : grid6.Coords, EltTy.bits .bf16 = 32 ∨ (Rect.block (s := S256x64) S256x64.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x1.size a ≤ S256x1.size a
  hwx6_5 : ∀ i : grid6.Coords, EltTy.bits .f32 = 32 ∨ (Rect.block (s := S256x1) S256x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256x1.size a ≤ S256x1.size a
  hwx6_6 : ∀ i : grid6.Coords, EltTy.bits .f32 = 32 ∨ (Rect.block (s := S256x1) S256x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1x256x4096.size a ≤ S64x256x4096.size a
  hwx6_7 : ∀ i : grid6.Coords, EltTy.bits .f32 = 32 ∨ (Rect.block (s := S64x256x4096) S1x256x4096.size (cc6_transform_7 i) (hinb6_7 i)).WholeWords (EltTy.packing .f32)

variable [Facts₀]

def scatter_S256x256_S2_S64x64_01_n_01_0 : ScatterDims S256x256 S2 S64x64 where
  updateWindowDims := [0, 1]
  insertedWindowDims := []
  scatterDimsToOperandDims := [0, 1]
  indexVectorDim := 0
  wf := scatter_S256x256_S2_S64x64_01_n_01_0_wf
def dot_S320x128_S128x1024_S320x1024_1_0_0_1_n_n : DotDims S320x128 S128x1024 S320x1024 where
  lhsContracting := [1]
  rhsContracting := [0]
  lhsNonContracting := [0]
  rhsNonContracting := [1]
  lhsBatch := []
  rhsBatch := []
  wf := dot_S320x128_S128x1024_S320x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S64x4096_S64x4096_S64x64_1_1_0_0_n_n : DotDims S64x4096 S64x4096 S64x64 where
  lhsContracting := [1]
  rhsContracting := [1]
  lhsNonContracting := [0]
  rhsNonContracting := [0]
  lhsBatch := []
  rhsBatch := []
  wf := dot_S64x4096_S64x4096_S64x64_1_1_0_0_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S64x256_S256x4096_S64x4096_1_0_0_1_n_n : DotDims S64x256 S256x4096 S64x4096 where
  lhsContracting := [1]
  rhsContracting := [0]
  lhsNonContracting := [0]
  rhsNonContracting := [1]
  lhsBatch := []
  rhsBatch := []
  wf := dot_S64x256_S256x4096_S64x4096_1_0_0_1_n_n_wf
def dot_S64x576_S576x4096_S64x4096_1_0_0_1_n_n : DotDims S64x576 S576x4096 S64x4096 where
  lhsContracting := [1]
  rhsContracting := [0]
  lhsNonContracting := [0]
  rhsNonContracting := [1]
  lhsBatch := []
  rhsBatch := []
  wf := dot_S64x576_S576x4096_S64x4096_1_0_0_1_n_n_wf

abbrev win0_0 : Pipeline.Window sig grid0 :=
  Pipeline.Window.ofSpec (Memref.whole main_v0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v65_0) S1x64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65_1) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65_2) S1x320x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v65_3) S1x320x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v65_0) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v83) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S4x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v100_0) S1x256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v100_1) S1x64x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v100_2) S1x64x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v100_0) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v113) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v116) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v117_0) S1x64x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v117_1) S1x64x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v100_0) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65_1) S1x256x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v113) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v116) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S256x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v135) S256x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v138) S256x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v96) S256x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v99) S256x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v60) S64x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v139_0) S1x256x4096.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v139_1) S1x64x4096.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v139_2) S1x64x1.size cc3_transform_12 reads3_12 true false 2 stage3_12 sem3_12
    hrank3 hreads3_12 hinb3_12 nbuf3_12 (Memref.isWhole_whole _) hwx3_12 hstage3_12

abbrev win3_13 : Pipeline.Window sig grid3 :=
  Pipeline.Window.ofSpec (Memref.whole main_v139_3) S1x64x1.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

abbrev win4_0 : Pipeline.Window sig grid4 :=
  Pipeline.Window.ofSpec (Memref.whole main_v161) S1x64x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v152) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v155) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S64x576.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S9x4096.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v162_0) S1x64x4096.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v162_1) S1x64x1.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v162_2) S1x64x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v162_0) S1x64x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v175) S64x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v178) S64x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v179_0) S1x64x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v179_1) S1x64x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v162_0) S1x64x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v158) S1x256x4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v175) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v178) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v64) S256x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v197) S256x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v200) S256x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v201) S1x256x4096.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S64x128x32x32 : Shape := ⟨4, ![64, 128, 32, 32]⟩
abbrev S64x128 : Shape := ⟨2, ![64, 128]⟩
abbrev S256x64 : Shape := ⟨2, ![256, 64]⟩
abbrev S9x64x64 : Shape := ⟨3, ![9, 64, 64]⟩
abbrev S4x1024 : Shape := ⟨2, ![4, 1024]⟩
abbrev S64 : Shape := ⟨1, ![64]⟩
abbrev S256 : Shape := ⟨1, ![256]⟩
abbrev S256x128 : Shape := ⟨2, ![256, 128]⟩
abbrev S64x256 : Shape := ⟨2, ![64, 256]⟩
abbrev S9x4096 : Shape := ⟨2, ![9, 4096]⟩
abbrev S64x128x1024 : Shape := ⟨3, ![64, 128, 1024]⟩
abbrev S64x64x1024 : Shape := ⟨3, ![64, 64, 1024]⟩
abbrev S64x1 : Shape := ⟨2, ![64, 1]⟩
abbrev S1x128x1024 : Shape := ⟨3, ![1, 128, 1024]⟩
abbrev S1x64x1024 : Shape := ⟨3, ![1, 64, 1024]⟩
abbrev S128x1024 : Shape := ⟨2, ![128, 1024]⟩
abbrev S64x1024 : Shape := ⟨2, ![64, 1024]⟩
abbrev S_ : Shape := ⟨0, ![]⟩
abbrev S64x64x4096 : Shape := ⟨3, ![64, 64, 4096]⟩
abbrev S1x64x4096 : Shape := ⟨3, ![1, 64, 4096]⟩
abbrev S64x1280 : Shape := ⟨2, ![64, 1280]⟩
abbrev S1x1024 : Shape := ⟨2, ![1, 1024]⟩
abbrev S1x64x64 : Shape := ⟨3, ![1, 64, 64]⟩
abbrev S64x64 : Shape := ⟨2, ![64, 64]⟩
abbrev S64x256x4096 : Shape := ⟨3, ![64, 256, 4096]⟩
abbrev S256x1 : Shape := ⟨2, ![256, 1]⟩
abbrev S1x64x2048 : Shape := ⟨3, ![1, 64, 2048]⟩
abbrev S1x256x2048 : Shape := ⟨3, ![1, 256, 2048]⟩
abbrev S64x2048 : Shape := ⟨2, ![64, 2048]⟩
abbrev S256x2048 : Shape := ⟨2, ![256, 2048]⟩
abbrev S64x256x1024 : Shape := ⟨3, ![64, 256, 1024]⟩
abbrev S1x256x1024 : Shape := ⟨3, ![1, 256, 1024]⟩
abbrev S256x1024 : Shape := ⟨2, ![256, 1024]⟩
abbrev S1x256x4096 : Shape := ⟨3, ![1, 256, 4096]⟩
abbrev S256x4096 : Shape := ⟨2, ![256, 4096]⟩
abbrev S64x256x2x2x32x32 : Shape := ⟨6, ![64, 256, 2, 2, 32, 32]⟩
abbrev S64x256x32x2x32x2 : Shape := ⟨6, ![64, 256, 32, 2, 32, 2]⟩
abbrev S64x4352 : Shape := ⟨2, ![64, 4352]⟩
abbrev S64x4096 : Shape := ⟨2, ![64, 4096]⟩
abbrev S1x4096 : Shape := ⟨2, ![1, 4096]⟩
abbrev S64x256x64x64 : Shape := ⟨4, ![64, 256, 64, 64]⟩

abbrev nBuf : Space → Nat
  | .hbm => 171
  | .vmem => 79
  | .smem => 0
  | _ => 0

abbrev hbmTy0_0 (i : Nat) : BufTy := match i % 128 with
  | 0 => ⟨S64x128x32x32, .f32⟩
  | 1 => ⟨S64x128, .f32⟩
  | 2 => ⟨S256x64, .f32⟩
  | 3 => ⟨S9x64x64, .f32⟩
  | 4 => ⟨S4x1024, .f32⟩
  | 5 => ⟨S64, .f32⟩
  | 6 => ⟨S64, .f32⟩
  | 7 => ⟨S64, .f32⟩
  | 8 => ⟨S64, .f32⟩
  | 9 => ⟨S256, .f32⟩
  | 10 => ⟨S256, .f32⟩
  | 11 => ⟨S256x128, .f32⟩
  | 12 => ⟨S256, .f32⟩
  | 13 => ⟨S256, .f32⟩
  | 14 => ⟨S64x256, .f32⟩
  | 15 => ⟨S256x64, .f32⟩
  | 16 => ⟨S9x64x64, .f32⟩
  | 17 => ⟨S9x4096, .f32⟩
  | 18 => ⟨S64, .f32⟩
  | 19 => ⟨S64, .f32⟩
  | 20 => ⟨S64, .f32⟩
  | 21 => ⟨S64, .f32⟩
  | 22 => ⟨S256, .f32⟩
  | 23 => ⟨S256, .f32⟩
  | 24 => ⟨S64x128x1024, .f32⟩
  | 25 => ⟨S64x64x1024, .f32⟩
  | 26 => ⟨S64x1, .f32⟩
  | 27 => ⟨S64x1, .f32⟩
  | 28 => ⟨S_, .f32⟩
  | 29 => ⟨S64x1, .f32⟩
  | 30 => ⟨S64x1, .f32⟩
  | 31 => ⟨S_, .f32⟩
  | 32 => ⟨S64x1, .f32⟩
  | 33 => ⟨S64x1, .f32⟩
  | 34 => ⟨S64x1, .f32⟩
  | 35 => ⟨S64x1, .f32⟩
  | 36 => ⟨S_, .f32⟩
  | 37 => ⟨S64x1, .f32⟩
  | 38 => ⟨S64x1, .f32⟩
  | 39 => ⟨S64x1, .f32⟩
  | 40 => ⟨S64x1, .f32⟩
  | 41 => ⟨S64x1, .f32⟩
  | 42 => ⟨S64x1, .f32⟩
  | 43 => ⟨S64x1, .f32⟩
  | 44 => ⟨S64x1, .f32⟩
  | 45 => ⟨S64x64x4096, .f32⟩
  | 46 => ⟨S64x1, .f32⟩
  | 47 => ⟨S64x1, .f32⟩
  | 48 => ⟨S_, .f32⟩
  | 49 => ⟨S64x1, .f32⟩
  | 50 => ⟨S64x1, .f32⟩
  | 51 => ⟨S_, .f32⟩
  | 52 => ⟨S64x1, .f32⟩
  | 53 => ⟨S64x1, .f32⟩
  | 54 => ⟨S64x1, .f32⟩
  | 55 => ⟨S64x1, .f32⟩
  | 56 => ⟨S_, .f32⟩
  | 57 => ⟨S64x1, .f32⟩
  | 58 => ⟨S64x1, .f32⟩
  | 59 => ⟨S64x1, .f32⟩
  | 60 => ⟨S64x1, .f32⟩
  | 61 => ⟨S64x1, .f32⟩
  | 62 => ⟨S64x1, .f32⟩
  | 63 => ⟨S64x1, .f32⟩
  | 64 => ⟨S64x1, .f32⟩
  | 65 => ⟨S64x256x4096, .f32⟩
  | 66 => ⟨S256x1, .f32⟩
  | 67 => ⟨S256x1, .f32⟩
  | 68 => ⟨S_, .f32⟩
  | 69 => ⟨S256x1, .f32⟩
  | 70 => ⟨S256x1, .f32⟩
  | 71 => ⟨S_, .f32⟩
  | 72 => ⟨S256x1, .f32⟩
  | 73 => ⟨S256x1, .f32⟩
  | 74 => ⟨S256x1, .f32⟩
  | 75 => ⟨S256x1, .f32⟩
  | 76 => ⟨S_, .f32⟩
  | 77 => ⟨S256x1, .f32⟩
  | 78 => ⟨S256x1, .f32⟩
  | 79 => ⟨S256x1, .f32⟩
  | 80 => ⟨S256x1, .f32⟩
  | 81 => ⟨S256x1, .f32⟩
  | 82 => ⟨S256x1, .f32⟩
  | 83 => ⟨S256x1, .f32⟩
  | 84 => ⟨S256x1, .f32⟩
  | 85 => ⟨S64x256x1024, .f32⟩
  | 86 => ⟨S256x1, .f32⟩
  | 87 => ⟨S256x1, .f32⟩
  | 88 => ⟨S_, .f32⟩
  | 89 => ⟨S256x1, .f32⟩
  | 90 => ⟨S256x1, .f32⟩
  | 91 => ⟨S_, .f32⟩
  | 92 => ⟨S256x1, .f32⟩
  | 93 => ⟨S256x1, .f32⟩
  | 94 => ⟨S256x1, .f32⟩
  | 95 => ⟨S256x1, .f32⟩
  | 96 => ⟨S_, .f32⟩
  | 97 => ⟨S256x1, .f32⟩
  | 98 => ⟨S256x1, .f32⟩
  | 99 => ⟨S256x1, .f32⟩
  | 100 => ⟨S256x1, .f32⟩
  | 101 => ⟨S256x1, .f32⟩
  | 102 => ⟨S256x1, .f32⟩
  | 103 => ⟨S256x1, .f32⟩
  | 104 => ⟨S256x1, .f32⟩
  | 105 => ⟨S64x256x4096, .f32⟩
  | 106 => ⟨S64x256x2x2x32x32, .f32⟩
  | 107 => ⟨S64x256x32x2x32x2, .f32⟩
  | 108 => ⟨S64x256x4096, .f32⟩
  | 109 => ⟨S64x64x4096, .f32⟩
  | 110 => ⟨S64x1, .f32⟩
  | 111 => ⟨S64x1, .f32⟩
  | 112 => ⟨S_, .f32⟩
  | 113 => ⟨S64x1, .f32⟩
  | 114 => ⟨S64x1, .f32⟩
  | 115 => ⟨S_, .f32⟩
  | 116 => ⟨S64x1, .f32⟩
  | 117 => ⟨S64x1, .f32⟩
  | 118 => ⟨S64x1, .f32⟩
  | 119 => ⟨S64x1, .f32⟩
  | 120 => ⟨S_, .f32⟩
  | 121 => ⟨S64x1, .f32⟩
  | 122 => ⟨S64x1, .f32⟩
  | 123 => ⟨S64x1, .f32⟩
  | 124 => ⟨S64x1, .f32⟩
  | 125 => ⟨S64x1, .f32⟩
  | 126 => ⟨S64x1, .f32⟩
  | 127 => ⟨S64x1, .f32⟩
  | _ => ⟨S64x128x32x32, .f32⟩

abbrev hbmTy0_1 (i : Nat) : BufTy := match i % 128 with
  | 0 => ⟨S64x1, .f32⟩
  | 1 => ⟨S64x64x4096, .f32⟩
  | 2 => ⟨S64x1, .f32⟩
  | 3 => ⟨S64x1, .f32⟩
  | 4 => ⟨S_, .f32⟩
  | 5 => ⟨S64x1, .f32⟩
  | 6 => ⟨S64x1, .f32⟩
  | 7 => ⟨S_, .f32⟩
  | 8 => ⟨S64x1, .f32⟩
  | 9 => ⟨S64x1, .f32⟩
  | 10 => ⟨S64x1, .f32⟩
  | 11 => ⟨S64x1, .f32⟩
  | 12 => ⟨S_, .f32⟩
  | 13 => ⟨S64x1, .f32⟩
  | 14 => ⟨S64x1, .f32⟩
  | 15 => ⟨S64x1, .f32⟩
  | 16 => ⟨S64x1, .f32⟩
  | 17 => ⟨S64x1, .f32⟩
  | 18 => ⟨S64x1, .f32⟩
  | 19 => ⟨S64x1, .f32⟩
  | 20 => ⟨S64x1, .f32⟩
  | 21 => ⟨S64x256x4096, .f32⟩
  | 22 => ⟨S256x1, .f32⟩
  | 23 => ⟨S256x1, .f32⟩
  | 24 => ⟨S_, .f32⟩
  | 25 => ⟨S256x1, .f32⟩
  | 26 => ⟨S256x1, .f32⟩
  | 27 => ⟨S_, .f32⟩
  | 28 => ⟨S256x1, .f32⟩
  | 29 => ⟨S256x1, .f32⟩
  | 30 => ⟨S256x1, .f32⟩
  | 31 => ⟨S256x1, .f32⟩
  | 32 => ⟨S_, .f32⟩
  | 33 => ⟨S256x1, .f32⟩
  | 34 => ⟨S256x1, .f32⟩
  | 35 => ⟨S256x1, .f32⟩
  | 36 => ⟨S256x1, .f32⟩
  | 37 => ⟨S256x1, .f32⟩
  | 38 => ⟨S256x1, .f32⟩
  | 39 => ⟨S256x1, .f32⟩
  | 40 => ⟨S256x1, .f32⟩
  | 41 => ⟨S64x256x4096, .f32⟩
  | 42 => ⟨S64x256x64x64, .f32⟩
  | _ => ⟨S64x128x32x32, .f32⟩

abbrev hbmTy (i : Nat) : BufTy := match i / 128 with
  | 0 => hbmTy0_0 i
  | 1 => hbmTy0_1 i
  | _ => ⟨S64x128x32x32, .f32⟩

abbrev bufTy : (tb : Table) → Fin (tcTables nBuf tb) → BufTy
  | .hbm, ⟨i, _⟩ => hbmTy i
  | .local _ .vmem, ⟨0, _⟩ => ⟨S1x128x1024, .f32⟩
  | .local _ .vmem, ⟨1, _⟩ => ⟨S1x128x1024, .f32⟩
  | .local _ .vmem, ⟨2, _⟩ => ⟨S64x128, .f32⟩
  | .local _ .vmem, ⟨3, _⟩ => ⟨S1x64x1024, .f32⟩
  | .local _ .vmem, ⟨4, _⟩ => ⟨S1x64x1024, .f32⟩
  | .local _ .vmem, ⟨5, _⟩ => ⟨S64x1, .f32⟩
  | .local _ .vmem, ⟨6, _⟩ => ⟨S64x1, .f32⟩
  | .local _ .vmem, ⟨7, _⟩ => ⟨S1x64x1024, .f32⟩
  | .local _ .vmem, ⟨8, _⟩ => ⟨S1x64x1024, .f32⟩
  | .local _ .vmem, ⟨9, _⟩ => ⟨S64x1, .f32⟩
  | .local _ .vmem, ⟨10, _⟩ => ⟨S64x1, .f32⟩
  | .local _ .vmem, ⟨11, _⟩ => ⟨S9x64x64, .f32⟩
  | .local _ .vmem, ⟨12, _⟩ => ⟨S4x1024, .f32⟩
  | .local _ .vmem, ⟨13, _⟩ => ⟨S1x64x4096, .f32⟩
  | .local _ .vmem, ⟨14, _⟩ => ⟨S1x64x4096, .f32⟩
  | .local _ .vmem, ⟨15, _⟩ => ⟨S64x1, .f32⟩
  | .local _ .vmem, ⟨16, _⟩ => ⟨S64x1, .f32⟩
  | .local _ .vmem, ⟨17, _⟩ => ⟨S64x1280, .f32⟩
  | .local _ .vmem, ⟨18, _⟩ => ⟨S1x64x2048, .f32⟩
  | .local _ .vmem, ⟨19, _⟩ => ⟨S1x64x2048, .f32⟩
  | .local _ .vmem, ⟨20, _⟩ => ⟨S64x1, .f32⟩
  | .local _ .vmem, ⟨21, _⟩ => ⟨S64x1, .f32⟩
  | .local _ .vmem, ⟨22, _⟩ => ⟨S256x64, .f32⟩
  | .local _ .vmem, ⟨23, _⟩ => ⟨S1x256x2048, .f32⟩
  | .local _ .vmem, ⟨24, _⟩ => ⟨S1x256x2048, .f32⟩
  | .local _ .vmem, ⟨25, _⟩ => ⟨S256x1, .f32⟩
  | .local _ .vmem, ⟨26, _⟩ => ⟨S256x1, .f32⟩
  | .local _ .vmem, ⟨27, _⟩ => ⟨S1x128x1024, .f32⟩
  | .local _ .vmem, ⟨28, _⟩ => ⟨S1x128x1024, .f32⟩
  | .local _ .vmem, ⟨29, _⟩ => ⟨S256x128, .f32⟩
  | .local _ .vmem, ⟨30, _⟩ => ⟨S1x256x1024, .f32⟩
  | .local _ .vmem, ⟨31, _⟩ => ⟨S1x256x1024, .f32⟩
  | .local _ .vmem, ⟨32, _⟩ => ⟨S256x1, .f32⟩
  | .local _ .vmem, ⟨33, _⟩ => ⟨S256x1, .f32⟩
  | .local _ .vmem, ⟨34, _⟩ => ⟨S1x256x4096, .f32⟩
  | .local _ .vmem, ⟨35, _⟩ => ⟨S1x256x4096, .f32⟩
  | .local _ .vmem, ⟨36, _⟩ => ⟨S1x256x1024, .f32⟩
  | .local _ .vmem, ⟨37, _⟩ => ⟨S1x256x1024, .f32⟩
  | .local _ .vmem, ⟨38, _⟩ => ⟨S256x1, .f32⟩
  | .local _ .vmem, ⟨39, _⟩ => ⟨S256x1, .f32⟩
  | .local _ .vmem, ⟨40, _⟩ => ⟨S256x1, .f32⟩
  | .local _ .vmem, ⟨41, _⟩ => ⟨S256x1, .f32⟩
  | .local _ .vmem, ⟨42, _⟩ => ⟨S1x256x4096, .f32⟩
  | .local _ .vmem, ⟨43, _⟩ => ⟨S1x256x4096, .f32⟩
  | .local _ .vmem, ⟨44, _⟩ => ⟨S1x256x2048, .f32⟩
  | .local _ .vmem, ⟨45, _⟩ => ⟨S1x256x2048, .f32⟩
  | .local _ .vmem, ⟨46, _⟩ => ⟨S64x256, .f32⟩
  | .local _ .vmem, ⟨47, _⟩ => ⟨S1x64x2048, .f32⟩
  | .local _ .vmem, ⟨48, _⟩ => ⟨S1x64x2048, .f32⟩
  | .local _ .vmem, ⟨49, _⟩ => ⟨S64x1, .f32⟩
  | .local _ .vmem, ⟨50, _⟩ => ⟨S64x1, .f32⟩
  | .local _ .vmem, ⟨51, _⟩ => ⟨S1x64x4096, .f32⟩
  | .local _ .vmem, ⟨52, _⟩ => ⟨S1x64x4096, .f32⟩
  | .local _ .vmem, ⟨53, _⟩ => ⟨S64x1, .f32⟩
  | .local _ .vmem, ⟨54, _⟩ => ⟨S64x1, .f32⟩
  | .local _ .vmem, ⟨55, _⟩ => ⟨S9x64x64, .f32⟩
  | .local _ .vmem, ⟨56, _⟩ => ⟨S9x4096, .f32⟩
  | .local _ .vmem, ⟨57, _⟩ => ⟨S1x64x4096, .f32⟩
  | .local _ .vmem, ⟨58, _⟩ => ⟨S1x64x4096, .f32⟩
  | .local _ .vmem, ⟨59, _⟩ => ⟨S64x1, .f32⟩
  | .local _ .vmem, ⟨60, _⟩ => ⟨S64x1, .f32⟩
  | .local _ .vmem, ⟨61, _⟩ => ⟨S64x4352, .f32⟩
  | .local _ .vmem, ⟨62, _⟩ => ⟨S1x64x2048, .f32⟩
  | .local _ .vmem, ⟨63, _⟩ => ⟨S1x64x2048, .f32⟩
  | .local _ .vmem, ⟨64, _⟩ => ⟨S64x1, .f32⟩
  | .local _ .vmem, ⟨65, _⟩ => ⟨S64x1, .f32⟩
  | .local _ .vmem, ⟨66, _⟩ => ⟨S256x64, .f32⟩
  | .local _ .vmem, ⟨67, _⟩ => ⟨S1x256x2048, .f32⟩
  | .local _ .vmem, ⟨68, _⟩ => ⟨S1x256x2048, .f32⟩
  | .local _ .vmem, ⟨69, _⟩ => ⟨S256x1, .f32⟩
  | .local _ .vmem, ⟨70, _⟩ => ⟨S256x1, .f32⟩
  | .local _ .vmem, ⟨71, _⟩ => ⟨S1x256x2048, .f32⟩
  | .local _ .vmem, ⟨72, _⟩ => ⟨S1x256x2048, .f32⟩
  | .local _ .vmem, ⟨73, _⟩ => ⟨S1x256x2048, .f32⟩
  | .local _ .vmem, ⟨74, _⟩ => ⟨S1x256x2048, .f32⟩
  | .local _ .vmem, ⟨75, _⟩ => ⟨S256x1, .f32⟩
  | .local _ .vmem, ⟨76, _⟩ => ⟨S256x1, .f32⟩
  | .local _ .vmem, ⟨77, _⟩ => ⟨S1x256x2048, .f32⟩
  | .local _ .vmem, ⟨78, _⟩ => ⟨S1x256x2048, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1_0 : Ref sig .tc := ⟨.hbm, 25, rfl⟩
abbrev main_v1_1 : Ref sig .tc := ⟨.hbm, 26, rfl⟩
abbrev main_v1_2 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16_0 : Ref sig .tc := ⟨.hbm, 45, rfl⟩
abbrev main_v16_1 : Ref sig .tc := ⟨.hbm, 46, rfl⟩
abbrev main_v16_2 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31_0 : Ref sig .tc := ⟨.hbm, 65, rfl⟩
abbrev main_v31_1 : Ref sig .tc := ⟨.hbm, 66, rfl⟩
abbrev main_v31_2 : Ref sig .tc := ⟨.hbm, 67, rfl⟩
abbrev main_cst_5 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_7 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46_0 : Ref sig .tc := ⟨.hbm, 85, rfl⟩
abbrev main_v46_1 : Ref sig .tc := ⟨.hbm, 86, rfl⟩
abbrev main_v46_2 : Ref sig .tc := ⟨.hbm, 87, rfl⟩
abbrev main_cst_8 : Ref sig .tc := ⟨.hbm, 88, rfl⟩
abbrev main_v47 : Ref sig .tc := ⟨.hbm, 89, rfl⟩
abbrev main_v48 : Ref sig .tc := ⟨.hbm, 90, rfl⟩
abbrev main_cst_9 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_10 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65_0 : Ref sig .tc := ⟨.hbm, 109, rfl⟩
abbrev main_v65_1 : Ref sig .tc := ⟨.hbm, 110, rfl⟩
abbrev main_v65_2 : Ref sig .tc := ⟨.hbm, 111, rfl⟩
abbrev main_cst_11 : Ref sig .tc := ⟨.hbm, 112, rfl⟩
abbrev main_v66 : Ref sig .tc := ⟨.hbm, 113, rfl⟩
abbrev main_v67 : Ref sig .tc := ⟨.hbm, 114, rfl⟩
abbrev main_cst_12 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_13 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80_0 : Ref sig .tc := ⟨.hbm, 129, rfl⟩
abbrev main_v80_1 : Ref sig .tc := ⟨.hbm, 130, rfl⟩
abbrev main_v80_2 : Ref sig .tc := ⟨.hbm, 131, rfl⟩
abbrev main_cst_14 : Ref sig .tc := ⟨.hbm, 132, rfl⟩
abbrev main_v81 : Ref sig .tc := ⟨.hbm, 133, rfl⟩
abbrev main_v82 : Ref sig .tc := ⟨.hbm, 134, rfl⟩
abbrev main_cst_15 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_16 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95_0 : Ref sig .tc := ⟨.hbm, 149, rfl⟩
abbrev main_v95_1 : Ref sig .tc := ⟨.hbm, 150, rfl⟩
abbrev main_v95_2 : Ref sig .tc := ⟨.hbm, 151, rfl⟩
abbrev main_cst_17 : Ref sig .tc := ⟨.hbm, 152, rfl⟩
abbrev main_v96 : Ref sig .tc := ⟨.hbm, 153, rfl⟩
abbrev main_v97 : Ref sig .tc := ⟨.hbm, 154, rfl⟩
abbrev main_cst_18 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_19 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg6_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg5_1 : Ref sig .tc := ⟨.vmem, 58, rfl⟩
abbrev cc6_stg6_0 : Ref sig .tc := ⟨.vmem, 59, rfl⟩
abbrev cc6_stg7_0 : Ref sig .tc := ⟨.vmem, 60, rfl⟩
abbrev cc6_scratch0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg4_1 : Ref sig .tc := ⟨.vmem, 68, rfl⟩
abbrev cc7_stg5_0 : Ref sig .tc := ⟨.vmem, 69, rfl⟩
abbrev cc7_stg6_0 : Ref sig .tc := ⟨.vmem, 70, rfl⟩
abbrev cc8_stg0_0 : Ref sig .tc := ⟨.vmem, 71, rfl⟩
abbrev cc8_stg0_1 : Ref sig .tc := ⟨.vmem, 72, rfl⟩
abbrev cc8_stg1_0 : Ref sig .tc := ⟨.vmem, 73, rfl⟩
abbrev cc8_stg1_1 : Ref sig .tc := ⟨.vmem, 74, rfl⟩
abbrev cc8_stg2_0 : Ref sig .tc := ⟨.vmem, 75, rfl⟩
abbrev cc8_stg3_0 : Ref sig .tc := ⟨.vmem, 76, rfl⟩
abbrev cc8_stg4_0 : Ref sig .tc := ⟨.vmem, 77, rfl⟩
abbrev cc8_stg4_1 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem6_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem4_0 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem6_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem2_1 : DmaSem sig := 47
abbrev cc5_sem3_0 : DmaSem sig := 48
abbrev cc5_sem4_0 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem5_1 : DmaSem sig := 57
abbrev cc6_sem6_0 : DmaSem sig := 58
abbrev cc6_sem7_0 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem4_1 : DmaSem sig := 66
abbrev cc7_sem5_0 : DmaSem sig := 67
abbrev cc7_sem6_0 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem3_0 : DmaSem sig := 74
abbrev cc8_sem4_0 : DmaSem sig := 75
abbrev cc8_sem4_1 : DmaSem sig := 76

abbrev nD : Nat := 1
abbrev τ : Topo := Topo.v7x

variable {F : FTy → Type} [FloatOps F]

abbrev grid0 : Pipeline.Grid := ⟨2, ![64, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x64x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨2, ![64, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x64x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S256x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev grid3 : Pipeline.Grid := ⟨2, ![64, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S256x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev grid4 : Pipeline.Grid := ⟨1, ![64], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x256x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1x256x4096 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨2, ![64, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S64x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1x64x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S64x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S64x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev grid6 : Pipeline.Grid := ⟨1, ![64], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1x64x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S9x64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S9x4096 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1x64x4096 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S64x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨2, ![64, 2], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1x64x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S64x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S256x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1x256x2048 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 1 → Memref sig .tc .vmem S256x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 1 → Memref sig .tc .vmem S256x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev grid8 : Pipeline.Grid := ⟨2, ![64, 2], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage8_0 : Fin 2 → Memref sig .tc .vmem S1x256x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x256x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S256x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S256x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S1x256x2048 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

class Facts₀ : Prop where
  shapeCasts_S64x128x32x32_S64x128x1024 : S64x128x32x32.ShapeCasts S64x128x1024
  inb_S64x1_S64x1_0_0 : ∀ a, (![0, 0] : Fin 2 → Nat) a + S64x1.size a ≤ S64x1.size a
  h_S64x1 : 0 < S64x1.numel
  inb_S64x128_S64x128_0_0 : ∀ a, (![0, 0] : Fin 2 → Nat) a + S64x128.size a ≤ S64x128.size a
  h_S64x128 : 0 < S64x128.numel
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S64x1_S64x1 : S64x1.ShapeCasts S64x1
  reduces_S64x1024_S64 : S64x1024.Reduces [1] S64
  shapeCasts_S64_S64x1 : S64.ShapeCasts S64x1
  bcast_S_S64x1 : S_.BroadcastsInDim S64x1 (![] : Fin 0 → Fin S64x1.rank)
  inb_S64x1280_S64x1280_0_0 : ∀ a, (![0, 0] : Fin 2 → Nat) a + S64x1280.size a ≤ S64x1280.size a
  h_S64x1280 : 0 < S64x1280.numel
  shapeCasts_S64x1280_S64x1280 : S64x1280.ShapeCasts S64x1280
  broadcasts_S64x1_S64x1024 : S64x1.Broadcasts S64x1024
  inb_S64x1280_S64x1024_0_128 : ∀ a, (![0, 128] : Fin 2 → Nat) a + S64x1024.size a ≤ S64x1280.size a
  h_S64x1024 : 0 < S64x1024.numel
  shapeCasts_S64x1024_S64x1024 : S64x1024.ShapeCasts S64x1024
  inb_S4x1024_S1x1024_0_0 : ∀ a, (![0, 0] : Fin 2 → Nat) a + S1x1024.size a ≤ S4x1024.size a
  h_S1x1024 : 0 < S1x1024.numel
  broadcasts_S1x1024_S64x1024 : S1x1024.Broadcasts S64x1024
  inb_S64x1280_S64x1024_0_129 : ∀ a, (![0, 129] : Fin 2 → Nat) a + S64x1024.size a ≤ S64x1280.size a
  inb_S4x1024_S1x1024_1_0 : ∀ a, (![1, 0] : Fin 2 → Nat) a + S1x1024.size a ≤ S4x1024.size a
  inb_S64x1280_S64x1024_0_160 : ∀ a, (![0, 160] : Fin 2 → Nat) a + S64x1024.size a ≤ S64x1280.size a
  inb_S4x1024_S1x1024_2_0 : ∀ a, (![2, 0] : Fin 2 → Nat) a + S1x1024.size a ≤ S4x1024.size a
  inb_S64x1280_S64x1024_0_161 : ∀ a, (![0, 161] : Fin 2 → Nat) a + S64x1024.size a ≤ S64x1280.size a
  inb_S4x1024_S1x1024_3_0 : ∀ a, (![3, 0] : Fin 2 → Nat) a + S1x1024.size a ≤ S4x1024.size a
  inb_S9x64x64_S1x64x64_0_0_0 : ∀ a, (![0, 0, 0] : Fin 3 → Nat) a + S1x64x64.size a ≤ S9x64x64.size a
  h_S1x64x64 : 0 < S1x64x64.numel
  shapeCasts_S1x64x64_S64x64 : S1x64x64.ShapeCasts S64x64
  inb_S9x64x64_S1x64x64_1_0_0 : ∀ a, (![1, 0, 0] : Fin 3 → Nat) a + S1x64x64.size a ≤ S9x64x64.size a
  inb_S9x64x64_S1x64x64_2_0_0 : ∀ a, (![2, 0, 0] : Fin 3 → Nat) a + S1x64x64.size a ≤ S9x64x64.size a
  inb_S9x64x64_S1x64x64_3_0_0 : ∀ a, (![3, 0, 0] : Fin 3 → Nat) a + S1x64x64.size a ≤ S9x64x64.size a
  inb_S9x64x64_S1x64x64_4_0_0 : ∀ a, (![4, 0, 0] : Fin 3 → Nat) a + S1x64x64.size a ≤ S9x64x64.size a
  inb_S9x64x64_S1x64x64_5_0_0 : ∀ a, (![5, 0, 0] : Fin 3 → Nat) a + S1x64x64.size a ≤ S9x64x64.size a
  inb_S9x64x64_S1x64x64_6_0_0 : ∀ a, (![6, 0, 0] : Fin 3 → Nat) a + S1x64x64.size a ≤ S9x64x64.size a
  inb_S9x64x64_S1x64x64_7_0_0 : ∀ a, (![7, 0, 0] : Fin 3 → Nat) a + S1x64x64.size a ≤ S9x64x64.size a
  inb_S9x64x64_S1x64x64_8_0_0 : ∀ a, (![8, 0, 0] : Fin 3 → Nat) a + S1x64x64.size a ≤ S9x64x64.size a
  inb_S1x64x4096_S1x64x1024_0_0_0 : ∀ a, (![0, 0, 0] : Fin 3 → Nat) a + S1x64x1024.size a ≤ S1x64x4096.size a
  inb_S1x64x4096_S1x64x1024_0_0_1024 : ∀ a, (![0, 0, 1024] : Fin 3 → Nat) a + S1x64x1024.size a ≤ S1x64x4096.size a
  inb_S1x64x4096_S1x64x1024_0_0_2048 : ∀ a, (![0, 0, 2048] : Fin 3 → Nat) a + S1x64x1024.size a ≤ S1x64x4096.size a
  inb_S1x64x4096_S1x64x1024_0_0_3072 : ∀ a, (![0, 0, 3072] : Fin 3 → Nat) a + S1x64x1024.size a ≤ S1x64x4096.size a
  inb_S256x1_S256x1_0_0 : ∀ a, (![0, 0] : Fin 2 → Nat) a + S256x1.size a ≤ S256x1.size a
  h_S256x1 : 0 < S256x1.numel
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  broadcasts_S64x1_S64x2048 : S64x1.Broadcasts S64x2048
  inb_S256x64_S256x64_0_0 : ∀ a, (![0, 0] : Fin 2 → Nat) a + S256x64.size a ≤ S256x64.size a
  h_S256x64 : 0 < S256x64.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1_S256x1 : S256x1.ShapeCasts S256x1
  reduces_S256x2048_S256 : S256x2048.Reduces [1] S256
  shapeCasts_S256_S256x1 : S256.ShapeCasts S256x1
  bcast_S_S256x1 : S_.BroadcastsInDim S256x1 (![] : Fin 0 → Fin S256x1.rank)
  inb_S256x128_S256x128_0_0 : ∀ a, (![0, 0] : Fin 2 → Nat) a + S256x128.size a ≤ S256x128.size a
  h_S256x128 : 0 < S256x128.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  reduces_S256x1024_S256 : S256x1024.Reduces [1] S256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  broadcasts_S256x1_S256x4096 : S256x1.Broadcasts S256x4096
  shapeCasts_S256x4096_S1x256x4096 : S256x4096.ShapeCasts S1x256x4096
  slices_S256x4096_o0_0_S256x1024 : S256x4096.Slices ![0, 0] S256x1024
  broadcasts_S256x1_S256x1024 : S256x1.Broadcasts S256x1024
  inb_S1x256x4096_S1x256x1024_0_0_0 : ∀ a, (![0, 0, 0] : Fin 3 → Nat) a + S1x256x1024.size a ≤ S1x256x4096.size a
  shapeCasts_S64x256x4096_S64x256x2x2x32x32 : S64x256x4096.ShapeCasts S64x256x2x2x32x32
  transposes_S64x256x2x2x32x32_S64x256x32x2x32x2_0_1_4_2_5_3 : S64x256x2x2x32x32.Transposes [0, 1, 4, 2, 5, 3] S64x256x32x2x32x2
  shapeCasts_S64x256x32x2x32x2_S64x256x4096 : S64x256x32x2x32x2.ShapeCasts S64x256x4096
  inb_S64x256_S64x256_0_0 : ∀ a, (![0, 0] : Fin 2 → Nat) a + S64x256.size a ≤ S64x256.size a
  h_S64x256 : 0 < S64x256.numel
  shapeCasts_S64x2048_S1x64x2048 : S64x2048.ShapeCasts S1x64x2048
  reduces_S64x2048_S64 : S64x2048.Reduces [1] S64
  inb_S64x4352_S64x4352_0_0 : ∀ a, (![0, 0] : Fin 2 → Nat) a + S64x4352.size a ≤ S64x4352.size a
  h_S64x4352 : 0 < S64x4352.numel
  shapeCasts_S64x4352_S64x4352 : S64x4352.ShapeCasts S64x4352
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  broadcasts_S64x1_S64x4096 : S64x1.Broadcasts S64x4096
  inb_S64x4352_S64x4096_0_128 : ∀ a, (![0, 128] : Fin 2 → Nat) a + S64x4096.size a ≤ S64x4352.size a
  h_S64x4096 : 0 < S64x4096.numel
  shapeCasts_S64x4096_S64x4096 : S64x4096.ShapeCasts S64x4096
  inb_S64x4352_S64x4096_0_193 : ∀ a, (![0, 193] : Fin 2 → Nat) a + S64x4096.size a ≤ S64x4352.size a
  inb_S9x4096_S1x4096_0_0 : ∀ a, (![0, 0] : Fin 2 → Nat) a + S1x4096.size a ≤ S9x4096.size a
  h_S1x4096 : 0 < S1x4096.numel
  broadcasts_S1x4096_S64x4096 : S1x4096.Broadcasts S64x4096
  inb_S64x4352_S64x4096_0_192 : ∀ a, (![0, 192] : Fin 2 → Nat) a + S64x4096.size a ≤ S64x4352.size a
  inb_S9x4096_S1x4096_1_0 : ∀ a, (![1, 0] : Fin 2 → Nat) a + S1x4096.size a ≤ S9x4096.size a
  inb_S64x4352_S64x4096_0_191 : ∀ a, (![0, 191] : Fin 2 → Nat) a + S64x4096.size a ≤ S64x4352.size a
  inb_S9x4096_S1x4096_2_0 : ∀ a, (![2, 0] : Fin 2 → Nat) a + S1x4096.size a ≤ S9x4096.size a
  inb_S64x4352_S64x4096_0_129 : ∀ a, (![0, 129] : Fin 2 → Nat) a + S64x4096.size a ≤ S64x4352.size a
  inb_S9x4096_S1x4096_3_0 : ∀ a, (![3, 0] : Fin 2 → Nat) a + S1x4096.size a ≤ S9x4096.size a
  inb_S9x4096_S1x4096_4_0 : ∀ a, (![4, 0] : Fin 2 → Nat) a + S1x4096.size a ≤ S9x4096.size a
  inb_S64x4352_S64x4096_0_127 : ∀ a, (![0, 127] : Fin 2 → Nat) a + S64x4096.size a ≤ S64x4352.size a
  inb_S9x4096_S1x4096_5_0 : ∀ a, (![5, 0] : Fin 2 → Nat) a + S1x4096.size a ≤ S9x4096.size a
  inb_S64x4352_S64x4096_0_65 : ∀ a, (![0, 65] : Fin 2 → Nat) a + S64x4096.size a ≤ S64x4352.size a
  inb_S9x4096_S1x4096_6_0 : ∀ a, (![6, 0] : Fin 2 → Nat) a + S1x4096.size a ≤ S9x4096.size a
  inb_S64x4352_S64x4096_0_64 : ∀ a, (![0, 64] : Fin 2 → Nat) a + S64x4096.size a ≤ S64x4352.size a
  inb_S9x4096_S1x4096_7_0 : ∀ a, (![7, 0] : Fin 2 → Nat) a + S1x4096.size a ≤ S9x4096.size a
  inb_S64x4352_S64x4096_0_63 : ∀ a, (![0, 63] : Fin 2 → Nat) a + S64x4096.size a ≤ S64x4352.size a
  inb_S9x4096_S1x4096_8_0 : ∀ a, (![8, 0] : Fin 2 → Nat) a + S1x4096.size a ≤ S9x4096.size a
  shapeCasts_S64x4096_S1x64x4096 : S64x4096.ShapeCasts S1x64x4096
  reduces_S64x4096_S64 : S64x4096.Reduces [1] S64
  broadcasts_S256x1_S256x2048 : S256x1.Broadcasts S256x2048
  shapeCasts_S64x256x4096_S64x256x64x64 : S64x256x4096.ShapeCasts S64x256x64x64
  dot_S64x128_S128x1024_S64x1024_1_0_0_1_n_n_wf : DotDims.WF S64x128 S128x1024 S64x1024 [1] [0] [0] [1] [] []
  dot_S64x64_S64x1024_S64x1024_1_0_0_1_n_n_wf : DotDims.WF S64x64 S64x1024 S64x1024 [1] [0] [0] [1] [] []
  dot_S256x64_S64x2048_S256x2048_1_0_0_1_n_n_wf : DotDims.WF S256x64 S64x2048 S256x2048 [1] [0] [0] [1] [] []
  dot_S256x128_S128x1024_S256x1024_1_0_0_1_n_n_wf : DotDims.WF S256x128 S128x1024 S256x1024 [1] [0] [0] [1] [] []
  dot_S64x256_S256x2048_S64x2048_1_0_0_1_n_n_wf : DotDims.WF S64x256 S256x2048 S64x2048 [1] [0] [0] [1] [] []
  dot_S64x64_S64x4096_S64x4096_1_0_0_1_n_n_wf : DotDims.WF S64x64 S64x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S64x128x1024.size a
  hwx0_0 : ∀ i : grid0.Coords, EltTy.bits .f32 = 32 ∨ (Rect.block (s := S64x128x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S64x64x1024.size a
  hwx0_2 : ∀ i : grid0.Coords, EltTy.bits .f32 = 32 ∨ (Rect.block (s := S64x64x1024) S1x64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S64x64x1024.size a
  hwx1_0 : ∀ i : grid1.Coords, EltTy.bits .f32 = 32 ∨ (Rect.block (s := S64x64x1024) S1x64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64x64.size a ≤ S9x64x64.size a
  hwx1_3 : ∀ i : grid1.Coords, EltTy.bits .f32 = 32 ∨ (Rect.block (s := S9x64x64) S9x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x1024.size a ≤ S4x1024.size a
  hwx1_4 : ∀ i : grid1.Coords, EltTy.bits .f32 = 32 ∨ (Rect.block (s := S4x1024) S4x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x4096.size a ≤ S64x64x4096.size a
  hwx1_5 : ∀ i : grid1.Coords, EltTy.bits .f32 = 32 ∨ (Rect.block (s := S64x64x4096) S1x64x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x2048.size a ≤ S64x64x4096.size a
  hwx2_0 : ∀ i : grid2.Coords, EltTy.bits .f32 = 32 ∨ (Rect.block (s := S64x64x4096) S1x64x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x2048.size a ≤ S64x256x4096.size a
  hwx2_4 : ∀ i : grid2.Coords, EltTy.bits .f32 = 32 ∨ (Rect.block (s := S64x256x4096) S1x256x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x1.size a ≤ S256x1.size a
  hwx2_6 : ∀ i : grid2.Coords, EltTy.bits .f32 = 32 ∨ (Rect.block (s := S256x1) S256x1.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x128x1024.size a ≤ S64x128x1024.size a
  hwx3_0 : ∀ i : grid3.Coords, EltTy.bits .f32 = 32 ∨ (Rect.block (s := S64x128x1024) S1x128x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x1024.size a ≤ S64x256x1024.size a
  hwx3_2 : ∀ i : grid3.Coords, EltTy.bits .f32 = 32 ∨ (Rect.block (s := S64x256x1024) S1x256x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S256x1.size a
  hwx3_3 : ∀ i : grid3.Coords, EltTy.bits .f32 = 32 ∨ (Rect.block (s := S256x1) S256x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x1.size a ≤ S256x1.size a
  hwx3_4 : ∀ i : grid3.Coords, EltTy.bits .f32 = 32 ∨ (Rect.block (s := S256x1) S256x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x4096.size a ≤ S64x256x4096.size a
  hwx4_0 : ∀ i : grid4.Coords, EltTy.bits .f32 = 32 ∨ (Rect.block (s := S64x256x4096) S1x256x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x256x1024.size a ≤ S64x256x1024.size a
  hwx4_1 : ∀ i : grid4.Coords, EltTy.bits .f32 = 32 ∨ (Rect.block (s := S64x256x1024) S1x256x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x1.size a ≤ S256x1.size a
  hwx4_2 : ∀ i : grid4.Coords, EltTy.bits .f32 = 32 ∨ (Rect.block (s := S256x1) S256x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x1.size a ≤ S256x1.size a
  hwx4_3 : ∀ i : grid4.Coords, EltTy.bits .f32 = 32 ∨ (Rect.block (s := S256x1) S256x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x1.size a ≤ S256x1.size a
  hwx4_4 : ∀ i : grid4.Coords, EltTy.bits .f32 = 32 ∨ (Rect.block (s := S256x1) S256x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x1.size a ≤ S256x1.size a
  hwx4_5 : ∀ i : grid4.Coords, EltTy.bits .f32 = 32 ∨ (Rect.block (s := S256x1) S256x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x256x4096.size a ≤ S64x256x4096.size a
  hwx4_6 : ∀ i : grid4.Coords, EltTy.bits .f32 = 32 ∨ (Rect.block (s := S64x256x4096) S1x256x4096.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x256x2048.size a ≤ S64x256x4096.size a
  hwx5_0 : ∀ i : grid5.Coords, EltTy.bits .f32 = 32 ∨ (Rect.block (s := S64x256x4096) S1x256x2048.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x256.size a ≤ S64x256.size a
  hwx5_1 : ∀ i : grid5.Coords, EltTy.bits .f32 = 32 ∨ (Rect.block (s := S64x256) S64x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x64x2048.size a ≤ S64x64x4096.size a
  hwx5_2 : ∀ i : grid5.Coords, EltTy.bits .f32 = 32 ∨ (Rect.block (s := S64x64x4096) S1x64x2048.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x1.size a ≤ S64x1.size a
  hwx5_3 : ∀ i : grid5.Coords, EltTy.bits .f32 = 32 ∨ (Rect.block (s := S64x1) S64x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x1.size a ≤ S64x1.size a
  hwx5_4 : ∀ i : grid5.Coords, EltTy.bits .f32 = 32 ∨ (Rect.block (s := S64x1) S64x1.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x64x4096.size a ≤ S64x64x4096.size a
  hwx6_0 : ∀ i : grid6.Coords, EltTy.bits .f32 = 32 ∨ (Rect.block (s := S64x64x4096) S1x64x4096.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S9x64x64.size a ≤ S9x64x64.size a
  hwx6_3 : ∀ i : grid6.Coords, EltTy.bits .f32 = 32 ∨ (Rect.block (s := S9x64x64) S9x64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S9x4096.size a ≤ S9x4096.size a
  hwx6_4 : ∀ i : grid6.Coords, EltTy.bits .f32 = 32 ∨ (Rect.block (s := S9x4096) S9x4096.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x64x4096.size a ≤ S64x64x4096.size a
  hwx6_5 : ∀ i : grid6.Coords, EltTy.bits .f32 = 32 ∨ (Rect.block (s := S64x64x4096) S1x64x4096.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x1.size a ≤ S64x1.size a
  hwx6_6 : ∀ i : grid6.Coords, EltTy.bits .f32 = 32 ∨ (Rect.block (s := S64x1) S64x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x1.size a ≤ S64x1.size a
  hwx6_7 : ∀ i : grid6.Coords, EltTy.bits .f32 = 32 ∨ (Rect.block (s := S64x1) S64x1.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x64x2048.size a ≤ S64x64x4096.size a
  hwx7_0 : ∀ i : grid7.Coords, EltTy.bits .f32 = 32 ∨ (Rect.block (s := S64x64x4096) S1x64x2048.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x1.size a ≤ S64x1.size a
  hwx7_2 : ∀ i : grid7.Coords, EltTy.bits .f32 = 32 ∨ (Rect.block (s := S64x1) S64x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x64.size a ≤ S256x64.size a
  hwx7_3 : ∀ i : grid7.Coords, EltTy.bits .f32 = 32 ∨ (Rect.block (s := S256x64) S256x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x256x2048.size a ≤ S64x256x4096.size a
  hwx7_4 : ∀ i : grid7.Coords, EltTy.bits .f32 = 32 ∨ (Rect.block (s := S64x256x4096) S1x256x2048.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x1.size a ≤ S256x1.size a
  hwx7_5 : ∀ i : grid7.Coords, EltTy.bits .f32 = 32 ∨ (Rect.block (s := S256x1) S256x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S256x1.size a ≤ S256x1.size a
  hwx7_6 : ∀ i : grid7.Coords, EltTy.bits .f32 = 32 ∨ (Rect.block (s := S256x1) S256x1.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x256x2048.size a ≤ S64x256x4096.size a
  hwx8_0 : ∀ i : grid8.Coords, EltTy.bits .f32 = 32 ∨ (Rect.block (s := S64x256x4096) S1x256x2048.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x256x2048.size a ≤ S64x256x4096.size a
  hwx8_1 : ∀ i : grid8.Coords, EltTy.bits .f32 = 32 ∨ (Rect.block (s := S64x256x4096) S1x256x2048.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x1.size a ≤ S256x1.size a
  hwx8_2 : ∀ i : grid8.Coords, EltTy.bits .f32 = 32 ∨ (Rect.block (s := S256x1) S256x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x1.size a ≤ S256x1.size a
  hwx8_3 : ∀ i : grid8.Coords, EltTy.bits .f32 = 32 ∨ (Rect.block (s := S256x1) S256x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x256x2048.size a ≤ S64x256x4096.size a
  hwx8_4 : ∀ i : grid8.Coords, EltTy.bits .f32 = 32 ∨ (Rect.block (s := S64x256x4096) S1x256x2048.size (cc8_transform_4 i) (hinb8_4 i)).WholeWords (EltTy.packing .f32)

variable [Facts₀]

def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S64x256_S256x2048_S64x2048_1_0_0_1_n_n : DotDims S64x256 S256x2048 S64x2048 where
  lhsContracting := [1]
  rhsContracting := [0]
  lhsNonContracting := [0]
  rhsNonContracting := [1]
  lhsBatch := []
  rhsBatch := []
  wf := dot_S64x256_S256x2048_S64x2048_1_0_0_1_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf

abbrev win0_0 : Pipeline.Window sig grid0 :=
  Pipeline.Window.ofSpec (Memref.whole main_v0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S64x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S64x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S9x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S4x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16_0) S1x64x4096.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16_1) S64x1.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16_2) S64x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v16_0) S1x64x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31_0) S1x256x2048.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v31_1) S256x1.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31_2) S256x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v0) S1x128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46_0) S1x256x1024.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46_1) S256x1.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46_2) S256x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v31_0) S1x256x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46_0) S1x256x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S256x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S256x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S256x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S256x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61) S1x256x4096.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v64) S1x256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S64x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65_0) S1x64x2048.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v65_1) S64x1.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65_2) S64x1.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v65_0) S1x64x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S9x64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg17) S9x4096.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v80_0) S1x64x4096.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v80_1) S64x1.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v80_2) S64x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v80_0) S1x64x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S64x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S64x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg15) S256x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v95_0) S1x256x2048.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v95_1) S256x1.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v95_2) S256x1.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v95_0) S1x256x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v64) S1x256x2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v106) S256x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v109) S256x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v110) S1x256x2048.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== Proof.RefR0.lean ====
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: `cc0__mm_stats_kernel` at the entry contents `V`

The kernel computes y = W·x into window 2's block at each grid point and adds the block's per-channel sum and sum of
squares into windows 3 and 4, whose index map is constant; both are zeroed under the body's one conditional at the
first point. -/

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not: unfetched, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched it there or
    not: unfetched, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one conditional -/

/-- Its condition from the grid coordinates: both are zero. -/
abbrev cond0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only. -/
theorem hcond0 : ∀ t : Fin cfg0.N, cond0 (grid0.coords t) ↔ t.val = 0 :=
  (by decide +kernel : ∀ t : Fin grid0.N, cond0 (grid0.coords t) ↔ t.val = 0)

/-! ## The body's triple, case by case -/

set_option maxHeartbeats 1000000 in
/-- AT THE FIRST POINT (the conditional taken). On whole staging memrefs, the inputs' at contents `x0`, `x1` and the
    outputs' at anything, the body runs to the continuation holding the inputs' as they were, the product block in
    window 2's buffer, and in each accumulator's buffer its update of the zero block stored under the conditional
    (the body loads the accumulator back after zeroing it). -/
theorem sound_kernel0_A (c : Dev nD) (E : Set ℕ) (i : grid0.Coords) (arg2 : Memref sig .tc .vmem S1x128x1024 .f32) (harg2 : arg2.IsWhole) (arg3 : Memref sig .tc .vmem S64x128 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (hc : cond0 i)
    (x0 : Vec F S1x128x1024 .f32) (x1 : Vec F S64x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay4 x1 x0)
            ∗ owns (c : Thread nD τ) arg5 fullShare (k0_pay5 x1 x0 (k0_pay1 (F := F)))
            ∗ owns (c : Thread nD τ) arg6 fullShare (k0_pay6 x1 x0 (k0_pay2 (F := F)))) -∗ K ⟨⟩))
      ⊢ wp frame (wpE (defs₀ (F := F)) Variants.none c none) E (cc0__mm_stats_kernel i arg2 harg2 arg3 harg3 arg4 harg4 arg5 harg5 arg6 harg6) K := by
  simp only [cc0__mm_stats_kernel_eq_skeleton]; unfold cc0__mm_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x64x1024_S1x64x1024_0_0_0 y⟩),
      View.canon_unit_zero hz3]
    simp only [View.readAt_eq_ld, View.ld_unit_zero (S := S64x128) hz2, View.ld_unit_zero (S := S1x128x1024) hz3]
  isplitl [H3]
  · iexists _; isplitr
    swap; · iexact H3
    ipureintro
    sl_unfold_run_names
    rw [View.read_writes_eq_canon _ _ _ (fun y => ⟨_, List.mem_cons_self, View.mem_set_unit_zero hz2 inb_S64x1_S64x1_0_0 y⟩),
      View.canon_cons_unit_zero (S := S64x1) hz2, View.readCov_unit_zero (S := S64x1) _ hz2]
    simp only [View.readAt_eq_ld, View.ld_unit_zero (S := S64x128) hz2, View.ld_unit_zero (S := S1x128x1024) hz3]
  iexists _; isplitr
  swap; · iexact H4
  ipureintro
  sl_unfold_run_names
  rw [View.read_writes_eq_canon _ _ _ (fun y => ⟨_, List.mem_cons_self, View.mem_set_unit_zero hz2 inb_S64x1_S64x1_0_0 y⟩),
    View.canon_cons_unit_zero (S := S64x1) hz2, View.readCov_unit_zero (S := S64x1) _ hz2]
  simp only [View.readAt_eq_ld, View.ld_unit_zero (S := S64x128) hz2, View.ld_unit_zero (S := S1x128x1024) hz3]

set_option maxHeartbeats 1000000 in
/-- AT EVERY LATER POINT (the conditional not taken). The same, the accumulators' buffers handed at contents `xo3`,
    `xo4` and left at their updates of those. -/
theorem sound_kernel0_B (c : Dev nD) (E : Set ℕ) (i : grid0.Coords) (arg2 : Memref sig .tc .vmem S1x128x1024 .f32) (harg2 : arg2.IsWhole) (arg3 : Memref sig .tc .vmem S64x128 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (hc : ¬ cond0 i)
    (x0 : Vec F S1x128x1024 .f32) (x1 : Vec F S64x128 .f32) (xo3 xo4 : Vec F S64x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo3 ∗ owns (c : Thread nD τ) arg6 fullShare xo4
        ∗ (iprop(owns (c : Thread nD τ) arg2 fullShare x0 ∗ owns (c : Thread nD τ) arg3 fullShare x1
            ∗ owns (c : Thread nD τ) arg4 fullShare (k0_pay4 x1 x0)
            ∗ owns (c : Thread nD τ) arg5 fullShare (k0_pay5 x1 x0 xo3)
            ∗ owns (c : Thread nD τ) arg6 fullShare (k0_pay6 x1 x0 xo4)) -∗ K ⟨⟩))
      ⊢ wp frame (wpE (defs₀ (F := F)) Variants.none c none) E (cc0__mm_stats_kernel i arg2 harg2 arg3 harg3 arg4 harg4 arg5 harg5 arg6 harg6) K := by
  simp only [cc0__mm_stats_kernel_eq_skeleton]; unfold cc0__mm_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0 hf1 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x64x1024_S1x64x1024_0_0_0 y⟩),
      View.canon_unit_zero hz3]
    simp only [View.readAt_eq_ld, View.ld_unit_zero (S := S64x128) hz2, View.ld_unit_zero (S := S1x128x1024) hz3]
  isplitl [H3]
  · iexists _; isplitr
    swap; · iexact H3
    ipureintro
    rw [View.read_writes_eq_canon _ _ _ (fun y => ⟨_, List.mem_singleton_self _, View.mem_set_unit_zero hz2 inb_S64x1_S64x1_0_0 y⟩),
      View.canon_unit_zero hz2]
    simp only [View.readAt_eq_ld, View.ld_unit_zero (S := S64x128) hz2, View.ld_unit_zero (S := S1x128x1024) hz3, View.ld_unit_zero (S := S64x1) hz2]
  iexists _; isplitr
  swap; · iexact H4
  ipureintro
  rw [View.read_writes_eq_canon _ _ _ (fun y => ⟨_, List.mem_singleton_self _, View.mem_set_unit_zero hz2 inb_S64x1_S64x1_0_0 y⟩),
    View.canon_unit_zero hz2]
  simp only [View.readAt_eq_ld, View.ld_unit_zero (S := S64x128) hz2, View.ld_unit_zero (S := S1x128x1024) hz3, View.ld_unit_zero (S := S64x1) hz2]

/-! ## What the accumulators hold after each point -/

/-- Window 3's staging buffer after the body at position `n`: the accumulator's update over the zero block the body has
    just stored, at the first point, and over what the point before left, at every later one (the window's index map
    is constant and it is written back after the last point only, so its buffer keeps its contents between points). -/
def outsAt0_3 (c : Dev nD) : (n : ℕ) → n < cfg0.N → Vec F S64x1 .f32
  | 0, hn => k0_pay5 (iblk0 V c 1 ⟨0, hn⟩) (iblk0 V c 0 ⟨0, hn⟩) (k0_pay1 (F := F))
  | n + 1, hn => k0_pay5 (iblk0 V c 1 ⟨n + 1, hn⟩) (iblk0 V c 0 ⟨n + 1, hn⟩) (outsAt0_3 c n (Nat.lt_of_succ_lt hn))

/-- At the first point: the update of the zero block. -/
theorem outsAt0_3_A (c : Dev nD) (t : Fin cfg0.N) (h : t.val = 0) :
    outsAt0_3 V c t.val t.isLt = k0_pay5 (iblk0 V c 1 t) (iblk0 V c 0 t) (k0_pay1 (F := F)) := by
  obtain ⟨n, hn⟩ := t
  cases n with
  | zero => rfl
  | succ n => exact absurd h (Nat.succ_ne_zero n)

/-- At a later point: the update of what the point before left. -/
theorem outsAt0_3_B (c : Dev nD) (t : Fin cfg0.N) (h : ¬ t.val = 0) :
    outsAt0_3 V c t.val t.isLt
      = k0_pay5 (iblk0 V c 1 t) (iblk0 V c 0 t) (outsAt0_3 V c (t.val - 1) (Nat.lt_of_le_of_lt (Nat.sub_le _ _) t.isLt)) := by
  obtain ⟨n, hn⟩ := t
  cases n with
  | zero => exact absurd rfl h
  | succ n => rfl

/-- Window 4's staging buffer after the body at position `n`: the accumulator's update over the zero block the body has
    just stored, at the first point, and over what the point before left, at every later one (the window's index map
    is constant and it is written back after the last point only, so its buffer keeps its contents between points). -/
def outsAt0_4 (c : Dev nD) : (n : ℕ) → n < cfg0.N → Vec F S64x1 .f32
  | 0, hn => k0_pay6 (iblk0 V c 1 ⟨0, hn⟩) (iblk0 V c 0 ⟨0, hn⟩) (k0_pay2 (F := F))
  | n + 1, hn => k0_pay6 (iblk0 V c 1 ⟨n + 1, hn⟩) (iblk0 V c 0 ⟨n + 1, hn⟩) (outsAt0_4 c n (Nat.lt_of_succ_lt hn))

/-- At the first point: the update of the zero block. -/
theorem outsAt0_4_A (c : Dev nD) (t : Fin cfg0.N) (h : t.val = 0) :
    outsAt0_4 V c t.val t.isLt = k0_pay6 (iblk0 V c 1 t) (iblk0 V c 0 t) (k0_pay2 (F := F)) := by
  obtain ⟨n, hn⟩ := t
  cases n with
  | zero => rfl
  | succ n => exact absurd h (Nat.succ_ne_zero n)

/-- At a later point: the update of what the point before left. -/
theorem outsAt0_4_B (c : Dev nD) (t : Fin cfg0.N) (h : ¬ t.val = 0) :
    outsAt0_4 V c t.val t.isLt
      = k0_pay6 (iblk0 V c 1 t) (iblk0 V c 0 t) (outsAt0_4 V c (t.val - 1) (Nat.lt_of_le_of_lt (Nat.sub_le _ _) t.isLt)) := by
  obtain ⟨n, hn⟩ := t
  cases n with
  | zero => exact absurd rfl h
  | succ n => rfl

/-! ## The pipeline's proof data -/

/-- The proof data of the pipeline on core `c`: the arrays as the region finds them; after the body at point `t`
    each input's buffer at its block, window 2's at the product block, the accumulators' at `outsAt0_3`,
    `outsAt0_4`; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (iblk0 V c 1 t) (iblk0 V c 0 t)
    | ⟨3, _⟩ => outsAt0_3 V c t.val t.isLt
    | ⟨4, _⟩ => outsAt0_4 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (iblk0 V c 1 t) (iblk0 V c 0 t) := by dsimp only [dat0]
theorem after0_3 (c : Dev nD) (t : Fin cfg0.N) : (dat0 V c).after 3 t = outsAt0_3 V c t.val t.isLt := by dsimp only [dat0]
theorem after0_4 (c : Dev nD) (t : Fin cfg0.N) : (dat0 V c).after 4 t = outsAt0_4 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point after the first, window 3's staging buffer holds what the body left at the point before: the window
    is not written back in between, is never idle and is not clipped. -/
theorem before0_3_B (c : Dev nD) (t : Fin cfg0.N) (h : ¬ t.val = 0) (d) :
    (dat0 V c).before 3 t d = outsAt0_3 V c (t.val - 1) (Nat.lt_of_le_of_lt (Nat.sub_le _ _) t.isLt) := by
  have hN : t.val < 64 := lt_of_lt_of_eq t.isLt (show cfg0.N = 64 from N_0)
  rw [Dat.before_out_kept _ 3 rfl t h (Bool.eq_false_iff.mpr fun hf => by have := (flush0_3 _).mp hf; dsimp only at this; omega)
    (fun _ => rfl) (fun _ _ => rfl)]
  dsimp only [dat0]
/-- At a point after the first, window 4's staging buffer holds what the body left at the point before: the window
    is not written back in between, is never idle and is not clipped. -/
theorem before0_4_B (c : Dev nD) (t : Fin cfg0.N) (h : ¬ t.val = 0) (d) :
    (dat0 V c).before 4 t d = outsAt0_4 V c (t.val - 1) (Nat.lt_of_le_of_lt (Nat.sub_le _ _) t.isLt) := by
  have hN : t.val < 64 := lt_of_lt_of_eq t.isLt (show cfg0.N = 64 from N_0)
  rw [Dat.before_out_kept _ 4 rfl t h (Bool.eq_false_iff.mpr fun hf => by have := (flush0_4 _).mp hf; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point. The inputs' memrefs hold their blocks; the point is the first or a later one; at a later
    one each accumulator's memref holds what the point before left; so that case's triple applies. The invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h : t.val = 0
  · rw [outsAt0_3_A V c t h, outsAt0_4_A V c t h]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond0 t).mpr h) (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_3_B V c t h, outsAt0_4_B V c t h]
    simp only [before0_3_B V c t h, before0_4_B V c t h]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun hc => h ((hcond0 t).mp hc)) (iblk0 V c 0 t) (iblk0 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RefR1Kernel.lean ====
/-
  Region 1 of the reference program: the stride-2 3×3 transposed convolution of block 0, one grid point's body.

  The body fills a [64, 1280] scratch with zeros, stores z = sin(scale · x + shift) into its lanes [128, 1152), reads
  the four slabs at lane shifts 0, 1, 32, 33 (each 1024 lanes wide), multiplies three of them by rows of the mask,
  forms the four output phases as sums of tap products  W_k · slab  over the nine taps, stores phase p into lanes
  [p · 1024, (p + 1) · 1024) of the output block, and adds each phase's row sums and row sums of squares into two
  carried [64, 1] accumulators, which it zeroes first at grid point 0.

  Here: the values the body computes, named from the input blocks over the skeleton's payloads (`p1_z`, `p1_scr`,
  `p1_v24` … `p1_v68`), what it leaves in the output block (`out1_5`) and in the accumulators over what they held
  (`acc1_6`, `acc1_7`), and the body's triple in its two control cases (`sound_kernel1_A`: the accumulators zeroed;
  `sound_kernel1_B`: carried).
-/
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the stride-2 3×3 transposed convolution of block 0 -/

/-- the condition of the body's conditional (zero the carried sums), from the grid coordinate -/
abbrev cond1_0 (i : grid1.Coords) : Prop := (Scalar.cmpi .ne (Scalar.extui (Scalar.cmpi .eq (BitVec.ofNat 32 (i 0).val) 0#32)) 0#32) = 1#1
/-- it holds at the first point only -/
theorem hcond1_0 : ∀ t : Fin cfg1.N, cond1_0 (grid1.coords t) ↔ t.val = 0 :=
  (by decide +kernel : ∀ t : Fin grid1.N, cond1_0 (grid1.coords t) ↔ t.val = 0)

/-! ## The body's accesses -/

abbrev r1_x : Rect S1x64x1024 := Rect.unit (s := S1x64x1024) ![0, 0, 0] S1x64x1024.size inb_S1x64x1024_S1x64x1024_0_0_0
abbrev r1_c : Rect S64x1 := Rect.unit (s := S64x1) ![0, 0] S64x1.size inb_S64x1_S64x1_0_0
abbrev r1_m0 : Rect S4x1024 := Rect.unit (s := S4x1024) ![0, 0] S1x1024.size inb_S4x1024_S1x1024_0_0
abbrev r1_m1 : Rect S4x1024 := Rect.unit (s := S4x1024) ![1, 0] S1x1024.size inb_S4x1024_S1x1024_1_0
abbrev r1_m2 : Rect S4x1024 := Rect.unit (s := S4x1024) ![2, 0] S1x1024.size inb_S4x1024_S1x1024_2_0
abbrev r1_m3 : Rect S4x1024 := Rect.unit (s := S4x1024) ![3, 0] S1x1024.size inb_S4x1024_S1x1024_3_0
abbrev r1_w0 : Rect S9x64x64 := Rect.unit (s := S9x64x64) ![0, 0, 0] S1x64x64.size inb_S9x64x64_S1x64x64_0_0_0
abbrev r1_w1 : Rect S9x64x64 := Rect.unit (s := S9x64x64) ![1, 0, 0] S1x64x64.size inb_S9x64x64_S1x64x64_1_0_0
abbrev r1_w2 : Rect S9x64x64 := Rect.unit (s := S9x64x64) ![2, 0, 0] S1x64x64.size inb_S9x64x64_S1x64x64_2_0_0
abbrev r1_w3 : Rect S9x64x64 := Rect.unit (s := S9x64x64) ![3, 0, 0] S1x64x64.size inb_S9x64x64_S1x64x64_3_0_0
abbrev r1_w4 : Rect S9x64x64 := Rect.unit (s := S9x64x64) ![4, 0, 0] S1x64x64.size inb_S9x64x64_S1x64x64_4_0_0
abbrev r1_w5 : Rect S9x64x64 := Rect.unit (s := S9x64x64) ![5, 0, 0] S1x64x64.size inb_S9x64x64_S1x64x64_5_0_0
abbrev r1_w6 : Rect S9x64x64 := Rect.unit (s := S9x64x64) ![6, 0, 0] S1x64x64.size inb_S9x64x64_S1x64x64_6_0_0
abbrev r1_w7 : Rect S9x64x64 := Rect.unit (s := S9x64x64) ![7, 0, 0] S1x64x64.size inb_S9x64x64_S1x64x64_7_0_0
abbrev r1_w8 : Rect S9x64x64 := Rect.unit (s := S9x64x64) ![8, 0, 0] S1x64x64.size inb_S9x64x64_S1x64x64_8_0_0
abbrev r1_sW : Rect S64x1280 := Rect.unit (s := S64x1280) ![0, 0] S64x1280.size inb_S64x1280_S64x1280_0_0
abbrev r1_s128 : Rect S64x1280 := Rect.unit (s := S64x1280) ![0, 128] S64x1024.size inb_S64x1280_S64x1024_0_128
abbrev r1_s129 : Rect S64x1280 := Rect.unit (s := S64x1280) ![0, 129] S64x1024.size inb_S64x1280_S64x1024_0_129
abbrev r1_s160 : Rect S64x1280 := Rect.unit (s := S64x1280) ![0, 160] S64x1024.size inb_S64x1280_S64x1024_0_160
abbrev r1_s161 : Rect S64x1280 := Rect.unit (s := S64x1280) ![0, 161] S64x1024.size inb_S64x1280_S64x1024_0_161
abbrev r1_o0 : Rect S1x64x4096 := Rect.unit (s := S1x64x4096) ![0, 0, 0] S1x64x1024.size inb_S1x64x4096_S1x64x1024_0_0_0
abbrev r1_o1 : Rect S1x64x4096 := Rect.unit (s := S1x64x4096) ![0, 0, 1024] S1x64x1024.size inb_S1x64x4096_S1x64x1024_0_0_1024
abbrev r1_o2 : Rect S1x64x4096 := Rect.unit (s := S1x64x4096) ![0, 0, 2048] S1x64x1024.size inb_S1x64x4096_S1x64x1024_0_0_2048
abbrev r1_o3 : Rect S1x64x4096 := Rect.unit (s := S1x64x4096) ![0, 0, 3072] S1x64x1024.size inb_S1x64x4096_S1x64x1024_0_0_3072

/-! ## The values of the body, from the input blocks
  `x0` the activation block, `x1`, `x2` the normalisation's scale and shift, `x3` the nine tap matrices, `x4` the four
  mask rows. Each is the skeleton's value of the same number. -/

/-- %20: sin(scale·x + shift), the normalised and activated block -/
def p1_z (x0 : Vec F S1x64x1024 .f32) (x1 : Vec F S64x1 .f32) (x2 : Vec F S64x1 .f32) : FVec F S64x1024 .f32 :=
  k1_pay7 (View.ld x0 r1_x) (View.ld x1 r1_c) (View.ld x2 r1_c)

/-- the scratch after the zero fill and the store of `p1_z` into its lanes [128, 1152): the two stores as pieces, last first -/
def p1_scr (x0 : Vec F S1x64x1024 .f32) (x1 : Vec F S64x1 .f32) (x2 : Vec F S64x1 .f32) : Vec F S64x1280 .f32 :=
  View.canon [⟨r1_s128, p1_z x0 x1 x2⟩, ⟨r1_sW, k1_pay6⟩]

/-- %24: the slab at lane shift 0 — the stored block itself, read back through its own rectangle —, masked by mask row 0 -/
def p1_v24 (x0 : Vec F S1x64x1024 .f32) (x1 : Vec F S64x1 .f32) (x2 : Vec F S64x1 .f32) (x3 : Vec F S9x64x64 .f32) (x4 : Vec F S4x1024 .f32) : FVec F S64x1024 .f32 := k1_pay8 (p1_z x0 x1 x2) (View.ld x4 r1_m0)
/-- %28: the slab at lane shift 1, masked by mask row 1 -/
def p1_v28 (x0 : Vec F S1x64x1024 .f32) (x1 : Vec F S64x1 .f32) (x2 : Vec F S64x1 .f32) (x3 : Vec F S9x64x64 .f32) (x4 : Vec F S4x1024 .f32) : FVec F S64x1024 .f32 := k1_pay9 (View.ld (p1_scr x0 x1 x2) r1_s129) (View.ld x4 r1_m1)
/-- %29: the slab at lane shift 32, unmasked -/
def p1_v29 (x0 : Vec F S1x64x1024 .f32) (x1 : Vec F S64x1 .f32) (x2 : Vec F S64x1 .f32) (x3 : Vec F S9x64x64 .f32) (x4 : Vec F S4x1024 .f32) : Vec F S64x1024 .f32 := View.ld (p1_scr x0 x1 x2) r1_s160
/-- %32: the slab at lane shift 32, masked by mask row 2 -/
def p1_v32 (x0 : Vec F S1x64x1024 .f32) (x1 : Vec F S64x1 .f32) (x2 : Vec F S64x1 .f32) (x3 : Vec F S9x64x64 .f32) (x4 : Vec F S4x1024 .f32) : FVec F S64x1024 .f32 := k1_pay10 (p1_v29 x0 x1 x2 x3 x4) (View.ld x4 r1_m2)
/-- %39: phase 0 -/
def p1_v39 (x0 : Vec F S1x64x1024 .f32) (x1 : Vec F S64x1 .f32) (x2 : Vec F S64x1 .f32) (x3 : Vec F S9x64x64 .f32) (x4 : Vec F S4x1024 .f32) : FVec F S64x1024 .f32 := k1_pay11 (p1_v24 x0 x1 x2 x3 x4) (View.ld x3 r1_w0)
/-- %46: phase 1 -/
def p1_v46 (x0 : Vec F S1x64x1024 .f32) (x1 : Vec F S64x1 .f32) (x2 : Vec F S64x1 .f32) (x3 : Vec F S9x64x64 .f32) (x4 : Vec F S4x1024 .f32) : FVec F S64x1024 .f32 := k1_pay12 (p1_v24 x0 x1 x2 x3 x4) (p1_v28 x0 x1 x2 x3 x4) (View.ld x3 r1_w1) (View.ld x3 r1_w2)
/-- %53: phase 2 -/
def p1_v53 (x0 : Vec F S1x64x1024 .f32) (x1 : Vec F S64x1 .f32) (x2 : Vec F S64x1 .f32) (x3 : Vec F S9x64x64 .f32) (x4 : Vec F S4x1024 .f32) : FVec F S64x1024 .f32 := k1_pay13 (p1_v24 x0 x1 x2 x3 x4) (p1_v29 x0 x1 x2 x3 x4) (View.ld x4 r1_m2) (View.ld x3 r1_w3) (View.ld x3 r1_w4)
/-- %56: the tap of the slab at lane shift 33 (masked by mask row 3) -/
def p1_v56 (x0 : Vec F S1x64x1024 .f32) (x1 : Vec F S64x1 .f32) (x2 : Vec F S64x1 .f32) (x3 : Vec F S9x64x64 .f32) (x4 : Vec F S4x1024 .f32) : FVec F S64x1024 .f32 := k1_pay14 (View.ld (p1_scr x0 x1 x2) r1_s161) (View.ld x4 r1_m3) (View.ld x3 r1_w5)
/-- %58: tap matrix 6 -/
def p1_v58 (x0 : Vec F S1x64x1024 .f32) (x1 : Vec F S64x1 .f32) (x2 : Vec F S64x1 .f32) (x3 : Vec F S9x64x64 .f32) (x4 : Vec F S4x1024 .f32) : FVec F S64x64 .f32 := k1_pay15 (View.ld x3 r1_w6)
/-- %68: phase 3 -/
def p1_v68 (x0 : Vec F S1x64x1024 .f32) (x1 : Vec F S64x1 .f32) (x2 : Vec F S64x1 .f32) (x3 : Vec F S9x64x64 .f32) (x4 : Vec F S4x1024 .f32) : FVec F S64x1024 .f32 :=
  k1_pay16 (p1_v24 x0 x1 x2 x3 x4) (p1_v28 x0 x1 x2 x3 x4) (p1_v32 x0 x1 x2 x3 x4) (p1_v56 x0 x1 x2 x3 x4) (p1_v58 x0 x1 x2 x3 x4) (View.ld x3 r1_w7) (View.ld x3 r1_w8)

/-- what the body leaves in the blocked output's buffer: the four phases in lanes [p·1024, (p+1)·1024), its stores as pieces, last first -/
def out1_5 (x0 : Vec F S1x64x1024 .f32) (x1 : Vec F S64x1 .f32) (x2 : Vec F S64x1 .f32) (x3 : Vec F S9x64x64 .f32) (x4 : Vec F S4x1024 .f32) : Vec F S1x64x4096 .f32 :=
  View.canon [⟨r1_o3, k1_pay1 (p1_v68 x0 x1 x2 x3 x4)⟩, ⟨r1_o2, k1_pay23 (p1_v53 x0 x1 x2 x3 x4)⟩,
    ⟨r1_o1, k1_pay20 (p1_v46 x0 x1 x2 x3 x4)⟩, ⟨r1_o0, k1_pay17 (p1_v39 x0 x1 x2 x3 x4)⟩]

/-- the four pieces tile the block -/
theorem cover1_5 (p0 p1 p2 p3 : Vec F S1x64x1024 .f32) (y : S1x64x4096.Idx) :
    ∃ pc ∈ ([⟨r1_o3, p0⟩, ⟨r1_o2, p1⟩, ⟨r1_o1, p2⟩, ⟨r1_o0, p3⟩] : List (View.Piece (Elt F) S1x64x4096 .f32)), y ∈ pc.1.set :=
  View.cover_of_tiled [⟨r1_o3, p0⟩, ⟨r1_o2, p1⟩, ⟨r1_o1, p2⟩, ⟨r1_o0, p3⟩] S1x64x1024.size (by rfl) y

/-- the carried sum after the body, over what it held when the four phases' row sums are added (`s`: zero at the first point, else what the point before left) -/
def acc1_6 (x0 : Vec F S1x64x1024 .f32) (x1 : Vec F S64x1 .f32) (x2 : Vec F S64x1 .f32) (x3 : Vec F S9x64x64 .f32) (x4 : Vec F S4x1024 .f32) (s : Vec F S64x1 .f32) : FVec F S64x1 .f32 :=
  k1_pay2 (p1_v68 x0 x1 x2 x3 x4) (k1_pay24 (p1_v53 x0 x1 x2 x3 x4) (k1_pay21 (p1_v46 x0 x1 x2 x3 x4) (k1_pay18 (p1_v39 x0 x1 x2 x3 x4) s)))
/-- the carried sum of squares likewise -/
def acc1_7 (x0 : Vec F S1x64x1024 .f32) (x1 : Vec F S64x1 .f32) (x2 : Vec F S64x1 .f32) (x3 : Vec F S9x64x64 .f32) (x4 : Vec F S4x1024 .f32) (s : Vec F S64x1 .f32) : FVec F S64x1 .f32 :=
  k1_pay3 (p1_v68 x0 x1 x2 x3 x4) (k1_pay25 (p1_v53 x0 x1 x2 x3 x4) (k1_pay22 (p1_v46 x0 x1 x2 x3 x4) (k1_pay19 (p1_v39 x0 x1 x2 x3 x4) s)))

/-- a buffer whose last store was whole reads that store's payload -/
theorem read_writes_whole1 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

set_option maxHeartbeats 1000000 in
/-- The body at the first point, on whole memrefs — the inputs' at their blocks, the outputs' and the scratch at anything —,
    runs to the continuation holding the inputs' as they were, the blocked output at `out1_5`, the carried sums at their
    accumulations from zero, the scratch at something. -/
theorem sound_kernel1_A (c : Dev nD) (E : Set ℕ) (i : grid1.Coords) (arg1 : Memref sig .tc .vmem S1x64x1024 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S9x64x64 .f32) (harg4 : arg4.IsWhole) (arg5 : Memref sig .tc .vmem S4x1024 .f32) (harg5 : arg5.IsWhole) (arg6 : Memref sig .tc .vmem S1x64x4096 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1280 .f32) (harg9 : arg9.IsWhole) (hc0 : cond1_0 i)
    (x0 : Vec F S1x64x1024 .f32) (x1 : Vec F S64x1 .f32) (x2 : Vec F S64x1 .f32) (x3 : Vec F S9x64x64 .f32) (x4 : Vec F S4x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (acc1_6 x0 x1 x2 x3 x4 k1_pay4)
            ∗ owns (c : Thread nD τ) arg8 fullShare (acc1_7 x0 x1 x2 x3 x4 k1_pay5)
            ∗ (∃ d, owns (c : Thread nD τ) arg9 fullShare d)) -∗ K ⟨⟩))
      ⊢ wp frame (wpE (defs₀ (F := F)) Variants.none c none) E (cc1__convT3x3_kernel i arg1 harg1 arg2 harg2 arg3 harg3 arg4 harg4 arg5 harg5 arg6 harg6 arg7 harg7 arg8 harg8 arg9 harg9) K := by
  simp only [cc1__convT3x3_kernel_eq_skeleton]; unfold cc1__convT3x3_kernel_skel
  simp only [k1_part1_eq_skeleton, k1_part2_eq_skeleton, k1_part3_eq_skeleton, k1_part4_eq_skeleton]
  unfold k1_part1_skel k1_part2_skel k1_part3_skel k1_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, HS⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _ _ _ _)).trans ?_
    delta sound_kernel1_A.sl.v21 sound_kernel1_A.sl.v25 sound_kernel1_A.sl.v29 sound_kernel1_A.sl.v33 sound_kernel1_A.sl.HS_2
    simp only [View.readCov_cons_toLoadRect]
    simp only [View.readCov_eq_canon', View.readAt_eq_ld]
    simp only [out1_5, acc1_6, acc1_7, p1_v68, p1_v58, p1_v56, p1_v53, p1_v46, p1_v39, p1_v32, p1_v29, p1_v28, p1_v24, p1_scr, p1_z]
    first | done | with_reducible rfl
  isplitl [H6]
  · iexists _; isplitr
    swap; · iexact H6
    ipureintro
    refine (read_writes_whole1 _ _ (by funext a; fin_cases a <;> rfl) _ _ _).trans ?_
    delta sound_kernel1_A.sl.v120 sound_kernel1_A.sl.H6_4 sound_kernel1_A.sl.v104 sound_kernel1_A.sl.H6_3 sound_kernel1_A.sl.v88 sound_kernel1_A.sl.H6_2 sound_kernel1_A.sl.v72 sound_kernel1_A.sl.H6_1 sound_kernel1_A.sl.v126 sound_kernel1_A.sl.H7_4 sound_kernel1_A.sl.v110 sound_kernel1_A.sl.H7_3 sound_kernel1_A.sl.v94 sound_kernel1_A.sl.H7_2 sound_kernel1_A.sl.v78 sound_kernel1_A.sl.H7_1 sound_kernel1_A.sl.v21 sound_kernel1_A.sl.v25 sound_kernel1_A.sl.v29 sound_kernel1_A.sl.v33 sound_kernel1_A.sl.HS_2
    simp only [View.readCov_cons_toLoadRect]
    simp only [View.readCov_eq_canon', View.readAt_eq_ld]
    simp only [out1_5, acc1_6, acc1_7, p1_v68, p1_v58, p1_v56, p1_v53, p1_v46, p1_v39, p1_v32, p1_v29, p1_v28, p1_v24, p1_scr, p1_z]
    first | done | with_reducible rfl
  isplitl [H7]
  · iexists _; isplitr
    swap; · iexact H7
    ipureintro
    refine (read_writes_whole1 _ _ (by funext a; fin_cases a <;> rfl) _ _ _).trans ?_
    delta sound_kernel1_A.sl.v120 sound_kernel1_A.sl.H6_4 sound_kernel1_A.sl.v104 sound_kernel1_A.sl.H6_3 sound_kernel1_A.sl.v88 sound_kernel1_A.sl.H6_2 sound_kernel1_A.sl.v72 sound_kernel1_A.sl.H6_1 sound_kernel1_A.sl.v126 sound_kernel1_A.sl.H7_4 sound_kernel1_A.sl.v110 sound_kernel1_A.sl.H7_3 sound_kernel1_A.sl.v94 sound_kernel1_A.sl.H7_2 sound_kernel1_A.sl.v78 sound_kernel1_A.sl.H7_1 sound_kernel1_A.sl.v21 sound_kernel1_A.sl.v25 sound_kernel1_A.sl.v29 sound_kernel1_A.sl.v33 sound_kernel1_A.sl.HS_2
    simp only [View.readCov_cons_toLoadRect]
    simp only [View.readCov_eq_canon', View.readAt_eq_ld]
    simp only [out1_5, acc1_6, acc1_7, p1_v68, p1_v58, p1_v56, p1_v53, p1_v46, p1_v39, p1_v32, p1_v29, p1_v28, p1_v24, p1_scr, p1_z]
    first | done | with_reducible rfl
  iexists _; iexists _; isplitr
  swap; · iexact HS
  ipureintro; rfl

set_option maxHeartbeats 1000000 in
/-- The body at a later point, on whole memrefs — the inputs' at their blocks, the carried sums' at what they hold (`s6`, `s7`),
    the blocked output's and the scratch at anything —, runs to the continuation holding the inputs' as they were, the blocked
    output at `out1_5`, the carried sums at their accumulations over `s6`, `s7`, the scratch at something. -/
theorem sound_kernel1_B (c : Dev nD) (E : Set ℕ) (i : grid1.Coords) (arg1 : Memref sig .tc .vmem S1x64x1024 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S9x64x64 .f32) (harg4 : arg4.IsWhole) (arg5 : Memref sig .tc .vmem S4x1024 .f32) (harg5 : arg5.IsWhole) (arg6 : Memref sig .tc .vmem S1x64x4096 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1280 .f32) (harg9 : arg9.IsWhole) (hc0 : ¬cond1_0 i)
    (x0 : Vec F S1x64x1024 .f32) (x1 : Vec F S64x1 .f32) (x2 : Vec F S64x1 .f32) (x3 : Vec F S9x64x64 .f32) (x4 : Vec F S4x1024 .f32) (s6 : Vec F S64x1 .f32) (s7 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s6 ∗ owns (c : Thread nD τ) arg8 fullShare s7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (acc1_6 x0 x1 x2 x3 x4 (View.ld s6 r1_c))
            ∗ owns (c : Thread nD τ) arg8 fullShare (acc1_7 x0 x1 x2 x3 x4 (View.ld s7 r1_c))
            ∗ (∃ d, owns (c : Thread nD τ) arg9 fullShare d)) -∗ K ⟨⟩))
      ⊢ wp frame (wpE (defs₀ (F := F)) Variants.none c none) E (cc1__convT3x3_kernel i arg1 harg1 arg2 harg2 arg3 harg3 arg4 harg4 arg5 harg5 arg6 harg6 arg7 harg7 arg8 harg8 arg9 harg9) K := by
  simp only [cc1__convT3x3_kernel_eq_skeleton]; unfold cc1__convT3x3_kernel_skel
  simp only [k1_part1_eq_skeleton, k1_part2_eq_skeleton, k1_part3_eq_skeleton, k1_part4_eq_skeleton]
  unfold k1_part1_skel k1_part2_skel k1_part3_skel k1_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, HS⟩, Hk⟩
  subst hf0 hf1 hf2 hf3 hf4 hf6 hf7
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _ _ _ _)).trans ?_
    delta sound_kernel1_B.sl.v21 sound_kernel1_B.sl.v25 sound_kernel1_B.sl.v29 sound_kernel1_B.sl.v33 sound_kernel1_B.sl.HS_2
    simp only [View.readCov_cons_toLoadRect]
    simp only [View.readCov_eq_canon', View.readAt_eq_ld]
    simp only [out1_5, acc1_6, acc1_7, p1_v68, p1_v58, p1_v56, p1_v53, p1_v46, p1_v39, p1_v32, p1_v29, p1_v28, p1_v24, p1_scr, p1_z]
    first | done | with_reducible rfl
  isplitl [H6]
  · iexists _; isplitr
    swap; · iexact H6
    ipureintro
    refine (read_writes_whole1 _ _ (by funext a; fin_cases a <;> rfl) _ _ _).trans ?_
    delta sound_kernel1_B.sl.v120 sound_kernel1_B.sl.H6_3 sound_kernel1_B.sl.v104 sound_kernel1_B.sl.H6_2 sound_kernel1_B.sl.v88 sound_kernel1_B.sl.H6_1 sound_kernel1_B.sl.v126 sound_kernel1_B.sl.H7_3 sound_kernel1_B.sl.v110 sound_kernel1_B.sl.H7_2 sound_kernel1_B.sl.v94 sound_kernel1_B.sl.H7_1 sound_kernel1_B.sl.v21 sound_kernel1_B.sl.v25 sound_kernel1_B.sl.v29 sound_kernel1_B.sl.v33 sound_kernel1_B.sl.HS_2
    simp only [View.readCov_cons_toLoadRect]
    simp only [View.readCov_eq_canon', View.readAt_eq_ld]
    simp only [out1_5, acc1_6, acc1_7, p1_v68, p1_v58, p1_v56, p1_v53, p1_v46, p1_v39, p1_v32, p1_v29, p1_v28, p1_v24, p1_scr, p1_z]
    first | done | with_reducible rfl
  isplitl [H7]
  · iexists _; isplitr
    swap; · iexact H7
    ipureintro
    refine (read_writes_whole1 _ _ (by funext a; fin_cases a <;> rfl) _ _ _).trans ?_
    delta sound_kernel1_B.sl.v120 sound_kernel1_B.sl.H6_3 sound_kernel1_B.sl.v104 sound_kernel1_B.sl.H6_2 sound_kernel1_B.sl.v88 sound_kernel1_B.sl.H6_1 sound_kernel1_B.sl.v126 sound_kernel1_B.sl.H7_3 sound_kernel1_B.sl.v110 sound_kernel1_B.sl.H7_2 sound_kernel1_B.sl.v94 sound_kernel1_B.sl.H7_1 sound_kernel1_B.sl.v21 sound_kernel1_B.sl.v25 sound_kernel1_B.sl.v29 sound_kernel1_B.sl.v33 sound_kernel1_B.sl.HS_2
    simp only [View.readCov_cons_toLoadRect]
    simp only [View.readCov_eq_canon', View.readAt_eq_ld]
    simp only [out1_5, acc1_6, acc1_7, p1_v68, p1_v58, p1_v56, p1_v53, p1_v46, p1_v39, p1_v32, p1_v29, p1_v28, p1_v24, p1_scr, p1_z]
    first | done | with_reducible rfl
  iexists _; iexists _; isplitr
  swap; · iexact HS
  ipureintro; rfl

end Cert.ReferenceIdeal.Hand

end
-- ==== Proof.RefR1.lean ====
/-
  Region 1 of the reference program, the pipeline's half: the proof data of the stride-2 3×3 transposed convolution's
  pipeline at the contents `V` the region is entered with, and its body obligation.

  The input windows hold their blocks at every point. The blocked output holds the four phases of the point's block
  (`out1_5`). The two carried outputs — per-row sums and sums of squares of the phases, written back after the last
  point only — hold at point `t` the accumulation over the points up to `t` (`outsAt1_6`, `outsAt1_7`: from zero at
  the first point, over what the point before left after it). The kernel's scratch is one of the scoped buffers the
  invariant keeps at some contents: it is taken out for the body's run and put back.
-/
import proofs.«159567_g2000302752657622_pallasbulk_725_3_alg».proof.Proof.RefR1Kernel

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- window `w`'s block at point `t`, read off its array as the region finds it -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- an input's buffer holds its block at every point, fetched there or not, for any proof data over `V`'s arrays whose body leaves the block in place -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the carried outputs hold after each point -/

/-- what carried output 6 holds after the body at position `n`: accumulated from zero at the first point, over what the point before left after it -/
def outsAt1_6 (c : Dev nD) : (n : ℕ) → n < cfg1.N → Vec F S64x1 .f32
  | 0, hn => acc1_6 (iblk1 V c 0 ⟨0, hn⟩) (iblk1 V c 1 ⟨0, hn⟩) (iblk1 V c 2 ⟨0, hn⟩) (iblk1 V c 3 ⟨0, hn⟩) (iblk1 V c 4 ⟨0, hn⟩) k1_pay4
  | n + 1, hn => acc1_6 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (View.ld (outsAt1_6 c n (Nat.lt_of_succ_lt hn)) r1_c)

/-- at the first point: accumulated from zero -/
theorem outsAt1_6_A (c : Dev nD) (t : Fin cfg1.N) (h : t.val = 0) :
    outsAt1_6 V c t.val t.isLt = acc1_6 (iblk1 V c 0 t) (iblk1 V c 1 t) (iblk1 V c 2 t) (iblk1 V c 3 t) (iblk1 V c 4 t) k1_pay4 := by
  obtain ⟨n, hn⟩ := t
  cases n with
  | zero => rfl
  | succ n => exact absurd h (Nat.succ_ne_zero n)

/-- at a later point: accumulated over what the point before left -/
theorem outsAt1_6_B (c : Dev nD) (t : Fin cfg1.N) (h : ¬ t.val = 0) :
    outsAt1_6 V c t.val t.isLt = acc1_6 (iblk1 V c 0 t) (iblk1 V c 1 t) (iblk1 V c 2 t) (iblk1 V c 3 t) (iblk1 V c 4 t)
      (View.ld (outsAt1_6 V c (t.val - 1) (Nat.lt_of_le_of_lt (Nat.sub_le _ _) t.isLt)) r1_c) := by
  obtain ⟨n, hn⟩ := t
  cases n with
  | zero => exact absurd rfl h
  | succ n => rfl

/-- what carried output 7 holds after the body at position `n`: accumulated from zero at the first point, over what the point before left after it -/
def outsAt1_7 (c : Dev nD) : (n : ℕ) → n < cfg1.N → Vec F S64x1 .f32
  | 0, hn => acc1_7 (iblk1 V c 0 ⟨0, hn⟩) (iblk1 V c 1 ⟨0, hn⟩) (iblk1 V c 2 ⟨0, hn⟩) (iblk1 V c 3 ⟨0, hn⟩) (iblk1 V c 4 ⟨0, hn⟩) k1_pay5
  | n + 1, hn => acc1_7 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (View.ld (outsAt1_7 c n (Nat.lt_of_succ_lt hn)) r1_c)

/-- at the first point: accumulated from zero -/
theorem outsAt1_7_A (c : Dev nD) (t : Fin cfg1.N) (h : t.val = 0) :
    outsAt1_7 V c t.val t.isLt = acc1_7 (iblk1 V c 0 t) (iblk1 V c 1 t) (iblk1 V c 2 t) (iblk1 V c 3 t) (iblk1 V c 4 t) k1_pay5 := by
  obtain ⟨n, hn⟩ := t
  cases n with
  | zero => rfl
  | succ n => exact absurd h (Nat.succ_ne_zero n)

/-- at a later point: accumulated over what the point before left -/
theorem outsAt1_7_B (c : Dev nD) (t : Fin cfg1.N) (h : ¬ t.val = 0) :
    outsAt1_7 V c t.val t.isLt = acc1_7 (iblk1 V c 0 t) (iblk1 V c 1 t) (iblk1 V c 2 t) (iblk1 V c 3 t) (iblk1 V c 4 t)
      (View.ld (outsAt1_7 V c (t.val - 1) (Nat.lt_of_le_of_lt (Nat.sub_le _ _) t.isLt)) r1_c) := by
  obtain ⟨n, hn⟩ := t
  cases n with
  | zero => exact absurd rfl h
  | succ n => rfl

/-! ## The proof data -/

/-- the proof data of the pipeline on core `c`: the arrays as the region finds them; after the body at point `t` each input's
    buffer at its block, the blocked output's at `out1_5` of the blocks, the carried outputs' at their accumulations up to `t`;
    the scoped rest and the generator register untouched; nothing owed; full shares -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => outsAt1_6 V c t.val t.isLt
    | ⟨7, _⟩ => outsAt1_7 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = outsAt1_6 V c t.val t.isLt := by dsimp only [dat1]
theorem after1_7 (c : Dev nD) (t : Fin cfg1.N) : (dat1 V c).after 7 t = outsAt1_7 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- at a later point carried output 6's buffer holds what the body left at the point before: it is written back at the last point only -/
theorem before1_6_B (c : Dev nD) (t : Fin cfg1.N) (h0 : ¬ t.val = 0) (d) :
    (dat1 V c).before 6 t d = outsAt1_6 V c (t.val - 1) (Nat.lt_of_le_of_lt (Nat.sub_le _ _) t.isLt) := by
  have hN : t.val < 64 := lt_of_lt_of_eq t.isLt (show cfg1.N = 64 from N_1)
  rw [Dat.before_out_kept _ 6 rfl t h0 (Bool.eq_false_iff.mpr fun h => by have := (flush1_6 _).mp h; dsimp only at this; omega)
    (fun _ => rfl) (fun _ _ => rfl)]
  dsimp only [dat1]

/-- at a later point carried output 7's buffer holds what the body left at the point before: it is written back at the last point only -/
theorem before1_7_B (c : Dev nD) (t : Fin cfg1.N) (h0 : ¬ t.val = 0) (d) :
    (dat1 V c).before 7 t d = outsAt1_7 V c (t.val - 1) (Nat.lt_of_le_of_lt (Nat.sub_le _ _) t.isLt) := by
  have hN : t.val < 64 := lt_of_lt_of_eq t.isLt (show cfg1.N = 64 from N_1)
  rw [Dat.before_out_kept _ 7 rfl t h0 (Bool.eq_false_iff.mpr fun h => by have := (flush1_7 _).mp h; dsimp only at this; omega)
    (fun _ => rfl) (fun _ _ => rfl)]
  dsimp only [dat1]

/-! ## The scratch, out of the scoped rest -/

/-- the kernel's scratch operand as the pipeline passes it -/
abbrev scM1 : Memref sig .tc .vmem S64x1280 .f32 := Memref.whole cc1_scratch0

/-- the invariant with the scratch split out of the scoped rest, owned whole at some contents -/
theorem PhiA1_eq (c : Dev nD) :
    (Pipeline.ΦA spec1 c : sProp 𝕄)
      = iprop((iprop((∃ d, owns (c : Thread nD τ) scM1 fullShare d)) ∗ Pipeline.scopedRestBut spec1 c [cc1_scratch0]) ∗ (∃ r, prngReg c r)) := by
  unfold Pipeline.ΦA; rw [scopedRest1_split]; simp only [scM1, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- the body at any point: the inputs' buffers hold their blocks; at the first point the kernel zeroes the carried sums, at a
    later one their buffers hold what the point before left; the scratch is taken out of the scoped rest for the run and put
    back at what it ends holding; the generator register and the core's obligations pass through -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    show (dat1 V c).Φ t.castSucc = Pipeline.ΦA spec1 c from rfl, PhiA1_eq,
    after1_0, after1_1, after1_2, after1_3, after1_4, after1_5, after1_6, after1_7]
  by_cases h0 : t.val = 0
  · rw [outsAt1_6_A V c t h0, outsAt1_7_A V c t h0]
    iintro ⟨⟨⟨HS, HR⟩, HG⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR HG]
    · isplitl [HS HR]
      · isplitl [HS]; · iexact HS
        iexact HR
      iexact HG
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt1_6_B V c t h0, outsAt1_7_B V c t h0]
    simp only [before1_6_B V c t h0, before1_7_B V c t h0]
    iintro ⟨⟨⟨HS, HR⟩, HG⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, H5, H6, H7, HS⟩
    isplitl [HS HR HG]
    · isplitl [HS HR]
      · isplitl [HS]; · iexact HS
        iexact HR
      iexact HG
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- the library's body obligation, at every point -/
theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RefR2.lean ====
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores through a whole buffer -/

/-- The zero offsets, as the constant function. -/
private theorem hz2 : (![0, 0] : Fin 2 → ℕ) = fun _ => 0 := by funext a; fin_cases a <;> rfl
private theorem hz3 : (![0, 0, 0] : Fin 3 → ℕ) = fun _ => 0 := by funext a; fin_cases a <;> rfl

/-- A load of a whole buffer through the whole-shape rectangle at zero offsets reads the buffer's contents. -/
private theorem readAt_unread_whole {κ : Kind} {sp : Space} {S : Shape} {e : EltTy} {m : Memref sig κ sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

/-- The last store through the whole-shape rectangle at zero offsets leaves its payload, whatever was stored before. -/
private theorem read_writes_whole_cons {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.Mem.head _, View.mem_set_unit_zero h inb y⟩)).trans
    (View.canon_cons_unit_zero h inb w L)

/-- A load through it of what one store through it left reads that store's payload. -/
private theorem readCov_whole_one {κ : Kind} {sp : Space} {S : Shape} {e : EltTy} (v : View sig κ sp S e)
    {off : Fin S.rank → ℕ} (h : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v h inb w

/-! # Region 2: the kernel z = sin(x·scale + shift), y = W·z, with the per-channel sum and sum of squares of y
accumulated over the grid into two [C,1] outputs that are zeroed at the first point -/

/-- window w's block at point t, read off its array as the region finds it -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetched it or the
    index map kept it in place, for any proof data over the entry arrays that leaves the block as it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetched it or the
    index map kept it in place, for any proof data over the entry arrays that leaves the block as it was. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetched it or the
    index map kept it in place, for any proof data over the entry arrays that leaves the block as it was. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetched it or the
    index map kept it in place, for any proof data over the entry arrays that leaves the block as it was. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body loads and stores through: each buffer whole -/

abbrev r2_0 : Rect S1x64x2048 := Rect.unit (s := S1x64x2048) ![0, 0, 0] S1x64x2048.size inb_S1x64x2048_S1x64x2048_0_0_0
abbrev r2_1 : Rect S64x1 := Rect.unit (s := S64x1) ![0, 0] S64x1.size inb_S64x1_S64x1_0_0
abbrev r2_3 : Rect S256x64 := Rect.unit (s := S256x64) ![0, 0] S256x64.size inb_S256x64_S256x64_0_0
abbrev r2_4 : Rect S1x256x2048 := Rect.unit (s := S1x256x2048) ![0, 0, 0] S1x256x2048.size inb_S1x256x2048_S1x256x2048_0_0_0
abbrev r2_5 : Rect S256x1 := Rect.unit (s := S256x1) ![0, 0] S256x1.size inb_S256x1_S256x1_0_0

/-! ## The branch condition -/

/-- The condition under which the accumulators are zeroed, from the grid coordinates: both are 0. -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the grid and at no other. -/
theorem hcond2_0 : ∀ t : Fin cfg2.N, cond2_0 (grid2.coords t) ↔ t.val = 0 :=
  (by decide +kernel : ∀ t : Fin grid2.N, cond2_0 (grid2.coords t) ↔ t.val = 0)

/-! ## The kernel's triple, in each of the two control cases -/

set_option maxHeartbeats 1000000 in
theorem sound_kernel2_A (c : Dev nD) (E : Set ℕ) (i : grid2.Coords) (arg2 : Memref sig .tc .vmem S1x64x2048 .f32) (harg2 : arg2.IsWhole) (arg3 : Memref sig .tc .vmem S64x1 .f32) (harg3 : arg3.IsWhole)
    (arg4 : Memref sig .tc .vmem S64x1 .f32) (harg4 : arg4.IsWhole) (arg5 : Memref sig .tc .vmem S256x64 .f32) (harg5 : arg5.IsWhole)
    (arg6 : Memref sig .tc .vmem S1x256x2048 .f32) (harg6 : arg6.IsWhole) (arg7 : Memref sig .tc .vmem S256x1 .f32) (harg7 : arg7.IsWhole)
    (arg8 : Memref sig .tc .vmem S256x1 .f32) (harg8 : arg8.IsWhole) (hc0 : cond2_0 i)
    (x0 : Vec F S1x64x2048 .f32) (x1 : Vec F S64x1 .f32) (x2 : Vec F S64x1 .f32) (x3 : Vec F S256x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay5 x0 x1 x2 x3)
            ∗ owns (c : Thread nD τ) arg7 fullShare (k2_pay6 x0 x1 x2 x3 (k2_pay2 (F := F)))
            ∗ owns (c : Thread nD τ) arg8 fullShare (k2_pay1 (k2_pay7 (k2_pay3 (F := F))) (k2_pay8 x0 x1 x2 x3))) -∗ K ⟨⟩))
      ⊢ wp frame (wpE (defs₀ (F := F)) Variants.none c none) E (cc2__act_mm_stats_kernel i arg2 harg2 arg3 harg3 arg4 harg4 arg5 harg5 arg6 harg6 arg7 harg7 arg8 harg8) K := by
  simp only [cc2__act_mm_stats_kernel_eq_skeleton]; unfold cc2__act_mm_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_writes_whole_cons _ _ hz3 _ _ _).trans ?_
    rw [readAt_unread_whole harg2 hz3, readAt_unread_whole harg3 hz2, readAt_unread_whole harg4 hz2, readAt_unread_whole harg5 hz2]
  isplitl [H5]
  · iexists _; isplitr
    swap; · iexact H5
    ipureintro
    sl_unfold_run_names
    refine (read_writes_whole_cons _ _ hz2 _ _ _).trans ?_
    rw [readCov_whole_one _ hz2, readAt_unread_whole harg2 hz3, readAt_unread_whole harg3 hz2, readAt_unread_whole harg4 hz2, readAt_unread_whole harg5 hz2]
  iexists _; isplitr
  swap; · iexact H6
  ipureintro
  sl_unfold_run_names
  refine (read_writes_whole_cons _ _ hz2 _ _ _).trans ?_
  dsimp only
  rw [readCov_whole_one _ hz2, readAt_unread_whole harg2 hz3, readAt_unread_whole harg3 hz2, readAt_unread_whole harg4 hz2, readAt_unread_whole harg5 hz2]

set_option maxHeartbeats 1000000 in
theorem sound_kernel2_B (c : Dev nD) (E : Set ℕ) (i : grid2.Coords) (arg2 : Memref sig .tc .vmem S1x64x2048 .f32) (harg2 : arg2.IsWhole) (arg3 : Memref sig .tc .vmem S64x1 .f32) (harg3 : arg3.IsWhole)
    (arg4 : Memref sig .tc .vmem S64x1 .f32) (harg4 : arg4.IsWhole) (arg5 : Memref sig .tc .vmem S256x64 .f32) (harg5 : arg5.IsWhole)
    (arg6 : Memref sig .tc .vmem S1x256x2048 .f32) (harg6 : arg6.IsWhole) (arg7 : Memref sig .tc .vmem S256x1 .f32) (harg7 : arg7.IsWhole)
    (arg8 : Memref sig .tc .vmem S256x1 .f32) (harg8 : arg8.IsWhole) (hc0 : ¬cond2_0 i)
    (x0 : Vec F S1x64x2048 .f32) (x1 : Vec F S64x1 .f32) (x2 : Vec F S64x1 .f32) (x3 : Vec F S256x64 .f32) (xo5 : Vec F S256x1 .f32) (xo6 : Vec F S256x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xo5 ∗ owns (c : Thread nD τ) arg8 fullShare xo6
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay5 x0 x1 x2 x3)
            ∗ owns (c : Thread nD τ) arg7 fullShare (k2_pay6 x0 x1 x2 x3 xo5)
            ∗ owns (c : Thread nD τ) arg8 fullShare (k2_pay1 (k2_pay7 xo6) (k2_pay8 x0 x1 x2 x3))) -∗ K ⟨⟩))
      ⊢ wp frame (wpE (defs₀ (F := F)) Variants.none c none) E (cc2__act_mm_stats_kernel i arg2 harg2 arg3 harg3 arg4 harg4 arg5 harg5 arg6 harg6 arg7 harg7 arg8 harg8) K := by
  simp only [cc2__act_mm_stats_kernel_eq_skeleton]; unfold cc2__act_mm_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_writes_whole_cons _ _ hz3 _ _ _).trans ?_
    rw [readAt_unread_whole harg2 hz3, readAt_unread_whole harg3 hz2, readAt_unread_whole harg4 hz2, readAt_unread_whole harg5 hz2]
  isplitl [H5]
  · iexists _; isplitr
    swap; · iexact H5
    ipureintro
    sl_unfold_run_names
    refine (read_writes_whole_cons _ _ hz2 _ _ _).trans ?_
    rw [readAt_unread_whole harg7 hz2, readAt_unread_whole harg2 hz3, readAt_unread_whole harg3 hz2, readAt_unread_whole harg4 hz2, readAt_unread_whole harg5 hz2]
  iexists _; isplitr
  swap; · iexact H6
  ipureintro
  sl_unfold_run_names
  refine (read_writes_whole_cons _ _ hz2 _ _ _).trans ?_
  dsimp only
  rw [readAt_unread_whole harg8 hz2, readAt_unread_whole harg2 hz3, readAt_unread_whole harg3 hz2, readAt_unread_whole harg4 hz2, readAt_unread_whole harg5 hz2]

/-! ## What the accumulators hold after each point -/

/-- The per-channel sum's staging buffer after the body at position n. At the first point: the zeros with the point's row
    sums added. At a later point: what the point before left (the buffer is not written back in between) with the
    point's row sums added. -/
def outsAt2_5 (c : Dev nD) : (n : ℕ) → n < cfg2.N → Vec F S256x1 .f32
  | 0, hn => k2_pay6 (iblk2 V c 0 ⟨0, hn⟩) (iblk2 V c 1 ⟨0, hn⟩) (iblk2 V c 2 ⟨0, hn⟩) (iblk2 V c 3 ⟨0, hn⟩) (k2_pay2 (F := F))
  | n + 1, hn => k2_pay6 (iblk2 V c 0 ⟨n + 1, hn⟩) (iblk2 V c 1 ⟨n + 1, hn⟩) (iblk2 V c 2 ⟨n + 1, hn⟩) (iblk2 V c 3 ⟨n + 1, hn⟩) (outsAt2_5 c n (Nat.lt_of_succ_lt hn))

/-- The per-channel sum of squares' staging buffer after the body at position n, likewise. -/
def outsAt2_6 (c : Dev nD) : (n : ℕ) → n < cfg2.N → Vec F S256x1 .f32
  | 0, hn => k2_pay1 (k2_pay7 (k2_pay3 (F := F))) (k2_pay8 (iblk2 V c 0 ⟨0, hn⟩) (iblk2 V c 1 ⟨0, hn⟩) (iblk2 V c 2 ⟨0, hn⟩) (iblk2 V c 3 ⟨0, hn⟩))
  | n + 1, hn => k2_pay1 (k2_pay7 (outsAt2_6 c n (Nat.lt_of_succ_lt hn))) (k2_pay8 (iblk2 V c 0 ⟨n + 1, hn⟩) (iblk2 V c 1 ⟨n + 1, hn⟩) (iblk2 V c 2 ⟨n + 1, hn⟩) (iblk2 V c 3 ⟨n + 1, hn⟩))

/-- The sum at the first point: zeros plus the point's row sums. -/
theorem outsAt2_5_A (c : Dev nD) (t : Fin cfg2.N) (h : t.val = 0) :
    outsAt2_5 V c t.val t.isLt = k2_pay6 (iblk2 V c 0 t) (iblk2 V c 1 t) (iblk2 V c 2 t) (iblk2 V c 3 t) (k2_pay2 (F := F)) := by
  obtain ⟨n, hn⟩ := t
  cases n with
  | zero => exact rfl
  | succ n => exact absurd h (Nat.succ_ne_zero n)

/-- The sum at a later point: what the point before left plus the point's row sums. -/
theorem outsAt2_5_B (c : Dev nD) (t : Fin cfg2.N) (h : ¬t.val = 0) :
    outsAt2_5 V c t.val t.isLt = k2_pay6 (iblk2 V c 0 t) (iblk2 V c 1 t) (iblk2 V c 2 t) (iblk2 V c 3 t) (outsAt2_5 V c (t.val - 1) (Nat.lt_of_le_of_lt (Nat.sub_le _ _) t.isLt)) := by
  obtain ⟨n, hn⟩ := t
  cases n with
  | zero => exact absurd rfl h
  | succ n => exact rfl

/-- The sum of squares at the first point: zeros plus the point's row sums of squares. -/
theorem outsAt2_6_A (c : Dev nD) (t : Fin cfg2.N) (h : t.val = 0) :
    outsAt2_6 V c t.val t.isLt = k2_pay1 (k2_pay7 (k2_pay3 (F := F))) (k2_pay8 (iblk2 V c 0 t) (iblk2 V c 1 t) (iblk2 V c 2 t) (iblk2 V c 3 t)) := by
  obtain ⟨n, hn⟩ := t
  cases n with
  | zero => exact rfl
  | succ n => exact absurd h (Nat.succ_ne_zero n)

/-- The sum of squares at a later point: what the point before left plus the point's row sums of squares. -/
theorem outsAt2_6_B (c : Dev nD) (t : Fin cfg2.N) (h : ¬t.val = 0) :
    outsAt2_6 V c t.val t.isLt = k2_pay1 (k2_pay7 (outsAt2_6 V c (t.val - 1) (Nat.lt_of_le_of_lt (Nat.sub_le _ _) t.isLt))) (k2_pay8 (iblk2 V c 0 t) (iblk2 V c 1 t) (iblk2 V c 2 t) (iblk2 V c 3 t)) := by
  obtain ⟨n, hn⟩ := t
  cases n with
  | zero => exact absurd rfl h
  | succ n => exact rfl

/-! ## The pipeline's proof data -/

/-- The proof data of the region on core c: the arrays as the region finds them; after the body at point t each input's
    buffer at its block, the product's buffer at W·sin(x·scale + shift) of the input blocks, the two accumulators' at
    their running contents; the invariant passes through; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay5 (iblk2 V c 0 t) (iblk2 V c 1 t) (iblk2 V c 2 t) (iblk2 V c 3 t)
    | ⟨5, _⟩ => outsAt2_5 V c t.val t.isLt
    | ⟨6, _⟩ => outsAt2_6 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay5 (iblk2 V c 0 t) (iblk2 V c 1 t) (iblk2 V c 2 t) (iblk2 V c 3 t) := by dsimp only [dat2]
theorem after2_5 (c : Dev nD) (t : Fin cfg2.N) : (dat2 V c).after 5 t = outsAt2_5 V c t.val t.isLt := by dsimp only [dat2]
theorem after2_6 (c : Dev nD) (t : Fin cfg2.N) : (dat2 V c).after 6 t = outsAt2_6 V c t.val t.isLt := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a point after the first the sum's current staging buffer holds what the body left at the point before: the
    buffer is written back after the last point only, and the window is never idle and never cut. -/
theorem before2_5_B (c : Dev nD) (t : Fin cfg2.N) (h0 : ¬t.val = 0) (d) :
    (dat2 V c).before 5 t d = outsAt2_5 V c (t.val - 1) (Nat.lt_of_le_of_lt (Nat.sub_le _ _) t.isLt) := by
  have hN : t.val < 128 := lt_of_lt_of_eq t.isLt (show cfg2.N = 128 from N_2)
  rw [Dat.before_out_kept _ 5 rfl t h0 (Bool.eq_false_iff.mpr fun h => by have := (flush2_5 _).mp h; dsimp only at this; omega)
    (fun _ => rfl) (fun _ _ => rfl)]
  dsimp only [dat2]

/-- The same for the sum of squares. -/
theorem before2_6_B (c : Dev nD) (t : Fin cfg2.N) (h0 : ¬t.val = 0) (d) :
    (dat2 V c).before 6 t d = outsAt2_6 V c (t.val - 1) (Nat.lt_of_le_of_lt (Nat.sub_le _ _) t.isLt) := by
  have hN : t.val < 128 := lt_of_lt_of_eq t.isLt (show cfg2.N = 128 from N_2)
  rw [Dat.before_out_kept _ 6 rfl t h0 (Bool.eq_false_iff.mpr fun h => by have := (flush2_6 _).mp h; dsimp only at this; omega)
    (fun _ => rfl) (fun _ _ => rfl)]
  dsimp only [dat2]

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 800000 in
/-- The body at any point. The inputs' buffers hold their blocks. At the first point the accumulators are zeroed before they
    are read, so whatever they held does not matter; at a later point they hold what the point before left. In either
    case the kernel's triple applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  by_cases h0 : t.val = 0
  · rw [outsAt2_5_A V c t h0, outsAt2_6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ (grid2.coords t) _ _ _ _ _ _ _ _ _ _ _ _ _ _ ((hcond2_0 t).mpr h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt2_5_B V c t h0, outsAt2_6_B V c t h0]
    simp only [before2_5_B V c t h0, before2_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel2_B c Set.univ (grid2.coords t) _ _ _ _ _ _ _ _ _ _ _ _ _ _ (fun h => h0 ((hcond2_0 t).mp h))
      (iblk2 V c 0 t) (iblk2 V c 1 t) (iblk2 V c 2 t) (iblk2 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation, at every point of the grid. -/
theorem body_obligation2 (c : Dev nD) : BodyObligation (dat2 (F := F) V c) (defs₀ (F := F)) Variants.none () Set.univ := fun t => by
  rw [bigSep_W2, bigSep_W2]
  exact sound_body2 V c t

end Cert.ReferenceIdeal.Hand

end
-- ==== Proof.RefR3.lean ====
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: `cc3__mm_stats_kernel` at the entry contents `V`

The kernel computes y = W·x (256 channels) into window 2's block at each grid point and adds the block's per-channel
sum and sum of squares into windows 3 and 4, whose index map is constant; both are zeroed under the body's one
conditional at the first point. -/

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not: unfetched, the block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether the pipeline fetched it there or
    not: unfetched, the block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's one conditional -/

/-- Its condition from the grid coordinates: both are zero. -/
abbrev cond3 (i : grid3.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only. -/
theorem hcond3 : ∀ t : Fin cfg3.N, cond3 (grid3.coords t) ↔ t.val = 0 :=
  (by decide +kernel : ∀ t : Fin grid3.N, cond3 (grid3.coords t) ↔ t.val = 0)

/-! ## The body's triple, case by case -/

set_option maxHeartbeats 1000000 in
/-- AT THE FIRST POINT (the conditional taken). On whole staging memrefs, the inputs' at contents `x0`, `x1` and the
    outputs' at anything, the body runs to the continuation holding the inputs' as they were, the product block in
    window 2's buffer, and in each accumulator's buffer its update of the zero block stored under the conditional
    (the body loads the accumulator back after zeroing it). -/
theorem sound_kernel3_A (c : Dev nD) (E : Set ℕ) (i : grid3.Coords) (arg2 : Memref sig .tc .vmem S1x128x1024 .f32) (harg2 : arg2.IsWhole) (arg3 : Memref sig .tc .vmem S256x128 .f32) (harg3 : arg3.IsWhole) (arg4 : Memref sig .tc .vmem S1x256x1024 .f32) (harg4 : arg4.IsWhole) (arg5 : Memref sig .tc .vmem S256x1 .f32) (harg5 : arg5.IsWhole) (arg6 : Memref sig .tc .vmem S256x1 .f32) (harg6 : arg6.IsWhole) (hc : cond3 i)
    (x0 : Vec F S1x128x1024 .f32) (x1 : Vec F S256x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (k3_pay4 x1 x0)
            ∗ owns (c : Thread nD τ) arg5 fullShare (k3_pay5 x1 x0 (k3_pay1 (F := F)))
            ∗ owns (c : Thread nD τ) arg6 fullShare (k3_pay6 x1 x0 (k3_pay2 (F := F)))) -∗ K ⟨⟩))
      ⊢ wp frame (wpE (defs₀ (F := F)) Variants.none c none) E (cc3__mm_stats_kernel i arg2 harg2 arg3 harg3 arg4 harg4 arg5 harg5 arg6 harg6) K := by
  simp only [cc3__mm_stats_kernel_eq_skeleton]; unfold cc3__mm_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x256x1024_S1x256x1024_0_0_0 y⟩),
      View.canon_unit_zero hz3]
    simp only [View.readAt_eq_ld, View.ld_unit_zero (S := S256x128) hz2, View.ld_unit_zero (S := S1x128x1024) hz3]
  isplitl [H3]
  · iexists _; isplitr
    swap; · iexact H3
    ipureintro
    sl_unfold_run_names
    rw [View.read_writes_eq_canon _ _ _ (fun y => ⟨_, List.mem_cons_self, View.mem_set_unit_zero hz2 inb_S256x1_S256x1_0_0 y⟩),
      View.canon_cons_unit_zero (S := S256x1) hz2, View.readCov_unit_zero (S := S256x1) _ hz2]
    simp only [View.readAt_eq_ld, View.ld_unit_zero (S := S256x128) hz2, View.ld_unit_zero (S := S1x128x1024) hz3]
  iexists _; isplitr
  swap; · iexact H4
  ipureintro
  sl_unfold_run_names
  rw [View.read_writes_eq_canon _ _ _ (fun y => ⟨_, List.mem_cons_self, View.mem_set_unit_zero hz2 inb_S256x1_S256x1_0_0 y⟩),
    View.canon_cons_unit_zero (S := S256x1) hz2, View.readCov_unit_zero (S := S256x1) _ hz2]
  simp only [View.readAt_eq_ld, View.ld_unit_zero (S := S256x128) hz2, View.ld_unit_zero (S := S1x128x1024) hz3]

set_option maxHeartbeats 1000000 in
/-- AT EVERY LATER POINT (the conditional not taken). The same, the accumulators' buffers handed at contents `xo3`,
    `xo4` and left at their updates of those. -/
theorem sound_kernel3_B (c : Dev nD) (E : Set ℕ) (i : grid3.Coords) (arg2 : Memref sig .tc .vmem S1x128x1024 .f32) (harg2 : arg2.IsWhole) (arg3 : Memref sig .tc .vmem S256x128 .f32) (harg3 : arg3.IsWhole) (arg4 : Memref sig .tc .vmem S1x256x1024 .f32) (harg4 : arg4.IsWhole) (arg5 : Memref sig .tc .vmem S256x1 .f32) (harg5 : arg5.IsWhole) (arg6 : Memref sig .tc .vmem S256x1 .f32) (harg6 : arg6.IsWhole) (hc : ¬ cond3 i)
    (x0 : Vec F S1x128x1024 .f32) (x1 : Vec F S256x128 .f32) (xo3 xo4 : Vec F S256x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo3 ∗ owns (c : Thread nD τ) arg6 fullShare xo4
        ∗ (iprop(owns (c : Thread nD τ) arg2 fullShare x0 ∗ owns (c : Thread nD τ) arg3 fullShare x1
            ∗ owns (c : Thread nD τ) arg4 fullShare (k3_pay4 x1 x0)
            ∗ owns (c : Thread nD τ) arg5 fullShare (k3_pay5 x1 x0 xo3)
            ∗ owns (c : Thread nD τ) arg6 fullShare (k3_pay6 x1 x0 xo4)) -∗ K ⟨⟩))
      ⊢ wp frame (wpE (defs₀ (F := F)) Variants.none c none) E (cc3__mm_stats_kernel i arg2 harg2 arg3 harg3 arg4 harg4 arg5 harg5 arg6 harg6) K := by
  simp only [cc3__mm_stats_kernel_eq_skeleton]; unfold cc3__mm_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0 hf1 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x256x1024_S1x256x1024_0_0_0 y⟩),
      View.canon_unit_zero hz3]
    simp only [View.readAt_eq_ld, View.ld_unit_zero (S := S256x128) hz2, View.ld_unit_zero (S := S1x128x1024) hz3]
  isplitl [H3]
  · iexists _; isplitr
    swap; · iexact H3
    ipureintro
    rw [View.read_writes_eq_canon _ _ _ (fun y => ⟨_, List.mem_singleton_self _, View.mem_set_unit_zero hz2 inb_S256x1_S256x1_0_0 y⟩),
      View.canon_unit_zero hz2]
    simp only [View.readAt_eq_ld, View.ld_unit_zero (S := S256x128) hz2, View.ld_unit_zero (S := S1x128x1024) hz3, View.ld_unit_zero (S := S256x1) hz2]
  iexists _; isplitr
  swap; · iexact H4
  ipureintro
  rw [View.read_writes_eq_canon _ _ _ (fun y => ⟨_, List.mem_singleton_self _, View.mem_set_unit_zero hz2 inb_S256x1_S256x1_0_0 y⟩),
    View.canon_unit_zero hz2]
  simp only [View.readAt_eq_ld, View.ld_unit_zero (S := S256x128) hz2, View.ld_unit_zero (S := S1x128x1024) hz3, View.ld_unit_zero (S := S256x1) hz2]

/-! ## What the accumulators hold after each point -/

/-- Window 3's staging buffer after the body at position `n`: the accumulator's update over the zero block the body has
    just stored, at the first point, and over what the point before left, at every later one (the window's index map
    is constant and it is written back after the last point only, so its buffer keeps its contents between points). -/
def outsAt3_3 (c : Dev nD) : (n : ℕ) → n < cfg3.N → Vec F S256x1 .f32
  | 0, hn => k3_pay5 (iblk3 V c 1 ⟨0, hn⟩) (iblk3 V c 0 ⟨0, hn⟩) (k3_pay1 (F := F))
  | n + 1, hn => k3_pay5 (iblk3 V c 1 ⟨n + 1, hn⟩) (iblk3 V c 0 ⟨n + 1, hn⟩) (outsAt3_3 c n (Nat.lt_of_succ_lt hn))

/-- At the first point: the update of the zero block. -/
theorem outsAt3_3_A (c : Dev nD) (t : Fin cfg3.N) (h : t.val = 0) :
    outsAt3_3 V c t.val t.isLt = k3_pay5 (iblk3 V c 1 t) (iblk3 V c 0 t) (k3_pay1 (F := F)) := by
  obtain ⟨n, hn⟩ := t
  cases n with
  | zero => rfl
  | succ n => exact absurd h (Nat.succ_ne_zero n)

/-- At a later point: the update of what the point before left. -/
theorem outsAt3_3_B (c : Dev nD) (t : Fin cfg3.N) (h : ¬ t.val = 0) :
    outsAt3_3 V c t.val t.isLt
      = k3_pay5 (iblk3 V c 1 t) (iblk3 V c 0 t) (outsAt3_3 V c (t.val - 1) (Nat.lt_of_le_of_lt (Nat.sub_le _ _) t.isLt)) := by
  obtain ⟨n, hn⟩ := t
  cases n with
  | zero => exact absurd rfl h
  | succ n => rfl

/-- Window 4's staging buffer after the body at position `n`: the accumulator's update over the zero block the body has
    just stored, at the first point, and over what the point before left, at every later one (the window's index map
    is constant and it is written back after the last point only, so its buffer keeps its contents between points). -/
def outsAt3_4 (c : Dev nD) : (n : ℕ) → n < cfg3.N → Vec F S256x1 .f32
  | 0, hn => k3_pay6 (iblk3 V c 1 ⟨0, hn⟩) (iblk3 V c 0 ⟨0, hn⟩) (k3_pay2 (F := F))
  | n + 1, hn => k3_pay6 (iblk3 V c 1 ⟨n + 1, hn⟩) (iblk3 V c 0 ⟨n + 1, hn⟩) (outsAt3_4 c n (Nat.lt_of_succ_lt hn))

/-- At the first point: the update of the zero block. -/
theorem outsAt3_4_A (c : Dev nD) (t : Fin cfg3.N) (h : t.val = 0) :
    outsAt3_4 V c t.val t.isLt = k3_pay6 (iblk3 V c 1 t) (iblk3 V c 0 t) (k3_pay2 (F := F)) := by
  obtain ⟨n, hn⟩ := t
  cases n with
  | zero => rfl
  | succ n => exact absurd h (Nat.succ_ne_zero n)

/-- At a later point: the update of what the point before left. -/
theorem outsAt3_4_B (c : Dev nD) (t : Fin cfg3.N) (h : ¬ t.val = 0) :
    outsAt3_4 V c t.val t.isLt
      = k3_pay6 (iblk3 V c 1 t) (iblk3 V c 0 t) (outsAt3_4 V c (t.val - 1) (Nat.lt_of_le_of_lt (Nat.sub_le _ _) t.isLt)) := by
  obtain ⟨n, hn⟩ := t
  cases n with
  | zero => exact absurd rfl h
  | succ n => rfl

/-! ## The pipeline's proof data -/

/-- The proof data of the pipeline on core `c`: the arrays as the region finds them; after the body at point `t`
    each input's buffer at its block, window 2's at the product block, the accumulators' at `outsAt3_3`,
    `outsAt3_4`; the invariant the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay4 (iblk3 V c 1 t) (iblk3 V c 0 t)
    | ⟨3, _⟩ => outsAt3_3 V c t.val t.isLt
    | ⟨4, _⟩ => outsAt3_4 V c t.val t.isLt
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay4 (iblk3 V c 1 t) (iblk3 V c 0 t) := by dsimp only [dat3]
theorem after3_3 (c : Dev nD) (t : Fin cfg3.N) : (dat3 V c).after 3 t = outsAt3_3 V c t.val t.isLt := by dsimp only [dat3]
theorem after3_4 (c : Dev nD) (t : Fin cfg3.N) : (dat3 V c).after 4 t = outsAt3_4 V c t.val t.isLt := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
/-- At a point after the first, window 3's staging buffer holds what the body left at the point before: the window
    is not written back in between, is never idle and is not clipped. -/
theorem before3_3_B (c : Dev nD) (t : Fin cfg3.N) (h : ¬ t.val = 0) (d) :
    (dat3 V c).before 3 t d = outsAt3_3 V c (t.val - 1) (Nat.lt_of_le_of_lt (Nat.sub_le _ _) t.isLt) := by
  have hN : t.val < 64 := lt_of_lt_of_eq t.isLt (show cfg3.N = 64 from N_3)
  rw [Dat.before_out_kept _ 3 rfl t h (Bool.eq_false_iff.mpr fun hf => by have := (flush3_3 _).mp hf; dsimp only at this; omega)
    (fun _ => rfl) (fun _ _ => rfl)]
  dsimp only [dat3]
/-- At a point after the first, window 4's staging buffer holds what the body left at the point before: the window
    is not written back in between, is never idle and is not clipped. -/
theorem before3_4_B (c : Dev nD) (t : Fin cfg3.N) (h : ¬ t.val = 0) (d) :
    (dat3 V c).before 4 t d = outsAt3_4 V c (t.val - 1) (Nat.lt_of_le_of_lt (Nat.sub_le _ _) t.isLt) := by
  have hN : t.val < 64 := lt_of_lt_of_eq t.isLt (show cfg3.N = 64 from N_3)
  rw [Dat.before_out_kept _ 4 rfl t h (Bool.eq_false_iff.mpr fun hf => by have := (flush3_4 _).mp hf; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 800000 in
/-- The body at any point. The inputs' memrefs hold their blocks; the point is the first or a later one; at a later
    one each accumulator's memref holds what the point before left; so that case's triple applies. The invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3, after3_4]
  by_cases h : t.val = 0
  · rw [outsAt3_3_A V c t h, outsAt3_4_A V c t h]
    iintro ⟨HΦ, Ho, ⟨%d0, H0⟩, ⟨%d1, H1⟩, ⟨%d2, H2⟩, ⟨%d3, H3⟩, ⟨%d4, H4⟩⟩
    iapply (sound_kernel3_A c Set.univ (grid3.coords t) _ _ _ _ _ _ _ _ _ _ ((hcond3 t).mpr h) (iblk3 V c 0 t) (iblk3 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt3_3_B V c t h, outsAt3_4_B V c t h]
    simp only [before3_3_B V c t h, before3_4_B V c t h]
    iintro ⟨HΦ, Ho, ⟨%d0, H0⟩, ⟨%d1, H1⟩, ⟨%d2, H2⟩, ⟨%d3, H3⟩, ⟨%d4, H4⟩⟩
    iapply (sound_kernel3_B c Set.univ (grid3.coords t) _ _ _ _ _ _ _ _ _ _ (fun hc => h ((hcond3 t).mp hc)) (iblk3 V c 0 t) (iblk3 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.ReferenceIdeal.Hand

end
-- ==== Proof.RefR4.lean ====
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pointwise region with a shortcut added on the first 1024 lanes, on a grid of 64 points

Seven windows: 0 the block of y (256 × 4096 per point), 1 the block of the shortcut's operand (256 × 1024 per point),
2 … 5 four per-channel columns with a constant index map (2 the scale of y, 3 its shift, 4 the shortcut's scale,
5 the shortcut's shift), 6 the output block. The body stores the whole output block  y · sc + sh + sh'  and then stores
lanes [0, 1024) of it again with the shortcut term  z · sc'  added: so what it leaves in the output's buffer is the
second store's payload on lanes [0, 1024) and the first store's elsewhere, a function of the six input blocks alone. -/

/-- Window `w`'s block at point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## An input's buffer holds its block at every point

For any data whose array is the entry contents and whose body leaves the input block in place, the buffer the body
finds holds the window's block at the point: where the block was not fetched the index map has not moved, and the
block of the point before is this point's. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes through

`r4_0`, `r4_1`, `r4_2` are the whole of their buffers; `r4_3` is lanes [0, 1024) of the 256 × 4096 output block. -/

abbrev r4_0 : Rect S1x256x4096 := Rect.unit (s := S1x256x4096) ![0, 0, 0] S1x256x4096.size inb_S1x256x4096_S1x256x4096_0_0_0
abbrev r4_1 : Rect S256x1 := Rect.unit (s := S256x1) ![0, 0] S256x1.size inb_S256x1_S256x1_0_0
abbrev r4_2 : Rect S1x256x1024 := Rect.unit (s := S1x256x1024) ![0, 0, 0] S1x256x1024.size inb_S1x256x1024_S1x256x1024_0_0_0
abbrev r4_3 : Rect S1x256x4096 := Rect.unit (s := S1x256x4096) ![0, 0, 0] S1x256x1024.size inb_S1x256x4096_S1x256x1024_0_0_0

/-! ## What the body leaves in the output's buffer -/

/-- The output buffer after the body, from the six input blocks `x0` (y), `x1` (the shortcut's operand), `x2`, `x3`
    (scale and shift of y), `x4` (the shortcut's scale), `x5` (the shortcut's shift): the two stores as pieces, the
    LAST first — lanes [0, 1024) hold the second store's payload, the rest the first's. -/
def out4_6 (x0 : Vec F S1x256x4096 .f32) (x1 : Vec F S1x256x1024 .f32) (x2 : Vec F S256x1 .f32) (x3 : Vec F S256x1 .f32) (x4 : Vec F S256x1 .f32) (x5 : Vec F S256x1 .f32) : Vec F S1x256x4096 .f32 :=
  View.canon [⟨r4_3, k4_pay3 (View.ld x0 r4_0) (View.ld x2 r4_1) (View.ld x3 r4_1) (View.ld x5 r4_1) (View.ld x1 r4_2) (View.ld x4 r4_1)⟩,
    ⟨r4_0, k4_pay2 (View.ld x0 r4_0) (View.ld x2 r4_1) (View.ld x3 r4_1) (View.ld x5 r4_1)⟩]

/-- The first store's rectangle is the whole block, so every index of the block lies in one of the two. -/
theorem cover4_6 (p1 : r4_3.shape.Idx → Elt F .f32) (p0 : Vec F S1x256x4096 .f32) (y : S1x256x4096.Idx) :
    ∃ pc ∈ ([⟨r4_3, p1⟩, ⟨r4_0, p0⟩] : List (View.Piece (Elt F) S1x256x4096 .f32)), y ∈ pc.1.set :=
  View.cover_of_wholeMem [⟨r4_3, p1⟩, ⟨r4_0, p0⟩] (View.Piece.wholeMem_cons (View.Piece.wholeMem_here (by rfl))) y

/-! ## The body's triple -/

set_option maxHeartbeats 1000000 in
/-- On whole staging memrefs, the inputs' reading `x0 … x5` and the output's holding anything, the body runs to a state
    where the inputs' read as before and the output's reads `out4_6 x0 … x5`. -/
theorem sound_kernel4 (c : Dev nD) (E : Set ℕ) (i : grid4.Coords) (arg1 : Memref sig .tc .vmem S1x256x4096 .f32) (harg1 : arg1.IsWhole) (arg2 : Memref sig .tc .vmem S1x256x1024 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256x4096 .f32) (harg7 : arg7.IsWhole)
    (x0 : Vec F S1x256x4096 .f32) (x1 : Vec F S1x256x1024 .f32) (x2 : Vec F S256x1 .f32) (x3 : Vec F S256x1 .f32) (x4 : Vec F S256x1 .f32) (x5 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__bn_add_shortcut_kernel i arg1 harg1 arg2 harg2 arg3 harg3 arg4 harg4 arg5 harg5 arg6 harg6 arg7 harg7) K := by
  simp only [cc4__bn_add_shortcut_kernel_eq_skeleton]; unfold cc4__bn_add_shortcut_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _ _)

/-! ## The region's proof data -/

/-- The arrays as the region finds them; after the body at point `t` each input's buffer at its block and the output's
    at `out4_6` of the six input blocks; the invariant the scoped rest and the generator register, untouched; full
    shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The inputs' buffers hold their blocks, so the body's triple applies at the six blocks; the invariant and what is
    owed pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.ReferenceIdeal.Hand
-- ==== Proof.RefR5.lean ====
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: `cc5__mm_stats_kernel` at the entry contents `V`

The kernel computes y = W·x into window 2's block (2048 lanes) at each point of the 64×2 grid and adds the block's
per-channel sum and sum of squares into windows 3 and 4, whose index map is constant; both are zeroed under the
body's one conditional at the first point. -/

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not: unfetched, the block index has not moved and the body left the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether the pipeline fetched it there or
    not: unfetched, the block index has not moved and the body left the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's one conditional -/

/-- Its condition from the grid coordinates: both are zero. -/
abbrev cond5 (i : grid5.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only. -/
theorem hcond5 : ∀ t : Fin cfg5.N, cond5 (grid5.coords t) ↔ t.val = 0 :=
  (by decide +kernel : ∀ t : Fin grid5.N, cond5 (grid5.coords t) ↔ t.val = 0)

/-! ## The body's triple, case by case -/

set_option maxHeartbeats 1000000 in
/-- AT THE FIRST POINT (the conditional taken). On whole staging memrefs, the inputs' at contents `x0`, `x1` and the
    outputs' at anything, the body runs to the continuation holding the inputs' as they were, the product block in
    window 2's buffer, and in each accumulator's buffer its update of the zero block stored under the conditional
    (the body loads the accumulator back after zeroing it). -/
theorem sound_kernel5_A (c : Dev nD) (E : Set ℕ) (i : grid5.Coords) (arg2 : Memref sig .tc .vmem S1x256x2048 .f32) (harg2 : arg2.IsWhole) (arg3 : Memref sig .tc .vmem S64x256 .f32) (harg3 : arg3.IsWhole) (arg4 : Memref sig .tc .vmem S1x64x2048 .f32) (harg4 : arg4.IsWhole) (arg5 : Memref sig .tc .vmem S64x1 .f32) (harg5 : arg5.IsWhole) (arg6 : Memref sig .tc .vmem S64x1 .f32) (harg6 : arg6.IsWhole) (hc : cond5 i)
    (x0 : Vec F S1x256x2048 .f32) (x1 : Vec F S64x256 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (k5_pay4 x1 x0)
            ∗ owns (c : Thread nD τ) arg5 fullShare (k5_pay5 x1 x0 (k5_pay1 (F := F)))
            ∗ owns (c : Thread nD τ) arg6 fullShare (k5_pay6 x1 x0 (k5_pay2 (F := F)))) -∗ K ⟨⟩))
      ⊢ wp frame (wpE (defs₀ (F := F)) Variants.none c none) E (cc5__mm_stats_kernel i arg2 harg2 arg3 harg3 arg4 harg4 arg5 harg5 arg6 harg6) K := by
  simp only [cc5__mm_stats_kernel_eq_skeleton]; unfold cc5__mm_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x64x2048_S1x64x2048_0_0_0 y⟩),
      View.canon_unit_zero hz3]
    simp only [View.readAt_eq_ld, View.ld_unit_zero (S := S64x256) hz2, View.ld_unit_zero (S := S1x256x2048) hz3]
  isplitl [H3]
  · iexists _; isplitr
    swap; · iexact H3
    ipureintro
    sl_unfold_run_names
    rw [View.read_writes_eq_canon _ _ _ (fun y => ⟨_, List.mem_cons_self, View.mem_set_unit_zero hz2 inb_S64x1_S64x1_0_0 y⟩),
      View.canon_cons_unit_zero (S := S64x1) hz2, View.readCov_unit_zero (S := S64x1) _ hz2]
    simp only [View.readAt_eq_ld, View.ld_unit_zero (S := S64x256) hz2, View.ld_unit_zero (S := S1x256x2048) hz3]
  iexists _; isplitr
  swap; · iexact H4
  ipureintro
  sl_unfold_run_names
  rw [View.read_writes_eq_canon _ _ _ (fun y => ⟨_, List.mem_cons_self, View.mem_set_unit_zero hz2 inb_S64x1_S64x1_0_0 y⟩),
    View.canon_cons_unit_zero (S := S64x1) hz2, View.readCov_unit_zero (S := S64x1) _ hz2]
  simp only [View.readAt_eq_ld, View.ld_unit_zero (S := S64x256) hz2, View.ld_unit_zero (S := S1x256x2048) hz3]

set_option maxHeartbeats 1000000 in
/-- AT EVERY LATER POINT (the conditional not taken). The same, the accumulators' buffers handed at contents `xo3`,
    `xo4` and left at their updates of those. -/
theorem sound_kernel5_B (c : Dev nD) (E : Set ℕ) (i : grid5.Coords) (arg2 : Memref sig .tc .vmem S1x256x2048 .f32) (harg2 : arg2.IsWhole) (arg3 : Memref sig .tc .vmem S64x256 .f32) (harg3 : arg3.IsWhole) (arg4 : Memref sig .tc .vmem S1x64x2048 .f32) (harg4 : arg4.IsWhole) (arg5 : Memref sig .tc .vmem S64x1 .f32) (harg5 : arg5.IsWhole) (arg6 : Memref sig .tc .vmem S64x1 .f32) (harg6 : arg6.IsWhole) (hc : ¬ cond5 i)
    (x0 : Vec F S1x256x2048 .f32) (x1 : Vec F S64x256 .f32) (xo3 xo4 : Vec F S64x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo3 ∗ owns (c : Thread nD τ) arg6 fullShare xo4
        ∗ (iprop(owns (c : Thread nD τ) arg2 fullShare x0 ∗ owns (c : Thread nD τ) arg3 fullShare x1
            ∗ owns (c : Thread nD τ) arg4 fullShare (k5_pay4 x1 x0)
            ∗ owns (c : Thread nD τ) arg5 fullShare (k5_pay5 x1 x0 xo3)
            ∗ owns (c : Thread nD τ) arg6 fullShare (k5_pay6 x1 x0 xo4)) -∗ K ⟨⟩))
      ⊢ wp frame (wpE (defs₀ (F := F)) Variants.none c none) E (cc5__mm_stats_kernel i arg2 harg2 arg3 harg3 arg4 harg4 arg5 harg5 arg6 harg6) K := by
  simp only [cc5__mm_stats_kernel_eq_skeleton]; unfold cc5__mm_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0 hf1 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S1x64x2048_S1x64x2048_0_0_0 y⟩),
      View.canon_unit_zero hz3]
    simp only [View.readAt_eq_ld, View.ld_unit_zero (S := S64x256) hz2, View.ld_unit_zero (S := S1x256x2048) hz3]
  isplitl [H3]
  · iexists _; isplitr
    swap; · iexact H3
    ipureintro
    rw [View.read_writes_eq_canon _ _ _ (fun y => ⟨_, List.mem_singleton_self _, View.mem_set_unit_zero hz2 inb_S64x1_S64x1_0_0 y⟩),
      View.canon_unit_zero hz2]
    simp only [View.readAt_eq_ld, View.ld_unit_zero (S := S64x256) hz2, View.ld_unit_zero (S := S1x256x2048) hz3, View.ld_unit_zero (S := S64x1) hz2]
  iexists _; isplitr
  swap; · iexact H4
  ipureintro
  rw [View.read_writes_eq_canon _ _ _ (fun y => ⟨_, List.mem_singleton_self _, View.mem_set_unit_zero hz2 inb_S64x1_S64x1_0_0 y⟩),
    View.canon_unit_zero hz2]
  simp only [View.readAt_eq_ld, View.ld_unit_zero (S := S64x256) hz2, View.ld_unit_zero (S := S1x256x2048) hz3, View.ld_unit_zero (S := S64x1) hz2]

/-! ## What the accumulators hold after each point -/

/-- Window 3's staging buffer after the body at position `n`: the accumulator's update over the zero block the body has
    just stored, at the first point, and over what the point before left, at every later one (the window's index map
    is constant and it is written back after the last point only, so its buffer keeps its contents between points). -/
def outsAt5_3 (c : Dev nD) : (n : ℕ) → n < cfg5.N → Vec F S64x1 .f32
  | 0, hn => k5_pay5 (iblk5 V c 1 ⟨0, hn⟩) (iblk5 V c 0 ⟨0, hn⟩) (k5_pay1 (F := F))
  | n + 1, hn => k5_pay5 (iblk5 V c 1 ⟨n + 1, hn⟩) (iblk5 V c 0 ⟨n + 1, hn⟩) (outsAt5_3 c n (Nat.lt_of_succ_lt hn))

/-- At the first point: the update of the zero block. -/
theorem outsAt5_3_A (c : Dev nD) (t : Fin cfg5.N) (h : t.val = 0) :
    outsAt5_3 V c t.val t.isLt = k5_pay5 (iblk5 V c 1 t) (iblk5 V c 0 t) (k5_pay1 (F := F)) := by
  obtain ⟨n, hn⟩ := t
  cases n with
  | zero => rfl
  | succ n => exact absurd h (Nat.succ_ne_zero n)

/-- At a later point: the update of what the point before left. -/
theorem outsAt5_3_B (c : Dev nD) (t : Fin cfg5.N) (h : ¬ t.val = 0) :
    outsAt5_3 V c t.val t.isLt
      = k5_pay5 (iblk5 V c 1 t) (iblk5 V c 0 t) (outsAt5_3 V c (t.val - 1) (Nat.lt_of_le_of_lt (Nat.sub_le _ _) t.isLt)) := by
  obtain ⟨n, hn⟩ := t
  cases n with
  | zero => exact absurd rfl h
  | succ n => rfl

/-- Window 4's staging buffer after the body at position `n`: the accumulator's update over the zero block the body has
    just stored, at the first point, and over what the point before left, at every later one (the window's index map
    is constant and it is written back after the last point only, so its buffer keeps its contents between points). -/
def outsAt5_4 (c : Dev nD) : (n : ℕ) → n < cfg5.N → Vec F S64x1 .f32
  | 0, hn => k5_pay6 (iblk5 V c 1 ⟨0, hn⟩) (iblk5 V c 0 ⟨0, hn⟩) (k5_pay2 (F := F))
  | n + 1, hn => k5_pay6 (iblk5 V c 1 ⟨n + 1, hn⟩) (iblk5 V c 0 ⟨n + 1, hn⟩) (outsAt5_4 c n (Nat.lt_of_succ_lt hn))

/-- At the first point: the update of the zero block. -/
theorem outsAt5_4_A (c : Dev nD) (t : Fin cfg5.N) (h : t.val = 0) :
    outsAt5_4 V c t.val t.isLt = k5_pay6 (iblk5 V c 1 t) (iblk5 V c 0 t) (k5_pay2 (F := F)) := by
  obtain ⟨n, hn⟩ := t
  cases n with
  | zero => rfl
  | succ n => exact absurd h (Nat.succ_ne_zero n)

/-- At a later point: the update of what the point before left. -/
theorem outsAt5_4_B (c : Dev nD) (t : Fin cfg5.N) (h : ¬ t.val = 0) :
    outsAt5_4 V c t.val t.isLt
      = k5_pay6 (iblk5 V c 1 t) (iblk5 V c 0 t) (outsAt5_4 V c (t.val - 1) (Nat.lt_of_le_of_lt (Nat.sub_le _ _) t.isLt)) := by
  obtain ⟨n, hn⟩ := t
  cases n with
  | zero => exact absurd rfl h
  | succ n => rfl

/-! ## The pipeline's proof data -/

/-- The proof data of the pipeline on core `c`: the arrays as the region finds them; after the body at point `t`
    each input's buffer at its block, window 2's at the product block, the accumulators' at `outsAt5_3`,
    `outsAt5_4`; the invariant the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay4 (iblk5 V c 1 t) (iblk5 V c 0 t)
    | ⟨3, _⟩ => outsAt5_3 V c t.val t.isLt
    | ⟨4, _⟩ => outsAt5_4 V c t.val t.isLt
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay4 (iblk5 V c 1 t) (iblk5 V c 0 t) := by dsimp only [dat5]
theorem after5_3 (c : Dev nD) (t : Fin cfg5.N) : (dat5 V c).after 3 t = outsAt5_3 V c t.val t.isLt := by dsimp only [dat5]
theorem after5_4 (c : Dev nD) (t : Fin cfg5.N) : (dat5 V c).after 4 t = outsAt5_4 V c t.val t.isLt := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
/-- At a point after the first, window 3's staging buffer holds what the body left at the point before: the window
    is not written back in between, is never idle and is not clipped. -/
theorem before5_3_B (c : Dev nD) (t : Fin cfg5.N) (h : ¬ t.val = 0) (d) :
    (dat5 V c).before 3 t d = outsAt5_3 V c (t.val - 1) (Nat.lt_of_le_of_lt (Nat.sub_le _ _) t.isLt) := by
  have hN : t.val < 128 := lt_of_lt_of_eq t.isLt (show cfg5.N = 128 from N_5)
  rw [Dat.before_out_kept _ 3 rfl t h (Bool.eq_false_iff.mpr fun hf => by have := (flush5_3 _).mp hf; dsimp only at this; omega)
    (fun _ => rfl) (fun _ _ => rfl)]
  dsimp only [dat5]
/-- At a point after the first, window 4's staging buffer holds what the body left at the point before: the window
    is not written back in between, is never idle and is not clipped. -/
theorem before5_4_B (c : Dev nD) (t : Fin cfg5.N) (h : ¬ t.val = 0) (d) :
    (dat5 V c).before 4 t d = outsAt5_4 V c (t.val - 1) (Nat.lt_of_le_of_lt (Nat.sub_le _ _) t.isLt) := by
  have hN : t.val < 128 := lt_of_lt_of_eq t.isLt (show cfg5.N = 128 from N_5)
  rw [Dat.before_out_kept _ 4 rfl t h (Bool.eq_false_iff.mpr fun hf => by have := (flush5_4 _).mp hf; dsimp only at this; omega)
    (fun _ => rfl) (fun _ _ => rfl)]
  dsimp only [dat5]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

set_option maxHeartbeats 800000 in
/-- The body at any point. The inputs' memrefs hold their blocks; the point is the first or a later one; at a later
    one each accumulator's memref holds what the point before left; so that case's triple applies. The invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2, after5_3, after5_4]
  by_cases h : t.val = 0
  · rw [outsAt5_3_A V c t h, outsAt5_4_A V c t h]
    iintro ⟨HΦ, Ho, ⟨%d0, H0⟩, ⟨%d1, H1⟩, ⟨%d2, H2⟩, ⟨%d3, H3⟩, ⟨%d4, H4⟩⟩
    iapply (sound_kernel5_A c Set.univ (grid5.coords t) _ _ _ _ _ _ _ _ _ _ ((hcond5 t).mpr h) (iblk5 V c 0 t) (iblk5 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt5_3_B V c t h, outsAt5_4_B V c t h]
    simp only [before5_3_B V c t h, before5_4_B V c t h]
    iintro ⟨HΦ, Ho, ⟨%d0, H0⟩, ⟨%d1, H1⟩, ⟨%d2, H2⟩, ⟨%d3, H3⟩, ⟨%d4, H4⟩⟩
    iapply (sound_kernel5_B c Set.univ (grid5.coords t) _ _ _ _ _ _ _ _ _ _ (fun hc => h ((hcond5 t).mp hc)) (iblk5 V c 0 t) (iblk5 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.ReferenceIdeal.Hand

end
-- ==== Proof.RefR6.lean ====
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ
/-! # Region 6: the stride-1 3×3 transposed convolution of the second block

Per grid point (one image): the activation block through batch-norm scale and shift and a sine into lanes [128, 4224) of a
zeroed 64 × 4352 scratch; nine slabs of 4096 lanes read at lane offsets 193, 192, 191, 129, 128, 127, 65, 64, 63, each times
its mask row; nine 64 × 64 tap products summed in tap order; the sum stored as the output block and added, by rows and by
rows of squares, into two per-channel columns carried across the grid and zeroed at the first point. -/

/-- The condition of the body's conditional, from the grid coordinate. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-! ## The body's boxes -/

/-- the whole input / output block -/
abbrev r6_x : Rect S1x64x4096 := Rect.unit (s := S1x64x4096) ![0, 0, 0] S1x64x4096.size inb_S1x64x4096_S1x64x4096_0_0_0
/-- the whole per-channel column -/
abbrev r6_c : Rect S64x1 := Rect.unit (s := S64x1) ![0, 0] S64x1.size inb_S64x1_S64x1_0_0
/-- tap 0 of the weights -/
abbrev r6_w0 : Rect S9x64x64 := Rect.unit (s := S9x64x64) ![0, 0, 0] S1x64x64.size inb_S9x64x64_S1x64x64_0_0_0
/-- row 0 of the mask -/
abbrev r6_m0 : Rect S9x4096 := Rect.unit (s := S9x4096) ![0, 0] S1x4096.size inb_S9x4096_S1x4096_0_0
/-- tap 1 of the weights -/
abbrev r6_w1 : Rect S9x64x64 := Rect.unit (s := S9x64x64) ![1, 0, 0] S1x64x64.size inb_S9x64x64_S1x64x64_1_0_0
/-- row 1 of the mask -/
abbrev r6_m1 : Rect S9x4096 := Rect.unit (s := S9x4096) ![1, 0] S1x4096.size inb_S9x4096_S1x4096_1_0
/-- tap 2 of the weights -/
abbrev r6_w2 : Rect S9x64x64 := Rect.unit (s := S9x64x64) ![2, 0, 0] S1x64x64.size inb_S9x64x64_S1x64x64_2_0_0
/-- row 2 of the mask -/
abbrev r6_m2 : Rect S9x4096 := Rect.unit (s := S9x4096) ![2, 0] S1x4096.size inb_S9x4096_S1x4096_2_0
/-- tap 3 of the weights -/
abbrev r6_w3 : Rect S9x64x64 := Rect.unit (s := S9x64x64) ![3, 0, 0] S1x64x64.size inb_S9x64x64_S1x64x64_3_0_0
/-- row 3 of the mask -/
abbrev r6_m3 : Rect S9x4096 := Rect.unit (s := S9x4096) ![3, 0] S1x4096.size inb_S9x4096_S1x4096_3_0
/-- tap 4 of the weights -/
abbrev r6_w4 : Rect S9x64x64 := Rect.unit (s := S9x64x64) ![4, 0, 0] S1x64x64.size inb_S9x64x64_S1x64x64_4_0_0
/-- row 4 of the mask -/
abbrev r6_m4 : Rect S9x4096 := Rect.unit (s := S9x4096) ![4, 0] S1x4096.size inb_S9x4096_S1x4096_4_0
/-- tap 5 of the weights -/
abbrev r6_w5 : Rect S9x64x64 := Rect.unit (s := S9x64x64) ![5, 0, 0] S1x64x64.size inb_S9x64x64_S1x64x64_5_0_0
/-- row 5 of the mask -/
abbrev r6_m5 : Rect S9x4096 := Rect.unit (s := S9x4096) ![5, 0] S1x4096.size inb_S9x4096_S1x4096_5_0
/-- tap 6 of the weights -/
abbrev r6_w6 : Rect S9x64x64 := Rect.unit (s := S9x64x64) ![6, 0, 0] S1x64x64.size inb_S9x64x64_S1x64x64_6_0_0
/-- row 6 of the mask -/
abbrev r6_m6 : Rect S9x4096 := Rect.unit (s := S9x4096) ![6, 0] S1x4096.size inb_S9x4096_S1x4096_6_0
/-- tap 7 of the weights -/
abbrev r6_w7 : Rect S9x64x64 := Rect.unit (s := S9x64x64) ![7, 0, 0] S1x64x64.size inb_S9x64x64_S1x64x64_7_0_0
/-- row 7 of the mask -/
abbrev r6_m7 : Rect S9x4096 := Rect.unit (s := S9x4096) ![7, 0] S1x4096.size inb_S9x4096_S1x4096_7_0
/-- tap 8 of the weights -/
abbrev r6_w8 : Rect S9x64x64 := Rect.unit (s := S9x64x64) ![8, 0, 0] S1x64x64.size inb_S9x64x64_S1x64x64_8_0_0
/-- row 8 of the mask -/
abbrev r6_m8 : Rect S9x4096 := Rect.unit (s := S9x4096) ![8, 0] S1x4096.size inb_S9x4096_S1x4096_8_0
/-- the whole scratch -/
abbrev r6_sW : Rect S64x4352 := Rect.unit (s := S64x4352) ![0, 0] S64x4352.size inb_S64x4352_S64x4352_0_0
/-- the 4096 lanes of the scratch from lane 193 -/
abbrev r6_s193 : Rect S64x4352 := Rect.unit (s := S64x4352) ![0, 193] S64x4096.size inb_S64x4352_S64x4096_0_193
/-- the 4096 lanes of the scratch from lane 192 -/
abbrev r6_s192 : Rect S64x4352 := Rect.unit (s := S64x4352) ![0, 192] S64x4096.size inb_S64x4352_S64x4096_0_192
/-- the 4096 lanes of the scratch from lane 191 -/
abbrev r6_s191 : Rect S64x4352 := Rect.unit (s := S64x4352) ![0, 191] S64x4096.size inb_S64x4352_S64x4096_0_191
/-- the 4096 lanes of the scratch from lane 129 -/
abbrev r6_s129 : Rect S64x4352 := Rect.unit (s := S64x4352) ![0, 129] S64x4096.size inb_S64x4352_S64x4096_0_129
/-- the 4096 lanes of the scratch from lane 128 -/
abbrev r6_s128 : Rect S64x4352 := Rect.unit (s := S64x4352) ![0, 128] S64x4096.size inb_S64x4352_S64x4096_0_128
/-- the 4096 lanes of the scratch from lane 127 -/
abbrev r6_s127 : Rect S64x4352 := Rect.unit (s := S64x4352) ![0, 127] S64x4096.size inb_S64x4352_S64x4096_0_127
/-- the 4096 lanes of the scratch from lane 65 -/
abbrev r6_s65 : Rect S64x4352 := Rect.unit (s := S64x4352) ![0, 65] S64x4096.size inb_S64x4352_S64x4096_0_65
/-- the 4096 lanes of the scratch from lane 64 -/
abbrev r6_s64 : Rect S64x4352 := Rect.unit (s := S64x4352) ![0, 64] S64x4096.size inb_S64x4352_S64x4096_0_64
/-- the 4096 lanes of the scratch from lane 63 -/
abbrev r6_s63 : Rect S64x4352 := Rect.unit (s := S64x4352) ![0, 63] S64x4096.size inb_S64x4352_S64x4096_0_63

/-! ## What the body computes at a point, from the input blocks

`x0` the activation block, `x1` `x2` the per-channel scale and shift, `x3` the nine 64×64 taps, `x4` the nine mask rows;
-/

section Contents
variable (x0 : Vec F S1x64x4096 .f32) (x1 : Vec F S64x1 .f32) (x2 : Vec F S64x1 .f32) (x3 : Vec F S9x64x64 .f32) (x4 : Vec F S9x4096 .f32)

/-- The scratch after the body's two stores, as pieces, last first: sin(x·scale + shift) on lanes [128, 4224) over the
    zero fill of all 4352 lanes. -/
def LS6 : List (View.Piece (Elt F) S64x4352 .f32) :=
  [⟨r6_s128, k6_pay8 (View.ld x0 r6_x) (View.ld x1 r6_c) (View.ld x2 r6_c)⟩, ⟨r6_sW, k6_pay7⟩]

/-- The slab of the scratch at box `r`, read after the two stores. -/
def slab6 (r : Rect S64x4352) : r.shape.Idx → Elt F .f32 := View.ld (View.canon (LS6 x0 x1 x2)) r

/-- The nine shifted slabs, each times its mask row. -/
def m6_0 : FVec F S64x4096 .f32 := k6_pay9 (slab6 x0 x1 x2 r6_s193) (View.ld x4 r6_m0)
def m6_1 : FVec F S64x4096 .f32 := k6_pay10 (slab6 x0 x1 x2 r6_s192) (View.ld x4 r6_m1)
def m6_2 : FVec F S64x4096 .f32 := k6_pay11 (slab6 x0 x1 x2 r6_s191) (View.ld x4 r6_m2)
def m6_3 : FVec F S64x4096 .f32 := k6_pay12 (slab6 x0 x1 x2 r6_s129) (View.ld x4 r6_m3)
def m6_4 : FVec F S64x4096 .f32 := k6_pay13 (slab6 x0 x1 x2 r6_s128) (View.ld x4 r6_m4)
def m6_5 : FVec F S64x4096 .f32 := k6_pay14 (slab6 x0 x1 x2 r6_s127) (View.ld x4 r6_m5)
def m6_6 : FVec F S64x4096 .f32 := k6_pay15 (slab6 x0 x1 x2 r6_s65) (View.ld x4 r6_m6)
def m6_7 : FVec F S64x4096 .f32 := k6_pay16 (slab6 x0 x1 x2 r6_s64) (View.ld x4 r6_m7)
def m6_8 : FVec F S64x4096 .f32 := k6_pay17 (slab6 x0 x1 x2 r6_s63) (View.ld x4 r6_m8)

/-- Taps 0 to 7 applied and summed: the accumulator before the last tap. -/
def s6_87 : FVec F S64x4096 .f32 :=
  k6_pay19 (m6_1 x0 x1 x2 x4) (m6_2 x0 x1 x2 x4) (m6_3 x0 x1 x2 x4) (m6_4 x0 x1 x2 x4) (m6_5 x0 x1 x2 x4) (m6_6 x0 x1 x2 x4) (m6_7 x0 x1 x2 x4)
    (k6_pay18 (m6_0 x0 x1 x2 x4) (View.ld x3 r6_w0))
    (View.ld x3 r6_w1) (View.ld x3 r6_w2) (View.ld x3 r6_w3) (View.ld x3 r6_w4) (View.ld x3 r6_w5) (View.ld x3 r6_w6) (View.ld x3 r6_w7)

/-- The last tap's matrix. -/
def s6_89 : FVec F S64x64 .f32 := k6_pay20 (View.ld x3 r6_w8)

/-- The last matmul's zero accumulator. -/
def cst6 : FVec F S64x4096 .f32 := constant S64x4096 .f32 0x00000000#32

/-- The output block: the nine taps' sum. -/
def out6_5 : Vec F S1x64x4096 .f32 :=
  View.canon [⟨r6_x, k6_pay2 (m6_8 x0 x1 x2 x4) (s6_87 x0 x1 x2 x3 x4) (s6_89 x3) (cst6 (F := F))⟩]

/-- The carried per-channel sum after the point, from the column `s` the body loads of it first. -/
def acc6_6 (s : Vec F S64x1 .f32) : Vec F S64x1 .f32 :=
  View.canon [⟨r6_c, k6_pay3 (m6_8 x0 x1 x2 x4) (s6_87 x0 x1 x2 x3 x4) (s6_89 x3) (cst6 (F := F)) s⟩]

/-- The carried per-channel sum of squares after the point, from the column `s` the body loads of it first. -/
def acc6_7 (s : Vec F S64x1 .f32) : Vec F S64x1 .f32 :=
  View.canon [⟨r6_c, k6_pay4 (m6_8 x0 x1 x2 x4) (s6_87 x0 x1 x2 x3 x4) (s6_89 x3) (cst6 (F := F)) s⟩]

end Contents

/-- One whole-block store covers the block; -/
theorem cover6_x (p0 : Vec F S1x64x4096 .f32) (y : S1x64x4096.Idx) :
    ∃ pc ∈ ([⟨r6_x, p0⟩] : List (View.Piece (Elt F) S1x64x4096 .f32)), y ∈ pc.1.set :=
  View.cover_of_tiled [⟨r6_x, p0⟩] S1x64x4096.size (by rfl) y
/-- one whole-column store covers the column. -/
theorem cover6_c (p0 : Vec F S64x1 .f32) (y : S64x1.Idx) :
    ∃ pc ∈ ([⟨r6_c, p0⟩] : List (View.Piece (Elt F) S64x1 .f32)), y ∈ pc.1.set :=
  View.cover_of_tiled [⟨r6_c, p0⟩] S64x1.size (by rfl) y

/-- A last store through a rectangle that is the whole shape reads back as that one piece, whatever lies under it. -/
theorem read_writes_cons_whole6 {s : Shape} {e : EltTy} (v : View sig .tc .vmem s e) (f : v.ty.Contents (Elt F)) (r : Rect s)
    (w : r.shape.Idx → Elt F e) (L : List (View.Piece (Elt F) s e))
    (h : ∀ y : s.Idx, ∃ pc ∈ ([⟨r, w⟩] : List (View.Piece (Elt F) s e)), y ∈ pc.1.set) :
    v.read (Elt F) (v.writes (Elt F) f (⟨r, w⟩ :: L)) = View.canon [⟨r, w⟩] := by
  funext y
  obtain ⟨pc, hm, hy⟩ := h y
  obtain rfl := List.mem_singleton.mp hm
  obtain ⟨x, rfl⟩ : ∃ x, r.emb x = y := r.exists_idx_of_mem hy
  rw [View.read_writes_cons_emb, View.canon_cons_emb]

/-- A load through box `r` after the writes `L` over nothing reads the pieces' canonical contents through `r`. -/
theorem readCov_eq_ld_canon6 {s : Shape} {e : EltTy} (v : View sig .tc .vmem s e) (L : List (View.Piece (Elt F) s e)) (r : Rect s) :
    v.readCov L r.toLoadRect = View.ld (View.canon L) r :=
  View.readCov_eq_canon' v L r.toLoadRect

/-! ## The body's triple, in its two control cases -/

set_option maxHeartbeats 2000000 in
/-- The body at the first point, on whole staging memrefs: the inputs at their blocks, everything else at anything. It leaves
    the inputs as they were, the output block at the nine taps' sum, each carried sum at this point's contribution over the
    zero column, the scratch at some contents. -/
theorem sound_kernel6_A (c : Dev nD) (E : Set ℕ) (i : grid6.Coords) (arg1 : Memref sig .tc .vmem S1x64x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S9x64x64 .f32) (harg4 : arg4.IsWhole) (arg5 : Memref sig .tc .vmem S9x4096 .f32) (harg5 : arg5.IsWhole) (arg6 : Memref sig .tc .vmem S1x64x4096 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x4352 .f32) (harg9 : arg9.IsWhole) (hc0 : cond6_0 i)
    (x0 : Vec F S1x64x4096 .f32) (x1 : Vec F S64x1 .f32) (x2 : Vec F S64x1 .f32) (x3 : Vec F S9x64x64 .f32) (x4 : Vec F S9x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4) ∗ owns (c : Thread nD τ) arg7 fullShare (acc6_6 x0 x1 x2 x3 x4 (k6_pay5 (F := F))) ∗ owns (c : Thread nD τ) arg8 fullShare (acc6_7 x0 x1 x2 x3 x4 (k6_pay6 (F := F))) ∗ (∃ d, owns (c : Thread nD τ) arg9 fullShare d)) -∗ K ⟨⟩))
      ⊢ wp frame (wpE (defs₀ (F := F)) Variants.none c none) E (cc6__convT3x3_kernel i arg1 harg1 arg2 harg2 arg3 harg3 arg4 harg4 arg5 harg5 arg6 harg6 arg7 harg7 arg8 harg8 arg9 harg9) K := by
  simp only [cc6__convT3x3_kernel_eq_skeleton]; unfold cc6__convT3x3_kernel_skel
  simp only [k6_part1_eq_skeleton, k6_part2_eq_skeleton, k6_part3_eq_skeleton]; unfold k6_part1_skel k6_part2_skel k6_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_cons_whole6 _ _ _ _ _ (cover6_x _)).trans ?_
    delta sound_kernel6_A.sl.v21 sound_kernel6_A.sl.v25 sound_kernel6_A.sl.v29 sound_kernel6_A.sl.v33 sound_kernel6_A.sl.v37 sound_kernel6_A.sl.v41 sound_kernel6_A.sl.v45 sound_kernel6_A.sl.v49 sound_kernel6_A.sl.v53 sound_kernel6_A.sl.cst_65
    delta sound_kernel6_A.sl.H8_2
    simp only [readCov_eq_ld_canon6, View.readAt_eq_ld]
    simp only [out6_5, acc6_6, acc6_7, m6_0, m6_1, m6_2, m6_3, m6_4, m6_5, m6_6, m6_7, m6_8, s6_87, s6_89, cst6, slab6, LS6, r6_x, r6_c, r6_w0, r6_m0, r6_w1, r6_m1, r6_w2, r6_m2, r6_w3, r6_m3, r6_w4, r6_m4, r6_w5, r6_m5, r6_w6, r6_m6, r6_w7, r6_m7, r6_w8, r6_m8, r6_sW, r6_s193, r6_s192, r6_s191, r6_s129, r6_s128, r6_s127, r6_s65, r6_s64, r6_s63]
    first | done | fail "bridge left open"
  isplitl [H6]
  · iexists _; isplitr
    swap; · iexact H6
    ipureintro
    refine (read_writes_cons_whole6 _ _ _ _ _ (cover6_c _)).trans ?_
    delta sound_kernel6_A.sl.v95 sound_kernel6_A.sl.H6_1
    simp only [View.readCov_cons_toLoadRect]
    delta sound_kernel6_A.sl.v21 sound_kernel6_A.sl.v25 sound_kernel6_A.sl.v29 sound_kernel6_A.sl.v33 sound_kernel6_A.sl.v37 sound_kernel6_A.sl.v41 sound_kernel6_A.sl.v45 sound_kernel6_A.sl.v49 sound_kernel6_A.sl.v53 sound_kernel6_A.sl.cst_65
    delta sound_kernel6_A.sl.H8_2
    simp only [readCov_eq_ld_canon6, View.readAt_eq_ld]
    simp only [out6_5, acc6_6, acc6_7, m6_0, m6_1, m6_2, m6_3, m6_4, m6_5, m6_6, m6_7, m6_8, s6_87, s6_89, cst6, slab6, LS6, r6_x, r6_c, r6_w0, r6_m0, r6_w1, r6_m1, r6_w2, r6_m2, r6_w3, r6_m3, r6_w4, r6_m4, r6_w5, r6_m5, r6_w6, r6_m6, r6_w7, r6_m7, r6_w8, r6_m8, r6_sW, r6_s193, r6_s192, r6_s191, r6_s129, r6_s128, r6_s127, r6_s65, r6_s64, r6_s63]
    first | done | fail "bridge left open"
  isplitl [H7]
  · iexists _; isplitr
    swap; · iexact H7
    ipureintro
    refine (read_writes_cons_whole6 _ _ _ _ _ (cover6_c _)).trans ?_
    delta sound_kernel6_A.sl.v101 sound_kernel6_A.sl.H7_1
    simp only [View.readCov_cons_toLoadRect]
    delta sound_kernel6_A.sl.v21 sound_kernel6_A.sl.v25 sound_kernel6_A.sl.v29 sound_kernel6_A.sl.v33 sound_kernel6_A.sl.v37 sound_kernel6_A.sl.v41 sound_kernel6_A.sl.v45 sound_kernel6_A.sl.v49 sound_kernel6_A.sl.v53 sound_kernel6_A.sl.cst_65
    delta sound_kernel6_A.sl.H8_2
    simp only [readCov_eq_ld_canon6, View.readAt_eq_ld]
    simp only [out6_5, acc6_6, acc6_7, m6_0, m6_1, m6_2, m6_3, m6_4, m6_5, m6_6, m6_7, m6_8, s6_87, s6_89, cst6, slab6, LS6, r6_x, r6_c, r6_w0, r6_m0, r6_w1, r6_m1, r6_w2, r6_m2, r6_w3, r6_m3, r6_w4, r6_m4, r6_w5, r6_m5, r6_w6, r6_m6, r6_w7, r6_m7, r6_w8, r6_m8, r6_sW, r6_s193, r6_s192, r6_s191, r6_s129, r6_s128, r6_s127, r6_s65, r6_s64, r6_s63]
    first | done | fail "bridge left open"
  iexists _; iexists _; isplitr
  swap; · iexact H8
  ipureintro; rfl

set_option maxHeartbeats 2000000 in
/-- The body at a later point: the carried sums at what they hold. It leaves the inputs as they were, the output block at the
    nine taps' sum, each carried sum at this point's contribution over what it held, the scratch at some contents. -/
theorem sound_kernel6_B (c : Dev nD) (E : Set ℕ) (i : grid6.Coords) (arg1 : Memref sig .tc .vmem S1x64x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S9x64x64 .f32) (harg4 : arg4.IsWhole) (arg5 : Memref sig .tc .vmem S9x4096 .f32) (harg5 : arg5.IsWhole) (arg6 : Memref sig .tc .vmem S1x64x4096 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x4352 .f32) (harg9 : arg9.IsWhole) (hc0 : ¬cond6_0 i)
    (x0 : Vec F S1x64x4096 .f32) (x1 : Vec F S64x1 .f32) (x2 : Vec F S64x1 .f32) (x3 : Vec F S9x64x64 .f32) (x4 : Vec F S9x4096 .f32) (xo6 : Vec F S64x1 .f32) (xo7 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4) ∗ owns (c : Thread nD τ) arg7 fullShare (acc6_6 x0 x1 x2 x3 x4 (View.ld xo6 r6_c)) ∗ owns (c : Thread nD τ) arg8 fullShare (acc6_7 x0 x1 x2 x3 x4 (View.ld xo7 r6_c)) ∗ (∃ d, owns (c : Thread nD τ) arg9 fullShare d)) -∗ K ⟨⟩))
      ⊢ wp frame (wpE (defs₀ (F := F)) Variants.none c none) E (cc6__convT3x3_kernel i arg1 harg1 arg2 harg2 arg3 harg3 arg4 harg4 arg5 harg5 arg6 harg6 arg7 harg7 arg8 harg8 arg9 harg9) K := by
  simp only [cc6__convT3x3_kernel_eq_skeleton]; unfold cc6__convT3x3_kernel_skel
  simp only [k6_part1_eq_skeleton, k6_part2_eq_skeleton, k6_part3_eq_skeleton]; unfold k6_part1_skel k6_part2_skel k6_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, Hk⟩
  subst hf0 hf1 hf2 hf3 hf4 hf6 hf7
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_cons_whole6 _ _ _ _ _ (cover6_x _)).trans ?_
    delta sound_kernel6_B.sl.v21 sound_kernel6_B.sl.v25 sound_kernel6_B.sl.v29 sound_kernel6_B.sl.v33 sound_kernel6_B.sl.v37 sound_kernel6_B.sl.v41 sound_kernel6_B.sl.v45 sound_kernel6_B.sl.v49 sound_kernel6_B.sl.v53 sound_kernel6_B.sl.cst_65
    delta sound_kernel6_B.sl.H8_2
    simp only [readCov_eq_ld_canon6, View.readAt_eq_ld]
    simp only [out6_5, acc6_6, acc6_7, m6_0, m6_1, m6_2, m6_3, m6_4, m6_5, m6_6, m6_7, m6_8, s6_87, s6_89, cst6, slab6, LS6, r6_x, r6_c, r6_w0, r6_m0, r6_w1, r6_m1, r6_w2, r6_m2, r6_w3, r6_m3, r6_w4, r6_m4, r6_w5, r6_m5, r6_w6, r6_m6, r6_w7, r6_m7, r6_w8, r6_m8, r6_sW, r6_s193, r6_s192, r6_s191, r6_s129, r6_s128, r6_s127, r6_s65, r6_s64, r6_s63]
    first | done | fail "bridge left open"
  isplitl [H6]
  · iexists _; isplitr
    swap; · iexact H6
    ipureintro
    refine (read_writes_cons_whole6 _ _ _ _ _ (cover6_c _)).trans ?_
    delta sound_kernel6_B.sl.v21 sound_kernel6_B.sl.v25 sound_kernel6_B.sl.v29 sound_kernel6_B.sl.v33 sound_kernel6_B.sl.v37 sound_kernel6_B.sl.v41 sound_kernel6_B.sl.v45 sound_kernel6_B.sl.v49 sound_kernel6_B.sl.v53 sound_kernel6_B.sl.cst_65
    delta sound_kernel6_B.sl.H8_2
    simp only [readCov_eq_ld_canon6, View.readAt_eq_ld]
    simp only [out6_5, acc6_6, acc6_7, m6_0, m6_1, m6_2, m6_3, m6_4, m6_5, m6_6, m6_7, m6_8, s6_87, s6_89, cst6, slab6, LS6, r6_x, r6_c, r6_w0, r6_m0, r6_w1, r6_m1, r6_w2, r6_m2, r6_w3, r6_m3, r6_w4, r6_m4, r6_w5, r6_m5, r6_w6, r6_m6, r6_w7, r6_m7, r6_w8, r6_m8, r6_sW, r6_s193, r6_s192, r6_s191, r6_s129, r6_s128, r6_s127, r6_s65, r6_s64, r6_s63]
    first | done | fail "bridge left open"
  isplitl [H7]
  · iexists _; isplitr
    swap; · iexact H7
    ipureintro
    refine (read_writes_cons_whole6 _ _ _ _ _ (cover6_c _)).trans ?_
    delta sound_kernel6_B.sl.v21 sound_kernel6_B.sl.v25 sound_kernel6_B.sl.v29 sound_kernel6_B.sl.v33 sound_kernel6_B.sl.v37 sound_kernel6_B.sl.v41 sound_kernel6_B.sl.v45 sound_kernel6_B.sl.v49 sound_kernel6_B.sl.v53 sound_kernel6_B.sl.cst_65
    delta sound_kernel6_B.sl.H8_2
    simp only [readCov_eq_ld_canon6, View.readAt_eq_ld]
    simp only [out6_5, acc6_6, acc6_7, m6_0, m6_1, m6_2, m6_3, m6_4, m6_5, m6_6, m6_7, m6_8, s6_87, s6_89, cst6, slab6, LS6, r6_x, r6_c, r6_w0, r6_m0, r6_w1, r6_m1, r6_w2, r6_m2, r6_w3, r6_m3, r6_w4, r6_m4, r6_w5, r6_m5, r6_w6, r6_m6, r6_w7, r6_m7, r6_w8, r6_m8, r6_sW, r6_s193, r6_s192, r6_s191, r6_s129, r6_s128, r6_s127, r6_s65, r6_s64, r6_s63]
    first | done | fail "bridge left open"
  iexists _; iexists _; isplitr
  swap; · iexact H8
  ipureintro; rfl

/-! ## The region's half, at the contents `V` its entry finds -/

variable (V : (c : Dev nD) → (b : Ref sig .tc) → Buf (Elt F) ((c : Thread nD τ).loc b))

/-- window w's block at point t, read off its array as the region finds it -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data whose
    array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for any proof data whose
    array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for any proof data whose
    array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not, for any proof data whose
    array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not, for any proof data whose
    array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The carried sums, point by point

The body zeroes both at the first point and adds this point's contribution at every point; their block index never moves
and they are written back after the last point only, so each point finds what the point before left. -/

/-- The per-channel sum after the body at position `n`. -/
def outsAt6_6 (c : Dev nD) : (n : ℕ) → n < cfg6.N → Vec F S64x1 .f32
  | 0, hn => acc6_6 (iblk6 V c 0 ⟨0, hn⟩) (iblk6 V c 1 ⟨0, hn⟩) (iblk6 V c 2 ⟨0, hn⟩) (iblk6 V c 3 ⟨0, hn⟩) (iblk6 V c 4 ⟨0, hn⟩) (k6_pay5 (F := F))
  | n + 1, hn => acc6_6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (View.ld (outsAt6_6 c n (Nat.lt_of_succ_lt hn)) r6_c)

/-- The per-channel sum of squares after the body at position `n`. -/
def outsAt6_7 (c : Dev nD) : (n : ℕ) → n < cfg6.N → Vec F S64x1 .f32
  | 0, hn => acc6_7 (iblk6 V c 0 ⟨0, hn⟩) (iblk6 V c 1 ⟨0, hn⟩) (iblk6 V c 2 ⟨0, hn⟩) (iblk6 V c 3 ⟨0, hn⟩) (iblk6 V c 4 ⟨0, hn⟩) (k6_pay6 (F := F))
  | n + 1, hn => acc6_7 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (View.ld (outsAt6_7 c n (Nat.lt_of_succ_lt hn)) r6_c)

/-- At the first point: this point's contribution over the zero column. -/
theorem outsAt6_6_A (c : Dev nD) (t : Fin cfg6.N) (h : t.val = 0) :
    outsAt6_6 V c t.val t.isLt = acc6_6 (iblk6 V c 0 t) (iblk6 V c 1 t) (iblk6 V c 2 t) (iblk6 V c 3 t) (iblk6 V c 4 t) (k6_pay5 (F := F)) := by
  obtain ⟨n, hn⟩ := t
  cases n with
  | zero => rfl
  | succ n => exact absurd h (Nat.succ_ne_zero n)

/-- At a later point: this point's contribution over what the point before left. -/
theorem outsAt6_6_B (c : Dev nD) (t : Fin cfg6.N) (h : ¬t.val = 0) :
    outsAt6_6 V c t.val t.isLt = acc6_6 (iblk6 V c 0 t) (iblk6 V c 1 t) (iblk6 V c 2 t) (iblk6 V c 3 t) (iblk6 V c 4 t) (View.ld (outsAt6_6 V c (t.val - 1) (Nat.lt_of_le_of_lt (Nat.sub_le _ _) t.isLt)) r6_c) := by
  obtain ⟨n, hn⟩ := t
  cases n with
  | zero => exact absurd rfl h
  | succ n => rfl

/-- At the first point: this point's contribution over the zero column. -/
theorem outsAt6_7_A (c : Dev nD) (t : Fin cfg6.N) (h : t.val = 0) :
    outsAt6_7 V c t.val t.isLt = acc6_7 (iblk6 V c 0 t) (iblk6 V c 1 t) (iblk6 V c 2 t) (iblk6 V c 3 t) (iblk6 V c 4 t) (k6_pay6 (F := F)) := by
  obtain ⟨n, hn⟩ := t
  cases n with
  | zero => rfl
  | succ n => exact absurd h (Nat.succ_ne_zero n)

/-- At a later point: this point's contribution over what the point before left. -/
theorem outsAt6_7_B (c : Dev nD) (t : Fin cfg6.N) (h : ¬t.val = 0) :
    outsAt6_7 V c t.val t.isLt = acc6_7 (iblk6 V c 0 t) (iblk6 V c 1 t) (iblk6 V c 2 t) (iblk6 V c 3 t) (iblk6 V c 4 t) (View.ld (outsAt6_7 V c (t.val - 1) (Nat.lt_of_le_of_lt (Nat.sub_le _ _) t.isLt)) r6_c) := by
  obtain ⟨n, hn⟩ := t
  cases n with
  | zero => exact absurd rfl h
  | succ n => rfl

/-! ## The pipeline's proof data -/

/-- The arrays as the region finds them; after the body at point `t` each input's buffer at its block, the output block at the
    nine taps' sum of the point's blocks, the carried sums at `outsAt6_6` / `outsAt6_7`; the invariant the scoped rest and the
    generator register; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
    | ⟨6, _⟩ => outsAt6_6 V c t.val t.isLt
    | ⟨7, _⟩ => outsAt6_7 V c t.val t.isLt
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]
theorem after6_6 (c : Dev nD) (t : Fin cfg6.N) : (dat6 V c).after 6 t = outsAt6_6 V c t.val t.isLt := by dsimp only [dat6]
theorem after6_7 (c : Dev nD) (t : Fin cfg6.N) : (dat6 V c).after 7 t = outsAt6_7 V c t.val t.isLt := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- At a point that is not the first, window 6's staging buffer holds what the body left at the point before: it was not
    written back between (that happens after the last point only), the window is live and uncut. -/
theorem before6_6_B (c : Dev nD) (t : Fin cfg6.N) (h0 : ¬t.val = 0) (d) :
    (dat6 V c).before 6 t d = outsAt6_6 V c (t.val - 1) (Nat.lt_of_le_of_lt (Nat.sub_le _ _) t.isLt) := by
  have hN : t.val < 64 := lt_of_lt_of_eq t.isLt (show cfg6.N = 64 from N_6)
  rw [Dat.before_out_kept _ 6 rfl t h0 (Bool.eq_false_iff.mpr fun h => by have := (flush6_6 _).mp h; dsimp only at this; omega)
    (fun _ => rfl) (fun _ _ => rfl)]
  dsimp only [dat6]
/-- At a point that is not the first, window 7's staging buffer holds what the body left at the point before: it was not
    written back between (that happens after the last point only), the window is live and uncut. -/
theorem before6_7_B (c : Dev nD) (t : Fin cfg6.N) (h0 : ¬t.val = 0) (d) :
    (dat6 V c).before 7 t d = outsAt6_7 V c (t.val - 1) (Nat.lt_of_le_of_lt (Nat.sub_le _ _) t.isLt) := by
  have hN : t.val < 64 := lt_of_lt_of_eq t.isLt (show cfg6.N = 64 from N_6)
  rw [Dat.before_out_kept _ 7 rfl t h0 (Bool.eq_false_iff.mpr fun h => by have := (flush6_7 _).mp h; dsimp only at this; omega)
    (fun _ => rfl) (fun _ _ => rfl)]
  dsimp only [dat6]

/-! ## The invariant, opened at the scratch -/

/-- The scratch operand: a whole scoped buffer of the kernel's own, passed beside the windows. -/
abbrev scM6 : Memref sig .tc .vmem S64x4352 .f32 := Memref.whole cc6_scratch0

/-- The invariant with the scratch as a memref owned at some contents, the other scoped buffers unopened. -/
theorem PhiA6_eq (c : Dev nD) :
    (Pipeline.ΦA spec6 c : sProp 𝕄)
      = iprop(iprop(iprop((∃ d, owns (c : Thread nD τ) scM6 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 1000000 in
/-- The body at any point: the inputs' memrefs hold their blocks; the first point zeroes the carried sums, a later point finds
    in them what the point before left; the invariant lends the scratch at some contents and takes it back at some contents;
    the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = Pipeline.ΦA spec6 c from rfl, show (dat6 V c).Φ t.castSucc = Pipeline.ΦA spec6 c from rfl,
    show (dat6 V c).owesAt () t.succ = (dat6 V c).owesAt () t.castSucc from rfl,
    after6_0, after6_1, after6_2, after6_3, after6_4, after6_5, after6_6, after6_7, PhiA6_eq]
  by_cases h0 : t.val = 0
  · rw [outsAt6_6_A V c t h0, outsAt6_7_A V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel6_A c Set.univ (grid6.coords t) _ _ _ _ _ _ _ _ _ _ _ _ _ _ _ _ _ _ ((hcond6_0 t).mpr h0) (iblk6 V c 0 t) (iblk6 V c 1 t) (iblk6 V c 2 t) (iblk6 V c 3 t) (iblk6 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before6_6_B V c t h0, before6_7_B V c t h0]
    rw [outsAt6_6_B V c t h0, outsAt6_7_B V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel6_B c Set.univ (grid6.coords t) _ _ _ _ _ _ _ _ _ _ _ _ _ _ _ _ _ _ (fun h => h0 ((hcond6_0 t).mp h)) (iblk6 V c 0 t) (iblk6 V c 1 t) (iblk6 V c 2 t) (iblk6 V c 3 t) (iblk6 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation6 (c : Dev nD) :
    BodyObligation (dat6 (F := F) V c) (defs₀ (F := F)) Variants.none () Set.univ := fun t => by
  rw [bigSep_W6, bigSep_W6]
  exact sound_body6 V c t

end Cert.ReferenceIdeal.Hand

end
-- ==== Proof.RefR7.lean ====
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores through a whole buffer -/

/-- The zero offsets, as the constant function. -/
private theorem hz2 : (![0, 0] : Fin 2 → ℕ) = fun _ => 0 := by funext a; fin_cases a <;> rfl
private theorem hz3 : (![0, 0, 0] : Fin 3 → ℕ) = fun _ => 0 := by funext a; fin_cases a <;> rfl

/-- A load of a whole buffer through the whole-shape rectangle at zero offsets reads the buffer's contents. -/
private theorem readAt_unread_whole {κ : Kind} {sp : Space} {S : Shape} {e : EltTy} {m : Memref sig κ sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

/-- The last store through the whole-shape rectangle at zero offsets leaves its payload, whatever was stored before. -/
private theorem read_writes_whole_cons {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.Mem.head _, View.mem_set_unit_zero h inb y⟩)).trans
    (View.canon_cons_unit_zero h inb w L)

/-- A load through it of what one store through it left reads that store's payload. -/
private theorem readCov_whole_one {κ : Kind} {sp : Space} {S : Shape} {e : EltTy} (v : View sig κ sp S e)
    {off : Fin S.rank → ℕ} (h : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v h inb w

/-! # Region 7: the kernel z = sin(x·scale + shift), y = W·z, with the per-channel sum and sum of squares of y
accumulated over the grid into two [C,1] outputs that are zeroed at the first point -/

/-- window w's block at point t, read off its array as the region finds it -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the point fetched it or the
    index map kept it in place, for any proof data over the entry arrays that leaves the block as it was. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether the point fetched it or the
    index map kept it in place, for any proof data over the entry arrays that leaves the block as it was. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether the point fetched it or the
    index map kept it in place, for any proof data over the entry arrays that leaves the block as it was. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether the point fetched it or the
    index map kept it in place, for any proof data over the entry arrays that leaves the block as it was. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body loads and stores through: each buffer whole -/

abbrev r7_0 : Rect S1x64x2048 := Rect.unit (s := S1x64x2048) ![0, 0, 0] S1x64x2048.size inb_S1x64x2048_S1x64x2048_0_0_0
abbrev r7_1 : Rect S64x1 := Rect.unit (s := S64x1) ![0, 0] S64x1.size inb_S64x1_S64x1_0_0
abbrev r7_3 : Rect S256x64 := Rect.unit (s := S256x64) ![0, 0] S256x64.size inb_S256x64_S256x64_0_0
abbrev r7_4 : Rect S1x256x2048 := Rect.unit (s := S1x256x2048) ![0, 0, 0] S1x256x2048.size inb_S1x256x2048_S1x256x2048_0_0_0
abbrev r7_5 : Rect S256x1 := Rect.unit (s := S256x1) ![0, 0] S256x1.size inb_S256x1_S256x1_0_0

/-! ## The branch condition -/

/-- The condition under which the accumulators are zeroed, from the grid coordinates: both are 0. -/
abbrev cond7_0 (i : grid7.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the grid and at no other. -/
theorem hcond7_0 : ∀ t : Fin cfg7.N, cond7_0 (grid7.coords t) ↔ t.val = 0 :=
  (by decide +kernel : ∀ t : Fin grid7.N, cond7_0 (grid7.coords t) ↔ t.val = 0)

/-! ## The kernel's triple, in each of the two control cases -/

set_option maxHeartbeats 1000000 in
theorem sound_kernel7_A (c : Dev nD) (E : Set ℕ) (i : grid7.Coords) (arg2 : Memref sig .tc .vmem S1x64x2048 .f32) (harg2 : arg2.IsWhole) (arg3 : Memref sig .tc .vmem S64x1 .f32) (harg3 : arg3.IsWhole)
    (arg4 : Memref sig .tc .vmem S64x1 .f32) (harg4 : arg4.IsWhole) (arg5 : Memref sig .tc .vmem S256x64 .f32) (harg5 : arg5.IsWhole)
    (arg6 : Memref sig .tc .vmem S1x256x2048 .f32) (harg6 : arg6.IsWhole) (arg7 : Memref sig .tc .vmem S256x1 .f32) (harg7 : arg7.IsWhole)
    (arg8 : Memref sig .tc .vmem S256x1 .f32) (harg8 : arg8.IsWhole) (hc0 : cond7_0 i)
    (x0 : Vec F S1x64x2048 .f32) (x1 : Vec F S64x1 .f32) (x2 : Vec F S64x1 .f32) (x3 : Vec F S256x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k7_pay5 x0 x1 x2 x3)
            ∗ owns (c : Thread nD τ) arg7 fullShare (k7_pay6 x0 x1 x2 x3 (k7_pay2 (F := F)))
            ∗ owns (c : Thread nD τ) arg8 fullShare (k7_pay1 (k7_pay7 (k7_pay3 (F := F))) (k7_pay8 x0 x1 x2 x3))) -∗ K ⟨⟩))
      ⊢ wp frame (wpE (defs₀ (F := F)) Variants.none c none) E (cc7__act_mm_stats_kernel i arg2 harg2 arg3 harg3 arg4 harg4 arg5 harg5 arg6 harg6 arg7 harg7 arg8 harg8) K := by
  simp only [cc7__act_mm_stats_kernel_eq_skeleton]; unfold cc7__act_mm_stats_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_writes_whole_cons _ _ hz3 _ _ _).trans ?_
    rw [readAt_unread_whole harg2 hz3, readAt_unread_whole harg3 hz2, readAt_unread_whole harg4 hz2, readAt_unread_whole harg5 hz2]
  isplitl [H5]
  · iexists _; isplitr
    swap; · iexact H5
    ipureintro
    sl_unfold_run_names
    refine (read_writes_whole_cons _ _ hz2 _ _ _).trans ?_
    rw [readCov_whole_one _ hz2, readAt_unread_whole harg2 hz3, readAt_unread_whole harg3 hz2, readAt_unread_whole harg4 hz2, readAt_unread_whole harg5 hz2]
  iexists _; isplitr
  swap; · iexact H6
  ipureintro
  sl_unfold_run_names
  refine (read_writes_whole_cons _ _ hz2 _ _ _).trans ?_
  dsimp only
  rw [readCov_whole_one _ hz2, readAt_unread_whole harg2 hz3, readAt_unread_whole harg3 hz2, readAt_unread_whole harg4 hz2, readAt_unread_whole harg5 hz2]

set_option maxHeartbeats 1000000 in
theorem sound_kernel7_B (c : Dev nD) (E : Set ℕ) (i : grid7.Coords) (arg2 : Memref sig .tc .vmem S1x64x2048 .f32) (harg2 : arg2.IsWhole) (arg3 : Memref sig .tc .vmem S64x1 .f32) (harg3 : arg3.IsWhole)
    (arg4 : Memref sig .tc .vmem S64x1 .f32) (harg4 : arg4.IsWhole) (arg5 : Memref sig .tc .vmem S256x64 .f32) (harg5 : arg5.IsWhole)
    (arg6 : Memref sig .tc .vmem S1x256x2048 .f32) (harg6 : arg6.IsWhole) (arg7 : Memref sig .tc .vmem S256x1 .f32) (harg7 : arg7.IsWhole)
    (arg8 : Memref sig .tc .vmem S256x1 .f32) (harg8 : arg8.IsWhole) (hc0 : ¬cond7_0 i)
    (x0 : Vec F S1x64x2048 .f32) (x1 : Vec F S64x1 .f32) (x2 : Vec F S64x1 .f32) (x3 : Vec F S256x64 .f32) (xo5 : Vec F S256x1 .f32) (xo6 : Vec F S256x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xo5 ∗ owns (c : Thread nD τ) arg8 fullShare xo6
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k7_pay5 x0 x1 x2 x3)
            ∗ owns (c : Thread nD τ) arg7 fullShare (k7_pay6 x0 x1 x2 x3 xo5)
            ∗ owns (c : Thread nD τ) arg8 fullShare (k7_pay1 (k7_pay7 xo6) (k7_pay8 x0 x1 x2 x3))) -∗ K ⟨⟩))
      ⊢ wp frame (wpE (defs₀ (F := F)) Variants.none c none) E (cc7__act_mm_stats_kernel i arg2 harg2 arg3 harg3 arg4 harg4 arg5 harg5 arg6 harg6 arg7 harg7 arg8 harg8) K := by
  simp only [cc7__act_mm_stats_kernel_eq_skeleton]; unfold cc7__act_mm_stats_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_writes_whole_cons _ _ hz3 _ _ _).trans ?_
    rw [readAt_unread_whole harg2 hz3, readAt_unread_whole harg3 hz2, readAt_unread_whole harg4 hz2, readAt_unread_whole harg5 hz2]
  isplitl [H5]
  · iexists _; isplitr
    swap; · iexact H5
    ipureintro
    sl_unfold_run_names
    refine (read_writes_whole_cons _ _ hz2 _ _ _).trans ?_
    rw [readAt_unread_whole harg7 hz2, readAt_unread_whole harg2 hz3, readAt_unread_whole harg3 hz2, readAt_unread_whole harg4 hz2, readAt_unread_whole harg5 hz2]
  iexists _; isplitr
  swap; · iexact H6
  ipureintro
  sl_unfold_run_names
  refine (read_writes_whole_cons _ _ hz2 _ _ _).trans ?_
  dsimp only
  rw [readAt_unread_whole harg8 hz2, readAt_unread_whole harg2 hz3, readAt_unread_whole harg3 hz2, readAt_unread_whole harg4 hz2, readAt_unread_whole harg5 hz2]

/-! ## What the accumulators hold after each point -/

/-- The per-channel sum's staging buffer after the body at position n. At the first point: the zeros with the point's row
    sums added. At a later point: what the point before left (the buffer is not written back in between) with the
    point's row sums added. -/
def outsAt7_5 (c : Dev nD) : (n : ℕ) → n < cfg7.N → Vec F S256x1 .f32
  | 0, hn => k7_pay6 (iblk7 V c 0 ⟨0, hn⟩) (iblk7 V c 1 ⟨0, hn⟩) (iblk7 V c 2 ⟨0, hn⟩) (iblk7 V c 3 ⟨0, hn⟩) (k7_pay2 (F := F))
  | n + 1, hn => k7_pay6 (iblk7 V c 0 ⟨n + 1, hn⟩) (iblk7 V c 1 ⟨n + 1, hn⟩) (iblk7 V c 2 ⟨n + 1, hn⟩) (iblk7 V c 3 ⟨n + 1, hn⟩) (outsAt7_5 c n (Nat.lt_of_succ_lt hn))

/-- The per-channel sum of squares' staging buffer after the body at position n, likewise. -/
def outsAt7_6 (c : Dev nD) : (n : ℕ) → n < cfg7.N → Vec F S256x1 .f32
  | 0, hn => k7_pay1 (k7_pay7 (k7_pay3 (F := F))) (k7_pay8 (iblk7 V c 0 ⟨0, hn⟩) (iblk7 V c 1 ⟨0, hn⟩) (iblk7 V c 2 ⟨0, hn⟩) (iblk7 V c 3 ⟨0, hn⟩))
  | n + 1, hn => k7_pay1 (k7_pay7 (outsAt7_6 c n (Nat.lt_of_succ_lt hn))) (k7_pay8 (iblk7 V c 0 ⟨n + 1, hn⟩) (iblk7 V c 1 ⟨n + 1, hn⟩) (iblk7 V c 2 ⟨n + 1, hn⟩) (iblk7 V c 3 ⟨n + 1, hn⟩))

/-- The sum at the first point: zeros plus the point's row sums. -/
theorem outsAt7_5_A (c : Dev nD) (t : Fin cfg7.N) (h : t.val = 0) :
    outsAt7_5 V c t.val t.isLt = k7_pay6 (iblk7 V c 0 t) (iblk7 V c 1 t) (iblk7 V c 2 t) (iblk7 V c 3 t) (k7_pay2 (F := F)) := by
  obtain ⟨n, hn⟩ := t
  cases n with
  | zero => exact rfl
  | succ n => exact absurd h (Nat.succ_ne_zero n)

/-- The sum at a later point: what the point before left plus the point's row sums. -/
theorem outsAt7_5_B (c : Dev nD) (t : Fin cfg7.N) (h : ¬t.val = 0) :
    outsAt7_5 V c t.val t.isLt = k7_pay6 (iblk7 V c 0 t) (iblk7 V c 1 t) (iblk7 V c 2 t) (iblk7 V c 3 t) (outsAt7_5 V c (t.val - 1) (Nat.lt_of_le_of_lt (Nat.sub_le _ _) t.isLt)) := by
  obtain ⟨n, hn⟩ := t
  cases n with
  | zero => exact absurd rfl h
  | succ n => exact rfl

/-- The sum of squares at the first point: zeros plus the point's row sums of squares. -/
theorem outsAt7_6_A (c : Dev nD) (t : Fin cfg7.N) (h : t.val = 0) :
    outsAt7_6 V c t.val t.isLt = k7_pay1 (k7_pay7 (k7_pay3 (F := F))) (k7_pay8 (iblk7 V c 0 t) (iblk7 V c 1 t) (iblk7 V c 2 t) (iblk7 V c 3 t)) := by
  obtain ⟨n, hn⟩ := t
  cases n with
  | zero => exact rfl
  | succ n => exact absurd h (Nat.succ_ne_zero n)

/-- The sum of squares at a later point: what the point before left plus the point's row sums of squares. -/
theorem outsAt7_6_B (c : Dev nD) (t : Fin cfg7.N) (h : ¬t.val = 0) :
    outsAt7_6 V c t.val t.isLt = k7_pay1 (k7_pay7 (outsAt7_6 V c (t.val - 1) (Nat.lt_of_le_of_lt (Nat.sub_le _ _) t.isLt))) (k7_pay8 (iblk7 V c 0 t) (iblk7 V c 1 t) (iblk7 V c 2 t) (iblk7 V c 3 t)) := by
  obtain ⟨n, hn⟩ := t
  cases n with
  | zero => exact absurd rfl h
  | succ n => exact rfl

/-! ## The pipeline's proof data -/

/-- The proof data of the region on core c: the arrays as the region finds them; after the body at point t each input's
    buffer at its block, the product's buffer at W·sin(x·scale + shift) of the input blocks, the two accumulators' at
    their running contents; the invariant passes through; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => k7_pay5 (iblk7 V c 0 t) (iblk7 V c 1 t) (iblk7 V c 2 t) (iblk7 V c 3 t)
    | ⟨5, _⟩ => outsAt7_5 V c t.val t.isLt
    | ⟨6, _⟩ => outsAt7_6 V c t.val t.isLt
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = k7_pay5 (iblk7 V c 0 t) (iblk7 V c 1 t) (iblk7 V c 2 t) (iblk7 V c 3 t) := by dsimp only [dat7]
theorem after7_5 (c : Dev nD) (t : Fin cfg7.N) : (dat7 V c).after 5 t = outsAt7_5 V c t.val t.isLt := by dsimp only [dat7]
theorem after7_6 (c : Dev nD) (t : Fin cfg7.N) : (dat7 V c).after 6 t = outsAt7_6 V c t.val t.isLt := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- At a point after the first the sum's current staging buffer holds what the body left at the point before: the
    buffer is written back after the last point only, and the window is never idle and never cut. -/
theorem before7_5_B (c : Dev nD) (t : Fin cfg7.N) (h0 : ¬t.val = 0) (d) :
    (dat7 V c).before 5 t d = outsAt7_5 V c (t.val - 1) (Nat.lt_of_le_of_lt (Nat.sub_le _ _) t.isLt) := by
  have hN : t.val < 128 := lt_of_lt_of_eq t.isLt (show cfg7.N = 128 from N_7)
  rw [Dat.before_out_kept _ 5 rfl t h0 (Bool.eq_false_iff.mpr fun h => by have := (flush7_5 _).mp h; dsimp only at this; omega)
    (fun _ => rfl) (fun _ _ => rfl)]
  dsimp only [dat7]

/-- The same for the sum of squares. -/
theorem before7_6_B (c : Dev nD) (t : Fin cfg7.N) (h0 : ¬t.val = 0) (d) :
    (dat7 V c).before 6 t d = outsAt7_6 V c (t.val - 1) (Nat.lt_of_le_of_lt (Nat.sub_le _ _) t.isLt) := by
  have hN : t.val < 128 := lt_of_lt_of_eq t.isLt (show cfg7.N = 128 from N_7)
  rw [Dat.before_out_kept _ 6 rfl t h0 (Bool.eq_false_iff.mpr fun h => by have := (flush7_6 _).mp h; dsimp only at this; omega)
    (fun _ => rfl) (fun _ _ => rfl)]
  dsimp only [dat7]

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

set_option maxHeartbeats 800000 in
/-- The body at any point. The inputs' buffers hold their blocks. At the first point the accumulators are zeroed before they
    are read, so whatever they held does not matter; at a later point they hold what the point before left. In either
    case the kernel's triple applies; the invariant and what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  by_cases h0 : t.val = 0
  · rw [outsAt7_5_A V c t h0, outsAt7_6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel7_A c Set.univ (grid7.coords t) _ _ _ _ _ _ _ _ _ _ _ _ _ _ ((hcond7_0 t).mpr h0)
      (iblk7 V c 0 t) (iblk7 V c 1 t) (iblk7 V c 2 t) (iblk7 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt7_5_B V c t h0, outsAt7_6_B V c t h0]
    simp only [before7_5_B V c t h0, before7_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel7_B c Set.univ (grid7.coords t) _ _ _ _ _ _ _ _ _ _ _ _ _ _ (fun h => h0 ((hcond7_0 t).mp h))
      (iblk7 V c 0 t) (iblk7 V c 1 t) (iblk7 V c 2 t) (iblk7 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation, at every point of the grid. -/
theorem body_obligation7 (c : Dev nD) : BodyObligation (dat7 (F := F) V c) (defs₀ (F := F)) Variants.none () Set.univ := fun t => by
  rw [bigSep_W7, bigSep_W7]
  exact sound_body7 V c t

end Cert.ReferenceIdeal.Hand

end
-- ==== Proof.RefR8.lean ====
import proofs.«159567_g2000302752657622_pallasbulk_725_3_alg».proof.Proof.Gen.ReferenceIdeal.Launch
import proofs.«159567_g2000302752657622_pallasbulk_725_3_alg».proof.Proof.Gen.ReferenceIdeal.Skeleton
import proofs.«159567_g2000302752657622_pallasbulk_725_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pointwise region  out = y · scale + shift + res  on a 64 × 2 grid

Five windows: 0 the block of y, 1 the block of res, 2 the per-channel scale, 3 the per-channel shift (both with a
constant index map), 4 the output block. The body reads the four input blocks whole and stores the output block whole
once, so what it leaves in the output's buffer is a function of the four input blocks at the point alone. -/

/-- Window `w`'s block at point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## An input's buffer holds its block at every point

For any data whose array is the entry contents and whose body leaves the input block in place, the buffer the body
finds holds the window's block at the point: where the block was not fetched the index map has not moved, and the
block of the point before is this point's. -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The rectangles the body reads and writes through: each the whole of its buffer -/

abbrev r8_0 : Rect S1x256x2048 := Rect.unit (s := S1x256x2048) ![0, 0, 0] S1x256x2048.size inb_S1x256x2048_S1x256x2048_0_0_0
abbrev r8_1 : Rect S256x1 := Rect.unit (s := S256x1) ![0, 0] S256x1.size inb_S256x1_S256x1_0_0

/-! ## What the body leaves in the output's buffer -/

/-- The output buffer after the body, from the four input blocks `x0` (y), `x1` (res), `x2` (scale), `x3` (shift): the
    one store's payload laid over the whole block. -/
def out8_4 (x0 : Vec F S1x256x2048 .f32) (x1 : Vec F S1x256x2048 .f32) (x2 : Vec F S256x1 .f32) (x3 : Vec F S256x1 .f32) : Vec F S1x256x2048 .f32 :=
  View.canon [⟨r8_0, k8_pay1 (View.ld x0 r8_0) (View.ld x2 r8_1) (View.ld x3 r8_1) (View.ld x1 r8_0)⟩]

/-- The store's rectangle is the whole block, so every index of the block lies in it. -/
theorem cover8_4 (p0 : Vec F S1x256x2048 .f32) (y : S1x256x2048.Idx) :
    ∃ pc ∈ ([⟨r8_0, p0⟩] : List (View.Piece (Elt F) S1x256x2048 .f32)), y ∈ pc.1.set :=
  View.cover_of_tiled [⟨r8_0, p0⟩] S1x256x2048.size (by rfl) y

/-! ## The body's triple -/

set_option maxHeartbeats 1000000 in
/-- On whole staging memrefs, the inputs' reading `x0 … x3` and the output's holding anything, the body runs to a state
    where the inputs' read as before and the output's reads `out8_4 x0 x1 x2 x3`. -/
theorem sound_kernel8 (c : Dev nD) (E : Set ℕ) (i : grid8.Coords) (arg2 : Memref sig .tc .vmem S1x256x2048 .f32) (harg2 : arg2.IsWhole) (arg3 : Memref sig .tc .vmem S1x256x2048 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x2048 .f32) (harg6 : arg6.IsWhole)
    (x0 : Vec F S1x256x2048 .f32) (x1 : Vec F S1x256x2048 .f32) (x2 : Vec F S256x1 .f32) (x3 : Vec F S256x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out8_4 x0 x1 x2 x3)) -∗ K ⟨⟩))
      ⊢ wp frame (wpE (defs₀ (F := F)) Variants.none c none) E (cc8__bn_add_kernel i arg2 harg2 arg3 harg3 arg4 harg4 arg5 harg5 arg6 harg6) K := by
  simp only [cc8__bn_add_kernel_eq_skeleton]; unfold cc8__bn_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The region's proof data -/

/-- The arrays as the region finds them; after the body at point `t` each input's buffer at its block and the output's
    at `out8_4` of the four input blocks; the invariant the scoped rest and the generator register, untouched; full
    shares; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The inputs' buffers hold their blocks, so the body's triple applies at the four blocks; the invariant and what is
    owed pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.ReferenceIdeal.Hand
-- ==== Proof.RefRunW.lean ====
import proofs.«159567_g2000302752657622_pallasbulk_725_3_alg».proof.Proof.RefR0
import proofs.«159567_g2000302752657622_pallasbulk_725_3_alg».proof.Proof.RefR1
import proofs.«159567_g2000302752657622_pallasbulk_725_3_alg».proof.Proof.RefR2
import proofs.«159567_g2000302752657622_pallasbulk_725_3_alg».proof.Proof.RefR3
import proofs.«159567_g2000302752657622_pallasbulk_725_3_alg».proof.Proof.RefR4
import proofs.«159567_g2000302752657622_pallasbulk_725_3_alg».proof.Proof.RefR5
import proofs.«159567_g2000302752657622_pallasbulk_725_3_alg».proof.Proof.RefR6
import proofs.«159567_g2000302752657622_pallasbulk_725_3_alg».proof.Proof.RefR7
import proofs.«159567_g2000302752657622_pallasbulk_725_3_alg».proof.Proof.RefR8
import proofs.«159567_g2000302752657622_pallasbulk_725_3_alg».proof.Proof.Gen.ReferenceIdeal.Launch
import proofs.«159567_g2000302752657622_pallasbulk_725_3_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of @main

Nineteen items: ten stretches of host operations and, between them, nine kernel regions. `W0` is the launch memory;
a host stretch takes `W` to `StableHlo.after` of it; a region leaves its windows' arrays at what the write-backs
fold to and every other buffer as it found it. -/

/-- Core `c`'s buffers at launch. -/
abbrev W0 : Dev nD → Valuation τ sig (Elt F) := fun c b => (s₀ m ρ).mem ((c : Dev nD), b)

/-- After `hostOps0`: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: each window's array at the fold of its write-backs over all `cfg0.N` points, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- Region 0's arrays at its exit are the folds; the other buffers are as at its entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: what region 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: each window's array at the fold of its write-backs over all `cfg1.N` points, every other
    buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- Region 1's arrays at its exit are the folds; the other buffers are as at its entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: what region 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: each window's array at the fold of its write-backs over all `cfg2.N` points, every other
    buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- Region 2's arrays at its exit are the folds; the other buffers are as at its entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: what region 3 is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- At region 3's exit: each window's array at the fold of its write-backs over all `cfg3.N` points, every other
    buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
/-- Region 3's arrays at its exit are the folds; the other buffers are as at its entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`: what region 4 is entered from. -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- At region 4's exit: each window's array at the fold of its write-backs over all `cfg4.N` points, every other
    buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev V10 : (c : Dev nD) → (b : Ref sig .tc) → Buf (Elt F) ((c : Thread nD τ).loc b) := fun c b => W10 m ρ c b
/-- Region 4's arrays at its exit are the folds; the other buffers are as at its entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5`: what region 5 is entered from. -/
abbrev W11 : Dev nD → Valuation τ sig (Elt F) := fun c => StableHlo.after hostOps5 (W10 m ρ c)
/-- The same, read at the TensorCore's references. -/
abbrev V11 : (c : Dev nD) → (b : Ref sig .tc) → Buf (Elt F) ((c : Thread nD τ).loc b) := fun c b => W11 m ρ c b
/-- At region 5's exit: each window's array at the fold of its write-backs over all `cfg5.N` points, every other
    buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same, read at the TensorCore's references. -/
abbrev V12 : (c : Dev nD) → (b : Ref sig .tc) → Buf (Elt F) ((c : Thread nD τ).loc b) := fun c b => W12 m ρ c b
/-- Region 5's arrays at its exit are the folds; the other buffers are as at its entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`: what region 6 is entered from. -/
abbrev W13 : Dev nD → Valuation τ sig (Elt F) := fun c => StableHlo.after hostOps6 (W12 m ρ c)
/-- The same, read at the TensorCore's references. -/
abbrev V13 : (c : Dev nD) → (b : Ref sig .tc) → Buf (Elt F) ((c : Thread nD τ).loc b) := fun c b => W13 m ρ c b
/-- At region 6's exit: each window's array at the fold of its write-backs over all `cfg6.N` points, every other
    buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same, read at the TensorCore's references. -/
abbrev V14 : (c : Dev nD) → (b : Ref sig .tc) → Buf (Elt F) ((c : Thread nD τ).loc b) := fun c b => W14 m ρ c b
/-- Region 6's arrays at its exit are the folds; the other buffers are as at its entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7`: what region 7 is entered from. -/
abbrev W15 : Dev nD → Valuation τ sig (Elt F) := fun c => StableHlo.after hostOps7 (W14 m ρ c)
/-- The same, read at the TensorCore's references. -/
abbrev V15 : (c : Dev nD) → (b : Ref sig .tc) → Buf (Elt F) ((c : Thread nD τ).loc b) := fun c b => W15 m ρ c b
/-- At region 7's exit: each window's array at the fold of its write-backs over all `cfg7.N` points, every other
    buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same, read at the TensorCore's references. -/
abbrev V16 : (c : Dev nD) → (b : Ref sig .tc) → Buf (Elt F) ((c : Thread nD τ).loc b) := fun c b => W16 m ρ c b
/-- Region 7's arrays at its exit are the folds; the other buffers are as at its entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After `hostOps8`: what region 8 is entered from. -/
abbrev W17 : Dev nD → Valuation τ sig (Elt F) := fun c => StableHlo.after hostOps8 (W16 m ρ c)
/-- The same, read at the TensorCore's references. -/
abbrev V17 : (c : Dev nD) → (b : Ref sig .tc) → Buf (Elt F) ((c : Thread nD τ).loc b) := fun c b => W17 m ρ c b
/-- At region 8's exit: each window's array at the fold of its write-backs over all `cfg8.N` points, every other
    buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same, read at the TensorCore's references. -/
abbrev V18 : (c : Dev nD) → (b : Ref sig .tc) → Buf (Elt F) ((c : Thread nD τ).loc b) := fun c b => W18 m ρ c b
/-- Region 8's arrays at its exit are the folds; the other buffers are as at its entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After `hostOps9`: the contents @main returns with. -/
abbrev W19 : Dev nD → Valuation τ sig (Elt F) := fun c => StableHlo.after hostOps9 (W18 m ρ c)

/-! ## A host stretch leaves alone every buffer outside the list of those it writes -/

theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h
theorem W11_of (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h
theorem W13_of (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h
theorem W15_of (c : Dev nD) (r : Ref sig .tc) (h : r ∉ (hostOps7_W : List (Ref sig .tc))) :
    W15 m ρ c (Proc.devRef .tc r) = W14 m ρ c (Proc.devRef .tc r) :=
  StableHlo.after_of_writes_sub hostOps7 _ hostOps7_writes h
theorem W17_of (c : Dev nD) (r : Ref sig .tc) (h : r ∉ (hostOps8_W : List (Ref sig .tc))) :
    W17 m ρ c (Proc.devRef .tc r) = W16 m ρ c (Proc.devRef .tc r) :=
  StableHlo.after_of_writes_sub hostOps8 _ hostOps8_writes h
theorem W19_of (c : Dev nD) (r : Ref sig .tc) (h : r ∉ (hostOps9_W : List (Ref sig .tc))) :
    W19 m ρ c (Proc.devRef .tc r) = W18 m ρ c (Proc.devRef .tc r) :=
  StableHlo.after_of_writes_sub hostOps9 _ hostOps9_writes h

/-! ## A region leaves its input windows' arrays alone

The fold of an input window's array over any number of points is the array as entered. -/

theorem W2_main_arg1 (c : Dev nD) : W2 m ρ c (Proc.devRef .tc main_arg1) = W1 m ρ c (Proc.devRef .tc main_arg1) :=
  (W2_arr m ρ c 1).trans (((dat0 (V1 m ρ) c).arrAt_in 1 rfl _).trans (A_eq0 (V1 m ρ) c 1))
theorem W4_main_arg3 (c : Dev nD) : W4 m ρ c (Proc.devRef .tc main_arg3) = W3 m ρ c (Proc.devRef .tc main_arg3) :=
  (W4_arr m ρ c 3).trans (((dat1 (V3 m ρ) c).arrAt_in 3 rfl _).trans (A_eq1 (V3 m ρ) c 3))
theorem W4_main_arg4 (c : Dev nD) : W4 m ρ c (Proc.devRef .tc main_arg4) = W3 m ρ c (Proc.devRef .tc main_arg4) :=
  (W4_arr m ρ c 4).trans (((dat1 (V3 m ρ) c).arrAt_in 4 rfl _).trans (A_eq1 (V3 m ρ) c 4))
theorem W6_main_arg2 (c : Dev nD) : W6 m ρ c (Proc.devRef .tc main_arg2) = W5 m ρ c (Proc.devRef .tc main_arg2) :=
  (W6_arr m ρ c 3).trans (((dat2 (V5 m ρ) c).arrAt_in 3 rfl _).trans (A_eq2 (V5 m ρ) c 3))
theorem W8_main_arg11 (c : Dev nD) : W8 m ρ c (Proc.devRef .tc main_arg11) = W7 m ρ c (Proc.devRef .tc main_arg11) :=
  (W8_arr m ρ c 1).trans (((dat3 (V7 m ρ) c).arrAt_in 1 rfl _).trans (A_eq3 (V7 m ρ) c 1))
theorem W12_main_arg14 (c : Dev nD) : W12 m ρ c (Proc.devRef .tc main_arg14) = W11 m ρ c (Proc.devRef .tc main_arg14) :=
  (W12_arr m ρ c 1).trans (((dat5 (V11 m ρ) c).arrAt_in 1 rfl _).trans (A_eq5 (V11 m ρ) c 1))
theorem W14_main_arg16 (c : Dev nD) : W14 m ρ c (Proc.devRef .tc main_arg16) = W13 m ρ c (Proc.devRef .tc main_arg16) :=
  (W14_arr m ρ c 3).trans (((dat6 (V13 m ρ) c).arrAt_in 3 rfl _).trans (A_eq6 (V13 m ρ) c 3))
theorem W14_main_arg17 (c : Dev nD) : W14 m ρ c (Proc.devRef .tc main_arg17) = W13 m ρ c (Proc.devRef .tc main_arg17) :=
  (W14_arr m ρ c 4).trans (((dat6 (V13 m ρ) c).arrAt_in 4 rfl _).trans (A_eq6 (V13 m ρ) c 4))
theorem W16_main_arg15 (c : Dev nD) : W16 m ρ c (Proc.devRef .tc main_arg15) = W15 m ρ c (Proc.devRef .tc main_arg15) :=
  (W16_arr m ρ c 3).trans (((dat7 (V15 m ρ) c).arrAt_in 3 rfl _).trans (A_eq7 (V15 m ρ) c 3))

/-! ## The arguments end as launched

No host stretch writes an argument and no region has one among its output windows' arrays, so the fold read at an
argument's buffer walks back, item by item, to the launch memory. -/

theorem W19_main_arg0 (c : Dev nD) : W19 m ρ c (Proc.devRef .tc main_arg0) = m ((c : Thread nD τ).loc main_arg0) :=
  (W19_of m ρ c main_arg0 (by decide)).trans <|
    (W18_of_ne m ρ c main_arg0 (by decide)).trans <| (W17_of m ρ c main_arg0 (by decide)).trans <|
    (W16_of_ne m ρ c main_arg0 (by decide)).trans <| (W15_of m ρ c main_arg0 (by decide)).trans <|
    (W14_of_ne m ρ c main_arg0 (by decide)).trans <| (W13_of m ρ c main_arg0 (by decide)).trans <|
    (W12_of_ne m ρ c main_arg0 (by decide)).trans <| (W11_of m ρ c main_arg0 (by decide)).trans <|
    (W10_of_ne m ρ c main_arg0 (by decide)).trans <| (W9_of m ρ c main_arg0 (by decide)).trans <|
    (W8_of_ne m ρ c main_arg0 (by decide)).trans <| (W7_of m ρ c main_arg0 (by decide)).trans <|
    (W6_of_ne m ρ c main_arg0 (by decide)).trans <| (W5_of m ρ c main_arg0 (by decide)).trans <|
    (W4_of_ne m ρ c main_arg0 (by decide)).trans <| (W3_of m ρ c main_arg0 (by decide)).trans <|
    (W2_of_ne m ρ c main_arg0 (by decide)).trans <| (W1_of m ρ c main_arg0 (by decide)).trans <|
    rfl

theorem W19_main_arg1 (c : Dev nD) : W19 m ρ c (Proc.devRef .tc main_arg1) = m ((c : Thread nD τ).loc main_arg1) :=
  (W19_of m ρ c main_arg1 (by decide)).trans <|
    (W18_of_ne m ρ c main_arg1 (by decide)).trans <| (W17_of m ρ c main_arg1 (by decide)).trans <|
    (W16_of_ne m ρ c main_arg1 (by decide)).trans <| (W15_of m ρ c main_arg1 (by decide)).trans <|
    (W14_of_ne m ρ c main_arg1 (by decide)).trans <| (W13_of m ρ c main_arg1 (by decide)).trans <|
    (W12_of_ne m ρ c main_arg1 (by decide)).trans <| (W11_of m ρ c main_arg1 (by decide)).trans <|
    (W10_of_ne m ρ c main_arg1 (by decide)).trans <| (W9_of m ρ c main_arg1 (by decide)).trans <|
    (W8_of_ne m ρ c main_arg1 (by decide)).trans <| (W7_of m ρ c main_arg1 (by decide)).trans <|
    (W6_of_ne m ρ c main_arg1 (by decide)).trans <| (W5_of m ρ c main_arg1 (by decide)).trans <|
    (W4_of_ne m ρ c main_arg1 (by decide)).trans <| (W3_of m ρ c main_arg1 (by decide)).trans <|
    (W2_main_arg1 m ρ c).trans <| (W1_of m ρ c main_arg1 (by decide)).trans <|
    rfl

theorem W19_main_arg2 (c : Dev nD) : W19 m ρ c (Proc.devRef .tc main_arg2) = m ((c : Thread nD τ).loc main_arg2) :=
  (W19_of m ρ c main_arg2 (by decide)).trans <|
    (W18_of_ne m ρ c main_arg2 (by decide)).trans <| (W17_of m ρ c main_arg2 (by decide)).trans <|
    (W16_of_ne m ρ c main_arg2 (by decide)).trans <| (W15_of m ρ c main_arg2 (by decide)).trans <|
    (W14_of_ne m ρ c main_arg2 (by decide)).trans <| (W13_of m ρ c main_arg2 (by decide)).trans <|
    (W12_of_ne m ρ c main_arg2 (by decide)).trans <| (W11_of m ρ c main_arg2 (by decide)).trans <|
    (W10_of_ne m ρ c main_arg2 (by decide)).trans <| (W9_of m ρ c main_arg2 (by decide)).trans <|
    (W8_of_ne m ρ c main_arg2 (by decide)).trans <| (W7_of m ρ c main_arg2 (by decide)).trans <|
    (W6_main_arg2 m ρ c).trans <| (W5_of m ρ c main_arg2 (by decide)).trans <|
    (W4_of_ne m ρ c main_arg2 (by decide)).trans <| (W3_of m ρ c main_arg2 (by decide)).trans <|
    (W2_of_ne m ρ c main_arg2 (by decide)).trans <| (W1_of m ρ c main_arg2 (by decide)).trans <|
    rfl

theorem W19_main_arg3 (c : Dev nD) : W19 m ρ c (Proc.devRef .tc main_arg3) = m ((c : Thread nD τ).loc main_arg3) :=
  (W19_of m ρ c main_arg3 (by decide)).trans <|
    (W18_of_ne m ρ c main_arg3 (by decide)).trans <| (W17_of m ρ c main_arg3 (by decide)).trans <|
    (W16_of_ne m ρ c main_arg3 (by decide)).trans <| (W15_of m ρ c main_arg3 (by decide)).trans <|
    (W14_of_ne m ρ c main_arg3 (by decide)).trans <| (W13_of m ρ c main_arg3 (by decide)).trans <|
    (W12_of_ne m ρ c main_arg3 (by decide)).trans <| (W11_of m ρ c main_arg3 (by decide)).trans <|
    (W10_of_ne m ρ c main_arg3 (by decide)).trans <| (W9_of m ρ c main_arg3 (by decide)).trans <|
    (W8_of_ne m ρ c main_arg3 (by decide)).trans <| (W7_of m ρ c main_arg3 (by decide)).trans <|
    (W6_of_ne m ρ c main_arg3 (by decide)).trans <| (W5_of m ρ c main_arg3 (by decide)).trans <|
    (W4_main_arg3 m ρ c).trans <| (W3_of m ρ c main_arg3 (by decide)).trans <|
    (W2_of_ne m ρ c main_arg3 (by decide)).trans <| (W1_of m ρ c main_arg3 (by decide)).trans <|
    rfl

theorem W19_main_arg4 (c : Dev nD) : W19 m ρ c (Proc.devRef .tc main_arg4) = m ((c : Thread nD τ).loc main_arg4) :=
  (W19_of m ρ c main_arg4 (by decide)).trans <|
    (W18_of_ne m ρ c main_arg4 (by decide)).trans <| (W17_of m ρ c main_arg4 (by decide)).trans <|
    (W16_of_ne m ρ c main_arg4 (by decide)).trans <| (W15_of m ρ c main_arg4 (by decide)).trans <|
    (W14_of_ne m ρ c main_arg4 (by decide)).trans <| (W13_of m ρ c main_arg4 (by decide)).trans <|
    (W12_of_ne m ρ c main_arg4 (by decide)).trans <| (W11_of m ρ c main_arg4 (by decide)).trans <|
    (W10_of_ne m ρ c main_arg4 (by decide)).trans <| (W9_of m ρ c main_arg4 (by decide)).trans <|
    (W8_of_ne m ρ c main_arg4 (by decide)).trans <| (W7_of m ρ c main_arg4 (by decide)).trans <|
    (W6_of_ne m ρ c main_arg4 (by decide)).trans <| (W5_of m ρ c main_arg4 (by decide)).trans <|
    (W4_main_arg4 m ρ c).trans <| (W3_of m ρ c main_arg4 (by decide)).trans <|
    (W2_of_ne m ρ c main_arg4 (by decide)).trans <| (W1_of m ρ c main_arg4 (by decide)).trans <|
    rfl

theorem W19_main_arg5 (c : Dev nD) : W19 m ρ c (Proc.devRef .tc main_arg5) = m ((c : Thread nD τ).loc main_arg5) :=
  (W19_of m ρ c main_arg5 (by decide)).trans <|
    (W18_of_ne m ρ c main_arg5 (by decide)).trans <| (W17_of m ρ c main_arg5 (by decide)).trans <|
    (W16_of_ne m ρ c main_arg5 (by decide)).trans <| (W15_of m ρ c main_arg5 (by decide)).trans <|
    (W14_of_ne m ρ c main_arg5 (by decide)).trans <| (W13_of m ρ c main_arg5 (by decide)).trans <|
    (W12_of_ne m ρ c main_arg5 (by decide)).trans <| (W11_of m ρ c main_arg5 (by decide)).trans <|
    (W10_of_ne m ρ c main_arg5 (by decide)).trans <| (W9_of m ρ c main_arg5 (by decide)).trans <|
    (W8_of_ne m ρ c main_arg5 (by decide)).trans <| (W7_of m ρ c main_arg5 (by decide)).trans <|
    (W6_of_ne m ρ c main_arg5 (by decide)).trans <| (W5_of m ρ c main_arg5 (by decide)).trans <|
    (W4_of_ne m ρ c main_arg5 (by decide)).trans <| (W3_of m ρ c main_arg5 (by decide)).trans <|
    (W2_of_ne m ρ c main_arg5 (by decide)).trans <| (W1_of m ρ c main_arg5 (by decide)).trans <|
    rfl

theorem W19_main_arg6 (c : Dev nD) : W19 m ρ c (Proc.devRef .tc main_arg6) = m ((c : Thread nD τ).loc main_arg6) :=
  (W19_of m ρ c main_arg6 (by decide)).trans <|
    (W18_of_ne m ρ c main_arg6 (by decide)).trans <| (W17_of m ρ c main_arg6 (by decide)).trans <|
    (W16_of_ne m ρ c main_arg6 (by decide)).trans <| (W15_of m ρ c main_arg6 (by decide)).trans <|
    (W14_of_ne m ρ c main_arg6 (by decide)).trans <| (W13_of m ρ c main_arg6 (by decide)).trans <|
    (W12_of_ne m ρ c main_arg6 (by decide)).trans <| (W11_of m ρ c main_arg6 (by decide)).trans <|
    (W10_of_ne m ρ c main_arg6 (by decide)).trans <| (W9_of m ρ c main_arg6 (by decide)).trans <|
    (W8_of_ne m ρ c main_arg6 (by decide)).trans <| (W7_of m ρ c main_arg6 (by decide)).trans <|
    (W6_of_ne m ρ c main_arg6 (by decide)).trans <| (W5_of m ρ c main_arg6 (by decide)).trans <|
    (W4_of_ne m ρ c main_arg6 (by decide)).trans <| (W3_of m ρ c main_arg6 (by decide)).trans <|
    (W2_of_ne m ρ c main_arg6 (by decide)).trans <| (W1_of m ρ c main_arg6 (by decide)).trans <|
    rfl

theorem W19_main_arg7 (c : Dev nD) : W19 m ρ c (Proc.devRef .tc main_arg7) = m ((c : Thread nD τ).loc main_arg7) :=
  (W19_of m ρ c main_arg7 (by decide)).trans <|
    (W18_of_ne m ρ c main_arg7 (by decide)).trans <| (W17_of m ρ c main_arg7 (by decide)).trans <|
    (W16_of_ne m ρ c main_arg7 (by decide)).trans <| (W15_of m ρ c main_arg7 (by decide)).trans <|
    (W14_of_ne m ρ c main_arg7 (by decide)).trans <| (W13_of m ρ c main_arg7 (by decide)).trans <|
    (W12_of_ne m ρ c main_arg7 (by decide)).trans <| (W11_of m ρ c main_arg7 (by decide)).trans <|
    (W10_of_ne m ρ c main_arg7 (by decide)).trans <| (W9_of m ρ c main_arg7 (by decide)).trans <|
    (W8_of_ne m ρ c main_arg7 (by decide)).trans <| (W7_of m ρ c main_arg7 (by decide)).trans <|
    (W6_of_ne m ρ c main_arg7 (by decide)).trans <| (W5_of m ρ c main_arg7 (by decide)).trans <|
    (W4_of_ne m ρ c main_arg7 (by decide)).trans <| (W3_of m ρ c main_arg7 (by decide)).trans <|
    (W2_of_ne m ρ c main_arg7 (by decide)).trans <| (W1_of m ρ c main_arg7 (by decide)).trans <|
    rfl

theorem W19_main_arg8 (c : Dev nD) : W19 m ρ c (Proc.devRef .tc main_arg8) = m ((c : Thread nD τ).loc main_arg8) :=
  (W19_of m ρ c main_arg8 (by decide)).trans <|
    (W18_of_ne m ρ c main_arg8 (by decide)).trans <| (W17_of m ρ c main_arg8 (by decide)).trans <|
    (W16_of_ne m ρ c main_arg8 (by decide)).trans <| (W15_of m ρ c main_arg8 (by decide)).trans <|
    (W14_of_ne m ρ c main_arg8 (by decide)).trans <| (W13_of m ρ c main_arg8 (by decide)).trans <|
    (W12_of_ne m ρ c main_arg8 (by decide)).trans <| (W11_of m ρ c main_arg8 (by decide)).trans <|
    (W10_of_ne m ρ c main_arg8 (by decide)).trans <| (W9_of m ρ c main_arg8 (by decide)).trans <|
    (W8_of_ne m ρ c main_arg8 (by decide)).trans <| (W7_of m ρ c main_arg8 (by decide)).trans <|
    (W6_of_ne m ρ c main_arg8 (by decide)).trans <| (W5_of m ρ c main_arg8 (by decide)).trans <|
    (W4_of_ne m ρ c main_arg8 (by decide)).trans <| (W3_of m ρ c main_arg8 (by decide)).trans <|
    (W2_of_ne m ρ c main_arg8 (by decide)).trans <| (W1_of m ρ c main_arg8 (by decide)).trans <|
    rfl

theorem W19_main_arg9 (c : Dev nD) : W19 m ρ c (Proc.devRef .tc main_arg9) = m ((c : Thread nD τ).loc main_arg9) :=
  (W19_of m ρ c main_arg9 (by decide)).trans <|
    (W18_of_ne m ρ c main_arg9 (by decide)).trans <| (W17_of m ρ c main_arg9 (by decide)).trans <|
    (W16_of_ne m ρ c main_arg9 (by decide)).trans <| (W15_of m ρ c main_arg9 (by decide)).trans <|
    (W14_of_ne m ρ c main_arg9 (by decide)).trans <| (W13_of m ρ c main_arg9 (by decide)).trans <|
    (W12_of_ne m ρ c main_arg9 (by decide)).trans <| (W11_of m ρ c main_arg9 (by decide)).trans <|
    (W10_of_ne m ρ c main_arg9 (by decide)).trans <| (W9_of m ρ c main_arg9 (by decide)).trans <|
    (W8_of_ne m ρ c main_arg9 (by decide)).trans <| (W7_of m ρ c main_arg9 (by decide)).trans <|
    (W6_of_ne m ρ c main_arg9 (by decide)).trans <| (W5_of m ρ c main_arg9 (by decide)).trans <|
    (W4_of_ne m ρ c main_arg9 (by decide)).trans <| (W3_of m ρ c main_arg9 (by decide)).trans <|
    (W2_of_ne m ρ c main_arg9 (by decide)).trans <| (W1_of m ρ c main_arg9 (by decide)).trans <|
    rfl

theorem W19_main_arg10 (c : Dev nD) : W19 m ρ c (Proc.devRef .tc main_arg10) = m ((c : Thread nD τ).loc main_arg10) :=
  (W19_of m ρ c main_arg10 (by decide)).trans <|
    (W18_of_ne m ρ c main_arg10 (by decide)).trans <| (W17_of m ρ c main_arg10 (by decide)).trans <|
    (W16_of_ne m ρ c main_arg10 (by decide)).trans <| (W15_of m ρ c main_arg10 (by decide)).trans <|
    (W14_of_ne m ρ c main_arg10 (by decide)).trans <| (W13_of m ρ c main_arg10 (by decide)).trans <|
    (W12_of_ne m ρ c main_arg10 (by decide)).trans <| (W11_of m ρ c main_arg10 (by decide)).trans <|
    (W10_of_ne m ρ c main_arg10 (by decide)).trans <| (W9_of m ρ c main_arg10 (by decide)).trans <|
    (W8_of_ne m ρ c main_arg10 (by decide)).trans <| (W7_of m ρ c main_arg10 (by decide)).trans <|
    (W6_of_ne m ρ c main_arg10 (by decide)).trans <| (W5_of m ρ c main_arg10 (by decide)).trans <|
    (W4_of_ne m ρ c main_arg10 (by decide)).trans <| (W3_of m ρ c main_arg10 (by decide)).trans <|
    (W2_of_ne m ρ c main_arg10 (by decide)).trans <| (W1_of m ρ c main_arg10 (by decide)).trans <|
    rfl

theorem W19_main_arg11 (c : Dev nD) : W19 m ρ c (Proc.devRef .tc main_arg11) = m ((c : Thread nD τ).loc main_arg11) :=
  (W19_of m ρ c main_arg11 (by decide)).trans <|
    (W18_of_ne m ρ c main_arg11 (by decide)).trans <| (W17_of m ρ c main_arg11 (by decide)).trans <|
    (W16_of_ne m ρ c main_arg11 (by decide)).trans <| (W15_of m ρ c main_arg11 (by decide)).trans <|
    (W14_of_ne m ρ c main_arg11 (by decide)).trans <| (W13_of m ρ c main_arg11 (by decide)).trans <|
    (W12_of_ne m ρ c main_arg11 (by decide)).trans <| (W11_of m ρ c main_arg11 (by decide)).trans <|
    (W10_of_ne m ρ c main_arg11 (by decide)).trans <| (W9_of m ρ c main_arg11 (by decide)).trans <|
    (W8_main_arg11 m ρ c).trans <| (W7_of m ρ c main_arg11 (by decide)).trans <|
    (W6_of_ne m ρ c main_arg11 (by decide)).trans <| (W5_of m ρ c main_arg11 (by decide)).trans <|
    (W4_of_ne m ρ c main_arg11 (by decide)).trans <| (W3_of m ρ c main_arg11 (by decide)).trans <|
    (W2_of_ne m ρ c main_arg11 (by decide)).trans <| (W1_of m ρ c main_arg11 (by decide)).trans <|
    rfl

theorem W19_main_arg12 (c : Dev nD) : W19 m ρ c (Proc.devRef .tc main_arg12) = m ((c : Thread nD τ).loc main_arg12) :=
  (W19_of m ρ c main_arg12 (by decide)).trans <|
    (W18_of_ne m ρ c main_arg12 (by decide)).trans <| (W17_of m ρ c main_arg12 (by decide)).trans <|
    (W16_of_ne m ρ c main_arg12 (by decide)).trans <| (W15_of m ρ c main_arg12 (by decide)).trans <|
    (W14_of_ne m ρ c main_arg12 (by decide)).trans <| (W13_of m ρ c main_arg12 (by decide)).trans <|
    (W12_of_ne m ρ c main_arg12 (by decide)).trans <| (W11_of m ρ c main_arg12 (by decide)).trans <|
    (W10_of_ne m ρ c main_arg12 (by decide)).trans <| (W9_of m ρ c main_arg12 (by decide)).trans <|
    (W8_of_ne m ρ c main_arg12 (by decide)).trans <| (W7_of m ρ c main_arg12 (by decide)).trans <|
    (W6_of_ne m ρ c main_arg12 (by decide)).trans <| (W5_of m ρ c main_arg12 (by decide)).trans <|
    (W4_of_ne m ρ c main_arg12 (by decide)).trans <| (W3_of m ρ c main_arg12 (by decide)).trans <|
    (W2_of_ne m ρ c main_arg12 (by decide)).trans <| (W1_of m ρ c main_arg12 (by decide)).trans <|
    rfl

theorem W19_main_arg13 (c : Dev nD) : W19 m ρ c (Proc.devRef .tc main_arg13) = m ((c : Thread nD τ).loc main_arg13) :=
  (W19_of m ρ c main_arg13 (by decide)).trans <|
    (W18_of_ne m ρ c main_arg13 (by decide)).trans <| (W17_of m ρ c main_arg13 (by decide)).trans <|
    (W16_of_ne m ρ c main_arg13 (by decide)).trans <| (W15_of m ρ c main_arg13 (by decide)).trans <|
    (W14_of_ne m ρ c main_arg13 (by decide)).trans <| (W13_of m ρ c main_arg13 (by decide)).trans <|
    (W12_of_ne m ρ c main_arg13 (by decide)).trans <| (W11_of m ρ c main_arg13 (by decide)).trans <|
    (W10_of_ne m ρ c main_arg13 (by decide)).trans <| (W9_of m ρ c main_arg13 (by decide)).trans <|
    (W8_of_ne m ρ c main_arg13 (by decide)).trans <| (W7_of m ρ c main_arg13 (by decide)).trans <|
    (W6_of_ne m ρ c main_arg13 (by decide)).trans <| (W5_of m ρ c main_arg13 (by decide)).trans <|
    (W4_of_ne m ρ c main_arg13 (by decide)).trans <| (W3_of m ρ c main_arg13 (by decide)).trans <|
    (W2_of_ne m ρ c main_arg13 (by decide)).trans <| (W1_of m ρ c main_arg13 (by decide)).trans <|
    rfl

theorem W19_main_arg14 (c : Dev nD) : W19 m ρ c (Proc.devRef .tc main_arg14) = m ((c : Thread nD τ).loc main_arg14) :=
  (W19_of m ρ c main_arg14 (by decide)).trans <|
    (W18_of_ne m ρ c main_arg14 (by decide)).trans <| (W17_of m ρ c main_arg14 (by decide)).trans <|
    (W16_of_ne m ρ c main_arg14 (by decide)).trans <| (W15_of m ρ c main_arg14 (by decide)).trans <|
    (W14_of_ne m ρ c main_arg14 (by decide)).trans <| (W13_of m ρ c main_arg14 (by decide)).trans <|
    (W12_main_arg14 m ρ c).trans <| (W11_of m ρ c main_arg14 (by decide)).trans <|
    (W10_of_ne m ρ c main_arg14 (by decide)).trans <| (W9_of m ρ c main_arg14 (by decide)).trans <|
    (W8_of_ne m ρ c main_arg14 (by decide)).trans <| (W7_of m ρ c main_arg14 (by decide)).trans <|
    (W6_of_ne m ρ c main_arg14 (by decide)).trans <| (W5_of m ρ c main_arg14 (by decide)).trans <|
    (W4_of_ne m ρ c main_arg14 (by decide)).trans <| (W3_of m ρ c main_arg14 (by decide)).trans <|
    (W2_of_ne m ρ c main_arg14 (by decide)).trans <| (W1_of m ρ c main_arg14 (by decide)).trans <|
    rfl

theorem W19_main_arg15 (c : Dev nD) : W19 m ρ c (Proc.devRef .tc main_arg15) = m ((c : Thread nD τ).loc main_arg15) :=
  (W19_of m ρ c main_arg15 (by decide)).trans <|
    (W18_of_ne m ρ c main_arg15 (by decide)).trans <| (W17_of m ρ c main_arg15 (by decide)).trans <|
    (W16_main_arg15 m ρ c).trans <| (W15_of m ρ c main_arg15 (by decide)).trans <|
    (W14_of_ne m ρ c main_arg15 (by decide)).trans <| (W13_of m ρ c main_arg15 (by decide)).trans <|
    (W12_of_ne m ρ c main_arg15 (by decide)).trans <| (W11_of m ρ c main_arg15 (by decide)).trans <|
    (W10_of_ne m ρ c main_arg15 (by decide)).trans <| (W9_of m ρ c main_arg15 (by decide)).trans <|
    (W8_of_ne m ρ c main_arg15 (by decide)).trans <| (W7_of m ρ c main_arg15 (by decide)).trans <|
    (W6_of_ne m ρ c main_arg15 (by decide)).trans <| (W5_of m ρ c main_arg15 (by decide)).trans <|
    (W4_of_ne m ρ c main_arg15 (by decide)).trans <| (W3_of m ρ c main_arg15 (by decide)).trans <|
    (W2_of_ne m ρ c main_arg15 (by decide)).trans <| (W1_of m ρ c main_arg15 (by decide)).trans <|
    rfl

theorem W19_main_arg16 (c : Dev nD) : W19 m ρ c (Proc.devRef .tc main_arg16) = m ((c : Thread nD τ).loc main_arg16) :=
  (W19_of m ρ c main_arg16 (by decide)).trans <|
    (W18_of_ne m ρ c main_arg16 (by decide)).trans <| (W17_of m ρ c main_arg16 (by decide)).trans <|
    (W16_of_ne m ρ c main_arg16 (by decide)).trans <| (W15_of m ρ c main_arg16 (by decide)).trans <|
    (W14_main_arg16 m ρ c).trans <| (W13_of m ρ c main_arg16 (by decide)).trans <|
    (W12_of_ne m ρ c main_arg16 (by decide)).trans <| (W11_of m ρ c main_arg16 (by decide)).trans <|
    (W10_of_ne m ρ c main_arg16 (by decide)).trans <| (W9_of m ρ c main_arg16 (by decide)).trans <|
    (W8_of_ne m ρ c main_arg16 (by decide)).trans <| (W7_of m ρ c main_arg16 (by decide)).trans <|
    (W6_of_ne m ρ c main_arg16 (by decide)).trans <| (W5_of m ρ c main_arg16 (by decide)).trans <|
    (W4_of_ne m ρ c main_arg16 (by decide)).trans <| (W3_of m ρ c main_arg16 (by decide)).trans <|
    (W2_of_ne m ρ c main_arg16 (by decide)).trans <| (W1_of m ρ c main_arg16 (by decide)).trans <|
    rfl

theorem W19_main_arg17 (c : Dev nD) : W19 m ρ c (Proc.devRef .tc main_arg17) = m ((c : Thread nD τ).loc main_arg17) :=
  (W19_of m ρ c main_arg17 (by decide)).trans <|
    (W18_of_ne m ρ c main_arg17 (by decide)).trans <| (W17_of m ρ c main_arg17 (by decide)).trans <|
    (W16_of_ne m ρ c main_arg17 (by decide)).trans <| (W15_of m ρ c main_arg17 (by decide)).trans <|
    (W14_main_arg17 m ρ c).trans <| (W13_of m ρ c main_arg17 (by decide)).trans <|
    (W12_of_ne m ρ c main_arg17 (by decide)).trans <| (W11_of m ρ c main_arg17 (by decide)).trans <|
    (W10_of_ne m ρ c main_arg17 (by decide)).trans <| (W9_of m ρ c main_arg17 (by decide)).trans <|
    (W8_of_ne m ρ c main_arg17 (by decide)).trans <| (W7_of m ρ c main_arg17 (by decide)).trans <|
    (W6_of_ne m ρ c main_arg17 (by decide)).trans <| (W5_of m ρ c main_arg17 (by decide)).trans <|
    (W4_of_ne m ρ c main_arg17 (by decide)).trans <| (W3_of m ρ c main_arg17 (by decide)).trans <|
    (W2_of_ne m ρ c main_arg17 (by decide)).trans <| (W1_of m ρ c main_arg17 (by decide)).trans <|
    rfl

theorem W19_main_arg18 (c : Dev nD) : W19 m ρ c (Proc.devRef .tc main_arg18) = m ((c : Thread nD τ).loc main_arg18) :=
  (W19_of m ρ c main_arg18 (by decide)).trans <|
    (W18_of_ne m ρ c main_arg18 (by decide)).trans <| (W17_of m ρ c main_arg18 (by decide)).trans <|
    (W16_of_ne m ρ c main_arg18 (by decide)).trans <| (W15_of m ρ c main_arg18 (by decide)).trans <|
    (W14_of_ne m ρ c main_arg18 (by decide)).trans <| (W13_of m ρ c main_arg18 (by decide)).trans <|
    (W12_of_ne m ρ c main_arg18 (by decide)).trans <| (W11_of m ρ c main_arg18 (by decide)).trans <|
    (W10_of_ne m ρ c main_arg18 (by decide)).trans <| (W9_of m ρ c main_arg18 (by decide)).trans <|
    (W8_of_ne m ρ c main_arg18 (by decide)).trans <| (W7_of m ρ c main_arg18 (by decide)).trans <|
    (W6_of_ne m ρ c main_arg18 (by decide)).trans <| (W5_of m ρ c main_arg18 (by decide)).trans <|
    (W4_of_ne m ρ c main_arg18 (by decide)).trans <| (W3_of m ρ c main_arg18 (by decide)).trans <|
    (W2_of_ne m ρ c main_arg18 (by decide)).trans <| (W1_of m ρ c main_arg18 (by decide)).trans <|
    rfl

theorem W19_main_arg19 (c : Dev nD) : W19 m ρ c (Proc.devRef .tc main_arg19) = m ((c : Thread nD τ).loc main_arg19) :=
  (W19_of m ρ c main_arg19 (by decide)).trans <|
    (W18_of_ne m ρ c main_arg19 (by decide)).trans <| (W17_of m ρ c main_arg19 (by decide)).trans <|
    (W16_of_ne m ρ c main_arg19 (by decide)).trans <| (W15_of m ρ c main_arg19 (by decide)).trans <|
    (W14_of_ne m ρ c main_arg19 (by decide)).trans <| (W13_of m ρ c main_arg19 (by decide)).trans <|
    (W12_of_ne m ρ c main_arg19 (by decide)).trans <| (W11_of m ρ c main_arg19 (by decide)).trans <|
    (W10_of_ne m ρ c main_arg19 (by decide)).trans <| (W9_of m ρ c main_arg19 (by decide)).trans <|
    (W8_of_ne m ρ c main_arg19 (by decide)).trans <| (W7_of m ρ c main_arg19 (by decide)).trans <|
    (W6_of_ne m ρ c main_arg19 (by decide)).trans <| (W5_of m ρ c main_arg19 (by decide)).trans <|
    (W4_of_ne m ρ c main_arg19 (by decide)).trans <| (W3_of m ρ c main_arg19 (by decide)).trans <|
    (W2_of_ne m ρ c main_arg19 (by decide)).trans <| (W1_of m ρ c main_arg19 (by decide)).trans <|
    rfl

theorem W19_main_arg20 (c : Dev nD) : W19 m ρ c (Proc.devRef .tc main_arg20) = m ((c : Thread nD τ).loc main_arg20) :=
  (W19_of m ρ c main_arg20 (by decide)).trans <|
    (W18_of_ne m ρ c main_arg20 (by decide)).trans <| (W17_of m ρ c main_arg20 (by decide)).trans <|
    (W16_of_ne m ρ c main_arg20 (by decide)).trans <| (W15_of m ρ c main_arg20 (by decide)).trans <|
    (W14_of_ne m ρ c main_arg20 (by decide)).trans <| (W13_of m ρ c main_arg20 (by decide)).trans <|
    (W12_of_ne m ρ c main_arg20 (by decide)).trans <| (W11_of m ρ c main_arg20 (by decide)).trans <|
    (W10_of_ne m ρ c main_arg20 (by decide)).trans <| (W9_of m ρ c main_arg20 (by decide)).trans <|
    (W8_of_ne m ρ c main_arg20 (by decide)).trans <| (W7_of m ρ c main_arg20 (by decide)).trans <|
    (W6_of_ne m ρ c main_arg20 (by decide)).trans <| (W5_of m ρ c main_arg20 (by decide)).trans <|
    (W4_of_ne m ρ c main_arg20 (by decide)).trans <| (W3_of m ρ c main_arg20 (by decide)).trans <|
    (W2_of_ne m ρ c main_arg20 (by decide)).trans <| (W1_of m ρ c main_arg20 (by decide)).trans <|
    rfl

theorem W19_main_arg21 (c : Dev nD) : W19 m ρ c (Proc.devRef .tc main_arg21) = m ((c : Thread nD τ).loc main_arg21) :=
  (W19_of m ρ c main_arg21 (by decide)).trans <|
    (W18_of_ne m ρ c main_arg21 (by decide)).trans <| (W17_of m ρ c main_arg21 (by decide)).trans <|
    (W16_of_ne m ρ c main_arg21 (by decide)).trans <| (W15_of m ρ c main_arg21 (by decide)).trans <|
    (W14_of_ne m ρ c main_arg21 (by decide)).trans <| (W13_of m ρ c main_arg21 (by decide)).trans <|
    (W12_of_ne m ρ c main_arg21 (by decide)).trans <| (W11_of m ρ c main_arg21 (by decide)).trans <|
    (W10_of_ne m ρ c main_arg21 (by decide)).trans <| (W9_of m ρ c main_arg21 (by decide)).trans <|
    (W8_of_ne m ρ c main_arg21 (by decide)).trans <| (W7_of m ρ c main_arg21 (by decide)).trans <|
    (W6_of_ne m ρ c main_arg21 (by decide)).trans <| (W5_of m ρ c main_arg21 (by decide)).trans <|
    (W4_of_ne m ρ c main_arg21 (by decide)).trans <| (W3_of m ρ c main_arg21 (by decide)).trans <|
    (W2_of_ne m ρ c main_arg21 (by decide)).trans <| (W1_of m ρ c main_arg21 (by decide)).trans <|
    rfl

theorem W19_main_arg22 (c : Dev nD) : W19 m ρ c (Proc.devRef .tc main_arg22) = m ((c : Thread nD τ).loc main_arg22) :=
  (W19_of m ρ c main_arg22 (by decide)).trans <|
    (W18_of_ne m ρ c main_arg22 (by decide)).trans <| (W17_of m ρ c main_arg22 (by decide)).trans <|
    (W16_of_ne m ρ c main_arg22 (by decide)).trans <| (W15_of m ρ c main_arg22 (by decide)).trans <|
    (W14_of_ne m ρ c main_arg22 (by decide)).trans <| (W13_of m ρ c main_arg22 (by decide)).trans <|
    (W12_of_ne m ρ c main_arg22 (by decide)).trans <| (W11_of m ρ c main_arg22 (by decide)).trans <|
    (W10_of_ne m ρ c main_arg22 (by decide)).trans <| (W9_of m ρ c main_arg22 (by decide)).trans <|
    (W8_of_ne m ρ c main_arg22 (by decide)).trans <| (W7_of m ρ c main_arg22 (by decide)).trans <|
    (W6_of_ne m ρ c main_arg22 (by decide)).trans <| (W5_of m ρ c main_arg22 (by decide)).trans <|
    (W4_of_ne m ρ c main_arg22 (by decide)).trans <| (W3_of m ρ c main_arg22 (by decide)).trans <|
    (W2_of_ne m ρ c main_arg22 (by decide)).trans <| (W1_of m ρ c main_arg22 (by decide)).trans <|
    rfl

theorem W19_main_arg23 (c : Dev nD) : W19 m ρ c (Proc.devRef .tc main_arg23) = m ((c : Thread nD τ).loc main_arg23) :=
  (W19_of m ρ c main_arg23 (by decide)).trans <|
    (W18_of_ne m ρ c main_arg23 (by decide)).trans <| (W17_of m ρ c main_arg23 (by decide)).trans <|
    (W16_of_ne m ρ c main_arg23 (by decide)).trans <| (W15_of m ρ c main_arg23 (by decide)).trans <|
    (W14_of_ne m ρ c main_arg23 (by decide)).trans <| (W13_of m ρ c main_arg23 (by decide)).trans <|
    (W12_of_ne m ρ c main_arg23 (by decide)).trans <| (W11_of m ρ c main_arg23 (by decide)).trans <|
    (W10_of_ne m ρ c main_arg23 (by decide)).trans <| (W9_of m ρ c main_arg23 (by decide)).trans <|
    (W8_of_ne m ρ c main_arg23 (by decide)).trans <| (W7_of m ρ c main_arg23 (by decide)).trans <|
    (W6_of_ne m ρ c main_arg23 (by decide)).trans <| (W5_of m ρ c main_arg23 (by decide)).trans <|
    (W4_of_ne m ρ c main_arg23 (by decide)).trans <| (W3_of m ρ c main_arg23 (by decide)).trans <|
    (W2_of_ne m ρ c main_arg23 (by decide)).trans <| (W1_of m ρ c main_arg23 (by decide)).trans <|
    rfl

end Cert.ReferenceIdeal.Hand

end
-- ==== Proof.RefRun.lean ====
import proofs.«159567_g2000302752657622_pallasbulk_725_3_alg».proof.Proof.RefRunW

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no pipeline has a table. -/
abbrev adm : (p : Fin 9) → (pcfgs (F := F) p).Adm := fun p => (cfgs p).toPCfg_adm
/-- Every pipeline's proof data, each at the contents its region is entered from. The `match` is on literals so that
    `Pipeline.pin pcfgs adm p` at a numeral reduces to that region's printed configuration. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped references, from the contents `W`, with `R` riding along; it ends
    at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W19`, the generator register at some state. -/
abbrev Tₙ (c : Dev nD) : sProp 𝕄 := iprop(StableHlo.held (c : Thread nD τ) (Pipeline.ucRefs τ sig) (W19 m ρ c) ∗ ∃ r, prngReg c r)

/-! # The regions as segments

Region K is entered with every unscoped buffer at `W(2K+1)` and left with them at `W(2K+2)`. At entry its windows'
arrays are split out of the unscoped buffers and at exit put back at the folds; the generator register goes into the
region's invariant and comes out; nothing is owed; the kernel has no semaphore of its own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the run -/

/-- @main's 19 items in order: a host segment per stretch from the contents at its boundary, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]
/-- @main is the run of these segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates without a fault, and in every final state the result `main_v111` holds the fold's last
    contents `W19` and each argument array holds what it was launched with. -/
theorem run : θ_run defs (onTc (τ := τ) (main (F := F))) ⟨m, fun _ => 0, ρ⟩ (fun r => ∀ c : Dev nD,
      r.2.mem ((c.tc : Thread nD τ).loc main_v111) = W19 m ρ c main_v111
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v111 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c),
       (h c _ (mem_uc main_arg19 (by decide))).trans (W19_main_arg19 m ρ c),
       (h c _ (mem_uc main_arg20 (by decide))).trans (W19_main_arg20 m ρ c),
       (h c _ (mem_uc main_arg21 (by decide))).trans (W19_main_arg21 m ρ c),
       (h c _ (mem_uc main_arg22 (by decide))).trans (W19_main_arg22 m ρ c),
       (h c _ (mem_uc main_arg23 (by decide))).trans (W19_main_arg23 m ρ c)⟩)

/-- The frame: every execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => (h c).2) (run m ρ)

end Cert.ReferenceIdeal.Hand

end
-- ==== Proof.KerRun.lean ====
import proofs.«159567_g2000302752657622_pallasbulk_725_3_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel together with the value of its result. From any memory `m` with zero counters,
    every weakly fair execution of the entry computation on the TensorCores terminates without a fault, and in every
    final state the result buffer holds the last boundary's contents at that buffer — the valuation obtained from the
    launch memory by folding each host stretch's operations and each region's write-backs in program order — while each
    of the 24 argument buffers holds what it held in `m`. The segments' chain of thread states ends with every
    unscoped buffer at the last boundary's contents; the final state is read against it buffer by buffer, and an
    argument's buffer, written by no operation and no region, reads back through the fold to `m`. -/
theorem run : θ_run defs (onTc (τ := τ) (main (F := F))) ⟨m, fun _ => 0, ρ⟩ (fun r => ∀ c : Dev nD,
      r.2.mem ((c.tc : Thread nD τ).loc main_v202) = Gen.W15 m ρ c (Proc.devRef .tc main_v202)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v202 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c)⟩)

end Cert.KernelIdeal.Hand

end
-- ==== Proof.Args.lean ====
/-
  The twenty-four argument arrays of the two programs as one record of functions from a shape's indices to the
  extended reals (what a float buffer holds on the ideal reading), and "every entry of every argument is a real number",
  which is what the precondition (all inputs finite) gives.
-/
import Idealize.ShloMosaic.PureOps.Ideal

noncomputable section

namespace Cert

open Idealize.ShloMosaic

/-- The arguments, in the programs' order. -/
structure Args where
  /-- x : the input images [64,128,32,32] -/
  a0 : (⟨4, ![64, 128, 32, 32]⟩ : Shape).Idx → EReal
  /-- w1_0 : block 0's first 1×1 weights [64,128] -/
  a1 : (⟨2, ![64, 128]⟩ : Shape).Idx → EReal
  /-- w3_0 : block 0's last 1×1 weights [256,64] -/
  a2 : (⟨2, ![256, 64]⟩ : Shape).Idx → EReal
  /-- wtaps_0 : block 0's nine tap matrices [9,64,64] -/
  a3 : (⟨3, ![9, 64, 64]⟩ : Shape).Idx → EReal
  /-- masks_0 : block 0's four border masks [4,1024] -/
  a4 : (⟨2, ![4, 1024]⟩ : Shape).Idx → EReal
  /-- g1_0 -/
  a5 : (⟨1, ![64]⟩ : Shape).Idx → EReal
  /-- b1_0 -/
  a6 : (⟨1, ![64]⟩ : Shape).Idx → EReal
  /-- g2_0 -/
  a7 : (⟨1, ![64]⟩ : Shape).Idx → EReal
  /-- b2_0 -/
  a8 : (⟨1, ![64]⟩ : Shape).Idx → EReal
  /-- g3_0 -/
  a9 : (⟨1, ![256]⟩ : Shape).Idx → EReal
  /-- b3_0 -/
  a10 : (⟨1, ![256]⟩ : Shape).Idx → EReal
  /-- ws_0 : the shortcut's 1×1 weights [256,128] -/
  a11 : (⟨2, ![256, 128]⟩ : Shape).Idx → EReal
  /-- gs_0 -/
  a12 : (⟨1, ![256]⟩ : Shape).Idx → EReal
  /-- bs_0 -/
  a13 : (⟨1, ![256]⟩ : Shape).Idx → EReal
  /-- w1_1 : block 1's first 1×1 weights [64,256] -/
  a14 : (⟨2, ![64, 256]⟩ : Shape).Idx → EReal
  /-- w3_1 : block 1's last 1×1 weights [256,64] -/
  a15 : (⟨2, ![256, 64]⟩ : Shape).Idx → EReal
  /-- wtaps_1 : block 1's nine tap matrices [9,64,64] -/
  a16 : (⟨3, ![9, 64, 64]⟩ : Shape).Idx → EReal
  /-- masks_1 : block 1's nine border masks [9,4096] -/
  a17 : (⟨2, ![9, 4096]⟩ : Shape).Idx → EReal
  /-- g1_1 -/
  a18 : (⟨1, ![64]⟩ : Shape).Idx → EReal
  /-- b1_1 -/
  a19 : (⟨1, ![64]⟩ : Shape).Idx → EReal
  /-- g2_1 -/
  a20 : (⟨1, ![64]⟩ : Shape).Idx → EReal
  /-- b2_1 -/
  a21 : (⟨1, ![64]⟩ : Shape).Idx → EReal
  /-- g3_1 -/
  a22 : (⟨1, ![256]⟩ : Shape).Idx → EReal
  /-- b3_1 -/
  a23 : (⟨1, ![256]⟩ : Shape).Idx → EReal

/-- Every entry of every argument is a real number. -/
structure Args.AllReal (a : Args) : Prop where
  h0 : ∀ i, ∃ r : ℝ, a.a0 i = (r : EReal)
  h1 : ∀ i, ∃ r : ℝ, a.a1 i = (r : EReal)
  h2 : ∀ i, ∃ r : ℝ, a.a2 i = (r : EReal)
  h3 : ∀ i, ∃ r : ℝ, a.a3 i = (r : EReal)
  h4 : ∀ i, ∃ r : ℝ, a.a4 i = (r : EReal)
  h5 : ∀ i, ∃ r : ℝ, a.a5 i = (r : EReal)
  h6 : ∀ i, ∃ r : ℝ, a.a6 i = (r : EReal)
  h7 : ∀ i, ∃ r : ℝ, a.a7 i = (r : EReal)
  h8 : ∀ i, ∃ r : ℝ, a.a8 i = (r : EReal)
  h9 : ∀ i, ∃ r : ℝ, a.a9 i = (r : EReal)
  h10 : ∀ i, ∃ r : ℝ, a.a10 i = (r : EReal)
  h11 : ∀ i, ∃ r : ℝ, a.a11 i = (r : EReal)
  h12 : ∀ i, ∃ r : ℝ, a.a12 i = (r : EReal)
  h13 : ∀ i, ∃ r : ℝ, a.a13 i = (r : EReal)
  h14 : ∀ i, ∃ r : ℝ, a.a14 i = (r : EReal)
  h15 : ∀ i, ∃ r : ℝ, a.a15 i = (r : EReal)
  h16 : ∀ i, ∃ r : ℝ, a.a16 i = (r : EReal)
  h17 : ∀ i, ∃ r : ℝ, a.a17 i = (r : EReal)
  h18 : ∀ i, ∃ r : ℝ, a.a18 i = (r : EReal)
  h19 : ∀ i, ∃ r : ℝ, a.a19 i = (r : EReal)
  h20 : ∀ i, ∃ r : ℝ, a.a20 i = (r : EReal)
  h21 : ∀ i, ∃ r : ℝ, a.a21 i = (r : EReal)
  h22 : ∀ i, ∃ r : ℝ, a.a22 i = (r : EReal)
  h23 : ∀ i, ∃ r : ℝ, a.a23 i = (r : EReal)

end Cert

end
-- ==== Proof.LibFiniteAll.lean ====
/-
  A precondition's "every entry is finite", read back at the extended reals.

  Such a conjunct is printed as the reduction by "and", over a whole array, of the entrywise test |x| < +∞, from the
  constant 1, and the claim says the result is 1. The word of +∞ denotes ⊤; the absolute value of x is max x (−x) and the
  comparison is the order's; so the test at an entry says x is neither infinity, that is a real number. A reduction by
  "and" into one result that came out 1 met a 1 at every entry.
-/
import Idealize.ShloMosaic.Lib.ReduceAll
import Idealize.ShloMosaic.Lib.ValueIdx
import Idealize.ShloMosaic.PureOps.Ideal.Laws

noncomputable section

namespace Cert.Lib.FiniteAll

open Idealize.ShloMosaic

instance : Subsingleton (⟨0, ![]⟩ : Shape).Idx := ⟨fun a b => funext fun d => d.elim0⟩

/-- The word of +∞ denotes ⊤. -/
theorem ofBits_inf : Ideal.ofBits .f32 0x7F800000#32 = ⊤ := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hc
    simp [Ideal.cmp, hc] at h
  induction x using EReal.rec with
  | bot => simp at hlt
  | top => simp at hlt
  | coe r => exact ⟨r, rfl⟩

/-- One conjunct of the precondition: the reduction by "and" of the entrywise test came out 1, so every entry of the
    array is a real number. -/
theorem real_of_all {S : Shape} {axes : List (Fin S.rank)} (x : FVec Ideal S .f32)
    (hb : (⟨0, ![]⟩ : Shape).BroadcastsInDim S (![] : Fin 0 → Fin S.rank)) (hr : S.ReducesTo axes (⟨0, ![]⟩ : Shape)) (h0 : 0 < (⟨0, ![]⟩ : Shape).numel)
    (h : Host.reduce IntOp.andi (cmpf .olt (Host.absf x) (broadcastInDim S ![] hb (constant (⟨0, ![]⟩ : Shape) .f32 0x7F800000#32)))
        (constantI (⟨0, ![]⟩ : Shape) 1 1#1) hr h0 ValueIdx.ix0 = 1#1) (i : S.Idx) : ∃ r : ℝ, x i = (r : EReal) :=
  real_of_abs_lt_inf (x i) (Host.reduce_andi_all _ _ hr h0 ValueIdx.ix0 h i)

end Cert.Lib.FiniteAll

end
-- ==== Proof.FinPre.lean ====
/-
  The precondition read back. It is the conjunction, over the 24 argument arrays, of "every entry has absolute value
  below +∞"; each conjunct is a reduction by "and" of the entrywise test, and the conjunction is a left-nested chain of
  "and"s whose value is 1. A chain of "and"s that is 1 has every member 1, and a member that is 1 makes every entry of its
  array a real number. So under the precondition every entry of every argument array is a real number.
-/
import proofs.«159567_g2000302752657622_pallasbulk_725_3_alg».proof.Defs
import proofs.«159567_g2000302752657622_pallasbulk_725_3_alg».proof.Proof.LibFiniteAll
import Idealize.ShloMosaic.Lib.ReduceAll
import Idealize.ShloMosaic.Lib.ValueIdx

noncomputable section

namespace Cert.FinPre

open Idealize.ShloMosaic Idealize.SL.Sem
open Cert.Pre_finite_inputs

/-- The last member of a chain of "and"s that is 1: the chain before it is 1, and every entry of its array is real. -/
theorem peel {S : Shape} {axes : List (Fin S.rank)} (u : IVec S_ 1) (x : FVec Ideal S .f32)
    (hb : S_.BroadcastsInDim S (![] : Fin 0 → Fin S.rank)) (hr : S.ReducesTo axes S_) (h0 : 0 < S_.numel)
    (h : andi u (Host.reduce IntOp.andi (cmpf .olt (Host.absf x) (broadcastInDim S ![] hb (constant S_ .f32 0x7F800000#32)))
        (constantI S_ 1 1#1) hr h0) ValueIdx.ix0 = 1#1) :
    u ValueIdx.ix0 = 1#1 ∧ ∀ i, ∃ r : ℝ, x i = (r : EReal) :=
  ⟨(IntOp.andi_eq_one.1 h).1, Cert.Lib.FiniteAll.real_of_all x hb hr h0 (IntOp.andi_eq_one.1 h).2⟩

/-- The whole conjunction, over variable arrays: if it is 1 then every entry of each of the 24 arrays is real. -/
theorem fn_real [Cert.Pre_finite_inputs.Facts]
    (a0 : FVec Ideal S64x128x32x32 .f32)
    (a1 : FVec Ideal S64x128 .f32)
    (a2 : FVec Ideal S256x64 .f32)
    (a3 : FVec Ideal S9x64x64 .f32)
    (a4 : FVec Ideal S4x1024 .f32)
    (a5 : FVec Ideal S64 .f32)
    (a6 : FVec Ideal S64 .f32)
    (a7 : FVec Ideal S64 .f32)
    (a8 : FVec Ideal S64 .f32)
    (a9 : FVec Ideal S256 .f32)
    (a10 : FVec Ideal S256 .f32)
    (a11 : FVec Ideal S256x128 .f32)
    (a12 : FVec Ideal S256 .f32)
    (a13 : FVec Ideal S256 .f32)
    (a14 : FVec Ideal S64x256 .f32)
    (a15 : FVec Ideal S256x64 .f32)
    (a16 : FVec Ideal S9x64x64 .f32)
    (a17 : FVec Ideal S9x4096 .f32)
    (a18 : FVec Ideal S64 .f32)
    (a19 : FVec Ideal S64 .f32)
    (a20 : FVec Ideal S64 .f32)
    (a21 : FVec Ideal S64 .f32)
    (a22 : FVec Ideal S256 .f32)
    (a23 : FVec Ideal S256 .f32)
    (h : fn (F := Ideal) a0 a1 a2 a3 a4 a5 a6 a7 a8 a9 a10 a11 a12 a13 a14 a15 a16 a17 a18 a19 a20 a21 a22 a23 ValueIdx.ix0 = 1#1) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) ∧
    (∀ i, ∃ r : ℝ, a15 i = (r : EReal)) ∧
    (∀ i, ∃ r : ℝ, a16 i = (r : EReal)) ∧
    (∀ i, ∃ r : ℝ, a17 i = (r : EReal)) ∧
    (∀ i, ∃ r : ℝ, a18 i = (r : EReal)) ∧
    (∀ i, ∃ r : ℝ, a19 i = (r : EReal)) ∧
    (∀ i, ∃ r : ℝ, a20 i = (r : EReal)) ∧
    (∀ i, ∃ r : ℝ, a21 i = (r : EReal)) ∧
    (∀ i, ∃ r : ℝ, a22 i = (r : EReal)) ∧
    (∀ i, ∃ r : ℝ, a23 i = (r : EReal)) := by
  dsimp only [fn, fn_part1, fn_part2, fn_part3, fn_part4, fn_part5, fn_part6] at h
  obtain ⟨h, r23⟩ := peel _ a23 _ _ _ h
  obtain ⟨h, r22⟩ := peel _ a22 _ _ _ h
  obtain ⟨h, r21⟩ := peel _ a21 _ _ _ h
  obtain ⟨h, r20⟩ := peel _ a20 _ _ _ h
  obtain ⟨h, r19⟩ := peel _ a19 _ _ _ h
  obtain ⟨h, r18⟩ := peel _ a18 _ _ _ h
  obtain ⟨h, r17⟩ := peel _ a17 _ _ _ h
  obtain ⟨h, r16⟩ := peel _ a16 _ _ _ h
  obtain ⟨h, r15⟩ := peel _ a15 _ _ _ h
  obtain ⟨h, r14⟩ := peel _ a14 _ _ _ h
  obtain ⟨h, r13⟩ := peel _ a13 _ _ _ h
  obtain ⟨h, r12⟩ := peel _ a12 _ _ _ h
  obtain ⟨h, r11⟩ := peel _ a11 _ _ _ h
  obtain ⟨h, r10⟩ := peel _ a10 _ _ _ h
  obtain ⟨h, r9⟩ := peel _ a9 _ _ _ h
  obtain ⟨h, r8⟩ := peel _ a8 _ _ _ h
  obtain ⟨h, r7⟩ := peel _ a7 _ _ _ h
  obtain ⟨h, r6⟩ := peel _ a6 _ _ _ h
  obtain ⟨h, r5⟩ := peel _ a5 _ _ _ h
  obtain ⟨h, r4⟩ := peel _ a4 _ _ _ h
  obtain ⟨h, r3⟩ := peel _ a3 _ _ _ h
  obtain ⟨h, r2⟩ := peel _ a2 _ _ _ h
  obtain ⟨h, r1⟩ := peel _ a1 _ _ _ h
  exact ⟨Cert.Lib.FiniteAll.real_of_all a0 _ _ _ h, r1, r2, r3, r4, r5, r6, r7, r8, r9, r10, r11, r12, r13, r14, r15, r16, r17, r18, r19, r20, r21, r22, r23⟩

/-- Under the precondition, on every core, every entry of each argument array is real. -/
theorem all_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg1) i = (r : EReal)) ∧
    (∀ i, ∃ r : ℝ, m ((c.tc : Thread Cert.KernelIdeal.nD Cert.KernelIdeal.τ).loc Cert.KernelIdeal.main_arg2) i = (r : EReal)) ∧
    (∀ i, ∃ r : ℝ, m ((c.tc : Thread Cert.KernelIdeal.nD Cert.KernelIdeal.τ).loc Cert.KernelIdeal.main_arg3) i = (r : EReal)) ∧
    (∀ i, ∃ r : ℝ, m ((c.tc : Thread Cert.KernelIdeal.nD Cert.KernelIdeal.τ).loc Cert.KernelIdeal.main_arg4) i = (r : EReal)) ∧
    (∀ i, ∃ r : ℝ, m ((c.tc : Thread Cert.KernelIdeal.nD Cert.KernelIdeal.τ).loc Cert.KernelIdeal.main_arg5) i = (r : EReal)) ∧
    (∀ i, ∃ r : ℝ, m ((c.tc : Thread Cert.KernelIdeal.nD Cert.KernelIdeal.τ).loc Cert.KernelIdeal.main_arg6) i = (r : EReal)) ∧
    (∀ i, ∃ r : ℝ, m ((c.tc : Thread Cert.KernelIdeal.nD Cert.KernelIdeal.τ).loc Cert.KernelIdeal.main_arg7) i = (r : EReal)) ∧
    (∀ i, ∃ r : ℝ, m ((c.tc : Thread Cert.KernelIdeal.nD Cert.KernelIdeal.τ).loc Cert.KernelIdeal.main_arg8) i = (r : EReal)) ∧
    (∀ i, ∃ r : ℝ, m ((c.tc : Thread Cert.KernelIdeal.nD Cert.KernelIdeal.τ).loc Cert.KernelIdeal.main_arg9) i = (r : EReal)) ∧
    (∀ i, ∃ r : ℝ, m ((c.tc : Thread Cert.KernelIdeal.nD Cert.KernelIdeal.τ).loc Cert.KernelIdeal.main_arg10) i = (r : EReal)) ∧
    (∀ i, ∃ r : ℝ, m ((c.tc : Thread Cert.KernelIdeal.nD Cert.KernelIdeal.τ).loc Cert.KernelIdeal.main_arg11) i = (r : EReal)) ∧
    (∀ i, ∃ r : ℝ, m ((c.tc : Thread Cert.KernelIdeal.nD Cert.KernelIdeal.τ).loc Cert.KernelIdeal.main_arg12) i = (r : EReal)) ∧
    (∀ i, ∃ r : ℝ, m ((c.tc : Thread Cert.KernelIdeal.nD Cert.KernelIdeal.τ).loc Cert.KernelIdeal.main_arg13) i = (r : EReal)) ∧
    (∀ i, ∃ r : ℝ, m ((c.tc : Thread Cert.KernelIdeal.nD Cert.KernelIdeal.τ).loc Cert.KernelIdeal.main_arg14) i = (r : EReal)) ∧
    (∀ i, ∃ r : ℝ, m ((c.tc : Thread Cert.KernelIdeal.nD Cert.KernelIdeal.τ).loc Cert.KernelIdeal.main_arg15) i = (r : EReal)) ∧
    (∀ i, ∃ r : ℝ, m ((c.tc : Thread Cert.KernelIdeal.nD Cert.KernelIdeal.τ).loc Cert.KernelIdeal.main_arg16) i = (r : EReal)) ∧
    (∀ i, ∃ r : ℝ, m ((c.tc : Thread Cert.KernelIdeal.nD Cert.KernelIdeal.τ).loc Cert.KernelIdeal.main_arg17) i = (r : EReal)) ∧
    (∀ i, ∃ r : ℝ, m ((c.tc : Thread Cert.KernelIdeal.nD Cert.KernelIdeal.τ).loc Cert.KernelIdeal.main_arg18) i = (r : EReal)) ∧
    (∀ i, ∃ r : ℝ, m ((c.tc : Thread Cert.KernelIdeal.nD Cert.KernelIdeal.τ).loc Cert.KernelIdeal.main_arg19) i = (r : EReal)) ∧
    (∀ i, ∃ r : ℝ, m ((c.tc : Thread Cert.KernelIdeal.nD Cert.KernelIdeal.τ).loc Cert.KernelIdeal.main_arg20) i = (r : EReal)) ∧
    (∀ i, ∃ r : ℝ, m ((c.tc : Thread Cert.KernelIdeal.nD Cert.KernelIdeal.τ).loc Cert.KernelIdeal.main_arg21) i = (r : EReal)) ∧
    (∀ i, ∃ r : ℝ, m ((c.tc : Thread Cert.KernelIdeal.nD Cert.KernelIdeal.τ).loc Cert.KernelIdeal.main_arg22) i = (r : EReal)) ∧
    (∀ i, ∃ r : ℝ, m ((c.tc : Thread Cert.KernelIdeal.nD Cert.KernelIdeal.τ).loc Cert.KernelIdeal.main_arg23) i = (r : EReal)) :=
  fn_real _ _ _ _ _ _ _ _ _ _ _ _ _ _ _ _ _ _ _ _ _ _ _ _ (congrFun (h c) ValueIdx.ix0)

theorem arg0_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (all_real m h c).1

theorem arg1_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (all_real m h c).2.1

theorem arg2_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (all_real m h c).2.2.1

theorem arg3_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (all_real m h c).2.2.2.1

theorem arg4_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (all_real m h c).2.2.2.2.1

theorem arg5_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (all_real m h c).2.2.2.2.2.1

theorem arg6_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (all_real m h c).2.2.2.2.2.2.1

theorem arg7_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (all_real m h c).2.2.2.2.2.2.2.1

theorem arg8_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (all_real m h c).2.2.2.2.2.2.2.2.1

theorem arg9_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (all_real m h c).2.2.2.2.2.2.2.2.2.1

theorem arg10_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (all_real m h c).2.2.2.2.2.2.2.2.2.2.1

theorem arg11_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (all_real m h c).2.2.2.2.2.2.2.2.2.2.2.1

theorem arg12_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) :=
  (all_real m h c).2.2.2.2.2.2.2.2.2.2.2.2.1

theorem arg13_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg13) i = (r : EReal) :=
  (all_real m h c).2.2.2.2.2.2.2.2.2.2.2.2.2.1

theorem arg14_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg14) i = (r : EReal) :=
  (all_real m h c).2.2.2.2.2.2.2.2.2.2.2.2.2.2.1

theorem arg15_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg15) i = (r : EReal) :=
  (all_real m h c).2.2.2.2.2.2.2.2.2.2.2.2.2.2.2.1

theorem arg16_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg16) i = (r : EReal) :=
  (all_real m h c).2.2.2.2.2.2.2.2.2.2.2.2.2.2.2.2.1

theorem arg17_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg17) i = (r : EReal) :=
  (all_real m h c).2.2.2.2.2.2.2.2.2.2.2.2.2.2.2.2.2.1

theorem arg18_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg18) i = (r : EReal) :=
  (all_real m h c).2.2.2.2.2.2.2.2.2.2.2.2.2.2.2.2.2.2.1

theorem arg19_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg19) i = (r : EReal) :=
  (all_real m h c).2.2.2.2.2.2.2.2.2.2.2.2.2.2.2.2.2.2.2.1

theorem arg20_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg20) i = (r : EReal) :=
  (all_real m h c).2.2.2.2.2.2.2.2.2.2.2.2.2.2.2.2.2.2.2.2.1

theorem arg21_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg21) i = (r : EReal) :=
  (all_real m h c).2.2.2.2.2.2.2.2.2.2.2.2.2.2.2.2.2.2.2.2.2.1

theorem arg22_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg22) i = (r : EReal) :=
  (all_real m h c).2.2.2.2.2.2.2.2.2.2.2.2.2.2.2.2.2.2.2.2.2.2.1

theorem arg23_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg23) i = (r : EReal) :=
  (all_real m h c).2.2.2.2.2.2.2.2.2.2.2.2.2.2.2.2.2.2.2.2.2.2.2

end Cert.FinPre

end
-- ==== Proof.ArgsOf.lean ====
/-
  The two programs' argument arrays on a core as one record of functions from a shape's indices to the extended
  reals; under the precondition every entry is a real number; and two launch memories that agree on the arguments give
  the same record.
-/
import proofs.«159567_g2000302752657622_pallasbulk_725_3_alg».proof.Defs
import proofs.«159567_g2000302752657622_pallasbulk_725_3_alg».proof.Proof.Args
import proofs.«159567_g2000302752657622_pallasbulk_725_3_alg».proof.Proof.FinPre

noncomputable section

namespace Cert.KernelIdeal.Val

open Idealize.ShloMosaic Idealize.SL.Sem

/-- The kernel program's arguments on core `c`, read off the launch memory. -/
def argsOf (m : (ℓ : Loc Cert.KernelIdeal.nD Cert.KernelIdeal.τ Cert.KernelIdeal.sig) → Buf (Elt Ideal) ℓ)
    (c : Dev Cert.KernelIdeal.nD) : Cert.Args where
  a0 := m ((c.tc : Thread Cert.KernelIdeal.nD Cert.KernelIdeal.τ).loc Cert.KernelIdeal.main_arg0)
  a1 := m ((c.tc : Thread Cert.KernelIdeal.nD Cert.KernelIdeal.τ).loc Cert.KernelIdeal.main_arg1)
  a2 := m ((c.tc : Thread Cert.KernelIdeal.nD Cert.KernelIdeal.τ).loc Cert.KernelIdeal.main_arg2)
  a3 := m ((c.tc : Thread Cert.KernelIdeal.nD Cert.KernelIdeal.τ).loc Cert.KernelIdeal.main_arg3)
  a4 := m ((c.tc : Thread Cert.KernelIdeal.nD Cert.KernelIdeal.τ).loc Cert.KernelIdeal.main_arg4)
  a5 := m ((c.tc : Thread Cert.KernelIdeal.nD Cert.KernelIdeal.τ).loc Cert.KernelIdeal.main_arg5)
  a6 := m ((c.tc : Thread Cert.KernelIdeal.nD Cert.KernelIdeal.τ).loc Cert.KernelIdeal.main_arg6)
  a7 := m ((c.tc : Thread Cert.KernelIdeal.nD Cert.KernelIdeal.τ).loc Cert.KernelIdeal.main_arg7)
  a8 := m ((c.tc : Thread Cert.KernelIdeal.nD Cert.KernelIdeal.τ).loc Cert.KernelIdeal.main_arg8)
  a9 := m ((c.tc : Thread Cert.KernelIdeal.nD Cert.KernelIdeal.τ).loc Cert.KernelIdeal.main_arg9)
  a10 := m ((c.tc : Thread Cert.KernelIdeal.nD Cert.KernelIdeal.τ).loc Cert.KernelIdeal.main_arg10)
  a11 := m ((c.tc : Thread Cert.KernelIdeal.nD Cert.KernelIdeal.τ).loc Cert.KernelIdeal.main_arg11)
  a12 := m ((c.tc : Thread Cert.KernelIdeal.nD Cert.KernelIdeal.τ).loc Cert.KernelIdeal.main_arg12)
  a13 := m ((c.tc : Thread Cert.KernelIdeal.nD Cert.KernelIdeal.τ).loc Cert.KernelIdeal.main_arg13)
  a14 := m ((c.tc : Thread Cert.KernelIdeal.nD Cert.KernelIdeal.τ).loc Cert.KernelIdeal.main_arg14)
  a15 := m ((c.tc : Thread Cert.KernelIdeal.nD Cert.KernelIdeal.τ).loc Cert.KernelIdeal.main_arg15)
  a16 := m ((c.tc : Thread Cert.KernelIdeal.nD Cert.KernelIdeal.τ).loc Cert.KernelIdeal.main_arg16)
  a17 := m ((c.tc : Thread Cert.KernelIdeal.nD Cert.KernelIdeal.τ).loc Cert.KernelIdeal.main_arg17)
  a18 := m ((c.tc : Thread Cert.KernelIdeal.nD Cert.KernelIdeal.τ).loc Cert.KernelIdeal.main_arg18)
  a19 := m ((c.tc : Thread Cert.KernelIdeal.nD Cert.KernelIdeal.τ).loc Cert.KernelIdeal.main_arg19)
  a20 := m ((c.tc : Thread Cert.KernelIdeal.nD Cert.KernelIdeal.τ).loc Cert.KernelIdeal.main_arg20)
  a21 := m ((c.tc : Thread Cert.KernelIdeal.nD Cert.KernelIdeal.τ).loc Cert.KernelIdeal.main_arg21)
  a22 := m ((c.tc : Thread Cert.KernelIdeal.nD Cert.KernelIdeal.τ).loc Cert.KernelIdeal.main_arg22)
  a23 := m ((c.tc : Thread Cert.KernelIdeal.nD Cert.KernelIdeal.τ).loc Cert.KernelIdeal.main_arg23)

/-- Each field is the argument's buffer. -/
theorem argsOf_a0 (m : (ℓ : Loc Cert.KernelIdeal.nD Cert.KernelIdeal.τ Cert.KernelIdeal.sig) → Buf (Elt Ideal) ℓ) (c : Dev Cert.KernelIdeal.nD) :
    (argsOf m c).a0 = m ((c.tc : Thread Cert.KernelIdeal.nD Cert.KernelIdeal.τ).loc Cert.KernelIdeal.main_arg0) := rfl
theorem argsOf_a1 (m : (ℓ : Loc Cert.KernelIdeal.nD Cert.KernelIdeal.τ Cert.KernelIdeal.sig) → Buf (Elt Ideal) ℓ) (c : Dev Cert.KernelIdeal.nD) :
    (argsOf m c).a1 = m ((c.tc : Thread Cert.KernelIdeal.nD Cert.KernelIdeal.τ).loc Cert.KernelIdeal.main_arg1) := rfl
theorem argsOf_a2 (m : (ℓ : Loc Cert.KernelIdeal.nD Cert.KernelIdeal.τ Cert.KernelIdeal.sig) → Buf (Elt Ideal) ℓ) (c : Dev Cert.KernelIdeal.nD) :
    (argsOf m c).a2 = m ((c.tc : Thread Cert.KernelIdeal.nD Cert.KernelIdeal.τ).loc Cert.KernelIdeal.main_arg2) := rfl
theorem argsOf_a3 (m : (ℓ : Loc Cert.KernelIdeal.nD Cert.KernelIdeal.τ Cert.KernelIdeal.sig) → Buf (Elt Ideal) ℓ) (c : Dev Cert.KernelIdeal.nD) :
    (argsOf m c).a3 = m ((c.tc : Thread Cert.KernelIdeal.nD Cert.KernelIdeal.τ).loc Cert.KernelIdeal.main_arg3) := rfl
theorem argsOf_a4 (m : (ℓ : Loc Cert.KernelIdeal.nD Cert.KernelIdeal.τ Cert.KernelIdeal.sig) → Buf (Elt Ideal) ℓ) (c : Dev Cert.KernelIdeal.nD) :
    (argsOf m c).a4 = m ((c.tc : Thread Cert.KernelIdeal.nD Cert.KernelIdeal.τ).loc Cert.KernelIdeal.main_arg4) := rfl
theorem argsOf_a5 (m : (ℓ : Loc Cert.KernelIdeal.nD Cert.KernelIdeal.τ Cert.KernelIdeal.sig) → Buf (Elt Ideal) ℓ) (c : Dev Cert.KernelIdeal.nD) :
    (argsOf m c).a5 = m ((c.tc : Thread Cert.KernelIdeal.nD Cert.KernelIdeal.τ).loc Cert.KernelIdeal.main_arg5) := rfl
theorem argsOf_a6 (m : (ℓ : Loc Cert.KernelIdeal.nD Cert.KernelIdeal.τ Cert.KernelIdeal.sig) → Buf (Elt Ideal) ℓ) (c : Dev Cert.KernelIdeal.nD) :
    (argsOf m c).a6 = m ((c.tc : Thread Cert.KernelIdeal.nD Cert.KernelIdeal.τ).loc Cert.KernelIdeal.main_arg6) := rfl
theorem argsOf_a7 (m : (ℓ : Loc Cert.KernelIdeal.nD Cert.KernelIdeal.τ Cert.KernelIdeal.sig) → Buf (Elt Ideal) ℓ) (c : Dev Cert.KernelIdeal.nD) :
    (argsOf m c).a7 = m ((c.tc : Thread Cert.KernelIdeal.nD Cert.KernelIdeal.τ).loc Cert.KernelIdeal.main_arg7) := rfl
theorem argsOf_a8 (m : (ℓ : Loc Cert.KernelIdeal.nD Cert.KernelIdeal.τ Cert.KernelIdeal.sig) → Buf (Elt Ideal) ℓ) (c : Dev Cert.KernelIdeal.nD) :
    (argsOf m c).a8 = m ((c.tc : Thread Cert.KernelIdeal.nD Cert.KernelIdeal.τ).loc Cert.KernelIdeal.main_arg8) := rfl
theorem argsOf_a9 (m : (ℓ : Loc Cert.KernelIdeal.nD Cert.KernelIdeal.τ Cert.KernelIdeal.sig) → Buf (Elt Ideal) ℓ) (c : Dev Cert.KernelIdeal.nD) :
    (argsOf m c).a9 = m ((c.tc : Thread Cert.KernelIdeal.nD Cert.KernelIdeal.τ).loc Cert.KernelIdeal.main_arg9) := rfl
theorem argsOf_a10 (m : (ℓ : Loc Cert.KernelIdeal.nD Cert.KernelIdeal.τ Cert.KernelIdeal.sig) → Buf (Elt Ideal) ℓ) (c : Dev Cert.KernelIdeal.nD) :
    (argsOf m c).a10 = m ((c.tc : Thread Cert.KernelIdeal.nD Cert.KernelIdeal.τ).loc Cert.KernelIdeal.main_arg10) := rfl
theorem argsOf_a11 (m : (ℓ : Loc Cert.KernelIdeal.nD Cert.KernelIdeal.τ Cert.KernelIdeal.sig) → Buf (Elt Ideal) ℓ) (c : Dev Cert.KernelIdeal.nD) :
    (argsOf m c).a11 = m ((c.tc : Thread Cert.KernelIdeal.nD Cert.KernelIdeal.τ).loc Cert.KernelIdeal.main_arg11) := rfl
theorem argsOf_a12 (m : (ℓ : Loc Cert.KernelIdeal.nD Cert.KernelIdeal.τ Cert.KernelIdeal.sig) → Buf (Elt Ideal) ℓ) (c : Dev Cert.KernelIdeal.nD) :
    (argsOf m c).a12 = m ((c.tc : Thread Cert.KernelIdeal.nD Cert.KernelIdeal.τ).loc Cert.KernelIdeal.main_arg12) := rfl
theorem argsOf_a13 (m : (ℓ : Loc Cert.KernelIdeal.nD Cert.KernelIdeal.τ Cert.KernelIdeal.sig) → Buf (Elt Ideal) ℓ) (c : Dev Cert.KernelIdeal.nD) :
    (argsOf m c).a13 = m ((c.tc : Thread Cert.KernelIdeal.nD Cert.KernelIdeal.τ).loc Cert.KernelIdeal.main_arg13) := rfl
theorem argsOf_a14 (m : (ℓ : Loc Cert.KernelIdeal.nD Cert.KernelIdeal.τ Cert.KernelIdeal.sig) → Buf (Elt Ideal) ℓ) (c : Dev Cert.KernelIdeal.nD) :
    (argsOf m c).a14 = m ((c.tc : Thread Cert.KernelIdeal.nD Cert.KernelIdeal.τ).loc Cert.KernelIdeal.main_arg14) := rfl
theorem argsOf_a15 (m : (ℓ : Loc Cert.KernelIdeal.nD Cert.KernelIdeal.τ Cert.KernelIdeal.sig) → Buf (Elt Ideal) ℓ) (c : Dev Cert.KernelIdeal.nD) :
    (argsOf m c).a15 = m ((c.tc : Thread Cert.KernelIdeal.nD Cert.KernelIdeal.τ).loc Cert.KernelIdeal.main_arg15) := rfl
theorem argsOf_a16 (m : (ℓ : Loc Cert.KernelIdeal.nD Cert.KernelIdeal.τ Cert.KernelIdeal.sig) → Buf (Elt Ideal) ℓ) (c : Dev Cert.KernelIdeal.nD) :
    (argsOf m c).a16 = m ((c.tc : Thread Cert.KernelIdeal.nD Cert.KernelIdeal.τ).loc Cert.KernelIdeal.main_arg16) := rfl
theorem argsOf_a17 (m : (ℓ : Loc Cert.KernelIdeal.nD Cert.KernelIdeal.τ Cert.KernelIdeal.sig) → Buf (Elt Ideal) ℓ) (c : Dev Cert.KernelIdeal.nD) :
    (argsOf m c).a17 = m ((c.tc : Thread Cert.KernelIdeal.nD Cert.KernelIdeal.τ).loc Cert.KernelIdeal.main_arg17) := rfl
theorem argsOf_a18 (m : (ℓ : Loc Cert.KernelIdeal.nD Cert.KernelIdeal.τ Cert.KernelIdeal.sig) → Buf (Elt Ideal) ℓ) (c : Dev Cert.KernelIdeal.nD) :
    (argsOf m c).a18 = m ((c.tc : Thread Cert.KernelIdeal.nD Cert.KernelIdeal.τ).loc Cert.KernelIdeal.main_arg18) := rfl
theorem argsOf_a19 (m : (ℓ : Loc Cert.KernelIdeal.nD Cert.KernelIdeal.τ Cert.KernelIdeal.sig) → Buf (Elt Ideal) ℓ) (c : Dev Cert.KernelIdeal.nD) :
    (argsOf m c).a19 = m ((c.tc : Thread Cert.KernelIdeal.nD Cert.KernelIdeal.τ).loc Cert.KernelIdeal.main_arg19) := rfl
theorem argsOf_a20 (m : (ℓ : Loc Cert.KernelIdeal.nD Cert.KernelIdeal.τ Cert.KernelIdeal.sig) → Buf (Elt Ideal) ℓ) (c : Dev Cert.KernelIdeal.nD) :
    (argsOf m c).a20 = m ((c.tc : Thread Cert.KernelIdeal.nD Cert.KernelIdeal.τ).loc Cert.KernelIdeal.main_arg20) := rfl
theorem argsOf_a21 (m : (ℓ : Loc Cert.KernelIdeal.nD Cert.KernelIdeal.τ Cert.KernelIdeal.sig) → Buf (Elt Ideal) ℓ) (c : Dev Cert.KernelIdeal.nD) :
    (argsOf m c).a21 = m ((c.tc : Thread Cert.KernelIdeal.nD Cert.KernelIdeal.τ).loc Cert.KernelIdeal.main_arg21) := rfl
theorem argsOf_a22 (m : (ℓ : Loc Cert.KernelIdeal.nD Cert.KernelIdeal.τ Cert.KernelIdeal.sig) → Buf (Elt Ideal) ℓ) (c : Dev Cert.KernelIdeal.nD) :
    (argsOf m c).a22 = m ((c.tc : Thread Cert.KernelIdeal.nD Cert.KernelIdeal.τ).loc Cert.KernelIdeal.main_arg22) := rfl
theorem argsOf_a23 (m : (ℓ : Loc Cert.KernelIdeal.nD Cert.KernelIdeal.τ Cert.KernelIdeal.sig) → Buf (Elt Ideal) ℓ) (c : Dev Cert.KernelIdeal.nD) :
    (argsOf m c).a23 = m ((c.tc : Thread Cert.KernelIdeal.nD Cert.KernelIdeal.τ).loc Cert.KernelIdeal.main_arg23) := rfl

/-- Under the precondition every entry of every argument is a real number. -/
theorem argsOf_allReal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (argsOf m c).AllReal where
  h0 := Cert.FinPre.arg0_real m h c
  h1 := Cert.FinPre.arg1_real m h c
  h2 := Cert.FinPre.arg2_real m h c
  h3 := Cert.FinPre.arg3_real m h c
  h4 := Cert.FinPre.arg4_real m h c
  h5 := Cert.FinPre.arg5_real m h c
  h6 := Cert.FinPre.arg6_real m h c
  h7 := Cert.FinPre.arg7_real m h c
  h8 := Cert.FinPre.arg8_real m h c
  h9 := Cert.FinPre.arg9_real m h c
  h10 := Cert.FinPre.arg10_real m h c
  h11 := Cert.FinPre.arg11_real m h c
  h12 := Cert.FinPre.arg12_real m h c
  h13 := Cert.FinPre.arg13_real m h c
  h14 := Cert.FinPre.arg14_real m h c
  h15 := Cert.FinPre.arg15_real m h c
  h16 := Cert.FinPre.arg16_real m h c
  h17 := Cert.FinPre.arg17_real m h c
  h18 := Cert.FinPre.arg18_real m h c
  h19 := Cert.FinPre.arg19_real m h c
  h20 := Cert.FinPre.arg20_real m h c
  h21 := Cert.FinPre.arg21_real m h c
  h22 := Cert.FinPre.arg22_real m h c
  h23 := Cert.FinPre.arg23_real m h c

end Cert.KernelIdeal.Val

namespace Cert.ReferenceIdeal.Val

open Idealize.ShloMosaic Idealize.SL.Sem

/-- The reference program's arguments on core `c`, read off the launch memory. -/
def argsOf (m' : (ℓ : Loc Cert.ReferenceIdeal.nD Cert.ReferenceIdeal.τ Cert.ReferenceIdeal.sig) → Buf (Elt Ideal) ℓ)
    (c : Dev Cert.ReferenceIdeal.nD) : Cert.Args where
  a0 := m' ((c.tc : Thread Cert.ReferenceIdeal.nD Cert.ReferenceIdeal.τ).loc Cert.ReferenceIdeal.main_arg0)
  a1 := m' ((c.tc : Thread Cert.ReferenceIdeal.nD Cert.ReferenceIdeal.τ).loc Cert.ReferenceIdeal.main_arg1)
  a2 := m' ((c.tc : Thread Cert.ReferenceIdeal.nD Cert.ReferenceIdeal.τ).loc Cert.ReferenceIdeal.main_arg2)
  a3 := m' ((c.tc : Thread Cert.ReferenceIdeal.nD Cert.ReferenceIdeal.τ).loc Cert.ReferenceIdeal.main_arg3)
  a4 := m' ((c.tc : Thread Cert.ReferenceIdeal.nD Cert.ReferenceIdeal.τ).loc Cert.ReferenceIdeal.main_arg4)
  a5 := m' ((c.tc : Thread Cert.ReferenceIdeal.nD Cert.ReferenceIdeal.τ).loc Cert.ReferenceIdeal.main_arg5)
  a6 := m' ((c.tc : Thread Cert.ReferenceIdeal.nD Cert.ReferenceIdeal.τ).loc Cert.ReferenceIdeal.main_arg6)
  a7 := m' ((c.tc : Thread Cert.ReferenceIdeal.nD Cert.ReferenceIdeal.τ).loc Cert.ReferenceIdeal.main_arg7)
  a8 := m' ((c.tc : Thread Cert.ReferenceIdeal.nD Cert.ReferenceIdeal.τ).loc Cert.ReferenceIdeal.main_arg8)
  a9 := m' ((c.tc : Thread Cert.ReferenceIdeal.nD Cert.ReferenceIdeal.τ).loc Cert.ReferenceIdeal.main_arg9)
  a10 := m' ((c.tc : Thread Cert.ReferenceIdeal.nD Cert.ReferenceIdeal.τ).loc Cert.ReferenceIdeal.main_arg10)
  a11 := m' ((c.tc : Thread Cert.ReferenceIdeal.nD Cert.ReferenceIdeal.τ).loc Cert.ReferenceIdeal.main_arg11)
  a12 := m' ((c.tc : Thread Cert.ReferenceIdeal.nD Cert.ReferenceIdeal.τ).loc Cert.ReferenceIdeal.main_arg12)
  a13 := m' ((c.tc : Thread Cert.ReferenceIdeal.nD Cert.ReferenceIdeal.τ).loc Cert.ReferenceIdeal.main_arg13)
  a14 := m' ((c.tc : Thread Cert.ReferenceIdeal.nD Cert.ReferenceIdeal.τ).loc Cert.ReferenceIdeal.main_arg14)
  a15 := m' ((c.tc : Thread Cert.ReferenceIdeal.nD Cert.ReferenceIdeal.τ).loc Cert.ReferenceIdeal.main_arg15)
  a16 := m' ((c.tc : Thread Cert.ReferenceIdeal.nD Cert.ReferenceIdeal.τ).loc Cert.ReferenceIdeal.main_arg16)
  a17 := m' ((c.tc : Thread Cert.ReferenceIdeal.nD Cert.ReferenceIdeal.τ).loc Cert.ReferenceIdeal.main_arg17)
  a18 := m' ((c.tc : Thread Cert.ReferenceIdeal.nD Cert.ReferenceIdeal.τ).loc Cert.ReferenceIdeal.main_arg18)
  a19 := m' ((c.tc : Thread Cert.ReferenceIdeal.nD Cert.ReferenceIdeal.τ).loc Cert.ReferenceIdeal.main_arg19)
  a20 := m' ((c.tc : Thread Cert.ReferenceIdeal.nD Cert.ReferenceIdeal.τ).loc Cert.ReferenceIdeal.main_arg20)
  a21 := m' ((c.tc : Thread Cert.ReferenceIdeal.nD Cert.ReferenceIdeal.τ).loc Cert.ReferenceIdeal.main_arg21)
  a22 := m' ((c.tc : Thread Cert.ReferenceIdeal.nD Cert.ReferenceIdeal.τ).loc Cert.ReferenceIdeal.main_arg22)
  a23 := m' ((c.tc : Thread Cert.ReferenceIdeal.nD Cert.ReferenceIdeal.τ).loc Cert.ReferenceIdeal.main_arg23)

/-- Each field is the argument's buffer. -/
theorem argsOf_a0 (m' : (ℓ : Loc Cert.ReferenceIdeal.nD Cert.ReferenceIdeal.τ Cert.ReferenceIdeal.sig) → Buf (Elt Ideal) ℓ) (c : Dev Cert.ReferenceIdeal.nD) :
    (argsOf m' c).a0 = m' ((c.tc : Thread Cert.ReferenceIdeal.nD Cert.ReferenceIdeal.τ).loc Cert.ReferenceIdeal.main_arg0) := rfl
theorem argsOf_a1 (m' : (ℓ : Loc Cert.ReferenceIdeal.nD Cert.ReferenceIdeal.τ Cert.ReferenceIdeal.sig) → Buf (Elt Ideal) ℓ) (c : Dev Cert.ReferenceIdeal.nD) :
    (argsOf m' c).a1 = m' ((c.tc : Thread Cert.ReferenceIdeal.nD Cert.ReferenceIdeal.τ).loc Cert.ReferenceIdeal.main_arg1) := rfl
theorem argsOf_a2 (m' : (ℓ : Loc Cert.ReferenceIdeal.nD Cert.ReferenceIdeal.τ Cert.ReferenceIdeal.sig) → Buf (Elt Ideal) ℓ) (c : Dev Cert.ReferenceIdeal.nD) :
    (argsOf m' c).a2 = m' ((c.tc : Thread Cert.ReferenceIdeal.nD Cert.ReferenceIdeal.τ).loc Cert.ReferenceIdeal.main_arg2) := rfl
theorem argsOf_a3 (m' : (ℓ : Loc Cert.ReferenceIdeal.nD Cert.ReferenceIdeal.τ Cert.ReferenceIdeal.sig) → Buf (Elt Ideal) ℓ) (c : Dev Cert.ReferenceIdeal.nD) :
    (argsOf m' c).a3 = m' ((c.tc : Thread Cert.ReferenceIdeal.nD Cert.ReferenceIdeal.τ).loc Cert.ReferenceIdeal.main_arg3) := rfl
theorem argsOf_a4 (m' : (ℓ : Loc Cert.ReferenceIdeal.nD Cert.ReferenceIdeal.τ Cert.ReferenceIdeal.sig) → Buf (Elt Ideal) ℓ) (c : Dev Cert.ReferenceIdeal.nD) :
    (argsOf m' c).a4 = m' ((c.tc : Thread Cert.ReferenceIdeal.nD Cert.ReferenceIdeal.τ).loc Cert.ReferenceIdeal.main_arg4) := rfl
theorem argsOf_a5 (m' : (ℓ : Loc Cert.ReferenceIdeal.nD Cert.ReferenceIdeal.τ Cert.ReferenceIdeal.sig) → Buf (Elt Ideal) ℓ) (c : Dev Cert.ReferenceIdeal.nD) :
    (argsOf m' c).a5 = m' ((c.tc : Thread Cert.ReferenceIdeal.nD Cert.ReferenceIdeal.τ).loc Cert.ReferenceIdeal.main_arg5) := rfl
theorem argsOf_a6 (m' : (ℓ : Loc Cert.ReferenceIdeal.nD Cert.ReferenceIdeal.τ Cert.ReferenceIdeal.sig) → Buf (Elt Ideal) ℓ) (c : Dev Cert.ReferenceIdeal.nD) :
    (argsOf m' c).a6 = m' ((c.tc : Thread Cert.ReferenceIdeal.nD Cert.ReferenceIdeal.τ).loc Cert.ReferenceIdeal.main_arg6) := rfl
theorem argsOf_a7 (m' : (ℓ : Loc Cert.ReferenceIdeal.nD Cert.ReferenceIdeal.τ Cert.ReferenceIdeal.sig) → Buf (Elt Ideal) ℓ) (c : Dev Cert.ReferenceIdeal.nD) :
    (argsOf m' c).a7 = m' ((c.tc : Thread Cert.ReferenceIdeal.nD Cert.ReferenceIdeal.τ).loc Cert.ReferenceIdeal.main_arg7) := rfl
theorem argsOf_a8 (m' : (ℓ : Loc Cert.ReferenceIdeal.nD Cert.ReferenceIdeal.τ Cert.ReferenceIdeal.sig) → Buf (Elt Ideal) ℓ) (c : Dev Cert.ReferenceIdeal.nD) :
    (argsOf m' c).a8 = m' ((c.tc : Thread Cert.ReferenceIdeal.nD Cert.ReferenceIdeal.τ).loc Cert.ReferenceIdeal.main_arg8) := rfl
theorem argsOf_a9 (m' : (ℓ : Loc Cert.ReferenceIdeal.nD Cert.ReferenceIdeal.τ Cert.ReferenceIdeal.sig) → Buf (Elt Ideal) ℓ) (c : Dev Cert.ReferenceIdeal.nD) :
    (argsOf m' c).a9 = m' ((c.tc : Thread Cert.ReferenceIdeal.nD Cert.ReferenceIdeal.τ).loc Cert.ReferenceIdeal.main_arg9) := rfl
theorem argsOf_a10 (m' : (ℓ : Loc Cert.ReferenceIdeal.nD Cert.ReferenceIdeal.τ Cert.ReferenceIdeal.sig) → Buf (Elt Ideal) ℓ) (c : Dev Cert.ReferenceIdeal.nD) :
    (argsOf m' c).a10 = m' ((c.tc : Thread Cert.ReferenceIdeal.nD Cert.ReferenceIdeal.τ).loc Cert.ReferenceIdeal.main_arg10) := rfl
theorem argsOf_a11 (m' : (ℓ : Loc Cert.ReferenceIdeal.nD Cert.ReferenceIdeal.τ Cert.ReferenceIdeal.sig) → Buf (Elt Ideal) ℓ) (c : Dev Cert.ReferenceIdeal.nD) :
    (argsOf m' c).a11 = m' ((c.tc : Thread Cert.ReferenceIdeal.nD Cert.ReferenceIdeal.τ).loc Cert.ReferenceIdeal.main_arg11) := rfl
theorem argsOf_a12 (m' : (ℓ : Loc Cert.ReferenceIdeal.nD Cert.ReferenceIdeal.τ Cert.ReferenceIdeal.sig) → Buf (Elt Ideal) ℓ) (c : Dev Cert.ReferenceIdeal.nD) :
    (argsOf m' c).a12 = m' ((c.tc : Thread Cert.ReferenceIdeal.nD Cert.ReferenceIdeal.τ).loc Cert.ReferenceIdeal.main_arg12) := rfl
theorem argsOf_a13 (m' : (ℓ : Loc Cert.ReferenceIdeal.nD Cert.ReferenceIdeal.τ Cert.ReferenceIdeal.sig) → Buf (Elt Ideal) ℓ) (c : Dev Cert.ReferenceIdeal.nD) :
    (argsOf m' c).a13 = m' ((c.tc : Thread Cert.ReferenceIdeal.nD Cert.ReferenceIdeal.τ).loc Cert.ReferenceIdeal.main_arg13) := rfl
theorem argsOf_a14 (m' : (ℓ : Loc Cert.ReferenceIdeal.nD Cert.ReferenceIdeal.τ Cert.ReferenceIdeal.sig) → Buf (Elt Ideal) ℓ) (c : Dev Cert.ReferenceIdeal.nD) :
    (argsOf m' c).a14 = m' ((c.tc : Thread Cert.ReferenceIdeal.nD Cert.ReferenceIdeal.τ).loc Cert.ReferenceIdeal.main_arg14) := rfl
theorem argsOf_a15 (m' : (ℓ : Loc Cert.ReferenceIdeal.nD Cert.ReferenceIdeal.τ Cert.ReferenceIdeal.sig) → Buf (Elt Ideal) ℓ) (c : Dev Cert.ReferenceIdeal.nD) :
    (argsOf m' c).a15 = m' ((c.tc : Thread Cert.ReferenceIdeal.nD Cert.ReferenceIdeal.τ).loc Cert.ReferenceIdeal.main_arg15) := rfl
theorem argsOf_a16 (m' : (ℓ : Loc Cert.ReferenceIdeal.nD Cert.ReferenceIdeal.τ Cert.ReferenceIdeal.sig) → Buf (Elt Ideal) ℓ) (c : Dev Cert.ReferenceIdeal.nD) :
    (argsOf m' c).a16 = m' ((c.tc : Thread Cert.ReferenceIdeal.nD Cert.ReferenceIdeal.τ).loc Cert.ReferenceIdeal.main_arg16) := rfl
theorem argsOf_a17 (m' : (ℓ : Loc Cert.ReferenceIdeal.nD Cert.ReferenceIdeal.τ Cert.ReferenceIdeal.sig) → Buf (Elt Ideal) ℓ) (c : Dev Cert.ReferenceIdeal.nD) :
    (argsOf m' c).a17 = m' ((c.tc : Thread Cert.ReferenceIdeal.nD Cert.ReferenceIdeal.τ).loc Cert.ReferenceIdeal.main_arg17) := rfl
theorem argsOf_a18 (m' : (ℓ : Loc Cert.ReferenceIdeal.nD Cert.ReferenceIdeal.τ Cert.ReferenceIdeal.sig) → Buf (Elt Ideal) ℓ) (c : Dev Cert.ReferenceIdeal.nD) :
    (argsOf m' c).a18 = m' ((c.tc : Thread Cert.ReferenceIdeal.nD Cert.ReferenceIdeal.τ).loc Cert.ReferenceIdeal.main_arg18) := rfl
theorem argsOf_a19 (m' : (ℓ : Loc Cert.ReferenceIdeal.nD Cert.ReferenceIdeal.τ Cert.ReferenceIdeal.sig) → Buf (Elt Ideal) ℓ) (c : Dev Cert.ReferenceIdeal.nD) :
    (argsOf m' c).a19 = m' ((c.tc : Thread Cert.ReferenceIdeal.nD Cert.ReferenceIdeal.τ).loc Cert.ReferenceIdeal.main_arg19) := rfl
theorem argsOf_a20 (m' : (ℓ : Loc Cert.ReferenceIdeal.nD Cert.ReferenceIdeal.τ Cert.ReferenceIdeal.sig) → Buf (Elt Ideal) ℓ) (c : Dev Cert.ReferenceIdeal.nD) :
    (argsOf m' c).a20 = m' ((c.tc : Thread Cert.ReferenceIdeal.nD Cert.ReferenceIdeal.τ).loc Cert.ReferenceIdeal.main_arg20) := rfl
theorem argsOf_a21 (m' : (ℓ : Loc Cert.ReferenceIdeal.nD Cert.ReferenceIdeal.τ Cert.ReferenceIdeal.sig) → Buf (Elt Ideal) ℓ) (c : Dev Cert.ReferenceIdeal.nD) :
    (argsOf m' c).a21 = m' ((c.tc : Thread Cert.ReferenceIdeal.nD Cert.ReferenceIdeal.τ).loc Cert.ReferenceIdeal.main_arg21) := rfl
theorem argsOf_a22 (m' : (ℓ : Loc Cert.ReferenceIdeal.nD Cert.ReferenceIdeal.τ Cert.ReferenceIdeal.sig) → Buf (Elt Ideal) ℓ) (c : Dev Cert.ReferenceIdeal.nD) :
    (argsOf m' c).a22 = m' ((c.tc : Thread Cert.ReferenceIdeal.nD Cert.ReferenceIdeal.τ).loc Cert.ReferenceIdeal.main_arg22) := rfl
theorem argsOf_a23 (m' : (ℓ : Loc Cert.ReferenceIdeal.nD Cert.ReferenceIdeal.τ Cert.ReferenceIdeal.sig) → Buf (Elt Ideal) ℓ) (c : Dev Cert.ReferenceIdeal.nD) :
    (argsOf m' c).a23 = m' ((c.tc : Thread Cert.ReferenceIdeal.nD Cert.ReferenceIdeal.τ).loc Cert.ReferenceIdeal.main_arg23) := rfl

end Cert.ReferenceIdeal.Val

namespace Cert.Bridge

open Idealize.ShloMosaic Idealize.SL.Sem

/-- Launch memories that agree on the arguments give the same record. -/
theorem argsOf_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.Val.argsOf m' c = Cert.KernelIdeal.Val.argsOf m c := by
  obtain ⟨e0, e1, e2, e3, e4, e5, e6, e7, e8, e9, e10, e11, e12, e13, e14, e15, e16, e17, e18, e19, e20, e21, e22, e23⟩ := h
  unfold Cert.ReferenceIdeal.Val.argsOf Cert.KernelIdeal.Val.argsOf
  rw [e0, e1, e2, e3, e4, e5, e6, e7, e8, e9, e10, e11, e12, e13, e14, e15, e16, e17, e18, e19, e20, e21, e22, e23]

end Cert.Bridge

end
-- ==== Proof.KerWire1.lean ====
import proofs.«159567_g2000302752657622_pallasbulk_725_3_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe

variable {F : FTy → Type} [FloatOps F]

/-! # Buffers a host stretch leaves alone

Each host stretch is a list of operations, and each operation writes one buffer, its result. The contents after the
stretch are the fold of the operations over the contents before, so a buffer that is the result of none of them holds
after the stretch what it held before. The statements below are over an arbitrary valuation `W` of the buffers; each
is proved by going through the stretch's operations and telling the buffer apart from each result. -/

/-! ## The first host stretch -/

/-- The first host stretch does not write `main_arg4`. -/
theorem keep0_arg4 (W : Valuation τ sig (Elt F)) :
    StableHlo.after (hostOps0 (F := F)) W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first host stretch does not write `main_arg17`. -/
theorem keep0_arg17 (W : Valuation τ sig (Elt F)) :
    StableHlo.after (hostOps0 (F := F)) W (Proc.devRef .tc main_arg17) = W (Proc.devRef .tc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The second host stretch -/

/-- The second host stretch does not write `main_v65_0`. -/
theorem keep1_v65_0 (W : Valuation τ sig (Elt F)) :
    StableHlo.after (hostOps1 (F := F)) W (Proc.devRef .tc main_v65_0) = W (Proc.devRef .tc main_v65_0) :=
  StableHlo.after_of_forall_not_mem (b := Proc.devRef .tc main_v65_0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second host stretch does not write `main_v58`. -/
theorem keep1_v58 (W : Valuation τ sig (Elt F)) :
    StableHlo.after (hostOps1 (F := F)) W (Proc.devRef .tc main_v58) = W (Proc.devRef .tc main_v58) :=
  StableHlo.after_of_forall_not_mem (b := Proc.devRef .tc main_v58) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second host stretch does not write `main_arg4`. -/
theorem keep1_arg4 (W : Valuation τ sig (Elt F)) :
    StableHlo.after (hostOps1 (F := F)) W (Proc.devRef .tc main_arg4) = W (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second host stretch does not write `main_v65_1`. -/
theorem keep1_v65_1 (W : Valuation τ sig (Elt F)) :
    StableHlo.after (hostOps1 (F := F)) W (Proc.devRef .tc main_v65_1) = W (Proc.devRef .tc main_v65_1) :=
  StableHlo.after_of_forall_not_mem (b := Proc.devRef .tc main_v65_1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second host stretch does not write `main_v59`. -/
theorem keep1_v59 (W : Valuation τ sig (Elt F)) :
    StableHlo.after (hostOps1 (F := F)) W (Proc.devRef .tc main_v59) = W (Proc.devRef .tc main_v59) :=
  StableHlo.after_of_forall_not_mem (b := Proc.devRef .tc main_v59) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second host stretch does not write `main_v60`. -/
theorem keep1_v60 (W : Valuation τ sig (Elt F)) :
    StableHlo.after (hostOps1 (F := F)) W (Proc.devRef .tc main_v60) = W (Proc.devRef .tc main_v60) :=
  StableHlo.after_of_forall_not_mem (b := Proc.devRef .tc main_v60) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second host stretch does not write `main_v63`. -/
theorem keep1_v63 (W : Valuation τ sig (Elt F)) :
    StableHlo.after (hostOps1 (F := F)) W (Proc.devRef .tc main_v63) = W (Proc.devRef .tc main_v63) :=
  StableHlo.after_of_forall_not_mem (b := Proc.devRef .tc main_v63) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second host stretch does not write `main_arg17`. -/
theorem keep1_arg17 (W : Valuation τ sig (Elt F)) :
    StableHlo.after (hostOps1 (F := F)) W (Proc.devRef .tc main_arg17) = W (Proc.devRef .tc main_arg17) :=
  StableHlo.after_of_forall_not_mem (b := Proc.devRef .tc main_arg17) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second host stretch does not write `main_v64`. -/
theorem keep1_v64 (W : Valuation τ sig (Elt F)) :
    StableHlo.after (hostOps1 (F := F)) W (Proc.devRef .tc main_v64) = W (Proc.devRef .tc main_v64) :=
  StableHlo.after_of_forall_not_mem (b := Proc.devRef .tc main_v64) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The third host stretch -/

/-- The third host stretch does not write `main_v100_0`. -/
theorem keep2_v100_0 (W : Valuation τ sig (Elt F)) :
    StableHlo.after (hostOps2 (F := F)) W (Proc.devRef .tc main_v100_0) = W (Proc.devRef .tc main_v100_0) :=
  StableHlo.after_of_forall_not_mem (b := Proc.devRef .tc main_v100_0) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch does not write `main_v65_1`. -/
theorem keep2_v65_1 (W : Valuation τ sig (Elt F)) :
    StableHlo.after (hostOps2 (F := F)) W (Proc.devRef .tc main_v65_1) = W (Proc.devRef .tc main_v65_1) :=
  StableHlo.after_of_forall_not_mem (b := Proc.devRef .tc main_v65_1) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch does not write `main_v59`. -/
theorem keep2_v59 (W : Valuation τ sig (Elt F)) :
    StableHlo.after (hostOps2 (F := F)) W (Proc.devRef .tc main_v59) = W (Proc.devRef .tc main_v59) :=
  StableHlo.after_of_forall_not_mem (b := Proc.devRef .tc main_v59) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch does not write `main_v96`. -/
theorem keep2_v96 (W : Valuation τ sig (Elt F)) :
    StableHlo.after (hostOps2 (F := F)) W (Proc.devRef .tc main_v96) = W (Proc.devRef .tc main_v96) :=
  StableHlo.after_of_forall_not_mem (b := Proc.devRef .tc main_v96) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch does not write `main_v99`. -/
theorem keep2_v99 (W : Valuation τ sig (Elt F)) :
    StableHlo.after (hostOps2 (F := F)) W (Proc.devRef .tc main_v99) = W (Proc.devRef .tc main_v99) :=
  StableHlo.after_of_forall_not_mem (b := Proc.devRef .tc main_v99) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch does not write `main_v60`. -/
theorem keep2_v60 (W : Valuation τ sig (Elt F)) :
    StableHlo.after (hostOps2 (F := F)) W (Proc.devRef .tc main_v60) = W (Proc.devRef .tc main_v60) :=
  StableHlo.after_of_forall_not_mem (b := Proc.devRef .tc main_v60) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch does not write `main_v63`. -/
theorem keep2_v63 (W : Valuation τ sig (Elt F)) :
    StableHlo.after (hostOps2 (F := F)) W (Proc.devRef .tc main_v63) = W (Proc.devRef .tc main_v63) :=
  StableHlo.after_of_forall_not_mem (b := Proc.devRef .tc main_v63) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch does not write `main_arg17`. -/
theorem keep2_arg17 (W : Valuation τ sig (Elt F)) :
    StableHlo.after (hostOps2 (F := F)) W (Proc.devRef .tc main_arg17) = W (Proc.devRef .tc main_arg17) :=
  StableHlo.after_of_forall_not_mem (b := Proc.devRef .tc main_arg17) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch does not write `main_v64`. -/
theorem keep2_v64 (W : Valuation τ sig (Elt F)) :
    StableHlo.after (hostOps2 (F := F)) W (Proc.devRef .tc main_v64) = W (Proc.devRef .tc main_v64) :=
  StableHlo.after_of_forall_not_mem (b := Proc.devRef .tc main_v64) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The fourth host stretch -/

/-- The fourth host stretch does not write `main_v100_0`. -/
theorem keep3_v100_0 (W : Valuation τ sig (Elt F)) :
    StableHlo.after (hostOps3 (F := F)) W (Proc.devRef .tc main_v100_0) = W (Proc.devRef .tc main_v100_0) :=
  StableHlo.after_of_forall_not_mem (b := Proc.devRef .tc main_v100_0) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v65_1`. -/
theorem keep3_v65_1 (W : Valuation τ sig (Elt F)) :
    StableHlo.after (hostOps3 (F := F)) W (Proc.devRef .tc main_v65_1) = W (Proc.devRef .tc main_v65_1) :=
  StableHlo.after_of_forall_not_mem (b := Proc.devRef .tc main_v65_1) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v113`. -/
theorem keep3_v113 (W : Valuation τ sig (Elt F)) :
    StableHlo.after (hostOps3 (F := F)) W (Proc.devRef .tc main_v113) = W (Proc.devRef .tc main_v113) :=
  StableHlo.after_of_forall_not_mem (b := Proc.devRef .tc main_v113) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v116`. -/
theorem keep3_v116 (W : Valuation τ sig (Elt F)) :
    StableHlo.after (hostOps3 (F := F)) W (Proc.devRef .tc main_v116) = W (Proc.devRef .tc main_v116) :=
  StableHlo.after_of_forall_not_mem (b := Proc.devRef .tc main_v116) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v59`. -/
theorem keep3_v59 (W : Valuation τ sig (Elt F)) :
    StableHlo.after (hostOps3 (F := F)) W (Proc.devRef .tc main_v59) = W (Proc.devRef .tc main_v59) :=
  StableHlo.after_of_forall_not_mem (b := Proc.devRef .tc main_v59) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v96`. -/
theorem keep3_v96 (W : Valuation τ sig (Elt F)) :
    StableHlo.after (hostOps3 (F := F)) W (Proc.devRef .tc main_v96) = W (Proc.devRef .tc main_v96) :=
  StableHlo.after_of_forall_not_mem (b := Proc.devRef .tc main_v96) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v99`. -/
theorem keep3_v99 (W : Valuation τ sig (Elt F)) :
    StableHlo.after (hostOps3 (F := F)) W (Proc.devRef .tc main_v99) = W (Proc.devRef .tc main_v99) :=
  StableHlo.after_of_forall_not_mem (b := Proc.devRef .tc main_v99) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v60`. -/
theorem keep3_v60 (W : Valuation τ sig (Elt F)) :
    StableHlo.after (hostOps3 (F := F)) W (Proc.devRef .tc main_v60) = W (Proc.devRef .tc main_v60) :=
  StableHlo.after_of_forall_not_mem (b := Proc.devRef .tc main_v60) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v63`. -/
theorem keep3_v63 (W : Valuation τ sig (Elt F)) :
    StableHlo.after (hostOps3 (F := F)) W (Proc.devRef .tc main_v63) = W (Proc.devRef .tc main_v63) :=
  StableHlo.after_of_forall_not_mem (b := Proc.devRef .tc main_v63) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_arg17`. -/
theorem keep3_arg17 (W : Valuation τ sig (Elt F)) :
    StableHlo.after (hostOps3 (F := F)) W (Proc.devRef .tc main_arg17) = W (Proc.devRef .tc main_arg17) :=
  StableHlo.after_of_forall_not_mem (b := Proc.devRef .tc main_arg17) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth host stretch does not write `main_v64`. -/
theorem keep3_v64 (W : Valuation τ sig (Elt F)) :
    StableHlo.after (hostOps3 (F := F)) W (Proc.devRef .tc main_v64) = W (Proc.devRef .tc main_v64) :=
  StableHlo.after_of_forall_not_mem (b := Proc.devRef .tc main_v64) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The fifth host stretch -/

/-- The fifth host stretch does not write `main_v63`. -/
theorem keep4_v63 (W : Valuation τ sig (Elt F)) :
    StableHlo.after (hostOps4 (F := F)) W (Proc.devRef .tc main_v63) = W (Proc.devRef .tc main_v63) :=
  StableHlo.after_of_forall_not_mem (b := Proc.devRef .tc main_v63) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fifth host stretch does not write `main_arg17`. -/
theorem keep4_arg17 (W : Valuation τ sig (Elt F)) :
    StableHlo.after (hostOps4 (F := F)) W (Proc.devRef .tc main_arg17) = W (Proc.devRef .tc main_arg17) :=
  StableHlo.after_of_forall_not_mem (b := Proc.devRef .tc main_arg17) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fifth host stretch does not write `main_v64`. -/
theorem keep4_v64 (W : Valuation τ sig (Elt F)) :
    StableHlo.after (hostOps4 (F := F)) W (Proc.devRef .tc main_v64) = W (Proc.devRef .tc main_v64) :=
  StableHlo.after_of_forall_not_mem (b := Proc.devRef .tc main_v64) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The sixth host stretch -/

/-- The sixth host stretch does not write `main_v162_0`. -/
theorem keep5_v162_0 (W : Valuation τ sig (Elt F)) :
    StableHlo.after (hostOps5 (F := F)) W (Proc.devRef .tc main_v162_0) = W (Proc.devRef .tc main_v162_0) :=
  StableHlo.after_of_forall_not_mem (b := Proc.devRef .tc main_v162_0) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The sixth host stretch does not write `main_v158`. -/
theorem keep5_v158 (W : Valuation τ sig (Elt F)) :
    StableHlo.after (hostOps5 (F := F)) W (Proc.devRef .tc main_v158) = W (Proc.devRef .tc main_v158) :=
  StableHlo.after_of_forall_not_mem (b := Proc.devRef .tc main_v158) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The sixth host stretch does not write `main_v64`. -/
theorem keep5_v64 (W : Valuation τ sig (Elt F)) :
    StableHlo.after (hostOps5 (F := F)) W (Proc.devRef .tc main_v64) = W (Proc.devRef .tc main_v64) :=
  StableHlo.after_of_forall_not_mem (b := Proc.devRef .tc main_v64) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The seventh host stretch -/

/-- The seventh host stretch does not write `main_v162_0`. -/
theorem keep6_v162_0 (W : Valuation τ sig (Elt F)) :
    StableHlo.after (hostOps6 (F := F)) W (Proc.devRef .tc main_v162_0) = W (Proc.devRef .tc main_v162_0) :=
  StableHlo.after_of_forall_not_mem (b := Proc.devRef .tc main_v162_0) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The seventh host stretch does not write `main_v158`. -/
theorem keep6_v158 (W : Valuation τ sig (Elt F)) :
    StableHlo.after (hostOps6 (F := F)) W (Proc.devRef .tc main_v158) = W (Proc.devRef .tc main_v158) :=
  StableHlo.after_of_forall_not_mem (b := Proc.devRef .tc main_v158) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The seventh host stretch does not write `main_v175`. -/
theorem keep6_v175 (W : Valuation τ sig (Elt F)) :
    StableHlo.after (hostOps6 (F := F)) W (Proc.devRef .tc main_v175) = W (Proc.devRef .tc main_v175) :=
  StableHlo.after_of_forall_not_mem (b := Proc.devRef .tc main_v175) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The seventh host stretch does not write `main_v178`. -/
theorem keep6_v178 (W : Valuation τ sig (Elt F)) :
    StableHlo.after (hostOps6 (F := F)) W (Proc.devRef .tc main_v178) = W (Proc.devRef .tc main_v178) :=
  StableHlo.after_of_forall_not_mem (b := Proc.devRef .tc main_v178) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The seventh host stretch does not write `main_v64`. -/
theorem keep6_v64 (W : Valuation τ sig (Elt F)) :
    StableHlo.after (hostOps6 (F := F)) W (Proc.devRef .tc main_v64) = W (Proc.devRef .tc main_v64) :=
  StableHlo.after_of_forall_not_mem (b := Proc.devRef .tc main_v64) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Val

end
-- ==== Proof.KerWire2.lean ====
import proofs.«159567_g2000302752657622_pallasbulk_725_3_alg».proof.Proof.Gen.KernelIdeal.Frame
import proofs.«159567_g2000302752657622_pallasbulk_725_3_alg».proof.Proof.KerWire1

set_option maxRecDepth 16384

noncomputable section

namespace Cert.KernelIdeal.Val

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg) (c : Dev nD)

/-! # What each region finds in its input windows

The buffers' contents at the segment boundaries are a fold through the program: the launch memory, then alternately a
host stretch's operations folded over the contents before it, and a region's arrays replaced by what its write-backs
leave. A region's input window is staged from a buffer that was last written either by a host stretch, or by an
earlier region as one of its output arrays, or never (an argument). Each statement below says what the buffer holds at
the region's entry, in terms of the segment that last wrote it. A buffer is carried across a host stretch that does not
write it, across a region none of whose windows is staged from it, and across a region that only reads it.

`wire<K>_<w>` is the statement for window `w` of region `K`: the buffer named in it is that window's own array.
`at<j>_<buffer>` is an intermediate step: the buffer at the entry of a region that does not read it. -/

/-- Region 2 leaves the array of an input window as it found it: an input window is never written back, so after
    the grid's last point the array is the one the region entered with. -/
theorem through2_in (w : Fin cfg2.W) (hin : (cfg2.win w).isOut = false) :
    Gen.W6 m ρ c (Proc.devRef .tc (Pipeline.arrRef spec2 w)) = Gen.W5 m ρ c (Proc.devRef .tc (Pipeline.arrRef spec2 w)) :=
  (Gen.W6_arr m ρ c w).trans
    (((Gen.dat2 (Gen.V5 m ρ) c).arrAt_in w hin cfg2.N).trans (Gen.A_eq2 (Gen.V5 m ρ) c w))

/-- Region 5 leaves the array of an input window as it found it: an input window is never written back, so after
    the grid's last point the array is the one the region entered with. -/
theorem through5_in (w : Fin cfg5.W) (hin : (cfg5.win w).isOut = false) :
    Gen.W12 m ρ c (Proc.devRef .tc (Pipeline.arrRef spec5 w)) = Gen.W11 m ρ c (Proc.devRef .tc (Pipeline.arrRef spec5 w)) :=
  (Gen.W12_arr m ρ c w).trans
    (((Gen.dat5 (Gen.V11 m ρ) c).arrAt_in w hin cfg5.N).trans (Gen.A_eq5 (Gen.V11 m ρ) c w))

/-! ## Buffers the first host stretch writes -/

/-- Region 0's window 0 is staged from `main_v0`. It is a result of the first host stretch, which ends at this entry. -/
theorem wire0_0 : Gen.V1 m ρ c main_v0
    = StableHlo.after (hostOps0 (F := F)) (Gen.W0 m ρ c) (Proc.devRef .tc main_v0) :=
  show Gen.V1 m ρ c (Pipeline.arrRef spec0 0) = _ from
  rfl

/-- Region 0's window 1 is staged from `main_v2`. It is a result of the first host stretch, which ends at this entry. -/
theorem wire0_1 : Gen.V1 m ρ c main_v2
    = StableHlo.after (hostOps0 (F := F)) (Gen.W0 m ρ c) (Proc.devRef .tc main_v2) :=
  show Gen.V1 m ρ c (Pipeline.arrRef spec0 1) = _ from
  rfl

/-- `main_v58` at region 0's entry. It is a result of the first host stretch, which ends at this entry. -/
theorem at1_v58 : Gen.V1 m ρ c main_v58
    = StableHlo.after (hostOps0 (F := F)) (Gen.W0 m ρ c) (Proc.devRef .tc main_v58) :=
  rfl

/-- Region 1's window 3 is staged from `main_v58`. It holds what it held at region 0's entry: neither region 0 nor the second host stretch writes it. -/
theorem wire1_3 : Gen.V3 m ρ c main_v58
    = StableHlo.after (hostOps0 (F := F)) (Gen.W0 m ρ c) (Proc.devRef .tc main_v58) :=
  show Gen.V3 m ρ c (Pipeline.arrRef spec1 3) = _ from
  (keep1_v58 (Gen.W2 m ρ c)).trans ((Gen.W2_of_ne m ρ c main_v58 (by decide)).trans (at1_v58 m ρ c))

/-- `main_v59` at region 0's entry. It is a result of the first host stretch, which ends at this entry. -/
theorem at1_v59 : Gen.V1 m ρ c main_v59
    = StableHlo.after (hostOps0 (F := F)) (Gen.W0 m ρ c) (Proc.devRef .tc main_v59) :=
  rfl

/-- `main_v59` at region 1's entry. It holds what it held at region 0's entry: neither region 0 nor the second host stretch writes it. -/
theorem at3_v59 : Gen.V3 m ρ c main_v59
    = StableHlo.after (hostOps0 (F := F)) (Gen.W0 m ρ c) (Proc.devRef .tc main_v59) :=
  (keep1_v59 (Gen.W2 m ρ c)).trans ((Gen.W2_of_ne m ρ c main_v59 (by decide)).trans (at1_v59 m ρ c))

/-- `main_v59` at region 2's entry. It holds what it held at region 1's entry: neither region 1 nor the third host stretch writes it. -/
theorem at5_v59 : Gen.V5 m ρ c main_v59
    = StableHlo.after (hostOps0 (F := F)) (Gen.W0 m ρ c) (Proc.devRef .tc main_v59) :=
  (keep2_v59 (Gen.W4 m ρ c)).trans ((Gen.W4_of_ne m ρ c main_v59 (by decide)).trans (at3_v59 m ρ c))

/-- Region 3's window 4 is staged from `main_v59`. It holds what it held at region 2's entry: neither region 2 nor the fourth host stretch writes it. -/
theorem wire3_4 : Gen.V7 m ρ c main_v59
    = StableHlo.after (hostOps0 (F := F)) (Gen.W0 m ρ c) (Proc.devRef .tc main_v59) :=
  show Gen.V7 m ρ c (Pipeline.arrRef spec3 4) = _ from
  (keep3_v59 (Gen.W6 m ρ c)).trans ((Gen.W6_of_ne m ρ c main_v59 (by decide)).trans (at5_v59 m ρ c))

/-- `main_v60` at region 0's entry. It is a result of the first host stretch, which ends at this entry. -/
theorem at1_v60 : Gen.V1 m ρ c main_v60
    = StableHlo.after (hostOps0 (F := F)) (Gen.W0 m ρ c) (Proc.devRef .tc main_v60) :=
  rfl

/-- `main_v60` at region 1's entry. It holds what it held at region 0's entry: neither region 0 nor the second host stretch writes it. -/
theorem at3_v60 : Gen.V3 m ρ c main_v60
    = StableHlo.after (hostOps0 (F := F)) (Gen.W0 m ρ c) (Proc.devRef .tc main_v60) :=
  (keep1_v60 (Gen.W2 m ρ c)).trans ((Gen.W2_of_ne m ρ c main_v60 (by decide)).trans (at1_v60 m ρ c))

/-- `main_v60` at region 2's entry. It holds what it held at region 1's entry: neither region 1 nor the third host stretch writes it. -/
theorem at5_v60 : Gen.V5 m ρ c main_v60
    = StableHlo.after (hostOps0 (F := F)) (Gen.W0 m ρ c) (Proc.devRef .tc main_v60) :=
  (keep2_v60 (Gen.W4 m ρ c)).trans ((Gen.W4_of_ne m ρ c main_v60 (by decide)).trans (at3_v60 m ρ c))

/-- Region 3's window 9 is staged from `main_v60`. It holds what it held at region 2's entry: neither region 2 nor the fourth host stretch writes it. -/
theorem wire3_9 : Gen.V7 m ρ c main_v60
    = StableHlo.after (hostOps0 (F := F)) (Gen.W0 m ρ c) (Proc.devRef .tc main_v60) :=
  show Gen.V7 m ρ c (Pipeline.arrRef spec3 9) = _ from
  (keep3_v60 (Gen.W6 m ρ c)).trans ((Gen.W6_of_ne m ρ c main_v60 (by decide)).trans (at5_v60 m ρ c))

/-- `main_v63` at region 0's entry. It is a result of the first host stretch, which ends at this entry. -/
theorem at1_v63 : Gen.V1 m ρ c main_v63
    = StableHlo.after (hostOps0 (F := F)) (Gen.W0 m ρ c) (Proc.devRef .tc main_v63) :=
  rfl

/-- `main_v63` at region 1's entry. It holds what it held at region 0's entry: neither region 0 nor the second host stretch writes it. -/
theorem at3_v63 : Gen.V3 m ρ c main_v63
    = StableHlo.after (hostOps0 (F := F)) (Gen.W0 m ρ c) (Proc.devRef .tc main_v63) :=
  (keep1_v63 (Gen.W2 m ρ c)).trans ((Gen.W2_of_ne m ρ c main_v63 (by decide)).trans (at1_v63 m ρ c))

/-- `main_v63` at region 2's entry. It holds what it held at region 1's entry: neither region 1 nor the third host stretch writes it. -/
theorem at5_v63 : Gen.V5 m ρ c main_v63
    = StableHlo.after (hostOps0 (F := F)) (Gen.W0 m ρ c) (Proc.devRef .tc main_v63) :=
  (keep2_v63 (Gen.W4 m ρ c)).trans ((Gen.W4_of_ne m ρ c main_v63 (by decide)).trans (at3_v63 m ρ c))

/-- `main_v63` at region 3's entry. It holds what it held at region 2's entry: neither region 2 nor the fourth host stretch writes it. -/
theorem at7_v63 : Gen.V7 m ρ c main_v63
    = StableHlo.after (hostOps0 (F := F)) (Gen.W0 m ρ c) (Proc.devRef .tc main_v63) :=
  (keep3_v63 (Gen.W6 m ρ c)).trans ((Gen.W6_of_ne m ρ c main_v63 (by decide)).trans (at5_v63 m ρ c))

/-- Region 4's window 3 is staged from `main_v63`. It holds what it held at region 3's entry: neither region 3 nor the fifth host stretch writes it. -/
theorem wire4_3 : Gen.V9 m ρ c main_v63
    = StableHlo.after (hostOps0 (F := F)) (Gen.W0 m ρ c) (Proc.devRef .tc main_v63) :=
  show Gen.V9 m ρ c (Pipeline.arrRef spec4 3) = _ from
  (keep4_v63 (Gen.W8 m ρ c)).trans ((Gen.W8_of_ne m ρ c main_v63 (by decide)).trans (at7_v63 m ρ c))

/-- `main_v64` at region 0's entry. It is a result of the first host stretch, which ends at this entry. -/
theorem at1_v64 : Gen.V1 m ρ c main_v64
    = StableHlo.after (hostOps0 (F := F)) (Gen.W0 m ρ c) (Proc.devRef .tc main_v64) :=
  rfl

/-- `main_v64` at region 1's entry. It holds what it held at region 0's entry: neither region 0 nor the second host stretch writes it. -/
theorem at3_v64 : Gen.V3 m ρ c main_v64
    = StableHlo.after (hostOps0 (F := F)) (Gen.W0 m ρ c) (Proc.devRef .tc main_v64) :=
  (keep1_v64 (Gen.W2 m ρ c)).trans ((Gen.W2_of_ne m ρ c main_v64 (by decide)).trans (at1_v64 m ρ c))

/-- `main_v64` at region 2's entry. It holds what it held at region 1's entry: neither region 1 nor the third host stretch writes it. -/
theorem at5_v64 : Gen.V5 m ρ c main_v64
    = StableHlo.after (hostOps0 (F := F)) (Gen.W0 m ρ c) (Proc.devRef .tc main_v64) :=
  (keep2_v64 (Gen.W4 m ρ c)).trans ((Gen.W4_of_ne m ρ c main_v64 (by decide)).trans (at3_v64 m ρ c))

/-- `main_v64` at region 3's entry. It holds what it held at region 2's entry: neither region 2 nor the fourth host stretch writes it. -/
theorem at7_v64 : Gen.V7 m ρ c main_v64
    = StableHlo.after (hostOps0 (F := F)) (Gen.W0 m ρ c) (Proc.devRef .tc main_v64) :=
  (keep3_v64 (Gen.W6 m ρ c)).trans ((Gen.W6_of_ne m ρ c main_v64 (by decide)).trans (at5_v64 m ρ c))

/-- `main_v64` at region 4's entry. It holds what it held at region 3's entry: neither region 3 nor the fifth host stretch writes it. -/
theorem at9_v64 : Gen.V9 m ρ c main_v64
    = StableHlo.after (hostOps0 (F := F)) (Gen.W0 m ρ c) (Proc.devRef .tc main_v64) :=
  (keep4_v64 (Gen.W8 m ρ c)).trans ((Gen.W8_of_ne m ρ c main_v64 (by decide)).trans (at7_v64 m ρ c))

/-- `main_v64` at region 5's entry. It holds what it held at region 4's entry: neither region 4 nor the sixth host stretch writes it. -/
theorem at11_v64 : Gen.V11 m ρ c main_v64
    = StableHlo.after (hostOps0 (F := F)) (Gen.W0 m ρ c) (Proc.devRef .tc main_v64) :=
  (keep5_v64 (Gen.W10 m ρ c)).trans ((Gen.W10_of_ne m ρ c main_v64 (by decide)).trans (at9_v64 m ρ c))

/-- Region 6's window 4 is staged from `main_v64`. It holds what it held at region 5's entry: neither region 5 nor the seventh host stretch writes it. -/
theorem wire6_4 : Gen.V13 m ρ c main_v64
    = StableHlo.after (hostOps0 (F := F)) (Gen.W0 m ρ c) (Proc.devRef .tc main_v64) :=
  show Gen.V13 m ρ c (Pipeline.arrRef spec6 4) = _ from
  (keep6_v64 (Gen.W12 m ρ c)).trans ((Gen.W12_of_ne m ρ c main_v64 (by decide)).trans (at11_v64 m ρ c))

/-! ## Buffers the second host stretch writes -/

/-- Region 1's window 1 is staged from `main_v80`. It is a result of the second host stretch, which ends at this entry. -/
theorem wire1_1 : Gen.V3 m ρ c main_v80
    = StableHlo.after (hostOps1 (F := F)) (Gen.W2 m ρ c) (Proc.devRef .tc main_v80) :=
  show Gen.V3 m ρ c (Pipeline.arrRef spec1 1) = _ from
  rfl

/-- Region 1's window 2 is staged from `main_v83`. It is a result of the second host stretch, which ends at this entry. -/
theorem wire1_2 : Gen.V3 m ρ c main_v83
    = StableHlo.after (hostOps1 (F := F)) (Gen.W2 m ρ c) (Proc.devRef .tc main_v83) :=
  show Gen.V3 m ρ c (Pipeline.arrRef spec1 2) = _ from
  rfl

/-- `main_v96` at region 1's entry. It is a result of the second host stretch, which ends at this entry. -/
theorem at3_v96 : Gen.V3 m ρ c main_v96
    = StableHlo.after (hostOps1 (F := F)) (Gen.W2 m ρ c) (Proc.devRef .tc main_v96) :=
  rfl

/-- `main_v96` at region 2's entry. It holds what it held at region 1's entry: neither region 1 nor the third host stretch writes it. -/
theorem at5_v96 : Gen.V5 m ρ c main_v96
    = StableHlo.after (hostOps1 (F := F)) (Gen.W2 m ρ c) (Proc.devRef .tc main_v96) :=
  (keep2_v96 (Gen.W4 m ρ c)).trans ((Gen.W4_of_ne m ρ c main_v96 (by decide)).trans (at3_v96 m ρ c))

/-- Region 3's window 7 is staged from `main_v96`. It holds what it held at region 2's entry: neither region 2 nor the fourth host stretch writes it. -/
theorem wire3_7 : Gen.V7 m ρ c main_v96
    = StableHlo.after (hostOps1 (F := F)) (Gen.W2 m ρ c) (Proc.devRef .tc main_v96) :=
  show Gen.V7 m ρ c (Pipeline.arrRef spec3 7) = _ from
  (keep3_v96 (Gen.W6 m ρ c)).trans ((Gen.W6_of_ne m ρ c main_v96 (by decide)).trans (at5_v96 m ρ c))

/-- `main_v99` at region 1's entry. It is a result of the second host stretch, which ends at this entry. -/
theorem at3_v99 : Gen.V3 m ρ c main_v99
    = StableHlo.after (hostOps1 (F := F)) (Gen.W2 m ρ c) (Proc.devRef .tc main_v99) :=
  rfl

/-- `main_v99` at region 2's entry. It holds what it held at region 1's entry: neither region 1 nor the third host stretch writes it. -/
theorem at5_v99 : Gen.V5 m ρ c main_v99
    = StableHlo.after (hostOps1 (F := F)) (Gen.W2 m ρ c) (Proc.devRef .tc main_v99) :=
  (keep2_v99 (Gen.W4 m ρ c)).trans ((Gen.W4_of_ne m ρ c main_v99 (by decide)).trans (at3_v99 m ρ c))

/-- Region 3's window 8 is staged from `main_v99`. It holds what it held at region 2's entry: neither region 2 nor the fourth host stretch writes it. -/
theorem wire3_8 : Gen.V7 m ρ c main_v99
    = StableHlo.after (hostOps1 (F := F)) (Gen.W2 m ρ c) (Proc.devRef .tc main_v99) :=
  show Gen.V7 m ρ c (Pipeline.arrRef spec3 8) = _ from
  (keep3_v99 (Gen.W6 m ρ c)).trans ((Gen.W6_of_ne m ρ c main_v99 (by decide)).trans (at5_v99 m ρ c))

/-! ## Buffers the third host stretch writes -/

/-- Region 2's window 1 is staged from `main_v113`. It is a result of the third host stretch, which ends at this entry. -/
theorem wire2_1 : Gen.V5 m ρ c main_v113
    = StableHlo.after (hostOps2 (F := F)) (Gen.W4 m ρ c) (Proc.devRef .tc main_v113) :=
  show Gen.V5 m ρ c (Pipeline.arrRef spec2 1) = _ from
  rfl

/-- Region 3's window 2 is staged from `main_v113`. It holds what it held at region 2's entry: region 2 only reads it (an input window is never written back) and the fourth host stretch does not write it. -/
theorem wire3_2 : Gen.V7 m ρ c main_v113
    = StableHlo.after (hostOps2 (F := F)) (Gen.W4 m ρ c) (Proc.devRef .tc main_v113) :=
  show Gen.V7 m ρ c (Pipeline.arrRef spec3 2) = _ from
  (keep3_v113 (Gen.W6 m ρ c)).trans ((through2_in m ρ c 1 rfl).trans (wire2_1 m ρ c))

/-- Region 2's window 2 is staged from `main_v116`. It is a result of the third host stretch, which ends at this entry. -/
theorem wire2_2 : Gen.V5 m ρ c main_v116
    = StableHlo.after (hostOps2 (F := F)) (Gen.W4 m ρ c) (Proc.devRef .tc main_v116) :=
  show Gen.V5 m ρ c (Pipeline.arrRef spec2 2) = _ from
  rfl

/-- Region 3's window 3 is staged from `main_v116`. It holds what it held at region 2's entry: region 2 only reads it (an input window is never written back) and the fourth host stretch does not write it. -/
theorem wire3_3 : Gen.V7 m ρ c main_v116
    = StableHlo.after (hostOps2 (F := F)) (Gen.W4 m ρ c) (Proc.devRef .tc main_v116) :=
  show Gen.V7 m ρ c (Pipeline.arrRef spec3 3) = _ from
  (keep3_v116 (Gen.W6 m ρ c)).trans ((through2_in m ρ c 2 rfl).trans (wire2_2 m ρ c))

/-! ## Buffers the fourth host stretch writes -/

/-- Region 3's window 5 is staged from `main_v135`. It is a result of the fourth host stretch, which ends at this entry. -/
theorem wire3_5 : Gen.V7 m ρ c main_v135
    = StableHlo.after (hostOps3 (F := F)) (Gen.W6 m ρ c) (Proc.devRef .tc main_v135) :=
  show Gen.V7 m ρ c (Pipeline.arrRef spec3 5) = _ from
  rfl

/-- Region 3's window 6 is staged from `main_v138`. It is a result of the fourth host stretch, which ends at this entry. -/
theorem wire3_6 : Gen.V7 m ρ c main_v138
    = StableHlo.after (hostOps3 (F := F)) (Gen.W6 m ρ c) (Proc.devRef .tc main_v138) :=
  show Gen.V7 m ρ c (Pipeline.arrRef spec3 6) = _ from
  rfl

/-! ## Buffers the fifth host stretch writes -/

/-- Region 4's window 1 is staged from `main_v152`. It is a result of the fifth host stretch, which ends at this entry. -/
theorem wire4_1 : Gen.V9 m ρ c main_v152
    = StableHlo.after (hostOps4 (F := F)) (Gen.W8 m ρ c) (Proc.devRef .tc main_v152) :=
  show Gen.V9 m ρ c (Pipeline.arrRef spec4 1) = _ from
  rfl

/-- Region 4's window 2 is staged from `main_v155`. It is a result of the fifth host stretch, which ends at this entry. -/
theorem wire4_2 : Gen.V9 m ρ c main_v155
    = StableHlo.after (hostOps4 (F := F)) (Gen.W8 m ρ c) (Proc.devRef .tc main_v155) :=
  show Gen.V9 m ρ c (Pipeline.arrRef spec4 2) = _ from
  rfl

/-- `main_v158` at region 4's entry. It is a result of the fifth host stretch, which ends at this entry. -/
theorem at9_v158 : Gen.V9 m ρ c main_v158
    = StableHlo.after (hostOps4 (F := F)) (Gen.W8 m ρ c) (Proc.devRef .tc main_v158) :=
  rfl

/-- `main_v158` at region 5's entry. It holds what it held at region 4's entry: neither region 4 nor the sixth host stretch writes it. -/
theorem at11_v158 : Gen.V11 m ρ c main_v158
    = StableHlo.after (hostOps4 (F := F)) (Gen.W8 m ρ c) (Proc.devRef .tc main_v158) :=
  (keep5_v158 (Gen.W10 m ρ c)).trans ((Gen.W10_of_ne m ρ c main_v158 (by decide)).trans (at9_v158 m ρ c))

/-- Region 6's window 1 is staged from `main_v158`. It holds what it held at region 5's entry: neither region 5 nor the seventh host stretch writes it. -/
theorem wire6_1 : Gen.V13 m ρ c main_v158
    = StableHlo.after (hostOps4 (F := F)) (Gen.W8 m ρ c) (Proc.devRef .tc main_v158) :=
  show Gen.V13 m ρ c (Pipeline.arrRef spec6 1) = _ from
  (keep6_v158 (Gen.W12 m ρ c)).trans ((Gen.W12_of_ne m ρ c main_v158 (by decide)).trans (at11_v158 m ρ c))

/-- Region 4's window 0 is staged from `main_v161`. It is a result of the fifth host stretch, which ends at this entry. -/
theorem wire4_0 : Gen.V9 m ρ c main_v161
    = StableHlo.after (hostOps4 (F := F)) (Gen.W8 m ρ c) (Proc.devRef .tc main_v161) :=
  show Gen.V9 m ρ c (Pipeline.arrRef spec4 0) = _ from
  rfl

/-! ## Buffers the sixth host stretch writes -/

/-- Region 5's window 1 is staged from `main_v175`. It is a result of the sixth host stretch, which ends at this entry. -/
theorem wire5_1 : Gen.V11 m ρ c main_v175
    = StableHlo.after (hostOps5 (F := F)) (Gen.W10 m ρ c) (Proc.devRef .tc main_v175) :=
  show Gen.V11 m ρ c (Pipeline.arrRef spec5 1) = _ from
  rfl

/-- Region 6's window 2 is staged from `main_v175`. It holds what it held at region 5's entry: region 5 only reads it (an input window is never written back) and the seventh host stretch does not write it. -/
theorem wire6_2 : Gen.V13 m ρ c main_v175
    = StableHlo.after (hostOps5 (F := F)) (Gen.W10 m ρ c) (Proc.devRef .tc main_v175) :=
  show Gen.V13 m ρ c (Pipeline.arrRef spec6 2) = _ from
  (keep6_v175 (Gen.W12 m ρ c)).trans ((through5_in m ρ c 1 rfl).trans (wire5_1 m ρ c))

/-- Region 5's window 2 is staged from `main_v178`. It is a result of the sixth host stretch, which ends at this entry. -/
theorem wire5_2 : Gen.V11 m ρ c main_v178
    = StableHlo.after (hostOps5 (F := F)) (Gen.W10 m ρ c) (Proc.devRef .tc main_v178) :=
  show Gen.V11 m ρ c (Pipeline.arrRef spec5 2) = _ from
  rfl

/-- Region 6's window 3 is staged from `main_v178`. It holds what it held at region 5's entry: region 5 only reads it (an input window is never written back) and the seventh host stretch does not write it. -/
theorem wire6_3 : Gen.V13 m ρ c main_v178
    = StableHlo.after (hostOps5 (F := F)) (Gen.W10 m ρ c) (Proc.devRef .tc main_v178) :=
  show Gen.V13 m ρ c (Pipeline.arrRef spec6 3) = _ from
  (keep6_v178 (Gen.W12 m ρ c)).trans ((through5_in m ρ c 2 rfl).trans (wire5_2 m ρ c))

/-! ## Buffers the seventh host stretch writes -/

/-- Region 6's window 5 is staged from `main_v197`. It is a result of the seventh host stretch, which ends at this entry. -/
theorem wire6_5 : Gen.V13 m ρ c main_v197
    = StableHlo.after (hostOps6 (F := F)) (Gen.W12 m ρ c) (Proc.devRef .tc main_v197) :=
  show Gen.V13 m ρ c (Pipeline.arrRef spec6 5) = _ from
  rfl

/-- Region 6's window 6 is staged from `main_v200`. It is a result of the seventh host stretch, which ends at this entry. -/
theorem wire6_6 : Gen.V13 m ρ c main_v200
    = StableHlo.after (hostOps6 (F := F)) (Gen.W12 m ρ c) (Proc.devRef .tc main_v200) :=
  show Gen.V13 m ρ c (Pipeline.arrRef spec6 6) = _ from
  rfl

/-! ## Buffers that are an earlier region's output array -/

/-- Region 1's window 0 is staged from `main_v65_0`. It is the array of window 2 of region 0 and holds what that region's write-backs leave: the host stretch in between does not write it. -/
theorem wire1_0 : Gen.V3 m ρ c main_v65_0 = (Gen.dat0 (Gen.V1 m ρ) c).arrAt 2 cfg0.N :=
  show Gen.V3 m ρ c (Pipeline.arrRef spec1 0) = _ from
  (keep1_v65_0 (Gen.W2 m ρ c)).trans (Gen.W2_arr m ρ c 2)

/-- `main_v65_1` at region 1's entry. It is the array of window 3 of region 0 and holds what that region's write-backs leave: the host stretch in between does not write it. -/
theorem at3_v65_1 : Gen.V3 m ρ c main_v65_1 = (Gen.dat0 (Gen.V1 m ρ) c).arrAt 3 cfg0.N :=
  (keep1_v65_1 (Gen.W2 m ρ c)).trans (Gen.W2_arr m ρ c 3)

/-- `main_v65_1` at region 2's entry. It holds what it held at region 1's entry: neither region 1 nor the third host stretch writes it. -/
theorem at5_v65_1 : Gen.V5 m ρ c main_v65_1 = (Gen.dat0 (Gen.V1 m ρ) c).arrAt 3 cfg0.N :=
  (keep2_v65_1 (Gen.W4 m ρ c)).trans ((Gen.W4_of_ne m ρ c main_v65_1 (by decide)).trans (at3_v65_1 m ρ c))

/-- Region 3's window 1 is staged from `main_v65_1`. It holds what it held at region 2's entry: neither region 2 nor the fourth host stretch writes it. -/
theorem wire3_1 : Gen.V7 m ρ c main_v65_1 = (Gen.dat0 (Gen.V1 m ρ) c).arrAt 3 cfg0.N :=
  show Gen.V7 m ρ c (Pipeline.arrRef spec3 1) = _ from
  (keep3_v65_1 (Gen.W6 m ρ c)).trans ((Gen.W6_of_ne m ρ c main_v65_1 (by decide)).trans (at5_v65_1 m ρ c))

/-- Region 2's window 0 is staged from `main_v100_0`. It is the array of window 5 of region 1 and holds what that region's write-backs leave: the host stretch in between does not write it. -/
theorem wire2_0 : Gen.V5 m ρ c main_v100_0 = (Gen.dat1 (Gen.V3 m ρ) c).arrAt 5 cfg1.N :=
  show Gen.V5 m ρ c (Pipeline.arrRef spec2 0) = _ from
  (keep2_v100_0 (Gen.W4 m ρ c)).trans (Gen.W4_arr m ρ c 5)

/-- Region 3's window 0 is staged from `main_v100_0`. It holds what it held at region 2's entry: region 2 only reads it (an input window is never written back) and the fourth host stretch does not write it. -/
theorem wire3_0 : Gen.V7 m ρ c main_v100_0 = (Gen.dat1 (Gen.V3 m ρ) c).arrAt 5 cfg1.N :=
  show Gen.V7 m ρ c (Pipeline.arrRef spec3 0) = _ from
  (keep3_v100_0 (Gen.W6 m ρ c)).trans ((through2_in m ρ c 0 rfl).trans (wire2_0 m ρ c))

/-- Region 5's window 0 is staged from `main_v162_0`. It is the array of window 5 of region 4 and holds what that region's write-backs leave: the host stretch in between does not write it. -/
theorem wire5_0 : Gen.V11 m ρ c main_v162_0 = (Gen.dat4 (Gen.V9 m ρ) c).arrAt 5 cfg4.N :=
  show Gen.V11 m ρ c (Pipeline.arrRef spec5 0) = _ from
  (keep5_v162_0 (Gen.W10 m ρ c)).trans (Gen.W10_arr m ρ c 5)

/-- Region 6's window 0 is staged from `main_v162_0`. It holds what it held at region 5's entry: region 5 only reads it (an input window is never written back) and the seventh host stretch does not write it. -/
theorem wire6_0 : Gen.V13 m ρ c main_v162_0 = (Gen.dat4 (Gen.V9 m ρ) c).arrAt 5 cfg4.N :=
  show Gen.V13 m ρ c (Pipeline.arrRef spec6 0) = _ from
  (keep6_v162_0 (Gen.W12 m ρ c)).trans ((through5_in m ρ c 0 rfl).trans (wire5_0 m ρ c))

/-! ## Buffers that are arguments -/

/-- `main_arg4` at region 0's entry. It is an argument of the program and holds what it held at launch: the first host stretch does not write it. -/
theorem at1_arg4 : Gen.V1 m ρ c main_arg4 = m ((c : Thread nD τ).loc main_arg4) :=
  (keep0_arg4 (Gen.W0 m ρ c)).trans rfl

/-- Region 1's window 4 is staged from `main_arg4`. It holds what it held at region 0's entry: neither region 0 nor the second host stretch writes it. -/
theorem wire1_4 : Gen.V3 m ρ c main_arg4 = m ((c : Thread nD τ).loc main_arg4) :=
  show Gen.V3 m ρ c (Pipeline.arrRef spec1 4) = _ from
  (keep1_arg4 (Gen.W2 m ρ c)).trans ((Gen.W2_of_ne m ρ c main_arg4 (by decide)).trans (at1_arg4 m ρ c))

/-- `main_arg17` at region 0's entry. It is an argument of the program and holds what it held at launch: the first host stretch does not write it. -/
theorem at1_arg17 : Gen.V1 m ρ c main_arg17 = m ((c : Thread nD τ).loc main_arg17) :=
  (keep0_arg17 (Gen.W0 m ρ c)).trans rfl

/-- `main_arg17` at region 1's entry. It holds what it held at region 0's entry: neither region 0 nor the second host stretch writes it. -/
theorem at3_arg17 : Gen.V3 m ρ c main_arg17 = m ((c : Thread nD τ).loc main_arg17) :=
  (keep1_arg17 (Gen.W2 m ρ c)).trans ((Gen.W2_of_ne m ρ c main_arg17 (by decide)).trans (at1_arg17 m ρ c))

/-- `main_arg17` at region 2's entry. It holds what it held at region 1's entry: neither region 1 nor the third host stretch writes it. -/
theorem at5_arg17 : Gen.V5 m ρ c main_arg17 = m ((c : Thread nD τ).loc main_arg17) :=
  (keep2_arg17 (Gen.W4 m ρ c)).trans ((Gen.W4_of_ne m ρ c main_arg17 (by decide)).trans (at3_arg17 m ρ c))

/-- `main_arg17` at region 3's entry. It holds what it held at region 2's entry: neither region 2 nor the fourth host stretch writes it. -/
theorem at7_arg17 : Gen.V7 m ρ c main_arg17 = m ((c : Thread nD τ).loc main_arg17) :=
  (keep3_arg17 (Gen.W6 m ρ c)).trans ((Gen.W6_of_ne m ρ c main_arg17 (by decide)).trans (at5_arg17 m ρ c))

/-- Region 4's window 4 is staged from `main_arg17`. It holds what it held at region 3's entry: neither region 3 nor the fifth host stretch writes it. -/
theorem wire4_4 : Gen.V9 m ρ c main_arg17 = m ((c : Thread nD τ).loc main_arg17) :=
  show Gen.V9 m ρ c (Pipeline.arrRef spec4 4) = _ from
  (keep4_arg17 (Gen.W8 m ρ c)).trans ((Gen.W8_of_ne m ρ c main_arg17 (by decide)).trans (at7_arg17 m ρ c))

end Cert.KernelIdeal.Val

end
-- ==== Proof.KerWire3.lean ====
import proofs.«159567_g2000302752657622_pallasbulk_725_3_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe

variable {F : FTy → Type} [FloatOps F]

/-! # What each host stretch reads at its start

A host stretch's results are functions of the buffers it reads that it does not write itself: output arrays of the
region just before it, and arguments of the program. The first part lists, for each stretch, the buffers its operations
write, so that any other buffer is kept by it; the second part says what each buffer a stretch reads from outside holds
at the stretch's start. -/

/-- The results of the first host stretch's operations, in order. -/
abbrev written0 : List (Ref sig .tc) :=
  [main_v0, main_v1, main_v2, main_cst, main_v3, main_v4, main_v5, main_c, main_v6, main_c_0, main_v7,
   main_v8, main_v9, main_v10, main_v11, main_c_1, main_v12, main_c_2, main_v13, main_v14, main_v15,
   main_v16, main_v17, main_c_3, main_v18, main_c_4, main_v19, main_v20, main_v21, main_v22, main_v23,
   main_c_5, main_v24, main_c_6, main_v25, main_v26, main_v27, main_v28, main_v29, main_c_7, main_v30,
   main_c_8, main_v31, main_v32, main_v33, main_v34, main_v35, main_c_9, main_v36, main_c_10, main_v37,
   main_v38, main_v39, main_v40, main_v41, main_c_11, main_v42, main_c_12, main_v43, main_v44, main_v45,
   main_v46, main_v47, main_c_13, main_v48, main_c_14, main_v49, main_v50, main_v51, main_v52, main_v53,
   main_c_15, main_v54, main_c_16, main_v55, main_v56, main_v57, main_v58, main_v59, main_v60, main_v61,
   main_v62, main_v63, main_v64]
/-- Each operation of the first host stretch writes one of the listed buffers. -/
theorem hostOps0_written : (hostOps0 : List (HloOp τ sig (Elt F))).Forall fun op =>
    op.writes ⊆ (written0.map (Proc.devRef (τ := τ) .tc)).toFinset := by
  simp only [hostOps0, List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- The first host stretch keeps every buffer that is not among its results. -/
theorem keepW0 (W : Valuation τ sig (Elt F)) (r : Ref sig .tc) (hr : r ∉ written0) :
    StableHlo.after (hostOps0 (F := F)) W (Proc.devRef .tc r) = W (Proc.devRef .tc r) :=
  StableHlo.after_of_writes_sub _ _ hostOps0_written hr

/-- The results of the second host stretch's operations, in order. -/
abbrev written1 : List (Ref sig .tc) :=
  [main_cst_17, main_v66, main_cst_18, main_v67, main_v68, main_v69, main_cst_19, main_v70, main_v71,
   main_cst_20, main_v72, main_v73, main_v74, main_v75, main_cst_21, main_v76, main_v77, main_v78,
   main_v79, main_v80, main_v81, main_v82, main_v83, main_v84, main_v85, main_cst_22, main_v86,
   main_v87, main_cst_23, main_v88, main_v89, main_v90, main_v91, main_cst_24, main_v92, main_v93,
   main_v94, main_v95, main_v96, main_v97, main_v98, main_v99]
/-- Each operation of the second host stretch writes one of the listed buffers. -/
theorem hostOps1_written : (hostOps1 : List (HloOp τ sig (Elt F))).Forall fun op =>
    op.writes ⊆ (written1.map (Proc.devRef (τ := τ) .tc)).toFinset := by
  simp only [hostOps1, List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- The second host stretch keeps every buffer that is not among its results. -/
theorem keepW1 (W : Valuation τ sig (Elt F)) (r : Ref sig .tc) (hr : r ∉ written1) :
    StableHlo.after (hostOps1 (F := F)) W (Proc.devRef .tc r) = W (Proc.devRef .tc r) :=
  StableHlo.after_of_writes_sub _ _ hostOps1_written hr

/-- The results of the third host stretch's operations, in order. -/
abbrev written2 : List (Ref sig .tc) :=
  [main_cst_25, main_v101, main_cst_26, main_v102, main_cst_27, main_v103, main_v104, main_cst_28,
   main_v105, main_v106, main_v107, main_v108, main_cst_29, main_v109, main_v110, main_v111, main_v112,
   main_v113, main_v114, main_v115, main_v116]
/-- Each operation of the third host stretch writes one of the listed buffers. -/
theorem hostOps2_written : (hostOps2 : List (HloOp τ sig (Elt F))).Forall fun op =>
    op.writes ⊆ (written2.map (Proc.devRef (τ := τ) .tc)).toFinset := by
  simp only [hostOps2, List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- The third host stretch keeps every buffer that is not among its results. -/
theorem keepW2 (W : Valuation τ sig (Elt F)) (r : Ref sig .tc) (hr : r ∉ written2) :
    StableHlo.after (hostOps2 (F := F)) W (Proc.devRef .tc r) = W (Proc.devRef .tc r) :=
  StableHlo.after_of_writes_sub _ _ hostOps2_written hr

/-- The results of the fourth host stretch's operations, in order. -/
abbrev written3 : List (Ref sig .tc) :=
  [main_cst_30, main_v118, main_cst_31, main_v119, main_v120, main_v121, main_v122, main_cst_32,
   main_v123, main_v124, main_cst_33, main_v125, main_v126, main_cst_34, main_v127, main_v128,
   main_v129, main_v130, main_cst_35, main_v131, main_v132, main_v133, main_v134, main_v135, main_v136,
   main_v137, main_v138]
/-- Each operation of the fourth host stretch writes one of the listed buffers. -/
theorem hostOps3_written : (hostOps3 : List (HloOp τ sig (Elt F))).Forall fun op =>
    op.writes ⊆ (written3.map (Proc.devRef (τ := τ) .tc)).toFinset := by
  simp only [hostOps3, List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- The fourth host stretch keeps every buffer that is not among its results. -/
theorem keepW3 (W : Valuation τ sig (Elt F)) (r : Ref sig .tc) (hr : r ∉ written3) :
    StableHlo.after (hostOps3 (F := F)) W (Proc.devRef .tc r) = W (Proc.devRef .tc r) :=
  StableHlo.after_of_writes_sub _ _ hostOps3_written hr

/-- The results of the fifth host stretch's operations, in order. -/
abbrev written4 : List (Ref sig .tc) :=
  [main_cst_36, main_v140, main_cst_37, main_v141, main_cst_38, main_v142, main_v143, main_cst_39,
   main_v144, main_v145, main_v146, main_v147, main_cst_40, main_v148, main_v149, main_v150, main_v151,
   main_v152, main_v153, main_v154, main_v155, main_v156, main_v157, main_v158, main_v159, main_v160,
   main_v161]
/-- Each operation of the fifth host stretch writes one of the listed buffers. -/
theorem hostOps4_written : (hostOps4 : List (HloOp τ sig (Elt F))).Forall fun op =>
    op.writes ⊆ (written4.map (Proc.devRef (τ := τ) .tc)).toFinset := by
  simp only [hostOps4, List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- The fifth host stretch keeps every buffer that is not among its results. -/
theorem keepW4 (W : Valuation τ sig (Elt F)) (r : Ref sig .tc) (hr : r ∉ written4) :
    StableHlo.after (hostOps4 (F := F)) W (Proc.devRef .tc r) = W (Proc.devRef .tc r) :=
  StableHlo.after_of_writes_sub _ _ hostOps4_written hr

/-- The results of the sixth host stretch's operations, in order. -/
abbrev written5 : List (Ref sig .tc) :=
  [main_cst_41, main_v163, main_cst_42, main_v164, main_cst_43, main_v165, main_v166, main_cst_44,
   main_v167, main_v168, main_v169, main_v170, main_cst_45, main_v171, main_v172, main_v173, main_v174,
   main_v175, main_v176, main_v177, main_v178]
/-- Each operation of the sixth host stretch writes one of the listed buffers. -/
theorem hostOps5_written : (hostOps5 : List (HloOp τ sig (Elt F))).Forall fun op =>
    op.writes ⊆ (written5.map (Proc.devRef (τ := τ) .tc)).toFinset := by
  simp only [hostOps5, List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- The sixth host stretch keeps every buffer that is not among its results. -/
theorem keepW5 (W : Valuation τ sig (Elt F)) (r : Ref sig .tc) (hr : r ∉ written5) :
    StableHlo.after (hostOps5 (F := F)) W (Proc.devRef .tc r) = W (Proc.devRef .tc r) :=
  StableHlo.after_of_writes_sub _ _ hostOps5_written hr

variable (m : (ℓ : Loc nD τ sig) → Buf (Elt F) ℓ) (ρ : Dev nD → PrngReg) (c : Dev nD)

/-! ## Arguments

No host stretch and no region writes an argument, so at the start of any stretch it holds what it held at launch. -/

/-- The second host stretch reads the argument `main_arg5`; at the stretch's start it holds what it held at launch. -/
theorem hwire1_arg5 : Gen.W2 m ρ c (Proc.devRef .tc main_arg5) = m ((c : Thread nD τ).loc main_arg5) :=
  (Gen.W2_of_ne m ρ c main_arg5 (by decide)).trans ((keepW0 (Gen.W0 m ρ c) main_arg5 (by decide)).trans rfl)

/-- The second host stretch reads the argument `main_arg6`; at the stretch's start it holds what it held at launch. -/
theorem hwire1_arg6 : Gen.W2 m ρ c (Proc.devRef .tc main_arg6) = m ((c : Thread nD τ).loc main_arg6) :=
  (Gen.W2_of_ne m ρ c main_arg6 (by decide)).trans ((keepW0 (Gen.W0 m ρ c) main_arg6 (by decide)).trans rfl)

/-- The second host stretch reads the argument `main_arg12`; at the stretch's start it holds what it held at launch. -/
theorem hwire1_arg12 : Gen.W2 m ρ c (Proc.devRef .tc main_arg12) = m ((c : Thread nD τ).loc main_arg12) :=
  (Gen.W2_of_ne m ρ c main_arg12 (by decide)).trans ((keepW0 (Gen.W0 m ρ c) main_arg12 (by decide)).trans rfl)

/-- The second host stretch reads the argument `main_arg13`; at the stretch's start it holds what it held at launch. -/
theorem hwire1_arg13 : Gen.W2 m ρ c (Proc.devRef .tc main_arg13) = m ((c : Thread nD τ).loc main_arg13) :=
  (Gen.W2_of_ne m ρ c main_arg13 (by decide)).trans ((keepW0 (Gen.W0 m ρ c) main_arg13 (by decide)).trans rfl)

/-- The argument `main_arg7` at region 0's exit holds what it held at launch. -/
theorem hat2_arg7 : Gen.W2 m ρ c (Proc.devRef .tc main_arg7) = m ((c : Thread nD τ).loc main_arg7) :=
  (Gen.W2_of_ne m ρ c main_arg7 (by decide)).trans ((keepW0 (Gen.W0 m ρ c) main_arg7 (by decide)).trans rfl)

/-- The third host stretch reads the argument `main_arg7`; at the stretch's start it holds what it held at launch. -/
theorem hwire2_arg7 : Gen.W4 m ρ c (Proc.devRef .tc main_arg7) = m ((c : Thread nD τ).loc main_arg7) :=
  (Gen.W4_of_ne m ρ c main_arg7 (by decide)).trans ((keepW1 (Gen.W2 m ρ c) main_arg7 (by decide)).trans (hat2_arg7 m ρ c))

/-- The argument `main_arg8` at region 0's exit holds what it held at launch. -/
theorem hat2_arg8 : Gen.W2 m ρ c (Proc.devRef .tc main_arg8) = m ((c : Thread nD τ).loc main_arg8) :=
  (Gen.W2_of_ne m ρ c main_arg8 (by decide)).trans ((keepW0 (Gen.W0 m ρ c) main_arg8 (by decide)).trans rfl)

/-- The third host stretch reads the argument `main_arg8`; at the stretch's start it holds what it held at launch. -/
theorem hwire2_arg8 : Gen.W4 m ρ c (Proc.devRef .tc main_arg8) = m ((c : Thread nD τ).loc main_arg8) :=
  (Gen.W4_of_ne m ρ c main_arg8 (by decide)).trans ((keepW1 (Gen.W2 m ρ c) main_arg8 (by decide)).trans (hat2_arg8 m ρ c))

/-- The argument `main_arg2` at region 0's exit holds what it held at launch. -/
theorem hat2_arg2 : Gen.W2 m ρ c (Proc.devRef .tc main_arg2) = m ((c : Thread nD τ).loc main_arg2) :=
  (Gen.W2_of_ne m ρ c main_arg2 (by decide)).trans ((keepW0 (Gen.W0 m ρ c) main_arg2 (by decide)).trans rfl)

/-- The argument `main_arg2` at region 1's exit holds what it held at launch. -/
theorem hat4_arg2 : Gen.W4 m ρ c (Proc.devRef .tc main_arg2) = m ((c : Thread nD τ).loc main_arg2) :=
  (Gen.W4_of_ne m ρ c main_arg2 (by decide)).trans ((keepW1 (Gen.W2 m ρ c) main_arg2 (by decide)).trans (hat2_arg2 m ρ c))

/-- The fourth host stretch reads the argument `main_arg2`; at the stretch's start it holds what it held at launch. -/
theorem hwire3_arg2 : Gen.W6 m ρ c (Proc.devRef .tc main_arg2) = m ((c : Thread nD τ).loc main_arg2) :=
  (Gen.W6_of_ne m ρ c main_arg2 (by decide)).trans ((keepW2 (Gen.W4 m ρ c) main_arg2 (by decide)).trans (hat4_arg2 m ρ c))

/-- The argument `main_arg9` at region 0's exit holds what it held at launch. -/
theorem hat2_arg9 : Gen.W2 m ρ c (Proc.devRef .tc main_arg9) = m ((c : Thread nD τ).loc main_arg9) :=
  (Gen.W2_of_ne m ρ c main_arg9 (by decide)).trans ((keepW0 (Gen.W0 m ρ c) main_arg9 (by decide)).trans rfl)

/-- The argument `main_arg9` at region 1's exit holds what it held at launch. -/
theorem hat4_arg9 : Gen.W4 m ρ c (Proc.devRef .tc main_arg9) = m ((c : Thread nD τ).loc main_arg9) :=
  (Gen.W4_of_ne m ρ c main_arg9 (by decide)).trans ((keepW1 (Gen.W2 m ρ c) main_arg9 (by decide)).trans (hat2_arg9 m ρ c))

/-- The fourth host stretch reads the argument `main_arg9`; at the stretch's start it holds what it held at launch. -/
theorem hwire3_arg9 : Gen.W6 m ρ c (Proc.devRef .tc main_arg9) = m ((c : Thread nD τ).loc main_arg9) :=
  (Gen.W6_of_ne m ρ c main_arg9 (by decide)).trans ((keepW2 (Gen.W4 m ρ c) main_arg9 (by decide)).trans (hat4_arg9 m ρ c))

/-- The argument `main_arg10` at region 0's exit holds what it held at launch. -/
theorem hat2_arg10 : Gen.W2 m ρ c (Proc.devRef .tc main_arg10) = m ((c : Thread nD τ).loc main_arg10) :=
  (Gen.W2_of_ne m ρ c main_arg10 (by decide)).trans ((keepW0 (Gen.W0 m ρ c) main_arg10 (by decide)).trans rfl)

/-- The argument `main_arg10` at region 1's exit holds what it held at launch. -/
theorem hat4_arg10 : Gen.W4 m ρ c (Proc.devRef .tc main_arg10) = m ((c : Thread nD τ).loc main_arg10) :=
  (Gen.W4_of_ne m ρ c main_arg10 (by decide)).trans ((keepW1 (Gen.W2 m ρ c) main_arg10 (by decide)).trans (hat2_arg10 m ρ c))

/-- The fourth host stretch reads the argument `main_arg10`; at the stretch's start it holds what it held at launch. -/
theorem hwire3_arg10 : Gen.W6 m ρ c (Proc.devRef .tc main_arg10) = m ((c : Thread nD τ).loc main_arg10) :=
  (Gen.W6_of_ne m ρ c main_arg10 (by decide)).trans ((keepW2 (Gen.W4 m ρ c) main_arg10 (by decide)).trans (hat4_arg10 m ρ c))

/-- The argument `main_arg18` at region 0's exit holds what it held at launch. -/
theorem hat2_arg18 : Gen.W2 m ρ c (Proc.devRef .tc main_arg18) = m ((c : Thread nD τ).loc main_arg18) :=
  (Gen.W2_of_ne m ρ c main_arg18 (by decide)).trans ((keepW0 (Gen.W0 m ρ c) main_arg18 (by decide)).trans rfl)

/-- The argument `main_arg18` at region 1's exit holds what it held at launch. -/
theorem hat4_arg18 : Gen.W4 m ρ c (Proc.devRef .tc main_arg18) = m ((c : Thread nD τ).loc main_arg18) :=
  (Gen.W4_of_ne m ρ c main_arg18 (by decide)).trans ((keepW1 (Gen.W2 m ρ c) main_arg18 (by decide)).trans (hat2_arg18 m ρ c))

/-- The argument `main_arg18` at region 2's exit holds what it held at launch. -/
theorem hat6_arg18 : Gen.W6 m ρ c (Proc.devRef .tc main_arg18) = m ((c : Thread nD τ).loc main_arg18) :=
  (Gen.W6_of_ne m ρ c main_arg18 (by decide)).trans ((keepW2 (Gen.W4 m ρ c) main_arg18 (by decide)).trans (hat4_arg18 m ρ c))

/-- The fifth host stretch reads the argument `main_arg18`; at the stretch's start it holds what it held at launch. -/
theorem hwire4_arg18 : Gen.W8 m ρ c (Proc.devRef .tc main_arg18) = m ((c : Thread nD τ).loc main_arg18) :=
  (Gen.W8_of_ne m ρ c main_arg18 (by decide)).trans ((keepW3 (Gen.W6 m ρ c) main_arg18 (by decide)).trans (hat6_arg18 m ρ c))

/-- The argument `main_arg19` at region 0's exit holds what it held at launch. -/
theorem hat2_arg19 : Gen.W2 m ρ c (Proc.devRef .tc main_arg19) = m ((c : Thread nD τ).loc main_arg19) :=
  (Gen.W2_of_ne m ρ c main_arg19 (by decide)).trans ((keepW0 (Gen.W0 m ρ c) main_arg19 (by decide)).trans rfl)

/-- The argument `main_arg19` at region 1's exit holds what it held at launch. -/
theorem hat4_arg19 : Gen.W4 m ρ c (Proc.devRef .tc main_arg19) = m ((c : Thread nD τ).loc main_arg19) :=
  (Gen.W4_of_ne m ρ c main_arg19 (by decide)).trans ((keepW1 (Gen.W2 m ρ c) main_arg19 (by decide)).trans (hat2_arg19 m ρ c))

/-- The argument `main_arg19` at region 2's exit holds what it held at launch. -/
theorem hat6_arg19 : Gen.W6 m ρ c (Proc.devRef .tc main_arg19) = m ((c : Thread nD τ).loc main_arg19) :=
  (Gen.W6_of_ne m ρ c main_arg19 (by decide)).trans ((keepW2 (Gen.W4 m ρ c) main_arg19 (by decide)).trans (hat4_arg19 m ρ c))

/-- The fifth host stretch reads the argument `main_arg19`; at the stretch's start it holds what it held at launch. -/
theorem hwire4_arg19 : Gen.W8 m ρ c (Proc.devRef .tc main_arg19) = m ((c : Thread nD τ).loc main_arg19) :=
  (Gen.W8_of_ne m ρ c main_arg19 (by decide)).trans ((keepW3 (Gen.W6 m ρ c) main_arg19 (by decide)).trans (hat6_arg19 m ρ c))

/-- The argument `main_arg20` at region 0's exit holds what it held at launch. -/
theorem hat2_arg20 : Gen.W2 m ρ c (Proc.devRef .tc main_arg20) = m ((c : Thread nD τ).loc main_arg20) :=
  (Gen.W2_of_ne m ρ c main_arg20 (by decide)).trans ((keepW0 (Gen.W0 m ρ c) main_arg20 (by decide)).trans rfl)

/-- The argument `main_arg20` at region 1's exit holds what it held at launch. -/
theorem hat4_arg20 : Gen.W4 m ρ c (Proc.devRef .tc main_arg20) = m ((c : Thread nD τ).loc main_arg20) :=
  (Gen.W4_of_ne m ρ c main_arg20 (by decide)).trans ((keepW1 (Gen.W2 m ρ c) main_arg20 (by decide)).trans (hat2_arg20 m ρ c))

/-- The argument `main_arg20` at region 2's exit holds what it held at launch. -/
theorem hat6_arg20 : Gen.W6 m ρ c (Proc.devRef .tc main_arg20) = m ((c : Thread nD τ).loc main_arg20) :=
  (Gen.W6_of_ne m ρ c main_arg20 (by decide)).trans ((keepW2 (Gen.W4 m ρ c) main_arg20 (by decide)).trans (hat4_arg20 m ρ c))

/-- The argument `main_arg20` at region 3's exit holds what it held at launch. -/
theorem hat8_arg20 : Gen.W8 m ρ c (Proc.devRef .tc main_arg20) = m ((c : Thread nD τ).loc main_arg20) :=
  (Gen.W8_of_ne m ρ c main_arg20 (by decide)).trans ((keepW3 (Gen.W6 m ρ c) main_arg20 (by decide)).trans (hat6_arg20 m ρ c))

/-- The sixth host stretch reads the argument `main_arg20`; at the stretch's start it holds what it held at launch. -/
theorem hwire5_arg20 : Gen.W10 m ρ c (Proc.devRef .tc main_arg20) = m ((c : Thread nD τ).loc main_arg20) :=
  (Gen.W10_of_ne m ρ c main_arg20 (by decide)).trans ((keepW4 (Gen.W8 m ρ c) main_arg20 (by decide)).trans (hat8_arg20 m ρ c))

/-- The argument `main_arg21` at region 0's exit holds what it held at launch. -/
theorem hat2_arg21 : Gen.W2 m ρ c (Proc.devRef .tc main_arg21) = m ((c : Thread nD τ).loc main_arg21) :=
  (Gen.W2_of_ne m ρ c main_arg21 (by decide)).trans ((keepW0 (Gen.W0 m ρ c) main_arg21 (by decide)).trans rfl)

/-- The argument `main_arg21` at region 1's exit holds what it held at launch. -/
theorem hat4_arg21 : Gen.W4 m ρ c (Proc.devRef .tc main_arg21) = m ((c : Thread nD τ).loc main_arg21) :=
  (Gen.W4_of_ne m ρ c main_arg21 (by decide)).trans ((keepW1 (Gen.W2 m ρ c) main_arg21 (by decide)).trans (hat2_arg21 m ρ c))

/-- The argument `main_arg21` at region 2's exit holds what it held at launch. -/
theorem hat6_arg21 : Gen.W6 m ρ c (Proc.devRef .tc main_arg21) = m ((c : Thread nD τ).loc main_arg21) :=
  (Gen.W6_of_ne m ρ c main_arg21 (by decide)).trans ((keepW2 (Gen.W4 m ρ c) main_arg21 (by decide)).trans (hat4_arg21 m ρ c))

/-- The argument `main_arg21` at region 3's exit holds what it held at launch. -/
theorem hat8_arg21 : Gen.W8 m ρ c (Proc.devRef .tc main_arg21) = m ((c : Thread nD τ).loc main_arg21) :=
  (Gen.W8_of_ne m ρ c main_arg21 (by decide)).trans ((keepW3 (Gen.W6 m ρ c) main_arg21 (by decide)).trans (hat6_arg21 m ρ c))

/-- The sixth host stretch reads the argument `main_arg21`; at the stretch's start it holds what it held at launch. -/
theorem hwire5_arg21 : Gen.W10 m ρ c (Proc.devRef .tc main_arg21) = m ((c : Thread nD τ).loc main_arg21) :=
  (Gen.W10_of_ne m ρ c main_arg21 (by decide)).trans ((keepW4 (Gen.W8 m ρ c) main_arg21 (by decide)).trans (hat8_arg21 m ρ c))

/-- The argument `main_arg15` at region 0's exit holds what it held at launch. -/
theorem hat2_arg15 : Gen.W2 m ρ c (Proc.devRef .tc main_arg15) = m ((c : Thread nD τ).loc main_arg15) :=
  (Gen.W2_of_ne m ρ c main_arg15 (by decide)).trans ((keepW0 (Gen.W0 m ρ c) main_arg15 (by decide)).trans rfl)

/-- The argument `main_arg15` at region 1's exit holds what it held at launch. -/
theorem hat4_arg15 : Gen.W4 m ρ c (Proc.devRef .tc main_arg15) = m ((c : Thread nD τ).loc main_arg15) :=
  (Gen.W4_of_ne m ρ c main_arg15 (by decide)).trans ((keepW1 (Gen.W2 m ρ c) main_arg15 (by decide)).trans (hat2_arg15 m ρ c))

/-- The argument `main_arg15` at region 2's exit holds what it held at launch. -/
theorem hat6_arg15 : Gen.W6 m ρ c (Proc.devRef .tc main_arg15) = m ((c : Thread nD τ).loc main_arg15) :=
  (Gen.W6_of_ne m ρ c main_arg15 (by decide)).trans ((keepW2 (Gen.W4 m ρ c) main_arg15 (by decide)).trans (hat4_arg15 m ρ c))

/-- The argument `main_arg15` at region 3's exit holds what it held at launch. -/
theorem hat8_arg15 : Gen.W8 m ρ c (Proc.devRef .tc main_arg15) = m ((c : Thread nD τ).loc main_arg15) :=
  (Gen.W8_of_ne m ρ c main_arg15 (by decide)).trans ((keepW3 (Gen.W6 m ρ c) main_arg15 (by decide)).trans (hat6_arg15 m ρ c))

/-- The argument `main_arg15` at region 4's exit holds what it held at launch. -/
theorem hat10_arg15 : Gen.W10 m ρ c (Proc.devRef .tc main_arg15) = m ((c : Thread nD τ).loc main_arg15) :=
  (Gen.W10_of_ne m ρ c main_arg15 (by decide)).trans ((keepW4 (Gen.W8 m ρ c) main_arg15 (by decide)).trans (hat8_arg15 m ρ c))

/-- The seventh host stretch reads the argument `main_arg15`; at the stretch's start it holds what it held at launch. -/
theorem hwire6_arg15 : Gen.W12 m ρ c (Proc.devRef .tc main_arg15) = m ((c : Thread nD τ).loc main_arg15) :=
  (Gen.W12_of_ne m ρ c main_arg15 (by decide)).trans ((keepW5 (Gen.W10 m ρ c) main_arg15 (by decide)).trans (hat10_arg15 m ρ c))

/-- The argument `main_arg22` at region 0's exit holds what it held at launch. -/
theorem hat2_arg22 : Gen.W2 m ρ c (Proc.devRef .tc main_arg22) = m ((c : Thread nD τ).loc main_arg22) :=
  (Gen.W2_of_ne m ρ c main_arg22 (by decide)).trans ((keepW0 (Gen.W0 m ρ c) main_arg22 (by decide)).trans rfl)

/-- The argument `main_arg22` at region 1's exit holds what it held at launch. -/
theorem hat4_arg22 : Gen.W4 m ρ c (Proc.devRef .tc main_arg22) = m ((c : Thread nD τ).loc main_arg22) :=
  (Gen.W4_of_ne m ρ c main_arg22 (by decide)).trans ((keepW1 (Gen.W2 m ρ c) main_arg22 (by decide)).trans (hat2_arg22 m ρ c))

/-- The argument `main_arg22` at region 2's exit holds what it held at launch. -/
theorem hat6_arg22 : Gen.W6 m ρ c (Proc.devRef .tc main_arg22) = m ((c : Thread nD τ).loc main_arg22) :=
  (Gen.W6_of_ne m ρ c main_arg22 (by decide)).trans ((keepW2 (Gen.W4 m ρ c) main_arg22 (by decide)).trans (hat4_arg22 m ρ c))

/-- The argument `main_arg22` at region 3's exit holds what it held at launch. -/
theorem hat8_arg22 : Gen.W8 m ρ c (Proc.devRef .tc main_arg22) = m ((c : Thread nD τ).loc main_arg22) :=
  (Gen.W8_of_ne m ρ c main_arg22 (by decide)).trans ((keepW3 (Gen.W6 m ρ c) main_arg22 (by decide)).trans (hat6_arg22 m ρ c))

/-- The argument `main_arg22` at region 4's exit holds what it held at launch. -/
theorem hat10_arg22 : Gen.W10 m ρ c (Proc.devRef .tc main_arg22) = m ((c : Thread nD τ).loc main_arg22) :=
  (Gen.W10_of_ne m ρ c main_arg22 (by decide)).trans ((keepW4 (Gen.W8 m ρ c) main_arg22 (by decide)).trans (hat8_arg22 m ρ c))

/-- The seventh host stretch reads the argument `main_arg22`; at the stretch's start it holds what it held at launch. -/
theorem hwire6_arg22 : Gen.W12 m ρ c (Proc.devRef .tc main_arg22) = m ((c : Thread nD τ).loc main_arg22) :=
  (Gen.W12_of_ne m ρ c main_arg22 (by decide)).trans ((keepW5 (Gen.W10 m ρ c) main_arg22 (by decide)).trans (hat10_arg22 m ρ c))

/-- The argument `main_arg23` at region 0's exit holds what it held at launch. -/
theorem hat2_arg23 : Gen.W2 m ρ c (Proc.devRef .tc main_arg23) = m ((c : Thread nD τ).loc main_arg23) :=
  (Gen.W2_of_ne m ρ c main_arg23 (by decide)).trans ((keepW0 (Gen.W0 m ρ c) main_arg23 (by decide)).trans rfl)

/-- The argument `main_arg23` at region 1's exit holds what it held at launch. -/
theorem hat4_arg23 : Gen.W4 m ρ c (Proc.devRef .tc main_arg23) = m ((c : Thread nD τ).loc main_arg23) :=
  (Gen.W4_of_ne m ρ c main_arg23 (by decide)).trans ((keepW1 (Gen.W2 m ρ c) main_arg23 (by decide)).trans (hat2_arg23 m ρ c))

/-- The argument `main_arg23` at region 2's exit holds what it held at launch. -/
theorem hat6_arg23 : Gen.W6 m ρ c (Proc.devRef .tc main_arg23) = m ((c : Thread nD τ).loc main_arg23) :=
  (Gen.W6_of_ne m ρ c main_arg23 (by decide)).trans ((keepW2 (Gen.W4 m ρ c) main_arg23 (by decide)).trans (hat4_arg23 m ρ c))

/-- The argument `main_arg23` at region 3's exit holds what it held at launch. -/
theorem hat8_arg23 : Gen.W8 m ρ c (Proc.devRef .tc main_arg23) = m ((c : Thread nD τ).loc main_arg23) :=
  (Gen.W8_of_ne m ρ c main_arg23 (by decide)).trans ((keepW3 (Gen.W6 m ρ c) main_arg23 (by decide)).trans (hat6_arg23 m ρ c))

/-- The argument `main_arg23` at region 4's exit holds what it held at launch. -/
theorem hat10_arg23 : Gen.W10 m ρ c (Proc.devRef .tc main_arg23) = m ((c : Thread nD τ).loc main_arg23) :=
  (Gen.W10_of_ne m ρ c main_arg23 (by decide)).trans ((keepW4 (Gen.W8 m ρ c) main_arg23 (by decide)).trans (hat8_arg23 m ρ c))

/-- The seventh host stretch reads the argument `main_arg23`; at the stretch's start it holds what it held at launch. -/
theorem hwire6_arg23 : Gen.W12 m ρ c (Proc.devRef .tc main_arg23) = m ((c : Thread nD τ).loc main_arg23) :=
  (Gen.W12_of_ne m ρ c main_arg23 (by decide)).trans ((keepW5 (Gen.W10 m ρ c) main_arg23 (by decide)).trans (hat10_arg23 m ρ c))

/-! ## Output arrays of the region before the stretch -/

/-- The second host stretch reads `main_v65_2`, the array of window 4 of region 0; at the stretch's start it holds what that region's write-backs leave. -/
theorem hwire1_v65_2 : Gen.W2 m ρ c (Proc.devRef .tc main_v65_2)
    = (Gen.dat0 (Gen.V1 m ρ) c).arrAt 4 cfg0.N :=
  Gen.W2_arr m ρ c 4

/-- The second host stretch reads `main_v65_3`, the array of window 5 of region 0; at the stretch's start it holds what that region's write-backs leave. -/
theorem hwire1_v65_3 : Gen.W2 m ρ c (Proc.devRef .tc main_v65_3)
    = (Gen.dat0 (Gen.V1 m ρ) c).arrAt 5 cfg0.N :=
  Gen.W2_arr m ρ c 5

/-- The third host stretch reads `main_v100_1`, the array of window 6 of region 1; at the stretch's start it holds what that region's write-backs leave. -/
theorem hwire2_v100_1 : Gen.W4 m ρ c (Proc.devRef .tc main_v100_1)
    = (Gen.dat1 (Gen.V3 m ρ) c).arrAt 6 cfg1.N :=
  Gen.W4_arr m ρ c 6

/-- The third host stretch reads `main_v100_2`, the array of window 7 of region 1; at the stretch's start it holds what that region's write-backs leave. -/
theorem hwire2_v100_2 : Gen.W4 m ρ c (Proc.devRef .tc main_v100_2)
    = (Gen.dat1 (Gen.V3 m ρ) c).arrAt 7 cfg1.N :=
  Gen.W4_arr m ρ c 7

/-- The fourth host stretch reads `main_v117_0`, the array of window 3 of region 2; at the stretch's start it holds what that region's write-backs leave. -/
theorem hwire3_v117_0 : Gen.W6 m ρ c (Proc.devRef .tc main_v117_0)
    = (Gen.dat2 (Gen.V5 m ρ) c).arrAt 3 cfg2.N :=
  Gen.W6_arr m ρ c 3

/-- The fourth host stretch reads `main_v117_1`, the array of window 4 of region 2; at the stretch's start it holds what that region's write-backs leave. -/
theorem hwire3_v117_1 : Gen.W6 m ρ c (Proc.devRef .tc main_v117_1)
    = (Gen.dat2 (Gen.V5 m ρ) c).arrAt 4 cfg2.N :=
  Gen.W6_arr m ρ c 4

/-- The fifth host stretch reads `main_v139_0`, the array of window 10 of region 3; at the stretch's start it holds what that region's write-backs leave. -/
theorem hwire4_v139_0 : Gen.W8 m ρ c (Proc.devRef .tc main_v139_0)
    = (Gen.dat3 (Gen.V7 m ρ) c).arrAt 10 cfg3.N :=
  Gen.W8_arr m ρ c 10

/-- The fifth host stretch reads `main_v139_1`, the array of window 11 of region 3; at the stretch's start it holds what that region's write-backs leave. -/
theorem hwire4_v139_1 : Gen.W8 m ρ c (Proc.devRef .tc main_v139_1)
    = (Gen.dat3 (Gen.V7 m ρ) c).arrAt 11 cfg3.N :=
  Gen.W8_arr m ρ c 11

/-- The fifth host stretch reads `main_v139_2`, the array of window 12 of region 3; at the stretch's start it holds what that region's write-backs leave. -/
theorem hwire4_v139_2 : Gen.W8 m ρ c (Proc.devRef .tc main_v139_2)
    = (Gen.dat3 (Gen.V7 m ρ) c).arrAt 12 cfg3.N :=
  Gen.W8_arr m ρ c 12

/-- The fifth host stretch reads `main_v139_3`, the array of window 13 of region 3; at the stretch's start it holds what that region's write-backs leave. -/
theorem hwire4_v139_3 : Gen.W8 m ρ c (Proc.devRef .tc main_v139_3)
    = (Gen.dat3 (Gen.V7 m ρ) c).arrAt 13 cfg3.N :=
  Gen.W8_arr m ρ c 13

/-- The sixth host stretch reads `main_v162_1`, the array of window 6 of region 4; at the stretch's start it holds what that region's write-backs leave. -/
theorem hwire5_v162_1 : Gen.W10 m ρ c (Proc.devRef .tc main_v162_1)
    = (Gen.dat4 (Gen.V9 m ρ) c).arrAt 6 cfg4.N :=
  Gen.W10_arr m ρ c 6

/-- The sixth host stretch reads `main_v162_2`, the array of window 7 of region 4; at the stretch's start it holds what that region's write-backs leave. -/
theorem hwire5_v162_2 : Gen.W10 m ρ c (Proc.devRef .tc main_v162_2)
    = (Gen.dat4 (Gen.V9 m ρ) c).arrAt 7 cfg4.N :=
  Gen.W10_arr m ρ c 7

/-- The seventh host stretch reads `main_v179_0`, the array of window 3 of region 5; at the stretch's start it holds what that region's write-backs leave. -/
theorem hwire6_v179_0 : Gen.W12 m ρ c (Proc.devRef .tc main_v179_0)
    = (Gen.dat5 (Gen.V11 m ρ) c).arrAt 3 cfg5.N :=
  Gen.W12_arr m ρ c 3

/-- The seventh host stretch reads `main_v179_1`, the array of window 4 of region 5; at the stretch's start it holds what that region's write-backs leave. -/
theorem hwire6_v179_1 : Gen.W12 m ρ c (Proc.devRef .tc main_v179_1)
    = (Gen.dat5 (Gen.V11 m ρ) c).arrAt 4 cfg5.N :=
  Gen.W12_arr m ρ c 4

/-- The eighth host stretch reads `main_v201`, the array of window 7 of region 6; at the stretch's start it holds what that region's write-backs leave. -/
theorem hwire7_v201 : Gen.W14 m ρ c (Proc.devRef .tc main_v201)
    = (Gen.dat6 (Gen.V13 m ρ) c).arrAt 7 cfg6.N :=
  Gen.W14_arr m ρ c 7

end Cert.KernelIdeal.Val

end
-- ==== Proof.LibRealSimpsAttr.lean ====
/- The name of a simp set: lemmas that merge an operation on coerced reals into one coerced real. -/
import Mathlib.Tactic.Attr.Register

/-- Simp lemmas that rewrite an operation applied to real numbers inside the extended reals into the
    coercion of the real operation (sums, products, differences, quotients by a nonzero real, sines). -/
register_simp_attr real_simps
-- ==== Proof.LibBnReal.lean ====
/- Batch-normalisation statistics of real numbers inside the extended reals.

   A float is an extended real and every operation is exact; distributivity and cancellation fail at the
   infinities, so the lemmas here are about values that ARE reals. Given real sums s = ∑ y and q = ∑ y², a real
   count c > 0 and real γ, β, the quantities
       mean = s / c,   var = q / c − mean · mean,   scale = γ · rsqrt (var + ε),   shift = β − mean · scale
   are the real ones, the variance is nonnegative (Cauchy–Schwarz, also when the count exceeds the number of
   terms: extra zero terms), and rsqrt (var + ε) is a positive real. Also: the float words met as reals, the
   sine of a real, and a simp set that merges operations on coerced reals into one coerced real. -/
import Idealize.ShloMosaic.PureOps.Ideal
import Mathlib.Algebra.Order.Chebyshev
import proofs.«159567_g2000302752657622_pallasbulk_725_3_alg».proof.Proof.LibRealSimpsAttr

noncomputable section

namespace Cert.Lib.BnReal

open Idealize.ShloMosaic
open scoped BigOperators

/-! ### (B3) Real numbers inside the extended reals -/

/-- A sum of two coerced reals is the coerced sum. -/
@[real_simps] theorem coe_add_coe (a b : ℝ) : (a : EReal) + (b : EReal) = ((a + b : ℝ) : EReal) :=
  (EReal.coe_add a b).symm

/-- A product of two coerced reals is the coerced product. -/
@[real_simps] theorem coe_mul_coe (a b : ℝ) : (a : EReal) * (b : EReal) = ((a * b : ℝ) : EReal) :=
  (EReal.coe_mul a b).symm

/-- A difference of two coerced reals is the coerced difference. -/
@[real_simps] theorem coe_sub_coe (a b : ℝ) : (a : EReal) - (b : EReal) = ((a - b : ℝ) : EReal) :=
  (EReal.coe_sub a b).symm

/-- The negative of a coerced real is the coerced negative. -/
@[real_simps] theorem neg_coe (a : ℝ) : -(a : EReal) = ((-a : ℝ) : EReal) :=
  (EReal.coe_neg a).symm

/-- A finite sum of coerced reals is the coerced sum. -/
@[real_simps] theorem sum_coe {α : Type*} (s : Finset α) (f : α → ℝ) :
    ∑ i ∈ s, (f i : EReal) = ((∑ i ∈ s, f i : ℝ) : EReal) := by
  classical
  refine Finset.induction_on s (by simp) ?_
  intro a s ha ih
  rw [Finset.sum_insert ha, Finset.sum_insert ha, EReal.coe_add, ih]

/-- The sine of a real is the real sine. -/
@[real_simps] theorem sin_coe (r : ℝ) : Ideal.sin (r : EReal) = ((Real.sin r : ℝ) : EReal) := rfl

/-- The quotient of a real by a nonzero real is the real quotient. -/
@[real_simps] theorem div_coe_coe (a : ℝ) {b : ℝ} (hb : b ≠ 0) :
    Ideal.div (a : EReal) (b : EReal) = ((a / b : ℝ) : EReal) := by
  rw [Ideal.div_coe hb, ← EReal.coe_mul, mul_one_div]

/-- The reciprocal square root of a positive real is the real one. -/
@[real_simps] theorem rsqrt_coe_pos {v : ℝ} (hv : 0 < v) :
    Ideal.rsqrt (v : EReal) = (((Real.sqrt v)⁻¹ : ℝ) : EReal) := by
  rw [Ideal.rsqrt_coe, if_neg (not_lt.mpr hv.le), if_neg hv.ne']

/-- The sine of an extended real that is a real is a real. -/
theorem exists_real_sin {x : EReal} (hx : ∃ r : ℝ, x = r) : ∃ r : ℝ, Ideal.sin x = r := by
  obtain ⟨a, rfl⟩ := hx
  exact ⟨Real.sin a, rfl⟩

/-- A product of two extended reals that are reals is a real. -/
theorem exists_real_mul {x y : EReal} (hx : ∃ r : ℝ, x = r) (hy : ∃ r : ℝ, y = r) : ∃ r : ℝ, x * y = r := by
  obtain ⟨a, rfl⟩ := hx
  obtain ⟨b, rfl⟩ := hy
  exact ⟨a * b, coe_mul_coe a b⟩

/-- A sum of two extended reals that are reals is a real. -/
theorem exists_real_add {x y : EReal} (hx : ∃ r : ℝ, x = r) (hy : ∃ r : ℝ, y = r) : ∃ r : ℝ, x + y = r := by
  obtain ⟨a, rfl⟩ := hx
  obtain ⟨b, rfl⟩ := hy
  exact ⟨a + b, coe_add_coe a b⟩

/-- A difference of two extended reals that are reals is a real. -/
theorem exists_real_sub {x y : EReal} (hx : ∃ r : ℝ, x = r) (hy : ∃ r : ℝ, y = r) : ∃ r : ℝ, x - y = r := by
  obtain ⟨a, rfl⟩ := hx
  obtain ⟨b, rfl⟩ := hy
  exact ⟨a - b, coe_sub_coe a b⟩

/-- A finite sum of extended reals that are reals is a real. -/
theorem exists_real_sum {α : Type*} (s : Finset α) (Z : α → EReal) (h : ∀ i, ∃ r : ℝ, Z i = r) :
    ∃ r : ℝ, ∑ i ∈ s, Z i = r := by
  choose z hz using h
  exact ⟨∑ i ∈ s, z i, by simp only [hz, sum_coe]⟩

/-! ### The float words met -/

/-- The ε of the normalisation: 10995116 · 2⁻⁴⁰ (about 9.99999974e-6). -/
def eps : ℝ := 10995116 / 1099511627776

/-- ε is positive. -/
theorem eps_pos : 0 < eps := by unfold eps; norm_num

/-- The word 0x3727C5AC denotes ε. -/
theorem ofBits_eps : Ideal.ofBits .f32 0x3727C5AC#32 = ((eps : ℝ) : EReal) := by
  unfold eps
  simp [Ideal.ofBits, Ideal.ieee, -EReal.coe_mul]; norm_num

/-- The word 0x3727C5AC denotes a positive real. -/
theorem exists_eps : ∃ e : ℝ, 0 < e ∧ Ideal.ofBits .f32 0x3727C5AC#32 = e :=
  ⟨eps, eps_pos, ofBits_eps⟩

/-- The word 0x48800000 denotes 262144 = 2¹⁸. -/
theorem ofBits_262144 : Ideal.ofBits .f32 0x48800000#32 = ((262144 : ℝ) : EReal) := by
  simp [Ideal.ofBits, Ideal.ieee, -EReal.coe_mul]; norm_num

/-- The word 0x47800000 denotes 65536 = 2¹⁶. -/
theorem ofBits_65536 : Ideal.ofBits .f32 0x47800000#32 = ((65536 : ℝ) : EReal) := by
  simp [Ideal.ofBits, Ideal.ieee, -EReal.coe_mul]; norm_num

/-! ### (B2) The variance is nonnegative -/

variable {κ : Type*} [Fintype κ]

/-- Cauchy–Schwarz against the constant 1, with a count `c` that may exceed the number of terms: the square of
    the sum is at most `c` times the sum of the squares. -/
theorem sq_sum_le_count_mul_sum_sq (y : κ → ℝ) {c : ℝ} (hcard : (Fintype.card κ : ℝ) ≤ c) :
    (∑ p, y p) ^ 2 ≤ c * ∑ p, y p ^ 2 := by
  have h1 : (∑ p, y p) ^ 2 ≤ (Fintype.card κ : ℝ) * ∑ p, y p ^ 2 := by
    simpa using sq_sum_le_card_mul_sum_sq (s := (Finset.univ : Finset κ)) (f := y)
  have h2 : 0 ≤ ∑ p, y p ^ 2 := Finset.sum_nonneg fun p _ => sq_nonneg _
  exact h1.trans (mul_le_mul_of_nonneg_right hcard h2)

/-- The mean of the squares less the square of the mean is nonnegative, for a count `c > 0` at least the number
    of terms. -/
theorem var_nonneg (y : κ → ℝ) {c : ℝ} (hc : 0 < c) (hcard : (Fintype.card κ : ℝ) ≤ c) :
    0 ≤ (∑ p, y p ^ 2) / c - ((∑ p, y p) / c) ^ 2 := by
  have h := sq_sum_le_count_mul_sum_sq y hcard
  have e : (∑ p, y p ^ 2) / c - ((∑ p, y p) / c) ^ 2
      = (c * ∑ p, y p ^ 2 - (∑ p, y p) ^ 2) / c ^ 2 := by
    field_simp
  rw [e]
  exact div_nonneg (sub_nonneg.mpr h) (by positivity)

/-- The same with squares written as products. -/
theorem var_nonneg' (y : κ → ℝ) {c : ℝ} (hc : 0 < c) (hcard : (Fintype.card κ : ℝ) ≤ c) :
    0 ≤ (∑ p, y p * y p) / c - (∑ p, y p) / c * ((∑ p, y p) / c) := by
  have h := var_nonneg y hc hcard
  simpa only [pow_two] using h

/-! ### (B1) Mean, variance, scale and shift of real sums -/

/-- The mean `s / c` of a real sum over a nonzero real count. -/
theorem mean_real (s : ℝ) {c : ℝ} (hc : c ≠ 0) : Ideal.div (s : EReal) (c : EReal) = ((s / c : ℝ) : EReal) :=
  div_coe_coe s hc

/-- The variance `q / c − mean · mean` of real sums is the real one. -/
theorem var_real (s q : ℝ) {c : ℝ} (hc : c ≠ 0) :
    Ideal.div (q : EReal) (c : EReal) - Ideal.div (s : EReal) (c : EReal) * Ideal.div (s : EReal) (c : EReal)
      = ((q / c - s / c * (s / c) : ℝ) : EReal) := by
  rw [div_coe_coe s hc, div_coe_coe q hc, coe_mul_coe, coe_sub_coe]

/-- The reciprocal square root of a nonnegative real plus a positive real, as a real. -/
theorem rsqrt_add_real {v e : ℝ} (hv : 0 ≤ v) (he : 0 < e) :
    Ideal.rsqrt ((v : EReal) + (e : EReal)) = (((Real.sqrt (v + e))⁻¹ : ℝ) : EReal) := by
  rw [coe_add_coe, rsqrt_coe_pos (by linarith)]

/-- That real is positive. -/
theorem inv_sqrt_add_pos {v e : ℝ} (hv : 0 ≤ v) (he : 0 < e) : 0 < (Real.sqrt (v + e))⁻¹ :=
  inv_pos.mpr (Real.sqrt_pos.mpr (by linarith))

/-- `rsqrt (var + ε)` for a nonnegative real variance and the ε word: a positive real. -/
theorem rsqrt_var_eps {v : ℝ} (hv : 0 ≤ v) :
    Ideal.rsqrt ((v : EReal) + Ideal.ofBits .f32 0x3727C5AC#32) = (((Real.sqrt (v + eps))⁻¹ : ℝ) : EReal) := by
  rw [ofBits_eps, rsqrt_add_real hv eps_pos]

/-- (B1) With real sums `s`, `q`, a real count `c > 0`, real `γ`, `β` and a nonnegative variance
    `v = q / c − (s / c) · (s / c)`: `r = rsqrt (var + ε)` is a positive real, and `scale = γ · r` and
    `shift = β − mean · scale` are the real ones. -/
theorem bn_real (s q γ β : ℝ) {c : ℝ} (hc : 0 < c) (hv : 0 ≤ q / c - s / c * (s / c)) :
    ∃ r : ℝ, 0 < r ∧ r = (Real.sqrt (q / c - s / c * (s / c) + eps))⁻¹ ∧
      Ideal.rsqrt (Ideal.div (q : EReal) (c : EReal)
          - Ideal.div (s : EReal) (c : EReal) * Ideal.div (s : EReal) (c : EReal)
          + Ideal.ofBits .f32 0x3727C5AC#32) = (r : EReal) ∧
      (γ : EReal) * Ideal.rsqrt (Ideal.div (q : EReal) (c : EReal)
          - Ideal.div (s : EReal) (c : EReal) * Ideal.div (s : EReal) (c : EReal)
          + Ideal.ofBits .f32 0x3727C5AC#32) = ((γ * r : ℝ) : EReal) ∧
      (β : EReal) - Ideal.div (s : EReal) (c : EReal) * ((γ : EReal) * Ideal.rsqrt (Ideal.div (q : EReal) (c : EReal)
          - Ideal.div (s : EReal) (c : EReal) * Ideal.div (s : EReal) (c : EReal)
          + Ideal.ofBits .f32 0x3727C5AC#32)) = ((β - s / c * (γ * r) : ℝ) : EReal) := by
  have hr : Ideal.rsqrt (Ideal.div (q : EReal) (c : EReal)
      - Ideal.div (s : EReal) (c : EReal) * Ideal.div (s : EReal) (c : EReal)
      + Ideal.ofBits .f32 0x3727C5AC#32) = (((Real.sqrt (q / c - s / c * (s / c) + eps))⁻¹ : ℝ) : EReal) := by
    rw [var_real s q hc.ne', rsqrt_var_eps hv]
  refine ⟨_, inv_sqrt_add_pos hv eps_pos, rfl, hr, ?_, ?_⟩
  · rw [hr, coe_mul_coe]
  · rw [hr, mean_real s hc.ne', coe_mul_coe, coe_mul_coe, coe_sub_coe]

/-- The real scale `γ · (√(var + ε))⁻¹` with `var = q / c − (s / c) · (s / c)`. -/
def scaleR (c s q γ : ℝ) : ℝ := γ * (Real.sqrt (q / c - s / c * (s / c) + eps))⁻¹

/-- The real shift `β − mean · scale` with `mean = s / c`. -/
def shiftR (c s q γ β : ℝ) : ℝ := β - s / c * scaleR c s q γ

/-- (B1) as an equation: the scale `γ · rsqrt (var + ε)` is the real `scaleR c s q γ`. -/
theorem scale_real (s q γ : ℝ) {c : ℝ} (hc : 0 < c) (hv : 0 ≤ q / c - s / c * (s / c)) :
    (γ : EReal) * Ideal.rsqrt (Ideal.div (q : EReal) (c : EReal)
        - Ideal.div (s : EReal) (c : EReal) * Ideal.div (s : EReal) (c : EReal)
        + Ideal.ofBits .f32 0x3727C5AC#32) = ((scaleR c s q γ : ℝ) : EReal) := by
  obtain ⟨r, -, hr, -, h2, -⟩ := bn_real s q γ 0 hc hv
  rw [h2, hr, scaleR]

/-- (B1) as an equation: the shift `β − mean · scale` is the real `shiftR c s q γ β`. -/
theorem shift_real (s q γ β : ℝ) {c : ℝ} (hc : 0 < c) (hv : 0 ≤ q / c - s / c * (s / c)) :
    (β : EReal) - Ideal.div (s : EReal) (c : EReal) * ((γ : EReal) * Ideal.rsqrt (Ideal.div (q : EReal) (c : EReal)
        - Ideal.div (s : EReal) (c : EReal) * Ideal.div (s : EReal) (c : EReal)
        + Ideal.ofBits .f32 0x3727C5AC#32)) = ((shiftR c s q γ β : ℝ) : EReal) := by
  obtain ⟨r, -, hr, -, -, h3⟩ := bn_real s q γ β hc hv
  rw [h3, hr, shiftR, scaleR]

/-- (B1) for extended reals that are reals: if `S`, `Q`, `Γ`, `B` are reals, `C` a positive real and the
    variance `Q / C − (S / C) · (S / C)` is nonnegative, then `rsqrt (var + ε)` is a positive real and the scale
    `Γ · rsqrt (var + ε)` and the shift `B − mean · scale` are reals. -/
theorem bn_exists_real {S Q C Γ B : EReal} (hS : ∃ r : ℝ, S = r) (hQ : ∃ r : ℝ, Q = r)
    (hC : ∃ c : ℝ, 0 < c ∧ C = c) (hΓ : ∃ r : ℝ, Γ = r) (hB : ∃ r : ℝ, B = r)
    (hv : 0 ≤ Ideal.div Q C - Ideal.div S C * Ideal.div S C) :
    (∃ r : ℝ, 0 < r ∧ Ideal.rsqrt (Ideal.div Q C - Ideal.div S C * Ideal.div S C
        + Ideal.ofBits .f32 0x3727C5AC#32) = r) ∧
    (∃ a : ℝ, Γ * Ideal.rsqrt (Ideal.div Q C - Ideal.div S C * Ideal.div S C
        + Ideal.ofBits .f32 0x3727C5AC#32) = a) ∧
    (∃ b : ℝ, B - Ideal.div S C * (Γ * Ideal.rsqrt (Ideal.div Q C - Ideal.div S C * Ideal.div S C
        + Ideal.ofBits .f32 0x3727C5AC#32)) = b) := by
  obtain ⟨s, rfl⟩ := hS
  obtain ⟨q, rfl⟩ := hQ
  obtain ⟨c, hc, rfl⟩ := hC
  obtain ⟨γ, rfl⟩ := hΓ
  obtain ⟨β, rfl⟩ := hB
  rw [var_real s q hc.ne', EReal.coe_nonneg] at hv
  obtain ⟨r, hr0, -, h1, h2, h3⟩ := bn_real s q γ β hc hv
  exact ⟨⟨r, hr0, h1⟩, ⟨_, h2⟩, ⟨_, h3⟩⟩

/-- (B2) inside the extended reals: for real entries `y` and a real count `c > 0` at least the number of
    terms, the variance `(∑ y·y) / c − (∑ y) / c · ((∑ y) / c)` is a nonnegative real. -/
theorem var_nonneg_coe (y : κ → ℝ) {c : ℝ} (hc : 0 < c) (hcard : (Fintype.card κ : ℝ) ≤ c) :
    ∃ v : ℝ, 0 ≤ v ∧
      Ideal.div (∑ p, (y p : EReal) * (y p : EReal)) (c : EReal)
        - Ideal.div (∑ p, (y p : EReal)) (c : EReal) * Ideal.div (∑ p, (y p : EReal)) (c : EReal) = (v : EReal) := by
  refine ⟨_, var_nonneg' y hc hcard, ?_⟩
  simp only [coe_mul_coe, sum_coe]
  exact var_real _ _ hc.ne'

/-- (B2) for extended-real entries that are reals. -/
theorem var_nonneg_of_real (Y : κ → EReal) (hY : ∀ p, ∃ r : ℝ, Y p = r) {c : ℝ} (hc : 0 < c)
    (hcard : (Fintype.card κ : ℝ) ≤ c) :
    ∃ v : ℝ, 0 ≤ v ∧
      Ideal.div (∑ p, Y p * Y p) (c : EReal)
        - Ideal.div (∑ p, Y p) (c : EReal) * Ideal.div (∑ p, Y p) (c : EReal) = (v : EReal) := by
  choose y hy using hY
  simp only [hy]
  exact var_nonneg_coe y hc hcard

end Cert.Lib.BnReal

end
-- ==== Proof.LibBnChain.lean ====
/- The batch-normalisation chain on a column of channel sums, defined once.

   From the per-channel sums `s` (of the entries) and `q` (of their squares), a count given by a float word, and
   the columns `γ`, `β`:
       mean = s / cnt,   var = q / cnt − mean · mean,   inv = rsqrt (var + ε),
       scale = γ · inv,  shift = β − mean · scale,
   every step the host's elementwise operation on arrays of one shape, the count and ε scalars broadcast to that
   shape. The functions are stated over any float instance; at the extended reals each entry of `scale` and
   `shift` reads as the scalar expression, and when the entries of `s`, `q`, `γ`, `β` are reals and the variance is
   nonnegative they are the real scale and shift. -/
import Idealize.ShloMosaic.PureOps
import Idealize.ShloMosaic.PureOps.Ideal
import proofs.«159567_g2000302752657622_pallasbulk_725_3_alg».proof.Proof.LibBnReal

noncomputable section

namespace Cert.Lib.BnChain

open Idealize.ShloMosaic
open Cert.Lib.BnReal

/-- The shape of a scalar. -/
abbrev S0 : Shape := ⟨0, ![]⟩

section Defs

variable {F : FTy → Type} [FloatOps F]

/-- The scalar of word `w` broadcast to shape `S`. -/
def bnSplat (S : Shape) (h : S0.BroadcastsInDim S (![] : Fin 0 → Fin S.rank)) (w : BitVec 32) : FVec F S .f32 :=
  broadcastInDim S ![] h (constant S0 .f32 w)

/-- The mean column: the sums over the count. -/
def bnMean (S : Shape) (h : S0.BroadcastsInDim S (![] : Fin 0 → Fin S.rank)) (w : BitVec 32)
    (s : FVec F S .f32) : FVec F S .f32 :=
  Host.divf s (bnSplat S h w)

/-- The variance column: the mean of the squares less the square of the mean. -/
def bnVar (S : Shape) (h : S0.BroadcastsInDim S (![] : Fin 0 → Fin S.rank)) (w : BitVec 32)
    (s q : FVec F S .f32) : FVec F S .f32 :=
  subf (Host.divf q (bnSplat S h w)) (mulf (bnMean S h w s) (bnMean S h w s))

/-- The reciprocal standard deviation column: `rsqrt (var + ε)`. -/
def bnInv (S : Shape) (h : S0.BroadcastsInDim S (![] : Fin 0 → Fin S.rank)) (w : BitVec 32)
    (s q : FVec F S .f32) : FVec F S .f32 :=
  Host.rsqrt (addf (bnVar S h w s q) (bnSplat S h 0x3727C5AC#32))

/-- The scale column: `γ · rsqrt (var + ε)`. -/
def bnScale (S : Shape) (h : S0.BroadcastsInDim S (![] : Fin 0 → Fin S.rank)) (w : BitVec 32)
    (s q γ : FVec F S .f32) : FVec F S .f32 :=
  mulf γ (bnInv S h w s q)

/-- The shift column: `β − mean · scale`. -/
def bnShift (S : Shape) (h : S0.BroadcastsInDim S (![] : Fin 0 → Fin S.rank)) (w : BitVec 32)
    (s q γ β : FVec F S .f32) : FVec F S .f32 :=
  subf β (mulf (bnMean S h w s) (bnScale S h w s q γ))

end Defs

section Readings

variable (S : Shape) (h : S0.BroadcastsInDim S (![] : Fin 0 → Fin S.rank)) (w : BitVec 32)

/-- A broadcast scalar reads the scalar's value at every index. -/
theorem bnSplat_apply (i : S.Idx) : bnSplat (F := Ideal) S h w i = Ideal.ofBits .f32 w := rfl

/-- The mean at an index. -/
theorem bnMean_apply (s : S.Idx → EReal) (i : S.Idx) :
    bnMean (F := Ideal) S h w s i = Ideal.div (s i) (Ideal.ofBits .f32 w) := rfl

/-- The variance at an index. -/
theorem bnVar_apply (s q : S.Idx → EReal) (i : S.Idx) :
    bnVar (F := Ideal) S h w s q i
      = Ideal.div (q i) (Ideal.ofBits .f32 w)
        - Ideal.div (s i) (Ideal.ofBits .f32 w) * Ideal.div (s i) (Ideal.ofBits .f32 w) := rfl

/-- The reciprocal standard deviation at an index. -/
theorem bnInv_apply (s q : S.Idx → EReal) (i : S.Idx) :
    bnInv (F := Ideal) S h w s q i
      = Ideal.rsqrt (Ideal.div (q i) (Ideal.ofBits .f32 w)
        - Ideal.div (s i) (Ideal.ofBits .f32 w) * Ideal.div (s i) (Ideal.ofBits .f32 w)
        + Ideal.ofBits .f32 0x3727C5AC#32) := rfl

/-- The scale at an index. -/
theorem bnScale_apply (s q γ : S.Idx → EReal) (i : S.Idx) :
    bnScale (F := Ideal) S h w s q γ i
      = γ i * Ideal.rsqrt (Ideal.div (q i) (Ideal.ofBits .f32 w)
        - Ideal.div (s i) (Ideal.ofBits .f32 w) * Ideal.div (s i) (Ideal.ofBits .f32 w)
        + Ideal.ofBits .f32 0x3727C5AC#32) := rfl

/-- The shift at an index. -/
theorem bnShift_apply (s q γ β : S.Idx → EReal) (i : S.Idx) :
    bnShift (F := Ideal) S h w s q γ β i
      = β i - Ideal.div (s i) (Ideal.ofBits .f32 w) * (γ i * Ideal.rsqrt (Ideal.div (q i) (Ideal.ofBits .f32 w)
        - Ideal.div (s i) (Ideal.ofBits .f32 w) * Ideal.div (s i) (Ideal.ofBits .f32 w)
        + Ideal.ofBits .f32 0x3727C5AC#32)) := rfl

/-- The shift at an index through the scale at that index. -/
theorem bnShift_apply_scale (s q γ β : S.Idx → EReal) (i : S.Idx) :
    bnShift (F := Ideal) S h w s q γ β i
      = β i - Ideal.div (s i) (Ideal.ofBits .f32 w) * bnScale (F := Ideal) S h w s q γ i := rfl

end Readings

section Real

variable (S : Shape) (h : S0.BroadcastsInDim S (![] : Fin 0 → Fin S.rank)) {w : BitVec 32}

/-- With a count word denoting the real `c > 0`, real entries `s i = s₀`, `q i = q₀`, `γ i = γ₀` and a
    nonnegative variance, the scale at `i` is the real scale. -/
theorem bnScale_real {c : ℝ} (hc : 0 < c) (hw : Ideal.ofBits .f32 w = (c : EReal))
    (s q γ : S.Idx → EReal) (i : S.Idx) {s₀ q₀ γ₀ : ℝ} (hs : s i = s₀) (hq : q i = q₀) (hγ : γ i = γ₀)
    (hv : 0 ≤ q₀ / c - s₀ / c * (s₀ / c)) :
    bnScale (F := Ideal) S h w s q γ i = ((scaleR c s₀ q₀ γ₀ : ℝ) : EReal) := by
  rw [bnScale_apply, hw, hs, hq, hγ, scale_real s₀ q₀ γ₀ hc hv]

/-- Likewise the shift at `i` is the real shift. -/
theorem bnShift_real {c : ℝ} (hc : 0 < c) (hw : Ideal.ofBits .f32 w = (c : EReal))
    (s q γ β : S.Idx → EReal) (i : S.Idx) {s₀ q₀ γ₀ β₀ : ℝ} (hs : s i = s₀) (hq : q i = q₀) (hγ : γ i = γ₀)
    (hβ : β i = β₀) (hv : 0 ≤ q₀ / c - s₀ / c * (s₀ / c)) :
    bnShift (F := Ideal) S h w s q γ β i = ((shiftR c s₀ q₀ γ₀ β₀ : ℝ) : EReal) := by
  rw [bnShift_apply, hw, hs, hq, hγ, hβ, shift_real s₀ q₀ γ₀ β₀ hc hv]

/-- The scale at `i` is a real when the entries at `i` are reals and the variance is nonnegative. -/
theorem bnScale_exists_real {c : ℝ} (hc : 0 < c) (hw : Ideal.ofBits .f32 w = (c : EReal))
    (s q γ : S.Idx → EReal) (i : S.Idx) {s₀ q₀ : ℝ} (hs : s i = s₀) (hq : q i = q₀) (hγ : ∃ r : ℝ, γ i = r)
    (hv : 0 ≤ q₀ / c - s₀ / c * (s₀ / c)) :
    ∃ r : ℝ, bnScale (F := Ideal) S h w s q γ i = r := by
  obtain ⟨γ₀, hγ⟩ := hγ
  exact ⟨_, bnScale_real S h hc hw s q γ i hs hq hγ hv⟩

/-- The shift at `i` is a real when the entries at `i` are reals and the variance is nonnegative. -/
theorem bnShift_exists_real {c : ℝ} (hc : 0 < c) (hw : Ideal.ofBits .f32 w = (c : EReal))
    (s q γ β : S.Idx → EReal) (i : S.Idx) {s₀ q₀ : ℝ} (hs : s i = s₀) (hq : q i = q₀) (hγ : ∃ r : ℝ, γ i = r)
    (hβ : ∃ r : ℝ, β i = r) (hv : 0 ≤ q₀ / c - s₀ / c * (s₀ / c)) :
    ∃ r : ℝ, bnShift (F := Ideal) S h w s q γ β i = r := by
  obtain ⟨γ₀, hγ⟩ := hγ
  obtain ⟨β₀, hβ⟩ := hβ
  exact ⟨_, bnShift_real S h hc hw s q γ β i hs hq hγ hβ hv⟩

/-- The scale with the count word of 65536. -/
theorem bnScale_real_65536 (s q γ : S.Idx → EReal) (i : S.Idx) {s₀ q₀ γ₀ : ℝ} (hs : s i = s₀) (hq : q i = q₀)
    (hγ : γ i = γ₀) (hv : 0 ≤ q₀ / 65536 - s₀ / 65536 * (s₀ / 65536)) :
    bnScale (F := Ideal) S h 0x47800000#32 s q γ i = ((scaleR 65536 s₀ q₀ γ₀ : ℝ) : EReal) :=
  bnScale_real S h (by norm_num) ofBits_65536 s q γ i hs hq hγ hv

/-- The shift with the count word of 65536. -/
theorem bnShift_real_65536 (s q γ β : S.Idx → EReal) (i : S.Idx) {s₀ q₀ γ₀ β₀ : ℝ} (hs : s i = s₀) (hq : q i = q₀)
    (hγ : γ i = γ₀) (hβ : β i = β₀) (hv : 0 ≤ q₀ / 65536 - s₀ / 65536 * (s₀ / 65536)) :
    bnShift (F := Ideal) S h 0x47800000#32 s q γ β i = ((shiftR 65536 s₀ q₀ γ₀ β₀ : ℝ) : EReal) :=
  bnShift_real S h (by norm_num) ofBits_65536 s q γ β i hs hq hγ hβ hv

/-- The scale with the count word of 262144. -/
theorem bnScale_real_262144 (s q γ : S.Idx → EReal) (i : S.Idx) {s₀ q₀ γ₀ : ℝ} (hs : s i = s₀) (hq : q i = q₀)
    (hγ : γ i = γ₀) (hv : 0 ≤ q₀ / 262144 - s₀ / 262144 * (s₀ / 262144)) :
    bnScale (F := Ideal) S h 0x48800000#32 s q γ i = ((scaleR 262144 s₀ q₀ γ₀ : ℝ) : EReal) :=
  bnScale_real S h (by norm_num) ofBits_262144 s q γ i hs hq hγ hv

/-- The shift with the count word of 262144. -/
theorem bnShift_real_262144 (s q γ β : S.Idx → EReal) (i : S.Idx) {s₀ q₀ γ₀ β₀ : ℝ} (hs : s i = s₀) (hq : q i = q₀)
    (hγ : γ i = γ₀) (hβ : β i = β₀) (hv : 0 ≤ q₀ / 262144 - s₀ / 262144 * (s₀ / 262144)) :
    bnShift (F := Ideal) S h 0x48800000#32 s q γ β i = ((shiftR 262144 s₀ q₀ γ₀ β₀ : ℝ) : EReal) :=
  bnShift_real S h (by norm_num) ofBits_262144 s q γ β i hs hq hγ hβ hv

end Real

end Cert.Lib.BnChain

end
-- ==== Proof.LibUninterleave.lean ====
import Idealize.ShloMosaic.Lib.ValueLayout
import Idealize.ShloMosaic.Lib.IdealHost

noncomputable section

namespace Cert.Lib.Unint

open Idealize.ShloMosaic Idealize.ShloMosaic.ValueIdx
open scoped BigOperators

/-! ## The lane permutation of the un-interleaving

A 64 × 64 image is kept phase-major: lane `(2a + b)·1024 + h·32 + w` holds the pixel at row `2h + a`, column `2w + b`
(`a, b < 2` the phase, `h, w < 32` the position within the phase). Spatial row-major order puts that pixel at lane
`(2h + a)·64 + (2w + b)`. `laneSrc` sends a spatial lane to the phase-major lane holding its pixel. -/

/-- The phase-major lane of the pixel at spatial lane `L = (2h + a)·64 + (2w + b)`: `(2a + b)·1024 + h·32 + w`. -/
def laneSrc (L : Fin 4096) : Fin 4096 :=
  ⟨(2 * (L.val / 64 % 2) + L.val % 2) * 1024 + L.val / 128 * 32 + L.val % 64 / 2, by have := L.isLt; omega⟩

/-- The spatial lane of the pixel at phase-major lane `M = (2a + b)·1024 + h·32 + w`: `(2h + a)·64 + (2w + b)`. -/
def laneDst (M : Fin 4096) : Fin 4096 :=
  ⟨(2 * (M.val % 1024 / 32) + M.val / 2048) * 64 + 2 * (M.val % 32) + M.val / 1024 % 2, by have := M.isLt; omega⟩

theorem laneSrc_val (L : Fin 4096) :
    (laneSrc L).val = (2 * (L.val / 64 % 2) + L.val % 2) * 1024 + L.val / 128 * 32 + L.val % 64 / 2 := rfl

theorem laneDst_val (M : Fin 4096) :
    (laneDst M).val = (2 * (M.val % 1024 / 32) + M.val / 2048) * 64 + 2 * (M.val % 32) + M.val / 1024 % 2 := rfl

/-- The four coordinates of a spatial lane `L = (2h + a)·64 + (2w + b)`, read off `L` by division. -/
theorem lane_coords (L : ℕ) (hL : L < 4096) :
    L = (2 * (L / 128) + L / 64 % 2) * 64 + (2 * (L % 64 / 2) + L % 2) ∧ L / 128 < 32 ∧ L / 64 % 2 < 2 ∧ L % 64 / 2 < 32 ∧ L % 2 < 2 := by
  have e1 : L / 64 = 2 * (L / 128) + L / 64 % 2 := by omega
  have e2 : L % 64 = 2 * (L % 64 / 2) + L % 2 := by omega
  refine ⟨?_, by omega, by omega, by omega, by omega⟩
  omega

/-- Division reads the coordinates back off a spatial lane. -/
theorem spatial_div (h a w b : ℕ) (hh : h < 32) (ha : a < 2) (hw : w < 32) (hb : b < 2) :
    ((2 * h + a) * 64 + (2 * w + b)) / 128 = h ∧ ((2 * h + a) * 64 + (2 * w + b)) / 64 % 2 = a
      ∧ ((2 * h + a) * 64 + (2 * w + b)) % 64 / 2 = w ∧ ((2 * h + a) * 64 + (2 * w + b)) % 2 = b := by
  have q : ((2 * h + a) * 64 + (2 * w + b)) / 64 = 2 * h + a := by omega
  have r : ((2 * h + a) * 64 + (2 * w + b)) % 64 = 2 * w + b := by omega
  refine ⟨by omega, ?_, ?_, by omega⟩
  · rw [q]; omega
  · rw [r]; omega

/-- Division reads the coordinates back off a phase-major lane. -/
theorem phase_div (h a w b : ℕ) (hh : h < 32) (ha : a < 2) (hw : w < 32) (hb : b < 2) :
    ((2 * a + b) * 1024 + h * 32 + w) % 1024 / 32 = h ∧ ((2 * a + b) * 1024 + h * 32 + w) / 2048 = a
      ∧ ((2 * a + b) * 1024 + h * 32 + w) % 32 = w ∧ ((2 * a + b) * 1024 + h * 32 + w) / 1024 % 2 = b := by
  have q : ((2 * a + b) * 1024 + h * 32 + w) / 1024 = 2 * a + b := by omega
  have r : ((2 * a + b) * 1024 + h * 32 + w) % 1024 = h * 32 + w := by omega
  refine ⟨?_, by omega, by omega, ?_⟩
  · rw [r]; omega
  · rw [q]; omega

/-- The four coordinates of a phase-major lane `M = (2a + b)·1024 + h·32 + w`, read off `M` by division. -/
theorem phase_coords (M : ℕ) (hM : M < 4096) :
    M = (2 * (M / 2048) + M / 1024 % 2) * 1024 + M % 1024 / 32 * 32 + M % 32
      ∧ M % 1024 / 32 < 32 ∧ M / 2048 < 2 ∧ M % 32 < 32 ∧ M / 1024 % 2 < 2 := by
  have e1 : M / 1024 = 2 * (M / 2048) + M / 1024 % 2 := by omega
  have e2 : M % 1024 = M % 1024 / 32 * 32 + M % 32 := by omega
  refine ⟨?_, by omega, by omega, by omega, by omega⟩
  omega

/-- The lane permutation is a bijection of the 4096 lanes. -/
def lanePerm : Fin 4096 ≃ Fin 4096 where
  toFun := laneSrc
  invFun := laneDst
  left_inv L := by
    obtain ⟨e, hh, ha, hw, hb⟩ := lane_coords L.val L.isLt
    obtain ⟨p1, p2, p3, p4⟩ := phase_div _ _ _ _ hh ha hw hb
    apply Fin.ext
    rw [laneDst_val, laneSrc_val, p1, p2, p3, p4]
    omega
  right_inv M := by
    obtain ⟨e, hh, ha, hw, hb⟩ := phase_coords M.val M.isLt
    obtain ⟨p1, p2, p3, p4⟩ := spatial_div _ _ _ _ hh ha hw hb
    apply Fin.ext
    rw [laneSrc_val, laneDst_val]
    rw [show (2 * (M.val % 1024 / 32) + M.val / 2048) * 64 + 2 * (M.val % 32) + M.val / 1024 % 2
        = (2 * (M.val % 1024 / 32) + M.val / 2048) * 64 + (2 * (M.val % 32) + M.val / 1024 % 2) by omega]
    rw [p1, p2, p3, p4]
    omega

theorem lanePerm_apply (L : Fin 4096) : lanePerm L = laneSrc L := rfl

theorem lanePerm_symm_apply (M : Fin 4096) : lanePerm.symm M = laneDst M := rfl

/-- In coordinates: spatial lane `(2h + a)·64 + (2w + b)` reads phase-major lane `(2a + b)·1024 + h·32 + w`. -/
theorem lanePerm_coords (h w : Fin 32) (a b : Fin 2) (L : Fin 4096) (hL : L.val = (2 * h.val + a.val) * 64 + (2 * w.val + b.val)) :
    (lanePerm L).val = (2 * a.val + b.val) * 1024 + h.val * 32 + w.val := by
  obtain ⟨p1, p2, p3, p4⟩ := spatial_div _ _ _ _ h.isLt a.isLt w.isLt b.isLt
  rw [lanePerm_apply, laneSrc_val, hL, p1, p2, p3, p4]

/-- A sum over the lanes does not change when the lanes are permuted. -/
theorem sum_lanePerm {M : Type*} [AddCommMonoid M] (f : Fin 4096 → M) : ∑ L, f (lanePerm L) = ∑ L, f L :=
  Equiv.sum_comp lanePerm f

/-! ## The un-interleaving chain read at an index

`reshape [N, C, 4096] → [N, C, 2, 2, 32, 32]`, `transpose (0, 1, 4, 2, 5, 3) → [N, C, 32, 2, 32, 2]`,
`reshape → [N, C, 4096]`: the result at `(n, c, L)` is the operand at `(n, c, lanePerm L)`. -/

theorem unint_apply {N C : ℕ} {α : Type} (x : (⟨3, ![N, C, 4096]⟩ : Shape).Idx → α)
    (h1 : (⟨3, ![N, C, 4096]⟩ : Shape).ShapeCasts ⟨6, ![N, C, 2, 2, 32, 32]⟩)
    (h2 : (⟨6, ![N, C, 2, 2, 32, 32]⟩ : Shape).Transposes [0, 1, 4, 2, 5, 3] ⟨6, ![N, C, 32, 2, 32, 2]⟩)
    (h3 : (⟨6, ![N, C, 32, 2, 32, 2]⟩ : Shape).ShapeCasts ⟨3, ![N, C, 4096]⟩)
    (n : Fin N) (c : Fin C) (L : Fin 4096) :
    shapeCast ⟨3, ![N, C, 4096]⟩
        (transpose ⟨6, ![N, C, 32, 2, 32, 2]⟩ [0, 1, 4, 2, 5, 3] (shapeCast ⟨6, ![N, C, 2, 2, 32, 32]⟩ x h1) h2) h3 (ix3 n c L)
      = x (ix3 n c (lanePerm L)) := by
  have hL := L.isLt
  -- the last reshape: [N, C, 4096] at (n, c, L) reads [N, C, 32, 2, 32, 2] at (n, c, h, a, w, b), L = ((h·2 + a)·32 + w)·2 + b
  refine (shapeCast_apply _ _ _
    (ix6 n c (⟨L.val / 128, by omega⟩ : Fin 32) (⟨L.val / 64 % 2, by omega⟩ : Fin 2)
      (⟨L.val % 64 / 2, by omega⟩ : Fin 32) (⟨L.val % 2, by omega⟩ : Fin 2))
    (by rw [Shape.rowMajor_val_six, Shape.rowMajor_val_three]
        show ((((n.val * C + c.val) * 32 + L.val / 128) * 2 + L.val / 64 % 2) * 32 + L.val % 64 / 2) * 2 + L.val % 2
          = (n.val * C + c.val) * 4096 + L.val
        omega)).trans ?_
  -- the transpose: result axes (n, c, h, a, w, b) are source axes 0, 1, 4, 2, 5, 3, so the source index is (n, c, a, b, h, w)
  refine (transpose_apply _ _ _ _
    (ix6 n c (⟨L.val / 64 % 2, by omega⟩ : Fin 2) (⟨L.val % 2, by omega⟩ : Fin 2)
      (⟨L.val / 128, by omega⟩ : Fin 32) (⟨L.val % 64 / 2, by omega⟩ : Fin 32))
    (fun b => match b with
      | ⟨0, _⟩ => rfl | ⟨1, _⟩ => rfl | ⟨2, _⟩ => rfl | ⟨3, _⟩ => rfl | ⟨4, _⟩ => rfl | ⟨5, _⟩ => rfl)).trans ?_
  -- the first reshape: [N, C, 2, 2, 32, 32] at (n, c, a, b, h, w) reads [N, C, 4096] at lane ((a·2 + b)·32 + h)·32 + w
  exact shapeCast_apply _ _ _ _
    (by rw [Shape.rowMajor_val_three, Shape.rowMajor_val_six]
        show (n.val * C + c.val) * 4096 + ((2 * (L.val / 64 % 2) + L.val % 2) * 1024 + L.val / 128 * 32 + L.val % 64 / 2)
          = ((((n.val * C + c.val) * 2 + L.val / 64 % 2) * 2 + L.val % 2) * 32 + L.val / 128) * 32 + L.val % 64 / 2
        omega)

/-- The un-interleaved array: at `(n, c, L)` the operand at `(n, c, lanePerm L)`. -/
def unint {N C : ℕ} {α : Type} (x : (⟨3, ![N, C, 4096]⟩ : Shape).Idx → α) : (⟨3, ![N, C, 4096]⟩ : Shape).Idx → α :=
  fun i => x (ix3 (i 0) (i 1) (lanePerm (i 2)))

theorem unint_ix3 {N C : ℕ} {α : Type} (x : (⟨3, ![N, C, 4096]⟩ : Shape).Idx → α) (n : Fin N) (c : Fin C) (L : Fin 4096) :
    unint x (ix3 n c L) = x (ix3 n c (lanePerm L)) := rfl

/-- The chain of the three layout operations is the un-interleaving, as whole arrays. -/
theorem unint_eq {N C : ℕ} {α : Type} (x : (⟨3, ![N, C, 4096]⟩ : Shape).Idx → α)
    (h1 : (⟨3, ![N, C, 4096]⟩ : Shape).ShapeCasts ⟨6, ![N, C, 2, 2, 32, 32]⟩)
    (h2 : (⟨6, ![N, C, 2, 2, 32, 32]⟩ : Shape).Transposes [0, 1, 4, 2, 5, 3] ⟨6, ![N, C, 32, 2, 32, 2]⟩)
    (h3 : (⟨6, ![N, C, 32, 2, 32, 2]⟩ : Shape).ShapeCasts ⟨3, ![N, C, 4096]⟩) :
    shapeCast ⟨3, ![N, C, 4096]⟩
        (transpose ⟨6, ![N, C, 32, 2, 32, 2]⟩ [0, 1, 4, 2, 5, 3] (shapeCast ⟨6, ![N, C, 2, 2, 32, 32]⟩ x h1) h2) h3
      = unint x := by
  funext i
  obtain ⟨n, c, L, rfl⟩ : ∃ (n : Fin N) (c : Fin C) (L : Fin 4096), i = ix3 n c L := ⟨i 0, i 1, i 2, eq_ix3 i⟩
  exact unint_apply x h1 h2 h3 n c L

/-- A sum over the lanes of the un-interleaved array is the sum over the lanes of the operand. -/
theorem sum_unint {N C : ℕ} {M : Type} [AddCommMonoid M] (x : (⟨3, ![N, C, 4096]⟩ : Shape).Idx → M) (n : Fin N) (c : Fin C) :
    ∑ L : Fin 4096, unint x (ix3 n c L) = ∑ L : Fin 4096, x (ix3 n c L) :=
  sum_lanePerm fun L => x (ix3 n c L)

/-! ## A 1×1 convolution commutes with the un-interleaving

A 1×1 convolution mixes the channels at each lane separately, so it does not matter whether the lanes are permuted before
or after it; and a sum over all lanes of anything computed lane by lane does not see the permutation. -/

/-- The 1×1 convolution of a `[N, K, 4096]` array by a `[C, K]` matrix: at `(n, o, L)`, `∑ k, w (o, k) · x (n, k, L)`. -/
def conv1x1 {N K C : ℕ} (x : (⟨3, ![N, K, 4096]⟩ : Shape).Idx → EReal) (w : (⟨2, ![C, K]⟩ : Shape).Idx → EReal) :
    (⟨3, ![N, C, 4096]⟩ : Shape).Idx → EReal :=
  fun i => ∑ k : Fin K, w (ix2 (i 1) k) * x (ix3 (i 0) k (i 2))

theorem conv1x1_ix3 {N K C : ℕ} (x : (⟨3, ![N, K, 4096]⟩ : Shape).Idx → EReal) (w : (⟨2, ![C, K]⟩ : Shape).Idx → EReal)
    (n : Fin N) (o : Fin C) (L : Fin 4096) : conv1x1 x w (ix3 n o L) = ∑ k : Fin K, w (ix2 o k) * x (ix3 n k L) := rfl

/-- Un-interleaving after the convolution is the convolution of the un-interleaved array. -/
theorem unint_conv1x1 {N K C : ℕ} (x : (⟨3, ![N, K, 4096]⟩ : Shape).Idx → EReal) (w : (⟨2, ![C, K]⟩ : Shape).Idx → EReal) :
    unint (conv1x1 x w) = conv1x1 (unint x) w := rfl

/-- The sum over the lanes of the convolution of the un-interleaved array is that of the convolution of the array. -/
theorem sum_conv1x1_unint {N K C : ℕ} (x : (⟨3, ![N, K, 4096]⟩ : Shape).Idx → EReal) (w : (⟨2, ![C, K]⟩ : Shape).Idx → EReal)
    (n : Fin N) (o : Fin C) :
    ∑ L : Fin 4096, conv1x1 (unint x) w (ix3 n o L) = ∑ L : Fin 4096, conv1x1 x w (ix3 n o L) :=
  sum_lanePerm fun L => conv1x1 x w (ix3 n o L)

/-- The same for the sum of squares. -/
theorem sum_sq_conv1x1_unint {N K C : ℕ} (x : (⟨3, ![N, K, 4096]⟩ : Shape).Idx → EReal) (w : (⟨2, ![C, K]⟩ : Shape).Idx → EReal)
    (n : Fin N) (o : Fin C) :
    ∑ L : Fin 4096, conv1x1 (unint x) w (ix3 n o L) * conv1x1 (unint x) w (ix3 n o L)
      = ∑ L : Fin 4096, conv1x1 x w (ix3 n o L) * conv1x1 x w (ix3 n o L) :=
  sum_lanePerm fun L => conv1x1 x w (ix3 n o L) * conv1x1 x w (ix3 n o L)

/-! ## A statistics sum over the images read at an index

The host's sum of a `[N, C, 1]` array over its leading axis, from an initial value that is zero: at `(c, 0)` it is the
sum over the images `n` of the array at `(n, c, 0)`. -/

theorem imageSum_apply {N C : ℕ} {φ : FTy} {u : Shape} (x : FVec Ideal ⟨3, ![N, C, 1]⟩ φ) (init : u.Idx → Ideal φ)
    (h' : (⟨3, ![N, C, 1]⟩ : Shape).ReducesTo [0] ⟨2, ![C, 1]⟩) (hu : 0 < u.numel)
    (h : (⟨3, ![N, C, 1]⟩ : Shape).Reduces [0] ⟨2, ![C, 1]⟩)
    (h0 : init (Shape.Idx.first hu) = 0) (c : Fin C) (e : Fin 1) :
    Host.reduceAdd x init h' hu (ix2 c e) = ∑ n : Fin N, x (ix3 n c e) := by
  rw [hostReduceAdd_apply, Ideal.hostReduceAdd_single h' h, h0, zero_add]
  refine Finset.sum_congr rfl fun n _ => congrArg x ?_
  funext a
  match a with
  | ⟨0, _⟩ => rfl
  | ⟨1, _⟩ => rfl
  | ⟨2, _⟩ => rfl

/-- The same from the f32 zero constant, the initial value both programs print. -/
theorem imageSum_zero_apply {N C : ℕ} {u : Shape} (x : FVec Ideal ⟨3, ![N, C, 1]⟩ .f32)
    (h' : (⟨3, ![N, C, 1]⟩ : Shape).ReducesTo [0] ⟨2, ![C, 1]⟩) (hu : 0 < u.numel)
    (h : (⟨3, ![N, C, 1]⟩ : Shape).Reduces [0] ⟨2, ![C, 1]⟩) (c : Fin C) (e : Fin 1) :
    Host.reduceAdd x (constant (F := Ideal) u .f32 0x00000000#32) h' hu (ix2 c e) = ∑ n : Fin N, x (ix3 n c e) :=
  imageSum_apply x _ h' hu h Ideal.ofBits_zero_f32 c e

/-- The sum over the images of a `[N, C, 1]` array of per-image statistics. -/
def imageSum {N C : ℕ} (x : (⟨3, ![N, C, 1]⟩ : Shape).Idx → EReal) : (⟨2, ![C, 1]⟩ : Shape).Idx → EReal :=
  fun j => ∑ n : Fin N, x (ix3 n (j 0) (j 1))

theorem imageSum_ix2 {N C : ℕ} (x : (⟨3, ![N, C, 1]⟩ : Shape).Idx → EReal) (c : Fin C) (e : Fin 1) :
    imageSum x (ix2 c e) = ∑ n : Fin N, x (ix3 n c e) := rfl

/-- The host's sum over the leading axis from the f32 zero constant is the sum over the images, as whole arrays. -/
theorem reduceAdd_eq_imageSum {N C : ℕ} {u : Shape} (x : FVec Ideal ⟨3, ![N, C, 1]⟩ .f32)
    (h' : (⟨3, ![N, C, 1]⟩ : Shape).ReducesTo [0] ⟨2, ![C, 1]⟩) (hu : 0 < u.numel)
    (h : (⟨3, ![N, C, 1]⟩ : Shape).Reduces [0] ⟨2, ![C, 1]⟩) :
    Host.reduceAdd x (constant (F := Ideal) u .f32 0x00000000#32) h' hu = imageSum x := by
  funext j
  obtain ⟨c, e, rfl⟩ : ∃ (c : Fin C) (e : Fin 1), j = ix2 c e := ⟨j 0, j 1, eq_ix2 j⟩
  exact imageSum_zero_apply x h' hu h c e

end Cert.Lib.Unint

end
-- ==== Proof.LibScatterWindow.lean ====
/-
  A window overwritten by a scatter. A left fold of overwrites over a list without repeats, the written positions pairwise
  distinct, leaves at each position the one value written there, or the starting value where nothing is written; and the
  scatter whose body returns the update, with ONE start index (r0, c0), both operand axes scattered and both update axes
  window axes, of an a × b update into an A × B operand with r0 + a ≤ A and c0 + b ≤ B, is the operand with the window
  [r0, r0 + a) × [c0, c0 + b) replaced by the update.
-/
import Idealize.ShloMosaic.PureOps.ShapeOps
import Idealize.ShloMosaic.Lib.ValueIdx

namespace Cert.LibScatterWindow

open Idealize.ShloMosaic
open Idealize.ShloMosaic.ValueIdx

/-- A left fold of overwrites leaves a position no step writes to unchanged. -/
theorem foldl_overwrite_miss {κ ι β : Type*} [DecidableEq ι] (g : κ → Option ι) (v : κ → β) (i' : ι) :
    ∀ (l : List κ) (x : ι → β), (∀ n ∈ l, g n ≠ some i') →
      (l.foldl (fun r n =>
        match g n with
        | some i => fun i' => if i' = i then (fun _ b => b) (r i) (v n) else r i'
        | none => r) x) i' = x i' := by
  intro l
  induction l with
  | nil => intro x _; rfl
  | cons m l ih =>
    intro x h
    rw [List.foldl_cons, ih _ fun n hn => h n (List.mem_cons_of_mem _ hn)]
    have hm := h m (List.mem_cons_self ..)
    cases hgm : g m with
    | none => rfl
    | some i =>
      have hne : i' ≠ i := fun e => hm (by rw [hgm, e])
      simp only [if_neg hne]

/-- A left fold of overwrites over a list without repeats, the written positions pairwise distinct: a position some step writes to holds that step's value. -/
theorem foldl_overwrite_hit {κ ι β : Type*} [DecidableEq ι] (g : κ → Option ι) (v : κ → β)
    (hg : ∀ a b, g a = g b → g a ≠ none → a = b) (n₀ : κ) (i' : ι) (h₀ : g n₀ = some i') :
    ∀ (l : List κ) (x : ι → β), l.Nodup → n₀ ∈ l →
      (l.foldl (fun r n =>
        match g n with
        | some i => fun i' => if i' = i then (fun _ b => b) (r i) (v n) else r i'
        | none => r) x) i' = v n₀ := by
  intro l
  induction l with
  | nil => intro x _ h; exact absurd h (List.not_mem_nil)
  | cons m l ih =>
    intro x hnd hmem
    rw [List.foldl_cons]
    have hnd' := List.nodup_cons.1 hnd
    rcases List.mem_cons.1 hmem with rfl | hl
    · rw [foldl_overwrite_miss g v i' l _ fun n hn e => hnd'.1 (by
        have := hg n n₀ (e.trans h₀.symm) (by rw [e]; exact Option.some_ne_none _)
        rw [← this]; exact hn)]
      simp only [h₀, if_true]
    · exact ih _ hnd'.2 hl

/-- Two step functions that agree everywhere give the same left fold. -/
theorem foldl_congr_step {σ κ : Type*} (f g : σ → κ → σ) (h : ∀ r n, f r n = g r n) (x : σ) (l : List κ) :
    l.foldl f x = l.foldl g x := by
  have e : f = g := funext fun r => funext fun n => h r n
  rw [e]

section Window

variable {A B a b w : Nat}

/-- With both operand axes in the start index map, in order, the window's start on axis 0 is the first entry of the start index vector, read signed … -/
theorem start_zero (wf) (idx : IVec (⟨1, ![2]⟩ : Shape) w) (j : (⟨2, ![a, b]⟩ : Shape).Idx) :
    ScatterDims.start (s := (⟨2, ![A, B]⟩ : Shape)) (si := (⟨1, ![2]⟩ : Shape)) (u := (⟨2, ![a, b]⟩ : Shape))
      ⟨[0, 1], [], [0, 1], 0, wf⟩ j idx 0 = (idx (ix1 0)).toInt := by
  unfold ScatterDims.start
  rw [dif_pos (List.mem_cons_self ..)]
  congr 2
  funext c
  match c with
  | ⟨0, _⟩ => rfl

/-- … and on axis 1 the second entry. -/
theorem start_one (wf) (idx : IVec (⟨1, ![2]⟩ : Shape) w) (j : (⟨2, ![a, b]⟩ : Shape).Idx) :
    ScatterDims.start (s := (⟨2, ![A, B]⟩ : Shape)) (si := (⟨1, ![2]⟩ : Shape)) (u := (⟨2, ![a, b]⟩ : Shape))
      ⟨[0, 1], [], [0, 1], 0, wf⟩ j idx 1 = (idx (ix1 1)).toInt := by
  unfold ScatterDims.start
  rw [dif_pos (List.mem_cons_of_mem _ (List.mem_cons_self ..))]
  congr 2
  funext c
  match c with
  | ⟨0, _⟩ => rfl

/-- With no inserted axis and both update axes window axes, in order, the window coordinate on axis 0 is the update index's coordinate 0 … -/
theorem window_zero (wf) (j : (⟨2, ![a, b]⟩ : Shape).Idx) :
    ScatterDims.window (s := (⟨2, ![A, B]⟩ : Shape)) (si := (⟨1, ![2]⟩ : Shape)) (u := (⟨2, ![a, b]⟩ : Shape))
      ⟨[0, 1], [], [0, 1], 0, wf⟩ j 0 = (j 0).val := by
  unfold ScatterDims.window
  split
  · rfl
  · rename_i h; exact absurd (List.mem_filter.2 ⟨List.mem_finRange _, by simp⟩) h

/-- … and on axis 1 its coordinate 1. -/
theorem window_one (wf) (j : (⟨2, ![a, b]⟩ : Shape).Idx) :
    ScatterDims.window (s := (⟨2, ![A, B]⟩ : Shape)) (si := (⟨1, ![2]⟩ : Shape)) (u := (⟨2, ![a, b]⟩ : Shape))
      ⟨[0, 1], [], [0, 1], 0, wf⟩ j 1 = (j 1).val := by
  unfold ScatterDims.window
  split
  · rfl
  · rename_i h; exact absurd (List.mem_filter.2 ⟨List.mem_finRange _, by simp⟩) h

/-- The update index (j0, j1) lands at the operand index (r0 + j0, c0 + j1), inside the operand when the window is. -/
theorem resultIdx_window2 (d : ScatterDims (⟨2, ![A, B]⟩ : Shape) (⟨1, ![2]⟩ : Shape) (⟨2, ![a, b]⟩ : Shape))
    (huw : d.updateWindowDims = [0, 1]) (hiw : d.insertedWindowDims = [])
    (hsd : d.scatterDimsToOperandDims = [0, 1]) (hiv : d.indexVectorDim = 0)
    (idx : IVec (⟨1, ![2]⟩ : Shape) w) (r0 c0 : Nat)
    (hr0 : (idx (ix1 0)).toInt = (r0 : ℤ)) (hc0 : (idx (ix1 1)).toInt = (c0 : ℤ))
    (hA : r0 + a ≤ A) (hB : c0 + b ≤ B) (j : (⟨2, ![a, b]⟩ : Shape).Idx) :
    d.resultIdx? j idx
      = some (ix2 ⟨r0 + (j 0).val, by have := idx2_lt0 j; omega⟩ ⟨c0 + (j 1).val, by have := idx2_lt1 j; omega⟩) := by
  have hj0 := idx2_lt0 j
  have hj1 := idx2_lt1 j
  obtain ⟨uw, iw, sd, iv, wf⟩ := d
  simp only at huw hiw hsd hiv
  subst huw hiw hsd hiv
  unfold ScatterDims.resultIdx?
  have h0 : ScatterDims.start (s := (⟨2, ![A, B]⟩ : Shape)) (si := (⟨1, ![2]⟩ : Shape)) (u := (⟨2, ![a, b]⟩ : Shape))
      ⟨[0, 1], [], [0, 1], 0, wf⟩ j idx 0
      + (ScatterDims.window (s := (⟨2, ![A, B]⟩ : Shape)) (si := (⟨1, ![2]⟩ : Shape)) (u := (⟨2, ![a, b]⟩ : Shape))
      ⟨[0, 1], [], [0, 1], 0, wf⟩ j 0 : ℕ) = ((r0 + (j 0).val : ℕ) : ℤ) := by
    rw [start_zero, window_zero, hr0]; push_cast; rfl
  have h1 : ScatterDims.start (s := (⟨2, ![A, B]⟩ : Shape)) (si := (⟨1, ![2]⟩ : Shape)) (u := (⟨2, ![a, b]⟩ : Shape))
      ⟨[0, 1], [], [0, 1], 0, wf⟩ j idx 1
      + (ScatterDims.window (s := (⟨2, ![A, B]⟩ : Shape)) (si := (⟨1, ![2]⟩ : Shape)) (u := (⟨2, ![a, b]⟩ : Shape))
      ⟨[0, 1], [], [0, 1], 0, wf⟩ j 1 : ℕ) = ((c0 + (j 1).val : ℕ) : ℤ) := by
    rw [start_one, window_one, hc0]; push_cast; rfl
  rw [dif_pos (Fin.forall_fin_two.2 ⟨by
      rw [h0]; exact ⟨by omega, by show ((r0 + (j 0).val : ℕ) : ℤ) < (A : ℤ); omega⟩, by
      rw [h1]; exact ⟨by omega, by show ((c0 + (j 1).val : ℕ) : ℤ) < (B : ℤ); omega⟩⟩)]
  refine congrArg some (funext (Fin.forall_fin_two.2 ⟨Fin.ext ?_, Fin.ext ?_⟩))
  · show (_ + _ : ℤ).toNat = r0 + (j 0).val
    rw [h0]; exact Int.toNat_natCast _
  · show (_ + _ : ℤ).toNat = c0 + (j 1).val
    rw [h1]; exact Int.toNat_natCast _

end Window

/-- The scatter whose body returns the update, one start index (r0, c0) (the length-2 index array's entries at `ix1 0` and `ix1 1`, read signed), an a × b update into an A × B operand, the window inside it: at (p, q) the result is the update at (p − r0, q − c0) when (p, q) is in [r0, r0 + a) × [c0, c0 + b), else the operand. -/
theorem scatter_window2_apply {α : Type} {A B a b w : Nat}
    (d : ScatterDims (⟨2, ![A, B]⟩ : Shape) (⟨1, ![2]⟩ : Shape) (⟨2, ![a, b]⟩ : Shape))
    (huw : d.updateWindowDims = [0, 1]) (hiw : d.insertedWindowDims = [])
    (hsd : d.scatterDimsToOperandDims = [0, 1]) (hiv : d.indexVectorDim = 0)
    (x : (⟨2, ![A, B]⟩ : Shape).Idx → α) (idx : IVec (⟨1, ![2]⟩ : Shape) w) (upd : (⟨2, ![a, b]⟩ : Shape).Idx → α)
    (r0 c0 : Nat) (hr0 : (idx (ix1 0)).toInt = (r0 : ℤ)) (hc0 : (idx (ix1 1)).toInt = (c0 : ℤ))
    (hA : r0 + a ≤ A) (hB : c0 + b ≤ B) (p : Fin A) (q : Fin B) :
    Host.scatter d (fun _ y => y) x idx upd (ix2 p q)
      = if h : r0 ≤ p.val ∧ p.val < r0 + a ∧ c0 ≤ q.val ∧ q.val < c0 + b then
          upd (ix2 ⟨p.val - r0, by omega⟩ ⟨q.val - c0, by omega⟩)
        else x (ix2 p q) := by
  have hres := resultIdx_window2 d huw hiw hsd hiv idx r0 c0 hr0 hc0 hA hB
  unfold Host.scatter
  by_cases h : r0 ≤ p.val ∧ p.val < r0 + a ∧ c0 ≤ q.val ∧ q.val < c0 + b
  · rw [dif_pos h]
    have hinj : ∀ n m : Fin (⟨2, ![a, b]⟩ : Shape).numel,
        (fun n => d.resultIdx? ((⟨2, ![a, b]⟩ : Shape).rowMajor.symm n) idx) n
          = (fun n => d.resultIdx? ((⟨2, ![a, b]⟩ : Shape).rowMajor.symm n) idx) m →
        (fun n => d.resultIdx? ((⟨2, ![a, b]⟩ : Shape).rowMajor.symm n) idx) n ≠ none → n = m := by
      intro n m hnm _
      simp only [hres] at hnm
      have e := Option.some.inj hnm
      have e0 : r0 + (((⟨2, ![a, b]⟩ : Shape).rowMajor.symm n) 0).val
          = r0 + (((⟨2, ![a, b]⟩ : Shape).rowMajor.symm m) 0).val := congrArg (fun f => (f 0).val) e
      have e1 : c0 + (((⟨2, ![a, b]⟩ : Shape).rowMajor.symm n) 1).val
          = c0 + (((⟨2, ![a, b]⟩ : Shape).rowMajor.symm m) 1).val := congrArg (fun f => (f 1).val) e
      apply (⟨2, ![a, b]⟩ : Shape).rowMajor.symm.injective
      rw [eq_ix2 ((⟨2, ![a, b]⟩ : Shape).rowMajor.symm n), eq_ix2 ((⟨2, ![a, b]⟩ : Shape).rowMajor.symm m)]
      congr 1 <;> exact Fin.ext (by omega)
    have key := foldl_overwrite_hit (fun n => d.resultIdx? ((⟨2, ![a, b]⟩ : Shape).rowMajor.symm n) idx)
      (fun n => upd ((⟨2, ![a, b]⟩ : Shape).rowMajor.symm n)) hinj
      ((⟨2, ![a, b]⟩ : Shape).rowMajor (ix2 ⟨p.val - r0, by omega⟩ ⟨q.val - c0, by omega⟩)) (ix2 p q)
      (by
        show d.resultIdx? ((⟨2, ![a, b]⟩ : Shape).rowMajor.symm _) idx = _
        rw [Equiv.symm_apply_apply, hres]
        refine congrArg some ?_
        rw [eq_ix2 (ix2 p q)]
        congr 1
        · exact Fin.ext (by show r0 + (p.val - r0) = p.val; omega)
        · exact Fin.ext (by show c0 + (q.val - c0) = q.val; omega))
      (List.finRange (⟨2, ![a, b]⟩ : Shape).numel) x (List.nodup_finRange _) (List.mem_finRange _)
    rw [Equiv.symm_apply_apply] at key
    refine (congrFun (foldl_congr_step _ _ (fun r n => ?_) x _) (ix2 p q)).trans key
    beta_reduce
    generalize d.resultIdx? ((⟨2, ![a, b]⟩ : Shape).rowMajor.symm n) idx = o
    cases o <;> rfl
  · rw [dif_neg h]
    have key := foldl_overwrite_miss (fun n => d.resultIdx? ((⟨2, ![a, b]⟩ : Shape).rowMajor.symm n) idx)
      (fun n => upd ((⟨2, ![a, b]⟩ : Shape).rowMajor.symm n)) (ix2 p q) (List.finRange (⟨2, ![a, b]⟩ : Shape).numel) x
      (by
        intro n _ e
        simp only [hres] at e
        have e' := Option.some.inj e
        have e0 : r0 + (((⟨2, ![a, b]⟩ : Shape).rowMajor.symm n) 0).val = p.val := congrArg (fun f => (f 0).val) e'
        have e1 : c0 + (((⟨2, ![a, b]⟩ : Shape).rowMajor.symm n) 1).val = q.val := congrArg (fun f => (f 1).val) e'
        have l0 := idx2_lt0 ((⟨2, ![a, b]⟩ : Shape).rowMajor.symm n)
        have l1 := idx2_lt1 ((⟨2, ![a, b]⟩ : Shape).rowMajor.symm n)
        exact h ⟨by omega, by omega, by omega, by omega⟩)
    refine (congrFun (foldl_congr_step _ _ (fun r n => ?_) x _) (ix2 p q)).trans key
    beta_reduce
    generalize d.resultIdx? ((⟨2, ![a, b]⟩ : Shape).rowMajor.symm n) idx = o
    cases o <;> rfl

end Cert.LibScatterWindow
-- ==== Proof.KerH0a.lean ====
import proofs.«159567_g2000302752657622_pallasbulk_725_3_alg».proof.Proof.Gen.KernelIdeal.Frame
import proofs.«159567_g2000302752657622_pallasbulk_725_3_alg».proof.Proof.LibScatterWindow
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.ValueIdx

/-! # The weight preparation read entry by entry: the general steps

Each prepared array is a layout operation, or a short chain of them, applied to the weights as passed in. The lemmas
here read one such operation at an entry, over VARIABLE arrays of the literal shapes. -/

section Steps
variable {α : Type}

/-! ## The start index of a window: the two-entry vector (r, c) -/

/-- The length-2 vector made of two length-1 vectors holds the first one's entry at position 0 … -/
theorem pair_zero (x₁ x₂ : S1.Idx → α) :
    concatenate S2 0 [⟨S1, x₁⟩, ⟨S1, x₂⟩] concatenates_S1_S1_S2_d0 (ix1 0) = x₁ (ix1 0) :=
  concatenate_pair_apply_left 0 x₁ x₂ concatenates_S1_S1_S2_d0 (ix1 0) rfl (ix1 0)
    (fun b => match b with | ⟨0, _⟩ => rfl)

/-- … and the second one's entry at position 1. -/
theorem pair_one (x₁ x₂ : S1.Idx → α) :
    concatenate S2 0 [⟨S1, x₁⟩, ⟨S1, x₂⟩] concatenates_S1_S1_S2_d0 (ix1 1) = x₂ (ix1 0) :=
  concatenate_pair_apply_right 0 x₁ x₂ concatenates_S1_S1_S2_d0 (ix1 1) rfl rfl (ix1 0)
    (fun b => match b with | ⟨0, _⟩ => fun hb => absurd rfl hb) rfl

/-- The start index (r, c) as the program builds it: two scalar constants, each broadcast to a length-1 vector, joined. -/
abbrev startIdx (r c : BitVec 32) : IVec S2 32 :=
  concatenate S2 0 [⟨S1, broadcastInDim S1 ![] bcast_S_S1 (constantI S_ 32 r)⟩,
    ⟨S1, broadcastInDim S1 ![] bcast_S_S1 (constantI S_ 32 c)⟩] concatenates_S1_S1_S2_d0

theorem startIdx_zero (r c : BitVec 32) : startIdx r c (ix1 0) = r := (pair_zero _ _).trans rfl
theorem startIdx_one (r c : BitVec 32) : startIdx r c (ix1 1) = c := (pair_one _ _).trans rfl

/-! ## One tap of a 9 × 64 × 64 stack as a 64 × 64 matrix -/

/-- Tap t of the stack, sliced out as 1 × 64 × 64 and cast to 64 × 64, holds at (a, b) the stack's entry (t, a, b). -/
theorem tapMat_apply (w : S9x64x64.Idx → α) (t : Nat) (ht : t < 9) (h : S9x64x64.Slices ![t, 0, 0] S1x64x64)
    (a b : Fin 64) :
    shapeCast S64x64 (extractStridedSlice S1x64x64 ![t, 0, 0] w h) shapeCasts_S1x64x64_S64x64 (ix2 a b)
      = w (ix3 ⟨t, ht⟩ a b) :=
  (shapeCast_1ab_ab_apply _ shapeCasts_S1x64x64_S64x64 a b).trans
    (extractStridedSlice_apply _ w h _ _ fun c => match c with
      | ⟨0, _⟩ => by show t = t + 0; rfl
      | ⟨1, _⟩ => by show a.val = 0 + a.val; omega
      | ⟨2, _⟩ => by show b.val = 0 + b.val; omega)

/-! ## A 256 × 256 matrix as 4 × 4 blocks of 64 × 64 -/

/-- Entry (a, b) of block (p, s). -/
abbrev blk (p s : Fin 4) (a b : Fin 64) : S256x256.Idx :=
  ix2 ⟨p.val * 64 + a.val, by have := p.isLt; have := a.isLt; omega⟩ ⟨s.val * 64 + b.val, by have := s.isLt; have := b.isLt; omega⟩

/-- Writing a 64 × 64 matrix at the start index (P·64, S·64) replaces block (P, S) and leaves every other block. -/
theorem put_blk_apply (x : S256x256.Idx → α) (idx : IVec S2 32) (upd : S64x64.Idx → α) (P S : Fin 4)
    (hr0 : (idx (ix1 0)).toInt = ((P.val * 64 : ℕ) : ℤ)) (hc0 : (idx (ix1 1)).toInt = ((S.val * 64 : ℕ) : ℤ))
    (p s : Fin 4) (a b : Fin 64) :
    Host.scatter scatter_S256x256_S2_S64x64_01_n_01_0 (fun _ y => y) x idx upd (blk p s a b)
      = if p = P ∧ s = S then upd (ix2 a b) else x (blk p s a b) := by
  have hp := p.isLt; have hs := s.isLt; have hP := P.isLt; have hS := S.isLt; have ha := a.isLt; have hb := b.isLt
  refine (Cert.LibScatterWindow.scatter_window2_apply scatter_S256x256_S2_S64x64_01_n_01_0 rfl rfl rfl rfl x idx upd
    (P.val * 64) (S.val * 64) hr0 hc0 (by omega) (by omega) _ _).trans ?_
  by_cases h : p = P ∧ s = S
  · obtain ⟨rfl, rfl⟩ := h
    rw [dif_pos (by refine ⟨?_, ?_, ?_, ?_⟩ <;> simp only [] <;> omega), if_pos ⟨rfl, rfl⟩]
    refine congrArg upd ?_
    rw [eq_ix2 (ix2 _ _)]
    congr 1 <;> exact Fin.ext (by simp only []; omega)
  · rw [if_neg h, dif_neg]
    rintro ⟨h1, h2, h3, h4⟩
    simp only [] at h1 h2 h3 h4
    exact h ⟨Fin.ext (by omega), Fin.ext (by omega)⟩

end Steps

section Reads
variable {α : Type}

/-! ## The stacked first-layer weights: w1 (64 rows) over ws (256 rows) -/

/-- Rows 0 … 63 of the stack are w1's rows, rows 64 … 319 are ws's rows 0 … 255. -/
theorem stack_apply (w1 : S64x128.Idx → α) (ws : S256x128.Idx → α) (j : Fin 320) (k : Fin 128) :
    concatenate S320x128 0 [⟨S64x128, w1⟩, ⟨S256x128, ws⟩] concatenates_S64x128_S256x128_S320x128_d0 (ix2 j k)
      = if h : j.val < 64 then w1 (ix2 ⟨j.val, h⟩ k) else ws (ix2 ⟨j.val - 64, by have := j.isLt; omega⟩ k) := by
  by_cases h : j.val < 64
  · rw [dif_pos h]
    exact concatenate_pair_apply_left 0 w1 ws concatenates_S64x128_S256x128_S320x128_d0 (ix2 j k) rfl (ix2 ⟨j.val, h⟩ k)
      (fun b => match b with | ⟨0, _⟩ => rfl | ⟨1, _⟩ => rfl)
  · rw [dif_neg h]
    exact concatenate_pair_apply_right 0 w1 ws concatenates_S64x128_S256x128_S320x128_d0 (ix2 j k) rfl rfl
      (ix2 ⟨j.val - 64, by have := j.isLt; omega⟩ k)
      (fun b => match b with | ⟨0, _⟩ => fun hb => absurd rfl hb | ⟨1, _⟩ => fun _ => rfl)
      (by show j.val - 64 + 64 = j.val; omega)

/-! ## The second block's taps side by side: 9 × 64 × 64 to 64 × 576 -/

/-- Column t·64 + c' of row c of the 64 × 576 matrix is tap t's entry (c, c'). -/
theorem sideBySide_apply (w : S9x64x64.Idx → α) (c : Fin 64) (t : Fin 9) (c' : Fin 64) :
    shapeCast S64x576 (transpose S64x9x64 [1, 0, 2] w transposes_S9x64x64_S64x9x64_1_0_2) shapeCasts_S64x9x64_S64x576
        (ix2 c ⟨t.val * 64 + c'.val, by have := t.isLt; have := c'.isLt; omega⟩)
      = w (ix3 t c c') :=
  (shapeCast_apply _ shapeCasts_S64x9x64_S64x576 _ (ix3 c t c') (by
      rw [Shape.rowMajor_val_three, Shape.rowMajor_val_two]
      show (c.val * 9 + t.val) * 64 + c'.val = c.val * 576 + (t.val * 64 + c'.val)
      omega)).trans
    (transpose_apply _ w transposes_S9x64x64_S64x9x64_1_0_2 (ix3 c t c') (ix3 t c c')
      fun b => match b with | ⟨0, _⟩ => rfl | ⟨1, _⟩ => rfl | ⟨2, _⟩ => rfl)

/-! ## The images flattened: 64 × 128 × 32 × 32 to 64 × 128 × 1024 -/

/-- Position h·32 + w of channel c of image n is the pixel (h, w). -/
theorem flatten_apply (x : S64x128x32x32.Idx → α) (n : Fin 64) (c : Fin 128) (h w : Fin 32) :
    shapeCast S64x128x1024 x shapeCasts_S64x128x32x32_S64x128x1024
        (ix3 n c ⟨h.val * 32 + w.val, by have := h.isLt; have := w.isLt; omega⟩)
      = x (ix4 n c h w) :=
  shapeCast_apply _ shapeCasts_S64x128x32x32_S64x128x1024 _ (ix4 n c h w) (by
    rw [Shape.rowMajor_val_four, Shape.rowMajor_val_three]
    show ((n.val * 128 + c.val) * 32 + h.val) * 32 + w.val = (n.val * 128 + c.val) * 1024 + (h.val * 32 + w.val)
    omega)

/-- The same at any position q of the flattened image: the pixel (q / 32, q % 32). -/
theorem flatten_apply' (x : S64x128x32x32.Idx → α) (n : Fin 64) (c : Fin 128) (q : Fin 1024) :
    shapeCast S64x128x1024 x shapeCasts_S64x128x32x32_S64x128x1024 (ix3 n c q)
      = x (ix4 n c ⟨q.val / 32, by have := q.isLt; omega⟩ ⟨q.val % 32, Nat.mod_lt _ (by decide)⟩) :=
  shapeCast_apply _ shapeCasts_S64x128x32x32_S64x128x1024 _ _ (by
    rw [Shape.rowMajor_val_four, Shape.rowMajor_val_three]
    show ((n.val * 128 + c.val) * 32 + q.val / 32) * 32 + q.val % 32 = (n.val * 128 + c.val) * 1024 + q.val
    omega)

end Reads

/-! ## The block matrix of the first block's taps

The nine taps sit in a 4 × 4 grid of 64 × 64 blocks: row p of the grid is output phase p, column s is input shift s;
tap t occupies block (p, s) for (p, s) = (0,0), (1,1), (1,0), (2,2), (2,0), (3,3), (3,2), (3,1), (3,0) in tap order, and
the other seven blocks are zero. -/

/-- Which tap, if any, sits in block (p, s). -/
def tapOf : Fin 4 → Fin 4 → Option (Fin 9) :=
  ![![some 0, none, none, none],
    ![some 2, some 1, none, none],
    ![some 4, none, some 3, none],
    ![some 8, some 7, some 6, some 5]]

/-- Entry (a, b) of block (p, s) of the block matrix built from the stack w. -/
def blkMat (w : S9x64x64.Idx → EReal) (p s : Fin 4) (a b : Fin 64) : EReal :=
  match tapOf p s with
  | some t => w (ix3 t a b)
  | none => 0

/-- The block matrix as the nine writes leave it, last write first. -/
theorem blkMat_eq_ifs (w : S9x64x64.Idx → EReal) (p s : Fin 4) (a b : Fin 64) :
    (if p = 3 ∧ s = 0 then w (ix3 8 a b) else
     if p = 3 ∧ s = 1 then w (ix3 7 a b) else
     if p = 3 ∧ s = 2 then w (ix3 6 a b) else
     if p = 3 ∧ s = 3 then w (ix3 5 a b) else
     if p = 2 ∧ s = 0 then w (ix3 4 a b) else
     if p = 2 ∧ s = 2 then w (ix3 3 a b) else
     if p = 1 ∧ s = 0 then w (ix3 2 a b) else
     if p = 1 ∧ s = 1 then w (ix3 1 a b) else
     if p = 0 ∧ s = 0 then w (ix3 0 a b) else 0) = blkMat w p s a b := by
  fin_cases p <;> fin_cases s <;> rfl

/-- The 256 × 256 matrix the writes start from holds 0 everywhere. -/
theorem zeroMat_apply (j : S256x256.Idx) :
    broadcastInDim S256x256 ![] bcast_S_S256x256 (constant (F := Ideal) S_ .f32 0x00000000#32) j = (0 : EReal) :=
  (broadcastInDim_apply _ bcast_S_S256x256 _ j ix0 (fun a => a.elim0)).trans
    ((constant_apply _ _).trans Ideal.ofBits_zero_f32)

end Cert.KernelIdeal.Val

end
-- ==== Proof.KerH0.lean ====
import proofs.«159567_g2000302752657622_pallasbulk_725_3_alg».proof.Proof.KerH0a

set_option maxRecDepth 16384

noncomputable section

namespace Cert.KernelIdeal.Val

open Cert.KernelIdeal Cert.KernelIdeal.Gen
open Idealize.ShloMosaic Idealize.ShloMosaic.TcCoe Idealize.ShloMosaic.ValueIdx

/-! # The weight preparation: what each prepared array holds, entry by entry

The program's first host stretch prepares every weight the seven regions stage. Each result is stated over an
arbitrary starting valuation W of the buffers: first as the stretch's operations applied to the weights as passed in,
then read at an entry. -/

section Host0
variable (W : Valuation τ sig (Elt Ideal))

/-! ## The images, flattened -/

theorem host0_x :
    (StableHlo.after (hostOps0 (F := Ideal)) W (Proc.devRef .tc main_v0) : S64x128x1024.Idx → Elt Ideal .f32)
      = shapeCast S64x128x1024 (W (Proc.devRef .tc main_arg0) : S64x128x32x32.Idx → Elt Ideal .f32)
          shapeCasts_S64x128x32x32_S64x128x1024 := by
  dsimp only [Gen.hostOps0]
  after_results_simp
  rfl

/-- Position h·32 + w of channel c of image n holds the pixel (n, c, h, w). -/
theorem host0_x_apply (n : Fin 64) (c : Fin 128) (h w : Fin 32) :
    (StableHlo.after (hostOps0 (F := Ideal)) W (Proc.devRef .tc main_v0) : S64x128x1024.Idx → Elt Ideal .f32)
        (ix3 n c ⟨h.val * 32 + w.val, by have := h.isLt; have := w.isLt; omega⟩)
      = (W (Proc.devRef .tc main_arg0) : S64x128x32x32.Idx → Elt Ideal .f32) (ix4 n c h w) :=
  (congrFun (host0_x W) _).trans (flatten_apply _ n c h w)

/-- Position q of channel c of image n holds the pixel (n, c, q / 32, q % 32). -/
theorem host0_x_apply' (n : Fin 64) (c : Fin 128) (q : Fin 1024) :
    (StableHlo.after (hostOps0 (F := Ideal)) W (Proc.devRef .tc main_v0) : S64x128x1024.Idx → Elt Ideal .f32) (ix3 n c q)
      = (W (Proc.devRef .tc main_arg0) : S64x128x32x32.Idx → Elt Ideal .f32)
          (ix4 n c ⟨q.val / 32, by have := q.isLt; omega⟩ ⟨q.val % 32, Nat.mod_lt _ (by decide)⟩) :=
  (congrFun (host0_x W) _).trans (flatten_apply' _ n c q)

/-! ## The stacked first-layer weights -/

theorem host0_wf0 :
    (StableHlo.after (hostOps0 (F := Ideal)) W (Proc.devRef .tc main_v2) : S320x128.Idx → Elt Ideal .bf16)
      = truncf (F := Ideal) .bf16 (concatenate S320x128 0
          [⟨S64x128, (W (Proc.devRef .tc main_arg1) : S64x128.Idx → Elt Ideal .f32)⟩,
           ⟨S256x128, (W (Proc.devRef .tc main_arg11) : S256x128.Idx → Elt Ideal .f32)⟩]
          concatenates_S64x128_S256x128_S320x128_d0) bitsLt_bf16_f32 := by
  dsimp only [Gen.hostOps0]
  after_results_simp
  rfl

/-- Row j of the stack is row j of the first weight for j < 64 and row j − 64 of the second otherwise. -/
theorem host0_wf0_apply (j : Fin 320) (k : Fin 128) :
    (StableHlo.after (hostOps0 (F := Ideal)) W (Proc.devRef .tc main_v2) : S320x128.Idx → Elt Ideal .bf16) (ix2 j k)
      = if h : j.val < 64 then (W (Proc.devRef .tc main_arg1) : S64x128.Idx → Elt Ideal .f32) (ix2 ⟨j.val, h⟩ k)
        else (W (Proc.devRef .tc main_arg11) : S256x128.Idx → Elt Ideal .f32) (ix2 ⟨j.val - 64, by have := j.isLt; omega⟩ k) :=
  (congrFun (host0_wf0 W) _).trans ((truncf_apply (ψ := .bf16) _ bitsLt_bf16_f32 _).trans (stack_apply _ _ j k))

end Host0

/-! ## The block matrix of the first block's taps -/

/-- One write of a 64 × 64 matrix at the start index (r, c). -/
abbrev put (x : S256x256.Idx → Elt Ideal .f32) (r c : BitVec 32) (u : S64x64.Idx → Elt Ideal .f32) : S256x256.Idx → Elt Ideal .f32 :=
  Host.scatter scatter_S256x256_S2_S64x64_01_n_01_0 (fun _ b => b) x (startIdx r c) u

/-- A write at the start index (P·64, S·64) replaces block (P, S) and leaves every other block. -/
theorem put_apply (x : S256x256.Idx → Elt Ideal .f32) (r c : BitVec 32) (u : S64x64.Idx → Elt Ideal .f32) (P S : Fin 4)
    (hr : r.toInt = ((P.val * 64 : ℕ) : ℤ)) (hc : c.toInt = ((S.val * 64 : ℕ) : ℤ)) (p s : Fin 4) (a b : Fin 64) :
    put x r c u (blk p s a b) = if p = P ∧ s = S then u (ix2 a b) else x (blk p s a b) :=
  put_blk_apply x (startIdx r c) u P S (by rw [startIdx_zero]; exact hr) (by rw [startIdx_one]; exact hc) p s a b

/-- The nine writes, in tap order, into the zero matrix. -/
def blkWrites (w : S9x64x64.Idx → Elt Ideal .f32) : S256x256.Idx → Elt Ideal .f32 :=
  (put
      (put
      (put
      (put
      (put
      (put
      (put
      (put
      (put
      (broadcastInDim S256x256 ![] bcast_S_S256x256 (constant (F := Ideal) S_ .f32 0x00000000#32))
      0#32 0#32 (shapeCast S64x64 (extractStridedSlice S1x64x64 ![0, 0, 0] w slices_S9x64x64_S1x64x64_0_0_0) shapeCasts_S1x64x64_S64x64))
      64#32 64#32 (shapeCast S64x64 (extractStridedSlice S1x64x64 ![1, 0, 0] w slices_S9x64x64_S1x64x64_1_0_0) shapeCasts_S1x64x64_S64x64))
      64#32 0#32 (shapeCast S64x64 (extractStridedSlice S1x64x64 ![2, 0, 0] w slices_S9x64x64_S1x64x64_2_0_0) shapeCasts_S1x64x64_S64x64))
      128#32 128#32 (shapeCast S64x64 (extractStridedSlice S1x64x64 ![3, 0, 0] w slices_S9x64x64_S1x64x64_3_0_0) shapeCasts_S1x64x64_S64x64))
      128#32 0#32 (shapeCast S64x64 (extractStridedSlice S1x64x64 ![4, 0, 0] w slices_S9x64x64_S1x64x64_4_0_0) shapeCasts_S1x64x64_S64x64))
      192#32 192#32 (shapeCast S64x64 (extractStridedSlice S1x64x64 ![5, 0, 0] w slices_S9x64x64_S1x64x64_5_0_0) shapeCasts_S1x64x64_S64x64))
      192#32 128#32 (shapeCast S64x64 (extractStridedSlice S1x64x64 ![6, 0, 0] w slices_S9x64x64_S1x64x64_6_0_0) shapeCasts_S1x64x64_S64x64))
      192#32 64#32 (shapeCast S64x64 (extractStridedSlice S1x64x64 ![7, 0, 0] w slices_S9x64x64_S1x64x64_7_0_0) shapeCasts_S1x64x64_S64x64))
      192#32 0#32 (shapeCast S64x64 (extractStridedSlice S1x64x64 ![8, 0, 0] w slices_S9x64x64_S1x64x64_8_0_0) shapeCasts_S1x64x64_S64x64))

/-- The nine writes leave the block matrix: tap t in its block, 0 in the seven others. -/
theorem blkWrites_apply (w : S9x64x64.Idx → Elt Ideal .f32) (p s : Fin 4) (a b : Fin 64) :
    blkWrites w (blk p s a b) = blkMat w p s a b := by
  rw [← blkMat_eq_ifs]
  unfold blkWrites
  rw [put_apply _ 192#32 0#32 _ 3 0 (by decide) (by decide)]
  rw [put_apply _ 192#32 64#32 _ 3 1 (by decide) (by decide)]
  rw [put_apply _ 192#32 128#32 _ 3 2 (by decide) (by decide)]
  rw [put_apply _ 192#32 192#32 _ 3 3 (by decide) (by decide)]
  rw [put_apply _ 128#32 0#32 _ 2 0 (by decide) (by decide)]
  rw [put_apply _ 128#32 128#32 _ 2 2 (by decide) (by decide)]
  rw [put_apply _ 64#32 0#32 _ 1 0 (by decide) (by decide)]
  rw [put_apply _ 64#32 64#32 _ 1 1 (by decide) (by decide)]
  rw [put_apply _ 0#32 0#32 _ 0 0 (by decide) (by decide)]
  rw [tapMat_apply w 8 (by decide), tapMat_apply w 7 (by decide), tapMat_apply w 6 (by decide), tapMat_apply w 5 (by decide),
    tapMat_apply w 4 (by decide), tapMat_apply w 3 (by decide), tapMat_apply w 2 (by decide), tapMat_apply w 1 (by decide),
    tapMat_apply w 0 (by decide), zeroMat_apply]
  rfl

section Host0'
variable (W : Valuation τ sig (Elt Ideal))

theorem host0_wblk0 :
    (StableHlo.after (hostOps0 (F := Ideal)) W (Proc.devRef .tc main_v58) : S256x256.Idx → Elt Ideal .bf16)
      = truncf (F := Ideal) .bf16 (blkWrites (W (Proc.devRef .tc main_arg3) : S9x64x64.Idx → Elt Ideal .f32)) bitsLt_bf16_f32 := by
  dsimp only [Gen.hostOps0]
  after_results_simp
  rfl

/-- Entry (a, b) of block (p, s) of the prepared block matrix: tap t's entry (a, b) when tap t sits in block (p, s), else 0. -/
theorem host0_wblk0_apply (p s : Fin 4) (a b : Fin 64) :
    (StableHlo.after (hostOps0 (F := Ideal)) W (Proc.devRef .tc main_v58) : S256x256.Idx → Elt Ideal .bf16) (blk p s a b)
      = blkMat (W (Proc.devRef .tc main_arg3) : S9x64x64.Idx → Elt Ideal .f32) p s a b :=
  (congrFun (host0_wblk0 W) _).trans ((truncf_apply (ψ := .bf16) _ bitsLt_bf16_f32 _).trans (blkWrites_apply _ p s a b))

/-! ## The weights passed on unchanged (a conversion of format only) -/

theorem host0_w3_0 :
    (StableHlo.after (hostOps0 (F := Ideal)) W (Proc.devRef .tc main_v59) : S256x64.Idx → Elt Ideal .bf16)
      = truncf (F := Ideal) .bf16 (W (Proc.devRef .tc main_arg2) : S256x64.Idx → Elt Ideal .f32) bitsLt_bf16_f32 := by
  dsimp only [Gen.hostOps0]
  after_results_simp

/-- The first block's last-layer weight, entry by entry as passed in. -/
theorem host0_w3_0_apply (i : S256x64.Idx) :
    (StableHlo.after (hostOps0 (F := Ideal)) W (Proc.devRef .tc main_v59) : S256x64.Idx → Elt Ideal .bf16) i
      = (W (Proc.devRef .tc main_arg2) : S256x64.Idx → Elt Ideal .f32) i :=
  (congrFun (host0_w3_0 W) _).trans (truncf_apply (ψ := .bf16) _ bitsLt_bf16_f32 _)

theorem host0_w1_1 :
    (StableHlo.after (hostOps0 (F := Ideal)) W (Proc.devRef .tc main_v60) : S64x256.Idx → Elt Ideal .bf16)
      = truncf (F := Ideal) .bf16 (W (Proc.devRef .tc main_arg14) : S64x256.Idx → Elt Ideal .f32) bitsLt_bf16_f32 := by
  dsimp only [Gen.hostOps0]
  after_results_simp

/-- The second block's first-layer weight, entry by entry as passed in. -/
theorem host0_w1_1_apply (i : S64x256.Idx) :
    (StableHlo.after (hostOps0 (F := Ideal)) W (Proc.devRef .tc main_v60) : S64x256.Idx → Elt Ideal .bf16) i
      = (W (Proc.devRef .tc main_arg14) : S64x256.Idx → Elt Ideal .f32) i :=
  (congrFun (host0_w1_1 W) _).trans (truncf_apply (ψ := .bf16) _ bitsLt_bf16_f32 _)

theorem host0_w3_1 :
    (StableHlo.after (hostOps0 (F := Ideal)) W (Proc.devRef .tc main_v64) : S256x64.Idx → Elt Ideal .bf16)
      = truncf (F := Ideal) .bf16 (W (Proc.devRef .tc main_arg15) : S256x64.Idx → Elt Ideal .f32) bitsLt_bf16_f32 := by
  dsimp only [Gen.hostOps0]
  after_results_simp

/-- The second block's last-layer weight, entry by entry as passed in. -/
theorem host0_w3_1_apply (i : S256x64.Idx) :
    (StableHlo.after (hostOps0 (F := Ideal)) W (Proc.devRef .tc main_v64) : S256x64.Idx → Elt Ideal .bf16) i
      = (W (Proc.devRef .tc main_arg15) : S256x64.Idx → Elt Ideal .f32) i :=
  (congrFun (host0_w3_1 W) _).trans (truncf_apply (ψ := .bf16) _ bitsLt_bf16_f32 _)

/-! ## The second block's taps side by side -/

theorem host0_wcat1 :
    (StableHlo.after (hostOps0 (F := Ideal)) W (Proc.devRef .tc main_v63) : S64x576.Idx → Elt Ideal .bf16)
      = truncf (F := Ideal) .bf16 (shapeCast S64x576
          (transpose S64x9x64 [1, 0, 2] (W (Proc.devRef .tc main_arg16) : S9x64x64.Idx → Elt Ideal .f32) transposes_S9x64x64_S64x9x64_1_0_2)
          shapeCasts_S64x9x64_S64x576) bitsLt_bf16_f32 := by
  dsimp only [Gen.hostOps0]
  after_results_simp
  rfl

/-- Column t·64 + c' of row c holds tap t's entry (c, c'). -/
theorem host0_wcat1_apply (c : Fin 64) (t : Fin 9) (c' : Fin 64) :
    (StableHlo.after (hostOps0 (F := Ideal)) W (Proc.devRef .tc main_v63) : S64x576.Idx → Elt Ideal .bf16)
        (ix2 c ⟨t.val * 64 + c'.val, by have := t.isLt; have := c'.isLt; omega⟩)
      = (W (Proc.devRef .tc main_arg16) : S9x64x64.Idx → Elt Ideal .f32) (ix3 t c c') :=
  (congrFun (host0_wcat1 W) _).trans ((truncf_apply (ψ := .bf16) _ bitsLt_bf16_f32 _).trans (sideBySide_apply _ c t c'))

end Host0'

end Cert.KernelIdeal.Val

end
-- ==== Proof.KerH3.lean ====
import proofs.«159567_g2000302752657622_pallasbulk_725_3_alg».proof.Proof.Gen.KernelIdeal.Frame
import proofs.«159567_g2000302752657622_pallasbulk_725_3_alg».proof.Proof.LibBnChain
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

set_option maxRecDepth 16384

noncomputable section

namespace Cert.KernelIdeal.Val

open Cert.KernelIdeal Cert.KernelIdeal.Gen
open Idealize.ShloMosaic Idealize.ShloMosaic.TcCoe Idealize.ShloMosaic.ValueIdx
open Cert.Lib.BnChain
open scoped BigOperators

/-! ## The statistics of a 1×1 convolution's output from the Gram matrix of its input

With `w` the [256,64] weight, `z` the [64,1] column of the input's channel sums and `G` the [64,64] matrix of the
input's channel-pair sums, the output's channel sums are `w · z` and its channel sums of squares are the row sums of
`(w · G) ⊙ w`. -/

/-- The dimension numbers of [256,64] · [64,1]: one contracted axis of extent 64. -/
abbrev dotWz : DotDims S256x64 S64x1 S256x1 := dot_S256x64_S64x1_S256x1_1_0_0_1_n_n
/-- The dimension numbers of [256,64] · [64,64]: one contracted axis of extent 64. -/
abbrev dotWG : DotDims S256x64 S64x64 S256x64 := dot_S256x64_S64x64_S256x64_1_0_0_1_n_n

/-- The left operand's row is the output's row. -/
theorem dotWz_lhs_0 (i : S256x1.Idx) (q : dotWz.contr.Idx) : (dotWz.lhsIdx i q 0).val = (i 0).val := by
  unfold DotDims.lhsIdx
  rw [dif_neg (show ¬(0 : Fin S256x64.rank) ∈ dotWz.lhsBatch by decide),
    dif_pos (show (0 : Fin S256x64.rank) ∈ dotWz.lhsNonContracting by decide)]
  rfl

/-- The left operand's column is the contracted coordinate. -/
theorem dotWz_lhs_1 (i : S256x1.Idx) (q : dotWz.contr.Idx) : (dotWz.lhsIdx i q 1).val = (q ⟨0, by decide⟩).val :=
  dotWz.lhsIdx_val_of_single rfl i q

/-- The right operand's row is the contracted coordinate. -/
theorem dotWz_rhs_0 (i : S256x1.Idx) (q : dotWz.contr.Idx) : (dotWz.rhsIdx i q 0).val = (q ⟨0, by decide⟩).val :=
  dotWz.rhsIdx_val_of_single rfl i q

/-- The right operand's column is the output's column. -/
theorem dotWz_rhs_1 (i : S256x1.Idx) (q : dotWz.contr.Idx) : (dotWz.rhsIdx i q 1).val = (i 1).val := by
  unfold DotDims.rhsIdx
  rw [dif_neg (show ¬(1 : Fin S64x1.rank) ∈ dotWz.rhsBatch by decide),
    dif_pos (show (1 : Fin S64x1.rank) ∈ dotWz.rhsNonContracting by decide)]
  rfl

/-- The left operand's row is the output's row. -/
theorem dotWG_lhs_0 (i : S256x64.Idx) (q : dotWG.contr.Idx) : (dotWG.lhsIdx i q 0).val = (i 0).val := by
  unfold DotDims.lhsIdx
  rw [dif_neg (show ¬(0 : Fin S256x64.rank) ∈ dotWG.lhsBatch by decide),
    dif_pos (show (0 : Fin S256x64.rank) ∈ dotWG.lhsNonContracting by decide)]
  rfl

/-- The left operand's column is the contracted coordinate. -/
theorem dotWG_lhs_1 (i : S256x64.Idx) (q : dotWG.contr.Idx) : (dotWG.lhsIdx i q 1).val = (q ⟨0, by decide⟩).val :=
  dotWG.lhsIdx_val_of_single rfl i q

/-- The right operand's row is the contracted coordinate. -/
theorem dotWG_rhs_0 (i : S256x64.Idx) (q : dotWG.contr.Idx) : (dotWG.rhsIdx i q 0).val = (q ⟨0, by decide⟩).val :=
  dotWG.rhsIdx_val_of_single rfl i q

/-- The right operand's column is the output's column. -/
theorem dotWG_rhs_1 (i : S256x64.Idx) (q : dotWG.contr.Idx) : (dotWG.rhsIdx i q 1).val = (i 1).val := by
  unfold DotDims.rhsIdx
  rw [dif_neg (show ¬(1 : Fin S64x64.rank) ∈ dotWG.rhsBatch by decide),
    dif_pos (show (1 : Fin S64x64.rank) ∈ dotWG.rhsNonContracting by decide)]
  rfl

/-- The product at row c and column e: the sum over the 64 contracted coordinates. -/
theorem dotWz_apply (A : FVec Ideal S256x64 .f32) (B : FVec Ideal S64x1 .f32) (c : Fin 256) (e : Fin 1) :
    Host.dotGeneral (F := Ideal) dotWz none A B (ix2 c e) = ∑ k : Fin 64, A (ix2 c k) * B (ix2 k e) := by
  simp only [Host.dotGeneral]
  rw [Ideal.dotGeneral_apply, ← Equiv.sum_comp (contrEquiv1 dotWz 64 rfl rfl).symm]
  refine Finset.sum_congr rfl fun k _ => ?_
  have hk := contrEquiv1_symm_val dotWz 64 rfl rfl k
  have el : dotWz.lhsIdx (ix2 c e) ((contrEquiv1 dotWz 64 rfl rfl).symm k) = ix2 c k := funext fun a => Fin.ext (by
    match a with
    | ⟨0, _⟩ => exact dotWz_lhs_0 _ _
    | ⟨1, _⟩ => exact (dotWz_lhs_1 _ _).trans hk)
  have er : dotWz.rhsIdx (ix2 c e) ((contrEquiv1 dotWz 64 rfl rfl).symm k) = ix2 k e := funext fun a => Fin.ext (by
    match a with
    | ⟨0, _⟩ => exact (dotWz_rhs_0 _ _).trans hk
    | ⟨1, _⟩ => exact dotWz_rhs_1 _ _)
  rw [el, er]

/-- The product at row c and column e: the sum over the 64 contracted coordinates. -/
theorem dotWG_apply (A : FVec Ideal S256x64 .f32) (B : FVec Ideal S64x64 .f32) (c : Fin 256) (e : Fin 64) :
    Host.dotGeneral (F := Ideal) dotWG none A B (ix2 c e) = ∑ k : Fin 64, A (ix2 c k) * B (ix2 k e) := by
  simp only [Host.dotGeneral]
  rw [Ideal.dotGeneral_apply, ← Equiv.sum_comp (contrEquiv1 dotWG 64 rfl rfl).symm]
  refine Finset.sum_congr rfl fun k _ => ?_
  have hk := contrEquiv1_symm_val dotWG 64 rfl rfl k
  have el : dotWG.lhsIdx (ix2 c e) ((contrEquiv1 dotWG 64 rfl rfl).symm k) = ix2 c k := funext fun a => Fin.ext (by
    match a with
    | ⟨0, _⟩ => exact dotWG_lhs_0 _ _
    | ⟨1, _⟩ => exact (dotWG_lhs_1 _ _).trans hk)
  have er : dotWG.rhsIdx (ix2 c e) ((contrEquiv1 dotWG 64 rfl rfl).symm k) = ix2 k e := funext fun a => Fin.ext (by
    match a with
    | ⟨0, _⟩ => exact (dotWG_rhs_0 _ _).trans hk
    | ⟨1, _⟩ => exact dotWG_rhs_1 _ _)
  rw [el, er]

/-- Summing a [256,64] array along its second axis leaves a [256] array. -/
theorem reducesRow : S256x64.Reduces [1] S256 := by decide

/-- The sum along a row of a [256,64] array, from the zero scalar. -/
theorem rowSum_apply (X : FVec Ideal S256x64 .f32) (c : Fin 256) :
    Host.reduceAdd (F := Ideal) X (constant S_ .f32 0x00000000#32) reducesTo_S256x64_S256_d1 h_S_ (ix1 c)
      = ∑ j : Fin 64, X (ix2 c j) := by
  rw [hostReduceAdd_apply, Ideal.hostReduceAdd_single reducesTo_S256x64_S256_d1 reducesRow]
  show Ideal.ofBits .f32 0x00000000#32 + _ = _
  rw [Ideal.ofBits_zero_f32, zero_add]
  refine Finset.sum_congr rfl fun j _ => congrArg X ?_
  funext a
  match a with
  | ⟨0, _⟩ => rfl
  | ⟨1, _⟩ => rfl

/-- The output's channel sums: the weight applied to the column of the input's channel sums. -/
def gramS (w : FVec Ideal S256x64 .f32) (z : FVec Ideal S64x1 .f32) : FVec Ideal S256x1 .f32 :=
  Host.dotGeneral (F := Ideal) dotWz none w z

/-- The output's channel sums of squares: the row sums of `(w · G) ⊙ w`, as a column. -/
def gramQ (w : FVec Ideal S256x64 .f32) (G : FVec Ideal S64x64 .f32) : FVec Ideal S256x1 .f32 :=
  broadcastInDim S256x1 ![0] bcast_S256_S256x1_0
    (Host.reduceAdd (F := Ideal) (mulf (Host.dotGeneral (F := Ideal) dotWG none w G) w)
      (constant S_ .f32 0x00000000#32) reducesTo_S256x64_S256_d1 h_S_)

/-- At channel c the sum is `∑ k, w[c,k] · z[k]`. -/
theorem gramS_apply (w : FVec Ideal S256x64 .f32) (z : FVec Ideal S64x1 .f32) (c : Fin 256) (e : Fin 1) :
    gramS w z (ix2 c e) = ∑ k : Fin 64, w (ix2 c k) * z (ix2 k e) :=
  dotWz_apply w z c e

/-- At channel c the sum of squares is `∑ j, (∑ k, w[c,k] · G[k,j]) · w[c,j]`. -/
theorem gramQ_apply (w : FVec Ideal S256x64 .f32) (G : FVec Ideal S64x64 .f32) (c : Fin 256) (e : Fin 1) :
    gramQ w G (ix2 c e) = ∑ j : Fin 64, (∑ k : Fin 64, w (ix2 c k) * G (ix2 k j)) * w (ix2 c j) := by
  unfold gramQ
  rw [broadcastInDim_apply ![0] bcast_S256_S256x1_0 _ (ix2 c e) (ix1 c) (fun a => by
    match a with
    | ⟨0, _⟩ => rfl)]
  rw [rowSum_apply]
  refine Finset.sum_congr rfl fun j _ => ?_
  rw [mulf_apply, dotWG_apply]

/-! ## The third statistics stretch -/

/-- The third statistics stretch, scale column. The 64 per-image Gram matrices and columns of channel sums that the
    third region leaves are summed over the images; the 256 output channels' sums and sums of squares are recovered
    through the f32 weight, and go through the normalisation chain with the count 262144. -/
theorem host3_sc3 (W : Valuation τ sig (Elt Ideal)) :
    (StableHlo.after (hostOps3 (F := Ideal)) W (Proc.devRef .tc main_v135) : S256x1.Idx → Elt Ideal .f32)
      = bnScale (F := Ideal) S256x1 bcast_S_S256x1 0x48800000#32
          (gramS (W (Proc.devRef .tc main_arg2)) (Host.reduceAdd (F := Ideal) (W (Proc.devRef .tc main_v117_1)) (constant S_ .f32 0x00000000#32) reducesTo_S64x64x1_S64x1_d0 h_S_))
          (gramQ (W (Proc.devRef .tc main_arg2)) (Host.reduceAdd (F := Ideal) (W (Proc.devRef .tc main_v117_0)) (constant S_ .f32 0x00000000#32) reducesTo_S64x64x64_S64x64_d0 h_S_))
          (shapeCast S256x1 (W (Proc.devRef .tc main_arg9)) shapeCasts_S256_S256x1) := by
  after_results_simp
  rfl

/-- The third statistics stretch, shift column: `β − (s / cnt) · scale` over the same recovered sums. -/
theorem host3_sh3 (W : Valuation τ sig (Elt Ideal)) :
    (StableHlo.after (hostOps3 (F := Ideal)) W (Proc.devRef .tc main_v138) : S256x1.Idx → Elt Ideal .f32)
      = bnShift (F := Ideal) S256x1 bcast_S_S256x1 0x48800000#32
          (gramS (W (Proc.devRef .tc main_arg2)) (Host.reduceAdd (F := Ideal) (W (Proc.devRef .tc main_v117_1)) (constant S_ .f32 0x00000000#32) reducesTo_S64x64x1_S64x1_d0 h_S_))
          (gramQ (W (Proc.devRef .tc main_arg2)) (Host.reduceAdd (F := Ideal) (W (Proc.devRef .tc main_v117_0)) (constant S_ .f32 0x00000000#32) reducesTo_S64x64x64_S64x64_d0 h_S_))
          (shapeCast S256x1 (W (Proc.devRef .tc main_arg9)) shapeCasts_S256_S256x1)
          (shapeCast S256x1 (W (Proc.devRef .tc main_arg10)) shapeCasts_S256_S256x1) := by
  after_results_simp
  rfl

end Cert.KernelIdeal.Val

end
-- ==== Proof.KerV0a.lean ====
import proofs.«159567_g2000302752657622_pallasbulk_725_3_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ## Region 0: the stacked 1×1 convolution W·x of one image, its two row groups, its row sums -/

/-- The dimension numbers of the region's product: [320,128] · [128,1024], one contracted axis of extent 128. -/
abbrev dot0 : DotDims S320x128 S128x1024 S320x1024 := dot_S320x128_S128x1024_S320x1024_1_0_0_1_n_n

/-- The left operand's row is the output's row. -/
theorem dot0_lhs_0 (i : S320x1024.Idx) (q : dot0.contr.Idx) : (dot0.lhsIdx i q 0).val = (i 0).val := by
  unfold DotDims.lhsIdx
  rw [dif_neg (show ¬(0 : Fin S320x128.rank) ∈ dot0.lhsBatch by decide),
    dif_pos (show (0 : Fin S320x128.rank) ∈ dot0.lhsNonContracting by decide)]
  rfl

/-- The left operand's column is the contracted coordinate. -/
theorem dot0_lhs_1 (i : S320x1024.Idx) (q : dot0.contr.Idx) : (dot0.lhsIdx i q 1).val = (q ⟨0, by decide⟩).val :=
  dot0.lhsIdx_val_of_single rfl i q

/-- The right operand's row is the contracted coordinate. -/
theorem dot0_rhs_0 (i : S320x1024.Idx) (q : dot0.contr.Idx) : (dot0.rhsIdx i q 0).val = (q ⟨0, by decide⟩).val :=
  dot0.rhsIdx_val_of_single rfl i q

/-- The right operand's column is the output's column. -/
theorem dot0_rhs_1 (i : S320x1024.Idx) (q : dot0.contr.Idx) : (dot0.rhsIdx i q 1).val = (i 1).val := by
  unfold DotDims.rhsIdx
  rw [dif_neg (show ¬(1 : Fin S128x1024.rank) ∈ dot0.rhsBatch by decide),
    dif_pos (show (1 : Fin S128x1024.rank) ∈ dot0.rhsNonContracting by decide)]
  rfl

/-- The product into the zero accumulator, at row r and column s: the sum over the 128 contracted coordinates. -/
theorem matmul0_apply (A : FVec Ideal S320x128 .bf16) (B : FVec Ideal S128x1024 .bf16) (r : Fin 320) (s : Fin 1024) :
    matmul dot0 none A B (constant (F := Ideal) S320x1024 .f32 0x00000000#32) (ix2 r s)
      = ∑ k : Fin 128, A (ix2 r k) * B (ix2 k s) := by
  show FloatOps.matmul dot0 none A B (constant (F := Ideal) S320x1024 .f32 0x00000000#32) (ix2 r s) = _
  rw [Ideal.matmul_constant_zero_apply, ← Equiv.sum_comp (contrEquiv1 dot0 128 rfl rfl).symm]
  refine Finset.sum_congr rfl fun k _ => ?_
  have hk := contrEquiv1_symm_val dot0 128 rfl rfl k
  have el : dot0.lhsIdx (ix2 r s) ((contrEquiv1 dot0 128 rfl rfl).symm k) = ix2 r k := funext fun a => Fin.ext (by
    match a with
    | ⟨0, _⟩ => exact dot0_lhs_0 _ _
    | ⟨1, _⟩ => exact (dot0_lhs_1 _ _).trans hk)
  have er : dot0.rhsIdx (ix2 r s) ((contrEquiv1 dot0 128 rfl rfl).symm k) = ix2 k s := funext fun a => Fin.ext (by
    match a with
    | ⟨0, _⟩ => exact (dot0_rhs_0 _ _).trans hk
    | ⟨1, _⟩ => exact dot0_rhs_1 _ _)
  rw [el, er]

/-- The sum along the 1024 positions of a [320,1024] block, at row r. -/
theorem laneSum0_apply (X : FVec Ideal S320x1024 .f32) (r : Fin 320) :
    multiReduction (F := Ideal) .add [1] S320 X 0x00000000#32 reduces_S320x1024_S320 (.inl rfl) rfl (ix1 r)
      = ∑ s : Fin 1024, X (ix2 r s) := by
  refine (Ideal.multiReduction_add_single X 0x00000000#32 reduces_S320x1024_S320 (.inl rfl) rfl (ix1 r)).trans ?_
  refine Finset.sum_congr rfl fun s _ => congrArg X ?_
  funext a; apply Fin.ext
  match a with
  | ⟨0, _⟩ => rfl
  | ⟨1, _⟩ => rfl

/-- A [320] vector viewed [320,1] then [1,320,1] reads its row. -/
theorem column0_apply (Y : FVec Ideal S320 .f32) (u : Fin 1) (r : Fin 320) (z : Fin 1) :
    shapeCast S1x320x1 (shapeCast S320x1 Y shapeCasts_S320_S320x1) shapeCasts_S320x1_S1x320x1 (ix3 u r z) = Y (ix1 r) := by
  refine (shapeCast_ab_1ab_apply _ _ u r z).trans ?_
  refine shapeCast_apply Y _ (ix2 r z) (ix1 r) ?_
  have hz : z.val = 0 := by omega
  rw [Shape.rowMajor_val_one, Shape.rowMajor_val_two]
  show r.val = r.val * 1 + z.val
  rw [hz]; omega

/-- Row p of the first group (rows [0,64) of the stacked weights). -/
def rowA (p : Fin 64) : Fin 320 := ⟨p.val, by omega⟩
/-- Row p of the second group (rows [64,320) of the stacked weights). -/
def rowB (p : Fin 256) : Fin 320 := ⟨64 + p.val, by omega⟩

/-- Rows [0,64) of a [320,1024] block, read at (p, q). -/
theorem sliceA0_apply (X : FVec Ideal S320x1024 .f32) (p : Fin 64) (q : Fin 1024) :
    extractStridedSlice S64x1024 ![0, 0] X slices_S320x1024_o0_0_S64x1024 (ix2 p q) = X (ix2 (rowA p) q) := by
  refine extractStridedSlice_apply ![0, 0] X slices_S320x1024_o0_0_S64x1024 (ix2 p q) (ix2 (rowA p) q) fun a => ?_
  match a with
  | ⟨0, _⟩ => show p.val = 0 + p.val; omega
  | ⟨1, _⟩ => show q.val = 0 + q.val; omega

/-- Rows [64,320) of a [320,1024] block, read at (p, q). -/
theorem sliceB0_apply (X : FVec Ideal S320x1024 .f32) (p : Fin 256) (q : Fin 1024) :
    extractStridedSlice S256x1024 ![64, 0] X slices_S320x1024_o64_0_S256x1024 (ix2 p q) = X (ix2 (rowB p) q) := by
  refine extractStridedSlice_apply ![64, 0] X slices_S320x1024_o64_0_S256x1024 (ix2 p q) (ix2 (rowB p) q) fun a => ?_
  match a with
  | ⟨0, _⟩ => show 64 + p.val = 64 + p.val; rfl
  | ⟨1, _⟩ => show q.val = 0 + q.val; omega

/-- The product's payload at (r, s): W·x of the image's block. -/
theorem pay0_1_apply (v0 : Vec Ideal S320x128 .bf16) (v2 : Vec Ideal S1x128x1024 .f32) (r : Fin 320) (s : Fin 1024) :
    Gen.k0_pay1 v0 v2 (ix2 r s) = ∑ k : Fin 128, v0 (ix2 r k) * v2 (ix3 (0 : Fin 1) k s) := by
  unfold Gen.k0_pay1
  refine (matmul0_apply _ _ r s).trans ?_
  refine Finset.sum_congr rfl fun k _ => ?_
  exact congrArg₂ (· * ·) (congrFun (shapeCast_self v0 _) (ix2 r k)) (shapeCast_1ab_ab_apply v2 _ k s)

/-- The first row group's payload. -/
theorem pay0_2_apply (v0 : Vec Ideal S320x128 .bf16) (v2 : Vec Ideal S1x128x1024 .f32) (u : Fin 1) (p : Fin 64) (q : Fin 1024) :
    Gen.k0_pay2 v0 v2 (ix3 u p q) = ∑ k : Fin 128, v0 (ix2 (rowA p) k) * v2 (ix3 (0 : Fin 1) k q) := by
  unfold Gen.k0_pay2
  refine (shapeCast_ab_1ab_apply _ _ u p q).trans ?_
  refine Eq.trans (truncf_apply _ _ _) ?_
  exact (sliceA0_apply _ p q).trans (pay0_1_apply v0 v2 (rowA p) q)

/-- The second row group's payload. -/
theorem pay0_3_apply (v0 : Vec Ideal S320x128 .bf16) (v2 : Vec Ideal S1x128x1024 .f32) (u : Fin 1) (p : Fin 256) (q : Fin 1024) :
    Gen.k0_pay3 v0 v2 (ix3 u p q) = ∑ k : Fin 128, v0 (ix2 (rowB p) k) * v2 (ix3 (0 : Fin 1) k q) := by
  unfold Gen.k0_pay3
  refine (shapeCast_ab_1ab_apply _ _ u p q).trans ?_
  refine Eq.trans (truncf_apply _ _ _) ?_
  exact (sliceB0_apply _ p q).trans (pay0_1_apply v0 v2 (rowB p) q)

/-- The row sums' payload. -/
theorem pay0_4_apply (v0 : Vec Ideal S320x128 .bf16) (v2 : Vec Ideal S1x128x1024 .f32) (u : Fin 1) (r : Fin 320) (z : Fin 1) :
    Gen.k0_pay4 v0 v2 (ix3 u r z) = ∑ s : Fin 1024, ∑ k : Fin 128, v0 (ix2 r k) * v2 (ix3 (0 : Fin 1) k s) := by
  unfold Gen.k0_pay4
  refine (column0_apply _ u r z).trans ?_
  refine (laneSum0_apply _ r).trans ?_
  exact Finset.sum_congr rfl fun s _ => pay0_1_apply v0 v2 r s

/-- The row sums of squares' payload. -/
theorem pay0_5_apply (v0 : Vec Ideal S320x128 .bf16) (v2 : Vec Ideal S1x128x1024 .f32) (u : Fin 1) (r : Fin 320) (z : Fin 1) :
    Gen.k0_pay5 v0 v2 (ix3 u r z)
      = ∑ s : Fin 1024, (∑ k : Fin 128, v0 (ix2 r k) * v2 (ix3 (0 : Fin 1) k s)) * (∑ k : Fin 128, v0 (ix2 r k) * v2 (ix3 (0 : Fin 1) k s)) := by
  unfold Gen.k0_pay5
  refine (column0_apply _ u r z).trans ?_
  refine (laneSum0_apply _ r).trans ?_
  refine Finset.sum_congr rfl fun s _ => ?_
  refine Eq.trans (mulf_apply _ _ _) ?_
  rw [pay0_1_apply v0 v2 r s]

end Cert.KernelIdeal.Val

end
-- ==== Proof.LibGram.lean ====
/- General lemmas on finite sums of real entries inside the extended reals: the coercion commutes with
   finite sums, a linear image summed over positions is the linear image of the position sums, and the
   sum of squares of a linear image is the quadratic form of the Gram matrix. Each is stated over ℝ, for
   real families coerced into EReal, and for EReal-valued families whose entries are known to be reals
   (distributivity fails at the infinities, so the hypothesis is needed). -/
import Mathlib.Data.EReal.Inv
import Mathlib.Algebra.BigOperators.Ring.Finset
import Mathlib.Algebra.BigOperators.Group.Finset.Basic
import Mathlib.Data.Fintype.BigOperators

noncomputable section

namespace Cert.Lib.Gram

open scoped BigOperators

variable {ι κ ν μ : Type*} [Fintype ι] [Fintype κ] [Fintype ν] [Fintype μ]

/-! ### The coercion and finite sums -/

/-- The coercion of a finite sum of reals is the sum of the coercions. -/
theorem coe_finset_sum {α : Type*} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion of a sum over a finite type. -/
theorem coe_sum {α : Type*} [Fintype α] (f : α → ℝ) :
    ((∑ i, f i : ℝ) : EReal) = ∑ i, (f i : EReal) :=
  coe_finset_sum Finset.univ f

/-- A finite sum of extended reals that are all reals is a real: the sum of the witnesses. -/
theorem exists_real_sum {α : Type*} (s : Finset α) (Z : α → EReal) (h : ∀ i, ∃ r : ℝ, Z i = r) :
    ∃ r : ℝ, ∑ i ∈ s, Z i = r := by
  choose z hz using h
  exact ⟨∑ i ∈ s, z i, by simp only [hz, coe_finset_sum]⟩

/-- A product of two extended reals that are reals is a real. -/
theorem exists_real_mul {x y : EReal} (hx : ∃ r : ℝ, x = r) (hy : ∃ r : ℝ, y = r) :
    ∃ r : ℝ, x * y = r := by
  obtain ⟨a, rfl⟩ := hx
  obtain ⟨b, rfl⟩ := hy
  exact ⟨a * b, (EReal.coe_mul a b).symm⟩

/-- A sum of two extended reals that are reals is a real. -/
theorem exists_real_add {x y : EReal} (hx : ∃ r : ℝ, x = r) (hy : ∃ r : ℝ, y = r) :
    ∃ r : ℝ, x + y = r := by
  obtain ⟨a, rfl⟩ := hx
  obtain ⟨b, rfl⟩ := hy
  exact ⟨a + b, (EReal.coe_add a b).symm⟩

/-! ### (G1) A linear image summed over the positions -/

/-- Over ℝ: summing over the positions `p` the combination `∑ k, w k * z k p` gives the same combination of
    the position sums. -/
theorem sum_linear_real (w : ι → ℝ) (z : ι → κ → ℝ) :
    ∑ p, ∑ k, w k * z k p = ∑ k, w k * ∑ p, z k p := by
  rw [Finset.sum_comm]
  exact Finset.sum_congr rfl fun k _ => (Finset.mul_sum _ _ _).symm

/-- (G1) for real families coerced into the extended reals. -/
theorem sum_linear_coe (w : ι → ℝ) (z : ι → κ → ℝ) :
    ∑ p, ∑ k, (w k : EReal) * (z k p : EReal) = ∑ k, (w k : EReal) * ∑ p, (z k p : EReal) := by
  simp only [← EReal.coe_mul, ← coe_sum]
  exact congrArg _ (sum_linear_real w z)

/-- (G1) for extended-real families all of whose entries are reals. -/
theorem sum_linear (W : ι → EReal) (Z : ι → κ → EReal) (hW : ∀ k, ∃ r : ℝ, W k = r)
    (hZ : ∀ k p, ∃ r : ℝ, Z k p = r) :
    ∑ p, ∑ k, W k * Z k p = ∑ k, W k * ∑ p, Z k p := by
  choose w hw using hW
  choose z hz using hZ
  simp only [hw, hz]
  exact sum_linear_coe w z

/-! ### (G2) The sum of squares of a linear image through the Gram matrix -/

/-- Over ℝ: the sum over the positions of the square of `∑ k, w k * z k p` is the quadratic form of the Gram
    matrix `G k j = ∑ p, z k p * z j p` at `w`, written `∑ j, (∑ k, w k * G k j) * w j`. -/
theorem sum_sq_linear_real (w : ι → ℝ) (z : ι → κ → ℝ) :
    ∑ p, (∑ k, w k * z k p) * (∑ k, w k * z k p)
      = ∑ j, (∑ k, w k * ∑ p, z k p * z j p) * w j := by
  have h : ∀ j, (∑ k, w k * ∑ p, z k p * z j p) * w j
      = ∑ p, (∑ k, w k * z k p) * (w j * z j p) := by
    intro j
    simp only [Finset.mul_sum, Finset.sum_mul]
    rw [Finset.sum_comm]
    refine Finset.sum_congr rfl fun p _ => Finset.sum_congr rfl fun k _ => ?_
    ring
  simp only [h]
  rw [Finset.sum_comm]
  exact Finset.sum_congr rfl fun p _ => Finset.mul_sum _ _ _

/-- (G2) for real families coerced into the extended reals. -/
theorem sum_sq_linear_coe (w : ι → ℝ) (z : ι → κ → ℝ) :
    ∑ p, (∑ k, (w k : EReal) * (z k p : EReal)) * (∑ k, (w k : EReal) * (z k p : EReal))
      = ∑ j, (∑ k, (w k : EReal) * ∑ p, (z k p : EReal) * (z j p : EReal)) * (w j : EReal) := by
  simp only [← EReal.coe_mul, ← coe_sum]
  exact congrArg _ (sum_sq_linear_real w z)

/-- (G2) for extended-real families all of whose entries are reals. -/
theorem sum_sq_linear (W : ι → EReal) (Z : ι → κ → EReal) (hW : ∀ k, ∃ r : ℝ, W k = r)
    (hZ : ∀ k p, ∃ r : ℝ, Z k p = r) :
    ∑ p, (∑ k, W k * Z k p) * (∑ k, W k * Z k p)
      = ∑ j, (∑ k, W k * ∑ p, Z k p * Z j p) * W j := by
  choose w hw using hW
  choose z hz using hZ
  simp only [hw, hz]
  exact sum_sq_linear_coe w z

/-- (G2) with the Gram matrix named: if `G k j = ∑ p, Z k p * Z j p` then the sum of squares of the linear
    image is `∑ j, (∑ k, W k * G k j) * W j`. -/
theorem sum_sq_linear_of_gram (W : ι → EReal) (Z : ι → κ → EReal) (G : ι → ι → EReal)
    (hW : ∀ k, ∃ r : ℝ, W k = r) (hZ : ∀ k p, ∃ r : ℝ, Z k p = r)
    (hG : ∀ k j, G k j = ∑ p, Z k p * Z j p) :
    ∑ p, (∑ k, W k * Z k p) * (∑ k, W k * Z k p) = ∑ j, (∑ k, W k * G k j) * W j := by
  simp only [hG]
  exact sum_sq_linear W Z hW hZ

/-- The Gram matrix of real entries has real entries. -/
theorem exists_real_gram (Z : ι → κ → EReal) (hZ : ∀ k p, ∃ r : ℝ, Z k p = r) (k j : ι) :
    ∃ r : ℝ, ∑ p, Z k p * Z j p = r :=
  exists_real_sum _ _ fun p => exists_real_mul (hZ k p) (hZ j p)

/-! ### (G3) Positions that are pairs (image, place) -/

/-- A sum over pairs is the sum over the first component of the sums over the second. -/
theorem sum_pairs {M : Type*} [AddCommMonoid M] (f : ν × μ → M) :
    ∑ p, f p = ∑ n, ∑ l, f (n, l) :=
  Fintype.sum_prod_type f

/-- (G1) over pairs: the per-image sums of a linear image, summed over the images, are the linear image of
    the sums over images of the per-image sums. -/
theorem sum_linear_pairs (W : ι → EReal) (Z : ι → ν → μ → EReal) (hW : ∀ k, ∃ r : ℝ, W k = r)
    (hZ : ∀ k n l, ∃ r : ℝ, Z k n l = r) :
    ∑ n, ∑ l, ∑ k, W k * Z k n l = ∑ k, W k * ∑ n, ∑ l, Z k n l := by
  have h := sum_linear (κ := ν × μ) W (fun k p => Z k p.1 p.2) hW (fun k p => hZ k p.1 p.2)
  simpa only [Fintype.sum_prod_type] using h

/-- (G2) over pairs: the per-image sums of squares of a linear image, summed over the images, are the
    quadratic form of the Gram matrix `G k j = ∑ n, ∑ l, Z k n l * Z j n l`. -/
theorem sum_sq_linear_pairs (W : ι → EReal) (Z : ι → ν → μ → EReal) (hW : ∀ k, ∃ r : ℝ, W k = r)
    (hZ : ∀ k n l, ∃ r : ℝ, Z k n l = r) :
    ∑ n, ∑ l, (∑ k, W k * Z k n l) * (∑ k, W k * Z k n l)
      = ∑ j, (∑ k, W k * ∑ n, ∑ l, Z k n l * Z j n l) * W j := by
  have h := sum_sq_linear (κ := ν × μ) W (fun k p => Z k p.1 p.2) hW (fun k p => hZ k p.1 p.2)
  simpa only [Fintype.sum_prod_type] using h

/-- The quadratic form is additive in the Gram matrix: the per-image quadratic forms `∑ j, (∑ k, W k * g n k j) * W j`
    summed over the images are the quadratic form of the summed matrix `∑ n, g n k j`. -/
theorem sum_quadratic_form (W : ι → EReal) (g : ν → ι → ι → EReal) (hW : ∀ k, ∃ r : ℝ, W k = r)
    (hg : ∀ n k j, ∃ r : ℝ, g n k j = r) :
    ∑ n, ∑ j, (∑ k, W k * g n k j) * W j = ∑ j, (∑ k, W k * ∑ n, g n k j) * W j := by
  choose w hw using hW
  choose γ hγ using hg
  simp only [hw, hγ, ← EReal.coe_mul, ← coe_sum]
  refine congrArg _ ?_
  rw [Finset.sum_comm]
  refine Finset.sum_congr rfl fun j _ => ?_
  rw [← Finset.sum_mul]
  congr 1
  rw [Finset.sum_comm]
  exact Finset.sum_congr rfl fun k _ => (Finset.mul_sum _ _ _).symm

end Cert.Lib.Gram

end
-- ==== Proof.KerV0.lean ====
import proofs.«159567_g2000302752657622_pallasbulk_725_3_alg».proof.Proof.KerV0a
import proofs.«159567_g2000302752657622_pallasbulk_725_3_alg».proof.Proof.LibGram

noncomputable section

namespace Cert.KernelIdeal.Val

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-! ## Region 0: what each output array holds after the region, from the region's entry arrays

a0 is the input x, [64,128,1024]; a1 is the stacked weights W, [320,128]. -/

/-- (W·x)(n, r, s) = ∑ k, W(r, k) · x(n, k, s): row r of the stacked weights against column s of image n. -/
def wx0 (a0 : S64x128x1024.Idx → EReal) (a1 : S320x128.Idx → EReal) (n : Fin 64) (r : Fin 320) (s : Fin 1024) : EReal :=
  ∑ k : Fin 128, a1 (ix2 r k) * a0 (ix3 n k s)

/-- Window 2, y1: rows [0,64) of W·x. -/
def G0_2 (a0 : S64x128x1024.Idx → EReal) (a1 : S320x128.Idx → EReal) : S64x64x1024.Idx → EReal :=
  fun i => wx0 a0 a1 (i 0) (rowA (i 1)) (i 2)

/-- Window 3, sd: rows [64,320) of W·x. -/
def G0_3 (a0 : S64x128x1024.Idx → EReal) (a1 : S320x128.Idx → EReal) : S64x256x1024.Idx → EReal :=
  fun i => wx0 a0 a1 (i 0) (rowB (i 1)) (i 2)

/-- Window 4: per image and row, the sum of W·x over the 1024 positions. -/
def G0_4 (a0 : S64x128x1024.Idx → EReal) (a1 : S320x128.Idx → EReal) : S64x320x1.Idx → EReal :=
  fun i => ∑ s : Fin 1024, wx0 a0 a1 (i 0) (i 1) s

/-- Window 5: per image and row, the sum of the squares of W·x over the 1024 positions. -/
def G0_5 (a0 : S64x128x1024.Idx → EReal) (a1 : S320x128.Idx → EReal) : S64x320x1.Idx → EReal :=
  fun i => ∑ s : Fin 1024, wx0 a0 a1 (i 0) (i 1) s * wx0 a0 a1 (i 0) (i 1) s

/-! ## Sums and products of reals are reals -/

theorem wx0_real {a0 : S64x128x1024.Idx → EReal} {a1 : S320x128.Idx → EReal}
    (h0 : ∀ i, ∃ r : ℝ, a0 i = r) (h1 : ∀ i, ∃ r : ℝ, a1 i = r) (n : Fin 64) (r : Fin 320) (s : Fin 1024) :
    ∃ z : ℝ, wx0 a0 a1 n r s = z :=
  Cert.Lib.Gram.exists_real_sum Finset.univ _ fun _ => Cert.Lib.Gram.exists_real_mul (h1 _) (h0 _)

theorem G0_2_real {a0 : S64x128x1024.Idx → EReal} {a1 : S320x128.Idx → EReal}
    (h0 : ∀ i, ∃ r : ℝ, a0 i = r) (h1 : ∀ i, ∃ r : ℝ, a1 i = r) : ∀ i, ∃ r : ℝ, G0_2 a0 a1 i = r :=
  fun _ => wx0_real h0 h1 _ _ _

theorem G0_3_real {a0 : S64x128x1024.Idx → EReal} {a1 : S320x128.Idx → EReal}
    (h0 : ∀ i, ∃ r : ℝ, a0 i = r) (h1 : ∀ i, ∃ r : ℝ, a1 i = r) : ∀ i, ∃ r : ℝ, G0_3 a0 a1 i = r :=
  fun _ => wx0_real h0 h1 _ _ _

theorem G0_4_real {a0 : S64x128x1024.Idx → EReal} {a1 : S320x128.Idx → EReal}
    (h0 : ∀ i, ∃ r : ℝ, a0 i = r) (h1 : ∀ i, ∃ r : ℝ, a1 i = r) : ∀ i, ∃ r : ℝ, G0_4 a0 a1 i = r :=
  fun _ => Cert.Lib.Gram.exists_real_sum Finset.univ _ fun _ => wx0_real h0 h1 _ _ _

theorem G0_5_real {a0 : S64x128x1024.Idx → EReal} {a1 : S320x128.Idx → EReal}
    (h0 : ∀ i, ∃ r : ℝ, a0 i = r) (h1 : ∀ i, ∃ r : ℝ, a1 i = r) : ∀ i, ∃ r : ℝ, G0_5 a0 a1 i = r :=
  fun _ => Cert.Lib.Gram.exists_real_sum Finset.univ _ fun _ =>
    Cert.Lib.Gram.exists_real_mul (wx0_real h0 h1 _ _ _) (wx0_real h0 h1 _ _ _)

/-! ## Each payload is the specification, when its two blocks are the weights and image n of x -/

theorem pay0_2_spec (x : S64x128x1024.Idx → EReal) (w : S320x128.Idx → EReal)
    (v0 : Vec Ideal S320x128 .bf16) (v2 : Vec Ideal S1x128x1024 .f32) (n : Fin 64)
    (hv0 : ∀ y, v0 y = w y) (hv2 : ∀ k s, v2 (ix3 (0 : Fin 1) k s) = x (ix3 n k s))
    (u : Fin 1) (p : Fin 64) (q : Fin 1024) :
    Gen.k0_pay2 v0 v2 (ix3 u p q) = G0_2 x w (ix3 n p q) := by
  refine (pay0_2_apply v0 v2 u p q).trans ?_
  show _ = ∑ k : Fin 128, w (ix2 (rowA p) k) * x (ix3 n k q)
  exact Finset.sum_congr rfl fun k _ => by rw [hv0, hv2]

theorem pay0_3_spec (x : S64x128x1024.Idx → EReal) (w : S320x128.Idx → EReal)
    (v0 : Vec Ideal S320x128 .bf16) (v2 : Vec Ideal S1x128x1024 .f32) (n : Fin 64)
    (hv0 : ∀ y, v0 y = w y) (hv2 : ∀ k s, v2 (ix3 (0 : Fin 1) k s) = x (ix3 n k s))
    (u : Fin 1) (p : Fin 256) (q : Fin 1024) :
    Gen.k0_pay3 v0 v2 (ix3 u p q) = G0_3 x w (ix3 n p q) := by
  refine (pay0_3_apply v0 v2 u p q).trans ?_
  show _ = ∑ k : Fin 128, w (ix2 (rowB p) k) * x (ix3 n k q)
  exact Finset.sum_congr rfl fun k _ => by rw [hv0, hv2]

theorem pay0_4_spec (x : S64x128x1024.Idx → EReal) (w : S320x128.Idx → EReal)
    (v0 : Vec Ideal S320x128 .bf16) (v2 : Vec Ideal S1x128x1024 .f32) (n : Fin 64)
    (hv0 : ∀ y, v0 y = w y) (hv2 : ∀ k s, v2 (ix3 (0 : Fin 1) k s) = x (ix3 n k s))
    (u : Fin 1) (r : Fin 320) (z : Fin 1) :
    Gen.k0_pay4 v0 v2 (ix3 u r z) = G0_4 x w (ix3 n r z) := by
  refine (pay0_4_apply v0 v2 u r z).trans ?_
  show _ = ∑ s : Fin 1024, ∑ k : Fin 128, w (ix2 r k) * x (ix3 n k s)
  exact Finset.sum_congr rfl fun s _ => Finset.sum_congr rfl fun k _ => by rw [hv0, hv2]

theorem pay0_5_spec (x : S64x128x1024.Idx → EReal) (w : S320x128.Idx → EReal)
    (v0 : Vec Ideal S320x128 .bf16) (v2 : Vec Ideal S1x128x1024 .f32) (n : Fin 64)
    (hv0 : ∀ y, v0 y = w y) (hv2 : ∀ k s, v2 (ix3 (0 : Fin 1) k s) = x (ix3 n k s))
    (u : Fin 1) (r : Fin 320) (z : Fin 1) :
    Gen.k0_pay5 v0 v2 (ix3 u r z) = G0_5 x w (ix3 n r z) := by
  refine (pay0_5_apply v0 v2 u r z).trans ?_
  show _ = ∑ s : Fin 1024, (∑ k : Fin 128, w (ix2 r k) * x (ix3 n k s)) * (∑ k : Fin 128, w (ix2 r k) * x (ix3 n k s))
  refine Finset.sum_congr rfl fun s _ => ?_
  have e : (∑ k : Fin 128, v0 (ix2 r k) * v2 (ix3 (0 : Fin 1) k s)) = ∑ k : Fin 128, w (ix2 r k) * x (ix3 n k s) :=
    Finset.sum_congr rfl fun k _ => by rw [hv0, hv2]
  rw [e]

/-! ## Which array each window is -/

theorem arrRef0_0 : Pipeline.arrRef spec0 0 = main_v0 := rfl
theorem arrRef0_1 : Pipeline.arrRef spec0 1 = main_v2 := rfl
theorem arrRef0_2 : Pipeline.arrRef spec0 2 = main_v65_0 := rfl
theorem arrRef0_3 : Pipeline.arrRef spec0 3 = main_v65_1 := rfl
theorem arrRef0_4 : Pipeline.arrRef spec0 4 = main_v65_2 := rfl
theorem arrRef0_5 : Pipeline.arrRef spec0 5 = main_v65_3 := rfl

/-! ## Where the blocks sit: point t is image t; the weights' block is their whole array -/

theorem zero2 : (![0, 0] : Fin 2 → Nat) = fun _ => 0 := funext fun a => by fin_cases a <;> rfl
theorem zero3 : (![0, 0, 0] : Fin 3 → Nat) = fun _ => 0 := funext fun a => by fin_cases a <;> rfl

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx0_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx0_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx0_5 : ∀ t : Fin cfg0.N, win0_5.index t (0 : Fin 3) = t.val ∧ win0_5.index t (1 : Fin 3) = 0 ∧ win0_5.index t (2 : Fin 3) = 0 :=
  (by decide +kernel : ∀ t : Fin grid0.N, _)

variable (V : (c : Dev nD) → (b : Ref sig .tc) → Buf (Elt Ideal) ((c : Thread nD τ).loc b))

/-- Point t's block of x at (0, k, s) is x at (t, k, s). -/
theorem iblk0_0_apply (c : Dev nD) (t : Fin cfg0.N) (y : S1x128x1024.Idx) (i : S64x128x1024.Idx)
    (h0 : (i 0).val = t.val) (h1 : (i 1).val = (y 1).val) (h2 : (i 2).val = (y 2).val) :
    (Gen.iblk0 V c 0 t : Vec Ideal S1x128x1024 .f32) y = V c (Pipeline.arrRef spec0 0) i := by
  have hy : (y 0).val < 1 := (y 0).isLt
  unfold Gen.iblk0
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 3) * 1 + 1 * (y 0).val = (i 0).val; rw [(idx0_0 t).1, h0]; omega
  | ⟨1, _⟩ => show win0_0.index t (1 : Fin 3) * 128 + 1 * (y 1).val = (i 1).val; rw [(idx0_0 t).2.1, h1]; omega
  | ⟨2, _⟩ => show win0_0.index t (2 : Fin 3) * 1024 + 1 * (y 2).val = (i 2).val; rw [(idx0_0 t).2.2, h2]; omega

/-- Every point's block of the weights is the weights. -/
theorem iblk0_1_apply (c : Dev nD) (t : Fin cfg0.N) (y : S320x128.Idx) :
    (Gen.iblk0 V c 1 t : Vec Ideal S320x128 .bf16) y = V c (Pipeline.arrRef spec0 1) y := by
  unfold Gen.iblk0
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 320 + 1 * (y 0).val = (y 0).val; rw [(idx0_1 t).1]; omega
  | ⟨1, _⟩ => show win0_1.index t (1 : Fin 2) * 128 + 1 * (y 1).val = (y 1).val; rw [(idx0_1 t).2]; omega

/-! ## Window 2 -/

/-- Point t's payload at a block index j is the specification at the array index i that j sits at. -/
theorem blk0_2 (c : Dev nD) (t : Fin cfg0.N) (j : S1x64x1024.Idx) (i : S64x64x1024.Idx)
    (h0 : (i 0).val = t.val) (h1 : (i 1).val = (j 1).val) (h2 : (i 2).val = (j 2).val) :
    Gen.k0_pay2 (Gen.iblk0 V c 1 t) (Gen.iblk0 V c 0 t) j
      = G0_2 (V c (Pipeline.arrRef spec0 0)) (V c (Pipeline.arrRef spec0 1)) i := by
  obtain ⟨u, p, q, rfl⟩ : ∃ (u : Fin 1) (p : Fin 64) (q : Fin 1024), j = ix3 u p q := ⟨j 0, j 1, j 2, eq_ix3 j⟩
  obtain ⟨n, p', q', rfl⟩ : ∃ (n : Fin 64) (p' : Fin 64) (q' : Fin 1024), i = ix3 n p' q' := ⟨i 0, i 1, i 2, eq_ix3 i⟩
  obtain rfl : p = p' := (Fin.ext h1).symm
  obtain rfl : q = q' := (Fin.ext h2).symm
  exact pay0_2_spec (V c (Pipeline.arrRef spec0 0)) (V c (Pipeline.arrRef spec0 1)) (Gen.iblk0 V c 1 t) (Gen.iblk0 V c 0 t) n
    (iblk0_1_apply V c t) (fun k s => iblk0_0_apply V c t (ix3 (0 : Fin 1) k s) (ix3 n k s) h0 rfl rfl) u p q

/-- What point t writes back to window 2's array is block t of the specification. -/
theorem flushed0_2_eq (c : Dev nD) (t : Fin cfg0.N) :
    (Gen.dat0 V c).flushed 2 t = ((cfg0.win 2).blk t).view.read (Elt Ideal)
      (G0_2 (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero zero3]
  simp only [View.ld_unit_zero (S := S320x128) zero2, View.ld_unit_zero (S := S1x128x1024) zero3]
  funext j
  show Gen.k0_pay2 (Gen.iblk0 V c 1 t) (Gen.iblk0 V c 0 t) j
    = G0_2 (V c (Pipeline.arrRef spec0 0)) (V c (Pipeline.arrRef spec0 1)) (((cfg0.win 2).blk t).view.emb j)
  refine blk0_2 V c t j (((cfg0.win 2).blk t).view.emb j) ?_ ?_ ?_
  · show win0_2.index t (0 : Fin 3) * 1 + 1 * (j 0).val = t.val
    have hj : (j 0).val < 1 := (j 0).isLt
    rw [(idx0_2 t).1]; omega
  · show win0_2.index t (1 : Fin 3) * 64 + 1 * (j 1).val = (j 1).val
    rw [(idx0_2 t).2.1]; omega
  · show win0_2.index t (2 : Fin 3) * 1024 + 1 * (j 2).val = (j 2).val
    rw [(idx0_2 t).2.2]; omega

/-- An index is in point t's block iff each coordinate is in the block's range. -/
theorem mem_blk0_2 (t : Fin cfg0.N) (i : S64x64x1024.Idx) :
    i ∈ ((cfg0.win 2).blk t).view.set ↔ ∀ a : Fin 3, win0_2.index t a * S1x64x1024.size a ≤ (i a).val
      ∧ (i a).val < win0_2.index t a * S1x64x1024.size a + S1x64x1024.size a := by
  show i ∈ ((View.whole main_v65_0).slice (win0_2.rect t)).set ↔ _
  rw [View.set_slice_whole, Rect.mem_set_unit]
  exact Iff.rfl

/-- Every index of the array is in the block of its image's point. -/
theorem covers0_2 (i : S64x64x1024.Idx) :
    ∃ t : Fin cfg0.N, (cfg0.win 2).flush t = true ∧ i ∈ ((cfg0.win 2).blk t).view.set := by
  have hi0 : (i 0).val < 64 := (i 0).isLt
  have hi1 : (i 1).val < 64 := (i 1).isLt
  have hi2 : (i 2).val < 1024 := (i 2).isLt
  obtain ⟨t, ht⟩ : ∃ t : Fin cfg0.N, t.val = (i 0).val :=
    ⟨⟨(i 0).val, by rw [show cfg0.N = 64 from Gen.N_0]; exact hi0⟩, rfl⟩
  refine ⟨t, Gen.flush0_2 t, ?_⟩
  rw [mem_blk0_2]
  intro a
  match a with
  | ⟨0, _⟩ =>
    show win0_2.index t (0 : Fin 3) * 1 ≤ (i 0).val ∧ (i 0).val < win0_2.index t (0 : Fin 3) * 1 + 1
    rw [(idx0_2 t).1]; omega
  | ⟨1, _⟩ =>
    show win0_2.index t (1 : Fin 3) * 64 ≤ (i 1).val ∧ (i 1).val < win0_2.index t (1 : Fin 3) * 64 + 64
    rw [(idx0_2 t).2.1]; omega
  | ⟨2, _⟩ =>
    show win0_2.index t (2 : Fin 3) * 1024 ≤ (i 2).val ∧ (i 2).val < win0_2.index t (2 : Fin 3) * 1024 + 1024
    rw [(idx0_2 t).2.2]; omega

/-- y1 after the region: rows [0,64) of W·x, from the region's entry arrays. -/
theorem final0_2 (c : Dev nD) :
    (Gen.dat0 V c).arrAt 2 cfg0.N = G0_2 (V c (Pipeline.arrRef spec0 0)) (V c (Pipeline.arrRef spec0 1)) :=
  (Gen.dat0 V c).arrAt_eq_of_cover 2 (G0_2 (V c (Pipeline.arrRef spec0 0)) (V c (Pipeline.arrRef spec0 1)))
    (fun t _ => flushed0_2_eq V c t) covers0_2

/-! ## Window 3 -/

theorem blk0_3 (c : Dev nD) (t : Fin cfg0.N) (j : S1x256x1024.Idx) (i : S64x256x1024.Idx)
    (h0 : (i 0).val = t.val) (h1 : (i 1).val = (j 1).val) (h2 : (i 2).val = (j 2).val) :
    Gen.k0_pay3 (Gen.iblk0 V c 1 t) (Gen.iblk0 V c 0 t) j
      = G0_3 (V c (Pipeline.arrRef spec0 0)) (V c (Pipeline.arrRef spec0 1)) i := by
  obtain ⟨u, p, q, rfl⟩ : ∃ (u : Fin 1) (p : Fin 256) (q : Fin 1024), j = ix3 u p q := ⟨j 0, j 1, j 2, eq_ix3 j⟩
  obtain ⟨n, p', q', rfl⟩ : ∃ (n : Fin 64) (p' : Fin 256) (q' : Fin 1024), i = ix3 n p' q' := ⟨i 0, i 1, i 2, eq_ix3 i⟩
  obtain rfl : p = p' := (Fin.ext h1).symm
  obtain rfl : q = q' := (Fin.ext h2).symm
  exact pay0_3_spec (V c (Pipeline.arrRef spec0 0)) (V c (Pipeline.arrRef spec0 1)) (Gen.iblk0 V c 1 t) (Gen.iblk0 V c 0 t) n
    (iblk0_1_apply V c t) (fun k s => iblk0_0_apply V c t (ix3 (0 : Fin 1) k s) (ix3 n k s) h0 rfl rfl) u p q

theorem flushed0_3_eq (c : Dev nD) (t : Fin cfg0.N) :
    (Gen.dat0 V c).flushed 3 t = ((cfg0.win 3).blk t).view.read (Elt Ideal)
      (G0_3 (V c (Pipeline.arrRef spec0 0)) (V c (Pipeline.arrRef spec0 1))) := by
  show (cfg0.win 3).cut (grid0.coords t) ((Gen.dat0 V c).after 3 t) = _
  rw [Gen.after0_3]
  unfold Gen.out0_3
  rw [View.canon_unit_zero zero3]
  simp only [View.ld_unit_zero (S := S320x128) zero2, View.ld_unit_zero (S := S1x128x1024) zero3]
  funext j
  show Gen.k0_pay3 (Gen.iblk0 V c 1 t) (Gen.iblk0 V c 0 t) j
    = G0_3 (V c (Pipeline.arrRef spec0 0)) (V c (Pipeline.arrRef spec0 1)) (((cfg0.win 3).blk t).view.emb j)
  refine blk0_3 V c t j (((cfg0.win 3).blk t).view.emb j) ?_ ?_ ?_
  · show win0_3.index t (0 : Fin 3) * 1 + 1 * (j 0).val = t.val
    have hj : (j 0).val < 1 := (j 0).isLt
    rw [(idx0_3 t).1]; omega
  · show win0_3.index t (1 : Fin 3) * 256 + 1 * (j 1).val = (j 1).val
    rw [(idx0_3 t).2.1]; omega
  · show win0_3.index t (2 : Fin 3) * 1024 + 1 * (j 2).val = (j 2).val
    rw [(idx0_3 t).2.2]; omega

theorem mem_blk0_3 (t : Fin cfg0.N) (i : S64x256x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v65_1).slice (win0_3.rect t)).set ↔ _
  rw [View.set_slice_whole, Rect.mem_set_unit]
  exact Iff.rfl

theorem covers0_3 (i : S64x256x1024.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1024 := (i 2).isLt
  obtain ⟨t, ht⟩ : ∃ t : Fin cfg0.N, t.val = (i 0).val :=
    ⟨⟨(i 0).val, by rw [show cfg0.N = 64 from Gen.N_0]; exact hi0⟩, rfl⟩
  refine ⟨t, Gen.flush0_3 t, ?_⟩
  rw [mem_blk0_3]
  intro a
  match a with
  | ⟨0, _⟩ =>
    show win0_3.index t (0 : Fin 3) * 1 ≤ (i 0).val ∧ (i 0).val < win0_3.index t (0 : Fin 3) * 1 + 1
    rw [(idx0_3 t).1]; omega
  | ⟨1, _⟩ =>
    show win0_3.index t (1 : Fin 3) * 256 ≤ (i 1).val ∧ (i 1).val < win0_3.index t (1 : Fin 3) * 256 + 256
    rw [(idx0_3 t).2.1]; omega
  | ⟨2, _⟩ =>
    show win0_3.index t (2 : Fin 3) * 1024 ≤ (i 2).val ∧ (i 2).val < win0_3.index t (2 : Fin 3) * 1024 + 1024
    rw [(idx0_3 t).2.2]; omega

/-- sd after the region: rows [64,320) of W·x, from the region's entry arrays. -/
theorem final0_3 (c : Dev nD) :
    (Gen.dat0 V c).arrAt 3 cfg0.N = G0_3 (V c (Pipeline.arrRef spec0 0)) (V c (Pipeline.arrRef spec0 1)) :=
  (Gen.dat0 V c).arrAt_eq_of_cover 3 (G0_3 (V c (Pipeline.arrRef spec0 0)) (V c (Pipeline.arrRef spec0 1)))
    (fun t _ => flushed0_3_eq V c t) covers0_3

/-! ## Window 4 -/

theorem blk0_4 (c : Dev nD) (t : Fin cfg0.N) (j : S1x320x1.Idx) (i : S64x320x1.Idx)
    (h0 : (i 0).val = t.val) (h1 : (i 1).val = (j 1).val) (h2 : (i 2).val = (j 2).val) :
    Gen.k0_pay4 (Gen.iblk0 V c 1 t) (Gen.iblk0 V c 0 t) j
      = G0_4 (V c (Pipeline.arrRef spec0 0)) (V c (Pipeline.arrRef spec0 1)) i := by
  obtain ⟨u, r, z, rfl⟩ : ∃ (u : Fin 1) (r : Fin 320) (z : Fin 1), j = ix3 u r z := ⟨j 0, j 1, j 2, eq_ix3 j⟩
  obtain ⟨n, r', z', rfl⟩ : ∃ (n : Fin 64) (r' : Fin 320) (z' : Fin 1), i = ix3 n r' z' := ⟨i 0, i 1, i 2, eq_ix3 i⟩
  obtain rfl : r = r' := (Fin.ext h1).symm
  obtain rfl : z = z' := (Fin.ext h2).symm
  exact pay0_4_spec (V c (Pipeline.arrRef spec0 0)) (V c (Pipeline.arrRef spec0 1)) (Gen.iblk0 V c 1 t) (Gen.iblk0 V c 0 t) n
    (iblk0_1_apply V c t) (fun k s => iblk0_0_apply V c t (ix3 (0 : Fin 1) k s) (ix3 n k s) h0 rfl rfl) u r z

theorem flushed0_4_eq (c : Dev nD) (t : Fin cfg0.N) :
    (Gen.dat0 V c).flushed 4 t = ((cfg0.win 4).blk t).view.read (Elt Ideal)
      (G0_4 (V c (Pipeline.arrRef spec0 0)) (V c (Pipeline.arrRef spec0 1))) := by
  show (cfg0.win 4).cut (grid0.coords t) ((Gen.dat0 V c).after 4 t) = _
  rw [Gen.after0_4]
  unfold Gen.out0_4
  rw [View.canon_unit_zero zero3]
  simp only [View.ld_unit_zero (S := S320x128) zero2, View.ld_unit_zero (S := S1x128x1024) zero3]
  funext j
  show Gen.k0_pay4 (Gen.iblk0 V c 1 t) (Gen.iblk0 V c 0 t) j
    = G0_4 (V c (Pipeline.arrRef spec0 0)) (V c (Pipeline.arrRef spec0 1)) (((cfg0.win 4).blk t).view.emb j)
  refine blk0_4 V c t j (((cfg0.win 4).blk t).view.emb j) ?_ ?_ ?_
  · show win0_4.index t (0 : Fin 3) * 1 + 1 * (j 0).val = t.val
    have hj : (j 0).val < 1 := (j 0).isLt
    rw [(idx0_4 t).1]; omega
  · show win0_4.index t (1 : Fin 3) * 320 + 1 * (j 1).val = (j 1).val
    rw [(idx0_4 t).2.1]; omega
  · show win0_4.index t (2 : Fin 3) * 1 + 1 * (j 2).val = (j 2).val
    rw [(idx0_4 t).2.2]; omega

theorem mem_blk0_4 (t : Fin cfg0.N) (i : S64x320x1.Idx) :
    i ∈ ((cfg0.win 4).blk t).view.set ↔ ∀ a : Fin 3, win0_4.index t a * S1x320x1.size a ≤ (i a).val
      ∧ (i a).val < win0_4.index t a * S1x320x1.size a + S1x320x1.size a := by
  show i ∈ ((View.whole main_v65_2).slice (win0_4.rect t)).set ↔ _
  rw [View.set_slice_whole, Rect.mem_set_unit]
  exact Iff.rfl

theorem covers0_4 (i : S64x320x1.Idx) :
    ∃ t : Fin cfg0.N, (cfg0.win 4).flush t = true ∧ i ∈ ((cfg0.win 4).blk t).view.set := by
  have hi0 : (i 0).val < 64 := (i 0).isLt
  have hi1 : (i 1).val < 320 := (i 1).isLt
  have hi2 : (i 2).val < 1 := (i 2).isLt
  obtain ⟨t, ht⟩ : ∃ t : Fin cfg0.N, t.val = (i 0).val :=
    ⟨⟨(i 0).val, by rw [show cfg0.N = 64 from Gen.N_0]; exact hi0⟩, rfl⟩
  refine ⟨t, Gen.flush0_4 t, ?_⟩
  rw [mem_blk0_4]
  intro a
  match a with
  | ⟨0, _⟩ =>
    show win0_4.index t (0 : Fin 3) * 1 ≤ (i 0).val ∧ (i 0).val < win0_4.index t (0 : Fin 3) * 1 + 1
    rw [(idx0_4 t).1]; omega
  | ⟨1, _⟩ =>
    show win0_4.index t (1 : Fin 3) * 320 ≤ (i 1).val ∧ (i 1).val < win0_4.index t (1 : Fin 3) * 320 + 320
    rw [(idx0_4 t).2.1]; omega
  | ⟨2, _⟩ =>
    show win0_4.index t (2 : Fin 3) * 1 ≤ (i 2).val ∧ (i 2).val < win0_4.index t (2 : Fin 3) * 1 + 1
    rw [(idx0_4 t).2.2]; omega

/-- The row sums after the region, from the region's entry arrays. -/
theorem final0_4 (c : Dev nD) :
    (Gen.dat0 V c).arrAt 4 cfg0.N = G0_4 (V c (Pipeline.arrRef spec0 0)) (V c (Pipeline.arrRef spec0 1)) :=
  (Gen.dat0 V c).arrAt_eq_of_cover 4 (G0_4 (V c (Pipeline.arrRef spec0 0)) (V c (Pipeline.arrRef spec0 1)))
    (fun t _ => flushed0_4_eq V c t) covers0_4

/-! ## Window 5 -/

theorem blk0_5 (c : Dev nD) (t : Fin cfg0.N) (j : S1x320x1.Idx) (i : S64x320x1.Idx)
    (h0 : (i 0).val = t.val) (h1 : (i 1).val = (j 1).val) (h2 : (i 2).val = (j 2).val) :
    Gen.k0_pay5 (Gen.iblk0 V c 1 t) (Gen.iblk0 V c 0 t) j
      = G0_5 (V c (Pipeline.arrRef spec0 0)) (V c (Pipeline.arrRef spec0 1)) i := by
  obtain ⟨u, r, z, rfl⟩ : ∃ (u : Fin 1) (r : Fin 320) (z : Fin 1), j = ix3 u r z := ⟨j 0, j 1, j 2, eq_ix3 j⟩
  obtain ⟨n, r', z', rfl⟩ : ∃ (n : Fin 64) (r' : Fin 320) (z' : Fin 1), i = ix3 n r' z' := ⟨i 0, i 1, i 2, eq_ix3 i⟩
  obtain rfl : r = r' := (Fin.ext h1).symm
  obtain rfl : z = z' := (Fin.ext h2).symm
  exact pay0_5_spec (V c (Pipeline.arrRef spec0 0)) (V c (Pipeline.arrRef spec0 1)) (Gen.iblk0 V c 1 t) (Gen.iblk0 V c 0 t) n
    (iblk0_1_apply V c t) (fun k s => iblk0_0_apply V c t (ix3 (0 : Fin 1) k s) (ix3 n k s) h0 rfl rfl) u r z

theorem flushed0_5_eq (c : Dev nD) (t : Fin cfg0.N) :
    (Gen.dat0 V c).flushed 5 t = ((cfg0.win 5).blk t).view.read (Elt Ideal)
      (G0_5 (V c (Pipeline.arrRef spec0 0)) (V c (Pipeline.arrRef spec0 1))) := by
  show (cfg0.win 5).cut (grid0.coords t) ((Gen.dat0 V c).after 5 t) = _
  rw [Gen.after0_5]
  unfold Gen.out0_5
  rw [View.canon_unit_zero zero3]
  simp only [View.ld_unit_zero (S := S320x128) zero2, View.ld_unit_zero (S := S1x128x1024) zero3]
  funext j
  show Gen.k0_pay5 (Gen.iblk0 V c 1 t) (Gen.iblk0 V c 0 t) j
    = G0_5 (V c (Pipeline.arrRef spec0 0)) (V c (Pipeline.arrRef spec0 1)) (((cfg0.win 5).blk t).view.emb j)
  refine blk0_5 V c t j (((cfg0.win 5).blk t).view.emb j) ?_ ?_ ?_
  · show win0_5.index t (0 : Fin 3) * 1 + 1 * (j 0).val = t.val
    have hj : (j 0).val < 1 := (j 0).isLt
    rw [(idx0_5 t).1]; omega
  · show win0_5.index t (1 : Fin 3) * 320 + 1 * (j 1).val = (j 1).val
    rw [(idx0_5 t).2.1]; omega
  · show win0_5.index t (2 : Fin 3) * 1 + 1 * (j 2).val = (j 2).val
    rw [(idx0_5 t).2.2]; omega

theorem mem_blk0_5 (t : Fin cfg0.N) (i : S64x320x1.Idx) :
    i ∈ ((cfg0.win 5).blk t).view.set ↔ ∀ a : Fin 3, win0_5.index t a * S1x320x1.size a ≤ (i a).val
      ∧ (i a).val < win0_5.index t a * S1x320x1.size a + S1x320x1.size a := by
  show i ∈ ((View.whole main_v65_3).slice (win0_5.rect t)).set ↔ _
  rw [View.set_slice_whole, Rect.mem_set_unit]
  exact Iff.rfl

theorem covers0_5 (i : S64x320x1.Idx) :
    ∃ t : Fin cfg0.N, (cfg0.win 5).flush t = true ∧ i ∈ ((cfg0.win 5).blk t).view.set := by
  have hi0 : (i 0).val < 64 := (i 0).isLt
  have hi1 : (i 1).val < 320 := (i 1).isLt
  have hi2 : (i 2).val < 1 := (i 2).isLt
  obtain ⟨t, ht⟩ : ∃ t : Fin cfg0.N, t.val = (i 0).val :=
    ⟨⟨(i 0).val, by rw [show cfg0.N = 64 from Gen.N_0]; exact hi0⟩, rfl⟩
  refine ⟨t, Gen.flush0_5 t, ?_⟩
  rw [mem_blk0_5]
  intro a
  match a with
  | ⟨0, _⟩ =>
    show win0_5.index t (0 : Fin 3) * 1 ≤ (i 0).val ∧ (i 0).val < win0_5.index t (0 : Fin 3) * 1 + 1
    rw [(idx0_5 t).1]; omega
  | ⟨1, _⟩ =>
    show win0_5.index t (1 : Fin 3) * 320 ≤ (i 1).val ∧ (i 1).val < win0_5.index t (1 : Fin 3) * 320 + 320
    rw [(idx0_5 t).2.1]; omega
  | ⟨2, _⟩ =>
    show win0_5.index t (2 : Fin 3) * 1 ≤ (i 2).val ∧ (i 2).val < win0_5.index t (2 : Fin 3) * 1 + 1
    rw [(idx0_5 t).2.2]; omega

/-- The row sums of squares after the region, from the region's entry arrays. -/
theorem final0_5 (c : Dev nD) :
    (Gen.dat0 V c).arrAt 5 cfg0.N = G0_5 (V c (Pipeline.arrRef spec0 0)) (V c (Pipeline.arrRef spec0 1)) :=
  (Gen.dat0 V c).arrAt_eq_of_cover 5 (G0_5 (V c (Pipeline.arrRef spec0 0)) (V c (Pipeline.arrRef spec0 1)))
    (fun t _ => flushed0_5_eq V c t) covers0_5

end Cert.KernelIdeal.Val

end
-- ==== Proof.LibConvSpec.lean ====
import Idealize.ShloMosaic.PureOps.Ideal

noncomputable section
open scoped BigOperators

namespace Cert.Lib.ConvSpec

open Idealize.ShloMosaic

/-! # The activation and the four masked lane windows of the 2×2 stencil, as functions of row readers

An image is read through `y c m` (channel `c`, pixel `m` of a 32-wide raster laid out along 1024 lanes), with a
per-channel scale and shift. `z = sin (y · scale + shift)`, continued by zero past lane 1023; the window of shift index
`s` starts `laneShift s` lanes to the right and is multiplied by row `s` of the mask. -/

/-! ## Reals inside the extended reals -/

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_sin {x : EReal} (hx : ∃ r : ℝ, x = r) : ∃ r : ℝ, Ideal.sin x = r := by
  obtain ⟨a, rfl⟩ := hx; exact ⟨Real.sin a, rfl⟩

theorem real_zero : ∃ r : ℝ, (0 : EReal) = r := ⟨0, rfl⟩

theorem real_sum {ι : Type*} (s : Finset ι) (f : ι → EReal) (h : ∀ i, ∃ r : ℝ, f i = r) : ∃ r : ℝ, ∑ i ∈ s, f i = r := by
  classical
  induction s using Finset.induction_on with
  | empty => exact ⟨0, by simp⟩
  | insert a s ha ih => rw [Finset.sum_insert ha]; exact real_add (h a) ih

/-! ## The windows -/

/-- The lane offsets of the four shift indices: right neighbour 1, row below 32, both 33. -/
def laneShift : Fin 4 → ℕ := ![0, 1, 32, 33]

theorem laneShift_le (s : Fin 4) : laneShift s ≤ 33 := by
  fin_cases s <;> simp [laneShift]

/-- `z` of one image continued by zeros past lane 1023: `sin (y c m · scale c + shift c)` at a lane `m < 1024`, zero beyond. -/
def zpad (y : Fin 64 → Fin 1024 → EReal) (sc sh : Fin 64 → EReal) (c : Fin 64) (m : ℕ) : EReal :=
  if h : m < 1024 then Ideal.sin (y c ⟨m, h⟩ * sc c + sh c) else 0

/-- The masked window of shift index `s` at channel `c`, lane `l`. -/
def slab (y : Fin 64 → Fin 1024 → EReal) (sc sh : Fin 64 → EReal) (mask : Fin 4 → Fin 1024 → EReal) (l : Fin 1024)
    (s : Fin 4) (c : Fin 64) : EReal :=
  zpad y sc sh c (l.val + laneShift s) * mask s l

theorem zpad_real {y : Fin 64 → Fin 1024 → EReal} {sc sh : Fin 64 → EReal} (hy : ∀ c m, ∃ r : ℝ, y c m = r)
    (hsc : ∀ c, ∃ r : ℝ, sc c = r) (hsh : ∀ c, ∃ r : ℝ, sh c = r) (c : Fin 64) (m : ℕ) : ∃ r : ℝ, zpad y sc sh c m = r := by
  unfold zpad
  split
  · exact real_sin (real_add (real_mul (hy _ _) (hsc _)) (hsh _))
  · exact real_zero

theorem slab_real {y : Fin 64 → Fin 1024 → EReal} {sc sh : Fin 64 → EReal} {mask : Fin 4 → Fin 1024 → EReal}
    (hy : ∀ c m, ∃ r : ℝ, y c m = r) (hsc : ∀ c, ∃ r : ℝ, sc c = r) (hsh : ∀ c, ∃ r : ℝ, sh c = r)
    (hm : ∀ s l, ∃ r : ℝ, mask s l = r) (l : Fin 1024) (s : Fin 4) (c : Fin 64) : ∃ r : ℝ, slab y sc sh mask l s c = r :=
  real_mul (zpad_real hy hsc hsh _ _) (hm _ _)

/-- Equal readers give equal windows. -/
theorem slab_congr {y y' : Fin 64 → Fin 1024 → EReal} {sc sc' sh sh' : Fin 64 → EReal} {mask mask' : Fin 4 → Fin 1024 → EReal}
    (hy : ∀ c m, y c m = y' c m) (hsc : ∀ c, sc c = sc' c) (hsh : ∀ c, sh c = sh' c) (hm : ∀ s l, mask s l = mask' s l)
    (l : Fin 1024) (s : Fin 4) (c : Fin 64) : slab y sc sh mask l s c = slab y' sc' sh' mask' l s c := by
  obtain rfl : y = y' := funext fun c => funext fun m => hy c m
  obtain rfl : sc = sc' := funext hsc
  obtain rfl : sh = sh' := funext hsh
  obtain rfl : mask = mask' := funext fun s => funext fun l => hm s l
  rfl

end Cert.Lib.ConvSpec

end
-- ==== Proof.KerV1a.lean ====
import proofs.«159567_g2000302752657622_pallasbulk_725_3_alg».proof.Proof.Gen.KernelIdeal.Skeleton
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«159567_g2000302752657622_pallasbulk_725_3_alg».proof.Proof.LibConvSpec

noncomputable section
open scoped BigOperators

namespace Cert.KernelIdeal.Val
open Cert.KernelIdeal Cert.KernelIdeal.Gen
open Idealize.ShloMosaic Idealize.ShloMosaic.ValueIdx

/-! # Region 1 (the first 2×2 convolution as one block matmul): the body's values at an index

The body reads one image `y` ([1,64,1024], channels × pixels), a per-channel scale and shift, the four tap masks
([4,1024]) and the block weight ([256,256]). It forms `z = sin (y · scale + shift)`, pads `z` by zero lanes on the
right, takes the four lane windows starting at 0, 1, 32, 33 (the taps of a 2×2 stencil on a 32-wide raster), multiplies
window `s` by mask row `s`, stacks the four masked windows along the rows (row `64 s + c` is channel `c` of tap `s`)
and multiplies the block weight by the stack. The statistics are the sums, over the four 64-row groups of the product and
over the pixels, of the product and of its square. -/

/-! ## The specification over row readers

The activation `zpad`, the lane offsets `laneShift` and the closure of the reals under the operations used here are the
shared definitions of the convolution's specification. -/

export Cert.Lib.ConvSpec (real_mul real_add real_sin real_zero real_sum laneShift laneShift_le zpad zpad_real slab slab_real)

/-- The block product at row `j`, lane `l`: the sum over taps `s` and channels `c` of the block weight at
    `(j, 64 s + c)` times the masked window of tap `s`. -/
def conv4 (y : Fin 64 → Fin 1024 → EReal) (sc sh : Fin 64 → EReal) (W : Fin 256 → Fin 256 → EReal)
    (mask : Fin 4 → Fin 1024 → EReal) (j : Fin 256) (l : Fin 1024) : EReal :=
  ∑ s : Fin 4, ∑ c : Fin 64, W j ⟨64 * s.val + c.val, by omega⟩ * (zpad y sc sh c (l.val + laneShift s) * mask s l)

theorem conv4_real {y : Fin 64 → Fin 1024 → EReal} {sc sh : Fin 64 → EReal} {W : Fin 256 → Fin 256 → EReal}
    {mask : Fin 4 → Fin 1024 → EReal} (hy : ∀ c m, ∃ r : ℝ, y c m = r) (hsc : ∀ c, ∃ r : ℝ, sc c = r)
    (hsh : ∀ c, ∃ r : ℝ, sh c = r) (hW : ∀ a b, ∃ r : ℝ, W a b = r) (hm : ∀ s l, ∃ r : ℝ, mask s l = r)
    (j : Fin 256) (l : Fin 1024) : ∃ r : ℝ, conv4 y sc sh W mask j l = r :=
  real_sum _ _ fun s => real_sum _ _ fun c => real_mul (hW _ _) (real_mul (zpad_real hy hsc hsh _ _) (hm _ _))

/-! ## The layout steps of the body, each read at an index -/

/-- `sin (y · scale + shift)` of the loaded block, the scale and shift columns broadcast along the lanes. -/
theorem sinAffine_apply (v0 : Vec Ideal S1x64x1024 .bf16) (v3 v7 : Vec Ideal S64x1 .f32)
    (h1 : S1x64x1024.ShapeCasts S64x1024) (h2 : S64x1.ShapeCasts S64x1) (hb : S64x1.Broadcasts S64x1024)
    (hlt : FTy.bits .bf16 < FTy.bits .f32) (c : Fin 64) (m : Fin 1024) :
    (truncf .bf16 (sin (addf (mulf (extf .f32 (shapeCast S64x1024 v0 h1) hlt)
        (broadcastTo S64x1024 (shapeCast S64x1 v3 h2) hb)) (broadcastTo S64x1024 (shapeCast S64x1 v7 h2) hb))) hlt
      : FVec Ideal S64x1024 .bf16) (ix2 c m)
      = Ideal.sin (v0 (ix3 0 c m) * v3 (ix2 c 0) + v7 (ix2 c 0)) := by
  show Ideal.sin (shapeCast S64x1024 v0 h1 (ix2 c m) * broadcastTo S64x1024 (shapeCast S64x1 v3 h2) hb (ix2 c m)
      + broadcastTo S64x1024 (shapeCast S64x1 v7 h2) hb (ix2 c m)) = _
  have e0 : shapeCast S64x1024 v0 h1 (ix2 c m) = v0 (ix3 0 c m) :=
    shapeCast_apply v0 h1 (ix2 c m) (ix3 0 c m) (by
      rw [Shape.rowMajor_val_three, Shape.rowMajor_val_two]
      show ((0 : ℕ) * 64 + c.val) * 1024 + m.val = c.val * 1024 + m.val
      omega)
  have e1 : ∀ v : Vec Ideal S64x1 .f32, broadcastTo S64x1024 (shapeCast S64x1 v h2) hb (ix2 c m) = v (ix2 c 0) := fun v => by
    rw [shapeCast_self]
    exact broadcastTo_apply v hb (ix2 c m) (ix2 c 0) (fun a => by
      match a with
      | ⟨0, _⟩ => rfl
      | ⟨1, _⟩ => rfl)
  rw [e0, e1 v3, e1 v7]

/-- The zero padding on the right: the 64×1152 concatenation reads `z` at a lane below 1024 and zero from there on. -/
theorem padZero_apply (z : FVec Ideal S64x1024 .bf16) (hc : Shape.Concatenates [S64x1024, S64x128] S64x1152 1)
    (c : Fin 64) (m : Fin 1152) :
    concatenate S64x1152 1 [⟨S64x1024, z⟩, ⟨S64x128, broadcast S64x128 (FloatOps.ofBits (F := Ideal) .bf16 0x0000#16)⟩] hc (ix2 c m)
      = if h : m.val < 1024 then z (ix2 c ⟨m.val, h⟩) else 0 := by
  by_cases h : m.val < 1024
  · rw [dif_pos h]
    exact concatenate_pair_apply_left (t := S64x1152) (s₁ := S64x1024) (s₂ := S64x128) (1 : Fin 2) z
      (broadcast S64x128 (FloatOps.ofBits (F := Ideal) .bf16 0x0000#16)) hc (ix2 c m) rfl (ix2 c (⟨m.val, h⟩ : Fin 1024)) (fun b => by
      match b with
      | ⟨0, _⟩ => rfl
      | ⟨1, _⟩ => rfl)
  · rw [dif_neg h]
    have hm : m.val - 1024 < 128 := by have := m.isLt; omega
    refine (concatenate_pair_apply_right (t := S64x1152) (s₁ := S64x1024) (s₂ := S64x128) (1 : Fin 2) z
      (broadcast S64x128 (FloatOps.ofBits (F := Ideal) .bf16 0x0000#16)) hc (ix2 c m) rfl rfl
      (ix2 c (⟨m.val - 1024, hm⟩ : Fin 128)) (fun b hb => by
      match b with
      | ⟨0, _⟩ => rfl
      | ⟨1, _⟩ => exact absurd rfl hb) (by
      show m.val - 1024 + 1024 = m.val
      omega)).trans ?_
    rw [broadcast_apply]
    exact Ideal.ofBits_zero_bf16

/-- One masked lane window: the window of the padded `z` starting at lane `d`, times mask row `s` broadcast over the rows. -/
theorem window_apply (zp : FVec Ideal S64x1152 .bf16) (v15 : Vec Ideal S4x1024 .f32) (s : Fin 4) (d : ℕ) (hd : d ≤ 128)
    (hs : S64x1152.Slices ![0, d] S64x1024) (hm : S4x1024.Slices ![s.val, 0] S1x1024) (hb : S1x1024.Broadcasts S64x1024)
    (hlt : FTy.bits .bf16 < FTy.bits .f32) (c : Fin 64) (l : Fin 1024) :
    mulf (extractStridedSlice S64x1024 ![0, d] zp hs)
        (broadcastTo S64x1024 (extractStridedSlice S1x1024 ![s.val, 0] (truncf .bf16 v15 hlt) hm) hb) (ix2 c l)
      = zp (ix2 c ⟨l.val + d, by have := l.isLt; omega⟩) * v15 (ix2 s l) := by
  show extractStridedSlice S64x1024 ![0, d] zp hs (ix2 c l)
      * broadcastTo S64x1024 (extractStridedSlice S1x1024 ![s.val, 0] (truncf .bf16 v15 hlt) hm) hb (ix2 c l) = _
  have e0 : extractStridedSlice S64x1024 ![0, d] zp hs (ix2 c l) = zp (ix2 c ⟨l.val + d, by have := l.isLt; omega⟩) :=
    extractStridedSlice_apply _ zp hs (ix2 c l) _ (fun a => by
      match a with
      | ⟨0, _⟩ => show c.val = 0 + c.val; omega
      | ⟨1, _⟩ => show l.val + d = d + l.val; omega)
  have e1 : (broadcastTo S64x1024 (extractStridedSlice (s := S4x1024) (α := Ideal .bf16) S1x1024 ![s.val, 0]
      (truncf .bf16 v15 hlt) hm) hb (ix2 c l) : EReal) = v15 (ix2 s l) := by
    refine (broadcastTo_apply (extractStridedSlice (s := S4x1024) (α := Ideal .bf16) S1x1024 ![s.val, 0] (truncf .bf16 v15 hlt) hm) hb (ix2 c l)
      (ix2 (0 : Fin 1) l) ?_).trans ?_
    · intro a
      match a with
      | ⟨0, _⟩ => rfl
      | ⟨1, _⟩ => rfl
    · exact extractStridedSlice_apply (s := S4x1024) (α := Ideal .bf16) ![s.val, 0] (truncf .bf16 v15 hlt) hm (ix2 (0 : Fin 1) l) (ix2 s l) (fun a => by
        match a with
        | ⟨0, _⟩ => show s.val = s.val + 0; omega
        | ⟨1, _⟩ => show l.val = 0 + l.val; omega)
  rw [e0, e1]

/-- Four 64-row pieces stacked along the rows: row `64 s + c` reads piece `s` at row `c`. -/
theorem stack4_apply {α : Type} (x0 x1 x2 x3 : S64x1024.Idx → α)
    (h : Shape.Concatenates [S64x1024, S64x1024, S64x1024, S64x1024] S256x1024 0) (s : Fin 4) (c : Fin 64) (l : Fin 1024) :
    concatenate S256x1024 0 [⟨S64x1024, x0⟩, ⟨S64x1024, x1⟩, ⟨S64x1024, x2⟩, ⟨S64x1024, x3⟩] h
        (ix2 ⟨64 * s.val + c.val, by omega⟩ l) = (![x0, x1, x2, x3] s) (ix2 c l) := by
  match s with
  | ⟨0, _⟩ =>
    exact concatenate_apply_piece (t := S256x1024) (0 : Fin 2) ([⟨S64x1024, x0⟩, ⟨S64x1024, x1⟩, ⟨S64x1024, x2⟩, ⟨S64x1024, x3⟩] : List ((s : Shape) × (s.Idx → α))) h (ix2 (⟨64 * 0 + c.val, by omega⟩ : Fin 256) l) 0 (by show 0 < 4; omega) S64x1024 x0 rfl rfl 0 rfl (ix2 c l) (fun b hb => by
      match b with
      | ⟨0, _⟩ => exact absurd rfl hb
      | ⟨1, _⟩ => rfl) (by show 0 + c.val = 64 * 0 + c.val; omega)
  | ⟨1, _⟩ =>
    exact concatenate_apply_piece (t := S256x1024) (0 : Fin 2) ([⟨S64x1024, x0⟩, ⟨S64x1024, x1⟩, ⟨S64x1024, x2⟩, ⟨S64x1024, x3⟩] : List ((s : Shape) × (s.Idx → α))) h (ix2 (⟨64 * 1 + c.val, by omega⟩ : Fin 256) l) 1 (by show 1 < 4; omega) S64x1024 x1 rfl rfl 64 rfl (ix2 c l) (fun b hb => by
      match b with
      | ⟨0, _⟩ => exact absurd rfl hb
      | ⟨1, _⟩ => rfl) (by show 64 + c.val = 64 * 1 + c.val; omega)
  | ⟨2, _⟩ =>
    exact concatenate_apply_piece (t := S256x1024) (0 : Fin 2) ([⟨S64x1024, x0⟩, ⟨S64x1024, x1⟩, ⟨S64x1024, x2⟩, ⟨S64x1024, x3⟩] : List ((s : Shape) × (s.Idx → α))) h (ix2 (⟨64 * 2 + c.val, by omega⟩ : Fin 256) l) 2 (by show 2 < 4; omega) S64x1024 x2 rfl rfl 128 rfl (ix2 c l) (fun b hb => by
      match b with
      | ⟨0, _⟩ => exact absurd rfl hb
      | ⟨1, _⟩ => rfl) (by show 128 + c.val = 64 * 2 + c.val; omega)
  | ⟨3, _⟩ =>
    exact concatenate_apply_piece (t := S256x1024) (0 : Fin 2) ([⟨S64x1024, x0⟩, ⟨S64x1024, x1⟩, ⟨S64x1024, x2⟩, ⟨S64x1024, x3⟩] : List ((s : Shape) × (s.Idx → α))) h (ix2 (⟨64 * 3 + c.val, by omega⟩ : Fin 256) l) 3 (by show 3 < 4; omega) S64x1024 x3 rfl rfl 192 rfl (ix2 c l) (fun b hb => by
      match b with
      | ⟨0, _⟩ => exact absurd rfl hb
      | ⟨1, _⟩ => rfl) (by show 192 + c.val = 64 * 3 + c.val; omega)

/-- A sum over the 256 rows as the double sum over the four 64-row groups. -/
theorem sum_rows256 {M : Type*} [AddCommMonoid M] (f : Fin 256 → M) :
    ∑ k, f k = ∑ s : Fin 4, ∑ c : Fin 64, f ⟨64 * s.val + c.val, by omega⟩ := by
  rw [← Equiv.sum_comp (finProdFinEquiv (m := 4) (n := 64)) f, Fintype.sum_prod_type]
  refine Finset.sum_congr rfl fun s _ => Finset.sum_congr rfl fun c _ => congrArg f (Fin.ext ?_)
  show c.val + 64 * s.val = 64 * s.val + c.val
  omega

/-- The block matmul into the zero accumulator: row `j`, lane `l` is the sum over the 256 contracted rows. -/
theorem blockMatmul_apply (A : FVec Ideal S256x256 .bf16) (B : FVec Ideal S256x1024 .bf16) (j : Fin 256) (l : Fin 1024) :
    matmul dot_S256x256_S256x1024_S256x1024_1_0_0_1_n_n none A B (constant S256x1024 .f32 0x00000000#32) (ix2 j l)
      = ∑ k : Fin 256, A (ix2 j k) * B (ix2 k l) := by
  show FloatOps.matmul dot_S256x256_S256x1024_S256x1024_1_0_0_1_n_n none A B (constant S256x1024 .f32 0x00000000#32) (ix2 j l) = _
  rw [Ideal.matmul_constant_zero_apply,
    ← Equiv.sum_comp (contrEquiv1 dot_S256x256_S256x1024_S256x1024_1_0_0_1_n_n 256 rfl rfl).symm]
  refine Finset.sum_congr rfl fun k _ => ?_
  have ck := contrEquiv1_symm_val dot_S256x256_S256x1024_S256x1024_1_0_0_1_n_n 256 rfl rfl k
  have el : dot_S256x256_S256x1024_S256x1024_1_0_0_1_n_n.lhsIdx (ix2 j l)
      ((contrEquiv1 dot_S256x256_S256x1024_S256x1024_1_0_0_1_n_n 256 rfl rfl).symm k) = ix2 j k := by
    funext ax; apply Fin.ext
    match ax with
    | ⟨0, _⟩ => simp [DotDims.lhsIdx, dot_S256x256_S256x1024_S256x1024_1_0_0_1_n_n]; rfl
    | ⟨1, _⟩ => simp [DotDims.lhsIdx, dot_S256x256_S256x1024_S256x1024_1_0_0_1_n_n]; exact ck
  have er : dot_S256x256_S256x1024_S256x1024_1_0_0_1_n_n.rhsIdx (ix2 j l)
      ((contrEquiv1 dot_S256x256_S256x1024_S256x1024_1_0_0_1_n_n 256 rfl rfl).symm k) = ix2 k l := by
    funext ax; apply Fin.ext
    match ax with
    | ⟨0, _⟩ => simp [DotDims.rhsIdx, dot_S256x256_S256x1024_S256x1024_1_0_0_1_n_n]; exact ck
    | ⟨1, _⟩ => simp [DotDims.rhsIdx, dot_S256x256_S256x1024_S256x1024_1_0_0_1_n_n]; rfl
  rw [el, er]

/-! ## The payloads at an index -/

/-- The padded `z` of the loaded block at row `c`, lane `m`. -/
theorem zpadBlock_apply (v0 : Vec Ideal S1x64x1024 .bf16) (v3 v7 : Vec Ideal S64x1 .f32)
    (h1 : S1x64x1024.ShapeCasts S64x1024) (h2 : S64x1.ShapeCasts S64x1) (hb : S64x1.Broadcasts S64x1024)
    (hlt : FTy.bits .bf16 < FTy.bits .f32) (hc : Shape.Concatenates [S64x1024, S64x128] S64x1152 1) (c : Fin 64) (m : Fin 1152) :
    concatenate S64x1152 1 [⟨S64x1024, (truncf .bf16 (sin (addf (mulf (extf .f32 (shapeCast S64x1024 v0 h1) hlt)
        (broadcastTo S64x1024 (shapeCast S64x1 v3 h2) hb)) (broadcastTo S64x1024 (shapeCast S64x1 v7 h2) hb))) hlt
          : FVec Ideal S64x1024 .bf16)⟩,
        ⟨S64x128, broadcast S64x128 (FloatOps.ofBits (F := Ideal) .bf16 0x0000#16)⟩] hc (ix2 c m)
      = zpad (fun c m => v0 (ix3 0 c m)) (fun c => v3 (ix2 c 0)) (fun c => v7 (ix2 c 0)) c m.val := by
  rw [padZero_apply]
  unfold zpad
  by_cases h : m.val < 1024
  · rw [dif_pos h, dif_pos h]; exact sinAffine_apply v0 v3 v7 h1 h2 hb hlt c ⟨m.val, h⟩
  · rw [dif_neg h, dif_neg h]

/-- The block product the body forms, at row `j`, lane `l`. -/
theorem pay1_3_apply (v0 : Vec Ideal S1x64x1024 .bf16) (v3 v7 : Vec Ideal S64x1 .f32) (v15 : Vec Ideal S4x1024 .f32) (v34 : Vec Ideal S256x256 .bf16) (j : Fin 256) (l : Fin 1024) :
    Gen.k1_pay3 v0 v3 v7 v15 v34 (ix2 j l) = conv4 (fun c m => v0 (ix3 0 c m)) (fun c => v3 (ix2 c 0)) (fun c => v7 (ix2 c 0)) (fun a b => v34 (ix2 a b)) (fun s l => v15 (ix2 s l)) j l := by
  unfold Gen.k1_pay3
  refine (blockMatmul_apply _ _ j l).trans ?_
  rw [sum_rows256]
  unfold conv4
  refine Finset.sum_congr rfl fun s _ => Finset.sum_congr rfl fun c _ => ?_
  beta_reduce
  rw [shapeCast_self]
  refine congrArg₂ (· * ·) rfl ?_
  refine (stack4_apply _ _ _ _ _ s c l).trans ?_
  match s with
  | ⟨0, _⟩ =>
    refine (window_apply _ v15 (0 : Fin 4) 0 (by omega) _ _ _ _ c l).trans ?_
    rw [zpadBlock_apply]
    rfl
  | ⟨1, _⟩ =>
    refine (window_apply _ v15 (1 : Fin 4) 1 (by omega) _ _ _ _ c l).trans ?_
    rw [zpadBlock_apply]
    rfl
  | ⟨2, _⟩ =>
    refine (window_apply _ v15 (2 : Fin 4) 32 (by omega) _ _ _ _ c l).trans ?_
    rw [zpadBlock_apply]
    rfl
  | ⟨3, _⟩ =>
    refine (window_apply _ v15 (3 : Fin 4) 33 (by omega) _ _ _ _ c l).trans ?_
    rw [zpadBlock_apply]
    rfl

/-- What the body stores to the product's window: the product, narrowed (exactly) and given the block's unit axis. -/
theorem pay1_4_apply (v0 : Vec Ideal S1x64x1024 .bf16) (v3 v7 : Vec Ideal S64x1 .f32) (v15 : Vec Ideal S4x1024 .f32) (v34 : Vec Ideal S256x256 .bf16) (j : Fin 256) (l : Fin 1024) :
    Gen.k1_pay4 v0 v3 v7 v15 v34 (ix3 0 j l) = conv4 (fun c m => v0 (ix3 0 c m)) (fun c => v3 (ix2 c 0)) (fun c => v7 (ix2 c 0)) (fun a b => v34 (ix2 a b)) (fun s l => v15 (ix2 s l)) j l := by
  unfold Gen.k1_pay4
  refine (shapeCast_apply _ _ (ix3 (0 : Fin 1) j l) (ix2 j l) ?_).trans ?_
  · rw [Shape.rowMajor_val_two, Shape.rowMajor_val_three]
    show j.val * 1024 + l.val = ((0 : ℕ) * 256 + j.val) * 1024 + l.val
    omega
  · exact pay1_3_apply v0 v3 v7 v15 v34 j l

/-- The product regrouped as four 64-row groups: group `a`, row `c` is row `64 a + c`. -/
theorem pay1_5_apply (v0 : Vec Ideal S1x64x1024 .bf16) (v3 v7 : Vec Ideal S64x1 .f32) (v15 : Vec Ideal S4x1024 .f32) (v34 : Vec Ideal S256x256 .bf16) (a : Fin 4) (c : Fin 64) (l : Fin 1024) :
    Gen.k1_pay5 v0 v3 v7 v15 v34 (ix3 a c l) = conv4 (fun c m => v0 (ix3 0 c m)) (fun c => v3 (ix2 c 0)) (fun c => v7 (ix2 c 0)) (fun a b => v34 (ix2 a b)) (fun s l => v15 (ix2 s l)) ⟨64 * a.val + c.val, by omega⟩ l := by
  unfold Gen.k1_pay5
  refine (shapeCast_apply _ _ (ix3 a c l) (ix2 (⟨64 * a.val + c.val, by omega⟩ : Fin 256) l) ?_).trans ?_
  · rw [Shape.rowMajor_val_two, Shape.rowMajor_val_three]
    show (64 * a.val + c.val) * 1024 + l.val = (a.val * 64 + c.val) * 1024 + l.val
    omega
  · exact pay1_3_apply v0 v3 v7 v15 v34 _ l

/-- The sum over the four groups and then over the lanes, kept as a column and given the block's unit axis. -/
theorem groupLaneSum_apply (w : FVec Ideal S4x64x1024 .f32) (h0 : S4x64x1024.Reduces [0] S64x1024) (h1 : S64x1024.Reduces [1] S64)
    (hφ : FKind.Formats .f32) (hacc : (0x00000000#32 : BitVec 32) = FKind.add.neutral .f32 hφ)
    (hs1 : S64.ShapeCasts S64x1) (hs2 : S64x1.ShapeCasts S1x64x1) (c : Fin 64) :
    shapeCast S1x64x1 (shapeCast S64x1 (multiReduction .add [1] S64
        (multiReduction .add [0] S64x1024 w 0x00000000#32 h0 hφ hacc) 0x00000000#32 h1 hφ hacc) hs1) hs2 (ix3 0 c 0)
      = ∑ l : Fin 1024, ∑ a : Fin 4, w (ix3 a c l) := by
  refine (shapeCast_apply _ hs2 (ix3 (0 : Fin 1) c (0 : Fin 1)) (ix2 c (0 : Fin 1)) ?_).trans ?_
  · rw [Shape.rowMajor_val_two, Shape.rowMajor_val_three]
    show c.val * 1 + 0 = ((0 : ℕ) * 64 + c.val) * 1 + 0
    omega
  refine (shapeCast_apply _ hs1 (ix2 c (0 : Fin 1)) (ix1 c) ?_).trans ?_
  · rw [Shape.rowMajor_val_one, Shape.rowMajor_val_two]
    show c.val = c.val * 1 + 0
    omega
  refine (Ideal.multiReduction_add_single _ 0x00000000#32 h1 hφ hacc (ix1 c)).trans ?_
  refine Finset.sum_congr rfl fun l _ => ?_
  refine (Ideal.multiReduction_add_single w 0x00000000#32 h0 hφ hacc _).trans ?_
  refine Finset.sum_congr rfl fun a _ => congrArg w ?_
  funext ax; apply Fin.ext
  match ax with
  | ⟨0, _⟩ => rfl
  | ⟨1, _⟩ => rfl
  | ⟨2, _⟩ => rfl

/-- The first statistic's payload: the sum of the regrouped product over the groups and the lanes. -/
theorem pay1_1_apply (v41 : FVec Ideal S4x64x1024 .f32) (c : Fin 64) :
    Gen.k1_pay1 v41 (ix3 0 c 0) = ∑ l : Fin 1024, ∑ a : Fin 4, v41 (ix3 a c l) := by
  unfold Gen.k1_pay1
  exact groupLaneSum_apply v41 _ _ _ _ _ _ c

/-- The second statistic's payload: the same sum of the squares. -/
theorem pay1_2_apply (v41 : FVec Ideal S4x64x1024 .f32) (c : Fin 64) :
    Gen.k1_pay2 v41 (ix3 0 c 0) = ∑ l : Fin 1024, ∑ a : Fin 4, v41 (ix3 a c l) * v41 (ix3 a c l) := by
  unfold Gen.k1_pay2
  exact groupLaneSum_apply (mulf v41 v41) _ _ _ _ _ _ c

end Cert.KernelIdeal.Val
end
-- ==== Proof.KerV1.lean ====
import proofs.«159567_g2000302752657622_pallasbulk_725_3_alg».proof.Proof.Gen.KernelIdeal.Frame
import proofs.«159567_g2000302752657622_pallasbulk_725_3_alg».proof.Proof.KerV1a
import Idealize.ShloMosaic.Lib.ValueIdx
import Idealize.ShloMosaic.Lib.Pipeline.Value
import Idealize.ShloMosaic.Lib.ValueLayout
import Idealize.ShloMosaic.PureOps.Ideal.Laws

noncomputable section
open scoped BigOperators

namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)

/-! # Region 1: what the three output arrays hold after the region, as functions of the arrays it reads

One grid point per image. Point `n` reads image `n` of the [64,64,1024] input and the whole scale, shift, weight and
mask arrays; it writes image `n` of the [64,256,1024] product and row `n` of the two [64,64,1] statistics. -/

/-- Row `64 a + c` of the 256 product rows: channel `c` of the 64-row group `a`. -/
def groupRow (a : Fin 4) (c : Fin 64) : Fin 256 := ⟨64 * a.val + c.val, by omega⟩

/-- The product array: at image `n`, row `j`, lane `l`, the block weight's row `j` against the four stacked masked
    windows of `sin (y n · scale + shift)`. -/
def G1_5 (a0 : S64x64x1024.Idx → EReal) (a1 a2 : S64x1.Idx → EReal) (a3 : S256x256.Idx → EReal) (a4 : S4x1024.Idx → EReal) :
    S64x256x1024.Idx → EReal := fun i =>
  conv4 (fun c m => a0 (ix3 (i 0) c m)) (fun c => a1 (ix2 c 0)) (fun c => a2 (ix2 c 0)) (fun a b => a3 (ix2 a b))
      (fun s l => a4 (ix2 s l)) (i 1) (i 2)

/-- The first statistic: at image `n`, channel `c`, the sum over the lanes and over the four 64-row groups of the
    product's rows `64 a + c`. -/
def G1_6 (a0 : S64x64x1024.Idx → EReal) (a1 a2 : S64x1.Idx → EReal) (a3 : S256x256.Idx → EReal) (a4 : S4x1024.Idx → EReal) :
    S64x64x1.Idx → EReal := fun i =>
  ∑ l : Fin 1024, ∑ a : Fin 4, conv4 (fun c m => a0 (ix3 (i 0) c m)) (fun c => a1 (ix2 c 0)) (fun c => a2 (ix2 c 0)) (fun a b => a3 (ix2 a b))
      (fun s l => a4 (ix2 s l)) (groupRow a (i 1)) l

/-- The second statistic: the same sum of the squares. -/
def G1_7 (a0 : S64x64x1024.Idx → EReal) (a1 a2 : S64x1.Idx → EReal) (a3 : S256x256.Idx → EReal) (a4 : S4x1024.Idx → EReal) :
    S64x64x1.Idx → EReal := fun i =>
  ∑ l : Fin 1024, ∑ a : Fin 4, conv4 (fun c m => a0 (ix3 (i 0) c m)) (fun c => a1 (ix2 c 0)) (fun c => a2 (ix2 c 0)) (fun a b => a3 (ix2 a b))
      (fun s l => a4 (ix2 s l)) (groupRow a (i 1)) l
    * conv4 (fun c m => a0 (ix3 (i 0) c m)) (fun c => a1 (ix2 c 0)) (fun c => a2 (ix2 c 0)) (fun a b => a3 (ix2 a b))
      (fun s l => a4 (ix2 s l)) (groupRow a (i 1)) l

/-! ## Entries that are reals stay reals -/

theorem G1_5_real {a0 : S64x64x1024.Idx → EReal} {a1 a2 : S64x1.Idx → EReal} {a3 : S256x256.Idx → EReal} {a4 : S4x1024.Idx → EReal}
    (h0 : ∀ i, ∃ r : ℝ, a0 i = r) (h1 : ∀ i, ∃ r : ℝ, a1 i = r) (h2 : ∀ i, ∃ r : ℝ, a2 i = r) (h3 : ∀ i, ∃ r : ℝ, a3 i = r)
    (h4 : ∀ i, ∃ r : ℝ, a4 i = r) (i : S64x256x1024.Idx) : ∃ r : ℝ, G1_5 a0 a1 a2 a3 a4 i = r :=
  conv4_real (fun _ _ => h0 _) (fun _ => h1 _) (fun _ => h2 _) (fun _ _ => h3 _) (fun _ _ => h4 _) _ _

theorem G1_6_real {a0 : S64x64x1024.Idx → EReal} {a1 a2 : S64x1.Idx → EReal} {a3 : S256x256.Idx → EReal} {a4 : S4x1024.Idx → EReal}
    (h0 : ∀ i, ∃ r : ℝ, a0 i = r) (h1 : ∀ i, ∃ r : ℝ, a1 i = r) (h2 : ∀ i, ∃ r : ℝ, a2 i = r) (h3 : ∀ i, ∃ r : ℝ, a3 i = r)
    (h4 : ∀ i, ∃ r : ℝ, a4 i = r) (i : S64x64x1.Idx) : ∃ r : ℝ, G1_6 a0 a1 a2 a3 a4 i = r :=
  real_sum _ _ fun _ => real_sum _ _ fun _ =>
    conv4_real (fun _ _ => h0 _) (fun _ => h1 _) (fun _ => h2 _) (fun _ _ => h3 _) (fun _ _ => h4 _) _ _

theorem G1_7_real {a0 : S64x64x1024.Idx → EReal} {a1 a2 : S64x1.Idx → EReal} {a3 : S256x256.Idx → EReal} {a4 : S4x1024.Idx → EReal}
    (h0 : ∀ i, ∃ r : ℝ, a0 i = r) (h1 : ∀ i, ∃ r : ℝ, a1 i = r) (h2 : ∀ i, ∃ r : ℝ, a2 i = r) (h3 : ∀ i, ∃ r : ℝ, a3 i = r)
    (h4 : ∀ i, ∃ r : ℝ, a4 i = r) (i : S64x64x1.Idx) : ∃ r : ℝ, G1_7 a0 a1 a2 a3 a4 i = r :=
  real_sum _ _ fun _ => real_sum _ _ fun _ => real_mul
    (conv4_real (fun _ _ => h0 _) (fun _ => h1 _) (fun _ => h2 _) (fun _ _ => h3 _) (fun _ _ => h4 _) _ _)
    (conv4_real (fun _ _ => h0 _) (fun _ => h1 _) (fun _ => h2 _) (fun _ _ => h3 _) (fun _ _ => h4 _) _ _)

/-! ## Which buffer each window's array is -/

theorem arrRef1_0 : Pipeline.arrRef spec1 0 = main_v65_0 := rfl
theorem arrRef1_1 : Pipeline.arrRef spec1 1 = main_v80 := rfl
theorem arrRef1_2 : Pipeline.arrRef spec1 2 = main_v83 := rfl
theorem arrRef1_3 : Pipeline.arrRef spec1 3 = main_v58 := rfl
theorem arrRef1_4 : Pipeline.arrRef spec1 4 = main_arg4 := rfl
theorem arrRef1_5 : Pipeline.arrRef spec1 5 = main_v100_0 := rfl
theorem arrRef1_6 : Pipeline.arrRef spec1 6 = main_v100_1 := rfl
theorem arrRef1_7 : Pipeline.arrRef spec1 7 = main_v100_2 := rfl

/-! ## The blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- Two functions of a rank-3 index agree when they agree at every triple of coordinates. -/
theorem funext_ix3 {α : Type} {n0 n1 n2 : Nat} (f g : (⟨3, ![n0, n1, n2]⟩ : Shape).Idx → α)
    (h : ∀ (p : Fin n0) (q : Fin n1) (r : Fin n2), f (ix3 p q r) = g (ix3 p q r)) : f = g :=
  funext fun y => by rw [eq_ix3 y]; exact h _ _ _

/-- `conv4` depends on its five readers only through their values. -/
theorem conv4_congr {y y' : Fin 64 → Fin 1024 → EReal} {sc sc' sh sh' : Fin 64 → EReal} {W W' : Fin 256 → Fin 256 → EReal}
    {mask mask' : Fin 4 → Fin 1024 → EReal} (hy : ∀ c m, y c m = y' c m) (hsc : ∀ c, sc c = sc' c) (hsh : ∀ c, sh c = sh' c)
    (hW : ∀ a b, W a b = W' a b) (hm : ∀ s l, mask s l = mask' s l) (j : Fin 256) (l : Fin 1024) :
    conv4 y sc sh W mask j l = conv4 y' sc' sh' W' mask' j l := by
  obtain rfl : y = y' := funext fun c => funext fun m => hy c m
  obtain rfl : sc = sc' := funext hsc
  obtain rfl : sh = sh' := funext hsh
  obtain rfl : W = W' := funext fun a => funext fun b => hW a b
  obtain rfl : mask = mask' := funext fun s => funext fun l => hm s l
  rfl

/-- The grid point as an image number. -/
def pt1 (t : Fin cfg1.N) : Fin 64 := ⟨t.val, Nat.lt_of_lt_of_eq t.isLt Gen.N_1⟩

/-- The printed index maps over the 64 points: the image windows sit at block `(t, 0, 0)`, the others at block zero. -/
theorem idx_facts1 : ∀ t : Fin cfg1.N, win1_0.index t (0 : Fin 3) = t.val
    ∧ win1_0.index t (1 : Fin 3) = 0
    ∧ win1_0.index t (2 : Fin 3) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 3) = t.val
    ∧ win1_5.index t (1 : Fin 3) = 0
    ∧ win1_5.index t (2 : Fin 3) = 0
    ∧ win1_6.index t (0 : Fin 3) = t.val
    ∧ win1_6.index t (1 : Fin 3) = 0
    ∧ win1_6.index t (2 : Fin 3) = 0
    ∧ win1_7.index t (0 : Fin 3) = t.val
    ∧ win1_7.index t (1 : Fin 3) = 0
    ∧ win1_7.index t (2 : Fin 3) = 0 :=
  (by decide +kernel : ∀ t : Fin grid1.N, _)

variable (V : (c : Dev nD) → (b : Ref sig .tc) → Buf (Elt Ideal) ((c : Thread nD τ).loc b))

/-- The image window's block at point `t` is image `t` of its array. -/
theorem iblk1_0_apply (c : Dev nD) (t : Fin cfg1.N) (c' : Fin 64) (m : Fin 1024) :
    (Gen.iblk1 V c 0 t : Vec Ideal S1x64x1024 .bf16) (ix3 0 c' m) = ((V c (Pipeline.arrRef spec1 0)) : S64x64x1024.Idx → EReal) (ix3 (pt1 t) c' m) := by
  obtain ⟨e0_0, e0_1, e0_2, e1_0, e1_1, e2_0, e2_1, e3_0, e3_1, e4_0, e4_1, e5_0, e5_1, e5_2, e6_0, e6_1, e6_2, e7_0, e7_1, e7_2⟩ := idx_facts1 t
  unfold Gen.iblk1
  rw [View.read_apply]
  show V c (Pipeline.arrRef spec1 0) (((cfg1.win 0).blk t).view.emb (ix3 (0 : Fin 1) c' m)) = _
  refine congrArg (V c (Pipeline.arrRef spec1 0)) ?_
  funext a; apply Fin.ext
  match a with
  | ⟨0, _⟩ => show win1_0.index t (0 : Fin 3) * 1 + 1 * 0 = t.val; rw [e0_0]; omega
  | ⟨1, _⟩ => show win1_0.index t (1 : Fin 3) * 64 + 1 * c'.val = c'.val; rw [e0_1]; omega
  | ⟨2, _⟩ => show win1_0.index t (2 : Fin 3) * 1024 + 1 * m.val = m.val; rw [e0_2]; omega

/-- Window 1 is the whole array at every point. -/
theorem iblk1_1_apply (c : Dev nD) (t : Fin cfg1.N) (x : S64x1.Idx) :
    (Gen.iblk1 V c 1 t : S64x1.Idx → EReal) x = ((V c (Pipeline.arrRef spec1 1)) : S64x1.Idx → EReal) x := by
  obtain ⟨e0_0, e0_1, e0_2, e1_0, e1_1, e2_0, e2_1, e3_0, e3_1, e4_0, e4_1, e5_0, e5_1, e5_2, e6_0, e6_1, e6_2, e7_0, e7_1, e7_2⟩ := idx_facts1 t
  unfold Gen.iblk1
  rw [View.read_apply]
  show V c (Pipeline.arrRef spec1 1) (((cfg1.win 1).blk t).view.emb x) = _
  refine congrArg (V c (Pipeline.arrRef spec1 1)) ?_
  funext a; apply Fin.ext
  match a with
  | ⟨0, _⟩ => show win1_1.index t (0 : Fin 2) * 64 + 1 * (x 0).val = (x 0).val; rw [e1_0]; omega
  | ⟨1, _⟩ => show win1_1.index t (1 : Fin 2) * 1 + 1 * (x 1).val = (x 1).val; rw [e1_1]; omega

/-- Window 2 is the whole array at every point. -/
theorem iblk1_2_apply (c : Dev nD) (t : Fin cfg1.N) (x : S64x1.Idx) :
    (Gen.iblk1 V c 2 t : S64x1.Idx → EReal) x = ((V c (Pipeline.arrRef spec1 2)) : S64x1.Idx → EReal) x := by
  obtain ⟨e0_0, e0_1, e0_2, e1_0, e1_1, e2_0, e2_1, e3_0, e3_1, e4_0, e4_1, e5_0, e5_1, e5_2, e6_0, e6_1, e6_2, e7_0, e7_1, e7_2⟩ := idx_facts1 t
  unfold Gen.iblk1
  rw [View.read_apply]
  show V c (Pipeline.arrRef spec1 2) (((cfg1.win 2).blk t).view.emb x) = _
  refine congrArg (V c (Pipeline.arrRef spec1 2)) ?_
  funext a; apply Fin.ext
  match a with
  | ⟨0, _⟩ => show win1_2.index t (0 : Fin 2) * 64 + 1 * (x 0).val = (x 0).val; rw [e2_0]; omega
  | ⟨1, _⟩ => show win1_2.index t (1 : Fin 2) * 1 + 1 * (x 1).val = (x 1).val; rw [e2_1]; omega

/-- Window 3 is the whole array at every point. -/
theorem iblk1_3_apply (c : Dev nD) (t : Fin cfg1.N) (x : S256x256.Idx) :
    (Gen.iblk1 V c 3 t : S256x256.Idx → EReal) x = ((V c (Pipeline.arrRef spec1 3)) : S256x256.Idx → EReal) x := by
  obtain ⟨e0_0, e0_1, e0_2, e1_0, e1_1, e2_0, e2_1, e3_0, e3_1, e4_0, e4_1, e5_0, e5_1, e5_2, e6_0, e6_1, e6_2, e7_0, e7_1, e7_2⟩ := idx_facts1 t
  unfold Gen.iblk1
  rw [View.read_apply]
  show V c (Pipeline.arrRef spec1 3) (((cfg1.win 3).blk t).view.emb x) = _
  refine congrArg (V c (Pipeline.arrRef spec1 3)) ?_
  funext a; apply Fin.ext
  match a with
  | ⟨0, _⟩ => show win1_3.index t (0 : Fin 2) * 256 + 1 * (x 0).val = (x 0).val; rw [e3_0]; omega
  | ⟨1, _⟩ => show win1_3.index t (1 : Fin 2) * 256 + 1 * (x 1).val = (x 1).val; rw [e3_1]; omega

/-- Window 4 is the whole array at every point. -/
theorem iblk1_4_apply (c : Dev nD) (t : Fin cfg1.N) (x : S4x1024.Idx) :
    (Gen.iblk1 V c 4 t : S4x1024.Idx → EReal) x = ((V c (Pipeline.arrRef spec1 4)) : S4x1024.Idx → EReal) x := by
  obtain ⟨e0_0, e0_1, e0_2, e1_0, e1_1, e2_0, e2_1, e3_0, e3_1, e4_0, e4_1, e5_0, e5_1, e5_2, e6_0, e6_1, e6_2, e7_0, e7_1, e7_2⟩ := idx_facts1 t
  unfold Gen.iblk1
  rw [View.read_apply]
  show V c (Pipeline.arrRef spec1 4) (((cfg1.win 4).blk t).view.emb x) = _
  refine congrArg (V c (Pipeline.arrRef spec1 4)) ?_
  funext a; apply Fin.ext
  match a with
  | ⟨0, _⟩ => show win1_4.index t (0 : Fin 2) * 4 + 1 * (x 0).val = (x 0).val; rw [e4_0]; omega
  | ⟨1, _⟩ => show win1_4.index t (1 : Fin 2) * 1024 + 1 * (x 1).val = (x 1).val; rw [e4_1]; omega

/-- The body's product of the blocks at point `t` is the product of the arrays at image `t`. -/
theorem conv4_blocks (c : Dev nD) (t : Fin cfg1.N) (j : Fin 256) (l : Fin 1024) :
    conv4 (fun c' m => (Gen.iblk1 V c 0 t : Vec Ideal S1x64x1024 .bf16) (ix3 0 c' m)) (fun c' => (Gen.iblk1 V c 1 t : Vec Ideal S64x1 .f32) (ix2 c' 0)) (fun c' => (Gen.iblk1 V c 2 t : Vec Ideal S64x1 .f32) (ix2 c' 0))
      (fun a b => (Gen.iblk1 V c 3 t : Vec Ideal S256x256 .bf16) (ix2 a b)) (fun s l => (Gen.iblk1 V c 4 t : Vec Ideal S4x1024 .f32) (ix2 s l)) j l
    = conv4 (fun c' m => ((V c (Pipeline.arrRef spec1 0)) : S64x64x1024.Idx → EReal) (ix3 (pt1 t) c' m))
      (fun c' => ((V c (Pipeline.arrRef spec1 1)) : S64x1.Idx → EReal) (ix2 c' 0)) (fun c' => ((V c (Pipeline.arrRef spec1 2)) : S64x1.Idx → EReal) (ix2 c' 0))
      (fun a b => ((V c (Pipeline.arrRef spec1 3)) : S256x256.Idx → EReal) (ix2 a b)) (fun s l => ((V c (Pipeline.arrRef spec1 4)) : S4x1024.Idx → EReal) (ix2 s l)) j l :=
  conv4_congr (fun c' m => iblk1_0_apply V c t c' m) (fun c' => iblk1_1_apply V c t _) (fun c' => iblk1_2_apply V c t _)
    (fun a b => iblk1_3_apply V c t _) (fun s l => iblk1_4_apply V c t _) j l

/-! ## The product array -/

/-- Where point `t`'s block of window 5 sits in the array: image `t`. -/
theorem blk1_5_emb (t : Fin cfg1.N) (q : Fin 256) (r : Fin 1024) :
    ((cfg1.win 5).blk t).view.emb (ix3 (0 : Fin 1) q r) = (ix3 (pt1 t) q r : S64x256x1024.Idx) := by
  obtain ⟨e0_0, e0_1, e0_2, e1_0, e1_1, e2_0, e2_1, e3_0, e3_1, e4_0, e4_1, e5_0, e5_1, e5_2, e6_0, e6_1, e6_2, e7_0, e7_1, e7_2⟩ := idx_facts1 t
  funext a; apply Fin.ext
  match a with
  | ⟨0, _⟩ => show win1_5.index t (0 : Fin 3) * 1 + 1 * 0 = t.val; rw [e5_0]; omega
  | ⟨1, _⟩ => show win1_5.index t (1 : Fin 3) * 256 + 1 * q.val = q.val; rw [e5_1]; omega
  | ⟨2, _⟩ => show win1_5.index t (2 : Fin 3) * 1024 + 1 * r.val = r.val; rw [e5_2]; omega

/-- An index of the array lies in point `t`'s block iff each coordinate lies in the block's range on its axis. -/
theorem mem_blk1_5 (t : Fin cfg1.N) (i : S64x256x1024.Idx) :
    i ∈ ((cfg1.win 5).blk t).view.set ↔ ∀ a : Fin 3, win1_5.index t a * S1x256x1024.size a ≤ (i a).val
      ∧ (i a).val < win1_5.index t a * S1x256x1024.size a + S1x256x1024.size a := by
  show i ∈ ((View.whole main_v100_0).slice (win1_5.rect t)).set ↔ _
  rw [View.set_slice_whole, Rect.mem_set_unit]
  exact Iff.rfl

/-- Every index of the array lies in the block of the point numbered by its image coordinate. -/
theorem cover1_5_arr (i : S64x256x1024.Idx) :
    ∃ t : Fin cfg1.N, (cfg1.win 5).flush t = true ∧ i ∈ ((cfg1.win 5).blk t).view.set := by
  have h0 : (i 0).val < 64 := (i 0).isLt
  have h1 : (i 1).val < 256 := (i 1).isLt
  have h2 : (i 2).val < 1024 := (i 2).isLt
  have hN : cfg1.N = 64 := Gen.N_1
  obtain ⟨t, ht⟩ : ∃ t : Fin cfg1.N, t.val = (i 0).val := ⟨⟨(i 0).val, by rw [hN]; exact h0⟩, rfl⟩
  obtain ⟨e0_0, e0_1, e0_2, e1_0, e1_1, e2_0, e2_1, e3_0, e3_1, e4_0, e4_1, e5_0, e5_1, e5_2, e6_0, e6_1, e6_2, e7_0, e7_1, e7_2⟩ := idx_facts1 t
  refine ⟨t, Gen.flush1_5 t, ?_⟩
  rw [mem_blk1_5]
  intro a
  match a with
  | ⟨0, _⟩ => show win1_5.index t (0 : Fin 3) * 1 ≤ (i 0).val ∧ (i 0).val < win1_5.index t (0 : Fin 3) * 1 + 1; rw [e5_0]; omega
  | ⟨1, _⟩ => show win1_5.index t (1 : Fin 3) * 256 ≤ (i 1).val ∧ (i 1).val < win1_5.index t (1 : Fin 3) * 256 + 256; rw [e5_1]; omega
  | ⟨2, _⟩ => show win1_5.index t (2 : Fin 3) * 1024 ≤ (i 2).val ∧ (i 2).val < win1_5.index t (2 : Fin 3) * 1024 + 1024; rw [e5_2]; omega

/-- What point `t` writes back to the product array is image `t` of `G1_5`. -/
theorem flushed1_5_eq (c : Dev nD) (t : Fin cfg1.N) :
    (Gen.dat1 V c).flushed 5 t = ((cfg1.win 5).blk t).view.read (Elt Ideal) (G1_5 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((Gen.dat1 V c).after 5 t) = _
  rw [Gen.after1_5]
  unfold Gen.out1_5
  rw [View.canon_unit_zero hz3]
  simp only [View.ld_unit_zero (S := S1x64x1024) hz3, View.ld_unit_zero (S := S64x1) hz2, View.ld_unit_zero (S := S4x1024) hz2, View.ld_unit_zero (S := S256x256) hz2]
  refine funext_ix3 (n0 := 1) (n1 := 256) (n2 := 1024) _ _ fun p j l => ?_
  obtain rfl : p = 0 := Subsingleton.elim _ _
  show Gen.k1_pay4 (Gen.iblk1 V c 0 t : Vec Ideal S1x64x1024 .bf16) (Gen.iblk1 V c 1 t : Vec Ideal S64x1 .f32) (Gen.iblk1 V c 2 t : Vec Ideal S64x1 .f32) (Gen.iblk1 V c 4 t : Vec Ideal S4x1024 .f32) (Gen.iblk1 V c 3 t : Vec Ideal S256x256 .bf16) (ix3 0 j l)
    = G1_5 (V c (Pipeline.arrRef spec1 0)) (V c (Pipeline.arrRef spec1 1)) (V c (Pipeline.arrRef spec1 2)) (V c (Pipeline.arrRef spec1 3)) (V c (Pipeline.arrRef spec1 4)) (((cfg1.win 5).blk t).view.emb (ix3 (0 : Fin 1) j l))
  refine (pay1_4_apply (Gen.iblk1 V c 0 t : Vec Ideal S1x64x1024 .bf16) (Gen.iblk1 V c 1 t : Vec Ideal S64x1 .f32) (Gen.iblk1 V c 2 t : Vec Ideal S64x1 .f32) (Gen.iblk1 V c 4 t : Vec Ideal S4x1024 .f32) (Gen.iblk1 V c 3 t : Vec Ideal S256x256 .bf16) j l).trans ?_
  refine Eq.trans ?_ (congrArg (G1_5 (V c (Pipeline.arrRef spec1 0)) (V c (Pipeline.arrRef spec1 1)) (V c (Pipeline.arrRef spec1 2)) (V c (Pipeline.arrRef spec1 3)) (V c (Pipeline.arrRef spec1 4))) (blk1_5_emb t j l).symm)
  exact conv4_blocks V c t j l

/-- The product array after the region. -/
theorem final1_5 (c : Dev nD) : (Gen.dat1 V c).arrAt 5 cfg1.N = G1_5 (V c (Pipeline.arrRef spec1 0)) (V c (Pipeline.arrRef spec1 1)) (V c (Pipeline.arrRef spec1 2)) (V c (Pipeline.arrRef spec1 3)) (V c (Pipeline.arrRef spec1 4)) :=
  (Gen.dat1 V c).arrAt_eq_of_cover 5 (G1_5 (V c (Pipeline.arrRef spec1 0)) (V c (Pipeline.arrRef spec1 1)) (V c (Pipeline.arrRef spec1 2)) (V c (Pipeline.arrRef spec1 3)) (V c (Pipeline.arrRef spec1 4))) (fun t _ => flushed1_5_eq V c t) cover1_5_arr

/-! ## The first statistic -/

/-- Where point `t`'s block of window 6 sits in the array: image `t`. -/
theorem blk1_6_emb (t : Fin cfg1.N) (q : Fin 64) (r : Fin 1) :
    ((cfg1.win 6).blk t).view.emb (ix3 (0 : Fin 1) q r) = (ix3 (pt1 t) q r : S64x64x1.Idx) := by
  obtain ⟨e0_0, e0_1, e0_2, e1_0, e1_1, e2_0, e2_1, e3_0, e3_1, e4_0, e4_1, e5_0, e5_1, e5_2, e6_0, e6_1, e6_2, e7_0, e7_1, e7_2⟩ := idx_facts1 t
  funext a; apply Fin.ext
  match a with
  | ⟨0, _⟩ => show win1_6.index t (0 : Fin 3) * 1 + 1 * 0 = t.val; rw [e6_0]; omega
  | ⟨1, _⟩ => show win1_6.index t (1 : Fin 3) * 64 + 1 * q.val = q.val; rw [e6_1]; omega
  | ⟨2, _⟩ => show win1_6.index t (2 : Fin 3) * 1 + 1 * r.val = r.val; rw [e6_2]; omega

/-- An index of the array lies in point `t`'s block iff each coordinate lies in the block's range on its axis. -/
theorem mem_blk1_6 (t : Fin cfg1.N) (i : S64x64x1.Idx) :
    i ∈ ((cfg1.win 6).blk t).view.set ↔ ∀ a : Fin 3, win1_6.index t a * S1x64x1.size a ≤ (i a).val
      ∧ (i a).val < win1_6.index t a * S1x64x1.size a + S1x64x1.size a := by
  show i ∈ ((View.whole main_v100_1).slice (win1_6.rect t)).set ↔ _
  rw [View.set_slice_whole, Rect.mem_set_unit]
  exact Iff.rfl

/-- Every index of the array lies in the block of the point numbered by its image coordinate. -/
theorem cover1_6_arr (i : S64x64x1.Idx) :
    ∃ t : Fin cfg1.N, (cfg1.win 6).flush t = true ∧ i ∈ ((cfg1.win 6).blk t).view.set := by
  have h0 : (i 0).val < 64 := (i 0).isLt
  have h1 : (i 1).val < 64 := (i 1).isLt
  have h2 : (i 2).val < 1 := (i 2).isLt
  have hN : cfg1.N = 64 := Gen.N_1
  obtain ⟨t, ht⟩ : ∃ t : Fin cfg1.N, t.val = (i 0).val := ⟨⟨(i 0).val, by rw [hN]; exact h0⟩, rfl⟩
  obtain ⟨e0_0, e0_1, e0_2, e1_0, e1_1, e2_0, e2_1, e3_0, e3_1, e4_0, e4_1, e5_0, e5_1, e5_2, e6_0, e6_1, e6_2, e7_0, e7_1, e7_2⟩ := idx_facts1 t
  refine ⟨t, Gen.flush1_6 t, ?_⟩
  rw [mem_blk1_6]
  intro a
  match a with
  | ⟨0, _⟩ => show win1_6.index t (0 : Fin 3) * 1 ≤ (i 0).val ∧ (i 0).val < win1_6.index t (0 : Fin 3) * 1 + 1; rw [e6_0]; omega
  | ⟨1, _⟩ => show win1_6.index t (1 : Fin 3) * 64 ≤ (i 1).val ∧ (i 1).val < win1_6.index t (1 : Fin 3) * 64 + 64; rw [e6_1]; omega
  | ⟨2, _⟩ => show win1_6.index t (2 : Fin 3) * 1 ≤ (i 2).val ∧ (i 2).val < win1_6.index t (2 : Fin 3) * 1 + 1; rw [e6_2]; omega

/-- What point `t` writes back to the first statistic is row `t` of `G1_6`. -/
theorem flushed1_6_eq (c : Dev nD) (t : Fin cfg1.N) :
    (Gen.dat1 V c).flushed 6 t = ((cfg1.win 6).blk t).view.read (Elt Ideal) (G1_6 (V c (Pipeline.arrRef spec1 0)) (V c (Pipeline.arrRef spec1 1)) (V c (Pipeline.arrRef spec1 2)) (V c (Pipeline.arrRef spec1 3)) (V c (Pipeline.arrRef spec1 4))) := by
  show (cfg1.win 6).cut (grid1.coords t) ((Gen.dat1 V c).after 6 t) = _
  rw [Gen.after1_6]
  unfold Gen.out1_6
  rw [View.canon_unit_zero hz3]
  simp only [View.ld_unit_zero (S := S1x64x1024) hz3, View.ld_unit_zero (S := S64x1) hz2, View.ld_unit_zero (S := S4x1024) hz2, View.ld_unit_zero (S := S256x256) hz2]
  refine funext_ix3 (n0 := 1) (n1 := 64) (n2 := 1) _ _ fun p c' q => ?_
  obtain rfl : p = 0 := Subsingleton.elim _ _
  obtain rfl : q = 0 := Subsingleton.elim _ _
  show Gen.k1_pay1 (Gen.k1_pay5 (Gen.iblk1 V c 0 t : Vec Ideal S1x64x1024 .bf16) (Gen.iblk1 V c 1 t : Vec Ideal S64x1 .f32) (Gen.iblk1 V c 2 t : Vec Ideal S64x1 .f32) (Gen.iblk1 V c 4 t : Vec Ideal S4x1024 .f32) (Gen.iblk1 V c 3 t : Vec Ideal S256x256 .bf16)) (ix3 0 c' 0)
    = G1_6 (V c (Pipeline.arrRef spec1 0)) (V c (Pipeline.arrRef spec1 1)) (V c (Pipeline.arrRef spec1 2)) (V c (Pipeline.arrRef spec1 3)) (V c (Pipeline.arrRef spec1 4)) (((cfg1.win 6).blk t).view.emb (ix3 (0 : Fin 1) c' (0 : Fin 1)))
  refine (pay1_1_apply (Gen.k1_pay5 (Gen.iblk1 V c 0 t : Vec Ideal S1x64x1024 .bf16) (Gen.iblk1 V c 1 t : Vec Ideal S64x1 .f32) (Gen.iblk1 V c 2 t : Vec Ideal S64x1 .f32) (Gen.iblk1 V c 4 t : Vec Ideal S4x1024 .f32) (Gen.iblk1 V c 3 t : Vec Ideal S256x256 .bf16)) c').trans ?_
  refine Eq.trans ?_ (congrArg (G1_6 (V c (Pipeline.arrRef spec1 0)) (V c (Pipeline.arrRef spec1 1)) (V c (Pipeline.arrRef spec1 2)) (V c (Pipeline.arrRef spec1 3)) (V c (Pipeline.arrRef spec1 4))) (blk1_6_emb t c' 0).symm)
  refine Finset.sum_congr rfl fun l _ => Finset.sum_congr rfl fun a _ => ?_
  refine (pay1_5_apply (Gen.iblk1 V c 0 t : Vec Ideal S1x64x1024 .bf16) (Gen.iblk1 V c 1 t : Vec Ideal S64x1 .f32) (Gen.iblk1 V c 2 t : Vec Ideal S64x1 .f32) (Gen.iblk1 V c 4 t : Vec Ideal S4x1024 .f32) (Gen.iblk1 V c 3 t : Vec Ideal S256x256 .bf16) a c' l).trans ?_
  exact conv4_blocks V c t (groupRow a c') l

/-- The first statistic after the region. -/
theorem final1_6 (c : Dev nD) : (Gen.dat1 V c).arrAt 6 cfg1.N = G1_6 (V c (Pipeline.arrRef spec1 0)) (V c (Pipeline.arrRef spec1 1)) (V c (Pipeline.arrRef spec1 2)) (V c (Pipeline.arrRef spec1 3)) (V c (Pipeline.arrRef spec1 4)) :=
  (Gen.dat1 V c).arrAt_eq_of_cover 6 (G1_6 (V c (Pipeline.arrRef spec1 0)) (V c (Pipeline.arrRef spec1 1)) (V c (Pipeline.arrRef spec1 2)) (V c (Pipeline.arrRef spec1 3)) (V c (Pipeline.arrRef spec1 4))) (fun t _ => flushed1_6_eq V c t) cover1_6_arr

/-! ## The second statistic -/

/-- Where point `t`'s block of window 7 sits in the array: image `t`. -/
theorem blk1_7_emb (t : Fin cfg1.N) (q : Fin 64) (r : Fin 1) :
    ((cfg1.win 7).blk t).view.emb (ix3 (0 : Fin 1) q r) = (ix3 (pt1 t) q r : S64x64x1.Idx) := by
  obtain ⟨e0_0, e0_1, e0_2, e1_0, e1_1, e2_0, e2_1, e3_0, e3_1, e4_0, e4_1, e5_0, e5_1, e5_2, e6_0, e6_1, e6_2, e7_0, e7_1, e7_2⟩ := idx_facts1 t
  funext a; apply Fin.ext
  match a with
  | ⟨0, _⟩ => show win1_7.index t (0 : Fin 3) * 1 + 1 * 0 = t.val; rw [e7_0]; omega
  | ⟨1, _⟩ => show win1_7.index t (1 : Fin 3) * 64 + 1 * q.val = q.val; rw [e7_1]; omega
  | ⟨2, _⟩ => show win1_7.index t (2 : Fin 3) * 1 + 1 * r.val = r.val; rw [e7_2]; omega

/-- An index of the array lies in point `t`'s block iff each coordinate lies in the block's range on its axis. -/
theorem mem_blk1_7 (t : Fin cfg1.N) (i : S64x64x1.Idx) :
    i ∈ ((cfg1.win 7).blk t).view.set ↔ ∀ a : Fin 3, win1_7.index t a * S1x64x1.size a ≤ (i a).val
      ∧ (i a).val < win1_7.index t a * S1x64x1.size a + S1x64x1.size a := by
  show i ∈ ((View.whole main_v100_2).slice (win1_7.rect t)).set ↔ _
  rw [View.set_slice_whole, Rect.mem_set_unit]
  exact Iff.rfl

/-- Every index of the array lies in the block of the point numbered by its image coordinate. -/
theorem cover1_7_arr (i : S64x64x1.Idx) :
    ∃ t : Fin cfg1.N, (cfg1.win 7).flush t = true ∧ i ∈ ((cfg1.win 7).blk t).view.set := by
  have h0 : (i 0).val < 64 := (i 0).isLt
  have h1 : (i 1).val < 64 := (i 1).isLt
  have h2 : (i 2).val < 1 := (i 2).isLt
  have hN : cfg1.N = 64 := Gen.N_1
  obtain ⟨t, ht⟩ : ∃ t : Fin cfg1.N, t.val = (i 0).val := ⟨⟨(i 0).val, by rw [hN]; exact h0⟩, rfl⟩
  obtain ⟨e0_0, e0_1, e0_2, e1_0, e1_1, e2_0, e2_1, e3_0, e3_1, e4_0, e4_1, e5_0, e5_1, e5_2, e6_0, e6_1, e6_2, e7_0, e7_1, e7_2⟩ := idx_facts1 t
  refine ⟨t, Gen.flush1_7 t, ?_⟩
  rw [mem_blk1_7]
  intro a
  match a with
  | ⟨0, _⟩ => show win1_7.index t (0 : Fin 3) * 1 ≤ (i 0).val ∧ (i 0).val < win1_7.index t (0 : Fin 3) * 1 + 1; rw [e7_0]; omega
  | ⟨1, _⟩ => show win1_7.index t (1 : Fin 3) * 64 ≤ (i 1).val ∧ (i 1).val < win1_7.index t (1 : Fin 3) * 64 + 64; rw [e7_1]; omega
  | ⟨2, _⟩ => show win1_7.index t (2 : Fin 3) * 1 ≤ (i 2).val ∧ (i 2).val < win1_7.index t (2 : Fin 3) * 1 + 1; rw [e7_2]; omega

/-- What point `t` writes back to the second statistic is row `t` of `G1_7`. -/
theorem flushed1_7_eq (c : Dev nD) (t : Fin cfg1.N) :
    (Gen.dat1 V c).flushed 7 t = ((cfg1.win 7).blk t).view.read (Elt Ideal) (G1_7 (V c (Pipeline.arrRef spec1 0)) (V c (Pipeline.arrRef spec1 1)) (V c (Pipeline.arrRef spec1 2)) (V c (Pipeline.arrRef spec1 3)) (V c (Pipeline.arrRef spec1 4))) := by
  show (cfg1.win 7).cut (grid1.coords t) ((Gen.dat1 V c).after 7 t) = _
  rw [Gen.after1_7]
  unfold Gen.out1_7
  rw [View.canon_unit_zero hz3]
  simp only [View.ld_unit_zero (S := S1x64x1024) hz3, View.ld_unit_zero (S := S64x1) hz2, View.ld_unit_zero (S := S4x1024) hz2, View.ld_unit_zero (S := S256x256) hz2]
  refine funext_ix3 (n0 := 1) (n1 := 64) (n2 := 1) _ _ fun p c' q => ?_
  obtain rfl : p = 0 := Subsingleton.elim _ _
  obtain rfl : q = 0 := Subsingleton.elim _ _
  show Gen.k1_pay2 (Gen.k1_pay5 (Gen.iblk1 V c 0 t : Vec Ideal S1x64x1024 .bf16) (Gen.iblk1 V c 1 t : Vec Ideal S64x1 .f32) (Gen.iblk1 V c 2 t : Vec Ideal S64x1 .f32) (Gen.iblk1 V c 4 t : Vec Ideal S4x1024 .f32) (Gen.iblk1 V c 3 t : Vec Ideal S256x256 .bf16)) (ix3 0 c' 0)
    = G1_7 (V c (Pipeline.arrRef spec1 0)) (V c (Pipeline.arrRef spec1 1)) (V c (Pipeline.arrRef spec1 2)) (V c (Pipeline.arrRef spec1 3)) (V c (Pipeline.arrRef spec1 4)) (((cfg1.win 7).blk t).view.emb (ix3 (0 : Fin 1) c' (0 : Fin 1)))
  refine (pay1_2_apply (Gen.k1_pay5 (Gen.iblk1 V c 0 t : Vec Ideal S1x64x1024 .bf16) (Gen.iblk1 V c 1 t : Vec Ideal S64x1 .f32) (Gen.iblk1 V c 2 t : Vec Ideal S64x1 .f32) (Gen.iblk1 V c 4 t : Vec Ideal S4x1024 .f32) (Gen.iblk1 V c 3 t : Vec Ideal S256x256 .bf16)) c').trans ?_
  refine Eq.trans ?_ (congrArg (G1_7 (V c (Pipeline.arrRef spec1 0)) (V c (Pipeline.arrRef spec1 1)) (V c (Pipeline.arrRef spec1 2)) (V c (Pipeline.arrRef spec1 3)) (V c (Pipeline.arrRef spec1 4))) (blk1_7_emb t c' 0).symm)
  refine Finset.sum_congr rfl fun l _ => Finset.sum_congr rfl fun a _ => ?_
  have e := (pay1_5_apply (Gen.iblk1 V c 0 t : Vec Ideal S1x64x1024 .bf16) (Gen.iblk1 V c 1 t : Vec Ideal S64x1 .f32) (Gen.iblk1 V c 2 t : Vec Ideal S64x1 .f32) (Gen.iblk1 V c 4 t : Vec Ideal S4x1024 .f32) (Gen.iblk1 V c 3 t : Vec Ideal S256x256 .bf16) a c' l).trans (conv4_blocks V c t (groupRow a c') l)
  exact congrArg₂ (· * ·) e e

/-- The second statistic after the region. -/
theorem final1_7 (c : Dev nD) : (Gen.dat1 V c).arrAt 7 cfg1.N = G1_7 (V c (Pipeline.arrRef spec1 0)) (V c (Pipeline.arrRef spec1 1)) (V c (Pipeline.arrRef spec1 2)) (V c (Pipeline.arrRef spec1 3)) (V c (Pipeline.arrRef spec1 4)) :=
  (Gen.dat1 V c).arrAt_eq_of_cover 7 (G1_7 (V c (Pipeline.arrRef spec1 0)) (V c (Pipeline.arrRef spec1 1)) (V c (Pipeline.arrRef spec1 2)) (V c (Pipeline.arrRef spec1 3)) (V c (Pipeline.arrRef spec1 4))) (fun t _ => flushed1_7_eq V c t) cover1_7_arr

end Cert.KernelIdeal.Val
end
-- ==== Proof.KerVGram.lean ====
/- Small reads shared by the two Gram regions, at the ideal values: the sine of a vector at an index, a column
   `[1, a, 1]` broadcast along the lanes, a vector `[a]` cast to a column `[a, 1]`, the product of a `[64, 4096]`
   matrix with the transpose of another read at `(a, b)` as the sum over the 4096 lanes of the products of rows
   `a` and `b`, and the sum along the lanes of such a matrix read at row `a`. -/
import proofs.«159567_g2000302752657622_pallasbulk_725_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val.Gram

open Cert.KernelIdeal Cert.KernelIdeal.Gen
open Idealize.ShloMosaic Idealize.ShloMosaic.ValueIdx
open scoped BigOperators

variable {α : Type}

/-- The sine of a vector reads, at an index, the sine of the element there. -/
theorem sin_apply {s : Shape} {φ : FTy} (x : FVec Ideal s φ) (i : s.Idx) : sin x i = Ideal.sin (x i) := rfl

/-- A column `[1, a, 1]` broadcast to `[1, a, b]` reads, at `(u, p, c)`, the column at `(0, p, 0)`. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (p : Fin a) (c : Fin b) :
    broadcastTo ⟨3, ![1, a, b]⟩ v h (ix3 u p c) = v (ix3 (0 : Fin 1) p (0 : Fin 1)) := by
  refine broadcastTo_apply v h (ix3 u p c) (ix3 (0 : Fin 1) p (0 : Fin 1)) fun ax => ?_
  match ax with
  | ⟨0, _⟩ => rfl
  | ⟨1, _⟩ =>
    show p.val = if a = 1 then 0 else p.val
    split
    · have := p.isLt; omega
    · rfl
  | ⟨2, _⟩ => rfl

/-- A vector `[a]` cast to a column `[a, 1]` reads, at `(p, w)`, the vector at `p`. -/
theorem shapeCast_a_a1_apply {a : ℕ} (x : (⟨1, ![a]⟩ : Shape).Idx → α)
    (h : (⟨1, ![a]⟩ : Shape).ShapeCasts ⟨2, ![a, 1]⟩) (p : Fin a) (w : Fin 1) :
    shapeCast ⟨2, ![a, 1]⟩ x h (ix2 p w) = x (ix1 p) :=
  shapeCast_apply x h _ _ (by
    have hw : w.val = 0 := by omega
    rw [Shape.rowMajor_val_one, Shape.rowMajor_val_two]
    show p.val = p.val * 1 + w.val
    rw [hw, Nat.mul_one, Nat.add_zero])

/-! ## The product with a transpose, contracted along the lanes -/

/-- The dimension numbers of the product: both operands `[64, 4096]`, the lanes contracted. -/
abbrev gramDims : DotDims S64x4096 S64x4096 S64x64 := dot_S64x4096_S64x4096_S64x64_1_1_0_0_n_n

theorem gram_lhs_row (i : S64x64.Idx) (q : gramDims.contr.Idx) : (gramDims.lhsIdx i q 0).val = (i 0).val := by
  unfold DotDims.lhsIdx
  rw [dif_neg (show ¬(0 : Fin S64x4096.rank) ∈ gramDims.lhsBatch by decide),
    dif_pos (show (0 : Fin S64x4096.rank) ∈ gramDims.lhsNonContracting by decide)]
  rfl

theorem gram_lhs_lane (i : S64x64.Idx) (q : gramDims.contr.Idx) :
    (gramDims.lhsIdx i q 1).val = (q ⟨0, by decide⟩).val :=
  gramDims.lhsIdx_val_of_single rfl i q

theorem gram_rhs_row (i : S64x64.Idx) (q : gramDims.contr.Idx) : (gramDims.rhsIdx i q 0).val = (i 1).val := by
  unfold DotDims.rhsIdx
  rw [dif_neg (show ¬(0 : Fin S64x4096.rank) ∈ gramDims.rhsBatch by decide),
    dif_pos (show (0 : Fin S64x4096.rank) ∈ gramDims.rhsNonContracting by decide)]
  rfl

theorem gram_rhs_lane (i : S64x64.Idx) (q : gramDims.contr.Idx) :
    (gramDims.rhsIdx i q 1).val = (q ⟨0, by decide⟩).val :=
  gramDims.rhsIdx_val_of_single rfl i q

/-- The product into the zero accumulator, at `(a, b)`: the sum over the lanes of row `a` of the left operand
    times row `b` of the right one. -/
theorem gram_apply (P Q : FVec Ideal S64x4096 .bf16) (a b : Fin 64) :
    matmul gramDims none P Q (constant (F := Ideal) S64x64 .f32 0x00000000#32) (ix2 a b)
      = ∑ l : Fin 4096, P (ix2 a l) * Q (ix2 b l) := by
  simp only [matmul]
  rw [Ideal.matmul_constant_zero_apply, ← Equiv.sum_comp (contrEquiv1 gramDims 4096 rfl rfl).symm]
  refine Finset.sum_congr rfl fun k _ => ?_
  have hk := contrEquiv1_symm_val gramDims 4096 rfl rfl k
  have el : gramDims.lhsIdx (ix2 a b) ((contrEquiv1 gramDims 4096 rfl rfl).symm k) = ix2 a k :=
    funext fun c => Fin.ext (by
      match c with
      | ⟨0, _⟩ => exact gram_lhs_row _ _
      | ⟨1, _⟩ => exact (gram_lhs_lane _ _).trans hk)
  have er : gramDims.rhsIdx (ix2 a b) ((contrEquiv1 gramDims 4096 rfl rfl).symm k) = ix2 b k :=
    funext fun c => Fin.ext (by
      match c with
      | ⟨0, _⟩ => exact gram_rhs_row _ _
      | ⟨1, _⟩ => exact (gram_rhs_lane _ _).trans hk)
  rw [el, er]

/-! ## The sum along the lanes -/

/-- The row index with a lane put back is the pair. -/
theorem lane_lift (a : Fin 64) (l : Fin 4096) :
    reduces_S64x4096_S64.lift (ix1 a) l = ix2 a l :=
  funext fun c => Fin.ext (by
    match c with
    | ⟨0, _⟩ => rfl
    | ⟨1, _⟩ => rfl)

/-- The sum of a `[64, 4096]` matrix along its lanes, at row `a`. -/
theorem lanesum_apply (P : FVec Ideal S64x4096 .f32) (hφ : FKind.Formats .f32)
    (hacc : (0x00000000#32 : BitVec 32) = FKind.add.neutral .f32 hφ) (a : Fin 64) :
    multiReduction (F := Ideal) .add [1] S64 P 0x00000000#32 reduces_S64x4096_S64 hφ hacc (ix1 a)
      = ∑ l : Fin 4096, P (ix2 a l) := by
  refine (Ideal.multiReduction_add_single P 0x00000000#32 reduces_S64x4096_S64 hφ hacc (ix1 a)).trans ?_
  exact Finset.sum_congr rfl fun l _ => congrArg P (lane_lift a l)

end Cert.KernelIdeal.Val.Gram

end
-- ==== Proof.KerV2.lean ====
/- Region 2 (four phases of 1024 lanes): the arrays it leaves, index by index, from the arrays it finds. The activations
   z[p, a, q] = sin (y[p · 64 + a, q] · sc[a] + sh[a]) of one image are laid side by side along the lanes,
   phase p in lanes p · 1024 … p · 1024 + 1023; the product with the transpose and the lane sums then run over
   the 4096 lanes, that is over the pairs (phase, lane): g[n, a, b] = ∑ p, ∑ q, z[n, p, a, q] · z[n, p, b, q] and
   s[n, a] = ∑ p, ∑ q, z[n, p, a, q]; image n is the block of grid point n. -/
import proofs.«159567_g2000302752657622_pallasbulk_725_3_alg».proof.Proof.Gen.KernelIdeal.Frame
import proofs.«159567_g2000302752657622_pallasbulk_725_3_alg».proof.Proof.KerVGram
import proofs.«159567_g2000302752657622_pallasbulk_725_3_alg».proof.Proof.LibGram
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val.Gram

open Cert.KernelIdeal Cert.KernelIdeal.Gen
open Idealize.ShloMosaic Idealize.ShloMosaic.ValueIdx
open scoped BigOperators

variable {α : Type}

/-! ## Lanes as pairs (phase, lane within the phase) -/

/-- Lane `p · 1024 + q` of the 4096, for phase `p` and lane `q` of the phase. -/
def laneEquiv : Fin 4 × Fin 1024 ≃ Fin 4096 where
  toFun x := ⟨x.1.val * 1024 + x.2.val, by have := x.1.isLt; have := x.2.isLt; omega⟩
  invFun L := (⟨L.val / 1024, by have := L.isLt; omega⟩, ⟨L.val % 1024, Nat.mod_lt _ (by decide)⟩)
  left_inv x := by
    have h1 := x.1.isLt
    have h2 := x.2.isLt
    refine Prod.ext (Fin.ext ?_) (Fin.ext ?_)
    · show (x.1.val * 1024 + x.2.val) / 1024 = x.1.val; omega
    · show (x.1.val * 1024 + x.2.val) % 1024 = x.2.val; omega
  right_inv L := Fin.ext (by show L.val / 1024 * 1024 + L.val % 1024 = L.val; omega)

theorem laneEquiv_val (p : Fin 4) (q : Fin 1024) : (laneEquiv (p, q)).val = p.val * 1024 + q.val := rfl

/-- A sum over the 4096 lanes is the sum over the phases of the sums over each phase's lanes. -/
theorem sum_lanes_split {M : Type*} [AddCommMonoid M] (f : Fin 4096 → M) :
    ∑ L : Fin 4096, f L = ∑ p : Fin 4, ∑ q : Fin 1024, f (laneEquiv (p, q)) := by
  rw [← Fintype.sum_prod_type' (fun p q => f (laneEquiv (p, q)))]
  exact (Fintype.sum_equiv laneEquiv (fun x : Fin 4 × Fin 1024 => f (laneEquiv (x.1, x.2))) f (fun _ => rfl)).symm

/-- Row `p · 64 + a` of the 256, for phase `p` and channel `a`. -/
def row2 (p : Fin 4) (a : Fin 64) : Fin 256 := ⟨p.val * 64 + a.val, by have := p.isLt; have := a.isLt; omega⟩

/-! ## Layout reads -/

/-- A column `[1, a, 1]` broadcast to `[m, a, b]` reads, at `(u, p, c)`, the column at `(0, p, 0)`. -/
theorem broadcastTo_1a1_mab_apply {m a b : ℕ} (v : (⟨3, ![1, a, 1]⟩ : Shape).Idx → α)
    (h : (⟨3, ![1, a, 1]⟩ : Shape).Broadcasts ⟨3, ![m, a, b]⟩) (u : Fin m) (p : Fin a) (c : Fin b) :
    broadcastTo ⟨3, ![m, a, b]⟩ v h (ix3 u p c) = v (ix3 (0 : Fin 1) p (0 : Fin 1)) := by
  refine broadcastTo_apply v h (ix3 u p c) (ix3 (0 : Fin 1) p (0 : Fin 1)) fun ax => ?_
  match ax with
  | ⟨0, _⟩ => rfl
  | ⟨1, _⟩ =>
    show p.val = if a = 1 then 0 else p.val
    split
    · have := p.isLt; omega
    · rfl
  | ⟨2, _⟩ => rfl

/-- A `[256, 1024]` matrix cast to `[4, 64, 1024]` reads, at `(p, a, q)`, row `p · 64 + a`. -/
theorem shapeCast_phases_apply (x : S256x1024.Idx → α) (h : S256x1024.ShapeCasts S4x64x1024)
    (p : Fin 4) (a : Fin 64) (q : Fin 1024) :
    shapeCast S4x64x1024 x h (ix3 p a q) = x (ix2 (row2 p a) q) :=
  shapeCast_apply x h _ _ (by
    rw [Shape.rowMajor_val_two, Shape.rowMajor_val_three]
    rfl)

/-- Slice `k` of the four phases, cast to a matrix, reads phase `k`. -/
theorem phase_slice_apply (X : S4x64x1024.Idx → α) (k : Fin 4) (off : Fin 3 → Nat) (hoff : off = ![k.val, 0, 0])
    (hs : S4x64x1024.Slices off S1x64x1024) (hc : S1x64x1024.ShapeCasts S64x1024) (a : Fin 64) (q : Fin 1024) :
    shapeCast S64x1024 (extractStridedSlice S1x64x1024 off X hs) hc (ix2 a q) = X (ix3 k a q) := by
  subst hoff
  refine (shapeCast_1ab_ab_apply _ _ a q).trans ?_
  refine extractStridedSlice_apply _ _ _ _ (ix3 k a q) fun d => ?_
  match d with
  | ⟨0, _⟩ => show k.val = k.val + 0; omega
  | ⟨1, _⟩ => show a.val = 0 + a.val; omega
  | ⟨2, _⟩ => show q.val = 0 + q.val; omega

/-- The four phases, each sliced out and cast to a matrix, laid side by side along the lanes: at lane
    `p · 1024 + q` this reads phase `p` at lane `q`. -/
theorem phases_apply (X : S4x64x1024.Idx → α)
    (hs0 : S4x64x1024.Slices ![0, 0, 0] S1x64x1024) (hs1 : S4x64x1024.Slices ![1, 0, 0] S1x64x1024)
    (hs2 : S4x64x1024.Slices ![2, 0, 0] S1x64x1024) (hs3 : S4x64x1024.Slices ![3, 0, 0] S1x64x1024)
    (hc : S1x64x1024.ShapeCasts S64x1024)
    (h : Shape.Concatenates (([⟨S64x1024, shapeCast S64x1024 (extractStridedSlice S1x64x1024 ![0, 0, 0] X hs0) hc⟩,
        ⟨S64x1024, shapeCast S64x1024 (extractStridedSlice S1x64x1024 ![1, 0, 0] X hs1) hc⟩,
        ⟨S64x1024, shapeCast S64x1024 (extractStridedSlice S1x64x1024 ![2, 0, 0] X hs2) hc⟩,
        ⟨S64x1024, shapeCast S64x1024 (extractStridedSlice S1x64x1024 ![3, 0, 0] X hs3) hc⟩] :
          List ((s : Shape) × (s.Idx → α))).map (·.1)) S64x4096 1)
    (a : Fin 64) (p : Fin 4) (q : Fin 1024) :
    concatenate S64x4096 1 [⟨S64x1024, shapeCast S64x1024 (extractStridedSlice S1x64x1024 ![0, 0, 0] X hs0) hc⟩,
        ⟨S64x1024, shapeCast S64x1024 (extractStridedSlice S1x64x1024 ![1, 0, 0] X hs1) hc⟩,
        ⟨S64x1024, shapeCast S64x1024 (extractStridedSlice S1x64x1024 ![2, 0, 0] X hs2) hc⟩,
        ⟨S64x1024, shapeCast S64x1024 (extractStridedSlice S1x64x1024 ![3, 0, 0] X hs3) hc⟩] h (ix2 a (laneEquiv (p, q)))
      = X (ix3 p a q) := by
  have hp := p.isLt
  rcases (show p.val = 0 ∨ p.val = 1 ∨ p.val = 2 ∨ p.val = 3 by omega) with e | e | e | e
  · obtain rfl : p = (0 : Fin 4) := Fin.ext e
    refine (concatenate_apply_piece (1 : Fin S64x4096.rank) _ h _ 0 ?g1 S64x1024 _ ?g2 ?g3 0 ?g4 (ix2 a q) ?g5 ?g6).trans
      (phase_slice_apply X (0 : Fin 4) _ rfl hs0 hc a q)
    case g1 => show 0 < 4; omega
    case g2 => rfl
    case g3 => rfl
    case g4 => rfl
    case g5 =>
      intro b hb
      match b with
      | ⟨0, _⟩ => rfl
      | ⟨1, _⟩ => exact absurd rfl hb
    case g6 => show 0 + q.val = 0 * 1024 + q.val; omega
  · obtain rfl : p = (1 : Fin 4) := Fin.ext e
    refine (concatenate_apply_piece (1 : Fin S64x4096.rank) _ h _ 1 ?g1 S64x1024 _ ?g2 ?g3 1024 ?g4 (ix2 a q) ?g5 ?g6).trans
      (phase_slice_apply X (1 : Fin 4) _ rfl hs1 hc a q)
    case g1 => show 1 < 4; omega
    case g2 => rfl
    case g3 => rfl
    case g4 => rfl
    case g5 =>
      intro b hb
      match b with
      | ⟨0, _⟩ => rfl
      | ⟨1, _⟩ => exact absurd rfl hb
    case g6 => show 1024 + q.val = 1 * 1024 + q.val; omega
  · obtain rfl : p = (2 : Fin 4) := Fin.ext e
    refine (concatenate_apply_piece (1 : Fin S64x4096.rank) _ h _ 2 ?g1 S64x1024 _ ?g2 ?g3 2048 ?g4 (ix2 a q) ?g5 ?g6).trans
      (phase_slice_apply X (2 : Fin 4) _ rfl hs2 hc a q)
    case g1 => show 2 < 4; omega
    case g2 => rfl
    case g3 => rfl
    case g4 => rfl
    case g5 =>
      intro b hb
      match b with
      | ⟨0, _⟩ => rfl
      | ⟨1, _⟩ => exact absurd rfl hb
    case g6 => show 2048 + q.val = 2 * 1024 + q.val; omega
  · obtain rfl : p = (3 : Fin 4) := Fin.ext e
    refine (concatenate_apply_piece (1 : Fin S64x4096.rank) _ h _ 3 ?g1 S64x1024 _ ?g2 ?g3 3072 ?g4 (ix2 a q) ?g5 ?g6).trans
      (phase_slice_apply X (3 : Fin 4) _ rfl hs3 hc a q)
    case g1 => show 3 < 4; omega
    case g2 => rfl
    case g3 => rfl
    case g4 => rfl
    case g5 =>
      intro b hb
      match b with
      | ⟨0, _⟩ => rfl
      | ⟨1, _⟩ => exact absurd rfl hb
    case g6 => show 3072 + q.val = 3 * 1024 + q.val; omega

end Cert.KernelIdeal.Val.Gram

namespace Cert.KernelIdeal.Val

open Cert.KernelIdeal Cert.KernelIdeal.Gen Cert.KernelIdeal.Val.Gram
open Idealize.ShloMosaic Idealize.ShloMosaic.TcCoe Idealize.ShloMosaic.ValueIdx Idealize.SL.Sem
open Idealize.ShloMosaic.Pipeline (Dat)
open scoped BigOperators

/-! ## The specification -/

/-- z[n, p, a, q] = sin (y[n, p · 64 + a, q] · sc[a] + sh[a]). -/
def z2 (y : S64x256x1024.Idx → EReal) (sc sh : S64x1.Idx → EReal) (n : Fin 64) (p : Fin 4) (a : Fin 64) (q : Fin 1024) : EReal :=
  Ideal.sin (y (ix3 n (row2 p a) q) * sc (ix2 a (0 : Fin 1)) + sh (ix2 a (0 : Fin 1)))

/-- The Gram matrix of image n: g[n, a, b] = ∑ p, ∑ q, z[n, p, a, q] · z[n, p, b, q]. -/
def G2_3 (y : S64x256x1024.Idx → EReal) (sc sh : S64x1.Idx → EReal) : S64x64x64.Idx → EReal :=
  fun i => ∑ p : Fin 4, ∑ q : Fin 1024, z2 y sc sh (i 0) p (i 1) q * z2 y sc sh (i 0) p (i 2) q

/-- The lane sums of image n: s[n, a] = ∑ p, ∑ q, z[n, p, a, q]. -/
def G2_4 (y : S64x256x1024.Idx → EReal) (sc sh : S64x1.Idx → EReal) : S64x64x1.Idx → EReal :=
  fun i => ∑ p : Fin 4, ∑ q : Fin 1024, z2 y sc sh (i 0) p (i 1) q

/-! ## The body's values at an index -/

/-- The activations of one image at channel `a`, lane `p · 1024 + q`: phase `p`, that is row `p · 64 + a`, at lane `q`. -/
theorem pay2_1_apply (v0 : Vec Ideal S1x256x1024 .bf16) (v4 v9 : Vec Ideal S64x1 .f32) (a : Fin 64) (p : Fin 4) (q : Fin 1024) :
    Gen.k2_pay1 v0 v4 v9 (ix2 a (laneEquiv (p, q)))
      = Ideal.sin ((v0 (ix3 (0 : Fin 1) (row2 p a) q) : EReal) * (v4 (ix2 a (0 : Fin 1)) : EReal) + (v9 (ix2 a (0 : Fin 1)) : EReal)) := by
  unfold Gen.k2_pay1
  refine (phases_apply _ _ _ _ _ _ _ a p q).trans ?_
  refine (truncf_apply (φ := .f32) (ψ := .bf16) _ bitsLt_bf16_f32 _).trans ?_
  refine (sin_apply _ _).trans (congrArg Ideal.sin ?_)
  refine (addf_apply _ _ _).trans ?_
  refine congrArg₂ (· + ·) ((mulf_apply _ _ _).trans (congrArg₂ (· * ·) ?_ ?_)) ?_
  · refine (shapeCast_phases_apply _ _ p a q).trans ?_
    refine (extf_apply (φ := .bf16) (ψ := .f32) _ bitsLt_bf16_f32 _).trans ?_
    exact shapeCast_1ab_ab_apply _ _ (row2 p a) q
  · refine (broadcastTo_1a1_mab_apply _ _ p a q).trans ?_
    refine (shapeCast_ab_1ab_apply _ _ (0 : Fin 1) a (0 : Fin 1)).trans ?_
    exact congrFun (shapeCast_self _ _) _
  · refine (broadcastTo_1a1_mab_apply _ _ p a q).trans ?_
    refine (shapeCast_ab_1ab_apply _ _ (0 : Fin 1) a (0 : Fin 1)).trans ?_
    exact congrFun (shapeCast_self _ _) _

/-- The first store: the product of the activations with their transpose, at `(a, b)`, as a sum over phases and lanes. -/
theorem pay2_2_apply (v0 : Vec Ideal S1x256x1024 .bf16) (v4 v9 : Vec Ideal S64x1 .f32) (u : Fin 1) (a b : Fin 64) :
    Gen.k2_pay2 v0 v4 v9 (ix3 u a b)
      = ∑ p : Fin 4, ∑ q : Fin 1024,
          Gen.k2_pay1 v0 v4 v9 (ix2 a (laneEquiv (p, q))) * Gen.k2_pay1 v0 v4 v9 (ix2 b (laneEquiv (p, q))) := by
  unfold Gen.k2_pay2
  refine (shapeCast_ab_1ab_apply _ _ u a b).trans ?_
  refine (gram_apply _ _ a b).trans ?_
  exact sum_lanes_split _

/-- The second store: the activations summed along the lanes, at channel `a`, as a sum over phases and lanes. -/
theorem pay2_3_apply (v0 : Vec Ideal S1x256x1024 .bf16) (v4 v9 : Vec Ideal S64x1 .f32) (u : Fin 1) (a : Fin 64) (w : Fin 1) :
    Gen.k2_pay3 v0 v4 v9 (ix3 u a w)
      = ∑ p : Fin 4, ∑ q : Fin 1024, Gen.k2_pay1 v0 v4 v9 (ix2 a (laneEquiv (p, q))) := by
  unfold Gen.k2_pay3
  refine (shapeCast_ab_1ab_apply _ _ u a w).trans ?_
  refine (shapeCast_a_a1_apply _ _ a w).trans ?_
  refine (lanesum_apply _ _ _ a).trans ?_
  refine (Finset.sum_congr rfl fun l _ => ?_).trans (sum_lanes_split fun l => Gen.k2_pay1 v0 v4 v9 (ix2 a l))
  rfl

/-- The first store of a block holding image `n`: the Gram matrix of image `n`. -/
theorem blk2_3 (x0 : Vec Ideal S1x256x1024 .bf16) (x1 x2 : Vec Ideal S64x1 .f32)
    (y : S64x256x1024.Idx → EReal) (sc sh : S64x1.Idx → EReal) (n : Fin 64)
    (h0 : ∀ (r : Fin 256) (q : Fin 1024), (x0 (ix3 (0 : Fin 1) r q) : EReal) = y (ix3 n r q))
    (h1 : ∀ a : Fin 64, (x1 (ix2 a (0 : Fin 1)) : EReal) = sc (ix2 a (0 : Fin 1)))
    (h2 : ∀ a : Fin 64, (x2 (ix2 a (0 : Fin 1)) : EReal) = sh (ix2 a (0 : Fin 1)))
    (u : Fin 1) (a b : Fin 64) :
    Gen.k2_pay2 x0 x1 x2 (ix3 u a b) = G2_3 y sc sh (ix3 n a b) := by
  refine (pay2_2_apply x0 x1 x2 u a b).trans ?_
  refine Finset.sum_congr rfl fun p _ => Finset.sum_congr rfl fun q _ => ?_
  rw [pay2_1_apply, pay2_1_apply, h0, h0, h1, h1, h2, h2]
  rfl

/-- The second store of a block holding image `n`: the lane sums of image `n`. -/
theorem blk2_4 (x0 : Vec Ideal S1x256x1024 .bf16) (x1 x2 : Vec Ideal S64x1 .f32)
    (y : S64x256x1024.Idx → EReal) (sc sh : S64x1.Idx → EReal) (n : Fin 64)
    (h0 : ∀ (r : Fin 256) (q : Fin 1024), (x0 (ix3 (0 : Fin 1) r q) : EReal) = y (ix3 n r q))
    (h1 : ∀ a : Fin 64, (x1 (ix2 a (0 : Fin 1)) : EReal) = sc (ix2 a (0 : Fin 1)))
    (h2 : ∀ a : Fin 64, (x2 (ix2 a (0 : Fin 1)) : EReal) = sh (ix2 a (0 : Fin 1)))
    (u : Fin 1) (a : Fin 64) (w : Fin 1) :
    Gen.k2_pay3 x0 x1 x2 (ix3 u a w) = G2_4 y sc sh (ix3 n a w) := by
  refine (pay2_3_apply x0 x1 x2 u a w).trans ?_
  refine Finset.sum_congr rfl fun p _ => Finset.sum_congr rfl fun q _ => ?_
  rw [pay2_1_apply, h0, h1, h2]
  rfl

/-! ## From the blocks to the arrays -/

section Blocks

variable (V : (c : Dev nD) → (b : Ref sig .tc) → Buf (Elt Ideal) ((c : Thread nD τ).loc b))

theorem hzero2_3 : (![0, 0, 0] : Fin 3 → Nat) = fun _ => 0 := funext fun a => by fin_cases a <;> rfl
theorem hzero2_2 : (![0, 0] : Fin 2 → Nat) = fun _ => 0 := funext fun a => by fin_cases a <;> rfl

/-- The arrays of the region's five windows. -/
theorem arrRef2_0 : Pipeline.arrRef spec2 0 = main_v100_0 := rfl
theorem arrRef2_1 : Pipeline.arrRef spec2 1 = main_v113 := rfl
theorem arrRef2_2 : Pipeline.arrRef spec2 2 = main_v116 := rfl
theorem arrRef2_3 : Pipeline.arrRef spec2 3 = main_v117_0 := rfl
theorem arrRef2_4 : Pipeline.arrRef spec2 4 = main_v117_1 := rfl

/-- Grid point `t` works on image `t`: the blocked windows' index maps are `(t, 0, 0)`, the two columns' `(0, 0)`. -/
theorem idx2 : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0 :=
  (by decide +kernel : ∀ t : Fin grid2.N, _)

/-- The image a grid point works on. -/
def img2 (t : Fin cfg2.N) : Fin 64 := ⟨t.val, by have h : t.val < grid2.N := t.isLt; rw [N_2] at h; exact h⟩

/-- The block of the activations at point `t` is image `t`. -/
theorem iblk2_0_apply (c : Dev nD) (t : Fin cfg2.N) (r : Fin 256) (q : Fin 1024) :
    ((Gen.iblk2 V c 0 t : Vec Ideal S1x256x1024 .bf16) (ix3 (0 : Fin 1) r q) : EReal)
      = (V c (Pipeline.arrRef spec2 0) : S64x256x1024.Idx → EReal) (ix3 (img2 t) r q) := by
  obtain ⟨e0, e1, e2, -⟩ := idx2 t
  unfold Gen.iblk2
  rw [View.read_apply]
  refine congrArg (V c (Pipeline.arrRef spec2 0) : S64x256x1024.Idx → EReal) (funext fun d => Fin.ext ?_)
  match d with
  | ⟨0, _⟩ => show win2_0.index t (0 : Fin 3) * 1 + 1 * 0 = t.val; rw [e0]; omega
  | ⟨1, _⟩ => show win2_0.index t (1 : Fin 3) * 256 + 1 * r.val = r.val; rw [e1]; omega
  | ⟨2, _⟩ => show win2_0.index t (2 : Fin 3) * 1024 + 1 * q.val = q.val; rw [e2]; omega

/-- The block of the scale column at any point is the column. -/
theorem iblk2_1_apply (c : Dev nD) (t : Fin cfg2.N) (a : Fin 64) :
    ((Gen.iblk2 V c 1 t : Vec Ideal S64x1 .f32) (ix2 a (0 : Fin 1)) : EReal)
      = (V c (Pipeline.arrRef spec2 1) : S64x1.Idx → EReal) (ix2 a (0 : Fin 1)) := by
  obtain ⟨-, -, -, e0, e1, -⟩ := idx2 t
  unfold Gen.iblk2
  rw [View.read_apply]
  refine congrArg (V c (Pipeline.arrRef spec2 1) : S64x1.Idx → EReal) (funext fun d => Fin.ext ?_)
  match d with
  | ⟨0, _⟩ => show win2_1.index t (0 : Fin 2) * 64 + 1 * a.val = a.val; rw [e0]; omega
  | ⟨1, _⟩ => show win2_1.index t (1 : Fin 2) * 1 + 1 * 0 = 0; rw [e1]

/-- The block of the shift column at any point is the column. -/
theorem iblk2_2_apply (c : Dev nD) (t : Fin cfg2.N) (a : Fin 64) :
    ((Gen.iblk2 V c 2 t : Vec Ideal S64x1 .f32) (ix2 a (0 : Fin 1)) : EReal)
      = (V c (Pipeline.arrRef spec2 2) : S64x1.Idx → EReal) (ix2 a (0 : Fin 1)) := by
  obtain ⟨-, -, -, -, -, e0, e1, -⟩ := idx2 t
  unfold Gen.iblk2
  rw [View.read_apply]
  refine congrArg (V c (Pipeline.arrRef spec2 2) : S64x1.Idx → EReal) (funext fun d => Fin.ext ?_)
  match d with
  | ⟨0, _⟩ => show win2_2.index t (0 : Fin 2) * 64 + 1 * a.val = a.val; rw [e0]; omega
  | ⟨1, _⟩ => show win2_2.index t (1 : Fin 2) * 1 + 1 * 0 = 0; rw [e1]

/-- What point `t` writes back to the first output is block `t` of the Gram matrices. -/
theorem flushed2_3_eq (c : Dev nD) (t : Fin cfg2.N) :
    (Gen.dat2 V c).flushed 3 t = ((cfg2.win 3).blk t).view.read (Elt Ideal)
      (G2_3 (V c (Pipeline.arrRef spec2 0)) (V c (Pipeline.arrRef spec2 1)) (V c (Pipeline.arrRef spec2 2))) := by
  show (cfg2.win 3).cut (grid2.coords t) ((Gen.dat2 V c).after 3 t) = _
  rw [Gen.after2_3]
  unfold Gen.out2_3
  rw [View.canon_unit_zero hzero2_3]
  simp only [View.ld_unit_zero (S := S1x256x1024) hzero2_3, View.ld_unit_zero (S := S64x1) hzero2_2]
  obtain ⟨-, -, -, -, -, -, -, e0, e1, e2, -⟩ := idx2 t
  funext j
  rw [View.read_apply]
  have hj0 : (j 0).val < 1 := (j 0).isLt
  have hj1 : (j 1).val < 64 := (j 1).isLt
  have hj2 : (j 2).val < 64 := (j 2).isLt
  have ej : (cfg2.win 3).xinj (grid2.coords t) j = ix3 (⟨(j 0).val, hj0⟩ : Fin 1) (⟨(j 1).val, hj1⟩ : Fin 64) (⟨(j 2).val, hj2⟩ : Fin 64) :=
    funext fun d => by
      match d with
      | ⟨0, _⟩ => rfl
      | ⟨1, _⟩ => rfl
      | ⟨2, _⟩ => rfl
  have ei : ((cfg2.win 3).blk t).view.emb j = ix3 (img2 t) (⟨(j 1).val, hj1⟩ : Fin 64) (⟨(j 2).val, hj2⟩ : Fin 64) :=
    funext fun d => Fin.ext (by
      match d with
      | ⟨0, _⟩ => show win2_3.index t (0 : Fin 3) * 1 + 1 * (j 0).val = t.val; rw [e0]; omega
      | ⟨1, _⟩ => show win2_3.index t (1 : Fin 3) * 64 + 1 * (j 1).val = (j 1).val; rw [e1]; omega
      | ⟨2, _⟩ => show win2_3.index t (2 : Fin 3) * 64 + 1 * (j 2).val = (j 2).val; rw [e2]; omega)
  exact (congrArg (Gen.k2_pay2 (Gen.iblk2 V c 0 t) (Gen.iblk2 V c 1 t) (Gen.iblk2 V c 2 t)) ej).trans
    ((blk2_3 (Gen.iblk2 V c 0 t) (Gen.iblk2 V c 1 t) (Gen.iblk2 V c 2 t)
        (V c (Pipeline.arrRef spec2 0)) (V c (Pipeline.arrRef spec2 1)) (V c (Pipeline.arrRef spec2 2)) (img2 t)
        (iblk2_0_apply V c t) (iblk2_1_apply V c t) (iblk2_2_apply V c t) _ _ _).trans
      (congrArg (G2_3 (V c (Pipeline.arrRef spec2 0)) (V c (Pipeline.arrRef spec2 1)) (V c (Pipeline.arrRef spec2 2))) ei.symm))

/-- What point `t` writes back to the second output is block `t` of the lane sums. -/
theorem flushed2_4_eq (c : Dev nD) (t : Fin cfg2.N) :
    (Gen.dat2 V c).flushed 4 t = ((cfg2.win 4).blk t).view.read (Elt Ideal)
      (G2_4 (V c (Pipeline.arrRef spec2 0)) (V c (Pipeline.arrRef spec2 1)) (V c (Pipeline.arrRef spec2 2))) := by
  show (cfg2.win 4).cut (grid2.coords t) ((Gen.dat2 V c).after 4 t) = _
  rw [Gen.after2_4]
  unfold Gen.out2_4
  rw [View.canon_unit_zero hzero2_3]
  simp only [View.ld_unit_zero (S := S1x256x1024) hzero2_3, View.ld_unit_zero (S := S64x1) hzero2_2]
  obtain ⟨-, -, -, -, -, -, -, -, -, -, e0, e1, e2⟩ := idx2 t
  funext j
  rw [View.read_apply]
  have hj0 : (j 0).val < 1 := (j 0).isLt
  have hj1 : (j 1).val < 64 := (j 1).isLt
  have hj2 : (j 2).val < 1 := (j 2).isLt
  have ej : (cfg2.win 4).xinj (grid2.coords t) j = ix3 (⟨(j 0).val, hj0⟩ : Fin 1) (⟨(j 1).val, hj1⟩ : Fin 64) (⟨(j 2).val, hj2⟩ : Fin 1) :=
    funext fun d => by
      match d with
      | ⟨0, _⟩ => rfl
      | ⟨1, _⟩ => rfl
      | ⟨2, _⟩ => rfl
  have ei : ((cfg2.win 4).blk t).view.emb j = ix3 (img2 t) (⟨(j 1).val, hj1⟩ : Fin 64) (⟨(j 2).val, hj2⟩ : Fin 1) :=
    funext fun d => Fin.ext (by
      match d with
      | ⟨0, _⟩ => show win2_4.index t (0 : Fin 3) * 1 + 1 * (j 0).val = t.val; rw [e0]; omega
      | ⟨1, _⟩ => show win2_4.index t (1 : Fin 3) * 64 + 1 * (j 1).val = (j 1).val; rw [e1]; omega
      | ⟨2, _⟩ => show win2_4.index t (2 : Fin 3) * 1 + 1 * (j 2).val = (j 2).val; rw [e2]; omega)
  exact (congrArg (Gen.k2_pay3 (Gen.iblk2 V c 0 t) (Gen.iblk2 V c 1 t) (Gen.iblk2 V c 2 t)) ej).trans
    ((blk2_4 (Gen.iblk2 V c 0 t) (Gen.iblk2 V c 1 t) (Gen.iblk2 V c 2 t)
        (V c (Pipeline.arrRef spec2 0)) (V c (Pipeline.arrRef spec2 1)) (V c (Pipeline.arrRef spec2 2)) (img2 t)
        (iblk2_0_apply V c t) (iblk2_1_apply V c t) (iblk2_2_apply V c t) _ _ _).trans
      (congrArg (G2_4 (V c (Pipeline.arrRef spec2 0)) (V c (Pipeline.arrRef spec2 1)) (V c (Pipeline.arrRef spec2 2))) ei.symm))

/-- An index of the first output is in point `t`'s block iff each coordinate is in the block's range. -/
theorem mem_blk2_3 (t : Fin cfg2.N) (i : S64x64x64.Idx) :
    i ∈ ((cfg2.win 3).blk t).view.set ↔ ∀ a : Fin 3, win2_3.index t a * S1x64x64.size a ≤ (i a).val ∧ (i a).val < win2_3.index t a * S1x64x64.size a + S1x64x64.size a := by
  show i ∈ ((View.whole main_v117_0).slice (win2_3.rect t)).set ↔ _
  rw [View.set_slice_whole, Rect.mem_set_unit]
  exact Iff.rfl

theorem mem_blk2_4 (t : Fin cfg2.N) (i : S64x64x1.Idx) :
    i ∈ ((cfg2.win 4).blk t).view.set ↔ ∀ a : Fin 3, win2_4.index t a * S1x64x1.size a ≤ (i a).val ∧ (i a).val < win2_4.index t a * S1x64x1.size a + S1x64x1.size a := by
  show i ∈ ((View.whole main_v117_1).slice (win2_4.rect t)).set ↔ _
  rw [View.set_slice_whole, Rect.mem_set_unit]
  exact Iff.rfl

/-- The point of an image. -/
def pt2 (n : Nat) (h : n < 64) : Fin cfg2.N := ⟨n, by show n < grid2.N; rw [N_2]; exact h⟩

/-- The first output after the region: the Gram matrices of the 64 images. -/
theorem final2_3 (c : Dev nD) : (Gen.dat2 V c).arrAt 3 cfg2.N
    = G2_3 (V c (Pipeline.arrRef spec2 0)) (V c (Pipeline.arrRef spec2 1)) (V c (Pipeline.arrRef spec2 2)) :=
  (Gen.dat2 V c).arrAt_eq_of_cover 3 _ (fun t _ => flushed2_3_eq V c t) fun i => by
    have hi0 : (i 0).val < 64 := (i 0).isLt
    have hi1 : (i 1).val < 64 := (i 1).isLt
    have hi2 : (i 2).val < 64 := (i 2).isLt
    refine ⟨pt2 (i 0).val hi0, Gen.flush2_3 _, ?_⟩
    obtain ⟨-, -, -, -, -, -, -, e0, e1, e2, -⟩ := idx2 (pt2 (i 0).val hi0)
    rw [mem_blk2_3]
    intro a
    match a with
    | ⟨0, _⟩ => show win2_3.index (pt2 (i 0).val hi0) (0 : Fin 3) * 1 ≤ (i 0).val ∧ (i 0).val < win2_3.index (pt2 (i 0).val hi0) (0 : Fin 3) * 1 + 1
                rw [e0]; show (i 0).val * 1 ≤ (i 0).val ∧ (i 0).val < (i 0).val * 1 + 1; omega
    | ⟨1, _⟩ => show win2_3.index (pt2 (i 0).val hi0) (1 : Fin 3) * 64 ≤ (i 1).val ∧ (i 1).val < win2_3.index (pt2 (i 0).val hi0) (1 : Fin 3) * 64 + 64
                rw [e1]; omega
    | ⟨2, _⟩ => show win2_3.index (pt2 (i 0).val hi0) (2 : Fin 3) * 64 ≤ (i 2).val ∧ (i 2).val < win2_3.index (pt2 (i 0).val hi0) (2 : Fin 3) * 64 + 64
                rw [e2]; omega

/-- The second output after the region: the lane sums of the 64 images. -/
theorem final2_4 (c : Dev nD) : (Gen.dat2 V c).arrAt 4 cfg2.N
    = G2_4 (V c (Pipeline.arrRef spec2 0)) (V c (Pipeline.arrRef spec2 1)) (V c (Pipeline.arrRef spec2 2)) :=
  (Gen.dat2 V c).arrAt_eq_of_cover 4 _ (fun t _ => flushed2_4_eq V c t) fun i => by
    have hi0 : (i 0).val < 64 := (i 0).isLt
    have hi1 : (i 1).val < 64 := (i 1).isLt
    have hi2 : (i 2).val < 1 := (i 2).isLt
    refine ⟨pt2 (i 0).val hi0, Gen.flush2_4 _, ?_⟩
    obtain ⟨-, -, -, -, -, -, -, -, -, -, e0, e1, e2⟩ := idx2 (pt2 (i 0).val hi0)
    rw [mem_blk2_4]
    intro a
    match a with
    | ⟨0, _⟩ => show win2_4.index (pt2 (i 0).val hi0) (0 : Fin 3) * 1 ≤ (i 0).val ∧ (i 0).val < win2_4.index (pt2 (i 0).val hi0) (0 : Fin 3) * 1 + 1
                rw [e0]; show (i 0).val * 1 ≤ (i 0).val ∧ (i 0).val < (i 0).val * 1 + 1; omega
    | ⟨1, _⟩ => show win2_4.index (pt2 (i 0).val hi0) (1 : Fin 3) * 64 ≤ (i 1).val ∧ (i 1).val < win2_4.index (pt2 (i 0).val hi0) (1 : Fin 3) * 64 + 64
                rw [e1]; omega
    | ⟨2, _⟩ => show win2_4.index (pt2 (i 0).val hi0) (2 : Fin 3) * 1 ≤ (i 2).val ∧ (i 2).val < win2_4.index (pt2 (i 0).val hi0) (2 : Fin 3) * 1 + 1
                rw [e2]; omega

/-- The two outputs after the region, with the windows' arrays named. -/
theorem final2_3_named (c : Dev nD) : (Gen.dat2 V c).arrAt 3 cfg2.N = G2_3 (V c main_v100_0) (V c main_v113) (V c main_v116) :=
  final2_3 V c
theorem final2_4_named (c : Dev nD) : (Gen.dat2 V c).arrAt 4 cfg2.N = G2_4 (V c main_v100_0) (V c main_v113) (V c main_v116) :=
  final2_4 V c

end Blocks

/-! ## Real entries stay real -/

theorem z2_real {y : S64x256x1024.Idx → EReal} {sc sh : S64x1.Idx → EReal}
    (hy : ∀ i, ∃ r : ℝ, y i = r) (hsc : ∀ i, ∃ r : ℝ, sc i = r) (hsh : ∀ i, ∃ r : ℝ, sh i = r)
    (n : Fin 64) (p : Fin 4) (a : Fin 64) (q : Fin 1024) : ∃ r : ℝ, z2 y sc sh n p a q = r := by
  obtain ⟨ry, ey⟩ := hy (ix3 n (row2 p a) q)
  obtain ⟨rs, es⟩ := hsc (ix2 a (0 : Fin 1))
  obtain ⟨rh, eh⟩ := hsh (ix2 a (0 : Fin 1))
  refine ⟨Real.sin (ry * rs + rh), ?_⟩
  unfold z2
  rw [ey, es, eh, ← EReal.coe_mul, ← EReal.coe_add]
  exact Ideal.sin_coe _

theorem G2_3_real {y : S64x256x1024.Idx → EReal} {sc sh : S64x1.Idx → EReal}
    (hy : ∀ i, ∃ r : ℝ, y i = r) (hsc : ∀ i, ∃ r : ℝ, sc i = r) (hsh : ∀ i, ∃ r : ℝ, sh i = r) :
    ∀ i, ∃ r : ℝ, G2_3 y sc sh i = r := fun i =>
  Cert.Lib.Gram.exists_real_sum Finset.univ _ fun p => Cert.Lib.Gram.exists_real_sum Finset.univ _ fun q =>
    Cert.Lib.Gram.exists_real_mul (z2_real hy hsc hsh (i 0) p (i 1) q) (z2_real hy hsc hsh (i 0) p (i 2) q)

theorem G2_4_real {y : S64x256x1024.Idx → EReal} {sc sh : S64x1.Idx → EReal}
    (hy : ∀ i, ∃ r : ℝ, y i = r) (hsc : ∀ i, ∃ r : ℝ, sc i = r) (hsh : ∀ i, ∃ r : ℝ, sh i = r) :
    ∀ i, ∃ r : ℝ, G2_4 y sc sh i = r := fun i =>
  Cert.Lib.Gram.exists_real_sum Finset.univ _ fun p => Cert.Lib.Gram.exists_real_sum Finset.univ _ fun q =>
    z2_real hy hsc hsh (i 0) p (i 1) q

end Cert.KernelIdeal.Val

end
-- ==== Proof.KerV3a.lean ====
import proofs.«159567_g2000302752657622_pallasbulk_725_3_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val.R3

open Cert.KernelIdeal Cert.KernelIdeal.Gen
open Idealize.ShloMosaic Idealize.ShloMosaic.ValueIdx

/-! ## One layout operation at an index -/

/-- A [256,1024] array read as four stacked [64,1024] phases: entry (p, c, l) is row p·64 + c. -/
theorem cast_rows_phases {α : Type} (x : S256x1024.Idx → α) (p : Fin 4) (c : Fin 64) (l : Fin 1024) :
    shapeCast S4x64x1024 x shapeCasts_S256x1024_S4x64x1024 (ix3 p c l)
      = x (ix2 ⟨p.val * 64 + c.val, by have := p.isLt; have := c.isLt; omega⟩ l) :=
  shapeCast_apply x _ _ _ (by
    rw [Shape.rowMajor_val_three, Shape.rowMajor_val_two]
    show (p.val * 64 + c.val) * 1024 + l.val = (p.val * 64 + c.val) * 1024 + l.val
    rfl)

/-- A per-channel column [1,64,1] spread over phases and lanes reads the channel's entry. -/
theorem bcast_chan {α : Type} (v : S1x64x1.Idx → α) (p : Fin 4) (c : Fin 64) (l : Fin 1024) :
    broadcastTo S4x64x1024 v broadcasts_S1x64x1_S4x64x1024 (ix3 p c l) = v (ix3 (0 : Fin 1) c (0 : Fin 1)) := by
  refine broadcastTo_apply v _ (ix3 p c l) (ix3 (0 : Fin 1) c (0 : Fin 1)) fun ax => ?_
  match ax with
  | ⟨0, _⟩ => rfl
  | ⟨1, _⟩ => rfl
  | ⟨2, _⟩ => rfl

/-- A per-row column [256,1] spread over 4096 lanes reads the row's entry. -/
theorem bcast_row4096 {α : Type} (v : S256x1.Idx → α) (j : Fin 256) (L : Fin 4096) :
    broadcastTo S256x4096 v broadcasts_S256x1_S256x4096 (ix2 j L) = v (ix2 j (0 : Fin 1)) := by
  refine broadcastTo_apply v _ (ix2 j L) (ix2 j (0 : Fin 1)) fun ax => ?_
  match ax with
  | ⟨0, _⟩ => rfl
  | ⟨1, _⟩ => rfl

/-- A per-row column [256,1] spread over 1024 lanes reads the row's entry. -/
theorem bcast_row1024 {α : Type} (v : S256x1.Idx → α) (j : Fin 256) (l : Fin 1024) :
    broadcastTo S256x1024 v broadcasts_S256x1_S256x1024 (ix2 j l) = v (ix2 j (0 : Fin 1)) := by
  refine broadcastTo_apply v _ (ix2 j l) (ix2 j (0 : Fin 1)) fun ax => ?_
  match ax with
  | ⟨0, _⟩ => rfl
  | ⟨1, _⟩ => rfl

/-- Phase p cut out of the stack, as a [1,64,1024] slab. -/
theorem slab0 {α : Type} (x : S4x64x1024.Idx → α) (u : Fin 1) (c : Fin 64) (l : Fin 1024) :
    extractStridedSlice S1x64x1024 ![0, 0, 0] x slices_S4x64x1024_o0_0_0_S1x64x1024 (ix3 u c l) = x (ix3 (0 : Fin 4) c l) :=
  extractStridedSlice_apply _ x _ _ _ fun ax => by
    match ax with
    | ⟨0, _⟩ => show (0 : Nat) = 0 + u.val; omega
    | ⟨1, _⟩ => show c.val = 0 + c.val; omega
    | ⟨2, _⟩ => show l.val = 0 + l.val; omega
theorem slab1 {α : Type} (x : S4x64x1024.Idx → α) (u : Fin 1) (c : Fin 64) (l : Fin 1024) :
    extractStridedSlice S1x64x1024 ![1, 0, 0] x slices_S4x64x1024_o1_0_0_S1x64x1024 (ix3 u c l) = x (ix3 (1 : Fin 4) c l) :=
  extractStridedSlice_apply _ x _ _ _ fun ax => by
    match ax with
    | ⟨0, _⟩ => show (1 : Nat) = 1 + u.val; omega
    | ⟨1, _⟩ => show c.val = 0 + c.val; omega
    | ⟨2, _⟩ => show l.val = 0 + l.val; omega
theorem slab2 {α : Type} (x : S4x64x1024.Idx → α) (u : Fin 1) (c : Fin 64) (l : Fin 1024) :
    extractStridedSlice S1x64x1024 ![2, 0, 0] x slices_S4x64x1024_o2_0_0_S1x64x1024 (ix3 u c l) = x (ix3 (2 : Fin 4) c l) :=
  extractStridedSlice_apply _ x _ _ _ fun ax => by
    match ax with
    | ⟨0, _⟩ => show (2 : Nat) = 2 + u.val; omega
    | ⟨1, _⟩ => show c.val = 0 + c.val; omega
    | ⟨2, _⟩ => show l.val = 0 + l.val; omega
theorem slab3 {α : Type} (x : S4x64x1024.Idx → α) (u : Fin 1) (c : Fin 64) (l : Fin 1024) :
    extractStridedSlice S1x64x1024 ![3, 0, 0] x slices_S4x64x1024_o3_0_0_S1x64x1024 (ix3 u c l) = x (ix3 (3 : Fin 4) c l) :=
  extractStridedSlice_apply _ x _ _ _ fun ax => by
    match ax with
    | ⟨0, _⟩ => show (3 : Nat) = 3 + u.val; omega
    | ⟨1, _⟩ => show c.val = 0 + c.val; omega
    | ⟨2, _⟩ => show l.val = 0 + l.val; omega

/-- Lane position p·1024 + l of a 4096-lane row. -/
abbrev lane (p : Fin 4) (l : Fin 1024) : Fin 4096 := ⟨p.val * 1024 + l.val, by have := p.isLt; have := l.isLt; omega⟩

/-- Off the lane axis a [64,1024] piece and the [64,4096] row share the channel coordinate. -/
theorem lane_off (c : Fin 64) (L : Fin 4096) (l : Fin 1024) : ∀ b : Fin S64x1024.rank, b.cast (rfl : S64x1024.rank = S64x4096.rank) ≠ (1 : Fin S64x4096.rank) →
      ((ix2 c l : S64x1024.Idx) b).val = ((ix2 c L : S64x4096.Idx) (b.cast rfl)).val := fun b hb => by
    match b with
    | ⟨0, _⟩ => rfl
    | ⟨1, _⟩ => exact absurd rfl hb

theorem lanes0 {α : Type} (y0 y1 y2 y3 : S64x1024.Idx → α) (c : Fin 64) (l : Fin 1024) :
    concatenate S64x4096 1
        [⟨S64x1024, y0⟩, ⟨S64x1024, y1⟩, ⟨S64x1024, y2⟩, ⟨S64x1024, y3⟩]
        concatenates_S64x1024_S64x1024_S64x1024_S64x1024_S64x4096_d1 (ix2 c (lane 0 l))
      = y0 (ix2 c l) := by
  refine concatenate_apply_piece (1 : Fin S64x4096.rank) [⟨S64x1024, y0⟩, ⟨S64x1024, y1⟩, ⟨S64x1024, y2⟩, ⟨S64x1024, y3⟩] _ _ 0
    (by show (0 : Nat) < 4; omega) S64x1024 y0 rfl rfl 0 rfl (ix2 c l) (lane_off c _ l) ?_
  show 0 + l.val = 0 * 1024 + l.val
  omega

theorem lanes1 {α : Type} (y0 y1 y2 y3 : S64x1024.Idx → α) (c : Fin 64) (l : Fin 1024) :
    concatenate S64x4096 1
        [⟨S64x1024, y0⟩, ⟨S64x1024, y1⟩, ⟨S64x1024, y2⟩, ⟨S64x1024, y3⟩]
        concatenates_S64x1024_S64x1024_S64x1024_S64x1024_S64x4096_d1 (ix2 c (lane 1 l))
      = y1 (ix2 c l) := by
  refine concatenate_apply_piece (1 : Fin S64x4096.rank) [⟨S64x1024, y0⟩, ⟨S64x1024, y1⟩, ⟨S64x1024, y2⟩, ⟨S64x1024, y3⟩] _ _ 1
    (by show (1 : Nat) < 4; omega) S64x1024 y1 rfl rfl 1024 rfl (ix2 c l) (lane_off c _ l) ?_
  show 1024 + l.val = 1 * 1024 + l.val
  omega

theorem lanes2 {α : Type} (y0 y1 y2 y3 : S64x1024.Idx → α) (c : Fin 64) (l : Fin 1024) :
    concatenate S64x4096 1
        [⟨S64x1024, y0⟩, ⟨S64x1024, y1⟩, ⟨S64x1024, y2⟩, ⟨S64x1024, y3⟩]
        concatenates_S64x1024_S64x1024_S64x1024_S64x1024_S64x4096_d1 (ix2 c (lane 2 l))
      = y2 (ix2 c l) := by
  refine concatenate_apply_piece (1 : Fin S64x4096.rank) [⟨S64x1024, y0⟩, ⟨S64x1024, y1⟩, ⟨S64x1024, y2⟩, ⟨S64x1024, y3⟩] _ _ 2
    (by show (2 : Nat) < 4; omega) S64x1024 y2 rfl rfl 2048 rfl (ix2 c l) (lane_off c _ l) ?_
  show 2048 + l.val = 2 * 1024 + l.val
  omega

theorem lanes3 {α : Type} (y0 y1 y2 y3 : S64x1024.Idx → α) (c : Fin 64) (l : Fin 1024) :
    concatenate S64x4096 1
        [⟨S64x1024, y0⟩, ⟨S64x1024, y1⟩, ⟨S64x1024, y2⟩, ⟨S64x1024, y3⟩]
        concatenates_S64x1024_S64x1024_S64x1024_S64x1024_S64x4096_d1 (ix2 c (lane 3 l))
      = y3 (ix2 c l) := by
  refine concatenate_apply_piece (1 : Fin S64x4096.rank) [⟨S64x1024, y0⟩, ⟨S64x1024, y1⟩, ⟨S64x1024, y2⟩, ⟨S64x1024, y3⟩] _ _ 3
    (by show (3 : Nat) < 4; omega) S64x1024 y3 rfl rfl 3072 rfl (ix2 c l) (lane_off c _ l) ?_
  show 3072 + l.val = 3 * 1024 + l.val
  omega

/-- The four phases laid side by side along lanes: lane p·1024 + l of channel c is phase p at (c, l). -/
theorem lanes_apply {α : Type} (x : S4x64x1024.Idx → α) (c : Fin 64) (p : Fin 4) (l : Fin 1024) :
    concatenate S64x4096 1
        [⟨S64x1024, shapeCast S64x1024 (extractStridedSlice S1x64x1024 ![0, 0, 0] x slices_S4x64x1024_o0_0_0_S1x64x1024) shapeCasts_S1x64x1024_S64x1024⟩,
         ⟨S64x1024, shapeCast S64x1024 (extractStridedSlice S1x64x1024 ![1, 0, 0] x slices_S4x64x1024_o1_0_0_S1x64x1024) shapeCasts_S1x64x1024_S64x1024⟩,
         ⟨S64x1024, shapeCast S64x1024 (extractStridedSlice S1x64x1024 ![2, 0, 0] x slices_S4x64x1024_o2_0_0_S1x64x1024) shapeCasts_S1x64x1024_S64x1024⟩,
         ⟨S64x1024, shapeCast S64x1024 (extractStridedSlice S1x64x1024 ![3, 0, 0] x slices_S4x64x1024_o3_0_0_S1x64x1024) shapeCasts_S1x64x1024_S64x1024⟩]
        concatenates_S64x1024_S64x1024_S64x1024_S64x1024_S64x4096_d1 (ix2 c (lane p l))
      = x (ix3 p c l) := by
  obtain ⟨pv, hp⟩ := p
  match pv, hp with
  | 0, _ => exact (lanes0 _ _ _ _ c l).trans ((shapeCast_1ab_ab_apply _ _ c l).trans (slab0 x 0 c l))
  | 1, _ => exact (lanes1 _ _ _ _ c l).trans ((shapeCast_1ab_ab_apply _ _ c l).trans (slab1 x 0 c l))
  | 2, _ => exact (lanes2 _ _ _ _ c l).trans ((shapeCast_1ab_ab_apply _ _ c l).trans (slab2 x 0 c l))
  | 3, _ => exact (lanes3 _ _ _ _ c l).trans ((shapeCast_1ab_ab_apply _ _ c l).trans (slab3 x 0 c l))
  | n + 4, h => exact absurd h (by omega)
/-- The 256×64 by 64×4096 product into the zero accumulator, at (j, L): the sum over the 64 channels. -/
theorem matmul_256_64 (A : FVec Ideal S256x64 .bf16) (B : FVec Ideal S64x4096 .bf16) (j : Fin 256) (L : Fin 4096) :
    matmul dot_S256x64_S64x4096_S256x4096_1_0_0_1_n_n none A B (constant (F := Ideal) S256x4096 .f32 0x00000000#32) (ix2 j L)
      = ∑ c : Fin 64, A (ix2 j c) * B (ix2 c L) := by
  show FloatOps.matmul dot_S256x64_S64x4096_S256x4096_1_0_0_1_n_n none A B (constant (F := Ideal) S256x4096 .f32 0x00000000#32) (ix2 j L) = _
  rw [Ideal.matmul_constant_zero_apply,
    ← Equiv.sum_comp (contrEquiv1 dot_S256x64_S64x4096_S256x4096_1_0_0_1_n_n 64 rfl rfl).symm]
  refine Finset.sum_congr rfl fun c _ => ?_
  have c2 := contrEquiv1_symm_val dot_S256x64_S64x4096_S256x4096_1_0_0_1_n_n 64 rfl rfl c
  have l2 : dot_S256x64_S64x4096_S256x4096_1_0_0_1_n_n.lhsIdx (ix2 j L) ((contrEquiv1 _ 64 rfl rfl).symm c) = ix2 j c := by
    funext ax; apply Fin.ext
    match ax with
    | ⟨0, _⟩ => simp [DotDims.lhsIdx, dot_S256x64_S64x4096_S256x4096_1_0_0_1_n_n]; rfl
    | ⟨1, _⟩ => simp [DotDims.lhsIdx, dot_S256x64_S64x4096_S256x4096_1_0_0_1_n_n]; exact c2
  have r2 : dot_S256x64_S64x4096_S256x4096_1_0_0_1_n_n.rhsIdx (ix2 j L) ((contrEquiv1 _ 64 rfl rfl).symm c) = ix2 c L := by
    funext ax; apply Fin.ext
    match ax with
    | ⟨0, _⟩ => simp [DotDims.rhsIdx, dot_S256x64_S64x4096_S256x4096_1_0_0_1_n_n]; exact c2
    | ⟨1, _⟩ => simp [DotDims.rhsIdx, dot_S256x64_S64x4096_S256x4096_1_0_0_1_n_n]; rfl
  rw [l2, r2]

/-- The 64×256 by 256×4096 product into the zero accumulator, at (o, L): the sum over the 256 rows. -/
theorem matmul_64_256 (A : FVec Ideal S64x256 .bf16) (B : FVec Ideal S256x4096 .bf16) (o : Fin 64) (L : Fin 4096) :
    matmul dot_S64x256_S256x4096_S64x4096_1_0_0_1_n_n none A B (constant (F := Ideal) S64x4096 .f32 0x00000000#32) (ix2 o L)
      = ∑ j : Fin 256, A (ix2 o j) * B (ix2 j L) := by
  show FloatOps.matmul dot_S64x256_S256x4096_S64x4096_1_0_0_1_n_n none A B (constant (F := Ideal) S64x4096 .f32 0x00000000#32) (ix2 o L) = _
  rw [Ideal.matmul_constant_zero_apply,
    ← Equiv.sum_comp (contrEquiv1 dot_S64x256_S256x4096_S64x4096_1_0_0_1_n_n 256 rfl rfl).symm]
  refine Finset.sum_congr rfl fun j _ => ?_
  have c2 := contrEquiv1_symm_val dot_S64x256_S256x4096_S64x4096_1_0_0_1_n_n 256 rfl rfl j
  have l2 : dot_S64x256_S256x4096_S64x4096_1_0_0_1_n_n.lhsIdx (ix2 o L) ((contrEquiv1 _ 256 rfl rfl).symm j) = ix2 o j := by
    funext ax; apply Fin.ext
    match ax with
    | ⟨0, _⟩ => simp [DotDims.lhsIdx, dot_S64x256_S256x4096_S64x4096_1_0_0_1_n_n]; rfl
    | ⟨1, _⟩ => simp [DotDims.lhsIdx, dot_S64x256_S256x4096_S64x4096_1_0_0_1_n_n]; exact c2
  have r2 : dot_S64x256_S256x4096_S64x4096_1_0_0_1_n_n.rhsIdx (ix2 o L) ((contrEquiv1 _ 256 rfl rfl).symm j) = ix2 j L := by
    funext ax; apply Fin.ext
    match ax with
    | ⟨0, _⟩ => simp [DotDims.rhsIdx, dot_S64x256_S256x4096_S64x4096_1_0_0_1_n_n]; exact c2
    | ⟨1, _⟩ => simp [DotDims.rhsIdx, dot_S64x256_S256x4096_S64x4096_1_0_0_1_n_n]; rfl
  rw [l2, r2]

/-- Row p·64 + c of a 256-row array. -/
abbrev prow (p : Fin 4) (c : Fin 64) : Fin 256 := ⟨p.val * 64 + c.val, by have := p.isLt; have := c.isLt; omega⟩

/-- The value before the shortcut at row j and lane p·1024 + l: the 1×1 convolution of the activations
    sin(r·scale + shift), then the two per-row affine terms. -/
theorem pay7_apply (v0 : Vec Ideal S1x256x1024 .bf16) (v4 v9 : Vec Ideal S64x1 .f32) (v25 : Vec Ideal S256x64 .bf16)
    (v28 v32 v36 : Vec Ideal S256x1 .f32) (j : Fin 256) (p : Fin 4) (l : Fin 1024) :
    Gen.k3_pay7 v0 v4 v9 v25 v28 v32 v36 (ix2 j (lane p l))
      = (∑ c : Fin 64, v25 (ix2 j c)
            * Ideal.sin (v0 (ix3 (0 : Fin 1) (prow p c) l) * v4 (ix2 c (0 : Fin 1)) + v9 (ix2 c (0 : Fin 1))))
          * v28 (ix2 j (0 : Fin 1)) + v32 (ix2 j (0 : Fin 1)) + v36 (ix2 j (0 : Fin 1)) := by
  unfold Gen.k3_pay7
  show matmul _ none _ _ _ (ix2 j (lane p l)) * broadcastTo S256x4096 _ _ (ix2 j (lane p l))
      + broadcastTo S256x4096 _ _ (ix2 j (lane p l)) + broadcastTo S256x4096 _ _ (ix2 j (lane p l)) = _
  simp only [shapeCast_self]
  rw [bcast_row4096, bcast_row4096, bcast_row4096, matmul_256_64]
  refine congrArg (fun s => s * v28 (ix2 j (0 : Fin 1)) + v32 (ix2 j (0 : Fin 1)) + v36 (ix2 j (0 : Fin 1)))
    (Finset.sum_congr rfl fun c _ => ?_)
  refine congrArg (fun z => v25 (ix2 j c) * z) ?_
  refine (lanes_apply _ c p l).trans ?_
  show Ideal.sin (shapeCast S4x64x1024 _ _ (ix3 p c l) * broadcastTo S4x64x1024 _ _ (ix3 p c l)
      + broadcastTo S4x64x1024 _ _ (ix3 p c l)) = _
  rw [cast_rows_phases, bcast_chan, bcast_chan, shapeCast_ab_1ab_apply, shapeCast_ab_1ab_apply]
  show Ideal.sin (shapeCast S256x1024 v0 _ (ix2 (prow p c) l) * _ + _) = _
  rw [shapeCast_1ab_ab_apply, shapeCast_self, shapeCast_self]

/-- Off the lane axis a [256,·] piece and the [256,4096] row share the row coordinate. -/
theorem row_off_left (j : Fin 256) (L : Fin 4096) (l : Fin 1024) (h : l.val = L.val) :
    ∀ b : Fin S256x1024.rank, ((ix2 j l : S256x1024.Idx) b).val = ((ix2 j L : S256x4096.Idx) (b.cast (rfl : S256x1024.rank = S256x4096.rank))).val := fun b => by
  match b with
  | ⟨0, _⟩ => rfl
  | ⟨1, _⟩ => exact h

theorem row_off_right (j : Fin 256) (L : Fin 4096) (l : Fin 3072) :
    ∀ b : Fin S256x3072.rank, b.cast (rfl : S256x3072.rank = S256x4096.rank) ≠ (1 : Fin S256x4096.rank) →
      ((ix2 j l : S256x3072.Idx) b).val = ((ix2 j L : S256x4096.Idx) (b.cast rfl)).val := fun b hb => by
  match b with
  | ⟨0, _⟩ => rfl
  | ⟨1, _⟩ => exact absurd rfl hb

/-- In the first 1024 lanes the shortcut term, the second input scaled per row, is added. -/
theorem pay1_apply_zero (v39 : FVec Ideal S256x4096 .f32) (v40 : Vec Ideal S1x256x1024 .bf16) (v43 : Vec Ideal S256x1 .f32)
    (j : Fin 256) (l : Fin 1024) :
    Gen.k3_pay1 v39 v40 v43 (ix2 j (lane 0 l))
      = v39 (ix2 j (lane 0 l)) + v40 (ix3 (0 : Fin 1) j l) * v43 (ix2 j (0 : Fin 1)) := by
  unfold Gen.k3_pay1
  refine (concatenate_pair_apply_left (t := S256x4096) (s₁ := S256x1024) (s₂ := S256x3072) (1 : Fin S256x4096.rank) _ _ _
    (ix2 j (lane 0 l)) rfl (ix2 j l)
    (row_off_left j (lane 0 l) l (by show l.val = 0 * 1024 + l.val; omega))).trans ?_
  show extractStridedSlice S256x1024 ![0, 0] v39 _ (ix2 j l)
      + shapeCast S256x1024 v40 _ (ix2 j l) * broadcastTo S256x1024 _ _ (ix2 j l) = _
  rw [slice2_axis1_apply 0 v39 _ j l (lane 0 l) (by show 0 * 1024 + l.val = 0 + l.val; omega),
    shapeCast_1ab_ab_apply, bcast_row1024, shapeCast_self]

/-- Past the first 1024 lanes the value is passed through. -/
theorem pay1_apply_pos (v39 : FVec Ideal S256x4096 .f32) (v40 : Vec Ideal S1x256x1024 .bf16) (v43 : Vec Ideal S256x1 .f32)
    (j : Fin 256) (p : Fin 4) (hp : p.val ≠ 0) (l : Fin 1024) :
    Gen.k3_pay1 v39 v40 v43 (ix2 j (lane p l)) = v39 (ix2 j (lane p l)) := by
  unfold Gen.k3_pay1
  have hl : (p.val - 1) * 1024 + l.val < 3072 := by have := p.isLt; have := l.isLt; omega
  refine (concatenate_pair_apply_right (t := S256x4096) (s₁ := S256x1024) (s₂ := S256x3072) (1 : Fin S256x4096.rank) _ _ _
    (ix2 j (lane p l)) rfl rfl
    (ix2 j (⟨(p.val - 1) * 1024 + l.val, hl⟩ : Fin 3072)) (row_off_right j (lane p l) _) ?_).trans ?_
  · show (p.val - 1) * 1024 + l.val + 1024 = p.val * 1024 + l.val
    omega
  · exact slice2_axis1_apply 1024 v39 _ j _ (lane p l)
      (by show p.val * 1024 + l.val = 1024 + ((p.val - 1) * 1024 + l.val); omega)

/-- The stored f32 block is that value under a leading unit axis. -/
theorem pay2_apply (v39 : FVec Ideal S256x4096 .f32) (v40 : Vec Ideal S1x256x1024 .bf16) (v43 : Vec Ideal S256x1 .f32)
    (u : Fin 1) (j : Fin 256) (L : Fin 4096) :
    Gen.k3_pay2 v39 v40 v43 (ix3 u j L) = Gen.k3_pay1 v39 v40 v43 (ix2 j L) := by
  unfold Gen.k3_pay2
  exact shapeCast_ab_1ab_apply _ _ u j L

/-- The second 1×1 convolution: over the 256 rows. -/
theorem pay3_apply (v39 : FVec Ideal S256x4096 .f32) (v40 : Vec Ideal S1x256x1024 .bf16) (v43 : Vec Ideal S256x1 .f32)
    (v54 : Vec Ideal S64x256 .bf16) (o : Fin 64) (L : Fin 4096) :
    Gen.k3_pay3 v39 v40 v43 v54 (ix2 o L) = ∑ j : Fin 256, v54 (ix2 o j) * Gen.k3_pay1 v39 v40 v43 (ix2 j L) := by
  unfold Gen.k3_pay3
  show matmul _ none _ _ _ (ix2 o L) = _
  refine (matmul_64_256 _ _ o L).trans (Finset.sum_congr rfl fun j _ => ?_)
  rw [shapeCast_self]
  rfl

/-- The stored bf16 block is that product under a leading unit axis. -/
theorem pay4_apply (v39 : FVec Ideal S256x4096 .f32) (v40 : Vec Ideal S1x256x1024 .bf16) (v43 : Vec Ideal S256x1 .f32)
    (v54 : Vec Ideal S64x256 .bf16) (u : Fin 1) (o : Fin 64) (L : Fin 4096) :
    Gen.k3_pay4 v39 v40 v43 v54 (ix3 u o L) = Gen.k3_pay3 v39 v40 v43 v54 (ix2 o L) := by
  unfold Gen.k3_pay4
  exact shapeCast_ab_1ab_apply _ _ u o L

/-- A [64] vector as a [64,1] column. -/
theorem cast_col {α : Type} (x : S64.Idx → α) (o : Fin 64) (q : Fin 1) :
    shapeCast S64x1 x shapeCasts_S64_S64x1 (ix2 o q) = x (ix1 o) :=
  shapeCast_apply x _ _ _ (by
    rw [Shape.rowMajor_val_one, Shape.rowMajor_val_two]
    show o.val = o.val * 1 + q.val
    have := q.isLt; omega)

/-- The sum along lanes of a [64,4096] block, at row o. -/
theorem lane_sum (src : FVec Ideal S64x4096 .f32) (hφ : FKind.Formats .f32)
    (hacc : (0x00000000#32 : BitVec 32) = FKind.add.neutral .f32 hφ) (o : Fin 64) :
    multiReduction (F := Ideal) .add [1] S64 src 0x00000000#32 reduces_S64x4096_S64 hφ hacc (ix1 o)
      = ∑ L : Fin 4096, src (ix2 o L) := by
  refine (Ideal.multiReduction_add_single src 0x00000000#32 reduces_S64x4096_S64 hφ hacc (ix1 o)).trans ?_
  show ∑ k : Fin 4096, src (reduces_S64x4096_S64.lift (ix1 o) k) = _
  refine Finset.sum_congr rfl fun L _ => congrArg src ?_
  funext a; apply Fin.ext
  match a with
  | ⟨0, _⟩ => rfl
  | ⟨1, _⟩ => rfl

/-- The per-image row sums of the second product. -/
theorem pay5_apply (v39 : FVec Ideal S256x4096 .f32) (v40 : Vec Ideal S1x256x1024 .bf16) (v43 : Vec Ideal S256x1 .f32)
    (v54 : Vec Ideal S64x256 .bf16) (u : Fin 1) (o : Fin 64) (q : Fin 1) :
    Gen.k3_pay5 v39 v40 v43 v54 (ix3 u o q) = ∑ L : Fin 4096, Gen.k3_pay3 v39 v40 v43 v54 (ix2 o L) := by
  unfold Gen.k3_pay5
  refine (shapeCast_ab_1ab_apply _ _ u o q).trans ((cast_col _ o q).trans ?_)
  exact lane_sum _ _ _ o

/-- The per-image row sums of its square. -/
theorem pay6_apply (v39 : FVec Ideal S256x4096 .f32) (v40 : Vec Ideal S1x256x1024 .bf16) (v43 : Vec Ideal S256x1 .f32)
    (v54 : Vec Ideal S64x256 .bf16) (u : Fin 1) (o : Fin 64) (q : Fin 1) :
    Gen.k3_pay6 v39 v40 v43 v54 (ix3 u o q)
      = ∑ L : Fin 4096, Gen.k3_pay3 v39 v40 v43 v54 (ix2 o L) * Gen.k3_pay3 v39 v40 v43 v54 (ix2 o L) := by
  unfold Gen.k3_pay6
  refine (shapeCast_ab_1ab_apply _ _ u o q).trans ((cast_col _ o q).trans ?_)
  exact lane_sum _ _ _ o

end Cert.KernelIdeal.Val.R3

end
-- ==== Proof.KerV3b.lean ====
import proofs.«159567_g2000302752657622_pallasbulk_725_3_alg».proof.Proof.Gen.KernelIdeal.Frame
import proofs.«159567_g2000302752657622_pallasbulk_725_3_alg».proof.Proof.KerV3a
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx
open R3 (lane prow)

/-! ## Lanes: phase and position -/

/-- The phase of a lane: L / 1024. -/
abbrev ph3 (L : Fin 4096) : Fin 4 := ⟨L.val / 1024, by have := L.isLt; omega⟩
/-- The position of a lane inside its phase: L % 1024. -/
abbrev ps3 (L : Fin 4096) : Fin 1024 := ⟨L.val % 1024, by omega⟩

theorem lane_ph3_ps3 (L : Fin 4096) : lane (ph3 L) (ps3 L) = L :=
  Fin.ext (by show L.val / 1024 * 1024 + L.val % 1024 = L.val; omega)
theorem ph3_lane (p : Fin 4) (l : Fin 1024) : ph3 (lane p l) = p :=
  Fin.ext (by show (p.val * 1024 + l.val) / 1024 = p.val; have := l.isLt; omega)
theorem ps3_lane (p : Fin 4) (l : Fin 1024) : ps3 (lane p l) = l :=
  Fin.ext (by show (p.val * 1024 + l.val) % 1024 = l.val; have := l.isLt; omega)

/-! ## The specification of region 3

Entry arrays: a0 the first input [64,256,1024], read per image as four stacked [64,1024] phases; a1 the shortcut input
[64,256,1024]; a2, a3 the per-channel scale and shift under the sine [64,1]; a4 the first 1×1 weight [256,64]; a5, a6 the
per-row scale and shift after it [256,1]; a7 the shortcut's per-row scale, a8 its shift [256,1]; a9 the second 1×1
weight [64,256]. -/

/-- The activation of image n at channel c, phase p, position l: sin(r·scale + shift), r row p·64 + c of a0. -/
def act3 (a0 : S64x256x1024.Idx → EReal) (a2 a3 : S64x1.Idx → EReal) (n : Fin 64) (c : Fin 64) (p : Fin 4) (l : Fin 1024) : EReal :=
  Ideal.sin (a0 (ix3 n (prow p c) l) * a2 (ix2 c (0 : Fin 1)) + a3 (ix2 c (0 : Fin 1)))

/-- Row j at lane p·1024 + l before the shortcut: the 1×1 convolution of the activations, scaled, plus both shifts. -/
def base3 (a0 : S64x256x1024.Idx → EReal) (a2 a3 : S64x1.Idx → EReal) (a4 : S256x64.Idx → EReal)
    (a5 a6 a8 : S256x1.Idx → EReal) (n : Fin 64) (j : Fin 256) (p : Fin 4) (l : Fin 1024) : EReal :=
  (∑ c : Fin 64, a4 (ix2 j c) * act3 a0 a2 a3 n c p l) * a5 (ix2 j (0 : Fin 1)) + a6 (ix2 j (0 : Fin 1)) + a8 (ix2 j (0 : Fin 1))

/-- The f32 output at image n, row j, lane p·1024 + l: the shortcut term a1·a7 is present in phase 0 only (lanes below 1024). -/
def out3 (a0 a1 : S64x256x1024.Idx → EReal) (a2 a3 : S64x1.Idx → EReal) (a4 : S256x64.Idx → EReal)
    (a5 a6 a7 a8 : S256x1.Idx → EReal) (n : Fin 64) (j : Fin 256) (p : Fin 4) (l : Fin 1024) : EReal :=
  if p.val = 0 then base3 a0 a2 a3 a4 a5 a6 a8 n j p l + a1 (ix3 n j l) * a7 (ix2 j (0 : Fin 1))
  else base3 a0 a2 a3 a4 a5 a6 a8 n j p l

/-- The second 1×1 convolution at image n, row o, lane L. -/
def y11_3 (a0 a1 : S64x256x1024.Idx → EReal) (a2 a3 : S64x1.Idx → EReal) (a4 : S256x64.Idx → EReal)
    (a5 a6 a7 a8 : S256x1.Idx → EReal) (a9 : S64x256.Idx → EReal) (n : Fin 64) (o : Fin 64) (L : Fin 4096) : EReal :=
  ∑ j : Fin 256, a9 (ix2 o j) * out3 a0 a1 a2 a3 a4 a5 a6 a7 a8 n j (ph3 L) (ps3 L)

/-- Output window 10: the f32 array [64,256,4096]. -/
def G3_10 (a0 a1 : S64x256x1024.Idx → EReal) (a2 a3 : S64x1.Idx → EReal) (a4 : S256x64.Idx → EReal)
    (a5 a6 a7 a8 : S256x1.Idx → EReal) : S64x256x4096.Idx → EReal :=
  fun i => out3 a0 a1 a2 a3 a4 a5 a6 a7 a8 (i 0) (i 1) (ph3 (i 2)) (ps3 (i 2))

/-- Output window 11: the second product [64,64,4096]. -/
def G3_11 (a0 a1 : S64x256x1024.Idx → EReal) (a2 a3 : S64x1.Idx → EReal) (a4 : S256x64.Idx → EReal)
    (a5 a6 a7 a8 : S256x1.Idx → EReal) (a9 : S64x256.Idx → EReal) : S64x64x4096.Idx → EReal :=
  fun i => y11_3 a0 a1 a2 a3 a4 a5 a6 a7 a8 a9 (i 0) (i 1) (i 2)

/-- Output window 12: its per-image row sums [64,64,1]. -/
def G3_12 (a0 a1 : S64x256x1024.Idx → EReal) (a2 a3 : S64x1.Idx → EReal) (a4 : S256x64.Idx → EReal)
    (a5 a6 a7 a8 : S256x1.Idx → EReal) (a9 : S64x256.Idx → EReal) : S64x64x1.Idx → EReal :=
  fun i => ∑ L : Fin 4096, y11_3 a0 a1 a2 a3 a4 a5 a6 a7 a8 a9 (i 0) (i 1) L

/-- Output window 13: the per-image row sums of its square [64,64,1]. -/
def G3_13 (a0 a1 : S64x256x1024.Idx → EReal) (a2 a3 : S64x1.Idx → EReal) (a4 : S256x64.Idx → EReal)
    (a5 a6 a7 a8 : S256x1.Idx → EReal) (a9 : S64x256.Idx → EReal) : S64x64x1.Idx → EReal :=
  fun i => ∑ L : Fin 4096, y11_3 a0 a1 a2 a3 a4 a5 a6 a7 a8 a9 (i 0) (i 1) L * y11_3 a0 a1 a2 a3 a4 a5 a6 a7 a8 a9 (i 0) (i 1) L

section AtCoordinates
variable (a0 a1 : S64x256x1024.Idx → EReal) (a2 a3 : S64x1.Idx → EReal) (a4 : S256x64.Idx → EReal)
  (a5 a6 a7 a8 : S256x1.Idx → EReal) (a9 : S64x256.Idx → EReal)

theorem G3_10_apply (n : Fin 64) (j : Fin 256) (L : Fin 4096) :
    G3_10 a0 a1 a2 a3 a4 a5 a6 a7 a8 (ix3 n j L) = out3 a0 a1 a2 a3 a4 a5 a6 a7 a8 n j (ph3 L) (ps3 L) := rfl
theorem G3_10_lane (n : Fin 64) (j : Fin 256) (p : Fin 4) (l : Fin 1024) :
    G3_10 a0 a1 a2 a3 a4 a5 a6 a7 a8 (ix3 n j (lane p l)) = out3 a0 a1 a2 a3 a4 a5 a6 a7 a8 n j p l := by
  rw [G3_10_apply, ph3_lane, ps3_lane]
theorem G3_11_apply (n o : Fin 64) (L : Fin 4096) :
    G3_11 a0 a1 a2 a3 a4 a5 a6 a7 a8 a9 (ix3 n o L) = y11_3 a0 a1 a2 a3 a4 a5 a6 a7 a8 a9 n o L := rfl
theorem G3_12_apply (n o : Fin 64) (q : Fin 1) :
    G3_12 a0 a1 a2 a3 a4 a5 a6 a7 a8 a9 (ix3 n o q) = ∑ L : Fin 4096, y11_3 a0 a1 a2 a3 a4 a5 a6 a7 a8 a9 n o L := rfl
theorem G3_13_apply (n o : Fin 64) (q : Fin 1) :
    G3_13 a0 a1 a2 a3 a4 a5 a6 a7 a8 a9 (ix3 n o q)
      = ∑ L : Fin 4096, y11_3 a0 a1 a2 a3 a4 a5 a6 a7 a8 a9 n o L * y11_3 a0 a1 a2 a3 a4 a5 a6 a7 a8 a9 n o L := rfl

/-- The second product is the 1×1 convolution, by a9, of the f32 output (by definition). -/
theorem G3_11_eq_conv : G3_11 a0 a1 a2 a3 a4 a5 a6 a7 a8 a9
    = fun i => ∑ j : Fin 256, a9 (ix2 (i 1) j) * G3_10 a0 a1 a2 a3 a4 a5 a6 a7 a8 (ix3 (i 0) j (i 2)) := rfl
/-- The row sums are the lane sums of the second product (by definition). -/
theorem G3_12_eq_sum : G3_12 a0 a1 a2 a3 a4 a5 a6 a7 a8 a9
    = fun i => ∑ L : Fin 4096, G3_11 a0 a1 a2 a3 a4 a5 a6 a7 a8 a9 (ix3 (i 0) (i 1) L) := rfl
/-- The row sums of squares are the lane sums of its square (by definition). -/
theorem G3_13_eq_sum : G3_13 a0 a1 a2 a3 a4 a5 a6 a7 a8 a9
    = fun i => ∑ L : Fin 4096, G3_11 a0 a1 a2 a3 a4 a5 a6 a7 a8 a9 (ix3 (i 0) (i 1) L) * G3_11 a0 a1 a2 a3 a4 a5 a6 a7 a8 a9 (ix3 (i 0) (i 1) L) := rfl

end AtCoordinates

/-! ## Real entries stay real -/

namespace R3

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩
theorem real_sin {x : EReal} (hx : ∃ r : ℝ, x = r) : ∃ r : ℝ, Ideal.sin x = r := by
  obtain ⟨a, rfl⟩ := hx; exact ⟨Real.sin a, rfl⟩
theorem real_sum {ι : Type} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

end R3

section Real
variable {a0 a1 : S64x256x1024.Idx → EReal} {a2 a3 : S64x1.Idx → EReal} {a4 : S256x64.Idx → EReal}
  {a5 a6 a7 a8 : S256x1.Idx → EReal} {a9 : S64x256.Idx → EReal}

theorem act3_real (h0 : ∀ i, ∃ r : ℝ, a0 i = r) (h2 : ∀ i, ∃ r : ℝ, a2 i = r) (h3 : ∀ i, ∃ r : ℝ, a3 i = r)
    (n : Fin 64) (c : Fin 64) (p : Fin 4) (l : Fin 1024) : ∃ r : ℝ, act3 a0 a2 a3 n c p l = r :=
  R3.real_sin (R3.real_add (R3.real_mul (h0 _) (h2 _)) (h3 _))

theorem base3_real (h0 : ∀ i, ∃ r : ℝ, a0 i = r) (h2 : ∀ i, ∃ r : ℝ, a2 i = r) (h3 : ∀ i, ∃ r : ℝ, a3 i = r)
    (h4 : ∀ i, ∃ r : ℝ, a4 i = r) (h5 : ∀ i, ∃ r : ℝ, a5 i = r) (h6 : ∀ i, ∃ r : ℝ, a6 i = r) (h8 : ∀ i, ∃ r : ℝ, a8 i = r)
    (n : Fin 64) (j : Fin 256) (p : Fin 4) (l : Fin 1024) : ∃ r : ℝ, base3 a0 a2 a3 a4 a5 a6 a8 n j p l = r :=
  R3.real_add (R3.real_add (R3.real_mul (R3.real_sum _ _ fun c _ => R3.real_mul (h4 _) (act3_real h0 h2 h3 n c p l)) (h5 _)) (h6 _)) (h8 _)

theorem out3_real (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) (h6 : ∀ i, ∃ r : ℝ, a6 i = r)
    (h7 : ∀ i, ∃ r : ℝ, a7 i = r) (h8 : ∀ i, ∃ r : ℝ, a8 i = r)
    (n : Fin 64) (j : Fin 256) (p : Fin 4) (l : Fin 1024) : ∃ r : ℝ, out3 a0 a1 a2 a3 a4 a5 a6 a7 a8 n j p l = r := by
  unfold out3
  split
  · exact R3.real_add (base3_real h0 h2 h3 h4 h5 h6 h8 n j p l) (R3.real_mul (h1 _) (h7 _))
  · exact base3_real h0 h2 h3 h4 h5 h6 h8 n j p l

theorem y11_3_real (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) (h6 : ∀ i, ∃ r : ℝ, a6 i = r)
    (h7 : ∀ i, ∃ r : ℝ, a7 i = r) (h8 : ∀ i, ∃ r : ℝ, a8 i = r) (h9 : ∀ i, ∃ r : ℝ, a9 i = r)
    (n o : Fin 64) (L : Fin 4096) : ∃ r : ℝ, y11_3 a0 a1 a2 a3 a4 a5 a6 a7 a8 a9 n o L = r :=
  R3.real_sum _ _ fun j _ => R3.real_mul (h9 _) (out3_real h0 h1 h2 h3 h4 h5 h6 h7 h8 n j _ _)

/-- Real scale, shift, weights and inputs give a real f32 output. -/
theorem G3_10_real (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) (h6 : ∀ i, ∃ r : ℝ, a6 i = r)
    (h7 : ∀ i, ∃ r : ℝ, a7 i = r) (h8 : ∀ i, ∃ r : ℝ, a8 i = r) :
    ∀ i, ∃ r : ℝ, G3_10 a0 a1 a2 a3 a4 a5 a6 a7 a8 i = r :=
  fun i => out3_real h0 h1 h2 h3 h4 h5 h6 h7 h8 _ _ _ _

theorem G3_11_real (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) (h6 : ∀ i, ∃ r : ℝ, a6 i = r)
    (h7 : ∀ i, ∃ r : ℝ, a7 i = r) (h8 : ∀ i, ∃ r : ℝ, a8 i = r) (h9 : ∀ i, ∃ r : ℝ, a9 i = r) :
    ∀ i, ∃ r : ℝ, G3_11 a0 a1 a2 a3 a4 a5 a6 a7 a8 a9 i = r :=
  fun i => y11_3_real h0 h1 h2 h3 h4 h5 h6 h7 h8 h9 _ _ _

theorem G3_12_real (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) (h6 : ∀ i, ∃ r : ℝ, a6 i = r)
    (h7 : ∀ i, ∃ r : ℝ, a7 i = r) (h8 : ∀ i, ∃ r : ℝ, a8 i = r) (h9 : ∀ i, ∃ r : ℝ, a9 i = r) :
    ∀ i, ∃ r : ℝ, G3_12 a0 a1 a2 a3 a4 a5 a6 a7 a8 a9 i = r :=
  fun i => R3.real_sum _ _ fun L _ => y11_3_real h0 h1 h2 h3 h4 h5 h6 h7 h8 h9 _ _ L

theorem G3_13_real (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) (h6 : ∀ i, ∃ r : ℝ, a6 i = r)
    (h7 : ∀ i, ∃ r : ℝ, a7 i = r) (h8 : ∀ i, ∃ r : ℝ, a8 i = r) (h9 : ∀ i, ∃ r : ℝ, a9 i = r) :
    ∀ i, ∃ r : ℝ, G3_13 a0 a1 a2 a3 a4 a5 a6 a7 a8 a9 i = r :=
  fun i => R3.real_sum _ _ fun L _ =>
    R3.real_mul (y11_3_real h0 h1 h2 h3 h4 h5 h6 h7 h8 h9 _ _ L) (y11_3_real h0 h1 h2 h3 h4 h5 h6 h7 h8 h9 _ _ L)

end Real

/-! ## One image's blocks against the arrays -/

/-- The staged blocks of grid point n are the arrays' entries of image n (the blocked windows) or the arrays (the rest). -/
structure Blk3 (x0 x1 : Vec Ideal S1x256x1024 .bf16) (x2 x3 : Vec Ideal S64x1 .f32) (x4 : Vec Ideal S256x64 .bf16)
    (x5 x6 x7 x8 : Vec Ideal S256x1 .f32) (x9 : Vec Ideal S64x256 .bf16)
    (a0 a1 : S64x256x1024.Idx → EReal) (a2 a3 : S64x1.Idx → EReal) (a4 : S256x64.Idx → EReal)
    (a5 a6 a7 a8 : S256x1.Idx → EReal) (a9 : S64x256.Idx → EReal) (n : Fin 64) : Prop where
  h0 : ∀ (r : Fin 256) (l : Fin 1024), x0 (ix3 (0 : Fin 1) r l) = a0 (ix3 n r l)
  h1 : ∀ (r : Fin 256) (l : Fin 1024), x1 (ix3 (0 : Fin 1) r l) = a1 (ix3 n r l)
  h2 : ∀ c : Fin 64, x2 (ix2 c (0 : Fin 1)) = a2 (ix2 c (0 : Fin 1))
  h3 : ∀ c : Fin 64, x3 (ix2 c (0 : Fin 1)) = a3 (ix2 c (0 : Fin 1))
  h4 : ∀ (j : Fin 256) (c : Fin 64), x4 (ix2 j c) = a4 (ix2 j c)
  h5 : ∀ j : Fin 256, x5 (ix2 j (0 : Fin 1)) = a5 (ix2 j (0 : Fin 1))
  h6 : ∀ j : Fin 256, x6 (ix2 j (0 : Fin 1)) = a6 (ix2 j (0 : Fin 1))
  h7 : ∀ j : Fin 256, x7 (ix2 j (0 : Fin 1)) = a7 (ix2 j (0 : Fin 1))
  h8 : ∀ j : Fin 256, x8 (ix2 j (0 : Fin 1)) = a8 (ix2 j (0 : Fin 1))
  h9 : ∀ (o : Fin 64) (j : Fin 256), x9 (ix2 o j) = a9 (ix2 o j)

section Block
variable {x0 x1 : Vec Ideal S1x256x1024 .bf16} {x2 x3 : Vec Ideal S64x1 .f32} {x4 : Vec Ideal S256x64 .bf16}
  {x5 x6 x7 x8 : Vec Ideal S256x1 .f32} {x9 : Vec Ideal S64x256 .bf16}
  {a0 a1 : S64x256x1024.Idx → EReal} {a2 a3 : S64x1.Idx → EReal} {a4 : S256x64.Idx → EReal}
  {a5 a6 a7 a8 : S256x1.Idx → EReal} {a9 : S64x256.Idx → EReal} {n : Fin 64}

/-- The body's value before the second convolution is the specification's output entry. -/
theorem blk3_pay1 (hB : Blk3 x0 x1 x2 x3 x4 x5 x6 x7 x8 x9 a0 a1 a2 a3 a4 a5 a6 a7 a8 a9 n) (j : Fin 256) (L : Fin 4096) :
    Gen.k3_pay1 (Gen.k3_pay7 x0 x2 x3 x4 x5 x6 x8) x1 x7 (ix2 j L)
      = out3 a0 a1 a2 a3 a4 a5 a6 a7 a8 n j (ph3 L) (ps3 L) := by
  obtain ⟨p, l, rfl⟩ : ∃ p l, L = lane p l := ⟨ph3 L, ps3 L, (lane_ph3_ps3 L).symm⟩
  rw [ph3_lane, ps3_lane]
  have hb : Gen.k3_pay7 x0 x2 x3 x4 x5 x6 x8 (ix2 j (lane p l)) = base3 a0 a2 a3 a4 a5 a6 a8 n j p l := by
    rw [R3.pay7_apply]
    unfold base3 act3
    rw [hB.h5, hB.h6, hB.h8]
    refine congrArg (fun s => s * a5 (ix2 j (0 : Fin 1)) + a6 (ix2 j (0 : Fin 1)) + a8 (ix2 j (0 : Fin 1)))
      (Finset.sum_congr rfl fun c _ => ?_)
    rw [hB.h4, hB.h0, hB.h2, hB.h3]
  unfold out3
  by_cases hp : p.val = 0
  · obtain rfl : p = 0 := Fin.ext hp
    rw [if_pos hp, R3.pay1_apply_zero, hb, hB.h1, hB.h7]
  · rw [if_neg hp, R3.pay1_apply_pos _ _ _ j p hp l, hb]

/-- The second product's entry. -/
theorem blk3_pay3 (hB : Blk3 x0 x1 x2 x3 x4 x5 x6 x7 x8 x9 a0 a1 a2 a3 a4 a5 a6 a7 a8 a9 n) (o : Fin 64) (L : Fin 4096) :
    Gen.k3_pay3 (Gen.k3_pay7 x0 x2 x3 x4 x5 x6 x8) x1 x7 x9 (ix2 o L) = y11_3 a0 a1 a2 a3 a4 a5 a6 a7 a8 a9 n o L := by
  rw [R3.pay3_apply]
  unfold y11_3
  refine Finset.sum_congr rfl fun j _ => ?_
  rw [hB.h9, blk3_pay1 hB j L]

/-- What the body stores into window 10's block is the block of G3_10. -/
theorem blk3_10 (hB : Blk3 x0 x1 x2 x3 x4 x5 x6 x7 x8 x9 a0 a1 a2 a3 a4 a5 a6 a7 a8 a9 n) (u : Fin 1) (j : Fin 256) (L : Fin 4096) :
    Gen.k3_pay2 (Gen.k3_pay7 x0 x2 x3 x4 x5 x6 x8) x1 x7 (ix3 u j L) = G3_10 a0 a1 a2 a3 a4 a5 a6 a7 a8 (ix3 n j L) :=
  (R3.pay2_apply _ _ _ u j L).trans (blk3_pay1 hB j L)

/-- What the body stores into window 11's block is the block of G3_11. -/
theorem blk3_11 (hB : Blk3 x0 x1 x2 x3 x4 x5 x6 x7 x8 x9 a0 a1 a2 a3 a4 a5 a6 a7 a8 a9 n) (u : Fin 1) (o : Fin 64) (L : Fin 4096) :
    Gen.k3_pay4 (Gen.k3_pay7 x0 x2 x3 x4 x5 x6 x8) x1 x7 x9 (ix3 u o L) = G3_11 a0 a1 a2 a3 a4 a5 a6 a7 a8 a9 (ix3 n o L) :=
  (R3.pay4_apply _ _ _ _ u o L).trans (blk3_pay3 hB o L)

/-- What the body stores into window 12's block is the block of G3_12. -/
theorem blk3_12 (hB : Blk3 x0 x1 x2 x3 x4 x5 x6 x7 x8 x9 a0 a1 a2 a3 a4 a5 a6 a7 a8 a9 n) (u : Fin 1) (o : Fin 64) (q : Fin 1) :
    Gen.k3_pay5 (Gen.k3_pay7 x0 x2 x3 x4 x5 x6 x8) x1 x7 x9 (ix3 u o q) = G3_12 a0 a1 a2 a3 a4 a5 a6 a7 a8 a9 (ix3 n o q) :=
  (R3.pay5_apply _ _ _ _ u o q).trans (Finset.sum_congr rfl fun L _ => blk3_pay3 hB o L)

/-- What the body stores into window 13's block is the block of G3_13. -/
theorem blk3_13 (hB : Blk3 x0 x1 x2 x3 x4 x5 x6 x7 x8 x9 a0 a1 a2 a3 a4 a5 a6 a7 a8 a9 n) (u : Fin 1) (o : Fin 64) (q : Fin 1) :
    Gen.k3_pay6 (Gen.k3_pay7 x0 x2 x3 x4 x5 x6 x8) x1 x7 x9 (ix3 u o q) = G3_13 a0 a1 a2 a3 a4 a5 a6 a7 a8 a9 (ix3 n o q) :=
  (R3.pay6_apply _ _ _ _ u o q).trans (Finset.sum_congr rfl fun L _ => by rw [blk3_pay3 hB o L])

end Block

end Cert.KernelIdeal.Val

end
-- ==== Proof.KerV4a.lean ====
/- Layout and contraction lemmas for the 3×3 convolution region, over variables of the literal vector types:
   a column spread over the lanes, a slab padded by zero lanes, a lane window times a mask row, nine slabs stacked
   along the rows, the [64,576]·[576,4096] product into the zero accumulator, and a lane sum kept as a column —
   each read at an index at the ideal values. -/
import proofs.«159567_g2000302752657622_pallasbulk_725_3_alg».proof.Proof.Gen.KernelIdeal.Skeleton
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Val.K4

open Cert.KernelIdeal Cert.KernelIdeal.Gen
open Idealize.ShloMosaic Idealize.ShloMosaic.ValueIdx
open scoped BigOperators

/-- One [64,1] column spread over 4096 lanes reads, at (c, l), the column's entry of row c. -/
theorem bcastCol_apply {α : Type} (v : S64x1.Idx → α) (h : S64x1.Broadcasts S64x4096) (c : Fin 64) (l : Fin 4096) :
    broadcastTo S64x4096 v h (ix2 c l) = v (ix2 c (0 : Fin 1)) := by
  refine broadcastTo_apply v h (ix2 c l) (ix2 c (0 : Fin 1)) fun ax => ?_
  match ax with
  | ⟨0, _⟩ => rfl
  | ⟨1, _⟩ => rfl

/-- A [64,4096] slab between 128 zero lanes on each side: lane m of the padded row holds the slab's lane m − 128
    when 128 ≤ m < 4224, and 0 otherwise. -/
def zpad (z : Fin 64 → Fin 4096 → EReal) (c : Fin 64) (m : Fin 4352) : EReal :=
  if h : 128 ≤ m.val ∧ m.val < 4224 then z c ⟨m.val - 128, by omega⟩ else 0

/-- The three-piece concatenation along the lanes, zero slab / data / zero slab, read at (c, m). -/
theorem padLanes_apply (o : FVec Ideal S64x128 .bf16) (z : FVec Ideal S64x4096 .bf16) (ho : ∀ i, o i = 0)
    (h : Shape.Concatenates [S64x128, S64x4096, S64x128] S64x4352 1) (c : Fin 64) (m : Fin 4352) :
    concatenate S64x4352 1 [⟨S64x128, o⟩, ⟨S64x4096, z⟩, ⟨S64x128, o⟩] h (ix2 c m) = zpad (fun c l => z (ix2 c l)) c m := by
  unfold zpad
  by_cases h1 : m.val < 128
  · rw [dif_neg (by omega)]
    refine (concatenate_apply_piece (t := S64x4352) (1 : Fin 2) [⟨S64x128, o⟩, ⟨S64x4096, z⟩, ⟨S64x128, o⟩] h (ix2 c m) 0 (by show (0 : Nat) < 3; omega) S64x128 o rfl rfl 0 rfl (ix2 c ⟨m.val, h1⟩) ?_ ?_).trans (ho _)
    · intro b hb
      match b with
      | ⟨0, _⟩ => rfl
      | ⟨1, _⟩ => exact absurd rfl hb
    · exact Nat.zero_add _
  · by_cases h2 : m.val < 4224
    · rw [dif_pos ⟨by omega, h2⟩]
      refine concatenate_apply_piece (t := S64x4352) (1 : Fin 2) [⟨S64x128, o⟩, ⟨S64x4096, z⟩, ⟨S64x128, o⟩] h (ix2 c m) 1 (by show (1 : Nat) < 3; omega) S64x4096 z rfl rfl 128 rfl (ix2 c ⟨m.val - 128, by omega⟩) ?_ ?_
      · intro b hb
        match b with
        | ⟨0, _⟩ => rfl
        | ⟨1, _⟩ => exact absurd rfl hb
      · show 128 + (m.val - 128) = m.val
        omega
    · rw [dif_neg (by omega)]
      have hm : m.val < 4352 := m.isLt
      refine (concatenate_apply_piece (t := S64x4352) (1 : Fin 2) [⟨S64x128, o⟩, ⟨S64x4096, z⟩, ⟨S64x128, o⟩] h (ix2 c m) 2 (by show (2 : Nat) < 3; omega) S64x128 o rfl rfl 4224 rfl (ix2 c ⟨m.val - 4224, by omega⟩) ?_ ?_).trans (ho _)
      · intro b hb
        match b with
        | ⟨0, _⟩ => rfl
        | ⟨1, _⟩ => exact absurd rfl hb
      · show 4224 + (m.val - 4224) = m.val
        omega

/-- A lane window of the padded slab times one mask row spread over the channels, read at (c, l): the padded
    slab at lane off + l times the mask row's lane l. -/
theorem tap_apply (P : FVec Ideal S64x4352 .bf16) (Q : FVec Ideal S9x4096 .bf16) (off t : Nat)
    (h1 : S64x4352.Slices ![0, off] S64x4096) (h2 : S9x4096.Slices ![t, 0] S1x4096) (hb : S1x4096.Broadcasts S64x4096)
    (c : Fin 64) (l : Fin 4096) (m : Fin 4352) (hm : m.val = off + l.val) (tt : Fin 9) (ht : tt.val = t) :
    mulf (extractStridedSlice S64x4096 ![0, off] P h1) (broadcastTo S64x4096 (extractStridedSlice S1x4096 ![t, 0] Q h2) hb) (ix2 c l)
      = P (ix2 c m) * Q (ix2 tt l) := by
  rw [mulf_apply, slice2_axis1_apply off P h1 c l m hm, broadcastTo_1b_ab_apply _ hb c l,
    slice2_axis0_apply t Q h2 (0 : Fin 1) l tt (by rw [ht]; rfl)]

/-- Nine [64,4096] slabs stacked along the rows, read at row 64·t + c': slab t at row c'. -/
theorem stack9_apply (x0 x1 x2 x3 x4 x5 x6 x7 x8 : FVec Ideal S64x4096 .bf16)
    (h : Shape.Concatenates [S64x4096, S64x4096, S64x4096, S64x4096, S64x4096, S64x4096, S64x4096, S64x4096, S64x4096] S576x4096 0)
    (R : Fin 9 → Fin 64 → Fin 4096 → EReal)
    (e0 : ∀ c l, x0 (ix2 c l) = R 0 c l)
    (e1 : ∀ c l, x1 (ix2 c l) = R 1 c l)
    (e2 : ∀ c l, x2 (ix2 c l) = R 2 c l)
    (e3 : ∀ c l, x3 (ix2 c l) = R 3 c l)
    (e4 : ∀ c l, x4 (ix2 c l) = R 4 c l)
    (e5 : ∀ c l, x5 (ix2 c l) = R 5 c l)
    (e6 : ∀ c l, x6 (ix2 c l) = R 6 c l)
    (e7 : ∀ c l, x7 (ix2 c l) = R 7 c l)
    (e8 : ∀ c l, x8 (ix2 c l) = R 8 c l)
    (t : Fin 9) (c' : Fin 64) (l : Fin 4096) (k : Fin 576) (hk : k.val = 64 * t.val + c'.val) :
    concatenate S576x4096 0 [⟨S64x4096, x0⟩, ⟨S64x4096, x1⟩, ⟨S64x4096, x2⟩, ⟨S64x4096, x3⟩, ⟨S64x4096, x4⟩, ⟨S64x4096, x5⟩, ⟨S64x4096, x6⟩, ⟨S64x4096, x7⟩, ⟨S64x4096, x8⟩] h (ix2 k l) = R t c' l := by
  have piece : ∀ (T : Nat) (hT : T < 9) (x₁ : FVec Ideal S64x4096 .bf16)
      (hx : ([⟨S64x4096, x0⟩, ⟨S64x4096, x1⟩, ⟨S64x4096, x2⟩, ⟨S64x4096, x3⟩, ⟨S64x4096, x4⟩, ⟨S64x4096, x5⟩, ⟨S64x4096, x6⟩, ⟨S64x4096, x7⟩, ⟨S64x4096, x8⟩] : List ((s : Shape) × (s.Idx → EReal)))[T]'hT = ⟨S64x4096, x₁⟩)
      (hpre : (((([⟨S64x4096, x0⟩, ⟨S64x4096, x1⟩, ⟨S64x4096, x2⟩, ⟨S64x4096, x3⟩, ⟨S64x4096, x4⟩, ⟨S64x4096, x5⟩, ⟨S64x4096, x6⟩, ⟨S64x4096, x7⟩, ⟨S64x4096, x8⟩] : List ((s : Shape) × (s.Idx → EReal))).take T).map (·.1)).map
        (fun s => if h : s.rank = S576x4096.rank then s.size ((0 : Fin 2).cast h.symm) else 0)).sum = 64 * T)
      (hkT : k.val = 64 * T + c'.val),
      concatenate S576x4096 0 [⟨S64x4096, x0⟩, ⟨S64x4096, x1⟩, ⟨S64x4096, x2⟩, ⟨S64x4096, x3⟩, ⟨S64x4096, x4⟩, ⟨S64x4096, x5⟩, ⟨S64x4096, x6⟩, ⟨S64x4096, x7⟩, ⟨S64x4096, x8⟩] h (ix2 k l) = x₁ (ix2 c' l) := fun T hT x₁ hx hpre hkT =>
    concatenate_apply_piece (t := S576x4096) (0 : Fin 2) [⟨S64x4096, x0⟩, ⟨S64x4096, x1⟩, ⟨S64x4096, x2⟩, ⟨S64x4096, x3⟩, ⟨S64x4096, x4⟩, ⟨S64x4096, x5⟩, ⟨S64x4096, x6⟩, ⟨S64x4096, x7⟩, ⟨S64x4096, x8⟩] h (ix2 k l) T hT S64x4096 x₁ hx rfl (64 * T) hpre (ix2 c' l)
      (fun b hb => match b, hb with
        | ⟨0, _⟩, hb => absurd rfl hb
        | ⟨1, _⟩, _ => rfl)
      (by show 64 * T + c'.val = k.val; omega)
  match t, hk with
  | ⟨0, _⟩, hk => exact (piece 0 (by omega) x0 rfl rfl hk).trans (e0 c' l)
  | ⟨1, _⟩, hk => exact (piece 1 (by omega) x1 rfl rfl hk).trans (e1 c' l)
  | ⟨2, _⟩, hk => exact (piece 2 (by omega) x2 rfl rfl hk).trans (e2 c' l)
  | ⟨3, _⟩, hk => exact (piece 3 (by omega) x3 rfl rfl hk).trans (e3 c' l)
  | ⟨4, _⟩, hk => exact (piece 4 (by omega) x4 rfl rfl hk).trans (e4 c' l)
  | ⟨5, _⟩, hk => exact (piece 5 (by omega) x5 rfl rfl hk).trans (e5 c' l)
  | ⟨6, _⟩, hk => exact (piece 6 (by omega) x6 rfl rfl hk).trans (e6 c' l)
  | ⟨7, _⟩, hk => exact (piece 7 (by omega) x7 rfl rfl hk).trans (e7 c' l)
  | ⟨8, _⟩, hk => exact (piece 8 (by omega) x8 rfl rfl hk).trans (e8 c' l)

/-- The [64,576] by [576,4096] product into the zero accumulator, read at (c, l). -/
theorem matmul576_apply (A : FVec Ideal S64x576 .bf16) (B : FVec Ideal S576x4096 .bf16) (c : Fin 64) (l : Fin 4096) :
    matmul dot_S64x576_S576x4096_S64x4096_1_0_0_1_n_n none A B (constant (F := Ideal) S64x4096 .f32 0x00000000#32) (ix2 c l)
      = ∑ k : Fin 576, A (ix2 c k) * B (ix2 k l) := by
  refine (Ideal.matmul_constant_zero_apply dot_S64x576_S576x4096_S64x4096_1_0_0_1_n_n none A B (ix2 c l)).trans ?_
  rw [← Equiv.sum_comp (contrEquiv1 dot_S64x576_S576x4096_S64x4096_1_0_0_1_n_n 576 rfl rfl).symm]
  refine Finset.sum_congr rfl fun k _ => ?_
  have c2 := contrEquiv1_symm_val dot_S64x576_S576x4096_S64x4096_1_0_0_1_n_n 576 rfl rfl k
  have l2 : dot_S64x576_S576x4096_S64x4096_1_0_0_1_n_n.lhsIdx (ix2 c l)
      ((contrEquiv1 dot_S64x576_S576x4096_S64x4096_1_0_0_1_n_n 576 rfl rfl).symm k) = ix2 c k := by
    funext ax; apply Fin.ext
    match ax with
    | ⟨0, _⟩ => simp [DotDims.lhsIdx, dot_S64x576_S576x4096_S64x4096_1_0_0_1_n_n]; rfl
    | ⟨1, _⟩ => simp [DotDims.lhsIdx, dot_S64x576_S576x4096_S64x4096_1_0_0_1_n_n]; exact c2
  have r2 : dot_S64x576_S576x4096_S64x4096_1_0_0_1_n_n.rhsIdx (ix2 c l)
      ((contrEquiv1 dot_S64x576_S576x4096_S64x4096_1_0_0_1_n_n 576 rfl rfl).symm k) = ix2 k l := by
    funext ax; apply Fin.ext
    match ax with
    | ⟨0, _⟩ => simp [DotDims.rhsIdx, dot_S64x576_S576x4096_S64x4096_1_0_0_1_n_n]; exact c2
    | ⟨1, _⟩ => simp [DotDims.rhsIdx, dot_S64x576_S576x4096_S64x4096_1_0_0_1_n_n]; rfl
  rw [l2, r2]

/-- The lane sum of a [64,4096] slab kept as a [1,64,1] column, read at (u, c, w): the sum over the 4096 lanes of row c. -/
theorem laneSum_apply (Y : FVec Ideal S64x4096 .f32) (h : S64x4096.Reduces [1] S64) (hφ : FKind.Formats .f32)
    (hacc : (0x00000000#32 : BitVec 32) = FKind.add.neutral .f32 hφ) (h1 : S64.ShapeCasts S64x1) (h2 : S64x1.ShapeCasts S1x64x1)
    (u : Fin 1) (c : Fin 64) (w : Fin 1) :
    shapeCast S1x64x1 (shapeCast S64x1 (multiReduction .add [1] S64 Y 0x00000000#32 h hφ hacc) h1) h2 (ix3 u c w)
      = ∑ l : Fin 4096, Y (ix2 c l) := by
  refine (shapeCast_ab_1ab_apply _ h2 u c w).trans ?_
  refine (shapeCast_apply _ h1 (ix2 c w) (ix1 c) ?_).trans ?_
  · rw [Shape.rowMajor_val_one, Shape.rowMajor_val_two]
    show c.val = c.val * 1 + w.val
    omega
  refine (Ideal.multiReduction_add_single Y _ h hφ hacc (ix1 c)).trans ?_
  refine Finset.sum_congr rfl fun l _ => congrArg Y ?_
  funext a; apply Fin.ext
  match a with
  | ⟨0, _⟩ => rfl
  | ⟨1, _⟩ => rfl

end Cert.KernelIdeal.Val.K4

end
-- ==== Proof.KerV4b.lean ====
/- The body of the 3×3 convolution region read at an index, at the ideal values: what the first part stages
   (sin(x·scale + shift) padded by zero lanes; eight of the nine masked lane windows), the product of the stacked
   weights with the nine stacked windows, and the three stored values (the product, its row sums, the row sums of
   its square). -/
import proofs.«159567_g2000302752657622_pallasbulk_725_3_alg».proof.Proof.Gen.KernelIdeal.Skeleton
import proofs.«159567_g2000302752657622_pallasbulk_725_3_alg».proof.Proof.KerV4a
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Val.K4

open Cert.KernelIdeal Cert.KernelIdeal.Gen
open Idealize.ShloMosaic Idealize.ShloMosaic.ValueIdx
open scoped BigOperators

/-- Where each of the nine taps starts in the padded row: 128 + s for the lane shifts
    s = 65, 64, 63, 1, 0, −1, −63, −64, −65. -/
def off4 : Fin 9 → Nat := ![193, 192, 191, 129, 128, 127, 65, 64, 63]

theorem off4_le : ∀ t : Fin 9, off4 t + 4096 ≤ 4352 := by decide

/-- Tap t of a padded slab at (c', l): the padded row c' at lane off4 t + l, times the mask's row t at lane l. -/
def tapv (zp : Fin 64 → Fin 4352 → EReal) (mask : Fin 9 → Fin 4096 → EReal) (t : Fin 9) (c' : Fin 64) (l : Fin 4096) : EReal :=
  zp c' ⟨off4 t + l.val, by have := off4_le t; have := l.isLt; omega⟩ * mask t l

/-- The nine taps stacked along 576 rows: row k is tap k / 64 of channel k % 64. -/
def zs (zp : Fin 64 → Fin 4352 → EReal) (mask : Fin 9 → Fin 4096 → EReal) (k : Fin 576) (l : Fin 4096) : EReal :=
  tapv zp mask ⟨k.val / 64, by have := k.isLt; omega⟩ ⟨k.val % 64, Nat.mod_lt _ (by decide)⟩ l

/-- The 3×3 convolution as one product: y[c, l] = ∑ k, W[c, k] · zs[k, l]. -/
def conv4 (W : Fin 64 → Fin 576 → EReal) (zp : Fin 64 → Fin 4352 → EReal) (mask : Fin 9 → Fin 4096 → EReal)
    (c : Fin 64) (l : Fin 4096) : EReal :=
  ∑ k : Fin 576, W c k * zs zp mask k l

theorem conv4_congr {W W' : Fin 64 → Fin 576 → EReal} {zp zp' : Fin 64 → Fin 4352 → EReal} {mask mask' : Fin 9 → Fin 4096 → EReal}
    (hW : W = W') (hz : zp = zp') (hm : mask = mask') (c : Fin 64) (l : Fin 4096) :
    conv4 W zp mask c l = conv4 W' zp' mask' c l := by
  subst hW hz hm; rfl

end Cert.KernelIdeal.Val.K4

namespace Cert.KernelIdeal.Val

open Cert.KernelIdeal Cert.KernelIdeal.Gen
open Idealize.ShloMosaic Idealize.ShloMosaic.ValueIdx
open scoped BigOperators
open K4

/-- The padded slab the first part stages: sin(x·scale + shift) between 128 zero lanes on each side. -/
theorem pay4_5_apply (v0 : Vec Ideal S1x64x4096 .bf16) (v3 v7 : Vec Ideal S64x1 .f32) (c : Fin 64) (m : Fin 4352) :
    Gen.k4_pay5 v0 v3 v7 (ix2 c m)
      = zpad (fun c' l => Ideal.sin (v0 (ix3 (0 : Fin 1) c' l) * v3 (ix2 c' (0 : Fin 1)) + v7 (ix2 c' (0 : Fin 1)))) c m := by
  unfold Gen.k4_pay5
  refine (padLanes_apply _ _ (fun _ => Ideal.ofBits_zero_bf16) _ c m).trans ?_
  refine congrArg (fun f => zpad f c m) (funext fun c' => funext fun l => ?_)
  show Ideal.sin (shapeCast S64x4096 v0 _ (ix2 c' l) * broadcastTo S64x4096 (shapeCast S64x1 v3 _) _ (ix2 c' l)
    + broadcastTo S64x4096 (shapeCast S64x1 v7 _) _ (ix2 c' l)) = _
  rw [shapeCast_1ab_ab_apply, bcastCol_apply, bcastCol_apply, shapeCast_self, shapeCast_self]

/-- The mask window is staged as it is. -/
theorem pay4_6_apply (v15 : Vec Ideal S9x4096 .f32) (i : S9x4096.Idx) : Gen.k4_pay6 v15 i = v15 i := rfl

/-- Tap 0 as the first part stages it. -/
theorem pay4_7_apply (v0 : Vec Ideal S1x64x4096 .bf16) (v3 v7 : Vec Ideal S64x1 .f32) (v15 : Vec Ideal S9x4096 .f32)
    (c : Fin 64) (l : Fin 4096) :
    Gen.k4_pay7 v0 v3 v7 v15 (ix2 c l)
      = tapv (fun c m => Gen.k4_pay5 v0 v3 v7 (ix2 c m)) (fun t l => v15 (ix2 t l)) 0 c l := by
  unfold Gen.k4_pay7
  exact tap_apply (Gen.k4_pay5 v0 v3 v7) (Gen.k4_pay6 v15) 193 0 _ _ _ c l _ rfl 0 rfl

/-- Tap 1 as the first part stages it. -/
theorem pay4_8_apply (v0 : Vec Ideal S1x64x4096 .bf16) (v3 v7 : Vec Ideal S64x1 .f32) (v15 : Vec Ideal S9x4096 .f32)
    (c : Fin 64) (l : Fin 4096) :
    Gen.k4_pay8 v0 v3 v7 v15 (ix2 c l)
      = tapv (fun c m => Gen.k4_pay5 v0 v3 v7 (ix2 c m)) (fun t l => v15 (ix2 t l)) 1 c l := by
  unfold Gen.k4_pay8
  exact tap_apply (Gen.k4_pay5 v0 v3 v7) (Gen.k4_pay6 v15) 192 1 _ _ _ c l _ rfl 1 rfl

/-- Tap 2 as the first part stages it. -/
theorem pay4_9_apply (v0 : Vec Ideal S1x64x4096 .bf16) (v3 v7 : Vec Ideal S64x1 .f32) (v15 : Vec Ideal S9x4096 .f32)
    (c : Fin 64) (l : Fin 4096) :
    Gen.k4_pay9 v0 v3 v7 v15 (ix2 c l)
      = tapv (fun c m => Gen.k4_pay5 v0 v3 v7 (ix2 c m)) (fun t l => v15 (ix2 t l)) 2 c l := by
  unfold Gen.k4_pay9
  exact tap_apply (Gen.k4_pay5 v0 v3 v7) (Gen.k4_pay6 v15) 191 2 _ _ _ c l _ rfl 2 rfl

/-- Tap 3 as the first part stages it. -/
theorem pay4_10_apply (v0 : Vec Ideal S1x64x4096 .bf16) (v3 v7 : Vec Ideal S64x1 .f32) (v15 : Vec Ideal S9x4096 .f32)
    (c : Fin 64) (l : Fin 4096) :
    Gen.k4_pay10 v0 v3 v7 v15 (ix2 c l)
      = tapv (fun c m => Gen.k4_pay5 v0 v3 v7 (ix2 c m)) (fun t l => v15 (ix2 t l)) 3 c l := by
  unfold Gen.k4_pay10
  exact tap_apply (Gen.k4_pay5 v0 v3 v7) (Gen.k4_pay6 v15) 129 3 _ _ _ c l _ rfl 3 rfl

/-- Tap 4 as the first part stages it. -/
theorem pay4_11_apply (v0 : Vec Ideal S1x64x4096 .bf16) (v3 v7 : Vec Ideal S64x1 .f32) (v15 : Vec Ideal S9x4096 .f32)
    (c : Fin 64) (l : Fin 4096) :
    Gen.k4_pay11 v0 v3 v7 v15 (ix2 c l)
      = tapv (fun c m => Gen.k4_pay5 v0 v3 v7 (ix2 c m)) (fun t l => v15 (ix2 t l)) 4 c l := by
  unfold Gen.k4_pay11
  exact tap_apply (Gen.k4_pay5 v0 v3 v7) (Gen.k4_pay6 v15) 128 4 _ _ _ c l _ rfl 4 rfl

/-- Tap 5 as the first part stages it. -/
theorem pay4_12_apply (v0 : Vec Ideal S1x64x4096 .bf16) (v3 v7 : Vec Ideal S64x1 .f32) (v15 : Vec Ideal S9x4096 .f32)
    (c : Fin 64) (l : Fin 4096) :
    Gen.k4_pay12 v0 v3 v7 v15 (ix2 c l)
      = tapv (fun c m => Gen.k4_pay5 v0 v3 v7 (ix2 c m)) (fun t l => v15 (ix2 t l)) 5 c l := by
  unfold Gen.k4_pay12
  exact tap_apply (Gen.k4_pay5 v0 v3 v7) (Gen.k4_pay6 v15) 127 5 _ _ _ c l _ rfl 5 rfl

/-- Tap 6 as the first part stages it. -/
theorem pay4_13_apply (v0 : Vec Ideal S1x64x4096 .bf16) (v3 v7 : Vec Ideal S64x1 .f32) (v15 : Vec Ideal S9x4096 .f32)
    (c : Fin 64) (l : Fin 4096) :
    Gen.k4_pay13 v0 v3 v7 v15 (ix2 c l)
      = tapv (fun c m => Gen.k4_pay5 v0 v3 v7 (ix2 c m)) (fun t l => v15 (ix2 t l)) 6 c l := by
  unfold Gen.k4_pay13
  exact tap_apply (Gen.k4_pay5 v0 v3 v7) (Gen.k4_pay6 v15) 65 6 _ _ _ c l _ rfl 6 rfl

/-- Tap 7 as the first part stages it. -/
theorem pay4_14_apply (v0 : Vec Ideal S1x64x4096 .bf16) (v3 v7 : Vec Ideal S64x1 .f32) (v15 : Vec Ideal S9x4096 .f32)
    (c : Fin 64) (l : Fin 4096) :
    Gen.k4_pay14 v0 v3 v7 v15 (ix2 c l)
      = tapv (fun c m => Gen.k4_pay5 v0 v3 v7 (ix2 c m)) (fun t l => v15 (ix2 t l)) 7 c l := by
  unfold Gen.k4_pay14
  exact tap_apply (Gen.k4_pay5 v0 v3 v7) (Gen.k4_pay6 v15) 64 7 _ _ _ c l _ rfl 7 rfl

/-- The product the body forms, over whatever the first part staged: row c of the weights against the nine stacked
    slabs, the ninth tap (lane offset 63, mask row 8) formed in place. -/
theorem pay4_1_stack (v14 : FVec Ideal S64x4352 .bf16) (v16 : FVec Ideal S9x4096 .bf16) (v20 v24 v28 v32 v36 v40 v44 v48 : FVec Ideal S64x4096 .bf16)
    (v54 : Vec Ideal S64x576 .bf16)
    (R : Fin 9 → Fin 64 → Fin 4096 → EReal)
    (e0 : ∀ c l, v20 (ix2 c l) = R 0 c l)
    (e1 : ∀ c l, v24 (ix2 c l) = R 1 c l)
    (e2 : ∀ c l, v28 (ix2 c l) = R 2 c l)
    (e3 : ∀ c l, v32 (ix2 c l) = R 3 c l)
    (e4 : ∀ c l, v36 (ix2 c l) = R 4 c l)
    (e5 : ∀ c l, v40 (ix2 c l) = R 5 c l)
    (e6 : ∀ c l, v44 (ix2 c l) = R 6 c l)
    (e7 : ∀ c l, v48 (ix2 c l) = R 7 c l)
    (e8 : ∀ c l, v14 (ix2 c ⟨63 + l.val, by have := l.isLt; omega⟩) * v16 (ix2 (8 : Fin 9) l) = R 8 c l)
    (c : Fin 64) (l : Fin 4096) :
    Gen.k4_pay1 v14 v16 v20 v24 v28 v32 v36 v40 v44 v48 v54 (ix2 c l)
      = ∑ k : Fin 576, v54 (ix2 c k) * R ⟨k.val / 64, by have := k.isLt; omega⟩ ⟨k.val % 64, Nat.mod_lt _ (by decide)⟩ l := by
  unfold Gen.k4_pay1
  refine (matmul576_apply _ _ c l).trans ?_
  refine Finset.sum_congr rfl fun k _ => ?_
  rw [shapeCast_self]
  refine congrArg (v54 (ix2 c k) * ·) ?_
  refine stack9_apply _ _ _ _ _ _ _ _ _ _ R e0 e1 e2 e3 e4 e5 e6 e7
    (fun c l => (tap_apply v14 v16 63 8 _ _ _ c l _ rfl 8 rfl).trans (e8 c l))
    ⟨k.val / 64, by have := k.isLt; omega⟩ ⟨k.val % 64, Nat.mod_lt _ (by decide)⟩ l k ?_
  show k.val = 64 * (k.val / 64) + k.val % 64
  omega

/-- The convolution's output at (c, l) from the staged blocks: the weights' row c against the stacked taps of
    sin(x·scale + shift), zero-padded. -/
theorem pay4_1_apply (v0 : Vec Ideal S1x64x4096 .bf16) (v3 v7 : Vec Ideal S64x1 .f32) (v15 : Vec Ideal S9x4096 .f32)
    (v54 : Vec Ideal S64x576 .bf16) (c : Fin 64) (l : Fin 4096) :
    Gen.k4_pay1 (Gen.k4_pay5 v0 v3 v7) (Gen.k4_pay6 v15) (Gen.k4_pay7 v0 v3 v7 v15) (Gen.k4_pay8 v0 v3 v7 v15) (Gen.k4_pay9 v0 v3 v7 v15) (Gen.k4_pay10 v0 v3 v7 v15) (Gen.k4_pay11 v0 v3 v7 v15) (Gen.k4_pay12 v0 v3 v7 v15) (Gen.k4_pay13 v0 v3 v7 v15) (Gen.k4_pay14 v0 v3 v7 v15) v54 (ix2 c l)
      = conv4 (fun c k => v54 (ix2 c k))
          (zpad (fun c' l => Ideal.sin (v0 (ix3 (0 : Fin 1) c' l) * v3 (ix2 c' (0 : Fin 1)) + v7 (ix2 c' (0 : Fin 1)))))
          (fun t l => v15 (ix2 t l)) c l := by
  refine (pay4_1_stack _ _ _ _ _ _ _ _ _ _ v54
    (tapv (fun c m => Gen.k4_pay5 v0 v3 v7 (ix2 c m)) (fun t l => v15 (ix2 t l)))
    (pay4_7_apply v0 v3 v7 v15) (pay4_8_apply v0 v3 v7 v15) (pay4_9_apply v0 v3 v7 v15) (pay4_10_apply v0 v3 v7 v15)
    (pay4_11_apply v0 v3 v7 v15) (pay4_12_apply v0 v3 v7 v15) (pay4_13_apply v0 v3 v7 v15) (pay4_14_apply v0 v3 v7 v15)
    (fun c l => rfl) c l).trans ?_
  unfold conv4 zs
  refine Finset.sum_congr rfl fun k _ => congrArg (v54 (ix2 c k) * ·) ?_
  exact congrArg (fun zp => tapv zp (fun t l => v15 (ix2 t l)) _ _ l)
    (funext fun c' => funext fun m => pay4_5_apply v0 v3 v7 c' m)

/-- The stored output block is the product, rounded to bf16 (the identity here) and given a leading unit axis. -/
theorem pay4_2_apply (v14 : FVec Ideal S64x4352 .bf16) (v16 : FVec Ideal S9x4096 .bf16) (v20 v24 v28 v32 v36 v40 v44 v48 : FVec Ideal S64x4096 .bf16)
    (v54 : Vec Ideal S64x576 .bf16) (u : Fin 1) (c : Fin 64) (l : Fin 4096) :
    Gen.k4_pay2 v14 v16 v20 v24 v28 v32 v36 v40 v44 v48 v54 (ix3 u c l) = Gen.k4_pay1 v14 v16 v20 v24 v28 v32 v36 v40 v44 v48 v54 (ix2 c l) := by
  unfold Gen.k4_pay2
  exact shapeCast_ab_1ab_apply _ _ u c l

/-- The stored row sums. -/
theorem pay4_3_apply (v14 : FVec Ideal S64x4352 .bf16) (v16 : FVec Ideal S9x4096 .bf16) (v20 v24 v28 v32 v36 v40 v44 v48 : FVec Ideal S64x4096 .bf16)
    (v54 : Vec Ideal S64x576 .bf16) (u : Fin 1) (c : Fin 64) (w : Fin 1) :
    Gen.k4_pay3 v14 v16 v20 v24 v28 v32 v36 v40 v44 v48 v54 (ix3 u c w) = ∑ l : Fin 4096, Gen.k4_pay1 v14 v16 v20 v24 v28 v32 v36 v40 v44 v48 v54 (ix2 c l) := by
  unfold Gen.k4_pay3
  exact laneSum_apply _ _ _ _ _ _ u c w

/-- The stored row sums of squares. -/
theorem pay4_4_apply (v14 : FVec Ideal S64x4352 .bf16) (v16 : FVec Ideal S9x4096 .bf16) (v20 v24 v28 v32 v36 v40 v44 v48 : FVec Ideal S64x4096 .bf16)
    (v54 : Vec Ideal S64x576 .bf16) (u : Fin 1) (c : Fin 64) (w : Fin 1) :
    Gen.k4_pay4 v14 v16 v20 v24 v28 v32 v36 v40 v44 v48 v54 (ix3 u c w)
      = ∑ l : Fin 4096, Gen.k4_pay1 v14 v16 v20 v24 v28 v32 v36 v40 v44 v48 v54 (ix2 c l) * Gen.k4_pay1 v14 v16 v20 v24 v28 v32 v36 v40 v44 v48 v54 (ix2 c l) := by
  unfold Gen.k4_pay4
  exact laneSum_apply _ _ _ _ _ _ u c w

end Cert.KernelIdeal.Val

end
-- ==== Proof.KerV4.lean ====
/- The 3×3 convolution region as whole-array functions of its entry arrays, index by index: the output
   y = Wcat · zs (zs the nine masked lane shifts of the zero-padded sin(x·scale + shift)), and per image the row
   sums of y and of y·y; each point of the grid writes back its image's block, the blocks cover the arrays. -/
import proofs.«159567_g2000302752657622_pallasbulk_725_3_alg».proof.Proof.Gen.KernelIdeal.Frame
import proofs.«159567_g2000302752657622_pallasbulk_725_3_alg».proof.Proof.KerV4b
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators
open K4

variable (V : (c : Dev nD) → (b : Ref sig .tc) → Buf (Elt Ideal) ((c : Thread nD τ).loc b))

/-! ## The specification -/

/-- z[n, c, l] = sin(x[n, c, l] · scale[c] + shift[c]). -/
def z4 (a0 : S64x64x4096.Idx → EReal) (a1 a2 : S64x1.Idx → EReal) (n : Fin 64) (c : Fin 64) (l : Fin 4096) : EReal :=
  Ideal.sin (a0 (ix3 n c l) * a1 (ix2 c (0 : Fin 1)) + a2 (ix2 c (0 : Fin 1)))

/-- y[n, c, l] = ∑ k : Fin 576, W[c, k] · zs[k, l], where row k = 64·t + c' of zs is the zero-padded z[n, c', ·]
    at lane off4 t + l (that is 128 + shift_t + l) times mask[t, l]. -/
def y4 (a0 : S64x64x4096.Idx → EReal) (a1 a2 : S64x1.Idx → EReal) (a3 : S64x576.Idx → EReal) (a4 : S9x4096.Idx → EReal) (n c : Fin 64) (l : Fin 4096) : EReal :=
  conv4 (fun c k => a3 (ix2 c k)) (zpad (z4 a0 a1 a2 n)) (fun t l => a4 (ix2 t l)) c l

/-- The output array of the convolution. -/
def G4_5 (a0 : S64x64x4096.Idx → EReal) (a1 a2 : S64x1.Idx → EReal) (a3 : S64x576.Idx → EReal) (a4 : S9x4096.Idx → EReal) : S64x64x4096.Idx → EReal :=
  fun i => y4 a0 a1 a2 a3 a4 (i 0) (i 1) (i 2)

/-- The per-image row sums of y. -/
def G4_6 (a0 : S64x64x4096.Idx → EReal) (a1 a2 : S64x1.Idx → EReal) (a3 : S64x576.Idx → EReal) (a4 : S9x4096.Idx → EReal) : S64x64x1.Idx → EReal :=
  fun i => ∑ l : Fin 4096, y4 a0 a1 a2 a3 a4 (i 0) (i 1) l

/-- The per-image row sums of y·y. -/
def G4_7 (a0 : S64x64x4096.Idx → EReal) (a1 a2 : S64x1.Idx → EReal) (a3 : S64x576.Idx → EReal) (a4 : S9x4096.Idx → EReal) : S64x64x1.Idx → EReal :=
  fun i => ∑ l : Fin 4096, y4 a0 a1 a2 a3 a4 (i 0) (i 1) l * y4 a0 a1 a2 a3 a4 (i 0) (i 1) l

/-! ## Which array each window is -/

theorem arrRef4_0 : Pipeline.arrRef spec4 0 = main_v161 := rfl
theorem arrRef4_1 : Pipeline.arrRef spec4 1 = main_v152 := rfl
theorem arrRef4_2 : Pipeline.arrRef spec4 2 = main_v155 := rfl
theorem arrRef4_3 : Pipeline.arrRef spec4 3 = main_v63 := rfl
theorem arrRef4_4 : Pipeline.arrRef spec4 4 = main_arg17 := rfl
theorem arrRef4_5 : Pipeline.arrRef spec4 5 = main_v162_0 := rfl
theorem arrRef4_6 : Pipeline.arrRef spec4 6 = main_v162_1 := rfl
theorem arrRef4_7 : Pipeline.arrRef spec4 7 = main_v162_2 := rfl

/-! ## The blocks -/

theorem hz4_3 : (![0, 0, 0] : Fin 3 → Nat) = fun _ => 0 := funext fun a => by fin_cases a <;> rfl
theorem hz4_2 : (![0, 0] : Fin 2 → Nat) = fun _ => 0 := funext fun a => by fin_cases a <;> rfl

/-- The index maps over the grid: the image windows move with the point, the parameter windows stay at block 0. -/
theorem idx4 : ∀ t : Fin cfg4.N,
    (win4_0.index t (0 : Fin 3) = t.val ∧ win4_0.index t (1 : Fin 3) = 0 ∧ win4_0.index t (2 : Fin 3) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 3) = t.val ∧ win4_5.index t (1 : Fin 3) = 0 ∧ win4_5.index t (2 : Fin 3) = 0)
    ∧ (win4_6.index t (0 : Fin 3) = t.val ∧ win4_6.index t (1 : Fin 3) = 0 ∧ win4_6.index t (2 : Fin 3) = 0)
    ∧ (win4_7.index t (0 : Fin 3) = t.val ∧ win4_7.index t (1 : Fin 3) = 0 ∧ win4_7.index t (2 : Fin 3) = 0) :=
  (by decide +kernel : ∀ t : Fin grid4.N, _)

/-- Image window: block t of x is image t. -/
theorem iblk4_0_apply (c : Dev nD) (t : Fin cfg4.N) (u : Fin 1) (p : Fin 64) (q : Fin 4096) (n : Fin 64) (hn : n.val = t.val) :
    Gen.iblk4 V c 0 t (ix3 u p q) = (V c (Pipeline.arrRef spec4 0)) (ix3 n p q) := by
  obtain ⟨⟨e0, e1, e2⟩, -⟩ := idx4 t
  unfold Gen.iblk4
  rw [View.read_apply]
  refine congrArg (V c (Pipeline.arrRef spec4 0)) (funext fun a => Fin.ext ?_)
  match a with
  | ⟨0, _⟩ => show win4_0.index t (0 : Fin 3) * 1 + 1 * u.val = n.val; rw [e0, hn]; omega
  | ⟨1, _⟩ => show win4_0.index t (1 : Fin 3) * 64 + 1 * p.val = p.val; rw [e1]; omega
  | ⟨2, _⟩ => show win4_0.index t (2 : Fin 3) * 4096 + 1 * q.val = q.val; rw [e2]; omega

/-- Scale window: the whole column at every point. -/
theorem iblk4_1_apply (c : Dev nD) (t : Fin cfg4.N) (p : Fin 64) (q : Fin 1) :
    Gen.iblk4 V c 1 t (ix2 p q) = (V c (Pipeline.arrRef spec4 1)) (ix2 p q) := by
  obtain ⟨-, ⟨e0, e1⟩, -⟩ := idx4 t
  unfold Gen.iblk4
  rw [View.read_apply]
  refine congrArg (V c (Pipeline.arrRef spec4 1)) (funext fun a => Fin.ext ?_)
  match a with
  | ⟨0, _⟩ => show win4_1.index t (0 : Fin 2) * 64 + 1 * p.val = p.val; rw [e0]; omega
  | ⟨1, _⟩ => show win4_1.index t (1 : Fin 2) * 1 + 1 * q.val = q.val; rw [e1]; omega

/-- Shift window: the whole column at every point. -/
theorem iblk4_2_apply (c : Dev nD) (t : Fin cfg4.N) (p : Fin 64) (q : Fin 1) :
    Gen.iblk4 V c 2 t (ix2 p q) = (V c (Pipeline.arrRef spec4 2)) (ix2 p q) := by
  obtain ⟨-, -, ⟨e0, e1⟩, -⟩ := idx4 t
  unfold Gen.iblk4
  rw [View.read_apply]
  refine congrArg (V c (Pipeline.arrRef spec4 2)) (funext fun a => Fin.ext ?_)
  match a with
  | ⟨0, _⟩ => show win4_2.index t (0 : Fin 2) * 64 + 1 * p.val = p.val; rw [e0]; omega
  | ⟨1, _⟩ => show win4_2.index t (1 : Fin 2) * 1 + 1 * q.val = q.val; rw [e1]; omega

/-- Weight window: the whole [64,576] matrix at every point. -/
theorem iblk4_3_apply (c : Dev nD) (t : Fin cfg4.N) (p : Fin 64) (q : Fin 576) :
    Gen.iblk4 V c 3 t (ix2 p q) = (V c (Pipeline.arrRef spec4 3)) (ix2 p q) := by
  obtain ⟨-, -, -, ⟨e0, e1⟩, -⟩ := idx4 t
  unfold Gen.iblk4
  rw [View.read_apply]
  refine congrArg (V c (Pipeline.arrRef spec4 3)) (funext fun a => Fin.ext ?_)
  match a with
  | ⟨0, _⟩ => show win4_3.index t (0 : Fin 2) * 64 + 1 * p.val = p.val; rw [e0]; omega
  | ⟨1, _⟩ => show win4_3.index t (1 : Fin 2) * 576 + 1 * q.val = q.val; rw [e1]; omega

/-- Mask window: the whole [9,4096] table at every point. -/
theorem iblk4_4_apply (c : Dev nD) (t : Fin cfg4.N) (p : Fin 9) (q : Fin 4096) :
    Gen.iblk4 V c 4 t (ix2 p q) = (V c (Pipeline.arrRef spec4 4)) (ix2 p q) := by
  obtain ⟨-, -, -, -, ⟨e0, e1⟩, -⟩ := idx4 t
  unfold Gen.iblk4
  rw [View.read_apply]
  refine congrArg (V c (Pipeline.arrRef spec4 4)) (funext fun a => Fin.ext ?_)
  match a with
  | ⟨0, _⟩ => show win4_4.index t (0 : Fin 2) * 9 + 1 * p.val = p.val; rw [e0]; omega
  | ⟨1, _⟩ => show win4_4.index t (1 : Fin 2) * 4096 + 1 * q.val = q.val; rw [e1]; omega

/-! ## What one point writes back -/

theorem y4_congr (a0 : S64x64x4096.Idx → EReal) (a1 a2 : S64x1.Idx → EReal) (a3 : S64x576.Idx → EReal) (a4 : S9x4096.Idx → EReal) {n n' c c' : Fin 64} {l l' : Fin 4096}
    (hn : n = n') (hc : c = c') (hl : l = l') : y4 a0 a1 a2 a3 a4 n c l = y4 a0 a1 a2 a3 a4 n' c' l' := by
  subst hn hc hl; rfl

theorem mul_self_congr4 {x y : EReal} (h : x = y) : x * x = y * y := by rw [h]

/-- The product over the staged blocks of point t is y of image t of the entry arrays. -/
theorem pay4_1_blocks (c : Dev nD) (t : Fin cfg4.N) (n : Fin 64) (hn : n.val = t.val) (p : Fin 64) (q : Fin 4096) :
    Gen.k4_pay1 (Gen.k4_pay5 (Gen.iblk4 V c 0 t) (Gen.iblk4 V c 1 t) (Gen.iblk4 V c 2 t)) (Gen.k4_pay6 (Gen.iblk4 V c 4 t))
      (Gen.k4_pay7 (Gen.iblk4 V c 0 t) (Gen.iblk4 V c 1 t) (Gen.iblk4 V c 2 t) (Gen.iblk4 V c 4 t)) (Gen.k4_pay8 (Gen.iblk4 V c 0 t) (Gen.iblk4 V c 1 t) (Gen.iblk4 V c 2 t) (Gen.iblk4 V c 4 t)) (Gen.k4_pay9 (Gen.iblk4 V c 0 t) (Gen.iblk4 V c 1 t) (Gen.iblk4 V c 2 t) (Gen.iblk4 V c 4 t)) (Gen.k4_pay10 (Gen.iblk4 V c 0 t) (Gen.iblk4 V c 1 t) (Gen.iblk4 V c 2 t) (Gen.iblk4 V c 4 t))
      (Gen.k4_pay11 (Gen.iblk4 V c 0 t) (Gen.iblk4 V c 1 t) (Gen.iblk4 V c 2 t) (Gen.iblk4 V c 4 t)) (Gen.k4_pay12 (Gen.iblk4 V c 0 t) (Gen.iblk4 V c 1 t) (Gen.iblk4 V c 2 t) (Gen.iblk4 V c 4 t)) (Gen.k4_pay13 (Gen.iblk4 V c 0 t) (Gen.iblk4 V c 1 t) (Gen.iblk4 V c 2 t) (Gen.iblk4 V c 4 t)) (Gen.k4_pay14 (Gen.iblk4 V c 0 t) (Gen.iblk4 V c 1 t) (Gen.iblk4 V c 2 t) (Gen.iblk4 V c 4 t))
      (Gen.iblk4 V c 3 t) (ix2 p q)
      = y4 (V c (Pipeline.arrRef spec4 0)) (V c (Pipeline.arrRef spec4 1)) (V c (Pipeline.arrRef spec4 2)) (V c (Pipeline.arrRef spec4 3)) (V c (Pipeline.arrRef spec4 4)) n p q := by
  refine (pay4_1_apply (Gen.iblk4 V c 0 t) (Gen.iblk4 V c 1 t) (Gen.iblk4 V c 2 t) (Gen.iblk4 V c 4 t) (Gen.iblk4 V c 3 t) p q).trans ?_
  unfold y4
  refine conv4_congr (funext fun c' => funext fun k => iblk4_3_apply V c t c' k)
    (congrArg zpad (funext fun c' => funext fun l => ?_))
    (funext fun t' => funext fun l => iblk4_4_apply V c t t' l) p q
  unfold z4
  rw [iblk4_0_apply V c t 0 c' l n hn, iblk4_1_apply V c t c' 0, iblk4_2_apply V c t c' 0]

/-- What the body leaves in each output block: its one whole-block store's value over the loaded blocks. -/
theorem out4_5_eq (x0 : Vec Ideal S1x64x4096 .bf16) (x1 x2 : Vec Ideal S64x1 .f32) (x3 : Vec Ideal S64x576 .bf16) (x4 : Vec Ideal S9x4096 .f32) :
    Gen.out4_5 x0 x1 x2 x3 x4 = Gen.k4_pay2 (Gen.k4_pay5 x0 x1 x2) (Gen.k4_pay6 x4) (Gen.k4_pay7 x0 x1 x2 x4) (Gen.k4_pay8 x0 x1 x2 x4) (Gen.k4_pay9 x0 x1 x2 x4) (Gen.k4_pay10 x0 x1 x2 x4) (Gen.k4_pay11 x0 x1 x2 x4) (Gen.k4_pay12 x0 x1 x2 x4) (Gen.k4_pay13 x0 x1 x2 x4) (Gen.k4_pay14 x0 x1 x2 x4) x3 := by
  unfold Gen.out4_5
  rw [View.canon_unit_zero hz4_3]
  simp only [View.ld_unit_zero (S := S1x64x4096) hz4_3, View.ld_unit_zero (S := S64x1) hz4_2,
    View.ld_unit_zero (S := S9x4096) hz4_2, View.ld_unit_zero (S := S64x576) hz4_2]

theorem out4_6_eq (x0 : Vec Ideal S1x64x4096 .bf16) (x1 x2 : Vec Ideal S64x1 .f32) (x3 : Vec Ideal S64x576 .bf16) (x4 : Vec Ideal S9x4096 .f32) :
    Gen.out4_6 x0 x1 x2 x3 x4 = Gen.k4_pay3 (Gen.k4_pay5 x0 x1 x2) (Gen.k4_pay6 x4) (Gen.k4_pay7 x0 x1 x2 x4) (Gen.k4_pay8 x0 x1 x2 x4) (Gen.k4_pay9 x0 x1 x2 x4) (Gen.k4_pay10 x0 x1 x2 x4) (Gen.k4_pay11 x0 x1 x2 x4) (Gen.k4_pay12 x0 x1 x2 x4) (Gen.k4_pay13 x0 x1 x2 x4) (Gen.k4_pay14 x0 x1 x2 x4) x3 := by
  unfold Gen.out4_6
  rw [View.canon_unit_zero hz4_3]
  simp only [View.ld_unit_zero (S := S1x64x4096) hz4_3, View.ld_unit_zero (S := S64x1) hz4_2,
    View.ld_unit_zero (S := S9x4096) hz4_2, View.ld_unit_zero (S := S64x576) hz4_2]

theorem out4_7_eq (x0 : Vec Ideal S1x64x4096 .bf16) (x1 x2 : Vec Ideal S64x1 .f32) (x3 : Vec Ideal S64x576 .bf16) (x4 : Vec Ideal S9x4096 .f32) :
    Gen.out4_7 x0 x1 x2 x3 x4 = Gen.k4_pay4 (Gen.k4_pay5 x0 x1 x2) (Gen.k4_pay6 x4) (Gen.k4_pay7 x0 x1 x2 x4) (Gen.k4_pay8 x0 x1 x2 x4) (Gen.k4_pay9 x0 x1 x2 x4) (Gen.k4_pay10 x0 x1 x2 x4) (Gen.k4_pay11 x0 x1 x2 x4) (Gen.k4_pay12 x0 x1 x2 x4) (Gen.k4_pay13 x0 x1 x2 x4) (Gen.k4_pay14 x0 x1 x2 x4) x3 := by
  unfold Gen.out4_7
  rw [View.canon_unit_zero hz4_3]
  simp only [View.ld_unit_zero (S := S1x64x4096) hz4_3, View.ld_unit_zero (S := S64x1) hz4_2,
    View.ld_unit_zero (S := S9x4096) hz4_2, View.ld_unit_zero (S := S64x576) hz4_2]

/-- Point t writes back block t of the convolution's output. -/
theorem flushed4_5_eq (c : Dev nD) (t : Fin cfg4.N) :
    (Gen.dat4 V c).flushed 5 t = ((cfg4.win 5).blk t).view.read (Elt Ideal) (G4_5 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((Gen.dat4 V c).after 5 t) = _
  rw [Gen.after4_5, out4_5_eq]
  have hN : cfg4.N = 64 := N_4
  have htl : t.val < 64 := by have := t.isLt; omega
  obtain ⟨-, -, -, -, -, ⟨e0, e1, e2⟩, -⟩ := idx4 t
  funext j
  obtain ⟨u, p, q, rfl⟩ : ∃ (u : Fin 1) (p : Fin 64) (q : Fin 4096), j = ix3 u p q := ⟨j 0, j 1, j 2, eq_ix3 j⟩
  refine (pay4_2_apply _ _ _ _ _ _ _ _ _ _ _ u p q).trans ?_
  refine (pay4_1_blocks V c t ⟨t.val, htl⟩ rfl p q).trans ?_
  rw [View.read_apply]
  unfold G4_5
  refine y4_congr _ _ _ _ _ (Fin.ext ?_) (Fin.ext ?_) (Fin.ext ?_)
  · show t.val = win4_5.index t (0 : Fin 3) * 1 + 1 * u.val
    rw [e0]; omega
  · show p.val = win4_5.index t (1 : Fin 3) * 64 + 1 * p.val
    rw [e1]; omega
  · show q.val = win4_5.index t (2 : Fin 3) * 4096 + 1 * q.val
    rw [e2]; omega

/-- Point t writes back block t of the row sums. -/
theorem flushed4_6_eq (c : Dev nD) (t : Fin cfg4.N) :
    (Gen.dat4 V c).flushed 6 t = ((cfg4.win 6).blk t).view.read (Elt Ideal) (G4_6 (V c (Pipeline.arrRef spec4 0)) (V c (Pipeline.arrRef spec4 1)) (V c (Pipeline.arrRef spec4 2)) (V c (Pipeline.arrRef spec4 3)) (V c (Pipeline.arrRef spec4 4))) := by
  show (cfg4.win 6).cut (grid4.coords t) ((Gen.dat4 V c).after 6 t) = _
  rw [Gen.after4_6, out4_6_eq]
  have hN : cfg4.N = 64 := N_4
  have htl : t.val < 64 := by have := t.isLt; omega
  obtain ⟨-, -, -, -, -, -, ⟨e0, e1, e2⟩, -⟩ := idx4 t
  funext j
  obtain ⟨u, p, w, rfl⟩ : ∃ (u : Fin 1) (p : Fin 64) (w : Fin 1), j = ix3 u p w := ⟨j 0, j 1, j 2, eq_ix3 j⟩
  refine (pay4_3_apply _ _ _ _ _ _ _ _ _ _ _ u p w).trans ?_
  rw [View.read_apply]
  unfold G4_6
  refine Finset.sum_congr rfl fun l _ => ?_
  refine (pay4_1_blocks V c t ⟨t.val, htl⟩ rfl p l).trans ?_
  refine y4_congr _ _ _ _ _ (Fin.ext ?_) (Fin.ext ?_) rfl
  · show t.val = win4_6.index t (0 : Fin 3) * 1 + 1 * u.val
    rw [e0]; omega
  · show p.val = win4_6.index t (1 : Fin 3) * 64 + 1 * p.val
    rw [e1]; omega

/-- Point t writes back block t of the row sums of squares. -/
theorem flushed4_7_eq (c : Dev nD) (t : Fin cfg4.N) :
    (Gen.dat4 V c).flushed 7 t = ((cfg4.win 7).blk t).view.read (Elt Ideal) (G4_7 (V c (Pipeline.arrRef spec4 0)) (V c (Pipeline.arrRef spec4 1)) (V c (Pipeline.arrRef spec4 2)) (V c (Pipeline.arrRef spec4 3)) (V c (Pipeline.arrRef spec4 4))) := by
  show (cfg4.win 7).cut (grid4.coords t) ((Gen.dat4 V c).after 7 t) = _
  rw [Gen.after4_7, out4_7_eq]
  have hN : cfg4.N = 64 := N_4
  have htl : t.val < 64 := by have := t.isLt; omega
  obtain ⟨-, -, -, -, -, -, -, ⟨e0, e1, e2⟩⟩ := idx4 t
  funext j
  obtain ⟨u, p, w, rfl⟩ : ∃ (u : Fin 1) (p : Fin 64) (w : Fin 1), j = ix3 u p w := ⟨j 0, j 1, j 2, eq_ix3 j⟩
  refine (pay4_4_apply _ _ _ _ _ _ _ _ _ _ _ u p w).trans ?_
  rw [View.read_apply]
  unfold G4_7
  refine Finset.sum_congr rfl fun l _ => ?_
  refine mul_self_congr4 ((pay4_1_blocks V c t ⟨t.val, htl⟩ rfl p l).trans ?_)
  refine y4_congr _ _ _ _ _ (Fin.ext ?_) (Fin.ext ?_) rfl
  · show t.val = win4_7.index t (0 : Fin 3) * 1 + 1 * u.val
    rw [e0]; omega
  · show p.val = win4_7.index t (1 : Fin 3) * 64 + 1 * p.val
    rw [e1]; omega

/-! ## From the blocks to the arrays -/

/-- An index of the array is in point t's block iff each coordinate is in the block's range on its axis. -/
theorem mem_blk4_5 (t : Fin cfg4.N) (i : S64x64x4096.Idx) :
    i ∈ ((cfg4.win 5).blk t).view.set ↔ ∀ a : Fin 3, win4_5.index t a * S1x64x4096.size a ≤ (i a).val
      ∧ (i a).val < win4_5.index t a * S1x64x4096.size a + S1x64x4096.size a := by
  show i ∈ ((View.whole main_v162_0).slice (win4_5.rect t)).set ↔ _
  rw [View.set_slice_whole, Rect.mem_set_unit]
  exact Iff.rfl

/-- Every index of the array is in the block of the point its image coordinate names. -/
theorem covered4_5 (i : S64x64x4096.Idx) :
    ∃ t : Fin cfg4.N, (cfg4.win 5).flush t = true ∧ i ∈ ((cfg4.win 5).blk t).view.set := by
  have hN : cfg4.N = 64 := N_4
  have h0 : (i 0).val < 64 := (i 0).isLt
  have h1 : (i 1).val < 64 := (i 1).isLt
  have h2 : (i 2).val < 4096 := (i 2).isLt
  obtain ⟨t, ht⟩ : ∃ t : Fin cfg4.N, t.val = (i 0).val := ⟨⟨(i 0).val, by omega⟩, rfl⟩
  obtain ⟨-, -, -, -, -, ⟨e0, e1, e2⟩, -⟩ := idx4 t
  refine ⟨t, Gen.flush4_5 t, ?_⟩
  rw [mem_blk4_5]
  intro a
  match a with
  | ⟨0, _⟩ =>
    show win4_5.index t (0 : Fin 3) * 1 ≤ (i 0).val ∧ (i 0).val < win4_5.index t (0 : Fin 3) * 1 + 1
    rw [e0]; omega
  | ⟨1, _⟩ =>
    show win4_5.index t (1 : Fin 3) * 64 ≤ (i 1).val ∧ (i 1).val < win4_5.index t (1 : Fin 3) * 64 + 64
    rw [e1]; omega
  | ⟨2, _⟩ =>
    show win4_5.index t (2 : Fin 3) * 4096 ≤ (i 2).val ∧ (i 2).val < win4_5.index t (2 : Fin 3) * 4096 + 4096
    rw [e2]; omega

/-- The array the region leaves in window 5. -/
theorem final4_5 (c : Dev nD) : (Gen.dat4 V c).arrAt 5 cfg4.N = G4_5 (V c (Pipeline.arrRef spec4 0)) (V c (Pipeline.arrRef spec4 1)) (V c (Pipeline.arrRef spec4 2)) (V c (Pipeline.arrRef spec4 3)) (V c (Pipeline.arrRef spec4 4)) :=
  (Gen.dat4 V c).arrAt_eq_of_cover 5 (G4_5 (V c (Pipeline.arrRef spec4 0)) (V c (Pipeline.arrRef spec4 1)) (V c (Pipeline.arrRef spec4 2)) (V c (Pipeline.arrRef spec4 3)) (V c (Pipeline.arrRef spec4 4))) (fun t _ => flushed4_5_eq V c t) covered4_5

/-- An index of the array is in point t's block iff each coordinate is in the block's range on its axis. -/
theorem mem_blk4_6 (t : Fin cfg4.N) (i : S64x64x1.Idx) :
    i ∈ ((cfg4.win 6).blk t).view.set ↔ ∀ a : Fin 3, win4_6.index t a * S1x64x1.size a ≤ (i a).val
      ∧ (i a).val < win4_6.index t a * S1x64x1.size a + S1x64x1.size a := by
  show i ∈ ((View.whole main_v162_1).slice (win4_6.rect t)).set ↔ _
  rw [View.set_slice_whole, Rect.mem_set_unit]
  exact Iff.rfl

/-- Every index of the array is in the block of the point its image coordinate names. -/
theorem covered4_6 (i : S64x64x1.Idx) :
    ∃ t : Fin cfg4.N, (cfg4.win 6).flush t = true ∧ i ∈ ((cfg4.win 6).blk t).view.set := by
  have hN : cfg4.N = 64 := N_4
  have h0 : (i 0).val < 64 := (i 0).isLt
  have h1 : (i 1).val < 64 := (i 1).isLt
  have h2 : (i 2).val < 1 := (i 2).isLt
  obtain ⟨t, ht⟩ : ∃ t : Fin cfg4.N, t.val = (i 0).val := ⟨⟨(i 0).val, by omega⟩, rfl⟩
  obtain ⟨-, -, -, -, -, -, ⟨e0, e1, e2⟩, -⟩ := idx4 t
  refine ⟨t, Gen.flush4_6 t, ?_⟩
  rw [mem_blk4_6]
  intro a
  match a with
  | ⟨0, _⟩ =>
    show win4_6.index t (0 : Fin 3) * 1 ≤ (i 0).val ∧ (i 0).val < win4_6.index t (0 : Fin 3) * 1 + 1
    rw [e0]; omega
  | ⟨1, _⟩ =>
    show win4_6.index t (1 : Fin 3) * 64 ≤ (i 1).val ∧ (i 1).val < win4_6.index t (1 : Fin 3) * 64 + 64
    rw [e1]; omega
  | ⟨2, _⟩ =>
    show win4_6.index t (2 : Fin 3) * 1 ≤ (i 2).val ∧ (i 2).val < win4_6.index t (2 : Fin 3) * 1 + 1
    rw [e2]; omega

/-- The array the region leaves in window 6. -/
theorem final4_6 (c : Dev nD) : (Gen.dat4 V c).arrAt 6 cfg4.N = G4_6 (V c (Pipeline.arrRef spec4 0)) (V c (Pipeline.arrRef spec4 1)) (V c (Pipeline.arrRef spec4 2)) (V c (Pipeline.arrRef spec4 3)) (V c (Pipeline.arrRef spec4 4)) :=
  (Gen.dat4 V c).arrAt_eq_of_cover 6 (G4_6 (V c (Pipeline.arrRef spec4 0)) (V c (Pipeline.arrRef spec4 1)) (V c (Pipeline.arrRef spec4 2)) (V c (Pipeline.arrRef spec4 3)) (V c (Pipeline.arrRef spec4 4))) (fun t _ => flushed4_6_eq V c t) covered4_6

/-- An index of the array is in point t's block iff each coordinate is in the block's range on its axis. -/
theorem mem_blk4_7 (t : Fin cfg4.N) (i : S64x64x1.Idx) :
    i ∈ ((cfg4.win 7).blk t).view.set ↔ ∀ a : Fin 3, win4_7.index t a * S1x64x1.size a ≤ (i a).val
      ∧ (i a).val < win4_7.index t a * S1x64x1.size a + S1x64x1.size a := by
  show i ∈ ((View.whole main_v162_2).slice (win4_7.rect t)).set ↔ _
  rw [View.set_slice_whole, Rect.mem_set_unit]
  exact Iff.rfl

/-- Every index of the array is in the block of the point its image coordinate names. -/
theorem covered4_7 (i : S64x64x1.Idx) :
    ∃ t : Fin cfg4.N, (cfg4.win 7).flush t = true ∧ i ∈ ((cfg4.win 7).blk t).view.set := by
  have hN : cfg4.N = 64 := N_4
  have h0 : (i 0).val < 64 := (i 0).isLt
  have h1 : (i 1).val < 64 := (i 1).isLt
  have h2 : (i 2).val < 1 := (i 2).isLt
  obtain ⟨t, ht⟩ : ∃ t : Fin cfg4.N, t.val = (i 0).val := ⟨⟨(i 0).val, by omega⟩, rfl⟩
  obtain ⟨-, -, -, -, -, -, -, ⟨e0, e1, e2⟩⟩ := idx4 t
  refine ⟨t, Gen.flush4_7 t, ?_⟩
  rw [mem_blk4_7]
  intro a
  match a with
  | ⟨0, _⟩ =>
    show win4_7.index t (0 : Fin 3) * 1 ≤ (i 0).val ∧ (i 0).val < win4_7.index t (0 : Fin 3) * 1 + 1
    rw [e0]; omega
  | ⟨1, _⟩ =>
    show win4_7.index t (1 : Fin 3) * 64 ≤ (i 1).val ∧ (i 1).val < win4_7.index t (1 : Fin 3) * 64 + 64
    rw [e1]; omega
  | ⟨2, _⟩ =>
    show win4_7.index t (2 : Fin 3) * 1 ≤ (i 2).val ∧ (i 2).val < win4_7.index t (2 : Fin 3) * 1 + 1
    rw [e2]; omega

/-- The array the region leaves in window 7. -/
theorem final4_7 (c : Dev nD) : (Gen.dat4 V c).arrAt 7 cfg4.N = G4_7 (V c (Pipeline.arrRef spec4 0)) (V c (Pipeline.arrRef spec4 1)) (V c (Pipeline.arrRef spec4 2)) (V c (Pipeline.arrRef spec4 3)) (V c (Pipeline.arrRef spec4 4)) :=
  (Gen.dat4 V c).arrAt_eq_of_cover 7 (G4_7 (V c (Pipeline.arrRef spec4 0)) (V c (Pipeline.arrRef spec4 1)) (V c (Pipeline.arrRef spec4 2)) (V c (Pipeline.arrRef spec4 3)) (V c (Pipeline.arrRef spec4 4))) (fun t _ => flushed4_7_eq V c t) covered4_7

/-! ## Real entries give real results -/

theorem real4_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real4_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real4_sin {x : EReal} (hx : ∃ r : ℝ, x = r) : ∃ r : ℝ, Ideal.sin x = r := by
  obtain ⟨a, rfl⟩ := hx; exact ⟨Real.sin a, rfl⟩

theorem real4_sum {α : Type} (s : Finset α) (f : α → EReal) (h : ∀ i, ∃ r : ℝ, f i = r) : ∃ r : ℝ, ∑ i ∈ s, f i = r := by
  classical
  induction s using Finset.induction_on with
  | empty => exact ⟨0, by rw [Finset.sum_empty, EReal.coe_zero]⟩
  | insert a s ha ih => rw [Finset.sum_insert ha]; exact real4_add (h a) ih

theorem zpad4_real {z : Fin 64 → Fin 4096 → EReal} (hz : ∀ c l, ∃ r : ℝ, z c l = r) (c : Fin 64) (m : Fin 4352) :
    ∃ r : ℝ, zpad z c m = r := by
  unfold zpad
  split
  · exact hz _ _
  · exact ⟨0, EReal.coe_zero.symm⟩

/-- Every entry of y is a real when every entry of the five arrays is. -/
theorem y4_real {a0 : S64x64x4096.Idx → EReal} {a1 a2 : S64x1.Idx → EReal} {a3 : S64x576.Idx → EReal} {a4 : S9x4096.Idx → EReal}
    (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (n c : Fin 64) (l : Fin 4096) :
    ∃ r : ℝ, y4 a0 a1 a2 a3 a4 n c l = r := by
  unfold y4 conv4
  refine real4_sum _ _ fun k => real4_mul (h3 _) ?_
  unfold zs tapv
  refine real4_mul (zpad4_real (fun c' l' => ?_) _ _) (h4 _)
  unfold z4
  exact real4_sin (real4_add (real4_mul (h0 _) (h1 _)) (h2 _))

theorem G4_5_real {a0 : S64x64x4096.Idx → EReal} {a1 a2 : S64x1.Idx → EReal} {a3 : S64x576.Idx → EReal} {a4 : S9x4096.Idx → EReal}
    (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) :
    ∀ i, ∃ r : ℝ, G4_5 a0 a1 a2 a3 a4 i = r :=
  fun i => y4_real h0 h1 h2 h3 h4 (i 0) (i 1) (i 2)

theorem G4_6_real {a0 : S64x64x4096.Idx → EReal} {a1 a2 : S64x1.Idx → EReal} {a3 : S64x576.Idx → EReal} {a4 : S9x4096.Idx → EReal}
    (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) :
    ∀ i, ∃ r : ℝ, G4_6 a0 a1 a2 a3 a4 i = r :=
  fun i => real4_sum _ _ fun l => y4_real h0 h1 h2 h3 h4 (i 0) (i 1) l

theorem G4_7_real {a0 : S64x64x4096.Idx → EReal} {a1 a2 : S64x1.Idx → EReal} {a3 : S64x576.Idx → EReal} {a4 : S9x4096.Idx → EReal}
    (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) :
    ∀ i, ∃ r : ℝ, G4_7 a0 a1 a2 a3 a4 i = r :=
  fun i => real4_sum _ _ fun l =>
    real4_mul (y4_real h0 h1 h2 h3 h4 (i 0) (i 1) l) (y4_real h0 h1 h2 h3 h4 (i 0) (i 1) l)

end Cert.KernelIdeal.Val

end
-- ==== Proof.KerV5.lean ====
/- Region 5 (one phase, 4096 lanes): the arrays it leaves, index by index, from the arrays it finds. With
   z[n, a, l] = sin (y[n, a, l] · sc[a] + sh[a]), the first output is the Gram matrix g[n, a, b] = ∑ l, z[n, a, l] · z[n, b, l]
   and the second the lane sums s[n, a] = ∑ l, z[n, a, l]; image n is the block of grid point n. -/
import proofs.«159567_g2000302752657622_pallasbulk_725_3_alg».proof.Proof.Gen.KernelIdeal.Frame
import proofs.«159567_g2000302752657622_pallasbulk_725_3_alg».proof.Proof.KerVGram
import proofs.«159567_g2000302752657622_pallasbulk_725_3_alg».proof.Proof.LibGram
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Val.Gram
open Idealize.ShloMosaic Idealize.ShloMosaic.TcCoe Idealize.ShloMosaic.ValueIdx Idealize.SL.Sem
open Idealize.ShloMosaic.Pipeline (Dat)
open scoped BigOperators

/-! ## The specification -/

/-- z[n, a, l] = sin (y[n, a, l] · sc[a] + sh[a]). -/
def z5 (y : S64x64x4096.Idx → EReal) (sc sh : S64x1.Idx → EReal) (n a : Fin 64) (l : Fin 4096) : EReal :=
  Ideal.sin (y (ix3 n a l) * sc (ix2 a (0 : Fin 1)) + sh (ix2 a (0 : Fin 1)))

/-- The Gram matrix of image n: g[n, a, b] = ∑ l, z[n, a, l] · z[n, b, l]. -/
def G5_3 (y : S64x64x4096.Idx → EReal) (sc sh : S64x1.Idx → EReal) : S64x64x64.Idx → EReal :=
  fun i => ∑ l : Fin 4096, z5 y sc sh (i 0) (i 1) l * z5 y sc sh (i 0) (i 2) l

/-- The lane sums of image n: s[n, a] = ∑ l, z[n, a, l]. -/
def G5_4 (y : S64x64x4096.Idx → EReal) (sc sh : S64x1.Idx → EReal) : S64x64x1.Idx → EReal :=
  fun i => ∑ l : Fin 4096, z5 y sc sh (i 0) (i 1) l

/-! ## The body's values at an index -/

/-- The activations of one image at row `a`, lane `l`. -/
theorem pay5_1_apply (v0 : Vec Ideal S1x64x4096 .bf16) (v4 v9 : Vec Ideal S64x1 .f32) (a : Fin 64) (l : Fin 4096) :
    Gen.k5_pay1 v0 v4 v9 (ix2 a l)
      = Ideal.sin ((v0 (ix3 (0 : Fin 1) a l) : EReal) * (v4 (ix2 a (0 : Fin 1)) : EReal) + (v9 (ix2 a (0 : Fin 1)) : EReal)) := by
  unfold Gen.k5_pay1
  refine (shapeCast_1ab_ab_apply _ _ a l).trans ?_
  refine (truncf_apply (φ := .f32) (ψ := .bf16) _ bitsLt_bf16_f32 _).trans ?_
  refine (sin_apply _ _).trans (congrArg Ideal.sin ?_)
  refine (addf_apply _ _ _).trans ?_
  refine congrArg₂ (· + ·) ((mulf_apply _ _ _).trans (congrArg₂ (· * ·) ?_ ?_)) ?_
  · refine (shapeCast_ab_1ab_apply _ _ (0 : Fin 1) a l).trans ?_
    refine (extf_apply (φ := .bf16) (ψ := .f32) _ bitsLt_bf16_f32 _).trans ?_
    exact shapeCast_1ab_ab_apply _ _ a l
  · refine (broadcastTo_1a1_1ab_apply _ _ (0 : Fin 1) a l).trans ?_
    refine (shapeCast_ab_1ab_apply _ _ (0 : Fin 1) a (0 : Fin 1)).trans ?_
    exact congrFun (shapeCast_self _ _) _
  · refine (broadcastTo_1a1_1ab_apply _ _ (0 : Fin 1) a l).trans ?_
    refine (shapeCast_ab_1ab_apply _ _ (0 : Fin 1) a (0 : Fin 1)).trans ?_
    exact congrFun (shapeCast_self _ _) _

/-- The first store: the product of the activations with their transpose, at `(a, b)`. -/
theorem pay5_2_apply (v0 : Vec Ideal S1x64x4096 .bf16) (v4 v9 : Vec Ideal S64x1 .f32) (u : Fin 1) (a b : Fin 64) :
    Gen.k5_pay2 v0 v4 v9 (ix3 u a b)
      = ∑ l : Fin 4096, Gen.k5_pay1 v0 v4 v9 (ix2 a l) * Gen.k5_pay1 v0 v4 v9 (ix2 b l) := by
  unfold Gen.k5_pay2
  refine (shapeCast_ab_1ab_apply _ _ u a b).trans ?_
  exact gram_apply _ _ a b

/-- The second store: the activations summed along the lanes, at row `a`. -/
theorem pay5_3_apply (v0 : Vec Ideal S1x64x4096 .bf16) (v4 v9 : Vec Ideal S64x1 .f32) (u : Fin 1) (a : Fin 64) (w : Fin 1) :
    Gen.k5_pay3 v0 v4 v9 (ix3 u a w) = ∑ l : Fin 4096, Gen.k5_pay1 v0 v4 v9 (ix2 a l) := by
  unfold Gen.k5_pay3
  refine (shapeCast_ab_1ab_apply _ _ u a w).trans ?_
  refine (shapeCast_a_a1_apply _ _ a w).trans ?_
  refine (lanesum_apply _ _ _ a).trans ?_
  exact Finset.sum_congr rfl fun l _ => rfl

/-- The first store of a block holding image `n`: the Gram matrix of image `n`. -/
theorem blk5_3 (x0 : Vec Ideal S1x64x4096 .bf16) (x1 x2 : Vec Ideal S64x1 .f32)
    (y : S64x64x4096.Idx → EReal) (sc sh : S64x1.Idx → EReal) (n : Fin 64)
    (h0 : ∀ (a : Fin 64) (l : Fin 4096), (x0 (ix3 (0 : Fin 1) a l) : EReal) = y (ix3 n a l))
    (h1 : ∀ a : Fin 64, (x1 (ix2 a (0 : Fin 1)) : EReal) = sc (ix2 a (0 : Fin 1)))
    (h2 : ∀ a : Fin 64, (x2 (ix2 a (0 : Fin 1)) : EReal) = sh (ix2 a (0 : Fin 1)))
    (u : Fin 1) (a b : Fin 64) :
    Gen.k5_pay2 x0 x1 x2 (ix3 u a b) = G5_3 y sc sh (ix3 n a b) := by
  refine (pay5_2_apply x0 x1 x2 u a b).trans ?_
  refine Finset.sum_congr rfl fun l _ => ?_
  rw [pay5_1_apply, pay5_1_apply, h0, h0, h1, h1, h2, h2]
  rfl

/-- The second store of a block holding image `n`: the lane sums of image `n`. -/
theorem blk5_4 (x0 : Vec Ideal S1x64x4096 .bf16) (x1 x2 : Vec Ideal S64x1 .f32)
    (y : S64x64x4096.Idx → EReal) (sc sh : S64x1.Idx → EReal) (n : Fin 64)
    (h0 : ∀ (a : Fin 64) (l : Fin 4096), (x0 (ix3 (0 : Fin 1) a l) : EReal) = y (ix3 n a l))
    (h1 : ∀ a : Fin 64, (x1 (ix2 a (0 : Fin 1)) : EReal) = sc (ix2 a (0 : Fin 1)))
    (h2 : ∀ a : Fin 64, (x2 (ix2 a (0 : Fin 1)) : EReal) = sh (ix2 a (0 : Fin 1)))
    (u : Fin 1) (a : Fin 64) (w : Fin 1) :
    Gen.k5_pay3 x0 x1 x2 (ix3 u a w) = G5_4 y sc sh (ix3 n a w) := by
  refine (pay5_3_apply x0 x1 x2 u a w).trans ?_
  refine Finset.sum_congr rfl fun l _ => ?_
  rw [pay5_1_apply, h0, h1, h2]
  rfl

/-! ## From the blocks to the arrays -/

section Blocks

variable (V : (c : Dev nD) → (b : Ref sig .tc) → Buf (Elt Ideal) ((c : Thread nD τ).loc b))

theorem hzero5_3 : (![0, 0, 0] : Fin 3 → Nat) = fun _ => 0 := funext fun a => by fin_cases a <;> rfl
theorem hzero5_2 : (![0, 0] : Fin 2 → Nat) = fun _ => 0 := funext fun a => by fin_cases a <;> rfl

/-- The arrays of the region's five windows. -/
theorem arrRef5_0 : Pipeline.arrRef spec5 0 = main_v162_0 := rfl
theorem arrRef5_1 : Pipeline.arrRef spec5 1 = main_v175 := rfl
theorem arrRef5_2 : Pipeline.arrRef spec5 2 = main_v178 := rfl
theorem arrRef5_3 : Pipeline.arrRef spec5 3 = main_v179_0 := rfl
theorem arrRef5_4 : Pipeline.arrRef spec5 4 = main_v179_1 := rfl

/-- Grid point `t` works on image `t`: the blocked windows' index maps are `(t, 0, 0)`, the two columns' `(0, 0)`. -/
theorem idx5 : ∀ t : Fin cfg5.N,
    win5_0.index t (0 : Fin 3) = t.val ∧ win5_0.index t (1 : Fin 3) = 0 ∧ win5_0.index t (2 : Fin 3) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 3) = t.val ∧ win5_3.index t (1 : Fin 3) = 0 ∧ win5_3.index t (2 : Fin 3) = 0
    ∧ win5_4.index t (0 : Fin 3) = t.val ∧ win5_4.index t (1 : Fin 3) = 0 ∧ win5_4.index t (2 : Fin 3) = 0 :=
  (by decide +kernel : ∀ t : Fin grid5.N, _)

/-- The image a grid point works on. -/
def img5 (t : Fin cfg5.N) : Fin 64 := ⟨t.val, by have h : t.val < grid5.N := t.isLt; rw [N_5] at h; exact h⟩

/-- The block of the activations at point `t` is image `t`. -/
theorem iblk5_0_apply (c : Dev nD) (t : Fin cfg5.N) (a : Fin 64) (l : Fin 4096) :
    ((Gen.iblk5 V c 0 t : Vec Ideal S1x64x4096 .bf16) (ix3 (0 : Fin 1) a l) : EReal)
      = (V c (Pipeline.arrRef spec5 0) : S64x64x4096.Idx → EReal) (ix3 (img5 t) a l) := by
  obtain ⟨e0, e1, e2, -⟩ := idx5 t
  unfold Gen.iblk5
  rw [View.read_apply]
  refine congrArg (V c (Pipeline.arrRef spec5 0) : S64x64x4096.Idx → EReal) (funext fun d => Fin.ext ?_)
  match d with
  | ⟨0, _⟩ => show win5_0.index t (0 : Fin 3) * 1 + 1 * 0 = t.val; rw [e0]; omega
  | ⟨1, _⟩ => show win5_0.index t (1 : Fin 3) * 64 + 1 * a.val = a.val; rw [e1]; omega
  | ⟨2, _⟩ => show win5_0.index t (2 : Fin 3) * 4096 + 1 * l.val = l.val; rw [e2]; omega

/-- The block of the scale column at any point is the column. -/
theorem iblk5_1_apply (c : Dev nD) (t : Fin cfg5.N) (a : Fin 64) :
    ((Gen.iblk5 V c 1 t : Vec Ideal S64x1 .f32) (ix2 a (0 : Fin 1)) : EReal)
      = (V c (Pipeline.arrRef spec5 1) : S64x1.Idx → EReal) (ix2 a (0 : Fin 1)) := by
  obtain ⟨-, -, -, e0, e1, -⟩ := idx5 t
  unfold Gen.iblk5
  rw [View.read_apply]
  refine congrArg (V c (Pipeline.arrRef spec5 1) : S64x1.Idx → EReal) (funext fun d => Fin.ext ?_)
  match d with
  | ⟨0, _⟩ => show win5_1.index t (0 : Fin 2) * 64 + 1 * a.val = a.val; rw [e0]; omega
  | ⟨1, _⟩ => show win5_1.index t (1 : Fin 2) * 1 + 1 * 0 = 0; rw [e1]

/-- The block of the shift column at any point is the column. -/
theorem iblk5_2_apply (c : Dev nD) (t : Fin cfg5.N) (a : Fin 64) :
    ((Gen.iblk5 V c 2 t : Vec Ideal S64x1 .f32) (ix2 a (0 : Fin 1)) : EReal)
      = (V c (Pipeline.arrRef spec5 2) : S64x1.Idx → EReal) (ix2 a (0 : Fin 1)) := by
  obtain ⟨-, -, -, -, -, e0, e1, -⟩ := idx5 t
  unfold Gen.iblk5
  rw [View.read_apply]
  refine congrArg (V c (Pipeline.arrRef spec5 2) : S64x1.Idx → EReal) (funext fun d => Fin.ext ?_)
  match d with
  | ⟨0, _⟩ => show win5_2.index t (0 : Fin 2) * 64 + 1 * a.val = a.val; rw [e0]; omega
  | ⟨1, _⟩ => show win5_2.index t (1 : Fin 2) * 1 + 1 * 0 = 0; rw [e1]

/-- What point `t` writes back to the first output is block `t` of the Gram matrices. -/
theorem flushed5_3_eq (c : Dev nD) (t : Fin cfg5.N) :
    (Gen.dat5 V c).flushed 3 t = ((cfg5.win 3).blk t).view.read (Elt Ideal)
      (G5_3 (V c (Pipeline.arrRef spec5 0)) (V c (Pipeline.arrRef spec5 1)) (V c (Pipeline.arrRef spec5 2))) := by
  show (cfg5.win 3).cut (grid5.coords t) ((Gen.dat5 V c).after 3 t) = _
  rw [Gen.after5_3]
  unfold Gen.out5_3
  rw [View.canon_unit_zero hzero5_3]
  simp only [View.ld_unit_zero (S := S1x64x4096) hzero5_3, View.ld_unit_zero (S := S64x1) hzero5_2]
  obtain ⟨-, -, -, -, -, -, -, e0, e1, e2, -⟩ := idx5 t
  funext j
  rw [View.read_apply]
  have hj0 : (j 0).val < 1 := (j 0).isLt
  have hj1 : (j 1).val < 64 := (j 1).isLt
  have hj2 : (j 2).val < 64 := (j 2).isLt
  have ej : (cfg5.win 3).xinj (grid5.coords t) j = ix3 (⟨(j 0).val, hj0⟩ : Fin 1) (⟨(j 1).val, hj1⟩ : Fin 64) (⟨(j 2).val, hj2⟩ : Fin 64) :=
    funext fun d => by
      match d with
      | ⟨0, _⟩ => rfl
      | ⟨1, _⟩ => rfl
      | ⟨2, _⟩ => rfl
  have ei : ((cfg5.win 3).blk t).view.emb j = ix3 (img5 t) (⟨(j 1).val, hj1⟩ : Fin 64) (⟨(j 2).val, hj2⟩ : Fin 64) :=
    funext fun d => Fin.ext (by
      match d with
      | ⟨0, _⟩ => show win5_3.index t (0 : Fin 3) * 1 + 1 * (j 0).val = t.val; rw [e0]; omega
      | ⟨1, _⟩ => show win5_3.index t (1 : Fin 3) * 64 + 1 * (j 1).val = (j 1).val; rw [e1]; omega
      | ⟨2, _⟩ => show win5_3.index t (2 : Fin 3) * 64 + 1 * (j 2).val = (j 2).val; rw [e2]; omega)
  exact (congrArg (Gen.k5_pay2 (Gen.iblk5 V c 0 t) (Gen.iblk5 V c 1 t) (Gen.iblk5 V c 2 t)) ej).trans
    ((blk5_3 (Gen.iblk5 V c 0 t) (Gen.iblk5 V c 1 t) (Gen.iblk5 V c 2 t)
        (V c (Pipeline.arrRef spec5 0)) (V c (Pipeline.arrRef spec5 1)) (V c (Pipeline.arrRef spec5 2)) (img5 t)
        (iblk5_0_apply V c t) (iblk5_1_apply V c t) (iblk5_2_apply V c t) _ _ _).trans
      (congrArg (G5_3 (V c (Pipeline.arrRef spec5 0)) (V c (Pipeline.arrRef spec5 1)) (V c (Pipeline.arrRef spec5 2))) ei.symm))

/-- What point `t` writes back to the second output is block `t` of the lane sums. -/
theorem flushed5_4_eq (c : Dev nD) (t : Fin cfg5.N) :
    (Gen.dat5 V c).flushed 4 t = ((cfg5.win 4).blk t).view.read (Elt Ideal)
      (G5_4 (V c (Pipeline.arrRef spec5 0)) (V c (Pipeline.arrRef spec5 1)) (V c (Pipeline.arrRef spec5 2))) := by
  show (cfg5.win 4).cut (grid5.coords t) ((Gen.dat5 V c).after 4 t) = _
  rw [Gen.after5_4]
  unfold Gen.out5_4
  rw [View.canon_unit_zero hzero5_3]
  simp only [View.ld_unit_zero (S := S1x64x4096) hzero5_3, View.ld_unit_zero (S := S64x1) hzero5_2]
  obtain ⟨-, -, -, -, -, -, -, -, -, -, e0, e1, e2⟩ := idx5 t
  funext j
  rw [View.read_apply]
  have hj0 : (j 0).val < 1 := (j 0).isLt
  have hj1 : (j 1).val < 64 := (j 1).isLt
  have hj2 : (j 2).val < 1 := (j 2).isLt
  have ej : (cfg5.win 4).xinj (grid5.coords t) j = ix3 (⟨(j 0).val, hj0⟩ : Fin 1) (⟨(j 1).val, hj1⟩ : Fin 64) (⟨(j 2).val, hj2⟩ : Fin 1) :=
    funext fun d => by
      match d with
      | ⟨0, _⟩ => rfl
      | ⟨1, _⟩ => rfl
      | ⟨2, _⟩ => rfl
  have ei : ((cfg5.win 4).blk t).view.emb j = ix3 (img5 t) (⟨(j 1).val, hj1⟩ : Fin 64) (⟨(j 2).val, hj2⟩ : Fin 1) :=
    funext fun d => Fin.ext (by
      match d with
      | ⟨0, _⟩ => show win5_4.index t (0 : Fin 3) * 1 + 1 * (j 0).val = t.val; rw [e0]; omega
      | ⟨1, _⟩ => show win5_4.index t (1 : Fin 3) * 64 + 1 * (j 1).val = (j 1).val; rw [e1]; omega
      | ⟨2, _⟩ => show win5_4.index t (2 : Fin 3) * 1 + 1 * (j 2).val = (j 2).val; rw [e2]; omega)
  exact (congrArg (Gen.k5_pay3 (Gen.iblk5 V c 0 t) (Gen.iblk5 V c 1 t) (Gen.iblk5 V c 2 t)) ej).trans
    ((blk5_4 (Gen.iblk5 V c 0 t) (Gen.iblk5 V c 1 t) (Gen.iblk5 V c 2 t)
        (V c (Pipeline.arrRef spec5 0)) (V c (Pipeline.arrRef spec5 1)) (V c (Pipeline.arrRef spec5 2)) (img5 t)
        (iblk5_0_apply V c t) (iblk5_1_apply V c t) (iblk5_2_apply V c t) _ _ _).trans
      (congrArg (G5_4 (V c (Pipeline.arrRef spec5 0)) (V c (Pipeline.arrRef spec5 1)) (V c (Pipeline.arrRef spec5 2))) ei.symm))

/-- An index of the first output is in point `t`'s block iff each coordinate is in the block's range. -/
theorem mem_blk5_3 (t : Fin cfg5.N) (i : S64x64x64.Idx) :
    i ∈ ((cfg5.win 3).blk t).view.set ↔ ∀ a : Fin 3, win5_3.index t a * S1x64x64.size a ≤ (i a).val ∧ (i a).val < win5_3.index t a * S1x64x64.size a + S1x64x64.size a := by
  show i ∈ ((View.whole main_v179_0).slice (win5_3.rect t)).set ↔ _
  rw [View.set_slice_whole, Rect.mem_set_unit]
  exact Iff.rfl

theorem mem_blk5_4 (t : Fin cfg5.N) (i : S64x64x1.Idx) :
    i ∈ ((cfg5.win 4).blk t).view.set ↔ ∀ a : Fin 3, win5_4.index t a * S1x64x1.size a ≤ (i a).val ∧ (i a).val < win5_4.index t a * S1x64x1.size a + S1x64x1.size a := by
  show i ∈ ((View.whole main_v179_1).slice (win5_4.rect t)).set ↔ _
  rw [View.set_slice_whole, Rect.mem_set_unit]
  exact Iff.rfl

/-- The point of an image. -/
def pt5 (n : Nat) (h : n < 64) : Fin cfg5.N := ⟨n, by show n < grid5.N; rw [N_5]; exact h⟩

/-- The first output after the region: the Gram matrices of the 64 images. -/
theorem final5_3 (c : Dev nD) : (Gen.dat5 V c).arrAt 3 cfg5.N
    = G5_3 (V c (Pipeline.arrRef spec5 0)) (V c (Pipeline.arrRef spec5 1)) (V c (Pipeline.arrRef spec5 2)) :=
  (Gen.dat5 V c).arrAt_eq_of_cover 3 _ (fun t _ => flushed5_3_eq V c t) fun i => by
    have hi0 : (i 0).val < 64 := (i 0).isLt
    have hi1 : (i 1).val < 64 := (i 1).isLt
    have hi2 : (i 2).val < 64 := (i 2).isLt
    refine ⟨pt5 (i 0).val hi0, Gen.flush5_3 _, ?_⟩
    obtain ⟨-, -, -, -, -, -, -, e0, e1, e2, -⟩ := idx5 (pt5 (i 0).val hi0)
    rw [mem_blk5_3]
    intro a
    match a with
    | ⟨0, _⟩ => show win5_3.index (pt5 (i 0).val hi0) (0 : Fin 3) * 1 ≤ (i 0).val ∧ (i 0).val < win5_3.index (pt5 (i 0).val hi0) (0 : Fin 3) * 1 + 1
                rw [e0]; show (i 0).val * 1 ≤ (i 0).val ∧ (i 0).val < (i 0).val * 1 + 1; omega
    | ⟨1, _⟩ => show win5_3.index (pt5 (i 0).val hi0) (1 : Fin 3) * 64 ≤ (i 1).val ∧ (i 1).val < win5_3.index (pt5 (i 0).val hi0) (1 : Fin 3) * 64 + 64
                rw [e1]; omega
    | ⟨2, _⟩ => show win5_3.index (pt5 (i 0).val hi0) (2 : Fin 3) * 64 ≤ (i 2).val ∧ (i 2).val < win5_3.index (pt5 (i 0).val hi0) (2 : Fin 3) * 64 + 64
                rw [e2]; omega

/-- The second output after the region: the lane sums of the 64 images. -/
theorem final5_4 (c : Dev nD) : (Gen.dat5 V c).arrAt 4 cfg5.N
    = G5_4 (V c (Pipeline.arrRef spec5 0)) (V c (Pipeline.arrRef spec5 1)) (V c (Pipeline.arrRef spec5 2)) :=
  (Gen.dat5 V c).arrAt_eq_of_cover 4 _ (fun t _ => flushed5_4_eq V c t) fun i => by
    have hi0 : (i 0).val < 64 := (i 0).isLt
    have hi1 : (i 1).val < 64 := (i 1).isLt
    have hi2 : (i 2).val < 1 := (i 2).isLt
    refine ⟨pt5 (i 0).val hi0, Gen.flush5_4 _, ?_⟩
    obtain ⟨-, -, -, -, -, -, -, -, -, -, e0, e1, e2⟩ := idx5 (pt5 (i 0).val hi0)
    rw [mem_blk5_4]
    intro a
    match a with
    | ⟨0, _⟩ => show win5_4.index (pt5 (i 0).val hi0) (0 : Fin 3) * 1 ≤ (i 0).val ∧ (i 0).val < win5_4.index (pt5 (i 0).val hi0) (0 : Fin 3) * 1 + 1
                rw [e0]; show (i 0).val * 1 ≤ (i 0).val ∧ (i 0).val < (i 0).val * 1 + 1; omega
    | ⟨1, _⟩ => show win5_4.index (pt5 (i 0).val hi0) (1 : Fin 3) * 64 ≤ (i 1).val ∧ (i 1).val < win5_4.index (pt5 (i 0).val hi0) (1 : Fin 3) * 64 + 64
                rw [e1]; omega
    | ⟨2, _⟩ => show win5_4.index (pt5 (i 0).val hi0) (2 : Fin 3) * 1 ≤ (i 2).val ∧ (i 2).val < win5_4.index (pt5 (i 0).val hi0) (2 : Fin 3) * 1 + 1
                rw [e2]; omega

/-- The two outputs after the region, with the windows' arrays named. -/
theorem final5_3_named (c : Dev nD) : (Gen.dat5 V c).arrAt 3 cfg5.N = G5_3 (V c main_v162_0) (V c main_v175) (V c main_v178) :=
  final5_3 V c
theorem final5_4_named (c : Dev nD) : (Gen.dat5 V c).arrAt 4 cfg5.N = G5_4 (V c main_v162_0) (V c main_v175) (V c main_v178) :=
  final5_4 V c

end Blocks

/-! ## Real entries stay real -/

theorem z5_real {y : S64x64x4096.Idx → EReal} {sc sh : S64x1.Idx → EReal}
    (hy : ∀ i, ∃ r : ℝ, y i = r) (hsc : ∀ i, ∃ r : ℝ, sc i = r) (hsh : ∀ i, ∃ r : ℝ, sh i = r)
    (n a : Fin 64) (l : Fin 4096) : ∃ r : ℝ, z5 y sc sh n a l = r := by
  obtain ⟨ry, ey⟩ := hy (ix3 n a l)
  obtain ⟨rs, es⟩ := hsc (ix2 a (0 : Fin 1))
  obtain ⟨rh, eh⟩ := hsh (ix2 a (0 : Fin 1))
  refine ⟨Real.sin (ry * rs + rh), ?_⟩
  unfold z5
  rw [ey, es, eh, ← EReal.coe_mul, ← EReal.coe_add]
  exact Ideal.sin_coe _

theorem G5_3_real {y : S64x64x4096.Idx → EReal} {sc sh : S64x1.Idx → EReal}
    (hy : ∀ i, ∃ r : ℝ, y i = r) (hsc : ∀ i, ∃ r : ℝ, sc i = r) (hsh : ∀ i, ∃ r : ℝ, sh i = r) :
    ∀ i, ∃ r : ℝ, G5_3 y sc sh i = r := fun i =>
  Cert.Lib.Gram.exists_real_sum Finset.univ _ fun l =>
    Cert.Lib.Gram.exists_real_mul (z5_real hy hsc hsh (i 0) (i 1) l) (z5_real hy hsc hsh (i 0) (i 2) l)

theorem G5_4_real {y : S64x64x4096.Idx → EReal} {sc sh : S64x1.Idx → EReal}
    (hy : ∀ i, ∃ r : ℝ, y i = r) (hsc : ∀ i, ∃ r : ℝ, sc i = r) (hsh : ∀ i, ∃ r : ℝ, sh i = r) :
    ∀ i, ∃ r : ℝ, G5_4 y sc sh i = r := fun i =>
  Cert.Lib.Gram.exists_real_sum Finset.univ _ fun l => z5_real hy hsc hsh (i 0) (i 1) l

end Cert.KernelIdeal.Val

end
-- ==== Proof.KerV6.lean ====
import proofs.«159567_g2000302752657622_pallasbulk_725_3_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! # The value of the kernel's last region:  out = (W · sin(y · sc2 + sh2)) · sc3 + sh3 + res

The region's output array, as one function of the seven arrays it reads, index by index. -/

/-- The output array from the arrays of y (64 × 64 × 4096), of res (64 × 256 × 4096), the per-channel scale and shift of
    y (64 × 1), the weights W (256 × 64) and the per-channel scale and shift of the product (256 × 1). At image `n`,
    channel `ch`, lane `l`:  (∑ₖ W[ch, k] · sin(y[n, k, l] · sc2[k] + sh2[k])) · sc3[ch] + sh3[ch] + res[n, ch, l]. -/
def G6_7 (y2b : S64x64x4096.Idx → EReal) (res : S64x256x4096.Idx → EReal) (sc2 sh2 : S64x1.Idx → EReal)
    (w3 : S256x64.Idx → EReal) (sc3 sh3 : S256x1.Idx → EReal) : S64x256x4096.Idx → EReal :=
  fun i => (∑ k : Fin 64, w3 (ix2 (i 1) k) * Ideal.sin (y2b (ix3 (i 0) k (i 2)) * sc2 (ix2 k 0) + sh2 (ix2 k 0)))
      * sc3 (ix2 (i 1) 0) + sh3 (ix2 (i 1) 0) + res i

/-- The specification with the three coordinates named. -/
theorem G6_7_at (y2b : S64x64x4096.Idx → EReal) (res : S64x256x4096.Idx → EReal) (sc2 sh2 : S64x1.Idx → EReal)
    (w3 : S256x64.Idx → EReal) (sc3 sh3 : S256x1.Idx → EReal) (i : S64x256x4096.Idx) (n : Fin 64) (p : Fin 256) (q : Fin 4096)
    (h0 : (i 0).val = n.val) (h1 : (i 1).val = p.val) (h2 : (i 2).val = q.val) :
    G6_7 y2b res sc2 sh2 w3 sc3 sh3 i
      = (∑ k : Fin 64, w3 (ix2 p k) * Ideal.sin (y2b (ix3 n k q) * sc2 (ix2 k (0 : Fin 1)) + sh2 (ix2 k (0 : Fin 1))))
          * sc3 (ix2 p (0 : Fin 1)) + sh3 (ix2 p (0 : Fin 1)) + res i := by
  obtain rfl : n = i 0 := Fin.ext h0.symm
  obtain rfl : p = i 1 := Fin.ext h1.symm
  obtain rfl : q = i 2 := Fin.ext h2.symm
  rfl

namespace K6

/-- A finite sum of reals is a real. -/
theorem sum_real {ι : Type} (s : Finset ι) (f : ι → EReal) (hf : ∀ k ∈ s, ∃ r : ℝ, f k = r) : ∃ r : ℝ, ∑ k ∈ s, f k = r := by
  classical
  induction s using Finset.induction_on with
  | empty => exact ⟨0, by simp⟩
  | insert a s ha ih =>
    obtain ⟨x, hx⟩ := hf a (Finset.mem_insert_self a s)
    obtain ⟨y, hy⟩ := ih fun k hk => hf k (Finset.mem_insert_of_mem hk)
    exact ⟨x + y, by rw [Finset.sum_insert ha, hx, hy, EReal.coe_add]⟩

theorem hz3 : (![0, 0, 0] : Fin 3 → Nat) = fun _ => 0 := funext fun a => by fin_cases a <;> rfl
theorem hz2 : (![0, 0] : Fin 2 → Nat) = fun _ => 0 := funext fun a => by fin_cases a <;> rfl

/-- A column `[a, 1]` broadcast along the lanes to `[a, b]` reads, at `(p, l)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- A sine at an index is the sine of the element. -/
theorem sin_apply {s : Shape} {φ : FTy} (x : FVec Ideal s φ) (i : s.Idx) : sin x i = Ideal.sin (x i) := rfl

/-- The dimension numbers of the region's product: [256,64] · [64,4096], one contracted axis of extent 64. -/
abbrev dot6 : DotDims S256x64 S64x4096 S256x4096 := dot_S256x64_S64x4096_S256x4096_1_0_0_1_n_n

/-- The left operand's row is the output's row. -/
theorem dot6_lhs_0 (i : S256x4096.Idx) (q : dot6.contr.Idx) : (dot6.lhsIdx i q 0).val = (i 0).val := by
  unfold DotDims.lhsIdx
  rw [dif_neg (show ¬(0 : Fin S256x64.rank) ∈ dot6.lhsBatch by decide),
    dif_pos (show (0 : Fin S256x64.rank) ∈ dot6.lhsNonContracting by decide)]
  rfl

/-- The left operand's column is the contracted coordinate. -/
theorem dot6_lhs_1 (i : S256x4096.Idx) (q : dot6.contr.Idx) : (dot6.lhsIdx i q 1).val = (q ⟨0, by decide⟩).val :=
  dot6.lhsIdx_val_of_single rfl i q

/-- The right operand's row is the contracted coordinate. -/
theorem dot6_rhs_0 (i : S256x4096.Idx) (q : dot6.contr.Idx) : (dot6.rhsIdx i q 0).val = (q ⟨0, by decide⟩).val :=
  dot6.rhsIdx_val_of_single rfl i q

/-- The right operand's column is the output's column. -/
theorem dot6_rhs_1 (i : S256x4096.Idx) (q : dot6.contr.Idx) : (dot6.rhsIdx i q 1).val = (i 1).val := by
  unfold DotDims.rhsIdx
  rw [dif_neg (show ¬(1 : Fin S64x4096.rank) ∈ dot6.rhsBatch by decide),
    dif_pos (show (1 : Fin S64x4096.rank) ∈ dot6.rhsNonContracting by decide)]
  rfl

/-- The product into the zero accumulator, at row `r` and lane `s`: the sum over the 64 contracted coordinates. -/
theorem matmul6_apply (A : FVec Ideal S256x64 .bf16) (B : FVec Ideal S64x4096 .bf16) (r : Fin 256) (s : Fin 4096) :
    matmul dot6 none A B (constant (F := Ideal) S256x4096 .f32 0x00000000#32) (ix2 r s)
      = ∑ k : Fin 64, A (ix2 r k) * B (ix2 k s) := by
  show FloatOps.matmul dot6 none A B (constant (F := Ideal) S256x4096 .f32 0x00000000#32) (ix2 r s) = _
  rw [Ideal.matmul_constant_zero_apply, ← Equiv.sum_comp (contrEquiv1 dot6 64 rfl rfl).symm]
  refine Finset.sum_congr rfl fun k _ => ?_
  have hk := contrEquiv1_symm_val dot6 64 rfl rfl k
  have el : dot6.lhsIdx (ix2 r s) ((contrEquiv1 dot6 64 rfl rfl).symm k) = ix2 r k := funext fun a => Fin.ext (by
    match a with
    | ⟨0, _⟩ => exact dot6_lhs_0 _ _
    | ⟨1, _⟩ => exact (dot6_lhs_1 _ _).trans hk)
  have er : dot6.rhsIdx (ix2 r s) ((contrEquiv1 dot6 64 rfl rfl).symm k) = ix2 k s := funext fun a => Fin.ext (by
    match a with
    | ⟨0, _⟩ => exact (dot6_rhs_0 _ _).trans hk
    | ⟨1, _⟩ => exact dot6_rhs_1 _ _)
  rw [el, er]

end K6

/-- Reals in, reals out: the sine of a real is a real, and so are finite sums and products of reals. -/
theorem G6_7_real (y2b : S64x64x4096.Idx → EReal) (res : S64x256x4096.Idx → EReal) (sc2 sh2 : S64x1.Idx → EReal)
    (w3 : S256x64.Idx → EReal) (sc3 sh3 : S256x1.Idx → EReal)
    (hy : ∀ i, ∃ r : ℝ, y2b i = r) (hres : ∀ i, ∃ r : ℝ, res i = r) (hsc2 : ∀ i, ∃ r : ℝ, sc2 i = r) (hsh2 : ∀ i, ∃ r : ℝ, sh2 i = r)
    (hw : ∀ i, ∃ r : ℝ, w3 i = r) (hsc3 : ∀ i, ∃ r : ℝ, sc3 i = r) (hsh3 : ∀ i, ∃ r : ℝ, sh3 i = r) :
    ∀ i, ∃ r : ℝ, G6_7 y2b res sc2 sh2 w3 sc3 sh3 i = r := fun i => by
  obtain ⟨S, hS⟩ := K6.sum_real Finset.univ
    (fun k : Fin 64 => w3 (ix2 (i 1) k) * Ideal.sin (y2b (ix3 (i 0) k (i 2)) * sc2 (ix2 k 0) + sh2 (ix2 k 0))) fun k _ => by
      obtain ⟨a, ha⟩ := hw (ix2 (i 1) k)
      obtain ⟨b, hb⟩ := hy (ix3 (i 0) k (i 2))
      obtain ⟨d, hd⟩ := hsc2 (ix2 k 0)
      obtain ⟨e, he⟩ := hsh2 (ix2 k 0)
      refine ⟨a * Real.sin (b * d + e), ?_⟩
      show w3 (ix2 (i 1) k) * Ideal.sin (y2b (ix3 (i 0) k (i 2)) * sc2 (ix2 k 0) + sh2 (ix2 k 0)) = _
      rw [ha, hb, hd, he, ← EReal.coe_mul, ← EReal.coe_add, Ideal.sin_coe, ← EReal.coe_mul]
  obtain ⟨b, hb⟩ := hsc3 (ix2 (i 1) 0)
  obtain ⟨d, hd⟩ := hsh3 (ix2 (i 1) 0)
  obtain ⟨e, he⟩ := hres i
  refine ⟨S * b + d + e, ?_⟩
  unfold G6_7
  rw [hS, hb, hd, he, EReal.coe_add, EReal.coe_add, EReal.coe_mul]

/-! ## The payload at an index -/

/-- The stored value at channel `p`, lane `q` of the block. -/
theorem pay6_1_apply (v0 : Vec Ideal S1x64x4096 .bf16) (v3 v7 : Vec Ideal S64x1 .f32) (v13 : Vec Ideal S256x64 .bf16)
    (v16 v20 : Vec Ideal S256x1 .f32) (v24 : Vec Ideal S1x256x4096 .f32) (u : Fin 1) (p : Fin 256) (q : Fin 4096) :
    Gen.k6_pay1 v0 v3 v7 v13 v16 v20 v24 (ix3 u p q)
      = (∑ k : Fin 64, v13 (ix2 p k) * Ideal.sin (v0 (ix3 (0 : Fin 1) k q) * v3 (ix2 k (0 : Fin 1)) + v7 (ix2 k (0 : Fin 1))))
          * v16 (ix2 p (0 : Fin 1)) + v20 (ix2 p (0 : Fin 1)) + v24 (ix3 (0 : Fin 1) p q) := by
  unfold Gen.k6_pay1
  refine (shapeCast_ab_1ab_apply _ _ u p q).trans ?_
  rw [addf_apply, addf_apply, mulf_apply]
  refine congrArg₂ (· + ·) (congrArg₂ (· + ·) (congrArg₂ (· * ·) ?_ ?_) ?_) ?_
  · refine (K6.matmul6_apply _ _ p q).trans ?_
    refine Finset.sum_congr rfl fun k _ => ?_
    refine congrArg₂ (· * ·) (congrFun (shapeCast_self v13 _) (ix2 p k)) ?_
    refine Eq.trans (truncf_apply _ _ _) ?_
    refine Eq.trans (K6.sin_apply _ _) (congrArg Ideal.sin ?_)
    rw [addf_apply, mulf_apply]
    refine congrArg₂ (· + ·) (congrArg₂ (· * ·) ?_ ?_) ?_
    · exact (extf_apply (φ := .bf16) (ψ := .f32) (shapeCast S64x4096 v0 shapeCasts_S1x64x4096_S64x4096) bitsLt_bf16_f32 (ix2 k q)).trans (shapeCast_1ab_ab_apply v0 _ k q)
    · exact (K6.broadcastTo_a1_ab_apply _ _ k q).trans (congrFun (shapeCast_self v3 _) _)
    · exact (K6.broadcastTo_a1_ab_apply _ _ k q).trans (congrFun (shapeCast_self v7 _) _)
  · exact (K6.broadcastTo_a1_ab_apply _ _ p q).trans (congrFun (shapeCast_self v16 _) _)
  · exact (K6.broadcastTo_a1_ab_apply _ _ p q).trans (congrFun (shapeCast_self v20 _) _)
  · exact shapeCast_1ab_ab_apply v24 _ p q

/-! ## Which buffer each window stages -/

theorem arrRef6_0 : Pipeline.arrRef spec6 0 = main_v162_0 := rfl
theorem arrRef6_1 : Pipeline.arrRef spec6 1 = main_v158 := rfl
theorem arrRef6_2 : Pipeline.arrRef spec6 2 = main_v175 := rfl
theorem arrRef6_3 : Pipeline.arrRef spec6 3 = main_v178 := rfl
theorem arrRef6_4 : Pipeline.arrRef spec6 4 = main_v64 := rfl
theorem arrRef6_5 : Pipeline.arrRef spec6 5 = main_v197 := rfl
theorem arrRef6_6 : Pipeline.arrRef spec6 6 = main_v200 := rfl
theorem arrRef6_7 : Pipeline.arrRef spec6 7 = main_v201 := rfl

/-! ## From the blocks to the array -/

/-- The index maps over the grid's 64 points: point `t` is image `t`; the columns and the weights are one block. -/
theorem idx6 : ∀ t : Fin cfg6.N,
    win6_0.index t (0 : Fin 3) = t.val ∧ win6_0.index t (1 : Fin 3) = 0 ∧ win6_0.index t (2 : Fin 3) = 0
    ∧ win6_1.index t (0 : Fin 3) = t.val ∧ win6_1.index t (1 : Fin 3) = 0 ∧ win6_1.index t (2 : Fin 3) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 3) = t.val ∧ win6_7.index t (1 : Fin 3) = 0 ∧ win6_7.index t (2 : Fin 3) = 0 :=
  (by decide +kernel : ∀ t : Fin grid6.N, _)

variable (V : (c : Dev nD) → (b : Ref sig .tc) → Buf (Elt Ideal) ((c : Thread nD τ).loc b))

/-- Window 0's block at point `t` is image `t` of y's array. -/
theorem iblk6_0_apply (c : Dev nD) (t : Fin cfg6.N) (x : S1x64x4096.Idx) (k : S64x64x4096.Idx)
    (hk0 : (k 0).val = t.val) (hk1 : (k 1).val = (x 1).val) (hk2 : (k 2).val = (x 2).val) :
    (Gen.iblk6 V c 0 t : S1x64x4096.Idx → EReal) x = (V c main_v162_0 : S64x64x4096.Idx → EReal) k := by
  obtain ⟨e0, e1, e2, -⟩ := idx6 t
  have hx0 : (x 0).val < 1 := (x 0).isLt
  unfold Gen.iblk6
  rw [View.read_apply]
  show V c main_v162_0 _ = V c main_v162_0 _
  congr 1
  funext a
  apply Fin.ext
  match a with
  | ⟨0, _⟩ => show win6_0.index t 0 * 1 + 1 * (x 0).val = (k 0).val; rw [e0, hk0]; omega
  | ⟨1, _⟩ => show win6_0.index t 1 * 64 + 1 * (x 1).val = (k 1).val; rw [e1, hk1]; omega
  | ⟨2, _⟩ => show win6_0.index t 2 * 4096 + 1 * (x 2).val = (k 2).val; rw [e2, hk2]; omega

/-- Window 1's block at point `t` is image `t` of res's array. -/
theorem iblk6_1_apply (c : Dev nD) (t : Fin cfg6.N) (x : S1x256x4096.Idx) (k : S64x256x4096.Idx)
    (hk0 : (k 0).val = t.val) (hk1 : (k 1).val = (x 1).val) (hk2 : (k 2).val = (x 2).val) :
    (Gen.iblk6 V c 1 t : S1x256x4096.Idx → EReal) x = (V c main_v158 : S64x256x4096.Idx → EReal) k := by
  obtain ⟨-, -, -, e0, e1, e2, -⟩ := idx6 t
  have hx0 : (x 0).val < 1 := (x 0).isLt
  unfold Gen.iblk6
  rw [View.read_apply]
  show V c main_v158 _ = V c main_v158 _
  congr 1
  funext a
  apply Fin.ext
  match a with
  | ⟨0, _⟩ => show win6_1.index t 0 * 1 + 1 * (x 0).val = (k 0).val; rw [e0, hk0]; omega
  | ⟨1, _⟩ => show win6_1.index t 1 * 256 + 1 * (x 1).val = (k 1).val; rw [e1, hk1]; omega
  | ⟨2, _⟩ => show win6_1.index t 2 * 4096 + 1 * (x 2).val = (k 2).val; rw [e2, hk2]; omega

/-- Window 2's block is the whole of y's scale column at every point. -/
theorem iblk6_2_apply (c : Dev nD) (t : Fin cfg6.N) (x : S64x1.Idx) :
    (Gen.iblk6 V c 2 t : S64x1.Idx → EReal) x = (V c main_v175 : S64x1.Idx → EReal) x := by
  obtain ⟨-, -, -, -, -, -, e0, e1, -⟩ := idx6 t
  unfold Gen.iblk6
  rw [View.read_apply]
  show V c main_v175 _ = V c main_v175 _
  congr 1
  funext a
  apply Fin.ext
  match a with
  | ⟨0, _⟩ => show win6_2.index t 0 * 64 + 1 * (x 0).val = (x 0).val; rw [e0]; omega
  | ⟨1, _⟩ => show win6_2.index t 1 * 1 + 1 * (x 1).val = (x 1).val; rw [e1]; omega

/-- Window 3's block is the whole of y's shift column at every point. -/
theorem iblk6_3_apply (c : Dev nD) (t : Fin cfg6.N) (x : S64x1.Idx) :
    (Gen.iblk6 V c 3 t : S64x1.Idx → EReal) x = (V c main_v178 : S64x1.Idx → EReal) x := by
  obtain ⟨-, -, -, -, -, -, -, -, e0, e1, -⟩ := idx6 t
  unfold Gen.iblk6
  rw [View.read_apply]
  show V c main_v178 _ = V c main_v178 _
  congr 1
  funext a
  apply Fin.ext
  match a with
  | ⟨0, _⟩ => show win6_3.index t 0 * 64 + 1 * (x 0).val = (x 0).val; rw [e0]; omega
  | ⟨1, _⟩ => show win6_3.index t 1 * 1 + 1 * (x 1).val = (x 1).val; rw [e1]; omega

/-- Window 4's block is the whole of the weights at every point. -/
theorem iblk6_4_apply (c : Dev nD) (t : Fin cfg6.N) (x : S256x64.Idx) :
    (Gen.iblk6 V c 4 t : S256x64.Idx → EReal) x = (V c main_v64 : S256x64.Idx → EReal) x := by
  obtain ⟨-, -, -, -, -, -, -, -, -, -, e0, e1, -⟩ := idx6 t
  unfold Gen.iblk6
  rw [View.read_apply]
  show V c main_v64 _ = V c main_v64 _
  congr 1
  funext a
  apply Fin.ext
  match a with
  | ⟨0, _⟩ => show win6_4.index t 0 * 256 + 1 * (x 0).val = (x 0).val; rw [e0]; omega
  | ⟨1, _⟩ => show win6_4.index t 1 * 64 + 1 * (x 1).val = (x 1).val; rw [e1]; omega

/-- Window 5's block is the whole of the product's scale column at every point. -/
theorem iblk6_5_apply (c : Dev nD) (t : Fin cfg6.N) (x : S256x1.Idx) :
    (Gen.iblk6 V c 5 t : S256x1.Idx → EReal) x = (V c main_v197 : S256x1.Idx → EReal) x := by
  obtain ⟨-, -, -, -, -, -, -, -, -, -, -, -, e0, e1, -⟩ := idx6 t
  unfold Gen.iblk6
  rw [View.read_apply]
  show V c main_v197 _ = V c main_v197 _
  congr 1
  funext a
  apply Fin.ext
  match a with
  | ⟨0, _⟩ => show win6_5.index t 0 * 256 + 1 * (x 0).val = (x 0).val; rw [e0]; omega
  | ⟨1, _⟩ => show win6_5.index t 1 * 1 + 1 * (x 1).val = (x 1).val; rw [e1]; omega

/-- Window 6's block is the whole of the product's shift column at every point. -/
theorem iblk6_6_apply (c : Dev nD) (t : Fin cfg6.N) (x : S256x1.Idx) :
    (Gen.iblk6 V c 6 t : S256x1.Idx → EReal) x = (V c main_v200 : S256x1.Idx → EReal) x := by
  obtain ⟨-, -, -, -, -, -, -, -, -, -, -, -, -, -, e0, e1, -⟩ := idx6 t
  unfold Gen.iblk6
  rw [View.read_apply]
  show V c main_v200 _ = V c main_v200 _
  congr 1
  funext a
  apply Fin.ext
  match a with
  | ⟨0, _⟩ => show win6_6.index t 0 * 256 + 1 * (x 0).val = (x 0).val; rw [e0]; omega
  | ⟨1, _⟩ => show win6_6.index t 1 * 1 + 1 * (x 1).val = (x 1).val; rw [e1]; omega

/-- What point `t` writes back is point `t`'s block of `G6_7` of the seven arrays the region finds. -/
theorem flushed6_7_eq (c : Dev nD) (t : Fin cfg6.N) :
    (Gen.dat6 V c).flushed 7 t = ((cfg6.win 7).blk t).view.read (Elt Ideal) (G6_7 (V c main_v162_0) (V c main_v158) (V c main_v175) (V c main_v178) (V c main_v64) (V c main_v197) (V c main_v200)) := by
  show (cfg6.win 7).cut (grid6.coords t) ((Gen.dat6 V c).after 7 t) = _
  rw [Gen.after6_7]
  unfold Gen.out6_7
  rw [View.canon_unit_zero K6.hz3]
  simp only [View.ld_unit_zero (S := S1x64x4096) K6.hz3, View.ld_unit_zero (S := S64x1) K6.hz2, View.ld_unit_zero (S := S256x64) K6.hz2,
    View.ld_unit_zero (S := S256x1) K6.hz2, View.ld_unit_zero (S := S1x256x4096) K6.hz3]
  obtain ⟨-, -, -, -, -, -, -, -, -, -, -, -, -, -, -, -, e0, e1, e2⟩ := idx6 t
  funext j
  have hj0 : (j 0).val < 1 := (j 0).isLt
  have hj1 : (j 1).val < 256 := (j 1).isLt
  have hj2 : (j 2).val < 4096 := (j 2).isLt
  have ht : t.val < 64 := Nat.lt_of_lt_of_eq t.isLt (N_6 : cfg6.N = 64)
  have hx : (cfg6.win 7).xinj (grid6.coords t) j = ix3 (⟨(j 0).val, hj0⟩ : Fin 1) (⟨(j 1).val, hj1⟩ : Fin 256) (⟨(j 2).val, hj2⟩ : Fin 4096) :=
    funext fun a => by match a with | ⟨0, _⟩ => rfl | ⟨1, _⟩ => rfl | ⟨2, _⟩ => rfl
  show Gen.k6_pay1 (Gen.iblk6 V c 0 t) (Gen.iblk6 V c 2 t) (Gen.iblk6 V c 3 t) (Gen.iblk6 V c 4 t) (Gen.iblk6 V c 5 t) (Gen.iblk6 V c 6 t) (Gen.iblk6 V c 1 t)
      ((cfg6.win 7).xinj (grid6.coords t) j)
    = G6_7 (V c main_v162_0) (V c main_v158) (V c main_v175) (V c main_v178) (V c main_v64) (V c main_v197) (V c main_v200) (((cfg6.win 7).blk t).view.emb j)
  rw [hx]
  refine (pay6_1_apply (Gen.iblk6 V c 0 t) (Gen.iblk6 V c 2 t) (Gen.iblk6 V c 3 t) (Gen.iblk6 V c 4 t) (Gen.iblk6 V c 5 t) (Gen.iblk6 V c 6 t) (Gen.iblk6 V c 1 t)
    ⟨(j 0).val, hj0⟩ ⟨(j 1).val, hj1⟩ ⟨(j 2).val, hj2⟩).trans ?_
  have h0 : ((((cfg6.win 7).blk t).view.emb j) 0).val = t.val := by
    show win6_7.index t 0 * 1 + 1 * (j 0).val = t.val; rw [e0]; omega
  have h1 : ((((cfg6.win 7).blk t).view.emb j) 1).val = (j 1).val := by
    show win6_7.index t 1 * 256 + 1 * (j 1).val = (j 1).val; rw [e1]; omega
  have h2 : ((((cfg6.win 7).blk t).view.emb j) 2).val = (j 2).val := by
    show win6_7.index t 2 * 4096 + 1 * (j 2).val = (j 2).val; rw [e2]; omega
  refine Eq.symm ((G6_7_at (V c main_v162_0) (V c main_v158) (V c main_v175) (V c main_v178) (V c main_v64) (V c main_v197) (V c main_v200) (((cfg6.win 7).blk t).view.emb j) ⟨t.val, ht⟩ ⟨(j 1).val, hj1⟩ ⟨(j 2).val, hj2⟩ h0 h1 h2).trans ?_)
  refine congrArg₂ (· + ·) (congrArg₂ (· + ·) (congrArg₂ (· * ·) (Finset.sum_congr rfl fun k _ => congrArg₂ (· * ·) ?_ (congrArg Ideal.sin (congrArg₂ (· + ·) (congrArg₂ (· * ·) ?_ ?_) ?_))) ?_) ?_) ?_
  · exact (iblk6_4_apply V c t _).symm
  · exact (iblk6_0_apply V c t (ix3 (0 : Fin 1) k (⟨(j 2).val, hj2⟩ : Fin 4096))
      (ix3 (⟨t.val, ht⟩ : Fin 64) k (⟨(j 2).val, hj2⟩ : Fin 4096)) rfl rfl rfl).symm
  · exact (iblk6_2_apply V c t _).symm
  · exact (iblk6_3_apply V c t _).symm
  · exact (iblk6_5_apply V c t _).symm
  · exact (iblk6_6_apply V c t _).symm
  · exact (iblk6_1_apply V c t (ix3 (0 : Fin 1) (⟨(j 1).val, hj1⟩ : Fin 256) (⟨(j 2).val, hj2⟩ : Fin 4096)) (((cfg6.win 7).blk t).view.emb j) h0 h1 h2).symm

/-- An index of the output array is in point `t`'s block iff each coordinate is in the block's range on its axis. -/
theorem mem_blk6_7 (t : Fin cfg6.N) (i : S64x256x4096.Idx) :
    i ∈ ((cfg6.win 7).blk t).view.set ↔ ∀ a : Fin 3, win6_7.index t a * S1x256x4096.size a ≤ (i a).val
      ∧ (i a).val < win6_7.index t a * S1x256x4096.size a + S1x256x4096.size a := by
  show i ∈ ((View.whole main_v201).slice (win6_7.rect t)).set ↔ _
  rw [View.set_slice_whole, Rect.mem_set_unit]
  exact Iff.rfl

/-- The output array after the region: `G6_7` of the seven arrays the region finds. Index (n, ch, l) lies in the block
    of point n, and every point writes its block back. -/
theorem final6_7 (c : Dev nD) : (Gen.dat6 V c).arrAt 7 cfg6.N = G6_7 (V c main_v162_0) (V c main_v158) (V c main_v175) (V c main_v178) (V c main_v64) (V c main_v197) (V c main_v200) :=
  (Gen.dat6 V c).arrAt_eq_of_cover 7 _ (fun t _ => flushed6_7_eq V c t) fun i => by
    have hi0 : (i 0).val < 64 := (i 0).isLt
    have hi1 : (i 1).val < 256 := (i 1).isLt
    have hi2 : (i 2).val < 4096 := (i 2).isLt
    have hN : cfg6.N = 64 := N_6
    obtain ⟨t, ht⟩ : ∃ t : Fin cfg6.N, t.val = (i 0).val := ⟨⟨(i 0).val, by rw [hN]; exact hi0⟩, rfl⟩
    obtain ⟨-, -, -, -, -, -, -, -, -, -, -, -, -, -, -, -, e0, e1, e2⟩ := idx6 t
    refine ⟨t, flush6_7 t, ?_⟩
    rw [mem_blk6_7]
    intro a
    match a with
    | ⟨0, _⟩ => show win6_7.index t 0 * 1 ≤ (i 0).val ∧ (i 0).val < win6_7.index t 0 * 1 + 1; rw [e0, ht]; omega
    | ⟨1, _⟩ => show win6_7.index t 1 * 256 ≤ (i 1).val ∧ (i 1).val < win6_7.index t 1 * 256 + 256; rw [e1]; omega
    | ⟨2, _⟩ => show win6_7.index t 2 * 4096 ≤ (i 2).val ∧ (i 2).val < win6_7.index t 2 * 4096 + 4096; rw [e2]; omega

end Cert.KernelIdeal.Val
-- ==== Proof.KerDefs.lean ====
import proofs.«159567_g2000302752657622_pallasbulk_725_3_alg».proof.Proof.Gen.KernelIdeal.Frame
import proofs.«159567_g2000302752657622_pallasbulk_725_3_alg».proof.Proof.Args
import proofs.«159567_g2000302752657622_pallasbulk_725_3_alg».proof.Proof.LibBnChain
import proofs.«159567_g2000302752657622_pallasbulk_725_3_alg».proof.Proof.LibUninterleave
import proofs.«159567_g2000302752657622_pallasbulk_725_3_alg».proof.Proof.KerH0
import proofs.«159567_g2000302752657622_pallasbulk_725_3_alg».proof.Proof.KerH3
import proofs.«159567_g2000302752657622_pallasbulk_725_3_alg».proof.Proof.KerV0
import proofs.«159567_g2000302752657622_pallasbulk_725_3_alg».proof.Proof.KerV1
import proofs.«159567_g2000302752657622_pallasbulk_725_3_alg».proof.Proof.KerV2
import proofs.«159567_g2000302752657622_pallasbulk_725_3_alg».proof.Proof.KerV3b
import proofs.«159567_g2000302752657622_pallasbulk_725_3_alg».proof.Proof.KerV4
import proofs.«159567_g2000302752657622_pallasbulk_725_3_alg».proof.Proof.KerV5
import proofs.«159567_g2000302752657622_pallasbulk_725_3_alg».proof.Proof.KerV6

set_option maxRecDepth 16384

noncomputable section

namespace Cert.KernelIdeal.Val

open Cert.KernelIdeal Cert.KernelIdeal.Gen
open Idealize.ShloMosaic Idealize.ShloMosaic.TcCoe
open Cert.Lib.BnChain Cert.Lib.Unint

/-! # Every buffer of the kernel's pipeline as a function of the arguments

One definition per buffer, in program order, over the record of the twenty-four argument arrays. A host stretch's
result is the stretch's operations applied to the earlier buffers; a region's output array is the region's whole-array
function of its input arrays. -/

/-! ## The first host stretch: the images flattened and the prepared weights -/

/-- The images, 64 × 128 × 1024: each image's 32 × 32 positions in one row. -/
def kx (a : Cert.Args) : S64x128x1024.Idx → EReal :=
  shapeCast S64x128x1024 (a.a0 : S64x128x32x32.Idx → Elt Ideal .f32) shapeCasts_S64x128x32x32_S64x128x1024
/-- The first block's first 1 × 1 weights stacked over the shortcut's, 320 × 128. -/
def kwf0 (a : Cert.Args) : S320x128.Idx → EReal :=
  truncf (F := Ideal) .bf16 (concatenate S320x128 0
    [⟨S64x128, (a.a1 : S64x128.Idx → Elt Ideal .f32)⟩, ⟨S256x128, (a.a11 : S256x128.Idx → Elt Ideal .f32)⟩]
    concatenates_S64x128_S256x128_S320x128_d0) bitsLt_bf16_f32
/-- The first block's nine tap matrices laid out as one 256 × 256 block matrix. -/
def kwblk0 (a : Cert.Args) : S256x256.Idx → EReal :=
  truncf (F := Ideal) .bf16 (blkWrites (a.a3 : S9x64x64.Idx → Elt Ideal .f32)) bitsLt_bf16_f32
/-- The first block's last 1 × 1 weights. -/
def kw3_0 (a : Cert.Args) : S256x64.Idx → EReal :=
  truncf (F := Ideal) .bf16 (a.a2 : S256x64.Idx → Elt Ideal .f32) bitsLt_bf16_f32
/-- The second block's first 1 × 1 weights. -/
def kw1_1 (a : Cert.Args) : S64x256.Idx → EReal :=
  truncf (F := Ideal) .bf16 (a.a14 : S64x256.Idx → Elt Ideal .f32) bitsLt_bf16_f32
/-- The second block's nine tap matrices side by side, 64 × 576. -/
def kwcat1 (a : Cert.Args) : S64x576.Idx → EReal :=
  truncf (F := Ideal) .bf16 (shapeCast S64x576
    (transpose S64x9x64 [1, 0, 2] (a.a16 : S9x64x64.Idx → Elt Ideal .f32) transposes_S9x64x64_S64x9x64_1_0_2)
    shapeCasts_S64x9x64_S64x576) bitsLt_bf16_f32
/-- The second block's last 1 × 1 weights. -/
def kw3_1 (a : Cert.Args) : S256x64.Idx → EReal :=
  truncf (F := Ideal) .bf16 (a.a15 : S256x64.Idx → Elt Ideal .f32) bitsLt_bf16_f32

/-! ## Region 0: the first 1 × 1 convolution with the shortcut's, and their row sums -/

/-- The first convolution's output, 64 × 64 × 1024. -/
def ky1 (a : Cert.Args) : S64x64x1024.Idx → EReal := G0_2 (kx a) (kwf0 a)
/-- The shortcut's convolution output, 64 × 256 × 1024. -/
def ksd (a : Cert.Args) : S64x256x1024.Idx → EReal := G0_3 (kx a) (kwf0 a)
/-- Per image, the 320 row sums. -/
def ksf (a : Cert.Args) : S64x320x1.Idx → EReal := G0_4 (kx a) (kwf0 a)
/-- Per image, the 320 row sums of squares. -/
def kqf (a : Cert.Args) : S64x320x1.Idx → EReal := G0_5 (kx a) (kwf0 a)

/-! ## The second host stretch: the first normalisation's and the shortcut's scale and shift columns -/

/-- The first normalisation's scale column: rows 0 to 63 of the image sums, count 65536. -/
def ksc1 (a : Cert.Args) : S64x1.Idx → EReal :=
  bnScale (F := Ideal) S64x1 bcast_S_S64x1 0x47800000#32
    (extractStridedSlice S64x1 ![0, 0] (Host.reduceAdd (F := Ideal) (ksf a) (constant S_ .f32 0x00000000#32) reducesTo_S64x320x1_S320x1_d0 h_S_) slices_S320x1_S64x1_0_0)
    (extractStridedSlice S64x1 ![0, 0] (Host.reduceAdd (F := Ideal) (kqf a) (constant S_ .f32 0x00000000#32) reducesTo_S64x320x1_S320x1_d0 h_S_) slices_S320x1_S64x1_0_0)
    (shapeCast S64x1 (a.a5 : S64.Idx → Elt Ideal .f32) shapeCasts_S64_S64x1)
/-- The first normalisation's shift column. -/
def ksh1 (a : Cert.Args) : S64x1.Idx → EReal :=
  bnShift (F := Ideal) S64x1 bcast_S_S64x1 0x47800000#32
    (extractStridedSlice S64x1 ![0, 0] (Host.reduceAdd (F := Ideal) (ksf a) (constant S_ .f32 0x00000000#32) reducesTo_S64x320x1_S320x1_d0 h_S_) slices_S320x1_S64x1_0_0)
    (extractStridedSlice S64x1 ![0, 0] (Host.reduceAdd (F := Ideal) (kqf a) (constant S_ .f32 0x00000000#32) reducesTo_S64x320x1_S320x1_d0 h_S_) slices_S320x1_S64x1_0_0)
    (shapeCast S64x1 (a.a5 : S64.Idx → Elt Ideal .f32) shapeCasts_S64_S64x1)
    (shapeCast S64x1 (a.a6 : S64.Idx → Elt Ideal .f32) shapeCasts_S64_S64x1)
/-- The shortcut normalisation's scale column: rows 64 to 319 of the image sums, count 262144. -/
def kscs (a : Cert.Args) : S256x1.Idx → EReal :=
  bnScale (F := Ideal) S256x1 bcast_S_S256x1 0x48800000#32
    (extractStridedSlice S256x1 ![64, 0] (Host.reduceAdd (F := Ideal) (ksf a) (constant S_ .f32 0x00000000#32) reducesTo_S64x320x1_S320x1_d0 h_S_) slices_S320x1_S256x1_64_0)
    (extractStridedSlice S256x1 ![64, 0] (Host.reduceAdd (F := Ideal) (kqf a) (constant S_ .f32 0x00000000#32) reducesTo_S64x320x1_S320x1_d0 h_S_) slices_S320x1_S256x1_64_0)
    (shapeCast S256x1 (a.a12 : S256.Idx → Elt Ideal .f32) shapeCasts_S256_S256x1)
/-- The shortcut normalisation's shift column. -/
def kshs (a : Cert.Args) : S256x1.Idx → EReal :=
  bnShift (F := Ideal) S256x1 bcast_S_S256x1 0x48800000#32
    (extractStridedSlice S256x1 ![64, 0] (Host.reduceAdd (F := Ideal) (ksf a) (constant S_ .f32 0x00000000#32) reducesTo_S64x320x1_S320x1_d0 h_S_) slices_S320x1_S256x1_64_0)
    (extractStridedSlice S256x1 ![64, 0] (Host.reduceAdd (F := Ideal) (kqf a) (constant S_ .f32 0x00000000#32) reducesTo_S64x320x1_S320x1_d0 h_S_) slices_S320x1_S256x1_64_0)
    (shapeCast S256x1 (a.a12 : S256.Idx → Elt Ideal .f32) shapeCasts_S256_S256x1)
    (shapeCast S256x1 (a.a13 : S256.Idx → Elt Ideal .f32) shapeCasts_S256_S256x1)

/-! ## Region 1: the first block's 3 × 3 convolution as one block matrix product, and its row sums -/

/-- The convolution's output, 64 × 256 × 1024: row `phase · 64 + channel`. -/
def ky2 (a : Cert.Args) : S64x256x1024.Idx → EReal := G1_5 (ky1 a) (ksc1 a) (ksh1 a) (kwblk0 a) a.a4
/-- Per image, the 64 channel sums. -/
def ks2 (a : Cert.Args) : S64x64x1.Idx → EReal := G1_6 (ky1 a) (ksc1 a) (ksh1 a) (kwblk0 a) a.a4
/-- Per image, the 64 channel sums of squares. -/
def kq2 (a : Cert.Args) : S64x64x1.Idx → EReal := G1_7 (ky1 a) (ksc1 a) (ksh1 a) (kwblk0 a) a.a4

/-! ## The third host stretch: the second normalisation's scale and shift columns -/

/-- The second normalisation's scale column: the image sums, count 262144. -/
def ksc2 (a : Cert.Args) : S64x1.Idx → EReal :=
  bnScale (F := Ideal) S64x1 bcast_S_S64x1 0x48800000#32
    (Host.reduceAdd (F := Ideal) (ks2 a) (constant S_ .f32 0x00000000#32) reducesTo_S64x64x1_S64x1_d0 h_S_)
    (Host.reduceAdd (F := Ideal) (kq2 a) (constant S_ .f32 0x00000000#32) reducesTo_S64x64x1_S64x1_d0 h_S_)
    (shapeCast S64x1 (a.a7 : S64.Idx → Elt Ideal .f32) shapeCasts_S64_S64x1)
/-- The second normalisation's shift column. -/
def ksh2 (a : Cert.Args) : S64x1.Idx → EReal :=
  bnShift (F := Ideal) S64x1 bcast_S_S64x1 0x48800000#32
    (Host.reduceAdd (F := Ideal) (ks2 a) (constant S_ .f32 0x00000000#32) reducesTo_S64x64x1_S64x1_d0 h_S_)
    (Host.reduceAdd (F := Ideal) (kq2 a) (constant S_ .f32 0x00000000#32) reducesTo_S64x64x1_S64x1_d0 h_S_)
    (shapeCast S64x1 (a.a7 : S64.Idx → Elt Ideal .f32) shapeCasts_S64_S64x1)
    (shapeCast S64x1 (a.a8 : S64.Idx → Elt Ideal .f32) shapeCasts_S64_S64x1)

/-! ## Region 2: the Gram matrices and lane sums of the normalised activations -/

/-- Per image, the 64 × 64 Gram matrix. -/
def kg0 (a : Cert.Args) : S64x64x64.Idx → EReal := G2_3 (ky2 a) (ksc2 a) (ksh2 a)
/-- Per image, the 64 lane sums. -/
def kzs0 (a : Cert.Args) : S64x64x1.Idx → EReal := G2_4 (ky2 a) (ksc2 a) (ksh2 a)

/-! ## The fourth host stretch: the third normalisation's columns, its sums recovered from the Gram matrices -/

/-- The third normalisation's scale column: the channel sums are the last 1 × 1 weights applied to the summed lane sums,
    the channel sums of squares the quadratic form of the summed Gram matrix in those weights; count 262144. -/
def ksc3 (a : Cert.Args) : S256x1.Idx → EReal :=
  bnScale (F := Ideal) S256x1 bcast_S_S256x1 0x48800000#32
    (gramS (a.a2 : S256x64.Idx → Elt Ideal .f32) (Host.reduceAdd (F := Ideal) (kzs0 a) (constant S_ .f32 0x00000000#32) reducesTo_S64x64x1_S64x1_d0 h_S_))
    (gramQ (a.a2 : S256x64.Idx → Elt Ideal .f32) (Host.reduceAdd (F := Ideal) (kg0 a) (constant S_ .f32 0x00000000#32) reducesTo_S64x64x64_S64x64_d0 h_S_))
    (shapeCast S256x1 (a.a9 : S256.Idx → Elt Ideal .f32) shapeCasts_S256_S256x1)
/-- The third normalisation's shift column. -/
def ksh3 (a : Cert.Args) : S256x1.Idx → EReal :=
  bnShift (F := Ideal) S256x1 bcast_S_S256x1 0x48800000#32
    (gramS (a.a2 : S256x64.Idx → Elt Ideal .f32) (Host.reduceAdd (F := Ideal) (kzs0 a) (constant S_ .f32 0x00000000#32) reducesTo_S64x64x1_S64x1_d0 h_S_))
    (gramQ (a.a2 : S256x64.Idx → Elt Ideal .f32) (Host.reduceAdd (F := Ideal) (kg0 a) (constant S_ .f32 0x00000000#32) reducesTo_S64x64x64_S64x64_d0 h_S_))
    (shapeCast S256x1 (a.a9 : S256.Idx → Elt Ideal .f32) shapeCasts_S256_S256x1)
    (shapeCast S256x1 (a.a10 : S256.Idx → Elt Ideal .f32) shapeCasts_S256_S256x1)

/-! ## Region 3: the first block's output with its shortcut, the second block's first 1 × 1 convolution, and its row sums -/

/-- The first block's output, 64 × 256 × 4096: lane `phase · 1024 + position`. -/
def kout0ph (a : Cert.Args) : S64x256x4096.Idx → EReal := G3_10 (ky2 a) (ksd a) (ksc2 a) (ksh2 a) (kw3_0 a) (ksc3 a) (ksh3 a) (kscs a) (kshs a)
/-- The second block's first convolution of it, 64 × 64 × 4096, in the same lane order. -/
def ky11ph (a : Cert.Args) : S64x64x4096.Idx → EReal := G3_11 (ky2 a) (ksd a) (ksc2 a) (ksh2 a) (kw3_0 a) (ksc3 a) (ksh3 a) (kscs a) (kshs a) (kw1_1 a)
/-- Per image, its 64 row sums. -/
def ks11 (a : Cert.Args) : S64x64x1.Idx → EReal := G3_12 (ky2 a) (ksd a) (ksc2 a) (ksh2 a) (kw3_0 a) (ksc3 a) (ksh3 a) (kscs a) (kshs a) (kw1_1 a)
/-- Per image, its 64 row sums of squares. -/
def kq11 (a : Cert.Args) : S64x64x1.Idx → EReal := G3_13 (ky2 a) (ksd a) (ksc2 a) (ksh2 a) (kw3_0 a) (ksc3 a) (ksh3 a) (kscs a) (kshs a) (kw1_1 a)

/-! ## The fifth host stretch: the lanes put back in position order, and the next normalisation's columns -/

/-- The first block's output with its lanes in position order. -/
def kout0 (a : Cert.Args) : S64x256x4096.Idx → EReal := unint (kout0ph a)
/-- The second block's first convolution output with its lanes in position order. -/
def ky11 (a : Cert.Args) : S64x64x4096.Idx → EReal := unint (ky11ph a)
/-- The second block's first normalisation's scale column: the image sums, count 262144. -/
def ksc11 (a : Cert.Args) : S64x1.Idx → EReal :=
  bnScale (F := Ideal) S64x1 bcast_S_S64x1 0x48800000#32
    (Host.reduceAdd (F := Ideal) (ks11 a) (constant S_ .f32 0x00000000#32) reducesTo_S64x64x1_S64x1_d0 h_S_)
    (Host.reduceAdd (F := Ideal) (kq11 a) (constant S_ .f32 0x00000000#32) reducesTo_S64x64x1_S64x1_d0 h_S_)
    (shapeCast S64x1 (a.a18 : S64.Idx → Elt Ideal .f32) shapeCasts_S64_S64x1)
/-- The second block's first normalisation's shift column. -/
def ksh11 (a : Cert.Args) : S64x1.Idx → EReal :=
  bnShift (F := Ideal) S64x1 bcast_S_S64x1 0x48800000#32
    (Host.reduceAdd (F := Ideal) (ks11 a) (constant S_ .f32 0x00000000#32) reducesTo_S64x64x1_S64x1_d0 h_S_)
    (Host.reduceAdd (F := Ideal) (kq11 a) (constant S_ .f32 0x00000000#32) reducesTo_S64x64x1_S64x1_d0 h_S_)
    (shapeCast S64x1 (a.a18 : S64.Idx → Elt Ideal .f32) shapeCasts_S64_S64x1)
    (shapeCast S64x1 (a.a19 : S64.Idx → Elt Ideal .f32) shapeCasts_S64_S64x1)

/-! ## Region 4: the second block's 3 × 3 convolution, and its row sums -/

/-- The convolution's output, 64 × 64 × 4096. -/
def ky2b (a : Cert.Args) : S64x64x4096.Idx → EReal := G4_5 (ky11 a) (ksc11 a) (ksh11 a) (kwcat1 a) a.a17
/-- Per image, the 64 channel sums. -/
def ks2b (a : Cert.Args) : S64x64x1.Idx → EReal := G4_6 (ky11 a) (ksc11 a) (ksh11 a) (kwcat1 a) a.a17
/-- Per image, the 64 channel sums of squares. -/
def kq2b (a : Cert.Args) : S64x64x1.Idx → EReal := G4_7 (ky11 a) (ksc11 a) (ksh11 a) (kwcat1 a) a.a17

/-! ## The sixth host stretch: the second block's second normalisation's columns -/

/-- The scale column: the image sums, count 262144. -/
def ksc2b (a : Cert.Args) : S64x1.Idx → EReal :=
  bnScale (F := Ideal) S64x1 bcast_S_S64x1 0x48800000#32
    (Host.reduceAdd (F := Ideal) (ks2b a) (constant S_ .f32 0x00000000#32) reducesTo_S64x64x1_S64x1_d0 h_S_)
    (Host.reduceAdd (F := Ideal) (kq2b a) (constant S_ .f32 0x00000000#32) reducesTo_S64x64x1_S64x1_d0 h_S_)
    (shapeCast S64x1 (a.a20 : S64.Idx → Elt Ideal .f32) shapeCasts_S64_S64x1)
/-- The shift column. -/
def ksh2b (a : Cert.Args) : S64x1.Idx → EReal :=
  bnShift (F := Ideal) S64x1 bcast_S_S64x1 0x48800000#32
    (Host.reduceAdd (F := Ideal) (ks2b a) (constant S_ .f32 0x00000000#32) reducesTo_S64x64x1_S64x1_d0 h_S_)
    (Host.reduceAdd (F := Ideal) (kq2b a) (constant S_ .f32 0x00000000#32) reducesTo_S64x64x1_S64x1_d0 h_S_)
    (shapeCast S64x1 (a.a20 : S64.Idx → Elt Ideal .f32) shapeCasts_S64_S64x1)
    (shapeCast S64x1 (a.a21 : S64.Idx → Elt Ideal .f32) shapeCasts_S64_S64x1)

/-! ## Region 5: the second block's Gram matrices and lane sums -/

/-- The Gram matrices, 64 × 64 × 64. -/
def kg1 (a : Cert.Args) : S64x64x64.Idx → EReal := G5_3 (ky2b a) (ksc2b a) (ksh2b a)
/-- The lane sums, 64 × 64 × 1. -/
def kzs1 (a : Cert.Args) : S64x64x1.Idx → EReal := G5_4 (ky2b a) (ksc2b a) (ksh2b a)

/-! ## The seventh host stretch: the second block's third normalisation's columns -/

/-- The scale column: the 256 output channels' sums and sums of squares from the image-summed lane sums and Gram
    matrix, count 262144. -/
def ksc3b (a : Cert.Args) : S256x1.Idx → EReal :=
  bnScale (F := Ideal) S256x1 bcast_S_S256x1 0x48800000#32
    (gramS (a.a15 : S256x64.Idx → Elt Ideal .f32) (Host.reduceAdd (F := Ideal) (kzs1 a) (constant S_ .f32 0x00000000#32) reducesTo_S64x64x1_S64x1_d0 h_S_))
    (gramQ (a.a15 : S256x64.Idx → Elt Ideal .f32) (Host.reduceAdd (F := Ideal) (kg1 a) (constant S_ .f32 0x00000000#32) reducesTo_S64x64x64_S64x64_d0 h_S_))
    (shapeCast S256x1 (a.a22 : S256.Idx → Elt Ideal .f32) shapeCasts_S256_S256x1)
/-- The shift column. -/
def ksh3b (a : Cert.Args) : S256x1.Idx → EReal :=
  bnShift (F := Ideal) S256x1 bcast_S_S256x1 0x48800000#32
    (gramS (a.a15 : S256x64.Idx → Elt Ideal .f32) (Host.reduceAdd (F := Ideal) (kzs1 a) (constant S_ .f32 0x00000000#32) reducesTo_S64x64x1_S64x1_d0 h_S_))
    (gramQ (a.a15 : S256x64.Idx → Elt Ideal .f32) (Host.reduceAdd (F := Ideal) (kg1 a) (constant S_ .f32 0x00000000#32) reducesTo_S64x64x64_S64x64_d0 h_S_))
    (shapeCast S256x1 (a.a22 : S256.Idx → Elt Ideal .f32) shapeCasts_S256_S256x1)
    (shapeCast S256x1 (a.a23 : S256.Idx → Elt Ideal .f32) shapeCasts_S256_S256x1)

/-! ## Region 6 and the last host stretch: the second block's output and the result -/

/-- The second block's output, 64 × 256 × 4096. -/
def kout (a : Cert.Args) : S64x256x4096.Idx → EReal :=
  G6_7 (ky2b a) (kout0 a) (ksc2b a) (ksh2b a) (kw3_1 a) (ksc3b a) (ksh3b a)
/-- The result, 64 × 256 × 64 × 64: the output's 4096 positions of a row as 64 × 64. -/
def kResult (a : Cert.Args) : (⟨4, ![64, 256, 64, 64]⟩ : Shape).Idx → EReal :=
  shapeCast S64x256x64x64 (kout a) shapeCasts_S64x256x4096_S64x256x64x64

end Cert.KernelIdeal.Val

end
-- ==== Proof.KerH1.lean ====
import proofs.«159567_g2000302752657622_pallasbulk_725_3_alg».proof.Proof.Gen.KernelIdeal.Frame
import proofs.«159567_g2000302752657622_pallasbulk_725_3_alg».proof.Proof.LibBnChain
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe
open Cert.Lib.BnChain

/-- The first statistics stretch, scale column of the first 64 rows. The 64 per-image columns of 320 row sums and of 320
    row sums of squares that the first region leaves are summed over the images; rows 0 to 63 of the two sums go
    through the normalisation chain with the count 65536: the scale is `γ · rsqrt (q / cnt − (s / cnt)² + ε)`. -/
theorem host1_sc1 (W : Valuation τ sig (Elt Ideal)) :
    (StableHlo.after (hostOps1 (F := Ideal)) W (Proc.devRef .tc main_v80) : S64x1.Idx → Elt Ideal .f32)
      = bnScale (F := Ideal) S64x1 bcast_S_S64x1 0x47800000#32
          (extractStridedSlice S64x1 ![0, 0] (Host.reduceAdd (F := Ideal) (W (Proc.devRef .tc main_v65_2)) (constant S_ .f32 0x00000000#32) reducesTo_S64x320x1_S320x1_d0 h_S_) slices_S320x1_S64x1_0_0)
          (extractStridedSlice S64x1 ![0, 0] (Host.reduceAdd (F := Ideal) (W (Proc.devRef .tc main_v65_3)) (constant S_ .f32 0x00000000#32) reducesTo_S64x320x1_S320x1_d0 h_S_) slices_S320x1_S64x1_0_0)
          (shapeCast S64x1 (W (Proc.devRef .tc main_arg5)) shapeCasts_S64_S64x1) := by
  after_results_simp
  rfl

/-- The first statistics stretch, shift column of the first 64 rows: `β − (s / cnt) · scale` over the same sums. -/
theorem host1_sh1 (W : Valuation τ sig (Elt Ideal)) :
    (StableHlo.after (hostOps1 (F := Ideal)) W (Proc.devRef .tc main_v83) : S64x1.Idx → Elt Ideal .f32)
      = bnShift (F := Ideal) S64x1 bcast_S_S64x1 0x47800000#32
          (extractStridedSlice S64x1 ![0, 0] (Host.reduceAdd (F := Ideal) (W (Proc.devRef .tc main_v65_2)) (constant S_ .f32 0x00000000#32) reducesTo_S64x320x1_S320x1_d0 h_S_) slices_S320x1_S64x1_0_0)
          (extractStridedSlice S64x1 ![0, 0] (Host.reduceAdd (F := Ideal) (W (Proc.devRef .tc main_v65_3)) (constant S_ .f32 0x00000000#32) reducesTo_S64x320x1_S320x1_d0 h_S_) slices_S320x1_S64x1_0_0)
          (shapeCast S64x1 (W (Proc.devRef .tc main_arg5)) shapeCasts_S64_S64x1)
          (shapeCast S64x1 (W (Proc.devRef .tc main_arg6)) shapeCasts_S64_S64x1) := by
  after_results_simp
  rfl

/-- The first statistics stretch, scale column of the last 256 rows: rows 64 to 319 of the image sums go through the
    normalisation chain with the count 262144. -/
theorem host1_scs (W : Valuation τ sig (Elt Ideal)) :
    (StableHlo.after (hostOps1 (F := Ideal)) W (Proc.devRef .tc main_v96) : S256x1.Idx → Elt Ideal .f32)
      = bnScale (F := Ideal) S256x1 bcast_S_S256x1 0x48800000#32
          (extractStridedSlice S256x1 ![64, 0] (Host.reduceAdd (F := Ideal) (W (Proc.devRef .tc main_v65_2)) (constant S_ .f32 0x00000000#32) reducesTo_S64x320x1_S320x1_d0 h_S_) slices_S320x1_S256x1_64_0)
          (extractStridedSlice S256x1 ![64, 0] (Host.reduceAdd (F := Ideal) (W (Proc.devRef .tc main_v65_3)) (constant S_ .f32 0x00000000#32) reducesTo_S64x320x1_S320x1_d0 h_S_) slices_S320x1_S256x1_64_0)
          (shapeCast S256x1 (W (Proc.devRef .tc main_arg12)) shapeCasts_S256_S256x1) := by
  after_results_simp
  rfl

/-- The first statistics stretch, shift column of the last 256 rows. -/
theorem host1_shs (W : Valuation τ sig (Elt Ideal)) :
    (StableHlo.after (hostOps1 (F := Ideal)) W (Proc.devRef .tc main_v99) : S256x1.Idx → Elt Ideal .f32)
      = bnShift (F := Ideal) S256x1 bcast_S_S256x1 0x48800000#32
          (extractStridedSlice S256x1 ![64, 0] (Host.reduceAdd (F := Ideal) (W (Proc.devRef .tc main_v65_2)) (constant S_ .f32 0x00000000#32) reducesTo_S64x320x1_S320x1_d0 h_S_) slices_S320x1_S256x1_64_0)
          (extractStridedSlice S256x1 ![64, 0] (Host.reduceAdd (F := Ideal) (W (Proc.devRef .tc main_v65_3)) (constant S_ .f32 0x00000000#32) reducesTo_S64x320x1_S320x1_d0 h_S_) slices_S320x1_S256x1_64_0)
          (shapeCast S256x1 (W (Proc.devRef .tc main_arg12)) shapeCasts_S256_S256x1)
          (shapeCast S256x1 (W (Proc.devRef .tc main_arg13)) shapeCasts_S256_S256x1) := by
  after_results_simp
  rfl

end Cert.KernelIdeal.Val

end
-- ==== Proof.KerH2.lean ====
import proofs.«159567_g2000302752657622_pallasbulk_725_3_alg».proof.Proof.Gen.KernelIdeal.Frame
import proofs.«159567_g2000302752657622_pallasbulk_725_3_alg».proof.Proof.LibBnChain
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe
open Cert.Lib.BnChain

/-- The second statistics stretch, scale column. From the 64 per-image columns of channel sums and of channel sums of
    squares that the second region leaves, the stretch sums over the images, and runs the normalisation chain with
    the count 262144 and the column of the first scale argument: the scale is `γ · rsqrt (q / cnt − (s / cnt)² + ε)`. -/
theorem host2_sc2 (W : Valuation τ sig (Elt Ideal)) :
    (StableHlo.after (hostOps2 (F := Ideal)) W (Proc.devRef .tc main_v113) : S64x1.Idx → Elt Ideal .f32)
      = bnScale (F := Ideal) S64x1 bcast_S_S64x1 0x48800000#32
          (Host.reduceAdd (F := Ideal) (W (Proc.devRef .tc main_v100_1)) (constant S_ .f32 0x00000000#32) reducesTo_S64x64x1_S64x1_d0 h_S_)
          (Host.reduceAdd (F := Ideal) (W (Proc.devRef .tc main_v100_2)) (constant S_ .f32 0x00000000#32) reducesTo_S64x64x1_S64x1_d0 h_S_)
          (shapeCast S64x1 (W (Proc.devRef .tc main_arg7)) shapeCasts_S64_S64x1) := by
  after_results_simp
  rfl

/-- The second statistics stretch, shift column: `β − (s / cnt) · scale` over the same image sums, with the column of
    the shift argument. -/
theorem host2_sh2 (W : Valuation τ sig (Elt Ideal)) :
    (StableHlo.after (hostOps2 (F := Ideal)) W (Proc.devRef .tc main_v116) : S64x1.Idx → Elt Ideal .f32)
      = bnShift (F := Ideal) S64x1 bcast_S_S64x1 0x48800000#32
          (Host.reduceAdd (F := Ideal) (W (Proc.devRef .tc main_v100_1)) (constant S_ .f32 0x00000000#32) reducesTo_S64x64x1_S64x1_d0 h_S_)
          (Host.reduceAdd (F := Ideal) (W (Proc.devRef .tc main_v100_2)) (constant S_ .f32 0x00000000#32) reducesTo_S64x64x1_S64x1_d0 h_S_)
          (shapeCast S64x1 (W (Proc.devRef .tc main_arg7)) shapeCasts_S64_S64x1)
          (shapeCast S64x1 (W (Proc.devRef .tc main_arg8)) shapeCasts_S64_S64x1) := by
  after_results_simp
  rfl

end Cert.KernelIdeal.Val

end
-- ==== Proof.KerClosedA1.lean ====
import proofs.«159567_g2000302752657622_pallasbulk_725_3_alg».proof.Proof.Gen.KernelIdeal.Frame
import proofs.«159567_g2000302752657622_pallasbulk_725_3_alg».proof.Proof.Args
import proofs.«159567_g2000302752657622_pallasbulk_725_3_alg».proof.Proof.ArgsOf
import proofs.«159567_g2000302752657622_pallasbulk_725_3_alg».proof.Proof.KerDefs
import proofs.«159567_g2000302752657622_pallasbulk_725_3_alg».proof.Proof.KerWire2
import proofs.«159567_g2000302752657622_pallasbulk_725_3_alg».proof.Proof.KerWire3
import proofs.«159567_g2000302752657622_pallasbulk_725_3_alg».proof.Proof.KerH0
import proofs.«159567_g2000302752657622_pallasbulk_725_3_alg».proof.Proof.KerV0
import proofs.«159567_g2000302752657622_pallasbulk_725_3_alg».proof.Proof.KerH1
import proofs.«159567_g2000302752657622_pallasbulk_725_3_alg».proof.Proof.KerV1
import proofs.«159567_g2000302752657622_pallasbulk_725_3_alg».proof.Proof.KerH2

set_option maxRecDepth 16384

noncomputable section

namespace Cert.KernelIdeal.Val

open Cert.KernelIdeal Cert.KernelIdeal.Gen
open Idealize.ShloMosaic Idealize.ShloMosaic.TcCoe
open Cert.Lib.BnChain

/-! # The buffers as functions of the launch arguments: the first block up to its second normalisation

The definitions `kx`, `kwf0`, … give every buffer of the program as a function of the twenty-four argument arrays. Each lemma
below says that the buffer, at the boundary where it is read, holds that function of
the launch arguments: by the wiring (where the buffer was last written), the writer's statement, and the lemmas for the
buffers the writer read. No definition is unfolded except to match a stretch's statement at its last step. -/

/-! ## The first host stretch: the images flattened and the prepared weights -/

variable (m : (ℓ : Loc nD τ sig) → Buf (Elt Ideal) ℓ) (ρ : Dev nD → PrngReg) (c : Dev nD)

theorem org0_x : StableHlo.after (hostOps0 (F := Ideal)) (Gen.W0 m ρ c) (Proc.devRef .tc main_v0) = kx (argsOf m c) :=
  host0_x (Gen.W0 m ρ c)
theorem org0_wf0 : StableHlo.after (hostOps0 (F := Ideal)) (Gen.W0 m ρ c) (Proc.devRef .tc main_v2) = kwf0 (argsOf m c) :=
  host0_wf0 (Gen.W0 m ρ c)
theorem org0_wblk0 : StableHlo.after (hostOps0 (F := Ideal)) (Gen.W0 m ρ c) (Proc.devRef .tc main_v58) = kwblk0 (argsOf m c) :=
  host0_wblk0 (Gen.W0 m ρ c)
theorem org0_w3_0 : StableHlo.after (hostOps0 (F := Ideal)) (Gen.W0 m ρ c) (Proc.devRef .tc main_v59) = kw3_0 (argsOf m c) :=
  host0_w3_0 (Gen.W0 m ρ c)
theorem org0_w1_1 : StableHlo.after (hostOps0 (F := Ideal)) (Gen.W0 m ρ c) (Proc.devRef .tc main_v60) = kw1_1 (argsOf m c) :=
  host0_w1_1 (Gen.W0 m ρ c)
theorem org0_wcat1 : StableHlo.after (hostOps0 (F := Ideal)) (Gen.W0 m ρ c) (Proc.devRef .tc main_v63) = kwcat1 (argsOf m c) :=
  host0_wcat1 (Gen.W0 m ρ c)
theorem org0_w3_1 : StableHlo.after (hostOps0 (F := Ideal)) (Gen.W0 m ρ c) (Proc.devRef .tc main_v64) = kw3_1 (argsOf m c) :=
  host0_w3_1 (Gen.W0 m ρ c)

theorem buf1_x : Gen.V1 m ρ c main_v0 = kx (argsOf m c) := (wire0_0 m ρ c).trans (org0_x m ρ c)
theorem buf1_wf0 : Gen.V1 m ρ c main_v2 = kwf0 (argsOf m c) := (wire0_1 m ρ c).trans (org0_wf0 m ρ c)
theorem buf3_wblk0 : Gen.V3 m ρ c main_v58 = kwblk0 (argsOf m c) := (wire1_3 m ρ c).trans (org0_wblk0 m ρ c)
theorem buf7_w3_0 : Gen.V7 m ρ c main_v59 = kw3_0 (argsOf m c) := (wire3_4 m ρ c).trans (org0_w3_0 m ρ c)
theorem buf7_w1_1 : Gen.V7 m ρ c main_v60 = kw1_1 (argsOf m c) := (wire3_9 m ρ c).trans (org0_w1_1 m ρ c)
theorem buf9_wcat1 : Gen.V9 m ρ c main_v63 = kwcat1 (argsOf m c) := (wire4_3 m ρ c).trans (org0_wcat1 m ρ c)
theorem buf13_w3_1 : Gen.V13 m ρ c main_v64 = kw3_1 (argsOf m c) := (wire6_4 m ρ c).trans (org0_w3_1 m ρ c)
/-- The first block's border masks, an argument. -/
theorem buf3_masks0 : Gen.V3 m ρ c main_arg4 = (argsOf m c).a4 := (wire1_4 m ρ c).trans (argsOf_a4 m c).symm
/-- The second block's border masks, an argument. -/
theorem buf9_masks1 : Gen.V9 m ρ c main_arg17 = (argsOf m c).a17 := (wire4_4 m ρ c).trans (argsOf_a17 m c).symm

/-! ## Region 0: the first 1 × 1 convolution with the shortcut's, and their row sums -/

theorem reg0_y1 : (Gen.dat0 (Gen.V1 m ρ) c).arrAt 2 cfg0.N = ky1 (argsOf m c) :=
  (final0_2 (Gen.V1 m ρ) c).trans (congr (congrArg G0_2 (buf1_x m ρ c)) (buf1_wf0 m ρ c))
theorem reg0_sd : (Gen.dat0 (Gen.V1 m ρ) c).arrAt 3 cfg0.N = ksd (argsOf m c) :=
  (final0_3 (Gen.V1 m ρ) c).trans (congr (congrArg G0_3 (buf1_x m ρ c)) (buf1_wf0 m ρ c))
theorem reg0_sf : (Gen.dat0 (Gen.V1 m ρ) c).arrAt 4 cfg0.N = ksf (argsOf m c) :=
  (final0_4 (Gen.V1 m ρ) c).trans (congr (congrArg G0_4 (buf1_x m ρ c)) (buf1_wf0 m ρ c))
theorem reg0_qf : (Gen.dat0 (Gen.V1 m ρ) c).arrAt 5 cfg0.N = kqf (argsOf m c) :=
  (final0_5 (Gen.V1 m ρ) c).trans (congr (congrArg G0_5 (buf1_x m ρ c)) (buf1_wf0 m ρ c))

theorem buf3_y1 : Gen.V3 m ρ c main_v65_0 = ky1 (argsOf m c) := (wire1_0 m ρ c).trans (reg0_y1 m ρ c)
theorem buf7_sd : Gen.V7 m ρ c main_v65_1 = ksd (argsOf m c) := (wire3_1 m ρ c).trans (reg0_sd m ρ c)
theorem hbuf1_sf : Gen.W2 m ρ c (Proc.devRef .tc main_v65_2) = ksf (argsOf m c) := (hwire1_v65_2 m ρ c).trans (reg0_sf m ρ c)
theorem hbuf1_qf : Gen.W2 m ρ c (Proc.devRef .tc main_v65_3) = kqf (argsOf m c) := (hwire1_v65_3 m ρ c).trans (reg0_qf m ρ c)

/-! ## The second host stretch: the first normalisation's and the shortcut's scale and shift columns -/

theorem org1_sc1 : StableHlo.after (hostOps1 (F := Ideal)) (Gen.W2 m ρ c) (Proc.devRef .tc main_v80) = ksc1 (argsOf m c) := by
  refine (host1_sc1 (Gen.W2 m ρ c)).trans ?_
  rw [hbuf1_sf m ρ c, hbuf1_qf m ρ c, hwire1_arg5 m ρ c]
  rfl
theorem org1_sh1 : StableHlo.after (hostOps1 (F := Ideal)) (Gen.W2 m ρ c) (Proc.devRef .tc main_v83) = ksh1 (argsOf m c) := by
  refine (host1_sh1 (Gen.W2 m ρ c)).trans ?_
  rw [hbuf1_sf m ρ c, hbuf1_qf m ρ c, hwire1_arg5 m ρ c, hwire1_arg6 m ρ c]
  rfl
theorem org1_scs : StableHlo.after (hostOps1 (F := Ideal)) (Gen.W2 m ρ c) (Proc.devRef .tc main_v96) = kscs (argsOf m c) := by
  refine (host1_scs (Gen.W2 m ρ c)).trans ?_
  rw [hbuf1_sf m ρ c, hbuf1_qf m ρ c, hwire1_arg12 m ρ c]
  rfl
theorem org1_shs : StableHlo.after (hostOps1 (F := Ideal)) (Gen.W2 m ρ c) (Proc.devRef .tc main_v99) = kshs (argsOf m c) := by
  refine (host1_shs (Gen.W2 m ρ c)).trans ?_
  rw [hbuf1_sf m ρ c, hbuf1_qf m ρ c, hwire1_arg12 m ρ c, hwire1_arg13 m ρ c]
  rfl

theorem buf3_sc1 : Gen.V3 m ρ c main_v80 = ksc1 (argsOf m c) := (wire1_1 m ρ c).trans (org1_sc1 m ρ c)
theorem buf3_sh1 : Gen.V3 m ρ c main_v83 = ksh1 (argsOf m c) := (wire1_2 m ρ c).trans (org1_sh1 m ρ c)
theorem buf7_scs : Gen.V7 m ρ c main_v96 = kscs (argsOf m c) := (wire3_7 m ρ c).trans (org1_scs m ρ c)
theorem buf7_shs : Gen.V7 m ρ c main_v99 = kshs (argsOf m c) := (wire3_8 m ρ c).trans (org1_shs m ρ c)

/-! ## Region 1: the first block's 3 × 3 convolution as one block matrix product, and its row sums -/

theorem reg1_y2 : (Gen.dat1 (Gen.V3 m ρ) c).arrAt 5 cfg1.N = ky2 (argsOf m c) :=
  (final1_5 (Gen.V3 m ρ) c).trans
    (congr (congr (congr (congr (congrArg G1_5 (buf3_y1 m ρ c)) (buf3_sc1 m ρ c)) (buf3_sh1 m ρ c)) (buf3_wblk0 m ρ c)) (buf3_masks0 m ρ c))
theorem reg1_s2 : (Gen.dat1 (Gen.V3 m ρ) c).arrAt 6 cfg1.N = ks2 (argsOf m c) :=
  (final1_6 (Gen.V3 m ρ) c).trans
    (congr (congr (congr (congr (congrArg G1_6 (buf3_y1 m ρ c)) (buf3_sc1 m ρ c)) (buf3_sh1 m ρ c)) (buf3_wblk0 m ρ c)) (buf3_masks0 m ρ c))
theorem reg1_q2 : (Gen.dat1 (Gen.V3 m ρ) c).arrAt 7 cfg1.N = kq2 (argsOf m c) :=
  (final1_7 (Gen.V3 m ρ) c).trans
    (congr (congr (congr (congr (congrArg G1_7 (buf3_y1 m ρ c)) (buf3_sc1 m ρ c)) (buf3_sh1 m ρ c)) (buf3_wblk0 m ρ c)) (buf3_masks0 m ρ c))

theorem buf5_y2 : Gen.V5 m ρ c main_v100_0 = ky2 (argsOf m c) := (wire2_0 m ρ c).trans (reg1_y2 m ρ c)
theorem buf7_y2 : Gen.V7 m ρ c main_v100_0 = ky2 (argsOf m c) := (wire3_0 m ρ c).trans (reg1_y2 m ρ c)
theorem hbuf2_s2 : Gen.W4 m ρ c (Proc.devRef .tc main_v100_1) = ks2 (argsOf m c) := (hwire2_v100_1 m ρ c).trans (reg1_s2 m ρ c)
theorem hbuf2_q2 : Gen.W4 m ρ c (Proc.devRef .tc main_v100_2) = kq2 (argsOf m c) := (hwire2_v100_2 m ρ c).trans (reg1_q2 m ρ c)

/-! ## The third host stretch: the second normalisation's scale and shift columns -/

theorem org2_sc2 : StableHlo.after (hostOps2 (F := Ideal)) (Gen.W4 m ρ c) (Proc.devRef .tc main_v113) = ksc2 (argsOf m c) := by
  refine (host2_sc2 (Gen.W4 m ρ c)).trans ?_
  rw [hbuf2_s2 m ρ c, hbuf2_q2 m ρ c, hwire2_arg7 m ρ c]
  rfl
theorem org2_sh2 : StableHlo.after (hostOps2 (F := Ideal)) (Gen.W4 m ρ c) (Proc.devRef .tc main_v116) = ksh2 (argsOf m c) := by
  refine (host2_sh2 (Gen.W4 m ρ c)).trans ?_
  rw [hbuf2_s2 m ρ c, hbuf2_q2 m ρ c, hwire2_arg7 m ρ c, hwire2_arg8 m ρ c]
  rfl

theorem buf5_sc2 : Gen.V5 m ρ c main_v113 = ksc2 (argsOf m c) := (wire2_1 m ρ c).trans (org2_sc2 m ρ c)
theorem buf5_sh2 : Gen.V5 m ρ c main_v116 = ksh2 (argsOf m c) := (wire2_2 m ρ c).trans (org2_sh2 m ρ c)
theorem buf7_sc2 : Gen.V7 m ρ c main_v113 = ksc2 (argsOf m c) := (wire3_2 m ρ c).trans (org2_sc2 m ρ c)
theorem buf7_sh2 : Gen.V7 m ρ c main_v116 = ksh2 (argsOf m c) := (wire3_3 m ρ c).trans (org2_sh2 m ρ c)

end Cert.KernelIdeal.Val

end
-- ==== Proof.KerV3c.lean ====
import proofs.«159567_g2000302752657622_pallasbulk_725_3_alg».proof.Proof.Gen.KernelIdeal.Frame
import proofs.«159567_g2000302752657622_pallasbulk_725_3_alg».proof.Proof.KerV3a
import proofs.«159567_g2000302752657622_pallasbulk_725_3_alg».proof.Proof.KerV3b
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open R3 (lane prow)

/-! ## Region 3's windows -/

variable (V : (c : Dev nD) → (b : Ref sig .tc) → Buf (Elt Ideal) ((c : Thread nD τ).loc b))

theorem hz3_3 : (![0, 0, 0] : Fin 3 → Nat) = fun _ => 0 := funext fun a => by fin_cases a <;> rfl
theorem hz3_2 : (![0, 0] : Fin 2 → Nat) = fun _ => 0 := funext fun a => by fin_cases a <;> rfl

/-- The grid point as an image number. -/
abbrev pt3 (t : Fin cfg3.N) : Fin 64 := ⟨t.val, lt_of_lt_of_eq t.isLt Gen.N_3⟩

theorem arrRef3_0 : Pipeline.arrRef spec3 0 = main_v100_0 := rfl
theorem arrRef3_1 : Pipeline.arrRef spec3 1 = main_v65_1 := rfl
theorem arrRef3_2 : Pipeline.arrRef spec3 2 = main_v113 := rfl
theorem arrRef3_3 : Pipeline.arrRef spec3 3 = main_v116 := rfl
theorem arrRef3_4 : Pipeline.arrRef spec3 4 = main_v59 := rfl
theorem arrRef3_5 : Pipeline.arrRef spec3 5 = main_v135 := rfl
theorem arrRef3_6 : Pipeline.arrRef spec3 6 = main_v138 := rfl
theorem arrRef3_7 : Pipeline.arrRef spec3 7 = main_v96 := rfl
theorem arrRef3_8 : Pipeline.arrRef spec3 8 = main_v99 := rfl
theorem arrRef3_9 : Pipeline.arrRef spec3 9 = main_v60 := rfl
theorem arrRef3_10 : Pipeline.arrRef spec3 10 = main_v139_0 := rfl
theorem arrRef3_11 : Pipeline.arrRef spec3 11 = main_v139_1 := rfl
theorem arrRef3_12 : Pipeline.arrRef spec3 12 = main_v139_2 := rfl
theorem arrRef3_13 : Pipeline.arrRef spec3 13 = main_v139_3 := rfl

/-! ## The index maps, decided over the 64 grid points: a blocked window's block index is (t, 0, 0), the others' is zero -/

theorem idx3_0 : ∀ t : Fin cfg3.N, win3_0.index t (0 : Fin 3) = t.val ∧ win3_0.index t (1 : Fin 3) = 0 ∧ win3_0.index t (2 : Fin 3) = 0 :=
  (by decide +kernel : ∀ t : Fin grid3.N, _)
theorem idx3_1 : ∀ t : Fin cfg3.N, win3_1.index t (0 : Fin 3) = t.val ∧ win3_1.index t (1 : Fin 3) = 0 ∧ win3_1.index t (2 : Fin 3) = 0 :=
  (by decide +kernel : ∀ t : Fin grid3.N, _)
theorem idx3_10 : ∀ t : Fin cfg3.N, win3_10.index t (0 : Fin 3) = t.val ∧ win3_10.index t (1 : Fin 3) = 0 ∧ win3_10.index t (2 : Fin 3) = 0 :=
  (by decide +kernel : ∀ t : Fin grid3.N, _)
theorem idx3_11 : ∀ t : Fin cfg3.N, win3_11.index t (0 : Fin 3) = t.val ∧ win3_11.index t (1 : Fin 3) = 0 ∧ win3_11.index t (2 : Fin 3) = 0 :=
  (by decide +kernel : ∀ t : Fin grid3.N, _)
theorem idx3_12 : ∀ t : Fin cfg3.N, win3_12.index t (0 : Fin 3) = t.val ∧ win3_12.index t (1 : Fin 3) = 0 ∧ win3_12.index t (2 : Fin 3) = 0 :=
  (by decide +kernel : ∀ t : Fin grid3.N, _)
theorem idx3_13 : ∀ t : Fin cfg3.N, win3_13.index t (0 : Fin 3) = t.val ∧ win3_13.index t (1 : Fin 3) = 0 ∧ win3_13.index t (2 : Fin 3) = 0 :=
  (by decide +kernel : ∀ t : Fin grid3.N, _)

theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)

/-! ## A staged block read through its window -/

/-- Input window 0's block at point t is image t of its array. -/
theorem iblk3_0_apply (c : Dev nD) (t : Fin cfg3.N) (r : Fin 256) (l : Fin 1024) :
    (Gen.iblk3 V c 0 t : Vec Ideal S1x256x1024 .bf16) (ix3 (0 : Fin 1) r l)
      = (V c (Pipeline.arrRef spec3 0) : S64x256x1024.Idx → EReal) (ix3 (pt3 t) r l) := by
  obtain ⟨e0, e1, e2⟩ := idx3_0 t
  unfold Gen.iblk3
  rw [View.read_apply]
  refine congrArg (V c (Pipeline.arrRef spec3 0)) (funext fun a => Fin.ext ?_)
  match a with
  | ⟨0, _⟩ => show win3_0.index t (0 : Fin 3) * 1 + 1 * 0 = t.val; omega
  | ⟨1, _⟩ => show win3_0.index t (1 : Fin 3) * 256 + 1 * r.val = r.val; omega
  | ⟨2, _⟩ => show win3_0.index t (2 : Fin 3) * 1024 + 1 * l.val = l.val; omega

/-- Input window 1's block at point t is image t of its array. -/
theorem iblk3_1_apply (c : Dev nD) (t : Fin cfg3.N) (r : Fin 256) (l : Fin 1024) :
    (Gen.iblk3 V c 1 t : Vec Ideal S1x256x1024 .bf16) (ix3 (0 : Fin 1) r l)
      = (V c (Pipeline.arrRef spec3 1) : S64x256x1024.Idx → EReal) (ix3 (pt3 t) r l) := by
  obtain ⟨e0, e1, e2⟩ := idx3_1 t
  unfold Gen.iblk3
  rw [View.read_apply]
  refine congrArg (V c (Pipeline.arrRef spec3 1)) (funext fun a => Fin.ext ?_)
  match a with
  | ⟨0, _⟩ => show win3_1.index t (0 : Fin 3) * 1 + 1 * 0 = t.val; omega
  | ⟨1, _⟩ => show win3_1.index t (1 : Fin 3) * 256 + 1 * r.val = r.val; omega
  | ⟨2, _⟩ => show win3_1.index t (2 : Fin 3) * 1024 + 1 * l.val = l.val; omega

/-- Input window 2's block at every point is its whole array. -/
theorem iblk3_2_apply (c : Dev nD) (t : Fin cfg3.N) (i : S64x1.Idx) :
    (Gen.iblk3 V c 2 t : S64x1.Idx → EReal) i = (V c (Pipeline.arrRef spec3 2) : S64x1.Idx → EReal) i := by
  obtain ⟨e0, e1⟩ := idx3_2 t
  unfold Gen.iblk3
  rw [View.read_apply]
  refine congrArg (V c (Pipeline.arrRef spec3 2)) (funext fun a => Fin.ext ?_)
  match a with
  | ⟨0, _⟩ => show win3_2.index t (0 : Fin 2) * 64 + 1 * (i 0).val = (i 0).val; omega
  | ⟨1, _⟩ => show win3_2.index t (1 : Fin 2) * 1 + 1 * (i 1).val = (i 1).val; omega

/-- Input window 3's block at every point is its whole array. -/
theorem iblk3_3_apply (c : Dev nD) (t : Fin cfg3.N) (i : S64x1.Idx) :
    (Gen.iblk3 V c 3 t : S64x1.Idx → EReal) i = (V c (Pipeline.arrRef spec3 3) : S64x1.Idx → EReal) i := by
  obtain ⟨e0, e1⟩ := idx3_3 t
  unfold Gen.iblk3
  rw [View.read_apply]
  refine congrArg (V c (Pipeline.arrRef spec3 3)) (funext fun a => Fin.ext ?_)
  match a with
  | ⟨0, _⟩ => show win3_3.index t (0 : Fin 2) * 64 + 1 * (i 0).val = (i 0).val; omega
  | ⟨1, _⟩ => show win3_3.index t (1 : Fin 2) * 1 + 1 * (i 1).val = (i 1).val; omega

/-- Input window 4's block at every point is its whole array. -/
theorem iblk3_4_apply (c : Dev nD) (t : Fin cfg3.N) (i : S256x64.Idx) :
    (Gen.iblk3 V c 4 t : S256x64.Idx → EReal) i = (V c (Pipeline.arrRef spec3 4) : S256x64.Idx → EReal) i := by
  obtain ⟨e0, e1⟩ := idx3_4 t
  unfold Gen.iblk3
  rw [View.read_apply]
  refine congrArg (V c (Pipeline.arrRef spec3 4)) (funext fun a => Fin.ext ?_)
  match a with
  | ⟨0, _⟩ => show win3_4.index t (0 : Fin 2) * 256 + 1 * (i 0).val = (i 0).val; omega
  | ⟨1, _⟩ => show win3_4.index t (1 : Fin 2) * 64 + 1 * (i 1).val = (i 1).val; omega

/-- Input window 5's block at every point is its whole array. -/
theorem iblk3_5_apply (c : Dev nD) (t : Fin cfg3.N) (i : S256x1.Idx) :
    (Gen.iblk3 V c 5 t : S256x1.Idx → EReal) i = (V c (Pipeline.arrRef spec3 5) : S256x1.Idx → EReal) i := by
  obtain ⟨e0, e1⟩ := idx3_5 t
  unfold Gen.iblk3
  rw [View.read_apply]
  refine congrArg (V c (Pipeline.arrRef spec3 5)) (funext fun a => Fin.ext ?_)
  match a with
  | ⟨0, _⟩ => show win3_5.index t (0 : Fin 2) * 256 + 1 * (i 0).val = (i 0).val; omega
  | ⟨1, _⟩ => show win3_5.index t (1 : Fin 2) * 1 + 1 * (i 1).val = (i 1).val; omega

/-- Input window 6's block at every point is its whole array. -/
theorem iblk3_6_apply (c : Dev nD) (t : Fin cfg3.N) (i : S256x1.Idx) :
    (Gen.iblk3 V c 6 t : S256x1.Idx → EReal) i = (V c (Pipeline.arrRef spec3 6) : S256x1.Idx → EReal) i := by
  obtain ⟨e0, e1⟩ := idx3_6 t
  unfold Gen.iblk3
  rw [View.read_apply]
  refine congrArg (V c (Pipeline.arrRef spec3 6)) (funext fun a => Fin.ext ?_)
  match a with
  | ⟨0, _⟩ => show win3_6.index t (0 : Fin 2) * 256 + 1 * (i 0).val = (i 0).val; omega
  | ⟨1, _⟩ => show win3_6.index t (1 : Fin 2) * 1 + 1 * (i 1).val = (i 1).val; omega

/-- Input window 7's block at every point is its whole array. -/
theorem iblk3_7_apply (c : Dev nD) (t : Fin cfg3.N) (i : S256x1.Idx) :
    (Gen.iblk3 V c 7 t : S256x1.Idx → EReal) i = (V c (Pipeline.arrRef spec3 7) : S256x1.Idx → EReal) i := by
  obtain ⟨e0, e1⟩ := idx3_7 t
  unfold Gen.iblk3
  rw [View.read_apply]
  refine congrArg (V c (Pipeline.arrRef spec3 7)) (funext fun a => Fin.ext ?_)
  match a with
  | ⟨0, _⟩ => show win3_7.index t (0 : Fin 2) * 256 + 1 * (i 0).val = (i 0).val; omega
  | ⟨1, _⟩ => show win3_7.index t (1 : Fin 2) * 1 + 1 * (i 1).val = (i 1).val; omega

/-- Input window 8's block at every point is its whole array. -/
theorem iblk3_8_apply (c : Dev nD) (t : Fin cfg3.N) (i : S256x1.Idx) :
    (Gen.iblk3 V c 8 t : S256x1.Idx → EReal) i = (V c (Pipeline.arrRef spec3 8) : S256x1.Idx → EReal) i := by
  obtain ⟨e0, e1⟩ := idx3_8 t
  unfold Gen.iblk3
  rw [View.read_apply]
  refine congrArg (V c (Pipeline.arrRef spec3 8)) (funext fun a => Fin.ext ?_)
  match a with
  | ⟨0, _⟩ => show win3_8.index t (0 : Fin 2) * 256 + 1 * (i 0).val = (i 0).val; omega
  | ⟨1, _⟩ => show win3_8.index t (1 : Fin 2) * 1 + 1 * (i 1).val = (i 1).val; omega

/-- Input window 9's block at every point is its whole array. -/
theorem iblk3_9_apply (c : Dev nD) (t : Fin cfg3.N) (i : S64x256.Idx) :
    (Gen.iblk3 V c 9 t : S64x256.Idx → EReal) i = (V c (Pipeline.arrRef spec3 9) : S64x256.Idx → EReal) i := by
  obtain ⟨e0, e1⟩ := idx3_9 t
  unfold Gen.iblk3
  rw [View.read_apply]
  refine congrArg (V c (Pipeline.arrRef spec3 9)) (funext fun a => Fin.ext ?_)
  match a with
  | ⟨0, _⟩ => show win3_9.index t (0 : Fin 2) * 64 + 1 * (i 0).val = (i 0).val; omega
  | ⟨1, _⟩ => show win3_9.index t (1 : Fin 2) * 256 + 1 * (i 1).val = (i 1).val; omega

/-- The ten staged blocks of point t against the ten entry arrays. -/
theorem hblk3 (c : Dev nD) (t : Fin cfg3.N) :
    Blk3 (Gen.iblk3 V c 0 t) (Gen.iblk3 V c 1 t) (Gen.iblk3 V c 2 t) (Gen.iblk3 V c 3 t) (Gen.iblk3 V c 4 t) (Gen.iblk3 V c 5 t) (Gen.iblk3 V c 6 t) (Gen.iblk3 V c 7 t) (Gen.iblk3 V c 8 t) (Gen.iblk3 V c 9 t)
      (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (pt3 t) where
  h0 := iblk3_0_apply V c t
  h1 := iblk3_1_apply V c t
  h2 := fun _ => iblk3_2_apply V c t _
  h3 := fun _ => iblk3_3_apply V c t _
  h4 := fun _ _ => iblk3_4_apply V c t _
  h5 := fun _ => iblk3_5_apply V c t _
  h6 := fun _ => iblk3_6_apply V c t _
  h7 := fun _ => iblk3_7_apply V c t _
  h8 := fun _ => iblk3_8_apply V c t _
  h9 := fun _ _ => iblk3_9_apply V c t _

/-! ## What the body leaves in an output window's buffer: its one store's payload of the loaded blocks -/

theorem out3_10_eq (x0 x1 : Vec Ideal S1x256x1024 .bf16) (x2 x3 : Vec Ideal S64x1 .f32) (x4 : Vec Ideal S256x64 .bf16)
    (x5 x6 x7 x8 : Vec Ideal S256x1 .f32) (x9 : Vec Ideal S64x256 .bf16) :
    Gen.out3_10 x0 x1 x2 x3 x4 x5 x6 x7 x8 x9 = Gen.k3_pay2 (Gen.k3_pay7 x0 x2 x3 x4 x5 x6 x8) x1 x7 := by
  unfold Gen.out3_10
  rw [View.canon_unit_zero hz3_3]
  simp only [View.ld_unit_zero (S := S1x256x1024) hz3_3, View.ld_unit_zero (S := S64x1) hz3_2,
    View.ld_unit_zero (S := S256x64) hz3_2, View.ld_unit_zero (S := S256x1) hz3_2, View.ld_unit_zero (S := S64x256) hz3_2]

theorem out3_11_eq (x0 x1 : Vec Ideal S1x256x1024 .bf16) (x2 x3 : Vec Ideal S64x1 .f32) (x4 : Vec Ideal S256x64 .bf16)
    (x5 x6 x7 x8 : Vec Ideal S256x1 .f32) (x9 : Vec Ideal S64x256 .bf16) :
    Gen.out3_11 x0 x1 x2 x3 x4 x5 x6 x7 x8 x9 = Gen.k3_pay4 (Gen.k3_pay7 x0 x2 x3 x4 x5 x6 x8) x1 x7 x9 := by
  unfold Gen.out3_11
  rw [View.canon_unit_zero hz3_3]
  simp only [View.ld_unit_zero (S := S1x256x1024) hz3_3, View.ld_unit_zero (S := S64x1) hz3_2,
    View.ld_unit_zero (S := S256x64) hz3_2, View.ld_unit_zero (S := S256x1) hz3_2, View.ld_unit_zero (S := S64x256) hz3_2]

theorem out3_12_eq (x0 x1 : Vec Ideal S1x256x1024 .bf16) (x2 x3 : Vec Ideal S64x1 .f32) (x4 : Vec Ideal S256x64 .bf16)
    (x5 x6 x7 x8 : Vec Ideal S256x1 .f32) (x9 : Vec Ideal S64x256 .bf16) :
    Gen.out3_12 x0 x1 x2 x3 x4 x5 x6 x7 x8 x9 = Gen.k3_pay5 (Gen.k3_pay7 x0 x2 x3 x4 x5 x6 x8) x1 x7 x9 := by
  unfold Gen.out3_12
  rw [View.canon_unit_zero hz3_3]
  simp only [View.ld_unit_zero (S := S1x256x1024) hz3_3, View.ld_unit_zero (S := S64x1) hz3_2,
    View.ld_unit_zero (S := S256x64) hz3_2, View.ld_unit_zero (S := S256x1) hz3_2, View.ld_unit_zero (S := S64x256) hz3_2]

theorem out3_13_eq (x0 x1 : Vec Ideal S1x256x1024 .bf16) (x2 x3 : Vec Ideal S64x1 .f32) (x4 : Vec Ideal S256x64 .bf16)
    (x5 x6 x7 x8 : Vec Ideal S256x1 .f32) (x9 : Vec Ideal S64x256 .bf16) :
    Gen.out3_13 x0 x1 x2 x3 x4 x5 x6 x7 x8 x9 = Gen.k3_pay6 (Gen.k3_pay7 x0 x2 x3 x4 x5 x6 x8) x1 x7 x9 := by
  unfold Gen.out3_13
  rw [View.canon_unit_zero hz3_3]
  simp only [View.ld_unit_zero (S := S1x256x1024) hz3_3, View.ld_unit_zero (S := S64x1) hz3_2,
    View.ld_unit_zero (S := S256x64) hz3_2, View.ld_unit_zero (S := S256x1) hz3_2, View.ld_unit_zero (S := S64x256) hz3_2]

end Cert.KernelIdeal.Val

end
-- ==== Proof.KerV3.lean ====
import proofs.«159567_g2000302752657622_pallasbulk_725_3_alg».proof.Proof.Gen.KernelIdeal.Frame
import proofs.«159567_g2000302752657622_pallasbulk_725_3_alg».proof.Proof.KerV3a
import proofs.«159567_g2000302752657622_pallasbulk_725_3_alg».proof.Proof.KerV3b
import proofs.«159567_g2000302752657622_pallasbulk_725_3_alg».proof.Proof.KerV3c
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open R3 (lane prow)

variable (V : (c : Dev nD) → (b : Ref sig .tc) → Buf (Elt Ideal) ((c : Thread nD τ).loc b))

/-! ## Output window 10 -/

/-- What point t stores at an index of window 10's block is the specification at the array index under it. -/
theorem stored3_10 (c : Dev nD) (t : Fin cfg3.N) (y : S1x256x4096.Idx) :
    Gen.k3_pay2 (Gen.k3_pay7 (Gen.iblk3 V c 0 t) (Gen.iblk3 V c 2 t) (Gen.iblk3 V c 3 t) (Gen.iblk3 V c 4 t) (Gen.iblk3 V c 5 t) (Gen.iblk3 V c 6 t) (Gen.iblk3 V c 8 t)) (Gen.iblk3 V c 1 t) (Gen.iblk3 V c 7 t) y
      = G3_10 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (((cfg3.win 10).blk t).view.emb y) := by
  obtain ⟨u, j, L, rfl⟩ : ∃ (u : Fin 1) (j : Fin 256) (L : Fin 4096), y = ix3 u j L := ⟨y 0, y 1, y 2, eq_ix3 y⟩
  obtain ⟨e0, e1, e2⟩ := idx3_10 t
  have hu := u.isLt
  refine (blk3_10 (hblk3 V c t) u j L).trans (congrArg _ (funext fun a => Fin.ext ?_))
  match a with
  | ⟨0, _⟩ => show t.val = win3_10.index t (0 : Fin 3) * 1 + 1 * u.val; omega
  | ⟨1, _⟩ => show j.val = win3_10.index t (1 : Fin 3) * 256 + 1 * j.val; omega
  | ⟨2, _⟩ => show L.val = win3_10.index t (2 : Fin 3) * 4096 + 1 * L.val; omega

/-- What point t writes back to window 10's array is block t of the specification. -/
theorem flushed3_10_eq (c : Dev nD) (t : Fin cfg3.N) :
    (Gen.dat3 V c).flushed 10 t = ((cfg3.win 10).blk t).view.read (Elt Ideal)
      (G3_10 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) := by
  show (cfg3.win 10).cut (grid3.coords t) ((Gen.dat3 V c).after 10 t) = _
  rw [Gen.after3_10, out3_10_eq]
  funext y
  exact stored3_10 V c t y

/-- An index of window 10's array is in point t's block iff each coordinate is in the block's range. -/
theorem mem_blk3_10 (t : Fin cfg3.N) (i : S64x256x4096.Idx) :
    i ∈ ((cfg3.win 10).blk t).view.set ↔ ∀ a : Fin 3, win3_10.index t a * S1x256x4096.size a ≤ (i a).val ∧ (i a).val < win3_10.index t a * S1x256x4096.size a + S1x256x4096.size a := by
  show i ∈ ((View.whole main_v139_0).slice (win3_10.rect t)).set ↔ _
  rw [View.set_slice_whole, Rect.mem_set_unit]
  exact Iff.rfl

/-- Every index of window 10's array is in the block of its image's point. -/
theorem covered3_10 (i : S64x256x4096.Idx) :
    ∃ t : Fin cfg3.N, (cfg3.win 10).flush t = true ∧ i ∈ ((cfg3.win 10).blk t).view.set := by
  have hi0 : (i 0).val < 64 := (i 0).isLt
  have hi1 : (i 1).val < 256 := (i 1).isLt
  have hi2 : (i 2).val < 4096 := (i 2).isLt
  have hN : cfg3.N = 64 := Gen.N_3
  refine ⟨⟨(i 0).val, by rw [hN]; exact hi0⟩, Gen.flush3_10 _, ?_⟩
  obtain ⟨e0, e1, e2⟩ := idx3_10 ⟨(i 0).val, by rw [hN]; exact hi0⟩
  rw [mem_blk3_10]
  intro a
  match a with
  | ⟨0, _⟩ => show win3_10.index _ (0 : Fin 3) * 1 ≤ (i 0).val ∧ (i 0).val < win3_10.index _ (0 : Fin 3) * 1 + 1; rw [e0]; show (i 0).val * 1 ≤ (i 0).val ∧ (i 0).val < (i 0).val * 1 + 1; omega
  | ⟨1, _⟩ => show win3_10.index _ (1 : Fin 3) * 256 ≤ (i 1).val ∧ (i 1).val < win3_10.index _ (1 : Fin 3) * 256 + 256; rw [e1]; omega
  | ⟨2, _⟩ => show win3_10.index _ (2 : Fin 3) * 4096 ≤ (i 2).val ∧ (i 2).val < win3_10.index _ (2 : Fin 3) * 4096 + 4096; rw [e2]; omega

/-- Window 10's array after the region is the specification of the entry arrays. -/
theorem final3_10 (c : Dev nD) :
    (Gen.dat3 V c).arrAt 10 cfg3.N = G3_10 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (Gen.dat3 V c).arrAt_eq_of_cover 10 _ (fun t _ => flushed3_10_eq V c t) covered3_10

/-! ## Output window 11 -/

/-- What point t stores at an index of window 11's block is the specification at the array index under it. -/
theorem stored3_11 (c : Dev nD) (t : Fin cfg3.N) (y : S1x64x4096.Idx) :
    Gen.k3_pay4 (Gen.k3_pay7 (Gen.iblk3 V c 0 t) (Gen.iblk3 V c 2 t) (Gen.iblk3 V c 3 t) (Gen.iblk3 V c 4 t) (Gen.iblk3 V c 5 t) (Gen.iblk3 V c 6 t) (Gen.iblk3 V c 8 t)) (Gen.iblk3 V c 1 t) (Gen.iblk3 V c 7 t) (Gen.iblk3 V c 9 t) y
      = G3_11 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (((cfg3.win 11).blk t).view.emb y) := by
  obtain ⟨u, j, L, rfl⟩ : ∃ (u : Fin 1) (j : Fin 64) (L : Fin 4096), y = ix3 u j L := ⟨y 0, y 1, y 2, eq_ix3 y⟩
  obtain ⟨e0, e1, e2⟩ := idx3_11 t
  have hu := u.isLt
  refine (blk3_11 (hblk3 V c t) u j L).trans (congrArg _ (funext fun a => Fin.ext ?_))
  match a with
  | ⟨0, _⟩ => show t.val = win3_11.index t (0 : Fin 3) * 1 + 1 * u.val; omega
  | ⟨1, _⟩ => show j.val = win3_11.index t (1 : Fin 3) * 64 + 1 * j.val; omega
  | ⟨2, _⟩ => show L.val = win3_11.index t (2 : Fin 3) * 4096 + 1 * L.val; omega

/-- What point t writes back to window 11's array is block t of the specification. -/
theorem flushed3_11_eq (c : Dev nD) (t : Fin cfg3.N) :
    (Gen.dat3 V c).flushed 11 t = ((cfg3.win 11).blk t).view.read (Elt Ideal)
      (G3_11 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9))) := by
  show (cfg3.win 11).cut (grid3.coords t) ((Gen.dat3 V c).after 11 t) = _
  rw [Gen.after3_11, out3_11_eq]
  funext y
  exact stored3_11 V c t y

/-- An index of window 11's array is in point t's block iff each coordinate is in the block's range. -/
theorem mem_blk3_11 (t : Fin cfg3.N) (i : S64x64x4096.Idx) :
    i ∈ ((cfg3.win 11).blk t).view.set ↔ ∀ a : Fin 3, win3_11.index t a * S1x64x4096.size a ≤ (i a).val ∧ (i a).val < win3_11.index t a * S1x64x4096.size a + S1x64x4096.size a := by
  show i ∈ ((View.whole main_v139_1).slice (win3_11.rect t)).set ↔ _
  rw [View.set_slice_whole, Rect.mem_set_unit]
  exact Iff.rfl

/-- Every index of window 11's array is in the block of its image's point. -/
theorem covered3_11 (i : S64x64x4096.Idx) :
    ∃ t : Fin cfg3.N, (cfg3.win 11).flush t = true ∧ i ∈ ((cfg3.win 11).blk t).view.set := by
  have hi0 : (i 0).val < 64 := (i 0).isLt
  have hi1 : (i 1).val < 64 := (i 1).isLt
  have hi2 : (i 2).val < 4096 := (i 2).isLt
  have hN : cfg3.N = 64 := Gen.N_3
  refine ⟨⟨(i 0).val, by rw [hN]; exact hi0⟩, Gen.flush3_11 _, ?_⟩
  obtain ⟨e0, e1, e2⟩ := idx3_11 ⟨(i 0).val, by rw [hN]; exact hi0⟩
  rw [mem_blk3_11]
  intro a
  match a with
  | ⟨0, _⟩ => show win3_11.index _ (0 : Fin 3) * 1 ≤ (i 0).val ∧ (i 0).val < win3_11.index _ (0 : Fin 3) * 1 + 1; rw [e0]; show (i 0).val * 1 ≤ (i 0).val ∧ (i 0).val < (i 0).val * 1 + 1; omega
  | ⟨1, _⟩ => show win3_11.index _ (1 : Fin 3) * 64 ≤ (i 1).val ∧ (i 1).val < win3_11.index _ (1 : Fin 3) * 64 + 64; rw [e1]; omega
  | ⟨2, _⟩ => show win3_11.index _ (2 : Fin 3) * 4096 ≤ (i 2).val ∧ (i 2).val < win3_11.index _ (2 : Fin 3) * 4096 + 4096; rw [e2]; omega

/-- Window 11's array after the region is the specification of the entry arrays. -/
theorem final3_11 (c : Dev nD) :
    (Gen.dat3 V c).arrAt 11 cfg3.N = G3_11 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) :=
  (Gen.dat3 V c).arrAt_eq_of_cover 11 _ (fun t _ => flushed3_11_eq V c t) covered3_11

/-! ## Output window 12 -/

/-- What point t stores at an index of window 12's block is the specification at the array index under it. -/
theorem stored3_12 (c : Dev nD) (t : Fin cfg3.N) (y : S1x64x1.Idx) :
    Gen.k3_pay5 (Gen.k3_pay7 (Gen.iblk3 V c 0 t) (Gen.iblk3 V c 2 t) (Gen.iblk3 V c 3 t) (Gen.iblk3 V c 4 t) (Gen.iblk3 V c 5 t) (Gen.iblk3 V c 6 t) (Gen.iblk3 V c 8 t)) (Gen.iblk3 V c 1 t) (Gen.iblk3 V c 7 t) (Gen.iblk3 V c 9 t) y
      = G3_12 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (((cfg3.win 12).blk t).view.emb y) := by
  obtain ⟨u, j, L, rfl⟩ : ∃ (u : Fin 1) (j : Fin 64) (L : Fin 1), y = ix3 u j L := ⟨y 0, y 1, y 2, eq_ix3 y⟩
  obtain ⟨e0, e1, e2⟩ := idx3_12 t
  have hu := u.isLt
  refine (blk3_12 (hblk3 V c t) u j L).trans (congrArg _ (funext fun a => Fin.ext ?_))
  match a with
  | ⟨0, _⟩ => show t.val = win3_12.index t (0 : Fin 3) * 1 + 1 * u.val; omega
  | ⟨1, _⟩ => show j.val = win3_12.index t (1 : Fin 3) * 64 + 1 * j.val; omega
  | ⟨2, _⟩ => show L.val = win3_12.index t (2 : Fin 3) * 1 + 1 * L.val; omega

/-- What point t writes back to window 12's array is block t of the specification. -/
theorem flushed3_12_eq (c : Dev nD) (t : Fin cfg3.N) :
    (Gen.dat3 V c).flushed 12 t = ((cfg3.win 12).blk t).view.read (Elt Ideal)
      (G3_12 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9))) := by
  show (cfg3.win 12).cut (grid3.coords t) ((Gen.dat3 V c).after 12 t) = _
  rw [Gen.after3_12, out3_12_eq]
  funext y
  exact stored3_12 V c t y

/-- An index of window 12's array is in point t's block iff each coordinate is in the block's range. -/
theorem mem_blk3_12 (t : Fin cfg3.N) (i : S64x64x1.Idx) :
    i ∈ ((cfg3.win 12).blk t).view.set ↔ ∀ a : Fin 3, win3_12.index t a * S1x64x1.size a ≤ (i a).val ∧ (i a).val < win3_12.index t a * S1x64x1.size a + S1x64x1.size a := by
  show i ∈ ((View.whole main_v139_2).slice (win3_12.rect t)).set ↔ _
  rw [View.set_slice_whole, Rect.mem_set_unit]
  exact Iff.rfl

/-- Every index of window 12's array is in the block of its image's point. -/
theorem covered3_12 (i : S64x64x1.Idx) :
    ∃ t : Fin cfg3.N, (cfg3.win 12).flush t = true ∧ i ∈ ((cfg3.win 12).blk t).view.set := by
  have hi0 : (i 0).val < 64 := (i 0).isLt
  have hi1 : (i 1).val < 64 := (i 1).isLt
  have hi2 : (i 2).val < 1 := (i 2).isLt
  have hN : cfg3.N = 64 := Gen.N_3
  refine ⟨⟨(i 0).val, by rw [hN]; exact hi0⟩, Gen.flush3_12 _, ?_⟩
  obtain ⟨e0, e1, e2⟩ := idx3_12 ⟨(i 0).val, by rw [hN]; exact hi0⟩
  rw [mem_blk3_12]
  intro a
  match a with
  | ⟨0, _⟩ => show win3_12.index _ (0 : Fin 3) * 1 ≤ (i 0).val ∧ (i 0).val < win3_12.index _ (0 : Fin 3) * 1 + 1; rw [e0]; show (i 0).val * 1 ≤ (i 0).val ∧ (i 0).val < (i 0).val * 1 + 1; omega
  | ⟨1, _⟩ => show win3_12.index _ (1 : Fin 3) * 64 ≤ (i 1).val ∧ (i 1).val < win3_12.index _ (1 : Fin 3) * 64 + 64; rw [e1]; omega
  | ⟨2, _⟩ => show win3_12.index _ (2 : Fin 3) * 1 ≤ (i 2).val ∧ (i 2).val < win3_12.index _ (2 : Fin 3) * 1 + 1; rw [e2]; omega

/-- Window 12's array after the region is the specification of the entry arrays. -/
theorem final3_12 (c : Dev nD) :
    (Gen.dat3 V c).arrAt 12 cfg3.N = G3_12 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) :=
  (Gen.dat3 V c).arrAt_eq_of_cover 12 _ (fun t _ => flushed3_12_eq V c t) covered3_12

/-! ## Output window 13 -/

/-- What point t stores at an index of window 13's block is the specification at the array index under it. -/
theorem stored3_13 (c : Dev nD) (t : Fin cfg3.N) (y : S1x64x1.Idx) :
    Gen.k3_pay6 (Gen.k3_pay7 (Gen.iblk3 V c 0 t) (Gen.iblk3 V c 2 t) (Gen.iblk3 V c 3 t) (Gen.iblk3 V c 4 t) (Gen.iblk3 V c 5 t) (Gen.iblk3 V c 6 t) (Gen.iblk3 V c 8 t)) (Gen.iblk3 V c 1 t) (Gen.iblk3 V c 7 t) (Gen.iblk3 V c 9 t) y
      = G3_13 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (((cfg3.win 13).blk t).view.emb y) := by
  obtain ⟨u, j, L, rfl⟩ : ∃ (u : Fin 1) (j : Fin 64) (L : Fin 1), y = ix3 u j L := ⟨y 0, y 1, y 2, eq_ix3 y⟩
  obtain ⟨e0, e1, e2⟩ := idx3_13 t
  have hu := u.isLt
  refine (blk3_13 (hblk3 V c t) u j L).trans (congrArg _ (funext fun a => Fin.ext ?_))
  match a with
  | ⟨0, _⟩ => show t.val = win3_13.index t (0 : Fin 3) * 1 + 1 * u.val; omega
  | ⟨1, _⟩ => show j.val = win3_13.index t (1 : Fin 3) * 64 + 1 * j.val; omega
  | ⟨2, _⟩ => show L.val = win3_13.index t (2 : Fin 3) * 1 + 1 * L.val; omega

/-- What point t writes back to window 13's array is block t of the specification. -/
theorem flushed3_13_eq (c : Dev nD) (t : Fin cfg3.N) :
    (Gen.dat3 V c).flushed 13 t = ((cfg3.win 13).blk t).view.read (Elt Ideal)
      (G3_13 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9))) := by
  show (cfg3.win 13).cut (grid3.coords t) ((Gen.dat3 V c).after 13 t) = _
  rw [Gen.after3_13, out3_13_eq]
  funext y
  exact stored3_13 V c t y

/-- An index of window 13's array is in point t's block iff each coordinate is in the block's range. -/
theorem mem_blk3_13 (t : Fin cfg3.N) (i : S64x64x1.Idx) :
    i ∈ ((cfg3.win 13).blk t).view.set ↔ ∀ a : Fin 3, win3_13.index t a * S1x64x1.size a ≤ (i a).val ∧ (i a).val < win3_13.index t a * S1x64x1.size a + S1x64x1.size a := by
  show i ∈ ((View.whole main_v139_3).slice (win3_13.rect t)).set ↔ _
  rw [View.set_slice_whole, Rect.mem_set_unit]
  exact Iff.rfl

/-- Every index of window 13's array is in the block of its image's point. -/
theorem covered3_13 (i : S64x64x1.Idx) :
    ∃ t : Fin cfg3.N, (cfg3.win 13).flush t = true ∧ i ∈ ((cfg3.win 13).blk t).view.set := by
  have hi0 : (i 0).val < 64 := (i 0).isLt
  have hi1 : (i 1).val < 64 := (i 1).isLt
  have hi2 : (i 2).val < 1 := (i 2).isLt
  have hN : cfg3.N = 64 := Gen.N_3
  refine ⟨⟨(i 0).val, by rw [hN]; exact hi0⟩, Gen.flush3_13 _, ?_⟩
  obtain ⟨e0, e1, e2⟩ := idx3_13 ⟨(i 0).val, by rw [hN]; exact hi0⟩
  rw [mem_blk3_13]
  intro a
  match a with
  | ⟨0, _⟩ => show win3_13.index _ (0 : Fin 3) * 1 ≤ (i 0).val ∧ (i 0).val < win3_13.index _ (0 : Fin 3) * 1 + 1; rw [e0]; show (i 0).val * 1 ≤ (i 0).val ∧ (i 0).val < (i 0).val * 1 + 1; omega
  | ⟨1, _⟩ => show win3_13.index _ (1 : Fin 3) * 64 ≤ (i 1).val ∧ (i 1).val < win3_13.index _ (1 : Fin 3) * 64 + 64; rw [e1]; omega
  | ⟨2, _⟩ => show win3_13.index _ (2 : Fin 3) * 1 ≤ (i 2).val ∧ (i 2).val < win3_13.index _ (2 : Fin 3) * 1 + 1; rw [e2]; omega

/-- Window 13's array after the region is the specification of the entry arrays. -/
theorem final3_13 (c : Dev nD) :
    (Gen.dat3 V c).arrAt 13 cfg3.N = G3_13 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) :=
  (Gen.dat3 V c).arrAt_eq_of_cover 13 _ (fun t _ => flushed3_13_eq V c t) covered3_13

end Cert.KernelIdeal.Val

end
-- ==== Proof.KerH4.lean ====
import proofs.«159567_g2000302752657622_pallasbulk_725_3_alg».proof.Proof.Gen.KernelIdeal.Frame
import proofs.«159567_g2000302752657622_pallasbulk_725_3_alg».proof.Proof.LibUninterleave
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Cert.Lib.Unint
open scoped BigOperators

/-! ## The fourth host stretch: the two un-interleavings and the two statistics sums

The stretch turns the third region's two phase-major outputs (256 channels in f32, 64 channels in bf16) back to spatial
row-major order, and sums that region's two per-image statistics over the 64 images. -/

/-- The f32 un-interleaving as the stretch's three layout operations applied to the third region's first output. -/
theorem host4_v158 (W : Valuation τ sig (Elt Ideal)) :
    (StableHlo.after (hostOps4 (F := Ideal)) W (Proc.devRef .tc main_v158) : S64x256x4096.Idx → EReal)
      = shapeCast S64x256x4096
          (transpose S64x256x32x2x32x2 [0, 1, 4, 2, 5, 3]
            (shapeCast S64x256x2x2x32x32 (W (Proc.devRef .tc main_v139_0) : S64x256x4096.Idx → EReal)
              shapeCasts_S64x256x4096_S64x256x2x2x32x32)
            transposes_S64x256x2x2x32x32_S64x256x32x2x32x2_0_1_4_2_5_3)
          shapeCasts_S64x256x32x2x32x2_S64x256x4096 := by
  dsimp only [hostOps4]
  after_results
  rfl

/-- The bf16 un-interleaving as the stretch's three layout operations applied to the third region's second output. -/
theorem host4_v161 (W : Valuation τ sig (Elt Ideal)) :
    (StableHlo.after (hostOps4 (F := Ideal)) W (Proc.devRef .tc main_v161) : S64x64x4096.Idx → EReal)
      = shapeCast S64x64x4096
          (transpose S64x64x32x2x32x2 [0, 1, 4, 2, 5, 3]
            (shapeCast S64x64x2x2x32x32 (W (Proc.devRef .tc main_v139_1) : S64x64x4096.Idx → EReal)
              shapeCasts_S64x64x4096_S64x64x2x2x32x32)
            transposes_S64x64x2x2x32x32_S64x64x32x2x32x2_0_1_4_2_5_3)
          shapeCasts_S64x64x32x2x32x2_S64x64x4096 := by
  dsimp only [hostOps4]
  after_results
  rfl

/-- The f32 un-interleaved array at image `n`, channel `c`, spatial lane `L` is the phase-major array at lane `lanePerm L`. -/
theorem unint4_f32_apply (W : Valuation τ sig (Elt Ideal)) (n : Fin 64) (c : Fin 256) (L : Fin 4096) :
    (StableHlo.after (hostOps4 (F := Ideal)) W (Proc.devRef .tc main_v158) : S64x256x4096.Idx → EReal) (ix3 n c L)
      = (W (Proc.devRef .tc main_v139_0) : S64x256x4096.Idx → EReal) (ix3 n c (lanePerm L)) :=
  (congrFun (host4_v158 W) (ix3 n c L)).trans (unint_apply _ _ _ _ n c L)

/-- The bf16 un-interleaved array at image `n`, channel `c`, spatial lane `L` is the phase-major array at lane `lanePerm L`. -/
theorem unint4_bf16_apply (W : Valuation τ sig (Elt Ideal)) (n : Fin 64) (c : Fin 64) (L : Fin 4096) :
    (StableHlo.after (hostOps4 (F := Ideal)) W (Proc.devRef .tc main_v161) : S64x64x4096.Idx → EReal) (ix3 n c L)
      = (W (Proc.devRef .tc main_v139_1) : S64x64x4096.Idx → EReal) (ix3 n c (lanePerm L)) :=
  (congrFun (host4_v161 W) (ix3 n c L)).trans (unint_apply _ _ _ _ n c L)

theorem reduces_S64x64x1_S64x1_d0 : S64x64x1.Reduces [0] S64x1 := by decide

/-- The first statistics sum as the stretch's reduction applied to the third region's third output. -/
theorem host4_v140_op (W : Valuation τ sig (Elt Ideal)) :
    (StableHlo.after (hostOps4 (F := Ideal)) W (Proc.devRef .tc main_v140) : S64x1.Idx → EReal)
      = Host.reduceAdd (W (Proc.devRef .tc main_v139_2) : S64x64x1.Idx → EReal) (constant (F := Ideal) S_ .f32 0x00000000#32)
          reducesTo_S64x64x1_S64x1_d0 h_S_ := by
  dsimp only [hostOps4]
  after_results

/-- The second statistics sum as the stretch's reduction applied to the third region's fourth output. -/
theorem host4_v141_op (W : Valuation τ sig (Elt Ideal)) :
    (StableHlo.after (hostOps4 (F := Ideal)) W (Proc.devRef .tc main_v141) : S64x1.Idx → EReal)
      = Host.reduceAdd (W (Proc.devRef .tc main_v139_3) : S64x64x1.Idx → EReal) (constant (F := Ideal) S_ .f32 0x00000000#32)
          reducesTo_S64x64x1_S64x1_d0 h_S_ := by
  dsimp only [hostOps4]
  after_results

/-- The f32 un-interleaved array, whole: the un-interleaving of the third region's first output. -/
theorem host4_v158_unint (W : Valuation τ sig (Elt Ideal)) :
    (StableHlo.after (hostOps4 (F := Ideal)) W (Proc.devRef .tc main_v158) : S64x256x4096.Idx → EReal)
      = unint (W (Proc.devRef .tc main_v139_0)) :=
  (host4_v158 W).trans (unint_eq _ _ _ _)

/-- The bf16 un-interleaved array, whole: the un-interleaving of the third region's second output. -/
theorem host4_v161_unint (W : Valuation τ sig (Elt Ideal)) :
    (StableHlo.after (hostOps4 (F := Ideal)) W (Proc.devRef .tc main_v161) : S64x64x4096.Idx → EReal)
      = unint (W (Proc.devRef .tc main_v139_1)) :=
  (host4_v161 W).trans (unint_eq _ _ _ _)

/-- The first statistics sum, whole: at channel `c` the sum over the 64 images of the third region's third output. -/
theorem host4_v140 (W : Valuation τ sig (Elt Ideal)) :
    (StableHlo.after (hostOps4 (F := Ideal)) W (Proc.devRef .tc main_v140) : S64x1.Idx → EReal)
      = imageSum (W (Proc.devRef .tc main_v139_2)) :=
  (host4_v140_op W).trans (reduceAdd_eq_imageSum _ _ _ reduces_S64x64x1_S64x1_d0)

/-- The second statistics sum, whole: at channel `c` the sum over the 64 images of the third region's fourth output. -/
theorem host4_v141 (W : Valuation τ sig (Elt Ideal)) :
    (StableHlo.after (hostOps4 (F := Ideal)) W (Proc.devRef .tc main_v141) : S64x1.Idx → EReal)
      = imageSum (W (Proc.devRef .tc main_v139_3)) :=
  (host4_v141_op W).trans (reduceAdd_eq_imageSum _ _ _ reduces_S64x64x1_S64x1_d0)

end Cert.KernelIdeal.Val

end
-- ==== Proof.KerH4b.lean ====
import proofs.«159567_g2000302752657622_pallasbulk_725_3_alg».proof.Proof.Gen.KernelIdeal.Frame
import proofs.«159567_g2000302752657622_pallasbulk_725_3_alg».proof.Proof.LibBnChain
import proofs.«159567_g2000302752657622_pallasbulk_725_3_alg».proof.Proof.LibUninterleave
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe
open Cert.Lib.BnChain Cert.Lib.Unint

/-- The fourth statistics stretch, scale column. The 64 per-image columns of channel sums and of channel sums of squares
    that the fourth region leaves are summed over the images, and the normalisation chain runs with the count 262144:
    the scale is `γ · rsqrt (q / cnt − (s / cnt)² + ε)` with the column of the scale argument. -/
theorem host4_sc11 (W : Valuation τ sig (Elt Ideal)) :
    (StableHlo.after (hostOps4 (F := Ideal)) W (Proc.devRef .tc main_v152) : S64x1.Idx → Elt Ideal .f32)
      = bnScale (F := Ideal) S64x1 bcast_S_S64x1 0x48800000#32
          (Host.reduceAdd (F := Ideal) (W (Proc.devRef .tc main_v139_2)) (constant S_ .f32 0x00000000#32) reducesTo_S64x64x1_S64x1_d0 h_S_)
          (Host.reduceAdd (F := Ideal) (W (Proc.devRef .tc main_v139_3)) (constant S_ .f32 0x00000000#32) reducesTo_S64x64x1_S64x1_d0 h_S_)
          (shapeCast S64x1 (W (Proc.devRef .tc main_arg18)) shapeCasts_S64_S64x1) := by
  after_results_simp
  rfl

/-- The fourth statistics stretch, shift column: `β − (s / cnt) · scale` over the same image sums. -/
theorem host4_sh11 (W : Valuation τ sig (Elt Ideal)) :
    (StableHlo.after (hostOps4 (F := Ideal)) W (Proc.devRef .tc main_v155) : S64x1.Idx → Elt Ideal .f32)
      = bnShift (F := Ideal) S64x1 bcast_S_S64x1 0x48800000#32
          (Host.reduceAdd (F := Ideal) (W (Proc.devRef .tc main_v139_2)) (constant S_ .f32 0x00000000#32) reducesTo_S64x64x1_S64x1_d0 h_S_)
          (Host.reduceAdd (F := Ideal) (W (Proc.devRef .tc main_v139_3)) (constant S_ .f32 0x00000000#32) reducesTo_S64x64x1_S64x1_d0 h_S_)
          (shapeCast S64x1 (W (Proc.devRef .tc main_arg18)) shapeCasts_S64_S64x1)
          (shapeCast S64x1 (W (Proc.devRef .tc main_arg19)) shapeCasts_S64_S64x1) := by
  after_results_simp
  rfl

/-- The scale column over the sums over the 64 images of the two per-image statistics. -/
theorem host4_sc11_imageSum (W : Valuation τ sig (Elt Ideal)) :
    (StableHlo.after (hostOps4 (F := Ideal)) W (Proc.devRef .tc main_v152) : S64x1.Idx → Elt Ideal .f32)
      = bnScale (F := Ideal) S64x1 bcast_S_S64x1 0x48800000#32
          (imageSum (W (Proc.devRef .tc main_v139_2))) (imageSum (W (Proc.devRef .tc main_v139_3)))
          (shapeCast S64x1 (W (Proc.devRef .tc main_arg18)) shapeCasts_S64_S64x1) := by
  rw [host4_sc11, reduceAdd_eq_imageSum _ _ _ (by decide), reduceAdd_eq_imageSum _ _ _ (by decide)]

/-- The shift column over the same sums over the images. -/
theorem host4_sh11_imageSum (W : Valuation τ sig (Elt Ideal)) :
    (StableHlo.after (hostOps4 (F := Ideal)) W (Proc.devRef .tc main_v155) : S64x1.Idx → Elt Ideal .f32)
      = bnShift (F := Ideal) S64x1 bcast_S_S64x1 0x48800000#32
          (imageSum (W (Proc.devRef .tc main_v139_2))) (imageSum (W (Proc.devRef .tc main_v139_3)))
          (shapeCast S64x1 (W (Proc.devRef .tc main_arg18)) shapeCasts_S64_S64x1)
          (shapeCast S64x1 (W (Proc.devRef .tc main_arg19)) shapeCasts_S64_S64x1) := by
  rw [host4_sh11, reduceAdd_eq_imageSum _ _ _ (by decide), reduceAdd_eq_imageSum _ _ _ (by decide)]

end Cert.KernelIdeal.Val

end
-- ==== Proof.KerClosedA2.lean ====
import proofs.«159567_g2000302752657622_pallasbulk_725_3_alg».proof.Proof.Gen.KernelIdeal.Frame
import proofs.«159567_g2000302752657622_pallasbulk_725_3_alg».proof.Proof.Args
import proofs.«159567_g2000302752657622_pallasbulk_725_3_alg».proof.Proof.ArgsOf
import proofs.«159567_g2000302752657622_pallasbulk_725_3_alg».proof.Proof.KerDefs
import proofs.«159567_g2000302752657622_pallasbulk_725_3_alg».proof.Proof.KerWire2
import proofs.«159567_g2000302752657622_pallasbulk_725_3_alg».proof.Proof.KerWire3
import proofs.«159567_g2000302752657622_pallasbulk_725_3_alg».proof.Proof.KerClosedA1
import proofs.«159567_g2000302752657622_pallasbulk_725_3_alg».proof.Proof.KerV2
import proofs.«159567_g2000302752657622_pallasbulk_725_3_alg».proof.Proof.KerH3
import proofs.«159567_g2000302752657622_pallasbulk_725_3_alg».proof.Proof.KerV3
import proofs.«159567_g2000302752657622_pallasbulk_725_3_alg».proof.Proof.KerH4
import proofs.«159567_g2000302752657622_pallasbulk_725_3_alg».proof.Proof.KerH4b
import proofs.«159567_g2000302752657622_pallasbulk_725_3_alg».proof.Proof.LibUninterleave

set_option maxRecDepth 16384

noncomputable section

namespace Cert.KernelIdeal.Val

open Cert.KernelIdeal Cert.KernelIdeal.Gen
open Idealize.ShloMosaic Idealize.ShloMosaic.TcCoe
open Cert.Lib.BnChain

open Cert.Lib.Unint

variable (m : (ℓ : Loc nD τ sig) → Buf (Elt Ideal) ℓ) (ρ : Dev nD → PrngReg) (c : Dev nD)

/-! # The buffers as functions of the launch arguments: the first block from its Gram matrices to its output

The continuation of the first part, in program order: region 2, the fourth host stretch, region 3, the fifth host
stretch. -/

/-! ## Region 2: the Gram matrices and lane sums of the normalised activations -/

theorem reg2_g0 : (Gen.dat2 (Gen.V5 m ρ) c).arrAt 3 cfg2.N = kg0 (argsOf m c) :=
  (final2_3 (Gen.V5 m ρ) c).trans (congr (congr (congrArg G2_3 (buf5_y2 m ρ c)) (buf5_sc2 m ρ c)) (buf5_sh2 m ρ c))
theorem reg2_zs0 : (Gen.dat2 (Gen.V5 m ρ) c).arrAt 4 cfg2.N = kzs0 (argsOf m c) :=
  (final2_4 (Gen.V5 m ρ) c).trans (congr (congr (congrArg G2_4 (buf5_y2 m ρ c)) (buf5_sc2 m ρ c)) (buf5_sh2 m ρ c))

theorem hbuf3_g0 : Gen.W6 m ρ c (Proc.devRef .tc main_v117_0) = kg0 (argsOf m c) := (hwire3_v117_0 m ρ c).trans (reg2_g0 m ρ c)
theorem hbuf3_zs0 : Gen.W6 m ρ c (Proc.devRef .tc main_v117_1) = kzs0 (argsOf m c) := (hwire3_v117_1 m ρ c).trans (reg2_zs0 m ρ c)

/-! ## The fourth host stretch: the third normalisation's columns, its sums recovered from the Gram matrices -/

theorem org3_sc3 : StableHlo.after (hostOps3 (F := Ideal)) (Gen.W6 m ρ c) (Proc.devRef .tc main_v135) = ksc3 (argsOf m c) := by
  refine (host3_sc3 (Gen.W6 m ρ c)).trans ?_
  rw [hbuf3_zs0 m ρ c, hbuf3_g0 m ρ c, hwire3_arg2 m ρ c, hwire3_arg9 m ρ c]
  rfl
theorem org3_sh3 : StableHlo.after (hostOps3 (F := Ideal)) (Gen.W6 m ρ c) (Proc.devRef .tc main_v138) = ksh3 (argsOf m c) := by
  refine (host3_sh3 (Gen.W6 m ρ c)).trans ?_
  rw [hbuf3_zs0 m ρ c, hbuf3_g0 m ρ c, hwire3_arg2 m ρ c, hwire3_arg9 m ρ c, hwire3_arg10 m ρ c]
  rfl

theorem buf7_sc3 : Gen.V7 m ρ c main_v135 = ksc3 (argsOf m c) := (wire3_5 m ρ c).trans (org3_sc3 m ρ c)
theorem buf7_sh3 : Gen.V7 m ρ c main_v138 = ksh3 (argsOf m c) := (wire3_6 m ρ c).trans (org3_sh3 m ρ c)

/-! ## Region 3: the first block's output with its shortcut, the second block's first 1 × 1 convolution, and its row sums -/

theorem reg3_out0ph : (Gen.dat3 (Gen.V7 m ρ) c).arrAt 10 cfg3.N = kout0ph (argsOf m c) := by
  refine (final3_10 (Gen.V7 m ρ) c).trans ?_
  show G3_10 (Gen.V7 m ρ c main_v100_0) (Gen.V7 m ρ c main_v65_1) (Gen.V7 m ρ c main_v113) (Gen.V7 m ρ c main_v116) (Gen.V7 m ρ c main_v59) (Gen.V7 m ρ c main_v135) (Gen.V7 m ρ c main_v138) (Gen.V7 m ρ c main_v96) (Gen.V7 m ρ c main_v99) = _
  rw [buf7_y2 m ρ c, buf7_sd m ρ c, buf7_sc2 m ρ c, buf7_sh2 m ρ c, buf7_w3_0 m ρ c, buf7_sc3 m ρ c, buf7_sh3 m ρ c, buf7_scs m ρ c, buf7_shs m ρ c]
  rfl
theorem reg3_y11ph : (Gen.dat3 (Gen.V7 m ρ) c).arrAt 11 cfg3.N = ky11ph (argsOf m c) := by
  refine (final3_11 (Gen.V7 m ρ) c).trans ?_
  show G3_11 (Gen.V7 m ρ c main_v100_0) (Gen.V7 m ρ c main_v65_1) (Gen.V7 m ρ c main_v113) (Gen.V7 m ρ c main_v116) (Gen.V7 m ρ c main_v59) (Gen.V7 m ρ c main_v135) (Gen.V7 m ρ c main_v138) (Gen.V7 m ρ c main_v96) (Gen.V7 m ρ c main_v99) (Gen.V7 m ρ c main_v60) = _
  rw [buf7_y2 m ρ c, buf7_sd m ρ c, buf7_sc2 m ρ c, buf7_sh2 m ρ c, buf7_w3_0 m ρ c, buf7_sc3 m ρ c, buf7_sh3 m ρ c, buf7_scs m ρ c, buf7_shs m ρ c, buf7_w1_1 m ρ c]
  rfl
theorem reg3_s11 : (Gen.dat3 (Gen.V7 m ρ) c).arrAt 12 cfg3.N = ks11 (argsOf m c) := by
  refine (final3_12 (Gen.V7 m ρ) c).trans ?_
  show G3_12 (Gen.V7 m ρ c main_v100_0) (Gen.V7 m ρ c main_v65_1) (Gen.V7 m ρ c main_v113) (Gen.V7 m ρ c main_v116) (Gen.V7 m ρ c main_v59) (Gen.V7 m ρ c main_v135) (Gen.V7 m ρ c main_v138) (Gen.V7 m ρ c main_v96) (Gen.V7 m ρ c main_v99) (Gen.V7 m ρ c main_v60) = _
  rw [buf7_y2 m ρ c, buf7_sd m ρ c, buf7_sc2 m ρ c, buf7_sh2 m ρ c, buf7_w3_0 m ρ c, buf7_sc3 m ρ c, buf7_sh3 m ρ c, buf7_scs m ρ c, buf7_shs m ρ c, buf7_w1_1 m ρ c]
  rfl
theorem reg3_q11 : (Gen.dat3 (Gen.V7 m ρ) c).arrAt 13 cfg3.N = kq11 (argsOf m c) := by
  refine (final3_13 (Gen.V7 m ρ) c).trans ?_
  show G3_13 (Gen.V7 m ρ c main_v100_0) (Gen.V7 m ρ c main_v65_1) (Gen.V7 m ρ c main_v113) (Gen.V7 m ρ c main_v116) (Gen.V7 m ρ c main_v59) (Gen.V7 m ρ c main_v135) (Gen.V7 m ρ c main_v138) (Gen.V7 m ρ c main_v96) (Gen.V7 m ρ c main_v99) (Gen.V7 m ρ c main_v60) = _
  rw [buf7_y2 m ρ c, buf7_sd m ρ c, buf7_sc2 m ρ c, buf7_sh2 m ρ c, buf7_w3_0 m ρ c, buf7_sc3 m ρ c, buf7_sh3 m ρ c, buf7_scs m ρ c, buf7_shs m ρ c, buf7_w1_1 m ρ c]
  rfl

theorem hbuf4_out0ph : Gen.W8 m ρ c (Proc.devRef .tc main_v139_0) = kout0ph (argsOf m c) := (hwire4_v139_0 m ρ c).trans (reg3_out0ph m ρ c)
theorem hbuf4_y11ph : Gen.W8 m ρ c (Proc.devRef .tc main_v139_1) = ky11ph (argsOf m c) := (hwire4_v139_1 m ρ c).trans (reg3_y11ph m ρ c)
theorem hbuf4_s11 : Gen.W8 m ρ c (Proc.devRef .tc main_v139_2) = ks11 (argsOf m c) := (hwire4_v139_2 m ρ c).trans (reg3_s11 m ρ c)
theorem hbuf4_q11 : Gen.W8 m ρ c (Proc.devRef .tc main_v139_3) = kq11 (argsOf m c) := (hwire4_v139_3 m ρ c).trans (reg3_q11 m ρ c)

/-! ## The fifth host stretch: the lanes put back in position order, and the next normalisation's columns -/

theorem org4_out0 : StableHlo.after (hostOps4 (F := Ideal)) (Gen.W8 m ρ c) (Proc.devRef .tc main_v158) = kout0 (argsOf m c) := by
  refine (host4_v158_unint (Gen.W8 m ρ c)).trans ?_
  rw [hbuf4_out0ph m ρ c]
  rfl
theorem org4_y11 : StableHlo.after (hostOps4 (F := Ideal)) (Gen.W8 m ρ c) (Proc.devRef .tc main_v161) = ky11 (argsOf m c) := by
  refine (host4_v161_unint (Gen.W8 m ρ c)).trans ?_
  rw [hbuf4_y11ph m ρ c]
  rfl
theorem org4_sc11 : StableHlo.after (hostOps4 (F := Ideal)) (Gen.W8 m ρ c) (Proc.devRef .tc main_v152) = ksc11 (argsOf m c) := by
  refine (host4_sc11 (Gen.W8 m ρ c)).trans ?_
  rw [hbuf4_s11 m ρ c, hbuf4_q11 m ρ c, hwire4_arg18 m ρ c]
  rfl
theorem org4_sh11 : StableHlo.after (hostOps4 (F := Ideal)) (Gen.W8 m ρ c) (Proc.devRef .tc main_v155) = ksh11 (argsOf m c) := by
  refine (host4_sh11 (Gen.W8 m ρ c)).trans ?_
  rw [hbuf4_s11 m ρ c, hbuf4_q11 m ρ c, hwire4_arg18 m ρ c, hwire4_arg19 m ρ c]
  rfl

theorem buf9_y11 : Gen.V9 m ρ c main_v161 = ky11 (argsOf m c) := (wire4_0 m ρ c).trans (org4_y11 m ρ c)
theorem buf9_sc11 : Gen.V9 m ρ c main_v152 = ksc11 (argsOf m c) := (wire4_1 m ρ c).trans (org4_sc11 m ρ c)
theorem buf9_sh11 : Gen.V9 m ρ c main_v155 = ksh11 (argsOf m c) := (wire4_2 m ρ c).trans (org4_sh11 m ρ c)
theorem buf13_out0 : Gen.V13 m ρ c main_v158 = kout0 (argsOf m c) := (wire6_1 m ρ c).trans (org4_out0 m ρ c)

end Cert.KernelIdeal.Val

end
-- ==== Proof.KerH5.lean ====
import proofs.«159567_g2000302752657622_pallasbulk_725_3_alg».proof.Proof.Gen.KernelIdeal.Frame
import proofs.«159567_g2000302752657622_pallasbulk_725_3_alg».proof.Proof.LibBnChain
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe
open Cert.Lib.BnChain

/-- The fifth statistics stretch, scale column. The 64 per-image columns of channel sums and of channel sums of squares
    that the fifth region leaves are summed over the images, and the normalisation chain runs with the count 262144:
    the scale is `γ · rsqrt (q / cnt − (s / cnt)² + ε)` with the column of the scale argument. -/
theorem host5_sc2b (W : Valuation τ sig (Elt Ideal)) :
    (StableHlo.after (hostOps5 (F := Ideal)) W (Proc.devRef .tc main_v175) : S64x1.Idx → Elt Ideal .f32)
      = bnScale (F := Ideal) S64x1 bcast_S_S64x1 0x48800000#32
          (Host.reduceAdd (F := Ideal) (W (Proc.devRef .tc main_v162_1)) (constant S_ .f32 0x00000000#32) reducesTo_S64x64x1_S64x1_d0 h_S_)
          (Host.reduceAdd (F := Ideal) (W (Proc.devRef .tc main_v162_2)) (constant S_ .f32 0x00000000#32) reducesTo_S64x64x1_S64x1_d0 h_S_)
          (shapeCast S64x1 (W (Proc.devRef .tc main_arg20)) shapeCasts_S64_S64x1) := by
  after_results_simp
  rfl

/-- The fifth statistics stretch, shift column: `β − (s / cnt) · scale` over the same image sums. -/
theorem host5_sh2b (W : Valuation τ sig (Elt Ideal)) :
    (StableHlo.after (hostOps5 (F := Ideal)) W (Proc.devRef .tc main_v178) : S64x1.Idx → Elt Ideal .f32)
      = bnShift (F := Ideal) S64x1 bcast_S_S64x1 0x48800000#32
          (Host.reduceAdd (F := Ideal) (W (Proc.devRef .tc main_v162_1)) (constant S_ .f32 0x00000000#32) reducesTo_S64x64x1_S64x1_d0 h_S_)
          (Host.reduceAdd (F := Ideal) (W (Proc.devRef .tc main_v162_2)) (constant S_ .f32 0x00000000#32) reducesTo_S64x64x1_S64x1_d0 h_S_)
          (shapeCast S64x1 (W (Proc.devRef .tc main_arg20)) shapeCasts_S64_S64x1)
          (shapeCast S64x1 (W (Proc.devRef .tc main_arg21)) shapeCasts_S64_S64x1) := by
  after_results_simp
  rfl

end Cert.KernelIdeal.Val

end
-- ==== Proof.KerH6.lean ====
import proofs.«159567_g2000302752657622_pallasbulk_725_3_alg».proof.Proof.KerH3

set_option maxRecDepth 16384

noncomputable section

namespace Cert.KernelIdeal.Val

open Cert.KernelIdeal Cert.KernelIdeal.Gen
open Idealize.ShloMosaic Idealize.ShloMosaic.TcCoe Idealize.ShloMosaic.ValueIdx
open Cert.Lib.BnChain
open scoped BigOperators

/-! ## The sixth statistics stretch -/

/-- The sixth statistics stretch, scale column. The 64 per-image Gram matrices and columns of channel sums that the
    sixth region leaves are summed over the images; the 256 output channels' sums and sums of squares are recovered
    through the second block's f32 weight, and go through the normalisation chain with the count 262144. -/
theorem host6_sc3b (W : Valuation τ sig (Elt Ideal)) :
    (StableHlo.after (hostOps6 (F := Ideal)) W (Proc.devRef .tc main_v197) : S256x1.Idx → Elt Ideal .f32)
      = bnScale (F := Ideal) S256x1 bcast_S_S256x1 0x48800000#32
          (gramS (W (Proc.devRef .tc main_arg15)) (Host.reduceAdd (F := Ideal) (W (Proc.devRef .tc main_v179_1)) (constant S_ .f32 0x00000000#32) reducesTo_S64x64x1_S64x1_d0 h_S_))
          (gramQ (W (Proc.devRef .tc main_arg15)) (Host.reduceAdd (F := Ideal) (W (Proc.devRef .tc main_v179_0)) (constant S_ .f32 0x00000000#32) reducesTo_S64x64x64_S64x64_d0 h_S_))
          (shapeCast S256x1 (W (Proc.devRef .tc main_arg22)) shapeCasts_S256_S256x1) := by
  after_results_simp
  rfl

/-- The sixth statistics stretch, shift column: `β − (s / cnt) · scale` over the same recovered sums. -/
theorem host6_sh3b (W : Valuation τ sig (Elt Ideal)) :
    (StableHlo.after (hostOps6 (F := Ideal)) W (Proc.devRef .tc main_v200) : S256x1.Idx → Elt Ideal .f32)
      = bnShift (F := Ideal) S256x1 bcast_S_S256x1 0x48800000#32
          (gramS (W (Proc.devRef .tc main_arg15)) (Host.reduceAdd (F := Ideal) (W (Proc.devRef .tc main_v179_1)) (constant S_ .f32 0x00000000#32) reducesTo_S64x64x1_S64x1_d0 h_S_))
          (gramQ (W (Proc.devRef .tc main_arg15)) (Host.reduceAdd (F := Ideal) (W (Proc.devRef .tc main_v179_0)) (constant S_ .f32 0x00000000#32) reducesTo_S64x64x64_S64x64_d0 h_S_))
          (shapeCast S256x1 (W (Proc.devRef .tc main_arg22)) shapeCasts_S256_S256x1)
          (shapeCast S256x1 (W (Proc.devRef .tc main_arg23)) shapeCasts_S256_S256x1) := by
  after_results_simp
  rfl

end Cert.KernelIdeal.Val

end
-- ==== Proof.KerTail.lean ====
import proofs.«159567_g2000302752657622_pallasbulk_725_3_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

/-- The array of the last region's eighth window, as that region leaves it: the contents the region entered with,
    every write-back of the window folded in over all the grid's points. -/
abbrev lastOut (c : Dev nD) : S64x256x4096.Idx → Elt F .f32 :=
  (Gen.dat6 (Gen.V13 m ρ) c).arrAt 7 cfg6.N

/-- The result buffer at the last boundary. The last host stretch is one operation, a reshape of the last region's
    output array from 64 × 256 × 4096 to 64 × 256 × 64 × 64: it writes the result buffer and nothing else, so the
    result holds that array's elements in row-major order at the new shape, and the array itself is what the region's
    write-backs leave, the stretch's starting contents being the region's exit contents. -/
theorem W15_result (c : Dev nD) :
    (Gen.W15 m ρ c (Proc.devRef .tc main_v202) : S64x256x64x64.Idx → Elt F .f32)
      = shapeCast S64x256x64x64 (lastOut m ρ c) shapeCasts_S64x256x4096_S64x256x64x64 := by
  have e : Gen.W14 m ρ c (Proc.devRef .tc main_v201) = lastOut m ρ c := Gen.W14_arr m ρ c 7
  dsimp only [Gen.W15, Gen.hostOps7]
  after_results
  rw [e]
  rfl

end Cert.KernelIdeal.Hand

end
-- ==== Proof.KerClosedB.lean ====
import proofs.«159567_g2000302752657622_pallasbulk_725_3_alg».proof.Proof.Gen.KernelIdeal.Frame
import proofs.«159567_g2000302752657622_pallasbulk_725_3_alg».proof.Proof.Args
import proofs.«159567_g2000302752657622_pallasbulk_725_3_alg».proof.Proof.ArgsOf
import proofs.«159567_g2000302752657622_pallasbulk_725_3_alg».proof.Proof.KerWire2
import proofs.«159567_g2000302752657622_pallasbulk_725_3_alg».proof.Proof.KerWire3
import proofs.«159567_g2000302752657622_pallasbulk_725_3_alg».proof.Proof.KerClosedA2
import proofs.«159567_g2000302752657622_pallasbulk_725_3_alg».proof.Proof.KerV4
import proofs.«159567_g2000302752657622_pallasbulk_725_3_alg».proof.Proof.KerH5
import proofs.«159567_g2000302752657622_pallasbulk_725_3_alg».proof.Proof.KerV5
import proofs.«159567_g2000302752657622_pallasbulk_725_3_alg».proof.Proof.KerH6
import proofs.«159567_g2000302752657622_pallasbulk_725_3_alg».proof.Proof.KerV6
import proofs.«159567_g2000302752657622_pallasbulk_725_3_alg».proof.Proof.KerTail

set_option maxRecDepth 16384

noncomputable section

namespace Cert.KernelIdeal.Val

open Cert.KernelIdeal Cert.KernelIdeal.Gen
open Idealize.ShloMosaic Idealize.ShloMosaic.TcCoe
open Cert.Lib.BnChain

/-! # Every buffer of the pipeline as a function of the arguments: the second block, and the result

The continuation of the first block's definitions, in program order: the second block's 3 × 3 convolution and its
statistics, the normalisation columns, the Gram matrices and their columns, the last region's output, and the result
as its reshape. Each lemma says that the buffer, at the boundary where it is read, holds that function of the launch
arguments: by the wiring, the writer's statement, and the lemmas for the buffers the writer read. -/

/-! ## Region 4: the second block's 3 × 3 convolution as one 64 × 576 product, and its row sums -/

variable (m : (ℓ : Loc nD τ sig) → Buf (Elt Ideal) ℓ) (ρ : Dev nD → PrngReg) (c : Dev nD)

theorem reg4_y2b : (Gen.dat4 (Gen.V9 m ρ) c).arrAt 5 cfg4.N = ky2b (argsOf m c) := by
  refine (final4_5 (Gen.V9 m ρ) c).trans ?_
  show G4_5 (Gen.V9 m ρ c main_v161) (Gen.V9 m ρ c main_v152) (Gen.V9 m ρ c main_v155) (Gen.V9 m ρ c main_v63) (Gen.V9 m ρ c main_arg17) = _
  rw [buf9_y11 m ρ c, buf9_sc11 m ρ c, buf9_sh11 m ρ c, buf9_wcat1 m ρ c, buf9_masks1 m ρ c]
  rfl
theorem reg4_s2b : (Gen.dat4 (Gen.V9 m ρ) c).arrAt 6 cfg4.N = ks2b (argsOf m c) := by
  refine (final4_6 (Gen.V9 m ρ) c).trans ?_
  show G4_6 (Gen.V9 m ρ c main_v161) (Gen.V9 m ρ c main_v152) (Gen.V9 m ρ c main_v155) (Gen.V9 m ρ c main_v63) (Gen.V9 m ρ c main_arg17) = _
  rw [buf9_y11 m ρ c, buf9_sc11 m ρ c, buf9_sh11 m ρ c, buf9_wcat1 m ρ c, buf9_masks1 m ρ c]
  rfl
theorem reg4_q2b : (Gen.dat4 (Gen.V9 m ρ) c).arrAt 7 cfg4.N = kq2b (argsOf m c) := by
  refine (final4_7 (Gen.V9 m ρ) c).trans ?_
  show G4_7 (Gen.V9 m ρ c main_v161) (Gen.V9 m ρ c main_v152) (Gen.V9 m ρ c main_v155) (Gen.V9 m ρ c main_v63) (Gen.V9 m ρ c main_arg17) = _
  rw [buf9_y11 m ρ c, buf9_sc11 m ρ c, buf9_sh11 m ρ c, buf9_wcat1 m ρ c, buf9_masks1 m ρ c]
  rfl

theorem buf11_y2b : Gen.V11 m ρ c main_v162_0 = ky2b (argsOf m c) := (wire5_0 m ρ c).trans (reg4_y2b m ρ c)
theorem buf13_y2b : Gen.V13 m ρ c main_v162_0 = ky2b (argsOf m c) := (wire6_0 m ρ c).trans (reg4_y2b m ρ c)
theorem hbuf5_s2b : Gen.W10 m ρ c (Proc.devRef .tc main_v162_1) = ks2b (argsOf m c) := (hwire5_v162_1 m ρ c).trans (reg4_s2b m ρ c)
theorem hbuf5_q2b : Gen.W10 m ρ c (Proc.devRef .tc main_v162_2) = kq2b (argsOf m c) := (hwire5_v162_2 m ρ c).trans (reg4_q2b m ρ c)

/-! ## The sixth host stretch: the second block's second normalisation's scale and shift columns -/

theorem org5_sc2b : StableHlo.after (hostOps5 (F := Ideal)) (Gen.W10 m ρ c) (Proc.devRef .tc main_v175) = ksc2b (argsOf m c) := by
  refine (host5_sc2b (Gen.W10 m ρ c)).trans ?_
  rw [hbuf5_s2b m ρ c, hbuf5_q2b m ρ c, hwire5_arg20 m ρ c]
  rfl
theorem org5_sh2b : StableHlo.after (hostOps5 (F := Ideal)) (Gen.W10 m ρ c) (Proc.devRef .tc main_v178) = ksh2b (argsOf m c) := by
  refine (host5_sh2b (Gen.W10 m ρ c)).trans ?_
  rw [hbuf5_s2b m ρ c, hbuf5_q2b m ρ c, hwire5_arg20 m ρ c, hwire5_arg21 m ρ c]
  rfl

theorem buf11_sc2b : Gen.V11 m ρ c main_v175 = ksc2b (argsOf m c) := (wire5_1 m ρ c).trans (org5_sc2b m ρ c)
theorem buf11_sh2b : Gen.V11 m ρ c main_v178 = ksh2b (argsOf m c) := (wire5_2 m ρ c).trans (org5_sh2b m ρ c)
theorem buf13_sc2b : Gen.V13 m ρ c main_v175 = ksc2b (argsOf m c) := (wire6_2 m ρ c).trans (org5_sc2b m ρ c)
theorem buf13_sh2b : Gen.V13 m ρ c main_v178 = ksh2b (argsOf m c) := (wire6_3 m ρ c).trans (org5_sh2b m ρ c)

/-! ## Region 5: per image, the Gram matrix of the activations and their lane sums -/

theorem reg5_g1 : (Gen.dat5 (Gen.V11 m ρ) c).arrAt 3 cfg5.N = kg1 (argsOf m c) := by
  refine (final5_3 (Gen.V11 m ρ) c).trans ?_
  show G5_3 (Gen.V11 m ρ c main_v162_0) (Gen.V11 m ρ c main_v175) (Gen.V11 m ρ c main_v178) = _
  rw [buf11_y2b m ρ c, buf11_sc2b m ρ c, buf11_sh2b m ρ c]
  rfl
theorem reg5_zs1 : (Gen.dat5 (Gen.V11 m ρ) c).arrAt 4 cfg5.N = kzs1 (argsOf m c) := by
  refine (final5_4 (Gen.V11 m ρ) c).trans ?_
  show G5_4 (Gen.V11 m ρ c main_v162_0) (Gen.V11 m ρ c main_v175) (Gen.V11 m ρ c main_v178) = _
  rw [buf11_y2b m ρ c, buf11_sc2b m ρ c, buf11_sh2b m ρ c]
  rfl

theorem hbuf6_g1 : Gen.W12 m ρ c (Proc.devRef .tc main_v179_0) = kg1 (argsOf m c) := (hwire6_v179_0 m ρ c).trans (reg5_g1 m ρ c)
theorem hbuf6_zs1 : Gen.W12 m ρ c (Proc.devRef .tc main_v179_1) = kzs1 (argsOf m c) := (hwire6_v179_1 m ρ c).trans (reg5_zs1 m ρ c)

/-! ## The seventh host stretch: the last normalisation's scale and shift columns, recovered through the f32 weights -/

theorem org6_sc3b : StableHlo.after (hostOps6 (F := Ideal)) (Gen.W12 m ρ c) (Proc.devRef .tc main_v197) = ksc3b (argsOf m c) := by
  refine (host6_sc3b (Gen.W12 m ρ c)).trans ?_
  rw [hbuf6_g1 m ρ c, hbuf6_zs1 m ρ c, hwire6_arg15 m ρ c, hwire6_arg22 m ρ c]
  rfl
theorem org6_sh3b : StableHlo.after (hostOps6 (F := Ideal)) (Gen.W12 m ρ c) (Proc.devRef .tc main_v200) = ksh3b (argsOf m c) := by
  refine (host6_sh3b (Gen.W12 m ρ c)).trans ?_
  rw [hbuf6_g1 m ρ c, hbuf6_zs1 m ρ c, hwire6_arg15 m ρ c, hwire6_arg22 m ρ c, hwire6_arg23 m ρ c]
  rfl

theorem buf13_sc3b : Gen.V13 m ρ c main_v197 = ksc3b (argsOf m c) := (wire6_5 m ρ c).trans (org6_sc3b m ρ c)
theorem buf13_sh3b : Gen.V13 m ρ c main_v200 = ksh3b (argsOf m c) := (wire6_6 m ρ c).trans (org6_sh3b m ρ c)

/-! ## Region 6: the last 1 × 1 convolution, normalised, added to the first block's output -/

theorem reg6_out : (Gen.dat6 (Gen.V13 m ρ) c).arrAt 7 cfg6.N = kout (argsOf m c) := by
  refine (final6_7 (Gen.V13 m ρ) c).trans ?_
  show G6_7 (Gen.V13 m ρ c main_v162_0) (Gen.V13 m ρ c main_v158) (Gen.V13 m ρ c main_v175) (Gen.V13 m ρ c main_v178) (Gen.V13 m ρ c main_v64) (Gen.V13 m ρ c main_v197) (Gen.V13 m ρ c main_v200) = _
  rw [buf13_y2b m ρ c, buf13_out0 m ρ c, buf13_sc2b m ρ c, buf13_sh2b m ρ c, buf13_w3_1 m ρ c, buf13_sc3b m ρ c, buf13_sh3b m ρ c]
  rfl

/-! ## The last host stretch: the result -/

/-- The result buffer at the last boundary is that function of the launch arguments. -/
theorem closed : (Gen.W15 m ρ c (Proc.devRef .tc main_v202) : S64x256x64x64.Idx → EReal) = kResult (argsOf m c) := by
  refine (Cert.KernelIdeal.Hand.W15_result m ρ c).trans ?_
  show shapeCast S64x256x64x64 ((Gen.dat6 (Gen.V13 m ρ) c).arrAt 7 cfg6.N) shapeCasts_S64x256x4096_S64x256x64x64 = _
  rw [reg6_out m ρ c]
  rfl

end Cert.KernelIdeal.Val

end
-- ==== Proof.RefV0a.lean ====
import proofs.«159567_g2000302752657622_pallasbulk_725_3_alg».proof.Proof.Gen.ReferenceIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Val

open Cert.ReferenceIdeal Cert.ReferenceIdeal.Gen
open Idealize.ShloMosaic Idealize.ShloMosaic.ValueIdx
open scoped BigOperators

/-! ## Region 0: the 1×1 convolution y = W·x of one lane tile of one image, and its per-channel sum and sum of squares -/

/-- The dimension numbers of the product: [64,128] · [128,1024], one contracted axis of extent 128. -/
abbrev dotR0 : DotDims S64x128 S128x1024 S64x1024 := dot_S64x128_S128x1024_S64x1024_1_0_0_1_n_n

/-- The left operand's row is the output's row. -/
theorem dotR0_lhs_0 (i : S64x1024.Idx) (q : dotR0.contr.Idx) : (dotR0.lhsIdx i q 0).val = (i 0).val := by
  unfold DotDims.lhsIdx
  rw [dif_neg (show ¬(0 : Fin S64x128.rank) ∈ dotR0.lhsBatch by decide),
    dif_pos (show (0 : Fin S64x128.rank) ∈ dotR0.lhsNonContracting by decide)]
  rfl

/-- The left operand's column is the contracted coordinate. -/
theorem dotR0_lhs_1 (i : S64x1024.Idx) (q : dotR0.contr.Idx) : (dotR0.lhsIdx i q 1).val = (q ⟨0, by decide⟩).val :=
  dotR0.lhsIdx_val_of_single rfl i q

/-- The right operand's row is the contracted coordinate. -/
theorem dotR0_rhs_0 (i : S64x1024.Idx) (q : dotR0.contr.Idx) : (dotR0.rhsIdx i q 0).val = (q ⟨0, by decide⟩).val :=
  dotR0.rhsIdx_val_of_single rfl i q

/-- The right operand's column is the output's column. -/
theorem dotR0_rhs_1 (i : S64x1024.Idx) (q : dotR0.contr.Idx) : (dotR0.rhsIdx i q 1).val = (i 1).val := by
  unfold DotDims.rhsIdx
  rw [dif_neg (show ¬(1 : Fin S128x1024.rank) ∈ dotR0.rhsBatch by decide),
    dif_pos (show (1 : Fin S128x1024.rank) ∈ dotR0.rhsNonContracting by decide)]
  rfl

/-- The product into the zero accumulator, at row r and column s: the sum over the 128 contracted coordinates. -/
theorem matmulR0_apply (A : FVec Ideal S64x128 .f32) (B : FVec Ideal S128x1024 .f32) (r : Fin 64) (s : Fin 1024) :
    matmul dotR0 none A B (constant (F := Ideal) S64x1024 .f32 0x00000000#32) (ix2 r s)
      = ∑ k : Fin 128, A (ix2 r k) * B (ix2 k s) := by
  show FloatOps.matmul dotR0 none A B (constant (F := Ideal) S64x1024 .f32 0x00000000#32) (ix2 r s) = _
  rw [Ideal.matmul_constant_zero_apply, ← Equiv.sum_comp (contrEquiv1 dotR0 128 rfl rfl).symm]
  refine Finset.sum_congr rfl fun k _ => ?_
  have hk := contrEquiv1_symm_val dotR0 128 rfl rfl k
  have el : dotR0.lhsIdx (ix2 r s) ((contrEquiv1 dotR0 128 rfl rfl).symm k) = ix2 r k := funext fun a => Fin.ext (by
    match a with
    | ⟨0, _⟩ => exact dotR0_lhs_0 _ _
    | ⟨1, _⟩ => exact (dotR0_lhs_1 _ _).trans hk)
  have er : dotR0.rhsIdx (ix2 r s) ((contrEquiv1 dotR0 128 rfl rfl).symm k) = ix2 k s := funext fun a => Fin.ext (by
    match a with
    | ⟨0, _⟩ => exact (dotR0_rhs_0 _ _).trans hk
    | ⟨1, _⟩ => exact dotR0_rhs_1 _ _)
  rw [el, er]

/-- The sum along the 1024 lanes of a [64,1024] block, at row r. -/
theorem laneSumR0_apply (X : FVec Ideal S64x1024 .f32) (r : Fin 64) :
    multiReduction (F := Ideal) .add [1] S64 X 0x00000000#32 reduces_S64x1024_S64 (.inl rfl) rfl (ix1 r)
      = ∑ s : Fin 1024, X (ix2 r s) := by
  refine (Ideal.multiReduction_add_single X 0x00000000#32 reduces_S64x1024_S64 (.inl rfl) rfl (ix1 r)).trans ?_
  refine Finset.sum_congr rfl fun s _ => congrArg X ?_
  funext a; apply Fin.ext
  match a with
  | ⟨0, _⟩ => rfl
  | ⟨1, _⟩ => rfl

/-- A [64] vector viewed as a [64,1] column reads its row. -/
theorem columnR0_apply (Y : FVec Ideal S64 .f32) (r : Fin 64) (z : Fin 1) :
    shapeCast S64x1 Y shapeCasts_S64_S64x1 (ix2 r z) = Y (ix1 r) := by
  refine shapeCast_apply Y _ (ix2 r z) (ix1 r) ?_
  have hz : z.val = 0 := by omega
  rw [Shape.rowMajor_val_one, Shape.rowMajor_val_two]
  show r.val = r.val * 1 + z.val
  rw [hz]; omega

/-- The zero column the first point stores into the accumulator of the sums. -/
theorem payR0_1_apply (i : S64x1.Idx) : Gen.k0_pay1 (F := Ideal) i = 0 := by
  unfold Gen.k0_pay1
  exact Ideal.ofBits_zero_f32

/-- The zero column the first point stores into the accumulator of the sums of squares. -/
theorem payR0_2_apply (i : S64x1.Idx) : Gen.k0_pay2 (F := Ideal) i = 0 := by
  unfold Gen.k0_pay2
  exact Ideal.ofBits_zero_f32

/-- The product at channel r, lane s: y(r, s) = ∑ₖ W(r, k) · x(0, k, s). -/
theorem payR0_3_apply (v5 : Vec Ideal S64x128 .f32) (v6 : Vec Ideal S1x128x1024 .f32) (r : Fin 64) (s : Fin 1024) :
    Gen.k0_pay3 v5 v6 (ix2 r s) = ∑ k : Fin 128, v5 (ix2 r k) * v6 (ix3 (0 : Fin 1) k s) := by
  unfold Gen.k0_pay3
  refine (matmulR0_apply _ _ r s).trans ?_
  refine Finset.sum_congr rfl fun k _ => ?_
  exact congrArg (v5 (ix2 r k) * ·) (shapeCast_1ab_ab_apply v6 _ k s)

/-- The stored block of y: the product with a leading unit axis. -/
theorem payR0_4_apply (v5 : Vec Ideal S64x128 .f32) (v6 : Vec Ideal S1x128x1024 .f32) (u : Fin 1) (p : Fin 64) (q : Fin 1024) :
    Gen.k0_pay4 v5 v6 (ix3 u p q) = ∑ k : Fin 128, v5 (ix2 p k) * v6 (ix3 (0 : Fin 1) k q) := by
  unfold Gen.k0_pay4
  exact (shapeCast_ab_1ab_apply _ _ u p q).trans (payR0_3_apply v5 v6 p q)

/-- The accumulator of the sums after a point: what it held plus the lane sum of y. -/
theorem payR0_5_apply (v5 : Vec Ideal S64x128 .f32) (v6 : Vec Ideal S1x128x1024 .f32) (v12 : Vec Ideal S64x1 .f32) (r : Fin 64) (z : Fin 1) :
    Gen.k0_pay5 v5 v6 v12 (ix2 r z)
      = v12 (ix2 r z) + ∑ s : Fin 1024, ∑ k : Fin 128, v5 (ix2 r k) * v6 (ix3 (0 : Fin 1) k s) := by
  unfold Gen.k0_pay5
  refine (addf_apply _ _ _).trans ?_
  refine congrArg₂ (· + ·) (congrFun (shapeCast_self v12 _) _) ?_
  refine (columnR0_apply _ r z).trans ?_
  refine (laneSumR0_apply _ r).trans ?_
  exact Finset.sum_congr rfl fun s _ => payR0_3_apply v5 v6 r s

/-- The accumulator of the sums of squares after a point: what it held plus the lane sum of y·y. -/
theorem payR0_6_apply (v5 : Vec Ideal S64x128 .f32) (v6 : Vec Ideal S1x128x1024 .f32) (v18 : Vec Ideal S64x1 .f32) (r : Fin 64) (z : Fin 1) :
    Gen.k0_pay6 v5 v6 v18 (ix2 r z)
      = v18 (ix2 r z) + ∑ s : Fin 1024, (∑ k : Fin 128, v5 (ix2 r k) * v6 (ix3 (0 : Fin 1) k s)) * (∑ k : Fin 128, v5 (ix2 r k) * v6 (ix3 (0 : Fin 1) k s)) := by
  unfold Gen.k0_pay6
  refine (addf_apply _ _ _).trans ?_
  refine congrArg₂ (· + ·) (congrFun (shapeCast_self v18 _) _) ?_
  refine (columnR0_apply _ r z).trans ?_
  refine (laneSumR0_apply _ r).trans ?_
  refine Finset.sum_congr rfl fun s _ => ?_
  refine Eq.trans (mulf_apply _ _ _) ?_
  rw [payR0_3_apply v5 v6 r s]

end Cert.ReferenceIdeal.Val

end
-- ==== Proof.RefV0.lean ====
import proofs.«159567_g2000302752657622_pallasbulk_725_3_alg».proof.Proof.RefR0
import proofs.«159567_g2000302752657622_pallasbulk_725_3_alg».proof.Proof.RefV0a
import proofs.«159567_g2000302752657622_pallasbulk_725_3_alg».proof.Proof.LibGram
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! # The values of region 0:  y = W·x, and the per-channel sums of y and of y² over all images and lanes

The three output arrays, each as one function of the two arrays the region reads (x, window 0; W, window 1), index by
index. -/

/-- y at image n, channel ch, lane l:  ∑ₖ W[ch, k] · x[n, k, l]. -/
def RG0_2 (x : S64x128x1024.Idx → EReal) (W : S64x128.Idx → EReal) : S64x64x1024.Idx → EReal :=
  fun i => ∑ k : Fin 128, W (ix2 (i 1) k) * x (ix3 (i 0) k (i 2))

/-- The per-channel sum of y over all images and lanes, a [64,1] column. -/
def RG0_3 (x : S64x128x1024.Idx → EReal) (W : S64x128.Idx → EReal) : S64x1.Idx → EReal :=
  fun i => ∑ n : Fin 64, ∑ l : Fin 1024, RG0_2 x W (ix3 n (i 0) l)

/-- The per-channel sum of y² over all images and lanes, a [64,1] column. -/
def RG0_4 (x : S64x128x1024.Idx → EReal) (W : S64x128.Idx → EReal) : S64x1.Idx → EReal :=
  fun i => ∑ n : Fin 64, ∑ l : Fin 1024, RG0_2 x W (ix3 n (i 0) l) * RG0_2 x W (ix3 n (i 0) l)

theorem RG0_2_at (x : S64x128x1024.Idx → EReal) (W : S64x128.Idx → EReal) (n : Fin 64) (p : Fin 64) (l : Fin 1024) :
    RG0_2 x W (ix3 n p l) = ∑ k : Fin 128, W (ix2 p k) * x (ix3 n k l) := rfl

theorem RG0_3_at (x : S64x128x1024.Idx → EReal) (W : S64x128.Idx → EReal) (p : Fin 64) (z : Fin 1) :
    RG0_3 x W (ix2 p z) = ∑ n : Fin 64, ∑ l : Fin 1024, RG0_2 x W (ix3 n p l) := rfl

theorem RG0_4_at (x : S64x128x1024.Idx → EReal) (W : S64x128.Idx → EReal) (p : Fin 64) (z : Fin 1) :
    RG0_4 x W (ix2 p z) = ∑ n : Fin 64, ∑ l : Fin 1024, RG0_2 x W (ix3 n p l) * RG0_2 x W (ix3 n p l) := rfl

/-- Reals in, reals out: a finite sum of products of reals. -/
theorem RG0_2_real (x : S64x128x1024.Idx → EReal) (W : S64x128.Idx → EReal)
    (hx : ∀ i, ∃ r : ℝ, x i = r) (hW : ∀ i, ∃ r : ℝ, W i = r) : ∀ i, ∃ r : ℝ, RG0_2 x W i = r :=
  fun i => Cert.Lib.Gram.exists_real_sum _ _ fun k => Cert.Lib.Gram.exists_real_mul (hW _) (hx _)

theorem RG0_3_real (x : S64x128x1024.Idx → EReal) (W : S64x128.Idx → EReal)
    (hx : ∀ i, ∃ r : ℝ, x i = r) (hW : ∀ i, ∃ r : ℝ, W i = r) : ∀ i, ∃ r : ℝ, RG0_3 x W i = r :=
  fun i => Cert.Lib.Gram.exists_real_sum _ _ fun n => Cert.Lib.Gram.exists_real_sum _ _ fun l => RG0_2_real x W hx hW _

theorem RG0_4_real (x : S64x128x1024.Idx → EReal) (W : S64x128.Idx → EReal)
    (hx : ∀ i, ∃ r : ℝ, x i = r) (hW : ∀ i, ∃ r : ℝ, W i = r) : ∀ i, ∃ r : ℝ, RG0_4 x W i = r :=
  fun i => Cert.Lib.Gram.exists_real_sum _ _ fun n => Cert.Lib.Gram.exists_real_sum _ _ fun l =>
    Cert.Lib.Gram.exists_real_mul (RG0_2_real x W hx hW _) (RG0_2_real x W hx hW _)

/-! ## Which buffer each window stages -/

theorem arrRef0_0 : Pipeline.arrRef spec0 0 = main_v0 := rfl
theorem arrRef0_1 : Pipeline.arrRef spec0 1 = main_arg1 := rfl
theorem arrRef0_2 : Pipeline.arrRef spec0 2 = main_v1_0 := rfl
theorem arrRef0_3 : Pipeline.arrRef spec0 3 = main_v1_1 := rfl
theorem arrRef0_4 : Pipeline.arrRef spec0 4 = main_v1_2 := rfl

/-! ## The index maps -/

/-- The index maps over the grid's 64 points: point t is image t; W and the two columns are one block. -/
theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-! ## The blocks the body reads -/

/-- Window 0's block at point t is image t of x's array. -/
theorem iblk0_0_apply (c : Dev nD) (t : Fin cfg0.N) (y : S1x128x1024.Idx) (k : S64x128x1024.Idx)
    (hk0 : (k 0).val = t.val) (hk1 : (k 1).val = (y 1).val) (hk2 : (k 2).val = (y 2).val) :
    (iblk0 V c 0 t : Vec Ideal S1x128x1024 .f32) y = (V c main_v0 : S64x128x1024.Idx → EReal) k := by
  obtain ⟨e0, e1, e2, -⟩ := idx0 t
  have hy0 : (y 0).val < 1 := (y 0).isLt
  unfold iblk0
  rw [View.read_apply]
  show V c main_v0 _ = V c main_v0 _
  congr 1
  funext a
  apply Fin.ext
  match a with
  | ⟨0, _⟩ => show win0_0.index t 0 * 1 + 1 * (y 0).val = (k 0).val; rw [e0, hk0]; omega
  | ⟨1, _⟩ => show win0_0.index t 1 * 128 + 1 * (y 1).val = (k 1).val; rw [e1, hk1]; omega
  | ⟨2, _⟩ => show win0_0.index t 2 * 1024 + 1 * (y 2).val = (k 2).val; rw [e2, hk2]; omega

/-- Window 1's block is the whole of W at every point. -/
theorem iblk0_1_apply (c : Dev nD) (t : Fin cfg0.N) (y : S64x128.Idx) :
    (iblk0 V c 1 t : Vec Ideal S64x128 .f32) y = (V c main_arg1 : S64x128.Idx → EReal) y := by
  obtain ⟨-, -, -, e0, e1, -⟩ := idx0 t
  unfold iblk0
  rw [View.read_apply]
  show V c main_arg1 _ = V c main_arg1 _
  congr 1
  funext a
  apply Fin.ext
  match a with
  | ⟨0, _⟩ => show win0_1.index t 0 * 64 + 1 * (y 0).val = (y 0).val; rw [e0]; omega
  | ⟨1, _⟩ => show win0_1.index t 1 * 128 + 1 * (y 1).val = (y 1).val; rw [e1]; omega

/-- The product of point t's blocks at channel p, lane s of the block is y at the image and lane the point covers. -/
theorem yblk0 (c : Dev nD) (t : Fin cfg0.N) (b1 : Vec Ideal S64x128 .f32) (b0 : Vec Ideal S1x128x1024 .f32)
    (h1 : b1 = iblk0 V c 1 t) (h0 : b0 = iblk0 V c 0 t) (n : Fin 64) (l : Fin 1024) (p : Fin 64) (s : Fin 1024)
    (hn : n.val = t.val) (hl : l.val = s.val) :
    ∑ k : Fin 128, b1 (ix2 p k) * b0 (ix3 (0 : Fin 1) k s) = RG0_2 (V c main_v0) (V c main_arg1) (ix3 n p l) := by
  subst h1 h0
  refine Eq.trans ?_ (RG0_2_at _ _ n p l).symm
  refine Finset.sum_congr rfl fun k _ => ?_
  exact congrArg₂ (· * ·) (iblk0_1_apply V c t (ix2 p k)) (iblk0_0_apply V c t (ix3 (0 : Fin 1) k s) (ix3 n k l) hn rfl hl)

/-! ## y: from the blocks to the array -/

/-- What point t writes back is point t's block of y. -/
theorem Rflushed0_2_eq (c : Dev nD) (t : Fin cfg0.N) :
    (dat0 V c).flushed 2 t = ((cfg0.win 2).blk t).view.read (Elt Ideal) (RG0_2 (V c main_v0) (V c main_arg1)) := by
  show (cfg0.win 2).cut (grid0.coords t) ((dat0 V c).after 2 t) = _
  rw [after0_2]
  obtain ⟨-, -, -, -, -, e0, e1, e2, -⟩ := idx0 t
  have hN : cfg0.N = 64 := N_0
  have ht : t.val < 64 := lt_of_lt_of_eq t.isLt hN
  funext j
  have hj0 : (j 0).val < 1 := (j 0).isLt
  have hj1 : (j 1).val < 64 := (j 1).isLt
  have hj2 : (j 2).val < 1024 := (j 2).isLt
  have hx : (cfg0.win 2).xinj (grid0.coords t) j = ix3 (⟨(j 0).val, hj0⟩ : Fin 1) (⟨(j 1).val, hj1⟩ : Fin 64) (⟨(j 2).val, hj2⟩ : Fin 1024) :=
    funext fun a => by match a with | ⟨0, _⟩ => rfl | ⟨1, _⟩ => rfl | ⟨2, _⟩ => rfl
  show k0_pay4 (iblk0 V c 1 t) (iblk0 V c 0 t) ((cfg0.win 2).xinj (grid0.coords t) j)
    = RG0_2 (V c main_v0) (V c main_arg1) (((cfg0.win 2).blk t).view.emb j)
  rw [hx]
  refine (payR0_4_apply (iblk0 V c 1 t) (iblk0 V c 0 t) ⟨(j 0).val, hj0⟩ ⟨(j 1).val, hj1⟩ ⟨(j 2).val, hj2⟩).trans ?_
  have h0 : ((((cfg0.win 2).blk t).view.emb j) 0).val = t.val := by
    show win0_2.index t 0 * 1 + 1 * (j 0).val = t.val; rw [e0]; omega
  have h1 : ((((cfg0.win 2).blk t).view.emb j) 1).val = (j 1).val := by
    show win0_2.index t 1 * 64 + 1 * (j 1).val = (j 1).val; rw [e1]; omega
  have h2 : ((((cfg0.win 2).blk t).view.emb j) 2).val = (j 2).val := by
    show win0_2.index t 2 * 1024 + 1 * (j 2).val = (j 2).val; rw [e2]; omega
  refine (yblk0 V c t _ _ rfl rfl (⟨t.val, by omega⟩ : Fin 64) (⟨(j 2).val, by omega⟩ : Fin 1024) ⟨(j 1).val, hj1⟩ ⟨(j 2).val, hj2⟩ rfl rfl).trans ?_
  refine congrArg (RG0_2 (V c main_v0) (V c main_arg1)) ?_
  funext a; apply Fin.ext
  match a with
  | ⟨0, _⟩ => exact h0.symm
  | ⟨1, _⟩ => exact h1.symm
  | ⟨2, _⟩ => exact h2.symm

/-- An index of y's array is in point t's block iff each coordinate is in the block's range on its axis. -/
theorem mem_blk0_2 (t : Fin cfg0.N) (i : S64x64x1024.Idx) :
    i ∈ ((cfg0.win 2).blk t).view.set ↔ ∀ a : Fin 3, win0_2.index t a * S1x64x1024.size a ≤ (i a).val
      ∧ (i a).val < win0_2.index t a * S1x64x1024.size a + S1x64x1024.size a := by
  show i ∈ ((View.whole main_v1_0).slice (win0_2.rect t)).set ↔ _
  rw [View.set_slice_whole, Rect.mem_set_unit]
  exact Iff.rfl

/-- y's array after the region. Index (n, ch, l) lies in the block of point n, and every point writes its block back. -/
theorem Rfinal0_2 (c : Dev nD) : (dat0 V c).arrAt 2 cfg0.N = RG0_2 (V c main_v0) (V c main_arg1) :=
  (dat0 V c).arrAt_eq_of_cover 2 _ (fun t _ => Rflushed0_2_eq V c t) fun i => by
    have hi0 : (i 0).val < 64 := (i 0).isLt
    have hi1 : (i 1).val < 64 := (i 1).isLt
    have hi2 : (i 2).val < 1024 := (i 2).isLt
    have hN : cfg0.N = 64 := N_0
    obtain ⟨t, ht⟩ : ∃ t : Fin cfg0.N, t.val = (i 0).val := ⟨⟨(i 0).val, by rw [hN]; omega⟩, rfl⟩
    obtain ⟨-, -, -, -, -, e0, e1, e2, -⟩ := idx0 t
    refine ⟨t, flush0_2 t, ?_⟩
    rw [mem_blk0_2]
    intro a
    match a with
    | ⟨0, _⟩ => show win0_2.index t 0 * 1 ≤ (i 0).val ∧ (i 0).val < win0_2.index t 0 * 1 + 1; rw [e0, ht]; omega
    | ⟨1, _⟩ => show win0_2.index t 1 * 64 ≤ (i 1).val ∧ (i 1).val < win0_2.index t 1 * 64 + 64; rw [e1]; omega
    | ⟨2, _⟩ => show win0_2.index t 2 * 1024 ≤ (i 2).val ∧ (i 2).val < win0_2.index t 2 * 1024 + 1024; rw [e2]; omega

/-! ## The two accumulated columns: induction on the grid point -/

/-- The contribution of grid point m to channel p of the sums: the sum over the point's lanes. -/
def ptR0_3 (x : S64x128x1024.Idx → EReal) (W : S64x128.Idx → EReal) (m : ℕ) (p : Fin 64) : EReal :=
  if h : m < 64 then ∑ s : Fin 1024, RG0_2 x W (ix3 (⟨m, by omega⟩ : Fin 64) p (⟨s.val, by have := s.isLt; omega⟩ : Fin 1024)) else 0

/-- What point t adds to the accumulator, from the blocks it reads, is that contribution. -/
theorem pointR0_3 (c : Dev nD) (t : Fin cfg0.N) (b1 : Vec Ideal S64x128 .f32) (b0 : Vec Ideal S1x128x1024 .f32)
    (h1 : b1 = iblk0 V c 1 t) (h0 : b0 = iblk0 V c 0 t) (p : Fin 64) :
    ∑ s : Fin 1024, (∑ k : Fin 128, b1 (ix2 p k) * b0 (ix3 (0 : Fin 1) k s))
      = ptR0_3 (V c main_v0) (V c main_arg1) t.val p := by
  have ht : t.val < 64 := lt_of_lt_of_eq t.isLt N_0
  unfold ptR0_3
  rw [dif_pos ht]
  exact Finset.sum_congr rfl fun s _ => yblk0 V c t b1 b0 h1 h0 _ _ p s rfl rfl

/-- After point n the accumulator holds the contributions of points 0…n: the first point starts from the zero column,
    every later one from what the point before left. -/
theorem outsAt0_3_sum (c : Dev nD) (p : Fin 64) (z : Fin 1) (n : ℕ) (hn : n < cfg0.N) :
    (outsAt0_3 V c n hn : Vec Ideal S64x1 .f32) (ix2 p z) = ∑ m ∈ Finset.range (n + 1), ptR0_3 (V c main_v0) (V c main_arg1) m p := by
  induction n with
  | zero =>
    refine (congrFun (outsAt0_3_A V c ⟨0, hn⟩ rfl) (ix2 p z)).trans ?_
    refine (payR0_5_apply (iblk0 V c 1 ⟨0, hn⟩) (iblk0 V c 0 ⟨0, hn⟩) (k0_pay1 (F := Ideal)) p z).trans ?_
    rw [Finset.sum_range_one, payR0_1_apply, zero_add]
    exact pointR0_3 V c ⟨0, hn⟩ _ _ rfl rfl p
  | succ n ih =>
    refine (congrFun (outsAt0_3_B V c ⟨n + 1, hn⟩ (Nat.succ_ne_zero n)) (ix2 p z)).trans ?_
    refine (payR0_5_apply (iblk0 V c 1 ⟨n + 1, hn⟩) (iblk0 V c 0 ⟨n + 1, hn⟩) _ p z).trans ?_
    rw [Finset.sum_range_succ]
    exact congrArg₂ (· + ·) (ih (Nat.lt_of_succ_lt hn)) (pointR0_3 V c ⟨n + 1, hn⟩ _ _ rfl rfl p)

/-- The contribution of grid point m to channel p of the sums of squares: the sum over the point's lanes. -/
def ptR0_4 (x : S64x128x1024.Idx → EReal) (W : S64x128.Idx → EReal) (m : ℕ) (p : Fin 64) : EReal :=
  if h : m < 64 then ∑ s : Fin 1024, RG0_2 x W (ix3 (⟨m, by omega⟩ : Fin 64) p (⟨s.val, by have := s.isLt; omega⟩ : Fin 1024)) * RG0_2 x W (ix3 (⟨m, by omega⟩ : Fin 64) p (⟨s.val, by have := s.isLt; omega⟩ : Fin 1024)) else 0

/-- What point t adds to the accumulator, from the blocks it reads, is that contribution. -/
theorem pointR0_4 (c : Dev nD) (t : Fin cfg0.N) (b1 : Vec Ideal S64x128 .f32) (b0 : Vec Ideal S1x128x1024 .f32)
    (h1 : b1 = iblk0 V c 1 t) (h0 : b0 = iblk0 V c 0 t) (p : Fin 64) :
    ∑ s : Fin 1024, (∑ k : Fin 128, b1 (ix2 p k) * b0 (ix3 (0 : Fin 1) k s)) * (∑ k : Fin 128, b1 (ix2 p k) * b0 (ix3 (0 : Fin 1) k s))
      = ptR0_4 (V c main_v0) (V c main_arg1) t.val p := by
  have ht : t.val < 64 := lt_of_lt_of_eq t.isLt N_0
  unfold ptR0_4
  rw [dif_pos ht]
  exact Finset.sum_congr rfl fun s _ => congrArg₂ (· * ·) (yblk0 V c t b1 b0 h1 h0 _ _ p s rfl rfl) (yblk0 V c t b1 b0 h1 h0 _ _ p s rfl rfl)

/-- After point n the accumulator holds the contributions of points 0…n: the first point starts from the zero column,
    every later one from what the point before left. -/
theorem outsAt0_4_sum (c : Dev nD) (p : Fin 64) (z : Fin 1) (n : ℕ) (hn : n < cfg0.N) :
    (outsAt0_4 V c n hn : Vec Ideal S64x1 .f32) (ix2 p z) = ∑ m ∈ Finset.range (n + 1), ptR0_4 (V c main_v0) (V c main_arg1) m p := by
  induction n with
  | zero =>
    refine (congrFun (outsAt0_4_A V c ⟨0, hn⟩ rfl) (ix2 p z)).trans ?_
    refine (payR0_6_apply (iblk0 V c 1 ⟨0, hn⟩) (iblk0 V c 0 ⟨0, hn⟩) (k0_pay2 (F := Ideal)) p z).trans ?_
    rw [Finset.sum_range_one, payR0_2_apply, zero_add]
    exact pointR0_4 V c ⟨0, hn⟩ _ _ rfl rfl p
  | succ n ih =>
    refine (congrFun (outsAt0_4_B V c ⟨n + 1, hn⟩ (Nat.succ_ne_zero n)) (ix2 p z)).trans ?_
    refine (payR0_6_apply (iblk0 V c 1 ⟨n + 1, hn⟩) (iblk0 V c 0 ⟨n + 1, hn⟩) _ p z).trans ?_
    rw [Finset.sum_range_succ]
    exact congrArg₂ (· + ·) (ih (Nat.lt_of_succ_lt hn)) (pointR0_4 V c ⟨n + 1, hn⟩ _ _ rfl rfl p)

/-! ## The two accumulated columns: the last point's write-back is the whole array -/

/-- The contributions of all the points are the sum over the images and the lanes. -/
theorem sum_pointsR0_3 (x : S64x128x1024.Idx → EReal) (W : S64x128.Idx → EReal) (p : Fin 64) :
    ∑ m ∈ Finset.range 64, ptR0_3 x W m p = ∑ n : Fin 64, ∑ l : Fin 1024, RG0_2 x W (ix3 n p l) := by
  rw [Finset.sum_range]
  refine Finset.sum_congr rfl fun n _ => ?_
  unfold ptR0_3
  rw [dif_pos n.isLt]

/-- The contributions of all the points are the sum over the images and the lanes. -/
theorem sum_pointsR0_4 (x : S64x128x1024.Idx → EReal) (W : S64x128.Idx → EReal) (p : Fin 64) :
    ∑ m ∈ Finset.range 64, ptR0_4 x W m p = ∑ n : Fin 64, ∑ l : Fin 1024, RG0_2 x W (ix3 n p l) * RG0_2 x W (ix3 n p l) := by
  rw [Finset.sum_range]
  refine Finset.sum_congr rfl fun n _ => ?_
  unfold ptR0_4
  rw [dif_pos n.isLt]

/-- An index of the array of the sums is in point t's block iff each coordinate is in the block's range on its axis. -/
theorem mem_blk0_3 (t : Fin cfg0.N) (i : S64x1.Idx) :
    i ∈ ((cfg0.win 3).blk t).view.set ↔ ∀ a : Fin 2, win0_3.index t a * S64x1.size a ≤ (i a).val
      ∧ (i a).val < win0_3.index t a * S64x1.size a + S64x1.size a := by
  show i ∈ ((View.whole main_v1_1).slice (win0_3.rect t)).set ↔ _
  rw [View.set_slice_whole, Rect.mem_set_unit]
  exact Iff.rfl

/-- The one write-back of the sums, after the last point, writes the sum over all images and lanes. -/
theorem Rflushed0_3_eq (c : Dev nD) (t : Fin cfg0.N) (hf : (cfg0.win 3).flush t = true) :
    (dat0 V c).flushed 3 t = ((cfg0.win 3).blk t).view.read (Elt Ideal) (RG0_3 (V c main_v0) (V c main_arg1)) := by
  have hN : cfg0.N = 64 := N_0
  have hl : t.val = 63 := by have := (flush0_3 t).mp hf; have := t.isLt; omega
  show (cfg0.win 3).cut (grid0.coords t) ((dat0 V c).after 3 t) = _
  rw [after0_3]
  obtain ⟨-, -, -, -, -, -, -, -, e0, e1, -⟩ := idx0 t
  funext j
  have hj0 : (j 0).val < 64 := (j 0).isLt
  have hj1 : (j 1).val < 1 := (j 1).isLt
  have hx : (cfg0.win 3).xinj (grid0.coords t) j = ix2 (⟨(j 0).val, hj0⟩ : Fin 64) (⟨(j 1).val, hj1⟩ : Fin 1) :=
    funext fun a => by match a with | ⟨0, _⟩ => rfl | ⟨1, _⟩ => rfl
  show outsAt0_3 V c t.val t.isLt ((cfg0.win 3).xinj (grid0.coords t) j)
    = RG0_3 (V c main_v0) (V c main_arg1) (((cfg0.win 3).blk t).view.emb j)
  rw [hx]
  refine (outsAt0_3_sum V c ⟨(j 0).val, hj0⟩ ⟨(j 1).val, hj1⟩ t.val t.isLt).trans ?_
  have he : ((cfg0.win 3).blk t).view.emb j = ix2 (⟨(j 0).val, hj0⟩ : Fin 64) (⟨(j 1).val, hj1⟩ : Fin 1) := by
    funext a; apply Fin.ext
    match a with
    | ⟨0, _⟩ => show win0_3.index t 0 * 64 + 1 * (j 0).val = (j 0).val; rw [e0]; omega
    | ⟨1, _⟩ => show win0_3.index t 1 * 1 + 1 * (j 1).val = (j 1).val; rw [e1]; omega
  rw [he, RG0_3_at, hl]
  exact sum_pointsR0_3 _ _ _

/-- The array of the sums after the region: the sum over all images and lanes; the last point's one block is the
    whole array. -/
theorem Rfinal0_3 (c : Dev nD) : (dat0 V c).arrAt 3 cfg0.N = RG0_3 (V c main_v0) (V c main_arg1) :=
  (dat0 V c).arrAt_eq_of_cover 3 _ (fun t hf => Rflushed0_3_eq V c t hf) fun i => by
    have hi0 : (i 0).val < 64 := (i 0).isLt
    have hi1 : (i 1).val < 1 := (i 1).isLt
    have hN : cfg0.N = 64 := N_0
    obtain ⟨t, ht⟩ : ∃ t : Fin cfg0.N, t.val = 63 := ⟨⟨63, by rw [hN]; omega⟩, rfl⟩
    obtain ⟨-, -, -, -, -, -, -, -, e0, e1, -⟩ := idx0 t
    refine ⟨t, (flush0_3 t).mpr (by omega), ?_⟩
    rw [mem_blk0_3]
    intro a
    match a with
    | ⟨0, _⟩ => show win0_3.index t 0 * 64 ≤ (i 0).val ∧ (i 0).val < win0_3.index t 0 * 64 + 64; rw [e0]; omega
    | ⟨1, _⟩ => show win0_3.index t 1 * 1 ≤ (i 1).val ∧ (i 1).val < win0_3.index t 1 * 1 + 1; rw [e1]; omega

/-- An index of the array of the sums of squares is in point t's block iff each coordinate is in the block's range on its axis. -/
theorem mem_blk0_4 (t : Fin cfg0.N) (i : S64x1.Idx) :
    i ∈ ((cfg0.win 4).blk t).view.set ↔ ∀ a : Fin 2, win0_4.index t a * S64x1.size a ≤ (i a).val
      ∧ (i a).val < win0_4.index t a * S64x1.size a + S64x1.size a := by
  show i ∈ ((View.whole main_v1_2).slice (win0_4.rect t)).set ↔ _
  rw [View.set_slice_whole, Rect.mem_set_unit]
  exact Iff.rfl

/-- The one write-back of the sums of squares, after the last point, writes the sum over all images and lanes. -/
theorem Rflushed0_4_eq (c : Dev nD) (t : Fin cfg0.N) (hf : (cfg0.win 4).flush t = true) :
    (dat0 V c).flushed 4 t = ((cfg0.win 4).blk t).view.read (Elt Ideal) (RG0_4 (V c main_v0) (V c main_arg1)) := by
  have hN : cfg0.N = 64 := N_0
  have hl : t.val = 63 := by have := (flush0_4 t).mp hf; have := t.isLt; omega
  show (cfg0.win 4).cut (grid0.coords t) ((dat0 V c).after 4 t) = _
  rw [after0_4]
  obtain ⟨-, -, -, -, -, -, -, -, -, -, e0, e1⟩ := idx0 t
  funext j
  have hj0 : (j 0).val < 64 := (j 0).isLt
  have hj1 : (j 1).val < 1 := (j 1).isLt
  have hx : (cfg0.win 4).xinj (grid0.coords t) j = ix2 (⟨(j 0).val, hj0⟩ : Fin 64) (⟨(j 1).val, hj1⟩ : Fin 1) :=
    funext fun a => by match a with | ⟨0, _⟩ => rfl | ⟨1, _⟩ => rfl
  show outsAt0_4 V c t.val t.isLt ((cfg0.win 4).xinj (grid0.coords t) j)
    = RG0_4 (V c main_v0) (V c main_arg1) (((cfg0.win 4).blk t).view.emb j)
  rw [hx]
  refine (outsAt0_4_sum V c ⟨(j 0).val, hj0⟩ ⟨(j 1).val, hj1⟩ t.val t.isLt).trans ?_
  have he : ((cfg0.win 4).blk t).view.emb j = ix2 (⟨(j 0).val, hj0⟩ : Fin 64) (⟨(j 1).val, hj1⟩ : Fin 1) := by
    funext a; apply Fin.ext
    match a with
    | ⟨0, _⟩ => show win0_4.index t 0 * 64 + 1 * (j 0).val = (j 0).val; rw [e0]; omega
    | ⟨1, _⟩ => show win0_4.index t 1 * 1 + 1 * (j 1).val = (j 1).val; rw [e1]; omega
  rw [he, RG0_4_at, hl]
  exact sum_pointsR0_4 _ _ _

/-- The array of the sums of squares after the region: the sum over all images and lanes; the last point's one block is the
    whole array. -/
theorem Rfinal0_4 (c : Dev nD) : (dat0 V c).arrAt 4 cfg0.N = RG0_4 (V c main_v0) (V c main_arg1) :=
  (dat0 V c).arrAt_eq_of_cover 4 _ (fun t hf => Rflushed0_4_eq V c t hf) fun i => by
    have hi0 : (i 0).val < 64 := (i 0).isLt
    have hi1 : (i 1).val < 1 := (i 1).isLt
    have hN : cfg0.N = 64 := N_0
    obtain ⟨t, ht⟩ : ∃ t : Fin cfg0.N, t.val = 63 := ⟨⟨63, by rw [hN]; omega⟩, rfl⟩
    obtain ⟨-, -, -, -, -, -, -, -, -, -, e0, e1⟩ := idx0 t
    refine ⟨t, (flush0_4 t).mpr (by omega), ?_⟩
    rw [mem_blk0_4]
    intro a
    match a with
    | ⟨0, _⟩ => show win0_4.index t 0 * 64 ≤ (i 0).val ∧ (i 0).val < win0_4.index t 0 * 64 + 64; rw [e0]; omega
    | ⟨1, _⟩ => show win0_4.index t 1 * 1 ≤ (i 1).val ∧ (i 1).val < win0_4.index t 1 * 1 + 1; rw [e1]; omega

end Cert.ReferenceIdeal.Val

end
-- ==== Proof.RefV1s.lean ====
import proofs.«159567_g2000302752657622_pallasbulk_725_3_alg».proof.Proof.Gen.ReferenceIdeal
import proofs.«159567_g2000302752657622_pallasbulk_725_3_alg».proof.Proof.LibConvSpec
import Idealize.ShloMosaic.Lib.ValueIdx
import Idealize.ShloMosaic.Lib.Pipeline.Kit

/-! # Region 1 of the reference: what its three output arrays are, index by index

The region reads y (window 0, [64,64,1024]: image, channel, pixel of a 32 × 32 raster along the lanes), a per-channel
scale and shift (windows 1, 2: [64,1]), nine tap matrices (window 3: [9,64,64]) and four mask rows (window 4: [4,1024]).
With z = sin (y · scale + shift), continued by zero past the last pixel, the masked window of shift index s is z moved
by 0, 1, 32 or 33 lanes times mask row s; a tap is its matrix applied to a window; output phase p is the sum of its
taps in tap order, and lands in lanes [p · 1024, (p + 1) · 1024) of the output image. The two statistics are, per
channel, the sum and the sum of squares of all four phases over all lanes and images, added up phase by phase within an
image and image by image. -/

noncomputable section

namespace Cert.ReferenceIdeal.Val

open Cert.ReferenceIdeal Cert.ReferenceIdeal.Gen
open Idealize.ShloMosaic Idealize.ShloMosaic.ValueIdx
open scoped BigOperators

/-- The masked window of shift index `s` of image `n`, at channel `b` and lane `l`. -/
def RS1 (a0 : S64x64x1024.Idx → EReal) (a1 a2 : S64x1.Idx → EReal) (a4 : S4x1024.Idx → EReal)
    (n : Fin 64) (l : Fin 1024) (s : Fin 4) (b : Fin 64) : EReal :=
  Cert.Lib.ConvSpec.slab (fun c m => a0 (ix3 n c m)) (fun c => a1 (ix2 c (0 : Fin 1))) (fun c => a2 (ix2 c (0 : Fin 1)))
    (fun s l => a4 (ix2 s l)) l s b

/-- Tap `t` of weights `W` applied to the window of shift index `s` among the windows `S`: output channel `a`. -/
def tap1 (W : Fin 9 → Fin 64 → Fin 64 → EReal) (S : Fin 4 → Fin 64 → EReal) (a : Fin 64) (t : Fin 9) (s : Fin 4) : EReal :=
  ∑ b : Fin 64, W t a b * S s b

/-- Output phase `p` at channel `a`, from the nine tap matrices and the four windows: its taps added in tap order. -/
def phase1 (W : Fin 9 → Fin 64 → Fin 64 → EReal) (S : Fin 4 → Fin 64 → EReal) (a : Fin 64) (p : Fin 4) : EReal :=
  match p with
  | ⟨0, _⟩ => tap1 W S a 0 0
  | ⟨1, _⟩ => tap1 W S a 1 1 + tap1 W S a 2 0
  | ⟨2, _⟩ => tap1 W S a 3 2 + tap1 W S a 4 0
  | ⟨3, _⟩ => ((tap1 W S a 5 3 + tap1 W S a 6 2) + tap1 W S a 7 1) + tap1 W S a 8 0

/-- Equal readers give equal phases. -/
theorem phase1_congr {W W' : Fin 9 → Fin 64 → Fin 64 → EReal} {S S' : Fin 4 → Fin 64 → EReal}
    (hW : ∀ t a b, W t a b = W' t a b) (hS : ∀ s b, S s b = S' s b) (a : Fin 64) (p : Fin 4) :
    phase1 W S a p = phase1 W' S' a p := by
  obtain rfl : W = W' := funext fun t => funext fun a => funext fun b => hW t a b
  obtain rfl : S = S' := funext fun s => funext fun b => hS s b
  rfl

/-- Output phase `p` at image `n`, channel `a`, lane `l`. -/
def RP1 (a0 : S64x64x1024.Idx → EReal) (a1 a2 : S64x1.Idx → EReal) (a3 : S9x64x64.Idx → EReal) (a4 : S4x1024.Idx → EReal)
    (n a : Fin 64) (l : Fin 1024) (p : Fin 4) : EReal :=
  phase1 (fun t a b => a3 (ix3 t a b)) (RS1 a0 a1 a2 a4 n l) a p

/-- The blocked output: image `n`, channel `a`, lane `p · 1024 + l` holds phase `p` at lane `l`. -/
def RG1_5 (a0 : S64x64x1024.Idx → EReal) (a1 a2 : S64x1.Idx → EReal) (a3 : S9x64x64.Idx → EReal) (a4 : S4x1024.Idx → EReal) : S64x64x4096.Idx → EReal := fun i =>
  RP1 a0 a1 a2 a3 a4 (i 0) (i 1) (⟨(i 2).val % 1024, Nat.mod_lt _ (by decide)⟩ : Fin 1024)
    (⟨(i 2).val / 1024, by have h : (i 2).val < 4096 := (i 2).isLt; omega⟩ : Fin 4)

theorem RG1_5_at (a0 : S64x64x1024.Idx → EReal) (a1 a2 : S64x1.Idx → EReal) (a3 : S9x64x64.Idx → EReal) (a4 : S4x1024.Idx → EReal) (n a : Fin 64) (p : Fin 4) (l : Fin 1024) :
    RG1_5 a0 a1 a2 a3 a4 (ix3 n a (⟨p.val * 1024 + l.val, by have := p.isLt; have := l.isLt; omega⟩ : Fin 4096))
      = RP1 a0 a1 a2 a3 a4 n a l p := by
  have hp := p.isLt; have hl := l.isLt
  show RP1 a0 a1 a2 a3 a4 n a ⟨(p.val * 1024 + l.val) % 1024, _⟩ ⟨(p.val * 1024 + l.val) / 1024, _⟩ = _
  congr 1
  · exact Fin.ext (by show (p.val * 1024 + l.val) % 1024 = l.val; omega)
  · exact Fin.ext (by show (p.val * 1024 + l.val) / 1024 = p.val; omega)

/-- One image's contribution to the per-channel sum: the four phases' lane sums, added phase by phase. -/
def RQ1_6 (a0 : S64x64x1024.Idx → EReal) (a1 a2 : S64x1.Idx → EReal) (a3 : S9x64x64.Idx → EReal) (a4 : S4x1024.Idx → EReal) (n a : Fin 64) : EReal :=
  (((∑ l : Fin 1024, RP1 a0 a1 a2 a3 a4 n a l 0) + ∑ l : Fin 1024, RP1 a0 a1 a2 a3 a4 n a l 1)
    + ∑ l : Fin 1024, RP1 a0 a1 a2 a3 a4 n a l 2) + ∑ l : Fin 1024, RP1 a0 a1 a2 a3 a4 n a l 3

/-- One image's contribution to the per-channel sum of squares. -/
def RQ1_7 (a0 : S64x64x1024.Idx → EReal) (a1 a2 : S64x1.Idx → EReal) (a3 : S9x64x64.Idx → EReal) (a4 : S4x1024.Idx → EReal) (n a : Fin 64) : EReal :=
  (((∑ l : Fin 1024, RP1 a0 a1 a2 a3 a4 n a l 0 * RP1 a0 a1 a2 a3 a4 n a l 0)
      + ∑ l : Fin 1024, RP1 a0 a1 a2 a3 a4 n a l 1 * RP1 a0 a1 a2 a3 a4 n a l 1)
    + ∑ l : Fin 1024, RP1 a0 a1 a2 a3 a4 n a l 2 * RP1 a0 a1 a2 a3 a4 n a l 2)
    + ∑ l : Fin 1024, RP1 a0 a1 a2 a3 a4 n a l 3 * RP1 a0 a1 a2 a3 a4 n a l 3

/-- The per-channel sum of the output over all images, phases and lanes, a [64,1] column. -/
def RG1_6 (a0 : S64x64x1024.Idx → EReal) (a1 a2 : S64x1.Idx → EReal) (a3 : S9x64x64.Idx → EReal) (a4 : S4x1024.Idx → EReal) : S64x1.Idx → EReal := fun i => ∑ n : Fin 64, RQ1_6 a0 a1 a2 a3 a4 n (i 0)

/-- The per-channel sum of squares of the output over all images, phases and lanes, a [64,1] column. -/
def RG1_7 (a0 : S64x64x1024.Idx → EReal) (a1 a2 : S64x1.Idx → EReal) (a3 : S9x64x64.Idx → EReal) (a4 : S4x1024.Idx → EReal) : S64x1.Idx → EReal := fun i => ∑ n : Fin 64, RQ1_7 a0 a1 a2 a3 a4 n (i 0)

theorem RG1_6_at (a0 : S64x64x1024.Idx → EReal) (a1 a2 : S64x1.Idx → EReal) (a3 : S9x64x64.Idx → EReal) (a4 : S4x1024.Idx → EReal) (a : Fin 64) (z : Fin 1) :
    RG1_6 a0 a1 a2 a3 a4 (ix2 a z) = ∑ n : Fin 64, RQ1_6 a0 a1 a2 a3 a4 n a := rfl

theorem RG1_7_at (a0 : S64x64x1024.Idx → EReal) (a1 a2 : S64x1.Idx → EReal) (a3 : S9x64x64.Idx → EReal) (a4 : S4x1024.Idx → EReal) (a : Fin 64) (z : Fin 1) :
    RG1_7 a0 a1 a2 a3 a4 (ix2 a z) = ∑ n : Fin 64, RQ1_7 a0 a1 a2 a3 a4 n a := rfl

/-! ## Reals in, reals out -/

theorem RS1_real (a0 : S64x64x1024.Idx → EReal) (a1 a2 : S64x1.Idx → EReal) (a4 : S4x1024.Idx → EReal)
    (h0 : ∀ i, ∃ r : ℝ, a0 i = r) (h1 : ∀ i, ∃ r : ℝ, a1 i = r) (h2 : ∀ i, ∃ r : ℝ, a2 i = r) (h4 : ∀ i, ∃ r : ℝ, a4 i = r)
    (n : Fin 64) (l : Fin 1024) (s : Fin 4) (b : Fin 64) : ∃ r : ℝ, RS1 a0 a1 a2 a4 n l s b = r :=
  Cert.Lib.ConvSpec.slab_real (fun _ _ => h0 _) (fun _ => h1 _) (fun _ => h2 _) (fun _ _ => h4 _) l s b

theorem tap1_real {W : Fin 9 → Fin 64 → Fin 64 → EReal} {S : Fin 4 → Fin 64 → EReal}
    (hW : ∀ t a b, ∃ r : ℝ, W t a b = r) (hS : ∀ s b, ∃ r : ℝ, S s b = r) (a : Fin 64) (t : Fin 9) (s : Fin 4) :
    ∃ r : ℝ, tap1 W S a t s = r :=
  Cert.Lib.ConvSpec.real_sum _ _ fun b => Cert.Lib.ConvSpec.real_mul (hW _ _ _) (hS _ _)

theorem phase1_real {W : Fin 9 → Fin 64 → Fin 64 → EReal} {S : Fin 4 → Fin 64 → EReal}
    (hW : ∀ t a b, ∃ r : ℝ, W t a b = r) (hS : ∀ s b, ∃ r : ℝ, S s b = r) (a : Fin 64) (p : Fin 4) :
    ∃ r : ℝ, phase1 W S a p = r := by
  have D := tap1_real hW hS a
  match p with
  | ⟨0, _⟩ => exact D 0 0
  | ⟨1, _⟩ => exact Cert.Lib.ConvSpec.real_add (D 1 1) (D 2 0)
  | ⟨2, _⟩ => exact Cert.Lib.ConvSpec.real_add (D 3 2) (D 4 0)
  | ⟨3, _⟩ => exact Cert.Lib.ConvSpec.real_add (Cert.Lib.ConvSpec.real_add (Cert.Lib.ConvSpec.real_add (D 5 3) (D 6 2)) (D 7 1)) (D 8 0)

theorem RP1_real (a0 : S64x64x1024.Idx → EReal) (a1 a2 : S64x1.Idx → EReal) (a3 : S9x64x64.Idx → EReal) (a4 : S4x1024.Idx → EReal) (h0 : ∀ i, ∃ r : ℝ, a0 i = r) (h1 : ∀ i, ∃ r : ℝ, a1 i = r) (h2 : ∀ i, ∃ r : ℝ, a2 i = r) (h3 : ∀ i, ∃ r : ℝ, a3 i = r) (h4 : ∀ i, ∃ r : ℝ, a4 i = r)
    (n a : Fin 64) (l : Fin 1024) (p : Fin 4) : ∃ r : ℝ, RP1 a0 a1 a2 a3 a4 n a l p = r :=
  phase1_real (fun _ _ _ => h3 _) (fun s b => RS1_real a0 a1 a2 a4 h0 h1 h2 h4 n l s b) a p

theorem RG1_5_real (a0 : S64x64x1024.Idx → EReal) (a1 a2 : S64x1.Idx → EReal) (a3 : S9x64x64.Idx → EReal) (a4 : S4x1024.Idx → EReal) (h0 : ∀ i, ∃ r : ℝ, a0 i = r) (h1 : ∀ i, ∃ r : ℝ, a1 i = r) (h2 : ∀ i, ∃ r : ℝ, a2 i = r) (h3 : ∀ i, ∃ r : ℝ, a3 i = r) (h4 : ∀ i, ∃ r : ℝ, a4 i = r) : ∀ i, ∃ r : ℝ, RG1_5 a0 a1 a2 a3 a4 i = r :=
  fun i => RP1_real a0 a1 a2 a3 a4 h0 h1 h2 h3 h4 _ _ _ _

theorem RG1_6_real (a0 : S64x64x1024.Idx → EReal) (a1 a2 : S64x1.Idx → EReal) (a3 : S9x64x64.Idx → EReal) (a4 : S4x1024.Idx → EReal) (h0 : ∀ i, ∃ r : ℝ, a0 i = r) (h1 : ∀ i, ∃ r : ℝ, a1 i = r) (h2 : ∀ i, ∃ r : ℝ, a2 i = r) (h3 : ∀ i, ∃ r : ℝ, a3 i = r) (h4 : ∀ i, ∃ r : ℝ, a4 i = r) : ∀ i, ∃ r : ℝ, RG1_6 a0 a1 a2 a3 a4 i = r := fun i => by
  have P := RP1_real a0 a1 a2 a3 a4 h0 h1 h2 h3 h4
  refine Cert.Lib.ConvSpec.real_sum _ _ fun n => ?_
  exact Cert.Lib.ConvSpec.real_add (Cert.Lib.ConvSpec.real_add (Cert.Lib.ConvSpec.real_add
    (Cert.Lib.ConvSpec.real_sum _ _ fun l => P n _ l 0) (Cert.Lib.ConvSpec.real_sum _ _ fun l => P n _ l 1))
    (Cert.Lib.ConvSpec.real_sum _ _ fun l => P n _ l 2)) (Cert.Lib.ConvSpec.real_sum _ _ fun l => P n _ l 3)

theorem RG1_7_real (a0 : S64x64x1024.Idx → EReal) (a1 a2 : S64x1.Idx → EReal) (a3 : S9x64x64.Idx → EReal) (a4 : S4x1024.Idx → EReal) (h0 : ∀ i, ∃ r : ℝ, a0 i = r) (h1 : ∀ i, ∃ r : ℝ, a1 i = r) (h2 : ∀ i, ∃ r : ℝ, a2 i = r) (h3 : ∀ i, ∃ r : ℝ, a3 i = r) (h4 : ∀ i, ∃ r : ℝ, a4 i = r) : ∀ i, ∃ r : ℝ, RG1_7 a0 a1 a2 a3 a4 i = r := fun i => by
  have P := RP1_real a0 a1 a2 a3 a4 h0 h1 h2 h3 h4
  have Q : ∀ n a l p, ∃ r : ℝ, RP1 a0 a1 a2 a3 a4 n a l p * RP1 a0 a1 a2 a3 a4 n a l p = r :=
    fun n a l p => Cert.Lib.ConvSpec.real_mul (P n a l p) (P n a l p)
  refine Cert.Lib.ConvSpec.real_sum _ _ fun n => ?_
  exact Cert.Lib.ConvSpec.real_add (Cert.Lib.ConvSpec.real_add (Cert.Lib.ConvSpec.real_add
    (Cert.Lib.ConvSpec.real_sum _ _ fun l => Q n _ l 0) (Cert.Lib.ConvSpec.real_sum _ _ fun l => Q n _ l 1))
    (Cert.Lib.ConvSpec.real_sum _ _ fun l => Q n _ l 2)) (Cert.Lib.ConvSpec.real_sum _ _ fun l => Q n _ l 3)

/-! ## Which buffer each window stages -/

theorem arrRef1_0 : Pipeline.arrRef spec1 0 = main_v1_0 := rfl
theorem arrRef1_1 : Pipeline.arrRef spec1 1 = main_v12 := rfl
theorem arrRef1_2 : Pipeline.arrRef spec1 2 = main_v15 := rfl
theorem arrRef1_3 : Pipeline.arrRef spec1 3 = main_arg3 := rfl
theorem arrRef1_4 : Pipeline.arrRef spec1 4 = main_arg4 := rfl
theorem arrRef1_5 : Pipeline.arrRef spec1 5 = main_v16_0 := rfl
theorem arrRef1_6 : Pipeline.arrRef spec1 6 = main_v16_1 := rfl
theorem arrRef1_7 : Pipeline.arrRef spec1 7 = main_v16_2 := rfl

end Cert.ReferenceIdeal.Val

end
-- ==== Proof.RefV2a.lean ====
import proofs.«159567_g2000302752657622_pallasbulk_725_3_alg».proof.Proof.Gen.ReferenceIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Val

open Cert.ReferenceIdeal Cert.ReferenceIdeal.Gen
open Idealize.ShloMosaic Idealize.ShloMosaic.ValueIdx
open scoped BigOperators

/-! ## Region 2: sin (x·scale + shift) of one lane tile of an image, its 1×1 convolution W·z, the rows' sums and sums of squares

Every payload of the region's body read at an index, over variables of the vectors' literal types: `x` the
[1,64,2048] block, `sc`, `sh` the [64,1] scale and shift columns, `W` the [256,64] weights, `acc` a [256,1]
accumulator. -/

/-- The dimension numbers of the region's product: [256,64] · [64,2048], one contracted axis of extent 64. -/
abbrev dot2 : DotDims S256x64 S64x2048 S256x2048 := dot_S256x64_S64x2048_S256x2048_1_0_0_1_n_n

/-- The left operand's row is the output's row. -/
theorem dot2_lhs_0 (i : S256x2048.Idx) (q : dot2.contr.Idx) : (dot2.lhsIdx i q 0).val = (i 0).val := by
  unfold DotDims.lhsIdx
  rw [dif_neg (show ¬(0 : Fin S256x64.rank) ∈ dot2.lhsBatch by decide),
    dif_pos (show (0 : Fin S256x64.rank) ∈ dot2.lhsNonContracting by decide)]
  rfl

/-- The left operand's column is the contracted coordinate. -/
theorem dot2_lhs_1 (i : S256x2048.Idx) (q : dot2.contr.Idx) : (dot2.lhsIdx i q 1).val = (q ⟨0, by decide⟩).val :=
  dot2.lhsIdx_val_of_single rfl i q

/-- The right operand's row is the contracted coordinate. -/
theorem dot2_rhs_0 (i : S256x2048.Idx) (q : dot2.contr.Idx) : (dot2.rhsIdx i q 0).val = (q ⟨0, by decide⟩).val :=
  dot2.rhsIdx_val_of_single rfl i q

/-- The right operand's column is the output's column. -/
theorem dot2_rhs_1 (i : S256x2048.Idx) (q : dot2.contr.Idx) : (dot2.rhsIdx i q 1).val = (i 1).val := by
  unfold DotDims.rhsIdx
  rw [dif_neg (show ¬(1 : Fin S64x2048.rank) ∈ dot2.rhsBatch by decide),
    dif_pos (show (1 : Fin S64x2048.rank) ∈ dot2.rhsNonContracting by decide)]
  rfl

/-- The product into the zero accumulator, at row j and lane l: the sum over the 64 contracted coordinates. -/
theorem matmul2_apply (A : FVec Ideal S256x64 .f32) (B : FVec Ideal S64x2048 .f32) (j : Fin 256) (l : Fin 2048) :
    matmul dot2 none A B (constant (F := Ideal) S256x2048 .f32 0x00000000#32) (ix2 j l)
      = ∑ k : Fin 64, A (ix2 j k) * B (ix2 k l) := by
  show FloatOps.matmul dot2 none A B (constant (F := Ideal) S256x2048 .f32 0x00000000#32) (ix2 j l) = _
  rw [Ideal.matmul_constant_zero_apply, ← Equiv.sum_comp (contrEquiv1 dot2 64 rfl rfl).symm]
  refine Finset.sum_congr rfl fun k _ => ?_
  have hk := contrEquiv1_symm_val dot2 64 rfl rfl k
  have el : dot2.lhsIdx (ix2 j l) ((contrEquiv1 dot2 64 rfl rfl).symm k) = ix2 j k := funext fun a => Fin.ext (by
    match a with
    | ⟨0, _⟩ => exact dot2_lhs_0 _ _
    | ⟨1, _⟩ => exact (dot2_lhs_1 _ _).trans hk)
  have er : dot2.rhsIdx (ix2 j l) ((contrEquiv1 dot2 64 rfl rfl).symm k) = ix2 k l := funext fun a => Fin.ext (by
    match a with
    | ⟨0, _⟩ => exact (dot2_rhs_0 _ _).trans hk
    | ⟨1, _⟩ => exact dot2_rhs_1 _ _)
  rw [el, er]

/-- The sum along the 2048 lanes of a [256,2048] block, at row j. -/
theorem laneSum2_apply (X : FVec Ideal S256x2048 .f32) (j : Fin 256) :
    multiReduction (F := Ideal) .add [1] S256 X 0x00000000#32 reduces_S256x2048_S256 (.inl rfl) rfl (ix1 j)
      = ∑ l : Fin 2048, X (ix2 j l) := by
  refine (Ideal.multiReduction_add_single X 0x00000000#32 reduces_S256x2048_S256 (.inl rfl) rfl (ix1 j)).trans ?_
  refine Finset.sum_congr rfl fun l _ => congrArg X ?_
  funext a; apply Fin.ext
  match a with
  | ⟨0, _⟩ => rfl
  | ⟨1, _⟩ => rfl

/-- A [256] vector viewed [256,1] reads its row. -/
theorem column2_apply (Y : FVec Ideal S256 .f32) (j : Fin 256) (z : Fin 1) :
    shapeCast S256x1 Y shapeCasts_S256_S256x1 (ix2 j z) = Y (ix1 j) := by
  refine shapeCast_apply Y _ (ix2 j z) (ix1 j) ?_
  have hz : z.val = 0 := by omega
  rw [Shape.rowMajor_val_one, Shape.rowMajor_val_two]
  show j.val = j.val * 1 + z.val
  rw [hz]; omega

/-- A [64,1] column broadcast along the 2048 lanes reads, at (k, l), the column's row k. -/
theorem lanes2_apply (col : FVec Ideal S64x1 .f32) (k : Fin 64) (l : Fin 2048) :
    broadcastTo S64x2048 col broadcasts_S64x1_S64x2048 (ix2 k l) = col (ix2 k (0 : Fin 1)) := by
  refine broadcastTo_apply col _ (ix2 k l) (ix2 k (0 : Fin 1)) fun a => ?_
  match a with
  | ⟨0, _⟩ => rfl
  | ⟨1, _⟩ => rfl

/-- The activation at channel k and lane l: the sine of the block's element scaled and shifted by its channel's
    coefficients. -/
def z2 (x : Vec Ideal S1x64x2048 .f32) (sc sh : Vec Ideal S64x1 .f32) (k : Fin 64) (l : Fin 2048) : EReal :=
  Ideal.sin (x (ix3 (0 : Fin 1) k l) * sc (ix2 k (0 : Fin 1)) + sh (ix2 k (0 : Fin 1)))

/-- The convolution's output at row j and lane l: W·z. -/
def y2 (x : Vec Ideal S1x64x2048 .f32) (sc sh : Vec Ideal S64x1 .f32) (W : Vec Ideal S256x64 .f32) (j : Fin 256) (l : Fin 2048) : EReal :=
  ∑ k : Fin 64, W (ix2 j k) * z2 x sc sh k l

/-- The product's payload at (j, l). -/
theorem pay2_4_apply (x : Vec Ideal S1x64x2048 .f32) (sc sh : Vec Ideal S64x1 .f32) (W : Vec Ideal S256x64 .f32) (j : Fin 256) (l : Fin 2048) :
    Gen.k2_pay4 x sc sh W (ix2 j l) = y2 x sc sh W j l := by
  unfold Gen.k2_pay4 y2
  refine (matmul2_apply _ _ j l).trans ?_
  refine Finset.sum_congr rfl fun k _ => congrArg (W (ix2 j k) * ·) ?_
  show Ideal.sin (shapeCast S64x2048 x shapeCasts_S1x64x2048_S64x2048 (ix2 k l)
      * broadcastTo S64x2048 (shapeCast S64x1 sc shapeCasts_S64x1_S64x1) broadcasts_S64x1_S64x2048 (ix2 k l)
      + broadcastTo S64x2048 (shapeCast S64x1 sh shapeCasts_S64x1_S64x1) broadcasts_S64x1_S64x2048 (ix2 k l)) = z2 x sc sh k l
  rw [shapeCast_1ab_ab_apply x _ k l, lanes2_apply, lanes2_apply, shapeCast_self sc, shapeCast_self sh]
  rfl

/-- The stored block's payload: the product viewed [1,256,2048]. -/
theorem pay2_5_apply (x : Vec Ideal S1x64x2048 .f32) (sc sh : Vec Ideal S64x1 .f32) (W : Vec Ideal S256x64 .f32) (u : Fin 1) (j : Fin 256) (l : Fin 2048) :
    Gen.k2_pay5 x sc sh W (ix3 u j l) = y2 x sc sh W j l := by
  unfold Gen.k2_pay5
  exact (shapeCast_ab_1ab_apply _ _ u j l).trans (pay2_4_apply x sc sh W j l)

/-- The sum accumulator's update: the accumulator plus the row's sum over the tile's lanes. -/
theorem pay2_6_apply (x : Vec Ideal S1x64x2048 .f32) (sc sh : Vec Ideal S64x1 .f32) (W : Vec Ideal S256x64 .f32) (acc : Vec Ideal S256x1 .f32) (j : Fin 256) (z : Fin 1) :
    Gen.k2_pay6 x sc sh W acc (ix2 j z) = acc (ix2 j z) + ∑ l : Fin 2048, y2 x sc sh W j l := by
  unfold Gen.k2_pay6
  refine Eq.trans (addf_apply _ _ _) ?_
  refine congrArg₂ (· + ·) (congrFun (shapeCast_self acc _) (ix2 j z)) ?_
  refine (column2_apply _ j z).trans ?_
  refine (laneSum2_apply _ j).trans ?_
  exact Finset.sum_congr rfl fun l _ => pay2_4_apply x sc sh W j l

/-- The sum-of-squares accumulator as the body reads it back: itself. -/
theorem pay2_7_eq (acc : Vec Ideal S256x1 .f32) : Gen.k2_pay7 acc = acc := by
  unfold Gen.k2_pay7
  exact shapeCast_self acc _

/-- The row's sum of squares over the tile's lanes. -/
theorem pay2_8_apply (x : Vec Ideal S1x64x2048 .f32) (sc sh : Vec Ideal S64x1 .f32) (W : Vec Ideal S256x64 .f32) (j : Fin 256) :
    Gen.k2_pay8 x sc sh W (ix1 j) = ∑ l : Fin 2048, y2 x sc sh W j l * y2 x sc sh W j l := by
  unfold Gen.k2_pay8
  refine (laneSum2_apply _ j).trans ?_
  refine Finset.sum_congr rfl fun l _ => ?_
  refine Eq.trans (mulf_apply _ _ _) ?_
  rw [pay2_4_apply x sc sh W j l]

/-- The sum-of-squares accumulator's update: the accumulator plus the row's sum of squares. -/
theorem pay2_1_apply (acc : FVec Ideal S256x1 .f32) (q : FVec Ideal S256 .f32) (j : Fin 256) (z : Fin 1) :
    Gen.k2_pay1 acc q (ix2 j z) = acc (ix2 j z) + q (ix1 j) := by
  unfold Gen.k2_pay1
  refine Eq.trans (addf_apply _ _ _) ?_
  exact congrArg (acc (ix2 j z) + ·) (column2_apply q j z)

/-- The sum-of-squares accumulator's update as the body forms it, from the accumulator read back and the tile's block. -/
theorem pay2_1_acc_apply (x : Vec Ideal S1x64x2048 .f32) (sc sh : Vec Ideal S64x1 .f32) (W : Vec Ideal S256x64 .f32) (acc : Vec Ideal S256x1 .f32) (j : Fin 256) (z : Fin 1) :
    Gen.k2_pay1 (Gen.k2_pay7 acc) (Gen.k2_pay8 x sc sh W) (ix2 j z)
      = acc (ix2 j z) + ∑ l : Fin 2048, y2 x sc sh W j l * y2 x sc sh W j l := by
  rw [pay2_1_apply, pay2_7_eq, pay2_8_apply]

/-- The zero blocks stored at the first point. -/
theorem pay2_2_apply (i : S256x1.Idx) : Gen.k2_pay2 (F := Ideal) i = 0 := by
  unfold Gen.k2_pay2
  exact Ideal.ofBits_zero_f32

theorem pay2_3_apply (i : S256x1.Idx) : Gen.k2_pay3 (F := Ideal) i = 0 := by
  unfold Gen.k2_pay3
  exact Ideal.ofBits_zero_f32

/-! ### Real entries stay real -/

private theorem real_sum {α : Type} (s : Finset α) (Z : α → EReal) (h : ∀ i, ∃ r : ℝ, Z i = (r : EReal)) :
    ∃ r : ℝ, ∑ i ∈ s, Z i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- The activation of real entries under real coefficients is real. -/
theorem z2_real {x : Vec Ideal S1x64x2048 .f32} {sc sh : Vec Ideal S64x1 .f32}
    (hx : ∀ i, ∃ r : ℝ, x i = (r : EReal)) (hsc : ∀ i, ∃ r : ℝ, sc i = (r : EReal)) (hsh : ∀ i, ∃ r : ℝ, sh i = (r : EReal))
    (k : Fin 64) (l : Fin 2048) : ∃ r : ℝ, z2 x sc sh k l = (r : EReal) := by
  obtain ⟨a, ha⟩ := hx (ix3 (0 : Fin 1) k l)
  obtain ⟨b, hb⟩ := hsc (ix2 k (0 : Fin 1))
  obtain ⟨c, hc⟩ := hsh (ix2 k (0 : Fin 1))
  refine ⟨Real.sin (a * b + c), ?_⟩
  unfold z2
  rw [ha, hb, hc, ← EReal.coe_mul, ← EReal.coe_add]
  rfl

/-- So is the convolution's output, the weights real. -/
theorem y2_real {x : Vec Ideal S1x64x2048 .f32} {sc sh : Vec Ideal S64x1 .f32} {W : Vec Ideal S256x64 .f32}
    (hx : ∀ i, ∃ r : ℝ, x i = (r : EReal)) (hsc : ∀ i, ∃ r : ℝ, sc i = (r : EReal)) (hsh : ∀ i, ∃ r : ℝ, sh i = (r : EReal))
    (hW : ∀ i, ∃ r : ℝ, W i = (r : EReal)) (j : Fin 256) (l : Fin 2048) : ∃ r : ℝ, y2 x sc sh W j l = (r : EReal) := by
  unfold y2
  refine real_sum _ _ fun k => ?_
  obtain ⟨w, hw⟩ := hW (ix2 j k)
  obtain ⟨z, hz⟩ := z2_real hx hsc hsh k l
  exact ⟨w * z, by rw [hw, hz, EReal.coe_mul]⟩

/-- and so are a row's sum and sum of squares over the tile's lanes. -/
theorem y2_sum_real {x : Vec Ideal S1x64x2048 .f32} {sc sh : Vec Ideal S64x1 .f32} {W : Vec Ideal S256x64 .f32}
    (hx : ∀ i, ∃ r : ℝ, x i = (r : EReal)) (hsc : ∀ i, ∃ r : ℝ, sc i = (r : EReal)) (hsh : ∀ i, ∃ r : ℝ, sh i = (r : EReal))
    (hW : ∀ i, ∃ r : ℝ, W i = (r : EReal)) (j : Fin 256) : ∃ r : ℝ, ∑ l : Fin 2048, y2 x sc sh W j l = (r : EReal) :=
  real_sum _ _ fun l => y2_real hx hsc hsh hW j l

theorem y2_sumsq_real {x : Vec Ideal S1x64x2048 .f32} {sc sh : Vec Ideal S64x1 .f32} {W : Vec Ideal S256x64 .f32}
    (hx : ∀ i, ∃ r : ℝ, x i = (r : EReal)) (hsc : ∀ i, ∃ r : ℝ, sc i = (r : EReal)) (hsh : ∀ i, ∃ r : ℝ, sh i = (r : EReal))
    (hW : ∀ i, ∃ r : ℝ, W i = (r : EReal)) (j : Fin 256) :
    ∃ r : ℝ, ∑ l : Fin 2048, y2 x sc sh W j l * y2 x sc sh W j l = (r : EReal) :=
  real_sum _ _ fun l => by
    obtain ⟨y, hy⟩ := y2_real hx hsc hsh hW j l
    exact ⟨y * y, by rw [hy, EReal.coe_mul]⟩

end Cert.ReferenceIdeal.Val

end
-- ==== Proof.LibTaps.lean ====
/- Regroupings of finite sums met when a transposed 3×3 convolution is computed as one stacked matrix product.

   (T1) A sum over `Fin (a * b)` is the double sum over (quotient, remainder).
   (T2) Stride 2: nine taps fall into four output phases; tap `t` reads the input slab shifted by `tapShift t`.
        One block matrix whose block (phase p, shift s) is the tap with that phase and shift (zero where there
        is none), applied to the four stacked slabs, gives in each phase the sum of that phase's taps.
   (T3) Stride 1: nine taps, one phase; the stacked product over `9 · 64` is the sum of the nine taps.
   (T4) Sums of per-phase lane sums are the sum over all `4 · 1024` positions.
   Only commutativity and associativity of `+`, `0 + x = x` and `0 · x = 0` are used: the entries are arbitrary
   extended reals. -/
import Mathlib.Data.EReal.Inv
import Mathlib.Algebra.BigOperators.Fin
import Mathlib.Logic.Equiv.Fin.Basic
import Mathlib.Data.Fintype.BigOperators
import Mathlib.Tactic.FinCases

noncomputable section

namespace Cert.Lib.Taps

open scoped BigOperators

/-! ### (T1) Index splits -/

section Split

variable {M : Type*} [AddCommMonoid M]

/-- The flat index `s · b + r` of the pair (s, r) is below `a · b`. -/
theorem idx_lt {a b : ℕ} (s : Fin a) (r : Fin b) : s.val * b + r.val < a * b :=
  calc s.val * b + r.val < s.val * b + b := Nat.add_lt_add_left r.isLt _
    _ = (s.val + 1) * b := (Nat.succ_mul _ _).symm
    _ ≤ a * b := Nat.mul_le_mul_right _ s.isLt

/-- A sum over `Fin (a * b)` is the sum over the quotient `s` of the sums over the remainder `r`, the flat
    index being `s · b + r`. -/
theorem sum_fin_mul (a b : ℕ) (f : Fin (a * b) → M) :
    ∑ j, f j = ∑ s : Fin a, ∑ r : Fin b, f ⟨s.val * b + r.val, idx_lt s r⟩ := by
  rw [← Equiv.sum_comp finProdFinEquiv f, Fintype.sum_prod_type]
  refine Finset.sum_congr rfl fun s _ => Finset.sum_congr rfl fun r _ => ?_
  congr 1
  exact Fin.ext (by simp [finProdFinEquiv, Nat.mul_comm, Nat.add_comm])

/-- The same read from right to left for a function of the pair: if `f'` at the flat index is `f s r`. -/
theorem sum_fin_mul_of (a b : ℕ) (f : Fin a → Fin b → M) (f' : Fin (a * b) → M)
    (h : ∀ s r, f' ⟨s.val * b + r.val, idx_lt s r⟩ = f s r) :
    ∑ j, f' j = ∑ s, ∑ r, f s r := by
  rw [sum_fin_mul]
  exact Finset.sum_congr rfl fun s _ => Finset.sum_congr rfl fun r _ => h s r

/-- `256 = 4 · 64`. -/
theorem sum_fin_256 (f : Fin 256 → M) :
    ∑ j, f j = ∑ s : Fin 4, ∑ b : Fin 64, f ⟨s.val * 64 + b.val, idx_lt (a := 4) s b⟩ :=
  sum_fin_mul 4 64 f

/-- `576 = 9 · 64`. -/
theorem sum_fin_576 (f : Fin 576 → M) :
    ∑ j, f j = ∑ t : Fin 9, ∑ b : Fin 64, f ⟨t.val * 64 + b.val, idx_lt (a := 9) t b⟩ :=
  sum_fin_mul 9 64 f

/-- `4096 = 4 · 1024`. -/
theorem sum_fin_4096 (f : Fin 4096 → M) :
    ∑ j, f j = ∑ p : Fin 4, ∑ l : Fin 1024, f ⟨p.val * 1024 + l.val, idx_lt (a := 4) p l⟩ :=
  sum_fin_mul 4 1024 f

/-- A sum over `Fin 9`, written out, associated to the left. -/
theorem sum_univ_nine (f : Fin 9 → M) :
    ∑ i, f i = f 0 + f 1 + f 2 + f 3 + f 4 + f 5 + f 6 + f 7 + f 8 := by
  rw [Fin.sum_univ_castSucc, Fin.sum_univ_eight]
  rfl

end Split

/-! ### (T2) The stride-2 tap plan -/

/-- The output phase of each of the nine taps. -/
def tapPhase : Fin 9 → Fin 4 := ![0, 1, 1, 2, 2, 3, 3, 3, 3]

/-- The input shift each of the nine taps reads. -/
def tapShift : Fin 9 → Fin 4 := ![0, 1, 0, 2, 0, 3, 2, 1, 0]

/-- The tap whose block is (phase `p`, shift `s`); seven of the sixteen blocks are empty. -/
def tapOf : Fin 4 → Fin 4 → Option (Fin 9) :=
  ![![some 0, none, none, none],
    ![some 2, some 1, none, none],
    ![some 4, none, some 3, none],
    ![some 8, some 7, some 6, some 5]]

/-- `tapOf p s` is the tap with phase `p` and shift `s`. -/
theorem tapOf_eq_some_iff (p s : Fin 4) (t : Fin 9) :
    tapOf p s = some t ↔ tapPhase t = p ∧ tapShift t = s := by
  revert p s t
  decide

/-- Every tap sits in its own block. -/
theorem tapOf_phase_shift (t : Fin 9) : tapOf (tapPhase t) (tapShift t) = some t :=
  (tapOf_eq_some_iff _ _ _).mpr ⟨rfl, rfl⟩

/-- The entry `(a, b)` of block (phase `p`, shift `s`) of the block matrix: the tap's entry, zero in an
    empty block. -/
def tapBlock (W : Fin 9 → Fin 64 → Fin 64 → EReal) (p s : Fin 4) (a b : Fin 64) : EReal :=
  match tapOf p s with
  | some t => W t a b
  | none => 0

/-- Tap `t`'s contribution to output row `a`: its row against the slab it reads. -/
def tapDot (W : Fin 9 → Fin 64 → Fin 64 → EReal) (slab : Fin 4 → Fin 64 → EReal) (a : Fin 64) (t : Fin 9) : EReal :=
  ∑ b : Fin 64, W t a b * slab (tapShift t) b

section Stride2

variable (W : Fin 9 → Fin 64 → Fin 64 → EReal) (slab : Fin 4 → Fin 64 → EReal) (a : Fin 64)

/-- A block that holds tap `t` contributes the tap's row against the block's slab. -/
theorem block_some {p s : Fin 4} {t : Fin 9} (h : tapOf p s = some t) :
    ∑ b : Fin 64, tapBlock W p s a b * slab s b = ∑ b : Fin 64, W t a b * slab s b := by
  simp only [tapBlock, h]

/-- An empty block contributes nothing. -/
theorem block_none {p s : Fin 4} (h : tapOf p s = none) :
    ∑ b : Fin 64, tapBlock W p s a b * slab s b = 0 := by
  simp only [tapBlock, h, zero_mul, Finset.sum_const_zero]

/-- Phase 0: the one tap 0. -/
theorem phase0 :
    ∑ s : Fin 4, ∑ b : Fin 64, tapBlock W 0 s a b * slab s b = ∑ b : Fin 64, W 0 a b * slab 0 b := by
  rw [Fin.sum_univ_four, block_some W slab a (show tapOf 0 0 = some 0 from rfl),
    block_none W slab a (show tapOf 0 1 = none from rfl), block_none W slab a (show tapOf 0 2 = none from rfl),
    block_none W slab a (show tapOf 0 3 = none from rfl), add_zero, add_zero, add_zero]

/-- Phase 1: tap 1 (shift 1) then tap 2 (shift 0). -/
theorem phase1 :
    ∑ s : Fin 4, ∑ b : Fin 64, tapBlock W 1 s a b * slab s b
      = (∑ b : Fin 64, W 1 a b * slab 1 b) + ∑ b : Fin 64, W 2 a b * slab 0 b := by
  rw [Fin.sum_univ_four, block_some W slab a (show tapOf 1 0 = some 2 from rfl),
    block_some W slab a (show tapOf 1 1 = some 1 from rfl), block_none W slab a (show tapOf 1 2 = none from rfl),
    block_none W slab a (show tapOf 1 3 = none from rfl), add_zero, add_zero, add_comm]

/-- Phase 2: tap 3 (shift 2) then tap 4 (shift 0). -/
theorem phase2 :
    ∑ s : Fin 4, ∑ b : Fin 64, tapBlock W 2 s a b * slab s b
      = (∑ b : Fin 64, W 3 a b * slab 2 b) + ∑ b : Fin 64, W 4 a b * slab 0 b := by
  rw [Fin.sum_univ_four, block_some W slab a (show tapOf 2 0 = some 4 from rfl),
    block_none W slab a (show tapOf 2 1 = none from rfl), block_some W slab a (show tapOf 2 2 = some 3 from rfl),
    block_none W slab a (show tapOf 2 3 = none from rfl), add_zero, add_zero, add_comm]

/-- Phase 3: taps 5, 6, 7, 8 (shifts 3, 2, 1, 0), added in that order. -/
theorem phase3 :
    ∑ s : Fin 4, ∑ b : Fin 64, tapBlock W 3 s a b * slab s b
      = (((∑ b : Fin 64, W 5 a b * slab 3 b) + ∑ b : Fin 64, W 6 a b * slab 2 b)
          + ∑ b : Fin 64, W 7 a b * slab 1 b) + ∑ b : Fin 64, W 8 a b * slab 0 b := by
  rw [Fin.sum_univ_four, block_some W slab a (show tapOf 3 0 = some 8 from rfl),
    block_some W slab a (show tapOf 3 1 = some 7 from rfl), block_some W slab a (show tapOf 3 2 = some 6 from rfl),
    block_some W slab a (show tapOf 3 3 = some 5 from rfl)]
  ac_rfl

/-- The taps of phase 0. -/
theorem filter_phase0 : (Finset.univ.filter fun t => tapPhase t = 0) = {0} := by decide

/-- The taps of phase 1. -/
theorem filter_phase1 : (Finset.univ.filter fun t => tapPhase t = 1) = {1, 2} := by decide

/-- The taps of phase 2. -/
theorem filter_phase2 : (Finset.univ.filter fun t => tapPhase t = 2) = {3, 4} := by decide

/-- The taps of phase 3. -/
theorem filter_phase3 : (Finset.univ.filter fun t => tapPhase t = 3) = {5, 6, 7, 8} := by decide

/-- The uniform form: in phase `p` the block row against the stacked slabs is the sum of the contributions of
    the taps of phase `p`. -/
theorem phase_eq_sum_taps (p : Fin 4) :
    ∑ s : Fin 4, ∑ b : Fin 64, tapBlock W p s a b * slab s b
      = ∑ t ∈ Finset.univ.filter (fun t => tapPhase t = p), tapDot W slab a t := by
  fin_cases p
  · show ∑ s : Fin 4, ∑ b : Fin 64, tapBlock W 0 s a b * slab s b
      = ∑ t ∈ Finset.univ.filter (fun t => tapPhase t = 0), tapDot W slab a t
    rw [filter_phase0, Finset.sum_singleton]
    exact phase0 W slab a
  · show ∑ s : Fin 4, ∑ b : Fin 64, tapBlock W 1 s a b * slab s b
      = ∑ t ∈ Finset.univ.filter (fun t => tapPhase t = 1), tapDot W slab a t
    rw [filter_phase1, Finset.sum_insert (by decide), Finset.sum_singleton]
    exact phase1 W slab a
  · show ∑ s : Fin 4, ∑ b : Fin 64, tapBlock W 2 s a b * slab s b
      = ∑ t ∈ Finset.univ.filter (fun t => tapPhase t = 2), tapDot W slab a t
    rw [filter_phase2, Finset.sum_insert (by decide), Finset.sum_singleton]
    exact phase2 W slab a
  · show ∑ s : Fin 4, ∑ b : Fin 64, tapBlock W 3 s a b * slab s b
      = ∑ t ∈ Finset.univ.filter (fun t => tapPhase t = 3), tapDot W slab a t
    rw [filter_phase3, Finset.sum_insert (by decide), Finset.sum_insert (by decide), Finset.sum_insert (by decide),
      Finset.sum_singleton, phase3 W slab a]
    show _ = tapDot W slab a 5 + (tapDot W slab a 6 + (tapDot W slab a 7 + tapDot W slab a 8))
    simp only [add_assoc]
    rfl

/-- The flat form: a row `Brow` of the `256 × 256` block matrix whose entry at `s · 64 + b` is the block entry,
    against the stacked slabs `Z` whose entry at `s · 64 + b` is `slab s b`. -/
theorem flat_row (p : Fin 4) (Brow Z : Fin 256 → EReal)
    (hB : ∀ (s : Fin 4) (b : Fin 64), Brow ⟨s.val * 64 + b.val, idx_lt (a := 4) s b⟩ = tapBlock W p s a b)
    (hZ : ∀ (s : Fin 4) (b : Fin 64), Z ⟨s.val * 64 + b.val, idx_lt (a := 4) s b⟩ = slab s b) :
    ∑ j, Brow j * Z j = ∑ s : Fin 4, ∑ b : Fin 64, tapBlock W p s a b * slab s b := by
  rw [sum_fin_256]
  simp only [hB, hZ]

end Stride2

/-! ### (T3) Stride 1: nine taps stacked -/

section Stride1

variable (w slab : Fin 9 → Fin 64 → EReal)

/-- The stacked product over `9 · 64` is the sum over the taps of each tap's row against its slab. -/
theorem stacked_eq_sum_taps (Wcat Z : Fin 576 → EReal)
    (hW : ∀ (t : Fin 9) (b : Fin 64), Wcat ⟨t.val * 64 + b.val, idx_lt (a := 9) t b⟩ = w t b)
    (hZ : ∀ (t : Fin 9) (b : Fin 64), Z ⟨t.val * 64 + b.val, idx_lt (a := 9) t b⟩ = slab t b) :
    ∑ k, Wcat k * Z k = ∑ t : Fin 9, ∑ b : Fin 64, w t b * slab t b := by
  rw [sum_fin_576]
  simp only [hW, hZ]

/-- The same as the nine contributions added one after the other from tap 0 to tap 8. -/
theorem stacked_eq_nested (Wcat Z : Fin 576 → EReal)
    (hW : ∀ (t : Fin 9) (b : Fin 64), Wcat ⟨t.val * 64 + b.val, idx_lt (a := 9) t b⟩ = w t b)
    (hZ : ∀ (t : Fin 9) (b : Fin 64), Z ⟨t.val * 64 + b.val, idx_lt (a := 9) t b⟩ = slab t b) :
    ∑ k, Wcat k * Z k
      = (∑ b : Fin 64, w 0 b * slab 0 b) + (∑ b : Fin 64, w 1 b * slab 1 b) + (∑ b : Fin 64, w 2 b * slab 2 b)
        + (∑ b : Fin 64, w 3 b * slab 3 b) + (∑ b : Fin 64, w 4 b * slab 4 b) + (∑ b : Fin 64, w 5 b * slab 5 b)
        + (∑ b : Fin 64, w 6 b * slab 6 b) + (∑ b : Fin 64, w 7 b * slab 7 b) + (∑ b : Fin 64, w 8 b * slab 8 b) := by
  rw [stacked_eq_sum_taps w slab Wcat Z hW hZ, sum_univ_nine]

end Stride1

/-! ### (T4) Per-phase lane sums -/

section Stats

variable {M : Type*} [AddCommMonoid M]

/-- The per-phase lane sums, added over the phases, are the sum over all `4 · 1024` positions. -/
theorem sum_phase_lanes (f : Fin 4 → Fin 1024 → M) (f' : Fin 4096 → M)
    (h : ∀ (p : Fin 4) (l : Fin 1024), f' ⟨p.val * 1024 + l.val, idx_lt (a := 4) p l⟩ = f p l) :
    ∑ p : Fin 4, ∑ l : Fin 1024, f p l = ∑ L, f' L :=
  (sum_fin_mul_of 4 1024 f f' h).symm

/-- The same with the phases added first at each lane, then the lanes. -/
theorem sum_lanes_phase (f : Fin 4 → Fin 1024 → M) (f' : Fin 4096 → M)
    (h : ∀ (p : Fin 4) (l : Fin 1024), f' ⟨p.val * 1024 + l.val, idx_lt (a := 4) p l⟩ = f p l) :
    ∑ l : Fin 1024, ∑ p : Fin 4, f p l = ∑ L, f' L := by
  rw [Finset.sum_comm]
  exact sum_phase_lanes f f' h

/-- A `256 × 1024` array read as `4 × 64 × 1024` (row `p · 64 + a`), summed over the first axis and then over the
    lanes, at row `a`: the sum over all `4 · 1024` positions of the array laid out phase by phase. -/
theorem sum_rows_lanes (Y : Fin 256 → Fin 1024 → M) (a : Fin 64) (f' : Fin 4096 → M)
    (h : ∀ (p : Fin 4) (l : Fin 1024),
      f' ⟨p.val * 1024 + l.val, idx_lt (a := 4) p l⟩ = Y ⟨p.val * 64 + a.val, idx_lt (a := 4) p a⟩ l) :
    ∑ l : Fin 1024, ∑ p : Fin 4, Y ⟨p.val * 64 + a.val, idx_lt (a := 4) p a⟩ l = ∑ L, f' L :=
  sum_lanes_phase (fun p l => Y ⟨p.val * 64 + a.val, idx_lt (a := 4) p a⟩ l) f' h

end Stats

end Cert.Lib.Taps

end
-- ==== Proof.RefV2.lean ====
import proofs.«159567_g2000302752657622_pallasbulk_725_3_alg».proof.Proof.RefR2
import proofs.«159567_g2000302752657622_pallasbulk_725_3_alg».proof.Proof.RefV2a
import proofs.«159567_g2000302752657622_pallasbulk_725_3_alg».proof.Proof.LibTaps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! # The value of region 2:  y = W · sin(x · scale + shift), and the per-channel sum and sum of squares of y

The three arrays the region leaves, each as one function of the four arrays it reads, index by index. -/

/-- The 1×1 convolution of the activation, at image n, output channel j, lane L:
    ∑ k, W[j, k] · sin(x[n, k, L] · scale[k] + shift[k]). -/
def yR2 (x : S64x64x4096.Idx → EReal) (sc sh : S64x1.Idx → EReal) (W : S256x64.Idx → EReal) (n : Fin 64) (j : Fin 256) (L : Fin 4096) : EReal :=
  ∑ k : Fin 64, W (ix2 j k) * Ideal.sin (x (ix3 n k L) * sc (ix2 k (0 : Fin 1)) + sh (ix2 k (0 : Fin 1)))

/-- The output array y[64, 256, 4096]. -/
def RG2_4 (x : S64x64x4096.Idx → EReal) (sc sh : S64x1.Idx → EReal) (W : S256x64.Idx → EReal) : S64x256x4096.Idx → EReal :=
  fun i => yR2 x sc sh W (i 0) (i 1) (i 2)

/-- The per-channel sum [256, 1]: channel j's sum of y over all images and all lanes. -/
def RG2_5 (x : S64x64x4096.Idx → EReal) (sc sh : S64x1.Idx → EReal) (W : S256x64.Idx → EReal) : S256x1.Idx → EReal :=
  fun i => ∑ n : Fin 64, ∑ L : Fin 4096, yR2 x sc sh W n (i 0) L

/-- The per-channel sum of squares [256, 1]. -/
def RG2_6 (x : S64x64x4096.Idx → EReal) (sc sh : S64x1.Idx → EReal) (W : S256x64.Idx → EReal) : S256x1.Idx → EReal :=
  fun i => ∑ n : Fin 64, ∑ L : Fin 4096, yR2 x sc sh W n (i 0) L * yR2 x sc sh W n (i 0) L

/-- The specifications with their coordinates named. -/
theorem RG2_4_at (x : S64x64x4096.Idx → EReal) (sc sh : S64x1.Idx → EReal) (W : S256x64.Idx → EReal) (i : S64x256x4096.Idx) (n : Fin 64) (j : Fin 256) (L : Fin 4096)
    (h0 : (i 0).val = n.val) (h1 : (i 1).val = j.val) (h2 : (i 2).val = L.val) : RG2_4 x sc sh W i = yR2 x sc sh W n j L := by
  obtain rfl : n = i 0 := Fin.ext h0.symm
  obtain rfl : j = i 1 := Fin.ext h1.symm
  obtain rfl : L = i 2 := Fin.ext h2.symm
  rfl

theorem RG2_5_at (x : S64x64x4096.Idx → EReal) (sc sh : S64x1.Idx → EReal) (W : S256x64.Idx → EReal) (i : S256x1.Idx) (j : Fin 256) (h0 : (i 0).val = j.val) :
    RG2_5 x sc sh W i = ∑ n : Fin 64, ∑ L : Fin 4096, yR2 x sc sh W n j L := by
  obtain rfl : j = i 0 := Fin.ext h0.symm
  rfl

theorem RG2_6_at (x : S64x64x4096.Idx → EReal) (sc sh : S64x1.Idx → EReal) (W : S256x64.Idx → EReal) (i : S256x1.Idx) (j : Fin 256) (h0 : (i 0).val = j.val) :
    RG2_6 x sc sh W i = ∑ n : Fin 64, ∑ L : Fin 4096, yR2 x sc sh W n j L * yR2 x sc sh W n j L := by
  obtain rfl : j = i 0 := Fin.ext h0.symm
  rfl

/-! ## Real entries stay real -/

/-- A finite sum of reals is a real. -/
private theorem real_sum {α : Type} (s : Finset α) (Z : α → EReal) (h : ∀ i, ∃ r : ℝ, Z i = (r : EReal)) :
    ∃ r : ℝ, ∑ i ∈ s, Z i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- The convolution of the activation of real entries, under real coefficients and weights, is real. -/
theorem yR2_real (x : S64x64x4096.Idx → EReal) (sc sh : S64x1.Idx → EReal) (W : S256x64.Idx → EReal) (hx : ∀ i, ∃ r : ℝ, x i = (r : EReal)) (hsc : ∀ i, ∃ r : ℝ, sc i = (r : EReal)) (hsh : ∀ i, ∃ r : ℝ, sh i = (r : EReal)) (hW : ∀ i, ∃ r : ℝ, W i = (r : EReal))
    (n : Fin 64) (j : Fin 256) (L : Fin 4096) : ∃ r : ℝ, yR2 x sc sh W n j L = (r : EReal) := by
  unfold yR2
  refine real_sum _ _ fun k => ?_
  obtain ⟨w, hw⟩ := hW (ix2 j k)
  obtain ⟨a, ha⟩ := hx (ix3 n k L)
  obtain ⟨b, hb⟩ := hsc (ix2 k (0 : Fin 1))
  obtain ⟨d, hd⟩ := hsh (ix2 k (0 : Fin 1))
  refine ⟨w * Real.sin (a * b + d), ?_⟩
  rw [hw, ha, hb, hd, ← EReal.coe_mul, ← EReal.coe_add, EReal.coe_mul]
  rfl

theorem RG2_4_real (x : S64x64x4096.Idx → EReal) (sc sh : S64x1.Idx → EReal) (W : S256x64.Idx → EReal) (hx : ∀ i, ∃ r : ℝ, x i = (r : EReal)) (hsc : ∀ i, ∃ r : ℝ, sc i = (r : EReal)) (hsh : ∀ i, ∃ r : ℝ, sh i = (r : EReal)) (hW : ∀ i, ∃ r : ℝ, W i = (r : EReal)) :
    ∀ i, ∃ r : ℝ, RG2_4 x sc sh W i = (r : EReal) := fun i => yR2_real x sc sh W hx hsc hsh hW (i 0) (i 1) (i 2)

theorem RG2_5_real (x : S64x64x4096.Idx → EReal) (sc sh : S64x1.Idx → EReal) (W : S256x64.Idx → EReal) (hx : ∀ i, ∃ r : ℝ, x i = (r : EReal)) (hsc : ∀ i, ∃ r : ℝ, sc i = (r : EReal)) (hsh : ∀ i, ∃ r : ℝ, sh i = (r : EReal)) (hW : ∀ i, ∃ r : ℝ, W i = (r : EReal)) :
    ∀ i, ∃ r : ℝ, RG2_5 x sc sh W i = (r : EReal) := fun i =>
  real_sum _ _ fun n => real_sum _ _ fun L => yR2_real x sc sh W hx hsc hsh hW n (i 0) L

theorem RG2_6_real (x : S64x64x4096.Idx → EReal) (sc sh : S64x1.Idx → EReal) (W : S256x64.Idx → EReal) (hx : ∀ i, ∃ r : ℝ, x i = (r : EReal)) (hsc : ∀ i, ∃ r : ℝ, sc i = (r : EReal)) (hsh : ∀ i, ∃ r : ℝ, sh i = (r : EReal)) (hW : ∀ i, ∃ r : ℝ, W i = (r : EReal)) :
    ∀ i, ∃ r : ℝ, RG2_6 x sc sh W i = (r : EReal) := fun i =>
  real_sum _ _ fun n => real_sum _ _ fun L => by
    obtain ⟨y, hy⟩ := yR2_real x sc sh W hx hsc hsh hW n (i 0) L
    exact ⟨y * y, by rw [hy, EReal.coe_mul]⟩

/-! ## Which buffer each window stages -/

theorem arrRef2_0 : Pipeline.arrRef spec2 0 = main_v16_0 := rfl
theorem arrRef2_1 : Pipeline.arrRef spec2 1 = main_v27 := rfl
theorem arrRef2_2 : Pipeline.arrRef spec2 2 = main_v30 := rfl
theorem arrRef2_3 : Pipeline.arrRef spec2 3 = main_arg2 := rfl
theorem arrRef2_4 : Pipeline.arrRef spec2 4 = main_v31_0 := rfl
theorem arrRef2_5 : Pipeline.arrRef spec2 5 = main_v31_1 := rfl
theorem arrRef2_6 : Pipeline.arrRef spec2 6 = main_v31_2 := rfl

/-! ## The windows' blocks, read off their arrays -/

/-- The index maps over the grid's 128 points: point t = 2 n + s is image n, lane tile s, for x and for y; the
    coefficient columns, the weights and the two statistics are one block each. -/
theorem idx2 : ∀ t : Fin cfg2.N,
    win2_0.index t (0 : Fin 3) = t.val / 2 ∧ win2_0.index t (1 : Fin 3) = 0 ∧ win2_0.index t (2 : Fin 3) = t.val % 2
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val / 2 ∧ win2_4.index t (1 : Fin 3) = 0 ∧ win2_4.index t (2 : Fin 3) = t.val % 2
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

variable (V : (c : Dev nD) → (b : Ref sig .tc) → Buf (Elt Ideal) ((c : Thread nD τ).loc b))

/-- Window 0's block at point t is image t / 2, lanes [2048 (t % 2), 2048 (t % 2) + 2048) of x's array. -/
theorem iblk2_0_apply (c : Dev nD) (t : Fin cfg2.N) (x : S1x64x2048.Idx) (k : S64x64x4096.Idx)
    (hk0 : (k 0).val = t.val / 2) (hk1 : (k 1).val = (x 1).val) (hk2 : (k 2).val = t.val % 2 * 2048 + (x 2).val) :
    (iblk2 V c 0 t : Vec Ideal S1x64x2048 .f32) x = (V c main_v16_0 : S64x64x4096.Idx → EReal) k := by
  obtain ⟨e0, e1, e2, -, -, -, -, -, -, -, -, -, -, -, -, -⟩ := idx2 t
  have hx0 : (x 0).val < 1 := (x 0).isLt
  unfold iblk2
  rw [View.read_apply]
  show V c main_v16_0 _ = V c main_v16_0 _
  congr 1
  funext a
  apply Fin.ext
  match a with
  | ⟨0, _⟩ => show win2_0.index t 0 * 1 + 1 * (x 0).val = (k 0).val; rw [e0, hk0]; omega
  | ⟨1, _⟩ => show win2_0.index t 1 * 64 + 1 * (x 1).val = (k 1).val; rw [e1, hk1]; omega
  | ⟨2, _⟩ => show win2_0.index t 2 * 2048 + 1 * (x 2).val = (k 2).val; rw [e2, hk2]; omega

/-- Window 1's block is the whole scale column at every point. -/
theorem iblk2_1_apply (c : Dev nD) (t : Fin cfg2.N) (x : S64x1.Idx) :
    (iblk2 V c 1 t : Vec Ideal S64x1 .f32) x = (V c main_v27 : S64x1.Idx → EReal) x := by
  obtain ⟨-, -, -, e0, e1, -, -, -, -, -, -, -, -, -, -, -⟩ := idx2 t
  unfold iblk2
  rw [View.read_apply]
  show V c main_v27 _ = V c main_v27 _
  congr 1
  funext a
  apply Fin.ext
  match a with
  | ⟨0, _⟩ => show win2_1.index t 0 * 64 + 1 * (x 0).val = (x 0).val; rw [e0]; omega
  | ⟨1, _⟩ => show win2_1.index t 1 * 1 + 1 * (x 1).val = (x 1).val; rw [e1]; omega

/-- Window 2's block is the whole shift column at every point. -/
theorem iblk2_2_apply (c : Dev nD) (t : Fin cfg2.N) (x : S64x1.Idx) :
    (iblk2 V c 2 t : Vec Ideal S64x1 .f32) x = (V c main_v30 : S64x1.Idx → EReal) x := by
  obtain ⟨-, -, -, -, -, e0, e1, -, -, -, -, -, -, -, -, -⟩ := idx2 t
  unfold iblk2
  rw [View.read_apply]
  show V c main_v30 _ = V c main_v30 _
  congr 1
  funext a
  apply Fin.ext
  match a with
  | ⟨0, _⟩ => show win2_2.index t 0 * 64 + 1 * (x 0).val = (x 0).val; rw [e0]; omega
  | ⟨1, _⟩ => show win2_2.index t 1 * 1 + 1 * (x 1).val = (x 1).val; rw [e1]; omega

/-- Window 3's block is the whole weight matrix at every point. -/
theorem iblk2_3_apply (c : Dev nD) (t : Fin cfg2.N) (x : S256x64.Idx) :
    (iblk2 V c 3 t : Vec Ideal S256x64 .f32) x = (V c main_arg2 : S256x64.Idx → EReal) x := by
  obtain ⟨-, -, -, -, -, -, -, e0, e1, -, -, -, -, -, -, -⟩ := idx2 t
  unfold iblk2
  rw [View.read_apply]
  show V c main_arg2 _ = V c main_arg2 _
  congr 1
  funext a
  apply Fin.ext
  match a with
  | ⟨0, _⟩ => show win2_3.index t 0 * 256 + 1 * (x 0).val = (x 0).val; rw [e0]; omega
  | ⟨1, _⟩ => show win2_3.index t 1 * 64 + 1 * (x 1).val = (x 1).val; rw [e1]; omega

/-- The convolution output computed from the blocks at point t is the array's, at the point's image and lanes. -/
theorem y2_iblk2 (c : Dev nD) (t : Fin cfg2.N) (j : Fin 256) (l : Fin 2048) (n : Fin 64) (L : Fin 4096)
    (hn : n.val = t.val / 2) (hL : L.val = t.val % 2 * 2048 + l.val) :
    y2 (iblk2 V c 0 t) (iblk2 V c 1 t) (iblk2 V c 2 t) (iblk2 V c 3 t) j l = yR2 (V c main_v16_0) (V c main_v27) (V c main_v30) (V c main_arg2) n j L := by
  unfold y2 yR2
  refine Finset.sum_congr rfl fun k _ => ?_
  refine congrArg₂ (· * ·) (iblk2_3_apply V c t (ix2 j k)) ?_
  unfold z2
  refine congrArg Ideal.sin (congrArg₂ (· + ·) (congrArg₂ (· * ·) ?_ (iblk2_1_apply V c t (ix2 k (0 : Fin 1)))) (iblk2_2_apply V c t (ix2 k (0 : Fin 1))))
  exact iblk2_0_apply V c t (ix3 (0 : Fin 1) k l) (ix3 n k L) hn rfl hL

/-! ## y: from the blocks to the array -/

/-- What point t writes back is point t's block of y. -/
theorem Rflushed2_4_eq (c : Dev nD) (t : Fin cfg2.N) :
    (dat2 V c).flushed 4 t = ((cfg2.win 4).blk t).view.read (Elt Ideal) (RG2_4 (V c main_v16_0) (V c main_v27) (V c main_v30) (V c main_arg2)) := by
  show (cfg2.win 4).cut (grid2.coords t) ((dat2 V c).after 4 t) = _
  rw [after2_4]
  obtain ⟨-, -, -, -, -, -, -, -, -, e0, e1, e2, -, -, -, -⟩ := idx2 t
  have hN : t.val < 128 := lt_of_lt_of_eq t.isLt (show cfg2.N = 128 from N_2)
  funext j
  have hj0 : (j 0).val < 1 := (j 0).isLt
  have hj1 : (j 1).val < 256 := (j 1).isLt
  have hj2 : (j 2).val < 2048 := (j 2).isLt
  have hx : (cfg2.win 4).xinj (grid2.coords t) j = ix3 (⟨(j 0).val, hj0⟩ : Fin 1) (⟨(j 1).val, hj1⟩ : Fin 256) (⟨(j 2).val, hj2⟩ : Fin 2048) :=
    funext fun a => by match a with | ⟨0, _⟩ => rfl | ⟨1, _⟩ => rfl | ⟨2, _⟩ => rfl
  show k2_pay5 (iblk2 V c 0 t) (iblk2 V c 1 t) (iblk2 V c 2 t) (iblk2 V c 3 t) ((cfg2.win 4).xinj (grid2.coords t) j)
    = RG2_4 (V c main_v16_0) (V c main_v27) (V c main_v30) (V c main_arg2) (((cfg2.win 4).blk t).view.emb j)
  rw [hx]
  refine (pay2_5_apply (iblk2 V c 0 t) (iblk2 V c 1 t) (iblk2 V c 2 t) (iblk2 V c 3 t) ⟨(j 0).val, hj0⟩ ⟨(j 1).val, hj1⟩ ⟨(j 2).val, hj2⟩).trans ?_
  have h0 : ((((cfg2.win 4).blk t).view.emb j) 0).val = t.val / 2 := by
    show win2_4.index t 0 * 1 + 1 * (j 0).val = t.val / 2; rw [e0]; omega
  have h1 : ((((cfg2.win 4).blk t).view.emb j) 1).val = (j 1).val := by
    show win2_4.index t 1 * 256 + 1 * (j 1).val = (j 1).val; rw [e1]; omega
  have h2 : ((((cfg2.win 4).blk t).view.emb j) 2).val = t.val % 2 * 2048 + (j 2).val := by
    show win2_4.index t 2 * 2048 + 1 * (j 2).val = t.val % 2 * 2048 + (j 2).val; rw [e2]; omega
  refine Eq.trans ?_ (RG2_4_at (V c main_v16_0) (V c main_v27) (V c main_v30) (V c main_arg2) (((cfg2.win 4).blk t).view.emb j)
    ⟨t.val / 2, by omega⟩ ⟨(j 1).val, hj1⟩ ⟨t.val % 2 * 2048 + (j 2).val, by omega⟩ h0 h1 h2).symm
  exact y2_iblk2 V c t ⟨(j 1).val, hj1⟩ ⟨(j 2).val, hj2⟩ ⟨t.val / 2, by omega⟩ ⟨t.val % 2 * 2048 + (j 2).val, by omega⟩ rfl rfl

/-- An index of y's array is in point t's block iff each coordinate is in the block's range on its axis. -/
theorem mem_blk2_4 (t : Fin cfg2.N) (i : S64x256x4096.Idx) :
    i ∈ ((cfg2.win 4).blk t).view.set ↔ ∀ a : Fin 3, win2_4.index t a * S1x256x2048.size a ≤ (i a).val
      ∧ (i a).val < win2_4.index t a * S1x256x2048.size a + S1x256x2048.size a := by
  show i ∈ ((View.whole main_v31_0).slice (win2_4.rect t)).set ↔ _
  rw [View.set_slice_whole, Rect.mem_set_unit]
  exact Iff.rfl

/-- y's array after the region. Index (n, j, L) lies in the block of point 2 n + L / 2048, and every point writes its
    block back. -/
theorem Rfinal2_4 (c : Dev nD) : (dat2 V c).arrAt 4 cfg2.N = RG2_4 (V c main_v16_0) (V c main_v27) (V c main_v30) (V c main_arg2) :=
  (dat2 V c).arrAt_eq_of_cover 4 _ (fun t _ => Rflushed2_4_eq V c t) fun i => by
    have hi0 : (i 0).val < 64 := (i 0).isLt
    have hi1 : (i 1).val < 256 := (i 1).isLt
    have hi2 : (i 2).val < 4096 := (i 2).isLt
    have hN : cfg2.N = 128 := N_2
    obtain ⟨t, ht⟩ : ∃ t : Fin cfg2.N, t.val = 2 * (i 0).val + (i 2).val / 2048 := ⟨⟨2 * (i 0).val + (i 2).val / 2048, by rw [hN]; omega⟩, rfl⟩
    obtain ⟨-, -, -, -, -, -, -, -, -, e0, e1, e2, -, -, -, -⟩ := idx2 t
    refine ⟨t, flush2_4 t, ?_⟩
    rw [mem_blk2_4]
    intro a
    match a with
    | ⟨0, _⟩ => show win2_4.index t 0 * 1 ≤ (i 0).val ∧ (i 0).val < win2_4.index t 0 * 1 + 1; rw [e0, ht]; omega
    | ⟨1, _⟩ => show win2_4.index t 1 * 256 ≤ (i 1).val ∧ (i 1).val < win2_4.index t 1 * 256 + 256; rw [e1]; omega
    | ⟨2, _⟩ => show win2_4.index t 2 * 2048 ≤ (i 2).val ∧ (i 2).val < win2_4.index t 2 * 2048 + 2048; rw [e2, ht]; omega

/-! ## The two statistics: the sum over the grid's points -/

/-- Point m's contribution to a statistic of f over (image, lane): the sum of f over image m / 2 and the 2048 lanes
    of tile m % 2; nothing past the grid. -/
def ptR2 (f : Fin 64 → Fin 4096 → EReal) (m : ℕ) : EReal :=
  if h : m < 128 then ∑ s : Fin 2048, f ⟨m / 2, by omega⟩ ⟨m % 2 * 2048 + s.val, by have := s.isLt; omega⟩ else 0

/-- The 128 points' contributions, summed, are the sum over the 64 images and the 4096 lanes: 128 = 64 · 2 points,
    4096 = 2 · 2048 lanes. -/
theorem sum_points2 (f : Fin 64 → Fin 4096 → EReal) :
    ∑ m ∈ Finset.range (127 + 1), ptR2 f m = ∑ n : Fin 64, ∑ L : Fin 4096, f n L := by
  refine (Finset.sum_range (n := 128) fun m => ptR2 f m).trans ?_
  refine (Cert.Lib.Taps.sum_fin_mul 64 2 fun m : Fin (64 * 2) => ptR2 f m.val).trans ?_
  refine Finset.sum_congr rfl fun n _ => ?_
  refine Eq.trans ?_ (Cert.Lib.Taps.sum_fin_mul 2 2048 fun L : Fin (2 * 2048) => f n L).symm
  refine Finset.sum_congr rfl fun s _ => ?_
  have hn := n.isLt
  have hs := s.isLt
  show ptR2 f (n.val * 2 + s.val) = _
  unfold ptR2
  rw [dif_pos (show n.val * 2 + s.val < 128 by omega)]
  refine Finset.sum_congr rfl fun r _ => ?_
  have hr := r.isLt
  have hq : (n.val * 2 + s.val) / 2 = n.val := by omega
  have hm : (n.val * 2 + s.val) % 2 * 2048 + r.val = s.val * 2048 + r.val := by
    have : (n.val * 2 + s.val) % 2 = s.val := by omega
    rw [this]
  exact congrArg₂ f (Fin.ext hq) (Fin.ext hm)

/-- The lanes of point t's block, summed, are point t's contribution to channel j's sum. -/
theorem laneSum_iblk2 (c : Dev nD) (t : Fin cfg2.N) (j : Fin 256) :
    ∑ l : Fin 2048, y2 (iblk2 V c 0 t) (iblk2 V c 1 t) (iblk2 V c 2 t) (iblk2 V c 3 t) j l = ptR2 (fun n L => yR2 (V c main_v16_0) (V c main_v27) (V c main_v30) (V c main_arg2) n j L) t.val := by
  have hN : t.val < 128 := lt_of_lt_of_eq t.isLt (show cfg2.N = 128 from N_2)
  unfold ptR2
  rw [dif_pos hN]
  exact Finset.sum_congr rfl fun l _ => y2_iblk2 V c t j l _ _ rfl rfl

/-- The same for the squares. -/
theorem laneSumSq_iblk2 (c : Dev nD) (t : Fin cfg2.N) (j : Fin 256) :
    ∑ l : Fin 2048, y2 (iblk2 V c 0 t) (iblk2 V c 1 t) (iblk2 V c 2 t) (iblk2 V c 3 t) j l * y2 (iblk2 V c 0 t) (iblk2 V c 1 t) (iblk2 V c 2 t) (iblk2 V c 3 t) j l
      = ptR2 (fun n L => yR2 (V c main_v16_0) (V c main_v27) (V c main_v30) (V c main_arg2) n j L * yR2 (V c main_v16_0) (V c main_v27) (V c main_v30) (V c main_arg2) n j L) t.val := by
  have hN : t.val < 128 := lt_of_lt_of_eq t.isLt (show cfg2.N = 128 from N_2)
  unfold ptR2
  rw [dif_pos hN]
  exact Finset.sum_congr rfl fun l _ => congrArg₂ (· * ·) (y2_iblk2 V c t j l _ _ rfl rfl) (y2_iblk2 V c t j l _ _ rfl rfl)

/-- After point n the sum accumulator holds, at channel j, the sum of the contributions of the points 0, …, n:
    the zeros stored at the first point add nothing, and each later point adds its own lanes to what the point
    before left. -/
theorem outsAt2_5_sum (c : Dev nD) (j : Fin 256) (z : Fin 1) : ∀ (n : ℕ) (hn : n < cfg2.N),
    outsAt2_5 V c n hn (ix2 j z) = ∑ m ∈ Finset.range (n + 1), ptR2 (fun n L => yR2 (V c main_v16_0) (V c main_v27) (V c main_v30) (V c main_arg2) n j L) m
  | 0, hn => by
    refine (congrFun (outsAt2_5_A V c ⟨0, hn⟩ rfl) (ix2 j z)).trans ?_
    refine (pay2_6_apply (iblk2 V c 0 ⟨0, hn⟩) (iblk2 V c 1 ⟨0, hn⟩) (iblk2 V c 2 ⟨0, hn⟩) (iblk2 V c 3 ⟨0, hn⟩) (k2_pay2 (F := Ideal)) j z).trans ?_
    rw [pay2_2_apply]
    refine (zero_add _).trans ?_
    refine Eq.trans ?_ (Finset.sum_range_one _).symm
    exact laneSum_iblk2 V c ⟨0, hn⟩ j
  | n + 1, hn => by
    have hB : ¬(⟨n + 1, hn⟩ : Fin cfg2.N).val = 0 := Nat.succ_ne_zero n
    refine (congrFun (outsAt2_5_B V c ⟨n + 1, hn⟩ hB) (ix2 j z)).trans ?_
    refine (pay2_6_apply (iblk2 V c 0 ⟨n + 1, hn⟩) (iblk2 V c 1 ⟨n + 1, hn⟩) (iblk2 V c 2 ⟨n + 1, hn⟩) (iblk2 V c 3 ⟨n + 1, hn⟩) (outsAt2_5 V c n (Nat.lt_of_succ_lt hn)) j z).trans ?_
    rw [Finset.sum_range_succ]
    exact congrArg₂ (· + ·) (outsAt2_5_sum c j z n (Nat.lt_of_succ_lt hn)) (laneSum_iblk2 V c ⟨n + 1, hn⟩ j)

/-- An index of the sum array is in point t's block iff each coordinate is in the block's range on its axis. -/
theorem mem_blk2_5 (t : Fin cfg2.N) (i : S256x1.Idx) :
    i ∈ ((cfg2.win 5).blk t).view.set ↔ ∀ a : Fin 2, win2_5.index t a * S256x1.size a ≤ (i a).val
      ∧ (i a).val < win2_5.index t a * S256x1.size a + S256x1.size a := by
  show i ∈ ((View.whole main_v31_1).slice (win2_5.rect t)).set ↔ _
  rw [View.set_slice_whole, Rect.mem_set_unit]
  exact Iff.rfl

/-- The one write-back, after the last point, writes the sum over all images and all lanes. -/
theorem Rflushed2_5_eq (c : Dev nD) (t : Fin cfg2.N) (hf : (cfg2.win 5).flush t = true) :
    (dat2 V c).flushed 5 t = ((cfg2.win 5).blk t).view.read (Elt Ideal) (RG2_5 (V c main_v16_0) (V c main_v27) (V c main_v30) (V c main_arg2)) := by
  have hN : cfg2.N = 128 := N_2
  have hl : t.val = 127 := by have h1 := (flush2_5 t).mp hf; have h2 := t.isLt; omega
  show (cfg2.win 5).cut (grid2.coords t) ((dat2 V c).after 5 t) = _
  rw [after2_5]
  obtain ⟨-, -, -, -, -, -, -, -, -, -, -, -, e0, e1, -, -⟩ := idx2 t
  funext j
  have hj0 : (j 0).val < 256 := (j 0).isLt
  have hj1 : (j 1).val < 1 := (j 1).isLt
  have hx : (cfg2.win 5).xinj (grid2.coords t) j = ix2 (⟨(j 0).val, hj0⟩ : Fin 256) (⟨(j 1).val, hj1⟩ : Fin 1) :=
    funext fun a => by match a with | ⟨0, _⟩ => rfl | ⟨1, _⟩ => rfl
  show outsAt2_5 V c t.val t.isLt ((cfg2.win 5).xinj (grid2.coords t) j)
    = RG2_5 (V c main_v16_0) (V c main_v27) (V c main_v30) (V c main_arg2) (((cfg2.win 5).blk t).view.emb j)
  rw [hx]
  refine (outsAt2_5_sum V c ⟨(j 0).val, hj0⟩ ⟨(j 1).val, hj1⟩ t.val t.isLt).trans ?_
  rw [hl]
  refine (sum_points2 _).trans ?_
  have h0 : ((((cfg2.win 5).blk t).view.emb j) 0).val = (j 0).val := by
    show win2_5.index t 0 * 256 + 1 * (j 0).val = (j 0).val; rw [e0]; omega
  exact (RG2_5_at (V c main_v16_0) (V c main_v27) (V c main_v30) (V c main_arg2) (((cfg2.win 5).blk t).view.emb j) ⟨(j 0).val, hj0⟩ h0).symm

/-- The sum array after the region. Its one block is the whole array, written back after the last point. -/
theorem Rfinal2_5 (c : Dev nD) : (dat2 V c).arrAt 5 cfg2.N = RG2_5 (V c main_v16_0) (V c main_v27) (V c main_v30) (V c main_arg2) :=
  (dat2 V c).arrAt_eq_of_cover 5 _ (fun t hf => Rflushed2_5_eq V c t hf) fun i => by
    have hi0 : (i 0).val < 256 := (i 0).isLt
    have hi1 : (i 1).val < 1 := (i 1).isLt
    have hN : cfg2.N = 128 := N_2
    obtain ⟨t, ht⟩ : ∃ t : Fin cfg2.N, t.val = 127 := ⟨⟨127, by rw [hN]; omega⟩, rfl⟩
    obtain ⟨-, -, -, -, -, -, -, -, -, -, -, -, e0, e1, -, -⟩ := idx2 t
    refine ⟨t, (flush2_5 t).mpr (by rw [ht]), ?_⟩
    rw [mem_blk2_5]
    intro a
    match a with
    | ⟨0, _⟩ => show win2_5.index t 0 * 256 ≤ (i 0).val ∧ (i 0).val < win2_5.index t 0 * 256 + 256; rw [e0]; omega
    | ⟨1, _⟩ => show win2_5.index t 1 * 1 ≤ (i 1).val ∧ (i 1).val < win2_5.index t 1 * 1 + 1; rw [e1]; omega

/-- After point n the sum of squares accumulator holds, at channel j, the sum of the contributions of the points 0, …, n:
    the zeros stored at the first point add nothing, and each later point adds its own lanes to what the point
    before left. -/
theorem outsAt2_6_sum (c : Dev nD) (j : Fin 256) (z : Fin 1) : ∀ (n : ℕ) (hn : n < cfg2.N),
    outsAt2_6 V c n hn (ix2 j z) = ∑ m ∈ Finset.range (n + 1), ptR2 (fun n L => yR2 (V c main_v16_0) (V c main_v27) (V c main_v30) (V c main_arg2) n j L * yR2 (V c main_v16_0) (V c main_v27) (V c main_v30) (V c main_arg2) n j L) m
  | 0, hn => by
    refine (congrFun (outsAt2_6_A V c ⟨0, hn⟩ rfl) (ix2 j z)).trans ?_
    refine (pay2_1_acc_apply (iblk2 V c 0 ⟨0, hn⟩) (iblk2 V c 1 ⟨0, hn⟩) (iblk2 V c 2 ⟨0, hn⟩) (iblk2 V c 3 ⟨0, hn⟩) (k2_pay3 (F := Ideal)) j z).trans ?_
    rw [pay2_3_apply]
    refine (zero_add _).trans ?_
    refine Eq.trans ?_ (Finset.sum_range_one _).symm
    exact laneSumSq_iblk2 V c ⟨0, hn⟩ j
  | n + 1, hn => by
    have hB : ¬(⟨n + 1, hn⟩ : Fin cfg2.N).val = 0 := Nat.succ_ne_zero n
    refine (congrFun (outsAt2_6_B V c ⟨n + 1, hn⟩ hB) (ix2 j z)).trans ?_
    refine (pay2_1_acc_apply (iblk2 V c 0 ⟨n + 1, hn⟩) (iblk2 V c 1 ⟨n + 1, hn⟩) (iblk2 V c 2 ⟨n + 1, hn⟩) (iblk2 V c 3 ⟨n + 1, hn⟩) (outsAt2_6 V c n (Nat.lt_of_succ_lt hn)) j z).trans ?_
    rw [Finset.sum_range_succ]
    exact congrArg₂ (· + ·) (outsAt2_6_sum c j z n (Nat.lt_of_succ_lt hn)) (laneSumSq_iblk2 V c ⟨n + 1, hn⟩ j)

/-- An index of the sum of squares array is in point t's block iff each coordinate is in the block's range on its axis. -/
theorem mem_blk2_6 (t : Fin cfg2.N) (i : S256x1.Idx) :
    i ∈ ((cfg2.win 6).blk t).view.set ↔ ∀ a : Fin 2, win2_6.index t a * S256x1.size a ≤ (i a).val
      ∧ (i a).val < win2_6.index t a * S256x1.size a + S256x1.size a := by
  show i ∈ ((View.whole main_v31_2).slice (win2_6.rect t)).set ↔ _
  rw [View.set_slice_whole, Rect.mem_set_unit]
  exact Iff.rfl

/-- The one write-back, after the last point, writes the sum of squares over all images and all lanes. -/
theorem Rflushed2_6_eq (c : Dev nD) (t : Fin cfg2.N) (hf : (cfg2.win 6).flush t = true) :
    (dat2 V c).flushed 6 t = ((cfg2.win 6).blk t).view.read (Elt Ideal) (RG2_6 (V c main_v16_0) (V c main_v27) (V c main_v30) (V c main_arg2)) := by
  have hN : cfg2.N = 128 := N_2
  have hl : t.val = 127 := by have h1 := (flush2_6 t).mp hf; have h2 := t.isLt; omega
  show (cfg2.win 6).cut (grid2.coords t) ((dat2 V c).after 6 t) = _
  rw [after2_6]
  obtain ⟨-, -, -, -, -, -, -, -, -, -, -, -, -, -, e0, e1⟩ := idx2 t
  funext j
  have hj0 : (j 0).val < 256 := (j 0).isLt
  have hj1 : (j 1).val < 1 := (j 1).isLt
  have hx : (cfg2.win 6).xinj (grid2.coords t) j = ix2 (⟨(j 0).val, hj0⟩ : Fin 256) (⟨(j 1).val, hj1⟩ : Fin 1) :=
    funext fun a => by match a with | ⟨0, _⟩ => rfl | ⟨1, _⟩ => rfl
  show outsAt2_6 V c t.val t.isLt ((cfg2.win 6).xinj (grid2.coords t) j)
    = RG2_6 (V c main_v16_0) (V c main_v27) (V c main_v30) (V c main_arg2) (((cfg2.win 6).blk t).view.emb j)
  rw [hx]
  refine (outsAt2_6_sum V c ⟨(j 0).val, hj0⟩ ⟨(j 1).val, hj1⟩ t.val t.isLt).trans ?_
  rw [hl]
  refine (sum_points2 _).trans ?_
  have h0 : ((((cfg2.win 6).blk t).view.emb j) 0).val = (j 0).val := by
    show win2_6.index t 0 * 256 + 1 * (j 0).val = (j 0).val; rw [e0]; omega
  exact (RG2_6_at (V c main_v16_0) (V c main_v27) (V c main_v30) (V c main_arg2) (((cfg2.win 6).blk t).view.emb j) ⟨(j 0).val, hj0⟩ h0).symm

/-- The sum of squares array after the region. Its one block is the whole array, written back after the last point. -/
theorem Rfinal2_6 (c : Dev nD) : (dat2 V c).arrAt 6 cfg2.N = RG2_6 (V c main_v16_0) (V c main_v27) (V c main_v30) (V c main_arg2) :=
  (dat2 V c).arrAt_eq_of_cover 6 _ (fun t hf => Rflushed2_6_eq V c t hf) fun i => by
    have hi0 : (i 0).val < 256 := (i 0).isLt
    have hi1 : (i 1).val < 1 := (i 1).isLt
    have hN : cfg2.N = 128 := N_2
    obtain ⟨t, ht⟩ : ∃ t : Fin cfg2.N, t.val = 127 := ⟨⟨127, by rw [hN]; omega⟩, rfl⟩
    obtain ⟨-, -, -, -, -, -, -, -, -, -, -, -, -, -, e0, e1⟩ := idx2 t
    refine ⟨t, (flush2_6 t).mpr (by rw [ht]), ?_⟩
    rw [mem_blk2_6]
    intro a
    match a with
    | ⟨0, _⟩ => show win2_6.index t 0 * 256 ≤ (i 0).val ∧ (i 0).val < win2_6.index t 0 * 256 + 256; rw [e0]; omega
    | ⟨1, _⟩ => show win2_6.index t 1 * 1 ≤ (i 1).val ∧ (i 1).val < win2_6.index t 1 * 1 + 1; rw [e1]; omega

end Cert.ReferenceIdeal.Val

end
-- ==== Proof.RefV3a.lean ====
import proofs.«159567_g2000302752657622_pallasbulk_725_3_alg».proof.Proof.Gen.ReferenceIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Val

open Cert.ReferenceIdeal Cert.ReferenceIdeal.Gen
open Idealize.ShloMosaic Idealize.ShloMosaic.ValueIdx
open scoped BigOperators

/-! ## Region 3: the 1×1 convolution y = W·x of one lane tile of one image, and its per-channel sum and sum of squares -/

/-- The dimension numbers of the product: [256,128] · [128,1024], one contracted axis of extent 128. -/
abbrev dotR3 : DotDims S256x128 S128x1024 S256x1024 := dot_S256x128_S128x1024_S256x1024_1_0_0_1_n_n

/-- The left operand's row is the output's row. -/
theorem dotR3_lhs_0 (i : S256x1024.Idx) (q : dotR3.contr.Idx) : (dotR3.lhsIdx i q 0).val = (i 0).val := by
  unfold DotDims.lhsIdx
  rw [dif_neg (show ¬(0 : Fin S256x128.rank) ∈ dotR3.lhsBatch by decide),
    dif_pos (show (0 : Fin S256x128.rank) ∈ dotR3.lhsNonContracting by decide)]
  rfl

/-- The left operand's column is the contracted coordinate. -/
theorem dotR3_lhs_1 (i : S256x1024.Idx) (q : dotR3.contr.Idx) : (dotR3.lhsIdx i q 1).val = (q ⟨0, by decide⟩).val :=
  dotR3.lhsIdx_val_of_single rfl i q

/-- The right operand's row is the contracted coordinate. -/
theorem dotR3_rhs_0 (i : S256x1024.Idx) (q : dotR3.contr.Idx) : (dotR3.rhsIdx i q 0).val = (q ⟨0, by decide⟩).val :=
  dotR3.rhsIdx_val_of_single rfl i q

/-- The right operand's column is the output's column. -/
theorem dotR3_rhs_1 (i : S256x1024.Idx) (q : dotR3.contr.Idx) : (dotR3.rhsIdx i q 1).val = (i 1).val := by
  unfold DotDims.rhsIdx
  rw [dif_neg (show ¬(1 : Fin S128x1024.rank) ∈ dotR3.rhsBatch by decide),
    dif_pos (show (1 : Fin S128x1024.rank) ∈ dotR3.rhsNonContracting by decide)]
  rfl

/-- The product into the zero accumulator, at row r and column s: the sum over the 128 contracted coordinates. -/
theorem matmulR3_apply (A : FVec Ideal S256x128 .f32) (B : FVec Ideal S128x1024 .f32) (r : Fin 256) (s : Fin 1024) :
    matmul dotR3 none A B (constant (F := Ideal) S256x1024 .f32 0x00000000#32) (ix2 r s)
      = ∑ k : Fin 128, A (ix2 r k) * B (ix2 k s) := by
  show FloatOps.matmul dotR3 none A B (constant (F := Ideal) S256x1024 .f32 0x00000000#32) (ix2 r s) = _
  rw [Ideal.matmul_constant_zero_apply, ← Equiv.sum_comp (contrEquiv1 dotR3 128 rfl rfl).symm]
  refine Finset.sum_congr rfl fun k _ => ?_
  have hk := contrEquiv1_symm_val dotR3 128 rfl rfl k
  have el : dotR3.lhsIdx (ix2 r s) ((contrEquiv1 dotR3 128 rfl rfl).symm k) = ix2 r k := funext fun a => Fin.ext (by
    match a with
    | ⟨0, _⟩ => exact dotR3_lhs_0 _ _
    | ⟨1, _⟩ => exact (dotR3_lhs_1 _ _).trans hk)
  have er : dotR3.rhsIdx (ix2 r s) ((contrEquiv1 dotR3 128 rfl rfl).symm k) = ix2 k s := funext fun a => Fin.ext (by
    match a with
    | ⟨0, _⟩ => exact (dotR3_rhs_0 _ _).trans hk
    | ⟨1, _⟩ => exact dotR3_rhs_1 _ _)
  rw [el, er]

/-- The sum along the 1024 lanes of a [256,1024] block, at row r. -/
theorem laneSumR3_apply (X : FVec Ideal S256x1024 .f32) (r : Fin 256) :
    multiReduction (F := Ideal) .add [1] S256 X 0x00000000#32 reduces_S256x1024_S256 (.inl rfl) rfl (ix1 r)
      = ∑ s : Fin 1024, X (ix2 r s) := by
  refine (Ideal.multiReduction_add_single X 0x00000000#32 reduces_S256x1024_S256 (.inl rfl) rfl (ix1 r)).trans ?_
  refine Finset.sum_congr rfl fun s _ => congrArg X ?_
  funext a; apply Fin.ext
  match a with
  | ⟨0, _⟩ => rfl
  | ⟨1, _⟩ => rfl

/-- A [256] vector viewed as a [256,1] column reads its row. -/
theorem columnR3_apply (Y : FVec Ideal S256 .f32) (r : Fin 256) (z : Fin 1) :
    shapeCast S256x1 Y shapeCasts_S256_S256x1 (ix2 r z) = Y (ix1 r) := by
  refine shapeCast_apply Y _ (ix2 r z) (ix1 r) ?_
  have hz : z.val = 0 := by omega
  rw [Shape.rowMajor_val_one, Shape.rowMajor_val_two]
  show r.val = r.val * 1 + z.val
  rw [hz]; omega

/-- The zero column the first point stores into the accumulator of the sums. -/
theorem payR3_1_apply (i : S256x1.Idx) : Gen.k3_pay1 (F := Ideal) i = 0 := by
  unfold Gen.k3_pay1
  exact Ideal.ofBits_zero_f32

/-- The zero column the first point stores into the accumulator of the sums of squares. -/
theorem payR3_2_apply (i : S256x1.Idx) : Gen.k3_pay2 (F := Ideal) i = 0 := by
  unfold Gen.k3_pay2
  exact Ideal.ofBits_zero_f32

/-- The product at channel r, lane s: y(r, s) = ∑ₖ W(r, k) · x(0, k, s). -/
theorem payR3_3_apply (v5 : Vec Ideal S256x128 .f32) (v6 : Vec Ideal S1x128x1024 .f32) (r : Fin 256) (s : Fin 1024) :
    Gen.k3_pay3 v5 v6 (ix2 r s) = ∑ k : Fin 128, v5 (ix2 r k) * v6 (ix3 (0 : Fin 1) k s) := by
  unfold Gen.k3_pay3
  refine (matmulR3_apply _ _ r s).trans ?_
  refine Finset.sum_congr rfl fun k _ => ?_
  exact congrArg (v5 (ix2 r k) * ·) (shapeCast_1ab_ab_apply v6 _ k s)

/-- The stored block of y: the product with a leading unit axis. -/
theorem payR3_4_apply (v5 : Vec Ideal S256x128 .f32) (v6 : Vec Ideal S1x128x1024 .f32) (u : Fin 1) (p : Fin 256) (q : Fin 1024) :
    Gen.k3_pay4 v5 v6 (ix3 u p q) = ∑ k : Fin 128, v5 (ix2 p k) * v6 (ix3 (0 : Fin 1) k q) := by
  unfold Gen.k3_pay4
  exact (shapeCast_ab_1ab_apply _ _ u p q).trans (payR3_3_apply v5 v6 p q)

/-- The accumulator of the sums after a point: what it held plus the lane sum of y. -/
theorem payR3_5_apply (v5 : Vec Ideal S256x128 .f32) (v6 : Vec Ideal S1x128x1024 .f32) (v12 : Vec Ideal S256x1 .f32) (r : Fin 256) (z : Fin 1) :
    Gen.k3_pay5 v5 v6 v12 (ix2 r z)
      = v12 (ix2 r z) + ∑ s : Fin 1024, ∑ k : Fin 128, v5 (ix2 r k) * v6 (ix3 (0 : Fin 1) k s) := by
  unfold Gen.k3_pay5
  refine (addf_apply _ _ _).trans ?_
  refine congrArg₂ (· + ·) (congrFun (shapeCast_self v12 _) _) ?_
  refine (columnR3_apply _ r z).trans ?_
  refine (laneSumR3_apply _ r).trans ?_
  exact Finset.sum_congr rfl fun s _ => payR3_3_apply v5 v6 r s

/-- The accumulator of the sums of squares after a point: what it held plus the lane sum of y·y. -/
theorem payR3_6_apply (v5 : Vec Ideal S256x128 .f32) (v6 : Vec Ideal S1x128x1024 .f32) (v18 : Vec Ideal S256x1 .f32) (r : Fin 256) (z : Fin 1) :
    Gen.k3_pay6 v5 v6 v18 (ix2 r z)
      = v18 (ix2 r z) + ∑ s : Fin 1024, (∑ k : Fin 128, v5 (ix2 r k) * v6 (ix3 (0 : Fin 1) k s)) * (∑ k : Fin 128, v5 (ix2 r k) * v6 (ix3 (0 : Fin 1) k s)) := by
  unfold Gen.k3_pay6
  refine (addf_apply _ _ _).trans ?_
  refine congrArg₂ (· + ·) (congrFun (shapeCast_self v18 _) _) ?_
  refine (columnR3_apply _ r z).trans ?_
  refine (laneSumR3_apply _ r).trans ?_
  refine Finset.sum_congr rfl fun s _ => ?_
  refine Eq.trans (mulf_apply _ _ _) ?_
  rw [payR3_3_apply v5 v6 r s]

end Cert.ReferenceIdeal.Val

end
-- ==== Proof.RefV3.lean ====
import proofs.«159567_g2000302752657622_pallasbulk_725_3_alg».proof.Proof.RefR3
import proofs.«159567_g2000302752657622_pallasbulk_725_3_alg».proof.Proof.RefV3a
import proofs.«159567_g2000302752657622_pallasbulk_725_3_alg».proof.Proof.LibGram
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! # The values of region 3:  y = W·x, and the per-channel sums of y and of y² over all images and lanes

The three output arrays, each as one function of the two arrays the region reads (x, window 0; W, window 1), index by
index. -/

/-- y at image n, channel ch, lane l:  ∑ₖ W[ch, k] · x[n, k, l]. -/
def RG3_2 (x : S64x128x1024.Idx → EReal) (W : S256x128.Idx → EReal) : S64x256x1024.Idx → EReal :=
  fun i => ∑ k : Fin 128, W (ix2 (i 1) k) * x (ix3 (i 0) k (i 2))

/-- The per-channel sum of y over all images and lanes, a [256,1] column. -/
def RG3_3 (x : S64x128x1024.Idx → EReal) (W : S256x128.Idx → EReal) : S256x1.Idx → EReal :=
  fun i => ∑ n : Fin 64, ∑ l : Fin 1024, RG3_2 x W (ix3 n (i 0) l)

/-- The per-channel sum of y² over all images and lanes, a [256,1] column. -/
def RG3_4 (x : S64x128x1024.Idx → EReal) (W : S256x128.Idx → EReal) : S256x1.Idx → EReal :=
  fun i => ∑ n : Fin 64, ∑ l : Fin 1024, RG3_2 x W (ix3 n (i 0) l) * RG3_2 x W (ix3 n (i 0) l)

theorem RG3_2_at (x : S64x128x1024.Idx → EReal) (W : S256x128.Idx → EReal) (n : Fin 64) (p : Fin 256) (l : Fin 1024) :
    RG3_2 x W (ix3 n p l) = ∑ k : Fin 128, W (ix2 p k) * x (ix3 n k l) := rfl

theorem RG3_3_at (x : S64x128x1024.Idx → EReal) (W : S256x128.Idx → EReal) (p : Fin 256) (z : Fin 1) :
    RG3_3 x W (ix2 p z) = ∑ n : Fin 64, ∑ l : Fin 1024, RG3_2 x W (ix3 n p l) := rfl

theorem RG3_4_at (x : S64x128x1024.Idx → EReal) (W : S256x128.Idx → EReal) (p : Fin 256) (z : Fin 1) :
    RG3_4 x W (ix2 p z) = ∑ n : Fin 64, ∑ l : Fin 1024, RG3_2 x W (ix3 n p l) * RG3_2 x W (ix3 n p l) := rfl

/-- Reals in, reals out: a finite sum of products of reals. -/
theorem RG3_2_real (x : S64x128x1024.Idx → EReal) (W : S256x128.Idx → EReal)
    (hx : ∀ i, ∃ r : ℝ, x i = r) (hW : ∀ i, ∃ r : ℝ, W i = r) : ∀ i, ∃ r : ℝ, RG3_2 x W i = r :=
  fun i => Cert.Lib.Gram.exists_real_sum _ _ fun k => Cert.Lib.Gram.exists_real_mul (hW _) (hx _)

theorem RG3_3_real (x : S64x128x1024.Idx → EReal) (W : S256x128.Idx → EReal)
    (hx : ∀ i, ∃ r : ℝ, x i = r) (hW : ∀ i, ∃ r : ℝ, W i = r) : ∀ i, ∃ r : ℝ, RG3_3 x W i = r :=
  fun i => Cert.Lib.Gram.exists_real_sum _ _ fun n => Cert.Lib.Gram.exists_real_sum _ _ fun l => RG3_2_real x W hx hW _

theorem RG3_4_real (x : S64x128x1024.Idx → EReal) (W : S256x128.Idx → EReal)
    (hx : ∀ i, ∃ r : ℝ, x i = r) (hW : ∀ i, ∃ r : ℝ, W i = r) : ∀ i, ∃ r : ℝ, RG3_4 x W i = r :=
  fun i => Cert.Lib.Gram.exists_real_sum _ _ fun n => Cert.Lib.Gram.exists_real_sum _ _ fun l =>
    Cert.Lib.Gram.exists_real_mul (RG3_2_real x W hx hW _) (RG3_2_real x W hx hW _)

/-! ## Which buffer each window stages -/

theorem arrRef3_0 : Pipeline.arrRef spec3 0 = main_v0 := rfl
theorem arrRef3_1 : Pipeline.arrRef spec3 1 = main_arg11 := rfl
theorem arrRef3_2 : Pipeline.arrRef spec3 2 = main_v46_0 := rfl
theorem arrRef3_3 : Pipeline.arrRef spec3 3 = main_v46_1 := rfl
theorem arrRef3_4 : Pipeline.arrRef spec3 4 = main_v46_2 := rfl

/-! ## The index maps -/

/-- The index maps over the grid's 64 points: point t is image t; W and the two columns are one block. -/
theorem idx3 : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 3) = t.val ∧ win3_2.index t (1 : Fin 3) = 0 ∧ win3_2.index t (2 : Fin 3) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (V : (c : Dev nD) → (b : Ref sig .tc) → Buf (Elt Ideal) ((c : Thread nD τ).loc b))

/-! ## The blocks the body reads -/

/-- Window 0's block at point t is image t of x's array. -/
theorem iblk3_0_apply (c : Dev nD) (t : Fin cfg3.N) (y : S1x128x1024.Idx) (k : S64x128x1024.Idx)
    (hk0 : (k 0).val = t.val) (hk1 : (k 1).val = (y 1).val) (hk2 : (k 2).val = (y 2).val) :
    (iblk3 V c 0 t : Vec Ideal S1x128x1024 .f32) y = (V c main_v0 : S64x128x1024.Idx → EReal) k := by
  obtain ⟨e0, e1, e2, -⟩ := idx3 t
  have hy0 : (y 0).val < 1 := (y 0).isLt
  unfold iblk3
  rw [View.read_apply]
  show V c main_v0 _ = V c main_v0 _
  congr 1
  funext a
  apply Fin.ext
  match a with
  | ⟨0, _⟩ => show win3_0.index t 0 * 1 + 1 * (y 0).val = (k 0).val; rw [e0, hk0]; omega
  | ⟨1, _⟩ => show win3_0.index t 1 * 128 + 1 * (y 1).val = (k 1).val; rw [e1, hk1]; omega
  | ⟨2, _⟩ => show win3_0.index t 2 * 1024 + 1 * (y 2).val = (k 2).val; rw [e2, hk2]; omega

/-- Window 1's block is the whole of W at every point. -/
theorem iblk3_1_apply (c : Dev nD) (t : Fin cfg3.N) (y : S256x128.Idx) :
    (iblk3 V c 1 t : Vec Ideal S256x128 .f32) y = (V c main_arg11 : S256x128.Idx → EReal) y := by
  obtain ⟨-, -, -, e0, e1, -⟩ := idx3 t
  unfold iblk3
  rw [View.read_apply]
  show V c main_arg11 _ = V c main_arg11 _
  congr 1
  funext a
  apply Fin.ext
  match a with
  | ⟨0, _⟩ => show win3_1.index t 0 * 256 + 1 * (y 0).val = (y 0).val; rw [e0]; omega
  | ⟨1, _⟩ => show win3_1.index t 1 * 128 + 1 * (y 1).val = (y 1).val; rw [e1]; omega

/-- The product of point t's blocks at channel p, lane s of the block is y at the image and lane the point covers. -/
theorem yblk3 (c : Dev nD) (t : Fin cfg3.N) (b1 : Vec Ideal S256x128 .f32) (b0 : Vec Ideal S1x128x1024 .f32)
    (h1 : b1 = iblk3 V c 1 t) (h0 : b0 = iblk3 V c 0 t) (n : Fin 64) (l : Fin 1024) (p : Fin 256) (s : Fin 1024)
    (hn : n.val = t.val) (hl : l.val = s.val) :
    ∑ k : Fin 128, b1 (ix2 p k) * b0 (ix3 (0 : Fin 1) k s) = RG3_2 (V c main_v0) (V c main_arg11) (ix3 n p l) := by
  subst h1 h0
  refine Eq.trans ?_ (RG3_2_at _ _ n p l).symm
  refine Finset.sum_congr rfl fun k _ => ?_
  exact congrArg₂ (· * ·) (iblk3_1_apply V c t (ix2 p k)) (iblk3_0_apply V c t (ix3 (0 : Fin 1) k s) (ix3 n k l) hn rfl hl)

/-! ## y: from the blocks to the array -/

/-- What point t writes back is point t's block of y. -/
theorem Rflushed3_2_eq (c : Dev nD) (t : Fin cfg3.N) :
    (dat3 V c).flushed 2 t = ((cfg3.win 2).blk t).view.read (Elt Ideal) (RG3_2 (V c main_v0) (V c main_arg11)) := by
  show (cfg3.win 2).cut (grid3.coords t) ((dat3 V c).after 2 t) = _
  rw [after3_2]
  obtain ⟨-, -, -, -, -, e0, e1, e2, -⟩ := idx3 t
  have hN : cfg3.N = 64 := N_3
  have ht : t.val < 64 := lt_of_lt_of_eq t.isLt hN
  funext j
  have hj0 : (j 0).val < 1 := (j 0).isLt
  have hj1 : (j 1).val < 256 := (j 1).isLt
  have hj2 : (j 2).val < 1024 := (j 2).isLt
  have hx : (cfg3.win 2).xinj (grid3.coords t) j = ix3 (⟨(j 0).val, hj0⟩ : Fin 1) (⟨(j 1).val, hj1⟩ : Fin 256) (⟨(j 2).val, hj2⟩ : Fin 1024) :=
    funext fun a => by match a with | ⟨0, _⟩ => rfl | ⟨1, _⟩ => rfl | ⟨2, _⟩ => rfl
  show k3_pay4 (iblk3 V c 1 t) (iblk3 V c 0 t) ((cfg3.win 2).xinj (grid3.coords t) j)
    = RG3_2 (V c main_v0) (V c main_arg11) (((cfg3.win 2).blk t).view.emb j)
  rw [hx]
  refine (payR3_4_apply (iblk3 V c 1 t) (iblk3 V c 0 t) ⟨(j 0).val, hj0⟩ ⟨(j 1).val, hj1⟩ ⟨(j 2).val, hj2⟩).trans ?_
  have h0 : ((((cfg3.win 2).blk t).view.emb j) 0).val = t.val := by
    show win3_2.index t 0 * 1 + 1 * (j 0).val = t.val; rw [e0]; omega
  have h1 : ((((cfg3.win 2).blk t).view.emb j) 1).val = (j 1).val := by
    show win3_2.index t 1 * 256 + 1 * (j 1).val = (j 1).val; rw [e1]; omega
  have h2 : ((((cfg3.win 2).blk t).view.emb j) 2).val = (j 2).val := by
    show win3_2.index t 2 * 1024 + 1 * (j 2).val = (j 2).val; rw [e2]; omega
  refine (yblk3 V c t _ _ rfl rfl (⟨t.val, by omega⟩ : Fin 64) (⟨(j 2).val, by omega⟩ : Fin 1024) ⟨(j 1).val, hj1⟩ ⟨(j 2).val, hj2⟩ rfl rfl).trans ?_
  refine congrArg (RG3_2 (V c main_v0) (V c main_arg11)) ?_
  funext a; apply Fin.ext
  match a with
  | ⟨0, _⟩ => exact h0.symm
  | ⟨1, _⟩ => exact h1.symm
  | ⟨2, _⟩ => exact h2.symm

/-- An index of y's array is in point t's block iff each coordinate is in the block's range on its axis. -/
theorem mem_blk3_2 (t : Fin cfg3.N) (i : S64x256x1024.Idx) :
    i ∈ ((cfg3.win 2).blk t).view.set ↔ ∀ a : Fin 3, win3_2.index t a * S1x256x1024.size a ≤ (i a).val
      ∧ (i a).val < win3_2.index t a * S1x256x1024.size a + S1x256x1024.size a := by
  show i ∈ ((View.whole main_v46_0).slice (win3_2.rect t)).set ↔ _
  rw [View.set_slice_whole, Rect.mem_set_unit]
  exact Iff.rfl

/-- y's array after the region. Index (n, ch, l) lies in the block of point n, and every point writes its block back. -/
theorem Rfinal3_2 (c : Dev nD) : (dat3 V c).arrAt 2 cfg3.N = RG3_2 (V c main_v0) (V c main_arg11) :=
  (dat3 V c).arrAt_eq_of_cover 2 _ (fun t _ => Rflushed3_2_eq V c t) fun i => by
    have hi0 : (i 0).val < 64 := (i 0).isLt
    have hi1 : (i 1).val < 256 := (i 1).isLt
    have hi2 : (i 2).val < 1024 := (i 2).isLt
    have hN : cfg3.N = 64 := N_3
    obtain ⟨t, ht⟩ : ∃ t : Fin cfg3.N, t.val = (i 0).val := ⟨⟨(i 0).val, by rw [hN]; omega⟩, rfl⟩
    obtain ⟨-, -, -, -, -, e0, e1, e2, -⟩ := idx3 t
    refine ⟨t, flush3_2 t, ?_⟩
    rw [mem_blk3_2]
    intro a
    match a with
    | ⟨0, _⟩ => show win3_2.index t 0 * 1 ≤ (i 0).val ∧ (i 0).val < win3_2.index t 0 * 1 + 1; rw [e0, ht]; omega
    | ⟨1, _⟩ => show win3_2.index t 1 * 256 ≤ (i 1).val ∧ (i 1).val < win3_2.index t 1 * 256 + 256; rw [e1]; omega
    | ⟨2, _⟩ => show win3_2.index t 2 * 1024 ≤ (i 2).val ∧ (i 2).val < win3_2.index t 2 * 1024 + 1024; rw [e2]; omega

/-! ## The two accumulated columns: induction on the grid point -/

/-- The contribution of grid point m to channel p of the sums: the sum over the point's lanes. -/
def ptR3_3 (x : S64x128x1024.Idx → EReal) (W : S256x128.Idx → EReal) (m : ℕ) (p : Fin 256) : EReal :=
  if h : m < 64 then ∑ s : Fin 1024, RG3_2 x W (ix3 (⟨m, by omega⟩ : Fin 64) p (⟨s.val, by have := s.isLt; omega⟩ : Fin 1024)) else 0

/-- What point t adds to the accumulator, from the blocks it reads, is that contribution. -/
theorem pointR3_3 (c : Dev nD) (t : Fin cfg3.N) (b1 : Vec Ideal S256x128 .f32) (b0 : Vec Ideal S1x128x1024 .f32)
    (h1 : b1 = iblk3 V c 1 t) (h0 : b0 = iblk3 V c 0 t) (p : Fin 256) :
    ∑ s : Fin 1024, (∑ k : Fin 128, b1 (ix2 p k) * b0 (ix3 (0 : Fin 1) k s))
      = ptR3_3 (V c main_v0) (V c main_arg11) t.val p := by
  have ht : t.val < 64 := lt_of_lt_of_eq t.isLt N_3
  unfold ptR3_3
  rw [dif_pos ht]
  exact Finset.sum_congr rfl fun s _ => yblk3 V c t b1 b0 h1 h0 _ _ p s rfl rfl

/-- After point n the accumulator holds the contributions of points 0…n: the first point starts from the zero column,
    every later one from what the point before left. -/
theorem outsAt3_3_sum (c : Dev nD) (p : Fin 256) (z : Fin 1) (n : ℕ) (hn : n < cfg3.N) :
    (outsAt3_3 V c n hn : Vec Ideal S256x1 .f32) (ix2 p z) = ∑ m ∈ Finset.range (n + 1), ptR3_3 (V c main_v0) (V c main_arg11) m p := by
  induction n with
  | zero =>
    refine (congrFun (outsAt3_3_A V c ⟨0, hn⟩ rfl) (ix2 p z)).trans ?_
    refine (payR3_5_apply (iblk3 V c 1 ⟨0, hn⟩) (iblk3 V c 0 ⟨0, hn⟩) (k3_pay1 (F := Ideal)) p z).trans ?_
    rw [Finset.sum_range_one, payR3_1_apply, zero_add]
    exact pointR3_3 V c ⟨0, hn⟩ _ _ rfl rfl p
  | succ n ih =>
    refine (congrFun (outsAt3_3_B V c ⟨n + 1, hn⟩ (Nat.succ_ne_zero n)) (ix2 p z)).trans ?_
    refine (payR3_5_apply (iblk3 V c 1 ⟨n + 1, hn⟩) (iblk3 V c 0 ⟨n + 1, hn⟩) _ p z).trans ?_
    rw [Finset.sum_range_succ]
    exact congrArg₂ (· + ·) (ih (Nat.lt_of_succ_lt hn)) (pointR3_3 V c ⟨n + 1, hn⟩ _ _ rfl rfl p)

/-- The contribution of grid point m to channel p of the sums of squares: the sum over the point's lanes. -/
def ptR3_4 (x : S64x128x1024.Idx → EReal) (W : S256x128.Idx → EReal) (m : ℕ) (p : Fin 256) : EReal :=
  if h : m < 64 then ∑ s : Fin 1024, RG3_2 x W (ix3 (⟨m, by omega⟩ : Fin 64) p (⟨s.val, by have := s.isLt; omega⟩ : Fin 1024)) * RG3_2 x W (ix3 (⟨m, by omega⟩ : Fin 64) p (⟨s.val, by have := s.isLt; omega⟩ : Fin 1024)) else 0

/-- What point t adds to the accumulator, from the blocks it reads, is that contribution. -/
theorem pointR3_4 (c : Dev nD) (t : Fin cfg3.N) (b1 : Vec Ideal S256x128 .f32) (b0 : Vec Ideal S1x128x1024 .f32)
    (h1 : b1 = iblk3 V c 1 t) (h0 : b0 = iblk3 V c 0 t) (p : Fin 256) :
    ∑ s : Fin 1024, (∑ k : Fin 128, b1 (ix2 p k) * b0 (ix3 (0 : Fin 1) k s)) * (∑ k : Fin 128, b1 (ix2 p k) * b0 (ix3 (0 : Fin 1) k s))
      = ptR3_4 (V c main_v0) (V c main_arg11) t.val p := by
  have ht : t.val < 64 := lt_of_lt_of_eq t.isLt N_3
  unfold ptR3_4
  rw [dif_pos ht]
  exact Finset.sum_congr rfl fun s _ => congrArg₂ (· * ·) (yblk3 V c t b1 b0 h1 h0 _ _ p s rfl rfl) (yblk3 V c t b1 b0 h1 h0 _ _ p s rfl rfl)

/-- After point n the accumulator holds the contributions of points 0…n: the first point starts from the zero column,
    every later one from what the point before left. -/
theorem outsAt3_4_sum (c : Dev nD) (p : Fin 256) (z : Fin 1) (n : ℕ) (hn : n < cfg3.N) :
    (outsAt3_4 V c n hn : Vec Ideal S256x1 .f32) (ix2 p z) = ∑ m ∈ Finset.range (n + 1), ptR3_4 (V c main_v0) (V c main_arg11) m p := by
  induction n with
  | zero =>
    refine (congrFun (outsAt3_4_A V c ⟨0, hn⟩ rfl) (ix2 p z)).trans ?_
    refine (payR3_6_apply (iblk3 V c 1 ⟨0, hn⟩) (iblk3 V c 0 ⟨0, hn⟩) (k3_pay2 (F := Ideal)) p z).trans ?_
    rw [Finset.sum_range_one, payR3_2_apply, zero_add]
    exact pointR3_4 V c ⟨0, hn⟩ _ _ rfl rfl p
  | succ n ih =>
    refine (congrFun (outsAt3_4_B V c ⟨n + 1, hn⟩ (Nat.succ_ne_zero n)) (ix2 p z)).trans ?_
    refine (payR3_6_apply (iblk3 V c 1 ⟨n + 1, hn⟩) (iblk3 V c 0 ⟨n + 1, hn⟩) _ p z).trans ?_
    rw [Finset.sum_range_succ]
    exact congrArg₂ (· + ·) (ih (Nat.lt_of_succ_lt hn)) (pointR3_4 V c ⟨n + 1, hn⟩ _ _ rfl rfl p)

/-! ## The two accumulated columns: the last point's write-back is the whole array -/

/-- The contributions of all the points are the sum over the images and the lanes. -/
theorem sum_pointsR3_3 (x : S64x128x1024.Idx → EReal) (W : S256x128.Idx → EReal) (p : Fin 256) :
    ∑ m ∈ Finset.range 64, ptR3_3 x W m p = ∑ n : Fin 64, ∑ l : Fin 1024, RG3_2 x W (ix3 n p l) := by
  rw [Finset.sum_range]
  refine Finset.sum_congr rfl fun n _ => ?_
  unfold ptR3_3
  rw [dif_pos n.isLt]

/-- The contributions of all the points are the sum over the images and the lanes. -/
theorem sum_pointsR3_4 (x : S64x128x1024.Idx → EReal) (W : S256x128.Idx → EReal) (p : Fin 256) :
    ∑ m ∈ Finset.range 64, ptR3_4 x W m p = ∑ n : Fin 64, ∑ l : Fin 1024, RG3_2 x W (ix3 n p l) * RG3_2 x W (ix3 n p l) := by
  rw [Finset.sum_range]
  refine Finset.sum_congr rfl fun n _ => ?_
  unfold ptR3_4
  rw [dif_pos n.isLt]

/-- An index of the array of the sums is in point t's block iff each coordinate is in the block's range on its axis. -/
theorem mem_blk3_3 (t : Fin cfg3.N) (i : S256x1.Idx) :
    i ∈ ((cfg3.win 3).blk t).view.set ↔ ∀ a : Fin 2, win3_3.index t a * S256x1.size a ≤ (i a).val
      ∧ (i a).val < win3_3.index t a * S256x1.size a + S256x1.size a := by
  show i ∈ ((View.whole main_v46_1).slice (win3_3.rect t)).set ↔ _
  rw [View.set_slice_whole, Rect.mem_set_unit]
  exact Iff.rfl

/-- The one write-back of the sums, after the last point, writes the sum over all images and lanes. -/
theorem Rflushed3_3_eq (c : Dev nD) (t : Fin cfg3.N) (hf : (cfg3.win 3).flush t = true) :
    (dat3 V c).flushed 3 t = ((cfg3.win 3).blk t).view.read (Elt Ideal) (RG3_3 (V c main_v0) (V c main_arg11)) := by
  have hN : cfg3.N = 64 := N_3
  have hl : t.val = 63 := by have := (flush3_3 t).mp hf; have := t.isLt; omega
  show (cfg3.win 3).cut (grid3.coords t) ((dat3 V c).after 3 t) = _
  rw [after3_3]
  obtain ⟨-, -, -, -, -, -, -, -, e0, e1, -⟩ := idx3 t
  funext j
  have hj0 : (j 0).val < 256 := (j 0).isLt
  have hj1 : (j 1).val < 1 := (j 1).isLt
  have hx : (cfg3.win 3).xinj (grid3.coords t) j = ix2 (⟨(j 0).val, hj0⟩ : Fin 256) (⟨(j 1).val, hj1⟩ : Fin 1) :=
    funext fun a => by match a with | ⟨0, _⟩ => rfl | ⟨1, _⟩ => rfl
  show outsAt3_3 V c t.val t.isLt ((cfg3.win 3).xinj (grid3.coords t) j)
    = RG3_3 (V c main_v0) (V c main_arg11) (((cfg3.win 3).blk t).view.emb j)
  rw [hx]
  refine (outsAt3_3_sum V c ⟨(j 0).val, hj0⟩ ⟨(j 1).val, hj1⟩ t.val t.isLt).trans ?_
  have he : ((cfg3.win 3).blk t).view.emb j = ix2 (⟨(j 0).val, hj0⟩ : Fin 256) (⟨(j 1).val, hj1⟩ : Fin 1) := by
    funext a; apply Fin.ext
    match a with
    | ⟨0, _⟩ => show win3_3.index t 0 * 256 + 1 * (j 0).val = (j 0).val; rw [e0]; omega
    | ⟨1, _⟩ => show win3_3.index t 1 * 1 + 1 * (j 1).val = (j 1).val; rw [e1]; omega
  rw [he, RG3_3_at, hl]
  exact sum_pointsR3_3 _ _ _

/-- The array of the sums after the region: the sum over all images and lanes; the last point's one block is the
    whole array. -/
theorem Rfinal3_3 (c : Dev nD) : (dat3 V c).arrAt 3 cfg3.N = RG3_3 (V c main_v0) (V c main_arg11) :=
  (dat3 V c).arrAt_eq_of_cover 3 _ (fun t hf => Rflushed3_3_eq V c t hf) fun i => by
    have hi0 : (i 0).val < 256 := (i 0).isLt
    have hi1 : (i 1).val < 1 := (i 1).isLt
    have hN : cfg3.N = 64 := N_3
    obtain ⟨t, ht⟩ : ∃ t : Fin cfg3.N, t.val = 63 := ⟨⟨63, by rw [hN]; omega⟩, rfl⟩
    obtain ⟨-, -, -, -, -, -, -, -, e0, e1, -⟩ := idx3 t
    refine ⟨t, (flush3_3 t).mpr (by omega), ?_⟩
    rw [mem_blk3_3]
    intro a
    match a with
    | ⟨0, _⟩ => show win3_3.index t 0 * 256 ≤ (i 0).val ∧ (i 0).val < win3_3.index t 0 * 256 + 256; rw [e0]; omega
    | ⟨1, _⟩ => show win3_3.index t 1 * 1 ≤ (i 1).val ∧ (i 1).val < win3_3.index t 1 * 1 + 1; rw [e1]; omega

/-- An index of the array of the sums of squares is in point t's block iff each coordinate is in the block's range on its axis. -/
theorem mem_blk3_4 (t : Fin cfg3.N) (i : S256x1.Idx) :
    i ∈ ((cfg3.win 4).blk t).view.set ↔ ∀ a : Fin 2, win3_4.index t a * S256x1.size a ≤ (i a).val
      ∧ (i a).val < win3_4.index t a * S256x1.size a + S256x1.size a := by
  show i ∈ ((View.whole main_v46_2).slice (win3_4.rect t)).set ↔ _
  rw [View.set_slice_whole, Rect.mem_set_unit]
  exact Iff.rfl

/-- The one write-back of the sums of squares, after the last point, writes the sum over all images and lanes. -/
theorem Rflushed3_4_eq (c : Dev nD) (t : Fin cfg3.N) (hf : (cfg3.win 4).flush t = true) :
    (dat3 V c).flushed 4 t = ((cfg3.win 4).blk t).view.read (Elt Ideal) (RG3_4 (V c main_v0) (V c main_arg11)) := by
  have hN : cfg3.N = 64 := N_3
  have hl : t.val = 63 := by have := (flush3_4 t).mp hf; have := t.isLt; omega
  show (cfg3.win 4).cut (grid3.coords t) ((dat3 V c).after 4 t) = _
  rw [after3_4]
  obtain ⟨-, -, -, -, -, -, -, -, -, -, e0, e1⟩ := idx3 t
  funext j
  have hj0 : (j 0).val < 256 := (j 0).isLt
  have hj1 : (j 1).val < 1 := (j 1).isLt
  have hx : (cfg3.win 4).xinj (grid3.coords t) j = ix2 (⟨(j 0).val, hj0⟩ : Fin 256) (⟨(j 1).val, hj1⟩ : Fin 1) :=
    funext fun a => by match a with | ⟨0, _⟩ => rfl | ⟨1, _⟩ => rfl
  show outsAt3_4 V c t.val t.isLt ((cfg3.win 4).xinj (grid3.coords t) j)
    = RG3_4 (V c main_v0) (V c main_arg11) (((cfg3.win 4).blk t).view.emb j)
  rw [hx]
  refine (outsAt3_4_sum V c ⟨(j 0).val, hj0⟩ ⟨(j 1).val, hj1⟩ t.val t.isLt).trans ?_
  have he : ((cfg3.win 4).blk t).view.emb j = ix2 (⟨(j 0).val, hj0⟩ : Fin 256) (⟨(j 1).val, hj1⟩ : Fin 1) := by
    funext a; apply Fin.ext
    match a with
    | ⟨0, _⟩ => show win3_4.index t 0 * 256 + 1 * (j 0).val = (j 0).val; rw [e0]; omega
    | ⟨1, _⟩ => show win3_4.index t 1 * 1 + 1 * (j 1).val = (j 1).val; rw [e1]; omega
  rw [he, RG3_4_at, hl]
  exact sum_pointsR3_4 _ _ _

/-- The array of the sums of squares after the region: the sum over all images and lanes; the last point's one block is the
    whole array. -/
theorem Rfinal3_4 (c : Dev nD) : (dat3 V c).arrAt 4 cfg3.N = RG3_4 (V c main_v0) (V c main_arg11) :=
  (dat3 V c).arrAt_eq_of_cover 4 _ (fun t hf => Rflushed3_4_eq V c t hf) fun i => by
    have hi0 : (i 0).val < 256 := (i 0).isLt
    have hi1 : (i 1).val < 1 := (i 1).isLt
    have hN : cfg3.N = 64 := N_3
    obtain ⟨t, ht⟩ : ∃ t : Fin cfg3.N, t.val = 63 := ⟨⟨63, by rw [hN]; omega⟩, rfl⟩
    obtain ⟨-, -, -, -, -, -, -, -, -, -, e0, e1⟩ := idx3 t
    refine ⟨t, (flush3_4 t).mpr (by omega), ?_⟩
    rw [mem_blk3_4]
    intro a
    match a with
    | ⟨0, _⟩ => show win3_4.index t 0 * 256 ≤ (i 0).val ∧ (i 0).val < win3_4.index t 0 * 256 + 256; rw [e0]; omega
    | ⟨1, _⟩ => show win3_4.index t 1 * 1 ≤ (i 1).val ∧ (i 1).val < win3_4.index t 1 * 1 + 1; rw [e1]; omega

end Cert.ReferenceIdeal.Val

end
-- ==== Proof.RefV4.lean ====
import proofs.«159567_g2000302752657622_pallasbulk_725_3_alg».proof.Proof.RefR4
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)

/-! # The value of the pointwise region with a shortcut on the first 1024 lanes

The region's output array, as one function of the six arrays it reads, index by index: everywhere
y · scale + shift + shift', and on lanes below 1024 the shortcut term z · scale' added to it. -/

/-- The output array from the arrays of y (64 × 256 × 4096), of the shortcut's operand z (64 × 256 × 1024), and the four
    per-channel columns: the scale and shift of y, the shortcut's scale, the shortcut's shift. At image `n`, channel
    `ch`, lane `l`:  y[n, ch, l] · sc3[ch] + sh3[ch] + shs[ch], plus  z[n, ch, l] · scs[ch]  when  l < 1024. -/
def RG4_6 (y3 : S64x256x4096.Idx → EReal) (sd : S64x256x1024.Idx → EReal) (sc3 sh3 scs shs : S256x1.Idx → EReal) :
    S64x256x4096.Idx → EReal :=
  fun i => if h : (i 2).val < 1024 then
      y3 i * sc3 (ix2 (i 1) 0) + sh3 (ix2 (i 1) 0) + shs (ix2 (i 1) 0) + sd (ix3 (i 0) (i 1) ⟨(i 2).val, h⟩) * scs (ix2 (i 1) 0)
    else y3 i * sc3 (ix2 (i 1) 0) + sh3 (ix2 (i 1) 0) + shs (ix2 (i 1) 0)

/-- The specification on a lane below 1024, the coordinates named. -/
theorem RG4_6_lt (y3 : S64x256x4096.Idx → EReal) (sd : S64x256x1024.Idx → EReal) (sc3 sh3 scs shs : S256x1.Idx → EReal)
    (i : S64x256x4096.Idx) (n : Fin 64) (p : Fin 256) (q : Fin 1024)
    (h0 : (i 0).val = n.val) (h1 : (i 1).val = p.val) (h2 : (i 2).val = q.val) :
    RG4_6 y3 sd sc3 sh3 scs shs i
      = y3 i * sc3 (ix2 p (0 : Fin 1)) + sh3 (ix2 p (0 : Fin 1)) + shs (ix2 p (0 : Fin 1)) + sd (ix3 n p q) * scs (ix2 p (0 : Fin 1)) := by
  obtain rfl : n = i 0 := Fin.ext h0.symm
  obtain rfl : p = i 1 := Fin.ext h1.symm
  have hq : (i 2).val < 1024 := h2 ▸ q.isLt
  obtain rfl : q = ⟨(i 2).val, hq⟩ := Fin.ext h2.symm
  unfold RG4_6
  exact dif_pos hq

/-- The specification on a lane from 1024 on, the channel named. -/
theorem RG4_6_ge (y3 : S64x256x4096.Idx → EReal) (sd : S64x256x1024.Idx → EReal) (sc3 sh3 scs shs : S256x1.Idx → EReal)
    (i : S64x256x4096.Idx) (p : Fin 256) (h1 : (i 1).val = p.val) (h2 : ¬ (i 2).val < 1024) :
    RG4_6 y3 sd sc3 sh3 scs shs i = y3 i * sc3 (ix2 p (0 : Fin 1)) + sh3 (ix2 p (0 : Fin 1)) + shs (ix2 p (0 : Fin 1)) := by
  obtain rfl : p = i 1 := Fin.ext h1.symm
  unfold RG4_6
  exact dif_neg h2

/-- Reals in, reals out: products and sums of reals, in both cases. -/
theorem RG4_6_real (y3 : S64x256x4096.Idx → EReal) (sd : S64x256x1024.Idx → EReal) (sc3 sh3 scs shs : S256x1.Idx → EReal)
    (hy : ∀ i, ∃ r : ℝ, y3 i = r) (hsd : ∀ i, ∃ r : ℝ, sd i = r) (hsc3 : ∀ i, ∃ r : ℝ, sc3 i = r) (hsh3 : ∀ i, ∃ r : ℝ, sh3 i = r)
    (hscs : ∀ i, ∃ r : ℝ, scs i = r) (hshs : ∀ i, ∃ r : ℝ, shs i = r) :
    ∀ i, ∃ r : ℝ, RG4_6 y3 sd sc3 sh3 scs shs i = r := fun i => by
  obtain ⟨a, ha⟩ := hy i
  obtain ⟨b, hb⟩ := hsc3 (ix2 (i 1) 0)
  obtain ⟨d, hd⟩ := hsh3 (ix2 (i 1) 0)
  obtain ⟨e, he⟩ := hshs (ix2 (i 1) 0)
  obtain ⟨g, hg⟩ := hscs (ix2 (i 1) 0)
  unfold RG4_6
  by_cases h : (i 2).val < 1024
  · obtain ⟨z, hz⟩ := hsd (ix3 (i 0) (i 1) ⟨(i 2).val, h⟩)
    refine ⟨a * b + d + e + z * g, ?_⟩
    rw [dif_pos h, ha, hb, hd, he, hg, hz, EReal.coe_add, EReal.coe_add, EReal.coe_add, EReal.coe_mul, EReal.coe_mul]
  · refine ⟨a * b + d + e, ?_⟩
    rw [dif_neg h, ha, hb, hd, he, EReal.coe_add, EReal.coe_add, EReal.coe_mul]

/-! ## The payloads at an index -/

private theorem hz3 : (![0, 0, 0] : Fin 3 → Nat) = fun _ => 0 := funext fun a => by fin_cases a <;> rfl
private theorem hz2 : (![0, 0] : Fin 2 → Nat) = fun _ => 0 := funext fun a => by fin_cases a <;> rfl

/-- A column `[a, 1]` broadcast along the lanes to `[a, b]` reads, at `(p, l)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The value both stores share, at channel `p`, lane `q`:  y · sc + sh + sh'. -/
theorem pay4_1_apply (v0 : Vec Ideal S1x256x4096 .f32) (v2 v6 v10 : Vec Ideal S256x1 .f32) (p : Fin 256) (q : Fin 4096) :
    k4_pay1 v0 v2 v6 v10 (ix2 p q)
      = v0 (ix3 (0 : Fin 1) p q) * v2 (ix2 p (0 : Fin 1)) + v6 (ix2 p (0 : Fin 1)) + v10 (ix2 p (0 : Fin 1)) := by
  unfold k4_pay1
  rw [addf_apply, addf_apply, mulf_apply]
  refine congrArg₂ (· + ·) (congrArg₂ (· + ·) (congrArg₂ (· * ·) ?_ ?_) ?_) ?_
  · exact shapeCast_1ab_ab_apply v0 _ p q
  · exact (broadcastTo_a1_ab_apply _ _ p q).trans (congrFun (shapeCast_self v2 _) _)
  · exact (broadcastTo_a1_ab_apply _ _ p q).trans (congrFun (shapeCast_self v6 _) _)
  · exact (broadcastTo_a1_ab_apply _ _ p q).trans (congrFun (shapeCast_self v10 _) _)

/-- The first store's value: the shared value, as a `[1, 256, 4096]` block. -/
theorem pay4_2_apply (v0 : Vec Ideal S1x256x4096 .f32) (v2 v6 v10 : Vec Ideal S256x1 .f32) (u : Fin 1) (p : Fin 256) (q : Fin 4096) :
    k4_pay2 v0 v2 v6 v10 (ix3 u p q)
      = v0 (ix3 (0 : Fin 1) p q) * v2 (ix2 p (0 : Fin 1)) + v6 (ix2 p (0 : Fin 1)) + v10 (ix2 p (0 : Fin 1)) := by
  unfold k4_pay2
  exact (shapeCast_ab_1ab_apply _ _ u p q).trans (pay4_1_apply v0 v2 v6 v10 p q)

/-- The second store's value at channel `p`, lane `q < 1024`: the shared value there plus  z · sc'. -/
theorem pay4_3_apply (v0 : Vec Ideal S1x256x4096 .f32) (v2 v6 v10 : Vec Ideal S256x1 .f32) (v18 : Vec Ideal S1x256x1024 .f32)
    (v20 : Vec Ideal S256x1 .f32) (u : Fin 1) (p : Fin 256) (q : Fin 1024) (k : Fin 4096) (hk : k.val = q.val) :
    k4_pay3 v0 v2 v6 v10 v18 v20 (ix3 u p q)
      = v0 (ix3 (0 : Fin 1) p k) * v2 (ix2 p (0 : Fin 1)) + v6 (ix2 p (0 : Fin 1)) + v10 (ix2 p (0 : Fin 1))
        + v18 (ix3 (0 : Fin 1) p q) * v20 (ix2 p (0 : Fin 1)) := by
  unfold k4_pay3
  refine (shapeCast_ab_1ab_apply _ _ u p q).trans ?_
  rw [addf_apply, mulf_apply]
  refine congrArg₂ (· + ·) ?_ (congrArg₂ (· * ·) ?_ ?_)
  · exact (slice2_axis1_apply 0 _ _ p q k (by rw [hk, Nat.zero_add])).trans (pay4_1_apply v0 v2 v6 v10 p k)
  · exact shapeCast_1ab_ab_apply v18 _ p q
  · exact (broadcastTo_a1_ab_apply _ _ p q).trans (congrFun (shapeCast_self v20 _) _)

/-- The two stores laid over one another, read at channel `p`, lane `q`: the second store's value below lane 1024, the
    first store's from there on. -/
theorem canon4_apply (w1 : Vec Ideal r4_3.shape .f32) (w0 : Vec Ideal S1x256x4096 .f32) (u : Fin 1) (p : Fin 256) (q : Fin 4096) :
    View.canon (Val := Elt Ideal) (e := .f32) [⟨r4_3, w1⟩, ⟨r4_0, w0⟩] (ix3 u p q)
      = if h : q.val < 1024 then w1 (ix3 u p (⟨q.val, h⟩ : Fin 1024)) else w0 (ix3 u p q) := by
  by_cases h : q.val < 1024
  · rw [dif_pos h]
    have he : ix3 u p q = r4_3.emb (ix3 u p (⟨q.val, h⟩ : Fin 1024)) := funext fun a => Fin.ext (by
      rw [Rect.emb_apply]
      match a with
      | ⟨0, _⟩ => show u.val = 0 + 1 * u.val; omega
      | ⟨1, _⟩ => show p.val = 0 + 1 * p.val; omega
      | ⟨2, _⟩ => show q.val = 0 + 1 * q.val; omega)
    rw [he]
    exact View.canon_cons_emb (Val := Elt Ideal) (e := .f32) r4_3 w1 [⟨r4_0, w0⟩] (ix3 u p (⟨q.val, h⟩ : Fin 1024))
  · rw [dif_neg h]
    have hn : ix3 u p q ∉ (⟨r4_3, w1⟩ : View.Piece (Elt Ideal) S1x256x4096 .f32).1.set := by
      show ix3 u p q ∉ r4_3.set
      rw [Rect.mem_set_unit]
      intro hm
      have h2 : q.val < 0 + 1024 := (hm 2).2
      omega
    rw [View.canon_cons_of_not_mem (Val := Elt Ideal) (⟨r4_3, w1⟩ : View.Piece (Elt Ideal) S1x256x4096 .f32) [⟨r4_0, w0⟩] hn, View.canon_unit_zero hz3]

/-! ## Which buffer each window stages -/

theorem arrRef4_0 : Pipeline.arrRef spec4 0 = main_v31_0 := rfl
theorem arrRef4_1 : Pipeline.arrRef spec4 1 = main_v46_0 := rfl
theorem arrRef4_2 : Pipeline.arrRef spec4 2 = main_v42 := rfl
theorem arrRef4_3 : Pipeline.arrRef spec4 3 = main_v45 := rfl
theorem arrRef4_4 : Pipeline.arrRef spec4 4 = main_v57 := rfl
theorem arrRef4_5 : Pipeline.arrRef spec4 5 = main_v60 := rfl
theorem arrRef4_6 : Pipeline.arrRef spec4 6 = main_v61 := rfl

/-! ## From the blocks to the array -/

/-- The index maps over the grid's 64 points: point `t` is image `t`; the per-channel columns are one block. -/
theorem idx4 : ∀ t : Fin cfg4.N,
    win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 3) = t.val ∧ win4_6.index t (1 : Fin 3) = 0 ∧ win4_6.index t (2 : Fin 3) = 0 :=
  (by decide +kernel : ∀ t : Fin grid4.N, _)

variable (V : (c : Dev nD) → (b : Ref sig .tc) → Buf (Elt Ideal) ((c : Thread nD τ).loc b))

/-- Window 0's block at point `t` is image `t` of y's array. -/
theorem iblk4_0_apply (c : Dev nD) (t : Fin cfg4.N) (x : S1x256x4096.Idx) (k : S64x256x4096.Idx)
    (hk0 : (k 0).val = t.val) (hk1 : (k 1).val = (x 1).val) (hk2 : (k 2).val = (x 2).val) :
    (iblk4 V c 0 t : Vec Ideal S1x256x4096 .f32) x = (V c main_v31_0 : S64x256x4096.Idx → EReal) k := by
  obtain ⟨e0, e1, e2, -⟩ := idx4 t
  have hx0 : (x 0).val < 1 := (x 0).isLt
  unfold iblk4
  rw [View.read_apply]
  show V c main_v31_0 _ = V c main_v31_0 _
  congr 1
  funext a
  apply Fin.ext
  match a with
  | ⟨0, _⟩ => show win4_0.index t 0 * 1 + 1 * (x 0).val = (k 0).val; rw [e0, hk0]; omega
  | ⟨1, _⟩ => show win4_0.index t 1 * 256 + 1 * (x 1).val = (k 1).val; rw [e1, hk1]; omega
  | ⟨2, _⟩ => show win4_0.index t 2 * 4096 + 1 * (x 2).val = (k 2).val; rw [e2, hk2]; omega

/-- Window 1's block at point `t` is image `t` of the shortcut operand's array. -/
theorem iblk4_1_apply (c : Dev nD) (t : Fin cfg4.N) (x : S1x256x1024.Idx) (k : S64x256x1024.Idx)
    (hk0 : (k 0).val = t.val) (hk1 : (k 1).val = (x 1).val) (hk2 : (k 2).val = (x 2).val) :
    (iblk4 V c 1 t : Vec Ideal S1x256x1024 .f32) x = (V c main_v46_0 : S64x256x1024.Idx → EReal) k := by
  obtain ⟨-, -, -, e0, e1, e2, -⟩ := idx4 t
  have hx0 : (x 0).val < 1 := (x 0).isLt
  unfold iblk4
  rw [View.read_apply]
  show V c main_v46_0 _ = V c main_v46_0 _
  congr 1
  funext a
  apply Fin.ext
  match a with
  | ⟨0, _⟩ => show win4_1.index t 0 * 1 + 1 * (x 0).val = (k 0).val; rw [e0, hk0]; omega
  | ⟨1, _⟩ => show win4_1.index t 1 * 256 + 1 * (x 1).val = (k 1).val; rw [e1, hk1]; omega
  | ⟨2, _⟩ => show win4_1.index t 2 * 1024 + 1 * (x 2).val = (k 2).val; rw [e2, hk2]; omega

/-- Window 2's block is the whole scale column at every point. -/
theorem iblk4_2_apply (c : Dev nD) (t : Fin cfg4.N) (x : S256x1.Idx) :
    (iblk4 V c 2 t : Vec Ideal S256x1 .f32) x = (V c main_v42 : S256x1.Idx → EReal) x := by
  obtain ⟨-, -, -, -, -, -, e0, e1, -⟩ := idx4 t
  unfold iblk4
  rw [View.read_apply]
  show V c main_v42 _ = V c main_v42 _
  congr 1
  funext a
  apply Fin.ext
  match a with
  | ⟨0, _⟩ => show win4_2.index t 0 * 256 + 1 * (x 0).val = (x 0).val; rw [e0]; omega
  | ⟨1, _⟩ => show win4_2.index t 1 * 1 + 1 * (x 1).val = (x 1).val; rw [e1]; omega

/-- Window 3's block is the whole shift column at every point. -/
theorem iblk4_3_apply (c : Dev nD) (t : Fin cfg4.N) (x : S256x1.Idx) :
    (iblk4 V c 3 t : Vec Ideal S256x1 .f32) x = (V c main_v45 : S256x1.Idx → EReal) x := by
  obtain ⟨-, -, -, -, -, -, -, -, e0, e1, -⟩ := idx4 t
  unfold iblk4
  rw [View.read_apply]
  show V c main_v45 _ = V c main_v45 _
  congr 1
  funext a
  apply Fin.ext
  match a with
  | ⟨0, _⟩ => show win4_3.index t 0 * 256 + 1 * (x 0).val = (x 0).val; rw [e0]; omega
  | ⟨1, _⟩ => show win4_3.index t 1 * 1 + 1 * (x 1).val = (x 1).val; rw [e1]; omega

/-- Window 4's block is the whole shortcut-scale column at every point. -/
theorem iblk4_4_apply (c : Dev nD) (t : Fin cfg4.N) (x : S256x1.Idx) :
    (iblk4 V c 4 t : Vec Ideal S256x1 .f32) x = (V c main_v57 : S256x1.Idx → EReal) x := by
  obtain ⟨-, -, -, -, -, -, -, -, -, -, e0, e1, -⟩ := idx4 t
  unfold iblk4
  rw [View.read_apply]
  show V c main_v57 _ = V c main_v57 _
  congr 1
  funext a
  apply Fin.ext
  match a with
  | ⟨0, _⟩ => show win4_4.index t 0 * 256 + 1 * (x 0).val = (x 0).val; rw [e0]; omega
  | ⟨1, _⟩ => show win4_4.index t 1 * 1 + 1 * (x 1).val = (x 1).val; rw [e1]; omega

/-- Window 5's block is the whole shortcut-shift column at every point. -/
theorem iblk4_5_apply (c : Dev nD) (t : Fin cfg4.N) (x : S256x1.Idx) :
    (iblk4 V c 5 t : Vec Ideal S256x1 .f32) x = (V c main_v60 : S256x1.Idx → EReal) x := by
  obtain ⟨-, -, -, -, -, -, -, -, -, -, -, -, e0, e1, -⟩ := idx4 t
  unfold iblk4
  rw [View.read_apply]
  show V c main_v60 _ = V c main_v60 _
  congr 1
  funext a
  apply Fin.ext
  match a with
  | ⟨0, _⟩ => show win4_5.index t 0 * 256 + 1 * (x 0).val = (x 0).val; rw [e0]; omega
  | ⟨1, _⟩ => show win4_5.index t 1 * 1 + 1 * (x 1).val = (x 1).val; rw [e1]; omega

/-- What point `t` writes back is point `t`'s block of `RG4_6` of the six arrays the region finds. -/
theorem Rflushed4_6_eq (c : Dev nD) (t : Fin cfg4.N) :
    (dat4 V c).flushed 6 t = ((cfg4.win 6).blk t).view.read (Elt Ideal)
      (RG4_6 (V c main_v31_0) (V c main_v46_0) (V c main_v42) (V c main_v45) (V c main_v57) (V c main_v60)) := by
  show (cfg4.win 6).cut (grid4.coords t) ((dat4 V c).after 6 t) = _
  rw [after4_6]
  unfold out4_6
  simp only [View.ld_unit_zero (S := S1x256x4096) hz3, View.ld_unit_zero (S := S256x1) hz2, View.ld_unit_zero (S := S1x256x1024) hz3]
  obtain ⟨-, -, -, -, -, -, -, -, -, -, -, -, -, -, e0, e1, e2⟩ := idx4 t
  funext j
  have hj0 : (j 0).val < 1 := (j 0).isLt
  have hj1 : (j 1).val < 256 := (j 1).isLt
  have hj2 : (j 2).val < 4096 := (j 2).isLt
  have ht : t.val < 64 := Nat.lt_of_lt_of_eq t.isLt (N_4 : cfg4.N = 64)
  have hx : (cfg4.win 6).xinj (grid4.coords t) j = ix3 (⟨(j 0).val, hj0⟩ : Fin 1) (⟨(j 1).val, hj1⟩ : Fin 256) (⟨(j 2).val, hj2⟩ : Fin 4096) :=
    funext fun a => by match a with | ⟨0, _⟩ => rfl | ⟨1, _⟩ => rfl | ⟨2, _⟩ => rfl
  show View.canon (Val := Elt Ideal) (e := .f32)
      [⟨r4_3, k4_pay3 (iblk4 V c 0 t) (iblk4 V c 2 t) (iblk4 V c 3 t) (iblk4 V c 5 t) (iblk4 V c 1 t) (iblk4 V c 4 t)⟩,
        ⟨r4_0, k4_pay2 (iblk4 V c 0 t) (iblk4 V c 2 t) (iblk4 V c 3 t) (iblk4 V c 5 t)⟩] ((cfg4.win 6).xinj (grid4.coords t) j)
    = RG4_6 (V c main_v31_0) (V c main_v46_0) (V c main_v42) (V c main_v45) (V c main_v57) (V c main_v60) (((cfg4.win 6).blk t).view.emb j)
  rw [hx]
  refine (canon4_apply (k4_pay3 (iblk4 V c 0 t) (iblk4 V c 2 t) (iblk4 V c 3 t) (iblk4 V c 5 t) (iblk4 V c 1 t) (iblk4 V c 4 t))
    (k4_pay2 (iblk4 V c 0 t) (iblk4 V c 2 t) (iblk4 V c 3 t) (iblk4 V c 5 t)) ⟨(j 0).val, hj0⟩ ⟨(j 1).val, hj1⟩ ⟨(j 2).val, hj2⟩).trans ?_
  have h0 : ((((cfg4.win 6).blk t).view.emb j) 0).val = t.val := by
    show win4_6.index t 0 * 1 + 1 * (j 0).val = t.val; rw [e0]; omega
  have h1 : ((((cfg4.win 6).blk t).view.emb j) 1).val = (j 1).val := by
    show win4_6.index t 1 * 256 + 1 * (j 1).val = (j 1).val; rw [e1]; omega
  have h2 : ((((cfg4.win 6).blk t).view.emb j) 2).val = (j 2).val := by
    show win4_6.index t 2 * 4096 + 1 * (j 2).val = (j 2).val; rw [e2]; omega
  by_cases h : (j 2).val < 1024
  · rw [dif_pos (show (⟨(j 2).val, hj2⟩ : Fin 4096).val < 1024 from h)]
    refine (pay4_3_apply (iblk4 V c 0 t) (iblk4 V c 2 t) (iblk4 V c 3 t) (iblk4 V c 5 t) (iblk4 V c 1 t) (iblk4 V c 4 t)
      ⟨(j 0).val, hj0⟩ ⟨(j 1).val, hj1⟩ ⟨(j 2).val, h⟩ ⟨(j 2).val, hj2⟩ rfl).trans ?_
    refine Eq.symm ((RG4_6_lt (V c main_v31_0) (V c main_v46_0) (V c main_v42) (V c main_v45) (V c main_v57) (V c main_v60)
      (((cfg4.win 6).blk t).view.emb j) ⟨t.val, ht⟩ ⟨(j 1).val, hj1⟩ ⟨(j 2).val, h⟩ h0 h1 h2).trans ?_)
    refine congrArg₂ (· + ·) (congrArg₂ (· + ·) (congrArg₂ (· + ·) (congrArg₂ (· * ·) ?_ ?_) ?_) ?_) (congrArg₂ (· * ·) ?_ ?_)
    · exact (iblk4_0_apply V c t (ix3 (0 : Fin 1) (⟨(j 1).val, hj1⟩ : Fin 256) (⟨(j 2).val, hj2⟩ : Fin 4096)) (((cfg4.win 6).blk t).view.emb j) h0 h1 h2).symm
    · exact (iblk4_2_apply V c t _).symm
    · exact (iblk4_3_apply V c t _).symm
    · exact (iblk4_5_apply V c t _).symm
    · exact (iblk4_1_apply V c t (ix3 (0 : Fin 1) (⟨(j 1).val, hj1⟩ : Fin 256) (⟨(j 2).val, h⟩ : Fin 1024))
        (ix3 (⟨t.val, ht⟩ : Fin 64) (⟨(j 1).val, hj1⟩ : Fin 256) (⟨(j 2).val, h⟩ : Fin 1024)) rfl rfl rfl).symm
    · exact (iblk4_4_apply V c t _).symm
  · rw [dif_neg (show ¬ (⟨(j 2).val, hj2⟩ : Fin 4096).val < 1024 from h)]
    refine (pay4_2_apply (iblk4 V c 0 t) (iblk4 V c 2 t) (iblk4 V c 3 t) (iblk4 V c 5 t) ⟨(j 0).val, hj0⟩ ⟨(j 1).val, hj1⟩ ⟨(j 2).val, hj2⟩).trans ?_
    refine Eq.symm ((RG4_6_ge (V c main_v31_0) (V c main_v46_0) (V c main_v42) (V c main_v45) (V c main_v57) (V c main_v60)
      (((cfg4.win 6).blk t).view.emb j) ⟨(j 1).val, hj1⟩ h1 (by rw [h2]; exact h)).trans ?_)
    refine congrArg₂ (· + ·) (congrArg₂ (· + ·) (congrArg₂ (· * ·) ?_ ?_) ?_) ?_
    · exact (iblk4_0_apply V c t (ix3 (0 : Fin 1) (⟨(j 1).val, hj1⟩ : Fin 256) (⟨(j 2).val, hj2⟩ : Fin 4096)) (((cfg4.win 6).blk t).view.emb j) h0 h1 h2).symm
    · exact (iblk4_2_apply V c t _).symm
    · exact (iblk4_3_apply V c t _).symm
    · exact (iblk4_5_apply V c t _).symm

/-- An index of the output array is in point `t`'s block iff each coordinate is in the block's range on its axis. -/
theorem mem_blk4_6 (t : Fin cfg4.N) (i : S64x256x4096.Idx) :
    i ∈ ((cfg4.win 6).blk t).view.set ↔ ∀ a : Fin 3, win4_6.index t a * S1x256x4096.size a ≤ (i a).val
      ∧ (i a).val < win4_6.index t a * S1x256x4096.size a + S1x256x4096.size a := by
  show i ∈ ((View.whole main_v61).slice (win4_6.rect t)).set ↔ _
  rw [View.set_slice_whole, Rect.mem_set_unit]
  exact Iff.rfl

/-- The output array after the region: `RG4_6` of the six arrays the region finds. Index (n, ch, l) lies in the block
    of point n, and every point writes its block back. -/
theorem Rfinal4_6 (c : Dev nD) :
    (dat4 V c).arrAt 6 cfg4.N = RG4_6 (V c main_v31_0) (V c main_v46_0) (V c main_v42) (V c main_v45) (V c main_v57) (V c main_v60) :=
  (dat4 V c).arrAt_eq_of_cover 6 _ (fun t _ => Rflushed4_6_eq V c t) fun i => by
    have hi0 : (i 0).val < 64 := (i 0).isLt
    have hi1 : (i 1).val < 256 := (i 1).isLt
    have hi2 : (i 2).val < 4096 := (i 2).isLt
    have hN : cfg4.N = 64 := N_4
    obtain ⟨t, ht⟩ : ∃ t : Fin cfg4.N, t.val = (i 0).val := ⟨⟨(i 0).val, by rw [hN]; exact hi0⟩, rfl⟩
    obtain ⟨-, -, -, -, -, -, -, -, -, -, -, -, -, -, e0, e1, e2⟩ := idx4 t
    refine ⟨t, flush4_6 t, ?_⟩
    rw [mem_blk4_6]
    intro a
    match a with
    | ⟨0, _⟩ => show win4_6.index t 0 * 1 ≤ (i 0).val ∧ (i 0).val < win4_6.index t 0 * 1 + 1; rw [e0, ht]; omega
    | ⟨1, _⟩ => show win4_6.index t 1 * 256 ≤ (i 1).val ∧ (i 1).val < win4_6.index t 1 * 256 + 256; rw [e1]; omega
    | ⟨2, _⟩ => show win4_6.index t 2 * 4096 ≤ (i 2).val ∧ (i 2).val < win4_6.index t 2 * 4096 + 4096; rw [e2]; omega

end Cert.ReferenceIdeal.Val
-- ==== Proof.RefV5a.lean ====
import proofs.«159567_g2000302752657622_pallasbulk_725_3_alg».proof.Proof.Gen.ReferenceIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Val

open Cert.ReferenceIdeal Cert.ReferenceIdeal.Gen
open Idealize.ShloMosaic Idealize.ShloMosaic.ValueIdx
open scoped BigOperators

/-! ## Region 5: the 1×1 convolution y = W·x of one lane tile of one image, and its per-channel sum and sum of squares -/

/-- The dimension numbers of the product: [64,256] · [256,2048], one contracted axis of extent 256. -/
abbrev dotR5 : DotDims S64x256 S256x2048 S64x2048 := dot_S64x256_S256x2048_S64x2048_1_0_0_1_n_n

/-- The left operand's row is the output's row. -/
theorem dotR5_lhs_0 (i : S64x2048.Idx) (q : dotR5.contr.Idx) : (dotR5.lhsIdx i q 0).val = (i 0).val := by
  unfold DotDims.lhsIdx
  rw [dif_neg (show ¬(0 : Fin S64x256.rank) ∈ dotR5.lhsBatch by decide),
    dif_pos (show (0 : Fin S64x256.rank) ∈ dotR5.lhsNonContracting by decide)]
  rfl

/-- The left operand's column is the contracted coordinate. -/
theorem dotR5_lhs_1 (i : S64x2048.Idx) (q : dotR5.contr.Idx) : (dotR5.lhsIdx i q 1).val = (q ⟨0, by decide⟩).val :=
  dotR5.lhsIdx_val_of_single rfl i q

/-- The right operand's row is the contracted coordinate. -/
theorem dotR5_rhs_0 (i : S64x2048.Idx) (q : dotR5.contr.Idx) : (dotR5.rhsIdx i q 0).val = (q ⟨0, by decide⟩).val :=
  dotR5.rhsIdx_val_of_single rfl i q

/-- The right operand's column is the output's column. -/
theorem dotR5_rhs_1 (i : S64x2048.Idx) (q : dotR5.contr.Idx) : (dotR5.rhsIdx i q 1).val = (i 1).val := by
  unfold DotDims.rhsIdx
  rw [dif_neg (show ¬(1 : Fin S256x2048.rank) ∈ dotR5.rhsBatch by decide),
    dif_pos (show (1 : Fin S256x2048.rank) ∈ dotR5.rhsNonContracting by decide)]
  rfl

/-- The product into the zero accumulator, at row r and column s: the sum over the 256 contracted coordinates. -/
theorem matmulR5_apply (A : FVec Ideal S64x256 .f32) (B : FVec Ideal S256x2048 .f32) (r : Fin 64) (s : Fin 2048) :
    matmul dotR5 none A B (constant (F := Ideal) S64x2048 .f32 0x00000000#32) (ix2 r s)
      = ∑ k : Fin 256, A (ix2 r k) * B (ix2 k s) := by
  show FloatOps.matmul dotR5 none A B (constant (F := Ideal) S64x2048 .f32 0x00000000#32) (ix2 r s) = _
  rw [Ideal.matmul_constant_zero_apply, ← Equiv.sum_comp (contrEquiv1 dotR5 256 rfl rfl).symm]
  refine Finset.sum_congr rfl fun k _ => ?_
  have hk := contrEquiv1_symm_val dotR5 256 rfl rfl k
  have el : dotR5.lhsIdx (ix2 r s) ((contrEquiv1 dotR5 256 rfl rfl).symm k) = ix2 r k := funext fun a => Fin.ext (by
    match a with
    | ⟨0, _⟩ => exact dotR5_lhs_0 _ _
    | ⟨1, _⟩ => exact (dotR5_lhs_1 _ _).trans hk)
  have er : dotR5.rhsIdx (ix2 r s) ((contrEquiv1 dotR5 256 rfl rfl).symm k) = ix2 k s := funext fun a => Fin.ext (by
    match a with
    | ⟨0, _⟩ => exact (dotR5_rhs_0 _ _).trans hk
    | ⟨1, _⟩ => exact dotR5_rhs_1 _ _)
  rw [el, er]

/-- The sum along the 2048 lanes of a [64,2048] block, at row r. -/
theorem laneSumR5_apply (X : FVec Ideal S64x2048 .f32) (r : Fin 64) :
    multiReduction (F := Ideal) .add [1] S64 X 0x00000000#32 reduces_S64x2048_S64 (.inl rfl) rfl (ix1 r)
      = ∑ s : Fin 2048, X (ix2 r s) := by
  refine (Ideal.multiReduction_add_single X 0x00000000#32 reduces_S64x2048_S64 (.inl rfl) rfl (ix1 r)).trans ?_
  refine Finset.sum_congr rfl fun s _ => congrArg X ?_
  funext a; apply Fin.ext
  match a with
  | ⟨0, _⟩ => rfl
  | ⟨1, _⟩ => rfl

/-- A [64] vector viewed as a [64,1] column reads its row. -/
theorem columnR5_apply (Y : FVec Ideal S64 .f32) (r : Fin 64) (z : Fin 1) :
    shapeCast S64x1 Y shapeCasts_S64_S64x1 (ix2 r z) = Y (ix1 r) := by
  refine shapeCast_apply Y _ (ix2 r z) (ix1 r) ?_
  have hz : z.val = 0 := by omega
  rw [Shape.rowMajor_val_one, Shape.rowMajor_val_two]
  show r.val = r.val * 1 + z.val
  rw [hz]; omega

/-- The zero column the first point stores into the accumulator of the sums. -/
theorem payR5_1_apply (i : S64x1.Idx) : Gen.k5_pay1 (F := Ideal) i = 0 := by
  unfold Gen.k5_pay1
  exact Ideal.ofBits_zero_f32

/-- The zero column the first point stores into the accumulator of the sums of squares. -/
theorem payR5_2_apply (i : S64x1.Idx) : Gen.k5_pay2 (F := Ideal) i = 0 := by
  unfold Gen.k5_pay2
  exact Ideal.ofBits_zero_f32

/-- The product at channel r, lane s: y(r, s) = ∑ₖ W(r, k) · x(0, k, s). -/
theorem payR5_3_apply (v5 : Vec Ideal S64x256 .f32) (v6 : Vec Ideal S1x256x2048 .f32) (r : Fin 64) (s : Fin 2048) :
    Gen.k5_pay3 v5 v6 (ix2 r s) = ∑ k : Fin 256, v5 (ix2 r k) * v6 (ix3 (0 : Fin 1) k s) := by
  unfold Gen.k5_pay3
  refine (matmulR5_apply _ _ r s).trans ?_
  refine Finset.sum_congr rfl fun k _ => ?_
  exact congrArg (v5 (ix2 r k) * ·) (shapeCast_1ab_ab_apply v6 _ k s)

/-- The stored block of y: the product with a leading unit axis. -/
theorem payR5_4_apply (v5 : Vec Ideal S64x256 .f32) (v6 : Vec Ideal S1x256x2048 .f32) (u : Fin 1) (p : Fin 64) (q : Fin 2048) :
    Gen.k5_pay4 v5 v6 (ix3 u p q) = ∑ k : Fin 256, v5 (ix2 p k) * v6 (ix3 (0 : Fin 1) k q) := by
  unfold Gen.k5_pay4
  exact (shapeCast_ab_1ab_apply _ _ u p q).trans (payR5_3_apply v5 v6 p q)

/-- The accumulator of the sums after a point: what it held plus the lane sum of y. -/
theorem payR5_5_apply (v5 : Vec Ideal S64x256 .f32) (v6 : Vec Ideal S1x256x2048 .f32) (v12 : Vec Ideal S64x1 .f32) (r : Fin 64) (z : Fin 1) :
    Gen.k5_pay5 v5 v6 v12 (ix2 r z)
      = v12 (ix2 r z) + ∑ s : Fin 2048, ∑ k : Fin 256, v5 (ix2 r k) * v6 (ix3 (0 : Fin 1) k s) := by
  unfold Gen.k5_pay5
  refine (addf_apply _ _ _).trans ?_
  refine congrArg₂ (· + ·) (congrFun (shapeCast_self v12 _) _) ?_
  refine (columnR5_apply _ r z).trans ?_
  refine (laneSumR5_apply _ r).trans ?_
  exact Finset.sum_congr rfl fun s _ => payR5_3_apply v5 v6 r s

/-- The accumulator of the sums of squares after a point: what it held plus the lane sum of y·y. -/
theorem payR5_6_apply (v5 : Vec Ideal S64x256 .f32) (v6 : Vec Ideal S1x256x2048 .f32) (v18 : Vec Ideal S64x1 .f32) (r : Fin 64) (z : Fin 1) :
    Gen.k5_pay6 v5 v6 v18 (ix2 r z)
      = v18 (ix2 r z) + ∑ s : Fin 2048, (∑ k : Fin 256, v5 (ix2 r k) * v6 (ix3 (0 : Fin 1) k s)) * (∑ k : Fin 256, v5 (ix2 r k) * v6 (ix3 (0 : Fin 1) k s)) := by
  unfold Gen.k5_pay6
  refine (addf_apply _ _ _).trans ?_
  refine congrArg₂ (· + ·) (congrFun (shapeCast_self v18 _) _) ?_
  refine (columnR5_apply _ r z).trans ?_
  refine (laneSumR5_apply _ r).trans ?_
  refine Finset.sum_congr rfl fun s _ => ?_
  refine Eq.trans (mulf_apply _ _ _) ?_
  rw [payR5_3_apply v5 v6 r s]

end Cert.ReferenceIdeal.Val

end
-- ==== Proof.RefV5.lean ====
import proofs.«159567_g2000302752657622_pallasbulk_725_3_alg».proof.Proof.RefR5
import proofs.«159567_g2000302752657622_pallasbulk_725_3_alg».proof.Proof.RefV5a
import proofs.«159567_g2000302752657622_pallasbulk_725_3_alg».proof.Proof.LibGram
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! # The values of region 5:  y = W·x, and the per-channel sums of y and of y² over all images and lanes

The three output arrays, each as one function of the two arrays the region reads (x, window 0; W, window 1), index by
index. -/

/-- y at image n, channel ch, lane l:  ∑ₖ W[ch, k] · x[n, k, l]. -/
def RG5_2 (x : S64x256x4096.Idx → EReal) (W : S64x256.Idx → EReal) : S64x64x4096.Idx → EReal :=
  fun i => ∑ k : Fin 256, W (ix2 (i 1) k) * x (ix3 (i 0) k (i 2))

/-- The per-channel sum of y over all images and lanes, a [64,1] column. -/
def RG5_3 (x : S64x256x4096.Idx → EReal) (W : S64x256.Idx → EReal) : S64x1.Idx → EReal :=
  fun i => ∑ n : Fin 64, ∑ l : Fin 4096, RG5_2 x W (ix3 n (i 0) l)

/-- The per-channel sum of y² over all images and lanes, a [64,1] column. -/
def RG5_4 (x : S64x256x4096.Idx → EReal) (W : S64x256.Idx → EReal) : S64x1.Idx → EReal :=
  fun i => ∑ n : Fin 64, ∑ l : Fin 4096, RG5_2 x W (ix3 n (i 0) l) * RG5_2 x W (ix3 n (i 0) l)

theorem RG5_2_at (x : S64x256x4096.Idx → EReal) (W : S64x256.Idx → EReal) (n : Fin 64) (p : Fin 64) (l : Fin 4096) :
    RG5_2 x W (ix3 n p l) = ∑ k : Fin 256, W (ix2 p k) * x (ix3 n k l) := rfl

theorem RG5_3_at (x : S64x256x4096.Idx → EReal) (W : S64x256.Idx → EReal) (p : Fin 64) (z : Fin 1) :
    RG5_3 x W (ix2 p z) = ∑ n : Fin 64, ∑ l : Fin 4096, RG5_2 x W (ix3 n p l) := rfl

theorem RG5_4_at (x : S64x256x4096.Idx → EReal) (W : S64x256.Idx → EReal) (p : Fin 64) (z : Fin 1) :
    RG5_4 x W (ix2 p z) = ∑ n : Fin 64, ∑ l : Fin 4096, RG5_2 x W (ix3 n p l) * RG5_2 x W (ix3 n p l) := rfl

/-- Reals in, reals out: a finite sum of products of reals. -/
theorem RG5_2_real (x : S64x256x4096.Idx → EReal) (W : S64x256.Idx → EReal)
    (hx : ∀ i, ∃ r : ℝ, x i = r) (hW : ∀ i, ∃ r : ℝ, W i = r) : ∀ i, ∃ r : ℝ, RG5_2 x W i = r :=
  fun i => Cert.Lib.Gram.exists_real_sum _ _ fun k => Cert.Lib.Gram.exists_real_mul (hW _) (hx _)

theorem RG5_3_real (x : S64x256x4096.Idx → EReal) (W : S64x256.Idx → EReal)
    (hx : ∀ i, ∃ r : ℝ, x i = r) (hW : ∀ i, ∃ r : ℝ, W i = r) : ∀ i, ∃ r : ℝ, RG5_3 x W i = r :=
  fun i => Cert.Lib.Gram.exists_real_sum _ _ fun n => Cert.Lib.Gram.exists_real_sum _ _ fun l => RG5_2_real x W hx hW _

theorem RG5_4_real (x : S64x256x4096.Idx → EReal) (W : S64x256.Idx → EReal)
    (hx : ∀ i, ∃ r : ℝ, x i = r) (hW : ∀ i, ∃ r : ℝ, W i = r) : ∀ i, ∃ r : ℝ, RG5_4 x W i = r :=
  fun i => Cert.Lib.Gram.exists_real_sum _ _ fun n => Cert.Lib.Gram.exists_real_sum _ _ fun l =>
    Cert.Lib.Gram.exists_real_mul (RG5_2_real x W hx hW _) (RG5_2_real x W hx hW _)

/-! ## Which buffer each window stages -/

theorem arrRef5_0 : Pipeline.arrRef spec5 0 = main_v64 := rfl
theorem arrRef5_1 : Pipeline.arrRef spec5 1 = main_arg14 := rfl
theorem arrRef5_2 : Pipeline.arrRef spec5 2 = main_v65_0 := rfl
theorem arrRef5_3 : Pipeline.arrRef spec5 3 = main_v65_1 := rfl
theorem arrRef5_4 : Pipeline.arrRef spec5 4 = main_v65_2 := rfl

/-! ## The index maps -/

/-- The index maps over the grid's 128 points: point t = 2 n + b is image n, lane tile b; W and the two columns are one block. -/
theorem idx5 : ∀ t : Fin cfg5.N,
    win5_0.index t (0 : Fin 3) = t.val / 2 ∧ win5_0.index t (1 : Fin 3) = 0 ∧ win5_0.index t (2 : Fin 3) = t.val % 2
    ∧ win5_1.index t (0 : Fin 2) = 0 ∧ win5_1.index t (1 : Fin 2) = 0
    ∧ win5_2.index t (0 : Fin 3) = t.val / 2 ∧ win5_2.index t (1 : Fin 3) = 0 ∧ win5_2.index t (2 : Fin 3) = t.val % 2
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Regrouping the grid's points: a sum over the 128 points of the sums over a point's 2048 lanes is the sum over the
    64 images of the sums over an image's 4096 lanes. -/
theorem sum_tilesR5 (f : Fin 64 → Fin 4096 → EReal) (g : Fin 128 → EReal)
    (hg : ∀ m : Fin 128, g m = ∑ s : Fin 2048, f (⟨m.val / 2, by have := m.isLt; omega⟩ : Fin 64) (⟨m.val % 2 * 2048 + s.val, by have := s.isLt; have := m.isLt; omega⟩ : Fin 4096)) :
    ∑ m : Fin 128, g m = ∑ n : Fin 64, ∑ l : Fin 4096, f n l := by
  have e1 : ∀ n : Fin 64, ∑ l : Fin 4096, f n l = ∑ b : Fin 2, ∑ s : Fin 2048, f n (⟨b.val * 2048 + s.val, by have := s.isLt; have := b.isLt; omega⟩ : Fin 4096) := fun n => by
    rw [← Fintype.sum_prod_type' (f := fun (b : Fin 2) (s : Fin 2048) => f n (⟨b.val * 2048 + s.val, by have := s.isLt; have := b.isLt; omega⟩ : Fin 4096))]
    refine (Equiv.sum_comp (finProdFinEquiv (m := 2) (n := 2048)) (fun l => f n l)).symm.trans ?_
    refine Finset.sum_congr rfl fun bs _ => congrArg (f n) (Fin.ext ?_)
    show bs.2.val + 2048 * bs.1.val = bs.1.val * 2048 + bs.2.val
    omega
  simp only [e1]
  rw [← Fintype.sum_prod_type' (f := fun (n : Fin 64) (b : Fin 2) => ∑ s : Fin 2048, f n (⟨b.val * 2048 + s.val, by have := s.isLt; have := b.isLt; omega⟩ : Fin 4096))]
  refine (Equiv.sum_comp (finProdFinEquiv (m := 64) (n := 2)) g).symm.trans ?_
  refine Finset.sum_congr rfl fun nb _ => ?_
  rw [hg]
  have hv : (finProdFinEquiv (m := 64) (n := 2) nb).val = nb.2.val + 2 * nb.1.val := rfl
  have h2 := nb.2.isLt
  have hd : (nb.2.val + 2 * nb.1.val) / 2 = nb.1.val := by omega
  have hm : (nb.2.val + 2 * nb.1.val) % 2 = nb.2.val := by omega
  refine Finset.sum_congr rfl fun s _ => congrArg₂ f (Fin.ext ?_) (Fin.ext ?_)
  · show (finProdFinEquiv (m := 64) (n := 2) nb).val / 2 = nb.1.val
    rw [hv, hd]
  · show (finProdFinEquiv (m := 64) (n := 2) nb).val % 2 * 2048 + s.val = nb.2.val * 2048 + s.val
    rw [hv, hm]

variable (V : (c : Dev nD) → (b : Ref sig .tc) → Buf (Elt Ideal) ((c : Thread nD τ).loc b))

/-! ## The blocks the body reads -/

/-- Window 0's block at point t is image t / 2, lanes [2048 (t % 2), 2048 (t % 2) + 2048) of x's array. -/
theorem iblk5_0_apply (c : Dev nD) (t : Fin cfg5.N) (y : S1x256x2048.Idx) (k : S64x256x4096.Idx)
    (hk0 : (k 0).val = t.val / 2) (hk1 : (k 1).val = (y 1).val) (hk2 : (k 2).val = t.val % 2 * 2048 + (y 2).val) :
    (iblk5 V c 0 t : Vec Ideal S1x256x2048 .f32) y = (V c main_v64 : S64x256x4096.Idx → EReal) k := by
  obtain ⟨e0, e1, e2, -⟩ := idx5 t
  have hy0 : (y 0).val < 1 := (y 0).isLt
  unfold iblk5
  rw [View.read_apply]
  show V c main_v64 _ = V c main_v64 _
  congr 1
  funext a
  apply Fin.ext
  match a with
  | ⟨0, _⟩ => show win5_0.index t 0 * 1 + 1 * (y 0).val = (k 0).val; rw [e0, hk0]; omega
  | ⟨1, _⟩ => show win5_0.index t 1 * 256 + 1 * (y 1).val = (k 1).val; rw [e1, hk1]; omega
  | ⟨2, _⟩ => show win5_0.index t 2 * 2048 + 1 * (y 2).val = (k 2).val; rw [e2, hk2]; omega

/-- Window 1's block is the whole of W at every point. -/
theorem iblk5_1_apply (c : Dev nD) (t : Fin cfg5.N) (y : S64x256.Idx) :
    (iblk5 V c 1 t : Vec Ideal S64x256 .f32) y = (V c main_arg14 : S64x256.Idx → EReal) y := by
  obtain ⟨-, -, -, e0, e1, -⟩ := idx5 t
  unfold iblk5
  rw [View.read_apply]
  show V c main_arg14 _ = V c main_arg14 _
  congr 1
  funext a
  apply Fin.ext
  match a with
  | ⟨0, _⟩ => show win5_1.index t 0 * 64 + 1 * (y 0).val = (y 0).val; rw [e0]; omega
  | ⟨1, _⟩ => show win5_1.index t 1 * 256 + 1 * (y 1).val = (y 1).val; rw [e1]; omega

/-- The product of point t's blocks at channel p, lane s of the block is y at the image and lane the point covers. -/
theorem yblk5 (c : Dev nD) (t : Fin cfg5.N) (b1 : Vec Ideal S64x256 .f32) (b0 : Vec Ideal S1x256x2048 .f32)
    (h1 : b1 = iblk5 V c 1 t) (h0 : b0 = iblk5 V c 0 t) (n : Fin 64) (l : Fin 4096) (p : Fin 64) (s : Fin 2048)
    (hn : n.val = t.val / 2) (hl : l.val = t.val % 2 * 2048 + s.val) :
    ∑ k : Fin 256, b1 (ix2 p k) * b0 (ix3 (0 : Fin 1) k s) = RG5_2 (V c main_v64) (V c main_arg14) (ix3 n p l) := by
  subst h1 h0
  refine Eq.trans ?_ (RG5_2_at _ _ n p l).symm
  refine Finset.sum_congr rfl fun k _ => ?_
  exact congrArg₂ (· * ·) (iblk5_1_apply V c t (ix2 p k)) (iblk5_0_apply V c t (ix3 (0 : Fin 1) k s) (ix3 n k l) hn rfl hl)

/-! ## y: from the blocks to the array -/

/-- What point t writes back is point t's block of y. -/
theorem Rflushed5_2_eq (c : Dev nD) (t : Fin cfg5.N) :
    (dat5 V c).flushed 2 t = ((cfg5.win 2).blk t).view.read (Elt Ideal) (RG5_2 (V c main_v64) (V c main_arg14)) := by
  show (cfg5.win 2).cut (grid5.coords t) ((dat5 V c).after 2 t) = _
  rw [after5_2]
  obtain ⟨-, -, -, -, -, e0, e1, e2, -⟩ := idx5 t
  have hN : cfg5.N = 128 := N_5
  have ht : t.val < 128 := lt_of_lt_of_eq t.isLt hN
  funext j
  have hj0 : (j 0).val < 1 := (j 0).isLt
  have hj1 : (j 1).val < 64 := (j 1).isLt
  have hj2 : (j 2).val < 2048 := (j 2).isLt
  have hx : (cfg5.win 2).xinj (grid5.coords t) j = ix3 (⟨(j 0).val, hj0⟩ : Fin 1) (⟨(j 1).val, hj1⟩ : Fin 64) (⟨(j 2).val, hj2⟩ : Fin 2048) :=
    funext fun a => by match a with | ⟨0, _⟩ => rfl | ⟨1, _⟩ => rfl | ⟨2, _⟩ => rfl
  show k5_pay4 (iblk5 V c 1 t) (iblk5 V c 0 t) ((cfg5.win 2).xinj (grid5.coords t) j)
    = RG5_2 (V c main_v64) (V c main_arg14) (((cfg5.win 2).blk t).view.emb j)
  rw [hx]
  refine (payR5_4_apply (iblk5 V c 1 t) (iblk5 V c 0 t) ⟨(j 0).val, hj0⟩ ⟨(j 1).val, hj1⟩ ⟨(j 2).val, hj2⟩).trans ?_
  have h0 : ((((cfg5.win 2).blk t).view.emb j) 0).val = t.val / 2 := by
    show win5_2.index t 0 * 1 + 1 * (j 0).val = t.val / 2; rw [e0]; omega
  have h1 : ((((cfg5.win 2).blk t).view.emb j) 1).val = (j 1).val := by
    show win5_2.index t 1 * 64 + 1 * (j 1).val = (j 1).val; rw [e1]; omega
  have h2 : ((((cfg5.win 2).blk t).view.emb j) 2).val = t.val % 2 * 2048 + (j 2).val := by
    show win5_2.index t 2 * 2048 + 1 * (j 2).val = t.val % 2 * 2048 + (j 2).val; rw [e2]; omega
  refine (yblk5 V c t _ _ rfl rfl (⟨t.val / 2, by omega⟩ : Fin 64) (⟨t.val % 2 * 2048 + (j 2).val, by omega⟩ : Fin 4096) ⟨(j 1).val, hj1⟩ ⟨(j 2).val, hj2⟩ rfl rfl).trans ?_
  refine congrArg (RG5_2 (V c main_v64) (V c main_arg14)) ?_
  funext a; apply Fin.ext
  match a with
  | ⟨0, _⟩ => exact h0.symm
  | ⟨1, _⟩ => exact h1.symm
  | ⟨2, _⟩ => exact h2.symm

/-- An index of y's array is in point t's block iff each coordinate is in the block's range on its axis. -/
theorem mem_blk5_2 (t : Fin cfg5.N) (i : S64x64x4096.Idx) :
    i ∈ ((cfg5.win 2).blk t).view.set ↔ ∀ a : Fin 3, win5_2.index t a * S1x64x2048.size a ≤ (i a).val
      ∧ (i a).val < win5_2.index t a * S1x64x2048.size a + S1x64x2048.size a := by
  show i ∈ ((View.whole main_v65_0).slice (win5_2.rect t)).set ↔ _
  rw [View.set_slice_whole, Rect.mem_set_unit]
  exact Iff.rfl

/-- y's array after the region. Index (n, ch, l) lies in the block of point 2 n + l / 2048, and every point writes its block back. -/
theorem Rfinal5_2 (c : Dev nD) : (dat5 V c).arrAt 2 cfg5.N = RG5_2 (V c main_v64) (V c main_arg14) :=
  (dat5 V c).arrAt_eq_of_cover 2 _ (fun t _ => Rflushed5_2_eq V c t) fun i => by
    have hi0 : (i 0).val < 64 := (i 0).isLt
    have hi1 : (i 1).val < 64 := (i 1).isLt
    have hi2 : (i 2).val < 4096 := (i 2).isLt
    have hN : cfg5.N = 128 := N_5
    obtain ⟨t, ht⟩ : ∃ t : Fin cfg5.N, t.val = 2 * (i 0).val + (i 2).val / 2048 := ⟨⟨2 * (i 0).val + (i 2).val / 2048, by rw [hN]; omega⟩, rfl⟩
    obtain ⟨-, -, -, -, -, e0, e1, e2, -⟩ := idx5 t
    refine ⟨t, flush5_2 t, ?_⟩
    rw [mem_blk5_2]
    intro a
    match a with
    | ⟨0, _⟩ => show win5_2.index t 0 * 1 ≤ (i 0).val ∧ (i 0).val < win5_2.index t 0 * 1 + 1; rw [e0, ht]; omega
    | ⟨1, _⟩ => show win5_2.index t 1 * 64 ≤ (i 1).val ∧ (i 1).val < win5_2.index t 1 * 64 + 64; rw [e1]; omega
    | ⟨2, _⟩ => show win5_2.index t 2 * 2048 ≤ (i 2).val ∧ (i 2).val < win5_2.index t 2 * 2048 + 2048; rw [e2, ht]; omega

/-! ## The two accumulated columns: induction on the grid point -/

/-- The contribution of grid point m to channel p of the sums: the sum over the point's lanes. -/
def ptR5_3 (x : S64x256x4096.Idx → EReal) (W : S64x256.Idx → EReal) (m : ℕ) (p : Fin 64) : EReal :=
  if h : m < 128 then ∑ s : Fin 2048, RG5_2 x W (ix3 (⟨m / 2, by omega⟩ : Fin 64) p (⟨m % 2 * 2048 + s.val, by have := s.isLt; omega⟩ : Fin 4096)) else 0

/-- What point t adds to the accumulator, from the blocks it reads, is that contribution. -/
theorem pointR5_3 (c : Dev nD) (t : Fin cfg5.N) (b1 : Vec Ideal S64x256 .f32) (b0 : Vec Ideal S1x256x2048 .f32)
    (h1 : b1 = iblk5 V c 1 t) (h0 : b0 = iblk5 V c 0 t) (p : Fin 64) :
    ∑ s : Fin 2048, (∑ k : Fin 256, b1 (ix2 p k) * b0 (ix3 (0 : Fin 1) k s))
      = ptR5_3 (V c main_v64) (V c main_arg14) t.val p := by
  have ht : t.val < 128 := lt_of_lt_of_eq t.isLt N_5
  unfold ptR5_3
  rw [dif_pos ht]
  exact Finset.sum_congr rfl fun s _ => yblk5 V c t b1 b0 h1 h0 _ _ p s rfl rfl

/-- After point n the accumulator holds the contributions of points 0…n: the first point starts from the zero column,
    every later one from what the point before left. -/
theorem outsAt5_3_sum (c : Dev nD) (p : Fin 64) (z : Fin 1) (n : ℕ) (hn : n < cfg5.N) :
    (outsAt5_3 V c n hn : Vec Ideal S64x1 .f32) (ix2 p z) = ∑ m ∈ Finset.range (n + 1), ptR5_3 (V c main_v64) (V c main_arg14) m p := by
  induction n with
  | zero =>
    refine (congrFun (outsAt5_3_A V c ⟨0, hn⟩ rfl) (ix2 p z)).trans ?_
    refine (payR5_5_apply (iblk5 V c 1 ⟨0, hn⟩) (iblk5 V c 0 ⟨0, hn⟩) (k5_pay1 (F := Ideal)) p z).trans ?_
    rw [Finset.sum_range_one, payR5_1_apply, zero_add]
    exact pointR5_3 V c ⟨0, hn⟩ _ _ rfl rfl p
  | succ n ih =>
    refine (congrFun (outsAt5_3_B V c ⟨n + 1, hn⟩ (Nat.succ_ne_zero n)) (ix2 p z)).trans ?_
    refine (payR5_5_apply (iblk5 V c 1 ⟨n + 1, hn⟩) (iblk5 V c 0 ⟨n + 1, hn⟩) _ p z).trans ?_
    rw [Finset.sum_range_succ]
    exact congrArg₂ (· + ·) (ih (Nat.lt_of_succ_lt hn)) (pointR5_3 V c ⟨n + 1, hn⟩ _ _ rfl rfl p)

/-- The contribution of grid point m to channel p of the sums of squares: the sum over the point's lanes. -/
def ptR5_4 (x : S64x256x4096.Idx → EReal) (W : S64x256.Idx → EReal) (m : ℕ) (p : Fin 64) : EReal :=
  if h : m < 128 then ∑ s : Fin 2048, RG5_2 x W (ix3 (⟨m / 2, by omega⟩ : Fin 64) p (⟨m % 2 * 2048 + s.val, by have := s.isLt; omega⟩ : Fin 4096)) * RG5_2 x W (ix3 (⟨m / 2, by omega⟩ : Fin 64) p (⟨m % 2 * 2048 + s.val, by have := s.isLt; omega⟩ : Fin 4096)) else 0

/-- What point t adds to the accumulator, from the blocks it reads, is that contribution. -/
theorem pointR5_4 (c : Dev nD) (t : Fin cfg5.N) (b1 : Vec Ideal S64x256 .f32) (b0 : Vec Ideal S1x256x2048 .f32)
    (h1 : b1 = iblk5 V c 1 t) (h0 : b0 = iblk5 V c 0 t) (p : Fin 64) :
    ∑ s : Fin 2048, (∑ k : Fin 256, b1 (ix2 p k) * b0 (ix3 (0 : Fin 1) k s)) * (∑ k : Fin 256, b1 (ix2 p k) * b0 (ix3 (0 : Fin 1) k s))
      = ptR5_4 (V c main_v64) (V c main_arg14) t.val p := by
  have ht : t.val < 128 := lt_of_lt_of_eq t.isLt N_5
  unfold ptR5_4
  rw [dif_pos ht]
  exact Finset.sum_congr rfl fun s _ => congrArg₂ (· * ·) (yblk5 V c t b1 b0 h1 h0 _ _ p s rfl rfl) (yblk5 V c t b1 b0 h1 h0 _ _ p s rfl rfl)

/-- After point n the accumulator holds the contributions of points 0…n: the first point starts from the zero column,
    every later one from what the point before left. -/
theorem outsAt5_4_sum (c : Dev nD) (p : Fin 64) (z : Fin 1) (n : ℕ) (hn : n < cfg5.N) :
    (outsAt5_4 V c n hn : Vec Ideal S64x1 .f32) (ix2 p z) = ∑ m ∈ Finset.range (n + 1), ptR5_4 (V c main_v64) (V c main_arg14) m p := by
  induction n with
  | zero =>
    refine (congrFun (outsAt5_4_A V c ⟨0, hn⟩ rfl) (ix2 p z)).trans ?_
    refine (payR5_6_apply (iblk5 V c 1 ⟨0, hn⟩) (iblk5 V c 0 ⟨0, hn⟩) (k5_pay2 (F := Ideal)) p z).trans ?_
    rw [Finset.sum_range_one, payR5_2_apply, zero_add]
    exact pointR5_4 V c ⟨0, hn⟩ _ _ rfl rfl p
  | succ n ih =>
    refine (congrFun (outsAt5_4_B V c ⟨n + 1, hn⟩ (Nat.succ_ne_zero n)) (ix2 p z)).trans ?_
    refine (payR5_6_apply (iblk5 V c 1 ⟨n + 1, hn⟩) (iblk5 V c 0 ⟨n + 1, hn⟩) _ p z).trans ?_
    rw [Finset.sum_range_succ]
    exact congrArg₂ (· + ·) (ih (Nat.lt_of_succ_lt hn)) (pointR5_4 V c ⟨n + 1, hn⟩ _ _ rfl rfl p)

/-! ## The two accumulated columns: the last point's write-back is the whole array -/

/-- The contributions of all the points are the sum over the images and the lanes: point 2·n + b carries lanes
    [2048·b, 2048·(b+1)) of image n. -/
theorem sum_pointsR5_3 (x : S64x256x4096.Idx → EReal) (W : S64x256.Idx → EReal) (p : Fin 64) :
    ∑ m ∈ Finset.range 128, ptR5_3 x W m p = ∑ n : Fin 64, ∑ l : Fin 4096, RG5_2 x W (ix3 n p l) := by
  rw [Finset.sum_range]
  exact sum_tilesR5 (fun n l => RG5_2 x W (ix3 n p l)) (fun m => ptR5_3 x W m.val p) fun m => by
    unfold ptR5_3
    rw [dif_pos m.isLt]

/-- The contributions of all the points are the sum over the images and the lanes: point 2·n + b carries lanes
    [2048·b, 2048·(b+1)) of image n. -/
theorem sum_pointsR5_4 (x : S64x256x4096.Idx → EReal) (W : S64x256.Idx → EReal) (p : Fin 64) :
    ∑ m ∈ Finset.range 128, ptR5_4 x W m p = ∑ n : Fin 64, ∑ l : Fin 4096, RG5_2 x W (ix3 n p l) * RG5_2 x W (ix3 n p l) := by
  rw [Finset.sum_range]
  exact sum_tilesR5 (fun n l => RG5_2 x W (ix3 n p l) * RG5_2 x W (ix3 n p l)) (fun m => ptR5_4 x W m.val p) fun m => by
    unfold ptR5_4
    rw [dif_pos m.isLt]

/-- An index of the array of the sums is in point t's block iff each coordinate is in the block's range on its axis. -/
theorem mem_blk5_3 (t : Fin cfg5.N) (i : S64x1.Idx) :
    i ∈ ((cfg5.win 3).blk t).view.set ↔ ∀ a : Fin 2, win5_3.index t a * S64x1.size a ≤ (i a).val
      ∧ (i a).val < win5_3.index t a * S64x1.size a + S64x1.size a := by
  show i ∈ ((View.whole main_v65_1).slice (win5_3.rect t)).set ↔ _
  rw [View.set_slice_whole, Rect.mem_set_unit]
  exact Iff.rfl

/-- The one write-back of the sums, after the last point, writes the sum over all images and lanes. -/
theorem Rflushed5_3_eq (c : Dev nD) (t : Fin cfg5.N) (hf : (cfg5.win 3).flush t = true) :
    (dat5 V c).flushed 3 t = ((cfg5.win 3).blk t).view.read (Elt Ideal) (RG5_3 (V c main_v64) (V c main_arg14)) := by
  have hN : cfg5.N = 128 := N_5
  have hl : t.val = 127 := by have := (flush5_3 t).mp hf; have := t.isLt; omega
  show (cfg5.win 3).cut (grid5.coords t) ((dat5 V c).after 3 t) = _
  rw [after5_3]
  obtain ⟨-, -, -, -, -, -, -, -, e0, e1, -⟩ := idx5 t
  funext j
  have hj0 : (j 0).val < 64 := (j 0).isLt
  have hj1 : (j 1).val < 1 := (j 1).isLt
  have hx : (cfg5.win 3).xinj (grid5.coords t) j = ix2 (⟨(j 0).val, hj0⟩ : Fin 64) (⟨(j 1).val, hj1⟩ : Fin 1) :=
    funext fun a => by match a with | ⟨0, _⟩ => rfl | ⟨1, _⟩ => rfl
  show outsAt5_3 V c t.val t.isLt ((cfg5.win 3).xinj (grid5.coords t) j)
    = RG5_3 (V c main_v64) (V c main_arg14) (((cfg5.win 3).blk t).view.emb j)
  rw [hx]
  refine (outsAt5_3_sum V c ⟨(j 0).val, hj0⟩ ⟨(j 1).val, hj1⟩ t.val t.isLt).trans ?_
  have he : ((cfg5.win 3).blk t).view.emb j = ix2 (⟨(j 0).val, hj0⟩ : Fin 64) (⟨(j 1).val, hj1⟩ : Fin 1) := by
    funext a; apply Fin.ext
    match a with
    | ⟨0, _⟩ => show win5_3.index t 0 * 64 + 1 * (j 0).val = (j 0).val; rw [e0]; omega
    | ⟨1, _⟩ => show win5_3.index t 1 * 1 + 1 * (j 1).val = (j 1).val; rw [e1]; omega
  rw [he, RG5_3_at, hl]
  exact sum_pointsR5_3 _ _ _

/-- The array of the sums after the region: the sum over all images and lanes; the last point's one block is the
    whole array. -/
theorem Rfinal5_3 (c : Dev nD) : (dat5 V c).arrAt 3 cfg5.N = RG5_3 (V c main_v64) (V c main_arg14) :=
  (dat5 V c).arrAt_eq_of_cover 3 _ (fun t hf => Rflushed5_3_eq V c t hf) fun i => by
    have hi0 : (i 0).val < 64 := (i 0).isLt
    have hi1 : (i 1).val < 1 := (i 1).isLt
    have hN : cfg5.N = 128 := N_5
    obtain ⟨t, ht⟩ : ∃ t : Fin cfg5.N, t.val = 127 := ⟨⟨127, by rw [hN]; omega⟩, rfl⟩
    obtain ⟨-, -, -, -, -, -, -, -, e0, e1, -⟩ := idx5 t
    refine ⟨t, (flush5_3 t).mpr (by omega), ?_⟩
    rw [mem_blk5_3]
    intro a
    match a with
    | ⟨0, _⟩ => show win5_3.index t 0 * 64 ≤ (i 0).val ∧ (i 0).val < win5_3.index t 0 * 64 + 64; rw [e0]; omega
    | ⟨1, _⟩ => show win5_3.index t 1 * 1 ≤ (i 1).val ∧ (i 1).val < win5_3.index t 1 * 1 + 1; rw [e1]; omega

/-- An index of the array of the sums of squares is in point t's block iff each coordinate is in the block's range on its axis. -/
theorem mem_blk5_4 (t : Fin cfg5.N) (i : S64x1.Idx) :
    i ∈ ((cfg5.win 4).blk t).view.set ↔ ∀ a : Fin 2, win5_4.index t a * S64x1.size a ≤ (i a).val
      ∧ (i a).val < win5_4.index t a * S64x1.size a + S64x1.size a := by
  show i ∈ ((View.whole main_v65_2).slice (win5_4.rect t)).set ↔ _
  rw [View.set_slice_whole, Rect.mem_set_unit]
  exact Iff.rfl

/-- The one write-back of the sums of squares, after the last point, writes the sum over all images and lanes. -/
theorem Rflushed5_4_eq (c : Dev nD) (t : Fin cfg5.N) (hf : (cfg5.win 4).flush t = true) :
    (dat5 V c).flushed 4 t = ((cfg5.win 4).blk t).view.read (Elt Ideal) (RG5_4 (V c main_v64) (V c main_arg14)) := by
  have hN : cfg5.N = 128 := N_5
  have hl : t.val = 127 := by have := (flush5_4 t).mp hf; have := t.isLt; omega
  show (cfg5.win 4).cut (grid5.coords t) ((dat5 V c).after 4 t) = _
  rw [after5_4]
  obtain ⟨-, -, -, -, -, -, -, -, -, -, e0, e1⟩ := idx5 t
  funext j
  have hj0 : (j 0).val < 64 := (j 0).isLt
  have hj1 : (j 1).val < 1 := (j 1).isLt
  have hx : (cfg5.win 4).xinj (grid5.coords t) j = ix2 (⟨(j 0).val, hj0⟩ : Fin 64) (⟨(j 1).val, hj1⟩ : Fin 1) :=
    funext fun a => by match a with | ⟨0, _⟩ => rfl | ⟨1, _⟩ => rfl
  show outsAt5_4 V c t.val t.isLt ((cfg5.win 4).xinj (grid5.coords t) j)
    = RG5_4 (V c main_v64) (V c main_arg14) (((cfg5.win 4).blk t).view.emb j)
  rw [hx]
  refine (outsAt5_4_sum V c ⟨(j 0).val, hj0⟩ ⟨(j 1).val, hj1⟩ t.val t.isLt).trans ?_
  have he : ((cfg5.win 4).blk t).view.emb j = ix2 (⟨(j 0).val, hj0⟩ : Fin 64) (⟨(j 1).val, hj1⟩ : Fin 1) := by
    funext a; apply Fin.ext
    match a with
    | ⟨0, _⟩ => show win5_4.index t 0 * 64 + 1 * (j 0).val = (j 0).val; rw [e0]; omega
    | ⟨1, _⟩ => show win5_4.index t 1 * 1 + 1 * (j 1).val = (j 1).val; rw [e1]; omega
  rw [he, RG5_4_at, hl]
  exact sum_pointsR5_4 _ _ _

/-- The array of the sums of squares after the region: the sum over all images and lanes; the last point's one block is the
    whole array. -/
theorem Rfinal5_4 (c : Dev nD) : (dat5 V c).arrAt 4 cfg5.N = RG5_4 (V c main_v64) (V c main_arg14) :=
  (dat5 V c).arrAt_eq_of_cover 4 _ (fun t hf => Rflushed5_4_eq V c t hf) fun i => by
    have hi0 : (i 0).val < 64 := (i 0).isLt
    have hi1 : (i 1).val < 1 := (i 1).isLt
    have hN : cfg5.N = 128 := N_5
    obtain ⟨t, ht⟩ : ∃ t : Fin cfg5.N, t.val = 127 := ⟨⟨127, by rw [hN]; omega⟩, rfl⟩
    obtain ⟨-, -, -, -, -, -, -, -, -, -, e0, e1⟩ := idx5 t
    refine ⟨t, (flush5_4 t).mpr (by omega), ?_⟩
    rw [mem_blk5_4]
    intro a
    match a with
    | ⟨0, _⟩ => show win5_4.index t 0 * 64 ≤ (i 0).val ∧ (i 0).val < win5_4.index t 0 * 64 + 64; rw [e0]; omega
    | ⟨1, _⟩ => show win5_4.index t 1 * 1 ≤ (i 1).val ∧ (i 1).val < win5_4.index t 1 * 1 + 1; rw [e1]; omega

end Cert.ReferenceIdeal.Val

end
-- ==== Proof.RefV6d.lean ====
import proofs.«159567_g2000302752657622_pallasbulk_725_3_alg».proof.Proof.Gen.ReferenceIdeal.Skeleton
import proofs.«159567_g2000302752657622_pallasbulk_725_3_alg».proof.Proof.LibConvSpec
import Idealize.ShloMosaic.Lib.ValueIdx
import Idealize.ShloMosaic.PureOps.Ideal

/-! # Region 6 of the reference: the specification

One image's stride-1 transposed 3 × 3 convolution in one phase. `z = sin (y · scale + shift)` of the image sits on lanes
128 to 4223 of 4352, zeros on the 128 lanes either side; tap `t` reads the 4096 lanes from lane `off6 t`
(128 + 65, 64, 63, 1, 0, −1, −63, −64, −65), times row `t` of the mask; its product with the tap's 64 × 64 weight is
`D t`; the output is `D 0 + D 1 + … + D 8` added from tap 0 on. The two statistics are the sums over all images and lanes of
the output and of its square, per channel. -/

noncomputable section

namespace Cert.ReferenceIdeal.Val

open Cert.ReferenceIdeal
open Idealize.ShloMosaic Idealize.ShloMosaic.ValueIdx
open Cert.Lib.ConvSpec (real_mul real_add real_sin real_zero real_sum)
open scoped BigOperators

/-- The first lane of each tap's window. -/
def off6 : Fin 9 → Nat := ![193, 192, 191, 129, 128, 127, 65, 64, 63]

theorem off6_le : ∀ t : Fin 9, off6 t + 4096 ≤ 4352 := by decide

/-- `z` between two margins of 128 zero lanes. -/
def zpad6 (z : Fin 64 → Fin 4096 → EReal) (b : Fin 64) (m : Fin 4352) : EReal :=
  if h : 128 ≤ m.val ∧ m.val < 4224 then z b ⟨m.val - 128, by omega⟩ else 0

/-- Tap `t`'s window at channel `b`, lane `l`: the padded row at lane `off6 t + l`, times the mask's row `t`. -/
def tapv6 (zp : Fin 64 → Fin 4352 → EReal) (mask : Fin 9 → Fin 4096 → EReal) (t : Fin 9) (b : Fin 64) (l : Fin 4096) : EReal :=
  zp b ⟨off6 t + l.val, by have := off6_le t; have := l.isLt; omega⟩ * mask t l

/-- Tap `t`'s product at output channel `a`, lane `l`. -/
def D6 (W : Fin 9 → Fin 64 → Fin 64 → EReal) (zp : Fin 64 → Fin 4352 → EReal) (mask : Fin 9 → Fin 4096 → EReal)
    (t : Fin 9) (a : Fin 64) (l : Fin 4096) : EReal :=
  ∑ b : Fin 64, W t a b * tapv6 zp mask t b l

/-- The nine taps added from tap 0 on. -/
def conv6 (W : Fin 9 → Fin 64 → Fin 64 → EReal) (zp : Fin 64 → Fin 4352 → EReal) (mask : Fin 9 → Fin 4096 → EReal)
    (a : Fin 64) (l : Fin 4096) : EReal :=
  D6 W zp mask 0 a l + D6 W zp mask 1 a l + D6 W zp mask 2 a l + D6 W zp mask 3 a l + D6 W zp mask 4 a l
    + D6 W zp mask 5 a l + D6 W zp mask 6 a l + D6 W zp mask 7 a l + D6 W zp mask 8 a l

/-- The activation of image `n`. -/
def act6 (y : S64x64x4096.Idx → EReal) (sc sh : S64x1.Idx → EReal) (n : Fin 64) (b : Fin 64) (l : Fin 4096) : EReal :=
  Ideal.sin (y (ix3 n b l) * sc (ix2 b (0 : Fin 1)) + sh (ix2 b (0 : Fin 1)))

/-- The output array from the arrays of the activation's operand (64 × 64 × 4096), its per-channel scale and shift, the nine
    taps (9 × 64 × 64) and the nine mask rows (9 × 4096). -/
def RG6_5 (y : S64x64x4096.Idx → EReal) (sc sh : S64x1.Idx → EReal) (w : S9x64x64.Idx → EReal) (m : S9x4096.Idx → EReal) : S64x64x4096.Idx → EReal :=
  fun i => conv6 (fun t a b => w (ix3 t a b)) (zpad6 (act6 y sc sh (i 0))) (fun t l => m (ix2 t l)) (i 1) (i 2)

/-- The per-channel sums of the output over all images and lanes. -/
def RG6_6 (y : S64x64x4096.Idx → EReal) (sc sh : S64x1.Idx → EReal) (w : S9x64x64.Idx → EReal) (m : S9x4096.Idx → EReal) : S64x1.Idx → EReal :=
  fun i => ∑ n : Fin 64, ∑ l : Fin 4096, RG6_5 y sc sh w m (ix3 n (i 0) l)

/-- The per-channel sums of the output's squares over all images and lanes. -/
def RG6_7 (y : S64x64x4096.Idx → EReal) (sc sh : S64x1.Idx → EReal) (w : S9x64x64.Idx → EReal) (m : S9x4096.Idx → EReal) : S64x1.Idx → EReal :=
  fun i => ∑ n : Fin 64, ∑ l : Fin 4096, RG6_5 y sc sh w m (ix3 n (i 0) l) * RG6_5 y sc sh w m (ix3 n (i 0) l)

/-- The output at an index whose coordinates are named. -/
theorem RG6_5_at (y : S64x64x4096.Idx → EReal) (sc sh : S64x1.Idx → EReal) (w : S9x64x64.Idx → EReal) (m : S9x4096.Idx → EReal) (i : S64x64x4096.Idx) (n a : Fin 64) (l : Fin 4096)
    (h0 : (i 0).val = n.val) (h1 : (i 1).val = a.val) (h2 : (i 2).val = l.val) :
    RG6_5 y sc sh w m i = conv6 (fun t a b => w (ix3 t a b)) (zpad6 (act6 y sc sh n)) (fun t l => m (ix2 t l)) a l := by
  obtain rfl : n = i 0 := Fin.ext h0.symm
  obtain rfl : a = i 1 := Fin.ext h1.symm
  obtain rfl : l = i 2 := Fin.ext h2.symm
  rfl

/-- The sums at channel `p`. -/
theorem RG6_6_at (y : S64x64x4096.Idx → EReal) (sc sh : S64x1.Idx → EReal) (w : S9x64x64.Idx → EReal) (m : S9x4096.Idx → EReal) (p : Fin 64) (z : Fin 1) :
    RG6_6 y sc sh w m (ix2 p z) = ∑ n : Fin 64, ∑ l : Fin 4096, RG6_5 y sc sh w m (ix3 n p l) := rfl

/-- The sums of squares at channel `p`. -/
theorem RG6_7_at (y : S64x64x4096.Idx → EReal) (sc sh : S64x1.Idx → EReal) (w : S9x64x64.Idx → EReal) (m : S9x4096.Idx → EReal) (p : Fin 64) (z : Fin 1) :
    RG6_7 y sc sh w m (ix2 p z)
      = ∑ n : Fin 64, ∑ l : Fin 4096, RG6_5 y sc sh w m (ix3 n p l) * RG6_5 y sc sh w m (ix3 n p l) := rfl

/-! ## Reals in, reals out -/

theorem conv6_real {W : Fin 9 → Fin 64 → Fin 64 → EReal} {z : Fin 64 → Fin 4096 → EReal} {mask : Fin 9 → Fin 4096 → EReal}
    (hW : ∀ t a b, ∃ r : ℝ, W t a b = r) (hz : ∀ b l, ∃ r : ℝ, z b l = r) (hmask : ∀ t l, ∃ r : ℝ, mask t l = r)
    (a : Fin 64) (l : Fin 4096) : ∃ r : ℝ, conv6 W (zpad6 z) mask a l = r := by
  have hD : ∀ t : Fin 9, ∃ r : ℝ, D6 W (zpad6 z) mask t a l = r := fun t => by
    unfold D6
    refine real_sum _ _ fun b => real_mul (hW t a b) ?_
    unfold tapv6
    refine real_mul ?_ (hmask t l)
    unfold zpad6
    split
    · exact hz _ _
    · exact real_zero
  unfold conv6
  exact real_add (real_add (real_add (real_add (real_add (real_add (real_add (real_add (hD 0) (hD 1)) (hD 2)) (hD 3)) (hD 4)) (hD 5)) (hD 6)) (hD 7)) (hD 8)

theorem RG6_5_real (y : S64x64x4096.Idx → EReal) (sc sh : S64x1.Idx → EReal) (w : S9x64x64.Idx → EReal) (m : S9x4096.Idx → EReal) (hy : ∀ i, ∃ r : ℝ, y i = r) (hsc : ∀ i, ∃ r : ℝ, sc i = r) (hsh : ∀ i, ∃ r : ℝ, sh i = r) (hw : ∀ i, ∃ r : ℝ, w i = r) (hm : ∀ i, ∃ r : ℝ, m i = r) :
    ∀ i, ∃ r : ℝ, RG6_5 y sc sh w m i = r := fun i =>
  conv6_real (fun t a b => hw _) (fun b l => real_sin (real_add (real_mul (hy _) (hsc _)) (hsh _))) (fun t l => hm _) _ _

theorem RG6_6_real (y : S64x64x4096.Idx → EReal) (sc sh : S64x1.Idx → EReal) (w : S9x64x64.Idx → EReal) (m : S9x4096.Idx → EReal) (hy : ∀ i, ∃ r : ℝ, y i = r) (hsc : ∀ i, ∃ r : ℝ, sc i = r) (hsh : ∀ i, ∃ r : ℝ, sh i = r) (hw : ∀ i, ∃ r : ℝ, w i = r) (hm : ∀ i, ∃ r : ℝ, m i = r) :
    ∀ i, ∃ r : ℝ, RG6_6 y sc sh w m i = r := fun i =>
  real_sum _ _ fun n => real_sum _ _ fun l => RG6_5_real y sc sh w m hy hsc hsh hw hm _

theorem RG6_7_real (y : S64x64x4096.Idx → EReal) (sc sh : S64x1.Idx → EReal) (w : S9x64x64.Idx → EReal) (m : S9x4096.Idx → EReal) (hy : ∀ i, ∃ r : ℝ, y i = r) (hsc : ∀ i, ∃ r : ℝ, sc i = r) (hsh : ∀ i, ∃ r : ℝ, sh i = r) (hw : ∀ i, ∃ r : ℝ, w i = r) (hm : ∀ i, ∃ r : ℝ, m i = r) :
    ∀ i, ∃ r : ℝ, RG6_7 y sc sh w m i = r := fun i =>
  real_sum _ _ fun n => real_sum _ _ fun l =>
    real_mul (RG6_5_real y sc sh w m hy hsc hsh hw hm _) (RG6_5_real y sc sh w m hy hsc hsh hw hm _)

end Cert.ReferenceIdeal.Val

end
-- ==== Proof.RefV7a.lean ====
import proofs.«159567_g2000302752657622_pallasbulk_725_3_alg».proof.Proof.RefV2a

noncomputable section

namespace Cert.ReferenceIdeal.Val

open Cert.ReferenceIdeal Cert.ReferenceIdeal.Gen
open Idealize.ShloMosaic Idealize.ShloMosaic.ValueIdx
open scoped BigOperators

/-! ## Region 7: the same body as region 2's

Region 7's payloads are region 2's, operation for operation, over the same literal types: each is its region-2
counterpart by unfolding, so each reads at an index as that one does (`z2`, `y2` of RefV2a). -/

theorem k7_pay4_eq : @Gen.k7_pay4 Ideal _ = @Gen.k2_pay4 Ideal _ := rfl
theorem k7_pay5_eq : @Gen.k7_pay5 Ideal _ = @Gen.k2_pay5 Ideal _ := rfl
theorem k7_pay6_eq : @Gen.k7_pay6 Ideal _ = @Gen.k2_pay6 Ideal _ := rfl
theorem k7_pay7_eq : @Gen.k7_pay7 Ideal = @Gen.k2_pay7 Ideal := rfl
theorem k7_pay8_eq : @Gen.k7_pay8 Ideal _ = @Gen.k2_pay8 Ideal _ := rfl
theorem k7_pay1_eq : @Gen.k7_pay1 Ideal _ = @Gen.k2_pay1 Ideal _ := rfl
theorem k7_pay2_eq : @Gen.k7_pay2 Ideal _ = @Gen.k2_pay2 Ideal _ := rfl
theorem k7_pay3_eq : @Gen.k7_pay3 Ideal _ = @Gen.k2_pay3 Ideal _ := rfl

/-- The product's payload at (j, l). -/
theorem pay7_4_apply (x : Vec Ideal S1x64x2048 .f32) (sc sh : Vec Ideal S64x1 .f32) (W : Vec Ideal S256x64 .f32) (j : Fin 256) (l : Fin 2048) :
    Gen.k7_pay4 x sc sh W (ix2 j l) = y2 x sc sh W j l := by
  rw [k7_pay4_eq]; exact pay2_4_apply x sc sh W j l

/-- The stored block's payload. -/
theorem pay7_5_apply (x : Vec Ideal S1x64x2048 .f32) (sc sh : Vec Ideal S64x1 .f32) (W : Vec Ideal S256x64 .f32) (u : Fin 1) (j : Fin 256) (l : Fin 2048) :
    Gen.k7_pay5 x sc sh W (ix3 u j l) = y2 x sc sh W j l := by
  rw [k7_pay5_eq]; exact pay2_5_apply x sc sh W u j l

/-- The sum accumulator's update. -/
theorem pay7_6_apply (x : Vec Ideal S1x64x2048 .f32) (sc sh : Vec Ideal S64x1 .f32) (W : Vec Ideal S256x64 .f32) (acc : Vec Ideal S256x1 .f32) (j : Fin 256) (z : Fin 1) :
    Gen.k7_pay6 x sc sh W acc (ix2 j z) = acc (ix2 j z) + ∑ l : Fin 2048, y2 x sc sh W j l := by
  rw [k7_pay6_eq]; exact pay2_6_apply x sc sh W acc j z

/-- The sum-of-squares accumulator as the body reads it back. -/
theorem pay7_7_eq (acc : Vec Ideal S256x1 .f32) : Gen.k7_pay7 acc = acc := by
  rw [k7_pay7_eq]; exact pay2_7_eq acc

/-- The row's sum of squares over the tile's lanes. -/
theorem pay7_8_apply (x : Vec Ideal S1x64x2048 .f32) (sc sh : Vec Ideal S64x1 .f32) (W : Vec Ideal S256x64 .f32) (j : Fin 256) :
    Gen.k7_pay8 x sc sh W (ix1 j) = ∑ l : Fin 2048, y2 x sc sh W j l * y2 x sc sh W j l := by
  rw [k7_pay8_eq]; exact pay2_8_apply x sc sh W j

/-- The sum-of-squares accumulator's update. -/
theorem pay7_1_apply (acc : FVec Ideal S256x1 .f32) (q : FVec Ideal S256 .f32) (j : Fin 256) (z : Fin 1) :
    Gen.k7_pay1 acc q (ix2 j z) = acc (ix2 j z) + q (ix1 j) := by
  rw [k7_pay1_eq]; exact pay2_1_apply acc q j z

theorem pay7_1_acc_apply (x : Vec Ideal S1x64x2048 .f32) (sc sh : Vec Ideal S64x1 .f32) (W : Vec Ideal S256x64 .f32) (acc : Vec Ideal S256x1 .f32) (j : Fin 256) (z : Fin 1) :
    Gen.k7_pay1 (Gen.k7_pay7 acc) (Gen.k7_pay8 x sc sh W) (ix2 j z)
      = acc (ix2 j z) + ∑ l : Fin 2048, y2 x sc sh W j l * y2 x sc sh W j l := by
  rw [pay7_1_apply, pay7_7_eq, pay7_8_apply]

/-- The zero blocks stored at the first point. -/
theorem pay7_2_apply (i : S256x1.Idx) : Gen.k7_pay2 (F := Ideal) i = 0 := by
  rw [k7_pay2_eq]; exact pay2_2_apply i

theorem pay7_3_apply (i : S256x1.Idx) : Gen.k7_pay3 (F := Ideal) i = 0 := by
  rw [k7_pay3_eq]; exact pay2_3_apply i

end Cert.ReferenceIdeal.Val

end
-- ==== Proof.RefV7.lean ====
import proofs.«159567_g2000302752657622_pallasbulk_725_3_alg».proof.Proof.RefR7
import proofs.«159567_g2000302752657622_pallasbulk_725_3_alg».proof.Proof.RefV7a
import proofs.«159567_g2000302752657622_pallasbulk_725_3_alg».proof.Proof.LibTaps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! # The value of region 7:  y = W · sin(x · scale + shift), and the per-channel sum and sum of squares of y

The three arrays the region leaves, each as one function of the four arrays it reads, index by index. -/

/-- The 1×1 convolution of the activation, at image n, output channel j, lane L:
    ∑ k, W[j, k] · sin(x[n, k, L] · scale[k] + shift[k]). -/
def yR7 (x : S64x64x4096.Idx → EReal) (sc sh : S64x1.Idx → EReal) (W : S256x64.Idx → EReal) (n : Fin 64) (j : Fin 256) (L : Fin 4096) : EReal :=
  ∑ k : Fin 64, W (ix2 j k) * Ideal.sin (x (ix3 n k L) * sc (ix2 k (0 : Fin 1)) + sh (ix2 k (0 : Fin 1)))

/-- The output array y[64, 256, 4096]. -/
def RG7_4 (x : S64x64x4096.Idx → EReal) (sc sh : S64x1.Idx → EReal) (W : S256x64.Idx → EReal) : S64x256x4096.Idx → EReal :=
  fun i => yR7 x sc sh W (i 0) (i 1) (i 2)

/-- The per-channel sum [256, 1]: channel j's sum of y over all images and all lanes. -/
def RG7_5 (x : S64x64x4096.Idx → EReal) (sc sh : S64x1.Idx → EReal) (W : S256x64.Idx → EReal) : S256x1.Idx → EReal :=
  fun i => ∑ n : Fin 64, ∑ L : Fin 4096, yR7 x sc sh W n (i 0) L

/-- The per-channel sum of squares [256, 1]. -/
def RG7_6 (x : S64x64x4096.Idx → EReal) (sc sh : S64x1.Idx → EReal) (W : S256x64.Idx → EReal) : S256x1.Idx → EReal :=
  fun i => ∑ n : Fin 64, ∑ L : Fin 4096, yR7 x sc sh W n (i 0) L * yR7 x sc sh W n (i 0) L

/-- The specifications with their coordinates named. -/
theorem RG7_4_at (x : S64x64x4096.Idx → EReal) (sc sh : S64x1.Idx → EReal) (W : S256x64.Idx → EReal) (i : S64x256x4096.Idx) (n : Fin 64) (j : Fin 256) (L : Fin 4096)
    (h0 : (i 0).val = n.val) (h1 : (i 1).val = j.val) (h2 : (i 2).val = L.val) : RG7_4 x sc sh W i = yR7 x sc sh W n j L := by
  obtain rfl : n = i 0 := Fin.ext h0.symm
  obtain rfl : j = i 1 := Fin.ext h1.symm
  obtain rfl : L = i 2 := Fin.ext h2.symm
  rfl

theorem RG7_5_at (x : S64x64x4096.Idx → EReal) (sc sh : S64x1.Idx → EReal) (W : S256x64.Idx → EReal) (i : S256x1.Idx) (j : Fin 256) (h0 : (i 0).val = j.val) :
    RG7_5 x sc sh W i = ∑ n : Fin 64, ∑ L : Fin 4096, yR7 x sc sh W n j L := by
  obtain rfl : j = i 0 := Fin.ext h0.symm
  rfl

theorem RG7_6_at (x : S64x64x4096.Idx → EReal) (sc sh : S64x1.Idx → EReal) (W : S256x64.Idx → EReal) (i : S256x1.Idx) (j : Fin 256) (h0 : (i 0).val = j.val) :
    RG7_6 x sc sh W i = ∑ n : Fin 64, ∑ L : Fin 4096, yR7 x sc sh W n j L * yR7 x sc sh W n j L := by
  obtain rfl : j = i 0 := Fin.ext h0.symm
  rfl

/-! ## Real entries stay real -/

/-- A finite sum of reals is a real. -/
private theorem real_sum {α : Type} (s : Finset α) (Z : α → EReal) (h : ∀ i, ∃ r : ℝ, Z i = (r : EReal)) :
    ∃ r : ℝ, ∑ i ∈ s, Z i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- The convolution of the activation of real entries, under real coefficients and weights, is real. -/
theorem yR7_real (x : S64x64x4096.Idx → EReal) (sc sh : S64x1.Idx → EReal) (W : S256x64.Idx → EReal) (hx : ∀ i, ∃ r : ℝ, x i = (r : EReal)) (hsc : ∀ i, ∃ r : ℝ, sc i = (r : EReal)) (hsh : ∀ i, ∃ r : ℝ, sh i = (r : EReal)) (hW : ∀ i, ∃ r : ℝ, W i = (r : EReal))
    (n : Fin 64) (j : Fin 256) (L : Fin 4096) : ∃ r : ℝ, yR7 x sc sh W n j L = (r : EReal) := by
  unfold yR7
  refine real_sum _ _ fun k => ?_
  obtain ⟨w, hw⟩ := hW (ix2 j k)
  obtain ⟨a, ha⟩ := hx (ix3 n k L)
  obtain ⟨b, hb⟩ := hsc (ix2 k (0 : Fin 1))
  obtain ⟨d, hd⟩ := hsh (ix2 k (0 : Fin 1))
  refine ⟨w * Real.sin (a * b + d), ?_⟩
  rw [hw, ha, hb, hd, ← EReal.coe_mul, ← EReal.coe_add, EReal.coe_mul]
  rfl

theorem RG7_4_real (x : S64x64x4096.Idx → EReal) (sc sh : S64x1.Idx → EReal) (W : S256x64.Idx → EReal) (hx : ∀ i, ∃ r : ℝ, x i = (r : EReal)) (hsc : ∀ i, ∃ r : ℝ, sc i = (r : EReal)) (hsh : ∀ i, ∃ r : ℝ, sh i = (r : EReal)) (hW : ∀ i, ∃ r : ℝ, W i = (r : EReal)) :
    ∀ i, ∃ r : ℝ, RG7_4 x sc sh W i = (r : EReal) := fun i => yR7_real x sc sh W hx hsc hsh hW (i 0) (i 1) (i 2)

theorem RG7_5_real (x : S64x64x4096.Idx → EReal) (sc sh : S64x1.Idx → EReal) (W : S256x64.Idx → EReal) (hx : ∀ i, ∃ r : ℝ, x i = (r : EReal)) (hsc : ∀ i, ∃ r : ℝ, sc i = (r : EReal)) (hsh : ∀ i, ∃ r : ℝ, sh i = (r : EReal)) (hW : ∀ i, ∃ r : ℝ, W i = (r : EReal)) :
    ∀ i, ∃ r : ℝ, RG7_5 x sc sh W i = (r : EReal) := fun i =>
  real_sum _ _ fun n => real_sum _ _ fun L => yR7_real x sc sh W hx hsc hsh hW n (i 0) L

theorem RG7_6_real (x : S64x64x4096.Idx → EReal) (sc sh : S64x1.Idx → EReal) (W : S256x64.Idx → EReal) (hx : ∀ i, ∃ r : ℝ, x i = (r : EReal)) (hsc : ∀ i, ∃ r : ℝ, sc i = (r : EReal)) (hsh : ∀ i, ∃ r : ℝ, sh i = (r : EReal)) (hW : ∀ i, ∃ r : ℝ, W i = (r : EReal)) :
    ∀ i, ∃ r : ℝ, RG7_6 x sc sh W i = (r : EReal) := fun i =>
  real_sum _ _ fun n => real_sum _ _ fun L => by
    obtain ⟨y, hy⟩ := yR7_real x sc sh W hx hsc hsh hW n (i 0) L
    exact ⟨y * y, by rw [hy, EReal.coe_mul]⟩

/-! ## Which buffer each window stages -/

theorem arrRef7_0 : Pipeline.arrRef spec7 0 = main_v80_0 := rfl
theorem arrRef7_1 : Pipeline.arrRef spec7 1 = main_v91 := rfl
theorem arrRef7_2 : Pipeline.arrRef spec7 2 = main_v94 := rfl
theorem arrRef7_3 : Pipeline.arrRef spec7 3 = main_arg15 := rfl
theorem arrRef7_4 : Pipeline.arrRef spec7 4 = main_v95_0 := rfl
theorem arrRef7_5 : Pipeline.arrRef spec7 5 = main_v95_1 := rfl
theorem arrRef7_6 : Pipeline.arrRef spec7 6 = main_v95_2 := rfl

/-! ## The windows' blocks, read off their arrays -/

/-- The index maps over the grid's 128 points: point t = 2 n + s is image n, lane tile s, for x and for y; the
    coefficient columns, the weights and the two statistics are one block each. -/
theorem idx7 : ∀ t : Fin cfg7.N,
    win7_0.index t (0 : Fin 3) = t.val / 2 ∧ win7_0.index t (1 : Fin 3) = 0 ∧ win7_0.index t (2 : Fin 3) = t.val % 2
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 3) = t.val / 2 ∧ win7_4.index t (1 : Fin 3) = 0 ∧ win7_4.index t (2 : Fin 3) = t.val % 2
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

variable (V : (c : Dev nD) → (b : Ref sig .tc) → Buf (Elt Ideal) ((c : Thread nD τ).loc b))

/-- Window 0's block at point t is image t / 2, lanes [2048 (t % 2), 2048 (t % 2) + 2048) of x's array. -/
theorem iblk7_0_apply (c : Dev nD) (t : Fin cfg7.N) (x : S1x64x2048.Idx) (k : S64x64x4096.Idx)
    (hk0 : (k 0).val = t.val / 2) (hk1 : (k 1).val = (x 1).val) (hk2 : (k 2).val = t.val % 2 * 2048 + (x 2).val) :
    (iblk7 V c 0 t : Vec Ideal S1x64x2048 .f32) x = (V c main_v80_0 : S64x64x4096.Idx → EReal) k := by
  obtain ⟨e0, e1, e2, -, -, -, -, -, -, -, -, -, -, -, -, -⟩ := idx7 t
  have hx0 : (x 0).val < 1 := (x 0).isLt
  unfold iblk7
  rw [View.read_apply]
  show V c main_v80_0 _ = V c main_v80_0 _
  congr 1
  funext a
  apply Fin.ext
  match a with
  | ⟨0, _⟩ => show win7_0.index t 0 * 1 + 1 * (x 0).val = (k 0).val; rw [e0, hk0]; omega
  | ⟨1, _⟩ => show win7_0.index t 1 * 64 + 1 * (x 1).val = (k 1).val; rw [e1, hk1]; omega
  | ⟨2, _⟩ => show win7_0.index t 2 * 2048 + 1 * (x 2).val = (k 2).val; rw [e2, hk2]; omega

/-- Window 1's block is the whole scale column at every point. -/
theorem iblk7_1_apply (c : Dev nD) (t : Fin cfg7.N) (x : S64x1.Idx) :
    (iblk7 V c 1 t : Vec Ideal S64x1 .f32) x = (V c main_v91 : S64x1.Idx → EReal) x := by
  obtain ⟨-, -, -, e0, e1, -, -, -, -, -, -, -, -, -, -, -⟩ := idx7 t
  unfold iblk7
  rw [View.read_apply]
  show V c main_v91 _ = V c main_v91 _
  congr 1
  funext a
  apply Fin.ext
  match a with
  | ⟨0, _⟩ => show win7_1.index t 0 * 64 + 1 * (x 0).val = (x 0).val; rw [e0]; omega
  | ⟨1, _⟩ => show win7_1.index t 1 * 1 + 1 * (x 1).val = (x 1).val; rw [e1]; omega

/-- Window 2's block is the whole shift column at every point. -/
theorem iblk7_2_apply (c : Dev nD) (t : Fin cfg7.N) (x : S64x1.Idx) :
    (iblk7 V c 2 t : Vec Ideal S64x1 .f32) x = (V c main_v94 : S64x1.Idx → EReal) x := by
  obtain ⟨-, -, -, -, -, e0, e1, -, -, -, -, -, -, -, -, -⟩ := idx7 t
  unfold iblk7
  rw [View.read_apply]
  show V c main_v94 _ = V c main_v94 _
  congr 1
  funext a
  apply Fin.ext
  match a with
  | ⟨0, _⟩ => show win7_2.index t 0 * 64 + 1 * (x 0).val = (x 0).val; rw [e0]; omega
  | ⟨1, _⟩ => show win7_2.index t 1 * 1 + 1 * (x 1).val = (x 1).val; rw [e1]; omega

/-- Window 3's block is the whole weight matrix at every point. -/
theorem iblk7_3_apply (c : Dev nD) (t : Fin cfg7.N) (x : S256x64.Idx) :
    (iblk7 V c 3 t : Vec Ideal S256x64 .f32) x = (V c main_arg15 : S256x64.Idx → EReal) x := by
  obtain ⟨-, -, -, -, -, -, -, e0, e1, -, -, -, -, -, -, -⟩ := idx7 t
  unfold iblk7
  rw [View.read_apply]
  show V c main_arg15 _ = V c main_arg15 _
  congr 1
  funext a
  apply Fin.ext
  match a with
  | ⟨0, _⟩ => show win7_3.index t 0 * 256 + 1 * (x 0).val = (x 0).val; rw [e0]; omega
  | ⟨1, _⟩ => show win7_3.index t 1 * 64 + 1 * (x 1).val = (x 1).val; rw [e1]; omega

/-- The convolution output computed from the blocks at point t is the array's, at the point's image and lanes. -/
theorem y2_iblk7 (c : Dev nD) (t : Fin cfg7.N) (j : Fin 256) (l : Fin 2048) (n : Fin 64) (L : Fin 4096)
    (hn : n.val = t.val / 2) (hL : L.val = t.val % 2 * 2048 + l.val) :
    y2 (iblk7 V c 0 t) (iblk7 V c 1 t) (iblk7 V c 2 t) (iblk7 V c 3 t) j l = yR7 (V c main_v80_0) (V c main_v91) (V c main_v94) (V c main_arg15) n j L := by
  unfold y2 yR7
  refine Finset.sum_congr rfl fun k _ => ?_
  refine congrArg₂ (· * ·) (iblk7_3_apply V c t (ix2 j k)) ?_
  unfold z2
  refine congrArg Ideal.sin (congrArg₂ (· + ·) (congrArg₂ (· * ·) ?_ (iblk7_1_apply V c t (ix2 k (0 : Fin 1)))) (iblk7_2_apply V c t (ix2 k (0 : Fin 1))))
  exact iblk7_0_apply V c t (ix3 (0 : Fin 1) k l) (ix3 n k L) hn rfl hL

/-! ## y: from the blocks to the array -/

/-- What point t writes back is point t's block of y. -/
theorem Rflushed7_4_eq (c : Dev nD) (t : Fin cfg7.N) :
    (dat7 V c).flushed 4 t = ((cfg7.win 4).blk t).view.read (Elt Ideal) (RG7_4 (V c main_v80_0) (V c main_v91) (V c main_v94) (V c main_arg15)) := by
  show (cfg7.win 4).cut (grid7.coords t) ((dat7 V c).after 4 t) = _
  rw [after7_4]
  obtain ⟨-, -, -, -, -, -, -, -, -, e0, e1, e2, -, -, -, -⟩ := idx7 t
  have hN : t.val < 128 := lt_of_lt_of_eq t.isLt (show cfg7.N = 128 from N_7)
  funext j
  have hj0 : (j 0).val < 1 := (j 0).isLt
  have hj1 : (j 1).val < 256 := (j 1).isLt
  have hj2 : (j 2).val < 2048 := (j 2).isLt
  have hx : (cfg7.win 4).xinj (grid7.coords t) j = ix3 (⟨(j 0).val, hj0⟩ : Fin 1) (⟨(j 1).val, hj1⟩ : Fin 256) (⟨(j 2).val, hj2⟩ : Fin 2048) :=
    funext fun a => by match a with | ⟨0, _⟩ => rfl | ⟨1, _⟩ => rfl | ⟨2, _⟩ => rfl
  show k7_pay5 (iblk7 V c 0 t) (iblk7 V c 1 t) (iblk7 V c 2 t) (iblk7 V c 3 t) ((cfg7.win 4).xinj (grid7.coords t) j)
    = RG7_4 (V c main_v80_0) (V c main_v91) (V c main_v94) (V c main_arg15) (((cfg7.win 4).blk t).view.emb j)
  rw [hx]
  refine (pay7_5_apply (iblk7 V c 0 t) (iblk7 V c 1 t) (iblk7 V c 2 t) (iblk7 V c 3 t) ⟨(j 0).val, hj0⟩ ⟨(j 1).val, hj1⟩ ⟨(j 2).val, hj2⟩).trans ?_
  have h0 : ((((cfg7.win 4).blk t).view.emb j) 0).val = t.val / 2 := by
    show win7_4.index t 0 * 1 + 1 * (j 0).val = t.val / 2; rw [e0]; omega
  have h1 : ((((cfg7.win 4).blk t).view.emb j) 1).val = (j 1).val := by
    show win7_4.index t 1 * 256 + 1 * (j 1).val = (j 1).val; rw [e1]; omega
  have h2 : ((((cfg7.win 4).blk t).view.emb j) 2).val = t.val % 2 * 2048 + (j 2).val := by
    show win7_4.index t 2 * 2048 + 1 * (j 2).val = t.val % 2 * 2048 + (j 2).val; rw [e2]; omega
  refine Eq.trans ?_ (RG7_4_at (V c main_v80_0) (V c main_v91) (V c main_v94) (V c main_arg15) (((cfg7.win 4).blk t).view.emb j)
    ⟨t.val / 2, by omega⟩ ⟨(j 1).val, hj1⟩ ⟨t.val % 2 * 2048 + (j 2).val, by omega⟩ h0 h1 h2).symm
  exact y2_iblk7 V c t ⟨(j 1).val, hj1⟩ ⟨(j 2).val, hj2⟩ ⟨t.val / 2, by omega⟩ ⟨t.val % 2 * 2048 + (j 2).val, by omega⟩ rfl rfl

/-- An index of y's array is in point t's block iff each coordinate is in the block's range on its axis. -/
theorem mem_blk7_4 (t : Fin cfg7.N) (i : S64x256x4096.Idx) :
    i ∈ ((cfg7.win 4).blk t).view.set ↔ ∀ a : Fin 3, win7_4.index t a * S1x256x2048.size a ≤ (i a).val
      ∧ (i a).val < win7_4.index t a * S1x256x2048.size a + S1x256x2048.size a := by
  show i ∈ ((View.whole main_v95_0).slice (win7_4.rect t)).set ↔ _
  rw [View.set_slice_whole, Rect.mem_set_unit]
  exact Iff.rfl

/-- y's array after the region. Index (n, j, L) lies in the block of point 2 n + L / 2048, and every point writes its
    block back. -/
theorem Rfinal7_4 (c : Dev nD) : (dat7 V c).arrAt 4 cfg7.N = RG7_4 (V c main_v80_0) (V c main_v91) (V c main_v94) (V c main_arg15) :=
  (dat7 V c).arrAt_eq_of_cover 4 _ (fun t _ => Rflushed7_4_eq V c t) fun i => by
    have hi0 : (i 0).val < 64 := (i 0).isLt
    have hi1 : (i 1).val < 256 := (i 1).isLt
    have hi2 : (i 2).val < 4096 := (i 2).isLt
    have hN : cfg7.N = 128 := N_7
    obtain ⟨t, ht⟩ : ∃ t : Fin cfg7.N, t.val = 2 * (i 0).val + (i 2).val / 2048 := ⟨⟨2 * (i 0).val + (i 2).val / 2048, by rw [hN]; omega⟩, rfl⟩
    obtain ⟨-, -, -, -, -, -, -, -, -, e0, e1, e2, -, -, -, -⟩ := idx7 t
    refine ⟨t, flush7_4 t, ?_⟩
    rw [mem_blk7_4]
    intro a
    match a with
    | ⟨0, _⟩ => show win7_4.index t 0 * 1 ≤ (i 0).val ∧ (i 0).val < win7_4.index t 0 * 1 + 1; rw [e0, ht]; omega
    | ⟨1, _⟩ => show win7_4.index t 1 * 256 ≤ (i 1).val ∧ (i 1).val < win7_4.index t 1 * 256 + 256; rw [e1]; omega
    | ⟨2, _⟩ => show win7_4.index t 2 * 2048 ≤ (i 2).val ∧ (i 2).val < win7_4.index t 2 * 2048 + 2048; rw [e2, ht]; omega

/-! ## The two statistics: the sum over the grid's points -/

/-- Point m's contribution to a statistic of f over (image, lane): the sum of f over image m / 2 and the 2048 lanes
    of tile m % 2; nothing past the grid. -/
def ptR7 (f : Fin 64 → Fin 4096 → EReal) (m : ℕ) : EReal :=
  if h : m < 128 then ∑ s : Fin 2048, f ⟨m / 2, by omega⟩ ⟨m % 2 * 2048 + s.val, by have := s.isLt; omega⟩ else 0

/-- The 128 points' contributions, summed, are the sum over the 64 images and the 4096 lanes: 128 = 64 · 2 points,
    4096 = 2 · 2048 lanes. -/
theorem sum_points7 (f : Fin 64 → Fin 4096 → EReal) :
    ∑ m ∈ Finset.range (127 + 1), ptR7 f m = ∑ n : Fin 64, ∑ L : Fin 4096, f n L := by
  refine (Finset.sum_range (n := 128) fun m => ptR7 f m).trans ?_
  refine (Cert.Lib.Taps.sum_fin_mul 64 2 fun m : Fin (64 * 2) => ptR7 f m.val).trans ?_
  refine Finset.sum_congr rfl fun n _ => ?_
  refine Eq.trans ?_ (Cert.Lib.Taps.sum_fin_mul 2 2048 fun L : Fin (2 * 2048) => f n L).symm
  refine Finset.sum_congr rfl fun s _ => ?_
  have hn := n.isLt
  have hs := s.isLt
  show ptR7 f (n.val * 2 + s.val) = _
  unfold ptR7
  rw [dif_pos (show n.val * 2 + s.val < 128 by omega)]
  refine Finset.sum_congr rfl fun r _ => ?_
  have hr := r.isLt
  have hq : (n.val * 2 + s.val) / 2 = n.val := by omega
  have hm : (n.val * 2 + s.val) % 2 * 2048 + r.val = s.val * 2048 + r.val := by
    have : (n.val * 2 + s.val) % 2 = s.val := by omega
    rw [this]
  exact congrArg₂ f (Fin.ext hq) (Fin.ext hm)

/-- The lanes of point t's block, summed, are point t's contribution to channel j's sum. -/
theorem laneSum_iblk7 (c : Dev nD) (t : Fin cfg7.N) (j : Fin 256) :
    ∑ l : Fin 2048, y2 (iblk7 V c 0 t) (iblk7 V c 1 t) (iblk7 V c 2 t) (iblk7 V c 3 t) j l = ptR7 (fun n L => yR7 (V c main_v80_0) (V c main_v91) (V c main_v94) (V c main_arg15) n j L) t.val := by
  have hN : t.val < 128 := lt_of_lt_of_eq t.isLt (show cfg7.N = 128 from N_7)
  unfold ptR7
  rw [dif_pos hN]
  exact Finset.sum_congr rfl fun l _ => y2_iblk7 V c t j l _ _ rfl rfl

/-- The same for the squares. -/
theorem laneSumSq_iblk7 (c : Dev nD) (t : Fin cfg7.N) (j : Fin 256) :
    ∑ l : Fin 2048, y2 (iblk7 V c 0 t) (iblk7 V c 1 t) (iblk7 V c 2 t) (iblk7 V c 3 t) j l * y2 (iblk7 V c 0 t) (iblk7 V c 1 t) (iblk7 V c 2 t) (iblk7 V c 3 t) j l
      = ptR7 (fun n L => yR7 (V c main_v80_0) (V c main_v91) (V c main_v94) (V c main_arg15) n j L * yR7 (V c main_v80_0) (V c main_v91) (V c main_v94) (V c main_arg15) n j L) t.val := by
  have hN : t.val < 128 := lt_of_lt_of_eq t.isLt (show cfg7.N = 128 from N_7)
  unfold ptR7
  rw [dif_pos hN]
  exact Finset.sum_congr rfl fun l _ => congrArg₂ (· * ·) (y2_iblk7 V c t j l _ _ rfl rfl) (y2_iblk7 V c t j l _ _ rfl rfl)

/-- After point n the sum accumulator holds, at channel j, the sum of the contributions of the points 0, …, n:
    the zeros stored at the first point add nothing, and each later point adds its own lanes to what the point
    before left. -/
theorem outsAt7_5_sum (c : Dev nD) (j : Fin 256) (z : Fin 1) : ∀ (n : ℕ) (hn : n < cfg7.N),
    outsAt7_5 V c n hn (ix2 j z) = ∑ m ∈ Finset.range (n + 1), ptR7 (fun n L => yR7 (V c main_v80_0) (V c main_v91) (V c main_v94) (V c main_arg15) n j L) m
  | 0, hn => by
    refine (congrFun (outsAt7_5_A V c ⟨0, hn⟩ rfl) (ix2 j z)).trans ?_
    refine (pay7_6_apply (iblk7 V c 0 ⟨0, hn⟩) (iblk7 V c 1 ⟨0, hn⟩) (iblk7 V c 2 ⟨0, hn⟩) (iblk7 V c 3 ⟨0, hn⟩) (k7_pay2 (F := Ideal)) j z).trans ?_
    rw [pay7_2_apply]
    refine (zero_add _).trans ?_
    refine Eq.trans ?_ (Finset.sum_range_one _).symm
    exact laneSum_iblk7 V c ⟨0, hn⟩ j
  | n + 1, hn => by
    have hB : ¬(⟨n + 1, hn⟩ : Fin cfg7.N).val = 0 := Nat.succ_ne_zero n
    refine (congrFun (outsAt7_5_B V c ⟨n + 1, hn⟩ hB) (ix2 j z)).trans ?_
    refine (pay7_6_apply (iblk7 V c 0 ⟨n + 1, hn⟩) (iblk7 V c 1 ⟨n + 1, hn⟩) (iblk7 V c 2 ⟨n + 1, hn⟩) (iblk7 V c 3 ⟨n + 1, hn⟩) (outsAt7_5 V c n (Nat.lt_of_succ_lt hn)) j z).trans ?_
    rw [Finset.sum_range_succ]
    exact congrArg₂ (· + ·) (outsAt7_5_sum c j z n (Nat.lt_of_succ_lt hn)) (laneSum_iblk7 V c ⟨n + 1, hn⟩ j)

/-- An index of the sum array is in point t's block iff each coordinate is in the block's range on its axis. -/
theorem mem_blk7_5 (t : Fin cfg7.N) (i : S256x1.Idx) :
    i ∈ ((cfg7.win 5).blk t).view.set ↔ ∀ a : Fin 2, win7_5.index t a * S256x1.size a ≤ (i a).val
      ∧ (i a).val < win7_5.index t a * S256x1.size a + S256x1.size a := by
  show i ∈ ((View.whole main_v95_1).slice (win7_5.rect t)).set ↔ _
  rw [View.set_slice_whole, Rect.mem_set_unit]
  exact Iff.rfl

/-- The one write-back, after the last point, writes the sum over all images and all lanes. -/
theorem Rflushed7_5_eq (c : Dev nD) (t : Fin cfg7.N) (hf : (cfg7.win 5).flush t = true) :
    (dat7 V c).flushed 5 t = ((cfg7.win 5).blk t).view.read (Elt Ideal) (RG7_5 (V c main_v80_0) (V c main_v91) (V c main_v94) (V c main_arg15)) := by
  have hN : cfg7.N = 128 := N_7
  have hl : t.val = 127 := by have h1 := (flush7_5 t).mp hf; have h2 := t.isLt; omega
  show (cfg7.win 5).cut (grid7.coords t) ((dat7 V c).after 5 t) = _
  rw [after7_5]
  obtain ⟨-, -, -, -, -, -, -, -, -, -, -, -, e0, e1, -, -⟩ := idx7 t
  funext j
  have hj0 : (j 0).val < 256 := (j 0).isLt
  have hj1 : (j 1).val < 1 := (j 1).isLt
  have hx : (cfg7.win 5).xinj (grid7.coords t) j = ix2 (⟨(j 0).val, hj0⟩ : Fin 256) (⟨(j 1).val, hj1⟩ : Fin 1) :=
    funext fun a => by match a with | ⟨0, _⟩ => rfl | ⟨1, _⟩ => rfl
  show outsAt7_5 V c t.val t.isLt ((cfg7.win 5).xinj (grid7.coords t) j)
    = RG7_5 (V c main_v80_0) (V c main_v91) (V c main_v94) (V c main_arg15) (((cfg7.win 5).blk t).view.emb j)
  rw [hx]
  refine (outsAt7_5_sum V c ⟨(j 0).val, hj0⟩ ⟨(j 1).val, hj1⟩ t.val t.isLt).trans ?_
  rw [hl]
  refine (sum_points7 _).trans ?_
  have h0 : ((((cfg7.win 5).blk t).view.emb j) 0).val = (j 0).val := by
    show win7_5.index t 0 * 256 + 1 * (j 0).val = (j 0).val; rw [e0]; omega
  exact (RG7_5_at (V c main_v80_0) (V c main_v91) (V c main_v94) (V c main_arg15) (((cfg7.win 5).blk t).view.emb j) ⟨(j 0).val, hj0⟩ h0).symm

/-- The sum array after the region. Its one block is the whole array, written back after the last point. -/
theorem Rfinal7_5 (c : Dev nD) : (dat7 V c).arrAt 5 cfg7.N = RG7_5 (V c main_v80_0) (V c main_v91) (V c main_v94) (V c main_arg15) :=
  (dat7 V c).arrAt_eq_of_cover 5 _ (fun t hf => Rflushed7_5_eq V c t hf) fun i => by
    have hi0 : (i 0).val < 256 := (i 0).isLt
    have hi1 : (i 1).val < 1 := (i 1).isLt
    have hN : cfg7.N = 128 := N_7
    obtain ⟨t, ht⟩ : ∃ t : Fin cfg7.N, t.val = 127 := ⟨⟨127, by rw [hN]; omega⟩, rfl⟩
    obtain ⟨-, -, -, -, -, -, -, -, -, -, -, -, e0, e1, -, -⟩ := idx7 t
    refine ⟨t, (flush7_5 t).mpr (by rw [ht]), ?_⟩
    rw [mem_blk7_5]
    intro a
    match a with
    | ⟨0, _⟩ => show win7_5.index t 0 * 256 ≤ (i 0).val ∧ (i 0).val < win7_5.index t 0 * 256 + 256; rw [e0]; omega
    | ⟨1, _⟩ => show win7_5.index t 1 * 1 ≤ (i 1).val ∧ (i 1).val < win7_5.index t 1 * 1 + 1; rw [e1]; omega

/-- After point n the sum of squares accumulator holds, at channel j, the sum of the contributions of the points 0, …, n:
    the zeros stored at the first point add nothing, and each later point adds its own lanes to what the point
    before left. -/
theorem outsAt7_6_sum (c : Dev nD) (j : Fin 256) (z : Fin 1) : ∀ (n : ℕ) (hn : n < cfg7.N),
    outsAt7_6 V c n hn (ix2 j z) = ∑ m ∈ Finset.range (n + 1), ptR7 (fun n L => yR7 (V c main_v80_0) (V c main_v91) (V c main_v94) (V c main_arg15) n j L * yR7 (V c main_v80_0) (V c main_v91) (V c main_v94) (V c main_arg15) n j L) m
  | 0, hn => by
    refine (congrFun (outsAt7_6_A V c ⟨0, hn⟩ rfl) (ix2 j z)).trans ?_
    refine (pay7_1_acc_apply (iblk7 V c 0 ⟨0, hn⟩) (iblk7 V c 1 ⟨0, hn⟩) (iblk7 V c 2 ⟨0, hn⟩) (iblk7 V c 3 ⟨0, hn⟩) (k7_pay3 (F := Ideal)) j z).trans ?_
    rw [pay7_3_apply]
    refine (zero_add _).trans ?_
    refine Eq.trans ?_ (Finset.sum_range_one _).symm
    exact laneSumSq_iblk7 V c ⟨0, hn⟩ j
  | n + 1, hn => by
    have hB : ¬(⟨n + 1, hn⟩ : Fin cfg7.N).val = 0 := Nat.succ_ne_zero n
    refine (congrFun (outsAt7_6_B V c ⟨n + 1, hn⟩ hB) (ix2 j z)).trans ?_
    refine (pay7_1_acc_apply (iblk7 V c 0 ⟨n + 1, hn⟩) (iblk7 V c 1 ⟨n + 1, hn⟩) (iblk7 V c 2 ⟨n + 1, hn⟩) (iblk7 V c 3 ⟨n + 1, hn⟩) (outsAt7_6 V c n (Nat.lt_of_succ_lt hn)) j z).trans ?_
    rw [Finset.sum_range_succ]
    exact congrArg₂ (· + ·) (outsAt7_6_sum c j z n (Nat.lt_of_succ_lt hn)) (laneSumSq_iblk7 V c ⟨n + 1, hn⟩ j)

/-- An index of the sum of squares array is in point t's block iff each coordinate is in the block's range on its axis. -/
theorem mem_blk7_6 (t : Fin cfg7.N) (i : S256x1.Idx) :
    i ∈ ((cfg7.win 6).blk t).view.set ↔ ∀ a : Fin 2, win7_6.index t a * S256x1.size a ≤ (i a).val
      ∧ (i a).val < win7_6.index t a * S256x1.size a + S256x1.size a := by
  show i ∈ ((View.whole main_v95_2).slice (win7_6.rect t)).set ↔ _
  rw [View.set_slice_whole, Rect.mem_set_unit]
  exact Iff.rfl

/-- The one write-back, after the last point, writes the sum of squares over all images and all lanes. -/
theorem Rflushed7_6_eq (c : Dev nD) (t : Fin cfg7.N) (hf : (cfg7.win 6).flush t = true) :
    (dat7 V c).flushed 6 t = ((cfg7.win 6).blk t).view.read (Elt Ideal) (RG7_6 (V c main_v80_0) (V c main_v91) (V c main_v94) (V c main_arg15)) := by
  have hN : cfg7.N = 128 := N_7
  have hl : t.val = 127 := by have h1 := (flush7_6 t).mp hf; have h2 := t.isLt; omega
  show (cfg7.win 6).cut (grid7.coords t) ((dat7 V c).after 6 t) = _
  rw [after7_6]
  obtain ⟨-, -, -, -, -, -, -, -, -, -, -, -, -, -, e0, e1⟩ := idx7 t
  funext j
  have hj0 : (j 0).val < 256 := (j 0).isLt
  have hj1 : (j 1).val < 1 := (j 1).isLt
  have hx : (cfg7.win 6).xinj (grid7.coords t) j = ix2 (⟨(j 0).val, hj0⟩ : Fin 256) (⟨(j 1).val, hj1⟩ : Fin 1) :=
    funext fun a => by match a with | ⟨0, _⟩ => rfl | ⟨1, _⟩ => rfl
  show outsAt7_6 V c t.val t.isLt ((cfg7.win 6).xinj (grid7.coords t) j)
    = RG7_6 (V c main_v80_0) (V c main_v91) (V c main_v94) (V c main_arg15) (((cfg7.win 6).blk t).view.emb j)
  rw [hx]
  refine (outsAt7_6_sum V c ⟨(j 0).val, hj0⟩ ⟨(j 1).val, hj1⟩ t.val t.isLt).trans ?_
  rw [hl]
  refine (sum_points7 _).trans ?_
  have h0 : ((((cfg7.win 6).blk t).view.emb j) 0).val = (j 0).val := by
    show win7_6.index t 0 * 256 + 1 * (j 0).val = (j 0).val; rw [e0]; omega
  exact (RG7_6_at (V c main_v80_0) (V c main_v91) (V c main_v94) (V c main_arg15) (((cfg7.win 6).blk t).view.emb j) ⟨(j 0).val, hj0⟩ h0).symm

/-- The sum of squares array after the region. Its one block is the whole array, written back after the last point. -/
theorem Rfinal7_6 (c : Dev nD) : (dat7 V c).arrAt 6 cfg7.N = RG7_6 (V c main_v80_0) (V c main_v91) (V c main_v94) (V c main_arg15) :=
  (dat7 V c).arrAt_eq_of_cover 6 _ (fun t hf => Rflushed7_6_eq V c t hf) fun i => by
    have hi0 : (i 0).val < 256 := (i 0).isLt
    have hi1 : (i 1).val < 1 := (i 1).isLt
    have hN : cfg7.N = 128 := N_7
    obtain ⟨t, ht⟩ : ∃ t : Fin cfg7.N, t.val = 127 := ⟨⟨127, by rw [hN]; omega⟩, rfl⟩
    obtain ⟨-, -, -, -, -, -, -, -, -, -, -, -, -, -, e0, e1⟩ := idx7 t
    refine ⟨t, (flush7_6 t).mpr (by rw [ht]), ?_⟩
    rw [mem_blk7_6]
    intro a
    match a with
    | ⟨0, _⟩ => show win7_6.index t 0 * 256 ≤ (i 0).val ∧ (i 0).val < win7_6.index t 0 * 256 + 256; rw [e0]; omega
    | ⟨1, _⟩ => show win7_6.index t 1 * 1 ≤ (i 1).val ∧ (i 1).val < win7_6.index t 1 * 1 + 1; rw [e1]; omega

end Cert.ReferenceIdeal.Val

end
-- ==== Proof.RefV8.lean ====
import proofs.«159567_g2000302752657622_pallasbulk_725_3_alg».proof.Proof.RefR8
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)

/-! # The value of the last pointwise region:  out = y · scale + shift + res

The region's output array, as one function of the four arrays it reads, index by index. -/

/-- The output array from the arrays of y, res, the per-channel scale and the per-channel shift: at image `n`, channel
    `ch`, lane `l` it is  y[n, ch, l] · scale[ch] + shift[ch] + res[n, ch, l]. -/
def RG8_4 (y3 res : S64x256x4096.Idx → EReal) (sc sh : S256x1.Idx → EReal) : S64x256x4096.Idx → EReal :=
  fun i => y3 i * sc (ix2 (i 1) 0) + sh (ix2 (i 1) 0) + res i

/-- Reals in, reals out: a product and two sums of reals. -/
theorem RG8_4_real (y3 res : S64x256x4096.Idx → EReal) (sc sh : S256x1.Idx → EReal)
    (hy : ∀ i, ∃ r : ℝ, y3 i = r) (hres : ∀ i, ∃ r : ℝ, res i = r) (hsc : ∀ i, ∃ r : ℝ, sc i = r) (hsh : ∀ i, ∃ r : ℝ, sh i = r) :
    ∀ i, ∃ r : ℝ, RG8_4 y3 res sc sh i = r := fun i => by
  obtain ⟨a, ha⟩ := hy i
  obtain ⟨b, hb⟩ := hsc (ix2 (i 1) 0)
  obtain ⟨d, hd⟩ := hsh (ix2 (i 1) 0)
  obtain ⟨e, he⟩ := hres i
  refine ⟨a * b + d + e, ?_⟩
  unfold RG8_4
  rw [ha, hb, hd, he, EReal.coe_add, EReal.coe_add, EReal.coe_mul]

/-! ## The payload at an index -/

private theorem hz3 : (![0, 0, 0] : Fin 3 → Nat) = fun _ => 0 := funext fun a => by fin_cases a <;> rfl
private theorem hz2 : (![0, 0] : Fin 2 → Nat) = fun _ => 0 := funext fun a => by fin_cases a <;> rfl

/-- A column `[a, 1]` broadcast along the lanes to `[a, b]` reads, at `(p, l)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The stored value at channel `p`, lane `q` of the block:  y · scale[p] + shift[p] + res. -/
theorem pay8_1_apply (v0 : Vec Ideal S1x256x2048 .f32) (v2 v6 : Vec Ideal S256x1 .f32) (v10 : Vec Ideal S1x256x2048 .f32)
    (u : Fin 1) (p : Fin 256) (q : Fin 2048) :
    k8_pay1 v0 v2 v6 v10 (ix3 u p q)
      = v0 (ix3 (0 : Fin 1) p q) * v2 (ix2 p (0 : Fin 1)) + v6 (ix2 p (0 : Fin 1)) + v10 (ix3 (0 : Fin 1) p q) := by
  unfold k8_pay1
  refine (shapeCast_ab_1ab_apply _ _ u p q).trans ?_
  rw [addf_apply, addf_apply, mulf_apply]
  refine congrArg₂ (· + ·) (congrArg₂ (· + ·) (congrArg₂ (· * ·) ?_ ?_) ?_) ?_
  · exact shapeCast_1ab_ab_apply v0 _ p q
  · exact (broadcastTo_a1_ab_apply _ _ p q).trans (congrFun (shapeCast_self v2 _) _)
  · exact (broadcastTo_a1_ab_apply _ _ p q).trans (congrFun (shapeCast_self v6 _) _)
  · exact shapeCast_1ab_ab_apply v10 _ p q

/-! ## Which buffer each window stages -/

theorem arrRef8_0 : Pipeline.arrRef spec8 0 = main_v95_0 := rfl
theorem arrRef8_1 : Pipeline.arrRef spec8 1 = main_v64 := rfl
theorem arrRef8_2 : Pipeline.arrRef spec8 2 = main_v106 := rfl
theorem arrRef8_3 : Pipeline.arrRef spec8 3 = main_v109 := rfl
theorem arrRef8_4 : Pipeline.arrRef spec8 4 = main_v110 := rfl

/-! ## From the blocks to the array -/

/-- The specification with the channel coordinate named. -/
theorem RG8_4_at (y3 res : S64x256x4096.Idx → EReal) (sc sh : S256x1.Idx → EReal) (i : S64x256x4096.Idx) (p : Fin 256)
    (hp : (i 1).val = p.val) : RG8_4 y3 res sc sh i = y3 i * sc (ix2 p (0 : Fin 1)) + sh (ix2 p (0 : Fin 1)) + res i := by
  obtain rfl : p = i 1 := Fin.ext hp.symm
  rfl

/-- The index maps over the grid's 128 points: point `t = 2 n + s` is image `n`, lane tile `s`; the per-channel
    columns are one block. -/
theorem idx8 : ∀ t : Fin cfg8.N,
    win8_0.index t (0 : Fin 3) = t.val / 2 ∧ win8_0.index t (1 : Fin 3) = 0 ∧ win8_0.index t (2 : Fin 3) = t.val % 2
    ∧ win8_1.index t (0 : Fin 3) = t.val / 2 ∧ win8_1.index t (1 : Fin 3) = 0 ∧ win8_1.index t (2 : Fin 3) = t.val % 2
    ∧ win8_2.index t (0 : Fin 2) = 0 ∧ win8_2.index t (1 : Fin 2) = 0
    ∧ win8_3.index t (0 : Fin 2) = 0 ∧ win8_3.index t (1 : Fin 2) = 0
    ∧ win8_4.index t (0 : Fin 3) = t.val / 2 ∧ win8_4.index t (1 : Fin 3) = 0 ∧ win8_4.index t (2 : Fin 3) = t.val % 2 :=
  (by decide +kernel : ∀ t : Fin grid8.N, _)

variable (V : (c : Dev nD) → (b : Ref sig .tc) → Buf (Elt Ideal) ((c : Thread nD τ).loc b))

/-- Window 0's block at point `t` is image `t / 2`, lanes `[2048 (t % 2), 2048 (t % 2) + 2048)` of y's array. -/
theorem iblk8_0_apply (c : Dev nD) (t : Fin cfg8.N) (x : S1x256x2048.Idx) (k : S64x256x4096.Idx)
    (hk0 : (k 0).val = t.val / 2) (hk1 : (k 1).val = (x 1).val) (hk2 : (k 2).val = t.val % 2 * 2048 + (x 2).val) :
    (iblk8 V c 0 t : Vec Ideal S1x256x2048 .f32) x = (V c main_v95_0 : S64x256x4096.Idx → EReal) k := by
  obtain ⟨e0, e1, e2, -⟩ := idx8 t
  have hx0 : (x 0).val < 1 := (x 0).isLt
  unfold iblk8
  rw [View.read_apply]
  show V c main_v95_0 _ = V c main_v95_0 _
  congr 1
  funext a
  apply Fin.ext
  match a with
  | ⟨0, _⟩ => show win8_0.index t 0 * 1 + 1 * (x 0).val = (k 0).val; rw [e0, hk0]; omega
  | ⟨1, _⟩ => show win8_0.index t 1 * 256 + 1 * (x 1).val = (k 1).val; rw [e1, hk1]; omega
  | ⟨2, _⟩ => show win8_0.index t 2 * 2048 + 1 * (x 2).val = (k 2).val; rw [e2, hk2]; omega

/-- Window 1's block at point `t` is the same part of res's array. -/
theorem iblk8_1_apply (c : Dev nD) (t : Fin cfg8.N) (x : S1x256x2048.Idx) (k : S64x256x4096.Idx)
    (hk0 : (k 0).val = t.val / 2) (hk1 : (k 1).val = (x 1).val) (hk2 : (k 2).val = t.val % 2 * 2048 + (x 2).val) :
    (iblk8 V c 1 t : Vec Ideal S1x256x2048 .f32) x = (V c main_v64 : S64x256x4096.Idx → EReal) k := by
  obtain ⟨-, -, -, e0, e1, e2, -⟩ := idx8 t
  have hx0 : (x 0).val < 1 := (x 0).isLt
  unfold iblk8
  rw [View.read_apply]
  show V c main_v64 _ = V c main_v64 _
  congr 1
  funext a
  apply Fin.ext
  match a with
  | ⟨0, _⟩ => show win8_1.index t 0 * 1 + 1 * (x 0).val = (k 0).val; rw [e0, hk0]; omega
  | ⟨1, _⟩ => show win8_1.index t 1 * 256 + 1 * (x 1).val = (k 1).val; rw [e1, hk1]; omega
  | ⟨2, _⟩ => show win8_1.index t 2 * 2048 + 1 * (x 2).val = (k 2).val; rw [e2, hk2]; omega

/-- Window 2's block is the whole scale column at every point. -/
theorem iblk8_2_apply (c : Dev nD) (t : Fin cfg8.N) (x : S256x1.Idx) :
    (iblk8 V c 2 t : Vec Ideal S256x1 .f32) x = (V c main_v106 : S256x1.Idx → EReal) x := by
  obtain ⟨-, -, -, -, -, -, e0, e1, -⟩ := idx8 t
  unfold iblk8
  rw [View.read_apply]
  show V c main_v106 _ = V c main_v106 _
  congr 1
  funext a
  apply Fin.ext
  match a with
  | ⟨0, _⟩ => show win8_2.index t 0 * 256 + 1 * (x 0).val = (x 0).val; rw [e0]; omega
  | ⟨1, _⟩ => show win8_2.index t 1 * 1 + 1 * (x 1).val = (x 1).val; rw [e1]; omega

/-- Window 3's block is the whole shift column at every point. -/
theorem iblk8_3_apply (c : Dev nD) (t : Fin cfg8.N) (x : S256x1.Idx) :
    (iblk8 V c 3 t : Vec Ideal S256x1 .f32) x = (V c main_v109 : S256x1.Idx → EReal) x := by
  obtain ⟨-, -, -, -, -, -, -, -, e0, e1, -⟩ := idx8 t
  unfold iblk8
  rw [View.read_apply]
  show V c main_v109 _ = V c main_v109 _
  congr 1
  funext a
  apply Fin.ext
  match a with
  | ⟨0, _⟩ => show win8_3.index t 0 * 256 + 1 * (x 0).val = (x 0).val; rw [e0]; omega
  | ⟨1, _⟩ => show win8_3.index t 1 * 1 + 1 * (x 1).val = (x 1).val; rw [e1]; omega

/-- What point `t` writes back is point `t`'s block of `RG8_4` of the four arrays the region finds. -/
theorem Rflushed8_4_eq (c : Dev nD) (t : Fin cfg8.N) :
    (dat8 V c).flushed 4 t = ((cfg8.win 4).blk t).view.read (Elt Ideal)
      (RG8_4 (V c main_v95_0) (V c main_v64) (V c main_v106) (V c main_v109)) := by
  show (cfg8.win 4).cut (grid8.coords t) ((dat8 V c).after 4 t) = _
  rw [after8_4]
  unfold out8_4
  rw [View.canon_unit_zero hz3]
  simp only [View.ld_unit_zero (S := S1x256x2048) hz3, View.ld_unit_zero (S := S256x1) hz2]
  obtain ⟨-, -, -, -, -, -, -, -, -, -, e0, e1, e2⟩ := idx8 t
  funext j
  have hj0 : (j 0).val < 1 := (j 0).isLt
  have hj1 : (j 1).val < 256 := (j 1).isLt
  have hj2 : (j 2).val < 2048 := (j 2).isLt
  have hx : (cfg8.win 4).xinj (grid8.coords t) j = ix3 (⟨(j 0).val, hj0⟩ : Fin 1) (⟨(j 1).val, hj1⟩ : Fin 256) (⟨(j 2).val, hj2⟩ : Fin 2048) :=
    funext fun a => by match a with | ⟨0, _⟩ => rfl | ⟨1, _⟩ => rfl | ⟨2, _⟩ => rfl
  show k8_pay1 (iblk8 V c 0 t) (iblk8 V c 2 t) (iblk8 V c 3 t) (iblk8 V c 1 t) ((cfg8.win 4).xinj (grid8.coords t) j)
    = RG8_4 (V c main_v95_0) (V c main_v64) (V c main_v106) (V c main_v109) (((cfg8.win 4).blk t).view.emb j)
  rw [hx]
  refine (pay8_1_apply (iblk8 V c 0 t) (iblk8 V c 2 t) (iblk8 V c 3 t) (iblk8 V c 1 t) ⟨(j 0).val, hj0⟩ ⟨(j 1).val, hj1⟩ ⟨(j 2).val, hj2⟩).trans ?_
  have h0 : ((((cfg8.win 4).blk t).view.emb j) 0).val = t.val / 2 := by
    show win8_4.index t 0 * 1 + 1 * (j 0).val = t.val / 2; rw [e0]; omega
  have h1 : ((((cfg8.win 4).blk t).view.emb j) 1).val = (j 1).val := by
    show win8_4.index t 1 * 256 + 1 * (j 1).val = (j 1).val; rw [e1]; omega
  have h2 : ((((cfg8.win 4).blk t).view.emb j) 2).val = t.val % 2 * 2048 + (j 2).val := by
    show win8_4.index t 2 * 2048 + 1 * (j 2).val = t.val % 2 * 2048 + (j 2).val; rw [e2]; omega
  refine Eq.symm ((RG8_4_at (V c main_v95_0) (V c main_v64) (V c main_v106) (V c main_v109) (((cfg8.win 4).blk t).view.emb j) ⟨(j 1).val, hj1⟩ h1).trans ?_)
  refine congrArg₂ (· + ·) (congrArg₂ (· + ·) (congrArg₂ (· * ·) ?_ ?_) ?_) ?_
  · exact (iblk8_0_apply V c t (ix3 (0 : Fin 1) (⟨(j 1).val, hj1⟩ : Fin 256) (⟨(j 2).val, hj2⟩ : Fin 2048)) (((cfg8.win 4).blk t).view.emb j) h0 h1 h2).symm
  · exact (iblk8_2_apply V c t _).symm
  · exact (iblk8_3_apply V c t _).symm
  · exact (iblk8_1_apply V c t (ix3 (0 : Fin 1) (⟨(j 1).val, hj1⟩ : Fin 256) (⟨(j 2).val, hj2⟩ : Fin 2048)) (((cfg8.win 4).blk t).view.emb j) h0 h1 h2).symm

/-- An index of the output array is in point `t`'s block iff each coordinate is in the block's range on its axis. -/
theorem mem_blk8_4 (t : Fin cfg8.N) (i : S64x256x4096.Idx) :
    i ∈ ((cfg8.win 4).blk t).view.set ↔ ∀ a : Fin 3, win8_4.index t a * S1x256x2048.size a ≤ (i a).val
      ∧ (i a).val < win8_4.index t a * S1x256x2048.size a + S1x256x2048.size a := by
  show i ∈ ((View.whole main_v110).slice (win8_4.rect t)).set ↔ _
  rw [View.set_slice_whole, Rect.mem_set_unit]
  exact Iff.rfl

/-- The output array after the region: `RG8_4` of the four arrays the region finds. Index (n, ch, l) lies in the
    block of point 2 n + l / 2048, and every point writes its block back. -/
theorem Rfinal8_4 (c : Dev nD) :
    (dat8 V c).arrAt 4 cfg8.N = RG8_4 (V c main_v95_0) (V c main_v64) (V c main_v106) (V c main_v109) :=
  (dat8 V c).arrAt_eq_of_cover 4 _ (fun t _ => Rflushed8_4_eq V c t) fun i => by
    have hi0 : (i 0).val < 64 := (i 0).isLt
    have hi1 : (i 1).val < 256 := (i 1).isLt
    have hi2 : (i 2).val < 4096 := (i 2).isLt
    have hN : cfg8.N = 128 := N_8
    obtain ⟨t, ht⟩ : ∃ t : Fin cfg8.N, t.val = 2 * (i 0).val + (i 2).val / 2048 := ⟨⟨2 * (i 0).val + (i 2).val / 2048, by rw [hN]; omega⟩, rfl⟩
    obtain ⟨-, -, -, -, -, -, -, -, -, -, e0, e1, e2⟩ := idx8 t
    refine ⟨t, flush8_4 t, ?_⟩
    rw [mem_blk8_4]
    intro a
    match a with
    | ⟨0, _⟩ => show win8_4.index t 0 * 1 ≤ (i 0).val ∧ (i 0).val < win8_4.index t 0 * 1 + 1; rw [e0, ht]; omega
    | ⟨1, _⟩ => show win8_4.index t 1 * 256 ≤ (i 1).val ∧ (i 1).val < win8_4.index t 1 * 256 + 256; rw [e1]; omega
    | ⟨2, _⟩ => show win8_4.index t 2 * 2048 ≤ (i 2).val ∧ (i 2).val < win8_4.index t 2 * 2048 + 2048; rw [e2, ht]; omega

end Cert.ReferenceIdeal.Val
-- ==== Proof.RefDefs.lean ====
import proofs.«159567_g2000302752657622_pallasbulk_725_3_alg».proof.Proof.Args
import proofs.«159567_g2000302752657622_pallasbulk_725_3_alg».proof.Proof.RefV0
import proofs.«159567_g2000302752657622_pallasbulk_725_3_alg».proof.Proof.RefV1s
import proofs.«159567_g2000302752657622_pallasbulk_725_3_alg».proof.Proof.RefV2
import proofs.«159567_g2000302752657622_pallasbulk_725_3_alg».proof.Proof.RefV3
import proofs.«159567_g2000302752657622_pallasbulk_725_3_alg».proof.Proof.RefV4
import proofs.«159567_g2000302752657622_pallasbulk_725_3_alg».proof.Proof.RefV5
import proofs.«159567_g2000302752657622_pallasbulk_725_3_alg».proof.Proof.RefV6d
import proofs.«159567_g2000302752657622_pallasbulk_725_3_alg».proof.Proof.RefV7
import proofs.«159567_g2000302752657622_pallasbulk_725_3_alg».proof.Proof.RefV8
import proofs.«159567_g2000302752657622_pallasbulk_725_3_alg».proof.Proof.LibBnChain

/-! # The reference's buffers as functions of the arguments

Every buffer of the reference's pipeline that a later item reads — each region's output arrays and each host
stretch's results — named as a function of the record of the twenty-four argument arrays: a region's output is the
region's whole-array function of its inputs' names, a host stretch's result is the stretch's operations applied to
the names of what it reads. -/

set_option maxRecDepth 16384

noncomputable section

namespace Cert.ReferenceIdeal.Val

open Cert.ReferenceIdeal Cert.ReferenceIdeal.Gen
open Idealize.ShloMosaic Idealize.ShloMosaic.TcCoe
open Cert.Lib.BnChain

/-! ## The buffers as functions of the arguments -/

/-- The input images with each image's positions flattened into lanes. -/
def rx (a : Cert.Args) : S64x128x1024.Idx → EReal :=
  shapeCast S64x128x1024 (a.a0 : S64x128x32x32.Idx → EReal) shapeCasts_S64x128x32x32_S64x128x1024
/-- Region 0's window 2, `main_v1_0`. -/
def ry1 (a : Cert.Args) : S64x64x1024.Idx → EReal :=
  RG0_2 (rx a) (a.a1)
/-- Region 0's window 3, `main_v1_1`. -/
def rS1 (a : Cert.Args) : S64x1.Idx → EReal :=
  RG0_3 (rx a) (a.a1)
/-- Region 0's window 4, `main_v1_2`. -/
def rQ1 (a : Cert.Args) : S64x1.Idx → EReal :=
  RG0_4 (rx a) (a.a1)
/-- The batch-normalisation scale column from `main_v1_1`, `main_v1_2` and the scale argument. -/
def rsc1 (a : Cert.Args) : S64x1.Idx → EReal :=
  bnScale (F := Ideal) S64x1 bcast_S_S64x1 0x47800000#32 (rS1 a) (rQ1 a) (shapeCast S64x1 (a.a5 : S64.Idx → EReal) shapeCasts_S64_S64x1)
/-- The batch-normalisation shift column from the same sums, the scale and the shift arguments. -/
def rsh1 (a : Cert.Args) : S64x1.Idx → EReal :=
  bnShift (F := Ideal) S64x1 bcast_S_S64x1 0x47800000#32 (rS1 a) (rQ1 a) (shapeCast S64x1 (a.a5 : S64.Idx → EReal) shapeCasts_S64_S64x1) (shapeCast S64x1 (a.a6 : S64.Idx → EReal) shapeCasts_S64_S64x1)
/-- Region 1's window 5, `main_v16_0`. -/
def ry2 (a : Cert.Args) : S64x64x4096.Idx → EReal :=
  RG1_5 (ry1 a) (rsc1 a) (rsh1 a) (a.a3) (a.a4)
/-- Region 1's window 6, `main_v16_1`. -/
def rS2 (a : Cert.Args) : S64x1.Idx → EReal :=
  RG1_6 (ry1 a) (rsc1 a) (rsh1 a) (a.a3) (a.a4)
/-- Region 1's window 7, `main_v16_2`. -/
def rQ2 (a : Cert.Args) : S64x1.Idx → EReal :=
  RG1_7 (ry1 a) (rsc1 a) (rsh1 a) (a.a3) (a.a4)
/-- The batch-normalisation scale column from `main_v16_1`, `main_v16_2` and the scale argument. -/
def rsc2 (a : Cert.Args) : S64x1.Idx → EReal :=
  bnScale (F := Ideal) S64x1 bcast_S_S64x1 0x48800000#32 (rS2 a) (rQ2 a) (shapeCast S64x1 (a.a7 : S64.Idx → EReal) shapeCasts_S64_S64x1)
/-- The batch-normalisation shift column from the same sums, the scale and the shift arguments. -/
def rsh2 (a : Cert.Args) : S64x1.Idx → EReal :=
  bnShift (F := Ideal) S64x1 bcast_S_S64x1 0x48800000#32 (rS2 a) (rQ2 a) (shapeCast S64x1 (a.a7 : S64.Idx → EReal) shapeCasts_S64_S64x1) (shapeCast S64x1 (a.a8 : S64.Idx → EReal) shapeCasts_S64_S64x1)
/-- Region 2's window 4, `main_v31_0`. -/
def ry3 (a : Cert.Args) : S64x256x4096.Idx → EReal :=
  RG2_4 (ry2 a) (rsc2 a) (rsh2 a) (a.a2)
/-- Region 2's window 5, `main_v31_1`. -/
def rS3 (a : Cert.Args) : S256x1.Idx → EReal :=
  RG2_5 (ry2 a) (rsc2 a) (rsh2 a) (a.a2)
/-- Region 2's window 6, `main_v31_2`. -/
def rQ3 (a : Cert.Args) : S256x1.Idx → EReal :=
  RG2_6 (ry2 a) (rsc2 a) (rsh2 a) (a.a2)
/-- The batch-normalisation scale column from `main_v31_1`, `main_v31_2` and the scale argument. -/
def rsc3 (a : Cert.Args) : S256x1.Idx → EReal :=
  bnScale (F := Ideal) S256x1 bcast_S_S256x1 0x48800000#32 (rS3 a) (rQ3 a) (shapeCast S256x1 (a.a9 : S256.Idx → EReal) shapeCasts_S256_S256x1)
/-- The batch-normalisation shift column from the same sums, the scale and the shift arguments. -/
def rsh3 (a : Cert.Args) : S256x1.Idx → EReal :=
  bnShift (F := Ideal) S256x1 bcast_S_S256x1 0x48800000#32 (rS3 a) (rQ3 a) (shapeCast S256x1 (a.a9 : S256.Idx → EReal) shapeCasts_S256_S256x1) (shapeCast S256x1 (a.a10 : S256.Idx → EReal) shapeCasts_S256_S256x1)
/-- Region 3's window 2, `main_v46_0`. -/
def rsd (a : Cert.Args) : S64x256x1024.Idx → EReal :=
  RG3_2 (rx a) (a.a11)
/-- Region 3's window 3, `main_v46_1`. -/
def rSs (a : Cert.Args) : S256x1.Idx → EReal :=
  RG3_3 (rx a) (a.a11)
/-- Region 3's window 4, `main_v46_2`. -/
def rQs (a : Cert.Args) : S256x1.Idx → EReal :=
  RG3_4 (rx a) (a.a11)
/-- The batch-normalisation scale column from `main_v46_1`, `main_v46_2` and the scale argument. -/
def rscs (a : Cert.Args) : S256x1.Idx → EReal :=
  bnScale (F := Ideal) S256x1 bcast_S_S256x1 0x48800000#32 (rSs a) (rQs a) (shapeCast S256x1 (a.a12 : S256.Idx → EReal) shapeCasts_S256_S256x1)
/-- The batch-normalisation shift column from the same sums, the scale and the shift arguments. -/
def rshs (a : Cert.Args) : S256x1.Idx → EReal :=
  bnShift (F := Ideal) S256x1 bcast_S_S256x1 0x48800000#32 (rSs a) (rQs a) (shapeCast S256x1 (a.a12 : S256.Idx → EReal) shapeCasts_S256_S256x1) (shapeCast S256x1 (a.a13 : S256.Idx → EReal) shapeCasts_S256_S256x1)
/-- Region 4's window 6, `main_v61`. -/
def rout_ph (a : Cert.Args) : S64x256x4096.Idx → EReal :=
  RG4_6 (ry3 a) (rsd a) (rsc3 a) (rsh3 a) (rscs a) (rshs a)
/-- The first block's result un-interleaved: split into phases and positions, the phase axes moved inside the
    position axes, flattened again. -/
def rout0 (a : Cert.Args) : S64x256x4096.Idx → EReal :=
  shapeCast S64x256x4096
    (transpose S64x256x32x2x32x2 [0, 1, 4, 2, 5, 3]
      (shapeCast S64x256x2x2x32x32 (rout_ph a) shapeCasts_S64x256x4096_S64x256x2x2x32x32)
      transposes_S64x256x2x2x32x32_S64x256x32x2x32x2_0_1_4_2_5_3)
    shapeCasts_S64x256x32x2x32x2_S64x256x4096
/-- Region 5's window 2, `main_v65_0`. -/
def ry11 (a : Cert.Args) : S64x64x4096.Idx → EReal :=
  RG5_2 (rout0 a) (a.a14)
/-- Region 5's window 3, `main_v65_1`. -/
def rS11 (a : Cert.Args) : S64x1.Idx → EReal :=
  RG5_3 (rout0 a) (a.a14)
/-- Region 5's window 4, `main_v65_2`. -/
def rQ11 (a : Cert.Args) : S64x1.Idx → EReal :=
  RG5_4 (rout0 a) (a.a14)
/-- The batch-normalisation scale column from `main_v65_1`, `main_v65_2` and the scale argument. -/
def rsc11 (a : Cert.Args) : S64x1.Idx → EReal :=
  bnScale (F := Ideal) S64x1 bcast_S_S64x1 0x48800000#32 (rS11 a) (rQ11 a) (shapeCast S64x1 (a.a18 : S64.Idx → EReal) shapeCasts_S64_S64x1)
/-- The batch-normalisation shift column from the same sums, the scale and the shift arguments. -/
def rsh11 (a : Cert.Args) : S64x1.Idx → EReal :=
  bnShift (F := Ideal) S64x1 bcast_S_S64x1 0x48800000#32 (rS11 a) (rQ11 a) (shapeCast S64x1 (a.a18 : S64.Idx → EReal) shapeCasts_S64_S64x1) (shapeCast S64x1 (a.a19 : S64.Idx → EReal) shapeCasts_S64_S64x1)
/-- Region 6's window 5, `main_v80_0`. -/
def ry2b (a : Cert.Args) : S64x64x4096.Idx → EReal :=
  RG6_5 (ry11 a) (rsc11 a) (rsh11 a) (a.a16) (a.a17)
/-- Region 6's window 6, `main_v80_1`. -/
def rS2b (a : Cert.Args) : S64x1.Idx → EReal :=
  RG6_6 (ry11 a) (rsc11 a) (rsh11 a) (a.a16) (a.a17)
/-- Region 6's window 7, `main_v80_2`. -/
def rQ2b (a : Cert.Args) : S64x1.Idx → EReal :=
  RG6_7 (ry11 a) (rsc11 a) (rsh11 a) (a.a16) (a.a17)
/-- The batch-normalisation scale column from `main_v80_1`, `main_v80_2` and the scale argument. -/
def rsc2b (a : Cert.Args) : S64x1.Idx → EReal :=
  bnScale (F := Ideal) S64x1 bcast_S_S64x1 0x48800000#32 (rS2b a) (rQ2b a) (shapeCast S64x1 (a.a20 : S64.Idx → EReal) shapeCasts_S64_S64x1)
/-- The batch-normalisation shift column from the same sums, the scale and the shift arguments. -/
def rsh2b (a : Cert.Args) : S64x1.Idx → EReal :=
  bnShift (F := Ideal) S64x1 bcast_S_S64x1 0x48800000#32 (rS2b a) (rQ2b a) (shapeCast S64x1 (a.a20 : S64.Idx → EReal) shapeCasts_S64_S64x1) (shapeCast S64x1 (a.a21 : S64.Idx → EReal) shapeCasts_S64_S64x1)
/-- Region 7's window 4, `main_v95_0`. -/
def ry3b (a : Cert.Args) : S64x256x4096.Idx → EReal :=
  RG7_4 (ry2b a) (rsc2b a) (rsh2b a) (a.a15)
/-- Region 7's window 5, `main_v95_1`. -/
def rS3b (a : Cert.Args) : S256x1.Idx → EReal :=
  RG7_5 (ry2b a) (rsc2b a) (rsh2b a) (a.a15)
/-- Region 7's window 6, `main_v95_2`. -/
def rQ3b (a : Cert.Args) : S256x1.Idx → EReal :=
  RG7_6 (ry2b a) (rsc2b a) (rsh2b a) (a.a15)
/-- The batch-normalisation scale column from `main_v95_1`, `main_v95_2` and the scale argument. -/
def rsc3b (a : Cert.Args) : S256x1.Idx → EReal :=
  bnScale (F := Ideal) S256x1 bcast_S_S256x1 0x48800000#32 (rS3b a) (rQ3b a) (shapeCast S256x1 (a.a22 : S256.Idx → EReal) shapeCasts_S256_S256x1)
/-- The batch-normalisation shift column from the same sums, the scale and the shift arguments. -/
def rsh3b (a : Cert.Args) : S256x1.Idx → EReal :=
  bnShift (F := Ideal) S256x1 bcast_S_S256x1 0x48800000#32 (rS3b a) (rQ3b a) (shapeCast S256x1 (a.a22 : S256.Idx → EReal) shapeCasts_S256_S256x1) (shapeCast S256x1 (a.a23 : S256.Idx → EReal) shapeCasts_S256_S256x1)
/-- Region 8's window 4, `main_v110`. -/
def rout (a : Cert.Args) : S64x256x4096.Idx → EReal :=
  RG8_4 (ry3b a) (rout0 a) (rsc3b a) (rsh3b a)
/-- The result: the last region's output with its lanes unflattened into rows and columns. -/
def rResult (a : Cert.Args) : (⟨4, ![64, 256, 64, 64]⟩ : Shape).Idx → EReal :=
  shapeCast S64x256x64x64 (rout a) shapeCasts_S64x256x4096_S64x256x64x64

end Cert.ReferenceIdeal.Val

end
-- ==== Proof.RefWire.lean ====
import proofs.«159567_g2000302752657622_pallasbulk_725_3_alg».proof.Proof.RefRunW

/-! # Where each staged buffer of the reference was last written

For every region and every input window: the contents the region finds in the window's array, traced back through
the items that leave that buffer alone to the item that wrote it — the launch memory for an argument, an earlier
region's output array at the fold of its write-backs, or a host stretch's result. Likewise for each buffer a host
stretch reads. -/

set_option maxRecDepth 16384

noncomputable section

namespace Cert.ReferenceIdeal.Val

open Cert.ReferenceIdeal Cert.ReferenceIdeal.Gen
open Idealize.ShloMosaic Idealize.ShloMosaic.TcCoe

variable {F : FTy → Type} [FloatOps F]

variable (m : (ℓ : Loc nD τ sig) → Buf (Elt F) ℓ) (ρ : Dev nD → PrngReg)

/-! ## Region 0's input windows -/

/-- Region 0's window 0 stages `main_v0`, a result of the first host stretch. -/
theorem rwire0_0 (c : Dev nD) :
    Hand.V1 m ρ c main_v0 = StableHlo.after (hostOps0 (F := F)) (Hand.W0 m ρ c) (Proc.devRef .tc main_v0) :=
  rfl

/-- Region 0's window 1 stages `main_arg1`, an argument: it holds what the launch memory holds, no item before writing it. -/
theorem rwire0_1 (c : Dev nD) :
    Hand.V1 m ρ c main_arg1 = m ((c : Thread nD τ).loc main_arg1) :=
  (Hand.W1_of m ρ c main_arg1 (by decide)).trans <|
    rfl

/-! ## Region 1's input windows -/

/-- Region 1's window 0 stages `main_v1_0`, the array of region 0's window 2, an output, which no item between writes. -/
theorem rwire1_0 (c : Dev nD) :
    Hand.V3 m ρ c main_v1_0 = (Hand.dat0 (Hand.V1 m ρ) c).arrAt 2 cfg0.N :=
  (Hand.W3_of m ρ c main_v1_0 (by decide)).trans <|
    (Hand.W2_arr m ρ c 2)

/-- Region 1's window 1 stages `main_v12`, a result of the second host stretch. -/
theorem rwire1_1 (c : Dev nD) :
    Hand.V3 m ρ c main_v12 = StableHlo.after (hostOps1 (F := F)) (Hand.W2 m ρ c) (Proc.devRef .tc main_v12) :=
  rfl

/-- Region 1's window 2 stages `main_v15`, a result of the second host stretch. -/
theorem rwire1_2 (c : Dev nD) :
    Hand.V3 m ρ c main_v15 = StableHlo.after (hostOps1 (F := F)) (Hand.W2 m ρ c) (Proc.devRef .tc main_v15) :=
  rfl

/-- Region 1's window 3 stages `main_arg3`, an argument: it holds what the launch memory holds, no item before writing it. -/
theorem rwire1_3 (c : Dev nD) :
    Hand.V3 m ρ c main_arg3 = m ((c : Thread nD τ).loc main_arg3) :=
  (Hand.W3_of m ρ c main_arg3 (by decide)).trans <|
    (Hand.W2_of_ne m ρ c main_arg3 (by decide)).trans <|
    (Hand.W1_of m ρ c main_arg3 (by decide)).trans <|
    rfl

/-- Region 1's window 4 stages `main_arg4`, an argument: it holds what the launch memory holds, no item before writing it. -/
theorem rwire1_4 (c : Dev nD) :
    Hand.V3 m ρ c main_arg4 = m ((c : Thread nD τ).loc main_arg4) :=
  (Hand.W3_of m ρ c main_arg4 (by decide)).trans <|
    (Hand.W2_of_ne m ρ c main_arg4 (by decide)).trans <|
    (Hand.W1_of m ρ c main_arg4 (by decide)).trans <|
    rfl

/-! ## Region 2's input windows -/

/-- Region 2's window 0 stages `main_v16_0`, the array of region 1's window 5, an output, which no item between writes. -/
theorem rwire2_0 (c : Dev nD) :
    Hand.V5 m ρ c main_v16_0 = (Hand.dat1 (Hand.V3 m ρ) c).arrAt 5 cfg1.N :=
  (Hand.W5_of m ρ c main_v16_0 (by decide)).trans <|
    (Hand.W4_arr m ρ c 5)

/-- Region 2's window 1 stages `main_v27`, a result of the third host stretch. -/
theorem rwire2_1 (c : Dev nD) :
    Hand.V5 m ρ c main_v27 = StableHlo.after (hostOps2 (F := F)) (Hand.W4 m ρ c) (Proc.devRef .tc main_v27) :=
  rfl

/-- Region 2's window 2 stages `main_v30`, a result of the third host stretch. -/
theorem rwire2_2 (c : Dev nD) :
    Hand.V5 m ρ c main_v30 = StableHlo.after (hostOps2 (F := F)) (Hand.W4 m ρ c) (Proc.devRef .tc main_v30) :=
  rfl

/-- Region 2's window 3 stages `main_arg2`, an argument: it holds what the launch memory holds, no item before writing it. -/
theorem rwire2_3 (c : Dev nD) :
    Hand.V5 m ρ c main_arg2 = m ((c : Thread nD τ).loc main_arg2) :=
  (Hand.W5_of m ρ c main_arg2 (by decide)).trans <|
    (Hand.W4_of_ne m ρ c main_arg2 (by decide)).trans <|
    (Hand.W3_of m ρ c main_arg2 (by decide)).trans <|
    (Hand.W2_of_ne m ρ c main_arg2 (by decide)).trans <|
    (Hand.W1_of m ρ c main_arg2 (by decide)).trans <|
    rfl

/-! ## Region 3's input windows -/

/-- Region 3's window 0 stages `main_v0`, a result of the first host stretch, which no item after that stretch and before this point writes. -/
theorem rwire3_0 (c : Dev nD) :
    Hand.V7 m ρ c main_v0 = StableHlo.after (hostOps0 (F := F)) (Hand.W0 m ρ c) (Proc.devRef .tc main_v0) :=
  (Hand.W7_of m ρ c main_v0 (by decide)).trans <|
    (Hand.W6_of_ne m ρ c main_v0 (by decide)).trans <|
    (Hand.W5_of m ρ c main_v0 (by decide)).trans <|
    (Hand.W4_of_ne m ρ c main_v0 (by decide)).trans <|
    (Hand.W3_of m ρ c main_v0 (by decide)).trans <|
    ((Hand.W2_arr m ρ c 0).trans (((Hand.dat0 (Hand.V1 m ρ) c).arrAt_in 0 rfl _).trans (Hand.A_eq0 (Hand.V1 m ρ) c 0))).trans <|
    rfl

/-- Region 3's window 1 stages `main_arg11`, an argument: it holds what the launch memory holds, no item before writing it. -/
theorem rwire3_1 (c : Dev nD) :
    Hand.V7 m ρ c main_arg11 = m ((c : Thread nD τ).loc main_arg11) :=
  (Hand.W7_of m ρ c main_arg11 (by decide)).trans <|
    (Hand.W6_of_ne m ρ c main_arg11 (by decide)).trans <|
    (Hand.W5_of m ρ c main_arg11 (by decide)).trans <|
    (Hand.W4_of_ne m ρ c main_arg11 (by decide)).trans <|
    (Hand.W3_of m ρ c main_arg11 (by decide)).trans <|
    (Hand.W2_of_ne m ρ c main_arg11 (by decide)).trans <|
    (Hand.W1_of m ρ c main_arg11 (by decide)).trans <|
    rfl

/-! ## Region 4's input windows -/

/-- Region 4's window 0 stages `main_v31_0`, the array of region 2's window 4, an output, which no item between writes. -/
theorem rwire4_0 (c : Dev nD) :
    Hand.V9 m ρ c main_v31_0 = (Hand.dat2 (Hand.V5 m ρ) c).arrAt 4 cfg2.N :=
  (Hand.W9_of m ρ c main_v31_0 (by decide)).trans <|
    (Hand.W8_of_ne m ρ c main_v31_0 (by decide)).trans <|
    (Hand.W7_of m ρ c main_v31_0 (by decide)).trans <|
    (Hand.W6_arr m ρ c 4)

/-- Region 4's window 1 stages `main_v46_0`, the array of region 3's window 2, an output, which no item between writes. -/
theorem rwire4_1 (c : Dev nD) :
    Hand.V9 m ρ c main_v46_0 = (Hand.dat3 (Hand.V7 m ρ) c).arrAt 2 cfg3.N :=
  (Hand.W9_of m ρ c main_v46_0 (by decide)).trans <|
    (Hand.W8_arr m ρ c 2)

/-- Region 4's window 2 stages `main_v42`, a result of the fourth host stretch, which no item after that stretch and before this point writes. -/
theorem rwire4_2 (c : Dev nD) :
    Hand.V9 m ρ c main_v42 = StableHlo.after (hostOps3 (F := F)) (Hand.W6 m ρ c) (Proc.devRef .tc main_v42) :=
  (Hand.W9_of m ρ c main_v42 (by decide)).trans <|
    (Hand.W8_of_ne m ρ c main_v42 (by decide)).trans <|
    rfl

/-- Region 4's window 3 stages `main_v45`, a result of the fourth host stretch, which no item after that stretch and before this point writes. -/
theorem rwire4_3 (c : Dev nD) :
    Hand.V9 m ρ c main_v45 = StableHlo.after (hostOps3 (F := F)) (Hand.W6 m ρ c) (Proc.devRef .tc main_v45) :=
  (Hand.W9_of m ρ c main_v45 (by decide)).trans <|
    (Hand.W8_of_ne m ρ c main_v45 (by decide)).trans <|
    rfl

/-- Region 4's window 4 stages `main_v57`, a result of the fifth host stretch. -/
theorem rwire4_4 (c : Dev nD) :
    Hand.V9 m ρ c main_v57 = StableHlo.after (hostOps4 (F := F)) (Hand.W8 m ρ c) (Proc.devRef .tc main_v57) :=
  rfl

/-- Region 4's window 5 stages `main_v60`, a result of the fifth host stretch. -/
theorem rwire4_5 (c : Dev nD) :
    Hand.V9 m ρ c main_v60 = StableHlo.after (hostOps4 (F := F)) (Hand.W8 m ρ c) (Proc.devRef .tc main_v60) :=
  rfl

/-! ## Region 5's input windows -/

/-- Region 5's window 0 stages `main_v64`, a result of the sixth host stretch. -/
theorem rwire5_0 (c : Dev nD) :
    Hand.V11 m ρ c main_v64 = StableHlo.after (hostOps5 (F := F)) (Hand.W10 m ρ c) (Proc.devRef .tc main_v64) :=
  rfl

/-- Region 5's window 1 stages `main_arg14`, an argument: it holds what the launch memory holds, no item before writing it. -/
theorem rwire5_1 (c : Dev nD) :
    Hand.V11 m ρ c main_arg14 = m ((c : Thread nD τ).loc main_arg14) :=
  (Hand.W11_of m ρ c main_arg14 (by decide)).trans <|
    (Hand.W10_of_ne m ρ c main_arg14 (by decide)).trans <|
    (Hand.W9_of m ρ c main_arg14 (by decide)).trans <|
    (Hand.W8_of_ne m ρ c main_arg14 (by decide)).trans <|
    (Hand.W7_of m ρ c main_arg14 (by decide)).trans <|
    (Hand.W6_of_ne m ρ c main_arg14 (by decide)).trans <|
    (Hand.W5_of m ρ c main_arg14 (by decide)).trans <|
    (Hand.W4_of_ne m ρ c main_arg14 (by decide)).trans <|
    (Hand.W3_of m ρ c main_arg14 (by decide)).trans <|
    (Hand.W2_of_ne m ρ c main_arg14 (by decide)).trans <|
    (Hand.W1_of m ρ c main_arg14 (by decide)).trans <|
    rfl

/-! ## Region 6's input windows -/

/-- Region 6's window 0 stages `main_v65_0`, the array of region 5's window 2, an output, which no item between writes. -/
theorem rwire6_0 (c : Dev nD) :
    Hand.V13 m ρ c main_v65_0 = (Hand.dat5 (Hand.V11 m ρ) c).arrAt 2 cfg5.N :=
  (Hand.W13_of m ρ c main_v65_0 (by decide)).trans <|
    (Hand.W12_arr m ρ c 2)

/-- Region 6's window 1 stages `main_v76`, a result of the seventh host stretch. -/
theorem rwire6_1 (c : Dev nD) :
    Hand.V13 m ρ c main_v76 = StableHlo.after (hostOps6 (F := F)) (Hand.W12 m ρ c) (Proc.devRef .tc main_v76) :=
  rfl

/-- Region 6's window 2 stages `main_v79`, a result of the seventh host stretch. -/
theorem rwire6_2 (c : Dev nD) :
    Hand.V13 m ρ c main_v79 = StableHlo.after (hostOps6 (F := F)) (Hand.W12 m ρ c) (Proc.devRef .tc main_v79) :=
  rfl

/-- Region 6's window 3 stages `main_arg16`, an argument: it holds what the launch memory holds, no item before writing it. -/
theorem rwire6_3 (c : Dev nD) :
    Hand.V13 m ρ c main_arg16 = m ((c : Thread nD τ).loc main_arg16) :=
  (Hand.W13_of m ρ c main_arg16 (by decide)).trans <|
    (Hand.W12_of_ne m ρ c main_arg16 (by decide)).trans <|
    (Hand.W11_of m ρ c main_arg16 (by decide)).trans <|
    (Hand.W10_of_ne m ρ c main_arg16 (by decide)).trans <|
    (Hand.W9_of m ρ c main_arg16 (by decide)).trans <|
    (Hand.W8_of_ne m ρ c main_arg16 (by decide)).trans <|
    (Hand.W7_of m ρ c main_arg16 (by decide)).trans <|
    (Hand.W6_of_ne m ρ c main_arg16 (by decide)).trans <|
    (Hand.W5_of m ρ c main_arg16 (by decide)).trans <|
    (Hand.W4_of_ne m ρ c main_arg16 (by decide)).trans <|
    (Hand.W3_of m ρ c main_arg16 (by decide)).trans <|
    (Hand.W2_of_ne m ρ c main_arg16 (by decide)).trans <|
    (Hand.W1_of m ρ c main_arg16 (by decide)).trans <|
    rfl

/-- Region 6's window 4 stages `main_arg17`, an argument: it holds what the launch memory holds, no item before writing it. -/
theorem rwire6_4 (c : Dev nD) :
    Hand.V13 m ρ c main_arg17 = m ((c : Thread nD τ).loc main_arg17) :=
  (Hand.W13_of m ρ c main_arg17 (by decide)).trans <|
    (Hand.W12_of_ne m ρ c main_arg17 (by decide)).trans <|
    (Hand.W11_of m ρ c main_arg17 (by decide)).trans <|
    (Hand.W10_of_ne m ρ c main_arg17 (by decide)).trans <|
    (Hand.W9_of m ρ c main_arg17 (by decide)).trans <|
    (Hand.W8_of_ne m ρ c main_arg17 (by decide)).trans <|
    (Hand.W7_of m ρ c main_arg17 (by decide)).trans <|
    (Hand.W6_of_ne m ρ c main_arg17 (by decide)).trans <|
    (Hand.W5_of m ρ c main_arg17 (by decide)).trans <|
    (Hand.W4_of_ne m ρ c main_arg17 (by decide)).trans <|
    (Hand.W3_of m ρ c main_arg17 (by decide)).trans <|
    (Hand.W2_of_ne m ρ c main_arg17 (by decide)).trans <|
    (Hand.W1_of m ρ c main_arg17 (by decide)).trans <|
    rfl

/-! ## Region 7's input windows -/

/-- Region 7's window 0 stages `main_v80_0`, the array of region 6's window 5, an output, which no item between writes. -/
theorem rwire7_0 (c : Dev nD) :
    Hand.V15 m ρ c main_v80_0 = (Hand.dat6 (Hand.V13 m ρ) c).arrAt 5 cfg6.N :=
  (Hand.W15_of m ρ c main_v80_0 (by decide)).trans <|
    (Hand.W14_arr m ρ c 5)

/-- Region 7's window 1 stages `main_v91`, a result of the eighth host stretch. -/
theorem rwire7_1 (c : Dev nD) :
    Hand.V15 m ρ c main_v91 = StableHlo.after (hostOps7 (F := F)) (Hand.W14 m ρ c) (Proc.devRef .tc main_v91) :=
  rfl

/-- Region 7's window 2 stages `main_v94`, a result of the eighth host stretch. -/
theorem rwire7_2 (c : Dev nD) :
    Hand.V15 m ρ c main_v94 = StableHlo.after (hostOps7 (F := F)) (Hand.W14 m ρ c) (Proc.devRef .tc main_v94) :=
  rfl

/-- Region 7's window 3 stages `main_arg15`, an argument: it holds what the launch memory holds, no item before writing it. -/
theorem rwire7_3 (c : Dev nD) :
    Hand.V15 m ρ c main_arg15 = m ((c : Thread nD τ).loc main_arg15) :=
  (Hand.W15_of m ρ c main_arg15 (by decide)).trans <|
    (Hand.W14_of_ne m ρ c main_arg15 (by decide)).trans <|
    (Hand.W13_of m ρ c main_arg15 (by decide)).trans <|
    (Hand.W12_of_ne m ρ c main_arg15 (by decide)).trans <|
    (Hand.W11_of m ρ c main_arg15 (by decide)).trans <|
    (Hand.W10_of_ne m ρ c main_arg15 (by decide)).trans <|
    (Hand.W9_of m ρ c main_arg15 (by decide)).trans <|
    (Hand.W8_of_ne m ρ c main_arg15 (by decide)).trans <|
    (Hand.W7_of m ρ c main_arg15 (by decide)).trans <|
    (Hand.W6_of_ne m ρ c main_arg15 (by decide)).trans <|
    (Hand.W5_of m ρ c main_arg15 (by decide)).trans <|
    (Hand.W4_of_ne m ρ c main_arg15 (by decide)).trans <|
    (Hand.W3_of m ρ c main_arg15 (by decide)).trans <|
    (Hand.W2_of_ne m ρ c main_arg15 (by decide)).trans <|
    (Hand.W1_of m ρ c main_arg15 (by decide)).trans <|
    rfl

/-! ## Region 8's input windows -/

/-- Region 8's window 0 stages `main_v95_0`, the array of region 7's window 4, an output, which no item between writes. -/
theorem rwire8_0 (c : Dev nD) :
    Hand.V17 m ρ c main_v95_0 = (Hand.dat7 (Hand.V15 m ρ) c).arrAt 4 cfg7.N :=
  (Hand.W17_of m ρ c main_v95_0 (by decide)).trans <|
    (Hand.W16_arr m ρ c 4)

/-- Region 8's window 1 stages `main_v64`, a result of the sixth host stretch, which no item after that stretch and before this point writes. -/
theorem rwire8_1 (c : Dev nD) :
    Hand.V17 m ρ c main_v64 = StableHlo.after (hostOps5 (F := F)) (Hand.W10 m ρ c) (Proc.devRef .tc main_v64) :=
  (Hand.W17_of m ρ c main_v64 (by decide)).trans <|
    (Hand.W16_of_ne m ρ c main_v64 (by decide)).trans <|
    (Hand.W15_of m ρ c main_v64 (by decide)).trans <|
    (Hand.W14_of_ne m ρ c main_v64 (by decide)).trans <|
    (Hand.W13_of m ρ c main_v64 (by decide)).trans <|
    ((Hand.W12_arr m ρ c 0).trans (((Hand.dat5 (Hand.V11 m ρ) c).arrAt_in 0 rfl _).trans (Hand.A_eq5 (Hand.V11 m ρ) c 0))).trans <|
    rfl

/-- Region 8's window 2 stages `main_v106`, a result of the ninth host stretch. -/
theorem rwire8_2 (c : Dev nD) :
    Hand.V17 m ρ c main_v106 = StableHlo.after (hostOps8 (F := F)) (Hand.W16 m ρ c) (Proc.devRef .tc main_v106) :=
  rfl

/-- Region 8's window 3 stages `main_v109`, a result of the ninth host stretch. -/
theorem rwire8_3 (c : Dev nD) :
    Hand.V17 m ρ c main_v109 = StableHlo.after (hostOps8 (F := F)) (Hand.W16 m ρ c) (Proc.devRef .tc main_v109) :=
  rfl

/-! ## What the first host stretch reads -/

/-- Before the first host stretch `main_arg0` is an argument and holds what the launch memory holds, no item before writing it. -/
theorem rhwire0_arg0 (c : Dev nD) :
    Hand.W0 m ρ c (Proc.devRef .tc main_arg0) = m ((c : Thread nD τ).loc main_arg0) :=
  rfl

/-! ## What the second host stretch reads -/

/-- Before the second host stretch `main_v1_1` is the array of region 0's window 3, an output. -/
theorem rhwire1_v1_1 (c : Dev nD) :
    Hand.W2 m ρ c (Proc.devRef .tc main_v1_1) = (Hand.dat0 (Hand.V1 m ρ) c).arrAt 3 cfg0.N :=
  (Hand.W2_arr m ρ c 3)

/-- Before the second host stretch `main_v1_2` is the array of region 0's window 4, an output. -/
theorem rhwire1_v1_2 (c : Dev nD) :
    Hand.W2 m ρ c (Proc.devRef .tc main_v1_2) = (Hand.dat0 (Hand.V1 m ρ) c).arrAt 4 cfg0.N :=
  (Hand.W2_arr m ρ c 4)

/-- Before the second host stretch `main_arg5` is an argument and holds what the launch memory holds, no item before writing it. -/
theorem rhwire1_arg5 (c : Dev nD) :
    Hand.W2 m ρ c (Proc.devRef .tc main_arg5) = m ((c : Thread nD τ).loc main_arg5) :=
  (Hand.W2_of_ne m ρ c main_arg5 (by decide)).trans <|
    (Hand.W1_of m ρ c main_arg5 (by decide)).trans <|
    rfl

/-- Before the second host stretch `main_arg6` is an argument and holds what the launch memory holds, no item before writing it. -/
theorem rhwire1_arg6 (c : Dev nD) :
    Hand.W2 m ρ c (Proc.devRef .tc main_arg6) = m ((c : Thread nD τ).loc main_arg6) :=
  (Hand.W2_of_ne m ρ c main_arg6 (by decide)).trans <|
    (Hand.W1_of m ρ c main_arg6 (by decide)).trans <|
    rfl

/-! ## What the third host stretch reads -/

/-- Before the third host stretch `main_v16_1` is the array of region 1's window 6, an output. -/
theorem rhwire2_v16_1 (c : Dev nD) :
    Hand.W4 m ρ c (Proc.devRef .tc main_v16_1) = (Hand.dat1 (Hand.V3 m ρ) c).arrAt 6 cfg1.N :=
  (Hand.W4_arr m ρ c 6)

/-- Before the third host stretch `main_v16_2` is the array of region 1's window 7, an output. -/
theorem rhwire2_v16_2 (c : Dev nD) :
    Hand.W4 m ρ c (Proc.devRef .tc main_v16_2) = (Hand.dat1 (Hand.V3 m ρ) c).arrAt 7 cfg1.N :=
  (Hand.W4_arr m ρ c 7)

/-- Before the third host stretch `main_arg7` is an argument and holds what the launch memory holds, no item before writing it. -/
theorem rhwire2_arg7 (c : Dev nD) :
    Hand.W4 m ρ c (Proc.devRef .tc main_arg7) = m ((c : Thread nD τ).loc main_arg7) :=
  (Hand.W4_of_ne m ρ c main_arg7 (by decide)).trans <|
    (Hand.W3_of m ρ c main_arg7 (by decide)).trans <|
    (Hand.W2_of_ne m ρ c main_arg7 (by decide)).trans <|
    (Hand.W1_of m ρ c main_arg7 (by decide)).trans <|
    rfl

/-- Before the third host stretch `main_arg8` is an argument and holds what the launch memory holds, no item before writing it. -/
theorem rhwire2_arg8 (c : Dev nD) :
    Hand.W4 m ρ c (Proc.devRef .tc main_arg8) = m ((c : Thread nD τ).loc main_arg8) :=
  (Hand.W4_of_ne m ρ c main_arg8 (by decide)).trans <|
    (Hand.W3_of m ρ c main_arg8 (by decide)).trans <|
    (Hand.W2_of_ne m ρ c main_arg8 (by decide)).trans <|
    (Hand.W1_of m ρ c main_arg8 (by decide)).trans <|
    rfl

/-! ## What the fourth host stretch reads -/

/-- Before the fourth host stretch `main_v31_1` is the array of region 2's window 5, an output. -/
theorem rhwire3_v31_1 (c : Dev nD) :
    Hand.W6 m ρ c (Proc.devRef .tc main_v31_1) = (Hand.dat2 (Hand.V5 m ρ) c).arrAt 5 cfg2.N :=
  (Hand.W6_arr m ρ c 5)

/-- Before the fourth host stretch `main_v31_2` is the array of region 2's window 6, an output. -/
theorem rhwire3_v31_2 (c : Dev nD) :
    Hand.W6 m ρ c (Proc.devRef .tc main_v31_2) = (Hand.dat2 (Hand.V5 m ρ) c).arrAt 6 cfg2.N :=
  (Hand.W6_arr m ρ c 6)

/-- Before the fourth host stretch `main_arg9` is an argument and holds what the launch memory holds, no item before writing it. -/
theorem rhwire3_arg9 (c : Dev nD) :
    Hand.W6 m ρ c (Proc.devRef .tc main_arg9) = m ((c : Thread nD τ).loc main_arg9) :=
  (Hand.W6_of_ne m ρ c main_arg9 (by decide)).trans <|
    (Hand.W5_of m ρ c main_arg9 (by decide)).trans <|
    (Hand.W4_of_ne m ρ c main_arg9 (by decide)).trans <|
    (Hand.W3_of m ρ c main_arg9 (by decide)).trans <|
    (Hand.W2_of_ne m ρ c main_arg9 (by decide)).trans <|
    (Hand.W1_of m ρ c main_arg9 (by decide)).trans <|
    rfl

/-- Before the fourth host stretch `main_arg10` is an argument and holds what the launch memory holds, no item before writing it. -/
theorem rhwire3_arg10 (c : Dev nD) :
    Hand.W6 m ρ c (Proc.devRef .tc main_arg10) = m ((c : Thread nD τ).loc main_arg10) :=
  (Hand.W6_of_ne m ρ c main_arg10 (by decide)).trans <|
    (Hand.W5_of m ρ c main_arg10 (by decide)).trans <|
    (Hand.W4_of_ne m ρ c main_arg10 (by decide)).trans <|
    (Hand.W3_of m ρ c main_arg10 (by decide)).trans <|
    (Hand.W2_of_ne m ρ c main_arg10 (by decide)).trans <|
    (Hand.W1_of m ρ c main_arg10 (by decide)).trans <|
    rfl

/-! ## What the fifth host stretch reads -/

/-- Before the fifth host stretch `main_v46_1` is the array of region 3's window 3, an output. -/
theorem rhwire4_v46_1 (c : Dev nD) :
    Hand.W8 m ρ c (Proc.devRef .tc main_v46_1) = (Hand.dat3 (Hand.V7 m ρ) c).arrAt 3 cfg3.N :=
  (Hand.W8_arr m ρ c 3)

/-- Before the fifth host stretch `main_v46_2` is the array of region 3's window 4, an output. -/
theorem rhwire4_v46_2 (c : Dev nD) :
    Hand.W8 m ρ c (Proc.devRef .tc main_v46_2) = (Hand.dat3 (Hand.V7 m ρ) c).arrAt 4 cfg3.N :=
  (Hand.W8_arr m ρ c 4)

/-- Before the fifth host stretch `main_arg12` is an argument and holds what the launch memory holds, no item before writing it. -/
theorem rhwire4_arg12 (c : Dev nD) :
    Hand.W8 m ρ c (Proc.devRef .tc main_arg12) = m ((c : Thread nD τ).loc main_arg12) :=
  (Hand.W8_of_ne m ρ c main_arg12 (by decide)).trans <|
    (Hand.W7_of m ρ c main_arg12 (by decide)).trans <|
    (Hand.W6_of_ne m ρ c main_arg12 (by decide)).trans <|
    (Hand.W5_of m ρ c main_arg12 (by decide)).trans <|
    (Hand.W4_of_ne m ρ c main_arg12 (by decide)).trans <|
    (Hand.W3_of m ρ c main_arg12 (by decide)).trans <|
    (Hand.W2_of_ne m ρ c main_arg12 (by decide)).trans <|
    (Hand.W1_of m ρ c main_arg12 (by decide)).trans <|
    rfl

/-- Before the fifth host stretch `main_arg13` is an argument and holds what the launch memory holds, no item before writing it. -/
theorem rhwire4_arg13 (c : Dev nD) :
    Hand.W8 m ρ c (Proc.devRef .tc main_arg13) = m ((c : Thread nD τ).loc main_arg13) :=
  (Hand.W8_of_ne m ρ c main_arg13 (by decide)).trans <|
    (Hand.W7_of m ρ c main_arg13 (by decide)).trans <|
    (Hand.W6_of_ne m ρ c main_arg13 (by decide)).trans <|
    (Hand.W5_of m ρ c main_arg13 (by decide)).trans <|
    (Hand.W4_of_ne m ρ c main_arg13 (by decide)).trans <|
    (Hand.W3_of m ρ c main_arg13 (by decide)).trans <|
    (Hand.W2_of_ne m ρ c main_arg13 (by decide)).trans <|
    (Hand.W1_of m ρ c main_arg13 (by decide)).trans <|
    rfl

/-! ## What the sixth host stretch reads -/

/-- Before the sixth host stretch `main_v61` is the array of region 4's window 6, an output. -/
theorem rhwire5_v61 (c : Dev nD) :
    Hand.W10 m ρ c (Proc.devRef .tc main_v61) = (Hand.dat4 (Hand.V9 m ρ) c).arrAt 6 cfg4.N :=
  (Hand.W10_arr m ρ c 6)

/-! ## What the seventh host stretch reads -/

/-- Before the seventh host stretch `main_v65_1` is the array of region 5's window 3, an output. -/
theorem rhwire6_v65_1 (c : Dev nD) :
    Hand.W12 m ρ c (Proc.devRef .tc main_v65_1) = (Hand.dat5 (Hand.V11 m ρ) c).arrAt 3 cfg5.N :=
  (Hand.W12_arr m ρ c 3)

/-- Before the seventh host stretch `main_v65_2` is the array of region 5's window 4, an output. -/
theorem rhwire6_v65_2 (c : Dev nD) :
    Hand.W12 m ρ c (Proc.devRef .tc main_v65_2) = (Hand.dat5 (Hand.V11 m ρ) c).arrAt 4 cfg5.N :=
  (Hand.W12_arr m ρ c 4)

/-- Before the seventh host stretch `main_arg18` is an argument and holds what the launch memory holds, no item before writing it. -/
theorem rhwire6_arg18 (c : Dev nD) :
    Hand.W12 m ρ c (Proc.devRef .tc main_arg18) = m ((c : Thread nD τ).loc main_arg18) :=
  (Hand.W12_of_ne m ρ c main_arg18 (by decide)).trans <|
    (Hand.W11_of m ρ c main_arg18 (by decide)).trans <|
    (Hand.W10_of_ne m ρ c main_arg18 (by decide)).trans <|
    (Hand.W9_of m ρ c main_arg18 (by decide)).trans <|
    (Hand.W8_of_ne m ρ c main_arg18 (by decide)).trans <|
    (Hand.W7_of m ρ c main_arg18 (by decide)).trans <|
    (Hand.W6_of_ne m ρ c main_arg18 (by decide)).trans <|
    (Hand.W5_of m ρ c main_arg18 (by decide)).trans <|
    (Hand.W4_of_ne m ρ c main_arg18 (by decide)).trans <|
    (Hand.W3_of m ρ c main_arg18 (by decide)).trans <|
    (Hand.W2_of_ne m ρ c main_arg18 (by decide)).trans <|
    (Hand.W1_of m ρ c main_arg18 (by decide)).trans <|
    rfl

/-- Before the seventh host stretch `main_arg19` is an argument and holds what the launch memory holds, no item before writing it. -/
theorem rhwire6_arg19 (c : Dev nD) :
    Hand.W12 m ρ c (Proc.devRef .tc main_arg19) = m ((c : Thread nD τ).loc main_arg19) :=
  (Hand.W12_of_ne m ρ c main_arg19 (by decide)).trans <|
    (Hand.W11_of m ρ c main_arg19 (by decide)).trans <|
    (Hand.W10_of_ne m ρ c main_arg19 (by decide)).trans <|
    (Hand.W9_of m ρ c main_arg19 (by decide)).trans <|
    (Hand.W8_of_ne m ρ c main_arg19 (by decide)).trans <|
    (Hand.W7_of m ρ c main_arg19 (by decide)).trans <|
    (Hand.W6_of_ne m ρ c main_arg19 (by decide)).trans <|
    (Hand.W5_of m ρ c main_arg19 (by decide)).trans <|
    (Hand.W4_of_ne m ρ c main_arg19 (by decide)).trans <|
    (Hand.W3_of m ρ c main_arg19 (by decide)).trans <|
    (Hand.W2_of_ne m ρ c main_arg19 (by decide)).trans <|
    (Hand.W1_of m ρ c main_arg19 (by decide)).trans <|
    rfl

/-! ## What the eighth host stretch reads -/

/-- Before the eighth host stretch `main_v80_1` is the array of region 6's window 6, an output. -/
theorem rhwire7_v80_1 (c : Dev nD) :
    Hand.W14 m ρ c (Proc.devRef .tc main_v80_1) = (Hand.dat6 (Hand.V13 m ρ) c).arrAt 6 cfg6.N :=
  (Hand.W14_arr m ρ c 6)

/-- Before the eighth host stretch `main_v80_2` is the array of region 6's window 7, an output. -/
theorem rhwire7_v80_2 (c : Dev nD) :
    Hand.W14 m ρ c (Proc.devRef .tc main_v80_2) = (Hand.dat6 (Hand.V13 m ρ) c).arrAt 7 cfg6.N :=
  (Hand.W14_arr m ρ c 7)

/-- Before the eighth host stretch `main_arg20` is an argument and holds what the launch memory holds, no item before writing it. -/
theorem rhwire7_arg20 (c : Dev nD) :
    Hand.W14 m ρ c (Proc.devRef .tc main_arg20) = m ((c : Thread nD τ).loc main_arg20) :=
  (Hand.W14_of_ne m ρ c main_arg20 (by decide)).trans <|
    (Hand.W13_of m ρ c main_arg20 (by decide)).trans <|
    (Hand.W12_of_ne m ρ c main_arg20 (by decide)).trans <|
    (Hand.W11_of m ρ c main_arg20 (by decide)).trans <|
    (Hand.W10_of_ne m ρ c main_arg20 (by decide)).trans <|
    (Hand.W9_of m ρ c main_arg20 (by decide)).trans <|
    (Hand.W8_of_ne m ρ c main_arg20 (by decide)).trans <|
    (Hand.W7_of m ρ c main_arg20 (by decide)).trans <|
    (Hand.W6_of_ne m ρ c main_arg20 (by decide)).trans <|
    (Hand.W5_of m ρ c main_arg20 (by decide)).trans <|
    (Hand.W4_of_ne m ρ c main_arg20 (by decide)).trans <|
    (Hand.W3_of m ρ c main_arg20 (by decide)).trans <|
    (Hand.W2_of_ne m ρ c main_arg20 (by decide)).trans <|
    (Hand.W1_of m ρ c main_arg20 (by decide)).trans <|
    rfl

/-- Before the eighth host stretch `main_arg21` is an argument and holds what the launch memory holds, no item before writing it. -/
theorem rhwire7_arg21 (c : Dev nD) :
    Hand.W14 m ρ c (Proc.devRef .tc main_arg21) = m ((c : Thread nD τ).loc main_arg21) :=
  (Hand.W14_of_ne m ρ c main_arg21 (by decide)).trans <|
    (Hand.W13_of m ρ c main_arg21 (by decide)).trans <|
    (Hand.W12_of_ne m ρ c main_arg21 (by decide)).trans <|
    (Hand.W11_of m ρ c main_arg21 (by decide)).trans <|
    (Hand.W10_of_ne m ρ c main_arg21 (by decide)).trans <|
    (Hand.W9_of m ρ c main_arg21 (by decide)).trans <|
    (Hand.W8_of_ne m ρ c main_arg21 (by decide)).trans <|
    (Hand.W7_of m ρ c main_arg21 (by decide)).trans <|
    (Hand.W6_of_ne m ρ c main_arg21 (by decide)).trans <|
    (Hand.W5_of m ρ c main_arg21 (by decide)).trans <|
    (Hand.W4_of_ne m ρ c main_arg21 (by decide)).trans <|
    (Hand.W3_of m ρ c main_arg21 (by decide)).trans <|
    (Hand.W2_of_ne m ρ c main_arg21 (by decide)).trans <|
    (Hand.W1_of m ρ c main_arg21 (by decide)).trans <|
    rfl

/-! ## What the ninth host stretch reads -/

/-- Before the ninth host stretch `main_v95_1` is the array of region 7's window 5, an output. -/
theorem rhwire8_v95_1 (c : Dev nD) :
    Hand.W16 m ρ c (Proc.devRef .tc main_v95_1) = (Hand.dat7 (Hand.V15 m ρ) c).arrAt 5 cfg7.N :=
  (Hand.W16_arr m ρ c 5)

/-- Before the ninth host stretch `main_v95_2` is the array of region 7's window 6, an output. -/
theorem rhwire8_v95_2 (c : Dev nD) :
    Hand.W16 m ρ c (Proc.devRef .tc main_v95_2) = (Hand.dat7 (Hand.V15 m ρ) c).arrAt 6 cfg7.N :=
  (Hand.W16_arr m ρ c 6)

/-- Before the ninth host stretch `main_arg22` is an argument and holds what the launch memory holds, no item before writing it. -/
theorem rhwire8_arg22 (c : Dev nD) :
    Hand.W16 m ρ c (Proc.devRef .tc main_arg22) = m ((c : Thread nD τ).loc main_arg22) :=
  (Hand.W16_of_ne m ρ c main_arg22 (by decide)).trans <|
    (Hand.W15_of m ρ c main_arg22 (by decide)).trans <|
    (Hand.W14_of_ne m ρ c main_arg22 (by decide)).trans <|
    (Hand.W13_of m ρ c main_arg22 (by decide)).trans <|
    (Hand.W12_of_ne m ρ c main_arg22 (by decide)).trans <|
    (Hand.W11_of m ρ c main_arg22 (by decide)).trans <|
    (Hand.W10_of_ne m ρ c main_arg22 (by decide)).trans <|
    (Hand.W9_of m ρ c main_arg22 (by decide)).trans <|
    (Hand.W8_of_ne m ρ c main_arg22 (by decide)).trans <|
    (Hand.W7_of m ρ c main_arg22 (by decide)).trans <|
    (Hand.W6_of_ne m ρ c main_arg22 (by decide)).trans <|
    (Hand.W5_of m ρ c main_arg22 (by decide)).trans <|
    (Hand.W4_of_ne m ρ c main_arg22 (by decide)).trans <|
    (Hand.W3_of m ρ c main_arg22 (by decide)).trans <|
    (Hand.W2_of_ne m ρ c main_arg22 (by decide)).trans <|
    (Hand.W1_of m ρ c main_arg22 (by decide)).trans <|
    rfl

/-- Before the ninth host stretch `main_arg23` is an argument and holds what the launch memory holds, no item before writing it. -/
theorem rhwire8_arg23 (c : Dev nD) :
    Hand.W16 m ρ c (Proc.devRef .tc main_arg23) = m ((c : Thread nD τ).loc main_arg23) :=
  (Hand.W16_of_ne m ρ c main_arg23 (by decide)).trans <|
    (Hand.W15_of m ρ c main_arg23 (by decide)).trans <|
    (Hand.W14_of_ne m ρ c main_arg23 (by decide)).trans <|
    (Hand.W13_of m ρ c main_arg23 (by decide)).trans <|
    (Hand.W12_of_ne m ρ c main_arg23 (by decide)).trans <|
    (Hand.W11_of m ρ c main_arg23 (by decide)).trans <|
    (Hand.W10_of_ne m ρ c main_arg23 (by decide)).trans <|
    (Hand.W9_of m ρ c main_arg23 (by decide)).trans <|
    (Hand.W8_of_ne m ρ c main_arg23 (by decide)).trans <|
    (Hand.W7_of m ρ c main_arg23 (by decide)).trans <|
    (Hand.W6_of_ne m ρ c main_arg23 (by decide)).trans <|
    (Hand.W5_of m ρ c main_arg23 (by decide)).trans <|
    (Hand.W4_of_ne m ρ c main_arg23 (by decide)).trans <|
    (Hand.W3_of m ρ c main_arg23 (by decide)).trans <|
    (Hand.W2_of_ne m ρ c main_arg23 (by decide)).trans <|
    (Hand.W1_of m ρ c main_arg23 (by decide)).trans <|
    rfl

/-! ## What the tenth host stretch reads -/

/-- Before the tenth host stretch `main_v110` is the array of region 8's window 4, an output. -/
theorem rhwire9_v110 (c : Dev nD) :
    Hand.W18 m ρ c (Proc.devRef .tc main_v110) = (Hand.dat8 (Hand.V17 m ρ) c).arrAt 4 cfg8.N :=
  (Hand.W18_arr m ρ c 4)

end Cert.ReferenceIdeal.Val

end
-- ==== Proof.RefTail.lean ====
import proofs.«159567_g2000302752657622_pallasbulk_725_3_alg».proof.Proof.RefRun

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F]

variable (m : (ℓ : Loc nD τ sig) → Buf (Elt F) ℓ) (ρ : Dev nD → PrngReg)

/-- The array of the last region's fifth window, as that region leaves it: the contents the region entered with,
    every write-back of the window folded in over all the grid's points. -/
abbrev lastOut (c : Dev nD) : S64x256x4096.Idx → Elt F .f32 :=
  (dat8 (V17 m ρ) c).arrAt 4 cfg8.N

/-- The result buffer at the last boundary. The last host stretch is one operation, a reshape of the last region's
    output array from 64 × 256 × 4096 to 64 × 256 × 64 × 64: it writes the result buffer and nothing else, so the
    result holds that array's elements in row-major order at the new shape, and the array itself is what the region's
    write-backs leave, the stretch's starting contents being the region's exit contents. -/
theorem W19_result (c : Dev nD) :
    (W19 m ρ c (Proc.devRef .tc main_v111) : S64x256x64x64.Idx → Elt F .f32)
      = shapeCast S64x256x64x64 (lastOut m ρ c) shapeCasts_S64x256x4096_S64x256x64x64 := by
  have e : W18 m ρ c (Proc.devRef .tc main_v110) = lastOut m ρ c := W18_arr m ρ c 4
  dsimp only [W19, hostOps9]
  after_results
  rw [e]
  rfl

/-- The run with the result's value named: every weakly fair execution from `m` with zero counters terminates
    without a fault, and in every final state the result buffer holds the last region's output array read in
    row-major order at the shape 64 × 256 × 64 × 64, while each argument holds what it held in `m`. -/
theorem run_value : θ_run defs (onTc (τ := τ) (main (F := F))) ⟨m, fun _ => 0, ρ⟩ (fun r => ∀ c : Dev nD,
      (r.2.mem ((c.tc : Thread nD τ).loc main_v111) : S64x256x64x64.Idx → Elt F .f32)
        = shapeCast S64x256x64x64 (lastOut m ρ c) shapeCasts_S64x256x4096_S64x256x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨(h c).1.trans (W19_result m ρ c), (h c).2⟩) (run m ρ)

end Cert.ReferenceIdeal.Hand

end
-- ==== Proof.RefH.lean ====
import proofs.«159567_g2000302752657622_pallasbulk_725_3_alg».proof.Proof.Gen.ReferenceIdeal.Launch
import proofs.«159567_g2000302752657622_pallasbulk_725_3_alg».proof.Proof.LibBnChain
import Idealize.ShloMosaic.PureOps.Ideal
import Idealize.ShloMosaic.PureOps.Ideal.Laws
import Idealize.ShloMosaic.Lib.StableHlo.Run
import Idealize.ShloMosaic.Lib.ValueIdx
import Idealize.ShloMosaic.Lib.Pipeline.Value
import Idealize.ShloMosaic.Lib.ValueLayout

/-! # The reference's host stretches, read as functions of the buffers before

Each stretch of host operations between two regions is a fold over a valuation of the buffers. For every buffer a
later region stages, the contents after the stretch are stated as a term over the contents before, for an arbitrary
valuation: the seven batch-normalisation chains as the scale and shift columns of `Cert.Lib.BnChain`, and the
layout stretches (the first reshape, the un-interleave, the last reshape) as the layout operations applied. -/

set_option maxRecDepth 16384
set_option maxHeartbeats 1000000

noncomputable section

namespace Cert.ReferenceIdeal.Val

open Cert.ReferenceIdeal Cert.ReferenceIdeal.Gen
open Idealize.ShloMosaic Idealize.ShloMosaic.TcCoe
open Cert.Lib.BnChain
open Idealize.ShloMosaic.ValueIdx

/-- A vector reshaped to a column reads, at row `c`, the vector's entry `c`. -/
theorem col_apply {n : ℕ} {α : Type} (g : (⟨1, ![n]⟩ : Shape).Idx → α)
    (h : (⟨1, ![n]⟩ : Shape).ShapeCasts ⟨2, ![n, 1]⟩) (c : Fin n) (e : Fin 1) :
    shapeCast ⟨2, ![n, 1]⟩ g h (ix2 c e) = g (ix1 c) := by
  refine shapeCast_apply g h (ix2 c e) (ix1 c) ?_
  rw [Shape.rowMajor_val_one, Shape.rowMajor_val_two]
  show c.val = c.val * 1 + e.val
  have := e.isLt
  omega

/-- After host stretch 1 the scale column is the batch-normalisation scale of the sums, the sums of squares and `γ`. -/
theorem rhost1_sc1 (W : Valuation τ sig (Elt Ideal)) :
    (StableHlo.after (hostOps1 (F := Ideal)) W (Proc.devRef .tc main_v12) : S64x1.Idx → Elt Ideal .f32)
      = (bnScale (F := Ideal) S64x1 bcast_S_S64x1 0x47800000#32 (W (Proc.devRef .tc main_v1_1)) (W (Proc.devRef .tc main_v1_2))
          (shapeCast S64x1 (W (Proc.devRef .tc main_arg5) : S64.Idx → Elt Ideal .f32) shapeCasts_S64_S64x1) : S64x1.Idx → Elt Ideal .f32) := by
  after_results_simp
  rfl

/-- After host stretch 1 the shift column is the batch-normalisation shift of the sums, the sums of squares, `γ` and `β`. -/
theorem rhost1_sh1 (W : Valuation τ sig (Elt Ideal)) :
    (StableHlo.after (hostOps1 (F := Ideal)) W (Proc.devRef .tc main_v15) : S64x1.Idx → Elt Ideal .f32)
      = (bnShift (F := Ideal) S64x1 bcast_S_S64x1 0x47800000#32 (W (Proc.devRef .tc main_v1_1)) (W (Proc.devRef .tc main_v1_2))
          (shapeCast S64x1 (W (Proc.devRef .tc main_arg5) : S64.Idx → Elt Ideal .f32) shapeCasts_S64_S64x1)
          (shapeCast S64x1 (W (Proc.devRef .tc main_arg6) : S64.Idx → Elt Ideal .f32) shapeCasts_S64_S64x1) : S64x1.Idx → Elt Ideal .f32) := by
  after_results_simp
  rfl

/-- After host stretch 2 the scale column is the batch-normalisation scale of the sums, the sums of squares and `γ`. -/
theorem rhost2_sc2 (W : Valuation τ sig (Elt Ideal)) :
    (StableHlo.after (hostOps2 (F := Ideal)) W (Proc.devRef .tc main_v27) : S64x1.Idx → Elt Ideal .f32)
      = (bnScale (F := Ideal) S64x1 bcast_S_S64x1 0x48800000#32 (W (Proc.devRef .tc main_v16_1)) (W (Proc.devRef .tc main_v16_2))
          (shapeCast S64x1 (W (Proc.devRef .tc main_arg7) : S64.Idx → Elt Ideal .f32) shapeCasts_S64_S64x1) : S64x1.Idx → Elt Ideal .f32) := by
  after_results_simp
  rfl

/-- After host stretch 2 the shift column is the batch-normalisation shift of the sums, the sums of squares, `γ` and `β`. -/
theorem rhost2_sh2 (W : Valuation τ sig (Elt Ideal)) :
    (StableHlo.after (hostOps2 (F := Ideal)) W (Proc.devRef .tc main_v30) : S64x1.Idx → Elt Ideal .f32)
      = (bnShift (F := Ideal) S64x1 bcast_S_S64x1 0x48800000#32 (W (Proc.devRef .tc main_v16_1)) (W (Proc.devRef .tc main_v16_2))
          (shapeCast S64x1 (W (Proc.devRef .tc main_arg7) : S64.Idx → Elt Ideal .f32) shapeCasts_S64_S64x1)
          (shapeCast S64x1 (W (Proc.devRef .tc main_arg8) : S64.Idx → Elt Ideal .f32) shapeCasts_S64_S64x1) : S64x1.Idx → Elt Ideal .f32) := by
  after_results_simp
  rfl

/-- After host stretch 3 the scale column is the batch-normalisation scale of the sums, the sums of squares and `γ`. -/
theorem rhost3_sc3 (W : Valuation τ sig (Elt Ideal)) :
    (StableHlo.after (hostOps3 (F := Ideal)) W (Proc.devRef .tc main_v42) : S256x1.Idx → Elt Ideal .f32)
      = (bnScale (F := Ideal) S256x1 bcast_S_S256x1 0x48800000#32 (W (Proc.devRef .tc main_v31_1)) (W (Proc.devRef .tc main_v31_2))
          (shapeCast S256x1 (W (Proc.devRef .tc main_arg9) : S256.Idx → Elt Ideal .f32) shapeCasts_S256_S256x1) : S256x1.Idx → Elt Ideal .f32) := by
  after_results_simp
  rfl

/-- After host stretch 3 the shift column is the batch-normalisation shift of the sums, the sums of squares, `γ` and `β`. -/
theorem rhost3_sh3 (W : Valuation τ sig (Elt Ideal)) :
    (StableHlo.after (hostOps3 (F := Ideal)) W (Proc.devRef .tc main_v45) : S256x1.Idx → Elt Ideal .f32)
      = (bnShift (F := Ideal) S256x1 bcast_S_S256x1 0x48800000#32 (W (Proc.devRef .tc main_v31_1)) (W (Proc.devRef .tc main_v31_2))
          (shapeCast S256x1 (W (Proc.devRef .tc main_arg9) : S256.Idx → Elt Ideal .f32) shapeCasts_S256_S256x1)
          (shapeCast S256x1 (W (Proc.devRef .tc main_arg10) : S256.Idx → Elt Ideal .f32) shapeCasts_S256_S256x1) : S256x1.Idx → Elt Ideal .f32) := by
  after_results_simp
  rfl

/-- After host stretch 4 the scale column is the batch-normalisation scale of the sums, the sums of squares and `γ`. -/
theorem rhost4_scs (W : Valuation τ sig (Elt Ideal)) :
    (StableHlo.after (hostOps4 (F := Ideal)) W (Proc.devRef .tc main_v57) : S256x1.Idx → Elt Ideal .f32)
      = (bnScale (F := Ideal) S256x1 bcast_S_S256x1 0x48800000#32 (W (Proc.devRef .tc main_v46_1)) (W (Proc.devRef .tc main_v46_2))
          (shapeCast S256x1 (W (Proc.devRef .tc main_arg12) : S256.Idx → Elt Ideal .f32) shapeCasts_S256_S256x1) : S256x1.Idx → Elt Ideal .f32) := by
  after_results_simp
  rfl

/-- After host stretch 4 the shift column is the batch-normalisation shift of the sums, the sums of squares, `γ` and `β`. -/
theorem rhost4_shs (W : Valuation τ sig (Elt Ideal)) :
    (StableHlo.after (hostOps4 (F := Ideal)) W (Proc.devRef .tc main_v60) : S256x1.Idx → Elt Ideal .f32)
      = (bnShift (F := Ideal) S256x1 bcast_S_S256x1 0x48800000#32 (W (Proc.devRef .tc main_v46_1)) (W (Proc.devRef .tc main_v46_2))
          (shapeCast S256x1 (W (Proc.devRef .tc main_arg12) : S256.Idx → Elt Ideal .f32) shapeCasts_S256_S256x1)
          (shapeCast S256x1 (W (Proc.devRef .tc main_arg13) : S256.Idx → Elt Ideal .f32) shapeCasts_S256_S256x1) : S256x1.Idx → Elt Ideal .f32) := by
  after_results_simp
  rfl

/-- After host stretch 6 the scale column is the batch-normalisation scale of the sums, the sums of squares and `γ`. -/
theorem rhost6_sc11 (W : Valuation τ sig (Elt Ideal)) :
    (StableHlo.after (hostOps6 (F := Ideal)) W (Proc.devRef .tc main_v76) : S64x1.Idx → Elt Ideal .f32)
      = (bnScale (F := Ideal) S64x1 bcast_S_S64x1 0x48800000#32 (W (Proc.devRef .tc main_v65_1)) (W (Proc.devRef .tc main_v65_2))
          (shapeCast S64x1 (W (Proc.devRef .tc main_arg18) : S64.Idx → Elt Ideal .f32) shapeCasts_S64_S64x1) : S64x1.Idx → Elt Ideal .f32) := by
  after_results_simp
  rfl

/-- After host stretch 6 the shift column is the batch-normalisation shift of the sums, the sums of squares, `γ` and `β`. -/
theorem rhost6_sh11 (W : Valuation τ sig (Elt Ideal)) :
    (StableHlo.after (hostOps6 (F := Ideal)) W (Proc.devRef .tc main_v79) : S64x1.Idx → Elt Ideal .f32)
      = (bnShift (F := Ideal) S64x1 bcast_S_S64x1 0x48800000#32 (W (Proc.devRef .tc main_v65_1)) (W (Proc.devRef .tc main_v65_2))
          (shapeCast S64x1 (W (Proc.devRef .tc main_arg18) : S64.Idx → Elt Ideal .f32) shapeCasts_S64_S64x1)
          (shapeCast S64x1 (W (Proc.devRef .tc main_arg19) : S64.Idx → Elt Ideal .f32) shapeCasts_S64_S64x1) : S64x1.Idx → Elt Ideal .f32) := by
  after_results_simp
  rfl

/-- After host stretch 7 the scale column is the batch-normalisation scale of the sums, the sums of squares and `γ`. -/
theorem rhost7_sc2b (W : Valuation τ sig (Elt Ideal)) :
    (StableHlo.after (hostOps7 (F := Ideal)) W (Proc.devRef .tc main_v91) : S64x1.Idx → Elt Ideal .f32)
      = (bnScale (F := Ideal) S64x1 bcast_S_S64x1 0x48800000#32 (W (Proc.devRef .tc main_v80_1)) (W (Proc.devRef .tc main_v80_2))
          (shapeCast S64x1 (W (Proc.devRef .tc main_arg20) : S64.Idx → Elt Ideal .f32) shapeCasts_S64_S64x1) : S64x1.Idx → Elt Ideal .f32) := by
  after_results_simp
  rfl

/-- After host stretch 7 the shift column is the batch-normalisation shift of the sums, the sums of squares, `γ` and `β`. -/
theorem rhost7_sh2b (W : Valuation τ sig (Elt Ideal)) :
    (StableHlo.after (hostOps7 (F := Ideal)) W (Proc.devRef .tc main_v94) : S64x1.Idx → Elt Ideal .f32)
      = (bnShift (F := Ideal) S64x1 bcast_S_S64x1 0x48800000#32 (W (Proc.devRef .tc main_v80_1)) (W (Proc.devRef .tc main_v80_2))
          (shapeCast S64x1 (W (Proc.devRef .tc main_arg20) : S64.Idx → Elt Ideal .f32) shapeCasts_S64_S64x1)
          (shapeCast S64x1 (W (Proc.devRef .tc main_arg21) : S64.Idx → Elt Ideal .f32) shapeCasts_S64_S64x1) : S64x1.Idx → Elt Ideal .f32) := by
  after_results_simp
  rfl

/-- After host stretch 8 the scale column is the batch-normalisation scale of the sums, the sums of squares and `γ`. -/
theorem rhost8_sc3b (W : Valuation τ sig (Elt Ideal)) :
    (StableHlo.after (hostOps8 (F := Ideal)) W (Proc.devRef .tc main_v106) : S256x1.Idx → Elt Ideal .f32)
      = (bnScale (F := Ideal) S256x1 bcast_S_S256x1 0x48800000#32 (W (Proc.devRef .tc main_v95_1)) (W (Proc.devRef .tc main_v95_2))
          (shapeCast S256x1 (W (Proc.devRef .tc main_arg22) : S256.Idx → Elt Ideal .f32) shapeCasts_S256_S256x1) : S256x1.Idx → Elt Ideal .f32) := by
  after_results_simp
  rfl

/-- After host stretch 8 the shift column is the batch-normalisation shift of the sums, the sums of squares, `γ` and `β`. -/
theorem rhost8_sh3b (W : Valuation τ sig (Elt Ideal)) :
    (StableHlo.after (hostOps8 (F := Ideal)) W (Proc.devRef .tc main_v109) : S256x1.Idx → Elt Ideal .f32)
      = (bnShift (F := Ideal) S256x1 bcast_S_S256x1 0x48800000#32 (W (Proc.devRef .tc main_v95_1)) (W (Proc.devRef .tc main_v95_2))
          (shapeCast S256x1 (W (Proc.devRef .tc main_arg22) : S256.Idx → Elt Ideal .f32) shapeCasts_S256_S256x1)
          (shapeCast S256x1 (W (Proc.devRef .tc main_arg23) : S256.Idx → Elt Ideal .f32) shapeCasts_S256_S256x1) : S256x1.Idx → Elt Ideal .f32) := by
  after_results_simp
  rfl

end Cert.ReferenceIdeal.Val

end
-- ==== Proof.RefH2.lean ====
import proofs.«159567_g2000302752657622_pallasbulk_725_3_alg».proof.Proof.Gen.ReferenceIdeal.Launch
import proofs.«159567_g2000302752657622_pallasbulk_725_3_alg».proof.Proof.LibUninterleave
import Idealize.ShloMosaic.PureOps.Ideal
import Idealize.ShloMosaic.PureOps.Ideal.Laws
import Idealize.ShloMosaic.Lib.StableHlo.Run
import Idealize.ShloMosaic.Lib.ValueIdx
import Idealize.ShloMosaic.Lib.Pipeline.Value
import Idealize.ShloMosaic.Lib.ValueLayout

/-! # The reference's layout stretches, read as functions of the buffers before

Three stretches of host operations only move entries: the first flattens each image's 32 × 32 positions into 1024
lanes, the sixth un-interleaves the four phases of the first block's result into spatial row-major order, and the last
unflattens the 4096 lanes of the result into 64 × 64 positions. Each is stated for an arbitrary valuation of the
buffers before the stretch; the un-interleaving is also read at an index, through the lane permutation. -/

set_option maxRecDepth 16384
set_option maxHeartbeats 1000000

noncomputable section

namespace Cert.ReferenceIdeal.Val

open Cert.ReferenceIdeal Cert.ReferenceIdeal.Gen
open Idealize.ShloMosaic Idealize.ShloMosaic.TcCoe
open Idealize.ShloMosaic.ValueIdx
open Cert.Lib.Unint

/-- After host stretch 0 the input array is the argument with each image's positions flattened into lanes. -/
theorem rhost0_x (W : Valuation τ sig (Elt Ideal)) :
    (StableHlo.after (hostOps0 (F := Ideal)) W (Proc.devRef .tc main_v0) : S64x128x1024.Idx → Elt Ideal .f32)
      = shapeCast S64x128x1024 (W (Proc.devRef .tc main_arg0) : S64x128x32x32.Idx → Elt Ideal .f32)
          shapeCasts_S64x128x32x32_S64x128x1024 := by
  after_results_simp
  rfl

/-- After host stretch 5 the first block's result is un-interleaved: split into phases and positions, the phase axes
    moved inside the position axes, and flattened again. -/
theorem rhost5_out0 (W : Valuation τ sig (Elt Ideal)) :
    (StableHlo.after (hostOps5 (F := Ideal)) W (Proc.devRef .tc main_v64) : S64x256x4096.Idx → Elt Ideal .f32)
      = shapeCast S64x256x4096
          (transpose S64x256x32x2x32x2 [0, 1, 4, 2, 5, 3]
            (shapeCast S64x256x2x2x32x32 (W (Proc.devRef .tc main_v61) : S64x256x4096.Idx → Elt Ideal .f32)
              shapeCasts_S64x256x4096_S64x256x2x2x32x32)
            transposes_S64x256x2x2x32x32_S64x256x32x2x32x2_0_1_4_2_5_3)
          shapeCasts_S64x256x32x2x32x2_S64x256x4096 := by
  after_results_simp
  rfl

/-- The un-interleaved array at image `n`, channel `c`, spatial lane `L` is the phase-major array at the lane the
    permutation sends `L` to. -/
theorem rhost5_out0_apply (W : Valuation τ sig (Elt Ideal)) (n : Fin 64) (c : Fin 256) (L : Fin 4096) :
    (StableHlo.after (hostOps5 (F := Ideal)) W (Proc.devRef .tc main_v64) : S64x256x4096.Idx → Elt Ideal .f32) (ix3 n c L)
      = (W (Proc.devRef .tc main_v61) : S64x256x4096.Idx → Elt Ideal .f32) (ix3 n c (lanePerm L)) := by
  rw [rhost5_out0 W]
  exact unint_apply _ shapeCasts_S64x256x4096_S64x256x2x2x32x32
    transposes_S64x256x2x2x32x32_S64x256x32x2x32x2_0_1_4_2_5_3 shapeCasts_S64x256x32x2x32x2_S64x256x4096 n c L

/-- After host stretch 9 the result is the last region's output with its lanes unflattened into rows and columns. -/
theorem rhost9_out (W : Valuation τ sig (Elt Ideal)) :
    (StableHlo.after (hostOps9 (F := Ideal)) W (Proc.devRef .tc main_v111) : S64x256x64x64.Idx → Elt Ideal .f32)
      = shapeCast S64x256x64x64 (W (Proc.devRef .tc main_v110) : S64x256x4096.Idx → Elt Ideal .f32)
          shapeCasts_S64x256x4096_S64x256x64x64 := by
  after_results_simp
  rfl

end Cert.ReferenceIdeal.Val

end
-- ==== Proof.RefV1a.lean ====
import proofs.«159567_g2000302752657622_pallasbulk_725_3_alg».proof.Proof.Gen.ReferenceIdeal.Skeleton
import Idealize.ShloMosaic.Lib.ValueIdx
import Idealize.ShloMosaic.Lib.Pipeline.Value
import Idealize.ShloMosaic.Lib.ValueLayout
import Idealize.ShloMosaic.PureOps.Ideal.Laws

/-! # Region 1 of the reference: the payloads read at an index

The region computes, for one image, the stride-2 transposed 3 × 3 convolution of `z = sin (x · scale + shift)` as
four phases. `z` sits in a scratch of 1280 lanes between two margins of zeros; a slab is 1024 consecutive lanes of the
scratch times a mask row; each of the nine taps is a [64,64] weight times a slab, and a phase is the sum of its taps.
Every value the body stores or carries is read here at an index with explicit coordinates, over variables of the
literal vector types. -/

noncomputable section

namespace Cert.ReferenceIdeal.Val

open Cert.ReferenceIdeal Cert.ReferenceIdeal.Gen
open Idealize.ShloMosaic Idealize.ShloMosaic.ValueIdx
open scoped BigOperators

/-! ## The tap product [64,64] · [64,1024] -/

/-- The dimension numbers of every tap product: one contracted axis of extent 64. -/
abbrev dot1 : DotDims S64x64 S64x1024 S64x1024 := dot_S64x64_S64x1024_S64x1024_1_0_0_1_n_n

/-- The weight's row is the output's row. -/
theorem dot1_lhs_0 (i : S64x1024.Idx) (q : dot1.contr.Idx) : (dot1.lhsIdx i q 0).val = (i 0).val := by
  unfold DotDims.lhsIdx
  rw [dif_neg (show ¬(0 : Fin S64x64.rank) ∈ dot1.lhsBatch by decide),
    dif_pos (show (0 : Fin S64x64.rank) ∈ dot1.lhsNonContracting by decide)]
  rfl

/-- The weight's column is the contracted coordinate. -/
theorem dot1_lhs_1 (i : S64x1024.Idx) (q : dot1.contr.Idx) : (dot1.lhsIdx i q 1).val = (q ⟨0, by decide⟩).val :=
  dot1.lhsIdx_val_of_single rfl i q

/-- The slab's row is the contracted coordinate. -/
theorem dot1_rhs_0 (i : S64x1024.Idx) (q : dot1.contr.Idx) : (dot1.rhsIdx i q 0).val = (q ⟨0, by decide⟩).val :=
  dot1.rhsIdx_val_of_single rfl i q

/-- The slab's lane is the output's lane. -/
theorem dot1_rhs_1 (i : S64x1024.Idx) (q : dot1.contr.Idx) : (dot1.rhsIdx i q 1).val = (i 1).val := by
  unfold DotDims.rhsIdx
  rw [dif_neg (show ¬(1 : Fin S64x1024.rank) ∈ dot1.rhsBatch by decide),
    dif_pos (show (1 : Fin S64x1024.rank) ∈ dot1.rhsNonContracting by decide)]
  rfl

/-- The product into the zero accumulator at output channel `a` and lane `l`: the sum over the 64 input channels. -/
theorem matmul1_apply (A : FVec Ideal S64x64 .f32) (B : FVec Ideal S64x1024 .f32) (a : Fin 64) (l : Fin 1024) :
    matmul dot1 none A B (constant (F := Ideal) S64x1024 .f32 0x00000000#32) (ix2 a l)
      = ∑ b : Fin 64, A (ix2 a b) * B (ix2 b l) := by
  show FloatOps.matmul dot1 none A B (constant (F := Ideal) S64x1024 .f32 0x00000000#32) (ix2 a l) = _
  rw [Ideal.matmul_constant_zero_apply, ← Equiv.sum_comp (contrEquiv1 dot1 64 rfl rfl).symm]
  refine Finset.sum_congr rfl fun b _ => ?_
  have hb := contrEquiv1_symm_val dot1 64 rfl rfl b
  have el : dot1.lhsIdx (ix2 a l) ((contrEquiv1 dot1 64 rfl rfl).symm b) = ix2 a b := funext fun d => Fin.ext (by
    match d with
    | ⟨0, _⟩ => exact dot1_lhs_0 _ _
    | ⟨1, _⟩ => exact (dot1_lhs_1 _ _).trans hb)
  have er : dot1.rhsIdx (ix2 a l) ((contrEquiv1 dot1 64 rfl rfl).symm b) = ix2 b l := funext fun d => Fin.ext (by
    match d with
    | ⟨0, _⟩ => exact (dot1_rhs_0 _ _).trans hb
    | ⟨1, _⟩ => exact dot1_rhs_1 _ _)
  rw [el, er]

/-- A tap: the weight, loaded with a leading unit axis, times a slab. -/
theorem tap_apply (w : Vec Ideal S1x64x64 .f32) (B : FVec Ideal S64x1024 .f32) (a : Fin 64) (l : Fin 1024) :
    matmul dot1 none (shapeCast S64x64 w shapeCasts_S1x64x64_S64x64 : FVec Ideal S64x64 .f32) B
        (constant (F := Ideal) S64x1024 .f32 0x00000000#32) (ix2 a l)
      = ∑ b : Fin 64, w (ix3 (0 : Fin 1) a b) * B (ix2 b l) := by
  refine (matmul1_apply _ B a l).trans ?_
  exact Finset.sum_congr rfl fun b _ => congrArg (· * B (ix2 b l)) (shapeCast_1ab_ab_apply w _ a b)

/-! ## Lane sums, columns, broadcasts -/

/-- The sum along the 1024 lanes of a [64,1024] block, at channel `a`. -/
theorem laneSum1_apply (X : FVec Ideal S64x1024 .f32) (a : Fin 64) :
    multiReduction (F := Ideal) .add [1] S64 X 0x00000000#32 reduces_S64x1024_S64 (.inl rfl) rfl (ix1 a)
      = ∑ l : Fin 1024, X (ix2 a l) := by
  refine (Ideal.multiReduction_add_single X 0x00000000#32 reduces_S64x1024_S64 (.inl rfl) rfl (ix1 a)).trans ?_
  refine Finset.sum_congr rfl fun l _ => congrArg X ?_
  funext d; apply Fin.ext
  match d with
  | ⟨0, _⟩ => rfl
  | ⟨1, _⟩ => rfl

/-- A [64] vector viewed as a [64,1] column reads its entry. -/
theorem colv_apply (Y : FVec Ideal S64 .f32) (a : Fin 64) (z : Fin 1) :
    shapeCast S64x1 Y shapeCasts_S64_S64x1 (ix2 a z) = Y (ix1 a) := by
  refine shapeCast_apply Y _ (ix2 a z) (ix1 a) ?_
  have hz : z.val = 0 := by omega
  rw [Shape.rowMajor_val_one, Shape.rowMajor_val_two]
  show a.val = a.val * 1 + z.val
  rw [hz]; omega

/-- A [64,1] column broadcast along the lanes reads the column's entry of the channel. -/
theorem bcol_apply {α : Type} (v : S64x1.Idx → α) (a : Fin 64) (l : Fin 1024) :
    broadcastTo S64x1024 v broadcasts_S64x1_S64x1024 (ix2 a l) = v (ix2 a (0 : Fin 1)) := by
  refine broadcastTo_apply v broadcasts_S64x1_S64x1024 (ix2 a l) (ix2 a (0 : Fin 1)) fun d => ?_
  match d with
  | ⟨0, _⟩ =>
    show a.val = if (64 : ℕ) = 1 then 0 else a.val
    split
    · omega
    · rfl
  | ⟨1, _⟩ =>
    show (0 : ℕ) = if (1 : ℕ) = 1 then 0 else l.val
    split
    · rfl
    · omega

/-- The only index of a one-entry axis. -/
theorem fin1_eq_zero (z : Fin 1) : z = 0 := Fin.ext (by omega)

/-! ## The zero splats -/

/-- The initial sum column is zero. -/
theorem pay1_4_apply (i : S64x1.Idx) : Gen.k1_pay4 (F := Ideal) i = 0 := Ideal.ofBits_zero_f32

/-- The initial sum-of-squares column is zero. -/
theorem pay1_5_apply (i : S64x1.Idx) : Gen.k1_pay5 (F := Ideal) i = 0 := Ideal.ofBits_zero_f32

/-- The scratch is first filled with zeros. -/
theorem pay1_6_apply (i : S64x1280.Idx) : Gen.k1_pay6 (F := Ideal) i = 0 := by
  unfold Gen.k1_pay6
  refine (congrFun (shapeCast_self _ _) i).trans ?_
  exact Ideal.ofBits_zero_f32

/-! ## The activation and the slabs -/

/-- `z = sin (x · scale + shift)` of the image's block, the scale and shift columns broadcast along the lanes. -/
theorem pay1_7_apply (v7 : Vec Ideal S1x64x1024 .f32) (v9 v13 : Vec Ideal S64x1 .f32) (a : Fin 64) (l : Fin 1024) :
    Gen.k1_pay7 v7 v9 v13 (ix2 a l)
      = Ideal.sin (v7 (ix3 (0 : Fin 1) a l) * v9 (ix2 a (0 : Fin 1)) + v13 (ix2 a (0 : Fin 1))) := by
  unfold Gen.k1_pay7
  refine (congrFun (shapeCast_self _ _) (ix2 a l)).trans ?_
  show Ideal.sin (shapeCast S64x1024 v7 shapeCasts_S1x64x1024_S64x1024 (ix2 a l)
      * broadcastTo S64x1024 (shapeCast S64x1 v9 shapeCasts_S64x1_S64x1) broadcasts_S64x1_S64x1024 (ix2 a l)
      + broadcastTo S64x1024 (shapeCast S64x1 v13 shapeCasts_S64x1_S64x1) broadcasts_S64x1_S64x1024 (ix2 a l)) = _
  rw [shapeCast_1ab_ab_apply v7 _ a l, bcol_apply, bcol_apply, shapeCast_self v9, shapeCast_self v13]

/-- A slab: loaded lanes of the scratch times the mask row broadcast down the channels. -/
theorem slab_apply (v : Vec Ideal S64x1024 .f32) (m : Vec Ideal S1x1024 .f32) (b : Fin 64) (l : Fin 1024) :
    mulf (F := Ideal) (φ := .f32) v (broadcastTo S64x1024 m broadcasts_S1x1024_S64x1024) (ix2 b l)
      = v (ix2 b l) * m (ix2 (0 : Fin 1) l) := by
  refine (mulf_apply (φ := .f32) _ _ _).trans ?_
  rw [broadcastTo_1b_ab_apply m _ b l]

/-- The slab of shift index 0. -/
theorem pay1_8_apply (v21 : Vec Ideal S64x1024 .f32) (v22 : Vec Ideal S1x1024 .f32) (b : Fin 64) (l : Fin 1024) :
    Gen.k1_pay8 v21 v22 (ix2 b l) = v21 (ix2 b l) * v22 (ix2 (0 : Fin 1) l) :=
  slab_apply v21 v22 b l

/-- The slab of shift index 1. -/
theorem pay1_9_apply (v25 : Vec Ideal S64x1024 .f32) (v26 : Vec Ideal S1x1024 .f32) (b : Fin 64) (l : Fin 1024) :
    Gen.k1_pay9 v25 v26 (ix2 b l) = v25 (ix2 b l) * v26 (ix2 (0 : Fin 1) l) :=
  slab_apply v25 v26 b l

/-- The slab of shift index 2. -/
theorem pay1_10_apply (v29 : Vec Ideal S64x1024 .f32) (v30 : Vec Ideal S1x1024 .f32) (b : Fin 64) (l : Fin 1024) :
    Gen.k1_pay10 v29 v30 (ix2 b l) = v29 (ix2 b l) * v30 (ix2 (0 : Fin 1) l) :=
  slab_apply v29 v30 b l

end Cert.ReferenceIdeal.Val

end
-- ==== Proof.RefV1b.lean ====
import proofs.«159567_g2000302752657622_pallasbulk_725_3_alg».proof.Proof.RefV1a

/-! # Region 1 of the reference: the tap sums, the stored phases and the carried statistics, read at an index

Phase 0 is one tap, phases 1 and 2 are two taps each and phase 3 is four taps, each tap a [64,64] weight times a slab,
added in tap order. Each phase's accumulator is stored with a leading unit axis, and its lane sums and the lane sums
of its squares are added to the carried statistics columns. -/

noncomputable section

namespace Cert.ReferenceIdeal.Val

open Cert.ReferenceIdeal Cert.ReferenceIdeal.Gen
open Idealize.ShloMosaic Idealize.ShloMosaic.ValueIdx
open scoped BigOperators

/-! ## The tap sums of the four phases -/

/-- Phase 0: the tap of shift index 0. -/
theorem pay1_11_apply (v24 : FVec Ideal S64x1024 .f32) (v37 : Vec Ideal S1x64x64 .f32) (a : Fin 64) (l : Fin 1024) :
    Gen.k1_pay11 v24 v37 (ix2 a l) = ∑ b : Fin 64, v37 (ix3 (0 : Fin 1) a b) * v24 (ix2 b l) :=
  tap_apply v37 v24 a l

/-- Phase 1: the tap of shift index 1, then the tap of shift index 0. -/
theorem pay1_12_apply (v24 v28 : FVec Ideal S64x1024 .f32) (v40 v43 : Vec Ideal S1x64x64 .f32) (a : Fin 64) (l : Fin 1024) :
    Gen.k1_pay12 v24 v28 v40 v43 (ix2 a l)
      = (∑ b : Fin 64, v40 (ix3 (0 : Fin 1) a b) * v28 (ix2 b l))
        + ∑ b : Fin 64, v43 (ix3 (0 : Fin 1) a b) * v24 (ix2 b l) := by
  unfold Gen.k1_pay12
  refine (addf_apply (φ := .f32) _ _ _).trans ?_
  exact congrArg₂ (· + ·) (tap_apply v40 v28 a l) (tap_apply v43 v24 a l)

/-- Phase 2: the tap of shift index 2 (its slab formed from the loaded lanes and the mask row), then the tap of shift
    index 0. -/
theorem pay1_13_apply (v24 : FVec Ideal S64x1024 .f32) (v29 : Vec Ideal S64x1024 .f32) (v30 : Vec Ideal S1x1024 .f32)
    (v47 v50 : Vec Ideal S1x64x64 .f32) (a : Fin 64) (l : Fin 1024) :
    Gen.k1_pay13 v24 v29 v30 v47 v50 (ix2 a l)
      = (∑ b : Fin 64, v47 (ix3 (0 : Fin 1) a b) * (v29 (ix2 b l) * v30 (ix2 (0 : Fin 1) l)))
        + ∑ b : Fin 64, v50 (ix3 (0 : Fin 1) a b) * v24 (ix2 b l) := by
  unfold Gen.k1_pay13
  refine (addf_apply (φ := .f32) _ _ _).trans ?_
  refine congrArg₂ (· + ·) ((tap_apply v47 (Gen.k1_pay10 v29 v30) a l).trans ?_) (tap_apply v50 v24 a l)
  exact Finset.sum_congr rfl fun b _ => congrArg (v47 (ix3 (0 : Fin 1) a b) * ·) (pay1_10_apply v29 v30 b l)

/-- Phase 3's first tap: shift index 3, its slab formed from the loaded lanes and the mask row. -/
theorem pay1_14_apply (v33 : Vec Ideal S64x1024 .f32) (v34 : Vec Ideal S1x1024 .f32) (v54 : Vec Ideal S1x64x64 .f32)
    (a : Fin 64) (l : Fin 1024) :
    Gen.k1_pay14 v33 v34 v54 (ix2 a l)
      = ∑ b : Fin 64, v54 (ix3 (0 : Fin 1) a b) * (v33 (ix2 b l) * v34 (ix2 (0 : Fin 1) l)) := by
  unfold Gen.k1_pay14
  refine (tap_apply v54 _ a l).trans ?_
  exact Finset.sum_congr rfl fun b _ => congrArg (v54 (ix3 (0 : Fin 1) a b) * ·) (slab_apply v33 v34 b l)

/-- The weight of phase 3's second tap, its leading unit axis dropped. -/
theorem pay1_15_apply (v57 : Vec Ideal S1x64x64 .f32) (a b : Fin 64) :
    Gen.k1_pay15 v57 (ix2 a b) = v57 (ix3 (0 : Fin 1) a b) :=
  shapeCast_1ab_ab_apply v57 _ a b

/-- Phase 3: the first tap's product, then the taps of shift indices 2, 1 and 0 added in that order. -/
theorem pay1_16_apply (v24 v28 v32 v56 : FVec Ideal S64x1024 .f32) (v58 : FVec Ideal S64x64 .f32)
    (v61 v65 : Vec Ideal S1x64x64 .f32) (a : Fin 64) (l : Fin 1024) :
    Gen.k1_pay16 v24 v28 v32 v56 v58 v61 v65 (ix2 a l)
      = ((v56 (ix2 a l) + ∑ b : Fin 64, v58 (ix2 a b) * v32 (ix2 b l))
          + ∑ b : Fin 64, v61 (ix3 (0 : Fin 1) a b) * v28 (ix2 b l))
        + ∑ b : Fin 64, v65 (ix3 (0 : Fin 1) a b) * v24 (ix2 b l) := by
  unfold Gen.k1_pay16
  refine (addf_apply (φ := .f32) _ _ _).trans ?_
  refine congrArg₂ (· + ·) ?_ (tap_apply v65 v24 a l)
  refine (addf_apply (φ := .f32) _ _ _).trans ?_
  refine congrArg₂ (· + ·) ?_ (tap_apply v61 v28 a l)
  refine (addf_apply (φ := .f32) _ _ _).trans ?_
  exact congrArg (v56 (ix2 a l) + ·) (matmul1_apply v58 v32 a l)

/-! ## The stored phases -/

/-- Phase 0's block as stored: the accumulator with a leading unit axis. -/
theorem pay1_17_apply (v39 : FVec Ideal S64x1024 .f32) (u : Fin 1) (a : Fin 64) (l : Fin 1024) :
    Gen.k1_pay17 v39 (ix3 u a l) = v39 (ix2 a l) :=
  shapeCast_ab_1ab_apply v39 _ u a l

/-- Phase 1's block as stored: the accumulator with a leading unit axis. -/
theorem pay1_20_apply (v46 : FVec Ideal S64x1024 .f32) (u : Fin 1) (a : Fin 64) (l : Fin 1024) :
    Gen.k1_pay20 v46 (ix3 u a l) = v46 (ix2 a l) :=
  shapeCast_ab_1ab_apply v46 _ u a l

/-- Phase 2's block as stored: the accumulator with a leading unit axis. -/
theorem pay1_23_apply (v53 : FVec Ideal S64x1024 .f32) (u : Fin 1) (a : Fin 64) (l : Fin 1024) :
    Gen.k1_pay23 v53 (ix3 u a l) = v53 (ix2 a l) :=
  shapeCast_ab_1ab_apply v53 _ u a l

/-- Phase 3's block as stored: the accumulator with a leading unit axis. -/
theorem pay1_1_apply (v68 : FVec Ideal S64x1024 .f32) (u : Fin 1) (a : Fin 64) (l : Fin 1024) :
    Gen.k1_pay1 v68 (ix3 u a l) = v68 (ix2 a l) :=
  shapeCast_ab_1ab_apply v68 _ u a l

/-! ## The carried statistics -/

/-- A statistics column updated by a block's lane sums. -/
theorem stat_apply (X : FVec Ideal S64x1024 .f32) (p : Vec Ideal S64x1 .f32) (a : Fin 64) (z : Fin 1) :
    addf (F := Ideal) (φ := .f32) (shapeCast S64x1 p shapeCasts_S64x1_S64x1)
        (shapeCast S64x1 (multiReduction (F := Ideal) .add [1] S64 X 0x00000000#32 reduces_S64x1024_S64 (.inl rfl) rfl)
          shapeCasts_S64_S64x1) (ix2 a z)
      = p (ix2 a z) + ∑ l : Fin 1024, X (ix2 a l) := by
  refine (addf_apply (φ := .f32) _ _ _).trans ?_
  rw [shapeCast_self p, colv_apply, laneSum1_apply]

/-- A statistics column updated by the lane sums of a block's squares. -/
theorem statSq_apply (X : FVec Ideal S64x1024 .f32) (p : Vec Ideal S64x1 .f32) (a : Fin 64) (z : Fin 1) :
    addf (F := Ideal) (φ := .f32) (shapeCast S64x1 p shapeCasts_S64x1_S64x1)
        (shapeCast S64x1 (multiReduction (F := Ideal) .add [1] S64 (mulf X X) 0x00000000#32 reduces_S64x1024_S64 (.inl rfl) rfl)
          shapeCasts_S64_S64x1) (ix2 a z)
      = p (ix2 a z) + ∑ l : Fin 1024, X (ix2 a l) * X (ix2 a l) :=
  stat_apply (mulf X X) p a z

/-- The carried sum column after phase 0: the value before plus the phase's lane sums. -/
theorem pay1_18_apply (v39 : FVec Ideal S64x1024 .f32) (v72 : Vec Ideal S64x1 .f32) (a : Fin 64) (z : Fin 1) :
    Gen.k1_pay18 v39 v72 (ix2 a z) = v72 (ix2 a z) + ∑ l : Fin 1024, v39 (ix2 a l) :=
  stat_apply v39 v72 a z

/-- The carried sum-of-squares column after phase 0: the value before plus the lane sums of the phase's squares. -/
theorem pay1_19_apply (v39 : FVec Ideal S64x1024 .f32) (v78 : Vec Ideal S64x1 .f32) (a : Fin 64) (z : Fin 1) :
    Gen.k1_pay19 v39 v78 (ix2 a z) = v78 (ix2 a z) + ∑ l : Fin 1024, v39 (ix2 a l) * v39 (ix2 a l) :=
  statSq_apply v39 v78 a z

/-- The carried sum column after phase 1: the value before plus the phase's lane sums. -/
theorem pay1_21_apply (v46 : FVec Ideal S64x1024 .f32) (v88 : Vec Ideal S64x1 .f32) (a : Fin 64) (z : Fin 1) :
    Gen.k1_pay21 v46 v88 (ix2 a z) = v88 (ix2 a z) + ∑ l : Fin 1024, v46 (ix2 a l) :=
  stat_apply v46 v88 a z

/-- The carried sum-of-squares column after phase 1: the value before plus the lane sums of the phase's squares. -/
theorem pay1_22_apply (v46 : FVec Ideal S64x1024 .f32) (v94 : Vec Ideal S64x1 .f32) (a : Fin 64) (z : Fin 1) :
    Gen.k1_pay22 v46 v94 (ix2 a z) = v94 (ix2 a z) + ∑ l : Fin 1024, v46 (ix2 a l) * v46 (ix2 a l) :=
  statSq_apply v46 v94 a z

/-- The carried sum column after phase 2: the value before plus the phase's lane sums. -/
theorem pay1_24_apply (v53 : FVec Ideal S64x1024 .f32) (v104 : Vec Ideal S64x1 .f32) (a : Fin 64) (z : Fin 1) :
    Gen.k1_pay24 v53 v104 (ix2 a z) = v104 (ix2 a z) + ∑ l : Fin 1024, v53 (ix2 a l) :=
  stat_apply v53 v104 a z

/-- The carried sum-of-squares column after phase 2: the value before plus the lane sums of the phase's squares. -/
theorem pay1_25_apply (v53 : FVec Ideal S64x1024 .f32) (v110 : Vec Ideal S64x1 .f32) (a : Fin 64) (z : Fin 1) :
    Gen.k1_pay25 v53 v110 (ix2 a z) = v110 (ix2 a z) + ∑ l : Fin 1024, v53 (ix2 a l) * v53 (ix2 a l) :=
  statSq_apply v53 v110 a z

/-- The carried sum column after phase 3: the value before plus the phase's lane sums. -/
theorem pay1_2_apply (v68 : FVec Ideal S64x1024 .f32) (v120 : Vec Ideal S64x1 .f32) (a : Fin 64) (z : Fin 1) :
    Gen.k1_pay2 v68 v120 (ix2 a z) = v120 (ix2 a z) + ∑ l : Fin 1024, v68 (ix2 a l) :=
  stat_apply v68 v120 a z

/-- The carried sum-of-squares column after phase 3: the value before plus the lane sums of the phase's squares. -/
theorem pay1_3_apply (v68 : FVec Ideal S64x1024 .f32) (v126 : Vec Ideal S64x1 .f32) (a : Fin 64) (z : Fin 1) :
    Gen.k1_pay3 v68 v126 (ix2 a z) = v126 (ix2 a z) + ∑ l : Fin 1024, v68 (ix2 a l) * v68 (ix2 a l) :=
  statSq_apply v68 v126 a z

end Cert.ReferenceIdeal.Val

end
-- ==== Proof.RefV1c.lean ====
import proofs.«159567_g2000302752657622_pallasbulk_725_3_alg».proof.Proof.RefV1a
import Idealize.ShloMosaic.Lib.Pipeline.FrameBody

/-! # Region 1 of the reference: the scratch and its shifted loads -/

noncomputable section

namespace Cert.ReferenceIdeal.Val

open Cert.ReferenceIdeal Cert.ReferenceIdeal.Gen
open Idealize.ShloMosaic Idealize.ShloMosaic.ValueIdx
open scoped BigOperators

/-! ## The scratch: `z` between two margins of zeros, and its shifted loads

The scratch of 1280 lanes is first filled with zeros and then `z` (1024 lanes) is stored at lanes [128, 1152). What
the two stores leave reads `z` at lane `m - 128` inside that window and zero outside it; a load of 1024 lanes from
lane `128 + s` therefore reads `z` shifted by `s` lanes, zero where the shift runs past the last lane. -/

/-- `z` padded by zero margins: lanes [128, 1152) hold `z`, the other lanes zero. -/
def padZ (Z : S64x1024.Idx → EReal) : S64x1280.Idx → EReal := fun i =>
  if h : 128 ≤ (i 1).val ∧ (i 1).val < 1152 then Z (ix2 (i 0) (⟨(i 1).val - 128, by omega⟩ : Fin 1024)) else 0

/-- `z` shifted by `s` lanes: lane `l` holds `z` at lane `l + s`, zero past the last lane. -/
def shiftZ (Z : S64x1024.Idx → EReal) (s : ℕ) (b : Fin 64) (l : Fin 1024) : EReal :=
  if h : l.val + s < 1024 then Z (ix2 b (⟨l.val + s, h⟩ : Fin 1024)) else 0

/-- What the two stores leave in the scratch, at channel `b` and lane `m`. -/
theorem scr_apply (Z : Vec Ideal S64x1024 .f32)
    (inbZ : ∀ a, (![0, 128] : Fin 2 → ℕ) a + S64x1024.size a ≤ S64x1280.size a)
    (inbW : ∀ a, (![0, 0] : Fin 2 → ℕ) a + S64x1280.size a ≤ S64x1280.size a) (b : Fin 64) (m : Fin 1280) :
    View.canon [(⟨Rect.unit (s := S64x1280) ![0, 128] S64x1024.size inbZ, Z⟩ : View.Piece (Elt Ideal) S64x1280 .f32),
        ⟨Rect.unit (s := S64x1280) ![0, 0] S64x1280.size inbW, Gen.k1_pay6 (F := Ideal)⟩] (ix2 b m)
      = padZ Z (ix2 b m) := by
  by_cases h : 128 ≤ m.val ∧ m.val < 1152
  · -- inside the window: the index is the image of (b, m - 128) under the last store's rectangle
    have e : ix2 b m = (Rect.unit (s := S64x1280) ![0, 128] S64x1024.size inbZ).emb
        (ix2 b (⟨m.val - 128, by omega⟩ : Fin 1024)) := by
      funext d; apply Fin.ext
      match d with
      | ⟨0, _⟩ => show b.val = 0 + 1 * b.val; omega
      | ⟨1, _⟩ => show m.val = 128 + 1 * (m.val - 128); omega
    rw [e, View.canon_cons_emb, ← e]
    show _ = dite _ _ _
    rw [dif_pos (show 128 ≤ ((ix2 b m : S64x1280.Idx) 1).val ∧ ((ix2 b m : S64x1280.Idx) 1).val < 1152 from h)]
  · -- outside it: the earlier store, of zeros over the whole scratch
    have hm : ix2 b m ∉ (Rect.unit (s := S64x1280) ![0, 128] S64x1024.size inbZ).set := by
      rw [Rect.mem_set_unit]
      intro hall
      have h1 := hall 1
      exact h ⟨h1.1, h1.2⟩
    have key := View.canon_cons_of_not_mem (Val := Elt Ideal) (⟨Rect.unit (s := S64x1280) ![0, 128] S64x1024.size inbZ, Z⟩ : View.Piece (Elt Ideal) S64x1280 .f32) [(⟨Rect.unit (s := S64x1280) ![0, 0] S64x1280.size inbW, Gen.k1_pay6 (F := Ideal)⟩ : View.Piece (Elt Ideal) S64x1280 .f32)] (y := ix2 b m) hm
    have zero : View.canon [(⟨Rect.unit (s := S64x1280) ![0, 0] S64x1280.size inbW, Gen.k1_pay6 (F := Ideal)⟩ : View.Piece (Elt Ideal) S64x1280 .f32)] = Gen.k1_pay6 (F := Ideal) :=
      View.canon_unit_zero (by funext d; match d with | ⟨0, _⟩ => rfl | ⟨1, _⟩ => rfl) inbW _
    rw [key, zero]
    show _ = dite _ _ _
    rw [dif_neg (show ¬(128 ≤ ((ix2 b m : S64x1280.Idx) 1).val ∧ ((ix2 b m : S64x1280.Idx) 1).val < 1152) from h)]
    exact pay1_6_apply _

/-- A load of 1024 lanes from lane `L` of contents `X` of the scratch's shape reads `X` at lane `L + l`. -/
theorem ldLanes_apply {α : Type} (X : S64x1280.Idx → α) (L : ℕ) (hL : L + 1024 ≤ 1280)
    (inbL : ∀ a, (![0, L] : Fin 2 → ℕ) a + S64x1024.size a ≤ S64x1280.size a) (b : Fin 64) (l : Fin 1024) :
    X ((Rect.unit (s := S64x1280) ![0, L] S64x1024.size inbL).idx (ix2 b l))
      = X (ix2 b (⟨L + l.val, by omega⟩ : Fin 1280)) := by
  refine congrArg X ?_
  funext d; apply Fin.ext
  match d with
  | ⟨0, _⟩ => show 0 + 1 * b.val = b.val; omega
  | ⟨1, _⟩ => show L + 1 * l.val = L + l.val; omega

/-- The zero-padded `z` at lane `128 + s + l` is `z` shifted by `s`, for a shift of at most 128 lanes. -/
theorem padZ_shift (Z : S64x1024.Idx → EReal) (s : ℕ) (hs : s ≤ 128) (b : Fin 64) (l : Fin 1024) :
    padZ Z (ix2 b (⟨128 + s + l.val, by omega⟩ : Fin 1280)) = shiftZ Z s b l := by
  unfold padZ shiftZ
  by_cases h : l.val + s < 1024
  · rw [dif_pos h, dif_pos (show 128 ≤ 128 + s + l.val ∧ 128 + s + l.val < 1152 by omega)]
    refine congrArg Z ?_
    funext d; apply Fin.ext
    match d with
    | ⟨0, _⟩ => rfl
    | ⟨1, _⟩ => show 128 + s + l.val - 128 = l.val + s; omega
  · rw [dif_neg h, dif_neg (show ¬(128 ≤ 128 + s + l.val ∧ 128 + s + l.val < 1152) by omega)]

/-- The slab loaded from lane `128 + s` of the scratch the two stores leave: `z` shifted by `s` lanes. -/
theorem slabLd_apply (Z : Vec Ideal S64x1024 .f32) (s : ℕ) (hs : s ≤ 128)
    (inbZ : ∀ a, (![0, 128] : Fin 2 → ℕ) a + S64x1024.size a ≤ S64x1280.size a)
    (inbW : ∀ a, (![0, 0] : Fin 2 → ℕ) a + S64x1280.size a ≤ S64x1280.size a)
    (inbL : ∀ a, (![0, 128 + s] : Fin 2 → ℕ) a + S64x1024.size a ≤ S64x1280.size a) (b : Fin 64) (l : Fin 1024) :
    View.ld (View.canon [(⟨Rect.unit (s := S64x1280) ![0, 128] S64x1024.size inbZ, Z⟩ : View.Piece (Elt Ideal) S64x1280 .f32),
        ⟨Rect.unit (s := S64x1280) ![0, 0] S64x1280.size inbW, Gen.k1_pay6 (F := Ideal)⟩])
      (Rect.unit (s := S64x1280) ![0, 128 + s] S64x1024.size inbL) (ix2 b l)
      = shiftZ Z s b l := by
  have e1 := ldLanes_apply (View.canon [(⟨Rect.unit (s := S64x1280) ![0, 128] S64x1024.size inbZ, Z⟩ : View.Piece (Elt Ideal) S64x1280 .f32), (⟨Rect.unit (s := S64x1280) ![0, 0] S64x1280.size inbW, Gen.k1_pay6 (F := Ideal)⟩ : View.Piece (Elt Ideal) S64x1280 .f32)]) (128 + s) (by omega) inbL b l
  exact e1.trans ((scr_apply Z inbZ inbW b _).trans (padZ_shift Z s hs b l))

end Cert.ReferenceIdeal.Val

end
-- ==== Proof.RefV1d.lean ====
import proofs.«159567_g2000302752657622_pallasbulk_725_3_alg».proof.Proof.RefR1Kernel
import proofs.«159567_g2000302752657622_pallasbulk_725_3_alg».proof.Proof.RefV1b
import proofs.«159567_g2000302752657622_pallasbulk_725_3_alg».proof.Proof.RefV1c
import proofs.«159567_g2000302752657622_pallasbulk_725_3_alg».proof.Proof.RefV1s

/-! # Region 1 of the reference: the body's named values as functions of the five input blocks

The values the body computes from one image's block `x0`, the scale and shift columns `x1`, `x2`, the nine tap
matrices `x3` and the four mask rows `x4` are read at an index: the activation, the four masked windows (each the
activation moved by 0, 1, 32 or 33 lanes, zero past the last lane, times its mask row), and the four phases as their
taps added in tap order. -/

noncomputable section

namespace Cert.ReferenceIdeal.Val

open Cert.ReferenceIdeal Cert.ReferenceIdeal.Gen Cert.ReferenceIdeal.Hand
open Idealize.ShloMosaic Idealize.ShloMosaic.ValueIdx
open scoped BigOperators

/-! ## The readers of the blocks -/

/-- The tap matrices read off the weight block. -/
abbrev Wb (x3 : Vec Ideal S9x64x64 .f32) : Fin 9 → Fin 64 → Fin 64 → EReal := fun t a b => x3 (ix3 t a b)

/-- The activation continued by zeros, read off the image's block and the scale and shift columns. -/
abbrev Zb (x0 : Vec Ideal S1x64x1024 .f32) (x1 x2 : Vec Ideal S64x1 .f32) (b : Fin 64) (m : ℕ) : EReal :=
  Cert.Lib.ConvSpec.zpad (fun c m => x0 (ix3 (0 : Fin 1) c m)) (fun c => x1 (ix2 c (0 : Fin 1)))
    (fun c => x2 (ix2 c (0 : Fin 1))) b m

/-- The four masked windows at lane `l`. -/
abbrev Sb (x0 : Vec Ideal S1x64x1024 .f32) (x1 x2 : Vec Ideal S64x1 .f32) (x4 : Vec Ideal S4x1024 .f32) (l : Fin 1024) :
    Fin 4 → Fin 64 → EReal := fun s b =>
  Cert.Lib.ConvSpec.slab (fun c m => x0 (ix3 (0 : Fin 1) c m)) (fun c => x1 (ix2 c (0 : Fin 1)))
    (fun c => x2 (ix2 c (0 : Fin 1))) (fun s l => x4 (ix2 s l)) l s b

/-- A window is the continued activation at the shifted lane times the mask row. -/
theorem Sb_eq (x0 : Vec Ideal S1x64x1024 .f32) (x1 x2 : Vec Ideal S64x1 .f32) (x4 : Vec Ideal S4x1024 .f32)
    (l : Fin 1024) (s : Fin 4) (b : Fin 64) :
    Sb x0 x1 x2 x4 l s b = Zb x0 x1 x2 b (l.val + Cert.Lib.ConvSpec.laneShift s) * x4 (ix2 s l) := rfl

/-! ## Loads through the body's rectangles -/

private theorem zeros3 : (![0, 0, 0] : Fin 3 → ℕ) = fun _ => 0 := funext fun a => by fin_cases a <;> rfl
private theorem zeros2 : (![0, 0] : Fin 2 → ℕ) = fun _ => 0 := funext fun a => by fin_cases a <;> rfl

/-- The image's block is loaded whole. -/
theorem ld_r1_x (x0 : Vec Ideal S1x64x1024 .f32) : View.ld x0 r1_x = x0 := View.ld_unit_zero zeros3 _ x0

/-- A column is loaded whole. -/
theorem ld_r1_c (x1 : Vec Ideal S64x1 .f32) : View.ld x1 r1_c = x1 := View.ld_unit_zero zeros2 _ x1

/-- Mask row `K` loaded as a [1,1024] block. -/
theorem ld_mask_apply (x4 : Vec Ideal S4x1024 .f32) (K : ℕ) (hK : K < 4)
    (inb : ∀ a, (![K, 0] : Fin 2 → ℕ) a + S1x1024.size a ≤ S4x1024.size a) (u : Fin 1) (l : Fin 1024) :
    View.ld x4 (Rect.unit (s := S4x1024) ![K, 0] S1x1024.size inb) (ix2 u l) = x4 (ix2 (⟨K, hK⟩ : Fin 4) l) := by
  refine congrArg x4 ?_
  funext d; apply Fin.ext
  have hu : u.val = 0 := by omega
  match d with
  | ⟨0, _⟩ => show K + 1 * u.val = K; omega
  | ⟨1, _⟩ => show 0 + 1 * l.val = l.val; omega

/-- Tap matrix `K` loaded as a [1,64,64] block. -/
theorem ld_tap_apply (x3 : Vec Ideal S9x64x64 .f32) (K : ℕ) (hK : K < 9)
    (inb : ∀ a, (![K, 0, 0] : Fin 3 → ℕ) a + S1x64x64.size a ≤ S9x64x64.size a) (u : Fin 1) (a b : Fin 64) :
    View.ld x3 (Rect.unit (s := S9x64x64) ![K, 0, 0] S1x64x64.size inb) (ix3 u a b) = x3 (ix3 (⟨K, hK⟩ : Fin 9) a b) := by
  refine congrArg x3 ?_
  funext d; apply Fin.ext
  have hu : u.val = 0 := by omega
  match d with
  | ⟨0, _⟩ => show K + 1 * u.val = K; omega
  | ⟨1, _⟩ => show 0 + 1 * a.val = a.val; omega
  | ⟨2, _⟩ => show 0 + 1 * b.val = b.val; omega

/-! ## The activation and the windows -/

section Named

variable (x0 : Vec Ideal S1x64x1024 .f32) (x1 x2 : Vec Ideal S64x1 .f32) (x3 : Vec Ideal S9x64x64 .f32)
  (x4 : Vec Ideal S4x1024 .f32)

/-- The activation at channel `a`, lane `l`. -/
theorem p1_z_apply (a : Fin 64) (l : Fin 1024) :
    p1_z x0 x1 x2 (ix2 a l)
      = Ideal.sin (x0 (ix3 (0 : Fin 1) a l) * x1 (ix2 a (0 : Fin 1)) + x2 (ix2 a (0 : Fin 1))) := by
  unfold p1_z
  refine (pay1_7_apply (View.ld x0 r1_x) (View.ld x1 r1_c) (View.ld x2 r1_c) a l).trans ?_
  rw [ld_r1_x x0, ld_r1_c x1, ld_r1_c x2]

/-- The activation moved by `s` lanes is the continued activation at lane `l + s`. -/
theorem shiftZ_p1_z (s : ℕ) (b : Fin 64) (l : Fin 1024) :
    shiftZ (p1_z x0 x1 x2) s b l = Zb x0 x1 x2 b (l.val + s) := by
  unfold shiftZ Zb Cert.Lib.ConvSpec.zpad
  by_cases h : l.val + s < 1024
  · rw [dif_pos h, dif_pos h]
    exact p1_z_apply x0 x1 x2 b ⟨l.val + s, h⟩
  · rw [dif_neg h, dif_neg h]

/-- The activation itself is the continued activation at its own lane. -/
theorem p1_z_eq_Zb (b : Fin 64) (l : Fin 1024) : p1_z x0 x1 x2 (ix2 b l) = Zb x0 x1 x2 b l.val := by
  unfold Zb Cert.Lib.ConvSpec.zpad
  rw [dif_pos l.isLt]
  exact p1_z_apply x0 x1 x2 b l

/-- A load of 1024 lanes from lane `128 + s` of the scratch: the continued activation at lane `l + s`. -/
theorem scrLd_apply (s : ℕ) (hs : s ≤ 128)
    (inbL : ∀ a, (![0, 128 + s] : Fin 2 → ℕ) a + S64x1024.size a ≤ S64x1280.size a) (b : Fin 64) (l : Fin 1024) :
    View.ld (p1_scr x0 x1 x2) (Rect.unit (s := S64x1280) ![0, 128 + s] S64x1024.size inbL) (ix2 b l)
      = Zb x0 x1 x2 b (l.val + s) := by
  unfold p1_scr
  exact (slabLd_apply (p1_z x0 x1 x2) s hs _ _ inbL b l).trans (shiftZ_p1_z x0 x1 x2 s b l)

/-- The window of shift index 0. -/
theorem p1_v24_apply (b : Fin 64) (l : Fin 1024) : p1_v24 x0 x1 x2 x3 x4 (ix2 b l) = Sb x0 x1 x2 x4 l 0 b := by
  unfold p1_v24
  refine (pay1_8_apply _ _ b l).trans ?_
  rw [Sb_eq]
  exact congrArg₂ (· * ·) (p1_z_eq_Zb x0 x1 x2 b l) (ld_mask_apply x4 0 (by decide) _ 0 l)

/-- The window of shift index 1. -/
theorem p1_v28_apply (b : Fin 64) (l : Fin 1024) : p1_v28 x0 x1 x2 x3 x4 (ix2 b l) = Sb x0 x1 x2 x4 l 1 b := by
  unfold p1_v28
  refine (pay1_9_apply _ _ b l).trans ?_
  rw [Sb_eq]
  exact congrArg₂ (· * ·) (scrLd_apply x0 x1 x2 1 (by decide) _ b l) (ld_mask_apply x4 1 (by decide) _ 0 l)

/-- The activation moved by 32 lanes, before its mask row. -/
theorem p1_v29_apply (b : Fin 64) (l : Fin 1024) : p1_v29 x0 x1 x2 x3 x4 (ix2 b l) = Zb x0 x1 x2 b (l.val + 32) := by
  unfold p1_v29
  exact scrLd_apply x0 x1 x2 32 (by decide) _ b l

/-- The window of shift index 2. -/
theorem p1_v32_apply (b : Fin 64) (l : Fin 1024) : p1_v32 x0 x1 x2 x3 x4 (ix2 b l) = Sb x0 x1 x2 x4 l 2 b := by
  unfold p1_v32
  refine (pay1_10_apply _ _ b l).trans ?_
  rw [Sb_eq]
  exact congrArg₂ (· * ·) (p1_v29_apply x0 x1 x2 x3 x4 b l) (ld_mask_apply x4 2 (by decide) _ 0 l)

/-! ## The phases -/

/-- Phase 0. -/
theorem p1_v39_apply (a : Fin 64) (l : Fin 1024) :
    p1_v39 x0 x1 x2 x3 x4 (ix2 a l) = phase1 (Wb x3) (Sb x0 x1 x2 x4 l) a 0 := by
  unfold p1_v39
  refine (pay1_11_apply _ _ a l).trans ?_
  show _ = tap1 (Wb x3) (Sb x0 x1 x2 x4 l) a 0 0
  unfold tap1
  exact Finset.sum_congr rfl fun b _ =>
    congrArg₂ (· * ·) (ld_tap_apply x3 0 (by decide) _ 0 a b) (p1_v24_apply x0 x1 x2 x3 x4 b l)

/-- Phase 1. -/
theorem p1_v46_apply (a : Fin 64) (l : Fin 1024) :
    p1_v46 x0 x1 x2 x3 x4 (ix2 a l) = phase1 (Wb x3) (Sb x0 x1 x2 x4 l) a 1 := by
  unfold p1_v46
  refine (pay1_12_apply _ _ _ _ a l).trans ?_
  show _ = tap1 (Wb x3) (Sb x0 x1 x2 x4 l) a 1 1 + tap1 (Wb x3) (Sb x0 x1 x2 x4 l) a 2 0
  unfold tap1
  refine congrArg₂ (· + ·) ?_ ?_
  · exact Finset.sum_congr rfl fun b _ =>
      congrArg₂ (· * ·) (ld_tap_apply x3 1 (by decide) _ 0 a b) (p1_v28_apply x0 x1 x2 x3 x4 b l)
  · exact Finset.sum_congr rfl fun b _ =>
      congrArg₂ (· * ·) (ld_tap_apply x3 2 (by decide) _ 0 a b) (p1_v24_apply x0 x1 x2 x3 x4 b l)

/-- Phase 2. -/
theorem p1_v53_apply (a : Fin 64) (l : Fin 1024) :
    p1_v53 x0 x1 x2 x3 x4 (ix2 a l) = phase1 (Wb x3) (Sb x0 x1 x2 x4 l) a 2 := by
  unfold p1_v53
  refine (pay1_13_apply _ _ _ _ _ a l).trans ?_
  show _ = tap1 (Wb x3) (Sb x0 x1 x2 x4 l) a 3 2 + tap1 (Wb x3) (Sb x0 x1 x2 x4 l) a 4 0
  unfold tap1
  refine congrArg₂ (· + ·) ?_ ?_
  · refine Finset.sum_congr rfl fun b _ => congrArg₂ (· * ·) (ld_tap_apply x3 3 (by decide) _ 0 a b) ?_
    rw [Sb_eq]
    exact congrArg₂ (· * ·) (p1_v29_apply x0 x1 x2 x3 x4 b l) (ld_mask_apply x4 2 (by decide) _ 0 l)
  · exact Finset.sum_congr rfl fun b _ =>
      congrArg₂ (· * ·) (ld_tap_apply x3 4 (by decide) _ 0 a b) (p1_v24_apply x0 x1 x2 x3 x4 b l)

/-- Phase 3's first tap. -/
theorem p1_v56_apply (a : Fin 64) (l : Fin 1024) :
    p1_v56 x0 x1 x2 x3 x4 (ix2 a l) = tap1 (Wb x3) (Sb x0 x1 x2 x4 l) a 5 3 := by
  unfold p1_v56
  refine (pay1_14_apply _ _ _ a l).trans ?_
  unfold tap1
  refine Finset.sum_congr rfl fun b _ => congrArg₂ (· * ·) (ld_tap_apply x3 5 (by decide) _ 0 a b) ?_
  rw [Sb_eq]
  exact congrArg₂ (· * ·) (scrLd_apply x0 x1 x2 33 (by decide) _ b l) (ld_mask_apply x4 3 (by decide) _ 0 l)

/-- The weight of phase 3's second tap. -/
theorem p1_v58_apply (a b : Fin 64) : p1_v58 x0 x1 x2 x3 x4 (ix2 a b) = Wb x3 6 a b := by
  unfold p1_v58
  exact (pay1_15_apply _ a b).trans (ld_tap_apply x3 6 (by decide) _ 0 a b)

/-- Phase 3. -/
theorem p1_v68_apply (a : Fin 64) (l : Fin 1024) :
    p1_v68 x0 x1 x2 x3 x4 (ix2 a l) = phase1 (Wb x3) (Sb x0 x1 x2 x4 l) a 3 := by
  unfold p1_v68
  refine (pay1_16_apply _ _ _ _ _ _ _ a l).trans ?_
  show _ = ((tap1 (Wb x3) (Sb x0 x1 x2 x4 l) a 5 3 + tap1 (Wb x3) (Sb x0 x1 x2 x4 l) a 6 2)
      + tap1 (Wb x3) (Sb x0 x1 x2 x4 l) a 7 1) + tap1 (Wb x3) (Sb x0 x1 x2 x4 l) a 8 0
  refine congrArg₂ (· + ·) (congrArg₂ (· + ·) (congrArg₂ (· + ·) (p1_v56_apply x0 x1 x2 x3 x4 a l) ?_) ?_) ?_
  · unfold tap1
    exact Finset.sum_congr rfl fun b _ =>
      congrArg₂ (· * ·) (p1_v58_apply x0 x1 x2 x3 x4 a b) (p1_v32_apply x0 x1 x2 x3 x4 b l)
  · unfold tap1
    exact Finset.sum_congr rfl fun b _ =>
      congrArg₂ (· * ·) (ld_tap_apply x3 7 (by decide) _ 0 a b) (p1_v28_apply x0 x1 x2 x3 x4 b l)
  · unfold tap1
    exact Finset.sum_congr rfl fun b _ =>
      congrArg₂ (· * ·) (ld_tap_apply x3 8 (by decide) _ 0 a b) (p1_v24_apply x0 x1 x2 x3 x4 b l)

end Named

end Cert.ReferenceIdeal.Val

end
-- ==== Proof.RefV1e.lean ====
import proofs.«159567_g2000302752657622_pallasbulk_725_3_alg».proof.Proof.RefV1d

/-! # Region 1 of the reference: what one grid point leaves, read at an index

The output block holds phase `p` in lanes [p · 1024, (p + 1) · 1024); the two carried statistics columns are what they
held before plus the four phases' lane sums, added phase by phase. -/

noncomputable section

namespace Cert.ReferenceIdeal.Val

open Cert.ReferenceIdeal Cert.ReferenceIdeal.Gen Cert.ReferenceIdeal.Hand
open Idealize.ShloMosaic Idealize.ShloMosaic.ValueIdx
open scoped BigOperators

/-! ## The four lane windows of the output block -/

/-- Lane `l` of phase `p` is a lane of the block. -/
theorem phaseLane_lt (p : Fin 4) (l : Fin 1024) : p.val * 1024 + l.val < 4096 := by
  have := p.isLt; have := l.isLt; omega

/-- The window of 1024 lanes from lane `P` places `(u, a, l)` at lane `P + l`. -/
theorem oWin_emb (P : ℕ) (hP : P + 1024 ≤ 4096)
    (inb : ∀ d, (![0, 0, P] : Fin 3 → ℕ) d + S1x64x1024.size d ≤ S1x64x4096.size d) (u : Fin 1) (a : Fin 64) (l : Fin 1024) :
    (Rect.unit (s := S1x64x4096) ![0, 0, P] S1x64x1024.size inb).emb (ix3 u a l)
      = ix3 u a (⟨P + l.val, by omega⟩ : Fin 4096) := by
  funext d; apply Fin.ext
  match d with
  | ⟨0, _⟩ => show 0 + 1 * u.val = u.val; omega
  | ⟨1, _⟩ => show 0 + 1 * a.val = a.val; omega
  | ⟨2, _⟩ => show P + 1 * l.val = P + l.val; omega

/-- A lane outside the window is not in it. -/
theorem oWin_not_mem (P : ℕ) (inb : ∀ d, (![0, 0, P] : Fin 3 → ℕ) d + S1x64x1024.size d ≤ S1x64x4096.size d)
    (u : Fin 1) (a : Fin 64) (m : Fin 4096) (h : m.val < P ∨ P + 1024 ≤ m.val) :
    ix3 u a m ∉ (Rect.unit (s := S1x64x4096) ![0, 0, P] S1x64x1024.size inb).set := by
  rw [Rect.mem_set_unit]
  intro hall
  have h2 := hall 2
  have lo : P ≤ m.val := h2.1
  have hi : m.val < P + 1024 := h2.2
  omega

section Pieces

variable (P3 P2 P1 P0 : Vec Ideal S1x64x1024 .f32) (u : Fin 1) (a : Fin 64) (l : Fin 1024)

/-- Lanes [3072, 4096) hold the last store's payload. -/
theorem canon4_3 :
    View.canon [(⟨r1_o3, P3⟩ : View.Piece (Elt Ideal) S1x64x4096 .f32), (⟨r1_o2, P2⟩ : View.Piece (Elt Ideal) S1x64x4096 .f32), (⟨r1_o1, P1⟩ : View.Piece (Elt Ideal) S1x64x4096 .f32), (⟨r1_o0, P0⟩ : View.Piece (Elt Ideal) S1x64x4096 .f32)] (ix3 u a (⟨3072 + l.val, by omega⟩ : Fin 4096))
      = P3 (ix3 u a l) := by
  rw [← oWin_emb 3072 (by decide) inb_S1x64x4096_S1x64x1024_0_0_3072 u a l]
  exact View.canon_cons_emb r1_o3 P3 _ (ix3 u a l)

/-- Lanes [2048, 3072) hold the third store's payload. -/
theorem canon4_2 :
    View.canon [(⟨r1_o3, P3⟩ : View.Piece (Elt Ideal) S1x64x4096 .f32), (⟨r1_o2, P2⟩ : View.Piece (Elt Ideal) S1x64x4096 .f32), (⟨r1_o1, P1⟩ : View.Piece (Elt Ideal) S1x64x4096 .f32), (⟨r1_o0, P0⟩ : View.Piece (Elt Ideal) S1x64x4096 .f32)] (ix3 u a (⟨2048 + l.val, by omega⟩ : Fin 4096))
      = P2 (ix3 u a l) := by
  have k3 := View.canon_cons_of_not_mem (Val := Elt Ideal) (⟨r1_o3, P3⟩ : View.Piece (Elt Ideal) S1x64x4096 .f32) [(⟨r1_o2, P2⟩ : View.Piece (Elt Ideal) S1x64x4096 .f32), (⟨r1_o1, P1⟩ : View.Piece (Elt Ideal) S1x64x4096 .f32), (⟨r1_o0, P0⟩ : View.Piece (Elt Ideal) S1x64x4096 .f32)]
    (y := ix3 u a (⟨2048 + l.val, by omega⟩ : Fin 4096))
    (oWin_not_mem 3072 inb_S1x64x4096_S1x64x1024_0_0_3072 u a _ (Or.inl (by show 2048 + l.val < 3072; omega)))
  rw [k3, ← oWin_emb 2048 (by decide) inb_S1x64x4096_S1x64x1024_0_0_2048 u a l]
  exact View.canon_cons_emb r1_o2 P2 _ (ix3 u a l)

/-- Lanes [1024, 2048) hold the second store's payload. -/
theorem canon4_1 :
    View.canon [(⟨r1_o3, P3⟩ : View.Piece (Elt Ideal) S1x64x4096 .f32), (⟨r1_o2, P2⟩ : View.Piece (Elt Ideal) S1x64x4096 .f32), (⟨r1_o1, P1⟩ : View.Piece (Elt Ideal) S1x64x4096 .f32), (⟨r1_o0, P0⟩ : View.Piece (Elt Ideal) S1x64x4096 .f32)] (ix3 u a (⟨1024 + l.val, by omega⟩ : Fin 4096))
      = P1 (ix3 u a l) := by
  have k3 := View.canon_cons_of_not_mem (Val := Elt Ideal) (⟨r1_o3, P3⟩ : View.Piece (Elt Ideal) S1x64x4096 .f32) [(⟨r1_o2, P2⟩ : View.Piece (Elt Ideal) S1x64x4096 .f32), (⟨r1_o1, P1⟩ : View.Piece (Elt Ideal) S1x64x4096 .f32), (⟨r1_o0, P0⟩ : View.Piece (Elt Ideal) S1x64x4096 .f32)]
    (y := ix3 u a (⟨1024 + l.val, by omega⟩ : Fin 4096))
    (oWin_not_mem 3072 inb_S1x64x4096_S1x64x1024_0_0_3072 u a _ (Or.inl (by show 1024 + l.val < 3072; omega)))
  have k2 := View.canon_cons_of_not_mem (Val := Elt Ideal) (⟨r1_o2, P2⟩ : View.Piece (Elt Ideal) S1x64x4096 .f32) [(⟨r1_o1, P1⟩ : View.Piece (Elt Ideal) S1x64x4096 .f32), (⟨r1_o0, P0⟩ : View.Piece (Elt Ideal) S1x64x4096 .f32)]
    (y := ix3 u a (⟨1024 + l.val, by omega⟩ : Fin 4096))
    (oWin_not_mem 2048 inb_S1x64x4096_S1x64x1024_0_0_2048 u a _ (Or.inl (by show 1024 + l.val < 2048; omega)))
  rw [k3, k2, ← oWin_emb 1024 (by decide) inb_S1x64x4096_S1x64x1024_0_0_1024 u a l]
  exact View.canon_cons_emb r1_o1 P1 _ (ix3 u a l)

/-- Lanes [0, 1024) hold the first store's payload. -/
theorem canon4_0 :
    View.canon [(⟨r1_o3, P3⟩ : View.Piece (Elt Ideal) S1x64x4096 .f32), (⟨r1_o2, P2⟩ : View.Piece (Elt Ideal) S1x64x4096 .f32), (⟨r1_o1, P1⟩ : View.Piece (Elt Ideal) S1x64x4096 .f32), (⟨r1_o0, P0⟩ : View.Piece (Elt Ideal) S1x64x4096 .f32)] (ix3 u a (⟨0 + l.val, by omega⟩ : Fin 4096))
      = P0 (ix3 u a l) := by
  have k3 := View.canon_cons_of_not_mem (Val := Elt Ideal) (⟨r1_o3, P3⟩ : View.Piece (Elt Ideal) S1x64x4096 .f32) [(⟨r1_o2, P2⟩ : View.Piece (Elt Ideal) S1x64x4096 .f32), (⟨r1_o1, P1⟩ : View.Piece (Elt Ideal) S1x64x4096 .f32), (⟨r1_o0, P0⟩ : View.Piece (Elt Ideal) S1x64x4096 .f32)]
    (y := ix3 u a (⟨0 + l.val, by omega⟩ : Fin 4096))
    (oWin_not_mem 3072 inb_S1x64x4096_S1x64x1024_0_0_3072 u a _ (Or.inl (by show 0 + l.val < 3072; omega)))
  have k2 := View.canon_cons_of_not_mem (Val := Elt Ideal) (⟨r1_o2, P2⟩ : View.Piece (Elt Ideal) S1x64x4096 .f32) [(⟨r1_o1, P1⟩ : View.Piece (Elt Ideal) S1x64x4096 .f32), (⟨r1_o0, P0⟩ : View.Piece (Elt Ideal) S1x64x4096 .f32)]
    (y := ix3 u a (⟨0 + l.val, by omega⟩ : Fin 4096))
    (oWin_not_mem 2048 inb_S1x64x4096_S1x64x1024_0_0_2048 u a _ (Or.inl (by show 0 + l.val < 2048; omega)))
  have k1 := View.canon_cons_of_not_mem (Val := Elt Ideal) (⟨r1_o1, P1⟩ : View.Piece (Elt Ideal) S1x64x4096 .f32) [(⟨r1_o0, P0⟩ : View.Piece (Elt Ideal) S1x64x4096 .f32)]
    (y := ix3 u a (⟨0 + l.val, by omega⟩ : Fin 4096))
    (oWin_not_mem 1024 inb_S1x64x4096_S1x64x1024_0_0_1024 u a _ (Or.inl (by show 0 + l.val < 1024; omega)))
  rw [k3, k2, k1, ← oWin_emb 0 (by decide) inb_S1x64x4096_S1x64x1024_0_0_0 u a l]
  exact View.canon_cons_emb r1_o0 P0 _ (ix3 u a l)

end Pieces

section Point

variable (x0 : Vec Ideal S1x64x1024 .f32) (x1 x2 : Vec Ideal S64x1 .f32) (x3 : Vec Ideal S9x64x64 .f32)
  (x4 : Vec Ideal S4x1024 .f32)

/-- The output block at lane `p · 1024 + l` holds phase `p` at lane `l`. -/
theorem out1_5_apply (u : Fin 1) (a : Fin 64) (p : Fin 4) (l : Fin 1024) :
    out1_5 x0 x1 x2 x3 x4 (ix3 u a (⟨p.val * 1024 + l.val, phaseLane_lt p l⟩ : Fin 4096))
      = phase1 (Wb x3) (Sb x0 x1 x2 x4 l) a p := by
  unfold out1_5
  match p with
  | ⟨0, _⟩ =>
    exact (canon4_0 _ _ _ _ u a l).trans ((pay1_17_apply _ u a l).trans (p1_v39_apply x0 x1 x2 x3 x4 a l))
  | ⟨1, _⟩ =>
    exact (canon4_1 _ _ _ _ u a l).trans ((pay1_20_apply _ u a l).trans (p1_v46_apply x0 x1 x2 x3 x4 a l))
  | ⟨2, _⟩ =>
    exact (canon4_2 _ _ _ _ u a l).trans ((pay1_23_apply _ u a l).trans (p1_v53_apply x0 x1 x2 x3 x4 a l))
  | ⟨3, _⟩ =>
    exact (canon4_3 _ _ _ _ u a l).trans ((pay1_1_apply _ u a l).trans (p1_v68_apply x0 x1 x2 x3 x4 a l))

/-- The same at a lane `L` given with its decomposition `L = p · 1024 + l`. -/
theorem out1_5_at (u : Fin 1) (a : Fin 64) (p : Fin 4) (l : Fin 1024) (L : Fin 4096) (hL : L.val = p.val * 1024 + l.val) :
    out1_5 x0 x1 x2 x3 x4 (ix3 u a L) = phase1 (Wb x3) (Sb x0 x1 x2 x4 l) a p := by
  obtain rfl : L = (⟨p.val * 1024 + l.val, phaseLane_lt p l⟩ : Fin 4096) := Fin.ext hL
  exact out1_5_apply x0 x1 x2 x3 x4 u a p l
/-- The carried sum column after the point: what it held plus the four phases' lane sums, phase by phase. -/
theorem acc1_6_apply (s : Vec Ideal S64x1 .f32) (a : Fin 64) (z : Fin 1) :
    acc1_6 x0 x1 x2 x3 x4 s (ix2 a z)
      = (((s (ix2 a z) + ∑ l : Fin 1024, phase1 (Wb x3) (Sb x0 x1 x2 x4 l) a 0) + ∑ l : Fin 1024, phase1 (Wb x3) (Sb x0 x1 x2 x4 l) a 1)
          + ∑ l : Fin 1024, phase1 (Wb x3) (Sb x0 x1 x2 x4 l) a 2) + ∑ l : Fin 1024, phase1 (Wb x3) (Sb x0 x1 x2 x4 l) a 3 := by
  unfold acc1_6
  refine (pay1_2_apply _ _ a z).trans ?_
  refine congrArg₂ (· + ·) ?_ (Finset.sum_congr rfl fun l _ => p1_v68_apply x0 x1 x2 x3 x4 a l)
  refine (pay1_24_apply _ _ a z).trans ?_
  refine congrArg₂ (· + ·) ?_ (Finset.sum_congr rfl fun l _ => p1_v53_apply x0 x1 x2 x3 x4 a l)
  refine (pay1_21_apply _ _ a z).trans ?_
  refine congrArg₂ (· + ·) ?_ (Finset.sum_congr rfl fun l _ => p1_v46_apply x0 x1 x2 x3 x4 a l)
  refine (pay1_18_apply _ _ a z).trans ?_
  exact congrArg (s (ix2 a z) + ·) (Finset.sum_congr rfl fun l _ => p1_v39_apply x0 x1 x2 x3 x4 a l)

/-- The carried sum-of-squares column after the point. -/
theorem acc1_7_apply (s : Vec Ideal S64x1 .f32) (a : Fin 64) (z : Fin 1) :
    acc1_7 x0 x1 x2 x3 x4 s (ix2 a z)
      = (((s (ix2 a z) + ∑ l : Fin 1024, phase1 (Wb x3) (Sb x0 x1 x2 x4 l) a 0 * phase1 (Wb x3) (Sb x0 x1 x2 x4 l) a 0) + ∑ l : Fin 1024, phase1 (Wb x3) (Sb x0 x1 x2 x4 l) a 1 * phase1 (Wb x3) (Sb x0 x1 x2 x4 l) a 1)
          + ∑ l : Fin 1024, phase1 (Wb x3) (Sb x0 x1 x2 x4 l) a 2 * phase1 (Wb x3) (Sb x0 x1 x2 x4 l) a 2) + ∑ l : Fin 1024, phase1 (Wb x3) (Sb x0 x1 x2 x4 l) a 3 * phase1 (Wb x3) (Sb x0 x1 x2 x4 l) a 3 := by
  unfold acc1_7
  refine (pay1_3_apply _ _ a z).trans ?_
  refine congrArg₂ (· + ·) ?_ (Finset.sum_congr rfl fun l _ =>
    congrArg₂ (· * ·) (p1_v68_apply x0 x1 x2 x3 x4 a l) (p1_v68_apply x0 x1 x2 x3 x4 a l))
  refine (pay1_25_apply _ _ a z).trans ?_
  refine congrArg₂ (· + ·) ?_ (Finset.sum_congr rfl fun l _ =>
    congrArg₂ (· * ·) (p1_v53_apply x0 x1 x2 x3 x4 a l) (p1_v53_apply x0 x1 x2 x3 x4 a l))
  refine (pay1_22_apply _ _ a z).trans ?_
  refine congrArg₂ (· + ·) ?_ (Finset.sum_congr rfl fun l _ =>
    congrArg₂ (· * ·) (p1_v46_apply x0 x1 x2 x3 x4 a l) (p1_v46_apply x0 x1 x2 x3 x4 a l))
  refine (pay1_19_apply _ _ a z).trans ?_
  exact congrArg (s (ix2 a z) + ·) (Finset.sum_congr rfl fun l _ =>
    congrArg₂ (· * ·) (p1_v39_apply x0 x1 x2 x3 x4 a l) (p1_v39_apply x0 x1 x2 x3 x4 a l))

/-- The carried sum column after the point, as the value before plus the image's whole contribution. -/
theorem acc1_6_apply' (s : Vec Ideal S64x1 .f32) (a : Fin 64) (z : Fin 1) :
    acc1_6 x0 x1 x2 x3 x4 s (ix2 a z)
      = s (ix2 a z) + ((((∑ l : Fin 1024, phase1 (Wb x3) (Sb x0 x1 x2 x4 l) a 0) + ∑ l : Fin 1024, phase1 (Wb x3) (Sb x0 x1 x2 x4 l) a 1)
          + ∑ l : Fin 1024, phase1 (Wb x3) (Sb x0 x1 x2 x4 l) a 2) + ∑ l : Fin 1024, phase1 (Wb x3) (Sb x0 x1 x2 x4 l) a 3) := by
  rw [acc1_6_apply]
  simp only [add_assoc]

/-- The carried sum-of-squares column after the point, as the value before plus the image's whole contribution. -/
theorem acc1_7_apply' (s : Vec Ideal S64x1 .f32) (a : Fin 64) (z : Fin 1) :
    acc1_7 x0 x1 x2 x3 x4 s (ix2 a z)
      = s (ix2 a z) + ((((∑ l : Fin 1024, phase1 (Wb x3) (Sb x0 x1 x2 x4 l) a 0 * phase1 (Wb x3) (Sb x0 x1 x2 x4 l) a 0) + ∑ l : Fin 1024, phase1 (Wb x3) (Sb x0 x1 x2 x4 l) a 1 * phase1 (Wb x3) (Sb x0 x1 x2 x4 l) a 1)
          + ∑ l : Fin 1024, phase1 (Wb x3) (Sb x0 x1 x2 x4 l) a 2 * phase1 (Wb x3) (Sb x0 x1 x2 x4 l) a 2) + ∑ l : Fin 1024, phase1 (Wb x3) (Sb x0 x1 x2 x4 l) a 3 * phase1 (Wb x3) (Sb x0 x1 x2 x4 l) a 3) := by
  rw [acc1_7_apply]
  simp only [add_assoc]

end Point

end Cert.ReferenceIdeal.Val

end
-- ==== Proof.RefV1.lean ====
import proofs.«159567_g2000302752657622_pallasbulk_725_3_alg».proof.Proof.RefR1
import proofs.«159567_g2000302752657622_pallasbulk_725_3_alg».proof.Proof.RefV1a
import proofs.«159567_g2000302752657622_pallasbulk_725_3_alg».proof.Proof.RefV1b
import proofs.«159567_g2000302752657622_pallasbulk_725_3_alg».proof.Proof.RefV1c
import proofs.«159567_g2000302752657622_pallasbulk_725_3_alg».proof.Proof.RefV1d
import proofs.«159567_g2000302752657622_pallasbulk_725_3_alg».proof.Proof.RefV1e
import proofs.«159567_g2000302752657622_pallasbulk_725_3_alg».proof.Proof.RefV1s
import Idealize.ShloMosaic.Lib.ValueIdx
import Idealize.ShloMosaic.Lib.Pipeline.Value
import Idealize.ShloMosaic.Lib.ValueLayout
import Idealize.ShloMosaic.PureOps.Ideal.Laws

/-! # Region 1 of the reference: from the blocks to the arrays

Grid point t handles image t. Its body leaves in the blocked output's buffer the four phases of image t, phase p in
lanes [p · 1024, (p + 1) · 1024) — and every point's block is written back, so the array after the region is the
specification `RG1_5` image by image. The two statistics columns are one block each, carried from point to point and
written back after the last: after point n they hold the contributions of images 0 … n, added image by image, so
after the last point they are `RG1_6` and `RG1_7`. -/

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! ## The index maps -/

/-- Point t is image t for the two blocked windows; every other window is one block. -/
theorem idx1 : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 3) = 0 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 3) = t.val ∧ win1_5.index t (1 : Fin 3) = 0 ∧ win1_5.index t (2 : Fin 3) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

variable (V : (c : Dev nD) → (b : Ref sig .tc) → Buf (Elt Ideal) ((c : Thread nD τ).loc b))

/-! ## The blocks the body reads -/

/-- Window 0's block at point t is image t of y's array. -/
theorem iblk1_0_apply (c : Dev nD) (t : Fin cfg1.N) (y : S1x64x1024.Idx) (k : S64x64x1024.Idx)
    (hk0 : (k 0).val = t.val) (hk1 : (k 1).val = (y 1).val) (hk2 : (k 2).val = (y 2).val) :
    (iblk1 V c 0 t : Vec Ideal S1x64x1024 .f32) y = (V c main_v1_0 : S64x64x1024.Idx → EReal) k := by
  obtain ⟨⟨e0, e1, e2⟩, -⟩ := idx1 t
  have hy0 : (y 0).val < 1 := (y 0).isLt
  unfold iblk1
  rw [View.read_apply]
  show V c main_v1_0 _ = V c main_v1_0 _
  congr 1
  funext a
  apply Fin.ext
  match a with
  | ⟨0, _⟩ => show win1_0.index t 0 * 1 + 1 * (y 0).val = (k 0).val; rw [e0, hk0]; omega
  | ⟨1, _⟩ => show win1_0.index t 1 * 64 + 1 * (y 1).val = (k 1).val; rw [e1, hk1]; omega
  | ⟨2, _⟩ => show win1_0.index t 2 * 1024 + 1 * (y 2).val = (k 2).val; rw [e2, hk2]; omega

/-- Windows 1 to 4 are whole at every point: the scale, the shift, the nine tap matrices, the four mask rows. -/
theorem iblk1_1_apply (c : Dev nD) (t : Fin cfg1.N) (y : S64x1.Idx) :
    (iblk1 V c 1 t : Vec Ideal S64x1 .f32) y = (V c main_v12 : S64x1.Idx → EReal) y := by
  obtain ⟨-, ⟨e0, e1⟩, -⟩ := idx1 t
  unfold iblk1
  rw [View.read_apply]
  show V c main_v12 _ = V c main_v12 _
  congr 1
  funext a
  apply Fin.ext
  match a with
  | ⟨0, _⟩ => show win1_1.index t 0 * 64 + 1 * (y 0).val = (y 0).val; rw [e0]; omega
  | ⟨1, _⟩ => show win1_1.index t 1 * 1 + 1 * (y 1).val = (y 1).val; rw [e1]; omega
theorem iblk1_2_apply (c : Dev nD) (t : Fin cfg1.N) (y : S64x1.Idx) :
    (iblk1 V c 2 t : Vec Ideal S64x1 .f32) y = (V c main_v15 : S64x1.Idx → EReal) y := by
  obtain ⟨-, -, ⟨e0, e1⟩, -⟩ := idx1 t
  unfold iblk1
  rw [View.read_apply]
  show V c main_v15 _ = V c main_v15 _
  congr 1
  funext a
  apply Fin.ext
  match a with
  | ⟨0, _⟩ => show win1_2.index t 0 * 64 + 1 * (y 0).val = (y 0).val; rw [e0]; omega
  | ⟨1, _⟩ => show win1_2.index t 1 * 1 + 1 * (y 1).val = (y 1).val; rw [e1]; omega
theorem iblk1_3_apply (c : Dev nD) (t : Fin cfg1.N) (y : S9x64x64.Idx) :
    (iblk1 V c 3 t : Vec Ideal S9x64x64 .f32) y = (V c main_arg3 : S9x64x64.Idx → EReal) y := by
  obtain ⟨-, -, -, ⟨e0, e1, e2⟩, -⟩ := idx1 t
  unfold iblk1
  rw [View.read_apply]
  show V c main_arg3 _ = V c main_arg3 _
  congr 1
  funext a
  apply Fin.ext
  match a with
  | ⟨0, _⟩ => show win1_3.index t 0 * 9 + 1 * (y 0).val = (y 0).val; rw [e0]; omega
  | ⟨1, _⟩ => show win1_3.index t 1 * 64 + 1 * (y 1).val = (y 1).val; rw [e1]; omega
  | ⟨2, _⟩ => show win1_3.index t 2 * 64 + 1 * (y 2).val = (y 2).val; rw [e2]; omega
theorem iblk1_4_apply (c : Dev nD) (t : Fin cfg1.N) (y : S4x1024.Idx) :
    (iblk1 V c 4 t : Vec Ideal S4x1024 .f32) y = (V c main_arg4 : S4x1024.Idx → EReal) y := by
  obtain ⟨-, -, -, -, ⟨e0, e1⟩, -⟩ := idx1 t
  unfold iblk1
  rw [View.read_apply]
  show V c main_arg4 _ = V c main_arg4 _
  congr 1
  funext a
  apply Fin.ext
  match a with
  | ⟨0, _⟩ => show win1_4.index t 0 * 4 + 1 * (y 0).val = (y 0).val; rw [e0]; omega
  | ⟨1, _⟩ => show win1_4.index t 1 * 1024 + 1 * (y 1).val = (y 1).val; rw [e1]; omega

/-- A phase formed from point t's blocks is the specification's phase of image t. -/
theorem phase_blk1 (c : Dev nD) (t : Fin cfg1.N) (n : Fin 64) (hn : n.val = t.val) (a : Fin 64) (l : Fin 1024) (p : Fin 4) :
    phase1 (Wb (iblk1 V c 3 t)) (Sb (iblk1 V c 0 t) (iblk1 V c 1 t) (iblk1 V c 2 t) (iblk1 V c 4 t) l) a p
      = RP1 (V c main_v1_0) (V c main_v12) (V c main_v15) (V c main_arg3) (V c main_arg4) n a l p := by
  unfold RP1 RS1
  exact phase1_congr (fun t' a b => iblk1_3_apply V c t _)
    (fun s b => Cert.Lib.ConvSpec.slab_congr
      (fun c' m => iblk1_0_apply V c t (ix3 (0 : Fin 1) c' m) (ix3 n c' m) hn rfl rfl)
      (fun c' => iblk1_1_apply V c t _) (fun c' => iblk1_2_apply V c t _) (fun s l => iblk1_4_apply V c t _) l s b) a p

/-! ## The blocked output: from the blocks to the array -/

/-- What point t writes back is image t of the specification. -/
theorem Rflushed1_5_eq (c : Dev nD) (t : Fin cfg1.N) :
    (dat1 V c).flushed 5 t = ((cfg1.win 5).blk t).view.read (Elt Ideal) (RG1_5 (V c main_v1_0) (V c main_v12) (V c main_v15) (V c main_arg3) (V c main_arg4)) := by
  show (cfg1.win 5).cut (grid1.coords t) ((dat1 V c).after 5 t) = _
  rw [after1_5]
  obtain ⟨-, -, -, -, -, ⟨e0, e1, e2⟩, -⟩ := idx1 t
  have hN : cfg1.N = 64 := N_1
  have ht : t.val < 64 := lt_of_lt_of_eq t.isLt hN
  funext j
  have hj0 : (j 0).val < 1 := (j 0).isLt
  have hj1 : (j 1).val < 64 := (j 1).isLt
  have hj2 : (j 2).val < 4096 := (j 2).isLt
  have hx : (cfg1.win 5).xinj (grid1.coords t) j = ix3 (⟨(j 0).val, hj0⟩ : Fin 1) (⟨(j 1).val, hj1⟩ : Fin 64) (⟨(j 2).val, hj2⟩ : Fin 4096) :=
    funext fun a => by match a with | ⟨0, _⟩ => rfl | ⟨1, _⟩ => rfl | ⟨2, _⟩ => rfl
  show out1_5 (iblk1 V c 0 t) (iblk1 V c 1 t) (iblk1 V c 2 t) (iblk1 V c 3 t) (iblk1 V c 4 t) ((cfg1.win 5).xinj (grid1.coords t) j)
    = RG1_5 (V c main_v1_0) (V c main_v12) (V c main_v15) (V c main_arg3) (V c main_arg4) (((cfg1.win 5).blk t).view.emb j)
  rw [hx]
  have hp : (j 2).val / 1024 < 4 := by omega
  have hl : (j 2).val % 1024 < 1024 := Nat.mod_lt _ (by decide)
  refine (out1_5_at _ _ _ _ _ ⟨(j 0).val, hj0⟩ ⟨(j 1).val, hj1⟩ ⟨(j 2).val / 1024, hp⟩ ⟨(j 2).val % 1024, hl⟩ ⟨(j 2).val, hj2⟩
    (by show (j 2).val = (j 2).val / 1024 * 1024 + (j 2).val % 1024; omega)).trans ?_
  refine (phase_blk1 V c t ⟨t.val, ht⟩ rfl ⟨(j 1).val, hj1⟩ ⟨(j 2).val % 1024, hl⟩ ⟨(j 2).val / 1024, hp⟩).trans ?_
  have h0 : ((((cfg1.win 5).blk t).view.emb j) 0).val = t.val := by
    show win1_5.index t 0 * 1 + 1 * (j 0).val = t.val; rw [e0]; omega
  have h1 : ((((cfg1.win 5).blk t).view.emb j) 1).val = (j 1).val := by
    show win1_5.index t 1 * 64 + 1 * (j 1).val = (j 1).val; rw [e1]; omega
  have h2 : ((((cfg1.win 5).blk t).view.emb j) 2).val = (j 2).val := by
    show win1_5.index t 2 * 4096 + 1 * (j 2).val = (j 2).val; rw [e2]; omega
  have key : ∀ (n n' a a' : Fin 64) (l l' : Fin 1024) (p p' : Fin 4), n = n' → a = a' → l = l' → p = p' →
      RP1 (V c main_v1_0) (V c main_v12) (V c main_v15) (V c main_arg3) (V c main_arg4) n a l p = RP1 (V c main_v1_0) (V c main_v12) (V c main_v15) (V c main_arg3) (V c main_arg4) n' a' l' p' := by
    intro n n' a a' l l' p p' hn ha hl hp; subst hn ha hl hp; rfl
  exact key _ _ _ _ _ _ _ _ (Fin.ext h0.symm) (Fin.ext h1.symm)
    (Fin.ext (by show (j 2).val % 1024 = ((((cfg1.win 5).blk t).view.emb j) 2).val % 1024; rw [h2]))
    (Fin.ext (by show (j 2).val / 1024 = ((((cfg1.win 5).blk t).view.emb j) 2).val / 1024; rw [h2]))

/-- An index of the output's array is in point t's block iff each coordinate is in the block's range on its axis. -/
theorem mem_blk1_5 (t : Fin cfg1.N) (i : S64x64x4096.Idx) :
    i ∈ ((cfg1.win 5).blk t).view.set ↔ ∀ a : Fin 3, win1_5.index t a * S1x64x4096.size a ≤ (i a).val
      ∧ (i a).val < win1_5.index t a * S1x64x4096.size a + S1x64x4096.size a := by
  show i ∈ ((View.whole main_v16_0).slice (win1_5.rect t)).set ↔ _
  rw [View.set_slice_whole, Rect.mem_set_unit]
  exact Iff.rfl

/-- The output's array after the region: index (n, a, L) lies in the block of point n, and every point writes its block back. -/
theorem Rfinal1_5 (c : Dev nD) : (dat1 V c).arrAt 5 cfg1.N = RG1_5 (V c main_v1_0) (V c main_v12) (V c main_v15) (V c main_arg3) (V c main_arg4) :=
  (dat1 V c).arrAt_eq_of_cover 5 _ (fun t _ => Rflushed1_5_eq V c t) fun i => by
    have hi0 : (i 0).val < 64 := (i 0).isLt
    have hi1 : (i 1).val < 64 := (i 1).isLt
    have hi2 : (i 2).val < 4096 := (i 2).isLt
    have hN : cfg1.N = 64 := N_1
    obtain ⟨t, ht⟩ : ∃ t : Fin cfg1.N, t.val = (i 0).val := ⟨⟨(i 0).val, by rw [hN]; omega⟩, rfl⟩
    obtain ⟨-, -, -, -, -, ⟨e0, e1, e2⟩, -⟩ := idx1 t
    refine ⟨t, flush1_5 t, ?_⟩
    rw [mem_blk1_5]
    intro a
    match a with
    | ⟨0, _⟩ => show win1_5.index t 0 * 1 ≤ (i 0).val ∧ (i 0).val < win1_5.index t 0 * 1 + 1; rw [e0, ht]; omega
    | ⟨1, _⟩ => show win1_5.index t 1 * 64 ≤ (i 1).val ∧ (i 1).val < win1_5.index t 1 * 64 + 64; rw [e1]; omega
    | ⟨2, _⟩ => show win1_5.index t 2 * 4096 ≤ (i 2).val ∧ (i 2).val < win1_5.index t 2 * 4096 + 4096; rw [e2]; omega

/-! ## The two carried columns: induction on the grid point, then the last point's write-back -/

/-- A load of a whole [64,1] column reads the column. -/
theorem ld_c1 (X : Vec Ideal S64x1 .f32) (i : S64x1.Idx) : View.ld X r1_c i = X i :=
  congrFun (View.ld_unit_zero (by funext a; fin_cases a <;> rfl) _ X) i

/-- The contribution of grid point m to channel a of the sums: image m's, zero past the grid. -/
def pt1_6 (a0 : S64x64x1024.Idx → EReal) (a1 a2 : S64x1.Idx → EReal) (a3 : S9x64x64.Idx → EReal) (a4 : S4x1024.Idx → EReal) (m : ℕ) (a : Fin 64) : EReal :=
  if h : m < 64 then RQ1_6 a0 a1 a2 a3 a4 ⟨m, h⟩ a else 0

/-- One image's contribution formed from point t's blocks is the specification's. -/
theorem point1_6 (c : Dev nD) (t : Fin cfg1.N) (a : Fin 64) :
    ((((∑ l : Fin 1024, phase1 (Wb (iblk1 V c 3 t)) (Sb (iblk1 V c 0 t) (iblk1 V c 1 t) (iblk1 V c 2 t) (iblk1 V c 4 t) l) a 0) + ∑ l : Fin 1024, phase1 (Wb (iblk1 V c 3 t)) (Sb (iblk1 V c 0 t) (iblk1 V c 1 t) (iblk1 V c 2 t) (iblk1 V c 4 t) l) a 1) + ∑ l : Fin 1024, phase1 (Wb (iblk1 V c 3 t)) (Sb (iblk1 V c 0 t) (iblk1 V c 1 t) (iblk1 V c 2 t) (iblk1 V c 4 t) l) a 2) + ∑ l : Fin 1024, phase1 (Wb (iblk1 V c 3 t)) (Sb (iblk1 V c 0 t) (iblk1 V c 1 t) (iblk1 V c 2 t) (iblk1 V c 4 t) l) a 3) = pt1_6 (V c main_v1_0) (V c main_v12) (V c main_v15) (V c main_arg3) (V c main_arg4) t.val a := by
  have ht : t.val < 64 := lt_of_lt_of_eq t.isLt N_1
  unfold pt1_6 RQ1_6
  rw [dif_pos ht]
  refine congrArg₂ (· + ·) (congrArg₂ (· + ·) (congrArg₂ (· + ·) ?_ ?_) ?_) ?_ <;>
    exact Finset.sum_congr rfl fun l _ => phase_blk1 V c t ⟨t.val, ht⟩ rfl a l _

/-- After point n the column holds the contributions of points 0 … n: the first point starts from the zero column, every
    later one from what the point before left. -/
theorem outsAt1_6_sum (c : Dev nD) (a : Fin 64) (z : Fin 1) (n : ℕ) (hn : n < cfg1.N) :
    (outsAt1_6 V c n hn : Vec Ideal S64x1 .f32) (ix2 a z) = ∑ m ∈ Finset.range (n + 1), pt1_6 (V c main_v1_0) (V c main_v12) (V c main_v15) (V c main_arg3) (V c main_arg4) m a := by
  induction n with
  | zero =>
    refine (congrFun (outsAt1_6_A V c ⟨0, hn⟩ rfl) (ix2 a z)).trans ?_
    refine (acc1_6_apply' _ _ _ _ _ (k1_pay4 (F := Ideal)) a z).trans ?_
    rw [Finset.sum_range_one, pay1_4_apply, zero_add]
    exact point1_6 V c ⟨0, hn⟩ a
  | succ n ih =>
    refine (congrFun (outsAt1_6_B V c ⟨n + 1, hn⟩ (Nat.succ_ne_zero n)) (ix2 a z)).trans ?_
    refine (acc1_6_apply' _ _ _ _ _ _ a z).trans ?_
    rw [Finset.sum_range_succ]
    refine congrArg₂ (· + ·) ?_ (point1_6 V c ⟨n + 1, hn⟩ a)
    rw [ld_c1]
    exact ih (Nat.lt_of_succ_lt hn)

/-- The contributions of all the points are the sum over the images. -/
theorem sum_points1_6 (a0 : S64x64x1024.Idx → EReal) (a1 a2 : S64x1.Idx → EReal) (a3 : S9x64x64.Idx → EReal) (a4 : S4x1024.Idx → EReal) (a : Fin 64) :
    ∑ m ∈ Finset.range 64, pt1_6 a0 a1 a2 a3 a4 m a = ∑ n : Fin 64, RQ1_6 a0 a1 a2 a3 a4 n a := by
  rw [Finset.sum_range]
  refine Finset.sum_congr rfl fun n _ => ?_
  unfold pt1_6
  rw [dif_pos n.isLt]

/-- An index of the column's array is in point t's block iff each coordinate is in the block's range on its axis. -/
theorem mem_blk1_6 (t : Fin cfg1.N) (i : S64x1.Idx) :
    i ∈ ((cfg1.win 6).blk t).view.set ↔ ∀ a : Fin 2, win1_6.index t a * S64x1.size a ≤ (i a).val
      ∧ (i a).val < win1_6.index t a * S64x1.size a + S64x1.size a := by
  show i ∈ ((View.whole main_v16_1).slice (win1_6.rect t)).set ↔ _
  rw [View.set_slice_whole, Rect.mem_set_unit]
  exact Iff.rfl

/-- The one write-back of the column, after the last point, writes the sum over all images. -/
theorem Rflushed1_6_eq (c : Dev nD) (t : Fin cfg1.N) (hf : (cfg1.win 6).flush t = true) :
    (dat1 V c).flushed 6 t = ((cfg1.win 6).blk t).view.read (Elt Ideal) (RG1_6 (V c main_v1_0) (V c main_v12) (V c main_v15) (V c main_arg3) (V c main_arg4)) := by
  have hN : cfg1.N = 64 := N_1
  have hl : t.val = 63 := by have := (flush1_6 t).mp hf; have := t.isLt; omega
  show (cfg1.win 6).cut (grid1.coords t) ((dat1 V c).after 6 t) = _
  rw [after1_6]
  obtain ⟨-, -, -, -, -, -, ⟨e0, e1⟩, -⟩ := idx1 t
  funext j
  have hj0 : (j 0).val < 64 := (j 0).isLt
  have hj1 : (j 1).val < 1 := (j 1).isLt
  have hx : (cfg1.win 6).xinj (grid1.coords t) j = ix2 (⟨(j 0).val, hj0⟩ : Fin 64) (⟨(j 1).val, hj1⟩ : Fin 1) :=
    funext fun a => by match a with | ⟨0, _⟩ => rfl | ⟨1, _⟩ => rfl
  show outsAt1_6 V c t.val t.isLt ((cfg1.win 6).xinj (grid1.coords t) j)
    = RG1_6 (V c main_v1_0) (V c main_v12) (V c main_v15) (V c main_arg3) (V c main_arg4) (((cfg1.win 6).blk t).view.emb j)
  rw [hx]
  refine (outsAt1_6_sum V c ⟨(j 0).val, hj0⟩ ⟨(j 1).val, hj1⟩ t.val t.isLt).trans ?_
  have he : ((cfg1.win 6).blk t).view.emb j = ix2 (⟨(j 0).val, hj0⟩ : Fin 64) (⟨(j 1).val, hj1⟩ : Fin 1) := by
    funext a; apply Fin.ext
    match a with
    | ⟨0, _⟩ => show win1_6.index t 0 * 64 + 1 * (j 0).val = (j 0).val; rw [e0]; omega
    | ⟨1, _⟩ => show win1_6.index t 1 * 1 + 1 * (j 1).val = (j 1).val; rw [e1]; omega
  rw [he, RG1_6_at, hl]
  exact sum_points1_6 _ _ _ _ _ _

/-- The column's array after the region: the last point's one block is the whole array. -/
theorem Rfinal1_6 (c : Dev nD) : (dat1 V c).arrAt 6 cfg1.N = RG1_6 (V c main_v1_0) (V c main_v12) (V c main_v15) (V c main_arg3) (V c main_arg4) :=
  (dat1 V c).arrAt_eq_of_cover 6 _ (fun t hf => Rflushed1_6_eq V c t hf) fun i => by
    have hi0 : (i 0).val < 64 := (i 0).isLt
    have hi1 : (i 1).val < 1 := (i 1).isLt
    have hN : cfg1.N = 64 := N_1
    obtain ⟨t, ht⟩ : ∃ t : Fin cfg1.N, t.val = 63 := ⟨⟨63, by rw [hN]; omega⟩, rfl⟩
    obtain ⟨-, -, -, -, -, -, ⟨e0, e1⟩, -⟩ := idx1 t
    refine ⟨t, (flush1_6 t).mpr (by omega), ?_⟩
    rw [mem_blk1_6]
    intro a
    match a with
    | ⟨0, _⟩ => show win1_6.index t 0 * 64 ≤ (i 0).val ∧ (i 0).val < win1_6.index t 0 * 64 + 64; rw [e0]; omega
    | ⟨1, _⟩ => show win1_6.index t 1 * 1 ≤ (i 1).val ∧ (i 1).val < win1_6.index t 1 * 1 + 1; rw [e1]; omega

/-- The contribution of grid point m to channel a of the sums of squares: image m's, zero past the grid. -/
def pt1_7 (a0 : S64x64x1024.Idx → EReal) (a1 a2 : S64x1.Idx → EReal) (a3 : S9x64x64.Idx → EReal) (a4 : S4x1024.Idx → EReal) (m : ℕ) (a : Fin 64) : EReal :=
  if h : m < 64 then RQ1_7 a0 a1 a2 a3 a4 ⟨m, h⟩ a else 0

/-- One image's contribution formed from point t's blocks is the specification's. -/
theorem point1_7 (c : Dev nD) (t : Fin cfg1.N) (a : Fin 64) :
    ((((∑ l : Fin 1024, phase1 (Wb (iblk1 V c 3 t)) (Sb (iblk1 V c 0 t) (iblk1 V c 1 t) (iblk1 V c 2 t) (iblk1 V c 4 t) l) a 0 * phase1 (Wb (iblk1 V c 3 t)) (Sb (iblk1 V c 0 t) (iblk1 V c 1 t) (iblk1 V c 2 t) (iblk1 V c 4 t) l) a 0) + ∑ l : Fin 1024, phase1 (Wb (iblk1 V c 3 t)) (Sb (iblk1 V c 0 t) (iblk1 V c 1 t) (iblk1 V c 2 t) (iblk1 V c 4 t) l) a 1 * phase1 (Wb (iblk1 V c 3 t)) (Sb (iblk1 V c 0 t) (iblk1 V c 1 t) (iblk1 V c 2 t) (iblk1 V c 4 t) l) a 1) + ∑ l : Fin 1024, phase1 (Wb (iblk1 V c 3 t)) (Sb (iblk1 V c 0 t) (iblk1 V c 1 t) (iblk1 V c 2 t) (iblk1 V c 4 t) l) a 2 * phase1 (Wb (iblk1 V c 3 t)) (Sb (iblk1 V c 0 t) (iblk1 V c 1 t) (iblk1 V c 2 t) (iblk1 V c 4 t) l) a 2) + ∑ l : Fin 1024, phase1 (Wb (iblk1 V c 3 t)) (Sb (iblk1 V c 0 t) (iblk1 V c 1 t) (iblk1 V c 2 t) (iblk1 V c 4 t) l) a 3 * phase1 (Wb (iblk1 V c 3 t)) (Sb (iblk1 V c 0 t) (iblk1 V c 1 t) (iblk1 V c 2 t) (iblk1 V c 4 t) l) a 3) = pt1_7 (V c main_v1_0) (V c main_v12) (V c main_v15) (V c main_arg3) (V c main_arg4) t.val a := by
  have ht : t.val < 64 := lt_of_lt_of_eq t.isLt N_1
  unfold pt1_7 RQ1_7
  rw [dif_pos ht]
  refine congrArg₂ (· + ·) (congrArg₂ (· + ·) (congrArg₂ (· + ·) ?_ ?_) ?_) ?_ <;>
    exact Finset.sum_congr rfl fun l _ => congrArg₂ (· * ·) (phase_blk1 V c t ⟨t.val, ht⟩ rfl a l _) (phase_blk1 V c t ⟨t.val, ht⟩ rfl a l _)

/-- After point n the column holds the contributions of points 0 … n: the first point starts from the zero column, every
    later one from what the point before left. -/
theorem outsAt1_7_sum (c : Dev nD) (a : Fin 64) (z : Fin 1) (n : ℕ) (hn : n < cfg1.N) :
    (outsAt1_7 V c n hn : Vec Ideal S64x1 .f32) (ix2 a z) = ∑ m ∈ Finset.range (n + 1), pt1_7 (V c main_v1_0) (V c main_v12) (V c main_v15) (V c main_arg3) (V c main_arg4) m a := by
  induction n with
  | zero =>
    refine (congrFun (outsAt1_7_A V c ⟨0, hn⟩ rfl) (ix2 a z)).trans ?_
    refine (acc1_7_apply' _ _ _ _ _ (k1_pay5 (F := Ideal)) a z).trans ?_
    rw [Finset.sum_range_one, pay1_5_apply, zero_add]
    exact point1_7 V c ⟨0, hn⟩ a
  | succ n ih =>
    refine (congrFun (outsAt1_7_B V c ⟨n + 1, hn⟩ (Nat.succ_ne_zero n)) (ix2 a z)).trans ?_
    refine (acc1_7_apply' _ _ _ _ _ _ a z).trans ?_
    rw [Finset.sum_range_succ]
    refine congrArg₂ (· + ·) ?_ (point1_7 V c ⟨n + 1, hn⟩ a)
    rw [ld_c1]
    exact ih (Nat.lt_of_succ_lt hn)

/-- The contributions of all the points are the sum over the images. -/
theorem sum_points1_7 (a0 : S64x64x1024.Idx → EReal) (a1 a2 : S64x1.Idx → EReal) (a3 : S9x64x64.Idx → EReal) (a4 : S4x1024.Idx → EReal) (a : Fin 64) :
    ∑ m ∈ Finset.range 64, pt1_7 a0 a1 a2 a3 a4 m a = ∑ n : Fin 64, RQ1_7 a0 a1 a2 a3 a4 n a := by
  rw [Finset.sum_range]
  refine Finset.sum_congr rfl fun n _ => ?_
  unfold pt1_7
  rw [dif_pos n.isLt]

/-- An index of the column's array is in point t's block iff each coordinate is in the block's range on its axis. -/
theorem mem_blk1_7 (t : Fin cfg1.N) (i : S64x1.Idx) :
    i ∈ ((cfg1.win 7).blk t).view.set ↔ ∀ a : Fin 2, win1_7.index t a * S64x1.size a ≤ (i a).val
      ∧ (i a).val < win1_7.index t a * S64x1.size a + S64x1.size a := by
  show i ∈ ((View.whole main_v16_2).slice (win1_7.rect t)).set ↔ _
  rw [View.set_slice_whole, Rect.mem_set_unit]
  exact Iff.rfl

/-- The one write-back of the column, after the last point, writes the sum over all images. -/
theorem Rflushed1_7_eq (c : Dev nD) (t : Fin cfg1.N) (hf : (cfg1.win 7).flush t = true) :
    (dat1 V c).flushed 7 t = ((cfg1.win 7).blk t).view.read (Elt Ideal) (RG1_7 (V c main_v1_0) (V c main_v12) (V c main_v15) (V c main_arg3) (V c main_arg4)) := by
  have hN : cfg1.N = 64 := N_1
  have hl : t.val = 63 := by have := (flush1_7 t).mp hf; have := t.isLt; omega
  show (cfg1.win 7).cut (grid1.coords t) ((dat1 V c).after 7 t) = _
  rw [after1_7]
  obtain ⟨-, -, -, -, -, -, -, ⟨e0, e1⟩⟩ := idx1 t
  funext j
  have hj0 : (j 0).val < 64 := (j 0).isLt
  have hj1 : (j 1).val < 1 := (j 1).isLt
  have hx : (cfg1.win 7).xinj (grid1.coords t) j = ix2 (⟨(j 0).val, hj0⟩ : Fin 64) (⟨(j 1).val, hj1⟩ : Fin 1) :=
    funext fun a => by match a with | ⟨0, _⟩ => rfl | ⟨1, _⟩ => rfl
  show outsAt1_7 V c t.val t.isLt ((cfg1.win 7).xinj (grid1.coords t) j)
    = RG1_7 (V c main_v1_0) (V c main_v12) (V c main_v15) (V c main_arg3) (V c main_arg4) (((cfg1.win 7).blk t).view.emb j)
  rw [hx]
  refine (outsAt1_7_sum V c ⟨(j 0).val, hj0⟩ ⟨(j 1).val, hj1⟩ t.val t.isLt).trans ?_
  have he : ((cfg1.win 7).blk t).view.emb j = ix2 (⟨(j 0).val, hj0⟩ : Fin 64) (⟨(j 1).val, hj1⟩ : Fin 1) := by
    funext a; apply Fin.ext
    match a with
    | ⟨0, _⟩ => show win1_7.index t 0 * 64 + 1 * (j 0).val = (j 0).val; rw [e0]; omega
    | ⟨1, _⟩ => show win1_7.index t 1 * 1 + 1 * (j 1).val = (j 1).val; rw [e1]; omega
  rw [he, RG1_7_at, hl]
  exact sum_points1_7 _ _ _ _ _ _

/-- The column's array after the region: the last point's one block is the whole array. -/
theorem Rfinal1_7 (c : Dev nD) : (dat1 V c).arrAt 7 cfg1.N = RG1_7 (V c main_v1_0) (V c main_v12) (V c main_v15) (V c main_arg3) (V c main_arg4) :=
  (dat1 V c).arrAt_eq_of_cover 7 _ (fun t hf => Rflushed1_7_eq V c t hf) fun i => by
    have hi0 : (i 0).val < 64 := (i 0).isLt
    have hi1 : (i 1).val < 1 := (i 1).isLt
    have hN : cfg1.N = 64 := N_1
    obtain ⟨t, ht⟩ : ∃ t : Fin cfg1.N, t.val = 63 := ⟨⟨63, by rw [hN]; omega⟩, rfl⟩
    obtain ⟨-, -, -, -, -, -, -, ⟨e0, e1⟩⟩ := idx1 t
    refine ⟨t, (flush1_7 t).mpr (by omega), ?_⟩
    rw [mem_blk1_7]
    intro a
    match a with
    | ⟨0, _⟩ => show win1_7.index t 0 * 64 ≤ (i 0).val ∧ (i 0).val < win1_7.index t 0 * 64 + 64; rw [e0]; omega
    | ⟨1, _⟩ => show win1_7.index t 1 * 1 ≤ (i 1).val ∧ (i 1).val < win1_7.index t 1 * 1 + 1; rw [e1]; omega

end Cert.ReferenceIdeal.Val

end
-- ==== Proof.RefV6a.lean ====
import proofs.«159567_g2000302752657622_pallasbulk_725_3_alg».proof.Proof.Gen.ReferenceIdeal.Skeleton
import Idealize.ShloMosaic.Lib.ValueIdx
import Idealize.ShloMosaic.Lib.Pipeline.Value
import Idealize.ShloMosaic.Lib.ValueLayout
import Idealize.ShloMosaic.PureOps.Ideal.Laws

/-! # Region 6 of the reference: the payloads read at an index, first part

The region computes, for one image, the stride-1 transposed 3 × 3 convolution of `z = sin (x · scale + shift)` in one
phase. `z` sits in a scratch of 4352 lanes, at lanes 128 to 4223, between two margins of zeros; a slab is 4096
consecutive lanes of the scratch times a mask row; each of the nine taps is a [64,64] weight times a slab, and the
output is the sum of the taps. Here: the tap product, the lane sums and broadcasts, the zero fills, the activation and
the nine slabs, each read at an index with explicit coordinates over variables of the literal vector types. -/

noncomputable section

namespace Cert.ReferenceIdeal.Val

open Cert.ReferenceIdeal Cert.ReferenceIdeal.Gen
open Idealize.ShloMosaic Idealize.ShloMosaic.ValueIdx
open scoped BigOperators

/-! ## The tap product [64,64] · [64,4096] -/

/-- The dimension numbers of every tap product: one contracted axis of extent 64. -/
abbrev dot6 : DotDims S64x64 S64x4096 S64x4096 := dot_S64x64_S64x4096_S64x4096_1_0_0_1_n_n

/-- The weight's row is the output's row. -/
theorem dot6_lhs_0 (i : S64x4096.Idx) (q : dot6.contr.Idx) : (dot6.lhsIdx i q 0).val = (i 0).val := by
  unfold DotDims.lhsIdx
  rw [dif_neg (show ¬(0 : Fin S64x64.rank) ∈ dot6.lhsBatch by decide),
    dif_pos (show (0 : Fin S64x64.rank) ∈ dot6.lhsNonContracting by decide)]
  rfl

/-- The weight's column is the contracted coordinate. -/
theorem dot6_lhs_1 (i : S64x4096.Idx) (q : dot6.contr.Idx) : (dot6.lhsIdx i q 1).val = (q ⟨0, by decide⟩).val :=
  dot6.lhsIdx_val_of_single rfl i q

/-- The slab's row is the contracted coordinate. -/
theorem dot6_rhs_0 (i : S64x4096.Idx) (q : dot6.contr.Idx) : (dot6.rhsIdx i q 0).val = (q ⟨0, by decide⟩).val :=
  dot6.rhsIdx_val_of_single rfl i q

/-- The slab's lane is the output's lane. -/
theorem dot6_rhs_1 (i : S64x4096.Idx) (q : dot6.contr.Idx) : (dot6.rhsIdx i q 1).val = (i 1).val := by
  unfold DotDims.rhsIdx
  rw [dif_neg (show ¬(1 : Fin S64x4096.rank) ∈ dot6.rhsBatch by decide),
    dif_pos (show (1 : Fin S64x4096.rank) ∈ dot6.rhsNonContracting by decide)]
  rfl

/-- The product into an accumulator at output channel `a` and lane `l`: the accumulator there plus the sum over the 64
    input channels. -/
theorem matmul6_acc_apply (A : FVec Ideal S64x64 .f32) (B : FVec Ideal S64x4096 .f32) (acc : FVec Ideal S64x4096 .f32)
    (a : Fin 64) (l : Fin 4096) :
    matmul dot6 none A B acc (ix2 a l) = acc (ix2 a l) + ∑ b : Fin 64, A (ix2 a b) * B (ix2 b l) := by
  show FloatOps.matmul dot6 none A B acc (ix2 a l) = _
  rw [Ideal.matmul_apply, ← Equiv.sum_comp (contrEquiv1 dot6 64 rfl rfl).symm]
  refine congrArg (acc (ix2 a l) + ·) (Finset.sum_congr rfl fun b _ => ?_)
  have hb := contrEquiv1_symm_val dot6 64 rfl rfl b
  have el : dot6.lhsIdx (ix2 a l) ((contrEquiv1 dot6 64 rfl rfl).symm b) = ix2 a b := funext fun d => Fin.ext (by
    match d with
    | ⟨0, _⟩ => exact dot6_lhs_0 _ _
    | ⟨1, _⟩ => exact (dot6_lhs_1 _ _).trans hb)
  have er : dot6.rhsIdx (ix2 a l) ((contrEquiv1 dot6 64 rfl rfl).symm b) = ix2 b l := funext fun d => Fin.ext (by
    match d with
    | ⟨0, _⟩ => exact (dot6_rhs_0 _ _).trans hb
    | ⟨1, _⟩ => exact dot6_rhs_1 _ _)
  rw [el, er]

/-- The product into the zero accumulator: the sum over the 64 input channels. -/
theorem matmul6_apply (A : FVec Ideal S64x64 .f32) (B : FVec Ideal S64x4096 .f32) (a : Fin 64) (l : Fin 4096) :
    matmul dot6 none A B (constant (F := Ideal) S64x4096 .f32 0x00000000#32) (ix2 a l)
      = ∑ b : Fin 64, A (ix2 a b) * B (ix2 b l) := by
  refine (matmul6_acc_apply A B _ a l).trans ?_
  show Ideal.ofBits .f32 0x00000000#32 + _ = _
  rw [Ideal.ofBits_zero_f32, zero_add]

/-- A tap: the weight, loaded with a leading unit axis, times a slab. -/
theorem tap6_apply (w : Vec Ideal S1x64x64 .f32) (B : FVec Ideal S64x4096 .f32) (a : Fin 64) (l : Fin 4096) :
    matmul dot6 none (shapeCast S64x64 w shapeCasts_S1x64x64_S64x64 : FVec Ideal S64x64 .f32) B
        (constant (F := Ideal) S64x4096 .f32 0x00000000#32) (ix2 a l)
      = ∑ b : Fin 64, w (ix3 (0 : Fin 1) a b) * B (ix2 b l) := by
  refine (matmul6_apply _ B a l).trans ?_
  exact Finset.sum_congr rfl fun b _ => congrArg (· * B (ix2 b l)) (shapeCast_1ab_ab_apply w _ a b)

/-! ## Lane sums, columns, broadcasts -/

/-- The sum along the 4096 lanes of a [64,4096] block, at channel `a`. -/
theorem laneSum6_apply (X : FVec Ideal S64x4096 .f32) (a : Fin 64) :
    multiReduction (F := Ideal) .add [1] S64 X 0x00000000#32 reduces_S64x4096_S64 (.inl rfl) rfl (ix1 a)
      = ∑ l : Fin 4096, X (ix2 a l) := by
  refine (Ideal.multiReduction_add_single X 0x00000000#32 reduces_S64x4096_S64 (.inl rfl) rfl (ix1 a)).trans ?_
  refine Finset.sum_congr rfl fun l _ => congrArg X ?_
  funext d; apply Fin.ext
  match d with
  | ⟨0, _⟩ => rfl
  | ⟨1, _⟩ => rfl

/-- A [64] vector viewed as a [64,1] column reads its entry. -/
theorem colv6_apply (Y : FVec Ideal S64 .f32) (a : Fin 64) (z : Fin 1) :
    shapeCast S64x1 Y shapeCasts_S64_S64x1 (ix2 a z) = Y (ix1 a) := by
  refine shapeCast_apply Y _ (ix2 a z) (ix1 a) ?_
  have hz : z.val = 0 := by omega
  rw [Shape.rowMajor_val_one, Shape.rowMajor_val_two]
  show a.val = a.val * 1 + z.val
  rw [hz]; omega

/-- A [64,1] column broadcast along the 4096 lanes reads the column's entry of the channel. -/
theorem bcol6_apply {α : Type} (v : S64x1.Idx → α) (a : Fin 64) (l : Fin 4096) :
    broadcastTo S64x4096 v broadcasts_S64x1_S64x4096 (ix2 a l) = v (ix2 a (0 : Fin 1)) := by
  refine broadcastTo_apply v broadcasts_S64x1_S64x4096 (ix2 a l) (ix2 a (0 : Fin 1)) fun d => ?_
  match d with
  | ⟨0, _⟩ =>
    show a.val = if (64 : ℕ) = 1 then 0 else a.val
    split
    · omega
    · rfl
  | ⟨1, _⟩ =>
    show (0 : ℕ) = if (1 : ℕ) = 1 then 0 else l.val
    split
    · rfl
    · omega

/-! ## The zero splats -/

/-- The initial sum column is zero. -/
theorem pay6_5_apply (i : S64x1.Idx) : Gen.k6_pay5 (F := Ideal) i = 0 := Ideal.ofBits_zero_f32

/-- The initial sum-of-squares column is zero. -/
theorem pay6_6_apply (i : S64x1.Idx) : Gen.k6_pay6 (F := Ideal) i = 0 := Ideal.ofBits_zero_f32

/-- The scratch is first filled with zeros, on all 4352 lanes. -/
theorem pay6_7_apply (i : S64x4352.Idx) : Gen.k6_pay7 (F := Ideal) i = 0 := by
  unfold Gen.k6_pay7
  refine (congrFun (shapeCast_self _ _) i).trans ?_
  exact Ideal.ofBits_zero_f32

/-! ## The activation and the slabs -/

/-- `z = sin (x · scale + shift)` of the image's block, the scale and shift columns broadcast along the lanes. -/
theorem pay6_8_apply (v7 : Vec Ideal S1x64x4096 .f32) (v9 v13 : Vec Ideal S64x1 .f32) (a : Fin 64) (l : Fin 4096) :
    Gen.k6_pay8 v7 v9 v13 (ix2 a l)
      = Ideal.sin (v7 (ix3 (0 : Fin 1) a l) * v9 (ix2 a (0 : Fin 1)) + v13 (ix2 a (0 : Fin 1))) := by
  unfold Gen.k6_pay8
  refine (congrFun (shapeCast_self _ _) (ix2 a l)).trans ?_
  show Ideal.sin (shapeCast S64x4096 v7 shapeCasts_S1x64x4096_S64x4096 (ix2 a l)
      * broadcastTo S64x4096 (shapeCast S64x1 v9 shapeCasts_S64x1_S64x1) broadcasts_S64x1_S64x4096 (ix2 a l)
      + broadcastTo S64x4096 (shapeCast S64x1 v13 shapeCasts_S64x1_S64x1) broadcasts_S64x1_S64x4096 (ix2 a l)) = _
  rw [shapeCast_1ab_ab_apply v7 _ a l, bcol6_apply, bcol6_apply, shapeCast_self v9, shapeCast_self v13]

/-- A slab: loaded lanes of the scratch times the mask row broadcast down the channels. -/
theorem slab6_apply (v : Vec Ideal S64x4096 .f32) (m : Vec Ideal S1x4096 .f32) (b : Fin 64) (l : Fin 4096) :
    mulf (F := Ideal) (φ := .f32) v (broadcastTo S64x4096 m broadcasts_S1x4096_S64x4096) (ix2 b l)
      = v (ix2 b l) * m (ix2 (0 : Fin 1) l) := by
  refine (mulf_apply (φ := .f32) _ _ _).trans ?_
  rw [broadcastTo_1b_ab_apply m _ b l]

/-- The slab of tap 0 (scratch lanes from 193). -/
theorem pay6_9_apply (v21 : Vec Ideal S64x4096 .f32) (v22 : Vec Ideal S1x4096 .f32) (b : Fin 64) (l : Fin 4096) :
    Gen.k6_pay9 v21 v22 (ix2 b l) = v21 (ix2 b l) * v22 (ix2 (0 : Fin 1) l) :=
  slab6_apply v21 v22 b l

/-- The slab of tap 1 (scratch lanes from 192). -/
theorem pay6_10_apply (v25 : Vec Ideal S64x4096 .f32) (v26 : Vec Ideal S1x4096 .f32) (b : Fin 64) (l : Fin 4096) :
    Gen.k6_pay10 v25 v26 (ix2 b l) = v25 (ix2 b l) * v26 (ix2 (0 : Fin 1) l) :=
  slab6_apply v25 v26 b l

/-- The slab of tap 2 (scratch lanes from 191). -/
theorem pay6_11_apply (v29 : Vec Ideal S64x4096 .f32) (v30 : Vec Ideal S1x4096 .f32) (b : Fin 64) (l : Fin 4096) :
    Gen.k6_pay11 v29 v30 (ix2 b l) = v29 (ix2 b l) * v30 (ix2 (0 : Fin 1) l) :=
  slab6_apply v29 v30 b l

/-- The slab of tap 3 (scratch lanes from 129). -/
theorem pay6_12_apply (v33 : Vec Ideal S64x4096 .f32) (v34 : Vec Ideal S1x4096 .f32) (b : Fin 64) (l : Fin 4096) :
    Gen.k6_pay12 v33 v34 (ix2 b l) = v33 (ix2 b l) * v34 (ix2 (0 : Fin 1) l) :=
  slab6_apply v33 v34 b l

/-- The slab of tap 4 (scratch lanes from 128). -/
theorem pay6_13_apply (v37 : Vec Ideal S64x4096 .f32) (v38 : Vec Ideal S1x4096 .f32) (b : Fin 64) (l : Fin 4096) :
    Gen.k6_pay13 v37 v38 (ix2 b l) = v37 (ix2 b l) * v38 (ix2 (0 : Fin 1) l) :=
  slab6_apply v37 v38 b l

/-- The slab of tap 5 (scratch lanes from 127). -/
theorem pay6_14_apply (v41 : Vec Ideal S64x4096 .f32) (v42 : Vec Ideal S1x4096 .f32) (b : Fin 64) (l : Fin 4096) :
    Gen.k6_pay14 v41 v42 (ix2 b l) = v41 (ix2 b l) * v42 (ix2 (0 : Fin 1) l) :=
  slab6_apply v41 v42 b l

/-- The slab of tap 6 (scratch lanes from 65). -/
theorem pay6_15_apply (v45 : Vec Ideal S64x4096 .f32) (v46 : Vec Ideal S1x4096 .f32) (b : Fin 64) (l : Fin 4096) :
    Gen.k6_pay15 v45 v46 (ix2 b l) = v45 (ix2 b l) * v46 (ix2 (0 : Fin 1) l) :=
  slab6_apply v45 v46 b l

/-- The slab of tap 7 (scratch lanes from 64). -/
theorem pay6_16_apply (v49 : Vec Ideal S64x4096 .f32) (v50 : Vec Ideal S1x4096 .f32) (b : Fin 64) (l : Fin 4096) :
    Gen.k6_pay16 v49 v50 (ix2 b l) = v49 (ix2 b l) * v50 (ix2 (0 : Fin 1) l) :=
  slab6_apply v49 v50 b l

/-- The slab of tap 8 (scratch lanes from 63). -/
theorem pay6_17_apply (v53 : Vec Ideal S64x4096 .f32) (v54 : Vec Ideal S1x4096 .f32) (b : Fin 64) (l : Fin 4096) :
    Gen.k6_pay17 v53 v54 (ix2 b l) = v53 (ix2 b l) * v54 (ix2 (0 : Fin 1) l) :=
  slab6_apply v53 v54 b l

end Cert.ReferenceIdeal.Val

end
-- ==== Proof.RefV6b.lean ====
import proofs.«159567_g2000302752657622_pallasbulk_725_3_alg».proof.Proof.RefV6a

/-! # Region 6 of the reference: the payloads read at an index, second part

The nine tap products and their sum in the order the body adds them, the output block, and the carried channel sums
and sums of squares, each read at an index with explicit coordinates over variables of the literal vector types. -/

noncomputable section

namespace Cert.ReferenceIdeal.Val

open Cert.ReferenceIdeal Cert.ReferenceIdeal.Gen
open Idealize.ShloMosaic Idealize.ShloMosaic.ValueIdx
open scoped BigOperators

/-! ## The taps and their sum -/

/-- The last tap's weight without its leading unit axis. -/
theorem pay6_20_apply (v88 : Vec Ideal S1x64x64 .f32) (a b : Fin 64) :
    Gen.k6_pay20 v88 (ix2 a b) = v88 (ix3 (0 : Fin 1) a b) :=
  shapeCast_1ab_ab_apply v88 _ a b

/-- The first tap: its weight times its slab, into the zero accumulator. -/
theorem pay6_18_apply (v24 : FVec Ideal S64x4096 .f32) (v57 : Vec Ideal S1x64x64 .f32) (a : Fin 64) (l : Fin 4096) :
    Gen.k6_pay18 v24 v57 (ix2 a l) = ∑ b : Fin 64, v57 (ix3 (0 : Fin 1) a b) * v24 (ix2 b l) :=
  tap6_apply v57 v24 a l

/-- Taps 1 to 7 added, in order, to the first tap's product `v59`: `((((((v59 + D1) + D2) + D3) + D4) + D5) + D6) + D7`,
    each `D` its weight times its slab into the zero accumulator. -/
theorem pay6_19_apply (v28 v32 v36 v40 v44 v48 v52 v59 : FVec Ideal S64x4096 .f32)
    (v60 v64 v68 v72 v76 v80 v84 : Vec Ideal S1x64x64 .f32) (a : Fin 64) (l : Fin 4096) :
    Gen.k6_pay19 v28 v32 v36 v40 v44 v48 v52 v59 v60 v64 v68 v72 v76 v80 v84 (ix2 a l)
      = ((((((v59 (ix2 a l) + ∑ b : Fin 64, v60 (ix3 (0 : Fin 1) a b) * v28 (ix2 b l)) + ∑ b : Fin 64, v64 (ix3 (0 : Fin 1) a b) * v32 (ix2 b l)) + ∑ b : Fin 64, v68 (ix3 (0 : Fin 1) a b) * v36 (ix2 b l)) + ∑ b : Fin 64, v72 (ix3 (0 : Fin 1) a b) * v40 (ix2 b l)) + ∑ b : Fin 64, v76 (ix3 (0 : Fin 1) a b) * v44 (ix2 b l)) + ∑ b : Fin 64, v80 (ix3 (0 : Fin 1) a b) * v48 (ix2 b l)) + ∑ b : Fin 64, v84 (ix3 (0 : Fin 1) a b) * v52 (ix2 b l) := by
  unfold Gen.k6_pay19
  refine (addf_apply (φ := .f32) _ _ _).trans (congrArg₂ (· + ·) ?_ (tap6_apply v84 v52 a l))
  refine (addf_apply (φ := .f32) _ _ _).trans (congrArg₂ (· + ·) ?_ (tap6_apply v80 v48 a l))
  refine (addf_apply (φ := .f32) _ _ _).trans (congrArg₂ (· + ·) ?_ (tap6_apply v76 v44 a l))
  refine (addf_apply (φ := .f32) _ _ _).trans (congrArg₂ (· + ·) ?_ (tap6_apply v72 v40 a l))
  refine (addf_apply (φ := .f32) _ _ _).trans (congrArg₂ (· + ·) ?_ (tap6_apply v68 v36 a l))
  refine (addf_apply (φ := .f32) _ _ _).trans (congrArg₂ (· + ·) ?_ (tap6_apply v64 v32 a l))
  refine (addf_apply (φ := .f32) _ _ _).trans (congrArg₂ (· + ·) ?_ (tap6_apply v60 v28 a l))
  rfl

/-- The last tap added: the accumulated taps `v87` plus the last weight times the last slab into the accumulator
    `cst`. -/
theorem pay6_1_apply (v56 v87 : FVec Ideal S64x4096 .f32) (v89 : FVec Ideal S64x64 .f32) (cst : FVec Ideal S64x4096 .f32)
    (a : Fin 64) (l : Fin 4096) :
    Gen.k6_pay1 v56 v87 v89 cst (ix2 a l)
      = v87 (ix2 a l) + (cst (ix2 a l) + ∑ b : Fin 64, v89 (ix2 a b) * v56 (ix2 b l)) := by
  unfold Gen.k6_pay1
  exact (addf_apply (φ := .f32) _ _ _).trans (congrArg (v87 (ix2 a l) + ·) (matmul6_acc_apply v89 v56 cst a l))

/-- With the zero accumulator the body passes: the accumulated taps plus the last tap. -/
theorem pay6_1_zero_apply (v56 v87 : FVec Ideal S64x4096 .f32) (v89 : FVec Ideal S64x64 .f32) (a : Fin 64) (l : Fin 4096) :
    Gen.k6_pay1 v56 v87 v89 (constant (F := Ideal) S64x4096 .f32 0x00000000#32) (ix2 a l)
      = v87 (ix2 a l) + ∑ b : Fin 64, v89 (ix2 a b) * v56 (ix2 b l) := by
  unfold Gen.k6_pay1
  exact (addf_apply (φ := .f32) _ _ _).trans (congrArg (v87 (ix2 a l) + ·) (matmul6_apply v89 v56 a l))

/-! ## What the point stores -/

/-- The output block: the taps' sum under a leading unit axis. -/
theorem pay6_2_apply (v56 v87 : FVec Ideal S64x4096 .f32) (v89 : FVec Ideal S64x64 .f32) (cst : FVec Ideal S64x4096 .f32)
    (u : Fin 1) (a : Fin 64) (l : Fin 4096) :
    Gen.k6_pay2 v56 v87 v89 cst (ix3 u a l) = Gen.k6_pay1 v56 v87 v89 cst (ix2 a l) :=
  shapeCast_ab_1ab_apply (Gen.k6_pay1 v56 v87 v89 cst) _ u a l

/-- The carried channel sums: what was carried plus the sum of the output block along its lanes. -/
theorem pay6_3_apply (v56 v87 : FVec Ideal S64x4096 .f32) (v89 : FVec Ideal S64x64 .f32) (cst : FVec Ideal S64x4096 .f32)
    (v95 : Vec Ideal S64x1 .f32) (a : Fin 64) (z : Fin 1) :
    Gen.k6_pay3 v56 v87 v89 cst v95 (ix2 a z)
      = v95 (ix2 a z) + ∑ l : Fin 4096, Gen.k6_pay1 v56 v87 v89 cst (ix2 a l) := by
  unfold Gen.k6_pay3
  refine (addf_apply (φ := .f32) _ _ _).trans (congrArg₂ (· + ·) ?_ ?_)
  · exact congrFun (shapeCast_self v95 _) (ix2 a z)
  · exact (colv6_apply _ a z).trans (laneSum6_apply _ a)

/-- The carried channel sums of squares: what was carried plus the sum of the output block's squares along its lanes. -/
theorem pay6_4_apply (v56 v87 : FVec Ideal S64x4096 .f32) (v89 : FVec Ideal S64x64 .f32) (cst : FVec Ideal S64x4096 .f32)
    (v101 : Vec Ideal S64x1 .f32) (a : Fin 64) (z : Fin 1) :
    Gen.k6_pay4 v56 v87 v89 cst v101 (ix2 a z)
      = v101 (ix2 a z)
        + ∑ l : Fin 4096, Gen.k6_pay1 v56 v87 v89 cst (ix2 a l) * Gen.k6_pay1 v56 v87 v89 cst (ix2 a l) := by
  unfold Gen.k6_pay4
  refine (addf_apply (φ := .f32) _ _ _).trans (congrArg₂ (· + ·) ?_ ?_)
  · exact congrFun (shapeCast_self v101 _) (ix2 a z)
  · refine (colv6_apply _ a z).trans ((laneSum6_apply _ a).trans ?_)
    exact Finset.sum_congr rfl fun l _ => mulf_apply (φ := .f32) _ _ _

end Cert.ReferenceIdeal.Val

end
-- ==== Proof.RefV6.lean ====
import proofs.«159567_g2000302752657622_pallasbulk_725_3_alg».proof.Proof.RefR6
import proofs.«159567_g2000302752657622_pallasbulk_725_3_alg».proof.Proof.RefV6b
import proofs.«159567_g2000302752657622_pallasbulk_725_3_alg».proof.Proof.RefV6d
import Idealize.ShloMosaic.Lib.ValueIdx
import Idealize.ShloMosaic.Lib.Pipeline.Value
import Idealize.ShloMosaic.Lib.ValueLayout
import Idealize.ShloMosaic.PureOps.Ideal.Laws

/-! # Region 6 of the reference: from the blocks to the output array

What the body leaves at a point, read index by index from the point's blocks: the scratch's two pieces as the padded
activation, each slab as a window of it times its mask row, the nine taps and their sum; then the point's blocks as
slices of the region's arrays, and the output array as the specification `RG6_5` of the arrays the region finds. -/

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! ## Reading through the body's boxes -/

theorem hz3 : (![0, 0, 0] : Fin 3 → Nat) = fun _ => 0 := funext fun a => by fin_cases a <;> rfl
theorem hz2 : (![0, 0] : Fin 2 → Nat) = fun _ => 0 := funext fun a => by fin_cases a <;> rfl

/-- 4096 lanes of a 64 × 4352 buffer from lane `o`: at (b, l) the buffer at (b, o + l). -/
theorem ldLanes6 (G : S64x4352.Idx → EReal) (o : Nat) (inb : ∀ a, (![0, o] : Fin 2 → Nat) a + S64x4096.size a ≤ S64x4352.size a)
    (b : Fin 64) (l : Fin 4096) (h : o + l.val < 4352) :
    View.ld (Val := Elt Ideal) (e' := .f32) G (Rect.unit (s := S64x4352) ![0, o] S64x4096.size inb) (ix2 b l) = G (ix2 b (⟨o + l.val, h⟩ : Fin 4352)) := by
  show G ((Rect.unit (s := S64x4352) ![0, o] S64x4096.size inb).emb (ix2 b l)) = _
  congr 1
  funext a
  apply Fin.ext
  rw [Rect.emb_apply]
  match a with
  | ⟨0, _⟩ => show 0 + 1 * b.val = b.val; omega
  | ⟨1, _⟩ => show o + 1 * l.val = o + l.val; omega

/-- Tap `k` of the 9 × 64 × 64 weights: at (0, a, b) the weights at (k, a, b). -/
theorem ldTap6 (X : S9x64x64.Idx → EReal) (k : Nat) (inb : ∀ a, (![k, 0, 0] : Fin 3 → Nat) a + S1x64x64.size a ≤ S9x64x64.size a)
    (hk : k < 9) (a b : Fin 64) :
    View.ld (Val := Elt Ideal) (e' := .f32) X (Rect.unit (s := S9x64x64) ![k, 0, 0] S1x64x64.size inb) (ix3 (0 : Fin 1) a b) = X (ix3 (⟨k, hk⟩ : Fin 9) a b) := by
  show X ((Rect.unit (s := S9x64x64) ![k, 0, 0] S1x64x64.size inb).emb (ix3 (0 : Fin 1) a b)) = _
  congr 1
  funext x
  apply Fin.ext
  rw [Rect.emb_apply]
  match x with
  | ⟨0, _⟩ => show k + 1 * 0 = k; omega
  | ⟨1, _⟩ => show 0 + 1 * a.val = a.val; omega
  | ⟨2, _⟩ => show 0 + 1 * b.val = b.val; omega

/-- Row `k` of the 9 × 4096 mask: at (0, l) the mask at (k, l). -/
theorem ldRow6 (X : S9x4096.Idx → EReal) (k : Nat) (inb : ∀ a, (![k, 0] : Fin 2 → Nat) a + S1x4096.size a ≤ S9x4096.size a)
    (hk : k < 9) (l : Fin 4096) :
    View.ld (Val := Elt Ideal) (e' := .f32) X (Rect.unit (s := S9x4096) ![k, 0] S1x4096.size inb) (ix2 (0 : Fin 1) l) = X (ix2 (⟨k, hk⟩ : Fin 9) l) := by
  show X ((Rect.unit (s := S9x4096) ![k, 0] S1x4096.size inb).emb (ix2 (0 : Fin 1) l)) = _
  congr 1
  funext x
  apply Fin.ext
  rw [Rect.emb_apply]
  match x with
  | ⟨0, _⟩ => show k + 1 * 0 = k; omega
  | ⟨1, _⟩ => show 0 + 1 * l.val = l.val; omega

/-! ## The scratch: the padded activation -/

/-- The store on lanes [128, 4224) laid over the store on all 4352 lanes, read at (b, m). -/
theorem canonScr6_apply (p8 : Vec Ideal r6_s128.shape .f32) (p7 : Vec Ideal S64x4352 .f32) (b : Fin 64) (m : Fin 4352) :
    View.canon (Val := Elt Ideal) (e := .f32) [⟨r6_s128, p8⟩, ⟨r6_sW, p7⟩] (ix2 b m)
      = if h : 128 ≤ m.val ∧ m.val < 4224 then p8 (ix2 b (⟨m.val - 128, by omega⟩ : Fin 4096)) else p7 (ix2 b m) := by
  by_cases h : 128 ≤ m.val ∧ m.val < 4224
  · rw [dif_pos h]
    have he : ix2 b m = r6_s128.emb (ix2 b (⟨m.val - 128, by omega⟩ : Fin 4096)) := funext fun a => Fin.ext (by
      rw [Rect.emb_apply]
      match a with
      | ⟨0, _⟩ => show b.val = 0 + 1 * b.val; omega
      | ⟨1, _⟩ => show m.val = 128 + 1 * (m.val - 128); omega)
    rw [he]
    exact View.canon_cons_emb (Val := Elt Ideal) (e := .f32) r6_s128 p8 [⟨r6_sW, p7⟩] (ix2 b (⟨m.val - 128, by omega⟩ : Fin 4096))
  · rw [dif_neg h]
    have hn : ix2 b m ∉ (⟨r6_s128, p8⟩ : View.Piece (Elt Ideal) S64x4352 .f32).1.set := by
      show ix2 b m ∉ r6_s128.set
      rw [Rect.mem_set_unit]
      intro hm
      have h1 : 128 ≤ m.val := (hm 1).1
      have h2 : m.val < 128 + 4096 := (hm 1).2
      exact h ⟨h1, by omega⟩
    rw [View.canon_cons_of_not_mem (Val := Elt Ideal) (⟨r6_s128, p8⟩ : View.Piece (Elt Ideal) S64x4352 .f32) [⟨r6_sW, p7⟩] hn,
      View.canon_unit_zero hz2]

/-- The activation of the point's block: sin (x · scale + shift). -/
def actB6 (x0 : Vec Ideal S1x64x4096 .f32) (x1 x2 : Vec Ideal S64x1 .f32) (b : Fin 64) (l : Fin 4096) : EReal :=
  Ideal.sin (x0 (ix3 (0 : Fin 1) b l) * x1 (ix2 b (0 : Fin 1)) + x2 (ix2 b (0 : Fin 1)))

/-- The scratch after the body's two stores is the padded activation. -/
theorem scr6_apply (x0 : Vec Ideal S1x64x4096 .f32) (x1 x2 : Vec Ideal S64x1 .f32) (b : Fin 64) (m : Fin 4352) :
    View.canon (LS6 x0 x1 x2) (ix2 b m) = zpad6 (actB6 x0 x1 x2) b m := by
  unfold LS6 zpad6
  refine (canonScr6_apply _ _ b m).trans ?_
  by_cases h : 128 ≤ m.val ∧ m.val < 4224
  · rw [dif_pos h, dif_pos h]
    refine (pay6_8_apply _ _ _ b _).trans ?_
    unfold actB6
    refine congrArg Ideal.sin (congrArg₂ (· + ·) (congrArg₂ (· * ·) ?_ ?_) ?_)
    · exact congrFun (View.ld_unit_zero (S := S1x64x4096) hz3 inb_S1x64x4096_S1x64x4096_0_0_0 x0) _
    · exact congrFun (View.ld_unit_zero (S := S64x1) hz2 inb_S64x1_S64x1_0_0 x1) _
    · exact congrFun (View.ld_unit_zero (S := S64x1) hz2 inb_S64x1_S64x1_0_0 x2) _
  · rw [dif_neg h, dif_neg h]
    exact pay6_7_apply _

/-! ## The nine masked slabs -/

/-- Tap 0's slab: the padded activation from lane 193, times mask row 0. -/
theorem m6_0_apply (x0 : Vec Ideal S1x64x4096 .f32) (x1 x2 : Vec Ideal S64x1 .f32) (x4 : Vec Ideal S9x4096 .f32) (b : Fin 64) (l : Fin 4096) :
    m6_0 x0 x1 x2 x4 (ix2 b l) = tapv6 (zpad6 (actB6 x0 x1 x2)) (fun t l => x4 (ix2 t l)) 0 b l := by
  unfold m6_0 tapv6
  refine (pay6_9_apply _ _ b l).trans (congrArg₂ (· * ·) ?_ ?_)
  · unfold slab6
    refine (ldLanes6 _ 193 inb_S64x4352_S64x4096_0_193 b l (by have := l.isLt; omega)).trans ?_
    exact scr6_apply x0 x1 x2 b _
  · exact ldRow6 x4 0 inb_S9x4096_S1x4096_0_0 (by decide) l

/-- Tap 1's slab: the padded activation from lane 192, times mask row 1. -/
theorem m6_1_apply (x0 : Vec Ideal S1x64x4096 .f32) (x1 x2 : Vec Ideal S64x1 .f32) (x4 : Vec Ideal S9x4096 .f32) (b : Fin 64) (l : Fin 4096) :
    m6_1 x0 x1 x2 x4 (ix2 b l) = tapv6 (zpad6 (actB6 x0 x1 x2)) (fun t l => x4 (ix2 t l)) 1 b l := by
  unfold m6_1 tapv6
  refine (pay6_10_apply _ _ b l).trans (congrArg₂ (· * ·) ?_ ?_)
  · unfold slab6
    refine (ldLanes6 _ 192 inb_S64x4352_S64x4096_0_192 b l (by have := l.isLt; omega)).trans ?_
    exact scr6_apply x0 x1 x2 b _
  · exact ldRow6 x4 1 inb_S9x4096_S1x4096_1_0 (by decide) l

/-- Tap 2's slab: the padded activation from lane 191, times mask row 2. -/
theorem m6_2_apply (x0 : Vec Ideal S1x64x4096 .f32) (x1 x2 : Vec Ideal S64x1 .f32) (x4 : Vec Ideal S9x4096 .f32) (b : Fin 64) (l : Fin 4096) :
    m6_2 x0 x1 x2 x4 (ix2 b l) = tapv6 (zpad6 (actB6 x0 x1 x2)) (fun t l => x4 (ix2 t l)) 2 b l := by
  unfold m6_2 tapv6
  refine (pay6_11_apply _ _ b l).trans (congrArg₂ (· * ·) ?_ ?_)
  · unfold slab6
    refine (ldLanes6 _ 191 inb_S64x4352_S64x4096_0_191 b l (by have := l.isLt; omega)).trans ?_
    exact scr6_apply x0 x1 x2 b _
  · exact ldRow6 x4 2 inb_S9x4096_S1x4096_2_0 (by decide) l

/-- Tap 3's slab: the padded activation from lane 129, times mask row 3. -/
theorem m6_3_apply (x0 : Vec Ideal S1x64x4096 .f32) (x1 x2 : Vec Ideal S64x1 .f32) (x4 : Vec Ideal S9x4096 .f32) (b : Fin 64) (l : Fin 4096) :
    m6_3 x0 x1 x2 x4 (ix2 b l) = tapv6 (zpad6 (actB6 x0 x1 x2)) (fun t l => x4 (ix2 t l)) 3 b l := by
  unfold m6_3 tapv6
  refine (pay6_12_apply _ _ b l).trans (congrArg₂ (· * ·) ?_ ?_)
  · unfold slab6
    refine (ldLanes6 _ 129 inb_S64x4352_S64x4096_0_129 b l (by have := l.isLt; omega)).trans ?_
    exact scr6_apply x0 x1 x2 b _
  · exact ldRow6 x4 3 inb_S9x4096_S1x4096_3_0 (by decide) l

/-- Tap 4's slab: the padded activation from lane 128, times mask row 4. -/
theorem m6_4_apply (x0 : Vec Ideal S1x64x4096 .f32) (x1 x2 : Vec Ideal S64x1 .f32) (x4 : Vec Ideal S9x4096 .f32) (b : Fin 64) (l : Fin 4096) :
    m6_4 x0 x1 x2 x4 (ix2 b l) = tapv6 (zpad6 (actB6 x0 x1 x2)) (fun t l => x4 (ix2 t l)) 4 b l := by
  unfold m6_4 tapv6
  refine (pay6_13_apply _ _ b l).trans (congrArg₂ (· * ·) ?_ ?_)
  · unfold slab6
    refine (ldLanes6 _ 128 inb_S64x4352_S64x4096_0_128 b l (by have := l.isLt; omega)).trans ?_
    exact scr6_apply x0 x1 x2 b _
  · exact ldRow6 x4 4 inb_S9x4096_S1x4096_4_0 (by decide) l

/-- Tap 5's slab: the padded activation from lane 127, times mask row 5. -/
theorem m6_5_apply (x0 : Vec Ideal S1x64x4096 .f32) (x1 x2 : Vec Ideal S64x1 .f32) (x4 : Vec Ideal S9x4096 .f32) (b : Fin 64) (l : Fin 4096) :
    m6_5 x0 x1 x2 x4 (ix2 b l) = tapv6 (zpad6 (actB6 x0 x1 x2)) (fun t l => x4 (ix2 t l)) 5 b l := by
  unfold m6_5 tapv6
  refine (pay6_14_apply _ _ b l).trans (congrArg₂ (· * ·) ?_ ?_)
  · unfold slab6
    refine (ldLanes6 _ 127 inb_S64x4352_S64x4096_0_127 b l (by have := l.isLt; omega)).trans ?_
    exact scr6_apply x0 x1 x2 b _
  · exact ldRow6 x4 5 inb_S9x4096_S1x4096_5_0 (by decide) l

/-- Tap 6's slab: the padded activation from lane 65, times mask row 6. -/
theorem m6_6_apply (x0 : Vec Ideal S1x64x4096 .f32) (x1 x2 : Vec Ideal S64x1 .f32) (x4 : Vec Ideal S9x4096 .f32) (b : Fin 64) (l : Fin 4096) :
    m6_6 x0 x1 x2 x4 (ix2 b l) = tapv6 (zpad6 (actB6 x0 x1 x2)) (fun t l => x4 (ix2 t l)) 6 b l := by
  unfold m6_6 tapv6
  refine (pay6_15_apply _ _ b l).trans (congrArg₂ (· * ·) ?_ ?_)
  · unfold slab6
    refine (ldLanes6 _ 65 inb_S64x4352_S64x4096_0_65 b l (by have := l.isLt; omega)).trans ?_
    exact scr6_apply x0 x1 x2 b _
  · exact ldRow6 x4 6 inb_S9x4096_S1x4096_6_0 (by decide) l

/-- Tap 7's slab: the padded activation from lane 64, times mask row 7. -/
theorem m6_7_apply (x0 : Vec Ideal S1x64x4096 .f32) (x1 x2 : Vec Ideal S64x1 .f32) (x4 : Vec Ideal S9x4096 .f32) (b : Fin 64) (l : Fin 4096) :
    m6_7 x0 x1 x2 x4 (ix2 b l) = tapv6 (zpad6 (actB6 x0 x1 x2)) (fun t l => x4 (ix2 t l)) 7 b l := by
  unfold m6_7 tapv6
  refine (pay6_16_apply _ _ b l).trans (congrArg₂ (· * ·) ?_ ?_)
  · unfold slab6
    refine (ldLanes6 _ 64 inb_S64x4352_S64x4096_0_64 b l (by have := l.isLt; omega)).trans ?_
    exact scr6_apply x0 x1 x2 b _
  · exact ldRow6 x4 7 inb_S9x4096_S1x4096_7_0 (by decide) l

/-- Tap 8's slab: the padded activation from lane 63, times mask row 8. -/
theorem m6_8_apply (x0 : Vec Ideal S1x64x4096 .f32) (x1 x2 : Vec Ideal S64x1 .f32) (x4 : Vec Ideal S9x4096 .f32) (b : Fin 64) (l : Fin 4096) :
    m6_8 x0 x1 x2 x4 (ix2 b l) = tapv6 (zpad6 (actB6 x0 x1 x2)) (fun t l => x4 (ix2 t l)) 8 b l := by
  unfold m6_8 tapv6
  refine (pay6_17_apply _ _ b l).trans (congrArg₂ (· * ·) ?_ ?_)
  · unfold slab6
    refine (ldLanes6 _ 63 inb_S64x4352_S64x4096_0_63 b l (by have := l.isLt; omega)).trans ?_
    exact scr6_apply x0 x1 x2 b _
  · exact ldRow6 x4 8 inb_S9x4096_S1x4096_8_0 (by decide) l

/-! ## The nine taps and their sum -/

/-- The taps' sum at (a, l), from the point's blocks. -/
theorem core6_apply (x0 : Vec Ideal S1x64x4096 .f32) (x1 x2 : Vec Ideal S64x1 .f32) (x3 : Vec Ideal S9x64x64 .f32) (x4 : Vec Ideal S9x4096 .f32) (a : Fin 64) (l : Fin 4096) :
    k6_pay1 (m6_8 x0 x1 x2 x4) (s6_87 x0 x1 x2 x3 x4) (s6_89 x3) (cst6 (F := Ideal)) (ix2 a l) = conv6 (fun t a b => x3 (ix3 t a b)) (zpad6 (actB6 x0 x1 x2)) (fun t l => x4 (ix2 t l)) a l := by
  unfold cst6 conv6 D6 s6_89
  refine (pay6_1_zero_apply _ _ _ a l).trans (congrArg₂ (· + ·) ?_ ?_)
  · unfold s6_87
    refine (pay6_19_apply _ _ _ _ _ _ _ _ _ _ _ _ _ _ _ a l).trans ?_
    refine congrArg₂ (· + ·) (congrArg₂ (· + ·) (congrArg₂ (· + ·) (congrArg₂ (· + ·) (congrArg₂ (· + ·) (congrArg₂ (· + ·)
      (congrArg₂ (· + ·) ?_ ?_) ?_) ?_) ?_) ?_) ?_) ?_
    · refine (pay6_18_apply _ _ a l).trans (Finset.sum_congr rfl fun b _ => congrArg₂ (· * ·) ?_ (m6_0_apply x0 x1 x2 x4 b l))
      exact ldTap6 x3 0 inb_S9x64x64_S1x64x64_0_0_0 (by decide) a b
    · exact Finset.sum_congr rfl fun b _ =>
        congrArg₂ (· * ·) (ldTap6 x3 1 inb_S9x64x64_S1x64x64_1_0_0 (by decide) a b) (m6_1_apply x0 x1 x2 x4 b l)
    · exact Finset.sum_congr rfl fun b _ =>
        congrArg₂ (· * ·) (ldTap6 x3 2 inb_S9x64x64_S1x64x64_2_0_0 (by decide) a b) (m6_2_apply x0 x1 x2 x4 b l)
    · exact Finset.sum_congr rfl fun b _ =>
        congrArg₂ (· * ·) (ldTap6 x3 3 inb_S9x64x64_S1x64x64_3_0_0 (by decide) a b) (m6_3_apply x0 x1 x2 x4 b l)
    · exact Finset.sum_congr rfl fun b _ =>
        congrArg₂ (· * ·) (ldTap6 x3 4 inb_S9x64x64_S1x64x64_4_0_0 (by decide) a b) (m6_4_apply x0 x1 x2 x4 b l)
    · exact Finset.sum_congr rfl fun b _ =>
        congrArg₂ (· * ·) (ldTap6 x3 5 inb_S9x64x64_S1x64x64_5_0_0 (by decide) a b) (m6_5_apply x0 x1 x2 x4 b l)
    · exact Finset.sum_congr rfl fun b _ =>
        congrArg₂ (· * ·) (ldTap6 x3 6 inb_S9x64x64_S1x64x64_6_0_0 (by decide) a b) (m6_6_apply x0 x1 x2 x4 b l)
    · exact Finset.sum_congr rfl fun b _ =>
        congrArg₂ (· * ·) (ldTap6 x3 7 inb_S9x64x64_S1x64x64_7_0_0 (by decide) a b) (m6_7_apply x0 x1 x2 x4 b l)
  · exact Finset.sum_congr rfl fun b _ =>
      congrArg₂ (· * ·) ((pay6_20_apply _ a b).trans (ldTap6 x3 8 inb_S9x64x64_S1x64x64_8_0_0 (by decide) a b)) (m6_8_apply x0 x1 x2 x4 b l)

/-- The output block at (u, a, l). -/
theorem out6_5_apply (x0 : Vec Ideal S1x64x4096 .f32) (x1 x2 : Vec Ideal S64x1 .f32) (x3 : Vec Ideal S9x64x64 .f32) (x4 : Vec Ideal S9x4096 .f32) (u : Fin 1) (a : Fin 64) (l : Fin 4096) :
    out6_5 x0 x1 x2 x3 x4 (ix3 u a l) = conv6 (fun t a b => x3 (ix3 t a b)) (zpad6 (actB6 x0 x1 x2)) (fun t l => x4 (ix2 t l)) a l := by
  unfold out6_5
  rw [View.canon_unit_zero hz3]
  exact (pay6_2_apply _ _ _ _ u a l).trans (core6_apply x0 x1 x2 x3 x4 a l)

/-- The carried sum after the point at channel a: the loaded column plus the lanes' sum of the taps' sum. -/
theorem acc6_6_apply (x0 : Vec Ideal S1x64x4096 .f32) (x1 x2 : Vec Ideal S64x1 .f32) (x3 : Vec Ideal S9x64x64 .f32) (x4 : Vec Ideal S9x4096 .f32) (s : Vec Ideal S64x1 .f32) (a : Fin 64) (z : Fin 1) :
    acc6_6 x0 x1 x2 x3 x4 s (ix2 a z) = s (ix2 a z) + ∑ l : Fin 4096, conv6 (fun t a b => x3 (ix3 t a b)) (zpad6 (actB6 x0 x1 x2)) (fun t l => x4 (ix2 t l)) a l := by
  unfold acc6_6
  rw [View.canon_unit_zero hz2]
  refine (pay6_3_apply _ _ _ _ s a z).trans (congrArg (s (ix2 a z) + ·) ?_)
  exact Finset.sum_congr rfl fun l _ => core6_apply x0 x1 x2 x3 x4 a l

/-- The carried sum of squares after the point at channel a. -/
theorem acc6_7_apply (x0 : Vec Ideal S1x64x4096 .f32) (x1 x2 : Vec Ideal S64x1 .f32) (x3 : Vec Ideal S9x64x64 .f32) (x4 : Vec Ideal S9x4096 .f32) (s : Vec Ideal S64x1 .f32) (a : Fin 64) (z : Fin 1) :
    acc6_7 x0 x1 x2 x3 x4 s (ix2 a z) = s (ix2 a z) + ∑ l : Fin 4096, conv6 (fun t a b => x3 (ix3 t a b)) (zpad6 (actB6 x0 x1 x2)) (fun t l => x4 (ix2 t l)) a l * conv6 (fun t a b => x3 (ix3 t a b)) (zpad6 (actB6 x0 x1 x2)) (fun t l => x4 (ix2 t l)) a l := by
  unfold acc6_7
  rw [View.canon_unit_zero hz2]
  refine (pay6_4_apply _ _ _ _ s a z).trans (congrArg (s (ix2 a z) + ·) ?_)
  exact Finset.sum_congr rfl fun l _ => congrArg₂ (· * ·) (core6_apply x0 x1 x2 x3 x4 a l) (core6_apply x0 x1 x2 x3 x4 a l)

/-! ## Which buffer each window stages -/

theorem arrRef6_0 : Pipeline.arrRef spec6 0 = main_v65_0 := rfl
theorem arrRef6_1 : Pipeline.arrRef spec6 1 = main_v76 := rfl
theorem arrRef6_2 : Pipeline.arrRef spec6 2 = main_v79 := rfl
theorem arrRef6_3 : Pipeline.arrRef spec6 3 = main_arg16 := rfl
theorem arrRef6_4 : Pipeline.arrRef spec6 4 = main_arg17 := rfl
theorem arrRef6_5 : Pipeline.arrRef spec6 5 = main_v80_0 := rfl
theorem arrRef6_6 : Pipeline.arrRef spec6 6 = main_v80_1 := rfl
theorem arrRef6_7 : Pipeline.arrRef spec6 7 = main_v80_2 := rfl

/-! ## From the blocks to the array -/

/-- The index maps over the grid's 64 points: point t is image t; every other operand is one block. -/
theorem idx6 : ∀ t : Fin cfg6.N,
    win6_0.index t (0 : Fin 3) = t.val ∧ win6_0.index t (1 : Fin 3) = 0 ∧ win6_0.index t (2 : Fin 3) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 3) = 0 ∧ win6_3.index t (1 : Fin 3) = 0 ∧ win6_3.index t (2 : Fin 3) = 0
    ∧ win6_4.index t (0 : Fin 2) = 0 ∧ win6_4.index t (1 : Fin 2) = 0
    ∧ win6_5.index t (0 : Fin 3) = t.val ∧ win6_5.index t (1 : Fin 3) = 0 ∧ win6_5.index t (2 : Fin 3) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

variable (V : (c : Dev nD) → (b : Ref sig .tc) → Buf (Elt Ideal) ((c : Thread nD τ).loc b))

/-- Window 0's block at point t is image t of the activation operand's array. -/
theorem iblk6_0_apply (c : Dev nD) (t : Fin cfg6.N) (x : S1x64x4096.Idx) (k : S64x64x4096.Idx)
    (hk0 : (k 0).val = t.val) (hk1 : (k 1).val = (x 1).val) (hk2 : (k 2).val = (x 2).val) :
    (iblk6 V c 0 t : Vec Ideal S1x64x4096 .f32) x = (V c main_v65_0 : S64x64x4096.Idx → EReal) k := by
  obtain ⟨e0, e1, e2, -⟩ := idx6 t
  have hx0 : (x 0).val < 1 := (x 0).isLt
  unfold iblk6
  rw [View.read_apply]
  show V c main_v65_0 _ = V c main_v65_0 _
  congr 1
  funext a
  apply Fin.ext
  match a with
  | ⟨0, _⟩ => show win6_0.index t 0 * 1 + 1 * (x 0).val = (k 0).val; rw [e0, hk0]; omega
  | ⟨1, _⟩ => show win6_0.index t 1 * 64 + 1 * (x 1).val = (k 1).val; rw [e1, hk1]; omega
  | ⟨2, _⟩ => show win6_0.index t 2 * 4096 + 1 * (x 2).val = (k 2).val; rw [e2, hk2]; omega

/-- Window 1's block is its whole array at every point. -/
theorem iblk6_1_apply (c : Dev nD) (t : Fin cfg6.N) (x : S64x1.Idx) :
    (iblk6 V c 1 t : Vec Ideal S64x1 .f32) x = (V c main_v76 : S64x1.Idx → EReal) x := by
  obtain ⟨-, -, -, e0, e1, -⟩ := idx6 t
  unfold iblk6
  rw [View.read_apply]
  show V c main_v76 _ = V c main_v76 _
  congr 1
  funext a
  apply Fin.ext
  match a with
  | ⟨0, _⟩ => show win6_1.index t 0 * 64 + 1 * (x 0).val = (x 0).val; rw [e0]; omega
  | ⟨1, _⟩ => show win6_1.index t 1 * 1 + 1 * (x 1).val = (x 1).val; rw [e1]; omega

/-- Window 2's block is its whole array at every point. -/
theorem iblk6_2_apply (c : Dev nD) (t : Fin cfg6.N) (x : S64x1.Idx) :
    (iblk6 V c 2 t : Vec Ideal S64x1 .f32) x = (V c main_v79 : S64x1.Idx → EReal) x := by
  obtain ⟨-, -, -, -, -, e0, e1, -⟩ := idx6 t
  unfold iblk6
  rw [View.read_apply]
  show V c main_v79 _ = V c main_v79 _
  congr 1
  funext a
  apply Fin.ext
  match a with
  | ⟨0, _⟩ => show win6_2.index t 0 * 64 + 1 * (x 0).val = (x 0).val; rw [e0]; omega
  | ⟨1, _⟩ => show win6_2.index t 1 * 1 + 1 * (x 1).val = (x 1).val; rw [e1]; omega

/-- Window 3's block is its whole array at every point. -/
theorem iblk6_3_apply (c : Dev nD) (t : Fin cfg6.N) (x : S9x64x64.Idx) :
    (iblk6 V c 3 t : Vec Ideal S9x64x64 .f32) x = (V c main_arg16 : S9x64x64.Idx → EReal) x := by
  obtain ⟨-, -, -, -, -, -, -, e0, e1, e2, -⟩ := idx6 t
  unfold iblk6
  rw [View.read_apply]
  show V c main_arg16 _ = V c main_arg16 _
  congr 1
  funext a
  apply Fin.ext
  match a with
  | ⟨0, _⟩ => show win6_3.index t 0 * 9 + 1 * (x 0).val = (x 0).val; rw [e0]; omega
  | ⟨1, _⟩ => show win6_3.index t 1 * 64 + 1 * (x 1).val = (x 1).val; rw [e1]; omega
  | ⟨2, _⟩ => show win6_3.index t 2 * 64 + 1 * (x 2).val = (x 2).val; rw [e2]; omega

/-- Window 4's block is its whole array at every point. -/
theorem iblk6_4_apply (c : Dev nD) (t : Fin cfg6.N) (x : S9x4096.Idx) :
    (iblk6 V c 4 t : Vec Ideal S9x4096 .f32) x = (V c main_arg17 : S9x4096.Idx → EReal) x := by
  obtain ⟨-, -, -, -, -, -, -, -, -, -, e0, e1, -⟩ := idx6 t
  unfold iblk6
  rw [View.read_apply]
  show V c main_arg17 _ = V c main_arg17 _
  congr 1
  funext a
  apply Fin.ext
  match a with
  | ⟨0, _⟩ => show win6_4.index t 0 * 9 + 1 * (x 0).val = (x 0).val; rw [e0]; omega
  | ⟨1, _⟩ => show win6_4.index t 1 * 4096 + 1 * (x 1).val = (x 1).val; rw [e1]; omega

/-- The point's taps' sum is the specification's, at image n = t. -/
theorem point6_conv (c : Dev nD) (t : Fin cfg6.N) (n : Fin 64) (hn : n.val = t.val) (a : Fin 64) (l : Fin 4096) :
    conv6 (fun t' a b => (iblk6 V c 3 t : Vec Ideal S9x64x64 .f32) (ix3 t' a b))
        (zpad6 (actB6 (iblk6 V c 0 t) (iblk6 V c 1 t) (iblk6 V c 2 t)))
        (fun t' l => (iblk6 V c 4 t : Vec Ideal S9x4096 .f32) (ix2 t' l)) a l
      = conv6 (fun t' a b => (V c main_arg16 : S9x64x64.Idx → EReal) (ix3 t' a b))
        (zpad6 (act6 (V c main_v65_0) (V c main_v76) (V c main_v79) n))
        (fun t' l => (V c main_arg17 : S9x4096.Idx → EReal) (ix2 t' l)) a l := by
  have hW : (fun (t' : Fin 9) (a b : Fin 64) => (iblk6 V c 3 t : Vec Ideal S9x64x64 .f32) (ix3 t' a b))
      = fun t' a b => (V c main_arg16 : S9x64x64.Idx → EReal) (ix3 t' a b) :=
    funext fun t' => funext fun a => funext fun b => iblk6_3_apply V c t _
  have hM : (fun (t' : Fin 9) (l : Fin 4096) => (iblk6 V c 4 t : Vec Ideal S9x4096 .f32) (ix2 t' l))
      = fun t' l => (V c main_arg17 : S9x4096.Idx → EReal) (ix2 t' l) :=
    funext fun t' => funext fun l => iblk6_4_apply V c t _
  have hZ : actB6 (iblk6 V c 0 t) (iblk6 V c 1 t) (iblk6 V c 2 t) = act6 (V c main_v65_0) (V c main_v76) (V c main_v79) n :=
    funext fun b => funext fun l => by
      unfold actB6 act6
      refine congrArg Ideal.sin (congrArg₂ (· + ·) (congrArg₂ (· * ·) ?_ ?_) ?_)
      · exact iblk6_0_apply V c t (ix3 (0 : Fin 1) b l) (ix3 n b l) hn rfl rfl
      · exact iblk6_1_apply V c t _
      · exact iblk6_2_apply V c t _
  rw [hW, hM, hZ]

/-- What point t writes back is point t's block of the specification of the five arrays the region finds. -/
theorem Rflushed6_5_eq (c : Dev nD) (t : Fin cfg6.N) :
    (dat6 V c).flushed 5 t = ((cfg6.win 5).blk t).view.read (Elt Ideal) (RG6_5 (V c main_v65_0) (V c main_v76) (V c main_v79) (V c main_arg16) (V c main_arg17)) := by
  show (cfg6.win 5).cut (grid6.coords t) ((dat6 V c).after 5 t) = _
  rw [after6_5]
  obtain ⟨-, -, -, -, -, -, -, -, -, -, -, -, e0, e1, e2, -⟩ := idx6 t
  funext j
  have hj0 : (j 0).val < 1 := (j 0).isLt
  have hj1 : (j 1).val < 64 := (j 1).isLt
  have hj2 : (j 2).val < 4096 := (j 2).isLt
  have ht : t.val < 64 := Nat.lt_of_lt_of_eq t.isLt (N_6 : cfg6.N = 64)
  have hx : (cfg6.win 5).xinj (grid6.coords t) j = ix3 (⟨(j 0).val, hj0⟩ : Fin 1) (⟨(j 1).val, hj1⟩ : Fin 64) (⟨(j 2).val, hj2⟩ : Fin 4096) :=
    funext fun a => by match a with | ⟨0, _⟩ => rfl | ⟨1, _⟩ => rfl | ⟨2, _⟩ => rfl
  show out6_5 (iblk6 V c 0 t) (iblk6 V c 1 t) (iblk6 V c 2 t) (iblk6 V c 3 t) (iblk6 V c 4 t) ((cfg6.win 5).xinj (grid6.coords t) j)
    = RG6_5 (V c main_v65_0) (V c main_v76) (V c main_v79) (V c main_arg16) (V c main_arg17) (((cfg6.win 5).blk t).view.emb j)
  rw [hx]
  refine (out6_5_apply (iblk6 V c 0 t) (iblk6 V c 1 t) (iblk6 V c 2 t) (iblk6 V c 3 t) (iblk6 V c 4 t) ⟨(j 0).val, hj0⟩ ⟨(j 1).val, hj1⟩ ⟨(j 2).val, hj2⟩).trans ?_
  have h0 : ((((cfg6.win 5).blk t).view.emb j) 0).val = t.val := by
    show win6_5.index t 0 * 1 + 1 * (j 0).val = t.val; rw [e0]; omega
  have h1 : ((((cfg6.win 5).blk t).view.emb j) 1).val = (j 1).val := by
    show win6_5.index t 1 * 64 + 1 * (j 1).val = (j 1).val; rw [e1]; omega
  have h2 : ((((cfg6.win 5).blk t).view.emb j) 2).val = (j 2).val := by
    show win6_5.index t 2 * 4096 + 1 * (j 2).val = (j 2).val; rw [e2]; omega
  refine Eq.symm ((RG6_5_at _ _ _ _ _ (((cfg6.win 5).blk t).view.emb j) ⟨t.val, ht⟩ ⟨(j 1).val, hj1⟩ ⟨(j 2).val, hj2⟩ h0 h1 h2).trans ?_)
  exact (point6_conv V c t ⟨t.val, ht⟩ rfl ⟨(j 1).val, hj1⟩ ⟨(j 2).val, hj2⟩).symm

/-- An index of the output array is in point t's block iff each coordinate is in the block's range on its axis. -/
theorem mem_blk6_5 (t : Fin cfg6.N) (i : S64x64x4096.Idx) :
    i ∈ ((cfg6.win 5).blk t).view.set ↔ ∀ a : Fin 3, win6_5.index t a * S1x64x4096.size a ≤ (i a).val
      ∧ (i a).val < win6_5.index t a * S1x64x4096.size a + S1x64x4096.size a := by
  show i ∈ ((View.whole main_v80_0).slice (win6_5.rect t)).set ↔ _
  rw [View.set_slice_whole, Rect.mem_set_unit]
  exact Iff.rfl

/-- The output array after the region: the specification of the five arrays the region finds. Index (n, a, l) lies in the
    block of point n, and every point writes its block back. -/
theorem Rfinal6_5 (c : Dev nD) : (dat6 V c).arrAt 5 cfg6.N = RG6_5 (V c main_v65_0) (V c main_v76) (V c main_v79) (V c main_arg16) (V c main_arg17) :=
  (dat6 V c).arrAt_eq_of_cover 5 _ (fun t _ => Rflushed6_5_eq V c t) fun i => by
    have hi0 : (i 0).val < 64 := (i 0).isLt
    have hi1 : (i 1).val < 64 := (i 1).isLt
    have hi2 : (i 2).val < 4096 := (i 2).isLt
    have hN : cfg6.N = 64 := N_6
    obtain ⟨t, ht⟩ : ∃ t : Fin cfg6.N, t.val = (i 0).val := ⟨⟨(i 0).val, by rw [hN]; exact hi0⟩, rfl⟩
    obtain ⟨-, -, -, -, -, -, -, -, -, -, -, -, e0, e1, e2, -⟩ := idx6 t
    refine ⟨t, flush6_5 t, ?_⟩
    rw [mem_blk6_5]
    intro a
    match a with
    | ⟨0, _⟩ => show win6_5.index t 0 * 1 ≤ (i 0).val ∧ (i 0).val < win6_5.index t 0 * 1 + 1; rw [e0, ht]; omega
    | ⟨1, _⟩ => show win6_5.index t 1 * 64 ≤ (i 1).val ∧ (i 1).val < win6_5.index t 1 * 64 + 64; rw [e1]; omega
    | ⟨2, _⟩ => show win6_5.index t 2 * 4096 ≤ (i 2).val ∧ (i 2).val < win6_5.index t 2 * 4096 + 4096; rw [e2]; omega

end Cert.ReferenceIdeal.Val

end
-- ==== Proof.RefV6s.lean ====
import proofs.«159567_g2000302752657622_pallasbulk_725_3_alg».proof.Proof.RefR6
import proofs.«159567_g2000302752657622_pallasbulk_725_3_alg».proof.Proof.RefV6b
import Idealize.ShloMosaic.Lib.ValueIdx
import Idealize.ShloMosaic.Lib.Pipeline.Value

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! # Region 6: the two per-channel columns accumulated over the grid

The body adds, at every point, the sums along the lanes of the point's output block and of its squares into two [64,1]
columns zeroed at the first point and written back after the last. So if the output block of point t is image t of a
[64,64,4096] array Y, the columns end holding, per channel, the sums of Y and of Y² over all images and lanes.

Stated for any family B of block values (B t a l: channel a, lane l of what point t stores), given how the two carried
columns read in terms of B and that B at point t is image t of Y. -/

/-- Per channel, the sum of a [64,64,4096] array over its images and lanes: a [64,1] column. -/
def chanSum6 (Y : S64x64x4096.Idx → EReal) : S64x1.Idx → EReal :=
  fun i => ∑ n : Fin 64, ∑ l : Fin 4096, Y (ix3 n (i 0) l)

/-- Per channel, the sum of the squares of a [64,64,4096] array over its images and lanes: a [64,1] column. -/
def chanSumSq6 (Y : S64x64x4096.Idx → EReal) : S64x1.Idx → EReal :=
  fun i => ∑ n : Fin 64, ∑ l : Fin 4096, Y (ix3 n (i 0) l) * Y (ix3 n (i 0) l)

theorem chanSum6_at (Y : S64x64x4096.Idx → EReal) (p : Fin 64) (z : Fin 1) :
    chanSum6 Y (ix2 p z) = ∑ n : Fin 64, ∑ l : Fin 4096, Y (ix3 n p l) := rfl

theorem chanSumSq6_at (Y : S64x64x4096.Idx → EReal) (p : Fin 64) (z : Fin 1) :
    chanSumSq6 Y (ix2 p z) = ∑ n : Fin 64, ∑ l : Fin 4096, Y (ix3 n p l) * Y (ix3 n p l) := rfl

/-! ## The carried columns in terms of the point's stored block -/

/-- The nine taps' sum computed from a point's five input blocks, as the body's payloads spell it: the [64,4096] block
    the point stores. -/
def stored6 (x0 : Vec Ideal S1x64x4096 .f32) (x1 : Vec Ideal S64x1 .f32) (x2 : Vec Ideal S64x1 .f32)
    (x3 : Vec Ideal S9x64x64 .f32) (x4 : Vec Ideal S9x4096 .f32) : FVec Ideal S64x4096 .f32 :=
  Gen.k6_pay1 (m6_8 x0 x1 x2 x4) (s6_87 x0 x1 x2 x3 x4) (s6_89 x3) (cst6 (F := Ideal))

theorem zero2_6s : (![0, 0] : Fin 2 → Nat) = fun _ => 0 := funext fun a => by fin_cases a <;> rfl

/-- The carried sum after a point, at channel a: what was carried plus the lane sum of the point's stored block. -/
theorem acc6_6_stored (x0 : Vec Ideal S1x64x4096 .f32) (x1 : Vec Ideal S64x1 .f32) (x2 : Vec Ideal S64x1 .f32)
    (x3 : Vec Ideal S9x64x64 .f32) (x4 : Vec Ideal S9x4096 .f32) (s : Vec Ideal S64x1 .f32) (a : Fin 64) (z : Fin 1) :
    acc6_6 x0 x1 x2 x3 x4 s (ix2 a z) = s (ix2 a z) + ∑ l : Fin 4096, stored6 x0 x1 x2 x3 x4 (ix2 a l) := by
  unfold acc6_6
  rw [View.canon_unit_zero zero2_6s]
  exact pay6_3_apply _ _ _ _ s a z

/-- The carried sum of squares after a point, at channel a. -/
theorem acc6_7_stored (x0 : Vec Ideal S1x64x4096 .f32) (x1 : Vec Ideal S64x1 .f32) (x2 : Vec Ideal S64x1 .f32)
    (x3 : Vec Ideal S9x64x64 .f32) (x4 : Vec Ideal S9x4096 .f32) (s : Vec Ideal S64x1 .f32) (a : Fin 64) (z : Fin 1) :
    acc6_7 x0 x1 x2 x3 x4 s (ix2 a z)
      = s (ix2 a z) + ∑ l : Fin 4096, stored6 x0 x1 x2 x3 x4 (ix2 a l) * stored6 x0 x1 x2 x3 x4 (ix2 a l) := by
  unfold acc6_7
  rw [View.canon_unit_zero zero2_6s]
  exact pay6_4_apply _ _ _ _ s a z

/-! ## One point's contribution, and all the points' -/

/-- The contribution of grid point m to channel p of the sums: the sum of image m of Y over its lanes. -/
def pt6 (Y : S64x64x4096.Idx → EReal) (m : ℕ) (p : Fin 64) : EReal :=
  if h : m < 64 then ∑ l : Fin 4096, Y (ix3 (⟨m, h⟩ : Fin 64) p l) else 0

/-- The contribution of grid point m to channel p of the sums of squares. -/
def ptSq6 (Y : S64x64x4096.Idx → EReal) (m : ℕ) (p : Fin 64) : EReal :=
  if h : m < 64 then ∑ l : Fin 4096, Y (ix3 (⟨m, h⟩ : Fin 64) p l) * Y (ix3 (⟨m, h⟩ : Fin 64) p l) else 0

/-- The contributions of all the points are the sum over the images and the lanes. -/
theorem sum_points6 (Y : S64x64x4096.Idx → EReal) (p : Fin 64) :
    ∑ m ∈ Finset.range 64, pt6 Y m p = ∑ n : Fin 64, ∑ l : Fin 4096, Y (ix3 n p l) := by
  rw [Finset.sum_range]
  refine Finset.sum_congr rfl fun n _ => ?_
  unfold pt6
  rw [dif_pos n.isLt]

theorem sum_pointsSq6 (Y : S64x64x4096.Idx → EReal) (p : Fin 64) :
    ∑ m ∈ Finset.range 64, ptSq6 Y m p = ∑ n : Fin 64, ∑ l : Fin 4096, Y (ix3 n p l) * Y (ix3 n p l) := by
  rw [Finset.sum_range]
  refine Finset.sum_congr rfl fun n _ => ?_
  unfold ptSq6
  rw [dif_pos n.isLt]

/-- The two columns' index maps over the grid: one block, the whole column, at every point. -/
theorem idx6_67 : ∀ t : Fin cfg6.N, win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-! ## Induction on the grid point -/

section Accumulated

variable (V : (c : Dev nD) → (b : Ref sig .tc) → Buf (Elt Ideal) ((c : Thread nD τ).loc b))
variable (Y : S64x64x4096.Idx → EReal) (c : Dev nD) (B : Fin cfg6.N → Fin 64 → Fin 4096 → EReal)

/-- What point t adds to the sums is image t's contribution. -/
theorem point6_sum (H : ∀ (t : Fin cfg6.N) (n : Fin 64), n.val = t.val → ∀ (a : Fin 64) (l : Fin 4096), B t a l = Y (ix3 n a l)) (t : Fin cfg6.N) (p : Fin 64) :
    ∑ l : Fin 4096, B t p l = pt6 Y t.val p := by
  have ht : t.val < 64 := lt_of_lt_of_eq t.isLt N_6
  unfold pt6
  rw [dif_pos ht]
  exact Finset.sum_congr rfl fun l _ => H t ⟨t.val, ht⟩ rfl p l

theorem point6_sumSq (H : ∀ (t : Fin cfg6.N) (n : Fin 64), n.val = t.val → ∀ (a : Fin 64) (l : Fin 4096), B t a l = Y (ix3 n a l)) (t : Fin cfg6.N) (p : Fin 64) :
    ∑ l : Fin 4096, B t p l * B t p l = ptSq6 Y t.val p := by
  have ht : t.val < 64 := lt_of_lt_of_eq t.isLt N_6
  unfold ptSq6
  rw [dif_pos ht]
  exact Finset.sum_congr rfl fun l _ => congrArg₂ (· * ·) (H t ⟨t.val, ht⟩ rfl p l) (H t ⟨t.val, ht⟩ rfl p l)

/-- After point n the sum column holds the contributions of points 0 … n: the first point starts from the zero column,
    every later one from what the point before left. -/
theorem outsAt6_6_sum
    (hacc : ∀ (t : Fin cfg6.N) (s : Vec Ideal S64x1 .f32) (a : Fin 64) (z : Fin 1),
      acc6_6 (iblk6 V c 0 t) (iblk6 V c 1 t) (iblk6 V c 2 t) (iblk6 V c 3 t) (iblk6 V c 4 t) s (ix2 a z)
        = s (ix2 a z) + ∑ l : Fin 4096, B t a l)
    (H : ∀ (t : Fin cfg6.N) (n : Fin 64), n.val = t.val → ∀ (a : Fin 64) (l : Fin 4096), B t a l = Y (ix3 n a l))
    (p : Fin 64) (z : Fin 1) (n : ℕ) (hn : n < cfg6.N) :
    (outsAt6_6 V c n hn : Vec Ideal S64x1 .f32) (ix2 p z) = ∑ m ∈ Finset.range (n + 1), pt6 Y m p := by
  induction n with
  | zero =>
    refine (congrFun (outsAt6_6_A V c ⟨0, hn⟩ rfl) (ix2 p z)).trans ?_
    refine (hacc ⟨0, hn⟩ (k6_pay5 (F := Ideal)) p z).trans ?_
    rw [Finset.sum_range_one, pay6_5_apply, zero_add]
    exact point6_sum Y B H ⟨0, hn⟩ p
  | succ n ih =>
    refine (congrFun (outsAt6_6_B V c ⟨n + 1, hn⟩ (Nat.succ_ne_zero n)) (ix2 p z)).trans ?_
    refine (hacc ⟨n + 1, hn⟩ _ p z).trans ?_
    rw [Finset.sum_range_succ]
    refine congrArg₂ (· + ·) ?_ (point6_sum Y B H ⟨n + 1, hn⟩ p)
    refine (congrFun (View.ld_unit_zero (S := S64x1) zero2_6s _ _) (ix2 p z)).trans ?_
    exact ih (Nat.lt_of_succ_lt hn)

/-- After point n the sum-of-squares column holds the contributions of points 0 … n. -/
theorem outsAt6_7_sum
    (hacc : ∀ (t : Fin cfg6.N) (s : Vec Ideal S64x1 .f32) (a : Fin 64) (z : Fin 1),
      acc6_7 (iblk6 V c 0 t) (iblk6 V c 1 t) (iblk6 V c 2 t) (iblk6 V c 3 t) (iblk6 V c 4 t) s (ix2 a z)
        = s (ix2 a z) + ∑ l : Fin 4096, B t a l * B t a l)
    (H : ∀ (t : Fin cfg6.N) (n : Fin 64), n.val = t.val → ∀ (a : Fin 64) (l : Fin 4096), B t a l = Y (ix3 n a l))
    (p : Fin 64) (z : Fin 1) (n : ℕ) (hn : n < cfg6.N) :
    (outsAt6_7 V c n hn : Vec Ideal S64x1 .f32) (ix2 p z) = ∑ m ∈ Finset.range (n + 1), ptSq6 Y m p := by
  induction n with
  | zero =>
    refine (congrFun (outsAt6_7_A V c ⟨0, hn⟩ rfl) (ix2 p z)).trans ?_
    refine (hacc ⟨0, hn⟩ (k6_pay6 (F := Ideal)) p z).trans ?_
    rw [Finset.sum_range_one, pay6_6_apply, zero_add]
    exact point6_sumSq Y B H ⟨0, hn⟩ p
  | succ n ih =>
    refine (congrFun (outsAt6_7_B V c ⟨n + 1, hn⟩ (Nat.succ_ne_zero n)) (ix2 p z)).trans ?_
    refine (hacc ⟨n + 1, hn⟩ _ p z).trans ?_
    rw [Finset.sum_range_succ]
    refine congrArg₂ (· + ·) ?_ (point6_sumSq Y B H ⟨n + 1, hn⟩ p)
    refine (congrFun (View.ld_unit_zero (S := S64x1) zero2_6s _ _) (ix2 p z)).trans ?_
    exact ih (Nat.lt_of_succ_lt hn)

/-! ## The last point's write-back is the whole column -/

/-- An index of the sums' array is in point t's block iff each coordinate is in the block's range on its axis. -/
theorem mem_blk6_6 (t : Fin cfg6.N) (i : S64x1.Idx) :
    i ∈ ((cfg6.win 6).blk t).view.set ↔ ∀ a : Fin 2, win6_6.index t a * S64x1.size a ≤ (i a).val
      ∧ (i a).val < win6_6.index t a * S64x1.size a + S64x1.size a := by
  show i ∈ ((View.whole main_v80_1).slice (win6_6.rect t)).set ↔ _
  rw [View.set_slice_whole, Rect.mem_set_unit]
  exact Iff.rfl

theorem mem_blk6_7 (t : Fin cfg6.N) (i : S64x1.Idx) :
    i ∈ ((cfg6.win 7).blk t).view.set ↔ ∀ a : Fin 2, win6_7.index t a * S64x1.size a ≤ (i a).val
      ∧ (i a).val < win6_7.index t a * S64x1.size a + S64x1.size a := by
  show i ∈ ((View.whole main_v80_2).slice (win6_7.rect t)).set ↔ _
  rw [View.set_slice_whole, Rect.mem_set_unit]
  exact Iff.rfl

/-- The one write-back of the sums, after the last point, writes Y's channel sums. -/
theorem Rflushed6_6_of
    (hacc : ∀ (t : Fin cfg6.N) (s : Vec Ideal S64x1 .f32) (a : Fin 64) (z : Fin 1),
      acc6_6 (iblk6 V c 0 t) (iblk6 V c 1 t) (iblk6 V c 2 t) (iblk6 V c 3 t) (iblk6 V c 4 t) s (ix2 a z)
        = s (ix2 a z) + ∑ l : Fin 4096, B t a l)
    (H : ∀ (t : Fin cfg6.N) (n : Fin 64), n.val = t.val → ∀ (a : Fin 64) (l : Fin 4096), B t a l = Y (ix3 n a l))
    (t : Fin cfg6.N) (hf : (cfg6.win 6).flush t = true) :
    (dat6 V c).flushed 6 t = ((cfg6.win 6).blk t).view.read (Elt Ideal) (chanSum6 Y) := by
  have hN : cfg6.N = 64 := N_6
  have hl : t.val = 63 := by have := (flush6_6 t).mp hf; have := t.isLt; omega
  show (cfg6.win 6).cut (grid6.coords t) ((dat6 V c).after 6 t) = _
  rw [after6_6]
  obtain ⟨e0, e1, -, -⟩ := idx6_67 t
  funext j
  have hj0 : (j 0).val < 64 := (j 0).isLt
  have hj1 : (j 1).val < 1 := (j 1).isLt
  have hx : (cfg6.win 6).xinj (grid6.coords t) j = ix2 (⟨(j 0).val, hj0⟩ : Fin 64) (⟨(j 1).val, hj1⟩ : Fin 1) :=
    funext fun a => by match a with | ⟨0, _⟩ => rfl | ⟨1, _⟩ => rfl
  show outsAt6_6 V c t.val t.isLt ((cfg6.win 6).xinj (grid6.coords t) j)
    = chanSum6 Y (((cfg6.win 6).blk t).view.emb j)
  rw [hx]
  refine (outsAt6_6_sum V Y c B hacc H ⟨(j 0).val, hj0⟩ ⟨(j 1).val, hj1⟩ t.val t.isLt).trans ?_
  have he : ((cfg6.win 6).blk t).view.emb j = ix2 (⟨(j 0).val, hj0⟩ : Fin 64) (⟨(j 1).val, hj1⟩ : Fin 1) := by
    funext a; apply Fin.ext
    match a with
    | ⟨0, _⟩ => show win6_6.index t 0 * 64 + 1 * (j 0).val = (j 0).val; rw [e0]; omega
    | ⟨1, _⟩ => show win6_6.index t 1 * 1 + 1 * (j 1).val = (j 1).val; rw [e1]; omega
  rw [he, chanSum6_at, hl]
  exact sum_points6 Y _

/-- The one write-back of the sums of squares, after the last point, writes Y's channel sums of squares. -/
theorem Rflushed6_7_of
    (hacc : ∀ (t : Fin cfg6.N) (s : Vec Ideal S64x1 .f32) (a : Fin 64) (z : Fin 1),
      acc6_7 (iblk6 V c 0 t) (iblk6 V c 1 t) (iblk6 V c 2 t) (iblk6 V c 3 t) (iblk6 V c 4 t) s (ix2 a z)
        = s (ix2 a z) + ∑ l : Fin 4096, B t a l * B t a l)
    (H : ∀ (t : Fin cfg6.N) (n : Fin 64), n.val = t.val → ∀ (a : Fin 64) (l : Fin 4096), B t a l = Y (ix3 n a l))
    (t : Fin cfg6.N) (hf : (cfg6.win 7).flush t = true) :
    (dat6 V c).flushed 7 t = ((cfg6.win 7).blk t).view.read (Elt Ideal) (chanSumSq6 Y) := by
  have hN : cfg6.N = 64 := N_6
  have hl : t.val = 63 := by have := (flush6_7 t).mp hf; have := t.isLt; omega
  show (cfg6.win 7).cut (grid6.coords t) ((dat6 V c).after 7 t) = _
  rw [after6_7]
  obtain ⟨-, -, e0, e1⟩ := idx6_67 t
  funext j
  have hj0 : (j 0).val < 64 := (j 0).isLt
  have hj1 : (j 1).val < 1 := (j 1).isLt
  have hx : (cfg6.win 7).xinj (grid6.coords t) j = ix2 (⟨(j 0).val, hj0⟩ : Fin 64) (⟨(j 1).val, hj1⟩ : Fin 1) :=
    funext fun a => by match a with | ⟨0, _⟩ => rfl | ⟨1, _⟩ => rfl
  show outsAt6_7 V c t.val t.isLt ((cfg6.win 7).xinj (grid6.coords t) j)
    = chanSumSq6 Y (((cfg6.win 7).blk t).view.emb j)
  rw [hx]
  refine (outsAt6_7_sum V Y c B hacc H ⟨(j 0).val, hj0⟩ ⟨(j 1).val, hj1⟩ t.val t.isLt).trans ?_
  have he : ((cfg6.win 7).blk t).view.emb j = ix2 (⟨(j 0).val, hj0⟩ : Fin 64) (⟨(j 1).val, hj1⟩ : Fin 1) := by
    funext a; apply Fin.ext
    match a with
    | ⟨0, _⟩ => show win6_7.index t 0 * 64 + 1 * (j 0).val = (j 0).val; rw [e0]; omega
    | ⟨1, _⟩ => show win6_7.index t 1 * 1 + 1 * (j 1).val = (j 1).val; rw [e1]; omega
  rw [he, chanSumSq6_at, hl]
  exact sum_pointsSq6 Y _

/-- The sums' array after the region: Y's channel sums; the last point's one block is the whole array. -/
theorem Rfinal6_6_of
    (hacc : ∀ (t : Fin cfg6.N) (s : Vec Ideal S64x1 .f32) (a : Fin 64) (z : Fin 1),
      acc6_6 (iblk6 V c 0 t) (iblk6 V c 1 t) (iblk6 V c 2 t) (iblk6 V c 3 t) (iblk6 V c 4 t) s (ix2 a z)
        = s (ix2 a z) + ∑ l : Fin 4096, B t a l)
    (H : ∀ (t : Fin cfg6.N) (n : Fin 64), n.val = t.val → ∀ (a : Fin 64) (l : Fin 4096), B t a l = Y (ix3 n a l)) :
    (dat6 V c).arrAt 6 cfg6.N = chanSum6 Y :=
  (dat6 V c).arrAt_eq_of_cover 6 _ (fun t hf => Rflushed6_6_of V Y c B hacc H t hf) fun i => by
    have hi0 : (i 0).val < 64 := (i 0).isLt
    have hi1 : (i 1).val < 1 := (i 1).isLt
    have hN : cfg6.N = 64 := N_6
    obtain ⟨t, ht⟩ : ∃ t : Fin cfg6.N, t.val = 63 := ⟨⟨63, by rw [hN]; omega⟩, rfl⟩
    obtain ⟨e0, e1, -, -⟩ := idx6_67 t
    refine ⟨t, (flush6_6 t).mpr (by omega), ?_⟩
    rw [mem_blk6_6]
    intro a
    match a with
    | ⟨0, _⟩ => show win6_6.index t 0 * 64 ≤ (i 0).val ∧ (i 0).val < win6_6.index t 0 * 64 + 64; rw [e0]; omega
    | ⟨1, _⟩ => show win6_6.index t 1 * 1 ≤ (i 1).val ∧ (i 1).val < win6_6.index t 1 * 1 + 1; rw [e1]; omega

/-- The sums of squares' array after the region: Y's channel sums of squares. -/
theorem Rfinal6_7_of
    (hacc : ∀ (t : Fin cfg6.N) (s : Vec Ideal S64x1 .f32) (a : Fin 64) (z : Fin 1),
      acc6_7 (iblk6 V c 0 t) (iblk6 V c 1 t) (iblk6 V c 2 t) (iblk6 V c 3 t) (iblk6 V c 4 t) s (ix2 a z)
        = s (ix2 a z) + ∑ l : Fin 4096, B t a l * B t a l)
    (H : ∀ (t : Fin cfg6.N) (n : Fin 64), n.val = t.val → ∀ (a : Fin 64) (l : Fin 4096), B t a l = Y (ix3 n a l)) :
    (dat6 V c).arrAt 7 cfg6.N = chanSumSq6 Y :=
  (dat6 V c).arrAt_eq_of_cover 7 _ (fun t hf => Rflushed6_7_of V Y c B hacc H t hf) fun i => by
    have hi0 : (i 0).val < 64 := (i 0).isLt
    have hi1 : (i 1).val < 1 := (i 1).isLt
    have hN : cfg6.N = 64 := N_6
    obtain ⟨t, ht⟩ : ∃ t : Fin cfg6.N, t.val = 63 := ⟨⟨63, by rw [hN]; omega⟩, rfl⟩
    obtain ⟨-, -, e0, e1⟩ := idx6_67 t
    refine ⟨t, (flush6_7 t).mpr (by omega), ?_⟩
    rw [mem_blk6_7]
    intro a
    match a with
    | ⟨0, _⟩ => show win6_7.index t 0 * 64 ≤ (i 0).val ∧ (i 0).val < win6_7.index t 0 * 64 + 64; rw [e0]; omega
    | ⟨1, _⟩ => show win6_7.index t 1 * 1 ≤ (i 1).val ∧ (i 1).val < win6_7.index t 1 * 1 + 1; rw [e1]; omega

end Accumulated

end Cert.ReferenceIdeal.Val

end
-- ==== Proof.RefV6t.lean ====
import proofs.«159567_g2000302752657622_pallasbulk_725_3_alg».proof.Proof.RefV6s
import proofs.«159567_g2000302752657622_pallasbulk_725_3_alg».proof.Proof.RefV6

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.ValueIdx
open Idealize.ShloMosaic.Pipeline (Dat)
open scoped BigOperators

/-! # Region 6: the two accumulated columns are the channel sums of the region's output array -/

variable (V : (c : Dev nD) → (b : Ref sig .tc) → Buf (Elt Ideal) ((c : Thread nD τ).loc b))

/-- The per-channel sums after the region: the sums of the output over all images and lanes. -/
theorem Rfinal6_6 (c : Dev nD) :
    (dat6 V c).arrAt 6 cfg6.N
      = RG6_6 (V c main_v65_0) (V c main_v76) (V c main_v79) (V c main_arg16) (V c main_arg17) :=
  Rfinal6_6_of V (RG6_5 (V c main_v65_0) (V c main_v76) (V c main_v79) (V c main_arg16) (V c main_arg17)) c
    (fun t a l => conv6 (fun t' a b => (iblk6 V c 3 t : Vec Ideal S9x64x64 .f32) (ix3 t' a b))
      (zpad6 (actB6 (iblk6 V c 0 t) (iblk6 V c 1 t) (iblk6 V c 2 t)))
      (fun t' l => (iblk6 V c 4 t : Vec Ideal S9x4096 .f32) (ix2 t' l)) a l)
    (fun t s a z => acc6_6_apply (iblk6 V c 0 t) (iblk6 V c 1 t) (iblk6 V c 2 t) (iblk6 V c 3 t) (iblk6 V c 4 t) s a z)
    (fun t n hn a l => (point6_conv V c t n hn a l).trans
      (RG6_5_at (V c main_v65_0) (V c main_v76) (V c main_v79) (V c main_arg16) (V c main_arg17) (ix3 n a l) n a l rfl rfl rfl).symm)

/-- The per-channel sums of squares after the region. -/
theorem Rfinal6_7 (c : Dev nD) :
    (dat6 V c).arrAt 7 cfg6.N
      = RG6_7 (V c main_v65_0) (V c main_v76) (V c main_v79) (V c main_arg16) (V c main_arg17) :=
  Rfinal6_7_of V (RG6_5 (V c main_v65_0) (V c main_v76) (V c main_v79) (V c main_arg16) (V c main_arg17)) c
    (fun t a l => conv6 (fun t' a b => (iblk6 V c 3 t : Vec Ideal S9x64x64 .f32) (ix3 t' a b))
      (zpad6 (actB6 (iblk6 V c 0 t) (iblk6 V c 1 t) (iblk6 V c 2 t)))
      (fun t' l => (iblk6 V c 4 t : Vec Ideal S9x4096 .f32) (ix2 t' l)) a l)
    (fun t s a z => acc6_7_apply (iblk6 V c 0 t) (iblk6 V c 1 t) (iblk6 V c 2 t) (iblk6 V c 3 t) (iblk6 V c 4 t) s a z)
    (fun t n hn a l => (point6_conv V c t n hn a l).trans
      (RG6_5_at (V c main_v65_0) (V c main_v76) (V c main_v79) (V c main_arg16) (V c main_arg17) (ix3 n a l) n a l rfl rfl rfl).symm)

end Cert.ReferenceIdeal.Val

end
-- ==== Proof.RefClosed.lean ====
import proofs.«159567_g2000302752657622_pallasbulk_725_3_alg».proof.Proof.RefDefs
import proofs.«159567_g2000302752657622_pallasbulk_725_3_alg».proof.Proof.ArgsOf
import proofs.«159567_g2000302752657622_pallasbulk_725_3_alg».proof.Proof.RefWire
import proofs.«159567_g2000302752657622_pallasbulk_725_3_alg».proof.Proof.RefTail
import proofs.«159567_g2000302752657622_pallasbulk_725_3_alg».proof.Proof.RefH
import proofs.«159567_g2000302752657622_pallasbulk_725_3_alg».proof.Proof.RefH2
import proofs.«159567_g2000302752657622_pallasbulk_725_3_alg».proof.Proof.RefV0
import proofs.«159567_g2000302752657622_pallasbulk_725_3_alg».proof.Proof.RefV1
import proofs.«159567_g2000302752657622_pallasbulk_725_3_alg».proof.Proof.RefV2
import proofs.«159567_g2000302752657622_pallasbulk_725_3_alg».proof.Proof.RefV3
import proofs.«159567_g2000302752657622_pallasbulk_725_3_alg».proof.Proof.RefV4
import proofs.«159567_g2000302752657622_pallasbulk_725_3_alg».proof.Proof.RefV5
import proofs.«159567_g2000302752657622_pallasbulk_725_3_alg».proof.Proof.RefV6
import proofs.«159567_g2000302752657622_pallasbulk_725_3_alg».proof.Proof.RefV6t
import proofs.«159567_g2000302752657622_pallasbulk_725_3_alg».proof.Proof.RefV7
import proofs.«159567_g2000302752657622_pallasbulk_725_3_alg».proof.Proof.RefV8

/-! # The reference's result is the result function of the arguments

Item by item in program order: the contents of each buffer where it is read — a host stretch's result, what a region
finds in an input window, what a region leaves in an output window — are the buffer's function of the launch
memory's arguments; at the end, so is the result buffer. -/

set_option maxRecDepth 16384

noncomputable section

namespace Cert.ReferenceIdeal.Val

open Cert.ReferenceIdeal Cert.ReferenceIdeal.Gen
open Idealize.ShloMosaic Idealize.ShloMosaic.TcCoe
open Cert.Lib.BnChain

/-! ## Each buffer where it is read -/

variable (m : (ℓ : Loc nD τ sig) → Buf (Elt Ideal) ℓ) (ρ : Dev nD → PrngReg)

/-! ### The first host stretch's results -/

theorem rres0_v0 (c : Dev nD) :
    (StableHlo.after (hostOps0 (F := Ideal)) (Hand.W0 m ρ c) (Proc.devRef .tc main_v0) : S64x128x1024.Idx → EReal) = rx (argsOf m c) :=
  (rhost0_x (Hand.W0 m ρ c)).trans rfl

/-! ### Region 0: what it finds, what it leaves -/

theorem rin0_0 (c : Dev nD) : (Hand.V1 m ρ c main_v0 : S64x128x1024.Idx → EReal) = rx (argsOf m c) :=
  (rwire0_0 m ρ c).trans (rres0_v0 m ρ c)
theorem rin0_1 (c : Dev nD) : (Hand.V1 m ρ c main_arg1 : S64x128.Idx → EReal) = (argsOf m c).a1 :=
  (rwire0_1 m ρ c).trans rfl

theorem rfin0_2 (c : Dev nD) : ((Hand.dat0 (Hand.V1 m ρ) c).arrAt 2 cfg0.N : S64x64x1024.Idx → EReal) = ry1 (argsOf m c) :=
  (Rfinal0_2 (Hand.V1 m ρ) c).trans (by rw [rin0_0 m ρ c, rin0_1 m ρ c]; rfl)
theorem rfin0_3 (c : Dev nD) : ((Hand.dat0 (Hand.V1 m ρ) c).arrAt 3 cfg0.N : S64x1.Idx → EReal) = rS1 (argsOf m c) :=
  (Rfinal0_3 (Hand.V1 m ρ) c).trans (by rw [rin0_0 m ρ c, rin0_1 m ρ c]; rfl)
theorem rfin0_4 (c : Dev nD) : ((Hand.dat0 (Hand.V1 m ρ) c).arrAt 4 cfg0.N : S64x1.Idx → EReal) = rQ1 (argsOf m c) :=
  (Rfinal0_4 (Hand.V1 m ρ) c).trans (by rw [rin0_0 m ρ c, rin0_1 m ρ c]; rfl)

/-! ### The second host stretch's results -/

theorem rres1_v12 (c : Dev nD) :
    (StableHlo.after (hostOps1 (F := Ideal)) (Hand.W2 m ρ c) (Proc.devRef .tc main_v12) : S64x1.Idx → EReal) = rsc1 (argsOf m c) :=
  (rhost1_sc1 (Hand.W2 m ρ c)).trans (by rw [rhwire1_v1_1 m ρ c, rhwire1_v1_2 m ρ c, rhwire1_arg5 m ρ c, rfin0_3 m ρ c, rfin0_4 m ρ c]; rfl)
theorem rres1_v15 (c : Dev nD) :
    (StableHlo.after (hostOps1 (F := Ideal)) (Hand.W2 m ρ c) (Proc.devRef .tc main_v15) : S64x1.Idx → EReal) = rsh1 (argsOf m c) :=
  (rhost1_sh1 (Hand.W2 m ρ c)).trans (by rw [rhwire1_v1_1 m ρ c, rhwire1_v1_2 m ρ c, rhwire1_arg5 m ρ c, rhwire1_arg6 m ρ c, rfin0_3 m ρ c, rfin0_4 m ρ c]; rfl)

/-! ### Region 1: what it finds, what it leaves -/

theorem rin1_0 (c : Dev nD) : (Hand.V3 m ρ c main_v1_0 : S64x64x1024.Idx → EReal) = ry1 (argsOf m c) :=
  (rwire1_0 m ρ c).trans (rfin0_2 m ρ c)
theorem rin1_1 (c : Dev nD) : (Hand.V3 m ρ c main_v12 : S64x1.Idx → EReal) = rsc1 (argsOf m c) :=
  (rwire1_1 m ρ c).trans (rres1_v12 m ρ c)
theorem rin1_2 (c : Dev nD) : (Hand.V3 m ρ c main_v15 : S64x1.Idx → EReal) = rsh1 (argsOf m c) :=
  (rwire1_2 m ρ c).trans (rres1_v15 m ρ c)
theorem rin1_3 (c : Dev nD) : (Hand.V3 m ρ c main_arg3 : S9x64x64.Idx → EReal) = (argsOf m c).a3 :=
  (rwire1_3 m ρ c).trans rfl
theorem rin1_4 (c : Dev nD) : (Hand.V3 m ρ c main_arg4 : S4x1024.Idx → EReal) = (argsOf m c).a4 :=
  (rwire1_4 m ρ c).trans rfl

theorem rfin1_5 (c : Dev nD) : ((Hand.dat1 (Hand.V3 m ρ) c).arrAt 5 cfg1.N : S64x64x4096.Idx → EReal) = ry2 (argsOf m c) :=
  (Rfinal1_5 (Hand.V3 m ρ) c).trans (by rw [rin1_0 m ρ c, rin1_1 m ρ c, rin1_2 m ρ c, rin1_3 m ρ c, rin1_4 m ρ c]; rfl)
theorem rfin1_6 (c : Dev nD) : ((Hand.dat1 (Hand.V3 m ρ) c).arrAt 6 cfg1.N : S64x1.Idx → EReal) = rS2 (argsOf m c) :=
  (Rfinal1_6 (Hand.V3 m ρ) c).trans (by rw [rin1_0 m ρ c, rin1_1 m ρ c, rin1_2 m ρ c, rin1_3 m ρ c, rin1_4 m ρ c]; rfl)
theorem rfin1_7 (c : Dev nD) : ((Hand.dat1 (Hand.V3 m ρ) c).arrAt 7 cfg1.N : S64x1.Idx → EReal) = rQ2 (argsOf m c) :=
  (Rfinal1_7 (Hand.V3 m ρ) c).trans (by rw [rin1_0 m ρ c, rin1_1 m ρ c, rin1_2 m ρ c, rin1_3 m ρ c, rin1_4 m ρ c]; rfl)

/-! ### The third host stretch's results -/

theorem rres2_v27 (c : Dev nD) :
    (StableHlo.after (hostOps2 (F := Ideal)) (Hand.W4 m ρ c) (Proc.devRef .tc main_v27) : S64x1.Idx → EReal) = rsc2 (argsOf m c) :=
  (rhost2_sc2 (Hand.W4 m ρ c)).trans (by rw [rhwire2_v16_1 m ρ c, rhwire2_v16_2 m ρ c, rhwire2_arg7 m ρ c, rfin1_6 m ρ c, rfin1_7 m ρ c]; rfl)
theorem rres2_v30 (c : Dev nD) :
    (StableHlo.after (hostOps2 (F := Ideal)) (Hand.W4 m ρ c) (Proc.devRef .tc main_v30) : S64x1.Idx → EReal) = rsh2 (argsOf m c) :=
  (rhost2_sh2 (Hand.W4 m ρ c)).trans (by rw [rhwire2_v16_1 m ρ c, rhwire2_v16_2 m ρ c, rhwire2_arg7 m ρ c, rhwire2_arg8 m ρ c, rfin1_6 m ρ c, rfin1_7 m ρ c]; rfl)

/-! ### Region 2: what it finds, what it leaves -/

theorem rin2_0 (c : Dev nD) : (Hand.V5 m ρ c main_v16_0 : S64x64x4096.Idx → EReal) = ry2 (argsOf m c) :=
  (rwire2_0 m ρ c).trans (rfin1_5 m ρ c)
theorem rin2_1 (c : Dev nD) : (Hand.V5 m ρ c main_v27 : S64x1.Idx → EReal) = rsc2 (argsOf m c) :=
  (rwire2_1 m ρ c).trans (rres2_v27 m ρ c)
theorem rin2_2 (c : Dev nD) : (Hand.V5 m ρ c main_v30 : S64x1.Idx → EReal) = rsh2 (argsOf m c) :=
  (rwire2_2 m ρ c).trans (rres2_v30 m ρ c)
theorem rin2_3 (c : Dev nD) : (Hand.V5 m ρ c main_arg2 : S256x64.Idx → EReal) = (argsOf m c).a2 :=
  (rwire2_3 m ρ c).trans rfl

theorem rfin2_4 (c : Dev nD) : ((Hand.dat2 (Hand.V5 m ρ) c).arrAt 4 cfg2.N : S64x256x4096.Idx → EReal) = ry3 (argsOf m c) :=
  (Rfinal2_4 (Hand.V5 m ρ) c).trans (by rw [rin2_0 m ρ c, rin2_1 m ρ c, rin2_2 m ρ c, rin2_3 m ρ c]; rfl)
theorem rfin2_5 (c : Dev nD) : ((Hand.dat2 (Hand.V5 m ρ) c).arrAt 5 cfg2.N : S256x1.Idx → EReal) = rS3 (argsOf m c) :=
  (Rfinal2_5 (Hand.V5 m ρ) c).trans (by rw [rin2_0 m ρ c, rin2_1 m ρ c, rin2_2 m ρ c, rin2_3 m ρ c]; rfl)
theorem rfin2_6 (c : Dev nD) : ((Hand.dat2 (Hand.V5 m ρ) c).arrAt 6 cfg2.N : S256x1.Idx → EReal) = rQ3 (argsOf m c) :=
  (Rfinal2_6 (Hand.V5 m ρ) c).trans (by rw [rin2_0 m ρ c, rin2_1 m ρ c, rin2_2 m ρ c, rin2_3 m ρ c]; rfl)

/-! ### The fourth host stretch's results -/

theorem rres3_v42 (c : Dev nD) :
    (StableHlo.after (hostOps3 (F := Ideal)) (Hand.W6 m ρ c) (Proc.devRef .tc main_v42) : S256x1.Idx → EReal) = rsc3 (argsOf m c) :=
  (rhost3_sc3 (Hand.W6 m ρ c)).trans (by rw [rhwire3_v31_1 m ρ c, rhwire3_v31_2 m ρ c, rhwire3_arg9 m ρ c, rfin2_5 m ρ c, rfin2_6 m ρ c]; rfl)
theorem rres3_v45 (c : Dev nD) :
    (StableHlo.after (hostOps3 (F := Ideal)) (Hand.W6 m ρ c) (Proc.devRef .tc main_v45) : S256x1.Idx → EReal) = rsh3 (argsOf m c) :=
  (rhost3_sh3 (Hand.W6 m ρ c)).trans (by rw [rhwire3_v31_1 m ρ c, rhwire3_v31_2 m ρ c, rhwire3_arg9 m ρ c, rhwire3_arg10 m ρ c, rfin2_5 m ρ c, rfin2_6 m ρ c]; rfl)

/-! ### Region 3: what it finds, what it leaves -/

theorem rin3_0 (c : Dev nD) : (Hand.V7 m ρ c main_v0 : S64x128x1024.Idx → EReal) = rx (argsOf m c) :=
  (rwire3_0 m ρ c).trans (rres0_v0 m ρ c)
theorem rin3_1 (c : Dev nD) : (Hand.V7 m ρ c main_arg11 : S256x128.Idx → EReal) = (argsOf m c).a11 :=
  (rwire3_1 m ρ c).trans rfl

theorem rfin3_2 (c : Dev nD) : ((Hand.dat3 (Hand.V7 m ρ) c).arrAt 2 cfg3.N : S64x256x1024.Idx → EReal) = rsd (argsOf m c) :=
  (Rfinal3_2 (Hand.V7 m ρ) c).trans (by rw [rin3_0 m ρ c, rin3_1 m ρ c]; rfl)
theorem rfin3_3 (c : Dev nD) : ((Hand.dat3 (Hand.V7 m ρ) c).arrAt 3 cfg3.N : S256x1.Idx → EReal) = rSs (argsOf m c) :=
  (Rfinal3_3 (Hand.V7 m ρ) c).trans (by rw [rin3_0 m ρ c, rin3_1 m ρ c]; rfl)
theorem rfin3_4 (c : Dev nD) : ((Hand.dat3 (Hand.V7 m ρ) c).arrAt 4 cfg3.N : S256x1.Idx → EReal) = rQs (argsOf m c) :=
  (Rfinal3_4 (Hand.V7 m ρ) c).trans (by rw [rin3_0 m ρ c, rin3_1 m ρ c]; rfl)

/-! ### The fifth host stretch's results -/

theorem rres4_v57 (c : Dev nD) :
    (StableHlo.after (hostOps4 (F := Ideal)) (Hand.W8 m ρ c) (Proc.devRef .tc main_v57) : S256x1.Idx → EReal) = rscs (argsOf m c) :=
  (rhost4_scs (Hand.W8 m ρ c)).trans (by rw [rhwire4_v46_1 m ρ c, rhwire4_v46_2 m ρ c, rhwire4_arg12 m ρ c, rfin3_3 m ρ c, rfin3_4 m ρ c]; rfl)
theorem rres4_v60 (c : Dev nD) :
    (StableHlo.after (hostOps4 (F := Ideal)) (Hand.W8 m ρ c) (Proc.devRef .tc main_v60) : S256x1.Idx → EReal) = rshs (argsOf m c) :=
  (rhost4_shs (Hand.W8 m ρ c)).trans (by rw [rhwire4_v46_1 m ρ c, rhwire4_v46_2 m ρ c, rhwire4_arg12 m ρ c, rhwire4_arg13 m ρ c, rfin3_3 m ρ c, rfin3_4 m ρ c]; rfl)

/-! ### Region 4: what it finds, what it leaves -/

theorem rin4_0 (c : Dev nD) : (Hand.V9 m ρ c main_v31_0 : S64x256x4096.Idx → EReal) = ry3 (argsOf m c) :=
  (rwire4_0 m ρ c).trans (rfin2_4 m ρ c)
theorem rin4_1 (c : Dev nD) : (Hand.V9 m ρ c main_v46_0 : S64x256x1024.Idx → EReal) = rsd (argsOf m c) :=
  (rwire4_1 m ρ c).trans (rfin3_2 m ρ c)
theorem rin4_2 (c : Dev nD) : (Hand.V9 m ρ c main_v42 : S256x1.Idx → EReal) = rsc3 (argsOf m c) :=
  (rwire4_2 m ρ c).trans (rres3_v42 m ρ c)
theorem rin4_3 (c : Dev nD) : (Hand.V9 m ρ c main_v45 : S256x1.Idx → EReal) = rsh3 (argsOf m c) :=
  (rwire4_3 m ρ c).trans (rres3_v45 m ρ c)
theorem rin4_4 (c : Dev nD) : (Hand.V9 m ρ c main_v57 : S256x1.Idx → EReal) = rscs (argsOf m c) :=
  (rwire4_4 m ρ c).trans (rres4_v57 m ρ c)
theorem rin4_5 (c : Dev nD) : (Hand.V9 m ρ c main_v60 : S256x1.Idx → EReal) = rshs (argsOf m c) :=
  (rwire4_5 m ρ c).trans (rres4_v60 m ρ c)

theorem rfin4_6 (c : Dev nD) : ((Hand.dat4 (Hand.V9 m ρ) c).arrAt 6 cfg4.N : S64x256x4096.Idx → EReal) = rout_ph (argsOf m c) :=
  (Rfinal4_6 (Hand.V9 m ρ) c).trans (by rw [rin4_0 m ρ c, rin4_1 m ρ c, rin4_2 m ρ c, rin4_3 m ρ c, rin4_4 m ρ c, rin4_5 m ρ c]; rfl)

/-! ### The sixth host stretch's results -/

theorem rres5_v64 (c : Dev nD) :
    (StableHlo.after (hostOps5 (F := Ideal)) (Hand.W10 m ρ c) (Proc.devRef .tc main_v64) : S64x256x4096.Idx → EReal) = rout0 (argsOf m c) :=
  (rhost5_out0 (Hand.W10 m ρ c)).trans (by rw [rhwire5_v61 m ρ c, rfin4_6 m ρ c]; rfl)

/-! ### Region 5: what it finds, what it leaves -/

theorem rin5_0 (c : Dev nD) : (Hand.V11 m ρ c main_v64 : S64x256x4096.Idx → EReal) = rout0 (argsOf m c) :=
  (rwire5_0 m ρ c).trans (rres5_v64 m ρ c)
theorem rin5_1 (c : Dev nD) : (Hand.V11 m ρ c main_arg14 : S64x256.Idx → EReal) = (argsOf m c).a14 :=
  (rwire5_1 m ρ c).trans rfl

theorem rfin5_2 (c : Dev nD) : ((Hand.dat5 (Hand.V11 m ρ) c).arrAt 2 cfg5.N : S64x64x4096.Idx → EReal) = ry11 (argsOf m c) :=
  (Rfinal5_2 (Hand.V11 m ρ) c).trans (by rw [rin5_0 m ρ c, rin5_1 m ρ c]; rfl)
theorem rfin5_3 (c : Dev nD) : ((Hand.dat5 (Hand.V11 m ρ) c).arrAt 3 cfg5.N : S64x1.Idx → EReal) = rS11 (argsOf m c) :=
  (Rfinal5_3 (Hand.V11 m ρ) c).trans (by rw [rin5_0 m ρ c, rin5_1 m ρ c]; rfl)
theorem rfin5_4 (c : Dev nD) : ((Hand.dat5 (Hand.V11 m ρ) c).arrAt 4 cfg5.N : S64x1.Idx → EReal) = rQ11 (argsOf m c) :=
  (Rfinal5_4 (Hand.V11 m ρ) c).trans (by rw [rin5_0 m ρ c, rin5_1 m ρ c]; rfl)

/-! ### The seventh host stretch's results -/

theorem rres6_v76 (c : Dev nD) :
    (StableHlo.after (hostOps6 (F := Ideal)) (Hand.W12 m ρ c) (Proc.devRef .tc main_v76) : S64x1.Idx → EReal) = rsc11 (argsOf m c) :=
  (rhost6_sc11 (Hand.W12 m ρ c)).trans (by rw [rhwire6_v65_1 m ρ c, rhwire6_v65_2 m ρ c, rhwire6_arg18 m ρ c, rfin5_3 m ρ c, rfin5_4 m ρ c]; rfl)
theorem rres6_v79 (c : Dev nD) :
    (StableHlo.after (hostOps6 (F := Ideal)) (Hand.W12 m ρ c) (Proc.devRef .tc main_v79) : S64x1.Idx → EReal) = rsh11 (argsOf m c) :=
  (rhost6_sh11 (Hand.W12 m ρ c)).trans (by rw [rhwire6_v65_1 m ρ c, rhwire6_v65_2 m ρ c, rhwire6_arg18 m ρ c, rhwire6_arg19 m ρ c, rfin5_3 m ρ c, rfin5_4 m ρ c]; rfl)

/-! ### Region 6: what it finds, what it leaves -/

theorem rin6_0 (c : Dev nD) : (Hand.V13 m ρ c main_v65_0 : S64x64x4096.Idx → EReal) = ry11 (argsOf m c) :=
  (rwire6_0 m ρ c).trans (rfin5_2 m ρ c)
theorem rin6_1 (c : Dev nD) : (Hand.V13 m ρ c main_v76 : S64x1.Idx → EReal) = rsc11 (argsOf m c) :=
  (rwire6_1 m ρ c).trans (rres6_v76 m ρ c)
theorem rin6_2 (c : Dev nD) : (Hand.V13 m ρ c main_v79 : S64x1.Idx → EReal) = rsh11 (argsOf m c) :=
  (rwire6_2 m ρ c).trans (rres6_v79 m ρ c)
theorem rin6_3 (c : Dev nD) : (Hand.V13 m ρ c main_arg16 : S9x64x64.Idx → EReal) = (argsOf m c).a16 :=
  (rwire6_3 m ρ c).trans rfl
theorem rin6_4 (c : Dev nD) : (Hand.V13 m ρ c main_arg17 : S9x4096.Idx → EReal) = (argsOf m c).a17 :=
  (rwire6_4 m ρ c).trans rfl

theorem rfin6_5 (c : Dev nD) : ((Hand.dat6 (Hand.V13 m ρ) c).arrAt 5 cfg6.N : S64x64x4096.Idx → EReal) = ry2b (argsOf m c) :=
  (Rfinal6_5 (Hand.V13 m ρ) c).trans (by rw [rin6_0 m ρ c, rin6_1 m ρ c, rin6_2 m ρ c, rin6_3 m ρ c, rin6_4 m ρ c]; rfl)
theorem rfin6_6 (c : Dev nD) : ((Hand.dat6 (Hand.V13 m ρ) c).arrAt 6 cfg6.N : S64x1.Idx → EReal) = rS2b (argsOf m c) :=
  (Rfinal6_6 (Hand.V13 m ρ) c).trans (by rw [rin6_0 m ρ c, rin6_1 m ρ c, rin6_2 m ρ c, rin6_3 m ρ c, rin6_4 m ρ c]; rfl)
theorem rfin6_7 (c : Dev nD) : ((Hand.dat6 (Hand.V13 m ρ) c).arrAt 7 cfg6.N : S64x1.Idx → EReal) = rQ2b (argsOf m c) :=
  (Rfinal6_7 (Hand.V13 m ρ) c).trans (by rw [rin6_0 m ρ c, rin6_1 m ρ c, rin6_2 m ρ c, rin6_3 m ρ c, rin6_4 m ρ c]; rfl)

/-! ### The eighth host stretch's results -/

theorem rres7_v91 (c : Dev nD) :
    (StableHlo.after (hostOps7 (F := Ideal)) (Hand.W14 m ρ c) (Proc.devRef .tc main_v91) : S64x1.Idx → EReal) = rsc2b (argsOf m c) :=
  (rhost7_sc2b (Hand.W14 m ρ c)).trans (by rw [rhwire7_v80_1 m ρ c, rhwire7_v80_2 m ρ c, rhwire7_arg20 m ρ c, rfin6_6 m ρ c, rfin6_7 m ρ c]; rfl)
theorem rres7_v94 (c : Dev nD) :
    (StableHlo.after (hostOps7 (F := Ideal)) (Hand.W14 m ρ c) (Proc.devRef .tc main_v94) : S64x1.Idx → EReal) = rsh2b (argsOf m c) :=
  (rhost7_sh2b (Hand.W14 m ρ c)).trans (by rw [rhwire7_v80_1 m ρ c, rhwire7_v80_2 m ρ c, rhwire7_arg20 m ρ c, rhwire7_arg21 m ρ c, rfin6_6 m ρ c, rfin6_7 m ρ c]; rfl)

/-! ### Region 7: what it finds, what it leaves -/

theorem rin7_0 (c : Dev nD) : (Hand.V15 m ρ c main_v80_0 : S64x64x4096.Idx → EReal) = ry2b (argsOf m c) :=
  (rwire7_0 m ρ c).trans (rfin6_5 m ρ c)
theorem rin7_1 (c : Dev nD) : (Hand.V15 m ρ c main_v91 : S64x1.Idx → EReal) = rsc2b (argsOf m c) :=
  (rwire7_1 m ρ c).trans (rres7_v91 m ρ c)
theorem rin7_2 (c : Dev nD) : (Hand.V15 m ρ c main_v94 : S64x1.Idx → EReal) = rsh2b (argsOf m c) :=
  (rwire7_2 m ρ c).trans (rres7_v94 m ρ c)
theorem rin7_3 (c : Dev nD) : (Hand.V15 m ρ c main_arg15 : S256x64.Idx → EReal) = (argsOf m c).a15 :=
  (rwire7_3 m ρ c).trans rfl

theorem rfin7_4 (c : Dev nD) : ((Hand.dat7 (Hand.V15 m ρ) c).arrAt 4 cfg7.N : S64x256x4096.Idx → EReal) = ry3b (argsOf m c) :=
  (Rfinal7_4 (Hand.V15 m ρ) c).trans (by rw [rin7_0 m ρ c, rin7_1 m ρ c, rin7_2 m ρ c, rin7_3 m ρ c]; rfl)
theorem rfin7_5 (c : Dev nD) : ((Hand.dat7 (Hand.V15 m ρ) c).arrAt 5 cfg7.N : S256x1.Idx → EReal) = rS3b (argsOf m c) :=
  (Rfinal7_5 (Hand.V15 m ρ) c).trans (by rw [rin7_0 m ρ c, rin7_1 m ρ c, rin7_2 m ρ c, rin7_3 m ρ c]; rfl)
theorem rfin7_6 (c : Dev nD) : ((Hand.dat7 (Hand.V15 m ρ) c).arrAt 6 cfg7.N : S256x1.Idx → EReal) = rQ3b (argsOf m c) :=
  (Rfinal7_6 (Hand.V15 m ρ) c).trans (by rw [rin7_0 m ρ c, rin7_1 m ρ c, rin7_2 m ρ c, rin7_3 m ρ c]; rfl)

/-! ### The ninth host stretch's results -/

theorem rres8_v106 (c : Dev nD) :
    (StableHlo.after (hostOps8 (F := Ideal)) (Hand.W16 m ρ c) (Proc.devRef .tc main_v106) : S256x1.Idx → EReal) = rsc3b (argsOf m c) :=
  (rhost8_sc3b (Hand.W16 m ρ c)).trans (by rw [rhwire8_v95_1 m ρ c, rhwire8_v95_2 m ρ c, rhwire8_arg22 m ρ c, rfin7_5 m ρ c, rfin7_6 m ρ c]; rfl)
theorem rres8_v109 (c : Dev nD) :
    (StableHlo.after (hostOps8 (F := Ideal)) (Hand.W16 m ρ c) (Proc.devRef .tc main_v109) : S256x1.Idx → EReal) = rsh3b (argsOf m c) :=
  (rhost8_sh3b (Hand.W16 m ρ c)).trans (by rw [rhwire8_v95_1 m ρ c, rhwire8_v95_2 m ρ c, rhwire8_arg22 m ρ c, rhwire8_arg23 m ρ c, rfin7_5 m ρ c, rfin7_6 m ρ c]; rfl)

/-! ### Region 8: what it finds, what it leaves -/

theorem rin8_0 (c : Dev nD) : (Hand.V17 m ρ c main_v95_0 : S64x256x4096.Idx → EReal) = ry3b (argsOf m c) :=
  (rwire8_0 m ρ c).trans (rfin7_4 m ρ c)
theorem rin8_1 (c : Dev nD) : (Hand.V17 m ρ c main_v64 : S64x256x4096.Idx → EReal) = rout0 (argsOf m c) :=
  (rwire8_1 m ρ c).trans (rres5_v64 m ρ c)
theorem rin8_2 (c : Dev nD) : (Hand.V17 m ρ c main_v106 : S256x1.Idx → EReal) = rsc3b (argsOf m c) :=
  (rwire8_2 m ρ c).trans (rres8_v106 m ρ c)
theorem rin8_3 (c : Dev nD) : (Hand.V17 m ρ c main_v109 : S256x1.Idx → EReal) = rsh3b (argsOf m c) :=
  (rwire8_3 m ρ c).trans (rres8_v109 m ρ c)

theorem rfin8_4 (c : Dev nD) : ((Hand.dat8 (Hand.V17 m ρ) c).arrAt 4 cfg8.N : S64x256x4096.Idx → EReal) = rout (argsOf m c) :=
  (Rfinal8_4 (Hand.V17 m ρ) c).trans (by rw [rin8_0 m ρ c, rin8_1 m ρ c, rin8_2 m ρ c, rin8_3 m ρ c]; rfl)

/-! ## The result -/

/-- The result buffer at the last boundary is the result function of the launch memory's arguments. -/
theorem closed (c : Dev nD) :
    (Hand.W19 m ρ c (Proc.devRef .tc main_v111) : S64x256x64x64.Idx → EReal) = rResult (argsOf m c) :=
  (Hand.W19_result m ρ c).trans
    (congrArg (fun x : S64x256x4096.Idx → EReal => shapeCast S64x256x64x64 x shapeCasts_S64x256x4096_S64x256x64x64) (rfin8_4 m ρ c))

end Cert.ReferenceIdeal.Val

end
-- ==== Proof.KerHIdx.lean ====
import proofs.«159567_g2000302752657622_pallasbulk_725_3_alg».proof.Proof.Gen.KernelIdeal.Frame
import proofs.«159567_g2000302752657622_pallasbulk_725_3_alg».proof.Proof.LibUninterleave
import Idealize.ShloMosaic.PureOps.Ideal
import Idealize.ShloMosaic.PureOps.Ideal.Laws
import Idealize.ShloMosaic.Lib.ValueIdx
import Idealize.ShloMosaic.Lib.IdealHost

set_option maxRecDepth 16384

noncomputable section

namespace Cert.KernelIdeal.Val

open Cert.KernelIdeal Cert.KernelIdeal.Gen
open Idealize.ShloMosaic Idealize.ShloMosaic.ValueIdx
open scoped BigOperators

/-! ## Sums over the images, and the row slices of the summed columns, read at an index -/

/-- The sum over the leading axis of an [N, C, D] array from an initial array whose first entry is zero: at (c, d) the
    sum over n of the array at (n, c, d). -/
theorem imageSum3_apply {N C D : ℕ} {φ : FTy} {u : Shape} (x : FVec Ideal ⟨3, ![N, C, D]⟩ φ) (init : u.Idx → Ideal φ)
    (h' : (⟨3, ![N, C, D]⟩ : Shape).ReducesTo [0] ⟨2, ![C, D]⟩) (hu : 0 < u.numel)
    (h : (⟨3, ![N, C, D]⟩ : Shape).Reduces [0] ⟨2, ![C, D]⟩)
    (h0 : init (Shape.Idx.first hu) = 0) (c : Fin C) (d : Fin D) :
    Host.reduceAdd x init h' hu (ix2 c d) = ∑ n : Fin N, x (ix3 n c d) := by
  rw [hostReduceAdd_apply, Ideal.hostReduceAdd_single h' h, h0, zero_add]
  refine Finset.sum_congr rfl fun n _ => congrArg x ?_
  funext a
  match a with
  | ⟨0, _⟩ => rfl
  | ⟨1, _⟩ => rfl
  | ⟨2, _⟩ => rfl

/-- The zero scalar's one entry is zero. -/
theorem zeroScalar_first : (constant (F := Ideal) S_ .f32 0x00000000#32) (Shape.Idx.first h_S_) = 0 :=
  Ideal.ofBits_zero_f32

/-- The image sum of the 64 per-image [64,64] matrices, at (k, j). -/
theorem gramSum_apply (x : FVec Ideal S64x64x64 .f32) (k j : Fin 64) :
    Host.reduceAdd (F := Ideal) x (constant S_ .f32 0x00000000#32) reducesTo_S64x64x64_S64x64_d0 h_S_ (ix2 k j)
      = ∑ n : Fin 64, x (ix3 n k j) :=
  imageSum3_apply x _ reducesTo_S64x64x64_S64x64_d0 h_S_ (by decide) zeroScalar_first k j

/-- The image sum of the 64 per-image [64,1] columns, at (c, e). -/
theorem colSum64_apply (x : FVec Ideal S64x64x1 .f32) (c : Fin 64) (e : Fin 1) :
    Host.reduceAdd (F := Ideal) x (constant S_ .f32 0x00000000#32) reducesTo_S64x64x1_S64x1_d0 h_S_ (ix2 c e)
      = ∑ n : Fin 64, x (ix3 n c e) :=
  Cert.Lib.Unint.imageSum_apply x _ reducesTo_S64x64x1_S64x1_d0 h_S_ (by decide) zeroScalar_first c e

/-- The image sum of the 64 per-image [320,1] columns, at (c, e). -/
theorem colSum320_apply (x : FVec Ideal S64x320x1 .f32) (c : Fin 320) (e : Fin 1) :
    Host.reduceAdd (F := Ideal) x (constant S_ .f32 0x00000000#32) reducesTo_S64x320x1_S320x1_d0 h_S_ (ix2 c e)
      = ∑ n : Fin 64, x (ix3 n c e) :=
  Cert.Lib.Unint.imageSum_apply x _ reducesTo_S64x320x1_S320x1_d0 h_S_ (by decide) zeroScalar_first c e

/-- Rows 0 to 63 of a [320,1] column: entry r. -/
theorem sliceLo_apply {α : Type} (X : S320x1.Idx → α) (r : Fin 64) (e : Fin 1) :
    extractStridedSlice S64x1 ![0, 0] X slices_S320x1_S64x1_0_0 (ix2 r e)
      = X (ix2 (⟨r.val, by have := r.isLt; omega⟩ : Fin 320) e) := by
  unfold extractStridedSlice
  refine congrArg X (funext fun a => Fin.ext ?_)
  match a with
  | ⟨0, _⟩ => exact Nat.zero_add _
  | ⟨1, _⟩ => exact Nat.zero_add _

/-- Rows 64 to 319 of a [320,1] column: entry 64 + r. -/
theorem sliceHi_apply {α : Type} (X : S320x1.Idx → α) (r : Fin 256) (e : Fin 1) :
    extractStridedSlice S256x1 ![64, 0] X slices_S320x1_S256x1_64_0 (ix2 r e)
      = X (ix2 (⟨64 + r.val, by have := r.isLt; omega⟩ : Fin 320) e) := by
  unfold extractStridedSlice
  refine congrArg X (funext fun a => Fin.ext ?_)
  match a with
  | ⟨0, _⟩ => rfl
  | ⟨1, _⟩ => exact Nat.zero_add _

/-- The first 64 rows of the image-summed [320,1] statistics, at (r, e): the sum over the images of row r. -/
theorem sumLo_apply (x : FVec Ideal S64x320x1 .f32) (r : Fin 64) (e : Fin 1) :
    extractStridedSlice S64x1 ![0, 0]
        (Host.reduceAdd (F := Ideal) x (constant S_ .f32 0x00000000#32) reducesTo_S64x320x1_S320x1_d0 h_S_)
        slices_S320x1_S64x1_0_0 (ix2 r e)
      = ∑ n : Fin 64, x (ix3 n (⟨r.val, by have := r.isLt; omega⟩ : Fin 320) e) :=
  (sliceLo_apply _ r e).trans (colSum320_apply x _ e)

/-- The last 256 rows of the image-summed [320,1] statistics, at (r, e): the sum over the images of row 64 + r. -/
theorem sumHi_apply (x : FVec Ideal S64x320x1 .f32) (r : Fin 256) (e : Fin 1) :
    extractStridedSlice S256x1 ![64, 0]
        (Host.reduceAdd (F := Ideal) x (constant S_ .f32 0x00000000#32) reducesTo_S64x320x1_S320x1_d0 h_S_)
        slices_S320x1_S256x1_64_0 (ix2 r e)
      = ∑ n : Fin 64, x (ix3 n (⟨64 + r.val, by have := r.isLt; omega⟩ : Fin 320) e) :=
  (sliceHi_apply _ r e).trans (colSum320_apply x _ e)

end Cert.KernelIdeal.Val

end
-- ==== Proof.StageA.lean ====
import proofs.«159567_g2000302752657622_pallasbulk_725_3_alg».proof.Proof.KerV0
import proofs.«159567_g2000302752657622_pallasbulk_725_3_alg».proof.Proof.KerHIdx
import proofs.«159567_g2000302752657622_pallasbulk_725_3_alg».proof.Proof.RefV0
import proofs.«159567_g2000302752657622_pallasbulk_725_3_alg».proof.Proof.RefV3

noncomputable section

namespace Cert.Bridge

open Cert.KernelIdeal Cert.KernelIdeal.Gen Cert.KernelIdeal.Val Cert.ReferenceIdeal.Val
open Idealize.ShloMosaic Idealize.ShloMosaic.ValueIdx
open scoped BigOperators

/-! ## The front layer: one product with the stacked weights against two products with its two parts

x is the input, [64,128,1024]; w1 is [64,128], ws is [256,128]; wf is their stack, [320,128]: rows [0,64) are w1's,
rows [64,320) are ws's. Row r of the stack times x is row r of w1·x for r < 64 and row r − 64 of ws·x otherwise, so the
first output is w1·x, the second ws·x, and the per-image row sums, added over the images, are the two parts' sums over
all images and positions. Nothing here needs the entries to be reals. -/

section Front

variable (x : S64x128x1024.Idx → EReal) (w1 : S64x128.Idx → EReal) (ws : S256x128.Idx → EReal)
  (wf : S320x128.Idx → EReal)

/-- Row j of the stack against image n at position s, for j < 64: row j of w1·x. -/
theorem front_lo
    (hwf : ∀ (j : Fin 320) (k : Fin 128), wf (ix2 j k)
      = if h : j.val < 64 then w1 (ix2 ⟨j.val, h⟩ k) else ws (ix2 ⟨j.val - 64, by have := j.isLt; omega⟩ k))
    (n : Fin 64) (r : Fin 64) (s : Fin 1024) (j : Fin 320) (hj : j.val = r.val) :
    wx0 x wf n j s = RG0_2 x w1 (ix3 n r s) := by
  have hlt : j.val < 64 := by rw [hj]; exact r.isLt
  have hr : (⟨j.val, hlt⟩ : Fin 64) = r := Fin.ext hj
  rw [RG0_2_at]
  unfold wx0
  refine Finset.sum_congr rfl fun k _ => ?_
  rw [hwf j k, dif_pos hlt, hr]

/-- Row j of the stack against image n at position s, for j = 64 + r: row r of ws·x. -/
theorem front_hi
    (hwf : ∀ (j : Fin 320) (k : Fin 128), wf (ix2 j k)
      = if h : j.val < 64 then w1 (ix2 ⟨j.val, h⟩ k) else ws (ix2 ⟨j.val - 64, by have := j.isLt; omega⟩ k))
    (n : Fin 64) (r : Fin 256) (s : Fin 1024) (j : Fin 320) (hj : j.val = 64 + r.val) :
    wx0 x wf n j s = RG3_2 x ws (ix3 n r s) := by
  have hge : ¬ j.val < 64 := by omega
  have hr : (⟨j.val - 64, by have := j.isLt; omega⟩ : Fin 256) = r := Fin.ext (by show j.val - 64 = r.val; omega)
  rw [RG3_2_at]
  unfold wx0
  refine Finset.sum_congr rfl fun k _ => ?_
  rw [hwf j k, dif_neg hge, hr]

/-- The first output: rows [0,64) of the stacked product are w1·x. -/
theorem stageA_y1
    (hwf : ∀ (j : Fin 320) (k : Fin 128), wf (ix2 j k)
      = if h : j.val < 64 then w1 (ix2 ⟨j.val, h⟩ k) else ws (ix2 ⟨j.val - 64, by have := j.isLt; omega⟩ k)) :
    G0_2 x wf = RG0_2 x w1 := by
  funext i
  obtain ⟨n, p, l, rfl⟩ : ∃ (n : Fin 64) (p : Fin 64) (l : Fin 1024), i = ix3 n p l := ⟨i 0, i 1, i 2, eq_ix3 i⟩
  exact front_lo x w1 ws wf hwf n p l (rowA p) rfl

/-- The second output: rows [64,320) of the stacked product are ws·x. -/
theorem stageA_sd
    (hwf : ∀ (j : Fin 320) (k : Fin 128), wf (ix2 j k)
      = if h : j.val < 64 then w1 (ix2 ⟨j.val, h⟩ k) else ws (ix2 ⟨j.val - 64, by have := j.isLt; omega⟩ k)) :
    G0_3 x wf = RG3_2 x ws := by
  funext i
  obtain ⟨n, p, l, rfl⟩ : ∃ (n : Fin 64) (p : Fin 256) (l : Fin 1024), i = ix3 n p l := ⟨i 0, i 1, i 2, eq_ix3 i⟩
  exact front_hi x w1 ws wf hwf n p l (rowB p) rfl

/-- Rows [0,64) of the per-image row sums, added over the images: the sums of w1·x over all images and positions. -/
theorem stageA_s1
    (hwf : ∀ (j : Fin 320) (k : Fin 128), wf (ix2 j k)
      = if h : j.val < 64 then w1 (ix2 ⟨j.val, h⟩ k) else ws (ix2 ⟨j.val - 64, by have := j.isLt; omega⟩ k)) :
    extractStridedSlice S64x1 ![0, 0]
        (Host.reduceAdd (F := Ideal) (G0_4 x wf) (constant S_ .f32 0x00000000#32) reducesTo_S64x320x1_S320x1_d0 h_S_)
        slices_S320x1_S64x1_0_0
      = RG0_3 x w1 := by
  funext i
  obtain ⟨r, e, rfl⟩ : ∃ (r : Fin 64) (e : Fin 1), i = ix2 r e := ⟨i 0, i 1, eq_ix2 i⟩
  refine (sumLo_apply (G0_4 x wf) r e).trans ?_
  rw [RG0_3_at]
  refine Finset.sum_congr rfl fun n _ => ?_
  show ∑ s : Fin 1024, wx0 x wf n ⟨r.val, by have := r.isLt; omega⟩ s = _
  exact Finset.sum_congr rfl fun s _ => front_lo x w1 ws wf hwf n r s _ rfl

/-- Rows [0,64) of the per-image row sums of squares, added over the images. -/
theorem stageA_q1
    (hwf : ∀ (j : Fin 320) (k : Fin 128), wf (ix2 j k)
      = if h : j.val < 64 then w1 (ix2 ⟨j.val, h⟩ k) else ws (ix2 ⟨j.val - 64, by have := j.isLt; omega⟩ k)) :
    extractStridedSlice S64x1 ![0, 0]
        (Host.reduceAdd (F := Ideal) (G0_5 x wf) (constant S_ .f32 0x00000000#32) reducesTo_S64x320x1_S320x1_d0 h_S_)
        slices_S320x1_S64x1_0_0
      = RG0_4 x w1 := by
  funext i
  obtain ⟨r, e, rfl⟩ : ∃ (r : Fin 64) (e : Fin 1), i = ix2 r e := ⟨i 0, i 1, eq_ix2 i⟩
  refine (sumLo_apply (G0_5 x wf) r e).trans ?_
  rw [RG0_4_at]
  refine Finset.sum_congr rfl fun n _ => ?_
  show ∑ s : Fin 1024, wx0 x wf n ⟨r.val, by have := r.isLt; omega⟩ s * wx0 x wf n ⟨r.val, by have := r.isLt; omega⟩ s = _
  exact Finset.sum_congr rfl fun s _ => by rw [front_lo x w1 ws wf hwf n r s _ rfl]

/-- Rows [64,320) of the per-image row sums, added over the images: the sums of ws·x over all images and positions. -/
theorem stageA_ss
    (hwf : ∀ (j : Fin 320) (k : Fin 128), wf (ix2 j k)
      = if h : j.val < 64 then w1 (ix2 ⟨j.val, h⟩ k) else ws (ix2 ⟨j.val - 64, by have := j.isLt; omega⟩ k)) :
    extractStridedSlice S256x1 ![64, 0]
        (Host.reduceAdd (F := Ideal) (G0_4 x wf) (constant S_ .f32 0x00000000#32) reducesTo_S64x320x1_S320x1_d0 h_S_)
        slices_S320x1_S256x1_64_0
      = RG3_3 x ws := by
  funext i
  obtain ⟨r, e, rfl⟩ : ∃ (r : Fin 256) (e : Fin 1), i = ix2 r e := ⟨i 0, i 1, eq_ix2 i⟩
  refine (sumHi_apply (G0_4 x wf) r e).trans ?_
  rw [RG3_3_at]
  refine Finset.sum_congr rfl fun n _ => ?_
  show ∑ s : Fin 1024, wx0 x wf n ⟨64 + r.val, by have := r.isLt; omega⟩ s = _
  exact Finset.sum_congr rfl fun s _ => front_hi x w1 ws wf hwf n r s _ rfl

/-- Rows [64,320) of the per-image row sums of squares, added over the images. -/
theorem stageA_qs
    (hwf : ∀ (j : Fin 320) (k : Fin 128), wf (ix2 j k)
      = if h : j.val < 64 then w1 (ix2 ⟨j.val, h⟩ k) else ws (ix2 ⟨j.val - 64, by have := j.isLt; omega⟩ k)) :
    extractStridedSlice S256x1 ![64, 0]
        (Host.reduceAdd (F := Ideal) (G0_5 x wf) (constant S_ .f32 0x00000000#32) reducesTo_S64x320x1_S320x1_d0 h_S_)
        slices_S320x1_S256x1_64_0
      = RG3_4 x ws := by
  funext i
  obtain ⟨r, e, rfl⟩ : ∃ (r : Fin 256) (e : Fin 1), i = ix2 r e := ⟨i 0, i 1, eq_ix2 i⟩
  refine (sumHi_apply (G0_5 x wf) r e).trans ?_
  rw [RG3_4_at]
  refine Finset.sum_congr rfl fun n _ => ?_
  show ∑ s : Fin 1024, wx0 x wf n ⟨64 + r.val, by have := r.isLt; omega⟩ s * wx0 x wf n ⟨64 + r.val, by have := r.isLt; omega⟩ s = _
  exact Finset.sum_congr rfl fun s _ => by rw [front_hi x w1 ws wf hwf n r s _ rfl]

end Front

end Cert.Bridge

end
-- ==== Proof.StageB.lean ====
import proofs.«159567_g2000302752657622_pallasbulk_725_3_alg».proof.Proof.KerV1
import proofs.«159567_g2000302752657622_pallasbulk_725_3_alg».proof.Proof.LibTaps
import proofs.«159567_g2000302752657622_pallasbulk_725_3_alg».proof.Proof.LibConvSpec
import proofs.«159567_g2000302752657622_pallasbulk_725_3_alg».proof.Proof.RefV1s
import proofs.«159567_g2000302752657622_pallasbulk_725_3_alg».proof.Proof.KerHIdx

noncomputable section
open scoped BigOperators

namespace Cert.Bridge
open Cert.KernelIdeal Cert.KernelIdeal.Gen Cert.KernelIdeal.Val
open Idealize.ShloMosaic Idealize.ShloMosaic.ValueIdx
open Cert.Lib

/-! # The first 2×2 transposed convolution: one block product against nine tap products

The kernel multiplies the 256×256 block matrix — block (phase `p`, shift index `s`) is the tap with that phase and
shift, zero where there is none — by the four stacked masked windows; row `p · 64 + a` of the product is phase `p`,
channel `a`. The reference adds, phase by phase, that phase's taps against the windows they read, and lays the phases
side by side along the lanes (lane `p · 1024 + l`). Only `0 · x = 0`, `0 + x = x` and the commutativity and
associativity of `+` on the extended reals are used. -/

variable (y1 : S64x64x1024.Idx → EReal) (sc sh : S64x1.Idx → EReal) (mask : S4x1024.Idx → EReal)

/-- The masked window of shift index `s` of image `n` at lane `l`, channel `b`. -/
abbrev win (n : Fin 64) (l : Fin 1024) (s : Fin 4) (b : Fin 64) : EReal :=
  ConvSpec.slab (fun c m => y1 (ix3 n c m)) (fun c => sc (ix2 c 0)) (fun c => sh (ix2 c 0)) (fun s l => mask (ix2 s l)) l s b

/-- The nine taps as matrices. -/
abbrev tapMat (wt : S9x64x64.Idx → EReal) (t : Fin 9) (a b : Fin 64) : EReal := wt (ix3 t a b)

/-- Row `p · 64 + a` of the 256 product rows. -/
abbrev phaseRow (p : Fin 4) (a : Fin 64) : Fin 256 := ⟨p.val * 64 + a.val, Taps.idx_lt (a := 4) p a⟩

/-- Lane `p · 1024 + l` of the 4096 lanes. -/
abbrev phaseLane (p : Fin 4) (l : Fin 1024) : Fin 4096 := ⟨p.val * 1024 + l.val, Taps.idx_lt (a := 4) p l⟩

/-- The kernel's product at image `n`, row `p · 64 + a`, lane `l`: the block row (phase `p`, channel `a`) against the
    four windows. -/
theorem G1_5_blocks (wblk : S256x256.Idx → EReal) (wt : S9x64x64.Idx → EReal)
    (hw : ∀ (p s : Fin 4) (a b : Fin 64), wblk (ix2 (phaseRow p a) (phaseRow s b)) = Taps.tapBlock (tapMat wt) p s a b)
    (n : Fin 64) (p : Fin 4) (a : Fin 64) (l : Fin 1024) :
    G1_5 y1 sc sh wblk mask (ix3 n (phaseRow p a) l)
      = ∑ s : Fin 4, ∑ b : Fin 64, Taps.tapBlock (tapMat wt) p s a b * win y1 sc sh mask n l s b := by
  show conv4 (fun c m => y1 (ix3 n c m)) (fun c => sc (ix2 c 0)) (fun c => sh (ix2 c 0)) (fun a b => wblk (ix2 a b))
      (fun s l => mask (ix2 s l)) (phaseRow p a) l = _
  unfold conv4
  refine Finset.sum_congr rfl fun s _ => Finset.sum_congr rfl fun b _ => ?_
  refine congrArg₂ (· * ·) ?_ rfl
  refine Eq.trans ?_ (hw p s a b)
  refine congrArg (fun k => wblk (ix2 (phaseRow p a) k)) (Fin.ext ?_)
  show 64 * s.val + b.val = s.val * 64 + b.val
  omega

/-- One tap against the window of shift index `s`, at channel `a`. -/
abbrev tapTerm (wt : S9x64x64.Idx → EReal) (n : Fin 64) (l : Fin 1024) (a : Fin 64) (t : Fin 9) (s : Fin 4) : EReal :=
  ∑ b : Fin 64, tapMat wt t a b * win y1 sc sh mask n l s b

section Phases
variable (wblk : S256x256.Idx → EReal) (wt : S9x64x64.Idx → EReal)
  (hw : ∀ (p s : Fin 4) (a b : Fin 64), wblk (ix2 (phaseRow p a) (phaseRow s b)) = Taps.tapBlock (tapMat wt) p s a b)
include hw

/-- Phase 0 is tap 0 on the unshifted window. -/
theorem G1_5_phase0 (n : Fin 64) (a : Fin 64) (l : Fin 1024) :
    G1_5 y1 sc sh wblk mask (ix3 n (phaseRow 0 a) l) = tapTerm y1 sc sh mask wt n l a 0 0 :=
  (G1_5_blocks y1 sc sh mask wblk wt hw n 0 a l).trans (Taps.phase0 (tapMat wt) (win y1 sc sh mask n l) a)

/-- Phase 1 is tap 1 on the window shifted right, then tap 2 on the unshifted window. -/
theorem G1_5_phase1 (n : Fin 64) (a : Fin 64) (l : Fin 1024) :
    G1_5 y1 sc sh wblk mask (ix3 n (phaseRow 1 a) l) = tapTerm y1 sc sh mask wt n l a 1 1 + tapTerm y1 sc sh mask wt n l a 2 0 :=
  (G1_5_blocks y1 sc sh mask wblk wt hw n 1 a l).trans (Taps.phase1 (tapMat wt) (win y1 sc sh mask n l) a)

/-- Phase 2 is tap 3 on the window shifted down, then tap 4 on the unshifted window. -/
theorem G1_5_phase2 (n : Fin 64) (a : Fin 64) (l : Fin 1024) :
    G1_5 y1 sc sh wblk mask (ix3 n (phaseRow 2 a) l) = tapTerm y1 sc sh mask wt n l a 3 2 + tapTerm y1 sc sh mask wt n l a 4 0 :=
  (G1_5_blocks y1 sc sh mask wblk wt hw n 2 a l).trans (Taps.phase2 (tapMat wt) (win y1 sc sh mask n l) a)

/-- Phase 3 is taps 5, 6, 7, 8 on the windows of shift indices 3, 2, 1, 0, added in that order. -/
theorem G1_5_phase3 (n : Fin 64) (a : Fin 64) (l : Fin 1024) :
    G1_5 y1 sc sh wblk mask (ix3 n (phaseRow 3 a) l)
      = ((tapTerm y1 sc sh mask wt n l a 5 3 + tapTerm y1 sc sh mask wt n l a 6 2) + tapTerm y1 sc sh mask wt n l a 7 1)
        + tapTerm y1 sc sh mask wt n l a 8 0 :=
  (G1_5_blocks y1 sc sh mask wblk wt hw n 3 a l).trans (Taps.phase3 (tapMat wt) (win y1 sc sh mask n l) a)

end Phases

/-! ## The statistics: per-image sums over the groups and lanes are sums over all 4096 lanes of the other layout -/

/-- The first statistic of image `n`, channel `c`: the product's rows `p · 64 + c` summed over the phases and the lanes. -/
theorem G1_6_eq (wblk : S256x256.Idx → EReal) (n : Fin 64) (c : Fin 64) (e : Fin 1) :
    G1_6 y1 sc sh wblk mask (ix3 n c e) = ∑ l : Fin 1024, ∑ p : Fin 4, G1_5 y1 sc sh wblk mask (ix3 n (phaseRow p c) l) := by
  refine Finset.sum_congr rfl fun l _ => Finset.sum_congr rfl fun p _ => ?_
  show conv4 _ _ _ _ _ (groupRow p c) l = conv4 _ _ _ _ _ (phaseRow p c) l
  refine congrArg (fun k => conv4 _ _ _ _ _ k l) (Fin.ext ?_)
  show 64 * p.val + c.val = p.val * 64 + c.val
  omega

/-- The second statistic likewise, of the squares. -/
theorem G1_7_eq (wblk : S256x256.Idx → EReal) (n : Fin 64) (c : Fin 64) (e : Fin 1) :
    G1_7 y1 sc sh wblk mask (ix3 n c e)
      = ∑ l : Fin 1024, ∑ p : Fin 4, G1_5 y1 sc sh wblk mask (ix3 n (phaseRow p c) l) * G1_5 y1 sc sh wblk mask (ix3 n (phaseRow p c) l) := by
  refine Finset.sum_congr rfl fun l _ => Finset.sum_congr rfl fun p _ => ?_
  have e : ∀ k : Fin 256, k = phaseRow p c → conv4 (fun c' m => y1 (ix3 n c' m)) (fun c' => sc (ix2 c' 0)) (fun c' => sh (ix2 c' 0))
      (fun a b => wblk (ix2 a b)) (fun s l => mask (ix2 s l)) k l = G1_5 y1 sc sh wblk mask (ix3 n (phaseRow p c) l) := fun k hk => by
    subst hk; rfl
  have hk : groupRow p c = phaseRow p c := Fin.ext (by show 64 * p.val + c.val = p.val * 64 + c.val; omega)
  exact congrArg₂ (· * ·) (e _ hk) (e _ hk)

/-- Summed over the images: when the product in the kernel's layout is an array `y2R` in the lane-major layout,
    the first statistic's image sum is the sum of `y2R` over images and all 4096 lanes. -/
theorem sum_G1_6 (wblk : S256x256.Idx → EReal) (y2R : (⟨3, ![64, 64, 4096]⟩ : Shape).Idx → EReal)
    (hy2 : ∀ (n : Fin 64) (p : Fin 4) (c : Fin 64) (l : Fin 1024),
      G1_5 y1 sc sh wblk mask (ix3 n (phaseRow p c) l) = y2R (ix3 n c (phaseLane p l))) (c : Fin 64) (e : Fin 1) :
    ∑ n : Fin 64, G1_6 y1 sc sh wblk mask (ix3 n c e) = ∑ n : Fin 64, ∑ L : Fin 4096, y2R (ix3 n c L) := by
  refine Finset.sum_congr rfl fun n _ => ?_
  rw [G1_6_eq]
  exact Taps.sum_rows_lanes (fun j l => G1_5 y1 sc sh wblk mask (ix3 n j l)) c (fun L => y2R (ix3 n c L))
    (fun p l => (hy2 n p c l).symm)

/-- The same for the squares. -/
theorem sum_G1_7 (wblk : S256x256.Idx → EReal) (y2R : (⟨3, ![64, 64, 4096]⟩ : Shape).Idx → EReal)
    (hy2 : ∀ (n : Fin 64) (p : Fin 4) (c : Fin 64) (l : Fin 1024),
      G1_5 y1 sc sh wblk mask (ix3 n (phaseRow p c) l) = y2R (ix3 n c (phaseLane p l))) (c : Fin 64) (e : Fin 1) :
    ∑ n : Fin 64, G1_7 y1 sc sh wblk mask (ix3 n c e)
      = ∑ n : Fin 64, ∑ L : Fin 4096, y2R (ix3 n c L) * y2R (ix3 n c L) := by
  refine Finset.sum_congr rfl fun n _ => ?_
  rw [G1_7_eq]
  exact Taps.sum_rows_lanes (fun j l => G1_5 y1 sc sh wblk mask (ix3 n j l) * G1_5 y1 sc sh wblk mask (ix3 n j l)) c
    (fun L => y2R (ix3 n c L) * y2R (ix3 n c L))
    (fun p l => by rw [hy2 n p c l])

/-! ## Joined to the reference's region 1 -/

section Join
variable (wblk : S256x256.Idx → EReal) (wt : S9x64x64.Idx → EReal)
  (hw : ∀ (p s : Fin 4) (a b : Fin 64), wblk (ix2 (phaseRow p a) (phaseRow s b)) = Taps.tapBlock (tapMat wt) p s a b)
include hw

/-- The kernel's product at image `n`, phase `p`, channel `c`, lane `l` is the reference's phase value there. -/
theorem G1_5_eq_RP1 (n : Fin 64) (p : Fin 4) (c : Fin 64) (l : Fin 1024) :
    G1_5 y1 sc sh wblk mask (ix3 n (phaseRow p c) l) = Cert.ReferenceIdeal.Val.RP1 y1 sc sh wt mask n c l p := by
  match p with
  | ⟨0, _⟩ => exact G1_5_phase0 y1 sc sh mask wblk wt hw n c l
  | ⟨1, _⟩ => exact G1_5_phase1 y1 sc sh mask wblk wt hw n c l
  | ⟨2, _⟩ => exact G1_5_phase2 y1 sc sh mask wblk wt hw n c l
  | ⟨3, _⟩ => exact G1_5_phase3 y1 sc sh mask wblk wt hw n c l

/-- STAGE B, the product: row `p · 64 + c`, lane `l` of the kernel's array is channel `c`, lane `p · 1024 + l` of the
    reference's. -/
theorem stageB_y2 (n : Fin 64) (p : Fin 4) (c : Fin 64) (l : Fin 1024) :
    G1_5 y1 sc sh wblk mask (ix3 n (phaseRow p c) l) = Cert.ReferenceIdeal.Val.RG1_5 y1 sc sh wt mask (ix3 n c (phaseLane p l)) :=
  (G1_5_eq_RP1 y1 sc sh mask wblk wt hw n p c l).trans (Cert.ReferenceIdeal.Val.RG1_5_at y1 sc sh wt mask n c p l).symm

/-- STAGE B, the first statistic: the image sum of the kernel's per-image sums is the reference's accumulated column. -/
theorem stageB_s2_at (c : Fin 64) (e : Fin 1) :
    ∑ n : Fin 64, G1_6 y1 sc sh wblk mask (ix3 n c e) = Cert.ReferenceIdeal.Val.RG1_6 y1 sc sh wt mask (ix2 c e) := by
  rw [Cert.ReferenceIdeal.Val.RG1_6_at]
  refine Finset.sum_congr rfl fun n _ => ?_
  rw [G1_6_eq, Finset.sum_comm, Fin.sum_univ_four]
  unfold Cert.ReferenceIdeal.Val.RQ1_6
  simp only [G1_5_eq_RP1 y1 sc sh mask wblk wt hw]

/-- STAGE B, the second statistic. -/
theorem stageB_q2_at (c : Fin 64) (e : Fin 1) :
    ∑ n : Fin 64, G1_7 y1 sc sh wblk mask (ix3 n c e) = Cert.ReferenceIdeal.Val.RG1_7 y1 sc sh wt mask (ix2 c e) := by
  rw [Cert.ReferenceIdeal.Val.RG1_7_at]
  refine Finset.sum_congr rfl fun n _ => ?_
  rw [G1_7_eq, Finset.sum_comm, Fin.sum_univ_four]
  unfold Cert.ReferenceIdeal.Val.RQ1_7
  simp only [G1_5_eq_RP1 y1 sc sh mask wblk wt hw]

end Join

/-! ## The columns that enter the normalisation -/

section Columns
variable (wblk : S256x256.Idx → EReal) (wt : S9x64x64.Idx → EReal)
  (hw : ∀ (p s : Fin 4) (a b : Fin 64), wblk (ix2 (phaseRow p a) (phaseRow s b)) = Taps.tapBlock (tapMat wt) p s a b)
include hw

/-- STAGE B, the first statistic as the host forms it: the sum over the images of the kernel's [64,64,1] array is the
    reference's [64,1] column. -/
theorem stageB_s2 :
    Host.reduceAdd (F := Ideal) (G1_6 y1 sc sh wblk mask) (constant S_ .f32 0x00000000#32) reducesTo_S64x64x1_S64x1_d0 h_S_
      = Cert.ReferenceIdeal.Val.RG1_6 y1 sc sh wt mask := by
  refine funext fun i => ?_
  obtain ⟨c, e, rfl⟩ : ∃ (c : Fin 64) (e : Fin 1), i = ix2 c e := ⟨i 0, i 1, eq_ix2 i⟩
  exact (colSum64_apply (G1_6 y1 sc sh wblk mask) c e).trans (stageB_s2_at y1 sc sh mask wblk wt hw c e)

/-- STAGE B, the second statistic as the host forms it. -/
theorem stageB_q2 :
    Host.reduceAdd (F := Ideal) (G1_7 y1 sc sh wblk mask) (constant S_ .f32 0x00000000#32) reducesTo_S64x64x1_S64x1_d0 h_S_
      = Cert.ReferenceIdeal.Val.RG1_7 y1 sc sh wt mask := by
  refine funext fun i => ?_
  obtain ⟨c, e, rfl⟩ : ∃ (c : Fin 64) (e : Fin 1), i = ix2 c e := ⟨i 0, i 1, eq_ix2 i⟩
  exact (colSum64_apply (G1_7 y1 sc sh wblk mask) c e).trans (stageB_q2_at y1 sc sh mask wblk wt hw c e)

end Columns

end Cert.Bridge
end
-- ==== Proof.KerH0b.lean ====
import proofs.«159567_g2000302752657622_pallasbulk_725_3_alg».proof.Proof.KerH0
import proofs.«159567_g2000302752657622_pallasbulk_725_3_alg».proof.Proof.LibTaps

set_option maxRecDepth 16384

noncomputable section

namespace Cert.KernelIdeal.Val

open Cert.KernelIdeal Cert.KernelIdeal.Gen
open Idealize.ShloMosaic Idealize.ShloMosaic.TcCoe Idealize.ShloMosaic.ValueIdx

/-! # The prepared block matrix in the terms of the tap algebra

The table saying which tap sits in which block is the tap algebra's own table, and the block matrix read off the
9 × 64 × 64 stack is the tap algebra's block function of the stack's entries. -/

theorem tapOf_eq_lib : tapOf = Cert.Lib.Taps.tapOf := rfl

theorem blkMat_eq_tapBlock (w : S9x64x64.Idx → EReal) (p s : Fin 4) (a b : Fin 64) :
    blkMat w p s a b = Cert.Lib.Taps.tapBlock (fun t a b => w (ix3 t a b)) p s a b := rfl

section Lib
variable (W : Valuation τ sig (Elt Ideal))

/-- Entry (a, b) of block (p, s) of the prepared block matrix, as the tap algebra's block function. -/
theorem host0_wblk0_tapBlock (p s : Fin 4) (a b : Fin 64) :
    (StableHlo.after (hostOps0 (F := Ideal)) W (Proc.devRef .tc main_v58) : S256x256.Idx → Elt Ideal .bf16) (blk p s a b)
      = Cert.Lib.Taps.tapBlock (fun t a b => (W (Proc.devRef .tc main_arg3) : S9x64x64.Idx → Elt Ideal .f32) (ix3 t a b)) p s a b :=
  (host0_wblk0_apply W p s a b).trans (blkMat_eq_tapBlock _ p s a b)

end Lib

section Entry
variable (m : (ℓ : Loc nD τ sig) → Buf (Elt Ideal) ℓ) (ρ : Dev nD → PrngReg) (c : Dev nD)

/-- The same at the first region's entry. -/
theorem V1_wblk0_tapBlock (p s : Fin 4) (a b : Fin 64) :
    (Gen.V1 m ρ c main_v58 : S256x256.Idx → Elt Ideal .bf16) (blk p s a b)
      = Cert.Lib.Taps.tapBlock (fun t a b => (Gen.W0 m ρ c (Proc.devRef .tc main_arg3) : S9x64x64.Idx → Elt Ideal .f32) (ix3 t a b)) p s a b :=
  host0_wblk0_tapBlock (Gen.W0 m ρ c) p s a b

end Entry

end Cert.KernelIdeal.Val

end
-- ==== Proof.BridgeEq1.lean ====
import proofs.«159567_g2000302752657622_pallasbulk_725_3_alg».proof.Proof.KerDefs
import proofs.«159567_g2000302752657622_pallasbulk_725_3_alg».proof.Proof.RefDefs
import proofs.«159567_g2000302752657622_pallasbulk_725_3_alg».proof.Proof.StageA
import proofs.«159567_g2000302752657622_pallasbulk_725_3_alg».proof.Proof.StageB
import proofs.«159567_g2000302752657622_pallasbulk_725_3_alg».proof.Proof.KerH0b

noncomputable section
open scoped BigOperators

namespace Cert.Bridge
open Cert.KernelIdeal.Val Cert.ReferenceIdeal.Val
open Idealize.ShloMosaic Idealize.ShloMosaic.ValueIdx
open Cert.Lib

/-! # The two programs agree up to the second normalisation of the first block

In pipeline order: the flattened images are the same array; the stacked first product splits into the reference's two
products (stage A), so the first normalisation's and the shortcut's scale and shift columns agree; the block product
is the reference's nine taps phase by phase (stage B) in the other layout, and its statistics, summed over the images,
are the reference's, so the second normalisation's scale and shift columns agree. No entry needs to be a real. -/

/-- The flattened images. -/
theorem eq_x (a : Cert.Args) : kx a = rx a := rfl

/-- The stacked weights: row `j` is the first weight's for `j < 64`, the shortcut's row `j − 64` otherwise. -/
theorem kwf0_apply (a : Cert.Args) (j : Fin 320) (k : Fin 128) :
    kwf0 a (ix2 j k) = if h : j.val < 64 then a.a1 (ix2 ⟨j.val, h⟩ k)
      else a.a11 (ix2 ⟨j.val - 64, by have := j.isLt; omega⟩ k) :=
  (truncf_apply (φ := .f32) (ψ := .bf16) _ Cert.KernelIdeal.Gen.bitsLt_bf16_f32 _).trans (Cert.KernelIdeal.Val.stack_apply a.a1 a.a11 j k)

/-- The block matrix: block (phase `p`, shift index `s`) is the tap with that phase and shift, zero where there is none. -/
theorem kwblk0_apply (a : Cert.Args) (p s : Fin 4) (a' b : Fin 64) :
    kwblk0 a (ix2 (phaseRow p a') (phaseRow s b)) = Taps.tapBlock (tapMat a.a3) p s a' b :=
  (truncf_apply (φ := .f32) (ψ := .bf16) _ Cert.KernelIdeal.Gen.bitsLt_bf16_f32 _).trans
    ((Cert.KernelIdeal.Val.blkWrites_apply a.a3 p s a' b).trans (Cert.KernelIdeal.Val.blkMat_eq_tapBlock a.a3 p s a' b))

/-- The first 1 × 1 convolution's output. -/
theorem eq_y1 (a : Cert.Args) : ky1 a = ry1 a := by
  unfold ky1 ry1
  rw [eq_x a]
  exact stageA_y1 (rx a) a.a1 a.a11 (kwf0 a) (kwf0_apply a)

/-- The shortcut's 1 × 1 convolution's output. -/
theorem eq_sd (a : Cert.Args) : ksd a = rsd a := by
  unfold ksd rsd
  rw [eq_x a]
  exact stageA_sd (rx a) a.a1 a.a11 (kwf0 a) (kwf0_apply a)

/-- The first normalisation's scale column. -/
theorem eq_sc1 (a : Cert.Args) : ksc1 a = rsc1 a := by
  unfold ksc1 rsc1 ksf kqf rS1 rQ1
  rw [eq_x a, stageA_s1 (rx a) a.a1 a.a11 (kwf0 a) (kwf0_apply a), stageA_q1 (rx a) a.a1 a.a11 (kwf0 a) (kwf0_apply a)]

/-- The first normalisation's shift column. -/
theorem eq_sh1 (a : Cert.Args) : ksh1 a = rsh1 a := by
  unfold ksh1 rsh1 ksf kqf rS1 rQ1
  rw [eq_x a, stageA_s1 (rx a) a.a1 a.a11 (kwf0 a) (kwf0_apply a), stageA_q1 (rx a) a.a1 a.a11 (kwf0 a) (kwf0_apply a)]

/-- The shortcut normalisation's scale column. -/
theorem eq_scs (a : Cert.Args) : kscs a = rscs a := by
  unfold kscs rscs ksf kqf rSs rQs
  rw [eq_x a, stageA_ss (rx a) a.a1 a.a11 (kwf0 a) (kwf0_apply a), stageA_qs (rx a) a.a1 a.a11 (kwf0 a) (kwf0_apply a)]

/-- The shortcut normalisation's shift column. -/
theorem eq_shs (a : Cert.Args) : kshs a = rshs a := by
  unfold kshs rshs ksf kqf rSs rQs
  rw [eq_x a, stageA_ss (rx a) a.a1 a.a11 (kwf0 a) (kwf0_apply a), stageA_qs (rx a) a.a1 a.a11 (kwf0 a) (kwf0_apply a)]

/-- The 3 × 3 convolution's output in the two layouts: the kernel's row `p · 64 + c`, lane `l` is the reference's
    channel `c`, lane `p · 1024 + l`. -/
theorem rel_y2 (a : Cert.Args) (n : Fin 64) (p : Fin 4) (c : Fin 64) (l : Fin 1024) :
    ky2 a (ix3 n (phaseRow p c) l) = ry2 a (ix3 n c (phaseLane p l)) := by
  unfold ky2 ry2
  rw [eq_y1 a, eq_sc1 a, eq_sh1 a]
  exact stageB_y2 (ry1 a) (rsc1 a) (rsh1 a) a.a4 (kwblk0 a) a.a3 (kwblk0_apply a) n p c l

/-- The image sum of the per-image channel sums is the reference's accumulated column. -/
theorem eq_S2 (a : Cert.Args) :
    Host.reduceAdd (F := Ideal) (ks2 a) (constant Cert.KernelIdeal.S_ .f32 0x00000000#32)
        Cert.KernelIdeal.Gen.reducesTo_S64x64x1_S64x1_d0 Cert.KernelIdeal.Gen.h_S_ = rS2 a := by
  unfold ks2 rS2
  rw [eq_y1 a, eq_sc1 a, eq_sh1 a]
  exact stageB_s2 (ry1 a) (rsc1 a) (rsh1 a) a.a4 (kwblk0 a) a.a3 (kwblk0_apply a)

/-- The same for the sums of squares. -/
theorem eq_Q2 (a : Cert.Args) :
    Host.reduceAdd (F := Ideal) (kq2 a) (constant Cert.KernelIdeal.S_ .f32 0x00000000#32)
        Cert.KernelIdeal.Gen.reducesTo_S64x64x1_S64x1_d0 Cert.KernelIdeal.Gen.h_S_ = rQ2 a := by
  unfold kq2 rQ2
  rw [eq_y1 a, eq_sc1 a, eq_sh1 a]
  exact stageB_q2 (ry1 a) (rsc1 a) (rsh1 a) a.a4 (kwblk0 a) a.a3 (kwblk0_apply a)

/-- The second normalisation's scale column. -/
theorem eq_sc2 (a : Cert.Args) : ksc2 a = rsc2 a := by
  unfold ksc2 rsc2
  rw [eq_S2 a, eq_Q2 a]

/-- The second normalisation's shift column. -/
theorem eq_sh2 (a : Cert.Args) : ksh2 a = rsh2 a := by
  unfold ksh2 rsh2
  rw [eq_S2 a, eq_Q2 a]

/-- The first block's last 1 × 1 weights are the argument (the narrowing is exact). -/
theorem eq_w3_0 (a : Cert.Args) : kw3_0 a = a.a2 :=
  funext fun i => truncf_apply (φ := .f32) (ψ := .bf16) _ Cert.KernelIdeal.Gen.bitsLt_bf16_f32 i

end Cert.Bridge

end
-- ==== Proof.StageC.lean ====
/- The statistics of the first 1×1 convolution after the Gram region, recovered from the Gram matrix: with
   z[n, k, L] = sin (y[n, k, L] · sc[k] + sh[k]) real and W a real [256, 64] weight, the column W · (Σ_n Σ_L z) is the
   per-channel sum of W · z over images and lanes, and the row sums of (W · Σ_n Σ_L z zᵀ) ⊙ W are its per-channel sums of
   squares. The two programs lay y out differently — rows phase · 64 + channel with 1024 lanes on one side, channel rows
   with lanes phase · 1024 + position on the other — and the sum over (phase, position) is one sum over the 4096 lanes. -/
import proofs.«159567_g2000302752657622_pallasbulk_725_3_alg».proof.Proof.KerV2
import proofs.«159567_g2000302752657622_pallasbulk_725_3_alg».proof.Proof.KerH3
import proofs.«159567_g2000302752657622_pallasbulk_725_3_alg».proof.Proof.KerHIdx
import proofs.«159567_g2000302752657622_pallasbulk_725_3_alg».proof.Proof.RefV2
import proofs.«159567_g2000302752657622_pallasbulk_725_3_alg».proof.Proof.LibGram

noncomputable section

namespace Cert.Bridge

open Cert.KernelIdeal Cert.KernelIdeal.Gen
open Idealize.ShloMosaic Idealize.ShloMosaic.ValueIdx
open Cert.KernelIdeal.Val.Gram (row2 laneEquiv sum_lanes_split)
open scoped BigOperators

/-- The activation in the lane layout: z[k, n, L] = sin (y[n, k, L] · sc[k] + sh[k]). -/
def actC (yR : S64x64x4096.Idx → EReal) (sc sh : S64x1.Idx → EReal) (k n : Fin 64) (L : Fin 4096) : EReal :=
  Ideal.sin (yR (ix3 n k L) * sc (ix2 k (0 : Fin 1)) + sh (ix2 k (0 : Fin 1)))

theorem actC_real {yR : S64x64x4096.Idx → EReal} {sc sh : S64x1.Idx → EReal}
    (hy : ∀ i, ∃ r : ℝ, yR i = r) (hsc : ∀ i, ∃ r : ℝ, sc i = r) (hsh : ∀ i, ∃ r : ℝ, sh i = r)
    (k n : Fin 64) (L : Fin 4096) : ∃ r : ℝ, actC yR sc sh k n L = r := by
  obtain ⟨ry, ey⟩ := hy (ix3 n k L)
  obtain ⟨rs, es⟩ := hsc (ix2 k (0 : Fin 1))
  obtain ⟨rh, eh⟩ := hsh (ix2 k (0 : Fin 1))
  refine ⟨Real.sin (ry * rs + rh), ?_⟩
  unfold actC
  rw [ey, es, eh, ← EReal.coe_mul, ← EReal.coe_add]
  exact Ideal.sin_coe _

/-- The row layout's activation at phase `p`, lane `q` is the lane layout's at lane `p · 1024 + q`. -/
theorem z2_eq_actC (yK : S64x256x1024.Idx → EReal) (yR : S64x64x4096.Idx → EReal) (sc sh : S64x1.Idx → EReal)
    (hy2 : ∀ (n : Fin 64) (p : Fin 4) (c : Fin 64) (l : Fin 1024),
      yK (ix3 n (⟨p.val * 64 + c.val, by have := p.isLt; have := c.isLt; omega⟩ : Fin 256) l)
        = yR (ix3 n c (⟨p.val * 1024 + l.val, by have := p.isLt; have := l.isLt; omega⟩ : Fin 4096)))
    (n : Fin 64) (p : Fin 4) (k : Fin 64) (q : Fin 1024) :
    Cert.KernelIdeal.Val.z2 yK sc sh n p k q = actC yR sc sh k n (laneEquiv (p, q)) := by
  unfold Cert.KernelIdeal.Val.z2 actC
  exact congrArg (fun t => Ideal.sin (t * sc (ix2 k (0 : Fin 1)) + sh (ix2 k (0 : Fin 1)))) (hy2 n p k q)

/-- The image sum of the per-image lane sums, at channel `k`: the sum over images and the 4096 lanes. -/
theorem colsum_G2_4 (yK : S64x256x1024.Idx → EReal) (yR : S64x64x4096.Idx → EReal) (sc sh : S64x1.Idx → EReal)
    (hy2 : ∀ (n : Fin 64) (p : Fin 4) (c : Fin 64) (l : Fin 1024),
      yK (ix3 n (⟨p.val * 64 + c.val, by have := p.isLt; have := c.isLt; omega⟩ : Fin 256) l)
        = yR (ix3 n c (⟨p.val * 1024 + l.val, by have := p.isLt; have := l.isLt; omega⟩ : Fin 4096)))
    (k : Fin 64) (e : Fin 1) :
    Host.reduceAdd (F := Ideal) (Cert.KernelIdeal.Val.G2_4 yK sc sh) (constant S_ .f32 0x00000000#32) reducesTo_S64x64x1_S64x1_d0 h_S_ (ix2 k e)
      = ∑ n : Fin 64, ∑ L : Fin 4096, actC yR sc sh k n L := by
  refine (Cert.KernelIdeal.Val.colSum64_apply _ k e).trans (Finset.sum_congr rfl fun n _ => ?_)
  show ∑ p : Fin 4, ∑ q : Fin 1024, Cert.KernelIdeal.Val.z2 yK sc sh n p k q = _
  refine (Finset.sum_congr rfl fun p _ => Finset.sum_congr rfl fun q _ => z2_eq_actC yK yR sc sh hy2 n p k q).trans ?_
  exact (sum_lanes_split fun L => actC yR sc sh k n L).symm

/-- The image sum of the per-image Gram matrices, at `(k, j)`: the sum over images and the 4096 lanes of the products. -/
theorem gramsum_G2_3 (yK : S64x256x1024.Idx → EReal) (yR : S64x64x4096.Idx → EReal) (sc sh : S64x1.Idx → EReal)
    (hy2 : ∀ (n : Fin 64) (p : Fin 4) (c : Fin 64) (l : Fin 1024),
      yK (ix3 n (⟨p.val * 64 + c.val, by have := p.isLt; have := c.isLt; omega⟩ : Fin 256) l)
        = yR (ix3 n c (⟨p.val * 1024 + l.val, by have := p.isLt; have := l.isLt; omega⟩ : Fin 4096)))
    (k j : Fin 64) :
    Host.reduceAdd (F := Ideal) (Cert.KernelIdeal.Val.G2_3 yK sc sh) (constant S_ .f32 0x00000000#32) reducesTo_S64x64x64_S64x64_d0 h_S_ (ix2 k j)
      = ∑ n : Fin 64, ∑ L : Fin 4096, actC yR sc sh k n L * actC yR sc sh j n L := by
  refine (Cert.KernelIdeal.Val.gramSum_apply _ k j).trans (Finset.sum_congr rfl fun n _ => ?_)
  show ∑ p : Fin 4, ∑ q : Fin 1024, Cert.KernelIdeal.Val.z2 yK sc sh n p k q * Cert.KernelIdeal.Val.z2 yK sc sh n p j q = _
  refine (Finset.sum_congr rfl fun p _ => Finset.sum_congr rfl fun q _ => ?_).trans
    (sum_lanes_split fun L => actC yR sc sh k n L * actC yR sc sh j n L).symm
  rw [z2_eq_actC yK yR sc sh hy2 n p k q, z2_eq_actC yK yR sc sh hy2 n p j q]

/-- STAGE C, the sums: the weight applied to the image-summed lane sums is the per-channel sum of the convolution. -/
theorem stageC_sum (yK : S64x256x1024.Idx → EReal) (yR : S64x64x4096.Idx → EReal) (sc sh : S64x1.Idx → EReal) (W : S256x64.Idx → EReal)
    (hy2 : ∀ (n : Fin 64) (p : Fin 4) (c : Fin 64) (l : Fin 1024),
      yK (ix3 n (⟨p.val * 64 + c.val, by have := p.isLt; have := c.isLt; omega⟩ : Fin 256) l)
        = yR (ix3 n c (⟨p.val * 1024 + l.val, by have := p.isLt; have := l.isLt; omega⟩ : Fin 4096)))
    (hyR : ∀ i, ∃ r : ℝ, yR i = r) (hsc : ∀ i, ∃ r : ℝ, sc i = r) (hsh : ∀ i, ∃ r : ℝ, sh i = r) (hW : ∀ i, ∃ r : ℝ, W i = r) :
    Cert.KernelIdeal.Val.gramS W
        (Host.reduceAdd (F := Ideal) (Cert.KernelIdeal.Val.G2_4 yK sc sh) (constant S_ .f32 0x00000000#32) reducesTo_S64x64x1_S64x1_d0 h_S_)
      = Cert.ReferenceIdeal.Val.RG2_5 yR sc sh W := by
  funext i
  obtain ⟨c, e, rfl⟩ : ∃ (c : Fin 256) (e : Fin 1), i = ix2 c e := ⟨i 0, i 1, eq_ix2 i⟩
  refine (Cert.KernelIdeal.Val.gramS_apply W _ c e).trans ?_
  refine (Finset.sum_congr rfl fun k _ => congrArg (W (ix2 c k) * ·) (colsum_G2_4 yK yR sc sh hy2 k e)).trans ?_
  exact (Cert.Lib.Gram.sum_linear_pairs (fun k => W (ix2 c k)) (actC yR sc sh) (fun k => hW _)
    (fun k n l => actC_real hyR hsc hsh k n l)).symm

/-- STAGE C, the sums of squares: the row sums of (W · image-summed Gram matrix) ⊙ W are the per-channel sums of
    squares of the convolution. -/
theorem stageC_sq (yK : S64x256x1024.Idx → EReal) (yR : S64x64x4096.Idx → EReal) (sc sh : S64x1.Idx → EReal) (W : S256x64.Idx → EReal)
    (hy2 : ∀ (n : Fin 64) (p : Fin 4) (c : Fin 64) (l : Fin 1024),
      yK (ix3 n (⟨p.val * 64 + c.val, by have := p.isLt; have := c.isLt; omega⟩ : Fin 256) l)
        = yR (ix3 n c (⟨p.val * 1024 + l.val, by have := p.isLt; have := l.isLt; omega⟩ : Fin 4096)))
    (hyR : ∀ i, ∃ r : ℝ, yR i = r) (hsc : ∀ i, ∃ r : ℝ, sc i = r) (hsh : ∀ i, ∃ r : ℝ, sh i = r) (hW : ∀ i, ∃ r : ℝ, W i = r) :
    Cert.KernelIdeal.Val.gramQ W
        (Host.reduceAdd (F := Ideal) (Cert.KernelIdeal.Val.G2_3 yK sc sh) (constant S_ .f32 0x00000000#32) reducesTo_S64x64x64_S64x64_d0 h_S_)
      = Cert.ReferenceIdeal.Val.RG2_6 yR sc sh W := by
  funext i
  obtain ⟨c, e, rfl⟩ : ∃ (c : Fin 256) (e : Fin 1), i = ix2 c e := ⟨i 0, i 1, eq_ix2 i⟩
  refine (Cert.KernelIdeal.Val.gramQ_apply W _ c e).trans ?_
  refine (Finset.sum_congr rfl fun j _ => congrArg (· * W (ix2 c j))
    (Finset.sum_congr rfl fun k _ => congrArg (W (ix2 c k) * ·) (gramsum_G2_3 yK yR sc sh hy2 k j))).trans ?_
  exact (Cert.Lib.Gram.sum_sq_linear_pairs (fun k => W (ix2 c k)) (actC yR sc sh) (fun k => hW _)
    (fun k n l => actC_real hyR hsc hsh k n l)).symm

end Cert.Bridge

end
-- ==== Proof.StageD.lean ====
import proofs.«159567_g2000302752657622_pallasbulk_725_3_alg».proof.Proof.KerV3b
import proofs.«159567_g2000302752657622_pallasbulk_725_3_alg».proof.Proof.RefV2
import proofs.«159567_g2000302752657622_pallasbulk_725_3_alg».proof.Proof.RefV4

noncomputable section

namespace Cert.Bridge

open Cert.KernelIdeal Cert.KernelIdeal.Gen Cert.KernelIdeal.Val Cert.ReferenceIdeal.Val
open Cert.KernelIdeal.Val.R3 (lane prow)
open Idealize.ShloMosaic Idealize.ShloMosaic.ValueIdx
open scoped BigOperators

/-! ## The third layer's main output: the kernel's phase-major form against the reference's two regions

The kernel reads its second-layer output with rows phase·64 + channel and lanes the position; the reference reads the
same numbers with rows the channel and lanes phase·1024 + position. Under that correspondence the 1×1 convolution of
sin(y·scale + shift) is the same sum over the 64 channels at every (image, row, lane), the affine step after it is the
same three terms, and the shortcut term is added on the same lanes: phase 0 is exactly the lanes below 1024, where the
position is the lane. Nothing here needs the entries to be reals. -/

/-- The kernel's f32 output of its third region is the reference's shortcut region applied to its convolution region. -/
theorem stageD (y2K : S64x256x1024.Idx → EReal) (y2R : S64x64x4096.Idx → EReal) (sd : S64x256x1024.Idx → EReal)
    (sc2 sh2 : S64x1.Idx → EReal) (w3 : S256x64.Idx → EReal) (sc3 sh3 scs shs : S256x1.Idx → EReal)
    (hy2 : ∀ (n : Fin 64) (p : Fin 4) (c : Fin 64) (l : Fin 1024), y2K (ix3 n (prow p c) l) = y2R (ix3 n c (lane p l))) :
    G3_10 y2K sd sc2 sh2 w3 sc3 sh3 scs shs = RG4_6 (RG2_4 y2R sc2 sh2 w3) sd sc3 sh3 scs shs := by
  funext i
  obtain ⟨n, j, L, rfl⟩ : ∃ (n : Fin 64) (j : Fin 256) (L : Fin 4096), i = ix3 n j L := ⟨i 0, i 1, i 2, eq_ix3 i⟩
  rw [G3_10_apply]
  have hy3 : RG2_4 y2R sc2 sh2 w3 (ix3 n j L) = ∑ c : Fin 64, w3 (ix2 j c) * act3 y2K sc2 sh2 n c (ph3 L) (ps3 L) := by
    rw [RG2_4_at y2R sc2 sh2 w3 (ix3 n j L) n j L rfl rfl rfl]
    unfold yR2 act3
    refine Finset.sum_congr rfl fun c _ => ?_
    rw [hy2 n (ph3 L) c (ps3 L), lane_ph3_ps3]
  unfold out3 base3
  by_cases hL : L.val < 1024
  · have hp : (ph3 L).val = 0 := by show L.val / 1024 = 0; omega
    rw [if_pos hp, RG4_6_lt _ sd sc3 sh3 scs shs (ix3 n j L) n j (ps3 L) rfl rfl (by show L.val = L.val % 1024; omega), hy3]
  · have hp : ¬ (ph3 L).val = 0 := by show ¬ L.val / 1024 = 0; omega
    rw [if_neg hp, RG4_6_ge _ sd sc3 sh3 scs shs (ix3 n j L) j rfl hL, hy3]

/-- The same, with the correspondence between the two layouts written out by its coordinates: row phase·64 + channel at
    position l on one side, channel at lane phase·1024 + l on the other. -/
theorem stageD' (y2K : S64x256x1024.Idx → EReal) (y2R : S64x64x4096.Idx → EReal) (sd : S64x256x1024.Idx → EReal)
    (sc2 sh2 : S64x1.Idx → EReal) (w3 : S256x64.Idx → EReal) (sc3 sh3 scs shs : S256x1.Idx → EReal)
    (hy2 : ∀ (n : Fin 64) (p : Fin 4) (c : Fin 64) (l : Fin 1024),
      y2K (ix3 n (⟨p.val * 64 + c.val, by have := p.isLt; have := c.isLt; omega⟩ : Fin 256) l)
        = y2R (ix3 n c (⟨p.val * 1024 + l.val, by have := p.isLt; have := l.isLt; omega⟩ : Fin 4096))) :
    G3_10 y2K sd sc2 sh2 w3 sc3 sh3 scs shs = RG4_6 (RG2_4 y2R sc2 sh2 w3) sd sc3 sh3 scs shs :=
  stageD y2K y2R sd sc2 sh2 w3 sc3 sh3 scs shs fun n p c l => hy2 n p c l

end Cert.Bridge

end
-- ==== Proof.LibBnSums.lean ====
/- Real-ness of the batch-normalisation scale and shift when the two columns entering the chain are the sum and the
   sum of squares of real entries.

   If `s i = ∑ Y` and `q i = ∑ Y · Y` over finitely many real entries `Y`, and the count `c` of the chain is at
   least the number of entries (it may be larger: entries that are zero and not stored), then the variance
   `q / c − (s / c)²` is nonnegative by Cauchy–Schwarz, so `rsqrt (var + ε)` is a positive real and the scale and the
   shift at `i` are reals. Stated for a single sum and for a double sum (images, then positions). -/
import proofs.«159567_g2000302752657622_pallasbulk_725_3_alg».proof.Proof.LibBnChain
import proofs.«159567_g2000302752657622_pallasbulk_725_3_alg».proof.Proof.LibBnReal

noncomputable section

namespace Cert.Lib.BnSums

open Idealize.ShloMosaic
open Cert.Lib.BnReal Cert.Lib.BnChain
open scoped BigOperators

variable (S : Shape) (h : S0.BroadcastsInDim S (![] : Fin 0 → Fin S.rank)) {w : BitVec 32}

/-- The scale and the shift at `i` are reals when the sum column at `i` is `∑ Y` and the sum-of-squares column at `i`
    is `∑ Y · Y` for real entries `Y` over a finite type with at most `c` elements. -/
theorem scale_shift_real_of_sum {c : ℝ} (hc : 0 < c) (hw : Ideal.ofBits .f32 w = (c : EReal))
    {κ : Type*} [Fintype κ] (hcard : (Fintype.card κ : ℝ) ≤ c)
    (s q γ β : S.Idx → EReal) (i : S.Idx) (Y : κ → EReal) (hY : ∀ p, ∃ r : ℝ, Y p = r)
    (hs : s i = ∑ p, Y p) (hq : q i = ∑ p, Y p * Y p)
    (hγ : ∃ r : ℝ, γ i = r) (hβ : ∃ r : ℝ, β i = r) :
    (∃ r : ℝ, bnScale (F := Ideal) S h w s q γ i = r) ∧ (∃ r : ℝ, bnShift (F := Ideal) S h w s q γ β i = r) := by
  choose y hy using hY
  have hs' : s i = ((∑ p, y p : ℝ) : EReal) := by rw [hs]; simp only [hy, sum_coe]
  have hq' : q i = ((∑ p, y p * y p : ℝ) : EReal) := by rw [hq]; simp only [hy, coe_mul_coe, sum_coe]
  have hv := var_nonneg' y hc hcard
  exact ⟨bnScale_exists_real S h hc hw s q γ i hs' hq' hγ hv,
    bnShift_exists_real S h hc hw s q γ β i hs' hq' hγ hβ hv⟩

/-- The same for a double sum: `s i = ∑ n, ∑ l, Y n l` and `q i = ∑ n, ∑ l, Y n l · Y n l`, the count at least the
    number of pairs. -/
theorem scale_shift_real_of_sum₂ {c : ℝ} (hc : 0 < c) (hw : Ideal.ofBits .f32 w = (c : EReal))
    {ν μ : Type*} [Fintype ν] [Fintype μ] (hcard : (Fintype.card ν : ℝ) * (Fintype.card μ : ℝ) ≤ c)
    (s q γ β : S.Idx → EReal) (i : S.Idx) (Y : ν → μ → EReal) (hY : ∀ n l, ∃ r : ℝ, Y n l = r)
    (hs : s i = ∑ n, ∑ l, Y n l) (hq : q i = ∑ n, ∑ l, Y n l * Y n l)
    (hγ : ∃ r : ℝ, γ i = r) (hβ : ∃ r : ℝ, β i = r) :
    (∃ r : ℝ, bnScale (F := Ideal) S h w s q γ i = r) ∧ (∃ r : ℝ, bnShift (F := Ideal) S h w s q γ β i = r) := by
  refine scale_shift_real_of_sum S h hc hw (κ := ν × μ) ?_ s q γ β i (fun p => Y p.1 p.2) (fun p => hY p.1 p.2)
    ?_ ?_ hγ hβ
  · rw [Fintype.card_prod, Nat.cast_mul]; exact hcard
  · rw [hs, Fintype.sum_prod_type]
  · rw [hq, Fintype.sum_prod_type]

/-- Count word of 65536 over `64 × 1024` entries. -/
theorem real_65536_of_64x1024 (s q γ β : S.Idx → EReal) (i : S.Idx) (Y : Fin 64 → Fin 1024 → EReal)
    (hY : ∀ n l, ∃ r : ℝ, Y n l = r) (hs : s i = ∑ n, ∑ l, Y n l) (hq : q i = ∑ n, ∑ l, Y n l * Y n l)
    (hγ : ∃ r : ℝ, γ i = r) (hβ : ∃ r : ℝ, β i = r) :
    (∃ r : ℝ, bnScale (F := Ideal) S h 0x47800000#32 s q γ i = r)
      ∧ (∃ r : ℝ, bnShift (F := Ideal) S h 0x47800000#32 s q γ β i = r) :=
  scale_shift_real_of_sum₂ S h (by norm_num) ofBits_65536 (by simp only [Fintype.card_fin]; norm_num)
    s q γ β i Y hY hs hq hγ hβ

/-- Count word of 262144 over `64 × 4096` entries. -/
theorem real_262144_of_64x4096 (s q γ β : S.Idx → EReal) (i : S.Idx) (Y : Fin 64 → Fin 4096 → EReal)
    (hY : ∀ n l, ∃ r : ℝ, Y n l = r) (hs : s i = ∑ n, ∑ l, Y n l) (hq : q i = ∑ n, ∑ l, Y n l * Y n l)
    (hγ : ∃ r : ℝ, γ i = r) (hβ : ∃ r : ℝ, β i = r) :
    (∃ r : ℝ, bnScale (F := Ideal) S h 0x48800000#32 s q γ i = r)
      ∧ (∃ r : ℝ, bnShift (F := Ideal) S h 0x48800000#32 s q γ β i = r) :=
  scale_shift_real_of_sum₂ S h (by norm_num) ofBits_262144 (by simp only [Fintype.card_fin]; norm_num)
    s q γ β i Y hY hs hq hγ hβ

/-- Count word of 262144 over only `64 × 1024` stored entries (the other three quarters are zeros that are counted
    and not stored). -/
theorem real_262144_of_64x1024 (s q γ β : S.Idx → EReal) (i : S.Idx) (Y : Fin 64 → Fin 1024 → EReal)
    (hY : ∀ n l, ∃ r : ℝ, Y n l = r) (hs : s i = ∑ n, ∑ l, Y n l) (hq : q i = ∑ n, ∑ l, Y n l * Y n l)
    (hγ : ∃ r : ℝ, γ i = r) (hβ : ∃ r : ℝ, β i = r) :
    (∃ r : ℝ, bnScale (F := Ideal) S h 0x48800000#32 s q γ i = r)
      ∧ (∃ r : ℝ, bnShift (F := Ideal) S h 0x48800000#32 s q γ β i = r) :=
  scale_shift_real_of_sum₂ S h (by norm_num) ofBits_262144 (by simp only [Fintype.card_fin]; norm_num)
    s q γ β i Y hY hs hq hγ hβ

end Cert.Lib.BnSums

end
-- ==== Proof.RefReal.lean ====
/- Every buffer of the reference's pipeline holds real numbers when every argument does.

   In pipeline order: a reshape or a transpose of reals is reals; a region's main output is finite sums of products
   (and sines) of reals; at each batch-normalisation site the two statistics columns are the sum and the sum of squares
   of one real family whose size is at most the count, so the variance is nonnegative (Cauchy–Schwarz), the reciprocal
   square root of variance plus ε is a positive real, and the scale and shift columns are reals. -/
import proofs.«159567_g2000302752657622_pallasbulk_725_3_alg».proof.Proof.RefDefs
import proofs.«159567_g2000302752657622_pallasbulk_725_3_alg».proof.Proof.LibBnSums

set_option maxRecDepth 16384

noncomputable section

namespace Cert.ReferenceIdeal.Val

open Cert.ReferenceIdeal Cert.ReferenceIdeal.Gen
open Idealize.ShloMosaic Idealize.ShloMosaic.TcCoe Idealize.ShloMosaic.ValueIdx
open Cert.Lib.BnChain
open scoped BigOperators

/-! ## The statistics columns of each region as the sum and the sum of squares of one real family -/

/-- Region 0: the two columns at row `i` are the sum and the sum of squares of the `64 · 1024` entries of `y` in
    channel `i 0`. -/
theorem stats0 (x : S64x128x1024.Idx → EReal) (W : S64x128.Idx → EReal) (hx : ∀ i, ∃ r : ℝ, x i = r)
    (hW : ∀ i, ∃ r : ℝ, W i = r) (i : S64x1.Idx) :
    ∃ Y : Fin 64 → Fin 1024 → EReal, (∀ n l, ∃ r : ℝ, Y n l = r) ∧ RG0_3 x W i = ∑ n, ∑ l, Y n l
      ∧ RG0_4 x W i = ∑ n, ∑ l, Y n l * Y n l :=
  ⟨fun n l => RG0_2 x W (ix3 n (i 0) l), fun n l => RG0_2_real x W hx hW _, rfl, rfl⟩

/-- Region 3 (the shortcut): likewise over `64 · 1024` entries. -/
theorem stats3 (x : S64x128x1024.Idx → EReal) (W : S256x128.Idx → EReal) (hx : ∀ i, ∃ r : ℝ, x i = r)
    (hW : ∀ i, ∃ r : ℝ, W i = r) (i : S256x1.Idx) :
    ∃ Y : Fin 64 → Fin 1024 → EReal, (∀ n l, ∃ r : ℝ, Y n l = r) ∧ RG3_3 x W i = ∑ n, ∑ l, Y n l
      ∧ RG3_4 x W i = ∑ n, ∑ l, Y n l * Y n l :=
  ⟨fun n l => RG3_2 x W (ix3 n (i 0) l), fun n l => RG3_2_real x W hx hW _, rfl, rfl⟩

/-- Region 5: likewise over `64 · 4096` entries. -/
theorem stats5 (x : S64x256x4096.Idx → EReal) (W : S64x256.Idx → EReal) (hx : ∀ i, ∃ r : ℝ, x i = r)
    (hW : ∀ i, ∃ r : ℝ, W i = r) (i : S64x1.Idx) :
    ∃ Y : Fin 64 → Fin 4096 → EReal, (∀ n l, ∃ r : ℝ, Y n l = r) ∧ RG5_3 x W i = ∑ n, ∑ l, Y n l
      ∧ RG5_4 x W i = ∑ n, ∑ l, Y n l * Y n l :=
  ⟨fun n l => RG5_2 x W (ix3 n (i 0) l), fun n l => RG5_2_real x W hx hW _, rfl, rfl⟩

/-- Region 2: the columns are the sum and the sum of squares of the `64 · 4096` entries of the product with the
    activation, in channel `i 0`. -/
theorem stats2 (x : S64x64x4096.Idx → EReal) (sc sh : S64x1.Idx → EReal) (W : S256x64.Idx → EReal)
    (hx : ∀ i, ∃ r : ℝ, x i = r) (hsc : ∀ i, ∃ r : ℝ, sc i = r) (hsh : ∀ i, ∃ r : ℝ, sh i = r)
    (hW : ∀ i, ∃ r : ℝ, W i = r) (i : S256x1.Idx) :
    ∃ Y : Fin 64 → Fin 4096 → EReal, (∀ n l, ∃ r : ℝ, Y n l = r) ∧ RG2_5 x sc sh W i = ∑ n, ∑ l, Y n l
      ∧ RG2_6 x sc sh W i = ∑ n, ∑ l, Y n l * Y n l :=
  ⟨fun n L => yR2 x sc sh W n (i 0) L, fun n L => yR2_real x sc sh W hx hsc hsh hW n (i 0) L, rfl, rfl⟩

/-- Region 7: as region 2. -/
theorem stats7 (x : S64x64x4096.Idx → EReal) (sc sh : S64x1.Idx → EReal) (W : S256x64.Idx → EReal)
    (hx : ∀ i, ∃ r : ℝ, x i = r) (hsc : ∀ i, ∃ r : ℝ, sc i = r) (hsh : ∀ i, ∃ r : ℝ, sh i = r)
    (hW : ∀ i, ∃ r : ℝ, W i = r) (i : S256x1.Idx) :
    ∃ Y : Fin 64 → Fin 4096 → EReal, (∀ n l, ∃ r : ℝ, Y n l = r) ∧ RG7_5 x sc sh W i = ∑ n, ∑ l, Y n l
      ∧ RG7_6 x sc sh W i = ∑ n, ∑ l, Y n l * Y n l :=
  ⟨fun n L => yR7 x sc sh W n (i 0) L, fun n L => yR7_real x sc sh W hx hsc hsh hW n (i 0) L, rfl, rfl⟩

/-- Region 1: the columns are the sum and the sum of squares of the `64 · (4 · 1024)` entries (image, phase, lane) of the
    region's main output in channel `i 0`. -/
theorem stats1 (a0 : S64x64x1024.Idx → EReal) (a1 a2 : S64x1.Idx → EReal) (a3 : S9x64x64.Idx → EReal)
    (a4 : S4x1024.Idx → EReal) (h0 : ∀ i, ∃ r : ℝ, a0 i = r) (h1 : ∀ i, ∃ r : ℝ, a1 i = r)
    (h2 : ∀ i, ∃ r : ℝ, a2 i = r) (h3 : ∀ i, ∃ r : ℝ, a3 i = r) (h4 : ∀ i, ∃ r : ℝ, a4 i = r) (i : S64x1.Idx) :
    ∃ Y : Fin 64 → Fin 4 × Fin 1024 → EReal, (∀ n l, ∃ r : ℝ, Y n l = r)
      ∧ RG1_6 a0 a1 a2 a3 a4 i = ∑ n, ∑ l, Y n l ∧ RG1_7 a0 a1 a2 a3 a4 i = ∑ n, ∑ l, Y n l * Y n l := by
  refine ⟨fun n pl => RP1 a0 a1 a2 a3 a4 n (i 0) pl.2 pl.1,
    fun n pl => RP1_real a0 a1 a2 a3 a4 h0 h1 h2 h3 h4 n (i 0) pl.2 pl.1, ?_, ?_⟩
  · show (∑ n : Fin 64, RQ1_6 a0 a1 a2 a3 a4 n (i 0)) = _
    refine Finset.sum_congr rfl fun n _ => ?_
    rw [Fintype.sum_prod_type, Fin.sum_univ_four]
    rfl
  · show (∑ n : Fin 64, RQ1_7 a0 a1 a2 a3 a4 n (i 0)) = _
    refine Finset.sum_congr rfl fun n _ => ?_
    rw [Fintype.sum_prod_type, Fin.sum_univ_four]
    rfl

/-- Region 6: the columns are the sum and the sum of squares of the `64 · 4096` entries of the region's main output
    in channel `i 0`. -/
theorem stats6 (y : S64x64x4096.Idx → EReal) (sc sh : S64x1.Idx → EReal) (w : S9x64x64.Idx → EReal)
    (m : S9x4096.Idx → EReal) (hy : ∀ i, ∃ r : ℝ, y i = r) (hsc : ∀ i, ∃ r : ℝ, sc i = r)
    (hsh : ∀ i, ∃ r : ℝ, sh i = r) (hw : ∀ i, ∃ r : ℝ, w i = r) (hm : ∀ i, ∃ r : ℝ, m i = r) (i : S64x1.Idx) :
    ∃ Y : Fin 64 → Fin 4096 → EReal, (∀ n l, ∃ r : ℝ, Y n l = r) ∧ RG6_6 y sc sh w m i = ∑ n, ∑ l, Y n l
      ∧ RG6_7 y sc sh w m i = ∑ n, ∑ l, Y n l * Y n l :=
  ⟨fun n l => RG6_5 y sc sh w m (ix3 n (i 0) l), fun n l => RG6_5_real y sc sh w m hy hsc hsh hw hm _, rfl, rfl⟩

/-! ## Layout operations and the site lemma -/

/-- A reshaped array of reals is an array of reals. -/
theorem shapeCast_real {s t : Shape} (x : s.Idx → EReal) (h : s.ShapeCasts t) (hx : ∀ i, ∃ r : ℝ, x i = r) :
    ∀ j, ∃ r : ℝ, shapeCast t x h j = r := fun j => hx (Shape.reshapeEquiv h j)

/-- A transposed array of reals is an array of reals. -/
theorem transpose_real {s t : Shape} (perm : List (Fin s.rank)) (x : s.Idx → EReal) (h : s.Transposes perm t)
    (hx : ∀ i, ∃ r : ℝ, x i = r) : ∀ j, ∃ r : ℝ, transpose t perm x h j = r := fun j => hx (h.src j)

/-- One batch-normalisation site: if at every row the sum column and the sum-of-squares column are the sum and the sum
    of squares of a real family with at most `c` members, and `γ`, `β` are real columns, then the scale and the shift
    columns are real. -/
theorem bn_site_real (S : Shape) (hb : S0.BroadcastsInDim S (![] : Fin 0 → Fin S.rank)) {w : BitVec 32} {c : ℝ}
    (hc : 0 < c) (hw : Ideal.ofBits .f32 w = (c : EReal)) {ν μ : Type} [Fintype ν] [Fintype μ]
    (hcard : (Fintype.card ν : ℝ) * (Fintype.card μ : ℝ) ≤ c) (s q γ β : S.Idx → EReal)
    (hst : ∀ i, ∃ Y : ν → μ → EReal, (∀ n l, ∃ r : ℝ, Y n l = r) ∧ s i = ∑ n, ∑ l, Y n l
      ∧ q i = ∑ n, ∑ l, Y n l * Y n l)
    (hγ : ∀ i, ∃ r : ℝ, γ i = r) (hβ : ∀ i, ∃ r : ℝ, β i = r) :
    (∀ i, ∃ r : ℝ, bnScale (F := Ideal) S hb w s q γ i = r)
      ∧ (∀ i, ∃ r : ℝ, bnShift (F := Ideal) S hb w s q γ β i = r) := by
  refine ⟨fun i => ?_, fun i => ?_⟩
  · obtain ⟨Y, hY, hs, hq⟩ := hst i
    exact (Cert.Lib.BnSums.scale_shift_real_of_sum₂ S hb hc hw hcard s q γ β i Y hY hs hq (hγ i) (hβ i)).1
  · obtain ⟨Y, hY, hs, hq⟩ := hst i
    exact (Cert.Lib.BnSums.scale_shift_real_of_sum₂ S hb hc hw hcard s q γ β i Y hY hs hq (hγ i) (hβ i)).2

theorem card_64x1024_le_65536 : (Fintype.card (Fin 64) : ℝ) * (Fintype.card (Fin 1024) : ℝ) ≤ 65536 := by
  simp only [Fintype.card_fin]; norm_num

theorem card_64x1024_le_262144 : (Fintype.card (Fin 64) : ℝ) * (Fintype.card (Fin 1024) : ℝ) ≤ 262144 := by
  simp only [Fintype.card_fin]; norm_num

theorem card_64x4x1024_le_262144 :
    (Fintype.card (Fin 64) : ℝ) * (Fintype.card (Fin 4 × Fin 1024) : ℝ) ≤ 262144 := by
  simp only [Fintype.card_prod, Fintype.card_fin]; norm_num

theorem card_64x4096_le_262144 : (Fintype.card (Fin 64) : ℝ) * (Fintype.card (Fin 4096) : ℝ) ≤ 262144 := by
  simp only [Fintype.card_fin]; norm_num

/-! ## The chain: every buffer of the pipeline holds reals when every argument does -/

section Chain

variable (a : Cert.Args) (h : a.AllReal)
include h

theorem rx_real : ∀ i, ∃ r : ℝ, rx a i = r := shapeCast_real _ _ h.h0

theorem ry1_real : ∀ i, ∃ r : ℝ, ry1 a i = r := RG0_2_real _ _ (rx_real a h) h.h1

theorem rsc1_sh1_real : (∀ i, ∃ r : ℝ, rsc1 a i = r) ∧ (∀ i, ∃ r : ℝ, rsh1 a i = r) :=
  bn_site_real S64x1 bcast_S_S64x1 (by norm_num) Cert.Lib.BnReal.ofBits_65536 card_64x1024_le_65536 _ _ _ _
    (stats0 _ _ (rx_real a h) h.h1) (shapeCast_real _ _ h.h5) (shapeCast_real _ _ h.h6)

theorem rsc1_real : ∀ i, ∃ r : ℝ, rsc1 a i = r := (rsc1_sh1_real a h).1
theorem rsh1_real : ∀ i, ∃ r : ℝ, rsh1 a i = r := (rsc1_sh1_real a h).2

theorem ry2_real : ∀ i, ∃ r : ℝ, ry2 a i = r :=
  RG1_5_real _ _ _ _ _ (ry1_real a h) (rsc1_real a h) (rsh1_real a h) h.h3 h.h4

theorem rsc2_sh2_real : (∀ i, ∃ r : ℝ, rsc2 a i = r) ∧ (∀ i, ∃ r : ℝ, rsh2 a i = r) :=
  bn_site_real S64x1 bcast_S_S64x1 (by norm_num) Cert.Lib.BnReal.ofBits_262144 card_64x4x1024_le_262144 _ _ _ _
    (stats1 _ _ _ _ _ (ry1_real a h) (rsc1_real a h) (rsh1_real a h) h.h3 h.h4)
    (shapeCast_real _ _ h.h7) (shapeCast_real _ _ h.h8)

theorem rsc2_real : ∀ i, ∃ r : ℝ, rsc2 a i = r := (rsc2_sh2_real a h).1
theorem rsh2_real : ∀ i, ∃ r : ℝ, rsh2 a i = r := (rsc2_sh2_real a h).2

theorem ry3_real : ∀ i, ∃ r : ℝ, ry3 a i = r :=
  RG2_4_real _ _ _ _ (ry2_real a h) (rsc2_real a h) (rsh2_real a h) h.h2

theorem rsc3_sh3_real : (∀ i, ∃ r : ℝ, rsc3 a i = r) ∧ (∀ i, ∃ r : ℝ, rsh3 a i = r) :=
  bn_site_real S256x1 bcast_S_S256x1 (by norm_num) Cert.Lib.BnReal.ofBits_262144 card_64x4096_le_262144 _ _ _ _
    (stats2 _ _ _ _ (ry2_real a h) (rsc2_real a h) (rsh2_real a h) h.h2)
    (shapeCast_real _ _ h.h9) (shapeCast_real _ _ h.h10)

theorem rsc3_real : ∀ i, ∃ r : ℝ, rsc3 a i = r := (rsc3_sh3_real a h).1
theorem rsh3_real : ∀ i, ∃ r : ℝ, rsh3 a i = r := (rsc3_sh3_real a h).2

theorem rsd_real : ∀ i, ∃ r : ℝ, rsd a i = r := RG3_2_real _ _ (rx_real a h) h.h11

theorem rscs_shs_real : (∀ i, ∃ r : ℝ, rscs a i = r) ∧ (∀ i, ∃ r : ℝ, rshs a i = r) :=
  bn_site_real S256x1 bcast_S_S256x1 (by norm_num) Cert.Lib.BnReal.ofBits_262144 card_64x1024_le_262144 _ _ _ _
    (stats3 _ _ (rx_real a h) h.h11) (shapeCast_real _ _ h.h12) (shapeCast_real _ _ h.h13)

theorem rscs_real : ∀ i, ∃ r : ℝ, rscs a i = r := (rscs_shs_real a h).1
theorem rshs_real : ∀ i, ∃ r : ℝ, rshs a i = r := (rscs_shs_real a h).2

theorem rout_ph_real : ∀ i, ∃ r : ℝ, rout_ph a i = r :=
  RG4_6_real _ _ _ _ _ _ (ry3_real a h) (rsd_real a h) (rsc3_real a h) (rsh3_real a h) (rscs_real a h) (rshs_real a h)

theorem rout0_real : ∀ i, ∃ r : ℝ, rout0 a i = r :=
  shapeCast_real _ _ (transpose_real _ _ _ (shapeCast_real _ _ (rout_ph_real a h)))

theorem ry11_real : ∀ i, ∃ r : ℝ, ry11 a i = r := RG5_2_real _ _ (rout0_real a h) h.h14

theorem rsc11_sh11_real : (∀ i, ∃ r : ℝ, rsc11 a i = r) ∧ (∀ i, ∃ r : ℝ, rsh11 a i = r) :=
  bn_site_real S64x1 bcast_S_S64x1 (by norm_num) Cert.Lib.BnReal.ofBits_262144 card_64x4096_le_262144 _ _ _ _
    (stats5 _ _ (rout0_real a h) h.h14) (shapeCast_real _ _ h.h18) (shapeCast_real _ _ h.h19)

theorem rsc11_real : ∀ i, ∃ r : ℝ, rsc11 a i = r := (rsc11_sh11_real a h).1
theorem rsh11_real : ∀ i, ∃ r : ℝ, rsh11 a i = r := (rsc11_sh11_real a h).2

theorem ry2b_real : ∀ i, ∃ r : ℝ, ry2b a i = r :=
  RG6_5_real _ _ _ _ _ (ry11_real a h) (rsc11_real a h) (rsh11_real a h) h.h16 h.h17

theorem rsc2b_sh2b_real : (∀ i, ∃ r : ℝ, rsc2b a i = r) ∧ (∀ i, ∃ r : ℝ, rsh2b a i = r) :=
  bn_site_real S64x1 bcast_S_S64x1 (by norm_num) Cert.Lib.BnReal.ofBits_262144 card_64x4096_le_262144 _ _ _ _
    (stats6 _ _ _ _ _ (ry11_real a h) (rsc11_real a h) (rsh11_real a h) h.h16 h.h17)
    (shapeCast_real _ _ h.h20) (shapeCast_real _ _ h.h21)

theorem rsc2b_real : ∀ i, ∃ r : ℝ, rsc2b a i = r := (rsc2b_sh2b_real a h).1
theorem rsh2b_real : ∀ i, ∃ r : ℝ, rsh2b a i = r := (rsc2b_sh2b_real a h).2

theorem ry3b_real : ∀ i, ∃ r : ℝ, ry3b a i = r :=
  RG7_4_real _ _ _ _ (ry2b_real a h) (rsc2b_real a h) (rsh2b_real a h) h.h15

theorem rsc3b_sh3b_real : (∀ i, ∃ r : ℝ, rsc3b a i = r) ∧ (∀ i, ∃ r : ℝ, rsh3b a i = r) :=
  bn_site_real S256x1 bcast_S_S256x1 (by norm_num) Cert.Lib.BnReal.ofBits_262144 card_64x4096_le_262144 _ _ _ _
    (stats7 _ _ _ _ (ry2b_real a h) (rsc2b_real a h) (rsh2b_real a h) h.h15)
    (shapeCast_real _ _ h.h22) (shapeCast_real _ _ h.h23)

theorem rsc3b_real : ∀ i, ∃ r : ℝ, rsc3b a i = r := (rsc3b_sh3b_real a h).1
theorem rsh3b_real : ∀ i, ∃ r : ℝ, rsh3b a i = r := (rsc3b_sh3b_real a h).2

theorem rout_real : ∀ i, ∃ r : ℝ, rout a i = r :=
  RG8_4_real _ _ _ _ (ry3b_real a h) (rout0_real a h) (rsc3b_real a h) (rsh3b_real a h)

theorem rResult_real : ∀ i, ∃ r : ℝ, rResult a i = r := shapeCast_real _ _ (rout_real a h)

end Chain

end Cert.ReferenceIdeal.Val

end
-- ==== Proof.StageE.lean ====
import proofs.«159567_g2000302752657622_pallasbulk_725_3_alg».proof.Proof.KerV3b
import proofs.«159567_g2000302752657622_pallasbulk_725_3_alg».proof.Proof.RefV5
import proofs.«159567_g2000302752657622_pallasbulk_725_3_alg».proof.Proof.LibUninterleave

set_option maxRecDepth 16384

noncomputable section

namespace Cert.Bridge

open Idealize.ShloMosaic Idealize.ShloMosaic.ValueIdx
open Cert.Lib.Unint
open Cert.ReferenceIdeal Cert.ReferenceIdeal.Val
open scoped BigOperators

/-! # Stage E: the second block's first 1×1 convolution and its statistics

The kernel convolves the first block's output while it is still phase-major and un-interleaves the result; the
reference un-interleaves first and convolves after. A 1×1 convolution acts on each lane separately, so the two
orders give the same array; and the per-channel sums over all images and lanes, of the result and of its square, do
not see the order of the lanes. Only regrouping of finite sums is used: nothing here needs the entries to be real. -/

/-- The reference's convolution is the 1×1 convolution. -/
theorem RG5_2_eq_conv1x1 (x : S64x256x4096.Idx → EReal) (w : S64x256.Idx → EReal) : RG5_2 x w = conv1x1 x w := rfl

/-- The un-interleaved convolution of the phase-major array is the reference's convolution of the un-interleaved array. -/
theorem stageE_y11 (x : S64x256x4096.Idx → EReal) (w : S64x256.Idx → EReal) (y : S64x64x4096.Idx → EReal)
    (hy : y = conv1x1 x w) : unint y = RG5_2 (unint x) w := by
  rw [hy, unint_conv1x1]
  rfl

/-- The image sum of the per-image lane sums of the phase-major convolution is the reference's per-channel sum. -/
theorem stageE_s11 (x : S64x256x4096.Idx → EReal) (w : S64x256.Idx → EReal) (s : Cert.KernelIdeal.S64x64x1.Idx → EReal)
    (hs : ∀ (n : Fin 64) (o : Fin 64) (z : Fin 1), s (ix3 n o z) = ∑ L : Fin 4096, conv1x1 x w (ix3 n o L)) :
    imageSum s = RG5_3 (unint x) w := by
  funext j
  obtain ⟨o, z, rfl⟩ : ∃ (o : Fin 64) (z : Fin 1), j = ix2 o z := ⟨j 0, j 1, eq_ix2 j⟩
  rw [imageSum_ix2, RG5_3_at]
  refine Finset.sum_congr rfl fun n _ => ?_
  rw [hs n o z]
  exact (sum_conv1x1_unint x w n o).symm

/-- The same for the sums of squares. -/
theorem stageE_q11 (x : S64x256x4096.Idx → EReal) (w : S64x256.Idx → EReal) (q : Cert.KernelIdeal.S64x64x1.Idx → EReal)
    (hq : ∀ (n : Fin 64) (o : Fin 64) (z : Fin 1),
      q (ix3 n o z) = ∑ L : Fin 4096, conv1x1 x w (ix3 n o L) * conv1x1 x w (ix3 n o L)) :
    imageSum q = RG5_4 (unint x) w := by
  funext j
  obtain ⟨o, z, rfl⟩ : ∃ (o : Fin 64) (z : Fin 1), j = ix2 o z := ⟨j 0, j 1, eq_ix2 j⟩
  rw [imageSum_ix2, RG5_4_at]
  refine Finset.sum_congr rfl fun n _ => ?_
  rw [hq n o z]
  exact (sum_sq_conv1x1_unint x w n o).symm

/-! ## The stage at the kernel's third region

The kernel's second output of its third region is the 1×1 convolution, by the second block's first weight matrix, of that
region's first output (still phase-major); its third and fourth outputs are the per-image lane sums of that convolution
and of its square. -/

section AtRegion3
variable (a0 a1 : Cert.KernelIdeal.S64x256x1024.Idx → EReal) (a2 a3 : Cert.KernelIdeal.S64x1.Idx → EReal)
  (a4 : Cert.KernelIdeal.S256x64.Idx → EReal) (a5 a6 a7 a8 : Cert.KernelIdeal.S256x1.Idx → EReal)
  (a9 : Cert.KernelIdeal.S64x256.Idx → EReal)

/-- The kernel's convolution output is the 1×1 convolution of its main output. -/
theorem G3_11_eq_conv1x1 :
    Cert.KernelIdeal.Val.G3_11 a0 a1 a2 a3 a4 a5 a6 a7 a8 a9
      = conv1x1 (Cert.KernelIdeal.Val.G3_10 a0 a1 a2 a3 a4 a5 a6 a7 a8) a9 := rfl

/-- Un-interleaved, the kernel's convolution output is the reference's convolution of the un-interleaved main output. -/
theorem stageE_G3_11 :
    unint (Cert.KernelIdeal.Val.G3_11 a0 a1 a2 a3 a4 a5 a6 a7 a8 a9)
      = RG5_2 (unint (Cert.KernelIdeal.Val.G3_10 a0 a1 a2 a3 a4 a5 a6 a7 a8)) a9 :=
  stageE_y11 _ a9 _ (G3_11_eq_conv1x1 a0 a1 a2 a3 a4 a5 a6 a7 a8 a9)

/-- The image sum of the kernel's per-image sums is the reference's per-channel sum. -/
theorem stageE_G3_12 :
    imageSum (Cert.KernelIdeal.Val.G3_12 a0 a1 a2 a3 a4 a5 a6 a7 a8 a9)
      = RG5_3 (unint (Cert.KernelIdeal.Val.G3_10 a0 a1 a2 a3 a4 a5 a6 a7 a8)) a9 :=
  stageE_s11 _ a9 _ fun n o z => rfl

/-- The image sum of the kernel's per-image sums of squares is the reference's per-channel sum of squares. -/
theorem stageE_G3_13 :
    imageSum (Cert.KernelIdeal.Val.G3_13 a0 a1 a2 a3 a4 a5 a6 a7 a8 a9)
      = RG5_4 (unint (Cert.KernelIdeal.Val.G3_10 a0 a1 a2 a3 a4 a5 a6 a7 a8)) a9 :=
  stageE_q11 _ a9 _ fun n o z => rfl

end AtRegion3

end Cert.Bridge

end
-- ==== Proof.StageF.lean ====
/- The second 3×3 convolution of the two programs agrees: one product of the nine taps laid side by side against
   the nine stacked masked lane windows is the nine per-tap products added from tap 0 to tap 8; the per-image row sums
   added over the images are the sums over all images and lanes. -/
import proofs.«159567_g2000302752657622_pallasbulk_725_3_alg».proof.Proof.KerV4
import proofs.«159567_g2000302752657622_pallasbulk_725_3_alg».proof.Proof.KerHIdx
import proofs.«159567_g2000302752657622_pallasbulk_725_3_alg».proof.Proof.RefV6d
import proofs.«159567_g2000302752657622_pallasbulk_725_3_alg».proof.Proof.LibTaps

noncomputable section

namespace Cert.Bridge

open Cert.KernelIdeal Cert.KernelIdeal.Gen Cert.KernelIdeal.Val Cert.KernelIdeal.Val.K4 Cert.ReferenceIdeal.Val Cert.Lib.Taps
open Idealize.ShloMosaic Idealize.ShloMosaic.ValueIdx
open scoped BigOperators

/-- Row t·64 + b of the nine stacked taps is tap t of channel b. -/
theorem stageF_zs_flat (zp : Fin 64 → Fin 4352 → EReal) (mask : Fin 9 → Fin 4096 → EReal) (t : Fin 9) (b : Fin 64) (l : Fin 4096) :
    zs zp mask ⟨t.val * 64 + b.val, idx_lt (a := 9) t b⟩ l = tapv zp mask t b l := by
  have hb : b.val < 64 := b.isLt
  have ht : t.val < 9 := t.isLt
  have h1 : (⟨(t.val * 64 + b.val) / 64, by omega⟩ : Fin 9) = t := Fin.ext (by show (t.val * 64 + b.val) / 64 = t.val; omega)
  have h2 : (⟨(t.val * 64 + b.val) % 64, Nat.mod_lt _ (by decide)⟩ : Fin 64) = b :=
    Fin.ext (by show (t.val * 64 + b.val) % 64 = b.val; omega)
  show tapv zp mask ⟨(t.val * 64 + b.val) / 64, _⟩ ⟨(t.val * 64 + b.val) % 64, _⟩ l = _
  rw [h1, h2]

/-- The stacked product is the nine taps' products added one after the other from tap 0 to tap 8, when the
    stacked weights' column t·64 + b is tap t's column b. -/
theorem stageF_conv4_nested (W : Fin 64 → Fin 576 → EReal) (w : Fin 9 → Fin 64 → Fin 64 → EReal)
    (zp : Fin 64 → Fin 4352 → EReal) (mask : Fin 9 → Fin 4096 → EReal)
    (hW : ∀ (c : Fin 64) (t : Fin 9) (b : Fin 64), W c ⟨t.val * 64 + b.val, idx_lt (a := 9) t b⟩ = w t c b)
    (c : Fin 64) (l : Fin 4096) :
    conv4 W zp mask c l
      = (∑ b : Fin 64, w 0 c b * tapv zp mask 0 b l) + (∑ b : Fin 64, w 1 c b * tapv zp mask 1 b l)
        + (∑ b : Fin 64, w 2 c b * tapv zp mask 2 b l) + (∑ b : Fin 64, w 3 c b * tapv zp mask 3 b l)
        + (∑ b : Fin 64, w 4 c b * tapv zp mask 4 b l) + (∑ b : Fin 64, w 5 c b * tapv zp mask 5 b l)
        + (∑ b : Fin 64, w 6 c b * tapv zp mask 6 b l) + (∑ b : Fin 64, w 7 c b * tapv zp mask 7 b l)
        + (∑ b : Fin 64, w 8 c b * tapv zp mask 8 b l) :=
  stacked_eq_nested (fun t b => w t c b) (fun t b => tapv zp mask t b l) (fun k => W c k) (fun k => zs zp mask k l)
    (fun t b => hW c t b) (fun t b => stageF_zs_flat zp mask t b l)

/-! ## The second 3×3 convolution: one product with the nine taps side by side against nine products added in turn

y is the operand, [64,64,4096]; sc, sh its per-channel scale and shift; wtaps the nine [64,64] taps; wcat the same taps
side by side, [64,576] (column t·64 + b is tap t's column b); masks the nine mask rows. Both sides take
z = sin(y·sc + sh), put 128 zero lanes on each side of it and read tap t's window from lane off t on, times mask row t.
The product of wcat's row against the 576 stacked window rows is the sum of the nine taps' products; the per-image row
sums added over the images are the sums over all images and lanes. Nothing here needs the entries to be reals. -/

section Conv1

variable (y : S64x64x4096.Idx → EReal) (sc sh : S64x1.Idx → EReal) (wcat : S64x576.Idx → EReal)
  (wtaps : S9x64x64.Idx → EReal) (masks : S9x4096.Idx → EReal)

/-- The convolution's output: the stacked product is the nine taps added from tap 0 to tap 8. -/
theorem stageF_y
    (hw : ∀ (c : Fin 64) (t : Fin 9) (c' : Fin 64),
      wcat (ix2 c ⟨t.val * 64 + c'.val, idx_lt (a := 9) t c'⟩) = wtaps (ix3 t c c')) :
    G4_5 y sc sh wcat masks = RG6_5 y sc sh wtaps masks := by
  funext i
  show y4 y sc sh wcat masks (i 0) (i 1) (i 2) = _
  unfold y4
  refine (stageF_conv4_nested (fun c k => wcat (ix2 c k)) (fun t a b => wtaps (ix3 t a b)) _ _
    (fun c t b => hw c t b) (i 1) (i 2)).trans ?_
  rfl

/-- The row sums, added over the images: the sums of the nine-tap output over all images and lanes. -/
theorem stageF_s
    (hw : ∀ (c : Fin 64) (t : Fin 9) (c' : Fin 64),
      wcat (ix2 c ⟨t.val * 64 + c'.val, idx_lt (a := 9) t c'⟩) = wtaps (ix3 t c c')) :
    Host.reduceAdd (F := Ideal) (G4_6 y sc sh wcat masks) (constant S_ .f32 0x00000000#32)
        reducesTo_S64x64x1_S64x1_d0 h_S_
      = RG6_6 y sc sh wtaps masks := by
  funext i
  obtain ⟨p, z, rfl⟩ : ∃ (p : Fin 64) (z : Fin 1), i = ix2 p z := ⟨i 0, i 1, eq_ix2 i⟩
  refine (colSum64_apply _ p z).trans ?_
  rw [RG6_6_at]
  refine Finset.sum_congr rfl fun n _ => Finset.sum_congr rfl fun l _ => ?_
  exact congrFun (stageF_y y sc sh wcat wtaps masks hw) (ix3 n p l)

/-- The row sums of squares, added over the images. -/
theorem stageF_q
    (hw : ∀ (c : Fin 64) (t : Fin 9) (c' : Fin 64),
      wcat (ix2 c ⟨t.val * 64 + c'.val, idx_lt (a := 9) t c'⟩) = wtaps (ix3 t c c')) :
    Host.reduceAdd (F := Ideal) (G4_7 y sc sh wcat masks) (constant S_ .f32 0x00000000#32)
        reducesTo_S64x64x1_S64x1_d0 h_S_
      = RG6_7 y sc sh wtaps masks := by
  funext i
  obtain ⟨p, z, rfl⟩ : ∃ (p : Fin 64) (z : Fin 1), i = ix2 p z := ⟨i 0, i 1, eq_ix2 i⟩
  refine (colSum64_apply _ p z).trans ?_
  rw [RG6_7_at]
  refine Finset.sum_congr rfl fun n _ => Finset.sum_congr rfl fun l _ => ?_
  have e := congrFun (stageF_y y sc sh wcat wtaps masks hw) (ix3 n p l)
  show G4_5 y sc sh wcat masks (ix3 n p l) * G4_5 y sc sh wcat masks (ix3 n p l) = _
  rw [e]

end Conv1

end Cert.Bridge

end
-- ==== Proof.StageG.lean ====
import proofs.«159567_g2000302752657622_pallasbulk_725_3_alg».proof.Proof.KerV5
import proofs.«159567_g2000302752657622_pallasbulk_725_3_alg».proof.Proof.KerH6
import proofs.«159567_g2000302752657622_pallasbulk_725_3_alg».proof.Proof.KerHIdx
import proofs.«159567_g2000302752657622_pallasbulk_725_3_alg».proof.Proof.RefV7
import proofs.«159567_g2000302752657622_pallasbulk_725_3_alg».proof.Proof.LibGram

noncomputable section

namespace Cert.Bridge

open Cert.KernelIdeal Cert.KernelIdeal.Gen Cert.KernelIdeal.Val Cert.ReferenceIdeal.Val
open Idealize.ShloMosaic Idealize.ShloMosaic.ValueIdx
open scoped BigOperators

/-! ## The statistics of the second block's last convolution, from the Gram matrix of its input

y is the convolution's input, [64,64,4096]; sc, sh the [64,1] scale and shift columns; w the [256,64] weight. With
z[n,k,l] = sin(y[n,k,l]·sc[k] + sh[k]) the convolution's output is v[n,c,l] = ∑ k, w[c,k]·z[n,k,l]. One side sums v and
v² over all images and lanes directly. The other forms, per image, the lane sums s[n,k] = ∑ l, z[n,k,l] and the Gram
matrix g[n,k,j] = ∑ l, z[n,k,l]·z[n,j,l], adds them over the images, and recovers the two statistics as w·s and as the
row sums of (w·g) ⊙ w. The two agree because the entries are reals: a finite sum distributes over the products. -/

section GramBlock1

variable (y : S64x64x4096.Idx → EReal) (sc sh : S64x1.Idx → EReal) (w : S256x64.Idx → EReal)

/-- The convolution's output at image n, channel c, lane L: the weight's row c applied to the activations. -/
theorem yR7_eq_z5 (n : Fin 64) (c : Fin 256) (L : Fin 4096) :
    yR7 y sc sh w n c L = ∑ k : Fin 64, w (ix2 c k) * z5 y sc sh n k L := rfl

/-- The channel sums: the weight applied to the image-summed lane sums of the activations is the sum of the
    convolution's output over all images and lanes. -/
theorem stageG_sum (hy : ∀ i, ∃ r : ℝ, y i = (r : EReal)) (hsc : ∀ i, ∃ r : ℝ, sc i = (r : EReal))
    (hsh : ∀ i, ∃ r : ℝ, sh i = (r : EReal)) (hw : ∀ i, ∃ r : ℝ, w i = (r : EReal)) :
    gramS w (Host.reduceAdd (F := Ideal) (G5_4 y sc sh) (constant S_ .f32 0x00000000#32) reducesTo_S64x64x1_S64x1_d0 h_S_)
      = RG7_5 y sc sh w := by
  funext i
  obtain ⟨c, e, rfl⟩ : ∃ (c : Fin 256) (e : Fin 1), i = ix2 c e := ⟨i 0, i 1, eq_ix2 i⟩
  rw [gramS_apply]
  refine (Finset.sum_congr rfl fun k _ => congrArg (w (ix2 c k) * ·) (colSum64_apply (G5_4 y sc sh) k e)).trans ?_
  show ∑ k : Fin 64, w (ix2 c k) * ∑ n : Fin 64, ∑ l : Fin 4096, z5 y sc sh n k l
    = ∑ n : Fin 64, ∑ l : Fin 4096, ∑ k : Fin 64, w (ix2 c k) * z5 y sc sh n k l
  exact (Cert.Lib.Gram.sum_linear_pairs (fun k : Fin 64 => w (ix2 c k)) (fun (k n : Fin 64) (l : Fin 4096) => z5 y sc sh n k l)
    (fun k => hw (ix2 c k)) (fun k n l => z5_real hy hsc hsh n k l)).symm

/-- The channel sums of squares: the row sums of (w · G) ⊙ w, with G the image-summed Gram matrix of the activations, are
    the sums of the squared output over all images and lanes. -/
theorem stageG_sq (hy : ∀ i, ∃ r : ℝ, y i = (r : EReal)) (hsc : ∀ i, ∃ r : ℝ, sc i = (r : EReal))
    (hsh : ∀ i, ∃ r : ℝ, sh i = (r : EReal)) (hw : ∀ i, ∃ r : ℝ, w i = (r : EReal)) :
    gramQ w (Host.reduceAdd (F := Ideal) (G5_3 y sc sh) (constant S_ .f32 0x00000000#32) reducesTo_S64x64x64_S64x64_d0 h_S_)
      = RG7_6 y sc sh w := by
  funext i
  obtain ⟨c, e, rfl⟩ : ∃ (c : Fin 256) (e : Fin 1), i = ix2 c e := ⟨i 0, i 1, eq_ix2 i⟩
  rw [gramQ_apply]
  refine (Finset.sum_congr rfl fun j _ => congrArg (· * w (ix2 c j))
    (Finset.sum_congr rfl fun k _ => congrArg (w (ix2 c k) * ·) (gramSum_apply (G5_3 y sc sh) k j))).trans ?_
  show ∑ j : Fin 64, (∑ k : Fin 64, w (ix2 c k) * ∑ n : Fin 64, ∑ l : Fin 4096, z5 y sc sh n k l * z5 y sc sh n j l) * w (ix2 c j)
    = ∑ n : Fin 64, ∑ l : Fin 4096, (∑ k : Fin 64, w (ix2 c k) * z5 y sc sh n k l) * (∑ k : Fin 64, w (ix2 c k) * z5 y sc sh n k l)
  exact (Cert.Lib.Gram.sum_sq_linear_pairs (fun k : Fin 64 => w (ix2 c k)) (fun (k n : Fin 64) (l : Fin 4096) => z5 y sc sh n k l)
    (fun k => hw (ix2 c k)) (fun k n l => z5_real hy hsc hsh n k l)).symm

end GramBlock1

end Cert.Bridge

end
-- ==== Proof.StageH.lean ====
import proofs.«159567_g2000302752657622_pallasbulk_725_3_alg».proof.Proof.KerV6
import proofs.«159567_g2000302752657622_pallasbulk_725_3_alg».proof.Proof.RefV8
import proofs.«159567_g2000302752657622_pallasbulk_725_3_alg».proof.Proof.RefV7

noncomputable section

namespace Cert.Bridge

open Idealize.ShloMosaic Idealize.ShloMosaic.ValueIdx
open scoped BigOperators

/-! # The last stage: the kernel's final region against the reference's last two regions

The kernel's final region computes, in one body, the 1×1 convolution W · sin(y · sc2 + sh2) of an image and the
pointwise step  · sc3 + sh3 + res  on it. The reference does the convolution in one region and the pointwise step in
the next. With the same arrays going in, the two output arrays are the same function, index by index: no regrouping
of sums is needed, only the substitution of the convolution's array into the pointwise step. -/

/-- The kernel's final output is the reference's pointwise step applied to ANY array `y3` that is, index by index, the
    convolution W · sin(y · sc2 + sh2) of the same inputs. -/
theorem stageH_of (y2b : (⟨3, ![64, 64, 4096]⟩ : Shape).Idx → EReal) (res : (⟨3, ![64, 256, 4096]⟩ : Shape).Idx → EReal)
    (sc2 sh2 : (⟨2, ![64, 1]⟩ : Shape).Idx → EReal) (w3 : (⟨2, ![256, 64]⟩ : Shape).Idx → EReal)
    (sc3 sh3 : (⟨2, ![256, 1]⟩ : Shape).Idx → EReal) (y3 : (⟨3, ![64, 256, 4096]⟩ : Shape).Idx → EReal)
    (hy3 : ∀ i, y3 i = ∑ k : Fin 64, w3 (ix2 (i 1) k) * Ideal.sin (y2b (ix3 (i 0) k (i 2)) * sc2 (ix2 k 0) + sh2 (ix2 k 0))) :
    Cert.KernelIdeal.Val.G6_7 y2b res sc2 sh2 w3 sc3 sh3 = Cert.ReferenceIdeal.Val.RG8_4 y3 res sc3 sh3 := by
  funext i
  unfold Cert.KernelIdeal.Val.G6_7 Cert.ReferenceIdeal.Val.RG8_4
  rw [hy3 i]

/-- The kernel's final output array is the reference's: the reference's convolution region feeding its pointwise region,
    on the same seven input arrays. -/
theorem stageH (y2b : (⟨3, ![64, 64, 4096]⟩ : Shape).Idx → EReal) (res : (⟨3, ![64, 256, 4096]⟩ : Shape).Idx → EReal)
    (sc2 sh2 : (⟨2, ![64, 1]⟩ : Shape).Idx → EReal) (w3 : (⟨2, ![256, 64]⟩ : Shape).Idx → EReal)
    (sc3 sh3 : (⟨2, ![256, 1]⟩ : Shape).Idx → EReal) :
    Cert.KernelIdeal.Val.G6_7 y2b res sc2 sh2 w3 sc3 sh3
      = Cert.ReferenceIdeal.Val.RG8_4 (Cert.ReferenceIdeal.Val.RG7_4 y2b sc2 sh2 w3) res sc3 sh3 :=
  stageH_of y2b res sc2 sh2 w3 sc3 sh3 (Cert.ReferenceIdeal.Val.RG7_4 y2b sc2 sh2 w3) fun _ => rfl

end Cert.Bridge
-- ==== Proof.BridgeBlock1.lean ====
import proofs.«159567_g2000302752657622_pallasbulk_725_3_alg».proof.Proof.Args
import proofs.«159567_g2000302752657622_pallasbulk_725_3_alg».proof.Proof.KerDefs
import proofs.«159567_g2000302752657622_pallasbulk_725_3_alg».proof.Proof.RefDefs
import proofs.«159567_g2000302752657622_pallasbulk_725_3_alg».proof.Proof.RefReal
import proofs.«159567_g2000302752657622_pallasbulk_725_3_alg».proof.Proof.StageE
import proofs.«159567_g2000302752657622_pallasbulk_725_3_alg».proof.Proof.StageF
import proofs.«159567_g2000302752657622_pallasbulk_725_3_alg».proof.Proof.StageG
import proofs.«159567_g2000302752657622_pallasbulk_725_3_alg».proof.Proof.StageH
import proofs.«159567_g2000302752657622_pallasbulk_725_3_alg».proof.Proof.KerH0a
import proofs.«159567_g2000302752657622_pallasbulk_725_3_alg».proof.Proof.LibUninterleave
import proofs.«159567_g2000302752657622_pallasbulk_725_3_alg».proof.Proof.LibTaps

set_option maxRecDepth 16384

noncomputable section

namespace Cert.Bridge

open Cert.KernelIdeal Cert.KernelIdeal.Gen Cert.KernelIdeal.Val Cert.ReferenceIdeal.Val
open Idealize.ShloMosaic Idealize.ShloMosaic.ValueIdx
open Cert.Lib.Unint

/-! # The second block: from equal first-block outputs to equal results

Every buffer of the second block, on the one side and on the other, in pipeline order: the first 1×1 convolution and its
statistics, the 3×3 convolution and its statistics, the last 1×1 convolution's statistics through the Gram matrix, the
last region, the result. Each pair is equal because the pair before is and the stage's two whole-array functions agree. -/

/-- With the first block's outputs equal, and every argument entry a real, the two results are equal. -/
theorem block1 (a : Cert.Args) (h : a.AllReal) (hout0 : kout0 a = rout0 a) : kResult a = rResult a := by
  -- a conversion to the narrower format is the identity on the extended reals
  have hw1 : kw1_1 a = a.a14 := funext fun i => truncf_apply (ψ := .bf16) _ bitsLt_bf16_f32 i
  have hw3 : kw3_1 a = a.a15 := funext fun i => truncf_apply (ψ := .bf16) _ bitsLt_bf16_f32 i
  have hwc : ∀ (c : Fin 64) (t : Fin 9) (c' : Fin 64),
      kwcat1 a (ix2 c ⟨t.val * 64 + c'.val, Cert.Lib.Taps.idx_lt (a := 9) t c'⟩) = a.a16 (ix3 t c c') := fun c t c' =>
    (truncf_apply (ψ := .bf16) _ bitsLt_bf16_f32 _).trans (sideBySide_apply a.a16 c t c')
  -- the first 1×1 convolution, lanes back in position order, and its statistics
  have hy11 : ky11 a = ry11 a := by
    unfold ky11 ky11ph ry11
    rw [stageE_G3_11, hw1, ← hout0]
    rfl
  have hS11 : Host.reduceAdd (F := Ideal) (ks11 a) (constant S_ .f32 0x00000000#32) reducesTo_S64x64x1_S64x1_d0 h_S_ = rS11 a := by
    rw [reduceAdd_eq_imageSum _ _ _ (by decide)]
    unfold ks11 rS11
    rw [stageE_G3_12, hw1, ← hout0]
    rfl
  have hQ11 : Host.reduceAdd (F := Ideal) (kq11 a) (constant S_ .f32 0x00000000#32) reducesTo_S64x64x1_S64x1_d0 h_S_ = rQ11 a := by
    rw [reduceAdd_eq_imageSum _ _ _ (by decide)]
    unfold kq11 rQ11
    rw [stageE_G3_13, hw1, ← hout0]
    rfl
  have hsc11 : ksc11 a = rsc11 a := by
    unfold ksc11 rsc11
    rw [hS11, hQ11] <;> rfl
  have hsh11 : ksh11 a = rsh11 a := by
    unfold ksh11 rsh11
    rw [hS11, hQ11] <;> rfl
  -- the 3×3 convolution and its statistics
  have hy2b : ky2b a = ry2b a := by
    unfold ky2b ry2b
    rw [hy11, hsc11, hsh11]
    exact stageF_y _ _ _ _ _ _ hwc
  have hS2b : Host.reduceAdd (F := Ideal) (ks2b a) (constant S_ .f32 0x00000000#32) reducesTo_S64x64x1_S64x1_d0 h_S_ = rS2b a := by
    unfold ks2b rS2b
    rw [hy11, hsc11, hsh11]
    exact stageF_s _ _ _ _ _ _ hwc
  have hQ2b : Host.reduceAdd (F := Ideal) (kq2b a) (constant S_ .f32 0x00000000#32) reducesTo_S64x64x1_S64x1_d0 h_S_ = rQ2b a := by
    unfold kq2b rQ2b
    rw [hy11, hsc11, hsh11]
    exact stageF_q _ _ _ _ _ _ hwc
  have hsc2b : ksc2b a = rsc2b a := by
    unfold ksc2b rsc2b
    rw [hS2b, hQ2b] <;> rfl
  have hsh2b : ksh2b a = rsh2b a := by
    unfold ksh2b rsh2b
    rw [hS2b, hQ2b] <;> rfl
  -- the last 1×1 convolution's statistics, recovered from the Gram matrix: here the entries must be reals
  have hS3b : gramS (a.a15 : S256x64.Idx → Elt Ideal .f32)
      (Host.reduceAdd (F := Ideal) (kzs1 a) (constant S_ .f32 0x00000000#32) reducesTo_S64x64x1_S64x1_d0 h_S_) = rS3b a := by
    unfold kzs1 rS3b
    rw [hy2b, hsc2b, hsh2b]
    exact stageG_sum _ _ _ _ (ry2b_real a h) (rsc2b_real a h) (rsh2b_real a h) h.h15
  have hQ3b : gramQ (a.a15 : S256x64.Idx → Elt Ideal .f32)
      (Host.reduceAdd (F := Ideal) (kg1 a) (constant S_ .f32 0x00000000#32) reducesTo_S64x64x64_S64x64_d0 h_S_) = rQ3b a := by
    unfold kg1 rQ3b
    rw [hy2b, hsc2b, hsh2b]
    exact stageG_sq _ _ _ _ (ry2b_real a h) (rsc2b_real a h) (rsh2b_real a h) h.h15
  have hsc3b : ksc3b a = rsc3b a := by
    unfold ksc3b rsc3b
    rw [hS3b, hQ3b] <;> rfl
  have hsh3b : ksh3b a = rsh3b a := by
    unfold ksh3b rsh3b
    rw [hS3b, hQ3b] <;> rfl
  -- the last region and the result
  have hout : kout a = rout a := by
    unfold kout rout ry3b
    rw [hy2b, hout0, hsc2b, hsh2b, hw3, hsc3b, hsh3b]
    exact stageH _ _ _ _ _ _ _
  unfold kResult rResult
  rw [hout] <;> rfl

end Cert.Bridge

end
-- ==== Proof.BridgeEq.lean ====
import proofs.«159567_g2000302752657622_pallasbulk_725_3_alg».proof.Proof.KerDefs
import proofs.«159567_g2000302752657622_pallasbulk_725_3_alg».proof.Proof.RefDefs
import proofs.«159567_g2000302752657622_pallasbulk_725_3_alg».proof.Proof.LibUninterleave
import proofs.«159567_g2000302752657622_pallasbulk_725_3_alg».proof.Proof.BridgeEq1
import proofs.«159567_g2000302752657622_pallasbulk_725_3_alg».proof.Proof.StageC
import proofs.«159567_g2000302752657622_pallasbulk_725_3_alg».proof.Proof.StageD
import proofs.«159567_g2000302752657622_pallasbulk_725_3_alg».proof.Proof.RefReal
import proofs.«159567_g2000302752657622_pallasbulk_725_3_alg».proof.Proof.BridgeBlock1

set_option maxRecDepth 16384

noncomputable section

namespace Cert.Bridge

open Idealize.ShloMosaic Idealize.ShloMosaic.ValueIdx
open Cert.KernelIdeal Cert.KernelIdeal.Gen Cert.KernelIdeal.Val Cert.ReferenceIdeal.Val

/-! # The first block's last layer and its result

With the second layer's output related in its two layouts (rows phase·64 + channel on one side, lanes phase·1024 + position
on the other) and its scale and shift columns equal, the per-channel sums of the third layer's product and of its square —
which one program recovers from the Gram matrix of sin(bn(y2)) and the other accumulates over the grid — are equal when the
entries are reals; so the third scale and shift columns are equal, the first block's output is the same array, and so is
its un-interleaved form. -/

/-- The sum column of the third layer's product. -/
theorem eq_S3 (a : Cert.Args) (h : a.AllReal) :
    gramS (a.a2 : S256x64.Idx → Elt Ideal .f32)
        (Host.reduceAdd (F := Ideal) (kzs0 a) (constant S_ .f32 0x00000000#32) reducesTo_S64x64x1_S64x1_d0 h_S_)
      = rS3 a := by
  unfold kzs0 rS3
  rw [eq_sc2 a, eq_sh2 a]
  exact stageC_sum (ky2 a) (ry2 a) (rsc2 a) (rsh2 a) a.a2 (rel_y2 a) (ry2_real a h) (rsc2_real a h) (rsh2_real a h) h.h2

/-- The sum-of-squares column of the third layer's product. -/
theorem eq_Q3 (a : Cert.Args) (h : a.AllReal) :
    gramQ (a.a2 : S256x64.Idx → Elt Ideal .f32)
        (Host.reduceAdd (F := Ideal) (kg0 a) (constant S_ .f32 0x00000000#32) reducesTo_S64x64x64_S64x64_d0 h_S_)
      = rQ3 a := by
  unfold kg0 rQ3
  rw [eq_sc2 a, eq_sh2 a]
  exact stageC_sq (ky2 a) (ry2 a) (rsc2 a) (rsh2 a) a.a2 (rel_y2 a) (ry2_real a h) (rsc2_real a h) (rsh2_real a h) h.h2

/-- The third scale column: the same function of equal sums. -/
theorem eq_sc3 (a : Cert.Args) (h : a.AllReal) : ksc3 a = rsc3 a := by
  unfold ksc3 rsc3
  rw [eq_S3 a h, eq_Q3 a h]

/-- The third shift column. -/
theorem eq_sh3 (a : Cert.Args) (h : a.AllReal) : ksh3 a = rsh3 a := by
  unfold ksh3 rsh3
  rw [eq_S3 a h, eq_Q3 a h]

/-- The last-layer weight as the region stages it is the argument itself: on this reading a change of format changes nothing. -/
theorem w3_0_eq_arg (a : Cert.Args) : kw3_0 a = a.a2 :=
  funext fun i => truncf_apply (ψ := .bf16) _ _ i

/-- The first block's output, phase-major. -/
theorem eq_out0ph (a : Cert.Args) (h : a.AllReal) : kout0ph a = rout_ph a := by
  unfold kout0ph rout_ph ry3
  rw [eq_sd a, eq_sc2 a, eq_sh2 a, w3_0_eq_arg a, eq_sc3 a h, eq_sh3 a h, eq_scs a, eq_shs a]
  exact stageD (ky2 a) (ry2 a) (rsd a) (rsc2 a) (rsh2 a) a.a2 (rsc3 a) (rsh3 a) (rscs a) (rshs a) (rel_y2 a)

/-- The first block's output, un-interleaved: the same permutation of the lanes applied to equal arrays. -/
theorem block0 (a : Cert.Args) (h : a.AllReal) : kout0 a = rout0 a := by
  unfold kout0 rout0
  rw [eq_out0ph a h]
  exact (Cert.Lib.Unint.unint_eq (rout_ph a) _ _ _).symm

/-- The two programs' results are equal when every argument entry is a real. -/
theorem result_eq (a : Cert.Args) (h : a.AllReal) : kResult a = rResult a :=
  block1 a h (block0 a h)

end Cert.Bridge

end
-- ==== Proof.Bridge.lean ====
import proofs.«159567_g2000302752657622_pallasbulk_725_3_alg».proof.Defs
import proofs.«159567_g2000302752657622_pallasbulk_725_3_alg».proof.Proof.KerRun
import proofs.«159567_g2000302752657622_pallasbulk_725_3_alg».proof.Proof.RefRun
import proofs.«159567_g2000302752657622_pallasbulk_725_3_alg».proof.Proof.ArgsOf
import proofs.«159567_g2000302752657622_pallasbulk_725_3_alg».proof.Proof.KerClosedB
import proofs.«159567_g2000302752657622_pallasbulk_725_3_alg».proof.Proof.RefClosed
import proofs.«159567_g2000302752657622_pallasbulk_725_3_alg».proof.Proof.BridgeEq

/-! # The two programs end with equal results

The kernel's run ends with its result at the kernel's closed form of its arguments, the reference's run with its result at
the reference's closed form of its arguments; memories that agree on the arguments give one record of arguments; and
on a record all of whose entries are real numbers, which the precondition gives, the two closed forms are one function. -/

noncomputable section

namespace Cert.Bridge

open Idealize.ShloMosaic Idealize.SL.Sem

/-- The two programs, read on the extended reals and launched from memories that agree on the 24 arguments, both run
    and end with equal results and unchanged arguments. The common result on core `c` is the kernel's closed form of
    the arguments there. The kernel's run ends with its result buffer at the last boundary's contents, which is that
    closed form; the reference's run ends with its result buffer at its last boundary's contents, which is the
    reference's closed form of ITS arguments; these are the kernel's arguments, by the agreement; and on arguments all of
    whose entries are real numbers — which the precondition gives — the two closed forms are one function. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Val.kResult (Cert.KernelIdeal.Val.argsOf m c), ?_, ?_⟩
  · exact (θ_run Cert.KernelIdeal.defs _ _).mono
      (fun _ h c => ⟨(h c).1.trans (Cert.KernelIdeal.Val.closed m ρ c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Hand.run (F := Ideal) m' ρ')
    rw [Cert.ReferenceIdeal.Val.closed m' ρ' c, Cert.Bridge.argsOf_agree m m' c (hagree c)]
    exact (Cert.Bridge.result_eq _ (Cert.KernelIdeal.Val.argsOf_allReal m hpre c)).symm

end Cert.Bridge

end
-- ==== Proof.lean ====
/-
  Two ResNet "inverse" bottleneck blocks over a batch of 64 images of 128 channels on a 32×32 grid, written twice.

  Block 0 (stride 2): a 1×1 convolution to 64 channels (y1 = W1·x) and the 1×1 shortcut to 256 channels (sd = Ws·x);
  batch normalisation of y1 and the sine; the 3×3 transposed convolution of stride 2, decomposed into four output
  phases, each a sum of tap matrices applied to the input shifted by (dh, dw) ∈ {0,1}² and masked at the border;
  batch normalisation and the sine; the 1×1 convolution to 256 channels (y3 = W3·z); batch normalisation of y3, plus
  the batch-normalised shortcut on phase 0 and its shift alone on the other phases (the shortcut's virtual zeros count
  in its statistics). Block 1 (stride 1) is the same with nine shifts, one phase and the identity residual.
  Every batch normalisation folds the batch statistics — per channel the sum s and the sum of squares q over all
  images and positions, mean = s/n, var = q/n − mean², inv = rsqrt(var + ε) — into scale = γ·inv, shift = β − mean·scale.

  The two programs differ in how the sums are arranged, never in what is summed:
  * the kernel multiplies by ONE block matrix per image where the reference adds nine tap products — the block
    matrix's zero blocks contribute 0·z = 0 on the extended reals, and a sum over 256 = 4·64 (or 576 = 9·64) indices is
    the double sum;
  * the kernel leaves per-image statistics and adds them over the images on the host where the reference accumulates
    them over the grid — one sum over (image, position), grouped differently;
  * the kernel never forms y3 for its statistics: with z real, Σ_p (Σ_k w_k z_kp) = Σ_k w_k (Σ_p z_kp) and
    Σ_p (Σ_k w_k z_kp)² = Σ_j (Σ_k w_k G_kj) w_j for the Gram matrix G_kj = Σ_p z_kp z_jp. These two identities need
    distributivity, which fails at the infinities: so the precondition (every input finite) is used, carried down the
    pipeline as "every entry is a real" — sums and products of reals, the sine of a real, and rsqrt(var + ε) with
    var ≥ 0 by the Cauchy–Schwarz inequality and ε > 0;
  * block 1's first 1×1 convolution is applied by the kernel before the phases are interleaved back into rows and
    by the reference after: a 1×1 convolution acts lane by lane, so it commutes with a permutation of the lanes, and
    the statistics sum over all lanes;
  * a change of float format is the identity on the extended reals.
-/
import proofs.«159567_g2000302752657622_pallasbulk_725_3_alg».proof.Defs
import proofs.«159567_g2000302752657622_pallasbulk_725_3_alg».proof.Proof.Gen.Kernel
import proofs.«159567_g2000302752657622_pallasbulk_725_3_alg».proof.Proof.Gen.Kernel.Frame
import proofs.«159567_g2000302752657622_pallasbulk_725_3_alg».proof.Proof.Gen.KernelIdeal
import proofs.«159567_g2000302752657622_pallasbulk_725_3_alg».proof.Proof.Gen.KernelIdeal.Frame
import proofs.«159567_g2000302752657622_pallasbulk_725_3_alg».proof.Proof.Gen.ReferenceIdeal
import proofs.«159567_g2000302752657622_pallasbulk_725_3_alg».proof.Proof.Gen.Pre_finite_inputs
import proofs.«159567_g2000302752657622_pallasbulk_725_3_alg».proof.Proof.RefRun
import proofs.«159567_g2000302752657622_pallasbulk_725_3_alg».proof.Proof.Bridge
import Idealize.ShloMosaic.Adequacy
import Idealize.ShloMosaic.Init

noncomputable section

namespace Cert.Proof

open Idealize.ShloMosaic Idealize.SL.Sem

/-- The word-level kernel runs and leaves its arguments as launched: its seven regions each fetch, compute and
    write back whole blocks. -/
theorem frame_kernel [Cert.Kernel.Facts] [Cert.Pre_finite_inputs.Facts] : Cert.frame_Kernel :=
  fun m ρ _ => Cert.Kernel.Gen.frame m ρ

/-- The same for the kernel read on the extended reals. -/
theorem frame_kernelIdeal [Cert.KernelIdeal.Facts] [Cert.Pre_finite_inputs.Facts] : Cert.frame_KernelIdeal :=
  fun m ρ _ => Cert.KernelIdeal.Gen.frame m ρ

/-- The reference's nine regions run and leave the arguments as launched: its run with the result's value dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Hand.run (F := Ideal) m ρ)

/-- The idealisation rewrote no operation: nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Bridge.algebraic⟩

end Cert.Proof

end
